-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v353)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v353) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v459) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg31 : FVec F S128 .f32) (main_arg32 : FVec F S128x2 .f32) (main_arg33 : FVec F S2 .f32) (main_v133 : IVec S_ 1) (main_v136 : IVec S384x128 1) : IVec S_ 1 :=
  let main_c_53 : IVec S_ 1 := constantI S_ 1 1#1
  let main_v137 : IVec S_ 1 := (fun x v => Host.reduce IntOp.andi x v reducesTo_S384x128_S_d0_1 h_S_) main_v136 main_c_53
  let main_v138 : IVec S_ 1 := andi main_v133 main_v137
  let main_v139 : FVec F S128 .f32 := Host.absf main_arg31
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x2 .f32 := Host.absf main_arg32
  let main_cst_56 : FVec F S_ .f32 := constant S_ .f32 0x7F800000#32
  let main_v145 : FVec F S128x2 .f32 := broadcastInDim S128x2 ![] bcast_S_S128x2 main_cst_56
  let main_v146 : IVec S128x2 1 := cmpf .olt main_v144 main_v145
  let main_c_57 : IVec S_ 1 := constantI S_ 1 1#1
  let main_v147 : IVec S_ 1 := (fun x v => Host.reduce IntOp.andi x v reducesTo_S128x2_S_d0_1 h_S_) main_v146 main_c_57
  let main_v148 : IVec S_ 1 := andi main_v143 main_v147
  let main_v149 : FVec F S2 .f32 := Host.absf main_arg33
  let main_cst_58 : FVec F S_ .f32 := constant S_ .f32 0x7F800000#32
  let main_v150 : FVec F S2 .f32 := broadcastInDim S2 ![] bcast_S_S2 main_cst_58
  let main_v151 : IVec S2 1 := cmpf .olt main_v149 main_v150
  let main_c_59 : IVec S_ 1 := constantI S_ 1 1#1
  let main_v152 : IVec S_ 1 := (fun x v => Host.reduce IntOp.andi x v reducesTo_S2_S_d0 h_S_) main_v151 main_c_59
  let main_v153 : IVec S_ 1 := andi main_v148 main_v152
  main_v153

def fn_part7 {F : FTy → Type} [FloatOps F] (main_arg28 : FVec F S128 .f32) (main_arg29 : FVec F S128 .f32) (main_arg30 : FVec F S384x128 .f32) (main_arg31 : FVec F S128 .f32) (main_arg32 : FVec F S128x2 .f32) (main_arg33 : FVec F S2 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg28
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg29
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S384x128 .f32 := Host.absf main_arg30
  let main_cst_52 : FVec F S_ .f32 := constant S_ .f32 0x7F800000#32
  let main_v135 : FVec F S384x128 .f32 := broadcastInDim S384x128 ![] bcast_S_S384x128 main_cst_52
  let main_v136 : IVec S384x128 1 := cmpf .olt main_v134 main_v135
  fn_part8 (F := F) main_arg31 main_arg32 main_arg33 main_v133 main_v136

def fn_part6 {F : FTy → Type} [FloatOps F] (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S384x128 .f32) (main_arg31 : FVec F S128 .f32) (main_arg32 : FVec F S128x2 .f32) (main_arg33 : FVec F S2 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x128 .f32 := Host.absf main_arg24
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128x128 .f32 := Host.absf main_arg25
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128x128 .f32 := Host.absf main_arg26
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg27
  fn_part7 (F := F) main_arg28 main_arg29 main_arg30 main_arg31 main_arg32 main_arg33 main_v118 main_v119

def fn_part5 {F : FTy → Type} [FloatOps F] (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S384x128 .f32) (main_arg31 : FVec F S128 .f32) (main_arg32 : FVec F S128x2 .f32) (main_arg33 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg21
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x128 .f32 := Host.absf main_arg22
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x128 .f32 := Host.absf main_arg23
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg24 main_arg25 main_arg26 main_arg27 main_arg28 main_arg29 main_arg30 main_arg31 main_arg32 main_arg33 main_v98 main_v101 main_c_39

def fn_part4 {F : FTy → Type} [FloatOps F] (main_arg17 : FVec F S2x128 .f32) (main_arg18 : FVec F S2x128x128 .f32) (main_arg19 : FVec F S2x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S384x128 .f32) (main_arg31 : FVec F S128 .f32) (main_arg32 : FVec F S128x2 .f32) (main_arg33 : FVec F S2 .f32) (main_v63 : IVec S_ 1) (main_v67 : IVec S_ 1) : IVec S_ 1 :=
  let main_v68 : IVec S_ 1 := andi main_v63 main_v67
  let main_v69 : FVec F S2x128 .f32 := Host.absf main_arg17
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S2x128x128 .f32 := Host.absf main_arg18
  let main_cst_28 : FVec F S_ .f32 := constant S_ .f32 0x7F800000#32
  let main_v75 : FVec F S2x128x128 .f32 := broadcastInDim S2x128x128 ![] bcast_S_S2x128x128 main_cst_28
  let main_v76 : IVec S2x128x128 1 := cmpf .olt main_v74 main_v75
  let main_c_29 : IVec S_ 1 := constantI S_ 1 1#1
  let main_v77 : IVec S_ 1 := (fun x v => Host.reduce IntOp.andi x v reducesTo_S2x128x128_S_d0_1_2 h_S_) main_v76 main_c_29
  let main_v78 : IVec S_ 1 := andi main_v73 main_v77
  let main_v79 : FVec F S2x128 .f32 := Host.absf main_arg19
  let main_cst_30 : FVec F S_ .f32 := constant S_ .f32 0x7F800000#32
  let main_v80 : FVec F S2x128 .f32 := broadcastInDim S2x128 ![] bcast_S_S2x128 main_cst_30
  let main_v81 : IVec S2x128 1 := cmpf .olt main_v79 main_v80
  let main_c_31 : IVec S_ 1 := constantI S_ 1 1#1
  let main_v82 : IVec S_ 1 := (fun x v => Host.reduce IntOp.andi x v reducesTo_S2x128_S_d0_1 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg14 : FVec F S2x128x128 .f32) (main_arg15 : FVec F S2x128 .f32) (main_arg16 : FVec F S2x128x128 .f32) (main_arg17 : FVec F S2x128 .f32) (main_arg18 : FVec F S2x128x128 .f32) (main_arg19 : FVec F S2x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S384x128 .f32) (main_arg31 : FVec F S128 .f32) (main_arg32 : FVec F S128x2 .f32) (main_arg33 : FVec F S2 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S2x128x128 .f32 := Host.absf main_arg14
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S2x128 .f32 := Host.absf main_arg15
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128x128 .f32 := Host.absf main_arg16
  let main_cst_24 : FVec F S_ .f32 := constant S_ .f32 0x7F800000#32
  let main_v65 : FVec F S2x128x128 .f32 := broadcastInDim S2x128x128 ![] bcast_S_S2x128x128 main_cst_24
  let main_v66 : IVec S2x128x128 1 := cmpf .olt main_v64 main_v65
  let main_c_25 : IVec S_ 1 := constantI S_ 1 1#1
  let main_v67 : IVec S_ 1 := (fun x v => Host.reduce IntOp.andi x v reducesTo_S2x128x128_S_d0_1_2 h_S_) main_v66 main_c_25
  fn_part4 (F := F) main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg10 : FVec F S2x128 .f32) (main_arg11 : FVec F S2x128x128 .f32) (main_arg12 : FVec F S2x128 .f32) (main_arg13 : FVec F S2x128x128 .f32) (main_arg14 : FVec F S2x128x128 .f32) (main_arg15 : FVec F S2x128 .f32) (main_arg16 : FVec F S2x128x128 .f32) (main_arg17 : FVec F S2x128 .f32) (main_arg18 : FVec F S2x128x128 .f32) (main_arg19 : FVec F S2x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S384x128 .f32) (main_arg31 : FVec F S128 .f32) (main_arg32 : FVec F S128x2 .f32) (main_arg33 : FVec F S2 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg11
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg12
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x128 .f32 := Host.absf main_arg13
  let main_cst_18 : FVec F S_ .f32 := constant S_ .f32 0x7F800000#32
  let main_v50 : FVec F S2x128x128 .f32 := broadcastInDim S2x128x128 ![] bcast_S_S2x128x128 main_cst_18
  fn_part3 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg7 : FVec F S2x128x128 .f32) (main_arg8 : FVec F S2x128 .f32) (main_arg9 : FVec F S2x128x128 .f32) (main_arg10 : FVec F S2x128 .f32) (main_arg11 : FVec F S2x128x128 .f32) (main_arg12 : FVec F S2x128 .f32) (main_arg13 : FVec F S2x128x128 .f32) (main_arg14 : FVec F S2x128x128 .f32) (main_arg15 : FVec F S2x128 .f32) (main_arg16 : FVec F S2x128x128 .f32) (main_arg17 : FVec F S2x128 .f32) (main_arg18 : FVec F S2x128x128 .f32) (main_arg19 : FVec F S2x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S384x128 .f32) (main_arg31 : FVec F S128 .f32) (main_arg32 : FVec F S128x2 .f32) (main_arg33 : FVec F S2 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg7
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg8
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg9
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S100000x64 .f32) (main_arg1 : IVec S2x600000 32) (main_arg2 : IVec S100000 32) (main_arg3 : IVec S100000 32) (main_arg4 : FVec F S64x128 .f32) (main_arg5 : FVec F S128 .f32) (main_arg6 : FVec F S2x128x128 .f32) (main_arg7 : FVec F S2x128x128 .f32) (main_arg8 : FVec F S2x128 .f32) (main_arg9 : FVec F S2x128x128 .f32) (main_arg10 : FVec F S2x128 .f32) (main_arg11 : FVec F S2x128x128 .f32) (main_arg12 : FVec F S2x128 .f32) (main_arg13 : FVec F S2x128x128 .f32) (main_arg14 : FVec F S2x128x128 .f32) (main_arg15 : FVec F S2x128 .f32) (main_arg16 : FVec F S2x128x128 .f32) (main_arg17 : FVec F S2x128 .f32) (main_arg18 : FVec F S2x128x128 .f32) (main_arg19 : FVec F S2x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S384x128 .f32) (main_arg31 : FVec F S128 .f32) (main_arg32 : FVec F S128x2 .f32) (main_arg33 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg6
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S2000 : Shape := ⟨1, ![2000]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S2000x128 : Shape := ⟨2, ![2000, 128]⟩
abbrev S50x128 : Shape := ⟨2, ![50, 128]⟩
abbrev S600000x1 : Shape := ⟨2, ![600000, 1]⟩
abbrev S600000x128 : Shape := ⟨2, ![600000, 128]⟩
abbrev S100000x1 : Shape := ⟨2, ![100000, 1]⟩
abbrev S1x128x128 : Shape := ⟨3, ![1, 128, 128]⟩
abbrev S2000x1 : Shape := ⟨2, ![2000, 1]⟩
abbrev S50x1 : Shape := ⟨2, ![50, 1]⟩
abbrev S50x384 : Shape := ⟨2, ![50, 384]⟩
abbrev S50x2 : Shape := ⟨2, ![50, 2]⟩
abbrev S1x2 : Shape := ⟨2, ![1, 2]⟩

abbrev nBuf : Space → Nat
  | .hbm => 476
  | .vmem => 158
  | .smem => 0
  | _ => 0

abbrev hbmTy0_0 (i : Nat) : BufTy := match i % 128 with
  | 0 => ⟨S100000x64, .f32⟩
  | 1 => ⟨S2x600000, .i32⟩
  | 2 => ⟨S100000, .i32⟩
  | 3 => ⟨S100000, .i32⟩
  | 4 => ⟨S64x128, .f32⟩
  | 5 => ⟨S128, .f32⟩
  | 6 => ⟨S2x128x128, .f32⟩
  | 7 => ⟨S2x128x128, .f32⟩
  | 8 => ⟨S2x128, .f32⟩
  | 9 => ⟨S2x128x128, .f32⟩
  | 10 => ⟨S2x128, .f32⟩
  | 11 => ⟨S2x128x128, .f32⟩
  | 12 => ⟨S2x128, .f32⟩
  | 13 => ⟨S2x128x128, .f32⟩
  | 14 => ⟨S2x128x128, .f32⟩
  | 15 => ⟨S2x128, .f32⟩
  | 16 => ⟨S2x128x128, .f32⟩
  | 17 => ⟨S2x128, .f32⟩
  | 18 => ⟨S2x128x128, .f32⟩
  | 19 => ⟨S2x128, .f32⟩
  | 20 => ⟨S128x128, .f32⟩
  | 21 => ⟨S128x128, .f32⟩
  | 22 => ⟨S128x128, .f32⟩
  | 23 => ⟨S128x128, .f32⟩
  | 24 => ⟨S128x128, .f32⟩
  | 25 => ⟨S128x128, .f32⟩
  | 26 => ⟨S128x128, .f32⟩
  | 27 => ⟨S128, .f32⟩
  | 28 => ⟨S128, .f32⟩
  | 29 => ⟨S128, .f32⟩
  | 30 => ⟨S384x128, .f32⟩
  | 31 => ⟨S128, .f32⟩
  | 32 => ⟨S128x2, .f32⟩
  | 33 => ⟨S2, .f32⟩
  | 34 => ⟨S1x600000, .i32⟩
  | 35 => ⟨S600000, .i32⟩
  | 36 => ⟨S1x600000, .i32⟩
  | 37 => ⟨S600000, .i32⟩
  | 38 => ⟨S_, .i32⟩
  | 39 => ⟨S100000, .i32⟩
  | 40 => ⟨S100000, .i32⟩
  | 41 => ⟨S100000, .i32⟩
  | 42 => ⟨S2000, .i32⟩
  | 43 => ⟨S_, .i32⟩
  | 44 => ⟨S_, .i32⟩
  | 45 => ⟨S2000, .i32⟩
  | 46 => ⟨S2000, .i32⟩
  | 47 => ⟨S2000, .i32⟩
  | 48 => ⟨S_, .i32⟩
  | 49 => ⟨S2000, .i32⟩
  | 50 => ⟨S2000, .i1⟩
  | 51 => ⟨S2000, .i32⟩
  | 52 => ⟨S2000, .i32⟩
  | 53 => ⟨S_, .i32⟩
  | 54 => ⟨S2000, .i32⟩
  | 55 => ⟨S2000, .i1⟩
  | 56 => ⟨S2000, .i1⟩
  | 57 => ⟨S_, .i32⟩
  | 58 => ⟨S2000, .i32⟩
  | 59 => ⟨S2000, .i32⟩
  | 60 => ⟨S2000, .i32⟩
  | 61 => ⟨S1x128, .f32⟩
  | 62 => ⟨S100000x128, .f32⟩
  | 63 => ⟨S_, .f32⟩
  | 64 => ⟨S2000x128, .f32⟩
  | 65 => ⟨S_, .f32⟩
  | 66 => ⟨S50x128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S_, .f32⟩
  | 77 => ⟨S100000x128, .f32⟩
  | 78 => ⟨S600000x1, .i32⟩
  | 79 => ⟨S100000x128, .f32⟩
  | 80 => ⟨S_, .f32⟩
  | 81 => ⟨S600000x1, .f32⟩
  | 82 => ⟨S_, .f32⟩
  | 83 => ⟨S100000x1, .f32⟩
  | 84 => ⟨S600000x1, .i32⟩
  | 85 => ⟨S100000x1, .f32⟩
  | 86 => ⟨S_, .f32⟩
  | 87 => ⟨S100000x1, .f32⟩
  | 88 => ⟨S100000x1, .f32⟩
  | 89 => ⟨S100000x128, .f32⟩
  | 90 => ⟨S100000x128, .f32⟩
  | 91 => ⟨S1x128x128, .f32⟩
  | 92 => ⟨S128x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S100000x128, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .f32⟩
  | 108 => ⟨S_, .f32⟩
  | 109 => ⟨S100000x128, .f32⟩
  | 110 => ⟨S600000x1, .i32⟩
  | 111 => ⟨S100000x128, .f32⟩
  | 112 => ⟨S_, .f32⟩
  | 113 => ⟨S600000x1, .f32⟩
  | 114 => ⟨S_, .f32⟩
  | 115 => ⟨S100000x1, .f32⟩
  | 116 => ⟨S600000x1, .i32⟩
  | 117 => ⟨S100000x1, .f32⟩
  | 118 => ⟨S_, .f32⟩
  | 119 => ⟨S100000x1, .f32⟩
  | 120 => ⟨S100000x1, .f32⟩
  | 121 => ⟨S100000x128, .f32⟩
  | 122 => ⟨S100000x128, .f32⟩
  | 123 => ⟨S1x128x128, .f32⟩
  | 124 => ⟨S128x128, .f32⟩
  | 125 => ⟨S1x128x128, .f32⟩
  | 126 => ⟨S128x128, .f32⟩
  | 127 => ⟨S1x128, .f32⟩
  | _ => ⟨S100000x64, .f32⟩

abbrev hbmTy0_1 (i : Nat) : BufTy := match i % 128 with
  | 0 => ⟨S128, .f32⟩
  | 1 => ⟨S1x128, .f32⟩
  | 2 => ⟨S100000x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S2000x128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S2000x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S50x128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S50x128, .f32⟩
  | 27 => ⟨S_, .f32⟩
  | 28 => ⟨S2000x128, .f32⟩
  | 29 => ⟨S100000x1, .i32⟩
  | 30 => ⟨S2000x128, .f32⟩
  | 31 => ⟨S_, .f32⟩
  | 32 => ⟨S100000x1, .f32⟩
  | 33 => ⟨S_, .f32⟩
  | 34 => ⟨S2000x1, .f32⟩
  | 35 => ⟨S100000x1, .i32⟩
  | 36 => ⟨S2000x1, .f32⟩
  | 37 => ⟨S_, .f32⟩
  | 38 => ⟨S2000x1, .f32⟩
  | 39 => ⟨S2000x1, .f32⟩
  | 40 => ⟨S2000x128, .f32⟩
  | 41 => ⟨S2000x128, .f32⟩
  | 42 => ⟨S_, .f32⟩
  | 43 => ⟨S50x128, .f32⟩
  | 44 => ⟨S2000x1, .i32⟩
  | 45 => ⟨S50x128, .f32⟩
  | 46 => ⟨S_, .f32⟩
  | 47 => ⟨S2000x1, .f32⟩
  | 48 => ⟨S_, .f32⟩
  | 49 => ⟨S50x1, .f32⟩
  | 50 => ⟨S2000x1, .i32⟩
  | 51 => ⟨S50x1, .f32⟩
  | 52 => ⟨S_, .f32⟩
  | 53 => ⟨S50x1, .f32⟩
  | 54 => ⟨S50x1, .f32⟩
  | 55 => ⟨S50x128, .f32⟩
  | 56 => ⟨S50x128, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S_, .i32⟩
  | 67 => ⟨S2000, .i32⟩
  | 68 => ⟨S2000, .i1⟩
  | 69 => ⟨S_, .i32⟩
  | 70 => ⟨S2000, .i32⟩
  | 71 => ⟨S2000, .i32⟩
  | 72 => ⟨S2000, .i32⟩
  | 73 => ⟨S2000x1, .i32⟩
  | 74 => ⟨S2000x128, .f32⟩
  | 75 => ⟨S1x128, .f32⟩
  | 76 => ⟨S100000x128, .f32⟩
  | 77 => ⟨S1x128, .f32⟩
  | 78 => ⟨S2000x128, .f32⟩
  | 79 => ⟨S1x128, .f32⟩
  | 80 => ⟨S50x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S_, .f32⟩
  | 91 => ⟨S100000x128, .f32⟩
  | 92 => ⟨S600000x1, .i32⟩
  | 93 => ⟨S100000x128, .f32⟩
  | 94 => ⟨S_, .f32⟩
  | 95 => ⟨S600000x1, .f32⟩
  | 96 => ⟨S_, .f32⟩
  | 97 => ⟨S100000x1, .f32⟩
  | 98 => ⟨S600000x1, .i32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S1x128x128, .f32⟩
  | 106 => ⟨S128x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S100000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S_, .f32⟩
  | 123 => ⟨S100000x128, .f32⟩
  | 124 => ⟨S600000x1, .i32⟩
  | 125 => ⟨S100000x128, .f32⟩
  | 126 => ⟨S_, .f32⟩
  | 127 => ⟨S600000x1, .f32⟩
  | _ => ⟨S100000x64, .f32⟩

abbrev hbmTy0_2 (i : Nat) : BufTy := match i % 128 with
  | 0 => ⟨S_, .f32⟩
  | 1 => ⟨S100000x1, .f32⟩
  | 2 => ⟨S600000x1, .i32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S1x128x128, .f32⟩
  | 10 => ⟨S128x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S100000x128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S2000x128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S2000x128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S50x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S50x128, .f32⟩
  | 41 => ⟨S_, .f32⟩
  | 42 => ⟨S2000x128, .f32⟩
  | 43 => ⟨S100000x1, .i32⟩
  | 44 => ⟨S2000x128, .f32⟩
  | 45 => ⟨S_, .f32⟩
  | 46 => ⟨S100000x1, .f32⟩
  | 47 => ⟨S_, .f32⟩
  | 48 => ⟨S2000x1, .f32⟩
  | 49 => ⟨S100000x1, .i32⟩
  | 50 => ⟨S2000x1, .f32⟩
  | 51 => ⟨S_, .f32⟩
  | 52 => ⟨S2000x1, .f32⟩
  | 53 => ⟨S2000x1, .f32⟩
  | 54 => ⟨S2000x128, .f32⟩
  | 55 => ⟨S2000x128, .f32⟩
  | 56 => ⟨S_, .f32⟩
  | 57 => ⟨S50x128, .f32⟩
  | 58 => ⟨S2000x1, .i32⟩
  | 59 => ⟨S50x128, .f32⟩
  | 60 => ⟨S_, .f32⟩
  | 61 => ⟨S2000x1, .f32⟩
  | 62 => ⟨S_, .f32⟩
  | 63 => ⟨S50x1, .f32⟩
  | 64 => ⟨S2000x1, .i32⟩
  | 65 => ⟨S50x1, .f32⟩
  | 66 => ⟨S_, .f32⟩
  | 67 => ⟨S50x1, .f32⟩
  | 68 => ⟨S50x1, .f32⟩
  | 69 => ⟨S50x128, .f32⟩
  | 70 => ⟨S50x128, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x128, .f32⟩
  | 80 => ⟨S_, .i32⟩
  | 81 => ⟨S2000, .i32⟩
  | 82 => ⟨S2000, .i1⟩
  | 83 => ⟨S_, .i32⟩
  | 84 => ⟨S2000, .i32⟩
  | 85 => ⟨S2000, .i32⟩
  | 86 => ⟨S2000, .i32⟩
  | 87 => ⟨S2000x1, .i32⟩
  | 88 => ⟨S2000x128, .f32⟩
  | 89 => ⟨S1x128, .f32⟩
  | 90 => ⟨S100000x128, .f32⟩
  | 91 => ⟨S1x128, .f32⟩
  | 92 => ⟨S2000x128, .f32⟩
  | 93 => ⟨S1x128, .f32⟩
  | 94 => ⟨S50x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S_, .f32⟩
  | 105 => ⟨S100000x128, .f32⟩
  | 106 => ⟨S600000x1, .i32⟩
  | 107 => ⟨S100000x128, .f32⟩
  | 108 => ⟨S_, .f32⟩
  | 109 => ⟨S600000x1, .f32⟩
  | 110 => ⟨S_, .f32⟩
  | 111 => ⟨S100000x1, .f32⟩
  | 112 => ⟨S600000x1, .i32⟩
  | 113 => ⟨S100000x1, .f32⟩
  | 114 => ⟨S_, .f32⟩
  | 115 => ⟨S100000x1, .f32⟩
  | 116 => ⟨S100000x1, .f32⟩
  | 117 => ⟨S100000x128, .f32⟩
  | 118 => ⟨S100000x128, .f32⟩
  | 119 => ⟨S1x128x128, .f32⟩
  | 120 => ⟨S128x128, .f32⟩
  | 121 => ⟨S1x128x128, .f32⟩
  | 122 => ⟨S128x128, .f32⟩
  | 123 => ⟨S1x128, .f32⟩
  | 124 => ⟨S128, .f32⟩
  | 125 => ⟨S1x128, .f32⟩
  | 126 => ⟨S100000x128, .f32⟩
  | 127 => ⟨S_, .i32⟩
  | _ => ⟨S100000x64, .f32⟩

abbrev hbmTy0_3 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S_, .f32⟩
  | 9 => ⟨S100000x128, .f32⟩
  | 10 => ⟨S600000x1, .i32⟩
  | 11 => ⟨S100000x128, .f32⟩
  | 12 => ⟨S_, .f32⟩
  | 13 => ⟨S600000x1, .f32⟩
  | 14 => ⟨S_, .f32⟩
  | 15 => ⟨S100000x1, .f32⟩
  | 16 => ⟨S600000x1, .i32⟩
  | 17 => ⟨S100000x1, .f32⟩
  | 18 => ⟨S_, .f32⟩
  | 19 => ⟨S100000x1, .f32⟩
  | 20 => ⟨S100000x1, .f32⟩
  | 21 => ⟨S100000x128, .f32⟩
  | 22 => ⟨S100000x128, .f32⟩
  | 23 => ⟨S1x128x128, .f32⟩
  | 24 => ⟨S128x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S2000x128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S2000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S50x128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S50x128, .f32⟩
  | 55 => ⟨S_, .f32⟩
  | 56 => ⟨S50x128, .f32⟩
  | 57 => ⟨S100000x1, .i32⟩
  | 58 => ⟨S50x128, .f32⟩
  | 59 => ⟨S_, .f32⟩
  | 60 => ⟨S100000x1, .f32⟩
  | 61 => ⟨S_, .f32⟩
  | 62 => ⟨S50x1, .f32⟩
  | 63 => ⟨S100000x1, .i32⟩
  | 64 => ⟨S50x1, .f32⟩
  | 65 => ⟨S_, .f32⟩
  | 66 => ⟨S50x1, .f32⟩
  | 67 => ⟨S50x1, .f32⟩
  | 68 => ⟨S50x128, .f32⟩
  | 69 => ⟨S50x128, .f32⟩
  | 70 => ⟨S_, .f32⟩
  | 71 => ⟨S50x128, .f32⟩
  | 72 => ⟨S2000x1, .i32⟩
  | 73 => ⟨S50x128, .f32⟩
  | 74 => ⟨S_, .f32⟩
  | 75 => ⟨S2000x1, .f32⟩
  | 76 => ⟨S_, .f32⟩
  | 77 => ⟨S50x1, .f32⟩
  | 78 => ⟨S2000x1, .i32⟩
  | 79 => ⟨S50x1, .f32⟩
  | 80 => ⟨S_, .f32⟩
  | 81 => ⟨S50x1, .f32⟩
  | 82 => ⟨S50x1, .f32⟩
  | 83 => ⟨S50x128, .f32⟩
  | 84 => ⟨S50x128, .f32⟩
  | 85 => ⟨S50x384, .f32⟩
  | 86 => ⟨S1x128, .f32⟩
  | 87 => ⟨S50x128, .f32⟩
  | 88 => ⟨S50x2, .f32⟩
  | 89 => ⟨S1x2, .f32⟩
  | 90 => ⟨S50x2, .f32⟩
  | 91 => ⟨S50x2, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev vmemTy0_0 (i : Nat) : BufTy := match i % 128 with
  | 0 => ⟨S5000x64, .f32⟩
  | 1 => ⟨S5000x64, .f32⟩
  | 2 => ⟨S64x128, .f32⟩
  | 3 => ⟨S1x128, .f32⟩
  | 4 => ⟨S5000x128, .f32⟩
  | 5 => ⟨S5000x128, .f32⟩
  | 6 => ⟨S5000x128, .f32⟩
  | 7 => ⟨S5000x128, .f32⟩
  | 8 => ⟨S5000x128, .f32⟩
  | 9 => ⟨S5000x128, .f32⟩
  | 10 => ⟨S128x128, .f32⟩
  | 11 => ⟨S128x128, .f32⟩
  | 12 => ⟨S1x128, .f32⟩
  | 13 => ⟨S5000x128, .f32⟩
  | 14 => ⟨S5000x128, .f32⟩
  | 15 => ⟨S5000x128, .f32⟩
  | 16 => ⟨S5000x128, .f32⟩
  | 17 => ⟨S5000x128, .f32⟩
  | 18 => ⟨S5000x128, .f32⟩
  | 19 => ⟨S128x128, .f32⟩
  | 20 => ⟨S128x128, .f32⟩
  | 21 => ⟨S1x128, .f32⟩
  | 22 => ⟨S5000x128, .f32⟩
  | 23 => ⟨S5000x128, .f32⟩
  | 24 => ⟨S2000x128, .f32⟩
  | 25 => ⟨S128x128, .f32⟩
  | 26 => ⟨S1x128, .f32⟩
  | 27 => ⟨S2000x128, .f32⟩
  | 28 => ⟨S2000x128, .f32⟩
  | 29 => ⟨S128x128, .f32⟩
  | 30 => ⟨S1x128, .f32⟩
  | 31 => ⟨S2000x128, .f32⟩
  | 32 => ⟨S50x128, .f32⟩
  | 33 => ⟨S128x128, .f32⟩
  | 34 => ⟨S1x128, .f32⟩
  | 35 => ⟨S50x128, .f32⟩
  | 36 => ⟨S50x128, .f32⟩
  | 37 => ⟨S128x128, .f32⟩
  | 38 => ⟨S1x128, .f32⟩
  | 39 => ⟨S50x128, .f32⟩
  | 40 => ⟨S5000x128, .f32⟩
  | 41 => ⟨S5000x128, .f32⟩
  | 42 => ⟨S5000x128, .f32⟩
  | 43 => ⟨S5000x128, .f32⟩
  | 44 => ⟨S128x128, .f32⟩
  | 45 => ⟨S128x128, .f32⟩
  | 46 => ⟨S1x128, .f32⟩
  | 47 => ⟨S5000x128, .f32⟩
  | 48 => ⟨S5000x128, .f32⟩
  | 49 => ⟨S2000x128, .f32⟩
  | 50 => ⟨S2000x128, .f32⟩
  | 51 => ⟨S2000x128, .f32⟩
  | 52 => ⟨S128x128, .f32⟩
  | 53 => ⟨S128x128, .f32⟩
  | 54 => ⟨S128x128, .f32⟩
  | 55 => ⟨S1x128, .f32⟩
  | 56 => ⟨S2000x128, .f32⟩
  | 57 => ⟨S50x128, .f32⟩
  | 58 => ⟨S50x128, .f32⟩
  | 59 => ⟨S128x128, .f32⟩
  | 60 => ⟨S128x128, .f32⟩
  | 61 => ⟨S1x128, .f32⟩
  | 62 => ⟨S50x128, .f32⟩
  | 63 => ⟨S5000x128, .f32⟩
  | 64 => ⟨S5000x128, .f32⟩
  | 65 => ⟨S5000x128, .f32⟩
  | 66 => ⟨S5000x128, .f32⟩
  | 67 => ⟨S128x128, .f32⟩
  | 68 => ⟨S128x128, .f32⟩
  | 69 => ⟨S1x128, .f32⟩
  | 70 => ⟨S5000x128, .f32⟩
  | 71 => ⟨S5000x128, .f32⟩
  | 72 => ⟨S5000x128, .f32⟩
  | 73 => ⟨S5000x128, .f32⟩
  | 74 => ⟨S5000x128, .f32⟩
  | 75 => ⟨S5000x128, .f32⟩
  | 76 => ⟨S128x128, .f32⟩
  | 77 => ⟨S128x128, .f32⟩
  | 78 => ⟨S1x128, .f32⟩
  | 79 => ⟨S5000x128, .f32⟩
  | 80 => ⟨S5000x128, .f32⟩
  | 81 => ⟨S2000x128, .f32⟩
  | 82 => ⟨S128x128, .f32⟩
  | 83 => ⟨S1x128, .f32⟩
  | 84 => ⟨S2000x128, .f32⟩
  | 85 => ⟨S2000x128, .f32⟩
  | 86 => ⟨S128x128, .f32⟩
  | 87 => ⟨S1x128, .f32⟩
  | 88 => ⟨S2000x128, .f32⟩
  | 89 => ⟨S50x128, .f32⟩
  | 90 => ⟨S128x128, .f32⟩
  | 91 => ⟨S1x128, .f32⟩
  | 92 => ⟨S50x128, .f32⟩
  | 93 => ⟨S50x128, .f32⟩
  | 94 => ⟨S128x128, .f32⟩
  | 95 => ⟨S1x128, .f32⟩
  | 96 => ⟨S50x128, .f32⟩
  | 97 => ⟨S5000x128, .f32⟩
  | 98 => ⟨S5000x128, .f32⟩
  | 99 => ⟨S5000x128, .f32⟩
  | 100 => ⟨S5000x128, .f32⟩
  | 101 => ⟨S128x128, .f32⟩
  | 102 => ⟨S128x128, .f32⟩
  | 103 => ⟨S1x128, .f32⟩
  | 104 => ⟨S5000x128, .f32⟩
  | 105 => ⟨S5000x128, .f32⟩
  | 106 => ⟨S2000x128, .f32⟩
  | 107 => ⟨S2000x128, .f32⟩
  | 108 => ⟨S2000x128, .f32⟩
  | 109 => ⟨S128x128, .f32⟩
  | 110 => ⟨S128x128, .f32⟩
  | 111 => ⟨S128x128, .f32⟩
  | 112 => ⟨S1x128, .f32⟩
  | 113 => ⟨S2000x128, .f32⟩
  | 114 => ⟨S50x128, .f32⟩
  | 115 => ⟨S50x128, .f32⟩
  | 116 => ⟨S128x128, .f32⟩
  | 117 => ⟨S128x128, .f32⟩
  | 118 => ⟨S1x128, .f32⟩
  | 119 => ⟨S50x128, .f32⟩
  | 120 => ⟨S5000x128, .f32⟩
  | 121 => ⟨S5000x128, .f32⟩
  | 122 => ⟨S5000x128, .f32⟩
  | 123 => ⟨S5000x128, .f32⟩
  | 124 => ⟨S128x128, .f32⟩
  | 125 => ⟨S128x128, .f32⟩
  | 126 => ⟨S1x128, .f32⟩
  | 127 => ⟨S5000x128, .f32⟩
  | _ => ⟨S100000x64, .f32⟩

abbrev vmemTy0_1 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S5000x128, .f32⟩
  | 5 => ⟨S128x128, .f32⟩
  | 6 => ⟨S128x128, .f32⟩
  | 7 => ⟨S1x128, .f32⟩
  | 8 => ⟨S5000x128, .f32⟩
  | 9 => ⟨S5000x128, .f32⟩
  | 10 => ⟨S2000x128, .f32⟩
  | 11 => ⟨S128x128, .f32⟩
  | 12 => ⟨S1x128, .f32⟩
  | 13 => ⟨S2000x128, .f32⟩
  | 14 => ⟨S2000x128, .f32⟩
  | 15 => ⟨S128x128, .f32⟩
  | 16 => ⟨S1x128, .f32⟩
  | 17 => ⟨S2000x128, .f32⟩
  | 18 => ⟨S50x128, .f32⟩
  | 19 => ⟨S128x128, .f32⟩
  | 20 => ⟨S1x128, .f32⟩
  | 21 => ⟨S50x128, .f32⟩
  | 22 => ⟨S50x128, .f32⟩
  | 23 => ⟨S128x128, .f32⟩
  | 24 => ⟨S1x128, .f32⟩
  | 25 => ⟨S50x128, .f32⟩
  | 26 => ⟨S50x384, .f32⟩
  | 27 => ⟨S384x128, .f32⟩
  | 28 => ⟨S1x128, .f32⟩
  | 29 => ⟨S50x128, .f32⟩
  | _ => ⟨S100000x64, .f32⟩

abbrev vmemTy (i : Nat) : BufTy := match i / 128 with
  | 0 => vmemTy0_0 i
  | 1 => vmemTy0_1 i
  | _ => ⟨S100000x64, .f32⟩

abbrev bufTy : (tb : Table) → Fin (tcTables nBuf tb) → BufTy
  | .hbm, ⟨i, _⟩ => hbmTy i
  | .local _ .vmem, ⟨i, _⟩ => vmemTy i
  | _, _ => ⟨S100000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 158 → Bool
  | ⟨i, _⟩ => dmaSemScopedAt i

abbrev sig : RefSig :=
  ofTc nBuf bufTy 0 158 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_c_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst : Ref sig .tc := ⟨.hbm, 63, rfl⟩
abbrev main_v11 : Ref sig .tc := ⟨.hbm, 64, rfl⟩
abbrev main_cst_1 : Ref sig .tc := ⟨.hbm, 65, rfl⟩
abbrev main_v12 : Ref sig .tc := ⟨.hbm, 66, rfl⟩
abbrev main_c_2 : Ref sig .tc := ⟨.hbm, 67, rfl⟩
abbrev main_v13 : Ref sig .tc := ⟨.hbm, 68, rfl⟩
abbrev main_v14 : Ref sig .tc := ⟨.hbm, 69, rfl⟩
abbrev main_c_3 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_4 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_5 : Ref sig .tc := ⟨.hbm, 80, rfl⟩
abbrev main_v23 : Ref sig .tc := ⟨.hbm, 81, rfl⟩
abbrev main_cst_6 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_7 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_c_8 : Ref sig .tc := ⟨.hbm, 99, rfl⟩
abbrev main_v39 : Ref sig .tc := ⟨.hbm, 100, rfl⟩
abbrev main_v40 : Ref sig .tc := ⟨.hbm, 101, rfl⟩
abbrev main_c_9 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_10 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_11 : Ref sig .tc := ⟨.hbm, 112, rfl⟩
abbrev main_v49 : Ref sig .tc := ⟨.hbm, 113, rfl⟩
abbrev main_cst_12 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_13 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_cst_14 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_15 : Ref sig .tc := ⟨.hbm, 159, rfl⟩
abbrev main_v92 : Ref sig .tc := ⟨.hbm, 160, rfl⟩
abbrev main_cst_16 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_cst_17 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_cst_18 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_cst_19 : Ref sig .tc := ⟨.hbm, 174, rfl⟩
abbrev main_v103 : Ref sig .tc := ⟨.hbm, 175, rfl⟩
abbrev main_cst_20 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_cst_21 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_c_22 : Ref sig .tc := ⟨.hbm, 185, rfl⟩
abbrev main_v111 : Ref sig .tc := ⟨.hbm, 186, rfl⟩
abbrev main_v112 : Ref sig .tc := ⟨.hbm, 187, rfl⟩
abbrev main_c_23 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_c_24 : Ref sig .tc := ⟨.hbm, 194, rfl⟩
abbrev main_v118 : Ref sig .tc := ⟨.hbm, 195, rfl⟩
abbrev main_v119 : Ref sig .tc := ⟨.hbm, 196, rfl⟩
abbrev main_c_25 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_c_26 : Ref sig .tc := ⟨.hbm, 209, rfl⟩
abbrev main_v131 : Ref sig .tc := ⟨.hbm, 210, rfl⟩
abbrev main_v132 : Ref sig .tc := ⟨.hbm, 211, rfl⟩
abbrev main_c_27 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_cst_28 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_cst_29 : Ref sig .tc := ⟨.hbm, 222, rfl⟩
abbrev main_v141 : Ref sig .tc := ⟨.hbm, 223, rfl⟩
abbrev main_cst_30 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_cst_31 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_c_32 : Ref sig .tc := ⟨.hbm, 241, rfl⟩
abbrev main_v157 : Ref sig .tc := ⟨.hbm, 242, rfl⟩
abbrev main_v158 : Ref sig .tc := ⟨.hbm, 243, rfl⟩
abbrev main_c_33 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_cst_34 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_35 : Ref sig .tc := ⟨.hbm, 254, rfl⟩
abbrev main_v167 : Ref sig .tc := ⟨.hbm, 255, rfl⟩
abbrev main_cst_36 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_cst_37 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_cst_38 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_cst_39 : Ref sig .tc := ⟨.hbm, 301, rfl⟩
abbrev main_v210 : Ref sig .tc := ⟨.hbm, 302, rfl⟩
abbrev main_cst_40 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_cst_41 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_cst_42 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_cst_43 : Ref sig .tc := ⟨.hbm, 316, rfl⟩
abbrev main_v221 : Ref sig .tc := ⟨.hbm, 317, rfl⟩
abbrev main_cst_44 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_cst_45 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_c_46 : Ref sig .tc := ⟨.hbm, 327, rfl⟩
abbrev main_v229 : Ref sig .tc := ⟨.hbm, 328, rfl⟩
abbrev main_v230 : Ref sig .tc := ⟨.hbm, 329, rfl⟩
abbrev main_c_47 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_c_48 : Ref sig .tc := ⟨.hbm, 336, rfl⟩
abbrev main_v236 : Ref sig .tc := ⟨.hbm, 337, rfl⟩
abbrev main_v237 : Ref sig .tc := ⟨.hbm, 338, rfl⟩
abbrev main_c_49 : Ref sig .tc := ⟨.hbm, 339, rfl⟩
abbrev main_v238 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_v243 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_c_50 : Ref sig .tc := ⟨.hbm, 351, rfl⟩
abbrev main_v249 : Ref sig .tc := ⟨.hbm, 352, rfl⟩
abbrev main_v250 : Ref sig .tc := ⟨.hbm, 353, rfl⟩
abbrev main_c_51 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_cst_52 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_cst_53 : Ref sig .tc := ⟨.hbm, 364, rfl⟩
abbrev main_v259 : Ref sig .tc := ⟨.hbm, 365, rfl⟩
abbrev main_cst_54 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_cst_55 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_c_56 : Ref sig .tc := ⟨.hbm, 383, rfl⟩
abbrev main_v275 : Ref sig .tc := ⟨.hbm, 384, rfl⟩
abbrev main_v276 : Ref sig .tc := ⟨.hbm, 385, rfl⟩
abbrev main_c_57 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_cst_58 : Ref sig .tc := ⟨.hbm, 392, rfl⟩
abbrev main_v282 : Ref sig .tc := ⟨.hbm, 393, rfl⟩
abbrev main_v283 : Ref sig .tc := ⟨.hbm, 394, rfl⟩
abbrev main_v284 : Ref sig .tc := ⟨.hbm, 395, rfl⟩
abbrev main_cst_59 : Ref sig .tc := ⟨.hbm, 396, rfl⟩
abbrev main_v285 : Ref sig .tc := ⟨.hbm, 397, rfl⟩
abbrev main_cst_60 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_cst_61 : Ref sig .tc := ⟨.hbm, 402, rfl⟩
abbrev main_v289 : Ref sig .tc := ⟨.hbm, 403, rfl⟩
abbrev main_v290 : Ref sig .tc := ⟨.hbm, 404, rfl⟩
abbrev main_v291 : Ref sig .tc := ⟨.hbm, 405, rfl⟩
abbrev main_v292 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_v296 : Ref sig .tc := ⟨.hbm, 410, rfl⟩
abbrev main_v297 : Ref sig .tc := ⟨.hbm, 411, rfl⟩
abbrev main_v298 : Ref sig .tc := ⟨.hbm, 412, rfl⟩
abbrev main_v299 : Ref sig .tc := ⟨.hbm, 413, rfl⟩
abbrev main_v300 : Ref sig .tc := ⟨.hbm, 414, rfl⟩
abbrev main_v301 : Ref sig .tc := ⟨.hbm, 415, rfl⟩
abbrev main_v302 : Ref sig .tc := ⟨.hbm, 416, rfl⟩
abbrev main_v303 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_v307 : Ref sig .tc := ⟨.hbm, 421, rfl⟩
abbrev main_v308 : Ref sig .tc := ⟨.hbm, 422, rfl⟩
abbrev main_v309 : Ref sig .tc := ⟨.hbm, 423, rfl⟩
abbrev main_v310 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_v315 : Ref sig .tc := ⟨.hbm, 429, rfl⟩
abbrev main_v316 : Ref sig .tc := ⟨.hbm, 430, rfl⟩
abbrev main_v317 : Ref sig .tc := ⟨.hbm, 431, rfl⟩
abbrev main_v318 : Ref sig .tc := ⟨.hbm, 432, rfl⟩
abbrev main_v319 : Ref sig .tc := ⟨.hbm, 433, rfl⟩
abbrev main_v320 : Ref sig .tc := ⟨.hbm, 434, rfl⟩
abbrev main_v321 : Ref sig .tc := ⟨.hbm, 435, rfl⟩
abbrev main_v322 : Ref sig .tc := ⟨.hbm, 436, rfl⟩
abbrev main_v323 : Ref sig .tc := ⟨.hbm, 437, rfl⟩
abbrev main_v324 : Ref sig .tc := ⟨.hbm, 438, rfl⟩
abbrev main_cst_62 : Ref sig .tc := ⟨.hbm, 439, rfl⟩
abbrev main_v325 : Ref sig .tc := ⟨.hbm, 440, rfl⟩
abbrev main_v326 : Ref sig .tc := ⟨.hbm, 441, rfl⟩
abbrev main_v327 : Ref sig .tc := ⟨.hbm, 442, rfl⟩
abbrev main_cst_63 : Ref sig .tc := ⟨.hbm, 443, rfl⟩
abbrev main_v328 : Ref sig .tc := ⟨.hbm, 444, rfl⟩
abbrev main_cst_64 : Ref sig .tc := ⟨.hbm, 445, rfl⟩
abbrev main_v329 : Ref sig .tc := ⟨.hbm, 446, rfl⟩
abbrev main_v330 : Ref sig .tc := ⟨.hbm, 447, rfl⟩
abbrev main_v331 : Ref sig .tc := ⟨.hbm, 448, rfl⟩
abbrev main_cst_65 : Ref sig .tc := ⟨.hbm, 449, rfl⟩
abbrev main_v332 : Ref sig .tc := ⟨.hbm, 450, rfl⟩
abbrev main_v333 : Ref sig .tc := ⟨.hbm, 451, rfl⟩
abbrev main_v334 : Ref sig .tc := ⟨.hbm, 452, rfl⟩
abbrev main_v335 : Ref sig .tc := ⟨.hbm, 453, rfl⟩
abbrev main_cst_66 : Ref sig .tc := ⟨.hbm, 454, rfl⟩
abbrev main_v336 : Ref sig .tc := ⟨.hbm, 455, rfl⟩
abbrev main_v337 : Ref sig .tc := ⟨.hbm, 456, rfl⟩
abbrev main_v338 : Ref sig .tc := ⟨.hbm, 457, rfl⟩
abbrev main_cst_67 : Ref sig .tc := ⟨.hbm, 458, rfl⟩
abbrev main_v339 : Ref sig .tc := ⟨.hbm, 459, rfl⟩
abbrev main_cst_68 : Ref sig .tc := ⟨.hbm, 460, rfl⟩
abbrev main_v340 : Ref sig .tc := ⟨.hbm, 461, rfl⟩
abbrev main_v341 : Ref sig .tc := ⟨.hbm, 462, rfl⟩
abbrev main_v342 : Ref sig .tc := ⟨.hbm, 463, rfl⟩
abbrev main_cst_69 : Ref sig .tc := ⟨.hbm, 464, rfl⟩
abbrev main_v343 : Ref sig .tc := ⟨.hbm, 465, rfl⟩
abbrev main_v344 : Ref sig .tc := ⟨.hbm, 466, rfl⟩
abbrev main_v345 : Ref sig .tc := ⟨.hbm, 467, rfl⟩
abbrev main_v346 : Ref sig .tc := ⟨.hbm, 468, rfl⟩
abbrev main_v347 : Ref sig .tc := ⟨.hbm, 469, rfl⟩
abbrev main_v348 : Ref sig .tc := ⟨.hbm, 470, rfl⟩
abbrev main_v349 : Ref sig .tc := ⟨.hbm, 471, rfl⟩
abbrev main_v350 : Ref sig .tc := ⟨.hbm, 472, rfl⟩
abbrev main_v351 : Ref sig .tc := ⟨.hbm, 473, rfl⟩
abbrev main_v352 : Ref sig .tc := ⟨.hbm, 474, rfl⟩
abbrev main_v353 : Ref sig .tc := ⟨.hbm, 475, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg4_0 : Ref sig .tc := ⟨.vmem, 46, rfl⟩
abbrev cc7_stg5_0 : Ref sig .tc := ⟨.vmem, 47, rfl⟩
abbrev cc7_stg5_1 : Ref sig .tc := ⟨.vmem, 48, rfl⟩
abbrev cc8_stg0_0 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg7_0 : Ref sig .tc := ⟨.vmem, 56, rfl⟩
abbrev cc9_stg0_0 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg4_0 : Ref sig .tc := ⟨.vmem, 61, rfl⟩
abbrev cc9_stg5_0 : Ref sig .tc := ⟨.vmem, 62, rfl⟩
abbrev cc10_stg0_0 : Ref sig .tc := ⟨.vmem, 63, rfl⟩
abbrev cc10_stg0_1 : Ref sig .tc := ⟨.vmem, 64, rfl⟩
abbrev cc10_stg1_0 : Ref sig .tc := ⟨.vmem, 65, rfl⟩
abbrev cc10_stg1_1 : Ref sig .tc := ⟨.vmem, 66, rfl⟩
abbrev cc10_stg2_0 : Ref sig .tc := ⟨.vmem, 67, rfl⟩
abbrev cc10_stg3_0 : Ref sig .tc := ⟨.vmem, 68, rfl⟩
abbrev cc10_stg4_0 : Ref sig .tc := ⟨.vmem, 69, rfl⟩
abbrev cc10_stg5_0 : Ref sig .tc := ⟨.vmem, 70, rfl⟩
abbrev cc10_stg5_1 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg1_1 : Ref sig .tc := ⟨.vmem, 75, rfl⟩
abbrev cc11_stg2_0 : Ref sig .tc := ⟨.vmem, 76, rfl⟩
abbrev cc11_stg3_0 : Ref sig .tc := ⟨.vmem, 77, rfl⟩
abbrev cc11_stg4_0 : Ref sig .tc := ⟨.vmem, 78, rfl⟩
abbrev cc11_stg5_0 : Ref sig .tc := ⟨.vmem, 79, rfl⟩
abbrev cc11_stg5_1 : Ref sig .tc := ⟨.vmem, 80, rfl⟩
abbrev cc12_stg0_0 : Ref sig .tc := ⟨.vmem, 81, rfl⟩
abbrev cc12_stg1_0 : Ref sig .tc := ⟨.vmem, 82, rfl⟩
abbrev cc12_stg2_0 : Ref sig .tc := ⟨.vmem, 83, rfl⟩
abbrev cc12_stg3_0 : Ref sig .tc := ⟨.vmem, 84, rfl⟩
abbrev cc13_stg0_0 : Ref sig .tc := ⟨.vmem, 85, rfl⟩
abbrev cc13_stg1_0 : Ref sig .tc := ⟨.vmem, 86, rfl⟩
abbrev cc13_stg2_0 : Ref sig .tc := ⟨.vmem, 87, rfl⟩
abbrev cc13_stg3_0 : Ref sig .tc := ⟨.vmem, 88, rfl⟩
abbrev cc14_stg0_0 : Ref sig .tc := ⟨.vmem, 89, rfl⟩
abbrev cc14_stg1_0 : Ref sig .tc := ⟨.vmem, 90, rfl⟩
abbrev cc14_stg2_0 : Ref sig .tc := ⟨.vmem, 91, rfl⟩
abbrev cc14_stg3_0 : Ref sig .tc := ⟨.vmem, 92, rfl⟩
abbrev cc15_stg0_0 : Ref sig .tc := ⟨.vmem, 93, rfl⟩
abbrev cc15_stg1_0 : Ref sig .tc := ⟨.vmem, 94, rfl⟩
abbrev cc15_stg2_0 : Ref sig .tc := ⟨.vmem, 95, rfl⟩
abbrev cc15_stg3_0 : Ref sig .tc := ⟨.vmem, 96, rfl⟩
abbrev cc16_stg0_0 : Ref sig .tc := ⟨.vmem, 97, rfl⟩
abbrev cc16_stg0_1 : Ref sig .tc := ⟨.vmem, 98, rfl⟩
abbrev cc16_stg1_0 : Ref sig .tc := ⟨.vmem, 99, rfl⟩
abbrev cc16_stg1_1 : Ref sig .tc := ⟨.vmem, 100, rfl⟩
abbrev cc16_stg2_0 : Ref sig .tc := ⟨.vmem, 101, rfl⟩
abbrev cc16_stg3_0 : Ref sig .tc := ⟨.vmem, 102, rfl⟩
abbrev cc16_stg4_0 : Ref sig .tc := ⟨.vmem, 103, rfl⟩
abbrev cc16_stg5_0 : Ref sig .tc := ⟨.vmem, 104, rfl⟩
abbrev cc16_stg5_1 : Ref sig .tc := ⟨.vmem, 105, rfl⟩
abbrev cc17_stg0_0 : Ref sig .tc := ⟨.vmem, 106, rfl⟩
abbrev cc17_stg1_0 : Ref sig .tc := ⟨.vmem, 107, rfl⟩
abbrev cc17_stg2_0 : Ref sig .tc := ⟨.vmem, 108, rfl⟩
abbrev cc17_stg3_0 : Ref sig .tc := ⟨.vmem, 109, rfl⟩
abbrev cc17_stg4_0 : Ref sig .tc := ⟨.vmem, 110, rfl⟩
abbrev cc17_stg5_0 : Ref sig .tc := ⟨.vmem, 111, rfl⟩
abbrev cc17_stg6_0 : Ref sig .tc := ⟨.vmem, 112, rfl⟩
abbrev cc17_stg7_0 : Ref sig .tc := ⟨.vmem, 113, rfl⟩
abbrev cc18_stg0_0 : Ref sig .tc := ⟨.vmem, 114, rfl⟩
abbrev cc18_stg1_0 : Ref sig .tc := ⟨.vmem, 115, rfl⟩
abbrev cc18_stg2_0 : Ref sig .tc := ⟨.vmem, 116, rfl⟩
abbrev cc18_stg3_0 : Ref sig .tc := ⟨.vmem, 117, rfl⟩
abbrev cc18_stg4_0 : Ref sig .tc := ⟨.vmem, 118, rfl⟩
abbrev cc18_stg5_0 : Ref sig .tc := ⟨.vmem, 119, rfl⟩
abbrev cc19_stg0_0 : Ref sig .tc := ⟨.vmem, 120, rfl⟩
abbrev cc19_stg0_1 : Ref sig .tc := ⟨.vmem, 121, rfl⟩
abbrev cc19_stg1_0 : Ref sig .tc := ⟨.vmem, 122, rfl⟩
abbrev cc19_stg1_1 : Ref sig .tc := ⟨.vmem, 123, rfl⟩
abbrev cc19_stg2_0 : Ref sig .tc := ⟨.vmem, 124, rfl⟩
abbrev cc19_stg3_0 : Ref sig .tc := ⟨.vmem, 125, rfl⟩
abbrev cc19_stg4_0 : Ref sig .tc := ⟨.vmem, 126, rfl⟩
abbrev cc19_stg5_0 : Ref sig .tc := ⟨.vmem, 127, rfl⟩
abbrev cc19_stg5_1 : Ref sig .tc := ⟨.vmem, 128, rfl⟩
abbrev cc20_stg0_0 : Ref sig .tc := ⟨.vmem, 129, rfl⟩
abbrev cc20_stg0_1 : Ref sig .tc := ⟨.vmem, 130, rfl⟩
abbrev cc20_stg1_0 : Ref sig .tc := ⟨.vmem, 131, rfl⟩
abbrev cc20_stg1_1 : Ref sig .tc := ⟨.vmem, 132, rfl⟩
abbrev cc20_stg2_0 : Ref sig .tc := ⟨.vmem, 133, rfl⟩
abbrev cc20_stg3_0 : Ref sig .tc := ⟨.vmem, 134, rfl⟩
abbrev cc20_stg4_0 : Ref sig .tc := ⟨.vmem, 135, rfl⟩
abbrev cc20_stg5_0 : Ref sig .tc := ⟨.vmem, 136, rfl⟩
abbrev cc20_stg5_1 : Ref sig .tc := ⟨.vmem, 137, rfl⟩
abbrev cc21_stg0_0 : Ref sig .tc := ⟨.vmem, 138, rfl⟩
abbrev cc21_stg1_0 : Ref sig .tc := ⟨.vmem, 139, rfl⟩
abbrev cc21_stg2_0 : Ref sig .tc := ⟨.vmem, 140, rfl⟩
abbrev cc21_stg3_0 : Ref sig .tc := ⟨.vmem, 141, rfl⟩
abbrev cc22_stg0_0 : Ref sig .tc := ⟨.vmem, 142, rfl⟩
abbrev cc22_stg1_0 : Ref sig .tc := ⟨.vmem, 143, rfl⟩
abbrev cc22_stg2_0 : Ref sig .tc := ⟨.vmem, 144, rfl⟩
abbrev cc22_stg3_0 : Ref sig .tc := ⟨.vmem, 145, rfl⟩
abbrev cc23_stg0_0 : Ref sig .tc := ⟨.vmem, 146, rfl⟩
abbrev cc23_stg1_0 : Ref sig .tc := ⟨.vmem, 147, rfl⟩
abbrev cc23_stg2_0 : Ref sig .tc := ⟨.vmem, 148, rfl⟩
abbrev cc23_stg3_0 : Ref sig .tc := ⟨.vmem, 149, rfl⟩
abbrev cc24_stg0_0 : Ref sig .tc := ⟨.vmem, 150, rfl⟩
abbrev cc24_stg1_0 : Ref sig .tc := ⟨.vmem, 151, rfl⟩
abbrev cc24_stg2_0 : Ref sig .tc := ⟨.vmem, 152, rfl⟩
abbrev cc24_stg3_0 : Ref sig .tc := ⟨.vmem, 153, rfl⟩
abbrev cc25_stg0_0 : Ref sig .tc := ⟨.vmem, 154, rfl⟩
abbrev cc25_stg1_0 : Ref sig .tc := ⟨.vmem, 155, rfl⟩
abbrev cc25_stg2_0 : Ref sig .tc := ⟨.vmem, 156, rfl⟩
abbrev cc25_stg3_0 : Ref sig .tc := ⟨.vmem, 157, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc5_sem0_0 : DmaSem sig := 32
abbrev cc5_sem1_0 : DmaSem sig := 33
abbrev cc5_sem2_0 : DmaSem sig := 34
abbrev cc5_sem3_0 : DmaSem sig := 35
abbrev cc6_sem0_0 : DmaSem sig := 36
abbrev cc6_sem1_0 : DmaSem sig := 37
abbrev cc6_sem2_0 : DmaSem sig := 38
abbrev cc6_sem3_0 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem3_0 : DmaSem sig := 45
abbrev cc7_sem4_0 : DmaSem sig := 46
abbrev cc7_sem5_0 : DmaSem sig := 47
abbrev cc7_sem5_1 : DmaSem sig := 48
abbrev cc8_sem0_0 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem7_0 : DmaSem sig := 56
abbrev cc9_sem0_0 : DmaSem sig := 57
abbrev cc9_sem1_0 : DmaSem sig := 58
abbrev cc9_sem2_0 : DmaSem sig := 59
abbrev cc9_sem3_0 : DmaSem sig := 60
abbrev cc9_sem4_0 : DmaSem sig := 61
abbrev cc9_sem5_0 : DmaSem sig := 62
abbrev cc10_sem0_0 : DmaSem sig := 63
abbrev cc10_sem0_1 : DmaSem sig := 64
abbrev cc10_sem1_0 : DmaSem sig := 65
abbrev cc10_sem1_1 : DmaSem sig := 66
abbrev cc10_sem2_0 : DmaSem sig := 67
abbrev cc10_sem3_0 : DmaSem sig := 68
abbrev cc10_sem4_0 : DmaSem sig := 69
abbrev cc10_sem5_0 : DmaSem sig := 70
abbrev cc10_sem5_1 : DmaSem sig := 71
abbrev cc11_sem0_0 : DmaSem sig := 72
abbrev cc11_sem0_1 : DmaSem sig := 73
abbrev cc11_sem1_0 : DmaSem sig := 74
abbrev cc11_sem1_1 : DmaSem sig := 75
abbrev cc11_sem2_0 : DmaSem sig := 76
abbrev cc11_sem3_0 : DmaSem sig := 77
abbrev cc11_sem4_0 : DmaSem sig := 78
abbrev cc11_sem5_0 : DmaSem sig := 79
abbrev cc11_sem5_1 : DmaSem sig := 80
abbrev cc12_sem0_0 : DmaSem sig := 81
abbrev cc12_sem1_0 : DmaSem sig := 82
abbrev cc12_sem2_0 : DmaSem sig := 83
abbrev cc12_sem3_0 : DmaSem sig := 84
abbrev cc13_sem0_0 : DmaSem sig := 85
abbrev cc13_sem1_0 : DmaSem sig := 86
abbrev cc13_sem2_0 : DmaSem sig := 87
abbrev cc13_sem3_0 : DmaSem sig := 88
abbrev cc14_sem0_0 : DmaSem sig := 89
abbrev cc14_sem1_0 : DmaSem sig := 90
abbrev cc14_sem2_0 : DmaSem sig := 91
abbrev cc14_sem3_0 : DmaSem sig := 92
abbrev cc15_sem0_0 : DmaSem sig := 93
abbrev cc15_sem1_0 : DmaSem sig := 94
abbrev cc15_sem2_0 : DmaSem sig := 95
abbrev cc15_sem3_0 : DmaSem sig := 96
abbrev cc16_sem0_0 : DmaSem sig := 97
abbrev cc16_sem0_1 : DmaSem sig := 98
abbrev cc16_sem1_0 : DmaSem sig := 99
abbrev cc16_sem1_1 : DmaSem sig := 100
abbrev cc16_sem2_0 : DmaSem sig := 101
abbrev cc16_sem3_0 : DmaSem sig := 102
abbrev cc16_sem4_0 : DmaSem sig := 103
abbrev cc16_sem5_0 : DmaSem sig := 104
abbrev cc16_sem5_1 : DmaSem sig := 105
abbrev cc17_sem0_0 : DmaSem sig := 106
abbrev cc17_sem1_0 : DmaSem sig := 107
abbrev cc17_sem2_0 : DmaSem sig := 108
abbrev cc17_sem3_0 : DmaSem sig := 109
abbrev cc17_sem4_0 : DmaSem sig := 110
abbrev cc17_sem5_0 : DmaSem sig := 111
abbrev cc17_sem6_0 : DmaSem sig := 112
abbrev cc17_sem7_0 : DmaSem sig := 113
abbrev cc18_sem0_0 : DmaSem sig := 114
abbrev cc18_sem1_0 : DmaSem sig := 115
abbrev cc18_sem2_0 : DmaSem sig := 116
abbrev cc18_sem3_0 : DmaSem sig := 117
abbrev cc18_sem4_0 : DmaSem sig := 118
abbrev cc18_sem5_0 : DmaSem sig := 119
abbrev cc19_sem0_0 : DmaSem sig := 120
abbrev cc19_sem0_1 : DmaSem sig := 121
abbrev cc19_sem1_0 : DmaSem sig := 122
abbrev cc19_sem1_1 : DmaSem sig := 123
abbrev cc19_sem2_0 : DmaSem sig := 124
abbrev cc19_sem3_0 : DmaSem sig := 125
abbrev cc19_sem4_0 : DmaSem sig := 126
abbrev cc19_sem5_0 : DmaSem sig := 127
abbrev cc19_sem5_1 : DmaSem sig := 128
abbrev cc20_sem0_0 : DmaSem sig := 129
abbrev cc20_sem0_1 : DmaSem sig := 130
abbrev cc20_sem1_0 : DmaSem sig := 131
abbrev cc20_sem1_1 : DmaSem sig := 132
abbrev cc20_sem2_0 : DmaSem sig := 133
abbrev cc20_sem3_0 : DmaSem sig := 134
abbrev cc20_sem4_0 : DmaSem sig := 135
abbrev cc20_sem5_0 : DmaSem sig := 136
abbrev cc20_sem5_1 : DmaSem sig := 137
abbrev cc21_sem0_0 : DmaSem sig := 138
abbrev cc21_sem1_0 : DmaSem sig := 139
abbrev cc21_sem2_0 : DmaSem sig := 140
abbrev cc21_sem3_0 : DmaSem sig := 141
abbrev cc22_sem0_0 : DmaSem sig := 142
abbrev cc22_sem1_0 : DmaSem sig := 143
abbrev cc22_sem2_0 : DmaSem sig := 144
abbrev cc22_sem3_0 : DmaSem sig := 145
abbrev cc23_sem0_0 : DmaSem sig := 146
abbrev cc23_sem1_0 : DmaSem sig := 147
abbrev cc23_sem2_0 : DmaSem sig := 148
abbrev cc23_sem3_0 : DmaSem sig := 149
abbrev cc24_sem0_0 : DmaSem sig := 150
abbrev cc24_sem1_0 : DmaSem sig := 151
abbrev cc24_sem2_0 : DmaSem sig := 152
abbrev cc24_sem3_0 : DmaSem sig := 153
abbrev cc25_sem0_0 : DmaSem sig := 154
abbrev cc25_sem1_0 : DmaSem sig := 155
abbrev cc25_sem2_0 : DmaSem sig := 156
abbrev cc25_sem3_0 : DmaSem sig := 157

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2000x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2000x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S50x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S50x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S50x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S50x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S2000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S2000x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S2000x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S2000x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S50x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S50x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S50x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S2000x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S2000x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S2000x128 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S2000x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S50x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S50x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S50x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S50x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S128x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S5000x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_7 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S2000x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S2000x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![true]

abbrev stage17_2 : Fin 1 → Memref sig .tc .vmem S2000x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![true]

abbrev stage17_3 : Fin 1 → Memref sig .tc .vmem S128x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S128x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S128x128 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 1 → Memref sig .tc .vmem S1x128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![false]

abbrev stage17_7 : Fin 1 → Memref sig .tc .vmem S2000x128 .f32 := fun | 0 => Memref.whole cc17_stg7_0 | ⟨_ + 1, h⟩ => absurd h (Nat.not_lt.2 (Nat.le_add_left _ _))
abbrev sem17_7 : Fin 1 → DmaSem sig := fun | 0 => cc17_sem7_0 | ⟨_ + 1, h⟩ => absurd h (Nat.not_lt.2 (Nat.le_add_left _ _))
abbrev reads17_7 : Fin grid17.rank → Bool := ![true]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 1 → Memref sig .tc .vmem S50x128 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S50x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![true]

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S128x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S50x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![true]

abbrev grid19 : Pipeline.Grid := ⟨1, ![20], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S128x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S128x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S5000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![20], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S128x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S128x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x128 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 2 → Memref sig .tc .vmem S5000x128 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

abbrev grid21 : Pipeline.Grid := ⟨1, ![1], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 1 → Memref sig .tc .vmem S2000x128 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))
abbrev reads21_0 : Fin grid21.rank → Bool := ![true]

abbrev stage21_1 : Fin 1 → Memref sig .tc .vmem S128x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S2000x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![true]

abbrev grid22 : Pipeline.Grid := ⟨1, ![1], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 1 → Memref sig .tc .vmem S2000x128 .f32 := fun | 0 => Memref.whole cc22_stg0_0 | ⟨_ + 1, h⟩ => absurd h (Nat.not_lt.2 (Nat.le_add_left _ _))
abbrev sem22_0 : Fin 1 → DmaSem sig := fun | 0 => cc22_sem0_0 | ⟨_ + 1, h⟩ => absurd h (Nat.not_lt.2 (Nat.le_add_left _ _))
abbrev reads22_0 : Fin grid22.rank → Bool := ![true]

abbrev stage22_1 : Fin 1 → Memref sig .tc .vmem S128x128 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S2000x128 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![true]

abbrev grid23 : Pipeline.Grid := ⟨1, ![1], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 1 → Memref sig .tc .vmem S50x128 .f32 := fun | 0 => Memref.whole cc23_stg0_0 | ⟨_ + 1, h⟩ => absurd h (Nat.not_lt.2 (Nat.le_add_left _ _))
abbrev sem23_0 : Fin 1 → DmaSem sig := fun | 0 => cc23_sem0_0 | ⟨_ + 1, h⟩ => absurd h (Nat.not_lt.2 (Nat.le_add_left _ _))
abbrev reads23_0 : Fin grid23.rank → Bool := ![true]

abbrev stage23_1 : Fin 1 → Memref sig .tc .vmem S128x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S50x128 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![true]

abbrev grid24 : Pipeline.Grid := ⟨1, ![1], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 1 → Memref sig .tc .vmem S50x128 .f32 := fun | 0 => Memref.whole cc24_stg0_0 | ⟨_ + 1, h⟩ => absurd h (Nat.not_lt.2 (Nat.le_add_left _ _))
abbrev sem24_0 : Fin 1 → DmaSem sig := fun | 0 => cc24_sem0_0 | ⟨_ + 1, h⟩ => absurd h (Nat.not_lt.2 (Nat.le_add_left _ _))
abbrev reads24_0 : Fin grid24.rank → Bool := ![true]

abbrev stage24_1 : Fin 1 → Memref sig .tc .vmem S128x128 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 1 → Memref sig .tc .vmem S1x128 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 1 → Memref sig .tc .vmem S50x128 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![true]

abbrev grid25 : Pipeline.Grid := ⟨1, ![1], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 1 → Memref sig .tc .vmem S50x384 .f32 := fun | 0 => Memref.whole cc25_stg0_0 | ⟨_ + 1, h⟩ => absurd h (Nat.not_lt.2 (Nat.le_add_left _ _))
abbrev sem25_0 : Fin 1 → DmaSem sig := fun | 0 => cc25_sem0_0 | ⟨_ + 1, h⟩ => absurd h (Nat.not_lt.2 (Nat.le_add_left _ _))
abbrev reads25_0 : Fin grid25.rank → Bool := ![true]

abbrev stage25_1 : Fin 1 → Memref sig .tc .vmem S384x128 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1x128 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 1 → Memref sig .tc .vmem S50x128 .f32 := fun | 0 => Memref.whole cc25_stg3_0 | ⟨_ + 1, h⟩ => absurd h (Nat.not_lt.2 (Nat.le_add_left _ _))
abbrev sem25_3 : Fin 1 → DmaSem sig := fun | 0 => cc25_sem3_0 | ⟨_ + 1, h⟩ => absurd h (Nat.not_lt.2 (Nat.le_add_left _ _))
abbrev reads25_3 : Fin grid25.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S_S2000 : S_.BroadcastsInDim S2000 (![] : Fin 0 → Fin S2000.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S2000x128 : S_.BroadcastsInDim S2000x128 (![] : Fin 0 → Fin S2000x128.rank)
  bcast_S_S50x128 : S_.BroadcastsInDim S50x128 (![] : Fin 0 → Fin S50x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S50x128_S50x128_0_0 : ∀ a, (![0, 0] : Fin 2 → Nat) a + S50x128.size a ≤ S50x128.size a
  h_S50x128 : 0 < S50x128.numel
  shapeCasts_S50x128_S50x128 : S50x128.ShapeCasts S50x128
  broadcasts_S1x128_S50x128 : S1x128.Broadcasts S50x128
  bcast_S100000_S100000x1_0 : S100000.BroadcastsInDim S100000x1 (![0] : Fin 1 → Fin S100000x1.rank)
  bcast_S_S2000x1 : S_.BroadcastsInDim S2000x1 (![] : Fin 0 → Fin S2000x1.rank)
  bcast_S2000x1_S2000x128_0_1 : S2000x1.BroadcastsInDim S2000x128 (![0, 1] : Fin 2 → Fin S2000x128.rank)
  bcast_S2000_S2000x1_0 : S2000.BroadcastsInDim S2000x1 (![0] : Fin 1 → Fin S2000x1.rank)
  bcast_S_S50x1 : S_.BroadcastsInDim S50x1 (![] : Fin 0 → Fin S50x1.rank)
  bcast_S50x1_S50x128_0_1 : S50x1.BroadcastsInDim S50x128 (![0, 1] : Fin 2 → Fin S50x128.rank)
  concatenates_S50x128_S50x128_S50x128_S50x384_d1 : Shape.Concatenates [S50x128, S50x128, S50x128] S50x384 1
  inb_S50x384_S50x384_0_0 : ∀ a, (![0, 0] : Fin 2 → Nat) a + S50x384.size a ≤ S50x384.size a
  h_S50x384 : 0 < S50x384.numel
  shapeCasts_S50x384_S50x384 : S50x384.ShapeCasts S50x384
  inb_S384x128_S384x128_0_0 : ∀ a, (![0, 0] : Fin 2 → Nat) a + S384x128.size a ≤ S384x128.size a
  h_S384x128 : 0 < S384x128.numel
  bcast_S2_S1x2_1 : S2.BroadcastsInDim S1x2 (![1] : Fin 1 → Fin S1x2.rank)
  bcast_S1x2_S50x2_0_1 : S1x2.BroadcastsInDim S50x2 (![0, 1] : Fin 2 → Fin S50x2.rank)
  dot_S5000x64_S64x128_S5000x128_1_0_0_1_n_n_wf : DotDims.WF S5000x64 S64x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  dot_S50x128_S128x128_S50x128_1_0_0_1_n_n_wf : DotDims.WF S50x128 S128x128 S50x128 [1] [0] [0] [1] [] []
  scatter_S2000x128_S100000x1_S100000x128_1_0_0_1_wf : ScatterDims.WF S2000x128 S100000x1 S100000x128 [1] [0] [0] 1
  scatter_S2000x1_S100000x1_S100000x1_1_0_0_1_wf : ScatterDims.WF S2000x1 S100000x1 S100000x1 [1] [0] [0] 1
  scatter_S50x128_S2000x1_S2000x128_1_0_0_1_wf : ScatterDims.WF S50x128 S2000x1 S2000x128 [1] [0] [0] 1
  scatter_S50x1_S2000x1_S2000x1_1_0_0_1_wf : ScatterDims.WF S50x1 S2000x1 S2000x1 [1] [0] [0] 1
  gather_S2000x128_S100000x1_S100000x128_1_0_n_n_0_1_1128_wf : GatherDims.WF S2000x128 S100000x1 S100000x128 [1] [0] [] [0] [] 1 ![1, 128]
  gather_S50x128_S2000x1_S2000x128_1_0_n_n_0_1_1128_wf : GatherDims.WF S50x128 S2000x1 S2000x128 [1] [0] [] [0] [] 1 ![1, 128]
  scatter_S50x128_S100000x1_S100000x128_1_0_0_1_wf : ScatterDims.WF S50x128 S100000x1 S100000x128 [1] [0] [0] 1
  scatter_S50x1_S100000x1_S100000x1_1_0_0_1_wf : ScatterDims.WF S50x1 S100000x1 S100000x1 [1] [0] [0] 1
  dot_S50x384_S384x128_S50x128_1_0_0_1_n_n_wf : DotDims.WF S50x384 S384x128 S50x128 [1] [0] [0] [1] [] []
  dot_S50x128_S128x2_S50x2_1_0_0_1_n_n_wf : DotDims.WF S50x128 S128x2 S50x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S2000x128.size a
  hwx3_0 : ∀ i : grid3.Coords, EltTy.bits .f32 = 32 ∨ (Rect.block (s := S2000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S2000x128.size a
  hwx3_3 : ∀ i : grid3.Coords, EltTy.bits .f32 = 32 ∨ (Rect.block (s := S2000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S2000x128.size a
  hwx4_0 : ∀ i : grid4.Coords, EltTy.bits .f32 = 32 ∨ (Rect.block (s := S2000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S2000x128.size a
  hwx4_3 : ∀ i : grid4.Coords, EltTy.bits .f32 = 32 ∨ (Rect.block (s := S2000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S50x128.size a ≤ S50x128.size a
  hwx5_0 : ∀ i : grid5.Coords, EltTy.bits .f32 = 32 ∨ (Rect.block (s := S50x128) S50x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S50x128.size a ≤ S50x128.size a
  hwx5_3 : ∀ i : grid5.Coords, EltTy.bits .f32 = 32 ∨ (Rect.block (s := S50x128) S50x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S50x128.size a ≤ S50x128.size a
  hwx6_0 : ∀ i : grid6.Coords, EltTy.bits .f32 = 32 ∨ (Rect.block (s := S50x128) S50x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S50x128.size a ≤ S50x128.size a
  hwx6_3 : ∀ i : grid6.Coords, EltTy.bits .f32 = 32 ∨ (Rect.block (s := S50x128) S50x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S2000x128.size a
  hwx8_0 : ∀ i : grid8.Coords, EltTy.bits .f32 = 32 ∨ (Rect.block (s := S2000x128) S2000x128.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S2000x128.size a
  hwx8_1 : ∀ i : grid8.Coords, EltTy.bits .f32 = 32 ∨ (Rect.block (s := S2000x128) S2000x128.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S2000x128.size a
  hwx8_2 : ∀ i : grid8.Coords, EltTy.bits .f32 = 32 ∨ (Rect.block (s := S2000x128) S2000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 1
  hreads8_7 : ∀ i i' : grid8.Coords, (∀ a, reads8_7 a = true → i a = i' a) → cc8_transform_7 i = cc8_transform_7 i'
  hinb8_7 : ∀ (i : grid8.Coords) a, (cc8_transform_7 i a + 1) * S2000x128.size a ≤ S2000x128.size a
  hwx8_7 : ∀ i : grid8.Coords, EltTy.bits .f32 = 32 ∨ (Rect.block (s := S2000x128) S2000x128.size (cc8_transform_7 i) (hinb8_7 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S50x128.size a ≤ S50x128.size a
  hwx9_0 : ∀ i : grid9.Coords, EltTy.bits .f32 = 32 ∨ (Rect.block (s := S50x128) S50x128.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S50x128.size a ≤ S50x128.size a
  hwx9_1 : ∀ i : grid9.Coords, EltTy.bits .f32 = 32 ∨ (Rect.block (s := S50x128) S50x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 1
  hreads9_5 : ∀ i i' : grid9.Coords, (∀ a, reads9_5 a = true → i a = i' a) → cc9_transform_5 i = cc9_transform_5 i'
  hinb9_5 : ∀ (i : grid9.Coords) a, (cc9_transform_5 i a + 1) * S50x128.size a ≤ S50x128.size a
  hwx9_5 : ∀ i : grid9.Coords, EltTy.bits .f32 = 32 ∨ (Rect.block (s := S50x128) S50x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S100000x128.size a
  hwx10_5 : ∀ i : grid10.Coords, EltTy.bits .f32 = 32 ∨ (Rect.block (s := S100000x128) S5000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S100000x128.size a
  hwx11_1 : ∀ i : grid11.Coords, EltTy.bits .f32 = 32 ∨ (Rect.block (s := S100000x128) S5000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S100000x128.size a
  hwx11_5 : ∀ i : grid11.Coords, EltTy.bits .f32 = 32 ∨ (Rect.block (s := S100000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S2000x128.size a
  hwx12_0 : ∀ i : grid12.Coords, EltTy.bits .f32 = 32 ∨ (Rect.block (s := S2000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 1
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S2000x128.size a
  hwx12_3 : ∀ i : grid12.Coords, EltTy.bits .f32 = 32 ∨ (Rect.block (s := S2000x128) S2000x128.size (cc12_transform_3 i) (hinb12_3 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S2000x128.size a
  hwx13_0 : ∀ i : grid13.Coords, EltTy.bits .f32 = 32 ∨ (Rect.block (s := S2000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 1
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S2000x128.size a
  hwx13_3 : ∀ i : grid13.Coords, EltTy.bits .f32 = 32 ∨ (Rect.block (s := S2000x128) S2000x128.size (cc13_transform_3 i) (hinb13_3 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S50x128.size a ≤ S50x128.size a
  hwx14_0 : ∀ i : grid14.Coords, EltTy.bits .f32 = 32 ∨ (Rect.block (s := S50x128) S50x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 1
  hreads14_3 : ∀ i i' : grid14.Coords, (∀ a, reads14_3 a = true → i a = i' a) → cc14_transform_3 i = cc14_transform_3 i'
  hinb14_3 : ∀ (i : grid14.Coords) a, (cc14_transform_3 i a + 1) * S50x128.size a ≤ S50x128.size a
  hwx14_3 : ∀ i : grid14.Coords, EltTy.bits .f32 = 32 ∨ (Rect.block (s := S50x128) S50x128.size (cc14_transform_3 i) (hinb14_3 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S50x128.size a ≤ S50x128.size a
  hwx15_0 : ∀ i : grid15.Coords, EltTy.bits .f32 = 32 ∨ (Rect.block (s := S50x128) S50x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 1
  hreads15_3 : ∀ i i' : grid15.Coords, (∀ a, reads15_3 a = true → i a = i' a) → cc15_transform_3 i = cc15_transform_3 i'
  hinb15_3 : ∀ (i : grid15.Coords) a, (cc15_transform_3 i a + 1) * S50x128.size a ≤ S50x128.size a
  hwx15_3 : ∀ i : grid15.Coords, EltTy.bits .f32 = 32 ∨ (Rect.block (s := S50x128) S50x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S100000x128.size a
  hwx16_0 : ∀ i : grid16.Coords, EltTy.bits .f32 = 32 ∨ (Rect.block (s := S100000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x128.size a ≤ S100000x128.size a
  hwx16_1 : ∀ i : grid16.Coords, EltTy.bits .f32 = 32 ∨ (Rect.block (s := S100000x128) S5000x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S128x128.size a ≤ S128x128.size a
  hwx16_2 : ∀ i : grid16.Coords, EltTy.bits .f32 = 32 ∨ (Rect.block (s := S128x128) S128x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x128.size a ≤ S128x128.size a
  hwx16_3 : ∀ i : grid16.Coords, EltTy.bits .f32 = 32 ∨ (Rect.block (s := S128x128) S128x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S5000x128.size a ≤ S100000x128.size a
  hwx16_5 : ∀ i : grid16.Coords, EltTy.bits .f32 = 32 ∨ (Rect.block (s := S100000x128) S5000x128.size (cc16_transform_5 i) (hinb16_5 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S2000x128.size a ≤ S2000x128.size a
  hwx17_0 : ∀ i : grid17.Coords, EltTy.bits .f32 = 32 ∨ (Rect.block (s := S2000x128) S2000x128.size (cc17_transform_0 i) (hinb17_0 i)).WholeWords (EltTy.packing .f32)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S2000x128.size a ≤ S2000x128.size a
  hwx17_1 : ∀ i : grid17.Coords, EltTy.bits .f32 = 32 ∨ (Rect.block (s := S2000x128) S2000x128.size (cc17_transform_1 i) (hinb17_1 i)).WholeWords (EltTy.packing .f32)
  hstage17_2 : ∀ j, (stage17_2 j).IsWhole
  nbuf17_2 : grid17.bufCount reads17_2 false = 1
  hreads17_2 : ∀ i i' : grid17.Coords, (∀ a, reads17_2 a = true → i a = i' a) → cc17_transform_2 i = cc17_transform_2 i'
  hinb17_2 : ∀ (i : grid17.Coords) a, (cc17_transform_2 i a + 1) * S2000x128.size a ≤ S2000x128.size a
  hwx17_2 : ∀ i : grid17.Coords, EltTy.bits .f32 = 32 ∨ (Rect.block (s := S2000x128) S2000x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S128x128.size a ≤ S128x128.size a
  hwx17_3 : ∀ i : grid17.Coords, EltTy.bits .f32 = 32 ∨ (Rect.block (s := S128x128) S128x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S128x128.size a ≤ S128x128.size a
  hwx17_4 : ∀ i : grid17.Coords, EltTy.bits .f32 = 32 ∨ (Rect.block (s := S128x128) S128x128.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S128x128.size a ≤ S128x128.size a
  hwx17_5 : ∀ i : grid17.Coords, EltTy.bits .f32 = 32 ∨ (Rect.block (s := S128x128) S128x128.size (cc17_transform_5 i) (hinb17_5 i)).WholeWords (EltTy.packing .f32)
  hstage17_6 : ∀ j, (stage17_6 j).IsWhole
  nbuf17_6 : grid17.bufCount reads17_6 true = 1
  hreads17_6 : ∀ i i' : grid17.Coords, (∀ a, reads17_6 a = true → i a = i' a) → cc17_transform_6 i = cc17_transform_6 i'
  hinb17_6 : ∀ (i : grid17.Coords) a, (cc17_transform_6 i a + 1) * S1x128.size a ≤ S1x128.size a
  hwx17_6 : ∀ i : grid17.Coords, EltTy.bits .f32 = 32 ∨ (Rect.block (s := S1x128) S1x128.size (cc17_transform_6 i) (hinb17_6 i)).WholeWords (EltTy.packing .f32)
  hstage17_7 : ∀ j, (stage17_7 j).IsWhole
  nbuf17_7 : grid17.bufCount reads17_7 false = 1
  hreads17_7 : ∀ i i' : grid17.Coords, (∀ a, reads17_7 a = true → i a = i' a) → cc17_transform_7 i = cc17_transform_7 i'
  hinb17_7 : ∀ (i : grid17.Coords) a, (cc17_transform_7 i a + 1) * S2000x128.size a ≤ S2000x128.size a
  hwx17_7 : ∀ i : grid17.Coords, EltTy.bits .f32 = 32 ∨ (Rect.block (s := S2000x128) S2000x128.size (cc17_transform_7 i) (hinb17_7 i)).WholeWords (EltTy.packing .f32)
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S50x128.size a ≤ S50x128.size a
  hwx18_0 : ∀ i : grid18.Coords, EltTy.bits .f32 = 32 ∨ (Rect.block (s := S50x128) S50x128.size (cc18_transform_0 i) (hinb18_0 i)).WholeWords (EltTy.packing .f32)
  hstage18_1 : ∀ j, (stage18_1 j).IsWhole
  nbuf18_1 : grid18.bufCount reads18_1 false = 1
  hreads18_1 : ∀ i i' : grid18.Coords, (∀ a, reads18_1 a = true → i a = i' a) → cc18_transform_1 i = cc18_transform_1 i'
  hinb18_1 : ∀ (i : grid18.Coords) a, (cc18_transform_1 i a + 1) * S50x128.size a ≤ S50x128.size a
  hwx18_1 : ∀ i : grid18.Coords, EltTy.bits .f32 = 32 ∨ (Rect.block (s := S50x128) S50x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x128.size a ≤ S128x128.size a
  hwx18_2 : ∀ i : grid18.Coords, EltTy.bits .f32 = 32 ∨ (Rect.block (s := S128x128) S128x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128x128.size a ≤ S128x128.size a
  hwx18_3 : ∀ i : grid18.Coords, EltTy.bits .f32 = 32 ∨ (Rect.block (s := S128x128) S128x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 false = 1
  hreads18_5 : ∀ i i' : grid18.Coords, (∀ a, reads18_5 a = true → i a = i' a) → cc18_transform_5 i = cc18_transform_5 i'
  hinb18_5 : ∀ (i : grid18.Coords) a, (cc18_transform_5 i a + 1) * S50x128.size a ≤ S50x128.size a
  hwx18_5 : ∀ i : grid18.Coords, EltTy.bits .f32 = 32 ∨ (Rect.block (s := S50x128) S50x128.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S100000x128.size a
  hwx19_0 : ∀ i : grid19.Coords, EltTy.bits .f32 = 32 ∨ (Rect.block (s := S100000x128) S5000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x128.size a ≤ S100000x128.size a
  hwx19_1 : ∀ i : grid19.Coords, EltTy.bits .f32 = 32 ∨ (Rect.block (s := S100000x128) S5000x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S128x128.size a ≤ S128x128.size a
  hwx19_2 : ∀ i : grid19.Coords, EltTy.bits .f32 = 32 ∨ (Rect.block (s := S128x128) S128x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S128x128.size a ≤ S128x128.size a
  hwx19_3 : ∀ i : grid19.Coords, EltTy.bits .f32 = 32 ∨ (Rect.block (s := S128x128) S128x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S5000x128.size a ≤ S100000x128.size a
  hwx19_5 : ∀ i : grid19.Coords, EltTy.bits .f32 = 32 ∨ (Rect.block (s := S100000x128) S5000x128.size (cc19_transform_5 i) (hinb19_5 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x128.size a ≤ S100000x128.size a
  hwx20_0 : ∀ i : grid20.Coords, EltTy.bits .f32 = 32 ∨ (Rect.block (s := S100000x128) S5000x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x128.size a ≤ S100000x128.size a
  hwx20_1 : ∀ i : grid20.Coords, EltTy.bits .f32 = 32 ∨ (Rect.block (s := S100000x128) S5000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S128x128.size a ≤ S128x128.size a
  hwx20_2 : ∀ i : grid20.Coords, EltTy.bits .f32 = 32 ∨ (Rect.block (s := S128x128) S128x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S128x128.size a ≤ S128x128.size a
  hwx20_3 : ∀ i : grid20.Coords, EltTy.bits .f32 = 32 ∨ (Rect.block (s := S128x128) S128x128.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x128.size a ≤ S1x128.size a
  hwx20_4 : ∀ i : grid20.Coords, EltTy.bits .f32 = 32 ∨ (Rect.block (s := S1x128) S1x128.size (cc20_transform_4 i) (hinb20_4 i)).WholeWords (EltTy.packing .f32)
  hstage20_5 : ∀ j, (stage20_5 j).IsWhole
  nbuf20_5 : grid20.bufCount reads20_5 false = 2
  hreads20_5 : ∀ i i' : grid20.Coords, (∀ a, reads20_5 a = true → i a = i' a) → cc20_transform_5 i = cc20_transform_5 i'
  hinb20_5 : ∀ (i : grid20.Coords) a, (cc20_transform_5 i a + 1) * S5000x128.size a ≤ S100000x128.size a
  hwx20_5 : ∀ i : grid20.Coords, EltTy.bits .f32 = 32 ∨ (Rect.block (s := S100000x128) S5000x128.size (cc20_transform_5 i) (hinb20_5 i)).WholeWords (EltTy.packing .f32)
  hrank21 : 0 < grid21.rank
  hstage21_0 : ∀ j, (stage21_0 j).IsWhole
  nbuf21_0 : grid21.bufCount reads21_0 false = 1
  hreads21_0 : ∀ i i' : grid21.Coords, (∀ a, reads21_0 a = true → i a = i' a) → cc21_transform_0 i = cc21_transform_0 i'
  hinb21_0 : ∀ (i : grid21.Coords) a, (cc21_transform_0 i a + 1) * S2000x128.size a ≤ S2000x128.size a
  hwx21_0 : ∀ i : grid21.Coords, EltTy.bits .f32 = 32 ∨ (Rect.block (s := S2000x128) S2000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S128x128.size a ≤ S128x128.size a
  hwx21_1 : ∀ i : grid21.Coords, EltTy.bits .f32 = 32 ∨ (Rect.block (s := S128x128) S128x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 false = 1
  hreads21_3 : ∀ i i' : grid21.Coords, (∀ a, reads21_3 a = true → i a = i' a) → cc21_transform_3 i = cc21_transform_3 i'
  hinb21_3 : ∀ (i : grid21.Coords) a, (cc21_transform_3 i a + 1) * S2000x128.size a ≤ S2000x128.size a
  hwx21_3 : ∀ i : grid21.Coords, EltTy.bits .f32 = 32 ∨ (Rect.block (s := S2000x128) S2000x128.size (cc21_transform_3 i) (hinb21_3 i)).WholeWords (EltTy.packing .f32)
  hrank22 : 0 < grid22.rank
  hstage22_0 : ∀ j, (stage22_0 j).IsWhole
  nbuf22_0 : grid22.bufCount reads22_0 false = 1
  hreads22_0 : ∀ i i' : grid22.Coords, (∀ a, reads22_0 a = true → i a = i' a) → cc22_transform_0 i = cc22_transform_0 i'
  hinb22_0 : ∀ (i : grid22.Coords) a, (cc22_transform_0 i a + 1) * S2000x128.size a ≤ S2000x128.size a
  hwx22_0 : ∀ i : grid22.Coords, EltTy.bits .f32 = 32 ∨ (Rect.block (s := S2000x128) S2000x128.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S128x128.size a ≤ S128x128.size a
  hwx22_1 : ∀ i : grid22.Coords, EltTy.bits .f32 = 32 ∨ (Rect.block (s := S128x128) S128x128.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x128.size a ≤ S1x128.size a
  hwx22_2 : ∀ i : grid22.Coords, EltTy.bits .f32 = 32 ∨ (Rect.block (s := S1x128) S1x128.size (cc22_transform_2 i) (hinb22_2 i)).WholeWords (EltTy.packing .f32)
  hstage22_3 : ∀ j, (stage22_3 j).IsWhole
  nbuf22_3 : grid22.bufCount reads22_3 false = 1
  hreads22_3 : ∀ i i' : grid22.Coords, (∀ a, reads22_3 a = true → i a = i' a) → cc22_transform_3 i = cc22_transform_3 i'
  hinb22_3 : ∀ (i : grid22.Coords) a, (cc22_transform_3 i a + 1) * S2000x128.size a ≤ S2000x128.size a
  hwx22_3 : ∀ i : grid22.Coords, EltTy.bits .f32 = 32 ∨ (Rect.block (s := S2000x128) S2000x128.size (cc22_transform_3 i) (hinb22_3 i)).WholeWords (EltTy.packing .f32)
  hrank23 : 0 < grid23.rank
  hstage23_0 : ∀ j, (stage23_0 j).IsWhole
  nbuf23_0 : grid23.bufCount reads23_0 false = 1
  hreads23_0 : ∀ i i' : grid23.Coords, (∀ a, reads23_0 a = true → i a = i' a) → cc23_transform_0 i = cc23_transform_0 i'
  hinb23_0 : ∀ (i : grid23.Coords) a, (cc23_transform_0 i a + 1) * S50x128.size a ≤ S50x128.size a
  hwx23_0 : ∀ i : grid23.Coords, EltTy.bits .f32 = 32 ∨ (Rect.block (s := S50x128) S50x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S128x128.size a ≤ S128x128.size a
  hwx23_1 : ∀ i : grid23.Coords, EltTy.bits .f32 = 32 ∨ (Rect.block (s := S128x128) S128x128.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x128.size a ≤ S1x128.size a
  hwx23_2 : ∀ i : grid23.Coords, EltTy.bits .f32 = 32 ∨ (Rect.block (s := S1x128) S1x128.size (cc23_transform_2 i) (hinb23_2 i)).WholeWords (EltTy.packing .f32)
  hstage23_3 : ∀ j, (stage23_3 j).IsWhole
  nbuf23_3 : grid23.bufCount reads23_3 false = 1
  hreads23_3 : ∀ i i' : grid23.Coords, (∀ a, reads23_3 a = true → i a = i' a) → cc23_transform_3 i = cc23_transform_3 i'
  hinb23_3 : ∀ (i : grid23.Coords) a, (cc23_transform_3 i a + 1) * S50x128.size a ≤ S50x128.size a
  hwx23_3 : ∀ i : grid23.Coords, EltTy.bits .f32 = 32 ∨ (Rect.block (s := S50x128) S50x128.size (cc23_transform_3 i) (hinb23_3 i)).WholeWords (EltTy.packing .f32)
  hrank24 : 0 < grid24.rank
  hstage24_0 : ∀ j, (stage24_0 j).IsWhole
  nbuf24_0 : grid24.bufCount reads24_0 false = 1
  hreads24_0 : ∀ i i' : grid24.Coords, (∀ a, reads24_0 a = true → i a = i' a) → cc24_transform_0 i = cc24_transform_0 i'
  hinb24_0 : ∀ (i : grid24.Coords) a, (cc24_transform_0 i a + 1) * S50x128.size a ≤ S50x128.size a
  hwx24_0 : ∀ i : grid24.Coords, EltTy.bits .f32 = 32 ∨ (Rect.block (s := S50x128) S50x128.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S128x128.size a ≤ S128x128.size a
  hwx24_1 : ∀ i : grid24.Coords, EltTy.bits .f32 = 32 ∨ (Rect.block (s := S128x128) S128x128.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x128.size a ≤ S1x128.size a
  hwx24_2 : ∀ i : grid24.Coords, EltTy.bits .f32 = 32 ∨ (Rect.block (s := S1x128) S1x128.size (cc24_transform_2 i) (hinb24_2 i)).WholeWords (EltTy.packing .f32)
  hstage24_3 : ∀ j, (stage24_3 j).IsWhole
  nbuf24_3 : grid24.bufCount reads24_3 false = 1
  hreads24_3 : ∀ i i' : grid24.Coords, (∀ a, reads24_3 a = true → i a = i' a) → cc24_transform_3 i = cc24_transform_3 i'
  hinb24_3 : ∀ (i : grid24.Coords) a, (cc24_transform_3 i a + 1) * S50x128.size a ≤ S50x128.size a
  hwx24_3 : ∀ i : grid24.Coords, EltTy.bits .f32 = 32 ∨ (Rect.block (s := S50x128) S50x128.size (cc24_transform_3 i) (hinb24_3 i)).WholeWords (EltTy.packing .f32)
  hrank25 : 0 < grid25.rank
  hstage25_0 : ∀ j, (stage25_0 j).IsWhole
  nbuf25_0 : grid25.bufCount reads25_0 false = 1
  hreads25_0 : ∀ i i' : grid25.Coords, (∀ a, reads25_0 a = true → i a = i' a) → cc25_transform_0 i = cc25_transform_0 i'
  hinb25_0 : ∀ (i : grid25.Coords) a, (cc25_transform_0 i a + 1) * S50x384.size a ≤ S50x384.size a
  hwx25_0 : ∀ i : grid25.Coords, EltTy.bits .f32 = 32 ∨ (Rect.block (s := S50x384) S50x384.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S384x128.size a ≤ S384x128.size a
  hwx25_1 : ∀ i : grid25.Coords, EltTy.bits .f32 = 32 ∨ (Rect.block (s := S384x128) S384x128.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x128.size a ≤ S1x128.size a
  hwx25_2 : ∀ i : grid25.Coords, EltTy.bits .f32 = 32 ∨ (Rect.block (s := S1x128) S1x128.size (cc25_transform_2 i) (hinb25_2 i)).WholeWords (EltTy.packing .f32)
  hstage25_3 : ∀ j, (stage25_3 j).IsWhole
  nbuf25_3 : grid25.bufCount reads25_3 false = 1
  hreads25_3 : ∀ i i' : grid25.Coords, (∀ a, reads25_3 a = true → i a = i' a) → cc25_transform_3 i = cc25_transform_3 i'
  hinb25_3 : ∀ (i : grid25.Coords) a, (cc25_transform_3 i a + 1) * S50x128.size a ≤ S50x128.size a
  hwx25_3 : ∀ i : grid25.Coords, EltTy.bits .f32 = 32 ∨ (Rect.block (s := S50x128) S50x128.size (cc25_transform_3 i) (hinb25_3 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S50x128_S128x128_S50x128_1_0_0_1_n_n : DotDims S50x128 S128x128 S50x128 where
  lhsContracting := [1]
  rhsContracting := [0]
  lhsNonContracting := [0]
  rhsNonContracting := [1]
  lhsBatch := []
  rhsBatch := []
  wf := dot_S50x128_S128x128_S50x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def scatter_S50x128_S2000x1_S2000x128_1_0_0_1 : ScatterDims S50x128 S2000x1 S2000x128 where
  updateWindowDims := [1]
  insertedWindowDims := [0]
  scatterDimsToOperandDims := [0]
  indexVectorDim := 1
  wf := scatter_S50x128_S2000x1_S2000x128_1_0_0_1_wf
def scatter_S50x1_S2000x1_S2000x1_1_0_0_1 : ScatterDims S50x1 S2000x1 S2000x1 where
  updateWindowDims := [1]
  insertedWindowDims := [0]
  scatterDimsToOperandDims := [0]
  indexVectorDim := 1
  wf := scatter_S50x1_S2000x1_S2000x1_1_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def gather_S50x128_S2000x1_S2000x128_1_0_n_n_0_1_1128 : GatherDims S50x128 S2000x1 S2000x128 where
  offsetDims := [1]
  collapsedSliceDims := [0]
  operandBatchingDims := []
  startIndicesBatchingDims := []
  startIndexMap := [0]
  indexVectorDim := 1
  sliceSizes := ![1, 128]
  wf := gather_S50x128_S2000x1_S2000x128_1_0_n_n_0_1_1128_wf
def scatter_S50x128_S100000x1_S100000x128_1_0_0_1 : ScatterDims S50x128 S100000x1 S100000x128 where
  updateWindowDims := [1]
  insertedWindowDims := [0]
  scatterDimsToOperandDims := [0]
  indexVectorDim := 1
  wf := scatter_S50x128_S100000x1_S100000x128_1_0_0_1_wf
def scatter_S50x1_S100000x1_S100000x1_1_0_0_1 : ScatterDims S50x1 S100000x1 S100000x1 where
  updateWindowDims := [1]
  insertedWindowDims := [0]
  scatterDimsToOperandDims := [0]
  indexVectorDim := 1
  wf := scatter_S50x1_S100000x1_S100000x1_1_0_0_1_wf
def dot_S50x384_S384x128_S50x128_1_0_0_1_n_n : DotDims S50x384 S384x128 S50x128 where
  lhsContracting := [1]
  rhsContracting := [0]
  lhsNonContracting := [0]
  rhsNonContracting := [1]
  lhsBatch := []
  rhsBatch := []
  wf := dot_S50x384_S384x128_S50x128_1_0_0_1_n_n_wf
def dot_S50x128_S128x2_S50x2_1_0_0_1_n_n : DotDims S50x128 S128x2 S50x2 where
  lhsContracting := [1]
  rhsContracting := [0]
  lhsNonContracting := [0]
  rhsNonContracting := [1]
  lhsBatch := []
  rhsBatch := []
  wf := dot_S50x128_S128x2_S50x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v11) S2000x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v66) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S2000x128.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v70) S2000x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v72) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S2000x128.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v12) S50x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v78) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S50x128.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v82) S50x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v84) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S50x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v64) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v117) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg20) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg25) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v126) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v76) S2000x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v99) S2000x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v124) S2000x128.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_arg21) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg23) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg26) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v127) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v128) S2000x128.size cc8_transform_7 reads8_7 true false 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v88) S50x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v110) S50x128.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_arg22) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg24) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v129) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v130) S50x128.size cc9_transform_5 reads9_5 true false 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v126) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v148) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v150) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v152) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v155) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v156) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v156) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v174) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v176) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v178) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v181) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v182) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v128) S2000x128.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v184) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v187) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v188) S2000x128.size cc12_transform_3 reads12_3 true false 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v188) S2000x128.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v190) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v193) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v194) S2000x128.size cc13_transform_3 reads13_3 true false 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v130) S50x128.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v196) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v199) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v200) S50x128.size cc14_transform_3 reads14_3 true false 1 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v200) S50x128.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_v202) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v205) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v206) S50x128.size cc15_transform_3 reads15_3 true false 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v182) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v235) S5000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_arg20) S128x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_arg25) S128x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v243) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v244) S5000x128.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v194) S2000x128.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v217) S2000x128.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v242) S2000x128.size cc17_transform_2 reads17_2 false false 1 stage17_2 sem17_2
    hrank17 hreads17_2 hinb17_2 nbuf17_2 (Memref.isWhole_whole _) hwx17_2 hstage17_2

abbrev win17_3 : Pipeline.Window sig grid17 :=
  Pipeline.Window.ofSpec (Memref.whole main_arg21) S128x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_arg23) S128x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_arg26) S128x128.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v245) S1x128.size cc17_transform_6 reads17_6 false true 1 stage17_6 sem17_6
    hrank17 hreads17_6 hinb17_6 nbuf17_6 (Memref.isWhole_whole _) hwx17_6 hstage17_6

abbrev win17_7 : Pipeline.Window sig grid17 :=
  Pipeline.Window.ofSpec (Memref.whole main_v246) S2000x128.size cc17_transform_7 reads17_7 true false 1 stage17_7 sem17_7
    hrank17 hreads17_7 hinb17_7 nbuf17_7 (Memref.isWhole_whole _) hwx17_7 hstage17_7

abbrev win17 : Fin 8 → Pipeline.Window sig grid17 := fun | 0 => win17_0 | 1 => win17_1 | 2 => win17_2 | 3 => win17_3 | 4 => win17_4 | 5 => win17_5 | 6 => win17_6 | 7 => win17_7 | ⟨_ + 8, h⟩ => absurd h (Nat.not_lt.2 (Nat.le_add_left _ _))
abbrev spec17 : Fin 8 → Pipeline.WinSpec sig grid17.rank := fun w => (win17 w).toWinSpec

abbrev win18_0 : Pipeline.Window sig grid18 :=
  Pipeline.Window.ofSpec (Memref.whole main_v206) S50x128.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v228) S50x128.size cc18_transform_1 reads18_1 false false 1 stage18_1 sem18_1
    hrank18 hreads18_1 hinb18_1 nbuf18_1 (Memref.isWhole_whole _) hwx18_1 hstage18_1

abbrev win18_2 : Pipeline.Window sig grid18 :=
  Pipeline.Window.ofSpec (Memref.whole main_arg22) S128x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_arg24) S128x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v247) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v248) S50x128.size cc18_transform_5 reads18_5 true false 1 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v244) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v266) S5000x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v268) S128x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v270) S128x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v273) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v274) S5000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v274) S5000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v292) S5000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v294) S128x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v296) S128x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v299) S1x128.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v300) S5000x128.size cc20_transform_5 reads20_5 true false 2 stage20_5 sem20_5
    hrank20 hreads20_5 hinb20_5 nbuf20_5 (Memref.isWhole_whole _) hwx20_5 hstage20_5

abbrev win20 : Fin 6 → Pipeline.Window sig grid20 := fun | 0 => win20_0 | 1 => win20_1 | 2 => win20_2 | 3 => win20_3 | 4 => win20_4 | 5 => win20_5 | ⟨_ + 6, h⟩ => absurd h (Nat.not_lt.2 (Nat.le_add_left _ _))
abbrev spec20 : Fin 6 → Pipeline.WinSpec sig grid20.rank := fun w => (win20 w).toWinSpec

abbrev win21_0 : Pipeline.Window sig grid21 :=
  Pipeline.Window.ofSpec (Memref.whole main_v246) S2000x128.size cc21_transform_0 reads21_0 false false 1 stage21_0 sem21_0
    hrank21 hreads21_0 hinb21_0 nbuf21_0 (Memref.isWhole_whole _) hwx21_0 hstage21_0

abbrev win21_1 : Pipeline.Window sig grid21 :=
  Pipeline.Window.ofSpec (Memref.whole main_v302) S128x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v305) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v306) S2000x128.size cc21_transform_3 reads21_3 true false 1 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev win22_0 : Pipeline.Window sig grid22 :=
  Pipeline.Window.ofSpec (Memref.whole main_v306) S2000x128.size cc22_transform_0 reads22_0 false false 1 stage22_0 sem22_0
    hrank22 hreads22_0 hinb22_0 nbuf22_0 (Memref.isWhole_whole _) hwx22_0 hstage22_0

abbrev win22_1 : Pipeline.Window sig grid22 :=
  Pipeline.Window.ofSpec (Memref.whole main_v308) S128x128.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v311) S1x128.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v312) S2000x128.size cc22_transform_3 reads22_3 true false 1 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

abbrev win23_0 : Pipeline.Window sig grid23 :=
  Pipeline.Window.ofSpec (Memref.whole main_v248) S50x128.size cc23_transform_0 reads23_0 false false 1 stage23_0 sem23_0
    hrank23 hreads23_0 hinb23_0 nbuf23_0 (Memref.isWhole_whole _) hwx23_0 hstage23_0

abbrev win23_1 : Pipeline.Window sig grid23 :=
  Pipeline.Window.ofSpec (Memref.whole main_v314) S128x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v317) S1x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v318) S50x128.size cc23_transform_3 reads23_3 true false 1 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

abbrev win24_0 : Pipeline.Window sig grid24 :=
  Pipeline.Window.ofSpec (Memref.whole main_v318) S50x128.size cc24_transform_0 reads24_0 false false 1 stage24_0 sem24_0
    hrank24 hreads24_0 hinb24_0 nbuf24_0 (Memref.isWhole_whole _) hwx24_0 hstage24_0

abbrev win24_1 : Pipeline.Window sig grid24 :=
  Pipeline.Window.ofSpec (Memref.whole main_v320) S128x128.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v323) S1x128.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v324) S50x128.size cc24_transform_3 reads24_3 true false 1 stage24_3 sem24_3
    hrank24 hreads24_3 hinb24_3 nbuf24_3 (Memref.isWhole_whole _) hwx24_3 hstage24_3

abbrev win24 : Fin 4 → Pipeline.Window sig grid24 := fun | 0 => win24_0 | 1 => win24_1 | 2 => win24_2 | 3 => win24_3 | ⟨_ + 4, h⟩ => absurd h (Nat.not_lt.2 (Nat.le_add_left _ _))
abbrev spec24 : Fin 4 → Pipeline.WinSpec sig grid24.rank := fun w => (win24 w).toWinSpec

abbrev win25_0 : Pipeline.Window sig grid25 :=
  Pipeline.Window.ofSpec (Memref.whole main_v347) S50x384.size cc25_transform_0 reads25_0 false false 1 stage25_0 sem25_0
    hrank25 hreads25_0 hinb25_0 nbuf25_0 (Memref.isWhole_whole _) hwx25_0 hstage25_0

abbrev win25_1 : Pipeline.Window sig grid25 :=
  Pipeline.Window.ofSpec (Memref.whole main_arg30) S384x128.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v348) S1x128.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v349) S50x128.size cc25_transform_3 reads25_3 true false 1 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

class Facts : Prop extends Facts₀ where

variable [Facts]
-- ==== ReferenceIdeal.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S2000 : Shape := ⟨1, ![2000]⟩
abbrev S100000x128 : Shape := ⟨2, ![100000, 128]⟩
abbrev S1x128 : Shape := ⟨2, ![1, 128]⟩
abbrev S2000x128 : Shape := ⟨2, ![2000, 128]⟩
abbrev S50x128 : Shape := ⟨2, ![50, 128]⟩
abbrev S600000x1 : Shape := ⟨2, ![600000, 1]⟩
abbrev S600000x128 : Shape := ⟨2, ![600000, 128]⟩
abbrev S100000x1 : Shape := ⟨2, ![100000, 1]⟩
abbrev S1x128x128 : Shape := ⟨3, ![1, 128, 128]⟩
abbrev S2000x1 : Shape := ⟨2, ![2000, 1]⟩
abbrev S50x1 : Shape := ⟨2, ![50, 1]⟩
abbrev S50x384 : Shape := ⟨2, ![50, 384]⟩
abbrev S50x2 : Shape := ⟨2, ![50, 2]⟩
abbrev S1x2 : Shape := ⟨2, ![1, 2]⟩

abbrev nBuf : Space → Nat
  | .hbm => 634
  | .vmem => 0
  | .smem => 0
  | _ => 0

abbrev hbmTy0_0 (i : Nat) : BufTy := match i % 128 with
  | 0 => ⟨S100000x64, .f32⟩
  | 1 => ⟨S2x600000, .i32⟩
  | 2 => ⟨S100000, .i32⟩
  | 3 => ⟨S100000, .i32⟩
  | 4 => ⟨S64x128, .f32⟩
  | 5 => ⟨S128, .f32⟩
  | 6 => ⟨S2x128x128, .f32⟩
  | 7 => ⟨S2x128x128, .f32⟩
  | 8 => ⟨S2x128, .f32⟩
  | 9 => ⟨S2x128x128, .f32⟩
  | 10 => ⟨S2x128, .f32⟩
  | 11 => ⟨S2x128x128, .f32⟩
  | 12 => ⟨S2x128, .f32⟩
  | 13 => ⟨S2x128x128, .f32⟩
  | 14 => ⟨S2x128x128, .f32⟩
  | 15 => ⟨S2x128, .f32⟩
  | 16 => ⟨S2x128x128, .f32⟩
  | 17 => ⟨S2x128, .f32⟩
  | 18 => ⟨S2x128x128, .f32⟩
  | 19 => ⟨S2x128, .f32⟩
  | 20 => ⟨S128x128, .f32⟩
  | 21 => ⟨S128x128, .f32⟩
  | 22 => ⟨S128x128, .f32⟩
  | 23 => ⟨S128x128, .f32⟩
  | 24 => ⟨S128x128, .f32⟩
  | 25 => ⟨S128x128, .f32⟩
  | 26 => ⟨S128x128, .f32⟩
  | 27 => ⟨S128, .f32⟩
  | 28 => ⟨S128, .f32⟩
  | 29 => ⟨S128, .f32⟩
  | 30 => ⟨S384x128, .f32⟩
  | 31 => ⟨S128, .f32⟩
  | 32 => ⟨S128x2, .f32⟩
  | 33 => ⟨S2, .f32⟩
  | 34 => ⟨S1x600000, .i32⟩
  | 35 => ⟨S600000, .i32⟩
  | 36 => ⟨S1x600000, .i32⟩
  | 37 => ⟨S600000, .i32⟩
  | 38 => ⟨S_, .i32⟩
  | 39 => ⟨S100000, .i32⟩
  | 40 => ⟨S100000, .i32⟩
  | 41 => ⟨S100000, .i32⟩
  | 42 => ⟨S2000, .i32⟩
  | 43 => ⟨S_, .i32⟩
  | 44 => ⟨S_, .i32⟩
  | 45 => ⟨S2000, .i32⟩
  | 46 => ⟨S2000, .i32⟩
  | 47 => ⟨S2000, .i32⟩
  | 48 => ⟨S_, .i32⟩
  | 49 => ⟨S2000, .i32⟩
  | 50 => ⟨S2000, .i1⟩
  | 51 => ⟨S2000, .i32⟩
  | 52 => ⟨S2000, .i32⟩
  | 53 => ⟨S_, .i32⟩
  | 54 => ⟨S2000, .i32⟩
  | 55 => ⟨S2000, .i1⟩
  | 56 => ⟨S2000, .i1⟩
  | 57 => ⟨S_, .i32⟩
  | 58 => ⟨S2000, .i32⟩
  | 59 => ⟨S2000, .i32⟩
  | 60 => ⟨S2000, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S2000x128, .f32⟩
  | 70 => ⟨S_, .f32⟩
  | 71 => ⟨S50x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S_, .f32⟩
  | 82 => ⟨S100000x128, .f32⟩
  | 83 => ⟨S600000x1, .i32⟩
  | 84 => ⟨S100000x128, .f32⟩
  | 85 => ⟨S_, .f32⟩
  | 86 => ⟨S600000x1, .f32⟩
  | 87 => ⟨S_, .f32⟩
  | 88 => ⟨S100000x1, .f32⟩
  | 89 => ⟨S600000x1, .i32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S1x128x128, .f32⟩
  | 100 => ⟨S128x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S_, .f32⟩
  | 121 => ⟨S100000x128, .f32⟩
  | 122 => ⟨S600000x1, .i32⟩
  | 123 => ⟨S100000x128, .f32⟩
  | 124 => ⟨S_, .f32⟩
  | 125 => ⟨S600000x1, .f32⟩
  | 126 => ⟨S_, .f32⟩
  | 127 => ⟨S100000x1, .f32⟩
  | _ => ⟨S100000x64, .f32⟩

abbrev hbmTy0_1 (i : Nat) : BufTy := match i % 128 with
  | 0 => ⟨S600000x1, .i32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S1x128x128, .f32⟩
  | 8 => ⟨S128x128, .f32⟩
  | 9 => ⟨S100000x128, .f32⟩
  | 10 => ⟨S1x128x128, .f32⟩
  | 11 => ⟨S128x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128x128, .f32⟩
  | 23 => ⟨S128x128, .f32⟩
  | 24 => ⟨S2000x128, .f32⟩
  | 25 => ⟨S1x128, .f32⟩
  | 26 => ⟨S128, .f32⟩
  | 27 => ⟨S1x128, .f32⟩
  | 28 => ⟨S2000x128, .f32⟩
  | 29 => ⟨S2000x128, .f32⟩
  | 30 => ⟨S_, .f32⟩
  | 31 => ⟨S2000x128, .f32⟩
  | 32 => ⟨S2000x128, .f32⟩
  | 33 => ⟨S1x128x128, .f32⟩
  | 34 => ⟨S128x128, .f32⟩
  | 35 => ⟨S2000x128, .f32⟩
  | 36 => ⟨S1x128, .f32⟩
  | 37 => ⟨S128, .f32⟩
  | 38 => ⟨S1x128, .f32⟩
  | 39 => ⟨S2000x128, .f32⟩
  | 40 => ⟨S2000x128, .f32⟩
  | 41 => ⟨S_, .f32⟩
  | 42 => ⟨S2000x128, .f32⟩
  | 43 => ⟨S2000x128, .f32⟩
  | 44 => ⟨S1x128x128, .f32⟩
  | 45 => ⟨S128x128, .f32⟩
  | 46 => ⟨S50x128, .f32⟩
  | 47 => ⟨S1x128, .f32⟩
  | 48 => ⟨S128, .f32⟩
  | 49 => ⟨S1x128, .f32⟩
  | 50 => ⟨S50x128, .f32⟩
  | 51 => ⟨S50x128, .f32⟩
  | 52 => ⟨S_, .f32⟩
  | 53 => ⟨S50x128, .f32⟩
  | 54 => ⟨S50x128, .f32⟩
  | 55 => ⟨S1x128x128, .f32⟩
  | 56 => ⟨S128x128, .f32⟩
  | 57 => ⟨S50x128, .f32⟩
  | 58 => ⟨S1x128, .f32⟩
  | 59 => ⟨S128, .f32⟩
  | 60 => ⟨S1x128, .f32⟩
  | 61 => ⟨S50x128, .f32⟩
  | 62 => ⟨S50x128, .f32⟩
  | 63 => ⟨S_, .f32⟩
  | 64 => ⟨S50x128, .f32⟩
  | 65 => ⟨S50x128, .f32⟩
  | 66 => ⟨S_, .f32⟩
  | 67 => ⟨S2000x128, .f32⟩
  | 68 => ⟨S100000x1, .i32⟩
  | 69 => ⟨S2000x128, .f32⟩
  | 70 => ⟨S_, .f32⟩
  | 71 => ⟨S100000x1, .f32⟩
  | 72 => ⟨S_, .f32⟩
  | 73 => ⟨S2000x1, .f32⟩
  | 74 => ⟨S100000x1, .i32⟩
  | 75 => ⟨S2000x1, .f32⟩
  | 76 => ⟨S_, .f32⟩
  | 77 => ⟨S2000x1, .f32⟩
  | 78 => ⟨S2000x1, .f32⟩
  | 79 => ⟨S2000x128, .f32⟩
  | 80 => ⟨S2000x128, .f32⟩
  | 81 => ⟨S_, .f32⟩
  | 82 => ⟨S50x128, .f32⟩
  | 83 => ⟨S2000x1, .i32⟩
  | 84 => ⟨S50x128, .f32⟩
  | 85 => ⟨S_, .f32⟩
  | 86 => ⟨S2000x1, .f32⟩
  | 87 => ⟨S_, .f32⟩
  | 88 => ⟨S50x1, .f32⟩
  | 89 => ⟨S2000x1, .i32⟩
  | 90 => ⟨S50x1, .f32⟩
  | 91 => ⟨S_, .f32⟩
  | 92 => ⟨S50x1, .f32⟩
  | 93 => ⟨S50x1, .f32⟩
  | 94 => ⟨S50x128, .f32⟩
  | 95 => ⟨S50x128, .f32⟩
  | 96 => ⟨S100000x128, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S2000x128, .f32⟩
  | 115 => ⟨S2000x128, .f32⟩
  | 116 => ⟨S2000x128, .f32⟩
  | 117 => ⟨S_, .i32⟩
  | 118 => ⟨S2000, .i32⟩
  | 119 => ⟨S2000, .i1⟩
  | 120 => ⟨S_, .i32⟩
  | 121 => ⟨S2000, .i32⟩
  | 122 => ⟨S2000, .i32⟩
  | 123 => ⟨S2000, .i32⟩
  | 124 => ⟨S2000x1, .i32⟩
  | 125 => ⟨S2000x128, .f32⟩
  | 126 => ⟨S2000x128, .f32⟩
  | 127 => ⟨S2000x128, .f32⟩
  | _ => ⟨S100000x64, .f32⟩

abbrev hbmTy0_2 (i : Nat) : BufTy := match i % 128 with
  | 0 => ⟨S1x128, .f32⟩
  | 1 => ⟨S2000x128, .f32⟩
  | 2 => ⟨S2000x128, .f32⟩
  | 3 => ⟨S_, .f32⟩
  | 4 => ⟨S2000x128, .f32⟩
  | 5 => ⟨S2000x128, .f32⟩
  | 6 => ⟨S50x128, .f32⟩
  | 7 => ⟨S50x128, .f32⟩
  | 8 => ⟨S50x128, .f32⟩
  | 9 => ⟨S1x128, .f32⟩
  | 10 => ⟨S50x128, .f32⟩
  | 11 => ⟨S50x128, .f32⟩
  | 12 => ⟨S_, .f32⟩
  | 13 => ⟨S50x128, .f32⟩
  | 14 => ⟨S50x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S_, .f32⟩
  | 25 => ⟨S100000x128, .f32⟩
  | 26 => ⟨S600000x1, .i32⟩
  | 27 => ⟨S100000x128, .f32⟩
  | 28 => ⟨S_, .f32⟩
  | 29 => ⟨S600000x1, .f32⟩
  | 30 => ⟨S_, .f32⟩
  | 31 => ⟨S100000x1, .f32⟩
  | 32 => ⟨S600000x1, .i32⟩
  | 33 => ⟨S100000x1, .f32⟩
  | 34 => ⟨S_, .f32⟩
  | 35 => ⟨S100000x1, .f32⟩
  | 36 => ⟨S100000x1, .f32⟩
  | 37 => ⟨S100000x128, .f32⟩
  | 38 => ⟨S100000x128, .f32⟩
  | 39 => ⟨S1x128x128, .f32⟩
  | 40 => ⟨S128x128, .f32⟩
  | 41 => ⟨S100000x128, .f32⟩
  | 42 => ⟨S1x128x128, .f32⟩
  | 43 => ⟨S128x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S_, .f32⟩
  | 68 => ⟨S600000x1, .f32⟩
  | 69 => ⟨S_, .f32⟩
  | 70 => ⟨S100000x1, .f32⟩
  | 71 => ⟨S600000x1, .i32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128x128, .f32⟩
  | 82 => ⟨S128x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x128x128, .f32⟩
  | 94 => ⟨S128x128, .f32⟩
  | 95 => ⟨S2000x128, .f32⟩
  | 96 => ⟨S1x128, .f32⟩
  | 97 => ⟨S128, .f32⟩
  | 98 => ⟨S1x128, .f32⟩
  | 99 => ⟨S2000x128, .f32⟩
  | 100 => ⟨S2000x128, .f32⟩
  | 101 => ⟨S_, .f32⟩
  | 102 => ⟨S2000x128, .f32⟩
  | 103 => ⟨S2000x128, .f32⟩
  | 104 => ⟨S1x128x128, .f32⟩
  | 105 => ⟨S128x128, .f32⟩
  | 106 => ⟨S2000x128, .f32⟩
  | 107 => ⟨S1x128, .f32⟩
  | 108 => ⟨S128, .f32⟩
  | 109 => ⟨S1x128, .f32⟩
  | 110 => ⟨S2000x128, .f32⟩
  | 111 => ⟨S2000x128, .f32⟩
  | 112 => ⟨S_, .f32⟩
  | 113 => ⟨S2000x128, .f32⟩
  | 114 => ⟨S2000x128, .f32⟩
  | 115 => ⟨S1x128x128, .f32⟩
  | 116 => ⟨S128x128, .f32⟩
  | 117 => ⟨S50x128, .f32⟩
  | 118 => ⟨S1x128, .f32⟩
  | 119 => ⟨S128, .f32⟩
  | 120 => ⟨S1x128, .f32⟩
  | 121 => ⟨S50x128, .f32⟩
  | 122 => ⟨S50x128, .f32⟩
  | 123 => ⟨S_, .f32⟩
  | 124 => ⟨S50x128, .f32⟩
  | 125 => ⟨S50x128, .f32⟩
  | 126 => ⟨S1x128x128, .f32⟩
  | 127 => ⟨S128x128, .f32⟩
  | _ => ⟨S100000x64, .f32⟩

abbrev hbmTy0_3 (i : Nat) : BufTy := match i % 128 with
  | 0 => ⟨S50x128, .f32⟩
  | 1 => ⟨S1x128, .f32⟩
  | 2 => ⟨S128, .f32⟩
  | 3 => ⟨S1x128, .f32⟩
  | 4 => ⟨S50x128, .f32⟩
  | 5 => ⟨S50x128, .f32⟩
  | 6 => ⟨S_, .f32⟩
  | 7 => ⟨S50x128, .f32⟩
  | 8 => ⟨S50x128, .f32⟩
  | 9 => ⟨S_, .f32⟩
  | 10 => ⟨S2000x128, .f32⟩
  | 11 => ⟨S100000x1, .i32⟩
  | 12 => ⟨S2000x128, .f32⟩
  | 13 => ⟨S_, .f32⟩
  | 14 => ⟨S100000x1, .f32⟩
  | 15 => ⟨S_, .f32⟩
  | 16 => ⟨S2000x1, .f32⟩
  | 17 => ⟨S100000x1, .i32⟩
  | 18 => ⟨S2000x1, .f32⟩
  | 19 => ⟨S_, .f32⟩
  | 20 => ⟨S2000x1, .f32⟩
  | 21 => ⟨S2000x1, .f32⟩
  | 22 => ⟨S2000x128, .f32⟩
  | 23 => ⟨S2000x128, .f32⟩
  | 24 => ⟨S_, .f32⟩
  | 25 => ⟨S50x128, .f32⟩
  | 26 => ⟨S2000x1, .i32⟩
  | 27 => ⟨S50x128, .f32⟩
  | 28 => ⟨S_, .f32⟩
  | 29 => ⟨S2000x1, .f32⟩
  | 30 => ⟨S_, .f32⟩
  | 31 => ⟨S50x1, .f32⟩
  | 32 => ⟨S2000x1, .i32⟩
  | 33 => ⟨S50x1, .f32⟩
  | 34 => ⟨S_, .f32⟩
  | 35 => ⟨S50x1, .f32⟩
  | 36 => ⟨S50x1, .f32⟩
  | 37 => ⟨S50x128, .f32⟩
  | 38 => ⟨S50x128, .f32⟩
  | 39 => ⟨S100000x128, .f32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S2000x128, .f32⟩
  | 58 => ⟨S2000x128, .f32⟩
  | 59 => ⟨S2000x128, .f32⟩
  | 60 => ⟨S_, .i32⟩
  | 61 => ⟨S2000, .i32⟩
  | 62 => ⟨S2000, .i1⟩
  | 63 => ⟨S_, .i32⟩
  | 64 => ⟨S2000, .i32⟩
  | 65 => ⟨S2000, .i32⟩
  | 66 => ⟨S2000, .i32⟩
  | 67 => ⟨S2000x1, .i32⟩
  | 68 => ⟨S2000x128, .f32⟩
  | 69 => ⟨S2000x128, .f32⟩
  | 70 => ⟨S2000x128, .f32⟩
  | 71 => ⟨S1x128, .f32⟩
  | 72 => ⟨S2000x128, .f32⟩
  | 73 => ⟨S2000x128, .f32⟩
  | 74 => ⟨S_, .f32⟩
  | 75 => ⟨S2000x128, .f32⟩
  | 76 => ⟨S2000x128, .f32⟩
  | 77 => ⟨S50x128, .f32⟩
  | 78 => ⟨S50x128, .f32⟩
  | 79 => ⟨S50x128, .f32⟩
  | 80 => ⟨S1x128, .f32⟩
  | 81 => ⟨S50x128, .f32⟩
  | 82 => ⟨S50x128, .f32⟩
  | 83 => ⟨S_, .f32⟩
  | 84 => ⟨S50x128, .f32⟩
  | 85 => ⟨S50x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S100000x128, .f32⟩
  | 97 => ⟨S600000x1, .i32⟩
  | 98 => ⟨S100000x128, .f32⟩
  | 99 => ⟨S_, .f32⟩
  | 100 => ⟨S600000x1, .f32⟩
  | 101 => ⟨S_, .f32⟩
  | 102 => ⟨S100000x1, .f32⟩
  | 103 => ⟨S600000x1, .i32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S1x128x128, .f32⟩
  | 111 => ⟨S128x128, .f32⟩
  | 112 => ⟨S100000x128, .f32⟩
  | 113 => ⟨S1x128x128, .f32⟩
  | 114 => ⟨S128x128, .f32⟩
  | 115 => ⟨S100000x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .i32⟩
  | 126 => ⟨S600000, .i32⟩
  | 127 => ⟨S600000, .i1⟩
  | _ => ⟨S100000x64, .f32⟩

abbrev hbmTy0_4 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S_, .f32⟩
  | 7 => ⟨S100000x128, .f32⟩
  | 8 => ⟨S600000x1, .i32⟩
  | 9 => ⟨S100000x128, .f32⟩
  | 10 => ⟨S_, .f32⟩
  | 11 => ⟨S600000x1, .f32⟩
  | 12 => ⟨S_, .f32⟩
  | 13 => ⟨S100000x1, .f32⟩
  | 14 => ⟨S600000x1, .i32⟩
  | 15 => ⟨S100000x1, .f32⟩
  | 16 => ⟨S_, .f32⟩
  | 17 => ⟨S100000x1, .f32⟩
  | 18 => ⟨S100000x1, .f32⟩
  | 19 => ⟨S100000x128, .f32⟩
  | 20 => ⟨S100000x128, .f32⟩
  | 21 => ⟨S1x128x128, .f32⟩
  | 22 => ⟨S128x128, .f32⟩
  | 23 => ⟨S100000x128, .f32⟩
  | 24 => ⟨S1x128x128, .f32⟩
  | 25 => ⟨S128x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S1x128x128, .f32⟩
  | 37 => ⟨S128x128, .f32⟩
  | 38 => ⟨S2000x128, .f32⟩
  | 39 => ⟨S1x128, .f32⟩
  | 40 => ⟨S128, .f32⟩
  | 41 => ⟨S1x128, .f32⟩
  | 42 => ⟨S2000x128, .f32⟩
  | 43 => ⟨S2000x128, .f32⟩
  | 44 => ⟨S_, .f32⟩
  | 45 => ⟨S2000x128, .f32⟩
  | 46 => ⟨S2000x128, .f32⟩
  | 47 => ⟨S1x128x128, .f32⟩
  | 48 => ⟨S128x128, .f32⟩
  | 49 => ⟨S2000x128, .f32⟩
  | 50 => ⟨S1x128, .f32⟩
  | 51 => ⟨S128, .f32⟩
  | 52 => ⟨S1x128, .f32⟩
  | 53 => ⟨S2000x128, .f32⟩
  | 54 => ⟨S2000x128, .f32⟩
  | 55 => ⟨S_, .f32⟩
  | 56 => ⟨S2000x128, .f32⟩
  | 57 => ⟨S2000x128, .f32⟩
  | 58 => ⟨S1x128x128, .f32⟩
  | 59 => ⟨S128x128, .f32⟩
  | 60 => ⟨S50x128, .f32⟩
  | 61 => ⟨S1x128, .f32⟩
  | 62 => ⟨S128, .f32⟩
  | 63 => ⟨S1x128, .f32⟩
  | 64 => ⟨S50x128, .f32⟩
  | 65 => ⟨S50x128, .f32⟩
  | 66 => ⟨S_, .f32⟩
  | 67 => ⟨S50x128, .f32⟩
  | 68 => ⟨S50x128, .f32⟩
  | 69 => ⟨S1x128x128, .f32⟩
  | 70 => ⟨S128x128, .f32⟩
  | 71 => ⟨S50x128, .f32⟩
  | 72 => ⟨S1x128, .f32⟩
  | 73 => ⟨S128, .f32⟩
  | 74 => ⟨S1x128, .f32⟩
  | 75 => ⟨S50x128, .f32⟩
  | 76 => ⟨S50x128, .f32⟩
  | 77 => ⟨S_, .f32⟩
  | 78 => ⟨S50x128, .f32⟩
  | 79 => ⟨S50x128, .f32⟩
  | 80 => ⟨S_, .f32⟩
  | 81 => ⟨S50x128, .f32⟩
  | 82 => ⟨S100000x1, .i32⟩
  | 83 => ⟨S50x128, .f32⟩
  | 84 => ⟨S_, .f32⟩
  | 85 => ⟨S100000x1, .f32⟩
  | 86 => ⟨S_, .f32⟩
  | 87 => ⟨S50x1, .f32⟩
  | 88 => ⟨S100000x1, .i32⟩
  | 89 => ⟨S50x1, .f32⟩
  | 90 => ⟨S_, .f32⟩
  | 91 => ⟨S50x1, .f32⟩
  | 92 => ⟨S50x1, .f32⟩
  | 93 => ⟨S50x128, .f32⟩
  | 94 => ⟨S50x128, .f32⟩
  | 95 => ⟨S_, .f32⟩
  | 96 => ⟨S50x128, .f32⟩
  | 97 => ⟨S2000x1, .i32⟩
  | 98 => ⟨S50x128, .f32⟩
  | 99 => ⟨S_, .f32⟩
  | 100 => ⟨S2000x1, .f32⟩
  | 101 => ⟨S_, .f32⟩
  | 102 => ⟨S50x1, .f32⟩
  | 103 => ⟨S2000x1, .i32⟩
  | 104 => ⟨S50x1, .f32⟩
  | 105 => ⟨S_, .f32⟩
  | 106 => ⟨S50x1, .f32⟩
  | 107 => ⟨S50x1, .f32⟩
  | 108 => ⟨S50x128, .f32⟩
  | 109 => ⟨S50x128, .f32⟩
  | 110 => ⟨S50x384, .f32⟩
  | 111 => ⟨S50x128, .f32⟩
  | 112 => ⟨S1x128, .f32⟩
  | 113 => ⟨S50x128, .f32⟩
  | 114 => ⟨S50x128, .f32⟩
  | 115 => ⟨S_, .f32⟩
  | 116 => ⟨S50x128, .f32⟩
  | 117 => ⟨S50x128, .f32⟩
  | 118 => ⟨S50x2, .f32⟩
  | 119 => ⟨S1x2, .f32⟩
  | 120 => ⟨S50x2, .f32⟩
  | 121 => ⟨S50x2, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_c_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_call1_cst : Ref sig .tc := ⟨.hbm, 65, rfl⟩
abbrev main_call1_v0 : Ref sig .tc := ⟨.hbm, 66, rfl⟩
abbrev main_v13 : Ref sig .tc := ⟨.hbm, 67, rfl⟩
abbrev main_cst : Ref sig .tc := ⟨.hbm, 68, rfl⟩
abbrev main_v14 : Ref sig .tc := ⟨.hbm, 69, rfl⟩
abbrev main_cst_1 : Ref sig .tc := ⟨.hbm, 70, rfl⟩
abbrev main_v15 : Ref sig .tc := ⟨.hbm, 71, rfl⟩
abbrev main_c_2 : Ref sig .tc := ⟨.hbm, 72, rfl⟩
abbrev main_v16 : Ref sig .tc := ⟨.hbm, 73, rfl⟩
abbrev main_v17 : Ref sig .tc := ⟨.hbm, 74, rfl⟩
abbrev main_c_3 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_cst_4 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_5 : Ref sig .tc := ⟨.hbm, 85, rfl⟩
abbrev main_v26 : Ref sig .tc := ⟨.hbm, 86, rfl⟩
abbrev main_cst_6 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_cst_7 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_call2_cst : Ref sig .tc := ⟨.hbm, 108, rfl⟩
abbrev main_call2_v0 : Ref sig .tc := ⟨.hbm, 109, rfl⟩
abbrev main_v46 : Ref sig .tc := ⟨.hbm, 110, rfl⟩
abbrev main_c_8 : Ref sig .tc := ⟨.hbm, 111, rfl⟩
abbrev main_v47 : Ref sig .tc := ⟨.hbm, 112, rfl⟩
abbrev main_v48 : Ref sig .tc := ⟨.hbm, 113, rfl⟩
abbrev main_c_9 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_10 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_cst_11 : Ref sig .tc := ⟨.hbm, 124, rfl⟩
abbrev main_v57 : Ref sig .tc := ⟨.hbm, 125, rfl⟩
abbrev main_cst_12 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_cst_13 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_call3_cst : Ref sig .tc := ⟨.hbm, 147, rfl⟩
abbrev main_call3_v0 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_call4_cst : Ref sig .tc := ⟨.hbm, 158, rfl⟩
abbrev main_call4_v0 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_call5_cst : Ref sig .tc := ⟨.hbm, 169, rfl⟩
abbrev main_call5_v0 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_call6_cst : Ref sig .tc := ⟨.hbm, 180, rfl⟩
abbrev main_call6_v0 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_call7_cst : Ref sig .tc := ⟨.hbm, 191, rfl⟩
abbrev main_call7_v0 : Ref sig .tc := ⟨.hbm, 192, rfl⟩
abbrev main_v113 : Ref sig .tc := ⟨.hbm, 193, rfl⟩
abbrev main_cst_14 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_cst_15 : Ref sig .tc := ⟨.hbm, 198, rfl⟩
abbrev main_v117 : Ref sig .tc := ⟨.hbm, 199, rfl⟩
abbrev main_cst_16 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_cst_17 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_18 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_19 : Ref sig .tc := ⟨.hbm, 213, rfl⟩
abbrev main_v128 : Ref sig .tc := ⟨.hbm, 214, rfl⟩
abbrev main_cst_20 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_cst_21 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_c_22 : Ref sig .tc := ⟨.hbm, 225, rfl⟩
abbrev main_v137 : Ref sig .tc := ⟨.hbm, 226, rfl⟩
abbrev main_v138 : Ref sig .tc := ⟨.hbm, 227, rfl⟩
abbrev main_c_23 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_call8_cst : Ref sig .tc := ⟨.hbm, 239, rfl⟩
abbrev main_call8_v0 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_c_24 : Ref sig .tc := ⟨.hbm, 245, rfl⟩
abbrev main_v153 : Ref sig .tc := ⟨.hbm, 246, rfl⟩
abbrev main_v154 : Ref sig .tc := ⟨.hbm, 247, rfl⟩
abbrev main_c_25 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_call9_cst : Ref sig .tc := ⟨.hbm, 259, rfl⟩
abbrev main_call9_v0 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_call10_cst : Ref sig .tc := ⟨.hbm, 268, rfl⟩
abbrev main_call10_v0 : Ref sig .tc := ⟨.hbm, 269, rfl⟩
abbrev main_v172 : Ref sig .tc := ⟨.hbm, 270, rfl⟩
abbrev main_c_26 : Ref sig .tc := ⟨.hbm, 271, rfl⟩
abbrev main_v173 : Ref sig .tc := ⟨.hbm, 272, rfl⟩
abbrev main_v174 : Ref sig .tc := ⟨.hbm, 273, rfl⟩
abbrev main_c_27 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_cst_28 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_cst_29 : Ref sig .tc := ⟨.hbm, 284, rfl⟩
abbrev main_v183 : Ref sig .tc := ⟨.hbm, 285, rfl⟩
abbrev main_cst_30 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_cst_31 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_call11_cst : Ref sig .tc := ⟨.hbm, 307, rfl⟩
abbrev main_call11_v0 : Ref sig .tc := ⟨.hbm, 308, rfl⟩
abbrev main_v203 : Ref sig .tc := ⟨.hbm, 309, rfl⟩
abbrev main_c_32 : Ref sig .tc := ⟨.hbm, 310, rfl⟩
abbrev main_v204 : Ref sig .tc := ⟨.hbm, 311, rfl⟩
abbrev main_v205 : Ref sig .tc := ⟨.hbm, 312, rfl⟩
abbrev main_c_33 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_cst_34 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_cst_35 : Ref sig .tc := ⟨.hbm, 323, rfl⟩
abbrev main_v214 : Ref sig .tc := ⟨.hbm, 324, rfl⟩
abbrev main_cst_36 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_cst_37 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_call12_cst : Ref sig .tc := ⟨.hbm, 346, rfl⟩
abbrev main_call12_v0 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_call13_cst : Ref sig .tc := ⟨.hbm, 357, rfl⟩
abbrev main_call13_v0 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_call14_cst : Ref sig .tc := ⟨.hbm, 368, rfl⟩
abbrev main_call14_v0 : Ref sig .tc := ⟨.hbm, 369, rfl⟩
abbrev main_v252 : Ref sig .tc := ⟨.hbm, 370, rfl⟩
abbrev main_v253 : Ref sig .tc := ⟨.hbm, 371, rfl⟩
abbrev main_v254 : Ref sig .tc := ⟨.hbm, 372, rfl⟩
abbrev main_v255 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_call15_cst : Ref sig .tc := ⟨.hbm, 379, rfl⟩
abbrev main_call15_v0 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_v265 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_call16_cst : Ref sig .tc := ⟨.hbm, 390, rfl⟩
abbrev main_call16_v0 : Ref sig .tc := ⟨.hbm, 391, rfl⟩
abbrev main_v270 : Ref sig .tc := ⟨.hbm, 392, rfl⟩
abbrev main_cst_38 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_cst_39 : Ref sig .tc := ⟨.hbm, 397, rfl⟩
abbrev main_v274 : Ref sig .tc := ⟨.hbm, 398, rfl⟩
abbrev main_cst_40 : Ref sig .tc := ⟨.hbm, 399, rfl⟩
abbrev main_v275 : Ref sig .tc := ⟨.hbm, 400, rfl⟩
abbrev main_v276 : Ref sig .tc := ⟨.hbm, 401, rfl⟩
abbrev main_v277 : Ref sig .tc := ⟨.hbm, 402, rfl⟩
abbrev main_cst_41 : Ref sig .tc := ⟨.hbm, 403, rfl⟩
abbrev main_v278 : Ref sig .tc := ⟨.hbm, 404, rfl⟩
abbrev main_v279 : Ref sig .tc := ⟨.hbm, 405, rfl⟩
abbrev main_v280 : Ref sig .tc := ⟨.hbm, 406, rfl⟩
abbrev main_v281 : Ref sig .tc := ⟨.hbm, 407, rfl⟩
abbrev main_cst_42 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_cst_43 : Ref sig .tc := ⟨.hbm, 412, rfl⟩
abbrev main_v285 : Ref sig .tc := ⟨.hbm, 413, rfl⟩
abbrev main_cst_44 : Ref sig .tc := ⟨.hbm, 414, rfl⟩
abbrev main_v286 : Ref sig .tc := ⟨.hbm, 415, rfl⟩
abbrev main_v287 : Ref sig .tc := ⟨.hbm, 416, rfl⟩
abbrev main_v288 : Ref sig .tc := ⟨.hbm, 417, rfl⟩
abbrev main_cst_45 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_c_46 : Ref sig .tc := ⟨.hbm, 424, rfl⟩
abbrev main_v294 : Ref sig .tc := ⟨.hbm, 425, rfl⟩
abbrev main_v295 : Ref sig .tc := ⟨.hbm, 426, rfl⟩
abbrev main_c_47 : Ref sig .tc := ⟨.hbm, 427, rfl⟩
abbrev main_v296 : Ref sig .tc := ⟨.hbm, 428, rfl⟩
abbrev main_v297 : Ref sig .tc := ⟨.hbm, 429, rfl⟩
abbrev main_v298 : Ref sig .tc := ⟨.hbm, 430, rfl⟩
abbrev main_v299 : Ref sig .tc := ⟨.hbm, 431, rfl⟩
abbrev main_v300 : Ref sig .tc := ⟨.hbm, 432, rfl⟩
abbrev main_v301 : Ref sig .tc := ⟨.hbm, 433, rfl⟩
abbrev main_v302 : Ref sig .tc := ⟨.hbm, 434, rfl⟩
abbrev main_v303 : Ref sig .tc := ⟨.hbm, 435, rfl⟩
abbrev main_v304 : Ref sig .tc := ⟨.hbm, 436, rfl⟩
abbrev main_v305 : Ref sig .tc := ⟨.hbm, 437, rfl⟩
abbrev main_call17_cst : Ref sig .tc := ⟨.hbm, 438, rfl⟩
abbrev main_call17_v0 : Ref sig .tc := ⟨.hbm, 439, rfl⟩
abbrev main_v306 : Ref sig .tc := ⟨.hbm, 440, rfl⟩
abbrev main_v307 : Ref sig .tc := ⟨.hbm, 441, rfl⟩
abbrev main_v308 : Ref sig .tc := ⟨.hbm, 442, rfl⟩
abbrev main_v309 : Ref sig .tc := ⟨.hbm, 443, rfl⟩
abbrev main_c_48 : Ref sig .tc := ⟨.hbm, 444, rfl⟩
abbrev main_v310 : Ref sig .tc := ⟨.hbm, 445, rfl⟩
abbrev main_v311 : Ref sig .tc := ⟨.hbm, 446, rfl⟩
abbrev main_c_49 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_v316 : Ref sig .tc := ⟨.hbm, 452, rfl⟩
abbrev main_v317 : Ref sig .tc := ⟨.hbm, 453, rfl⟩
abbrev main_v318 : Ref sig .tc := ⟨.hbm, 454, rfl⟩
abbrev main_v319 : Ref sig .tc := ⟨.hbm, 455, rfl⟩
abbrev main_v320 : Ref sig .tc := ⟨.hbm, 456, rfl⟩
abbrev main_v321 : Ref sig .tc := ⟨.hbm, 457, rfl⟩
abbrev main_call18_cst : Ref sig .tc := ⟨.hbm, 458, rfl⟩
abbrev main_call18_v0 : Ref sig .tc := ⟨.hbm, 459, rfl⟩
abbrev main_v322 : Ref sig .tc := ⟨.hbm, 460, rfl⟩
abbrev main_v323 : Ref sig .tc := ⟨.hbm, 461, rfl⟩
abbrev main_v324 : Ref sig .tc := ⟨.hbm, 462, rfl⟩
abbrev main_v325 : Ref sig .tc := ⟨.hbm, 463, rfl⟩
abbrev main_v326 : Ref sig .tc := ⟨.hbm, 464, rfl⟩
abbrev main_v327 : Ref sig .tc := ⟨.hbm, 465, rfl⟩
abbrev main_v328 : Ref sig .tc := ⟨.hbm, 466, rfl⟩
abbrev main_call19_cst : Ref sig .tc := ⟨.hbm, 467, rfl⟩
abbrev main_call19_v0 : Ref sig .tc := ⟨.hbm, 468, rfl⟩
abbrev main_v329 : Ref sig .tc := ⟨.hbm, 469, rfl⟩
abbrev main_c_50 : Ref sig .tc := ⟨.hbm, 470, rfl⟩
abbrev main_v330 : Ref sig .tc := ⟨.hbm, 471, rfl⟩
abbrev main_v331 : Ref sig .tc := ⟨.hbm, 472, rfl⟩
abbrev main_c_51 : Ref sig .tc := ⟨.hbm, 473, rfl⟩
abbrev main_v332 : Ref sig .tc := ⟨.hbm, 474, rfl⟩
abbrev main_v333 : Ref sig .tc := ⟨.hbm, 475, rfl⟩
abbrev main_v334 : Ref sig .tc := ⟨.hbm, 476, rfl⟩
abbrev main_v335 : Ref sig .tc := ⟨.hbm, 477, rfl⟩
abbrev main_v336 : Ref sig .tc := ⟨.hbm, 478, rfl⟩
abbrev main_cst_52 : Ref sig .tc := ⟨.hbm, 479, rfl⟩
abbrev main_v337 : Ref sig .tc := ⟨.hbm, 480, rfl⟩
abbrev main_v338 : Ref sig .tc := ⟨.hbm, 481, rfl⟩
abbrev main_v339 : Ref sig .tc := ⟨.hbm, 482, rfl⟩
abbrev main_cst_53 : Ref sig .tc := ⟨.hbm, 483, rfl⟩
abbrev main_v340 : Ref sig .tc := ⟨.hbm, 484, rfl⟩
abbrev main_cst_54 : Ref sig .tc := ⟨.hbm, 485, rfl⟩
abbrev main_v341 : Ref sig .tc := ⟨.hbm, 486, rfl⟩
abbrev main_v342 : Ref sig .tc := ⟨.hbm, 487, rfl⟩
abbrev main_v343 : Ref sig .tc := ⟨.hbm, 488, rfl⟩
abbrev main_cst_55 : Ref sig .tc := ⟨.hbm, 489, rfl⟩
abbrev main_v344 : Ref sig .tc := ⟨.hbm, 490, rfl⟩
abbrev main_v345 : Ref sig .tc := ⟨.hbm, 491, rfl⟩
abbrev main_v346 : Ref sig .tc := ⟨.hbm, 492, rfl⟩
abbrev main_v347 : Ref sig .tc := ⟨.hbm, 493, rfl⟩
abbrev main_v348 : Ref sig .tc := ⟨.hbm, 494, rfl⟩
abbrev main_v349 : Ref sig .tc := ⟨.hbm, 495, rfl⟩
abbrev main_v350 : Ref sig .tc := ⟨.hbm, 496, rfl⟩
abbrev main_v351 : Ref sig .tc := ⟨.hbm, 497, rfl⟩
abbrev main_v352 : Ref sig .tc := ⟨.hbm, 498, rfl⟩
abbrev main_v353 : Ref sig .tc := ⟨.hbm, 499, rfl⟩
abbrev main_v354 : Ref sig .tc := ⟨.hbm, 500, rfl⟩
abbrev main_v355 : Ref sig .tc := ⟨.hbm, 501, rfl⟩
abbrev main_v356 : Ref sig .tc := ⟨.hbm, 502, rfl⟩
abbrev main_v357 : Ref sig .tc := ⟨.hbm, 503, rfl⟩
abbrev main_v358 : Ref sig .tc := ⟨.hbm, 504, rfl⟩
abbrev main_v359 : Ref sig .tc := ⟨.hbm, 505, rfl⟩
abbrev main_call20_cst : Ref sig .tc := ⟨.hbm, 506, rfl⟩
abbrev main_call20_v0 : Ref sig .tc := ⟨.hbm, 507, rfl⟩
abbrev main_v360 : Ref sig .tc := ⟨.hbm, 508, rfl⟩
abbrev main_c_56 : Ref sig .tc := ⟨.hbm, 509, rfl⟩
abbrev main_v361 : Ref sig .tc := ⟨.hbm, 510, rfl⟩
abbrev main_v362 : Ref sig .tc := ⟨.hbm, 511, rfl⟩
abbrev main_c_57 : Ref sig .tc := ⟨.hbm, 512, rfl⟩
abbrev main_v363 : Ref sig .tc := ⟨.hbm, 513, rfl⟩
abbrev main_v364 : Ref sig .tc := ⟨.hbm, 514, rfl⟩
abbrev main_v365 : Ref sig .tc := ⟨.hbm, 515, rfl⟩
abbrev main_v366 : Ref sig .tc := ⟨.hbm, 516, rfl⟩
abbrev main_v367 : Ref sig .tc := ⟨.hbm, 517, rfl⟩
abbrev main_cst_58 : Ref sig .tc := ⟨.hbm, 518, rfl⟩
abbrev main_v368 : Ref sig .tc := ⟨.hbm, 519, rfl⟩
abbrev main_v369 : Ref sig .tc := ⟨.hbm, 520, rfl⟩
abbrev main_v370 : Ref sig .tc := ⟨.hbm, 521, rfl⟩
abbrev main_cst_59 : Ref sig .tc := ⟨.hbm, 522, rfl⟩
abbrev main_v371 : Ref sig .tc := ⟨.hbm, 523, rfl⟩
abbrev main_cst_60 : Ref sig .tc := ⟨.hbm, 524, rfl⟩
abbrev main_v372 : Ref sig .tc := ⟨.hbm, 525, rfl⟩
abbrev main_v373 : Ref sig .tc := ⟨.hbm, 526, rfl⟩
abbrev main_v374 : Ref sig .tc := ⟨.hbm, 527, rfl⟩
abbrev main_cst_61 : Ref sig .tc := ⟨.hbm, 528, rfl⟩
abbrev main_v375 : Ref sig .tc := ⟨.hbm, 529, rfl⟩
abbrev main_v376 : Ref sig .tc := ⟨.hbm, 530, rfl⟩
abbrev main_v377 : Ref sig .tc := ⟨.hbm, 531, rfl⟩
abbrev main_v378 : Ref sig .tc := ⟨.hbm, 532, rfl⟩
abbrev main_v379 : Ref sig .tc := ⟨.hbm, 533, rfl⟩
abbrev main_v380 : Ref sig .tc := ⟨.hbm, 534, rfl⟩
abbrev main_v381 : Ref sig .tc := ⟨.hbm, 535, rfl⟩
abbrev main_v382 : Ref sig .tc := ⟨.hbm, 536, rfl⟩
abbrev main_v383 : Ref sig .tc := ⟨.hbm, 537, rfl⟩
abbrev main_v384 : Ref sig .tc := ⟨.hbm, 538, rfl⟩
abbrev main_v385 : Ref sig .tc := ⟨.hbm, 539, rfl⟩
abbrev main_v386 : Ref sig .tc := ⟨.hbm, 540, rfl⟩
abbrev main_v387 : Ref sig .tc := ⟨.hbm, 541, rfl⟩
abbrev main_v388 : Ref sig .tc := ⟨.hbm, 542, rfl⟩
abbrev main_v389 : Ref sig .tc := ⟨.hbm, 543, rfl⟩
abbrev main_v390 : Ref sig .tc := ⟨.hbm, 544, rfl⟩
abbrev main_call21_cst : Ref sig .tc := ⟨.hbm, 545, rfl⟩
abbrev main_call21_v0 : Ref sig .tc := ⟨.hbm, 546, rfl⟩
abbrev main_v391 : Ref sig .tc := ⟨.hbm, 547, rfl⟩
abbrev main_v392 : Ref sig .tc := ⟨.hbm, 548, rfl⟩
abbrev main_v393 : Ref sig .tc := ⟨.hbm, 549, rfl⟩
abbrev main_v394 : Ref sig .tc := ⟨.hbm, 550, rfl⟩
abbrev main_v395 : Ref sig .tc := ⟨.hbm, 551, rfl⟩
abbrev main_v396 : Ref sig .tc := ⟨.hbm, 552, rfl⟩
abbrev main_v397 : Ref sig .tc := ⟨.hbm, 553, rfl⟩
abbrev main_v398 : Ref sig .tc := ⟨.hbm, 554, rfl⟩
abbrev main_v399 : Ref sig .tc := ⟨.hbm, 555, rfl⟩
abbrev main_call22_cst : Ref sig .tc := ⟨.hbm, 556, rfl⟩
abbrev main_call22_v0 : Ref sig .tc := ⟨.hbm, 557, rfl⟩
abbrev main_v400 : Ref sig .tc := ⟨.hbm, 558, rfl⟩
abbrev main_v401 : Ref sig .tc := ⟨.hbm, 559, rfl⟩
abbrev main_v402 : Ref sig .tc := ⟨.hbm, 560, rfl⟩
abbrev main_v403 : Ref sig .tc := ⟨.hbm, 561, rfl⟩
abbrev main_v404 : Ref sig .tc := ⟨.hbm, 562, rfl⟩
abbrev main_v405 : Ref sig .tc := ⟨.hbm, 563, rfl⟩
abbrev main_v406 : Ref sig .tc := ⟨.hbm, 564, rfl⟩
abbrev main_v407 : Ref sig .tc := ⟨.hbm, 565, rfl⟩
abbrev main_v408 : Ref sig .tc := ⟨.hbm, 566, rfl⟩
abbrev main_call23_cst : Ref sig .tc := ⟨.hbm, 567, rfl⟩
abbrev main_call23_v0 : Ref sig .tc := ⟨.hbm, 568, rfl⟩
abbrev main_v409 : Ref sig .tc := ⟨.hbm, 569, rfl⟩
abbrev main_v410 : Ref sig .tc := ⟨.hbm, 570, rfl⟩
abbrev main_v411 : Ref sig .tc := ⟨.hbm, 571, rfl⟩
abbrev main_v412 : Ref sig .tc := ⟨.hbm, 572, rfl⟩
abbrev main_v413 : Ref sig .tc := ⟨.hbm, 573, rfl⟩
abbrev main_v414 : Ref sig .tc := ⟨.hbm, 574, rfl⟩
abbrev main_v415 : Ref sig .tc := ⟨.hbm, 575, rfl⟩
abbrev main_v416 : Ref sig .tc := ⟨.hbm, 576, rfl⟩
abbrev main_v417 : Ref sig .tc := ⟨.hbm, 577, rfl⟩
abbrev main_call24_cst : Ref sig .tc := ⟨.hbm, 578, rfl⟩
abbrev main_call24_v0 : Ref sig .tc := ⟨.hbm, 579, rfl⟩
abbrev main_v418 : Ref sig .tc := ⟨.hbm, 580, rfl⟩
abbrev main_v419 : Ref sig .tc := ⟨.hbm, 581, rfl⟩
abbrev main_v420 : Ref sig .tc := ⟨.hbm, 582, rfl⟩
abbrev main_v421 : Ref sig .tc := ⟨.hbm, 583, rfl⟩
abbrev main_v422 : Ref sig .tc := ⟨.hbm, 584, rfl⟩
abbrev main_v423 : Ref sig .tc := ⟨.hbm, 585, rfl⟩
abbrev main_v424 : Ref sig .tc := ⟨.hbm, 586, rfl⟩
abbrev main_v425 : Ref sig .tc := ⟨.hbm, 587, rfl⟩
abbrev main_v426 : Ref sig .tc := ⟨.hbm, 588, rfl⟩
abbrev main_call25_cst : Ref sig .tc := ⟨.hbm, 589, rfl⟩
abbrev main_call25_v0 : Ref sig .tc := ⟨.hbm, 590, rfl⟩
abbrev main_v427 : Ref sig .tc := ⟨.hbm, 591, rfl⟩
abbrev main_cst_62 : Ref sig .tc := ⟨.hbm, 592, rfl⟩
abbrev main_v428 : Ref sig .tc := ⟨.hbm, 593, rfl⟩
abbrev main_v429 : Ref sig .tc := ⟨.hbm, 594, rfl⟩
abbrev main_v430 : Ref sig .tc := ⟨.hbm, 595, rfl⟩
abbrev main_cst_63 : Ref sig .tc := ⟨.hbm, 596, rfl⟩
abbrev main_v431 : Ref sig .tc := ⟨.hbm, 597, rfl⟩
abbrev main_cst_64 : Ref sig .tc := ⟨.hbm, 598, rfl⟩
abbrev main_v432 : Ref sig .tc := ⟨.hbm, 599, rfl⟩
abbrev main_v433 : Ref sig .tc := ⟨.hbm, 600, rfl⟩
abbrev main_v434 : Ref sig .tc := ⟨.hbm, 601, rfl⟩
abbrev main_cst_65 : Ref sig .tc := ⟨.hbm, 602, rfl⟩
abbrev main_v435 : Ref sig .tc := ⟨.hbm, 603, rfl⟩
abbrev main_v436 : Ref sig .tc := ⟨.hbm, 604, rfl⟩
abbrev main_v437 : Ref sig .tc := ⟨.hbm, 605, rfl⟩
abbrev main_v438 : Ref sig .tc := ⟨.hbm, 606, rfl⟩
abbrev main_cst_66 : Ref sig .tc := ⟨.hbm, 607, rfl⟩
abbrev main_v439 : Ref sig .tc := ⟨.hbm, 608, rfl⟩
abbrev main_v440 : Ref sig .tc := ⟨.hbm, 609, rfl⟩
abbrev main_v441 : Ref sig .tc := ⟨.hbm, 610, rfl⟩
abbrev main_cst_67 : Ref sig .tc := ⟨.hbm, 611, rfl⟩
abbrev main_v442 : Ref sig .tc := ⟨.hbm, 612, rfl⟩
abbrev main_cst_68 : Ref sig .tc := ⟨.hbm, 613, rfl⟩
abbrev main_v443 : Ref sig .tc := ⟨.hbm, 614, rfl⟩
abbrev main_v444 : Ref sig .tc := ⟨.hbm, 615, rfl⟩
abbrev main_v445 : Ref sig .tc := ⟨.hbm, 616, rfl⟩
abbrev main_cst_69 : Ref sig .tc := ⟨.hbm, 617, rfl⟩
abbrev main_v446 : Ref sig .tc := ⟨.hbm, 618, rfl⟩
abbrev main_v447 : Ref sig .tc := ⟨.hbm, 619, rfl⟩
abbrev main_v448 : Ref sig .tc := ⟨.hbm, 620, rfl⟩
abbrev main_v449 : Ref sig .tc := ⟨.hbm, 621, rfl⟩
abbrev main_v450 : Ref sig .tc := ⟨.hbm, 622, rfl⟩
abbrev main_v451 : Ref sig .tc := ⟨.hbm, 623, rfl⟩
abbrev main_v452 : Ref sig .tc := ⟨.hbm, 624, rfl⟩
abbrev main_v453 : Ref sig .tc := ⟨.hbm, 625, rfl⟩
abbrev main_v454 : Ref sig .tc := ⟨.hbm, 626, rfl⟩
abbrev main_call26_cst : Ref sig .tc := ⟨.hbm, 627, rfl⟩
abbrev main_call26_v0 : Ref sig .tc := ⟨.hbm, 628, rfl⟩
abbrev main_v455 : Ref sig .tc := ⟨.hbm, 629, rfl⟩
abbrev main_v456 : Ref sig .tc := ⟨.hbm, 630, rfl⟩
abbrev main_v457 : Ref sig .tc := ⟨.hbm, 631, rfl⟩
abbrev main_v458 : Ref sig .tc := ⟨.hbm, 632, rfl⟩
abbrev main_v459 : Ref sig .tc := ⟨.hbm, 633, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S_S2000 : S_.BroadcastsInDim S2000 (![] : Fin 0 → Fin S2000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S2000x128 : S_.BroadcastsInDim S2000x128 (![] : Fin 0 → Fin S2000x128.rank)
  bcast_S_S50x128 : S_.BroadcastsInDim S50x128 (![] : Fin 0 → Fin S50x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S1x128_S2000x128_0_1 : S1x128.BroadcastsInDim S2000x128 (![0, 1] : Fin 2 → Fin S2000x128.rank)
  bcast_S1x128_S50x128_0_1 : S1x128.BroadcastsInDim S50x128 (![0, 1] : Fin 2 → Fin S50x128.rank)
  bcast_S100000_S100000x1_0 : S100000.BroadcastsInDim S100000x1 (![0] : Fin 1 → Fin S100000x1.rank)
  bcast_S_S2000x1 : S_.BroadcastsInDim S2000x1 (![] : Fin 0 → Fin S2000x1.rank)
  bcast_S2000x1_S2000x128_0_1 : S2000x1.BroadcastsInDim S2000x128 (![0, 1] : Fin 2 → Fin S2000x128.rank)
  bcast_S2000_S2000x1_0 : S2000.BroadcastsInDim S2000x1 (![0] : Fin 1 → Fin S2000x1.rank)
  bcast_S_S50x1 : S_.BroadcastsInDim S50x1 (![] : Fin 0 → Fin S50x1.rank)
  bcast_S50x1_S50x128_0_1 : S50x1.BroadcastsInDim S50x128 (![0, 1] : Fin 2 → Fin S50x128.rank)
  concatenates_S50x128_S50x128_S50x128_S50x384_d1 : Shape.Concatenates [S50x128, S50x128, S50x128] S50x384 1
  bcast_S2_S1x2_1 : S2.BroadcastsInDim S1x2 (![1] : Fin 1 → Fin S1x2.rank)
  bcast_S1x2_S50x2_0_1 : S1x2.BroadcastsInDim S50x2 (![0, 1] : Fin 2 → Fin S50x2.rank)
  dot_S100000x64_S64x128_S100000x128_1_0_0_1_n_n_wf : DotDims.WF S100000x64 S64x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  dot_S2000x128_S128x128_S2000x128_1_0_0_1_n_n_wf : DotDims.WF S2000x128 S128x128 S2000x128 [1] [0] [0] [1] [] []
  dot_S50x128_S128x128_S50x128_1_0_0_1_n_n_wf : DotDims.WF S50x128 S128x128 S50x128 [1] [0] [0] [1] [] []
  scatter_S2000x128_S100000x1_S100000x128_1_0_0_1_wf : ScatterDims.WF S2000x128 S100000x1 S100000x128 [1] [0] [0] 1
  scatter_S2000x1_S100000x1_S100000x1_1_0_0_1_wf : ScatterDims.WF S2000x1 S100000x1 S100000x1 [1] [0] [0] 1
  scatter_S50x128_S2000x1_S2000x128_1_0_0_1_wf : ScatterDims.WF S50x128 S2000x1 S2000x128 [1] [0] [0] 1
  scatter_S50x1_S2000x1_S2000x1_1_0_0_1_wf : ScatterDims.WF S50x1 S2000x1 S2000x1 [1] [0] [0] 1
  gather_S2000x128_S100000x1_S100000x128_1_0_n_n_0_1_1128_wf : GatherDims.WF S2000x128 S100000x1 S100000x128 [1] [0] [] [0] [] 1 ![1, 128]
  gather_S50x128_S2000x1_S2000x128_1_0_n_n_0_1_1128_wf : GatherDims.WF S50x128 S2000x1 S2000x128 [1] [0] [] [0] [] 1 ![1, 128]
  scatter_S50x128_S100000x1_S100000x128_1_0_0_1_wf : ScatterDims.WF S50x128 S100000x1 S100000x128 [1] [0] [0] 1
  scatter_S50x1_S100000x1_S100000x1_1_0_0_1_wf : ScatterDims.WF S50x1 S100000x1 S100000x1 [1] [0] [0] 1
  dot_S50x384_S384x128_S50x128_1_0_0_1_n_n_wf : DotDims.WF S50x384 S384x128 S50x128 [1] [0] [0] [1] [] []
  dot_S50x128_S128x2_S50x2_1_0_0_1_n_n_wf : DotDims.WF S50x128 S128x2 S50x2 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S50x128_S128x128_S50x128_1_0_0_1_n_n : DotDims S50x128 S128x128 S50x128 where
  lhsContracting := [1]
  rhsContracting := [0]
  lhsNonContracting := [0]
  rhsNonContracting := [1]
  lhsBatch := []
  rhsBatch := []
  wf := dot_S50x128_S128x128_S50x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def scatter_S50x128_S2000x1_S2000x128_1_0_0_1 : ScatterDims S50x128 S2000x1 S2000x128 where
  updateWindowDims := [1]
  insertedWindowDims := [0]
  scatterDimsToOperandDims := [0]
  indexVectorDim := 1
  wf := scatter_S50x128_S2000x1_S2000x128_1_0_0_1_wf
def scatter_S50x1_S2000x1_S2000x1_1_0_0_1 : ScatterDims S50x1 S2000x1 S2000x1 where
  updateWindowDims := [1]
  insertedWindowDims := [0]
  scatterDimsToOperandDims := [0]
  indexVectorDim := 1
  wf := scatter_S50x1_S2000x1_S2000x1_1_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def gather_S50x128_S2000x1_S2000x128_1_0_n_n_0_1_1128 : GatherDims S50x128 S2000x1 S2000x128 where
  offsetDims := [1]
  collapsedSliceDims := [0]
  operandBatchingDims := []
  startIndicesBatchingDims := []
  startIndexMap := [0]
  indexVectorDim := 1
  sliceSizes := ![1, 128]
  wf := gather_S50x128_S2000x1_S2000x128_1_0_n_n_0_1_1128_wf
def scatter_S50x128_S100000x1_S100000x128_1_0_0_1 : ScatterDims S50x128 S100000x1 S100000x128 where
  updateWindowDims := [1]
  insertedWindowDims := [0]
  scatterDimsToOperandDims := [0]
  indexVectorDim := 1
  wf := scatter_S50x128_S100000x1_S100000x128_1_0_0_1_wf
def scatter_S50x1_S100000x1_S100000x1_1_0_0_1 : ScatterDims S50x1 S100000x1 S100000x1 where
  updateWindowDims := [1]
  insertedWindowDims := [0]
  scatterDimsToOperandDims := [0]
  indexVectorDim := 1
  wf := scatter_S50x1_S100000x1_S100000x1_1_0_0_1_wf
def dot_S50x384_S384x128_S50x128_1_0_0_1_n_n : DotDims S50x384 S384x128 S50x128 where
  lhsContracting := [1]
  rhsContracting := [0]
  lhsNonContracting := [0]
  rhsNonContracting := [1]
  lhsBatch := []
  rhsBatch := []
  wf := dot_S50x384_S384x128_S50x128_1_0_0_1_n_n_wf
def dot_S50x128_S128x2_S50x2_1_0_0_1_n_n : DotDims S50x128 S128x2 S50x2 where
  lhsContracting := [1]
  rhsContracting := [0]
  lhsNonContracting := [0]
  rhsNonContracting := [1]
  lhsBatch := []
  rhsBatch := []
  wf := dot_S50x128_S128x2_S50x2_1_0_0_1_n_n_wf

class Facts : Prop extends Facts₀ where

variable [Facts]
-- ==== Proof.KB.BodyDef0.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: the dense layer relu(x W + b) on a row tile, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose
    array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is a whole block -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-! ## What the body leaves in the output window's buffer -/

/-- Window 3's staging buffer after the body, from the input windows' blocks: its one store, of the whole block. -/
def out0_3 (x0 : Vec F S5000x64 .f32) (x1 : Vec F S64x128 .f32) (x2 : Vec F S1x128 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

end Cert.Kernel.Hand
-- ==== Proof.KB.BodyDef1.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 1: the dense layer relu(x W1 + y W2 + b) on a row tile, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not, for any proof data whose
    array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is a whole block -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 5's staging buffer after the body, from the input windows' blocks: its one store, of the whole block. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_0, k1_pay1 (View.ld x0 r1_0) (View.ld x2 r1_1) (View.ld x1 r1_0) (View.ld x3 r1_1) (View.ld x4 r1_2)⟩]

/-- The one store covers the buffer. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The pipeline's proof data -/

/-- The proof data of pipeline 1 on core `c`: the arrays as the region finds them (`V`); after the body at point `t`
    each input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

end Cert.Kernel.Hand
-- ==== Proof.KB.BodyDef2.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 2: the dense layer relu(x W1 + y W2 + b) on a row tile, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not, for any proof data whose
    array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same of input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The same of input window 3. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The same of input window 4. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every one is a whole block -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 5's staging buffer after the body, from the input windows' blocks: its one store, of the whole block. -/
def out2_5 (x0 : Vec F S5000x128 .f32) (x1 : Vec F S5000x128 .f32) (x2 : Vec F S128x128 .f32) (x3 : Vec F S128x128 .f32) (x4 : Vec F S1x128 .f32) : Vec F S5000x128 .f32 :=
  View.canon [⟨r2_0, k2_pay1 (View.ld x0 r2_0) (View.ld x2 r2_1) (View.ld x1 r2_0) (View.ld x3 r2_1) (View.ld x4 r2_2)⟩]

/-- The one store covers the buffer. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Cert.Kernel.Hand
-- ==== Proof.KB.BodyDef3.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 3: the dense layer relu(x W + b) on a row tile, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not, for any proof data whose
    array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one is a whole block -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 3's staging buffer after the body, from the input windows' blocks: its one store, of the whole block. -/
def out3_3 (x0 : Vec F S2000x128 .f32) (x1 : Vec F S128x128 .f32) (x2 : Vec F S1x128 .f32) : Vec F S2000x128 .f32 :=
  View.canon [⟨r3_0, k3_pay1 (View.ld x0 r3_0) (View.ld x1 r3_1) (View.ld x2 r3_2)⟩]

/-- The one store covers the buffer. -/
theorem cover3_3 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The pipeline's proof data -/

/-- The proof data of pipeline 3 on core `c`: the arrays as the region finds them (`V`); after the body at point `t`
    each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.Kernel.Hand
-- ==== Proof.KB.BodyDef4.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 4: the dense layer relu(x W + b) on a row tile, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not, for any proof data whose
    array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every one is a whole block -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 3's staging buffer after the body, from the input windows' blocks: its one store, of the whole block. -/
def out4_3 (x0 : Vec F S2000x128 .f32) (x1 : Vec F S128x128 .f32) (x2 : Vec F S1x128 .f32) : Vec F S2000x128 .f32 :=
  View.canon [⟨r4_0, k4_pay1 (View.ld x0 r4_0) (View.ld x1 r4_1) (View.ld x2 r4_2)⟩]

/-- The one store covers the buffer. -/
theorem cover4_3 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The pipeline's proof data -/

/-- The proof data of pipeline 4 on core `c`: the arrays as the region finds them (`V`); after the body at point `t`
    each input's buffer at its block and the output's at `out4_3` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

end Cert.Kernel.Hand
-- ==== Proof.KB.BodyDef5.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 5: the dense layer relu(x W + b) on a row tile, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not, for any proof data whose
    array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every one is a whole block -/

abbrev r5_0 : Rect S50x128 := Rect.unit (s := S50x128) ![0, 0] S50x128.size inb_S50x128_S50x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in the output window's buffer -/

/-- Window 3's staging buffer after the body, from the input windows' blocks: its one store, of the whole block. -/
def out5_3 (x0 : Vec F S50x128 .f32) (x1 : Vec F S128x128 .f32) (x2 : Vec F S1x128 .f32) : Vec F S50x128 .f32 :=
  View.canon [⟨r5_0, k5_pay1 (View.ld x0 r5_0) (View.ld x1 r5_1) (View.ld x2 r5_2)⟩]

/-- The one store covers the buffer. -/
theorem cover5_3 (p0 : Vec F S50x128 .f32) (y : S50x128.Idx) :
    ∃ pc ∈ ([⟨r5_0, p0⟩] : List (View.Piece (Elt F) S50x128 .f32)), y ∈ pc.1.set :=
  View.cover_of_tiled [⟨r5_0, p0⟩] S50x128.size (by rfl) y

/-! ## The pipeline's proof data -/

/-- The proof data of pipeline 5 on core `c`: the arrays as the region finds them (`V`); after the body at point `t`
    each input's buffer at its block and the output's at `out5_3` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

end Cert.Kernel.Hand
-- ==== Proof.KB.BodyDef6.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 6: the dense layer relu(x W + b) on a row tile, at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not, for any proof data whose
    array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same of input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same of input window 2. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every one is a whole block -/

abbrev r6_0 : Rect S50x128 := Rect.unit (s := S50x128) ![0, 0] S50x128.size inb_S50x128_S50x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in the output window's buffer -/

/-- Window 3's staging buffer after the body, from the input windows' blocks: its one store, of the whole block. -/
def out6_3 (x0 : Vec F S50x128 .f32) (x1 : Vec F S128x128 .f32) (x2 : Vec F S1x128 .f32) : Vec F S50x128 .f32 :=
  View.canon [⟨r6_0, k6_pay1 (View.ld x0 r6_0) (View.ld x1 r6_1) (View.ld x2 r6_2)⟩]

/-- The one store covers the buffer. -/
theorem cover6_3 (p0 : Vec F S50x128 .f32) (y : S50x128.Idx) :
    ∃ pc ∈ ([⟨r6_0, p0⟩] : List (View.Piece (Elt F) S50x128 .f32)), y ∈ pc.1.set :=
  View.cover_of_tiled [⟨r6_0, p0⟩] S50x128.size (by rfl) y

/-! ## The pipeline's proof data -/

/-- The proof data of pipeline 6 on core `c`: the arrays as the region finds them (`V`); after the body at point `t`
    each input's buffer at its block and the output's at `out6_3` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

end Cert.Kernel.Hand
-- ==== Proof.KB.BodyDef7.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 7: the dense layer relu(x W1 + y W2 + b) on a row tile, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not, for any proof data whose
    array is `V`'s and whose body leaves the block in place: unfetched, the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same of input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same of input window 2. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- The same of input window 3. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- The same of input window 4. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every one is a whole block -/

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

/-! ## What the body leaves in the output window's buffer -/

/-- Window 5's staging buffer after the body, from the input windows' blocks: its one store, of the whole block. -/
def out7_5 (x0 : Vec F S5000x128 .f32) (x1 : Vec F S5000x128 .f32) (x2 : Vec F S128x128 .f32) (x3 : Vec F S128x128 .f32) (x4 : Vec F S1x128 .f32) : Vec F S5000x128 .f32 :=
  View.canon [⟨r7_0, k7_pay1 (View.ld x0 r7_0) (View.ld x2 r7_1) (View.ld x1 r7_0) (View.ld x3 r7_1) (View.ld x4 r7_2)⟩]

/-- The one store covers the buffer. -/
theorem cover7_5 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The pipeline's proof data -/

/-- The proof data of pipeline 7 on core `c`: the arrays as the region finds them (`V`); after the body at point `t`
    each input's buffer at its block and the output's at `out7_5` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

end Cert.Kernel.Hand
-- ==== Proof.KB.BodyDef8.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 8: the dense layer relu(x W1 + y W2 + z W3 + b) on a row tile, at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not, for any proof data whose
    array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same of input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The same of input window 2. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- The same of input window 3. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- The same of input window 4. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- The same of input window 5. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- The same of input window 6. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every one is a whole block -/

abbrev r8_0 : Rect S2000x128 := Rect.unit (s := S2000x128) ![0, 0] S2000x128.size inb_S2000x128_S2000x128_0_0
abbrev r8_1 : Rect S128x128 := Rect.unit (s := S128x128) ![0, 0] S128x128.size inb_S128x128_S128x128_0_0
abbrev r8_2 : Rect S1x128 := Rect.unit (s := S1x128) ![0, 0] S1x128.size inb_S1x128_S1x128_0_0

/-! ## What the body leaves in the output window's buffer -/

/-- Window 7's staging buffer after the body, from the input windows' blocks: its one store, of the whole block. -/
def out8_7 (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) : Vec F S2000x128 .f32 :=
  View.canon [⟨r8_0, k8_pay1 (View.ld x0 r8_0) (View.ld x3 r8_1) (View.ld x1 r8_0) (View.ld x4 r8_1) (View.ld x2 r8_0) (View.ld x5 r8_1) (View.ld x6 r8_2)⟩]

/-- The one store covers the buffer. -/
theorem cover8_7 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The pipeline's proof data -/

/-- The proof data of pipeline 8 on core `c`: the arrays as the region finds them (`V`); after the body at point `t`
    each input's buffer at its block and the output's at `out8_7` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

end Cert.Kernel.Hand
-- ==== Proof.KB.BodyDef9.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 9: the dense layer relu(x W1 + y W2 + b) on a row tile, at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not, for any proof data whose
    array is `V`'s and whose body leaves the block in place: unfetched, the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same of input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same of input window 2. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same of input window 3. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- The same of input window 4. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every one is a whole block -/

abbrev r9_0 : Rect S50x128 := Rect.unit (s := S50x128) ![0, 0] S50x128.size inb_S50x128_S50x128_0_0
abbrev r9_1 : Rect S128x128 := Rect.unit (s := S128x128) ![0, 0] S128x128.size inb_S128x128_S128x128_0_0
abbrev r9_2 : Rect S1x128 := Rect.unit (s := S1x128) ![0, 0] S1x128.size inb_S1x128_S1x128_0_0

/-! ## What the body leaves in the output window's buffer -/

/-- Window 5's staging buffer after the body, from the input windows' blocks: its one store, of the whole block. -/
def out9_5 (x0 : Vec F S50x128 .f32) (x1 : Vec F S50x128 .f32) (x2 : Vec F S128x128 .f32) (x3 : Vec F S128x128 .f32) (x4 : Vec F S1x128 .f32) : Vec F S50x128 .f32 :=
  View.canon [⟨r9_0, k9_pay1 (View.ld x0 r9_0) (View.ld x2 r9_1) (View.ld x1 r9_0) (View.ld x3 r9_1) (View.ld x4 r9_2)⟩]

/-- The one store covers the buffer. -/
theorem cover9_5 (p0 : Vec F S50x128 .f32) (y : S50x128.Idx) :
    ∃ pc ∈ ([⟨r9_0, p0⟩] : List (View.Piece (Elt F) S50x128 .f32)), y ∈ pc.1.set :=
  View.cover_of_tiled [⟨r9_0, p0⟩] S50x128.size (by rfl) y

/-! ## The pipeline's proof data -/

/-- The proof data of pipeline 9 on core `c`: the arrays as the region finds them (`V`); after the body at point `t`
    each input's buffer at its block and the output's at `out9_5` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

end Cert.Kernel.Hand
-- ==== Proof.KB.BodyDef10.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 10: the dense layer relu(x W1 + y W2 + b) on a row tile, at the entry contents `V` -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not, for any proof data whose
    array is `V`'s and whose body leaves the block in place: unfetched, the block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same of input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same of input window 2. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- The same of input window 3. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- The same of input window 4. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: every one is a whole block -/

abbrev r10_0 : Rect S5000x128 := Rect.unit (s := S5000x128) ![0, 0] S5000x128.size inb_S5000x128_S5000x128_0_0
abbrev r10_1 : Rect S128x128 := Rect.unit (s := S128x128) ![0, 0] S128x128.size inb_S128x128_S128x128_0_0
abbrev r10_2 : Rect S1x128 := Rect.unit (s := S1x128) ![0, 0] S1x128.size inb_S1x128_S1x128_0_0

/-! ## What the body leaves in the output window's buffer -/

/-- Window 5's staging buffer after the body, from the input windows' blocks: its one store, of the whole block. -/
def out10_5 (x0 : Vec F S5000x128 .f32) (x1 : Vec F S5000x128 .f32) (x2 : Vec F S128x128 .f32) (x3 : Vec F S128x128 .f32) (x4 : Vec F S1x128 .f32) : Vec F S5000x128 .f32 :=
  View.canon [⟨r10_0, k10_pay1 (View.ld x0 r10_0) (View.ld x2 r10_1) (View.ld x1 r10_0) (View.ld x3 r10_1) (View.ld x4 r10_2)⟩]

/-- The one store covers the buffer. -/
theorem cover10_5 (p0 : Vec F S5000x128 .f32) (y : S5000x128.Idx) :
    ∃ pc ∈ ([⟨r10_0, p0⟩] : List (View.Piece (Elt F) S5000x128 .f32)), y ∈ pc.1.set :=
  View.cover_of_tiled [⟨r10_0, p0⟩] S5000x128.size (by rfl) y

/-! ## The pipeline's proof data -/

/-- The proof data of pipeline 10 on core `c`: the arrays as the region finds them (`V`); after the body at point `t`
    each input's buffer at its block and the output's at `out10_5` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

end Cert.Kernel.Hand
-- ==== Proof.KB.BodyDef11.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 11: the dense layer relu(x W1 + y W2 + b) on a row tile, at the entry contents `V` -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not, for any proof data whose
    array is `V`'s and whose body leaves the block in place: unfetched, the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same of input window 1. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The same of input window 2. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- The same of input window 3. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- The same of input window 4. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every one is a whole block -/

abbrev r11_0 : Rect S5000x128 := Rect.unit (s := S5000x128) ![0, 0] S5000x128.size inb_S5000x128_S5000x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0

/-! ## What the body leaves in the output window's buffer -/

/-- Window 5's staging buffer after the body, from the input windows' blocks: its one store, of the whole block. -/
def out11_5 (x0 : Vec F S5000x128 .f32) (x1 : Vec F S5000x128 .f32) (x2 : Vec F S128x128 .f32) (x3 : Vec F S128x128 .f32) (x4 : Vec F S1x128 .f32) : Vec F S5000x128 .f32 :=
  View.canon [⟨r11_0, k11_pay1 (View.ld x0 r11_0) (View.ld x2 r11_1) (View.ld x1 r11_0) (View.ld x3 r11_1) (View.ld x4 r11_2)⟩]

/-- The one store covers the buffer. -/
theorem cover11_5 (p0 : Vec F S5000x128 .f32) (y : S5000x128.Idx) :
    ∃ pc ∈ ([⟨r11_0, p0⟩] : List (View.Piece (Elt F) S5000x128 .f32)), y ∈ pc.1.set :=
  View.cover_of_tiled [⟨r11_0, p0⟩] S5000x128.size (by rfl) y

/-! ## The pipeline's proof data -/

/-- The proof data of pipeline 11 on core `c`: the arrays as the region finds them (`V`); after the body at point `t`
    each input's buffer at its block and the output's at `out11_5` of the input blocks; the invariant the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

end Cert.Kernel.Hand
-- ==== Proof.KB.BodyDef12.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 12: the dense layer relu(x W + b) on a row tile, at the entry contents `V` -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not, for any proof data whose
    array is `V`'s and whose body leaves the block in place: unfetched, the block index has not moved. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same of input window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- The same of input window 2. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every one is a whole block -/

abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0

/-! ## What the body leaves in the output window's buffer -/

/-- Window 3's staging buffer after the body, from the input windows' blocks: its one store, of the whole block. -/
def out12_3 (x0 : Vec F S2000x128 .f32) (x1 : Vec F S128x128 .f32) (x2 : Vec F S1x128 .f32) : Vec F S2000x128 .f32 :=
  View.canon [⟨r12_0, k12_pay1 (View.ld x0 r12_0) (View.ld x1 r12_1) (View.ld x2 r12_2)⟩]

/-- The one store covers the buffer. -/
theorem cover12_3 (p0 : Vec F S2000x128 .f32) (y : S2000x128.Idx) :
    ∃ pc ∈ ([⟨r12_0, p0⟩] : List (View.Piece (Elt F) S2000x128 .f32)), y ∈ pc.1.set :=
  View.cover_of_tiled [⟨r12_0, p0⟩] S2000x128.size (by rfl) y

/-! ## The pipeline's proof data -/

/-- The proof data of pipeline 12 on core `c`: the arrays as the region finds them (`V`); after the body at point `t`
    each input's buffer at its block and the output's at `out12_3` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

end Cert.Kernel.Hand
-- ==== Proof.KB.BodyDef13.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 13: the dense layer relu(x W + b) on a row tile, at the entry contents `V` -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or not, for any proof data whose
    array is `V`'s and whose body leaves the block in place: unfetched, the block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The same of input window 1. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- The same of input window 2. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every one is a whole block -/

abbrev r13_0 : Rect S2000x128 := Rect.unit (s := S2000x128) ![0, 0] S2000x128.size inb_S2000x128_S2000x128_0_0
abbrev r13_1 : Rect S128x128 := Rect.unit (s := S128x128) ![0, 0] S128x128.size inb_S128x128_S128x128_0_0
abbrev r13_2 : Rect S1x128 := Rect.unit (s := S1x128) ![0, 0] S1x128.size inb_S1x128_S1x128_0_0

/-! ## What the body leaves in the output window's buffer -/

/-- Window 3's staging buffer after the body, from the input windows' blocks: its one store, of the whole block. -/
def out13_3 (x0 : Vec F S2000x128 .f32) (x1 : Vec F S128x128 .f32) (x2 : Vec F S1x128 .f32) : Vec F S2000x128 .f32 :=
  View.canon [⟨r13_0, k13_pay1 (View.ld x0 r13_0) (View.ld x1 r13_1) (View.ld x2 r13_2)⟩]

/-- The one store covers the buffer. -/
theorem cover13_3 (p0 : Vec F S2000x128 .f32) (y : S2000x128.Idx) :
    ∃ pc ∈ ([⟨r13_0, p0⟩] : List (View.Piece (Elt F) S2000x128 .f32)), y ∈ pc.1.set :=
  View.cover_of_tiled [⟨r13_0, p0⟩] S2000x128.size (by rfl) y

/-! ## The pipeline's proof data -/

/-- The proof data of pipeline 13 on core `c`: the arrays as the region finds them (`V`); after the body at point `t`
    each input's buffer at its block and the output's at `out13_3` of the input blocks; the invariant the scoped rest
    and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) (iblk13 V c 2 t) := by dsimp only [dat13]

end Cert.Kernel.Hand
-- ==== Proof.KB.BodyDef14.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 14: the dense layer relu(x W + b) on a row tile, at the entry contents `V` -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or not, for any proof data whose
    array is `V`'s and whose body leaves the block in place: unfetched, the block index has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same of input window 1. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- The same of input window 2. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: every one is a whole block -/

abbrev r14_0 : Rect S50x128 := Rect.unit (s := S50x128) ![0, 0] S50x128.size inb_S50x128_S50x128_0_0
abbrev r14_1 : Rect S128x128 := Rect.unit (s := S128x128) ![0, 0] S128x128.size inb_S128x128_S128x128_0_0
abbrev r14_2 : Rect S1x128 := Rect.unit (s := S1x128) ![0, 0] S1x128.size inb_S1x128_S1x128_0_0

/-! ## What the body leaves in the output window's buffer -/

/-- Window 3's staging buffer after the body, from the input windows' blocks: its one store, of the whole block. -/
def out14_3 (x0 : Vec F S50x128 .f32) (x1 : Vec F S128x128 .f32) (x2 : Vec F S1x128 .f32) : Vec F S50x128 .f32 :=
  View.canon [⟨r14_0, k14_pay1 (View.ld x0 r14_0) (View.ld x1 r14_1) (View.ld x2 r14_2)⟩]

/-- The one store covers the buffer. -/
theorem cover14_3 (p0 : Vec F S50x128 .f32) (y : S50x128.Idx) :
    ∃ pc ∈ ([⟨r14_0, p0⟩] : List (View.Piece (Elt F) S50x128 .f32)), y ∈ pc.1.set :=
  View.cover_of_tiled [⟨r14_0, p0⟩] S50x128.size (by rfl) y

/-! ## The pipeline's proof data -/

/-- The proof data of pipeline 14 on core `c`: the arrays as the region finds them (`V`); after the body at point `t`
    each input's buffer at its block and the output's at `out14_3` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

end Cert.Kernel.Hand
-- ==== Proof.KB.BodyDef15.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 15: the dense layer relu(x W + b) on a row tile, at the entry contents `V` -/

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's staging buffer holds its block at every point, fetched there or not, for any proof data whose
    array is `V`'s and whose body leaves the block in place: unfetched, the block index has not moved. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The same of input window 1. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- The same of input window 2. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: every one is a whole block -/

abbrev r15_0 : Rect S50x128 := Rect.unit (s := S50x128) ![0, 0] S50x128.size inb_S50x128_S50x128_0_0
abbrev r15_1 : Rect S128x128 := Rect.unit (s := S128x128) ![0, 0] S128x128.size inb_S128x128_S128x128_0_0
abbrev r15_2 : Rect S1x128 := Rect.unit (s := S1x128) ![0, 0] S1x128.size inb_S1x128_S1x128_0_0

/-! ## What the body leaves in the output window's buffer -/

/-- Window 3's staging buffer after the body, from the input windows' blocks: its one store, of the whole block. -/
def out15_3 (x0 : Vec F S50x128 .f32) (x1 : Vec F S128x128 .f32) (x2 : Vec F S1x128 .f32) : Vec F S50x128 .f32 :=
  View.canon [⟨r15_0, k15_pay1 (View.ld x0 r15_0) (View.ld x1 r15_1) (View.ld x2 r15_2)⟩]

/-- The one store covers the buffer. -/
theorem cover15_3 (p0 : Vec F S50x128 .f32) (y : S50x128.Idx) :
    ∃ pc ∈ ([⟨r15_0, p0⟩] : List (View.Piece (Elt F) S50x128 .f32)), y ∈ pc.1.set :=
  View.cover_of_tiled [⟨r15_0, p0⟩] S50x128.size (by rfl) y

/-! ## The pipeline's proof data -/

/-- The proof data of pipeline 15 on core `c`: the arrays as the region finds them (`V`); after the body at point `t`
    each input's buffer at its block and the output's at `out15_3` of the input blocks; the invariant the scoped rest
    and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

end Cert.Kernel.Hand
-- ==== Proof.KB.BodyDef16.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 16: the dense layer relu(x W1 + y W2 + b) on a row tile, at the entry contents `V` -/

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not, for any proof data whose
    array is `V`'s and whose body leaves the block in place: unfetched, the block index has not moved. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- The same of input window 1. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- The same of input window 2. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
/-- The same of input window 3. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
/-- The same of input window 4. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: every one is a whole block -/

abbrev r16_0 : Rect S5000x128 := Rect.unit (s := S5000x128) ![0, 0] S5000x128.size inb_S5000x128_S5000x128_0_0
abbrev r16_1 : Rect S128x128 := Rect.unit (s := S128x128) ![0, 0] S128x128.size inb_S128x128_S128x128_0_0
abbrev r16_2 : Rect S1x128 := Rect.unit (s := S1x128) ![0, 0] S1x128.size inb_S1x128_S1x128_0_0

/-! ## What the body leaves in the output window's buffer -/

/-- Window 5's staging buffer after the body, from the input windows' blocks: its one store, of the whole block. -/
def out16_5 (x0 : Vec F S5000x128 .f32) (x1 : Vec F S5000x128 .f32) (x2 : Vec F S128x128 .f32) (x3 : Vec F S128x128 .f32) (x4 : Vec F S1x128 .f32) : Vec F S5000x128 .f32 :=
  View.canon [⟨r16_0, k16_pay1 (View.ld x0 r16_0) (View.ld x2 r16_1) (View.ld x1 r16_0) (View.ld x3 r16_1) (View.ld x4 r16_2)⟩]

/-- The one store covers the buffer. -/
theorem cover16_5 (p0 : Vec F S5000x128 .f32) (y : S5000x128.Idx) :
    ∃ pc ∈ ([⟨r16_0, p0⟩] : List (View.Piece (Elt F) S5000x128 .f32)), y ∈ pc.1.set :=
  View.cover_of_tiled [⟨r16_0, p0⟩] S5000x128.size (by rfl) y

/-! ## The pipeline's proof data -/

/-- The proof data of pipeline 16 on core `c`: the arrays as the region finds them (`V`); after the body at point `t`
    each input's buffer at its block and the output's at `out16_5` of the input blocks; the invariant the scoped rest
    and the generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = out16_5 (iblk16 V c 0 t) (iblk16 V c 1 t) (iblk16 V c 2 t) (iblk16 V c 3 t) (iblk16 V c 4 t) := by dsimp only [dat16]

end Cert.Kernel.Hand
-- ==== Proof.KB.BodyDef17.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 17: the dense layer relu(x W1 + y W2 + z W3 + b) on a row tile, at the entry contents `V` -/

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's staging buffer holds its block at every point, fetched there or not, for any proof data whose
    array is `V`'s and whose body leaves the block in place: unfetched, the block index has not moved. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
/-- The same of input window 1. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
/-- The same of input window 2. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
/-- The same of input window 3. -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)
/-- The same of input window 4. -/
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)
/-- The same of input window 5. -/
theorem before17_5_of {c : Dev nD} (dat : Dat τ (Elt F) Unit ℕ (UR sig nD τ) ℕ cfg17 c) (hA : dat.A 5 = V c (Pipeline.arrRef spec17 5))
    (hafter : ∀ t, dat.after 5 t = iblk17 V c 5 t) (t : Fin cfg17.N) (d) : dat.before 5 t d = iblk17 V c 5 t :=
  (dat.before_in_eq_fetched 5 rfl (fun _ => rfl) (fun _ _ _ => rfl) (fun t => by rw [hafter]; unfold Dat.blockOf iblk17; rw [hA]; try rfl) t d).trans
    (by unfold Dat.fetched Dat.blockOf iblk17; rw [hA]; try rfl)
/-- The same of input window 6. -/
theorem before17_6_of {c : Dev nD} (dat : Dat τ (Elt F) Unit ℕ (UR sig nD τ) ℕ cfg17 c) (hA : dat.A 6 = V c (Pipeline.arrRef spec17 6))
    (hafter : ∀ t, dat.after 6 t = iblk17 V c 6 t) (t : Fin cfg17.N) (d) : dat.before 6 t d = iblk17 V c 6 t :=
  (dat.before_in_eq_fetched 6 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: every one is a whole block -/

abbrev r17_0 : Rect S2000x128 := Rect.unit (s := S2000x128) ![0, 0] S2000x128.size inb_S2000x128_S2000x128_0_0
abbrev r17_1 : Rect S128x128 := Rect.unit (s := S128x128) ![0, 0] S128x128.size inb_S128x128_S128x128_0_0
abbrev r17_2 : Rect S1x128 := Rect.unit (s := S1x128) ![0, 0] S1x128.size inb_S1x128_S1x128_0_0

/-! ## What the body leaves in the output window's buffer -/

/-- Window 7's staging buffer after the body, from the input windows' blocks: its one store, of the whole block. -/
def out17_7 (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) : Vec F S2000x128 .f32 :=
  View.canon [⟨r17_0, k17_pay1 (View.ld x0 r17_0) (View.ld x3 r17_1) (View.ld x1 r17_0) (View.ld x4 r17_1) (View.ld x2 r17_0) (View.ld x5 r17_1) (View.ld x6 r17_2)⟩]

/-- The one store covers the buffer. -/
theorem cover17_7 (p0 : Vec F S2000x128 .f32) (y : S2000x128.Idx) :
    ∃ pc ∈ ([⟨r17_0, p0⟩] : List (View.Piece (Elt F) S2000x128 .f32)), y ∈ pc.1.set :=
  View.cover_of_tiled [⟨r17_0, p0⟩] S2000x128.size (by rfl) y

/-! ## The pipeline's proof data -/

/-- The proof data of pipeline 17 on core `c`: the arrays as the region finds them (`V`); after the body at point `t`
    each input's buffer at its block and the output's at `out17_7` of the input blocks; the invariant the scoped rest
    and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => iblk17 V c 5 t
    | ⟨6, _⟩ => iblk17 V c 6 t
    | ⟨7, _⟩ => out17_7 (iblk17 V c 0 t) (iblk17 V c 1 t) (iblk17 V c 2 t) (iblk17 V c 3 t) (iblk17 V c 4 t) (iblk17 V c 5 t) (iblk17 V c 6 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t = iblk17 V c 5 t := by dsimp only [dat17]
theorem after17_6 (c : Dev nD) (t : Fin cfg17.N) : (dat17 V c).after 6 t = iblk17 V c 6 t := by dsimp only [dat17]
theorem after17_7 (c : Dev nD) (t : Fin cfg17.N) : (dat17 V c).after 7 t = out17_7 (iblk17 V c 0 t) (iblk17 V c 1 t) (iblk17 V c 2 t) (iblk17 V c 3 t) (iblk17 V c 4 t) (iblk17 V c 5 t) (iblk17 V c 6 t) := by dsimp only [dat17]

end Cert.Kernel.Hand
-- ==== Proof.KB.BodyDef18.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 18: the dense layer relu(x W1 + y W2 + b) on a row tile, at the entry contents `V` -/

/-! ## The windows' blocks -/

/-- Window `w`'s block at point `t`, read off its array as the region finds it (`V`). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's staging buffer holds its block at every point, fetched there or not, for any proof data whose
    array is `V`'s and whose body leaves the block in place: unfetched, the block index has not moved. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
/-- The same of input window 1. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
/-- The same of input window 2. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)
/-- The same of input window 3. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)
/-- The same of input window 4. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses: every one is a whole block -/

abbrev r18_0 : Rect S50x128 := Rect.unit (s := S50x128) ![0, 0] S50x128.size inb_S50x128_S50x128_0_0
abbrev r18_1 : Rect S128x128 := Rect.unit (s := S128x128) ![0, 0] S128x128.size inb_S128x128_S128x128_0_0
abbrev r18_2 : Rect S1x128 := Rect.unit (s := S1x128) ![0, 0] S1x128.size inb_S1x128_S1x128_0_0

/-! ## What the body leaves in the output window's buffer -/

/-- Window 5's staging buffer after the body, from the input windows' blocks: its one store, of the whole block. -/
def out18_5 (x0 : Vec F S50x128 .f32) (x1 : Vec F S50x128 .f32) (x2 : Vec F S128x128 .f32) (x3 : Vec F S128x128 .f32) (x4 : Vec F S1x128 .f32) : Vec F S50x128 .f32 :=
  View.canon [⟨r18_0, k18_pay1 (View.ld x0 r18_0) (View.ld x2 r18_1) (View.ld x1 r18_0) (View.ld x3 r18_1) (View.ld x4 r18_2)⟩]

/-- The one store covers the buffer. -/
theorem cover18_5 (p0 : Vec F S50x128 .f32) (y : S50x128.Idx) :
    ∃ pc ∈ ([⟨r18_0, p0⟩] : List (View.Piece (Elt F) S50x128 .f32)), y ∈ pc.1.set :=
  View.cover_of_tiled [⟨r18_0, p0⟩] S50x128.size (by rfl) y

/-! ## The pipeline's proof data -/

/-- The proof data of pipeline 18 on core `c`: the arrays as the region finds them (`V`); after the body at point `t`
    each input's buffer at its block and the output's at `out18_5` of the input blocks; the invariant the scoped rest
    and the generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = out18_5 (iblk18 V c 0 t) (iblk18 V c 1 t) (iblk18 V c 2 t) (iblk18 V c 3 t) (iblk18 V c 4 t) := by dsimp only [dat18]

end Cert.Kernel.Hand
-- ==== Proof.KB.BodyDef19.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 19: the dense layer relu(x W1 + y W2 + b) on a row tile, at the entry contents `V` -/

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's staging buffer holds its block at every point, fetched there or not, for any proof data whose
    array is `V`'s and whose body leaves the block in place: unfetched, the block index has not moved. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- The same of input window 1. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
/-- The same of input window 2. -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)
/-- The same of input window 3. -/
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)
/-- The same of input window 4. -/
theorem before19_4_of {c : Dev nD} (dat : Dat τ (Elt F) Unit ℕ (UR sig nD τ) ℕ cfg19 c) (hA : dat.A 4 = V c (Pipeline.arrRef spec19 4))
    (hafter : ∀ t, dat.after 4 t = iblk19 V c 4 t) (t : Fin cfg19.N) (d) : dat.before 4 t d = iblk19 V c 4 t :=
  (dat.before_in_eq_fetched 4 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses: every one is a whole block -/

abbrev r19_0 : Rect S5000x128 := Rect.unit (s := S5000x128) ![0, 0] S5000x128.size inb_S5000x128_S5000x128_0_0
abbrev r19_1 : Rect S128x128 := Rect.unit (s := S128x128) ![0, 0] S128x128.size inb_S128x128_S128x128_0_0
abbrev r19_2 : Rect S1x128 := Rect.unit (s := S1x128) ![0, 0] S1x128.size inb_S1x128_S1x128_0_0

/-! ## What the body leaves in the output window's buffer -/

/-- Window 5's staging buffer after the body, from the input windows' blocks: its one store, of the whole block. -/
def out19_5 (x0 : Vec F S5000x128 .f32) (x1 : Vec F S5000x128 .f32) (x2 : Vec F S128x128 .f32) (x3 : Vec F S128x128 .f32) (x4 : Vec F S1x128 .f32) : Vec F S5000x128 .f32 :=
  View.canon [⟨r19_0, k19_pay1 (View.ld x0 r19_0) (View.ld x2 r19_1) (View.ld x1 r19_0) (View.ld x3 r19_1) (View.ld x4 r19_2)⟩]

/-- The one store covers the buffer. -/
theorem cover19_5 (p0 : Vec F S5000x128 .f32) (y : S5000x128.Idx) :
    ∃ pc ∈ ([⟨r19_0, p0⟩] : List (View.Piece (Elt F) S5000x128 .f32)), y ∈ pc.1.set :=
  View.cover_of_tiled [⟨r19_0, p0⟩] S5000x128.size (by rfl) y

/-! ## The pipeline's proof data -/

/-- The proof data of pipeline 19 on core `c`: the arrays as the region finds them (`V`); after the body at point `t`
    each input's buffer at its block and the output's at `out19_5` of the input blocks; the invariant the scoped rest
    and the generator register, untouched; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => out19_5 (iblk19 V c 0 t) (iblk19 V c 1 t) (iblk19 V c 2 t) (iblk19 V c 3 t) (iblk19 V c 4 t)
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t = out19_5 (iblk19 V c 0 t) (iblk19 V c 1 t) (iblk19 V c 2 t) (iblk19 V c 3 t) (iblk19 V c 4 t) := by dsimp only [dat19]

end Cert.Kernel.Hand
-- ==== Proof.KB.BodyDef20.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 20: the dense layer relu(x W1 + y W2 + b) on a row tile, at the entry contents `V` -/

/-! ## The windows' blocks -/

/-- Window `w`'s block at point `t`, read off its array as the region finds it (`V`). -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's staging buffer holds its block at every point, fetched there or not, for any proof data whose
    array is `V`'s and whose body leaves the block in place: unfetched, the block index has not moved. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
/-- The same of input window 1. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
/-- The same of input window 2. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)
/-- The same of input window 3. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)
/-- The same of input window 4. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses: every one is a whole block -/

abbrev r20_0 : Rect S5000x128 := Rect.unit (s := S5000x128) ![0, 0] S5000x128.size inb_S5000x128_S5000x128_0_0
abbrev r20_1 : Rect S128x128 := Rect.unit (s := S128x128) ![0, 0] S128x128.size inb_S128x128_S128x128_0_0
abbrev r20_2 : Rect S1x128 := Rect.unit (s := S1x128) ![0, 0] S1x128.size inb_S1x128_S1x128_0_0

/-! ## What the body leaves in the output window's buffer -/

/-- Window 5's staging buffer after the body, from the input windows' blocks: its one store, of the whole block. -/
def out20_5 (x0 : Vec F S5000x128 .f32) (x1 : Vec F S5000x128 .f32) (x2 : Vec F S128x128 .f32) (x3 : Vec F S128x128 .f32) (x4 : Vec F S1x128 .f32) : Vec F S5000x128 .f32 :=
  View.canon [⟨r20_0, k20_pay1 (View.ld x0 r20_0) (View.ld x2 r20_1) (View.ld x1 r20_0) (View.ld x3 r20_1) (View.ld x4 r20_2)⟩]

/-- The one store covers the buffer. -/
theorem cover20_5 (p0 : Vec F S5000x128 .f32) (y : S5000x128.Idx) :
    ∃ pc ∈ ([⟨r20_0, p0⟩] : List (View.Piece (Elt F) S5000x128 .f32)), y ∈ pc.1.set :=
  View.cover_of_tiled [⟨r20_0, p0⟩] S5000x128.size (by rfl) y

/-! ## The pipeline's proof data -/

/-- The proof data of pipeline 20 on core `c`: the arrays as the region finds them (`V`); after the body at point `t`
    each input's buffer at its block and the output's at `out20_5` of the input blocks; the invariant the scoped rest
    and the generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => out20_5 (iblk20 V c 0 t) (iblk20 V c 1 t) (iblk20 V c 2 t) (iblk20 V c 3 t) (iblk20 V c 4 t)
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = out20_5 (iblk20 V c 0 t) (iblk20 V c 1 t) (iblk20 V c 2 t) (iblk20 V c 3 t) (iblk20 V c 4 t) := by dsimp only [dat20]

end Cert.Kernel.Hand
-- ==== Proof.KB.BodyDef21.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 21: the dense layer relu(x W + b) on a row tile, at the entry contents `V` -/

/-! ## The windows' blocks -/

/-- Window `w`'s block at point `t`, read off its array as the region finds it (`V`). -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's staging buffer holds its block at every point, fetched there or not, for any proof data whose
    array is `V`'s and whose body leaves the block in place: unfetched, the block index has not moved. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
/-- The same of input window 1. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
/-- The same of input window 2. -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses: every one is a whole block -/

abbrev r21_0 : Rect S2000x128 := Rect.unit (s := S2000x128) ![0, 0] S2000x128.size inb_S2000x128_S2000x128_0_0
abbrev r21_1 : Rect S128x128 := Rect.unit (s := S128x128) ![0, 0] S128x128.size inb_S128x128_S128x128_0_0
abbrev r21_2 : Rect S1x128 := Rect.unit (s := S1x128) ![0, 0] S1x128.size inb_S1x128_S1x128_0_0

/-! ## What the body leaves in the output window's buffer -/

/-- Window 3's staging buffer after the body, from the input windows' blocks: its one store, of the whole block. -/
def out21_3 (x0 : Vec F S2000x128 .f32) (x1 : Vec F S128x128 .f32) (x2 : Vec F S1x128 .f32) : Vec F S2000x128 .f32 :=
  View.canon [⟨r21_0, k21_pay1 (View.ld x0 r21_0) (View.ld x1 r21_1) (View.ld x2 r21_2)⟩]

/-- The one store covers the buffer. -/
theorem cover21_3 (p0 : Vec F S2000x128 .f32) (y : S2000x128.Idx) :
    ∃ pc ∈ ([⟨r21_0, p0⟩] : List (View.Piece (Elt F) S2000x128 .f32)), y ∈ pc.1.set :=
  View.cover_of_tiled [⟨r21_0, p0⟩] S2000x128.size (by rfl) y

/-! ## The pipeline's proof data -/

/-- The proof data of pipeline 21 on core `c`: the arrays as the region finds them (`V`); after the body at point `t`
    each input's buffer at its block and the output's at `out21_3` of the input blocks; the invariant the scoped rest
    and the generator register, untouched; nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => out21_3 (iblk21 V c 0 t) (iblk21 V c 1 t) (iblk21 V c 2 t)
  Φ _ := Pipeline.ΦA spec21 c
  q _ := fullShare
  owed _ := 0

/-- The proof data's arrays are the region-entry contents. -/
theorem A_eq21 (c : Dev nD) (w : Fin cfg21.W) : (dat21 V c).A w = V c (Pipeline.arrRef spec21 w) := by
  dsimp only [dat21]

/-- What the body leaves, window by window. -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = out21_3 (iblk21 V c 0 t) (iblk21 V c 1 t) (iblk21 V c 2 t) := by dsimp only [dat21]

end Cert.Kernel.Hand
-- ==== Proof.KB.BodyDef22.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 22: the dense layer relu(x W + b) on a row tile, at the entry contents `V` -/

/-! ## The windows' blocks -/

/-- Window `w`'s block at point `t`, read off its array as the region finds it (`V`). -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's staging buffer holds its block at every point, fetched there or not, for any proof data whose
    array is `V`'s and whose body leaves the block in place: unfetched, the block index has not moved. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
/-- The same of input window 1. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
/-- The same of input window 2. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses: every one is a whole block -/

abbrev r22_0 : Rect S2000x128 := Rect.unit (s := S2000x128) ![0, 0] S2000x128.size inb_S2000x128_S2000x128_0_0
abbrev r22_1 : Rect S128x128 := Rect.unit (s := S128x128) ![0, 0] S128x128.size inb_S128x128_S128x128_0_0
abbrev r22_2 : Rect S1x128 := Rect.unit (s := S1x128) ![0, 0] S1x128.size inb_S1x128_S1x128_0_0

/-! ## What the body leaves in the output window's buffer -/

/-- Window 3's staging buffer after the body, from the input windows' blocks: its one store, of the whole block. -/
def out22_3 (x0 : Vec F S2000x128 .f32) (x1 : Vec F S128x128 .f32) (x2 : Vec F S1x128 .f32) : Vec F S2000x128 .f32 :=
  View.canon [⟨r22_0, k22_pay1 (View.ld x0 r22_0) (View.ld x1 r22_1) (View.ld x2 r22_2)⟩]

/-- The one store covers the buffer. -/
theorem cover22_3 (p0 : Vec F S2000x128 .f32) (y : S2000x128.Idx) :
    ∃ pc ∈ ([⟨r22_0, p0⟩] : List (View.Piece (Elt F) S2000x128 .f32)), y ∈ pc.1.set :=
  View.cover_of_tiled [⟨r22_0, p0⟩] S2000x128.size (by rfl) y

/-! ## The pipeline's proof data -/

/-- The proof data of pipeline 22 on core `c`: the arrays as the region finds them (`V`); after the body at point `t`
    each input's buffer at its block and the output's at `out22_3` of the input blocks; the invariant the scoped rest
    and the generator register, untouched; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => out22_3 (iblk22 V c 0 t) (iblk22 V c 1 t) (iblk22 V c 2 t)
  Φ _ := Pipeline.ΦA spec22 c
  q _ := fullShare
  owed _ := 0

/-- The proof data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = out22_3 (iblk22 V c 0 t) (iblk22 V c 1 t) (iblk22 V c 2 t) := by dsimp only [dat22]

end Cert.Kernel.Hand
-- ==== Proof.KB.BodyDef23.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 23: the dense layer relu(x W + b) on a row tile, at the entry contents `V` -/

/-! ## The windows' blocks -/

/-- Window `w`'s block at point `t`, read off its array as the region finds it (`V`). -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0's staging buffer holds its block at every point, fetched there or not, for any proof data whose
    array is `V`'s and whose body leaves the block in place: unfetched, the block index has not moved. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- The same of input window 1. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)
/-- The same of input window 2. -/
theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)

/-! ## The body's accesses: every one is a whole block -/

abbrev r23_0 : Rect S50x128 := Rect.unit (s := S50x128) ![0, 0] S50x128.size inb_S50x128_S50x128_0_0
abbrev r23_1 : Rect S128x128 := Rect.unit (s := S128x128) ![0, 0] S128x128.size inb_S128x128_S128x128_0_0
abbrev r23_2 : Rect S1x128 := Rect.unit (s := S1x128) ![0, 0] S1x128.size inb_S1x128_S1x128_0_0

/-! ## What the body leaves in the output window's buffer -/

/-- Window 3's staging buffer after the body, from the input windows' blocks: its one store, of the whole block. -/
def out23_3 (x0 : Vec F S50x128 .f32) (x1 : Vec F S128x128 .f32) (x2 : Vec F S1x128 .f32) : Vec F S50x128 .f32 :=
  View.canon [⟨r23_0, k23_pay1 (View.ld x0 r23_0) (View.ld x1 r23_1) (View.ld x2 r23_2)⟩]

/-- The one store covers the buffer. -/
theorem cover23_3 (p0 : Vec F S50x128 .f32) (y : S50x128.Idx) :
    ∃ pc ∈ ([⟨r23_0, p0⟩] : List (View.Piece (Elt F) S50x128 .f32)), y ∈ pc.1.set :=
  View.cover_of_tiled [⟨r23_0, p0⟩] S50x128.size (by rfl) y

/-! ## The pipeline's proof data -/

/-- The proof data of pipeline 23 on core `c`: the arrays as the region finds them (`V`); after the body at point `t`
    each input's buffer at its block and the output's at `out23_3` of the input blocks; the invariant the scoped rest
    and the generator register, untouched; nothing owed; full shares. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => out23_3 (iblk23 V c 0 t) (iblk23 V c 1 t) (iblk23 V c 2 t)
  Φ _ := Pipeline.ΦA spec23 c
  q _ := fullShare
  owed _ := 0

/-- The proof data's arrays are the region-entry contents. -/
theorem A_eq23 (c : Dev nD) (w : Fin cfg23.W) : (dat23 V c).A w = V c (Pipeline.arrRef spec23 w) := by
  dsimp only [dat23]

/-- What the body leaves, window by window. -/
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = out23_3 (iblk23 V c 0 t) (iblk23 V c 1 t) (iblk23 V c 2 t) := by dsimp only [dat23]

end Cert.Kernel.Hand
-- ==== Proof.KB.BodyDef24.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 24: the dense layer relu(x W + b) on a row tile, at the entry contents `V` -/

/-! ## The windows' blocks -/

/-- Window `w`'s block at point `t`, read off its array as the region finds it (`V`). -/
def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's staging buffer holds its block at every point, fetched there or not, for any proof data whose
    array is `V`'s and whose body leaves the block in place: unfetched, the block index has not moved. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)
/-- The same of input window 1. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)
/-- The same of input window 2. -/
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-! ## The body's accesses: every one is a whole block -/

abbrev r24_0 : Rect S50x128 := Rect.unit (s := S50x128) ![0, 0] S50x128.size inb_S50x128_S50x128_0_0
abbrev r24_1 : Rect S128x128 := Rect.unit (s := S128x128) ![0, 0] S128x128.size inb_S128x128_S128x128_0_0
abbrev r24_2 : Rect S1x128 := Rect.unit (s := S1x128) ![0, 0] S1x128.size inb_S1x128_S1x128_0_0

/-! ## What the body leaves in the output window's buffer -/

/-- Window 3's staging buffer after the body, from the input windows' blocks: its one store, of the whole block. -/
def out24_3 (x0 : Vec F S50x128 .f32) (x1 : Vec F S128x128 .f32) (x2 : Vec F S1x128 .f32) : Vec F S50x128 .f32 :=
  View.canon [⟨r24_0, k24_pay1 (View.ld x0 r24_0) (View.ld x1 r24_1) (View.ld x2 r24_2)⟩]

/-- The one store covers the buffer. -/
theorem cover24_3 (p0 : Vec F S50x128 .f32) (y : S50x128.Idx) :
    ∃ pc ∈ ([⟨r24_0, p0⟩] : List (View.Piece (Elt F) S50x128 .f32)), y ∈ pc.1.set :=
  View.cover_of_tiled [⟨r24_0, p0⟩] S50x128.size (by rfl) y

/-! ## The pipeline's proof data -/

/-- The proof data of pipeline 24 on core `c`: the arrays as the region finds them (`V`); after the body at point `t`
    each input's buffer at its block and the output's at `out24_3` of the input blocks; the invariant the scoped rest
    and the generator register, untouched; nothing owed; full shares. -/
def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => out24_3 (iblk24 V c 0 t) (iblk24 V c 1 t) (iblk24 V c 2 t)
  Φ _ := Pipeline.ΦA spec24 c
  q _ := fullShare
  owed _ := 0

/-- The proof data's arrays are the region-entry contents. -/
theorem A_eq24 (c : Dev nD) (w : Fin cfg24.W) : (dat24 V c).A w = V c (Pipeline.arrRef spec24 w) := by
  dsimp only [dat24]

/-- What the body leaves, window by window. -/
theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) : (dat24 V c).after 3 t = out24_3 (iblk24 V c 0 t) (iblk24 V c 1 t) (iblk24 V c 2 t) := by dsimp only [dat24]

end Cert.Kernel.Hand
-- ==== Proof.KB.BodyDef25.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 25: the dense layer relu(x W + b) on a row tile, at the entry contents `V` -/

/-! ## The windows' blocks -/

/-- Window `w`'s block at point `t`, read off its array as the region finds it (`V`). -/
def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's staging buffer holds its block at every point, fetched there or not, for any proof data whose
    array is `V`'s and whose body leaves the block in place: unfetched, the block index has not moved. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
/-- The same of input window 1. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)
/-- The same of input window 2. -/
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses: every one is a whole block -/

abbrev r25_0 : Rect S50x384 := Rect.unit (s := S50x384) ![0, 0] S50x384.size inb_S50x384_S50x384_0_0
abbrev r25_1 : Rect S384x128 := Rect.unit (s := S384x128) ![0, 0] S384x128.size inb_S384x128_S384x128_0_0
abbrev r25_2 : Rect S1x128 := Rect.unit (s := S1x128) ![0, 0] S1x128.size inb_S1x128_S1x128_0_0
abbrev r25_3 : Rect S50x128 := Rect.unit (s := S50x128) ![0, 0] S50x128.size inb_S50x128_S50x128_0_0

/-! ## What the body leaves in the output window's buffer -/

/-- Window 3's staging buffer after the body, from the input windows' blocks: its one store, of the whole block. -/
def out25_3 (x0 : Vec F S50x384 .f32) (x1 : Vec F S384x128 .f32) (x2 : Vec F S1x128 .f32) : Vec F S50x128 .f32 :=
  View.canon [⟨r25_3, k25_pay1 (View.ld x0 r25_0) (View.ld x1 r25_1) (View.ld x2 r25_2)⟩]

/-- The one store covers the buffer. -/
theorem cover25_3 (p0 : Vec F S50x128 .f32) (y : S50x128.Idx) :
    ∃ pc ∈ ([⟨r25_3, p0⟩] : List (View.Piece (Elt F) S50x128 .f32)), y ∈ pc.1.set :=
  View.cover_of_tiled [⟨r25_3, p0⟩] S50x128.size (by rfl) y

/-! ## The pipeline's proof data -/

/-- The proof data of pipeline 25 on core `c`: the arrays as the region finds them (`V`); after the body at point `t`
    each input's buffer at its block and the output's at `out25_3` of the input blocks; the invariant the scoped rest
    and the generator register, untouched; nothing owed; full shares. -/
def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => out25_3 (iblk25 V c 0 t) (iblk25 V c 1 t) (iblk25 V c 2 t)
  Φ _ := Pipeline.ΦA spec25 c
  q _ := fullShare
  owed _ := 0

/-- The proof data's arrays are the region-entry contents. -/
theorem A_eq25 (c : Dev nD) (w : Fin cfg25.W) : (dat25 V c).A w = V c (Pipeline.arrRef spec25 w) := by
  dsimp only [dat25]

/-- What the body leaves, window by window. -/
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) : (dat25 V c).after 3 t = out25_3 (iblk25 V c 0 t) (iblk25 V c 1 t) (iblk25 V c 2 t) := by dsimp only [dat25]

end Cert.Kernel.Hand
-- ==== Proof.KB.Chain.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.BodyDef0
import proofs.«141679_j61469571940402_1_alg».proof.Proof.KB.BodyDef1
import proofs.«141679_j61469571940402_1_alg».proof.Proof.KB.BodyDef2
import proofs.«141679_j61469571940402_1_alg».proof.Proof.KB.BodyDef3
import proofs.«141679_j61469571940402_1_alg».proof.Proof.KB.BodyDef4
import proofs.«141679_j61469571940402_1_alg».proof.Proof.KB.BodyDef5
import proofs.«141679_j61469571940402_1_alg».proof.Proof.KB.BodyDef6
import proofs.«141679_j61469571940402_1_alg».proof.Proof.KB.BodyDef7
import proofs.«141679_j61469571940402_1_alg».proof.Proof.KB.BodyDef8
import proofs.«141679_j61469571940402_1_alg».proof.Proof.KB.BodyDef9
import proofs.«141679_j61469571940402_1_alg».proof.Proof.KB.BodyDef10
import proofs.«141679_j61469571940402_1_alg».proof.Proof.KB.BodyDef11
import proofs.«141679_j61469571940402_1_alg».proof.Proof.KB.BodyDef12
import proofs.«141679_j61469571940402_1_alg».proof.Proof.KB.BodyDef13
import proofs.«141679_j61469571940402_1_alg».proof.Proof.KB.BodyDef14
import proofs.«141679_j61469571940402_1_alg».proof.Proof.KB.BodyDef15
import proofs.«141679_j61469571940402_1_alg».proof.Proof.KB.BodyDef16
import proofs.«141679_j61469571940402_1_alg».proof.Proof.KB.BodyDef17
import proofs.«141679_j61469571940402_1_alg».proof.Proof.KB.BodyDef18
import proofs.«141679_j61469571940402_1_alg».proof.Proof.KB.BodyDef19
import proofs.«141679_j61469571940402_1_alg».proof.Proof.KB.BodyDef20
import proofs.«141679_j61469571940402_1_alg».proof.Proof.KB.BodyDef21
import proofs.«141679_j61469571940402_1_alg».proof.Proof.KB.BodyDef22
import proofs.«141679_j61469571940402_1_alg».proof.Proof.KB.BodyDef23
import proofs.«141679_j61469571940402_1_alg».proof.Proof.KB.BodyDef24
import proofs.«141679_j61469571940402_1_alg».proof.Proof.KB.BodyDef25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of @main: a fold from the launch memory -/

/-- The core's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
/-- After the host stretch hostOps0_1. -/
abbrev W2 : Dev nD → Valuation τ sig (Elt F) := fun c => StableHlo.after hostOps0_1 (W1 m ρ c)
/-- After the host stretch hostOps0_2. -/
abbrev W3 : Dev nD → Valuation τ sig (Elt F) := fun c => StableHlo.after hostOps0_2 (W2 m ρ c)

/-- The contents region 0 is entered from, read at the core's own references (what its proof data take). -/
abbrev V3 : (c : Dev nD) → (b : Ref sig .tc) → Buf (Elt F) ((c : Thread nD τ).loc b) := fun c b => W3 m ρ c b
/-- At region 0's exit: its arrays at what the pipeline leaves (an input as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's own references (region 0's exit contents). -/
abbrev V4 : (c : Dev nD) → (b : Ref sig .tc) → Buf (Elt F) ((c : Thread nD τ).loc b) := fun c b => W4 m ρ c b
/-- At region 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch hostOps1. -/
abbrev W5 : Dev nD → Valuation τ sig (Elt F) := fun c => StableHlo.after hostOps1 (W4 m ρ c)

/-- The contents region 1 is entered from, read at the core's own references (what its proof data take). -/
abbrev V5 : (c : Dev nD) → (b : Ref sig .tc) → Buf (Elt F) ((c : Thread nD τ).loc b) := fun c b => W5 m ρ c b
/-- At region 1's exit: its arrays at what the pipeline leaves (an input as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the core's own references (region 1's exit contents). -/
abbrev V6 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host stretch hostOps2. -/
abbrev W7 : Dev nD → Valuation τ sig (Elt F) := fun c => StableHlo.after hostOps2 (W6 m ρ c)

/-- The contents region 2 is entered from, read at the core's own references (what its proof data take). -/
abbrev V7 : (c : Dev nD) → (b : Ref sig .tc) → Buf (Elt F) ((c : Thread nD τ).loc b) := fun c b => W7 m ρ c b
/-- At region 2's exit: its arrays at what the pipeline leaves (an input as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the core's own references (region 2's exit contents). -/
abbrev V8 : (c : Dev nD) → (b : Ref sig .tc) → Buf (Elt F) ((c : Thread nD τ).loc b) := fun c b => W8 m ρ c b
/-- At region 2's exit each of its arrays holds what the pipeline leaves and every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the host stretch hostOps3. -/
abbrev W9 : Dev nD → Valuation τ sig (Elt F) := fun c => StableHlo.after hostOps3 (W8 m ρ c)

/-- The contents region 3 is entered from, read at the core's own references (what its proof data take). -/
abbrev V9 : (c : Dev nD) → (b : Ref sig .tc) → Buf (Elt F) ((c : Thread nD τ).loc b) := fun c b => W9 m ρ c b
/-- At region 3's exit: its arrays at what the pipeline leaves (an input as entered, the output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the core's own references (region 3's exit contents). -/
abbrev V10 : (c : Dev nD) → (b : Ref sig .tc) → Buf (Elt F) ((c : Thread nD τ).loc b) := fun c b => W10 m ρ c b
/-- At region 3's exit each of its arrays holds what the pipeline leaves and every other buffer what it held at entry. -/
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the host stretch hostOps4. -/
abbrev W11 : Dev nD → Valuation τ sig (Elt F) := fun c => StableHlo.after hostOps4 (W10 m ρ c)

/-- The contents region 4 is entered from, read at the core's own references (what its proof data take). -/
abbrev V11 : (c : Dev nD) → (b : Ref sig .tc) → Buf (Elt F) ((c : Thread nD τ).loc b) := fun c b => W11 m ρ c b
/-- At region 4's exit: its arrays at what the pipeline leaves (an input as entered, the output's write-backs
    folded), every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- The same read at the core's own references (region 4's exit contents). -/
abbrev V12 : (c : Dev nD) → (b : Ref sig .tc) → Buf (Elt F) ((c : Thread nD τ).loc b) := fun c b => W12 m ρ c b
/-- At region 4's exit each of its arrays holds what the pipeline leaves and every other buffer what it held at entry. -/
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- After the host stretch hostOps5. -/
abbrev W13 : Dev nD → Valuation τ sig (Elt F) := fun c => StableHlo.after hostOps5 (W12 m ρ c)

/-- The contents region 5 is entered from, read at the core's own references (what its proof data take). -/
abbrev V13 : (c : Dev nD) → (b : Ref sig .tc) → Buf (Elt F) ((c : Thread nD τ).loc b) := fun c b => W13 m ρ c b
/-- At region 5's exit: its arrays at what the pipeline leaves (an input as entered, the output's write-backs
    folded), every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- The same read at the core's own references (region 5's exit contents). -/
abbrev V14 : (c : Dev nD) → (b : Ref sig .tc) → Buf (Elt F) ((c : Thread nD τ).loc b) := fun c b => W14 m ρ c b
/-- At region 5's exit each of its arrays holds what the pipeline leaves and every other buffer what it held at entry. -/
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)

/-- After the host stretch hostOps6. -/
abbrev W15 : Dev nD → Valuation τ sig (Elt F) := fun c => StableHlo.after hostOps6 (W14 m ρ c)

/-- The contents region 6 is entered from, read at the core's own references (what its proof data take). -/
abbrev V15 : (c : Dev nD) → (b : Ref sig .tc) → Buf (Elt F) ((c : Thread nD τ).loc b) := fun c b => W15 m ρ c b
/-- At region 6's exit: its arrays at what the pipeline leaves (an input as entered, the output's write-backs
    folded), every other buffer as entered. -/
def W16 (c : Dev nD) : Valuation τ sig (Elt F) :=
  Pipeline.withArrays spec6 c (W15 m ρ c) fun w => (dat6 (V15 m ρ) c).arrAt w cfg6.N
theorem W16_arr (c : Dev nD) (w : Fin cfg6.W) :
    W16 m ρ c (Proc.devRef .tc (Pipeline.arrRef spec6 w)) = (dat6 (V15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
/-- The same read at the core's own references (region 6's exit contents). -/
abbrev V16 : (c : Dev nD) → (b : Ref sig .tc) → Buf (Elt F) ((c : Thread nD τ).loc b) := fun c b => W16 m ρ c b
/-- At region 6's exit each of its arrays holds what the pipeline leaves and every other buffer what it held at entry. -/
theorem hF6 (c : Dev nD) (w : Fin cfg6.W) : (dat6 (V15 m ρ) c).arrAt w cfg6.N = V16 m ρ c (Pipeline.arrRef spec6 w) :=
  (W16_arr m ρ c w).symm
theorem hrest6 (c : Dev nD) : ∀ b, b ∉ Finset.univ.image (Pipeline.arrRef spec6) → V16 m ρ c b = V15 m ρ c b :=
  fun b hb => W16_of_ne m ρ c b fun w e => hb (Finset.mem_image.mpr ⟨w, Finset.mem_univ _, e⟩)

/-- After the host stretch hostOps7. -/
abbrev W17 : Dev nD → Valuation τ sig (Elt F) := fun c => StableHlo.after hostOps7 (W16 m ρ c)

/-- The contents region 7 is entered from, read at the core's own references (what its proof data take). -/
abbrev V17 : (c : Dev nD) → (b : Ref sig .tc) → Buf (Elt F) ((c : Thread nD τ).loc b) := fun c b => W17 m ρ c b
/-- At region 7's exit: its arrays at what the pipeline leaves (an input as entered, the output's write-backs
    folded), every other buffer as entered. -/
def W18 (c : Dev nD) : Valuation τ sig (Elt F) :=
  Pipeline.withArrays spec7 c (W17 m ρ c) fun w => (dat7 (V17 m ρ) c).arrAt w cfg7.N
theorem W18_arr (c : Dev nD) (w : Fin cfg7.W) :
    W18 m ρ c (Proc.devRef .tc (Pipeline.arrRef spec7 w)) = (dat7 (V17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
/-- The same read at the core's own references (region 7's exit contents). -/
abbrev V18 : (c : Dev nD) → (b : Ref sig .tc) → Buf (Elt F) ((c : Thread nD τ).loc b) := fun c b => W18 m ρ c b
/-- At region 7's exit each of its arrays holds what the pipeline leaves and every other buffer what it held at entry. -/
theorem hF7 (c : Dev nD) (w : Fin cfg7.W) : (dat7 (V17 m ρ) c).arrAt w cfg7.N = V18 m ρ c (Pipeline.arrRef spec7 w) :=
  (W18_arr m ρ c w).symm
theorem hrest7 (c : Dev nD) : ∀ b, b ∉ Finset.univ.image (Pipeline.arrRef spec7) → V18 m ρ c b = V17 m ρ c b :=
  fun b hb => W18_of_ne m ρ c b fun w e => hb (Finset.mem_image.mpr ⟨w, Finset.mem_univ _, e⟩)

/-- After the host stretch hostOps8. -/
abbrev W19 : Dev nD → Valuation τ sig (Elt F) := fun c => StableHlo.after hostOps8 (W18 m ρ c)

/-- The contents region 8 is entered from, read at the core's own references (what its proof data take). -/
abbrev V19 : (c : Dev nD) → (b : Ref sig .tc) → Buf (Elt F) ((c : Thread nD τ).loc b) := fun c b => W19 m ρ c b
/-- At region 8's exit: its arrays at what the pipeline leaves (an input as entered, the output's write-backs
    folded), every other buffer as entered. -/
def W20 (c : Dev nD) : Valuation τ sig (Elt F) :=
  Pipeline.withArrays spec8 c (W19 m ρ c) fun w => (dat8 (V19 m ρ) c).arrAt w cfg8.N
theorem W20_arr (c : Dev nD) (w : Fin cfg8.W) :
    W20 m ρ c (Proc.devRef .tc (Pipeline.arrRef spec8 w)) = (dat8 (V19 m ρ) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m ρ c (Proc.devRef .tc b) = W19 m ρ c (Proc.devRef .tc b) := by
  unfold W20; exact Pipeline.withArrays_of_ne spec8 c _ _ b hb
/-- The same read at the core's own references (region 8's exit contents). -/
abbrev V20 : (c : Dev nD) → (b : Ref sig .tc) → Buf (Elt F) ((c : Thread nD τ).loc b) := fun c b => W20 m ρ c b
/-- At region 8's exit each of its arrays holds what the pipeline leaves and every other buffer what it held at entry. -/
theorem hF8 (c : Dev nD) (w : Fin cfg8.W) : (dat8 (V19 m ρ) c).arrAt w cfg8.N = V20 m ρ c (Pipeline.arrRef spec8 w) :=
  (W20_arr m ρ c w).symm
theorem hrest8 (c : Dev nD) : ∀ b, b ∉ Finset.univ.image (Pipeline.arrRef spec8) → V20 m ρ c b = V19 m ρ c b :=
  fun b hb => W20_of_ne m ρ c b fun w e => hb (Finset.mem_image.mpr ⟨w, Finset.mem_univ _, e⟩)

/-- After the host stretch hostOps9. -/
abbrev W21 : Dev nD → Valuation τ sig (Elt F) := fun c => StableHlo.after hostOps9 (W20 m ρ c)

/-- The contents region 9 is entered from, read at the core's own references (what its proof data take). -/
abbrev V21 : (c : Dev nD) → (b : Ref sig .tc) → Buf (Elt F) ((c : Thread nD τ).loc b) := fun c b => W21 m ρ c b
/-- At region 9's exit: its arrays at what the pipeline leaves (an input as entered, the output's write-backs
    folded), every other buffer as entered. -/
def W22 (c : Dev nD) : Valuation τ sig (Elt F) :=
  Pipeline.withArrays spec9 c (W21 m ρ c) fun w => (dat9 (V21 m ρ) c).arrAt w cfg9.N
theorem W22_arr (c : Dev nD) (w : Fin cfg9.W) :
    W22 m ρ c (Proc.devRef .tc (Pipeline.arrRef spec9 w)) = (dat9 (V21 m ρ) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m ρ c (Proc.devRef .tc b) = W21 m ρ c (Proc.devRef .tc b) := by
  unfold W22; exact Pipeline.withArrays_of_ne spec9 c _ _ b hb
/-- The same read at the core's own references (region 9's exit contents). -/
abbrev V22 : (c : Dev nD) → (b : Ref sig .tc) → Buf (Elt F) ((c : Thread nD τ).loc b) := fun c b => W22 m ρ c b
/-- At region 9's exit each of its arrays holds what the pipeline leaves and every other buffer what it held at entry. -/
theorem hF9 (c : Dev nD) (w : Fin cfg9.W) : (dat9 (V21 m ρ) c).arrAt w cfg9.N = V22 m ρ c (Pipeline.arrRef spec9 w) :=
  (W22_arr m ρ c w).symm
theorem hrest9 (c : Dev nD) : ∀ b, b ∉ Finset.univ.image (Pipeline.arrRef spec9) → V22 m ρ c b = V21 m ρ c b :=
  fun b hb => W22_of_ne m ρ c b fun w e => hb (Finset.mem_image.mpr ⟨w, Finset.mem_univ _, e⟩)

/-- After the host stretch hostOps10. -/
abbrev W23 : Dev nD → Valuation τ sig (Elt F) := fun c => StableHlo.after hostOps10 (W22 m ρ c)

/-- The contents region 10 is entered from, read at the core's own references (what its proof data take). -/
abbrev V23 : (c : Dev nD) → (b : Ref sig .tc) → Buf (Elt F) ((c : Thread nD τ).loc b) := fun c b => W23 m ρ c b
/-- At region 10's exit: its arrays at what the pipeline leaves (an input as entered, the output's write-backs
    folded), every other buffer as entered. -/
def W24 (c : Dev nD) : Valuation τ sig (Elt F) :=
  Pipeline.withArrays spec10 c (W23 m ρ c) fun w => (dat10 (V23 m ρ) c).arrAt w cfg10.N
theorem W24_arr (c : Dev nD) (w : Fin cfg10.W) :
    W24 m ρ c (Proc.devRef .tc (Pipeline.arrRef spec10 w)) = (dat10 (V23 m ρ) c).arrAt w cfg10.N := by
  unfold W24; exact Pipeline.withArrays_arr spec10 launch10.win.arr_inj c _ _ w
theorem W24_of_ne (c : Dev nD) (b : Ref sig .tc) (hb : ∀ w, Pipeline.arrRef spec10 w ≠ b) :
    W24 m ρ c (Proc.devRef .tc b) = W23 m ρ c (Proc.devRef .tc b) := by
  unfold W24; exact Pipeline.withArrays_of_ne spec10 c _ _ b hb
/-- The same read at the core's own references (region 10's exit contents). -/
abbrev V24 : (c : Dev nD) → (b : Ref sig .tc) → Buf (Elt F) ((c : Thread nD τ).loc b) := fun c b => W24 m ρ c b
/-- At region 10's exit each of its arrays holds what the pipeline leaves and every other buffer what it held at entry. -/
theorem hF10 (c : Dev nD) (w : Fin cfg10.W) : (dat10 (V23 m ρ) c).arrAt w cfg10.N = V24 m ρ c (Pipeline.arrRef spec10 w) :=
  (W24_arr m ρ c w).symm
theorem hrest10 (c : Dev nD) : ∀ b, b ∉ Finset.univ.image (Pipeline.arrRef spec10) → V24 m ρ c b = V23 m ρ c b :=
  fun b hb => W24_of_ne m ρ c b fun w e => hb (Finset.mem_image.mpr ⟨w, Finset.mem_univ _, e⟩)

/-- After the host stretch hostOps11. -/
abbrev W25 : Dev nD → Valuation τ sig (Elt F) := fun c => StableHlo.after hostOps11 (W24 m ρ c)

/-- The contents region 11 is entered from, read at the core's own references (what its proof data take). -/
abbrev V25 : (c : Dev nD) → (b : Ref sig .tc) → Buf (Elt F) ((c : Thread nD τ).loc b) := fun c b => W25 m ρ c b
/-- At region 11's exit: its arrays at what the pipeline leaves (an input as entered, the output's write-backs
    folded), every other buffer as entered. -/
def W26 (c : Dev nD) : Valuation τ sig (Elt F) :=
  Pipeline.withArrays spec11 c (W25 m ρ c) fun w => (dat11 (V25 m ρ) c).arrAt w cfg11.N
theorem W26_arr (c : Dev nD) (w : Fin cfg11.W) :
    W26 m ρ c (Proc.devRef .tc (Pipeline.arrRef spec11 w)) = (dat11 (V25 m ρ) c).arrAt w cfg11.N := by
  unfold W26; exact Pipeline.withArrays_arr spec11 launch11.win.arr_inj c _ _ w
theorem W26_of_ne (c : Dev nD) (b : Ref sig .tc) (hb : ∀ w, Pipeline.arrRef spec11 w ≠ b) :
    W26 m ρ c (Proc.devRef .tc b) = W25 m ρ c (Proc.devRef .tc b) := by
  unfold W26; exact Pipeline.withArrays_of_ne spec11 c _ _ b hb
/-- The same read at the core's own references (region 11's exit contents). -/
abbrev V26 : (c : Dev nD) → (b : Ref sig .tc) → Buf (Elt F) ((c : Thread nD τ).loc b) := fun c b => W26 m ρ c b
/-- At region 11's exit each of its arrays holds what the pipeline leaves and every other buffer what it held at entry. -/
theorem hF11 (c : Dev nD) (w : Fin cfg11.W) : (dat11 (V25 m ρ) c).arrAt w cfg11.N = V26 m ρ c (Pipeline.arrRef spec11 w) :=
  (W26_arr m ρ c w).symm
theorem hrest11 (c : Dev nD) : ∀ b, b ∉ Finset.univ.image (Pipeline.arrRef spec11) → V26 m ρ c b = V25 m ρ c b :=
  fun b hb => W26_of_ne m ρ c b fun w e => hb (Finset.mem_image.mpr ⟨w, Finset.mem_univ _, e⟩)

/-- After the host stretch hostOps12. -/
abbrev W27 : Dev nD → Valuation τ sig (Elt F) := fun c => StableHlo.after hostOps12 (W26 m ρ c)

/-- The contents region 12 is entered from, read at the core's own references (what its proof data take). -/
abbrev V27 : (c : Dev nD) → (b : Ref sig .tc) → Buf (Elt F) ((c : Thread nD τ).loc b) := fun c b => W27 m ρ c b
/-- At region 12's exit: its arrays at what the pipeline leaves (an input as entered, the output's write-backs
    folded), every other buffer as entered. -/
def W28 (c : Dev nD) : Valuation τ sig (Elt F) :=
  Pipeline.withArrays spec12 c (W27 m ρ c) fun w => (dat12 (V27 m ρ) c).arrAt w cfg12.N
theorem W28_arr (c : Dev nD) (w : Fin cfg12.W) :
    W28 m ρ c (Proc.devRef .tc (Pipeline.arrRef spec12 w)) = (dat12 (V27 m ρ) c).arrAt w cfg12.N := by
  unfold W28; exact Pipeline.withArrays_arr spec12 launch12.win.arr_inj c _ _ w
theorem W28_of_ne (c : Dev nD) (b : Ref sig .tc) (hb : ∀ w, Pipeline.arrRef spec12 w ≠ b) :
    W28 m ρ c (Proc.devRef .tc b) = W27 m ρ c (Proc.devRef .tc b) := by
  unfold W28; exact Pipeline.withArrays_of_ne spec12 c _ _ b hb
/-- The same read at the core's own references (region 12's exit contents). -/
abbrev V28 : (c : Dev nD) → (b : Ref sig .tc) → Buf (Elt F) ((c : Thread nD τ).loc b) := fun c b => W28 m ρ c b
/-- At region 12's exit each of its arrays holds what the pipeline leaves and every other buffer what it held at entry. -/
theorem hF12 (c : Dev nD) (w : Fin cfg12.W) : (dat12 (V27 m ρ) c).arrAt w cfg12.N = V28 m ρ c (Pipeline.arrRef spec12 w) :=
  (W28_arr m ρ c w).symm
theorem hrest12 (c : Dev nD) : ∀ b, b ∉ Finset.univ.image (Pipeline.arrRef spec12) → V28 m ρ c b = V27 m ρ c b :=
  fun b hb => W28_of_ne m ρ c b fun w e => hb (Finset.mem_image.mpr ⟨w, Finset.mem_univ _, e⟩)

/-- After the host stretch hostOps13. -/
abbrev W29 : Dev nD → Valuation τ sig (Elt F) := fun c => StableHlo.after hostOps13 (W28 m ρ c)

/-- The contents region 13 is entered from, read at the core's own references (what its proof data take). -/
abbrev V29 : (c : Dev nD) → (b : Ref sig .tc) → Buf (Elt F) ((c : Thread nD τ).loc b) := fun c b => W29 m ρ c b
/-- At region 13's exit: its arrays at what the pipeline leaves (an input as entered, the output's write-backs
    folded), every other buffer as entered. -/
def W30 (c : Dev nD) : Valuation τ sig (Elt F) :=
  Pipeline.withArrays spec13 c (W29 m ρ c) fun w => (dat13 (V29 m ρ) c).arrAt w cfg13.N
theorem W30_arr (c : Dev nD) (w : Fin cfg13.W) :
    W30 m ρ c (Proc.devRef .tc (Pipeline.arrRef spec13 w)) = (dat13 (V29 m ρ) c).arrAt w cfg13.N := by
  unfold W30; exact Pipeline.withArrays_arr spec13 launch13.win.arr_inj c _ _ w
theorem W30_of_ne (c : Dev nD) (b : Ref sig .tc) (hb : ∀ w, Pipeline.arrRef spec13 w ≠ b) :
    W30 m ρ c (Proc.devRef .tc b) = W29 m ρ c (Proc.devRef .tc b) := by
  unfold W30; exact Pipeline.withArrays_of_ne spec13 c _ _ b hb
/-- The same read at the core's own references (region 13's exit contents). -/
abbrev V30 : (c : Dev nD) → (b : Ref sig .tc) → Buf (Elt F) ((c : Thread nD τ).loc b) := fun c b => W30 m ρ c b
/-- At region 13's exit each of its arrays holds what the pipeline leaves and every other buffer what it held at entry. -/
theorem hF13 (c : Dev nD) (w : Fin cfg13.W) : (dat13 (V29 m ρ) c).arrAt w cfg13.N = V30 m ρ c (Pipeline.arrRef spec13 w) :=
  (W30_arr m ρ c w).symm
theorem hrest13 (c : Dev nD) : ∀ b, b ∉ Finset.univ.image (Pipeline.arrRef spec13) → V30 m ρ c b = V29 m ρ c b :=
  fun b hb => W30_of_ne m ρ c b fun w e => hb (Finset.mem_image.mpr ⟨w, Finset.mem_univ _, e⟩)

/-- After the host stretch hostOps14. -/
abbrev W31 : Dev nD → Valuation τ sig (Elt F) := fun c => StableHlo.after hostOps14 (W30 m ρ c)

/-- The contents region 14 is entered from, read at the core's own references (what its proof data take). -/
abbrev V31 : (c : Dev nD) → (b : Ref sig .tc) → Buf (Elt F) ((c : Thread nD τ).loc b) := fun c b => W31 m ρ c b
/-- At region 14's exit: its arrays at what the pipeline leaves (an input as entered, the output's write-backs
    folded), every other buffer as entered. -/
def W32 (c : Dev nD) : Valuation τ sig (Elt F) :=
  Pipeline.withArrays spec14 c (W31 m ρ c) fun w => (dat14 (V31 m ρ) c).arrAt w cfg14.N
theorem W32_arr (c : Dev nD) (w : Fin cfg14.W) :
    W32 m ρ c (Proc.devRef .tc (Pipeline.arrRef spec14 w)) = (dat14 (V31 m ρ) c).arrAt w cfg14.N := by
  unfold W32; exact Pipeline.withArrays_arr spec14 launch14.win.arr_inj c _ _ w
theorem W32_of_ne (c : Dev nD) (b : Ref sig .tc) (hb : ∀ w, Pipeline.arrRef spec14 w ≠ b) :
    W32 m ρ c (Proc.devRef .tc b) = W31 m ρ c (Proc.devRef .tc b) := by
  unfold W32; exact Pipeline.withArrays_of_ne spec14 c _ _ b hb
/-- The same read at the core's own references (region 14's exit contents). -/
abbrev V32 : (c : Dev nD) → (b : Ref sig .tc) → Buf (Elt F) ((c : Thread nD τ).loc b) := fun c b => W32 m ρ c b
/-- At region 14's exit each of its arrays holds what the pipeline leaves and every other buffer what it held at entry. -/
theorem hF14 (c : Dev nD) (w : Fin cfg14.W) : (dat14 (V31 m ρ) c).arrAt w cfg14.N = V32 m ρ c (Pipeline.arrRef spec14 w) :=
  (W32_arr m ρ c w).symm
theorem hrest14 (c : Dev nD) : ∀ b, b ∉ Finset.univ.image (Pipeline.arrRef spec14) → V32 m ρ c b = V31 m ρ c b :=
  fun b hb => W32_of_ne m ρ c b fun w e => hb (Finset.mem_image.mpr ⟨w, Finset.mem_univ _, e⟩)

/-- After the host stretch hostOps15. -/
abbrev W33 : Dev nD → Valuation τ sig (Elt F) := fun c => StableHlo.after hostOps15 (W32 m ρ c)

/-- The contents region 15 is entered from, read at the core's own references (what its proof data take). -/
abbrev V33 : (c : Dev nD) → (b : Ref sig .tc) → Buf (Elt F) ((c : Thread nD τ).loc b) := fun c b => W33 m ρ c b
/-- At region 15's exit: its arrays at what the pipeline leaves (an input as entered, the output's write-backs
    folded), every other buffer as entered. -/
def W34 (c : Dev nD) : Valuation τ sig (Elt F) :=
  Pipeline.withArrays spec15 c (W33 m ρ c) fun w => (dat15 (V33 m ρ) c).arrAt w cfg15.N
theorem W34_arr (c : Dev nD) (w : Fin cfg15.W) :
    W34 m ρ c (Proc.devRef .tc (Pipeline.arrRef spec15 w)) = (dat15 (V33 m ρ) c).arrAt w cfg15.N := by
  unfold W34; exact Pipeline.withArrays_arr spec15 launch15.win.arr_inj c _ _ w
theorem W34_of_ne (c : Dev nD) (b : Ref sig .tc) (hb : ∀ w, Pipeline.arrRef spec15 w ≠ b) :
    W34 m ρ c (Proc.devRef .tc b) = W33 m ρ c (Proc.devRef .tc b) := by
  unfold W34; exact Pipeline.withArrays_of_ne spec15 c _ _ b hb
/-- The same read at the core's own references (region 15's exit contents). -/
abbrev V34 : (c : Dev nD) → (b : Ref sig .tc) → Buf (Elt F) ((c : Thread nD τ).loc b) := fun c b => W34 m ρ c b
/-- At region 15's exit each of its arrays holds what the pipeline leaves and every other buffer what it held at entry. -/
theorem hF15 (c : Dev nD) (w : Fin cfg15.W) : (dat15 (V33 m ρ) c).arrAt w cfg15.N = V34 m ρ c (Pipeline.arrRef spec15 w) :=
  (W34_arr m ρ c w).symm
theorem hrest15 (c : Dev nD) : ∀ b, b ∉ Finset.univ.image (Pipeline.arrRef spec15) → V34 m ρ c b = V33 m ρ c b :=
  fun b hb => W34_of_ne m ρ c b fun w e => hb (Finset.mem_image.mpr ⟨w, Finset.mem_univ _, e⟩)

/-- After the host stretch hostOps16. -/
abbrev W35 : Dev nD → Valuation τ sig (Elt F) := fun c => StableHlo.after hostOps16 (W34 m ρ c)

/-- The contents region 16 is entered from, read at the core's own references (what its proof data take). -/
abbrev V35 : (c : Dev nD) → (b : Ref sig .tc) → Buf (Elt F) ((c : Thread nD τ).loc b) := fun c b => W35 m ρ c b
/-- At region 16's exit: its arrays at what the pipeline leaves (an input as entered, the output's write-backs
    folded), every other buffer as entered. -/
def W36 (c : Dev nD) : Valuation τ sig (Elt F) :=
  Pipeline.withArrays spec16 c (W35 m ρ c) fun w => (dat16 (V35 m ρ) c).arrAt w cfg16.N
theorem W36_arr (c : Dev nD) (w : Fin cfg16.W) :
    W36 m ρ c (Proc.devRef .tc (Pipeline.arrRef spec16 w)) = (dat16 (V35 m ρ) c).arrAt w cfg16.N := by
  unfold W36; exact Pipeline.withArrays_arr spec16 launch16.win.arr_inj c _ _ w
theorem W36_of_ne (c : Dev nD) (b : Ref sig .tc) (hb : ∀ w, Pipeline.arrRef spec16 w ≠ b) :
    W36 m ρ c (Proc.devRef .tc b) = W35 m ρ c (Proc.devRef .tc b) := by
  unfold W36; exact Pipeline.withArrays_of_ne spec16 c _ _ b hb
/-- The same read at the core's own references (region 16's exit contents). -/
abbrev V36 : (c : Dev nD) → (b : Ref sig .tc) → Buf (Elt F) ((c : Thread nD τ).loc b) := fun c b => W36 m ρ c b
/-- At region 16's exit each of its arrays holds what the pipeline leaves and every other buffer what it held at entry. -/
theorem hF16 (c : Dev nD) (w : Fin cfg16.W) : (dat16 (V35 m ρ) c).arrAt w cfg16.N = V36 m ρ c (Pipeline.arrRef spec16 w) :=
  (W36_arr m ρ c w).symm
theorem hrest16 (c : Dev nD) : ∀ b, b ∉ Finset.univ.image (Pipeline.arrRef spec16) → V36 m ρ c b = V35 m ρ c b :=
  fun b hb => W36_of_ne m ρ c b fun w e => hb (Finset.mem_image.mpr ⟨w, Finset.mem_univ _, e⟩)

/-- After the host stretch hostOps17. -/
abbrev W37 : Dev nD → Valuation τ sig (Elt F) := fun c => StableHlo.after hostOps17 (W36 m ρ c)

/-- The contents region 17 is entered from, read at the core's own references (what its proof data take). -/
abbrev V37 : (c : Dev nD) → (b : Ref sig .tc) → Buf (Elt F) ((c : Thread nD τ).loc b) := fun c b => W37 m ρ c b
/-- At region 17's exit: its arrays at what the pipeline leaves (an input as entered, the output's write-backs
    folded), every other buffer as entered. -/
def W38 (c : Dev nD) : Valuation τ sig (Elt F) :=
  Pipeline.withArrays spec17 c (W37 m ρ c) fun w => (dat17 (V37 m ρ) c).arrAt w cfg17.N
theorem W38_arr (c : Dev nD) (w : Fin cfg17.W) :
    W38 m ρ c (Proc.devRef .tc (Pipeline.arrRef spec17 w)) = (dat17 (V37 m ρ) c).arrAt w cfg17.N := by
  unfold W38; exact Pipeline.withArrays_arr spec17 launch17.win.arr_inj c _ _ w
theorem W38_of_ne (c : Dev nD) (b : Ref sig .tc) (hb : ∀ w, Pipeline.arrRef spec17 w ≠ b) :
    W38 m ρ c (Proc.devRef .tc b) = W37 m ρ c (Proc.devRef .tc b) := by
  unfold W38; exact Pipeline.withArrays_of_ne spec17 c _ _ b hb
/-- The same read at the core's own references (region 17's exit contents). -/
abbrev V38 : (c : Dev nD) → (b : Ref sig .tc) → Buf (Elt F) ((c : Thread nD τ).loc b) := fun c b => W38 m ρ c b
/-- At region 17's exit each of its arrays holds what the pipeline leaves and every other buffer what it held at entry. -/
theorem hF17 (c : Dev nD) (w : Fin cfg17.W) : (dat17 (V37 m ρ) c).arrAt w cfg17.N = V38 m ρ c (Pipeline.arrRef spec17 w) :=
  (W38_arr m ρ c w).symm
theorem hrest17 (c : Dev nD) : ∀ b, b ∉ Finset.univ.image (Pipeline.arrRef spec17) → V38 m ρ c b = V37 m ρ c b :=
  fun b hb => W38_of_ne m ρ c b fun w e => hb (Finset.mem_image.mpr ⟨w, Finset.mem_univ _, e⟩)

/-- After the host stretch hostOps18. -/
abbrev W39 : Dev nD → Valuation τ sig (Elt F) := fun c => StableHlo.after hostOps18 (W38 m ρ c)

/-- The contents region 18 is entered from, read at the core's own references (what its proof data take). -/
abbrev V39 : (c : Dev nD) → (b : Ref sig .tc) → Buf (Elt F) ((c : Thread nD τ).loc b) := fun c b => W39 m ρ c b
/-- At region 18's exit: its arrays at what the pipeline leaves (an input as entered, the output's write-backs
    folded), every other buffer as entered. -/
def W40 (c : Dev nD) : Valuation τ sig (Elt F) :=
  Pipeline.withArrays spec18 c (W39 m ρ c) fun w => (dat18 (V39 m ρ) c).arrAt w cfg18.N
theorem W40_arr (c : Dev nD) (w : Fin cfg18.W) :
    W40 m ρ c (Proc.devRef .tc (Pipeline.arrRef spec18 w)) = (dat18 (V39 m ρ) c).arrAt w cfg18.N := by
  unfold W40; exact Pipeline.withArrays_arr spec18 launch18.win.arr_inj c _ _ w
theorem W40_of_ne (c : Dev nD) (b : Ref sig .tc) (hb : ∀ w, Pipeline.arrRef spec18 w ≠ b) :
    W40 m ρ c (Proc.devRef .tc b) = W39 m ρ c (Proc.devRef .tc b) := by
  unfold W40; exact Pipeline.withArrays_of_ne spec18 c _ _ b hb
/-- The same read at the core's own references (region 18's exit contents). -/
abbrev V40 : (c : Dev nD) → (b : Ref sig .tc) → Buf (Elt F) ((c : Thread nD τ).loc b) := fun c b => W40 m ρ c b
/-- At region 18's exit each of its arrays holds what the pipeline leaves and every other buffer what it held at entry. -/
theorem hF18 (c : Dev nD) (w : Fin cfg18.W) : (dat18 (V39 m ρ) c).arrAt w cfg18.N = V40 m ρ c (Pipeline.arrRef spec18 w) :=
  (W40_arr m ρ c w).symm
theorem hrest18 (c : Dev nD) : ∀ b, b ∉ Finset.univ.image (Pipeline.arrRef spec18) → V40 m ρ c b = V39 m ρ c b :=
  fun b hb => W40_of_ne m ρ c b fun w e => hb (Finset.mem_image.mpr ⟨w, Finset.mem_univ _, e⟩)

/-- After the host stretch hostOps19. -/
abbrev W41 : Dev nD → Valuation τ sig (Elt F) := fun c => StableHlo.after hostOps19 (W40 m ρ c)

/-- The contents region 19 is entered from, read at the core's own references (what its proof data take). -/
abbrev V41 : (c : Dev nD) → (b : Ref sig .tc) → Buf (Elt F) ((c : Thread nD τ).loc b) := fun c b => W41 m ρ c b
/-- At region 19's exit: its arrays at what the pipeline leaves (an input as entered, the output's write-backs
    folded), every other buffer as entered. -/
def W42 (c : Dev nD) : Valuation τ sig (Elt F) :=
  Pipeline.withArrays spec19 c (W41 m ρ c) fun w => (dat19 (V41 m ρ) c).arrAt w cfg19.N
theorem W42_arr (c : Dev nD) (w : Fin cfg19.W) :
    W42 m ρ c (Proc.devRef .tc (Pipeline.arrRef spec19 w)) = (dat19 (V41 m ρ) c).arrAt w cfg19.N := by
  unfold W42; exact Pipeline.withArrays_arr spec19 launch19.win.arr_inj c _ _ w
theorem W42_of_ne (c : Dev nD) (b : Ref sig .tc) (hb : ∀ w, Pipeline.arrRef spec19 w ≠ b) :
    W42 m ρ c (Proc.devRef .tc b) = W41 m ρ c (Proc.devRef .tc b) := by
  unfold W42; exact Pipeline.withArrays_of_ne spec19 c _ _ b hb
/-- The same read at the core's own references (region 19's exit contents). -/
abbrev V42 : (c : Dev nD) → (b : Ref sig .tc) → Buf (Elt F) ((c : Thread nD τ).loc b) := fun c b => W42 m ρ c b
/-- At region 19's exit each of its arrays holds what the pipeline leaves and every other buffer what it held at entry. -/
theorem hF19 (c : Dev nD) (w : Fin cfg19.W) : (dat19 (V41 m ρ) c).arrAt w cfg19.N = V42 m ρ c (Pipeline.arrRef spec19 w) :=
  (W42_arr m ρ c w).symm
theorem hrest19 (c : Dev nD) : ∀ b, b ∉ Finset.univ.image (Pipeline.arrRef spec19) → V42 m ρ c b = V41 m ρ c b :=
  fun b hb => W42_of_ne m ρ c b fun w e => hb (Finset.mem_image.mpr ⟨w, Finset.mem_univ _, e⟩)

/-- After the host stretch hostOps20. -/
abbrev W43 : Dev nD → Valuation τ sig (Elt F) := fun c => StableHlo.after hostOps20 (W42 m ρ c)

/-- The contents region 20 is entered from, read at the core's own references (what its proof data take). -/
abbrev V43 : (c : Dev nD) → (b : Ref sig .tc) → Buf (Elt F) ((c : Thread nD τ).loc b) := fun c b => W43 m ρ c b
/-- At region 20's exit: its arrays at what the pipeline leaves (an input as entered, the output's write-backs
    folded), every other buffer as entered. -/
def W44 (c : Dev nD) : Valuation τ sig (Elt F) :=
  Pipeline.withArrays spec20 c (W43 m ρ c) fun w => (dat20 (V43 m ρ) c).arrAt w cfg20.N
theorem W44_arr (c : Dev nD) (w : Fin cfg20.W) :
    W44 m ρ c (Proc.devRef .tc (Pipeline.arrRef spec20 w)) = (dat20 (V43 m ρ) c).arrAt w cfg20.N := by
  unfold W44; exact Pipeline.withArrays_arr spec20 launch20.win.arr_inj c _ _ w
theorem W44_of_ne (c : Dev nD) (b : Ref sig .tc) (hb : ∀ w, Pipeline.arrRef spec20 w ≠ b) :
    W44 m ρ c (Proc.devRef .tc b) = W43 m ρ c (Proc.devRef .tc b) := by
  unfold W44; exact Pipeline.withArrays_of_ne spec20 c _ _ b hb
/-- The same read at the core's own references (region 20's exit contents). -/
abbrev V44 : (c : Dev nD) → (b : Ref sig .tc) → Buf (Elt F) ((c : Thread nD τ).loc b) := fun c b => W44 m ρ c b
/-- At region 20's exit each of its arrays holds what the pipeline leaves and every other buffer what it held at entry. -/
theorem hF20 (c : Dev nD) (w : Fin cfg20.W) : (dat20 (V43 m ρ) c).arrAt w cfg20.N = V44 m ρ c (Pipeline.arrRef spec20 w) :=
  (W44_arr m ρ c w).symm
theorem hrest20 (c : Dev nD) : ∀ b, b ∉ Finset.univ.image (Pipeline.arrRef spec20) → V44 m ρ c b = V43 m ρ c b :=
  fun b hb => W44_of_ne m ρ c b fun w e => hb (Finset.mem_image.mpr ⟨w, Finset.mem_univ _, e⟩)

/-- After the host stretch hostOps21. -/
abbrev W45 : Dev nD → Valuation τ sig (Elt F) := fun c => StableHlo.after hostOps21 (W44 m ρ c)

/-- The contents region 21 is entered from, read at the core's own references (what its proof data take). -/
abbrev V45 : (c : Dev nD) → (b : Ref sig .tc) → Buf (Elt F) ((c : Thread nD τ).loc b) := fun c b => W45 m ρ c b
/-- At region 21's exit: its arrays at what the pipeline leaves (an input as entered, the output's write-backs
    folded), every other buffer as entered. -/
def W46 (c : Dev nD) : Valuation τ sig (Elt F) :=
  Pipeline.withArrays spec21 c (W45 m ρ c) fun w => (dat21 (V45 m ρ) c).arrAt w cfg21.N
theorem W46_arr (c : Dev nD) (w : Fin cfg21.W) :
    W46 m ρ c (Proc.devRef .tc (Pipeline.arrRef spec21 w)) = (dat21 (V45 m ρ) c).arrAt w cfg21.N := by
  unfold W46; exact Pipeline.withArrays_arr spec21 launch21.win.arr_inj c _ _ w
theorem W46_of_ne (c : Dev nD) (b : Ref sig .tc) (hb : ∀ w, Pipeline.arrRef spec21 w ≠ b) :
    W46 m ρ c (Proc.devRef .tc b) = W45 m ρ c (Proc.devRef .tc b) := by
  unfold W46; exact Pipeline.withArrays_of_ne spec21 c _ _ b hb
/-- The same read at the core's own references (region 21's exit contents). -/
abbrev V46 : (c : Dev nD) → (b : Ref sig .tc) → Buf (Elt F) ((c : Thread nD τ).loc b) := fun c b => W46 m ρ c b
/-- At region 21's exit each of its arrays holds what the pipeline leaves and every other buffer what it held at entry. -/
theorem hF21 (c : Dev nD) (w : Fin cfg21.W) : (dat21 (V45 m ρ) c).arrAt w cfg21.N = V46 m ρ c (Pipeline.arrRef spec21 w) :=
  (W46_arr m ρ c w).symm
theorem hrest21 (c : Dev nD) : ∀ b, b ∉ Finset.univ.image (Pipeline.arrRef spec21) → V46 m ρ c b = V45 m ρ c b :=
  fun b hb => W46_of_ne m ρ c b fun w e => hb (Finset.mem_image.mpr ⟨w, Finset.mem_univ _, e⟩)

/-- After the host stretch hostOps22. -/
abbrev W47 : Dev nD → Valuation τ sig (Elt F) := fun c => StableHlo.after hostOps22 (W46 m ρ c)

/-- The contents region 22 is entered from, read at the core's own references (what its proof data take). -/
abbrev V47 : (c : Dev nD) → (b : Ref sig .tc) → Buf (Elt F) ((c : Thread nD τ).loc b) := fun c b => W47 m ρ c b
/-- At region 22's exit: its arrays at what the pipeline leaves (an input as entered, the output's write-backs
    folded), every other buffer as entered. -/
def W48 (c : Dev nD) : Valuation τ sig (Elt F) :=
  Pipeline.withArrays spec22 c (W47 m ρ c) fun w => (dat22 (V47 m ρ) c).arrAt w cfg22.N
theorem W48_arr (c : Dev nD) (w : Fin cfg22.W) :
    W48 m ρ c (Proc.devRef .tc (Pipeline.arrRef spec22 w)) = (dat22 (V47 m ρ) c).arrAt w cfg22.N := by
  unfold W48; exact Pipeline.withArrays_arr spec22 launch22.win.arr_inj c _ _ w
theorem W48_of_ne (c : Dev nD) (b : Ref sig .tc) (hb : ∀ w, Pipeline.arrRef spec22 w ≠ b) :
    W48 m ρ c (Proc.devRef .tc b) = W47 m ρ c (Proc.devRef .tc b) := by
  unfold W48; exact Pipeline.withArrays_of_ne spec22 c _ _ b hb
/-- The same read at the core's own references (region 22's exit contents). -/
abbrev V48 : (c : Dev nD) → (b : Ref sig .tc) → Buf (Elt F) ((c : Thread nD τ).loc b) := fun c b => W48 m ρ c b
/-- At region 22's exit each of its arrays holds what the pipeline leaves and every other buffer what it held at entry. -/
theorem hF22 (c : Dev nD) (w : Fin cfg22.W) : (dat22 (V47 m ρ) c).arrAt w cfg22.N = V48 m ρ c (Pipeline.arrRef spec22 w) :=
  (W48_arr m ρ c w).symm
theorem hrest22 (c : Dev nD) : ∀ b, b ∉ Finset.univ.image (Pipeline.arrRef spec22) → V48 m ρ c b = V47 m ρ c b :=
  fun b hb => W48_of_ne m ρ c b fun w e => hb (Finset.mem_image.mpr ⟨w, Finset.mem_univ _, e⟩)

/-- After the host stretch hostOps23. -/
abbrev W49 : Dev nD → Valuation τ sig (Elt F) := fun c => StableHlo.after hostOps23 (W48 m ρ c)

/-- The contents region 23 is entered from, read at the core's own references (what its proof data take). -/
abbrev V49 : (c : Dev nD) → (b : Ref sig .tc) → Buf (Elt F) ((c : Thread nD τ).loc b) := fun c b => W49 m ρ c b
/-- At region 23's exit: its arrays at what the pipeline leaves (an input as entered, the output's write-backs
    folded), every other buffer as entered. -/
def W50 (c : Dev nD) : Valuation τ sig (Elt F) :=
  Pipeline.withArrays spec23 c (W49 m ρ c) fun w => (dat23 (V49 m ρ) c).arrAt w cfg23.N
theorem W50_arr (c : Dev nD) (w : Fin cfg23.W) :
    W50 m ρ c (Proc.devRef .tc (Pipeline.arrRef spec23 w)) = (dat23 (V49 m ρ) c).arrAt w cfg23.N := by
  unfold W50; exact Pipeline.withArrays_arr spec23 launch23.win.arr_inj c _ _ w
theorem W50_of_ne (c : Dev nD) (b : Ref sig .tc) (hb : ∀ w, Pipeline.arrRef spec23 w ≠ b) :
    W50 m ρ c (Proc.devRef .tc b) = W49 m ρ c (Proc.devRef .tc b) := by
  unfold W50; exact Pipeline.withArrays_of_ne spec23 c _ _ b hb
/-- The same read at the core's own references (region 23's exit contents). -/
abbrev V50 : (c : Dev nD) → (b : Ref sig .tc) → Buf (Elt F) ((c : Thread nD τ).loc b) := fun c b => W50 m ρ c b
/-- At region 23's exit each of its arrays holds what the pipeline leaves and every other buffer what it held at entry. -/
theorem hF23 (c : Dev nD) (w : Fin cfg23.W) : (dat23 (V49 m ρ) c).arrAt w cfg23.N = V50 m ρ c (Pipeline.arrRef spec23 w) :=
  (W50_arr m ρ c w).symm
theorem hrest23 (c : Dev nD) : ∀ b, b ∉ Finset.univ.image (Pipeline.arrRef spec23) → V50 m ρ c b = V49 m ρ c b :=
  fun b hb => W50_of_ne m ρ c b fun w e => hb (Finset.mem_image.mpr ⟨w, Finset.mem_univ _, e⟩)

/-- After the host stretch hostOps24. -/
abbrev W51 : Dev nD → Valuation τ sig (Elt F) := fun c => StableHlo.after hostOps24 (W50 m ρ c)

/-- The contents region 24 is entered from, read at the core's own references (what its proof data take). -/
abbrev V51 : (c : Dev nD) → (b : Ref sig .tc) → Buf (Elt F) ((c : Thread nD τ).loc b) := fun c b => W51 m ρ c b
/-- At region 24's exit: its arrays at what the pipeline leaves (an input as entered, the output's write-backs
    folded), every other buffer as entered. -/
def W52 (c : Dev nD) : Valuation τ sig (Elt F) :=
  Pipeline.withArrays spec24 c (W51 m ρ c) fun w => (dat24 (V51 m ρ) c).arrAt w cfg24.N
theorem W52_arr (c : Dev nD) (w : Fin cfg24.W) :
    W52 m ρ c (Proc.devRef .tc (Pipeline.arrRef spec24 w)) = (dat24 (V51 m ρ) c).arrAt w cfg24.N := by
  unfold W52; exact Pipeline.withArrays_arr spec24 launch24.win.arr_inj c _ _ w
theorem W52_of_ne (c : Dev nD) (b : Ref sig .tc) (hb : ∀ w, Pipeline.arrRef spec24 w ≠ b) :
    W52 m ρ c (Proc.devRef .tc b) = W51 m ρ c (Proc.devRef .tc b) := by
  unfold W52; exact Pipeline.withArrays_of_ne spec24 c _ _ b hb
/-- The same read at the core's own references (region 24's exit contents). -/
abbrev V52 : (c : Dev nD) → (b : Ref sig .tc) → Buf (Elt F) ((c : Thread nD τ).loc b) := fun c b => W52 m ρ c b
/-- At region 24's exit each of its arrays holds what the pipeline leaves and every other buffer what it held at entry. -/
theorem hF24 (c : Dev nD) (w : Fin cfg24.W) : (dat24 (V51 m ρ) c).arrAt w cfg24.N = V52 m ρ c (Pipeline.arrRef spec24 w) :=
  (W52_arr m ρ c w).symm
theorem hrest24 (c : Dev nD) : ∀ b, b ∉ Finset.univ.image (Pipeline.arrRef spec24) → V52 m ρ c b = V51 m ρ c b :=
  fun b hb => W52_of_ne m ρ c b fun w e => hb (Finset.mem_image.mpr ⟨w, Finset.mem_univ _, e⟩)

/-- After the host stretch hostOps25. -/
abbrev W53 : Dev nD → Valuation τ sig (Elt F) := fun c => StableHlo.after hostOps25 (W52 m ρ c)

/-- The contents region 25 is entered from, read at the core's own references (what its proof data take). -/
abbrev V53 : (c : Dev nD) → (b : Ref sig .tc) → Buf (Elt F) ((c : Thread nD τ).loc b) := fun c b => W53 m ρ c b
/-- At region 25's exit: its arrays at what the pipeline leaves (an input as entered, the output's write-backs
    folded), every other buffer as entered. -/
def W54 (c : Dev nD) : Valuation τ sig (Elt F) :=
  Pipeline.withArrays spec25 c (W53 m ρ c) fun w => (dat25 (V53 m ρ) c).arrAt w cfg25.N
theorem W54_arr (c : Dev nD) (w : Fin cfg25.W) :
    W54 m ρ c (Proc.devRef .tc (Pipeline.arrRef spec25 w)) = (dat25 (V53 m ρ) c).arrAt w cfg25.N := by
  unfold W54; exact Pipeline.withArrays_arr spec25 launch25.win.arr_inj c _ _ w
theorem W54_of_ne (c : Dev nD) (b : Ref sig .tc) (hb : ∀ w, Pipeline.arrRef spec25 w ≠ b) :
    W54 m ρ c (Proc.devRef .tc b) = W53 m ρ c (Proc.devRef .tc b) := by
  unfold W54; exact Pipeline.withArrays_of_ne spec25 c _ _ b hb
/-- The same read at the core's own references (region 25's exit contents). -/
abbrev V54 : (c : Dev nD) → (b : Ref sig .tc) → Buf (Elt F) ((c : Thread nD τ).loc b) := fun c b => W54 m ρ c b
/-- At region 25's exit each of its arrays holds what the pipeline leaves and every other buffer what it held at entry. -/
theorem hF25 (c : Dev nD) (w : Fin cfg25.W) : (dat25 (V53 m ρ) c).arrAt w cfg25.N = V54 m ρ c (Pipeline.arrRef spec25 w) :=
  (W54_arr m ρ c w).symm
theorem hrest25 (c : Dev nD) : ∀ b, b ∉ Finset.univ.image (Pipeline.arrRef spec25) → V54 m ρ c b = V53 m ρ c b :=
  fun b hb => W54_of_ne m ρ c b fun w e => hb (Finset.mem_image.mpr ⟨w, Finset.mem_univ _, e⟩)

/-- After the host stretch hostOps26. -/
abbrev W55 : Dev nD → Valuation τ sig (Elt F) := fun c => StableHlo.after hostOps26 (W54 m ρ c)

/-! # The proof data family and what rides beside the buffers -/

/-- The prefetched tables' admissible contents: no pipeline has a table. -/
abbrev adm : (p : Fin 26) → (pcfgs (F := F) p).Adm := fun p => (cfgs p).toPCfg_adm
/-- Every pipeline's proof data, each at its region's entry contents: a literal match, so that the pinned
    configuration at a numeral reduces to the printed one. -/
def pdats : (p : Fin 26) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
  | ⟨8, _⟩ => fun c => dat8 (V19 m ρ) c
  | ⟨9, _⟩ => fun c => dat9 (V21 m ρ) c
  | ⟨10, _⟩ => fun c => dat10 (V23 m ρ) c
  | ⟨11, _⟩ => fun c => dat11 (V25 m ρ) c
  | ⟨12, _⟩ => fun c => dat12 (V27 m ρ) c
  | ⟨13, _⟩ => fun c => dat13 (V29 m ρ) c
  | ⟨14, _⟩ => fun c => dat14 (V31 m ρ) c
  | ⟨15, _⟩ => fun c => dat15 (V33 m ρ) c
  | ⟨16, _⟩ => fun c => dat16 (V35 m ρ) c
  | ⟨17, _⟩ => fun c => dat17 (V37 m ρ) c
  | ⟨18, _⟩ => fun c => dat18 (V39 m ρ) c
  | ⟨19, _⟩ => fun c => dat19 (V41 m ρ) c
  | ⟨20, _⟩ => fun c => dat20 (V43 m ρ) c
  | ⟨21, _⟩ => fun c => dat21 (V45 m ρ) c
  | ⟨22, _⟩ => fun c => dat22 (V47 m ρ) c
  | ⟨23, _⟩ => fun c => dat23 (V49 m ρ) c
  | ⟨24, _⟩ => fun c => dat24 (V51 m ρ) c
  | ⟨25, _⟩ => fun c => dat25 (V53 m ρ) c
  | ⟨_ + 26, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it is left
    with those references at the stretch's result from W, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W55 m ρ c) ∗ ∃ r, prngReg c r)

end Cert.Kernel.Hand

end
-- ==== Proof.KB.Body0.lean ====
import proofs.«141679_j61469571940402_1_alg».proof.Proof.KB.BodyDef0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: the body's triple and the body obligation -/

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KB.Reg0.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 0 over the thread state: entered from every unscoped buffer at W3, left at W4. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body1.lean ====
import proofs.«141679_j61469571940402_1_alg».proof.Proof.KB.BodyDef1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 1: the body's triple and the body obligation -/

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.KB.Reg1.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 1 over the thread state: entered from every unscoped buffer at W5, left at W6. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body2.lean ====
import proofs.«141679_j61469571940402_1_alg».proof.Proof.KB.BodyDef2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 2: the body's triple and the body obligation -/

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.KB.Reg2.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 2 over the thread state: entered from every unscoped buffer at W7, left at W8. Its arrays are
    split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body3.lean ====
import proofs.«141679_j61469571940402_1_alg».proof.Proof.KB.BodyDef3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 3: the body's triple and the body obligation -/

/-! ## The body's triple -/

set_option maxHeartbeats 1000000 in
/-- The kernel body on whole staging memrefs, the inputs' at read contents `xW` and the output's at anything, runs to
    the continuation holding the inputs' as they were and the output's at `out3_3` of the inputs'. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- Each input's staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KB.Reg3.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 3 over the thread state: entered from every unscoped buffer at W9, left at W10. Its arrays are
    split out of the unscoped buffers and put back at the exit contents; the generator register goes into the
    class invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body4.lean ====
import proofs.«141679_j61469571940402_1_alg».proof.Proof.KB.BodyDef4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 4: the body's triple and the body obligation -/

/-! ## The body's triple -/

set_option maxHeartbeats 1000000 in
/-- The kernel body on whole staging memrefs, the inputs' at read contents `xW` and the output's at anything, runs to
    the continuation holding the inputs' as they were and the output's at `out4_3` of the inputs'. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- Each input's staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KB.Reg4.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 4 over the thread state: entered from every unscoped buffer at W11, left at W12. Its arrays are
    split out of the unscoped buffers and put back at the exit contents; the generator register goes into the
    class invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body5.lean ====
import proofs.«141679_j61469571940402_1_alg».proof.Proof.KB.BodyDef5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 5: the body's triple and the body obligation -/

/-! ## The body's triple -/

set_option maxHeartbeats 1000000 in
/-- The kernel body on whole staging memrefs, the inputs' at read contents `xW` and the output's at anything, runs to
    the continuation holding the inputs' as they were and the output's at `out5_3` of the inputs'. -/
theorem sound_kernel5 (c : Dev nD) (E : Set ℕ) (i : grid5.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- Each input's staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.KB.Reg5.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 5 over the thread state: entered from every unscoped buffer at W13, left at W14. Its arrays are
    split out of the unscoped buffers and put back at the exit contents; the generator register goes into the
    class invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body6.lean ====
import proofs.«141679_j61469571940402_1_alg».proof.Proof.KB.BodyDef6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 6: the body's triple and the body obligation -/

/-! ## The body's triple -/

set_option maxHeartbeats 1000000 in
/-- The kernel body on whole staging memrefs, the inputs' at read contents `xW` and the output's at anything, runs to
    the continuation holding the inputs' as they were and the output's at `out6_3` of the inputs'. -/
theorem sound_kernel6 (c : Dev nD) (E : Set ℕ) (i : grid6.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- Each input's staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KB.Reg6.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 6 over the thread state: entered from every unscoped buffer at W15, left at W16. Its arrays are
    split out of the unscoped buffers and put back at the exit contents; the generator register goes into the
    class invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (V15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V15 m ρ c) (V16 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body7.lean ====
import proofs.«141679_j61469571940402_1_alg».proof.Proof.KB.BodyDef7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 7: the body's triple and the body obligation -/

/-! ## The body's triple -/

set_option maxHeartbeats 1000000 in
/-- The kernel body on whole staging memrefs, the inputs' at read contents `xW` and the output's at anything, runs to
    the continuation holding the inputs' as they were and the output's at `out7_5` of the inputs'. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- Each input's staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.KB.Reg7.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 7 over the thread state: entered from every unscoped buffer at W17, left at W18. Its arrays are
    split out of the unscoped buffers and put back at the exit contents; the generator register goes into the
    class invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V17 m ρ) c).loose
  hwaits := Pipeline.hwaits_of_owed_zero _ _ _ _ L lv 7 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec7 c (V17 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V17 m ρ c) (V18 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body8.lean ====
import proofs.«141679_j61469571940402_1_alg».proof.Proof.KB.BodyDef8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 8: the body's triple and the body obligation -/

/-! ## The body's triple -/

set_option maxHeartbeats 1000000 in
/-- The kernel body on whole staging memrefs, the inputs' at read contents `xW` and the output's at anything, runs to
    the continuation holding the inputs' as they were and the output's at `out8_7` of the inputs'. -/
theorem sound_kernel8 (c : Dev nD) (E : Set ℕ) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6)) -∗ K ⟨⟩))
      ⊢ wp frame (wpE (defs₀ (F := F)) Variants.none c none) E (cc8_kernel i arg1 harg1 arg2 harg2 arg3 harg3 arg4 harg4 arg5 harg5 arg6 harg6 arg7 harg7 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-- Each input's staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.KB.Reg8.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 8 over the thread state: entered from every unscoped buffer at W19, left at W20. Its arrays are
    split out of the unscoped buffers and put back at the exit contents; the generator register goes into the
    class invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V19 m ρ) c).loose
  hwaits := Pipeline.hwaits_of_owed_zero _ _ _ _ L lv 8 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec8 c (V19 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V19 m ρ c) (V20 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body9.lean ====
import proofs.«141679_j61469571940402_1_alg».proof.Proof.KB.BodyDef9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 9: the body's triple and the body obligation -/

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg1 : Memref sig .tc .vmem S50x128 .f32) (harg1 : arg1.IsWhole) (arg2 : Memref sig .tc .vmem S50x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S50x128 .f32) (harg6 : arg6.IsWhole)
    (x0 : Vec F S50x128 .f32) (x1 : Vec F S50x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9_kernel i arg1 harg1 arg2 harg2 arg3 harg3 arg4 harg4 arg5 harg5 arg6 harg6) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-- Each input's staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.KB.Reg9.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 9 over the thread state: entered from every unscoped buffer at W21, left at W22. Its arrays are
    split out of the unscoped buffers and put back at the exit contents; the generator register goes into the
    class invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V21 m ρ) c).loose
  hwaits := Pipeline.hwaits_of_owed_zero _ _ _ _ L lv 9 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec9 c (V21 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V21 m ρ c) (V22 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body10.lean ====
import proofs.«141679_j61469571940402_1_alg».proof.Proof.KB.BodyDef10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 10: the body's triple and the body obligation -/

/-! ## The body's triple -/

set_option maxHeartbeats 1000000 in
/-- The kernel body on whole staging memrefs, the inputs' at read contents `xW` and the output's at anything, runs to
    the continuation holding the inputs' as they were and the output's at `out10_5` of the inputs'. -/
theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10_kernel i arg1 harg1 arg2 harg2 arg3 harg3 arg4 harg4 arg5 harg5 arg6 harg6) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-- Each input's staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand
-- ==== Proof.KB.Reg10.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 10 over the thread state: entered from every unscoped buffer at W23, left at W24. Its arrays are
    split out of the unscoped buffers and put back at the exit contents; the generator register goes into the
    class invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V23 m ρ) c).loose
  hwaits := Pipeline.hwaits_of_owed_zero _ _ _ _ L lv 10 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec10 c (V23 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V23 m ρ c) (V24 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body11.lean ====
import proofs.«141679_j61469571940402_1_alg».proof.Proof.KB.BodyDef11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 11: the body's triple and the body obligation -/

/-! ## The body's triple -/

set_option maxHeartbeats 1000000 in
/-- The kernel body on whole staging memrefs, the inputs' at read contents `xW` and the output's at anything, runs to
    the continuation holding the inputs' as they were and the output's at `out11_5` of the inputs'. -/
theorem sound_kernel11 (c : Dev nD) (E : Set ℕ) (i : grid11.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- Each input's staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.KB.Reg11.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 11 over the thread state: entered from every unscoped buffer at W25, left at W26. Its arrays are
    split out of the unscoped buffers and put back at the exit contents; the generator register goes into the
    class invariant and comes out; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V25 m ρ) c).loose
  hwaits := Pipeline.hwaits_of_owed_zero _ _ _ _ L lv 11 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec11 c (V25 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V25 m ρ c) (V26 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body12.lean ====
import proofs.«141679_j61469571940402_1_alg».proof.Proof.KB.BodyDef12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 12: the body's triple and the body obligation -/

/-! ## The body's triple -/

set_option maxHeartbeats 1000000 in
/-- The kernel body on whole staging memrefs, the inputs' at read contents `xW` and the output's at anything, runs to
    the continuation holding the inputs' as they were and the output's at `out12_3` of the inputs'. -/
theorem sound_kernel12 (c : Dev nD) (E : Set ℕ) (i : grid12.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12_kernel i arg1 harg1 arg2 harg2 arg3 harg3 arg4 harg4) K := by
  simp only [cc12_kernel_eq_skeleton]; unfold cc12_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- Each input's staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so `sound_kernel12` applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.KB.Reg12.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 12 over the thread state: entered from every unscoped buffer at W27, left at W28. Its arrays are
    split out of the unscoped buffers and put back at the exit contents; the generator register goes into the
    class invariant and comes out; nothing is owed; the kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V27 m ρ) c).loose
  hwaits := Pipeline.hwaits_of_owed_zero _ _ _ _ L lv 12 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec12 c (V27 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V27 m ρ c) (V28 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body13.lean ====
import proofs.«141679_j61469571940402_1_alg».proof.Proof.KB.BodyDef13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 13: the body's triple and the body obligation -/

/-! ## The body's triple -/

set_option maxHeartbeats 1000000 in
/-- The kernel body on whole staging memrefs, the inputs' at read contents `xW` and the output's at anything, runs to
    the continuation holding the inputs' as they were and the output's at `out13_3` of the inputs'. -/
theorem sound_kernel13 (c : Dev nD) (E : Set ℕ) (i : grid13.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out13_3 x0 x1 x2)) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-- Each input's staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so `sound_kernel13` applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand
-- ==== Proof.KB.Reg13.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 13 over the thread state: entered from every unscoped buffer at W29, left at W30. Its arrays are
    split out of the unscoped buffers and put back at the exit contents; the generator register goes into the
    class invariant and comes out; nothing is owed; the kernel has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V29 m ρ) c).loose
  hwaits := Pipeline.hwaits_of_owed_zero _ _ _ _ L lv 13 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec13 c (V29 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V29 m ρ c) (V30 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body14.lean ====
import proofs.«141679_j61469571940402_1_alg».proof.Proof.KB.BodyDef14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 14: the body's triple and the body obligation -/

/-! ## The body's triple -/

set_option maxHeartbeats 1000000 in
/-- The kernel body on whole staging memrefs, the inputs' at read contents `xW` and the output's at anything, runs to
    the continuation holding the inputs' as they were and the output's at `out14_3` of the inputs'. -/
theorem sound_kernel14 (c : Dev nD) (E : Set ℕ) (i : grid14.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14_3 x0 x1 x2)) -∗ K ⟨⟩))
      ⊢ wp frame (wpE (defs₀ (F := F)) Variants.none c none) E (cc14_kernel i arg1 harg1 arg2 harg2 arg3 harg3 arg4 harg4) K := by
  simp only [cc14_kernel_eq_skeleton]; unfold cc14_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-- Each input's staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so `sound_kernel14` applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ (grid14.coords t) _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand
-- ==== Proof.KB.Reg14.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 14 over the thread state: entered from every unscoped buffer at W31, left at W32. Its arrays are
    split out of the unscoped buffers and put back at the exit contents; the generator register goes into the
    class invariant and comes out; nothing is owed; the kernel has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V31 m ρ) c).loose
  hwaits := Pipeline.hwaits_of_owed_zero _ _ _ _ L lv 14 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec14 c (V31 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V31 m ρ c) (V32 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body15.lean ====
import proofs.«141679_j61469571940402_1_alg».proof.Proof.KB.BodyDef15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 15: the body's triple and the body obligation -/

/-! ## The body's triple -/

set_option maxHeartbeats 1000000 in
/-- The kernel body on whole staging memrefs, the inputs' at read contents `xW` and the output's at anything, runs to
    the continuation holding the inputs' as they were and the output's at `out15_3` of the inputs'. -/
theorem sound_kernel15 (c : Dev nD) (E : Set ℕ) (i : grid15.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- Each input's staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks, so `sound_kernel15` applies; the invariant and the
    core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ (grid15.coords t) _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Hand
-- ==== Proof.KB.Reg15.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 15 over the thread state: entered from every unscoped buffer at W33, left at W34. Its arrays are
    split out of the unscoped buffers and put back at the exit contents; the generator register goes into the
    class invariant and comes out; nothing is owed; the kernel has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V33 m ρ) c).loose
  hwaits := Pipeline.hwaits_of_owed_zero _ _ _ _ L lv 15 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec15 c (V33 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V33 m ρ c) (V34 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body16.lean ====
import proofs.«141679_j61469571940402_1_alg».proof.Proof.KB.BodyDef16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 16: the body's triple and the body obligation -/

/-! ## The body's triple -/

set_option maxHeartbeats 1000000 in
/-- The kernel body on whole staging memrefs, the inputs' at read contents `xW` and the output's at anything, runs to
    the continuation holding the inputs' as they were and the output's at `out16_5` of the inputs'. -/
theorem sound_kernel16 (c : Dev nD) (E : Set ℕ) (i : grid16.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out16_5 x0 x1 x2 x3 x4)) -∗ K ⟨⟩))
      ⊢ wp frame (wpE (defs₀ (F := F)) Variants.none c none) E (cc16_kernel i arg1 harg1 arg2 harg2 arg3 harg3 arg4 harg4 arg5 harg5 arg6 harg6) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-- Each input's staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' memrefs hold their blocks, so `sound_kernel16` applies; the invariant and the
    core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ (grid16.coords t) _ _ _ _ _ _ _ _ _ _ _ _ (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Hand
-- ==== Proof.KB.Reg16.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 16 over the thread state: entered from every unscoped buffer at W35, left at W36. Its arrays are
    split out of the unscoped buffers and put back at the exit contents; the generator register goes into the
    class invariant and comes out; nothing is owed; the kernel has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V35 m ρ) c).loose
  hwaits := Pipeline.hwaits_of_owed_zero _ _ _ _ L lv 16 fun _ _ => rfl
  pre c := iprop(StableHlo.held (c : Thread nD τ) (Pipeline.ucRefs τ sig) (W35 m ρ c) ∗ R c)
  post c := iprop(StableHlo.held (c : Thread nD τ) (Pipeline.ucRefs τ sig) (W36 m ρ c) ∗ R c)
  X c := iprop(∃ r, prngReg c r)
  Y c := iprop(∃ r, prngReg c r)
  Z c := Pipeline.unscopedRest (Ix := Unit) (Name := ℕ) (U := UR sig nD τ) (Lvl := ℕ) spec16 c (V35 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V35 m ρ c) (V36 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body17.lean ====
import proofs.«141679_j61469571940402_1_alg».proof.Proof.KB.BodyDef17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 17: the body's triple and the body obligation -/

/-! ## The body's triple -/

set_option maxHeartbeats 1000000 in
/-- The kernel body on whole staging memrefs, the inputs' at read contents `xW` and the output's at anything, runs to
    the continuation holding the inputs' as they were and the output's at `out17_7` of the inputs'. -/
theorem sound_kernel17 (c : Dev nD) (E : Set ℕ) (i : grid17.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out17_7 x0 x1 x2 x3 x4 x5 x6)) -∗ K ⟨⟩))
      ⊢ wp frame (wpE (defs₀ (F := F)) Variants.none c none) E (cc17_kernel i arg1 harg1 arg2 harg2 arg3 harg3 arg4 harg4 arg5 harg5 arg6 harg6 arg7 harg7 arg8 harg8) K := by
  simp only [cc17_kernel_eq_skeleton]; unfold cc17_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover17_7 _)

/-- Each input's staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d
theorem before17_5 (c : Dev nD) (t : Fin cfg17.N) (d) : (dat17 V c).before 5 t d = iblk17 V c 5 t :=
  before17_5_of V (dat17 V c) (A_eq17 V c 5) (after17_5 V c) t d
theorem before17_6 (c : Dev nD) (t : Fin cfg17.N) (d) : (dat17 V c).before 6 t d = iblk17 V c 6 t :=
  before17_6_of V (dat17 V c) (A_eq17 V c 6) (after17_6 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d))
    ∗ (∃ d, owns (c : Thread nD τ) (st17_6 t) fullShare ((dat17 V c).before 6 t d))
    ∗ (∃ d, owns (c : Thread nD τ) (st17_7 t) fullShare ((dat17 V c).before 7 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t)
    ∗ owns (c : Thread nD τ) (st17_6 t) fullShare ((dat17 V c).after 6 t)
    ∗ owns (c : Thread nD τ) (st17_7 t) fullShare ((dat17 V c).after 7 t))

/-- The body at any point: the inputs' memrefs hold their blocks, so `sound_kernel17` applies; the invariant and the
    core's dues pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4, before17_5, before17_6]
  rw [show (dat17 V c).Φ t.succ = (dat17 V c).Φ t.castSucc from rfl,
    show (dat17 V c).owesAt () t.succ = (dat17 V c).owesAt () t.castSucc from rfl,
    after17_0, after17_1, after17_2, after17_3, after17_4, after17_5, after17_6, after17_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel17 c Set.univ (grid17.coords t) _ _ _ _ _ _ _ _ _ _ _ _ _ _ _ _ (iblk17 V c 0 t) (iblk17 V c 1 t) (iblk17 V c 2 t) (iblk17 V c 3 t) (iblk17 V c 4 t) (iblk17 V c 5 t) (iblk17 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Hand
-- ==== Proof.KB.Reg17.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 17 over the thread state: entered from every unscoped buffer at W37, left at W38. Its arrays are
    split out of the unscoped buffers and put back at the exit contents; the generator register goes into the
    class invariant and comes out; nothing is owed; the kernel has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V37 m ρ) c).loose
  hwaits := Pipeline.hwaits_of_owed_zero _ _ _ _ L lv 17 fun _ _ => rfl
  pre c := iprop(StableHlo.held (c : Thread nD τ) (Pipeline.ucRefs τ sig) (W37 m ρ c) ∗ R c)
  post c := iprop(StableHlo.held (c : Thread nD τ) (Pipeline.ucRefs τ sig) (W38 m ρ c) ∗ R c)
  X c := iprop(∃ r, prngReg c r)
  Y c := iprop(∃ r, prngReg c r)
  Z c := Pipeline.unscopedRest (Ix := Unit) (Name := ℕ) (U := UR sig nD τ) (Lvl := ℕ) spec17 c (V37 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V37 m ρ c) (V38 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body18.lean ====
import proofs.«141679_j61469571940402_1_alg».proof.Proof.KB.BodyDef18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 18: the body's triple and the body obligation -/

/-! ## The body's triple -/

set_option maxHeartbeats 1000000 in
/-- The kernel body on whole staging memrefs, the inputs' at read contents `xW` and the output's at anything, runs to
    the continuation holding the inputs' as they were and the output's at `out18_5` of the inputs'. -/
theorem sound_kernel18 (c : Dev nD) (E : Set ℕ) (i : grid18.Coords) (arg1 : Memref sig .tc .vmem S50x128 .f32) (harg1 : arg1.IsWhole) (arg2 : Memref sig .tc .vmem S50x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S50x128 .f32) (harg6 : arg6.IsWhole)
    (x0 : Vec F S50x128 .f32) (x1 : Vec F S50x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out18_5 x0 x1 x2 x3 x4)) -∗ K ⟨⟩))
      ⊢ wp frame (wpE (defs₀ (F := F)) Variants.none c none) E (cc18_kernel i arg1 harg1 arg2 harg2 arg3 harg3 arg4 harg4 arg5 harg5 arg6 harg6) K := by
  simp only [cc18_kernel_eq_skeleton]; unfold cc18_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover18_5 _)

/-- Each input's staging buffer holds its block at every point, fetched there or not. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

/-- The body at any point: the inputs' memrefs hold their blocks, so `sound_kernel18` applies; the invariant and the
    core's dues pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ (grid18.coords t) _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.Kernel.Hand
-- ==== Proof.KB.Reg18.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 18 over the thread state: entered from every unscoped buffer at W39, left at W40. Its arrays are
    split out of the unscoped buffers and put back at the exit contents; the generator register goes into the
    class invariant and comes out; nothing is owed; the kernel has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V39 m ρ) c).loose
  hwaits := Pipeline.hwaits_of_owed_zero _ _ _ _ L lv 18 fun _ _ => rfl
  pre c := iprop(StableHlo.held (c : Thread nD τ) (Pipeline.ucRefs τ sig) (W39 m ρ c) ∗ R c)
  post c := iprop(StableHlo.held (c : Thread nD τ) (Pipeline.ucRefs τ sig) (W40 m ρ c) ∗ R c)
  X c := iprop(∃ r, prngReg c r)
  Y c := iprop(∃ r, prngReg c r)
  Z c := Pipeline.unscopedRest (Ix := Unit) (Name := ℕ) (U := UR sig nD τ) (Lvl := ℕ) spec18 c (V39 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V39 m ρ c) (V40 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body19.lean ====
import proofs.«141679_j61469571940402_1_alg».proof.Proof.KB.BodyDef19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 19: the body's triple and the body obligation -/

/-! ## The body's triple -/

set_option maxHeartbeats 1000000 in
/-- The kernel body on whole staging memrefs, the inputs' at read contents `xW` and the output's at anything, runs to
    the continuation holding the inputs' as they were and the output's at `out19_5` of the inputs'. -/
theorem sound_kernel19 (c : Dev nD) (E : Set ℕ) (i : grid19.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out19_5 x0 x1 x2 x3 x4)) -∗ K ⟨⟩))
      ⊢ wp frame (wpE (defs₀ (F := F)) Variants.none c none) E (cc19_kernel i arg1 harg1 arg2 harg2 arg3 harg3 arg4 harg4 arg5 harg5 arg6 harg6) K := by
  simp only [cc19_kernel_eq_skeleton]; unfold cc19_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover19_5 _)

/-- Each input's staging buffer holds its block at every point, fetched there or not. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d
theorem before19_4 (c : Dev nD) (t : Fin cfg19.N) (d) : (dat19 V c).before 4 t d = iblk19 V c 4 t :=
  before19_4_of V (dat19 V c) (A_eq19 V c 4) (after19_4 V c) t d

/-! ## The body obligation, at a generic point -/

/-- What the body is called with at point `t`, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t))

/-- The body at any point: the inputs' memrefs hold their blocks, so `sound_kernel19` applies; the invariant and the
    core's dues pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4]
  rw [show (dat19 V c).Φ t.succ = (dat19 V c).Φ t.castSucc from rfl,
    show (dat19 V c).owesAt () t.succ = (dat19 V c).owesAt () t.castSucc from rfl,
    after19_0, after19_1, after19_2, after19_3, after19_4, after19_5]
  iintro ⟨HΦ, Ho, ⟨%d0, H0⟩, ⟨%d1, H1⟩, ⟨%d2, H2⟩, ⟨%d3, H3⟩, ⟨%d4, H4⟩, ⟨%d5, H5⟩⟩
  iapply (sound_kernel19 c Set.univ (grid19.coords t) _ _ _ _ _ _ _ _ _ _ _ _ (iblk19 V c 0 t) (iblk19 V c 1 t) (iblk19 V c 2 t) (iblk19 V c 3 t) (iblk19 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.Kernel.Hand
-- ==== Proof.KB.Reg19.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 19 over the thread state: entered from every unscoped buffer at W41, left at W42. Its arrays are
    split out of the unscoped buffers and put back at the exit contents; the generator register goes into the
    class invariant and comes out; nothing is owed; the kernel has no semaphore of its own. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V41 m ρ) c).loose
  hwaits := Pipeline.hwaits_of_owed_zero _ _ _ _ L lv 19 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X c := iprop(∃ r, prngReg c r)
  Y c := iprop(∃ r, prngReg c r)
  Z c := Pipeline.unscopedRest (Ix := Unit) (Name := ℕ) (U := UR sig nD τ) (Lvl := ℕ) spec19 c (V41 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V41 m ρ c) (V42 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body20.lean ====
import proofs.«141679_j61469571940402_1_alg».proof.Proof.KB.BodyDef20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 20: the body's triple and the body obligation -/

/-! ## The body's triple -/

set_option maxHeartbeats 1000000 in
/-- The kernel body on whole staging memrefs, the inputs' at read contents `xW` and the output's at anything, runs to
    the continuation holding the inputs' as they were and the output's at `out20_5` of the inputs'. -/
theorem sound_kernel20 (c : Dev nD) (E : Set ℕ) (i : grid20.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out20_5 x0 x1 x2 x3 x4)) -∗ K ⟨⟩))
      ⊢ wp frame (wpE (defs₀ (F := F)) Variants.none c none) E (cc20_kernel i arg1 harg1 arg2 harg2 arg3 harg3 arg4 harg4 arg5 harg5 arg6 harg6) K := by
  simp only [cc20_kernel_eq_skeleton]; unfold cc20_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover20_5 _)

/-- Each input's staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d

/-! ## The body obligation, at a generic point -/

/-- What the body is called with at point `t`, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t))

/-- The body at any point: the inputs' memrefs hold their blocks, so `sound_kernel20` applies; the invariant and the
    core's dues pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4]
  rw [show (dat20 V c).Φ t.succ = (dat20 V c).Φ t.castSucc from rfl,
    show (dat20 V c).owesAt () t.succ = (dat20 V c).owesAt () t.castSucc from rfl,
    after20_0, after20_1, after20_2, after20_3, after20_4, after20_5]
  iintro ⟨HΦ, Ho, ⟨%d0, H0⟩, ⟨%d1, H1⟩, ⟨%d2, H2⟩, ⟨%d3, H3⟩, ⟨%d4, H4⟩, ⟨%d5, H5⟩⟩
  iapply (sound_kernel20 c Set.univ (grid20.coords t) _ _ _ _ _ _ _ _ _ _ _ _ (iblk20 V c 0 t) (iblk20 V c 1 t) (iblk20 V c 2 t) (iblk20 V c 3 t) (iblk20 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.Kernel.Hand
-- ==== Proof.KB.Reg20.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 20 over the thread state: entered from every unscoped buffer at W43, left at W44. Its arrays are
    split out of the unscoped buffers and put back at the exit contents; the generator register goes into the
    class invariant and comes out; nothing is owed; the kernel has no semaphore of its own. -/
def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (V43 m ρ) c).loose
  hwaits := Pipeline.hwaits_of_owed_zero _ _ _ _ L lv 20 fun _ _ => rfl
  pre c := iprop(StableHlo.held (c : Thread nD τ) (Pipeline.ucRefs τ sig) (W43 m ρ c) ∗ R c)
  post c := iprop(StableHlo.held (c : Thread nD τ) (Pipeline.ucRefs τ sig) (W44 m ρ c) ∗ R c)
  X c := iprop(∃ r, prngReg c r)
  Y c := iprop(∃ r, prngReg c r)
  Z c := Pipeline.unscopedRest (Ix := Unit) (Name := ℕ) (U := UR sig nD τ) (Lvl := ℕ) spec20 c (V43 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (V43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (V43 m ρ c) (V44 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body21.lean ====
import proofs.«141679_j61469571940402_1_alg».proof.Proof.KB.BodyDef21
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 21: the body's triple and the body obligation -/

/-! ## The body's triple -/

set_option maxHeartbeats 1000000 in
/-- The kernel body on whole staging memrefs, the inputs' at read contents `xW` and the output's at anything, runs to
    the continuation holding the inputs' as they were and the output's at `out21_3` of the inputs'. -/
theorem sound_kernel21 (c : Dev nD) (E : Set ℕ) (i : grid21.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out21_3 x0 x1 x2)) -∗ K ⟨⟩))
      ⊢ wp frame (wpE (defs₀ (F := F)) Variants.none c none) E (cc21_kernel i arg1 harg1 arg2 harg2 arg3 harg3 arg4 harg4) K := by
  simp only [cc21_kernel_eq_skeleton]; unfold cc21_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover21_3 _)

/-- Each input's staging buffer holds its block at every point, fetched there or not. -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d

/-! ## The body obligation, at a generic point -/

/-- What the body is called with at point `t`, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t))

/-- The body at any point: the inputs' memrefs hold their blocks, so `sound_kernel21` applies; the invariant and the
    core's dues pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2]
  rw [show (dat21 V c).Φ t.succ = (dat21 V c).Φ t.castSucc from rfl,
    show (dat21 V c).owesAt () t.succ = (dat21 V c).owesAt () t.castSucc from rfl,
    after21_0, after21_1, after21_2, after21_3]
  iintro ⟨HΦ, Ho, ⟨%d0, H0⟩, ⟨%d1, H1⟩, ⟨%d2, H2⟩, ⟨%d3, H3⟩⟩
  iapply (sound_kernel21 c Set.univ (grid21.coords t) _ _ _ _ _ _ _ _ (iblk21 V c 0 t) (iblk21 V c 1 t) (iblk21 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.Kernel.Hand
-- ==== Proof.KB.Reg21.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body21
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 21 over the thread state: entered from every unscoped buffer at W45, left at W46. Its arrays are
    split out of the unscoped buffers and put back at the exit contents; the generator register goes into the
    class invariant and comes out; nothing is owed; the kernel has no semaphore of its own. -/
def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (V45 m ρ) c).loose
  hwaits := Pipeline.hwaits_of_owed_zero _ _ _ _ L lv 21 fun _ _ => rfl
  pre c := iprop(StableHlo.held (c : Thread nD τ) (Pipeline.ucRefs τ sig) (W45 m ρ c) ∗ R c)
  post c := iprop(StableHlo.held (c : Thread nD τ) (Pipeline.ucRefs τ sig) (W46 m ρ c) ∗ R c)
  X c := iprop(∃ r, prngReg c r)
  Y c := iprop(∃ r, prngReg c r)
  Z c := Pipeline.unscopedRest (Ix := Unit) (Name := ℕ) (U := UR sig nD τ) (Lvl := ℕ) spec21 c (V45 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (V45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (V45 m ρ c) (V46 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body22.lean ====
import proofs.«141679_j61469571940402_1_alg».proof.Proof.KB.BodyDef22
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 22: the body's triple and the body obligation -/

/-! ## The body's triple -/

set_option maxHeartbeats 1000000 in
/-- The kernel body on whole staging memrefs, the inputs' at read contents `xW` and the output's at anything, runs to
    the continuation holding the inputs' as they were and the output's at `out22_3` of the inputs'. -/
theorem sound_kernel22 (c : Dev nD) (E : Set ℕ) (i : grid22.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out22_3 x0 x1 x2)) -∗ K ⟨⟩))
      ⊢ wp frame (wpE (defs₀ (F := F)) Variants.none c none) E (cc22_kernel i arg1 harg1 arg2 harg2 arg3 harg3 arg4 harg4) K := by
  simp only [cc22_kernel_eq_skeleton]; unfold cc22_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover22_3 _)

/-- Each input's staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point `t`, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t))

/-- The body at any point: the inputs' memrefs hold their blocks, so `sound_kernel22` applies; the invariant and the
    core's dues pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2]
  rw [show (dat22 V c).Φ t.succ = (dat22 V c).Φ t.castSucc from rfl,
    show (dat22 V c).owesAt () t.succ = (dat22 V c).owesAt () t.castSucc from rfl,
    after22_0, after22_1, after22_2, after22_3]
  iintro ⟨HΦ, Ho, ⟨%d0, H0⟩, ⟨%d1, H1⟩, ⟨%d2, H2⟩, ⟨%d3, H3⟩⟩
  iapply (sound_kernel22 c Set.univ (grid22.coords t) _ _ _ _ _ _ _ _ (iblk22 V c 0 t) (iblk22 V c 1 t) (iblk22 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation22 (c : Dev nD) : BodyObligation (dat22 (F := F) V c) (defs₀ (F := F)) Variants.none () Set.univ := fun t => by
  rw [bigSep_W22, bigSep_W22]
  exact sound_body22 V c t

end Cert.Kernel.Hand
-- ==== Proof.KB.Reg22.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body22
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 22 over the thread state: entered from every unscoped buffer at W47, left at W48. Its arrays are
    split out of the unscoped buffers and put back at the exit contents; the generator register goes into the
    class invariant and comes out; nothing is owed; the kernel has no semaphore of its own. -/
def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (V47 m ρ) c).loose
  hwaits := Pipeline.hwaits_of_owed_zero _ _ _ _ L lv 22 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec22 c (V47 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (V47 m ρ c) (V48 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body23.lean ====
import proofs.«141679_j61469571940402_1_alg».proof.Proof.KB.BodyDef23
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 23: the body's triple and the body obligation -/

/-! ## The body's triple -/

set_option maxHeartbeats 1000000 in
/-- The kernel body on whole staging memrefs, the inputs' at read contents `xW` and the output's at anything, runs to
    the continuation holding the inputs' as they were and the output's at `out23_3` of the inputs'. -/
theorem sound_kernel23 (c : Dev nD) (E : Set ℕ) (i : grid23.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out23_3 x0 x1 x2)) -∗ K ⟨⟩))
      ⊢ wp frame (wpE (defs₀ (F := F)) Variants.none c none) E (cc23_kernel i arg1 harg1 arg2 harg2 arg3 harg3 arg4 harg4) K := by
  simp only [cc23_kernel_eq_skeleton]; unfold cc23_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover23_3 _)

/-- Each input's staging buffer holds its block at every point, fetched there or not. -/
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d

/-! ## The body obligation, at a generic point -/

/-- What the body is called with at point `t`, the windows one by one, -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d)))

/-- and what it returns. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t))

/-- The body at any point: the inputs' memrefs hold their blocks, so `sound_kernel23` applies; the invariant and the
    core's dues pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2]
  rw [show (dat23 V c).Φ t.succ = (dat23 V c).Φ t.castSucc from rfl,
    show (dat23 V c).owesAt () t.succ = (dat23 V c).owesAt () t.castSucc from rfl,
    after23_0, after23_1, after23_2, after23_3]
  iintro ⟨HΦ, Ho, ⟨%d0, H0⟩, ⟨%d1, H1⟩, ⟨%d2, H2⟩, ⟨%d3, H3⟩⟩
  iapply (sound_kernel23 c Set.univ (grid23.coords t) _ _ _ _ _ _ _ _ (iblk23 V c 0 t) (iblk23 V c 1 t) (iblk23 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation23 (c : Dev nD) : BodyObligation (dat23 (F := F) V c) (defs₀ (F := F)) Variants.none () Set.univ := fun t => by
  rw [bigSep_W23, bigSep_W23]
  exact sound_body23 V c t

end Cert.Kernel.Hand
-- ==== Proof.KB.Reg23.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body23
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 23 over the thread state: entered from every unscoped buffer at W49, left at W50. Its arrays are
    split out of the unscoped buffers and put back at the exit contents; the generator register goes into the
    class invariant and comes out; nothing is owed; the kernel has no semaphore of its own. -/
def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (V49 m ρ) c).loose
  hwaits := Pipeline.hwaits_of_owed_zero _ _ _ _ L lv 23 fun _ _ => rfl
  pre c := iprop(StableHlo.held (c : Thread nD τ) (Pipeline.ucRefs τ sig) (W49 m ρ c) ∗ R c)
  post c := iprop(StableHlo.held (c : Thread nD τ) (Pipeline.ucRefs τ sig) (W50 m ρ c) ∗ R c)
  X c := iprop(∃ r, prngReg c r)
  Y c := iprop(∃ r, prngReg c r)
  Z c := Pipeline.unscopedRest (Ix := Unit) (Name := ℕ) (U := UR sig nD τ) (Lvl := ℕ) spec23 c (V49 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (V49 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m ρ 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (V49 m ρ c) (V50 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body24.lean ====
import proofs.«141679_j61469571940402_1_alg».proof.Proof.KB.BodyDef24
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 24: the body's triple and the body obligation -/

/-! ## The body's triple -/

set_option maxHeartbeats 1000000 in
/-- The kernel body on whole staging memrefs, the inputs' at read contents `xW` and the output's at anything, runs to
    the continuation holding the inputs' as they were and the output's at `out24_3` of the inputs'. -/
theorem sound_kernel24 (c : Dev nD) (E : Set ℕ) (i : grid24.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out24_3 x0 x1 x2)) -∗ K ⟨⟩))
      ⊢ wp frame (wpE (defs₀ (F := F)) Variants.none c none) E (cc24_kernel i arg1 harg1 arg2 harg2 arg3 harg3 arg4 harg4) K := by
  simp only [cc24_kernel_eq_skeleton]; unfold cc24_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover24_3 _)

/-- Each input's staging buffer holds its block at every point, fetched there or not. -/
theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d

/-! ## The body obligation, at a generic point -/

/-- What the body is called with at point `t`, the windows one by one, -/
def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d)))

/-- and what it returns. -/
def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t))

/-- The body at any point: the inputs' memrefs hold their blocks, so `sound_kernel24` applies; the invariant and the
    core's dues pass through unread. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2]
  rw [show (dat24 V c).Φ t.succ = (dat24 V c).Φ t.castSucc from rfl,
    show (dat24 V c).owesAt () t.succ = (dat24 V c).owesAt () t.castSucc from rfl,
    after24_0, after24_1, after24_2, after24_3]
  iintro ⟨HΦ, Ho, ⟨%d0, H0⟩, ⟨%d1, H1⟩, ⟨%d2, H2⟩, ⟨%d3, H3⟩⟩
  iapply (sound_kernel24 c Set.univ (grid24.coords t) _ _ _ _ _ _ _ _ (iblk24 V c 0 t) (iblk24 V c 1 t) (iblk24 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation24 (c : Dev nD) : BodyObligation (dat24 (F := F) V c) (defs₀ (F := F)) Variants.none () Set.univ := fun t => by
  rw [bigSep_W24, bigSep_W24]
  exact sound_body24 V c t

end Cert.Kernel.Hand
-- ==== Proof.KB.Reg24.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body24
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 24 over the thread state: entered from every unscoped buffer at W51, left at W52. Its arrays are
    split out of the unscoped buffers and put back at the exit contents; the generator register goes into the
    class invariant and comes out; nothing is owed; the kernel has no semaphore of its own. -/
def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (V51 m ρ) c).loose
  hwaits := Pipeline.hwaits_of_owed_zero _ _ _ _ L lv 24 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X c := iprop(∃ r, prngReg c r)
  Y c := iprop(∃ r, prngReg c r)
  Z c := Pipeline.unscopedRest (Ix := Unit) (Name := ℕ) (U := UR sig nD τ) (Lvl := ℕ) spec24 c (V51 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (V51 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (V51 m ρ c) (V52 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Body25.lean ====
import proofs.«141679_j61469571940402_1_alg».proof.Proof.KB.BodyDef25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 25: the body's triple and the body obligation -/

/-! ## The body's triple -/

set_option maxHeartbeats 1000000 in
/-- The kernel body on whole staging memrefs, the inputs' at read contents `xW` and the output's at anything, runs to
    the continuation holding the inputs' as they were and the output's at `out25_3` of the inputs'. -/
theorem sound_kernel25 (c : Dev nD) (E : Set ℕ) (i : grid25.Coords) (arg1 : Memref sig .tc .vmem S50x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S50x128 .f32) (harg4 : arg4.IsWhole)
    (x0 : Vec F S50x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out25_3 x0 x1 x2)) -∗ K ⟨⟩))
      ⊢ wp frame (wpE (defs₀ (F := F)) Variants.none c none) E (cc25_kernel i arg1 harg1 arg2 harg2 arg3 harg3 arg4 harg4) K := by
  simp only [cc25_kernel_eq_skeleton]; unfold cc25_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover25_3 _)

/-- Each input's staging buffer holds its block at every point, fetched there or not. -/
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d

/-! ## The body obligation, at a generic point -/

/-- What the body is called with at point `t`, the windows one by one, -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d)))

/-- and what it returns. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t))

/-- The body at any point: the inputs' memrefs hold their blocks, so `sound_kernel25` applies; the invariant and the
    core's dues pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2]
  rw [show (dat25 V c).Φ t.succ = (dat25 V c).Φ t.castSucc from rfl,
    show (dat25 V c).owesAt () t.succ = (dat25 V c).owesAt () t.castSucc from rfl,
    after25_0, after25_1, after25_2, after25_3]
  iintro ⟨HΦ, Ho, ⟨%d0, H0⟩, ⟨%d1, H1⟩, ⟨%d2, H2⟩, ⟨%d3, H3⟩⟩
  iapply (sound_kernel25 c Set.univ (grid25.coords t) _ _ _ _ _ _ _ _ (iblk25 V c 0 t) (iblk25 V c 1 t) (iblk25 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation25 (c : Dev nD) : BodyObligation (dat25 (F := F) V c) (defs₀ (F := F)) Variants.none () Set.univ := fun t => by
  rw [bigSep_W25, bigSep_W25]
  exact sound_body25 V c t

end Cert.Kernel.Hand
-- ==== Proof.KB.Reg25.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Body25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 25 over the thread state: entered from every unscoped buffer at W53, left at W54. Its arrays are
    split out of the unscoped buffers and put back at the exit contents; the generator register goes into the
    class invariant and comes out; nothing is owed; the kernel has no semaphore of its own. -/
def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (V53 m ρ) c).loose
  hwaits := Pipeline.hwaits_of_owed_zero _ _ _ _ L lv 25 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X c := iprop(∃ r, prngReg c r)
  Y c := iprop(∃ r, prngReg c r)
  Z c := Pipeline.unscopedRest (Ix := Unit) (Name := ℕ) (U := UR sig nD τ) (Lvl := ℕ) spec25 c (V53 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (V53 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (V53 m ρ c) (V54 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Frame.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import proofs.«141679_j61469571940402_1_alg».proof.Proof.KB.Reg0
import proofs.«141679_j61469571940402_1_alg».proof.Proof.KB.Reg1
import proofs.«141679_j61469571940402_1_alg».proof.Proof.KB.Reg2
import proofs.«141679_j61469571940402_1_alg».proof.Proof.KB.Reg3
import proofs.«141679_j61469571940402_1_alg».proof.Proof.KB.Reg4
import proofs.«141679_j61469571940402_1_alg».proof.Proof.KB.Reg5
import proofs.«141679_j61469571940402_1_alg».proof.Proof.KB.Reg6
import proofs.«141679_j61469571940402_1_alg».proof.Proof.KB.Reg7
import proofs.«141679_j61469571940402_1_alg».proof.Proof.KB.Reg8
import proofs.«141679_j61469571940402_1_alg».proof.Proof.KB.Reg9
import proofs.«141679_j61469571940402_1_alg».proof.Proof.KB.Reg10
import proofs.«141679_j61469571940402_1_alg».proof.Proof.KB.Reg11
import proofs.«141679_j61469571940402_1_alg».proof.Proof.KB.Reg12
import proofs.«141679_j61469571940402_1_alg».proof.Proof.KB.Reg13
import proofs.«141679_j61469571940402_1_alg».proof.Proof.KB.Reg14
import proofs.«141679_j61469571940402_1_alg».proof.Proof.KB.Reg15
import proofs.«141679_j61469571940402_1_alg».proof.Proof.KB.Reg16
import proofs.«141679_j61469571940402_1_alg».proof.Proof.KB.Reg17
import proofs.«141679_j61469571940402_1_alg».proof.Proof.KB.Reg18
import proofs.«141679_j61469571940402_1_alg».proof.Proof.KB.Reg19
import proofs.«141679_j61469571940402_1_alg».proof.Proof.KB.Reg20
import proofs.«141679_j61469571940402_1_alg».proof.Proof.KB.Reg21
import proofs.«141679_j61469571940402_1_alg».proof.Proof.KB.Reg22
import proofs.«141679_j61469571940402_1_alg».proof.Proof.KB.Reg23
import proofs.«141679_j61469571940402_1_alg».proof.Proof.KB.Reg24
import proofs.«141679_j61469571940402_1_alg».proof.Proof.KB.Reg25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 55 items in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .region (reg11 m ρ),
    .host (hseg hostOps12 hostOps12_sub hostOps12_fresh (W26 m ρ)),
    .region (reg12 m ρ),
    .host (hseg hostOps13 hostOps13_sub hostOps13_fresh (W28 m ρ)),
    .region (reg13 m ρ),
    .host (hseg hostOps14 hostOps14_sub hostOps14_fresh (W30 m ρ)),
    .region (reg14 m ρ),
    .host (hseg hostOps15 hostOps15_sub hostOps15_fresh (W32 m ρ)),
    .region (reg15 m ρ),
    .host (hseg hostOps16 hostOps16_sub hostOps16_fresh (W34 m ρ)),
    .region (reg16 m ρ),
    .host (hseg hostOps17 hostOps17_sub hostOps17_fresh (W36 m ρ)),
    .region (reg17 m ρ),
    .host (hseg hostOps18 hostOps18_sub hostOps18_fresh (W38 m ρ)),
    .region (reg18 m ρ),
    .host (hseg hostOps19 hostOps19_sub hostOps19_fresh (W40 m ρ)),
    .region (reg19 m ρ),
    .host (hseg hostOps20 hostOps20_sub hostOps20_fresh (W42 m ρ)),
    .region (reg20 m ρ),
    .host (hseg hostOps21 hostOps21_sub hostOps21_fresh (W44 m ρ)),
    .region (reg21 m ρ),
    .host (hseg hostOps22 hostOps22_sub hostOps22_fresh (W46 m ρ)),
    .region (reg22 m ρ),
    .host (hseg hostOps23 hostOps23_sub hostOps23_fresh (W48 m ρ)),
    .region (reg23 m ρ),
    .host (hseg hostOps24 hostOps24_sub hostOps24_fresh (W50 m ρ)),
    .region (reg24 m ρ),
    .host (hseg hostOps25 hostOps25_sub hostOps25_fresh (W52 m ρ)),
    .region (reg25 m ρ),
    .host (hseg hostOps26 hostOps26_sub hostOps26_fresh (W54 m ρ)) ]
/-- @main is the run of the segments: the printed chain of its items, then the segments' run against that chain. -/
theorem main_run (c : Dev nD) : main (F := F) c = Pipeline.Seg.run (segs m ρ) := (main_chain c).trans (by chain_rfl)

/-- The last item is a host stretch: what it leaves, every unscoped buffer at W55 beside the generator register and
    the dues at nothing, is the last thread state beside the dues (the separating conjunction re-associated). -/
theorem hrun_last (c : Dev nD) :
    iprop(StableHlo.held (c : Thread nD τ) (Pipeline.ucRefs τ sig) (W55 m ρ c)
        ∗ (∃ r, prngReg c r) ∗ ∃ W, owes (c : Thread nD τ) (0 : CellTallies nD τ sig Unit) W)
      ⊢ (iprop((StableHlo.held (c : Thread nD τ) (Pipeline.ucRefs τ sig) (W55 m ρ c) ∗ ∃ r, prngReg c r)
        ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO
-- the launch theorem's implicit arguments are found by unifying its conclusion with this one, which takes unfolding
-- plain definitions in a metavariable's type
set_option backward.isDefEq.respectTransparency.types false in
/-- THE RUN: from any memory with zero counters, every weakly fair execution of @main on the cores terminates, nothing
    faulting, and every final memory holds each unscoped buffer of each core at the last boundary's contents W55. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W55 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => hrun_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W55 m ρ c b)
    (hfin := fun c s' => by
      iintro ⟨⟨Hh, -⟩, HSI⟩
      unfold StableHlo.held
      imodintro
      iapply (pointsTo_read_all (Pipeline.ucRefs τ sig) (fun b => (((c : Thread nD τ)).1, b)) (W55 m ρ c) s')
      isplitl [Hh] <;> iassumption)
    (hQ := fun _ h => h)

/-- info: 'Cert.Kernel.Hand.run_all' depends on axioms: [propext, Classical.choice, Quot.sound] -/
#guard_msgs in #print axioms run_all

end Cert.Kernel.Hand

end
-- ==== Proof.KB.Keep.lean ====
import proofs.«141679_j61469571940402_1_alg».proof.Proof.Gen.Kernel.Launch
import proofs.«141679_j61469571940402_1_alg».proof.Proof.Gen.Kernel.Skeleton
import proofs.«141679_j61469571940402_1_alg».proof.Proof.Gen.Kernel.Points
import proofs.«141679_j61469571940402_1_alg».proof.Proof.KB.RegionsP
import proofs.«141679_j61469571940402_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What each item leaves unchanged

A host stretch leaves every reference it does not write; a region leaves every buffer but its output array: an
input array is only read (an input window's array is as entered at every point), and a buffer that is none of the
region's arrays is not touched. -/

/-- The stretch hostOps0 leaves a reference it does not write. -/
theorem keep0 (c : Dev nD) (b : Ref sig .tc) (hb : b ∉ hostOps0_W) :
    W1 m ρ c (Proc.devRef .tc b) = W0 m ρ c (Proc.devRef .tc b) :=
  StableHlo.after_of_writes_sub hostOps0 _ hostOps0_writes hb
/-- The stretch hostOps0_1 leaves a reference it does not write. -/
theorem keep1 (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb
/-- The stretch hostOps0_2 leaves a reference it does not write. -/
theorem keep2 (c : Dev nD) (b : Ref sig .tc) (hb : b ∉ hostOps0_2_W) :
    W3 m ρ c (Proc.devRef .tc b) = W2 m ρ c (Proc.devRef .tc b) :=
  StableHlo.after_of_writes_sub hostOps0_2 _ hostOps0_2_writes hb
/-- Region 0 leaves its input array main_arg0 (window 0) as entered. -/
theorem hrun_keep3_in0 (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
/-- Region 0 leaves its input array main_arg4 (window 1) as entered. -/
theorem hrun_keep3_in1 (c : Dev nD) : W4 m ρ c (Proc.devRef .tc main_arg4) = W3 m ρ c (Proc.devRef .tc main_arg4) :=
  (W4_arr m ρ c 1).trans (((dat0 (V3 m ρ) c).arrAt_in 1 rfl _).trans (A_eq0 (V3 m ρ) c 1))
/-- Region 0 leaves its input array main_v9 (window 2) as entered. -/
theorem hrun_keep3_in2 (c : Dev nD) : W4 m ρ c (Proc.devRef .tc main_v9) = W3 m ρ c (Proc.devRef .tc main_v9) :=
  (W4_arr m ρ c 2).trans (((dat0 (V3 m ρ) c).arrAt_in 2 rfl _).trans (A_eq0 (V3 m ρ) c 2))
/-- Region 0 leaves every buffer but its output array main_v10. -/
theorem keep3 (c : Dev nD) (b : Ref sig .tc) (hb : b ≠ main_v10) :
    W4 m ρ c (Proc.devRef .tc b) = W3 m ρ c (Proc.devRef .tc b) := by
  by_cases h0 : b = main_arg0
  · subst h0; exact hrun_keep3_in0 m ρ c
  by_cases h1 : b = main_arg4
  · subst h1; exact hrun_keep3_in1 m ρ c
  by_cases h2 : b = main_v9
  · subst h2; exact hrun_keep3_in2 m ρ c
  exact W4_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps1 leaves a reference it does not write. -/
theorem keep4 (c : Dev nD) (b : Ref sig .tc) (hb : b ∉ hostOps1_W) :
    W5 m ρ c (Proc.devRef .tc b) = W4 m ρ c (Proc.devRef .tc b) :=
  StableHlo.after_of_writes_sub hostOps1 _ hostOps1_writes hb
/-- Region 1 leaves its input array main_v10 (window 0) as entered. -/
theorem hrun_keep5_in0 (c : Dev nD) : W6 m ρ c (Proc.devRef .tc main_v10) = W5 m ρ c (Proc.devRef .tc main_v10) :=
  (W6_arr m ρ c 0).trans (((dat1 (V5 m ρ) c).arrAt_in 0 rfl _).trans (A_eq1 (V5 m ρ) c 0))
/-- Region 1 leaves its input array main_v30 (window 1) as entered. -/
theorem hrun_keep5_in1 (c : Dev nD) : W6 m ρ c (Proc.devRef .tc main_v30) = W5 m ρ c (Proc.devRef .tc main_v30) :=
  (W6_arr m ρ c 1).trans (((dat1 (V5 m ρ) c).arrAt_in 1 rfl _).trans (A_eq1 (V5 m ρ) c 1))
/-- Region 1 leaves its input array main_v32 (window 2) as entered. -/
theorem hrun_keep5_in2 (c : Dev nD) : W6 m ρ c (Proc.devRef .tc main_v32) = W5 m ρ c (Proc.devRef .tc main_v32) :=
  (W6_arr m ρ c 2).trans (((dat1 (V5 m ρ) c).arrAt_in 2 rfl _).trans (A_eq1 (V5 m ρ) c 2))
/-- Region 1 leaves its input array main_v34 (window 3) as entered. -/
theorem hrun_keep5_in3 (c : Dev nD) : W6 m ρ c (Proc.devRef .tc main_v34) = W5 m ρ c (Proc.devRef .tc main_v34) :=
  (W6_arr m ρ c 3).trans (((dat1 (V5 m ρ) c).arrAt_in 3 rfl _).trans (A_eq1 (V5 m ρ) c 3))
/-- Region 1 leaves its input array main_v37 (window 4) as entered. -/
theorem hrun_keep5_in4 (c : Dev nD) : W6 m ρ c (Proc.devRef .tc main_v37) = W5 m ρ c (Proc.devRef .tc main_v37) :=
  (W6_arr m ρ c 4).trans (((dat1 (V5 m ρ) c).arrAt_in 4 rfl _).trans (A_eq1 (V5 m ρ) c 4))
/-- Region 1 leaves every buffer but its output array main_v38. -/
theorem keep5 (c : Dev nD) (b : Ref sig .tc) (hb : b ≠ main_v38) :
    W6 m ρ c (Proc.devRef .tc b) = W5 m ρ c (Proc.devRef .tc b) := by
  by_cases h0 : b = main_v10
  · subst h0; exact hrun_keep5_in0 m ρ c
  by_cases h1 : b = main_v30
  · subst h1; exact hrun_keep5_in1 m ρ c
  by_cases h2 : b = main_v32
  · subst h2; exact hrun_keep5_in2 m ρ c
  by_cases h3 : b = main_v34
  · subst h3; exact hrun_keep5_in3 m ρ c
  by_cases h4 : b = main_v37
  · subst h4; exact hrun_keep5_in4 m ρ c
  exact W6_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps2 leaves a reference it does not write. -/
theorem keep6 (c : Dev nD) (b : Ref sig .tc) (hb : b ∉ hostOps2_W) :
    W7 m ρ c (Proc.devRef .tc b) = W6 m ρ c (Proc.devRef .tc b) :=
  StableHlo.after_of_writes_sub hostOps2 _ hostOps2_writes hb
/-- Region 2 leaves its input array main_v38 (window 0) as entered. -/
theorem hrun_keep7_in0 (c : Dev nD) : W8 m ρ c (Proc.devRef .tc main_v38) = W7 m ρ c (Proc.devRef .tc main_v38) :=
  (W8_arr m ρ c 0).trans (((dat2 (V7 m ρ) c).arrAt_in 0 rfl _).trans (A_eq2 (V7 m ρ) c 0))
/-- Region 2 leaves its input array main_v56 (window 1) as entered. -/
theorem hrun_keep7_in1 (c : Dev nD) : W8 m ρ c (Proc.devRef .tc main_v56) = W7 m ρ c (Proc.devRef .tc main_v56) :=
  (W8_arr m ρ c 1).trans (((dat2 (V7 m ρ) c).arrAt_in 1 rfl _).trans (A_eq2 (V7 m ρ) c 1))
/-- Region 2 leaves its input array main_v58 (window 2) as entered. -/
theorem hrun_keep7_in2 (c : Dev nD) : W8 m ρ c (Proc.devRef .tc main_v58) = W7 m ρ c (Proc.devRef .tc main_v58) :=
  (W8_arr m ρ c 2).trans (((dat2 (V7 m ρ) c).arrAt_in 2 rfl _).trans (A_eq2 (V7 m ρ) c 2))
/-- Region 2 leaves its input array main_v60 (window 3) as entered. -/
theorem hrun_keep7_in3 (c : Dev nD) : W8 m ρ c (Proc.devRef .tc main_v60) = W7 m ρ c (Proc.devRef .tc main_v60) :=
  (W8_arr m ρ c 3).trans (((dat2 (V7 m ρ) c).arrAt_in 3 rfl _).trans (A_eq2 (V7 m ρ) c 3))
/-- Region 2 leaves its input array main_v63 (window 4) as entered. -/
theorem hrun_keep7_in4 (c : Dev nD) : W8 m ρ c (Proc.devRef .tc main_v63) = W7 m ρ c (Proc.devRef .tc main_v63) :=
  (W8_arr m ρ c 4).trans (((dat2 (V7 m ρ) c).arrAt_in 4 rfl _).trans (A_eq2 (V7 m ρ) c 4))
/-- Region 2 leaves every buffer but its output array main_v64. -/
theorem keep7 (c : Dev nD) (b : Ref sig .tc) (hb : b ≠ main_v64) :
    W8 m ρ c (Proc.devRef .tc b) = W7 m ρ c (Proc.devRef .tc b) := by
  by_cases h0 : b = main_v38
  · subst h0; exact hrun_keep7_in0 m ρ c
  by_cases h1 : b = main_v56
  · subst h1; exact hrun_keep7_in1 m ρ c
  by_cases h2 : b = main_v58
  · subst h2; exact hrun_keep7_in2 m ρ c
  by_cases h3 : b = main_v60
  · subst h3; exact hrun_keep7_in3 m ρ c
  by_cases h4 : b = main_v63
  · subst h4; exact hrun_keep7_in4 m ρ c
  exact W8_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps3 leaves a reference it does not write. -/
theorem keep8 (c : Dev nD) (b : Ref sig .tc) (hb : b ∉ hostOps3_W) :
    W9 m ρ c (Proc.devRef .tc b) = W8 m ρ c (Proc.devRef .tc b) :=
  StableHlo.after_of_writes_sub hostOps3 _ hostOps3_writes hb
/-- Region 3 leaves its input array main_v11 (window 0) as entered. -/
theorem hrun_keep9_in0 (c : Dev nD) : W10 m ρ c (Proc.devRef .tc main_v11) = W9 m ρ c (Proc.devRef .tc main_v11) :=
  (W10_arr m ρ c 0).trans (((dat3 (V9 m ρ) c).arrAt_in 0 rfl _).trans (A_eq3 (V9 m ρ) c 0))
/-- Region 3 leaves its input array main_v66 (window 1) as entered. -/
theorem hrun_keep9_in1 (c : Dev nD) : W10 m ρ c (Proc.devRef .tc main_v66) = W9 m ρ c (Proc.devRef .tc main_v66) :=
  (W10_arr m ρ c 1).trans (((dat3 (V9 m ρ) c).arrAt_in 1 rfl _).trans (A_eq3 (V9 m ρ) c 1))
/-- Region 3 leaves its input array main_v69 (window 2) as entered. -/
theorem hrun_keep9_in2 (c : Dev nD) : W10 m ρ c (Proc.devRef .tc main_v69) = W9 m ρ c (Proc.devRef .tc main_v69) :=
  (W10_arr m ρ c 2).trans (((dat3 (V9 m ρ) c).arrAt_in 2 rfl _).trans (A_eq3 (V9 m ρ) c 2))
/-- Region 3 leaves every buffer but its output array main_v70. -/
theorem keep9 (c : Dev nD) (b : Ref sig .tc) (hb : b ≠ main_v70) :
    W10 m ρ c (Proc.devRef .tc b) = W9 m ρ c (Proc.devRef .tc b) := by
  by_cases h0 : b = main_v11
  · subst h0; exact hrun_keep9_in0 m ρ c
  by_cases h1 : b = main_v66
  · subst h1; exact hrun_keep9_in1 m ρ c
  by_cases h2 : b = main_v69
  · subst h2; exact hrun_keep9_in2 m ρ c
  exact W10_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps4 leaves a reference it does not write. -/
theorem keep10 (c : Dev nD) (b : Ref sig .tc) (hb : b ∉ hostOps4_W) :
    W11 m ρ c (Proc.devRef .tc b) = W10 m ρ c (Proc.devRef .tc b) :=
  StableHlo.after_of_writes_sub hostOps4 _ hostOps4_writes hb
/-- Region 4 leaves its input array main_v70 (window 0) as entered. -/
theorem hrun_keep11_in0 (c : Dev nD) : W12 m ρ c (Proc.devRef .tc main_v70) = W11 m ρ c (Proc.devRef .tc main_v70) :=
  (W12_arr m ρ c 0).trans (((dat4 (V11 m ρ) c).arrAt_in 0 rfl _).trans (A_eq4 (V11 m ρ) c 0))
/-- Region 4 leaves its input array main_v72 (window 1) as entered. -/
theorem hrun_keep11_in1 (c : Dev nD) : W12 m ρ c (Proc.devRef .tc main_v72) = W11 m ρ c (Proc.devRef .tc main_v72) :=
  (W12_arr m ρ c 1).trans (((dat4 (V11 m ρ) c).arrAt_in 1 rfl _).trans (A_eq4 (V11 m ρ) c 1))
/-- Region 4 leaves its input array main_v75 (window 2) as entered. -/
theorem hrun_keep11_in2 (c : Dev nD) : W12 m ρ c (Proc.devRef .tc main_v75) = W11 m ρ c (Proc.devRef .tc main_v75) :=
  (W12_arr m ρ c 2).trans (((dat4 (V11 m ρ) c).arrAt_in 2 rfl _).trans (A_eq4 (V11 m ρ) c 2))
/-- Region 4 leaves every buffer but its output array main_v76. -/
theorem keep11 (c : Dev nD) (b : Ref sig .tc) (hb : b ≠ main_v76) :
    W12 m ρ c (Proc.devRef .tc b) = W11 m ρ c (Proc.devRef .tc b) := by
  by_cases h0 : b = main_v70
  · subst h0; exact hrun_keep11_in0 m ρ c
  by_cases h1 : b = main_v72
  · subst h1; exact hrun_keep11_in1 m ρ c
  by_cases h2 : b = main_v75
  · subst h2; exact hrun_keep11_in2 m ρ c
  exact W12_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps5 leaves a reference it does not write. -/
theorem keep12 (c : Dev nD) (b : Ref sig .tc) (hb : b ∉ hostOps5_W) :
    W13 m ρ c (Proc.devRef .tc b) = W12 m ρ c (Proc.devRef .tc b) :=
  StableHlo.after_of_writes_sub hostOps5 _ hostOps5_writes hb
/-- Region 5 leaves its input array main_v12 (window 0) as entered. -/
theorem hrun_keep13_in0 (c : Dev nD) : W14 m ρ c (Proc.devRef .tc main_v12) = W13 m ρ c (Proc.devRef .tc main_v12) :=
  (W14_arr m ρ c 0).trans (((dat5 (V13 m ρ) c).arrAt_in 0 rfl _).trans (A_eq5 (V13 m ρ) c 0))
/-- Region 5 leaves its input array main_v78 (window 1) as entered. -/
theorem hrun_keep13_in1 (c : Dev nD) : W14 m ρ c (Proc.devRef .tc main_v78) = W13 m ρ c (Proc.devRef .tc main_v78) :=
  (W14_arr m ρ c 1).trans (((dat5 (V13 m ρ) c).arrAt_in 1 rfl _).trans (A_eq5 (V13 m ρ) c 1))
/-- Region 5 leaves its input array main_v81 (window 2) as entered. -/
theorem hrun_keep13_in2 (c : Dev nD) : W14 m ρ c (Proc.devRef .tc main_v81) = W13 m ρ c (Proc.devRef .tc main_v81) :=
  (W14_arr m ρ c 2).trans (((dat5 (V13 m ρ) c).arrAt_in 2 rfl _).trans (A_eq5 (V13 m ρ) c 2))
/-- Region 5 leaves every buffer but its output array main_v82. -/
theorem keep13 (c : Dev nD) (b : Ref sig .tc) (hb : b ≠ main_v82) :
    W14 m ρ c (Proc.devRef .tc b) = W13 m ρ c (Proc.devRef .tc b) := by
  by_cases h0 : b = main_v12
  · subst h0; exact hrun_keep13_in0 m ρ c
  by_cases h1 : b = main_v78
  · subst h1; exact hrun_keep13_in1 m ρ c
  by_cases h2 : b = main_v81
  · subst h2; exact hrun_keep13_in2 m ρ c
  exact W14_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps6 leaves a reference it does not write. -/
theorem keep14 (c : Dev nD) (b : Ref sig .tc) (hb : b ∉ hostOps6_W) :
    W15 m ρ c (Proc.devRef .tc b) = W14 m ρ c (Proc.devRef .tc b) :=
  StableHlo.after_of_writes_sub hostOps6 _ hostOps6_writes hb
/-- Region 6 leaves its input array main_v82 (window 0) as entered. -/
theorem hrun_keep15_in0 (c : Dev nD) : W16 m ρ c (Proc.devRef .tc main_v82) = W15 m ρ c (Proc.devRef .tc main_v82) :=
  (W16_arr m ρ c 0).trans (((dat6 (V15 m ρ) c).arrAt_in 0 rfl _).trans (A_eq6 (V15 m ρ) c 0))
/-- Region 6 leaves its input array main_v84 (window 1) as entered. -/
theorem hrun_keep15_in1 (c : Dev nD) : W16 m ρ c (Proc.devRef .tc main_v84) = W15 m ρ c (Proc.devRef .tc main_v84) :=
  (W16_arr m ρ c 1).trans (((dat6 (V15 m ρ) c).arrAt_in 1 rfl _).trans (A_eq6 (V15 m ρ) c 1))
/-- Region 6 leaves its input array main_v87 (window 2) as entered. -/
theorem hrun_keep15_in2 (c : Dev nD) : W16 m ρ c (Proc.devRef .tc main_v87) = W15 m ρ c (Proc.devRef .tc main_v87) :=
  (W16_arr m ρ c 2).trans (((dat6 (V15 m ρ) c).arrAt_in 2 rfl _).trans (A_eq6 (V15 m ρ) c 2))
/-- Region 6 leaves every buffer but its output array main_v88. -/
theorem keep15 (c : Dev nD) (b : Ref sig .tc) (hb : b ≠ main_v88) :
    W16 m ρ c (Proc.devRef .tc b) = W15 m ρ c (Proc.devRef .tc b) := by
  by_cases h0 : b = main_v82
  · subst h0; exact hrun_keep15_in0 m ρ c
  by_cases h1 : b = main_v84
  · subst h1; exact hrun_keep15_in1 m ρ c
  by_cases h2 : b = main_v87
  · subst h2; exact hrun_keep15_in2 m ρ c
  exact W16_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps7 leaves a reference it does not write. -/
theorem keep16 (c : Dev nD) (b : Ref sig .tc) (hb : b ∉ hostOps7_W) :
    W17 m ρ c (Proc.devRef .tc b) = W16 m ρ c (Proc.devRef .tc b) :=
  StableHlo.after_of_writes_sub hostOps7 _ hostOps7_writes hb
/-- Region 7 leaves its input array main_v64 (window 0) as entered. -/
theorem hrun_keep17_in0 (c : Dev nD) : W18 m ρ c (Proc.devRef .tc main_v64) = W17 m ρ c (Proc.devRef .tc main_v64) :=
  (W18_arr m ρ c 0).trans (((dat7 (V17 m ρ) c).arrAt_in 0 rfl _).trans (A_eq7 (V17 m ρ) c 0))
/-- Region 7 leaves its input array main_v117 (window 1) as entered. -/
theorem hrun_keep17_in1 (c : Dev nD) : W18 m ρ c (Proc.devRef .tc main_v117) = W17 m ρ c (Proc.devRef .tc main_v117) :=
  (W18_arr m ρ c 1).trans (((dat7 (V17 m ρ) c).arrAt_in 1 rfl _).trans (A_eq7 (V17 m ρ) c 1))
/-- Region 7 leaves its input array main_arg20 (window 2) as entered. -/
theorem hrun_keep17_in2 (c : Dev nD) : W18 m ρ c (Proc.devRef .tc main_arg20) = W17 m ρ c (Proc.devRef .tc main_arg20) :=
  (W18_arr m ρ c 2).trans (((dat7 (V17 m ρ) c).arrAt_in 2 rfl _).trans (A_eq7 (V17 m ρ) c 2))
/-- Region 7 leaves its input array main_arg25 (window 3) as entered. -/
theorem hrun_keep17_in3 (c : Dev nD) : W18 m ρ c (Proc.devRef .tc main_arg25) = W17 m ρ c (Proc.devRef .tc main_arg25) :=
  (W18_arr m ρ c 3).trans (((dat7 (V17 m ρ) c).arrAt_in 3 rfl _).trans (A_eq7 (V17 m ρ) c 3))
/-- Region 7 leaves its input array main_v125 (window 4) as entered. -/
theorem hrun_keep17_in4 (c : Dev nD) : W18 m ρ c (Proc.devRef .tc main_v125) = W17 m ρ c (Proc.devRef .tc main_v125) :=
  (W18_arr m ρ c 4).trans (((dat7 (V17 m ρ) c).arrAt_in 4 rfl _).trans (A_eq7 (V17 m ρ) c 4))
/-- Region 7 leaves every buffer but its output array main_v126. -/
theorem keep17 (c : Dev nD) (b : Ref sig .tc) (hb : b ≠ main_v126) :
    W18 m ρ c (Proc.devRef .tc b) = W17 m ρ c (Proc.devRef .tc b) := by
  by_cases h0 : b = main_v64
  · subst h0; exact hrun_keep17_in0 m ρ c
  by_cases h1 : b = main_v117
  · subst h1; exact hrun_keep17_in1 m ρ c
  by_cases h2 : b = main_arg20
  · subst h2; exact hrun_keep17_in2 m ρ c
  by_cases h3 : b = main_arg25
  · subst h3; exact hrun_keep17_in3 m ρ c
  by_cases h4 : b = main_v125
  · subst h4; exact hrun_keep17_in4 m ρ c
  exact W18_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps8 leaves a reference it does not write. -/
theorem keep18 (c : Dev nD) (b : Ref sig .tc) (hb : b ∉ hostOps8_W) :
    W19 m ρ c (Proc.devRef .tc b) = W18 m ρ c (Proc.devRef .tc b) :=
  StableHlo.after_of_writes_sub hostOps8 _ hostOps8_writes hb
/-- Region 8 leaves its input array main_v76 (window 0) as entered. -/
theorem hrun_keep19_in0 (c : Dev nD) : W20 m ρ c (Proc.devRef .tc main_v76) = W19 m ρ c (Proc.devRef .tc main_v76) :=
  (W20_arr m ρ c 0).trans (((dat8 (V19 m ρ) c).arrAt_in 0 rfl _).trans (A_eq8 (V19 m ρ) c 0))
/-- Region 8 leaves its input array main_v99 (window 1) as entered. -/
theorem hrun_keep19_in1 (c : Dev nD) : W20 m ρ c (Proc.devRef .tc main_v99) = W19 m ρ c (Proc.devRef .tc main_v99) :=
  (W20_arr m ρ c 1).trans (((dat8 (V19 m ρ) c).arrAt_in 1 rfl _).trans (A_eq8 (V19 m ρ) c 1))
/-- Region 8 leaves its input array main_v124 (window 2) as entered. -/
theorem hrun_keep19_in2 (c : Dev nD) : W20 m ρ c (Proc.devRef .tc main_v124) = W19 m ρ c (Proc.devRef .tc main_v124) :=
  (W20_arr m ρ c 2).trans (((dat8 (V19 m ρ) c).arrAt_in 2 rfl _).trans (A_eq8 (V19 m ρ) c 2))
/-- Region 8 leaves its input array main_arg21 (window 3) as entered. -/
theorem hrun_keep19_in3 (c : Dev nD) : W20 m ρ c (Proc.devRef .tc main_arg21) = W19 m ρ c (Proc.devRef .tc main_arg21) :=
  (W20_arr m ρ c 3).trans (((dat8 (V19 m ρ) c).arrAt_in 3 rfl _).trans (A_eq8 (V19 m ρ) c 3))
/-- Region 8 leaves its input array main_arg23 (window 4) as entered. -/
theorem hrun_keep19_in4 (c : Dev nD) : W20 m ρ c (Proc.devRef .tc main_arg23) = W19 m ρ c (Proc.devRef .tc main_arg23) :=
  (W20_arr m ρ c 4).trans (((dat8 (V19 m ρ) c).arrAt_in 4 rfl _).trans (A_eq8 (V19 m ρ) c 4))
/-- Region 8 leaves its input array main_arg26 (window 5) as entered. -/
theorem hrun_keep19_in5 (c : Dev nD) : W20 m ρ c (Proc.devRef .tc main_arg26) = W19 m ρ c (Proc.devRef .tc main_arg26) :=
  (W20_arr m ρ c 5).trans (((dat8 (V19 m ρ) c).arrAt_in 5 rfl _).trans (A_eq8 (V19 m ρ) c 5))
/-- Region 8 leaves its input array main_v127 (window 6) as entered. -/
theorem hrun_keep19_in6 (c : Dev nD) : W20 m ρ c (Proc.devRef .tc main_v127) = W19 m ρ c (Proc.devRef .tc main_v127) :=
  (W20_arr m ρ c 6).trans (((dat8 (V19 m ρ) c).arrAt_in 6 rfl _).trans (A_eq8 (V19 m ρ) c 6))
/-- Region 8 leaves every buffer but its output array main_v128. -/
theorem keep19 (c : Dev nD) (b : Ref sig .tc) (hb : b ≠ main_v128) :
    W20 m ρ c (Proc.devRef .tc b) = W19 m ρ c (Proc.devRef .tc b) := by
  by_cases h0 : b = main_v76
  · subst h0; exact hrun_keep19_in0 m ρ c
  by_cases h1 : b = main_v99
  · subst h1; exact hrun_keep19_in1 m ρ c
  by_cases h2 : b = main_v124
  · subst h2; exact hrun_keep19_in2 m ρ c
  by_cases h3 : b = main_arg21
  · subst h3; exact hrun_keep19_in3 m ρ c
  by_cases h4 : b = main_arg23
  · subst h4; exact hrun_keep19_in4 m ρ c
  by_cases h5 : b = main_arg26
  · subst h5; exact hrun_keep19_in5 m ρ c
  by_cases h6 : b = main_v127
  · subst h6; exact hrun_keep19_in6 m ρ c
  exact W20_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => hb e.symm)
/-- The stretch hostOps9 leaves a reference it does not write. -/
theorem keep20 (c : Dev nD) (b : Ref sig .tc) (hb : b ∉ hostOps9_W) :
    W21 m ρ c (Proc.devRef .tc b) = W20 m ρ c (Proc.devRef .tc b) :=
  StableHlo.after_of_writes_sub hostOps9 _ hostOps9_writes hb
/-- Region 9 leaves its input array main_v88 (window 0) as entered. -/
theorem hrun_keep21_in0 (c : Dev nD) : W22 m ρ c (Proc.devRef .tc main_v88) = W21 m ρ c (Proc.devRef .tc main_v88) :=
  (W22_arr m ρ c 0).trans (((dat9 (V21 m ρ) c).arrAt_in 0 rfl _).trans (A_eq9 (V21 m ρ) c 0))
/-- Region 9 leaves its input array main_v110 (window 1) as entered. -/
theorem hrun_keep21_in1 (c : Dev nD) : W22 m ρ c (Proc.devRef .tc main_v110) = W21 m ρ c (Proc.devRef .tc main_v110) :=
  (W22_arr m ρ c 1).trans (((dat9 (V21 m ρ) c).arrAt_in 1 rfl _).trans (A_eq9 (V21 m ρ) c 1))
/-- Region 9 leaves its input array main_arg22 (window 2) as entered. -/
theorem hrun_keep21_in2 (c : Dev nD) : W22 m ρ c (Proc.devRef .tc main_arg22) = W21 m ρ c (Proc.devRef .tc main_arg22) :=
  (W22_arr m ρ c 2).trans (((dat9 (V21 m ρ) c).arrAt_in 2 rfl _).trans (A_eq9 (V21 m ρ) c 2))
/-- Region 9 leaves its input array main_arg24 (window 3) as entered. -/
theorem hrun_keep21_in3 (c : Dev nD) : W22 m ρ c (Proc.devRef .tc main_arg24) = W21 m ρ c (Proc.devRef .tc main_arg24) :=
  (W22_arr m ρ c 3).trans (((dat9 (V21 m ρ) c).arrAt_in 3 rfl _).trans (A_eq9 (V21 m ρ) c 3))
/-- Region 9 leaves its input array main_v129 (window 4) as entered. -/
theorem hrun_keep21_in4 (c : Dev nD) : W22 m ρ c (Proc.devRef .tc main_v129) = W21 m ρ c (Proc.devRef .tc main_v129) :=
  (W22_arr m ρ c 4).trans (((dat9 (V21 m ρ) c).arrAt_in 4 rfl _).trans (A_eq9 (V21 m ρ) c 4))
/-- Region 9 leaves every buffer but its output array main_v130. -/
theorem keep21 (c : Dev nD) (b : Ref sig .tc) (hb : b ≠ main_v130) :
    W22 m ρ c (Proc.devRef .tc b) = W21 m ρ c (Proc.devRef .tc b) := by
  by_cases h0 : b = main_v88
  · subst h0; exact hrun_keep21_in0 m ρ c
  by_cases h1 : b = main_v110
  · subst h1; exact hrun_keep21_in1 m ρ c
  by_cases h2 : b = main_arg22
  · subst h2; exact hrun_keep21_in2 m ρ c
  by_cases h3 : b = main_arg24
  · subst h3; exact hrun_keep21_in3 m ρ c
  by_cases h4 : b = main_v129
  · subst h4; exact hrun_keep21_in4 m ρ c
  exact W22_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps10 leaves a reference it does not write. -/
theorem keep22 (c : Dev nD) (b : Ref sig .tc) (hb : b ∉ hostOps10_W) :
    W23 m ρ c (Proc.devRef .tc b) = W22 m ρ c (Proc.devRef .tc b) :=
  StableHlo.after_of_writes_sub hostOps10 _ hostOps10_writes hb
/-- Region 10 leaves its input array main_v126 (window 0) as entered. -/
theorem hrun_keep23_in0 (c : Dev nD) : W24 m ρ c (Proc.devRef .tc main_v126) = W23 m ρ c (Proc.devRef .tc main_v126) :=
  (W24_arr m ρ c 0).trans (((dat10 (V23 m ρ) c).arrAt_in 0 rfl _).trans (A_eq10 (V23 m ρ) c 0))
/-- Region 10 leaves its input array main_v148 (window 1) as entered. -/
theorem hrun_keep23_in1 (c : Dev nD) : W24 m ρ c (Proc.devRef .tc main_v148) = W23 m ρ c (Proc.devRef .tc main_v148) :=
  (W24_arr m ρ c 1).trans (((dat10 (V23 m ρ) c).arrAt_in 1 rfl _).trans (A_eq10 (V23 m ρ) c 1))
/-- Region 10 leaves its input array main_v150 (window 2) as entered. -/
theorem hrun_keep23_in2 (c : Dev nD) : W24 m ρ c (Proc.devRef .tc main_v150) = W23 m ρ c (Proc.devRef .tc main_v150) :=
  (W24_arr m ρ c 2).trans (((dat10 (V23 m ρ) c).arrAt_in 2 rfl _).trans (A_eq10 (V23 m ρ) c 2))
/-- Region 10 leaves its input array main_v152 (window 3) as entered. -/
theorem hrun_keep23_in3 (c : Dev nD) : W24 m ρ c (Proc.devRef .tc main_v152) = W23 m ρ c (Proc.devRef .tc main_v152) :=
  (W24_arr m ρ c 3).trans (((dat10 (V23 m ρ) c).arrAt_in 3 rfl _).trans (A_eq10 (V23 m ρ) c 3))
/-- Region 10 leaves its input array main_v155 (window 4) as entered. -/
theorem hrun_keep23_in4 (c : Dev nD) : W24 m ρ c (Proc.devRef .tc main_v155) = W23 m ρ c (Proc.devRef .tc main_v155) :=
  (W24_arr m ρ c 4).trans (((dat10 (V23 m ρ) c).arrAt_in 4 rfl _).trans (A_eq10 (V23 m ρ) c 4))
/-- Region 10 leaves every buffer but its output array main_v156. -/
theorem keep23 (c : Dev nD) (b : Ref sig .tc) (hb : b ≠ main_v156) :
    W24 m ρ c (Proc.devRef .tc b) = W23 m ρ c (Proc.devRef .tc b) := by
  by_cases h0 : b = main_v126
  · subst h0; exact hrun_keep23_in0 m ρ c
  by_cases h1 : b = main_v148
  · subst h1; exact hrun_keep23_in1 m ρ c
  by_cases h2 : b = main_v150
  · subst h2; exact hrun_keep23_in2 m ρ c
  by_cases h3 : b = main_v152
  · subst h3; exact hrun_keep23_in3 m ρ c
  by_cases h4 : b = main_v155
  · subst h4; exact hrun_keep23_in4 m ρ c
  exact W24_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps11 leaves a reference it does not write. -/
theorem keep24 (c : Dev nD) (b : Ref sig .tc) (hb : b ∉ hostOps11_W) :
    W25 m ρ c (Proc.devRef .tc b) = W24 m ρ c (Proc.devRef .tc b) :=
  StableHlo.after_of_writes_sub hostOps11 _ hostOps11_writes hb
/-- Region 11 leaves its input array main_v156 (window 0) as entered. -/
theorem hrun_keep25_in0 (c : Dev nD) : W26 m ρ c (Proc.devRef .tc main_v156) = W25 m ρ c (Proc.devRef .tc main_v156) :=
  (W26_arr m ρ c 0).trans (((dat11 (V25 m ρ) c).arrAt_in 0 rfl _).trans (A_eq11 (V25 m ρ) c 0))
/-- Region 11 leaves its input array main_v174 (window 1) as entered. -/
theorem hrun_keep25_in1 (c : Dev nD) : W26 m ρ c (Proc.devRef .tc main_v174) = W25 m ρ c (Proc.devRef .tc main_v174) :=
  (W26_arr m ρ c 1).trans (((dat11 (V25 m ρ) c).arrAt_in 1 rfl _).trans (A_eq11 (V25 m ρ) c 1))
/-- Region 11 leaves its input array main_v176 (window 2) as entered. -/
theorem hrun_keep25_in2 (c : Dev nD) : W26 m ρ c (Proc.devRef .tc main_v176) = W25 m ρ c (Proc.devRef .tc main_v176) :=
  (W26_arr m ρ c 2).trans (((dat11 (V25 m ρ) c).arrAt_in 2 rfl _).trans (A_eq11 (V25 m ρ) c 2))
/-- Region 11 leaves its input array main_v178 (window 3) as entered. -/
theorem hrun_keep25_in3 (c : Dev nD) : W26 m ρ c (Proc.devRef .tc main_v178) = W25 m ρ c (Proc.devRef .tc main_v178) :=
  (W26_arr m ρ c 3).trans (((dat11 (V25 m ρ) c).arrAt_in 3 rfl _).trans (A_eq11 (V25 m ρ) c 3))
/-- Region 11 leaves its input array main_v181 (window 4) as entered. -/
theorem hrun_keep25_in4 (c : Dev nD) : W26 m ρ c (Proc.devRef .tc main_v181) = W25 m ρ c (Proc.devRef .tc main_v181) :=
  (W26_arr m ρ c 4).trans (((dat11 (V25 m ρ) c).arrAt_in 4 rfl _).trans (A_eq11 (V25 m ρ) c 4))
/-- Region 11 leaves every buffer but its output array main_v182. -/
theorem keep25 (c : Dev nD) (b : Ref sig .tc) (hb : b ≠ main_v182) :
    W26 m ρ c (Proc.devRef .tc b) = W25 m ρ c (Proc.devRef .tc b) := by
  by_cases h0 : b = main_v156
  · subst h0; exact hrun_keep25_in0 m ρ c
  by_cases h1 : b = main_v174
  · subst h1; exact hrun_keep25_in1 m ρ c
  by_cases h2 : b = main_v176
  · subst h2; exact hrun_keep25_in2 m ρ c
  by_cases h3 : b = main_v178
  · subst h3; exact hrun_keep25_in3 m ρ c
  by_cases h4 : b = main_v181
  · subst h4; exact hrun_keep25_in4 m ρ c
  exact W26_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps12 leaves a reference it does not write. -/
theorem keep26 (c : Dev nD) (b : Ref sig .tc) (hb : b ∉ hostOps12_W) :
    W27 m ρ c (Proc.devRef .tc b) = W26 m ρ c (Proc.devRef .tc b) :=
  StableHlo.after_of_writes_sub hostOps12 _ hostOps12_writes hb
/-- Region 12 leaves its input array main_v128 (window 0) as entered. -/
theorem hrun_keep27_in0 (c : Dev nD) : W28 m ρ c (Proc.devRef .tc main_v128) = W27 m ρ c (Proc.devRef .tc main_v128) :=
  (W28_arr m ρ c 0).trans (((dat12 (V27 m ρ) c).arrAt_in 0 rfl _).trans (A_eq12 (V27 m ρ) c 0))
/-- Region 12 leaves its input array main_v184 (window 1) as entered. -/
theorem hrun_keep27_in1 (c : Dev nD) : W28 m ρ c (Proc.devRef .tc main_v184) = W27 m ρ c (Proc.devRef .tc main_v184) :=
  (W28_arr m ρ c 1).trans (((dat12 (V27 m ρ) c).arrAt_in 1 rfl _).trans (A_eq12 (V27 m ρ) c 1))
/-- Region 12 leaves its input array main_v187 (window 2) as entered. -/
theorem hrun_keep27_in2 (c : Dev nD) : W28 m ρ c (Proc.devRef .tc main_v187) = W27 m ρ c (Proc.devRef .tc main_v187) :=
  (W28_arr m ρ c 2).trans (((dat12 (V27 m ρ) c).arrAt_in 2 rfl _).trans (A_eq12 (V27 m ρ) c 2))
/-- Region 12 leaves every buffer but its output array main_v188. -/
theorem keep27 (c : Dev nD) (b : Ref sig .tc) (hb : b ≠ main_v188) :
    W28 m ρ c (Proc.devRef .tc b) = W27 m ρ c (Proc.devRef .tc b) := by
  by_cases h0 : b = main_v128
  · subst h0; exact hrun_keep27_in0 m ρ c
  by_cases h1 : b = main_v184
  · subst h1; exact hrun_keep27_in1 m ρ c
  by_cases h2 : b = main_v187
  · subst h2; exact hrun_keep27_in2 m ρ c
  exact W28_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps13 leaves a reference it does not write. -/
theorem keep28 (c : Dev nD) (b : Ref sig .tc) (hb : b ∉ hostOps13_W) :
    W29 m ρ c (Proc.devRef .tc b) = W28 m ρ c (Proc.devRef .tc b) :=
  StableHlo.after_of_writes_sub hostOps13 _ hostOps13_writes hb
/-- Region 13 leaves its input array main_v188 (window 0) as entered. -/
theorem hrun_keep29_in0 (c : Dev nD) : W30 m ρ c (Proc.devRef .tc main_v188) = W29 m ρ c (Proc.devRef .tc main_v188) :=
  (W30_arr m ρ c 0).trans (((dat13 (V29 m ρ) c).arrAt_in 0 rfl _).trans (A_eq13 (V29 m ρ) c 0))
/-- Region 13 leaves its input array main_v190 (window 1) as entered. -/
theorem hrun_keep29_in1 (c : Dev nD) : W30 m ρ c (Proc.devRef .tc main_v190) = W29 m ρ c (Proc.devRef .tc main_v190) :=
  (W30_arr m ρ c 1).trans (((dat13 (V29 m ρ) c).arrAt_in 1 rfl _).trans (A_eq13 (V29 m ρ) c 1))
/-- Region 13 leaves its input array main_v193 (window 2) as entered. -/
theorem hrun_keep29_in2 (c : Dev nD) : W30 m ρ c (Proc.devRef .tc main_v193) = W29 m ρ c (Proc.devRef .tc main_v193) :=
  (W30_arr m ρ c 2).trans (((dat13 (V29 m ρ) c).arrAt_in 2 rfl _).trans (A_eq13 (V29 m ρ) c 2))
/-- Region 13 leaves every buffer but its output array main_v194. -/
theorem keep29 (c : Dev nD) (b : Ref sig .tc) (hb : b ≠ main_v194) :
    W30 m ρ c (Proc.devRef .tc b) = W29 m ρ c (Proc.devRef .tc b) := by
  by_cases h0 : b = main_v188
  · subst h0; exact hrun_keep29_in0 m ρ c
  by_cases h1 : b = main_v190
  · subst h1; exact hrun_keep29_in1 m ρ c
  by_cases h2 : b = main_v193
  · subst h2; exact hrun_keep29_in2 m ρ c
  exact W30_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps14 leaves a reference it does not write. -/
theorem keep30 (c : Dev nD) (b : Ref sig .tc) (hb : b ∉ hostOps14_W) :
    W31 m ρ c (Proc.devRef .tc b) = W30 m ρ c (Proc.devRef .tc b) :=
  StableHlo.after_of_writes_sub hostOps14 _ hostOps14_writes hb
/-- Region 14 leaves its input array main_v130 (window 0) as entered. -/
theorem hrun_keep31_in0 (c : Dev nD) : W32 m ρ c (Proc.devRef .tc main_v130) = W31 m ρ c (Proc.devRef .tc main_v130) :=
  (W32_arr m ρ c 0).trans (((dat14 (V31 m ρ) c).arrAt_in 0 rfl _).trans (A_eq14 (V31 m ρ) c 0))
/-- Region 14 leaves its input array main_v196 (window 1) as entered. -/
theorem hrun_keep31_in1 (c : Dev nD) : W32 m ρ c (Proc.devRef .tc main_v196) = W31 m ρ c (Proc.devRef .tc main_v196) :=
  (W32_arr m ρ c 1).trans (((dat14 (V31 m ρ) c).arrAt_in 1 rfl _).trans (A_eq14 (V31 m ρ) c 1))
/-- Region 14 leaves its input array main_v199 (window 2) as entered. -/
theorem hrun_keep31_in2 (c : Dev nD) : W32 m ρ c (Proc.devRef .tc main_v199) = W31 m ρ c (Proc.devRef .tc main_v199) :=
  (W32_arr m ρ c 2).trans (((dat14 (V31 m ρ) c).arrAt_in 2 rfl _).trans (A_eq14 (V31 m ρ) c 2))
/-- Region 14 leaves every buffer but its output array main_v200. -/
theorem keep31 (c : Dev nD) (b : Ref sig .tc) (hb : b ≠ main_v200) :
    W32 m ρ c (Proc.devRef .tc b) = W31 m ρ c (Proc.devRef .tc b) := by
  by_cases h0 : b = main_v130
  · subst h0; exact hrun_keep31_in0 m ρ c
  by_cases h1 : b = main_v196
  · subst h1; exact hrun_keep31_in1 m ρ c
  by_cases h2 : b = main_v199
  · subst h2; exact hrun_keep31_in2 m ρ c
  exact W32_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps15 leaves a reference it does not write. -/
theorem keep32 (c : Dev nD) (b : Ref sig .tc) (hb : b ∉ hostOps15_W) :
    W33 m ρ c (Proc.devRef .tc b) = W32 m ρ c (Proc.devRef .tc b) :=
  StableHlo.after_of_writes_sub hostOps15 _ hostOps15_writes hb
/-- Region 15 leaves its input array main_v200 (window 0) as entered. -/
theorem hrun_keep33_in0 (c : Dev nD) : W34 m ρ c (Proc.devRef .tc main_v200) = W33 m ρ c (Proc.devRef .tc main_v200) :=
  (W34_arr m ρ c 0).trans (((dat15 (V33 m ρ) c).arrAt_in 0 rfl _).trans (A_eq15 (V33 m ρ) c 0))
/-- Region 15 leaves its input array main_v202 (window 1) as entered. -/
theorem hrun_keep33_in1 (c : Dev nD) : W34 m ρ c (Proc.devRef .tc main_v202) = W33 m ρ c (Proc.devRef .tc main_v202) :=
  (W34_arr m ρ c 1).trans (((dat15 (V33 m ρ) c).arrAt_in 1 rfl _).trans (A_eq15 (V33 m ρ) c 1))
/-- Region 15 leaves its input array main_v205 (window 2) as entered. -/
theorem hrun_keep33_in2 (c : Dev nD) : W34 m ρ c (Proc.devRef .tc main_v205) = W33 m ρ c (Proc.devRef .tc main_v205) :=
  (W34_arr m ρ c 2).trans (((dat15 (V33 m ρ) c).arrAt_in 2 rfl _).trans (A_eq15 (V33 m ρ) c 2))
/-- Region 15 leaves every buffer but its output array main_v206. -/
theorem keep33 (c : Dev nD) (b : Ref sig .tc) (hb : b ≠ main_v206) :
    W34 m ρ c (Proc.devRef .tc b) = W33 m ρ c (Proc.devRef .tc b) := by
  by_cases h0 : b = main_v200
  · subst h0; exact hrun_keep33_in0 m ρ c
  by_cases h1 : b = main_v202
  · subst h1; exact hrun_keep33_in1 m ρ c
  by_cases h2 : b = main_v205
  · subst h2; exact hrun_keep33_in2 m ρ c
  exact W34_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps16 leaves a reference it does not write. -/
theorem keep34 (c : Dev nD) (b : Ref sig .tc) (hb : b ∉ hostOps16_W) :
    W35 m ρ c (Proc.devRef .tc b) = W34 m ρ c (Proc.devRef .tc b) :=
  StableHlo.after_of_writes_sub hostOps16 _ hostOps16_writes hb
/-- Region 16 leaves its input array main_v182 (window 0) as entered. -/
theorem hrun_keep35_in0 (c : Dev nD) : W36 m ρ c (Proc.devRef .tc main_v182) = W35 m ρ c (Proc.devRef .tc main_v182) :=
  (W36_arr m ρ c 0).trans (((dat16 (V35 m ρ) c).arrAt_in 0 rfl _).trans (A_eq16 (V35 m ρ) c 0))
/-- Region 16 leaves its input array main_v235 (window 1) as entered. -/
theorem hrun_keep35_in1 (c : Dev nD) : W36 m ρ c (Proc.devRef .tc main_v235) = W35 m ρ c (Proc.devRef .tc main_v235) :=
  (W36_arr m ρ c 1).trans (((dat16 (V35 m ρ) c).arrAt_in 1 rfl _).trans (A_eq16 (V35 m ρ) c 1))
/-- Region 16 leaves its input array main_arg20 (window 2) as entered. -/
theorem hrun_keep35_in2 (c : Dev nD) : W36 m ρ c (Proc.devRef .tc main_arg20) = W35 m ρ c (Proc.devRef .tc main_arg20) :=
  (W36_arr m ρ c 2).trans (((dat16 (V35 m ρ) c).arrAt_in 2 rfl _).trans (A_eq16 (V35 m ρ) c 2))
/-- Region 16 leaves its input array main_arg25 (window 3) as entered. -/
theorem hrun_keep35_in3 (c : Dev nD) : W36 m ρ c (Proc.devRef .tc main_arg25) = W35 m ρ c (Proc.devRef .tc main_arg25) :=
  (W36_arr m ρ c 3).trans (((dat16 (V35 m ρ) c).arrAt_in 3 rfl _).trans (A_eq16 (V35 m ρ) c 3))
/-- Region 16 leaves its input array main_v243 (window 4) as entered. -/
theorem hrun_keep35_in4 (c : Dev nD) : W36 m ρ c (Proc.devRef .tc main_v243) = W35 m ρ c (Proc.devRef .tc main_v243) :=
  (W36_arr m ρ c 4).trans (((dat16 (V35 m ρ) c).arrAt_in 4 rfl _).trans (A_eq16 (V35 m ρ) c 4))
/-- Region 16 leaves every buffer but its output array main_v244. -/
theorem keep35 (c : Dev nD) (b : Ref sig .tc) (hb : b ≠ main_v244) :
    W36 m ρ c (Proc.devRef .tc b) = W35 m ρ c (Proc.devRef .tc b) := by
  by_cases h0 : b = main_v182
  · subst h0; exact hrun_keep35_in0 m ρ c
  by_cases h1 : b = main_v235
  · subst h1; exact hrun_keep35_in1 m ρ c
  by_cases h2 : b = main_arg20
  · subst h2; exact hrun_keep35_in2 m ρ c
  by_cases h3 : b = main_arg25
  · subst h3; exact hrun_keep35_in3 m ρ c
  by_cases h4 : b = main_v243
  · subst h4; exact hrun_keep35_in4 m ρ c
  exact W36_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps17 leaves a reference it does not write. -/
theorem keep36 (c : Dev nD) (b : Ref sig .tc) (hb : b ∉ hostOps17_W) :
    W37 m ρ c (Proc.devRef .tc b) = W36 m ρ c (Proc.devRef .tc b) :=
  StableHlo.after_of_writes_sub hostOps17 _ hostOps17_writes hb
/-- Region 17 leaves its input array main_v194 (window 0) as entered. -/
theorem hrun_keep37_in0 (c : Dev nD) : W38 m ρ c (Proc.devRef .tc main_v194) = W37 m ρ c (Proc.devRef .tc main_v194) :=
  (W38_arr m ρ c 0).trans (((dat17 (V37 m ρ) c).arrAt_in 0 rfl _).trans (A_eq17 (V37 m ρ) c 0))
/-- Region 17 leaves its input array main_v217 (window 1) as entered. -/
theorem hrun_keep37_in1 (c : Dev nD) : W38 m ρ c (Proc.devRef .tc main_v217) = W37 m ρ c (Proc.devRef .tc main_v217) :=
  (W38_arr m ρ c 1).trans (((dat17 (V37 m ρ) c).arrAt_in 1 rfl _).trans (A_eq17 (V37 m ρ) c 1))
/-- Region 17 leaves its input array main_v242 (window 2) as entered. -/
theorem hrun_keep37_in2 (c : Dev nD) : W38 m ρ c (Proc.devRef .tc main_v242) = W37 m ρ c (Proc.devRef .tc main_v242) :=
  (W38_arr m ρ c 2).trans (((dat17 (V37 m ρ) c).arrAt_in 2 rfl _).trans (A_eq17 (V37 m ρ) c 2))
/-- Region 17 leaves its input array main_arg21 (window 3) as entered. -/
theorem hrun_keep37_in3 (c : Dev nD) : W38 m ρ c (Proc.devRef .tc main_arg21) = W37 m ρ c (Proc.devRef .tc main_arg21) :=
  (W38_arr m ρ c 3).trans (((dat17 (V37 m ρ) c).arrAt_in 3 rfl _).trans (A_eq17 (V37 m ρ) c 3))
/-- Region 17 leaves its input array main_arg23 (window 4) as entered. -/
theorem hrun_keep37_in4 (c : Dev nD) : W38 m ρ c (Proc.devRef .tc main_arg23) = W37 m ρ c (Proc.devRef .tc main_arg23) :=
  (W38_arr m ρ c 4).trans (((dat17 (V37 m ρ) c).arrAt_in 4 rfl _).trans (A_eq17 (V37 m ρ) c 4))
/-- Region 17 leaves its input array main_arg26 (window 5) as entered. -/
theorem hrun_keep37_in5 (c : Dev nD) : W38 m ρ c (Proc.devRef .tc main_arg26) = W37 m ρ c (Proc.devRef .tc main_arg26) :=
  (W38_arr m ρ c 5).trans (((dat17 (V37 m ρ) c).arrAt_in 5 rfl _).trans (A_eq17 (V37 m ρ) c 5))
/-- Region 17 leaves its input array main_v245 (window 6) as entered. -/
theorem hrun_keep37_in6 (c : Dev nD) : W38 m ρ c (Proc.devRef .tc main_v245) = W37 m ρ c (Proc.devRef .tc main_v245) :=
  (W38_arr m ρ c 6).trans (((dat17 (V37 m ρ) c).arrAt_in 6 rfl _).trans (A_eq17 (V37 m ρ) c 6))
/-- Region 17 leaves every buffer but its output array main_v246. -/
theorem keep37 (c : Dev nD) (b : Ref sig .tc) (hb : b ≠ main_v246) :
    W38 m ρ c (Proc.devRef .tc b) = W37 m ρ c (Proc.devRef .tc b) := by
  by_cases h0 : b = main_v194
  · subst h0; exact hrun_keep37_in0 m ρ c
  by_cases h1 : b = main_v217
  · subst h1; exact hrun_keep37_in1 m ρ c
  by_cases h2 : b = main_v242
  · subst h2; exact hrun_keep37_in2 m ρ c
  by_cases h3 : b = main_arg21
  · subst h3; exact hrun_keep37_in3 m ρ c
  by_cases h4 : b = main_arg23
  · subst h4; exact hrun_keep37_in4 m ρ c
  by_cases h5 : b = main_arg26
  · subst h5; exact hrun_keep37_in5 m ρ c
  by_cases h6 : b = main_v245
  · subst h6; exact hrun_keep37_in6 m ρ c
  exact W38_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => hb e.symm)
/-- The stretch hostOps18 leaves a reference it does not write. -/
theorem keep38 (c : Dev nD) (b : Ref sig .tc) (hb : b ∉ hostOps18_W) :
    W39 m ρ c (Proc.devRef .tc b) = W38 m ρ c (Proc.devRef .tc b) :=
  StableHlo.after_of_writes_sub hostOps18 _ hostOps18_writes hb
/-- Region 18 leaves its input array main_v206 (window 0) as entered. -/
theorem hrun_keep39_in0 (c : Dev nD) : W40 m ρ c (Proc.devRef .tc main_v206) = W39 m ρ c (Proc.devRef .tc main_v206) :=
  (W40_arr m ρ c 0).trans (((dat18 (V39 m ρ) c).arrAt_in 0 rfl _).trans (A_eq18 (V39 m ρ) c 0))
/-- Region 18 leaves its input array main_v228 (window 1) as entered. -/
theorem hrun_keep39_in1 (c : Dev nD) : W40 m ρ c (Proc.devRef .tc main_v228) = W39 m ρ c (Proc.devRef .tc main_v228) :=
  (W40_arr m ρ c 1).trans (((dat18 (V39 m ρ) c).arrAt_in 1 rfl _).trans (A_eq18 (V39 m ρ) c 1))
/-- Region 18 leaves its input array main_arg22 (window 2) as entered. -/
theorem hrun_keep39_in2 (c : Dev nD) : W40 m ρ c (Proc.devRef .tc main_arg22) = W39 m ρ c (Proc.devRef .tc main_arg22) :=
  (W40_arr m ρ c 2).trans (((dat18 (V39 m ρ) c).arrAt_in 2 rfl _).trans (A_eq18 (V39 m ρ) c 2))
/-- Region 18 leaves its input array main_arg24 (window 3) as entered. -/
theorem hrun_keep39_in3 (c : Dev nD) : W40 m ρ c (Proc.devRef .tc main_arg24) = W39 m ρ c (Proc.devRef .tc main_arg24) :=
  (W40_arr m ρ c 3).trans (((dat18 (V39 m ρ) c).arrAt_in 3 rfl _).trans (A_eq18 (V39 m ρ) c 3))
/-- Region 18 leaves its input array main_v247 (window 4) as entered. -/
theorem hrun_keep39_in4 (c : Dev nD) : W40 m ρ c (Proc.devRef .tc main_v247) = W39 m ρ c (Proc.devRef .tc main_v247) :=
  (W40_arr m ρ c 4).trans (((dat18 (V39 m ρ) c).arrAt_in 4 rfl _).trans (A_eq18 (V39 m ρ) c 4))
/-- Region 18 leaves every buffer but its output array main_v248. -/
theorem keep39 (c : Dev nD) (b : Ref sig .tc) (hb : b ≠ main_v248) :
    W40 m ρ c (Proc.devRef .tc b) = W39 m ρ c (Proc.devRef .tc b) := by
  by_cases h0 : b = main_v206
  · subst h0; exact hrun_keep39_in0 m ρ c
  by_cases h1 : b = main_v228
  · subst h1; exact hrun_keep39_in1 m ρ c
  by_cases h2 : b = main_arg22
  · subst h2; exact hrun_keep39_in2 m ρ c
  by_cases h3 : b = main_arg24
  · subst h3; exact hrun_keep39_in3 m ρ c
  by_cases h4 : b = main_v247
  · subst h4; exact hrun_keep39_in4 m ρ c
  exact W40_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps19 leaves a reference it does not write. -/
theorem keep40 (c : Dev nD) (b : Ref sig .tc) (hb : b ∉ hostOps19_W) :
    W41 m ρ c (Proc.devRef .tc b) = W40 m ρ c (Proc.devRef .tc b) :=
  StableHlo.after_of_writes_sub hostOps19 _ hostOps19_writes hb
/-- Region 19 leaves its input array main_v244 (window 0) as entered. -/
theorem hrun_keep41_in0 (c : Dev nD) : W42 m ρ c (Proc.devRef .tc main_v244) = W41 m ρ c (Proc.devRef .tc main_v244) :=
  (W42_arr m ρ c 0).trans (((dat19 (V41 m ρ) c).arrAt_in 0 rfl _).trans (A_eq19 (V41 m ρ) c 0))
/-- Region 19 leaves its input array main_v266 (window 1) as entered. -/
theorem hrun_keep41_in1 (c : Dev nD) : W42 m ρ c (Proc.devRef .tc main_v266) = W41 m ρ c (Proc.devRef .tc main_v266) :=
  (W42_arr m ρ c 1).trans (((dat19 (V41 m ρ) c).arrAt_in 1 rfl _).trans (A_eq19 (V41 m ρ) c 1))
/-- Region 19 leaves its input array main_v268 (window 2) as entered. -/
theorem hrun_keep41_in2 (c : Dev nD) : W42 m ρ c (Proc.devRef .tc main_v268) = W41 m ρ c (Proc.devRef .tc main_v268) :=
  (W42_arr m ρ c 2).trans (((dat19 (V41 m ρ) c).arrAt_in 2 rfl _).trans (A_eq19 (V41 m ρ) c 2))
/-- Region 19 leaves its input array main_v270 (window 3) as entered. -/
theorem hrun_keep41_in3 (c : Dev nD) : W42 m ρ c (Proc.devRef .tc main_v270) = W41 m ρ c (Proc.devRef .tc main_v270) :=
  (W42_arr m ρ c 3).trans (((dat19 (V41 m ρ) c).arrAt_in 3 rfl _).trans (A_eq19 (V41 m ρ) c 3))
/-- Region 19 leaves its input array main_v273 (window 4) as entered. -/
theorem hrun_keep41_in4 (c : Dev nD) : W42 m ρ c (Proc.devRef .tc main_v273) = W41 m ρ c (Proc.devRef .tc main_v273) :=
  (W42_arr m ρ c 4).trans (((dat19 (V41 m ρ) c).arrAt_in 4 rfl _).trans (A_eq19 (V41 m ρ) c 4))
/-- Region 19 leaves every buffer but its output array main_v274. -/
theorem keep41 (c : Dev nD) (b : Ref sig .tc) (hb : b ≠ main_v274) :
    W42 m ρ c (Proc.devRef .tc b) = W41 m ρ c (Proc.devRef .tc b) := by
  by_cases h0 : b = main_v244
  · subst h0; exact hrun_keep41_in0 m ρ c
  by_cases h1 : b = main_v266
  · subst h1; exact hrun_keep41_in1 m ρ c
  by_cases h2 : b = main_v268
  · subst h2; exact hrun_keep41_in2 m ρ c
  by_cases h3 : b = main_v270
  · subst h3; exact hrun_keep41_in3 m ρ c
  by_cases h4 : b = main_v273
  · subst h4; exact hrun_keep41_in4 m ρ c
  exact W42_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps20 leaves a reference it does not write. -/
theorem keep42 (c : Dev nD) (b : Ref sig .tc) (hb : b ∉ hostOps20_W) :
    W43 m ρ c (Proc.devRef .tc b) = W42 m ρ c (Proc.devRef .tc b) :=
  StableHlo.after_of_writes_sub hostOps20 _ hostOps20_writes hb
/-- Region 20 leaves its input array main_v274 (window 0) as entered. -/
theorem hrun_keep43_in0 (c : Dev nD) : W44 m ρ c (Proc.devRef .tc main_v274) = W43 m ρ c (Proc.devRef .tc main_v274) :=
  (W44_arr m ρ c 0).trans (((dat20 (V43 m ρ) c).arrAt_in 0 rfl _).trans (A_eq20 (V43 m ρ) c 0))
/-- Region 20 leaves its input array main_v292 (window 1) as entered. -/
theorem hrun_keep43_in1 (c : Dev nD) : W44 m ρ c (Proc.devRef .tc main_v292) = W43 m ρ c (Proc.devRef .tc main_v292) :=
  (W44_arr m ρ c 1).trans (((dat20 (V43 m ρ) c).arrAt_in 1 rfl _).trans (A_eq20 (V43 m ρ) c 1))
/-- Region 20 leaves its input array main_v294 (window 2) as entered. -/
theorem hrun_keep43_in2 (c : Dev nD) : W44 m ρ c (Proc.devRef .tc main_v294) = W43 m ρ c (Proc.devRef .tc main_v294) :=
  (W44_arr m ρ c 2).trans (((dat20 (V43 m ρ) c).arrAt_in 2 rfl _).trans (A_eq20 (V43 m ρ) c 2))
/-- Region 20 leaves its input array main_v296 (window 3) as entered. -/
theorem hrun_keep43_in3 (c : Dev nD) : W44 m ρ c (Proc.devRef .tc main_v296) = W43 m ρ c (Proc.devRef .tc main_v296) :=
  (W44_arr m ρ c 3).trans (((dat20 (V43 m ρ) c).arrAt_in 3 rfl _).trans (A_eq20 (V43 m ρ) c 3))
/-- Region 20 leaves its input array main_v299 (window 4) as entered. -/
theorem hrun_keep43_in4 (c : Dev nD) : W44 m ρ c (Proc.devRef .tc main_v299) = W43 m ρ c (Proc.devRef .tc main_v299) :=
  (W44_arr m ρ c 4).trans (((dat20 (V43 m ρ) c).arrAt_in 4 rfl _).trans (A_eq20 (V43 m ρ) c 4))
/-- Region 20 leaves every buffer but its output array main_v300. -/
theorem keep43 (c : Dev nD) (b : Ref sig .tc) (hb : b ≠ main_v300) :
    W44 m ρ c (Proc.devRef .tc b) = W43 m ρ c (Proc.devRef .tc b) := by
  by_cases h0 : b = main_v274
  · subst h0; exact hrun_keep43_in0 m ρ c
  by_cases h1 : b = main_v292
  · subst h1; exact hrun_keep43_in1 m ρ c
  by_cases h2 : b = main_v294
  · subst h2; exact hrun_keep43_in2 m ρ c
  by_cases h3 : b = main_v296
  · subst h3; exact hrun_keep43_in3 m ρ c
  by_cases h4 : b = main_v299
  · subst h4; exact hrun_keep43_in4 m ρ c
  exact W44_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps21 leaves a reference it does not write. -/
theorem keep44 (c : Dev nD) (b : Ref sig .tc) (hb : b ∉ hostOps21_W) :
    W45 m ρ c (Proc.devRef .tc b) = W44 m ρ c (Proc.devRef .tc b) :=
  StableHlo.after_of_writes_sub hostOps21 _ hostOps21_writes hb
/-- Region 21 leaves its input array main_v246 (window 0) as entered. -/
theorem hrun_keep45_in0 (c : Dev nD) : W46 m ρ c (Proc.devRef .tc main_v246) = W45 m ρ c (Proc.devRef .tc main_v246) :=
  (W46_arr m ρ c 0).trans (((dat21 (V45 m ρ) c).arrAt_in 0 rfl _).trans (A_eq21 (V45 m ρ) c 0))
/-- Region 21 leaves its input array main_v302 (window 1) as entered. -/
theorem hrun_keep45_in1 (c : Dev nD) : W46 m ρ c (Proc.devRef .tc main_v302) = W45 m ρ c (Proc.devRef .tc main_v302) :=
  (W46_arr m ρ c 1).trans (((dat21 (V45 m ρ) c).arrAt_in 1 rfl _).trans (A_eq21 (V45 m ρ) c 1))
/-- Region 21 leaves its input array main_v305 (window 2) as entered. -/
theorem hrun_keep45_in2 (c : Dev nD) : W46 m ρ c (Proc.devRef .tc main_v305) = W45 m ρ c (Proc.devRef .tc main_v305) :=
  (W46_arr m ρ c 2).trans (((dat21 (V45 m ρ) c).arrAt_in 2 rfl _).trans (A_eq21 (V45 m ρ) c 2))
/-- Region 21 leaves every buffer but its output array main_v306. -/
theorem keep45 (c : Dev nD) (b : Ref sig .tc) (hb : b ≠ main_v306) :
    W46 m ρ c (Proc.devRef .tc b) = W45 m ρ c (Proc.devRef .tc b) := by
  by_cases h0 : b = main_v246
  · subst h0; exact hrun_keep45_in0 m ρ c
  by_cases h1 : b = main_v302
  · subst h1; exact hrun_keep45_in1 m ρ c
  by_cases h2 : b = main_v305
  · subst h2; exact hrun_keep45_in2 m ρ c
  exact W46_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps22 leaves a reference it does not write. -/
theorem keep46 (c : Dev nD) (b : Ref sig .tc) (hb : b ∉ hostOps22_W) :
    W47 m ρ c (Proc.devRef .tc b) = W46 m ρ c (Proc.devRef .tc b) :=
  StableHlo.after_of_writes_sub hostOps22 _ hostOps22_writes hb
/-- Region 22 leaves its input array main_v306 (window 0) as entered. -/
theorem hrun_keep47_in0 (c : Dev nD) : W48 m ρ c (Proc.devRef .tc main_v306) = W47 m ρ c (Proc.devRef .tc main_v306) :=
  (W48_arr m ρ c 0).trans (((dat22 (V47 m ρ) c).arrAt_in 0 rfl _).trans (A_eq22 (V47 m ρ) c 0))
/-- Region 22 leaves its input array main_v308 (window 1) as entered. -/
theorem hrun_keep47_in1 (c : Dev nD) : W48 m ρ c (Proc.devRef .tc main_v308) = W47 m ρ c (Proc.devRef .tc main_v308) :=
  (W48_arr m ρ c 1).trans (((dat22 (V47 m ρ) c).arrAt_in 1 rfl _).trans (A_eq22 (V47 m ρ) c 1))
/-- Region 22 leaves its input array main_v311 (window 2) as entered. -/
theorem hrun_keep47_in2 (c : Dev nD) : W48 m ρ c (Proc.devRef .tc main_v311) = W47 m ρ c (Proc.devRef .tc main_v311) :=
  (W48_arr m ρ c 2).trans (((dat22 (V47 m ρ) c).arrAt_in 2 rfl _).trans (A_eq22 (V47 m ρ) c 2))
/-- Region 22 leaves every buffer but its output array main_v312. -/
theorem keep47 (c : Dev nD) (b : Ref sig .tc) (hb : b ≠ main_v312) :
    W48 m ρ c (Proc.devRef .tc b) = W47 m ρ c (Proc.devRef .tc b) := by
  by_cases h0 : b = main_v306
  · subst h0; exact hrun_keep47_in0 m ρ c
  by_cases h1 : b = main_v308
  · subst h1; exact hrun_keep47_in1 m ρ c
  by_cases h2 : b = main_v311
  · subst h2; exact hrun_keep47_in2 m ρ c
  exact W48_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps23 leaves a reference it does not write. -/
theorem keep48 (c : Dev nD) (b : Ref sig .tc) (hb : b ∉ hostOps23_W) :
    W49 m ρ c (Proc.devRef .tc b) = W48 m ρ c (Proc.devRef .tc b) :=
  StableHlo.after_of_writes_sub hostOps23 _ hostOps23_writes hb
/-- Region 23 leaves its input array main_v248 (window 0) as entered. -/
theorem hrun_keep49_in0 (c : Dev nD) : W50 m ρ c (Proc.devRef .tc main_v248) = W49 m ρ c (Proc.devRef .tc main_v248) :=
  (W50_arr m ρ c 0).trans (((dat23 (V49 m ρ) c).arrAt_in 0 rfl _).trans (A_eq23 (V49 m ρ) c 0))
/-- Region 23 leaves its input array main_v314 (window 1) as entered. -/
theorem hrun_keep49_in1 (c : Dev nD) : W50 m ρ c (Proc.devRef .tc main_v314) = W49 m ρ c (Proc.devRef .tc main_v314) :=
  (W50_arr m ρ c 1).trans (((dat23 (V49 m ρ) c).arrAt_in 1 rfl _).trans (A_eq23 (V49 m ρ) c 1))
/-- Region 23 leaves its input array main_v317 (window 2) as entered. -/
theorem hrun_keep49_in2 (c : Dev nD) : W50 m ρ c (Proc.devRef .tc main_v317) = W49 m ρ c (Proc.devRef .tc main_v317) :=
  (W50_arr m ρ c 2).trans (((dat23 (V49 m ρ) c).arrAt_in 2 rfl _).trans (A_eq23 (V49 m ρ) c 2))
/-- Region 23 leaves every buffer but its output array main_v318. -/
theorem keep49 (c : Dev nD) (b : Ref sig .tc) (hb : b ≠ main_v318) :
    W50 m ρ c (Proc.devRef .tc b) = W49 m ρ c (Proc.devRef .tc b) := by
  by_cases h0 : b = main_v248
  · subst h0; exact hrun_keep49_in0 m ρ c
  by_cases h1 : b = main_v314
  · subst h1; exact hrun_keep49_in1 m ρ c
  by_cases h2 : b = main_v317
  · subst h2; exact hrun_keep49_in2 m ρ c
  exact W50_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps24 leaves a reference it does not write. -/
theorem keep50 (c : Dev nD) (b : Ref sig .tc) (hb : b ∉ hostOps24_W) :
    W51 m ρ c (Proc.devRef .tc b) = W50 m ρ c (Proc.devRef .tc b) :=
  StableHlo.after_of_writes_sub hostOps24 _ hostOps24_writes hb
/-- Region 24 leaves its input array main_v318 (window 0) as entered. -/
theorem hrun_keep51_in0 (c : Dev nD) : W52 m ρ c (Proc.devRef .tc main_v318) = W51 m ρ c (Proc.devRef .tc main_v318) :=
  (W52_arr m ρ c 0).trans (((dat24 (V51 m ρ) c).arrAt_in 0 rfl _).trans (A_eq24 (V51 m ρ) c 0))
/-- Region 24 leaves its input array main_v320 (window 1) as entered. -/
theorem hrun_keep51_in1 (c : Dev nD) : W52 m ρ c (Proc.devRef .tc main_v320) = W51 m ρ c (Proc.devRef .tc main_v320) :=
  (W52_arr m ρ c 1).trans (((dat24 (V51 m ρ) c).arrAt_in 1 rfl _).trans (A_eq24 (V51 m ρ) c 1))
/-- Region 24 leaves its input array main_v323 (window 2) as entered. -/
theorem hrun_keep51_in2 (c : Dev nD) : W52 m ρ c (Proc.devRef .tc main_v323) = W51 m ρ c (Proc.devRef .tc main_v323) :=
  (W52_arr m ρ c 2).trans (((dat24 (V51 m ρ) c).arrAt_in 2 rfl _).trans (A_eq24 (V51 m ρ) c 2))
/-- Region 24 leaves every buffer but its output array main_v324. -/
theorem keep51 (c : Dev nD) (b : Ref sig .tc) (hb : b ≠ main_v324) :
    W52 m ρ c (Proc.devRef .tc b) = W51 m ρ c (Proc.devRef .tc b) := by
  by_cases h0 : b = main_v318
  · subst h0; exact hrun_keep51_in0 m ρ c
  by_cases h1 : b = main_v320
  · subst h1; exact hrun_keep51_in1 m ρ c
  by_cases h2 : b = main_v323
  · subst h2; exact hrun_keep51_in2 m ρ c
  exact W52_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps25 leaves a reference it does not write. -/
theorem keep52 (c : Dev nD) (b : Ref sig .tc) (hb : b ∉ hostOps25_W) :
    W53 m ρ c (Proc.devRef .tc b) = W52 m ρ c (Proc.devRef .tc b) :=
  StableHlo.after_of_writes_sub hostOps25 _ hostOps25_writes hb
/-- Region 25 leaves its input array main_v347 (window 0) as entered. -/
theorem hrun_keep53_in0 (c : Dev nD) : W54 m ρ c (Proc.devRef .tc main_v347) = W53 m ρ c (Proc.devRef .tc main_v347) :=
  (W54_arr m ρ c 0).trans (((dat25 (V53 m ρ) c).arrAt_in 0 rfl _).trans (A_eq25 (V53 m ρ) c 0))
/-- Region 25 leaves its input array main_arg30 (window 1) as entered. -/
theorem hrun_keep53_in1 (c : Dev nD) : W54 m ρ c (Proc.devRef .tc main_arg30) = W53 m ρ c (Proc.devRef .tc main_arg30) :=
  (W54_arr m ρ c 1).trans (((dat25 (V53 m ρ) c).arrAt_in 1 rfl _).trans (A_eq25 (V53 m ρ) c 1))
/-- Region 25 leaves its input array main_v348 (window 2) as entered. -/
theorem hrun_keep53_in2 (c : Dev nD) : W54 m ρ c (Proc.devRef .tc main_v348) = W53 m ρ c (Proc.devRef .tc main_v348) :=
  (W54_arr m ρ c 2).trans (((dat25 (V53 m ρ) c).arrAt_in 2 rfl _).trans (A_eq25 (V53 m ρ) c 2))
/-- Region 25 leaves every buffer but its output array main_v349. -/
theorem keep53 (c : Dev nD) (b : Ref sig .tc) (hb : b ≠ main_v349) :
    W54 m ρ c (Proc.devRef .tc b) = W53 m ρ c (Proc.devRef .tc b) := by
  by_cases h0 : b = main_v347
  · subst h0; exact hrun_keep53_in0 m ρ c
  by_cases h1 : b = main_arg30
  · subst h1; exact hrun_keep53_in1 m ρ c
  by_cases h2 : b = main_v348
  · subst h2; exact hrun_keep53_in2 m ρ c
  exact W54_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps26 leaves a reference it does not write. -/
theorem keep54 (c : Dev nD) (b : Ref sig .tc) (hb : b ∉ hostOps26_W) :
    W55 m ρ c (Proc.devRef .tc b) = W54 m ρ c (Proc.devRef .tc b) :=
  StableHlo.after_of_writes_sub hostOps26 _ hostOps26_writes hb

/-! # The arguments end as launched: no host stretch writes one and no region's output array is one, so the fold at
    an argument's buffer walks back to the launch memory -/

theorem kept_arg0 (c : Dev nD) : W55 m ρ c (Proc.devRef .tc main_arg0) = m ((c : Thread nD τ).loc main_arg0) :=
  (keep54 m ρ c main_arg0 (by decide)).trans <|
    (keep53 m ρ c main_arg0 (by decide)).trans <|
    (keep52 m ρ c main_arg0 (by decide)).trans <|
    (keep51 m ρ c main_arg0 (by decide)).trans <|
    (keep50 m ρ c main_arg0 (by decide)).trans <|
    (keep49 m ρ c main_arg0 (by decide)).trans <|
    (keep48 m ρ c main_arg0 (by decide)).trans <|
    (keep47 m ρ c main_arg0 (by decide)).trans <|
    (keep46 m ρ c main_arg0 (by decide)).trans <|
    (keep45 m ρ c main_arg0 (by decide)).trans <|
    (keep44 m ρ c main_arg0 (by decide)).trans <|
    (keep43 m ρ c main_arg0 (by decide)).trans <|
    (keep42 m ρ c main_arg0 (by decide)).trans <|
    (keep41 m ρ c main_arg0 (by decide)).trans <|
    (keep40 m ρ c main_arg0 (by decide)).trans <|
    (keep39 m ρ c main_arg0 (by decide)).trans <|
    (keep38 m ρ c main_arg0 (by decide)).trans <|
    (keep37 m ρ c main_arg0 (by decide)).trans <|
    (keep36 m ρ c main_arg0 (by decide)).trans <|
    (keep35 m ρ c main_arg0 (by decide)).trans <|
    (keep34 m ρ c main_arg0 (by decide)).trans <|
    (keep33 m ρ c main_arg0 (by decide)).trans <|
    (keep32 m ρ c main_arg0 (by decide)).trans <|
    (keep31 m ρ c main_arg0 (by decide)).trans <|
    (keep30 m ρ c main_arg0 (by decide)).trans <|
    (keep29 m ρ c main_arg0 (by decide)).trans <|
    (keep28 m ρ c main_arg0 (by decide)).trans <|
    (keep27 m ρ c main_arg0 (by decide)).trans <|
    (keep26 m ρ c main_arg0 (by decide)).trans <|
    (keep25 m ρ c main_arg0 (by decide)).trans <|
    (keep24 m ρ c main_arg0 (by decide)).trans <|
    (keep23 m ρ c main_arg0 (by decide)).trans <|
    (keep22 m ρ c main_arg0 (by decide)).trans <|
    (keep21 m ρ c main_arg0 (by decide)).trans <|
    (keep20 m ρ c main_arg0 (by decide)).trans <|
    (keep19 m ρ c main_arg0 (by decide)).trans <|
    (keep18 m ρ c main_arg0 (by decide)).trans <|
    (keep17 m ρ c main_arg0 (by decide)).trans <|
    (keep16 m ρ c main_arg0 (by decide)).trans <|
    (keep15 m ρ c main_arg0 (by decide)).trans <|
    (keep14 m ρ c main_arg0 (by decide)).trans <|
    (keep13 m ρ c main_arg0 (by decide)).trans <|
    (keep12 m ρ c main_arg0 (by decide)).trans <|
    (keep11 m ρ c main_arg0 (by decide)).trans <|
    (keep10 m ρ c main_arg0 (by decide)).trans <|
    (keep9 m ρ c main_arg0 (by decide)).trans <|
    (keep8 m ρ c main_arg0 (by decide)).trans <|
    (keep7 m ρ c main_arg0 (by decide)).trans <|
    (keep6 m ρ c main_arg0 (by decide)).trans <|
    (keep5 m ρ c main_arg0 (by decide)).trans <|
    (keep4 m ρ c main_arg0 (by decide)).trans <|
    (keep3 m ρ c main_arg0 (by decide)).trans <|
    (keep2 m ρ c main_arg0 (by decide)).trans <|
    (keep1 m ρ c main_arg0 (by decide)).trans <|
    (keep0 m ρ c main_arg0 (by decide)).trans rfl
theorem kept_arg1 (c : Dev nD) : W55 m ρ c (Proc.devRef .tc main_arg1) = m ((c : Thread nD τ).loc main_arg1) :=
  (keep54 m ρ c main_arg1 (by decide)).trans <|
    (keep53 m ρ c main_arg1 (by decide)).trans <|
    (keep52 m ρ c main_arg1 (by decide)).trans <|
    (keep51 m ρ c main_arg1 (by decide)).trans <|
    (keep50 m ρ c main_arg1 (by decide)).trans <|
    (keep49 m ρ c main_arg1 (by decide)).trans <|
    (keep48 m ρ c main_arg1 (by decide)).trans <|
    (keep47 m ρ c main_arg1 (by decide)).trans <|
    (keep46 m ρ c main_arg1 (by decide)).trans <|
    (keep45 m ρ c main_arg1 (by decide)).trans <|
    (keep44 m ρ c main_arg1 (by decide)).trans <|
    (keep43 m ρ c main_arg1 (by decide)).trans <|
    (keep42 m ρ c main_arg1 (by decide)).trans <|
    (keep41 m ρ c main_arg1 (by decide)).trans <|
    (keep40 m ρ c main_arg1 (by decide)).trans <|
    (keep39 m ρ c main_arg1 (by decide)).trans <|
    (keep38 m ρ c main_arg1 (by decide)).trans <|
    (keep37 m ρ c main_arg1 (by decide)).trans <|
    (keep36 m ρ c main_arg1 (by decide)).trans <|
    (keep35 m ρ c main_arg1 (by decide)).trans <|
    (keep34 m ρ c main_arg1 (by decide)).trans <|
    (keep33 m ρ c main_arg1 (by decide)).trans <|
    (keep32 m ρ c main_arg1 (by decide)).trans <|
    (keep31 m ρ c main_arg1 (by decide)).trans <|
    (keep30 m ρ c main_arg1 (by decide)).trans <|
    (keep29 m ρ c main_arg1 (by decide)).trans <|
    (keep28 m ρ c main_arg1 (by decide)).trans <|
    (keep27 m ρ c main_arg1 (by decide)).trans <|
    (keep26 m ρ c main_arg1 (by decide)).trans <|
    (keep25 m ρ c main_arg1 (by decide)).trans <|
    (keep24 m ρ c main_arg1 (by decide)).trans <|
    (keep23 m ρ c main_arg1 (by decide)).trans <|
    (keep22 m ρ c main_arg1 (by decide)).trans <|
    (keep21 m ρ c main_arg1 (by decide)).trans <|
    (keep20 m ρ c main_arg1 (by decide)).trans <|
    (keep19 m ρ c main_arg1 (by decide)).trans <|
    (keep18 m ρ c main_arg1 (by decide)).trans <|
    (keep17 m ρ c main_arg1 (by decide)).trans <|
    (keep16 m ρ c main_arg1 (by decide)).trans <|
    (keep15 m ρ c main_arg1 (by decide)).trans <|
    (keep14 m ρ c main_arg1 (by decide)).trans <|
    (keep13 m ρ c main_arg1 (by decide)).trans <|
    (keep12 m ρ c main_arg1 (by decide)).trans <|
    (keep11 m ρ c main_arg1 (by decide)).trans <|
    (keep10 m ρ c main_arg1 (by decide)).trans <|
    (keep9 m ρ c main_arg1 (by decide)).trans <|
    (keep8 m ρ c main_arg1 (by decide)).trans <|
    (keep7 m ρ c main_arg1 (by decide)).trans <|
    (keep6 m ρ c main_arg1 (by decide)).trans <|
    (keep5 m ρ c main_arg1 (by decide)).trans <|
    (keep4 m ρ c main_arg1 (by decide)).trans <|
    (keep3 m ρ c main_arg1 (by decide)).trans <|
    (keep2 m ρ c main_arg1 (by decide)).trans <|
    (keep1 m ρ c main_arg1 (by decide)).trans <|
    (keep0 m ρ c main_arg1 (by decide)).trans rfl
theorem kept_arg2 (c : Dev nD) : W55 m ρ c (Proc.devRef .tc main_arg2) = m ((c : Thread nD τ).loc main_arg2) :=
  (keep54 m ρ c main_arg2 (by decide)).trans <|
    (keep53 m ρ c main_arg2 (by decide)).trans <|
    (keep52 m ρ c main_arg2 (by decide)).trans <|
    (keep51 m ρ c main_arg2 (by decide)).trans <|
    (keep50 m ρ c main_arg2 (by decide)).trans <|
    (keep49 m ρ c main_arg2 (by decide)).trans <|
    (keep48 m ρ c main_arg2 (by decide)).trans <|
    (keep47 m ρ c main_arg2 (by decide)).trans <|
    (keep46 m ρ c main_arg2 (by decide)).trans <|
    (keep45 m ρ c main_arg2 (by decide)).trans <|
    (keep44 m ρ c main_arg2 (by decide)).trans <|
    (keep43 m ρ c main_arg2 (by decide)).trans <|
    (keep42 m ρ c main_arg2 (by decide)).trans <|
    (keep41 m ρ c main_arg2 (by decide)).trans <|
    (keep40 m ρ c main_arg2 (by decide)).trans <|
    (keep39 m ρ c main_arg2 (by decide)).trans <|
    (keep38 m ρ c main_arg2 (by decide)).trans <|
    (keep37 m ρ c main_arg2 (by decide)).trans <|
    (keep36 m ρ c main_arg2 (by decide)).trans <|
    (keep35 m ρ c main_arg2 (by decide)).trans <|
    (keep34 m ρ c main_arg2 (by decide)).trans <|
    (keep33 m ρ c main_arg2 (by decide)).trans <|
    (keep32 m ρ c main_arg2 (by decide)).trans <|
    (keep31 m ρ c main_arg2 (by decide)).trans <|
    (keep30 m ρ c main_arg2 (by decide)).trans <|
    (keep29 m ρ c main_arg2 (by decide)).trans <|
    (keep28 m ρ c main_arg2 (by decide)).trans <|
    (keep27 m ρ c main_arg2 (by decide)).trans <|
    (keep26 m ρ c main_arg2 (by decide)).trans <|
    (keep25 m ρ c main_arg2 (by decide)).trans <|
    (keep24 m ρ c main_arg2 (by decide)).trans <|
    (keep23 m ρ c main_arg2 (by decide)).trans <|
    (keep22 m ρ c main_arg2 (by decide)).trans <|
    (keep21 m ρ c main_arg2 (by decide)).trans <|
    (keep20 m ρ c main_arg2 (by decide)).trans <|
    (keep19 m ρ c main_arg2 (by decide)).trans <|
    (keep18 m ρ c main_arg2 (by decide)).trans <|
    (keep17 m ρ c main_arg2 (by decide)).trans <|
    (keep16 m ρ c main_arg2 (by decide)).trans <|
    (keep15 m ρ c main_arg2 (by decide)).trans <|
    (keep14 m ρ c main_arg2 (by decide)).trans <|
    (keep13 m ρ c main_arg2 (by decide)).trans <|
    (keep12 m ρ c main_arg2 (by decide)).trans <|
    (keep11 m ρ c main_arg2 (by decide)).trans <|
    (keep10 m ρ c main_arg2 (by decide)).trans <|
    (keep9 m ρ c main_arg2 (by decide)).trans <|
    (keep8 m ρ c main_arg2 (by decide)).trans <|
    (keep7 m ρ c main_arg2 (by decide)).trans <|
    (keep6 m ρ c main_arg2 (by decide)).trans <|
    (keep5 m ρ c main_arg2 (by decide)).trans <|
    (keep4 m ρ c main_arg2 (by decide)).trans <|
    (keep3 m ρ c main_arg2 (by decide)).trans <|
    (keep2 m ρ c main_arg2 (by decide)).trans <|
    (keep1 m ρ c main_arg2 (by decide)).trans <|
    (keep0 m ρ c main_arg2 (by decide)).trans rfl
theorem kept_arg3 (c : Dev nD) : W55 m ρ c (Proc.devRef .tc main_arg3) = m ((c : Thread nD τ).loc main_arg3) :=
  (keep54 m ρ c main_arg3 (by decide)).trans <|
    (keep53 m ρ c main_arg3 (by decide)).trans <|
    (keep52 m ρ c main_arg3 (by decide)).trans <|
    (keep51 m ρ c main_arg3 (by decide)).trans <|
    (keep50 m ρ c main_arg3 (by decide)).trans <|
    (keep49 m ρ c main_arg3 (by decide)).trans <|
    (keep48 m ρ c main_arg3 (by decide)).trans <|
    (keep47 m ρ c main_arg3 (by decide)).trans <|
    (keep46 m ρ c main_arg3 (by decide)).trans <|
    (keep45 m ρ c main_arg3 (by decide)).trans <|
    (keep44 m ρ c main_arg3 (by decide)).trans <|
    (keep43 m ρ c main_arg3 (by decide)).trans <|
    (keep42 m ρ c main_arg3 (by decide)).trans <|
    (keep41 m ρ c main_arg3 (by decide)).trans <|
    (keep40 m ρ c main_arg3 (by decide)).trans <|
    (keep39 m ρ c main_arg3 (by decide)).trans <|
    (keep38 m ρ c main_arg3 (by decide)).trans <|
    (keep37 m ρ c main_arg3 (by decide)).trans <|
    (keep36 m ρ c main_arg3 (by decide)).trans <|
    (keep35 m ρ c main_arg3 (by decide)).trans <|
    (keep34 m ρ c main_arg3 (by decide)).trans <|
    (keep33 m ρ c main_arg3 (by decide)).trans <|
    (keep32 m ρ c main_arg3 (by decide)).trans <|
    (keep31 m ρ c main_arg3 (by decide)).trans <|
    (keep30 m ρ c main_arg3 (by decide)).trans <|
    (keep29 m ρ c main_arg3 (by decide)).trans <|
    (keep28 m ρ c main_arg3 (by decide)).trans <|
    (keep27 m ρ c main_arg3 (by decide)).trans <|
    (keep26 m ρ c main_arg3 (by decide)).trans <|
    (keep25 m ρ c main_arg3 (by decide)).trans <|
    (keep24 m ρ c main_arg3 (by decide)).trans <|
    (keep23 m ρ c main_arg3 (by decide)).trans <|
    (keep22 m ρ c main_arg3 (by decide)).trans <|
    (keep21 m ρ c main_arg3 (by decide)).trans <|
    (keep20 m ρ c main_arg3 (by decide)).trans <|
    (keep19 m ρ c main_arg3 (by decide)).trans <|
    (keep18 m ρ c main_arg3 (by decide)).trans <|
    (keep17 m ρ c main_arg3 (by decide)).trans <|
    (keep16 m ρ c main_arg3 (by decide)).trans <|
    (keep15 m ρ c main_arg3 (by decide)).trans <|
    (keep14 m ρ c main_arg3 (by decide)).trans <|
    (keep13 m ρ c main_arg3 (by decide)).trans <|
    (keep12 m ρ c main_arg3 (by decide)).trans <|
    (keep11 m ρ c main_arg3 (by decide)).trans <|
    (keep10 m ρ c main_arg3 (by decide)).trans <|
    (keep9 m ρ c main_arg3 (by decide)).trans <|
    (keep8 m ρ c main_arg3 (by decide)).trans <|
    (keep7 m ρ c main_arg3 (by decide)).trans <|
    (keep6 m ρ c main_arg3 (by decide)).trans <|
    (keep5 m ρ c main_arg3 (by decide)).trans <|
    (keep4 m ρ c main_arg3 (by decide)).trans <|
    (keep3 m ρ c main_arg3 (by decide)).trans <|
    (keep2 m ρ c main_arg3 (by decide)).trans <|
    (keep1 m ρ c main_arg3 (by decide)).trans <|
    (keep0 m ρ c main_arg3 (by decide)).trans rfl
theorem kept_arg4 (c : Dev nD) : W55 m ρ c (Proc.devRef .tc main_arg4) = m ((c : Thread nD τ).loc main_arg4) :=
  (keep54 m ρ c main_arg4 (by decide)).trans <|
    (keep53 m ρ c main_arg4 (by decide)).trans <|
    (keep52 m ρ c main_arg4 (by decide)).trans <|
    (keep51 m ρ c main_arg4 (by decide)).trans <|
    (keep50 m ρ c main_arg4 (by decide)).trans <|
    (keep49 m ρ c main_arg4 (by decide)).trans <|
    (keep48 m ρ c main_arg4 (by decide)).trans <|
    (keep47 m ρ c main_arg4 (by decide)).trans <|
    (keep46 m ρ c main_arg4 (by decide)).trans <|
    (keep45 m ρ c main_arg4 (by decide)).trans <|
    (keep44 m ρ c main_arg4 (by decide)).trans <|
    (keep43 m ρ c main_arg4 (by decide)).trans <|
    (keep42 m ρ c main_arg4 (by decide)).trans <|
    (keep41 m ρ c main_arg4 (by decide)).trans <|
    (keep40 m ρ c main_arg4 (by decide)).trans <|
    (keep39 m ρ c main_arg4 (by decide)).trans <|
    (keep38 m ρ c main_arg4 (by decide)).trans <|
    (keep37 m ρ c main_arg4 (by decide)).trans <|
    (keep36 m ρ c main_arg4 (by decide)).trans <|
    (keep35 m ρ c main_arg4 (by decide)).trans <|
    (keep34 m ρ c main_arg4 (by decide)).trans <|
    (keep33 m ρ c main_arg4 (by decide)).trans <|
    (keep32 m ρ c main_arg4 (by decide)).trans <|
    (keep31 m ρ c main_arg4 (by decide)).trans <|
    (keep30 m ρ c main_arg4 (by decide)).trans <|
    (keep29 m ρ c main_arg4 (by decide)).trans <|
    (keep28 m ρ c main_arg4 (by decide)).trans <|
    (keep27 m ρ c main_arg4 (by decide)).trans <|
    (keep26 m ρ c main_arg4 (by decide)).trans <|
    (keep25 m ρ c main_arg4 (by decide)).trans <|
    (keep24 m ρ c main_arg4 (by decide)).trans <|
    (keep23 m ρ c main_arg4 (by decide)).trans <|
    (keep22 m ρ c main_arg4 (by decide)).trans <|
    (keep21 m ρ c main_arg4 (by decide)).trans <|
    (keep20 m ρ c main_arg4 (by decide)).trans <|
    (keep19 m ρ c main_arg4 (by decide)).trans <|
    (keep18 m ρ c main_arg4 (by decide)).trans <|
    (keep17 m ρ c main_arg4 (by decide)).trans <|
    (keep16 m ρ c main_arg4 (by decide)).trans <|
    (keep15 m ρ c main_arg4 (by decide)).trans <|
    (keep14 m ρ c main_arg4 (by decide)).trans <|
    (keep13 m ρ c main_arg4 (by decide)).trans <|
    (keep12 m ρ c main_arg4 (by decide)).trans <|
    (keep11 m ρ c main_arg4 (by decide)).trans <|
    (keep10 m ρ c main_arg4 (by decide)).trans <|
    (keep9 m ρ c main_arg4 (by decide)).trans <|
    (keep8 m ρ c main_arg4 (by decide)).trans <|
    (keep7 m ρ c main_arg4 (by decide)).trans <|
    (keep6 m ρ c main_arg4 (by decide)).trans <|
    (keep5 m ρ c main_arg4 (by decide)).trans <|
    (keep4 m ρ c main_arg4 (by decide)).trans <|
    (keep3 m ρ c main_arg4 (by decide)).trans <|
    (keep2 m ρ c main_arg4 (by decide)).trans <|
    (keep1 m ρ c main_arg4 (by decide)).trans <|
    (keep0 m ρ c main_arg4 (by decide)).trans rfl
theorem kept_arg5 (c : Dev nD) : W55 m ρ c (Proc.devRef .tc main_arg5) = m ((c : Thread nD τ).loc main_arg5) :=
  (keep54 m ρ c main_arg5 (by decide)).trans <|
    (keep53 m ρ c main_arg5 (by decide)).trans <|
    (keep52 m ρ c main_arg5 (by decide)).trans <|
    (keep51 m ρ c main_arg5 (by decide)).trans <|
    (keep50 m ρ c main_arg5 (by decide)).trans <|
    (keep49 m ρ c main_arg5 (by decide)).trans <|
    (keep48 m ρ c main_arg5 (by decide)).trans <|
    (keep47 m ρ c main_arg5 (by decide)).trans <|
    (keep46 m ρ c main_arg5 (by decide)).trans <|
    (keep45 m ρ c main_arg5 (by decide)).trans <|
    (keep44 m ρ c main_arg5 (by decide)).trans <|
    (keep43 m ρ c main_arg5 (by decide)).trans <|
    (keep42 m ρ c main_arg5 (by decide)).trans <|
    (keep41 m ρ c main_arg5 (by decide)).trans <|
    (keep40 m ρ c main_arg5 (by decide)).trans <|
    (keep39 m ρ c main_arg5 (by decide)).trans <|
    (keep38 m ρ c main_arg5 (by decide)).trans <|
    (keep37 m ρ c main_arg5 (by decide)).trans <|
    (keep36 m ρ c main_arg5 (by decide)).trans <|
    (keep35 m ρ c main_arg5 (by decide)).trans <|
    (keep34 m ρ c main_arg5 (by decide)).trans <|
    (keep33 m ρ c main_arg5 (by decide)).trans <|
    (keep32 m ρ c main_arg5 (by decide)).trans <|
    (keep31 m ρ c main_arg5 (by decide)).trans <|
    (keep30 m ρ c main_arg5 (by decide)).trans <|
    (keep29 m ρ c main_arg5 (by decide)).trans <|
    (keep28 m ρ c main_arg5 (by decide)).trans <|
    (keep27 m ρ c main_arg5 (by decide)).trans <|
    (keep26 m ρ c main_arg5 (by decide)).trans <|
    (keep25 m ρ c main_arg5 (by decide)).trans <|
    (keep24 m ρ c main_arg5 (by decide)).trans <|
    (keep23 m ρ c main_arg5 (by decide)).trans <|
    (keep22 m ρ c main_arg5 (by decide)).trans <|
    (keep21 m ρ c main_arg5 (by decide)).trans <|
    (keep20 m ρ c main_arg5 (by decide)).trans <|
    (keep19 m ρ c main_arg5 (by decide)).trans <|
    (keep18 m ρ c main_arg5 (by decide)).trans <|
    (keep17 m ρ c main_arg5 (by decide)).trans <|
    (keep16 m ρ c main_arg5 (by decide)).trans <|
    (keep15 m ρ c main_arg5 (by decide)).trans <|
    (keep14 m ρ c main_arg5 (by decide)).trans <|
    (keep13 m ρ c main_arg5 (by decide)).trans <|
    (keep12 m ρ c main_arg5 (by decide)).trans <|
    (keep11 m ρ c main_arg5 (by decide)).trans <|
    (keep10 m ρ c main_arg5 (by decide)).trans <|
    (keep9 m ρ c main_arg5 (by decide)).trans <|
    (keep8 m ρ c main_arg5 (by decide)).trans <|
    (keep7 m ρ c main_arg5 (by decide)).trans <|
    (keep6 m ρ c main_arg5 (by decide)).trans <|
    (keep5 m ρ c main_arg5 (by decide)).trans <|
    (keep4 m ρ c main_arg5 (by decide)).trans <|
    (keep3 m ρ c main_arg5 (by decide)).trans <|
    (keep2 m ρ c main_arg5 (by decide)).trans <|
    (keep1 m ρ c main_arg5 (by decide)).trans <|
    (keep0 m ρ c main_arg5 (by decide)).trans rfl
theorem kept_arg6 (c : Dev nD) : W55 m ρ c (Proc.devRef .tc main_arg6) = m ((c : Thread nD τ).loc main_arg6) :=
  (keep54 m ρ c main_arg6 (by decide)).trans <|
    (keep53 m ρ c main_arg6 (by decide)).trans <|
    (keep52 m ρ c main_arg6 (by decide)).trans <|
    (keep51 m ρ c main_arg6 (by decide)).trans <|
    (keep50 m ρ c main_arg6 (by decide)).trans <|
    (keep49 m ρ c main_arg6 (by decide)).trans <|
    (keep48 m ρ c main_arg6 (by decide)).trans <|
    (keep47 m ρ c main_arg6 (by decide)).trans <|
    (keep46 m ρ c main_arg6 (by decide)).trans <|
    (keep45 m ρ c main_arg6 (by decide)).trans <|
    (keep44 m ρ c main_arg6 (by decide)).trans <|
    (keep43 m ρ c main_arg6 (by decide)).trans <|
    (keep42 m ρ c main_arg6 (by decide)).trans <|
    (keep41 m ρ c main_arg6 (by decide)).trans <|
    (keep40 m ρ c main_arg6 (by decide)).trans <|
    (keep39 m ρ c main_arg6 (by decide)).trans <|
    (keep38 m ρ c main_arg6 (by decide)).trans <|
    (keep37 m ρ c main_arg6 (by decide)).trans <|
    (keep36 m ρ c main_arg6 (by decide)).trans <|
    (keep35 m ρ c main_arg6 (by decide)).trans <|
    (keep34 m ρ c main_arg6 (by decide)).trans <|
    (keep33 m ρ c main_arg6 (by decide)).trans <|
    (keep32 m ρ c main_arg6 (by decide)).trans <|
    (keep31 m ρ c main_arg6 (by decide)).trans <|
    (keep30 m ρ c main_arg6 (by decide)).trans <|
    (keep29 m ρ c main_arg6 (by decide)).trans <|
    (keep28 m ρ c main_arg6 (by decide)).trans <|
    (keep27 m ρ c main_arg6 (by decide)).trans <|
    (keep26 m ρ c main_arg6 (by decide)).trans <|
    (keep25 m ρ c main_arg6 (by decide)).trans <|
    (keep24 m ρ c main_arg6 (by decide)).trans <|
    (keep23 m ρ c main_arg6 (by decide)).trans <|
    (keep22 m ρ c main_arg6 (by decide)).trans <|
    (keep21 m ρ c main_arg6 (by decide)).trans <|
    (keep20 m ρ c main_arg6 (by decide)).trans <|
    (keep19 m ρ c main_arg6 (by decide)).trans <|
    (keep18 m ρ c main_arg6 (by decide)).trans <|
    (keep17 m ρ c main_arg6 (by decide)).trans <|
    (keep16 m ρ c main_arg6 (by decide)).trans <|
    (keep15 m ρ c main_arg6 (by decide)).trans <|
    (keep14 m ρ c main_arg6 (by decide)).trans <|
    (keep13 m ρ c main_arg6 (by decide)).trans <|
    (keep12 m ρ c main_arg6 (by decide)).trans <|
    (keep11 m ρ c main_arg6 (by decide)).trans <|
    (keep10 m ρ c main_arg6 (by decide)).trans <|
    (keep9 m ρ c main_arg6 (by decide)).trans <|
    (keep8 m ρ c main_arg6 (by decide)).trans <|
    (keep7 m ρ c main_arg6 (by decide)).trans <|
    (keep6 m ρ c main_arg6 (by decide)).trans <|
    (keep5 m ρ c main_arg6 (by decide)).trans <|
    (keep4 m ρ c main_arg6 (by decide)).trans <|
    (keep3 m ρ c main_arg6 (by decide)).trans <|
    (keep2 m ρ c main_arg6 (by decide)).trans <|
    (keep1 m ρ c main_arg6 (by decide)).trans <|
    (keep0 m ρ c main_arg6 (by decide)).trans rfl
theorem kept_arg7 (c : Dev nD) : W55 m ρ c (Proc.devRef .tc main_arg7) = m ((c : Thread nD τ).loc main_arg7) :=
  (keep54 m ρ c main_arg7 (by decide)).trans <|
    (keep53 m ρ c main_arg7 (by decide)).trans <|
    (keep52 m ρ c main_arg7 (by decide)).trans <|
    (keep51 m ρ c main_arg7 (by decide)).trans <|
    (keep50 m ρ c main_arg7 (by decide)).trans <|
    (keep49 m ρ c main_arg7 (by decide)).trans <|
    (keep48 m ρ c main_arg7 (by decide)).trans <|
    (keep47 m ρ c main_arg7 (by decide)).trans <|
    (keep46 m ρ c main_arg7 (by decide)).trans <|
    (keep45 m ρ c main_arg7 (by decide)).trans <|
    (keep44 m ρ c main_arg7 (by decide)).trans <|
    (keep43 m ρ c main_arg7 (by decide)).trans <|
    (keep42 m ρ c main_arg7 (by decide)).trans <|
    (keep41 m ρ c main_arg7 (by decide)).trans <|
    (keep40 m ρ c main_arg7 (by decide)).trans <|
    (keep39 m ρ c main_arg7 (by decide)).trans <|
    (keep38 m ρ c main_arg7 (by decide)).trans <|
    (keep37 m ρ c main_arg7 (by decide)).trans <|
    (keep36 m ρ c main_arg7 (by decide)).trans <|
    (keep35 m ρ c main_arg7 (by decide)).trans <|
    (keep34 m ρ c main_arg7 (by decide)).trans <|
    (keep33 m ρ c main_arg7 (by decide)).trans <|
    (keep32 m ρ c main_arg7 (by decide)).trans <|
    (keep31 m ρ c main_arg7 (by decide)).trans <|
    (keep30 m ρ c main_arg7 (by decide)).trans <|
    (keep29 m ρ c main_arg7 (by decide)).trans <|
    (keep28 m ρ c main_arg7 (by decide)).trans <|
    (keep27 m ρ c main_arg7 (by decide)).trans <|
    (keep26 m ρ c main_arg7 (by decide)).trans <|
    (keep25 m ρ c main_arg7 (by decide)).trans <|
    (keep24 m ρ c main_arg7 (by decide)).trans <|
    (keep23 m ρ c main_arg7 (by decide)).trans <|
    (keep22 m ρ c main_arg7 (by decide)).trans <|
    (keep21 m ρ c main_arg7 (by decide)).trans <|
    (keep20 m ρ c main_arg7 (by decide)).trans <|
    (keep19 m ρ c main_arg7 (by decide)).trans <|
    (keep18 m ρ c main_arg7 (by decide)).trans <|
    (keep17 m ρ c main_arg7 (by decide)).trans <|
    (keep16 m ρ c main_arg7 (by decide)).trans <|
    (keep15 m ρ c main_arg7 (by decide)).trans <|
    (keep14 m ρ c main_arg7 (by decide)).trans <|
    (keep13 m ρ c main_arg7 (by decide)).trans <|
    (keep12 m ρ c main_arg7 (by decide)).trans <|
    (keep11 m ρ c main_arg7 (by decide)).trans <|
    (keep10 m ρ c main_arg7 (by decide)).trans <|
    (keep9 m ρ c main_arg7 (by decide)).trans <|
    (keep8 m ρ c main_arg7 (by decide)).trans <|
    (keep7 m ρ c main_arg7 (by decide)).trans <|
    (keep6 m ρ c main_arg7 (by decide)).trans <|
    (keep5 m ρ c main_arg7 (by decide)).trans <|
    (keep4 m ρ c main_arg7 (by decide)).trans <|
    (keep3 m ρ c main_arg7 (by decide)).trans <|
    (keep2 m ρ c main_arg7 (by decide)).trans <|
    (keep1 m ρ c main_arg7 (by decide)).trans <|
    (keep0 m ρ c main_arg7 (by decide)).trans rfl
theorem kept_arg8 (c : Dev nD) : W55 m ρ c (Proc.devRef .tc main_arg8) = m ((c : Thread nD τ).loc main_arg8) :=
  (keep54 m ρ c main_arg8 (by decide)).trans <|
    (keep53 m ρ c main_arg8 (by decide)).trans <|
    (keep52 m ρ c main_arg8 (by decide)).trans <|
    (keep51 m ρ c main_arg8 (by decide)).trans <|
    (keep50 m ρ c main_arg8 (by decide)).trans <|
    (keep49 m ρ c main_arg8 (by decide)).trans <|
    (keep48 m ρ c main_arg8 (by decide)).trans <|
    (keep47 m ρ c main_arg8 (by decide)).trans <|
    (keep46 m ρ c main_arg8 (by decide)).trans <|
    (keep45 m ρ c main_arg8 (by decide)).trans <|
    (keep44 m ρ c main_arg8 (by decide)).trans <|
    (keep43 m ρ c main_arg8 (by decide)).trans <|
    (keep42 m ρ c main_arg8 (by decide)).trans <|
    (keep41 m ρ c main_arg8 (by decide)).trans <|
    (keep40 m ρ c main_arg8 (by decide)).trans <|
    (keep39 m ρ c main_arg8 (by decide)).trans <|
    (keep38 m ρ c main_arg8 (by decide)).trans <|
    (keep37 m ρ c main_arg8 (by decide)).trans <|
    (keep36 m ρ c main_arg8 (by decide)).trans <|
    (keep35 m ρ c main_arg8 (by decide)).trans <|
    (keep34 m ρ c main_arg8 (by decide)).trans <|
    (keep33 m ρ c main_arg8 (by decide)).trans <|
    (keep32 m ρ c main_arg8 (by decide)).trans <|
    (keep31 m ρ c main_arg8 (by decide)).trans <|
    (keep30 m ρ c main_arg8 (by decide)).trans <|
    (keep29 m ρ c main_arg8 (by decide)).trans <|
    (keep28 m ρ c main_arg8 (by decide)).trans <|
    (keep27 m ρ c main_arg8 (by decide)).trans <|
    (keep26 m ρ c main_arg8 (by decide)).trans <|
    (keep25 m ρ c main_arg8 (by decide)).trans <|
    (keep24 m ρ c main_arg8 (by decide)).trans <|
    (keep23 m ρ c main_arg8 (by decide)).trans <|
    (keep22 m ρ c main_arg8 (by decide)).trans <|
    (keep21 m ρ c main_arg8 (by decide)).trans <|
    (keep20 m ρ c main_arg8 (by decide)).trans <|
    (keep19 m ρ c main_arg8 (by decide)).trans <|
    (keep18 m ρ c main_arg8 (by decide)).trans <|
    (keep17 m ρ c main_arg8 (by decide)).trans <|
    (keep16 m ρ c main_arg8 (by decide)).trans <|
    (keep15 m ρ c main_arg8 (by decide)).trans <|
    (keep14 m ρ c main_arg8 (by decide)).trans <|
    (keep13 m ρ c main_arg8 (by decide)).trans <|
    (keep12 m ρ c main_arg8 (by decide)).trans <|
    (keep11 m ρ c main_arg8 (by decide)).trans <|
    (keep10 m ρ c main_arg8 (by decide)).trans <|
    (keep9 m ρ c main_arg8 (by decide)).trans <|
    (keep8 m ρ c main_arg8 (by decide)).trans <|
    (keep7 m ρ c main_arg8 (by decide)).trans <|
    (keep6 m ρ c main_arg8 (by decide)).trans <|
    (keep5 m ρ c main_arg8 (by decide)).trans <|
    (keep4 m ρ c main_arg8 (by decide)).trans <|
    (keep3 m ρ c main_arg8 (by decide)).trans <|
    (keep2 m ρ c main_arg8 (by decide)).trans <|
    (keep1 m ρ c main_arg8 (by decide)).trans <|
    (keep0 m ρ c main_arg8 (by decide)).trans rfl
theorem kept_arg9 (c : Dev nD) : W55 m ρ c (Proc.devRef .tc main_arg9) = m ((c : Thread nD τ).loc main_arg9) :=
  (keep54 m ρ c main_arg9 (by decide)).trans <|
    (keep53 m ρ c main_arg9 (by decide)).trans <|
    (keep52 m ρ c main_arg9 (by decide)).trans <|
    (keep51 m ρ c main_arg9 (by decide)).trans <|
    (keep50 m ρ c main_arg9 (by decide)).trans <|
    (keep49 m ρ c main_arg9 (by decide)).trans <|
    (keep48 m ρ c main_arg9 (by decide)).trans <|
    (keep47 m ρ c main_arg9 (by decide)).trans <|
    (keep46 m ρ c main_arg9 (by decide)).trans <|
    (keep45 m ρ c main_arg9 (by decide)).trans <|
    (keep44 m ρ c main_arg9 (by decide)).trans <|
    (keep43 m ρ c main_arg9 (by decide)).trans <|
    (keep42 m ρ c main_arg9 (by decide)).trans <|
    (keep41 m ρ c main_arg9 (by decide)).trans <|
    (keep40 m ρ c main_arg9 (by decide)).trans <|
    (keep39 m ρ c main_arg9 (by decide)).trans <|
    (keep38 m ρ c main_arg9 (by decide)).trans <|
    (keep37 m ρ c main_arg9 (by decide)).trans <|
    (keep36 m ρ c main_arg9 (by decide)).trans <|
    (keep35 m ρ c main_arg9 (by decide)).trans <|
    (keep34 m ρ c main_arg9 (by decide)).trans <|
    (keep33 m ρ c main_arg9 (by decide)).trans <|
    (keep32 m ρ c main_arg9 (by decide)).trans <|
    (keep31 m ρ c main_arg9 (by decide)).trans <|
    (keep30 m ρ c main_arg9 (by decide)).trans <|
    (keep29 m ρ c main_arg9 (by decide)).trans <|
    (keep28 m ρ c main_arg9 (by decide)).trans <|
    (keep27 m ρ c main_arg9 (by decide)).trans <|
    (keep26 m ρ c main_arg9 (by decide)).trans <|
    (keep25 m ρ c main_arg9 (by decide)).trans <|
    (keep24 m ρ c main_arg9 (by decide)).trans <|
    (keep23 m ρ c main_arg9 (by decide)).trans <|
    (keep22 m ρ c main_arg9 (by decide)).trans <|
    (keep21 m ρ c main_arg9 (by decide)).trans <|
    (keep20 m ρ c main_arg9 (by decide)).trans <|
    (keep19 m ρ c main_arg9 (by decide)).trans <|
    (keep18 m ρ c main_arg9 (by decide)).trans <|
    (keep17 m ρ c main_arg9 (by decide)).trans <|
    (keep16 m ρ c main_arg9 (by decide)).trans <|
    (keep15 m ρ c main_arg9 (by decide)).trans <|
    (keep14 m ρ c main_arg9 (by decide)).trans <|
    (keep13 m ρ c main_arg9 (by decide)).trans <|
    (keep12 m ρ c main_arg9 (by decide)).trans <|
    (keep11 m ρ c main_arg9 (by decide)).trans <|
    (keep10 m ρ c main_arg9 (by decide)).trans <|
    (keep9 m ρ c main_arg9 (by decide)).trans <|
    (keep8 m ρ c main_arg9 (by decide)).trans <|
    (keep7 m ρ c main_arg9 (by decide)).trans <|
    (keep6 m ρ c main_arg9 (by decide)).trans <|
    (keep5 m ρ c main_arg9 (by decide)).trans <|
    (keep4 m ρ c main_arg9 (by decide)).trans <|
    (keep3 m ρ c main_arg9 (by decide)).trans <|
    (keep2 m ρ c main_arg9 (by decide)).trans <|
    (keep1 m ρ c main_arg9 (by decide)).trans <|
    (keep0 m ρ c main_arg9 (by decide)).trans rfl
theorem kept_arg10 (c : Dev nD) : W55 m ρ c (Proc.devRef .tc main_arg10) = m ((c : Thread nD τ).loc main_arg10) :=
  (keep54 m ρ c main_arg10 (by decide)).trans <|
    (keep53 m ρ c main_arg10 (by decide)).trans <|
    (keep52 m ρ c main_arg10 (by decide)).trans <|
    (keep51 m ρ c main_arg10 (by decide)).trans <|
    (keep50 m ρ c main_arg10 (by decide)).trans <|
    (keep49 m ρ c main_arg10 (by decide)).trans <|
    (keep48 m ρ c main_arg10 (by decide)).trans <|
    (keep47 m ρ c main_arg10 (by decide)).trans <|
    (keep46 m ρ c main_arg10 (by decide)).trans <|
    (keep45 m ρ c main_arg10 (by decide)).trans <|
    (keep44 m ρ c main_arg10 (by decide)).trans <|
    (keep43 m ρ c main_arg10 (by decide)).trans <|
    (keep42 m ρ c main_arg10 (by decide)).trans <|
    (keep41 m ρ c main_arg10 (by decide)).trans <|
    (keep40 m ρ c main_arg10 (by decide)).trans <|
    (keep39 m ρ c main_arg10 (by decide)).trans <|
    (keep38 m ρ c main_arg10 (by decide)).trans <|
    (keep37 m ρ c main_arg10 (by decide)).trans <|
    (keep36 m ρ c main_arg10 (by decide)).trans <|
    (keep35 m ρ c main_arg10 (by decide)).trans <|
    (keep34 m ρ c main_arg10 (by decide)).trans <|
    (keep33 m ρ c main_arg10 (by decide)).trans <|
    (keep32 m ρ c main_arg10 (by decide)).trans <|
    (keep31 m ρ c main_arg10 (by decide)).trans <|
    (keep30 m ρ c main_arg10 (by decide)).trans <|
    (keep29 m ρ c main_arg10 (by decide)).trans <|
    (keep28 m ρ c main_arg10 (by decide)).trans <|
    (keep27 m ρ c main_arg10 (by decide)).trans <|
    (keep26 m ρ c main_arg10 (by decide)).trans <|
    (keep25 m ρ c main_arg10 (by decide)).trans <|
    (keep24 m ρ c main_arg10 (by decide)).trans <|
    (keep23 m ρ c main_arg10 (by decide)).trans <|
    (keep22 m ρ c main_arg10 (by decide)).trans <|
    (keep21 m ρ c main_arg10 (by decide)).trans <|
    (keep20 m ρ c main_arg10 (by decide)).trans <|
    (keep19 m ρ c main_arg10 (by decide)).trans <|
    (keep18 m ρ c main_arg10 (by decide)).trans <|
    (keep17 m ρ c main_arg10 (by decide)).trans <|
    (keep16 m ρ c main_arg10 (by decide)).trans <|
    (keep15 m ρ c main_arg10 (by decide)).trans <|
    (keep14 m ρ c main_arg10 (by decide)).trans <|
    (keep13 m ρ c main_arg10 (by decide)).trans <|
    (keep12 m ρ c main_arg10 (by decide)).trans <|
    (keep11 m ρ c main_arg10 (by decide)).trans <|
    (keep10 m ρ c main_arg10 (by decide)).trans <|
    (keep9 m ρ c main_arg10 (by decide)).trans <|
    (keep8 m ρ c main_arg10 (by decide)).trans <|
    (keep7 m ρ c main_arg10 (by decide)).trans <|
    (keep6 m ρ c main_arg10 (by decide)).trans <|
    (keep5 m ρ c main_arg10 (by decide)).trans <|
    (keep4 m ρ c main_arg10 (by decide)).trans <|
    (keep3 m ρ c main_arg10 (by decide)).trans <|
    (keep2 m ρ c main_arg10 (by decide)).trans <|
    (keep1 m ρ c main_arg10 (by decide)).trans <|
    (keep0 m ρ c main_arg10 (by decide)).trans rfl
theorem kept_arg11 (c : Dev nD) : W55 m ρ c (Proc.devRef .tc main_arg11) = m ((c : Thread nD τ).loc main_arg11) :=
  (keep54 m ρ c main_arg11 (by decide)).trans <|
    (keep53 m ρ c main_arg11 (by decide)).trans <|
    (keep52 m ρ c main_arg11 (by decide)).trans <|
    (keep51 m ρ c main_arg11 (by decide)).trans <|
    (keep50 m ρ c main_arg11 (by decide)).trans <|
    (keep49 m ρ c main_arg11 (by decide)).trans <|
    (keep48 m ρ c main_arg11 (by decide)).trans <|
    (keep47 m ρ c main_arg11 (by decide)).trans <|
    (keep46 m ρ c main_arg11 (by decide)).trans <|
    (keep45 m ρ c main_arg11 (by decide)).trans <|
    (keep44 m ρ c main_arg11 (by decide)).trans <|
    (keep43 m ρ c main_arg11 (by decide)).trans <|
    (keep42 m ρ c main_arg11 (by decide)).trans <|
    (keep41 m ρ c main_arg11 (by decide)).trans <|
    (keep40 m ρ c main_arg11 (by decide)).trans <|
    (keep39 m ρ c main_arg11 (by decide)).trans <|
    (keep38 m ρ c main_arg11 (by decide)).trans <|
    (keep37 m ρ c main_arg11 (by decide)).trans <|
    (keep36 m ρ c main_arg11 (by decide)).trans <|
    (keep35 m ρ c main_arg11 (by decide)).trans <|
    (keep34 m ρ c main_arg11 (by decide)).trans <|
    (keep33 m ρ c main_arg11 (by decide)).trans <|
    (keep32 m ρ c main_arg11 (by decide)).trans <|
    (keep31 m ρ c main_arg11 (by decide)).trans <|
    (keep30 m ρ c main_arg11 (by decide)).trans <|
    (keep29 m ρ c main_arg11 (by decide)).trans <|
    (keep28 m ρ c main_arg11 (by decide)).trans <|
    (keep27 m ρ c main_arg11 (by decide)).trans <|
    (keep26 m ρ c main_arg11 (by decide)).trans <|
    (keep25 m ρ c main_arg11 (by decide)).trans <|
    (keep24 m ρ c main_arg11 (by decide)).trans <|
    (keep23 m ρ c main_arg11 (by decide)).trans <|
    (keep22 m ρ c main_arg11 (by decide)).trans <|
    (keep21 m ρ c main_arg11 (by decide)).trans <|
    (keep20 m ρ c main_arg11 (by decide)).trans <|
    (keep19 m ρ c main_arg11 (by decide)).trans <|
    (keep18 m ρ c main_arg11 (by decide)).trans <|
    (keep17 m ρ c main_arg11 (by decide)).trans <|
    (keep16 m ρ c main_arg11 (by decide)).trans <|
    (keep15 m ρ c main_arg11 (by decide)).trans <|
    (keep14 m ρ c main_arg11 (by decide)).trans <|
    (keep13 m ρ c main_arg11 (by decide)).trans <|
    (keep12 m ρ c main_arg11 (by decide)).trans <|
    (keep11 m ρ c main_arg11 (by decide)).trans <|
    (keep10 m ρ c main_arg11 (by decide)).trans <|
    (keep9 m ρ c main_arg11 (by decide)).trans <|
    (keep8 m ρ c main_arg11 (by decide)).trans <|
    (keep7 m ρ c main_arg11 (by decide)).trans <|
    (keep6 m ρ c main_arg11 (by decide)).trans <|
    (keep5 m ρ c main_arg11 (by decide)).trans <|
    (keep4 m ρ c main_arg11 (by decide)).trans <|
    (keep3 m ρ c main_arg11 (by decide)).trans <|
    (keep2 m ρ c main_arg11 (by decide)).trans <|
    (keep1 m ρ c main_arg11 (by decide)).trans <|
    (keep0 m ρ c main_arg11 (by decide)).trans rfl
theorem kept_arg12 (c : Dev nD) : W55 m ρ c (Proc.devRef .tc main_arg12) = m ((c : Thread nD τ).loc main_arg12) :=
  (keep54 m ρ c main_arg12 (by decide)).trans <|
    (keep53 m ρ c main_arg12 (by decide)).trans <|
    (keep52 m ρ c main_arg12 (by decide)).trans <|
    (keep51 m ρ c main_arg12 (by decide)).trans <|
    (keep50 m ρ c main_arg12 (by decide)).trans <|
    (keep49 m ρ c main_arg12 (by decide)).trans <|
    (keep48 m ρ c main_arg12 (by decide)).trans <|
    (keep47 m ρ c main_arg12 (by decide)).trans <|
    (keep46 m ρ c main_arg12 (by decide)).trans <|
    (keep45 m ρ c main_arg12 (by decide)).trans <|
    (keep44 m ρ c main_arg12 (by decide)).trans <|
    (keep43 m ρ c main_arg12 (by decide)).trans <|
    (keep42 m ρ c main_arg12 (by decide)).trans <|
    (keep41 m ρ c main_arg12 (by decide)).trans <|
    (keep40 m ρ c main_arg12 (by decide)).trans <|
    (keep39 m ρ c main_arg12 (by decide)).trans <|
    (keep38 m ρ c main_arg12 (by decide)).trans <|
    (keep37 m ρ c main_arg12 (by decide)).trans <|
    (keep36 m ρ c main_arg12 (by decide)).trans <|
    (keep35 m ρ c main_arg12 (by decide)).trans <|
    (keep34 m ρ c main_arg12 (by decide)).trans <|
    (keep33 m ρ c main_arg12 (by decide)).trans <|
    (keep32 m ρ c main_arg12 (by decide)).trans <|
    (keep31 m ρ c main_arg12 (by decide)).trans <|
    (keep30 m ρ c main_arg12 (by decide)).trans <|
    (keep29 m ρ c main_arg12 (by decide)).trans <|
    (keep28 m ρ c main_arg12 (by decide)).trans <|
    (keep27 m ρ c main_arg12 (by decide)).trans <|
    (keep26 m ρ c main_arg12 (by decide)).trans <|
    (keep25 m ρ c main_arg12 (by decide)).trans <|
    (keep24 m ρ c main_arg12 (by decide)).trans <|
    (keep23 m ρ c main_arg12 (by decide)).trans <|
    (keep22 m ρ c main_arg12 (by decide)).trans <|
    (keep21 m ρ c main_arg12 (by decide)).trans <|
    (keep20 m ρ c main_arg12 (by decide)).trans <|
    (keep19 m ρ c main_arg12 (by decide)).trans <|
    (keep18 m ρ c main_arg12 (by decide)).trans <|
    (keep17 m ρ c main_arg12 (by decide)).trans <|
    (keep16 m ρ c main_arg12 (by decide)).trans <|
    (keep15 m ρ c main_arg12 (by decide)).trans <|
    (keep14 m ρ c main_arg12 (by decide)).trans <|
    (keep13 m ρ c main_arg12 (by decide)).trans <|
    (keep12 m ρ c main_arg12 (by decide)).trans <|
    (keep11 m ρ c main_arg12 (by decide)).trans <|
    (keep10 m ρ c main_arg12 (by decide)).trans <|
    (keep9 m ρ c main_arg12 (by decide)).trans <|
    (keep8 m ρ c main_arg12 (by decide)).trans <|
    (keep7 m ρ c main_arg12 (by decide)).trans <|
    (keep6 m ρ c main_arg12 (by decide)).trans <|
    (keep5 m ρ c main_arg12 (by decide)).trans <|
    (keep4 m ρ c main_arg12 (by decide)).trans <|
    (keep3 m ρ c main_arg12 (by decide)).trans <|
    (keep2 m ρ c main_arg12 (by decide)).trans <|
    (keep1 m ρ c main_arg12 (by decide)).trans <|
    (keep0 m ρ c main_arg12 (by decide)).trans rfl
theorem kept_arg13 (c : Dev nD) : W55 m ρ c (Proc.devRef .tc main_arg13) = m ((c : Thread nD τ).loc main_arg13) :=
  (keep54 m ρ c main_arg13 (by decide)).trans <|
    (keep53 m ρ c main_arg13 (by decide)).trans <|
    (keep52 m ρ c main_arg13 (by decide)).trans <|
    (keep51 m ρ c main_arg13 (by decide)).trans <|
    (keep50 m ρ c main_arg13 (by decide)).trans <|
    (keep49 m ρ c main_arg13 (by decide)).trans <|
    (keep48 m ρ c main_arg13 (by decide)).trans <|
    (keep47 m ρ c main_arg13 (by decide)).trans <|
    (keep46 m ρ c main_arg13 (by decide)).trans <|
    (keep45 m ρ c main_arg13 (by decide)).trans <|
    (keep44 m ρ c main_arg13 (by decide)).trans <|
    (keep43 m ρ c main_arg13 (by decide)).trans <|
    (keep42 m ρ c main_arg13 (by decide)).trans <|
    (keep41 m ρ c main_arg13 (by decide)).trans <|
    (keep40 m ρ c main_arg13 (by decide)).trans <|
    (keep39 m ρ c main_arg13 (by decide)).trans <|
    (keep38 m ρ c main_arg13 (by decide)).trans <|
    (keep37 m ρ c main_arg13 (by decide)).trans <|
    (keep36 m ρ c main_arg13 (by decide)).trans <|
    (keep35 m ρ c main_arg13 (by decide)).trans <|
    (keep34 m ρ c main_arg13 (by decide)).trans <|
    (keep33 m ρ c main_arg13 (by decide)).trans <|
    (keep32 m ρ c main_arg13 (by decide)).trans <|
    (keep31 m ρ c main_arg13 (by decide)).trans <|
    (keep30 m ρ c main_arg13 (by decide)).trans <|
    (keep29 m ρ c main_arg13 (by decide)).trans <|
    (keep28 m ρ c main_arg13 (by decide)).trans <|
    (keep27 m ρ c main_arg13 (by decide)).trans <|
    (keep26 m ρ c main_arg13 (by decide)).trans <|
    (keep25 m ρ c main_arg13 (by decide)).trans <|
    (keep24 m ρ c main_arg13 (by decide)).trans <|
    (keep23 m ρ c main_arg13 (by decide)).trans <|
    (keep22 m ρ c main_arg13 (by decide)).trans <|
    (keep21 m ρ c main_arg13 (by decide)).trans <|
    (keep20 m ρ c main_arg13 (by decide)).trans <|
    (keep19 m ρ c main_arg13 (by decide)).trans <|
    (keep18 m ρ c main_arg13 (by decide)).trans <|
    (keep17 m ρ c main_arg13 (by decide)).trans <|
    (keep16 m ρ c main_arg13 (by decide)).trans <|
    (keep15 m ρ c main_arg13 (by decide)).trans <|
    (keep14 m ρ c main_arg13 (by decide)).trans <|
    (keep13 m ρ c main_arg13 (by decide)).trans <|
    (keep12 m ρ c main_arg13 (by decide)).trans <|
    (keep11 m ρ c main_arg13 (by decide)).trans <|
    (keep10 m ρ c main_arg13 (by decide)).trans <|
    (keep9 m ρ c main_arg13 (by decide)).trans <|
    (keep8 m ρ c main_arg13 (by decide)).trans <|
    (keep7 m ρ c main_arg13 (by decide)).trans <|
    (keep6 m ρ c main_arg13 (by decide)).trans <|
    (keep5 m ρ c main_arg13 (by decide)).trans <|
    (keep4 m ρ c main_arg13 (by decide)).trans <|
    (keep3 m ρ c main_arg13 (by decide)).trans <|
    (keep2 m ρ c main_arg13 (by decide)).trans <|
    (keep1 m ρ c main_arg13 (by decide)).trans <|
    (keep0 m ρ c main_arg13 (by decide)).trans rfl
theorem kept_arg14 (c : Dev nD) : W55 m ρ c (Proc.devRef .tc main_arg14) = m ((c : Thread nD τ).loc main_arg14) :=
  (keep54 m ρ c main_arg14 (by decide)).trans <|
    (keep53 m ρ c main_arg14 (by decide)).trans <|
    (keep52 m ρ c main_arg14 (by decide)).trans <|
    (keep51 m ρ c main_arg14 (by decide)).trans <|
    (keep50 m ρ c main_arg14 (by decide)).trans <|
    (keep49 m ρ c main_arg14 (by decide)).trans <|
    (keep48 m ρ c main_arg14 (by decide)).trans <|
    (keep47 m ρ c main_arg14 (by decide)).trans <|
    (keep46 m ρ c main_arg14 (by decide)).trans <|
    (keep45 m ρ c main_arg14 (by decide)).trans <|
    (keep44 m ρ c main_arg14 (by decide)).trans <|
    (keep43 m ρ c main_arg14 (by decide)).trans <|
    (keep42 m ρ c main_arg14 (by decide)).trans <|
    (keep41 m ρ c main_arg14 (by decide)).trans <|
    (keep40 m ρ c main_arg14 (by decide)).trans <|
    (keep39 m ρ c main_arg14 (by decide)).trans <|
    (keep38 m ρ c main_arg14 (by decide)).trans <|
    (keep37 m ρ c main_arg14 (by decide)).trans <|
    (keep36 m ρ c main_arg14 (by decide)).trans <|
    (keep35 m ρ c main_arg14 (by decide)).trans <|
    (keep34 m ρ c main_arg14 (by decide)).trans <|
    (keep33 m ρ c main_arg14 (by decide)).trans <|
    (keep32 m ρ c main_arg14 (by decide)).trans <|
    (keep31 m ρ c main_arg14 (by decide)).trans <|
    (keep30 m ρ c main_arg14 (by decide)).trans <|
    (keep29 m ρ c main_arg14 (by decide)).trans <|
    (keep28 m ρ c main_arg14 (by decide)).trans <|
    (keep27 m ρ c main_arg14 (by decide)).trans <|
    (keep26 m ρ c main_arg14 (by decide)).trans <|
    (keep25 m ρ c main_arg14 (by decide)).trans <|
    (keep24 m ρ c main_arg14 (by decide)).trans <|
    (keep23 m ρ c main_arg14 (by decide)).trans <|
    (keep22 m ρ c main_arg14 (by decide)).trans <|
    (keep21 m ρ c main_arg14 (by decide)).trans <|
    (keep20 m ρ c main_arg14 (by decide)).trans <|
    (keep19 m ρ c main_arg14 (by decide)).trans <|
    (keep18 m ρ c main_arg14 (by decide)).trans <|
    (keep17 m ρ c main_arg14 (by decide)).trans <|
    (keep16 m ρ c main_arg14 (by decide)).trans <|
    (keep15 m ρ c main_arg14 (by decide)).trans <|
    (keep14 m ρ c main_arg14 (by decide)).trans <|
    (keep13 m ρ c main_arg14 (by decide)).trans <|
    (keep12 m ρ c main_arg14 (by decide)).trans <|
    (keep11 m ρ c main_arg14 (by decide)).trans <|
    (keep10 m ρ c main_arg14 (by decide)).trans <|
    (keep9 m ρ c main_arg14 (by decide)).trans <|
    (keep8 m ρ c main_arg14 (by decide)).trans <|
    (keep7 m ρ c main_arg14 (by decide)).trans <|
    (keep6 m ρ c main_arg14 (by decide)).trans <|
    (keep5 m ρ c main_arg14 (by decide)).trans <|
    (keep4 m ρ c main_arg14 (by decide)).trans <|
    (keep3 m ρ c main_arg14 (by decide)).trans <|
    (keep2 m ρ c main_arg14 (by decide)).trans <|
    (keep1 m ρ c main_arg14 (by decide)).trans <|
    (keep0 m ρ c main_arg14 (by decide)).trans rfl
theorem kept_arg15 (c : Dev nD) : W55 m ρ c (Proc.devRef .tc main_arg15) = m ((c : Thread nD τ).loc main_arg15) :=
  (keep54 m ρ c main_arg15 (by decide)).trans <|
    (keep53 m ρ c main_arg15 (by decide)).trans <|
    (keep52 m ρ c main_arg15 (by decide)).trans <|
    (keep51 m ρ c main_arg15 (by decide)).trans <|
    (keep50 m ρ c main_arg15 (by decide)).trans <|
    (keep49 m ρ c main_arg15 (by decide)).trans <|
    (keep48 m ρ c main_arg15 (by decide)).trans <|
    (keep47 m ρ c main_arg15 (by decide)).trans <|
    (keep46 m ρ c main_arg15 (by decide)).trans <|
    (keep45 m ρ c main_arg15 (by decide)).trans <|
    (keep44 m ρ c main_arg15 (by decide)).trans <|
    (keep43 m ρ c main_arg15 (by decide)).trans <|
    (keep42 m ρ c main_arg15 (by decide)).trans <|
    (keep41 m ρ c main_arg15 (by decide)).trans <|
    (keep40 m ρ c main_arg15 (by decide)).trans <|
    (keep39 m ρ c main_arg15 (by decide)).trans <|
    (keep38 m ρ c main_arg15 (by decide)).trans <|
    (keep37 m ρ c main_arg15 (by decide)).trans <|
    (keep36 m ρ c main_arg15 (by decide)).trans <|
    (keep35 m ρ c main_arg15 (by decide)).trans <|
    (keep34 m ρ c main_arg15 (by decide)).trans <|
    (keep33 m ρ c main_arg15 (by decide)).trans <|
    (keep32 m ρ c main_arg15 (by decide)).trans <|
    (keep31 m ρ c main_arg15 (by decide)).trans <|
    (keep30 m ρ c main_arg15 (by decide)).trans <|
    (keep29 m ρ c main_arg15 (by decide)).trans <|
    (keep28 m ρ c main_arg15 (by decide)).trans <|
    (keep27 m ρ c main_arg15 (by decide)).trans <|
    (keep26 m ρ c main_arg15 (by decide)).trans <|
    (keep25 m ρ c main_arg15 (by decide)).trans <|
    (keep24 m ρ c main_arg15 (by decide)).trans <|
    (keep23 m ρ c main_arg15 (by decide)).trans <|
    (keep22 m ρ c main_arg15 (by decide)).trans <|
    (keep21 m ρ c main_arg15 (by decide)).trans <|
    (keep20 m ρ c main_arg15 (by decide)).trans <|
    (keep19 m ρ c main_arg15 (by decide)).trans <|
    (keep18 m ρ c main_arg15 (by decide)).trans <|
    (keep17 m ρ c main_arg15 (by decide)).trans <|
    (keep16 m ρ c main_arg15 (by decide)).trans <|
    (keep15 m ρ c main_arg15 (by decide)).trans <|
    (keep14 m ρ c main_arg15 (by decide)).trans <|
    (keep13 m ρ c main_arg15 (by decide)).trans <|
    (keep12 m ρ c main_arg15 (by decide)).trans <|
    (keep11 m ρ c main_arg15 (by decide)).trans <|
    (keep10 m ρ c main_arg15 (by decide)).trans <|
    (keep9 m ρ c main_arg15 (by decide)).trans <|
    (keep8 m ρ c main_arg15 (by decide)).trans <|
    (keep7 m ρ c main_arg15 (by decide)).trans <|
    (keep6 m ρ c main_arg15 (by decide)).trans <|
    (keep5 m ρ c main_arg15 (by decide)).trans <|
    (keep4 m ρ c main_arg15 (by decide)).trans <|
    (keep3 m ρ c main_arg15 (by decide)).trans <|
    (keep2 m ρ c main_arg15 (by decide)).trans <|
    (keep1 m ρ c main_arg15 (by decide)).trans <|
    (keep0 m ρ c main_arg15 (by decide)).trans rfl
theorem kept_arg16 (c : Dev nD) : W55 m ρ c (Proc.devRef .tc main_arg16) = m ((c : Thread nD τ).loc main_arg16) :=
  (keep54 m ρ c main_arg16 (by decide)).trans <|
    (keep53 m ρ c main_arg16 (by decide)).trans <|
    (keep52 m ρ c main_arg16 (by decide)).trans <|
    (keep51 m ρ c main_arg16 (by decide)).trans <|
    (keep50 m ρ c main_arg16 (by decide)).trans <|
    (keep49 m ρ c main_arg16 (by decide)).trans <|
    (keep48 m ρ c main_arg16 (by decide)).trans <|
    (keep47 m ρ c main_arg16 (by decide)).trans <|
    (keep46 m ρ c main_arg16 (by decide)).trans <|
    (keep45 m ρ c main_arg16 (by decide)).trans <|
    (keep44 m ρ c main_arg16 (by decide)).trans <|
    (keep43 m ρ c main_arg16 (by decide)).trans <|
    (keep42 m ρ c main_arg16 (by decide)).trans <|
    (keep41 m ρ c main_arg16 (by decide)).trans <|
    (keep40 m ρ c main_arg16 (by decide)).trans <|
    (keep39 m ρ c main_arg16 (by decide)).trans <|
    (keep38 m ρ c main_arg16 (by decide)).trans <|
    (keep37 m ρ c main_arg16 (by decide)).trans <|
    (keep36 m ρ c main_arg16 (by decide)).trans <|
    (keep35 m ρ c main_arg16 (by decide)).trans <|
    (keep34 m ρ c main_arg16 (by decide)).trans <|
    (keep33 m ρ c main_arg16 (by decide)).trans <|
    (keep32 m ρ c main_arg16 (by decide)).trans <|
    (keep31 m ρ c main_arg16 (by decide)).trans <|
    (keep30 m ρ c main_arg16 (by decide)).trans <|
    (keep29 m ρ c main_arg16 (by decide)).trans <|
    (keep28 m ρ c main_arg16 (by decide)).trans <|
    (keep27 m ρ c main_arg16 (by decide)).trans <|
    (keep26 m ρ c main_arg16 (by decide)).trans <|
    (keep25 m ρ c main_arg16 (by decide)).trans <|
    (keep24 m ρ c main_arg16 (by decide)).trans <|
    (keep23 m ρ c main_arg16 (by decide)).trans <|
    (keep22 m ρ c main_arg16 (by decide)).trans <|
    (keep21 m ρ c main_arg16 (by decide)).trans <|
    (keep20 m ρ c main_arg16 (by decide)).trans <|
    (keep19 m ρ c main_arg16 (by decide)).trans <|
    (keep18 m ρ c main_arg16 (by decide)).trans <|
    (keep17 m ρ c main_arg16 (by decide)).trans <|
    (keep16 m ρ c main_arg16 (by decide)).trans <|
    (keep15 m ρ c main_arg16 (by decide)).trans <|
    (keep14 m ρ c main_arg16 (by decide)).trans <|
    (keep13 m ρ c main_arg16 (by decide)).trans <|
    (keep12 m ρ c main_arg16 (by decide)).trans <|
    (keep11 m ρ c main_arg16 (by decide)).trans <|
    (keep10 m ρ c main_arg16 (by decide)).trans <|
    (keep9 m ρ c main_arg16 (by decide)).trans <|
    (keep8 m ρ c main_arg16 (by decide)).trans <|
    (keep7 m ρ c main_arg16 (by decide)).trans <|
    (keep6 m ρ c main_arg16 (by decide)).trans <|
    (keep5 m ρ c main_arg16 (by decide)).trans <|
    (keep4 m ρ c main_arg16 (by decide)).trans <|
    (keep3 m ρ c main_arg16 (by decide)).trans <|
    (keep2 m ρ c main_arg16 (by decide)).trans <|
    (keep1 m ρ c main_arg16 (by decide)).trans <|
    (keep0 m ρ c main_arg16 (by decide)).trans rfl
theorem kept_arg17 (c : Dev nD) : W55 m ρ c (Proc.devRef .tc main_arg17) = m ((c : Thread nD τ).loc main_arg17) :=
  (keep54 m ρ c main_arg17 (by decide)).trans <|
    (keep53 m ρ c main_arg17 (by decide)).trans <|
    (keep52 m ρ c main_arg17 (by decide)).trans <|
    (keep51 m ρ c main_arg17 (by decide)).trans <|
    (keep50 m ρ c main_arg17 (by decide)).trans <|
    (keep49 m ρ c main_arg17 (by decide)).trans <|
    (keep48 m ρ c main_arg17 (by decide)).trans <|
    (keep47 m ρ c main_arg17 (by decide)).trans <|
    (keep46 m ρ c main_arg17 (by decide)).trans <|
    (keep45 m ρ c main_arg17 (by decide)).trans <|
    (keep44 m ρ c main_arg17 (by decide)).trans <|
    (keep43 m ρ c main_arg17 (by decide)).trans <|
    (keep42 m ρ c main_arg17 (by decide)).trans <|
    (keep41 m ρ c main_arg17 (by decide)).trans <|
    (keep40 m ρ c main_arg17 (by decide)).trans <|
    (keep39 m ρ c main_arg17 (by decide)).trans <|
    (keep38 m ρ c main_arg17 (by decide)).trans <|
    (keep37 m ρ c main_arg17 (by decide)).trans <|
    (keep36 m ρ c main_arg17 (by decide)).trans <|
    (keep35 m ρ c main_arg17 (by decide)).trans <|
    (keep34 m ρ c main_arg17 (by decide)).trans <|
    (keep33 m ρ c main_arg17 (by decide)).trans <|
    (keep32 m ρ c main_arg17 (by decide)).trans <|
    (keep31 m ρ c main_arg17 (by decide)).trans <|
    (keep30 m ρ c main_arg17 (by decide)).trans <|
    (keep29 m ρ c main_arg17 (by decide)).trans <|
    (keep28 m ρ c main_arg17 (by decide)).trans <|
    (keep27 m ρ c main_arg17 (by decide)).trans <|
    (keep26 m ρ c main_arg17 (by decide)).trans <|
    (keep25 m ρ c main_arg17 (by decide)).trans <|
    (keep24 m ρ c main_arg17 (by decide)).trans <|
    (keep23 m ρ c main_arg17 (by decide)).trans <|
    (keep22 m ρ c main_arg17 (by decide)).trans <|
    (keep21 m ρ c main_arg17 (by decide)).trans <|
    (keep20 m ρ c main_arg17 (by decide)).trans <|
    (keep19 m ρ c main_arg17 (by decide)).trans <|
    (keep18 m ρ c main_arg17 (by decide)).trans <|
    (keep17 m ρ c main_arg17 (by decide)).trans <|
    (keep16 m ρ c main_arg17 (by decide)).trans <|
    (keep15 m ρ c main_arg17 (by decide)).trans <|
    (keep14 m ρ c main_arg17 (by decide)).trans <|
    (keep13 m ρ c main_arg17 (by decide)).trans <|
    (keep12 m ρ c main_arg17 (by decide)).trans <|
    (keep11 m ρ c main_arg17 (by decide)).trans <|
    (keep10 m ρ c main_arg17 (by decide)).trans <|
    (keep9 m ρ c main_arg17 (by decide)).trans <|
    (keep8 m ρ c main_arg17 (by decide)).trans <|
    (keep7 m ρ c main_arg17 (by decide)).trans <|
    (keep6 m ρ c main_arg17 (by decide)).trans <|
    (keep5 m ρ c main_arg17 (by decide)).trans <|
    (keep4 m ρ c main_arg17 (by decide)).trans <|
    (keep3 m ρ c main_arg17 (by decide)).trans <|
    (keep2 m ρ c main_arg17 (by decide)).trans <|
    (keep1 m ρ c main_arg17 (by decide)).trans <|
    (keep0 m ρ c main_arg17 (by decide)).trans rfl
theorem kept_arg18 (c : Dev nD) : W55 m ρ c (Proc.devRef .tc main_arg18) = m ((c : Thread nD τ).loc main_arg18) :=
  (keep54 m ρ c main_arg18 (by decide)).trans <|
    (keep53 m ρ c main_arg18 (by decide)).trans <|
    (keep52 m ρ c main_arg18 (by decide)).trans <|
    (keep51 m ρ c main_arg18 (by decide)).trans <|
    (keep50 m ρ c main_arg18 (by decide)).trans <|
    (keep49 m ρ c main_arg18 (by decide)).trans <|
    (keep48 m ρ c main_arg18 (by decide)).trans <|
    (keep47 m ρ c main_arg18 (by decide)).trans <|
    (keep46 m ρ c main_arg18 (by decide)).trans <|
    (keep45 m ρ c main_arg18 (by decide)).trans <|
    (keep44 m ρ c main_arg18 (by decide)).trans <|
    (keep43 m ρ c main_arg18 (by decide)).trans <|
    (keep42 m ρ c main_arg18 (by decide)).trans <|
    (keep41 m ρ c main_arg18 (by decide)).trans <|
    (keep40 m ρ c main_arg18 (by decide)).trans <|
    (keep39 m ρ c main_arg18 (by decide)).trans <|
    (keep38 m ρ c main_arg18 (by decide)).trans <|
    (keep37 m ρ c main_arg18 (by decide)).trans <|
    (keep36 m ρ c main_arg18 (by decide)).trans <|
    (keep35 m ρ c main_arg18 (by decide)).trans <|
    (keep34 m ρ c main_arg18 (by decide)).trans <|
    (keep33 m ρ c main_arg18 (by decide)).trans <|
    (keep32 m ρ c main_arg18 (by decide)).trans <|
    (keep31 m ρ c main_arg18 (by decide)).trans <|
    (keep30 m ρ c main_arg18 (by decide)).trans <|
    (keep29 m ρ c main_arg18 (by decide)).trans <|
    (keep28 m ρ c main_arg18 (by decide)).trans <|
    (keep27 m ρ c main_arg18 (by decide)).trans <|
    (keep26 m ρ c main_arg18 (by decide)).trans <|
    (keep25 m ρ c main_arg18 (by decide)).trans <|
    (keep24 m ρ c main_arg18 (by decide)).trans <|
    (keep23 m ρ c main_arg18 (by decide)).trans <|
    (keep22 m ρ c main_arg18 (by decide)).trans <|
    (keep21 m ρ c main_arg18 (by decide)).trans <|
    (keep20 m ρ c main_arg18 (by decide)).trans <|
    (keep19 m ρ c main_arg18 (by decide)).trans <|
    (keep18 m ρ c main_arg18 (by decide)).trans <|
    (keep17 m ρ c main_arg18 (by decide)).trans <|
    (keep16 m ρ c main_arg18 (by decide)).trans <|
    (keep15 m ρ c main_arg18 (by decide)).trans <|
    (keep14 m ρ c main_arg18 (by decide)).trans <|
    (keep13 m ρ c main_arg18 (by decide)).trans <|
    (keep12 m ρ c main_arg18 (by decide)).trans <|
    (keep11 m ρ c main_arg18 (by decide)).trans <|
    (keep10 m ρ c main_arg18 (by decide)).trans <|
    (keep9 m ρ c main_arg18 (by decide)).trans <|
    (keep8 m ρ c main_arg18 (by decide)).trans <|
    (keep7 m ρ c main_arg18 (by decide)).trans <|
    (keep6 m ρ c main_arg18 (by decide)).trans <|
    (keep5 m ρ c main_arg18 (by decide)).trans <|
    (keep4 m ρ c main_arg18 (by decide)).trans <|
    (keep3 m ρ c main_arg18 (by decide)).trans <|
    (keep2 m ρ c main_arg18 (by decide)).trans <|
    (keep1 m ρ c main_arg18 (by decide)).trans <|
    (keep0 m ρ c main_arg18 (by decide)).trans rfl
theorem kept_arg19 (c : Dev nD) : W55 m ρ c (Proc.devRef .tc main_arg19) = m ((c : Thread nD τ).loc main_arg19) :=
  (keep54 m ρ c main_arg19 (by decide)).trans <|
    (keep53 m ρ c main_arg19 (by decide)).trans <|
    (keep52 m ρ c main_arg19 (by decide)).trans <|
    (keep51 m ρ c main_arg19 (by decide)).trans <|
    (keep50 m ρ c main_arg19 (by decide)).trans <|
    (keep49 m ρ c main_arg19 (by decide)).trans <|
    (keep48 m ρ c main_arg19 (by decide)).trans <|
    (keep47 m ρ c main_arg19 (by decide)).trans <|
    (keep46 m ρ c main_arg19 (by decide)).trans <|
    (keep45 m ρ c main_arg19 (by decide)).trans <|
    (keep44 m ρ c main_arg19 (by decide)).trans <|
    (keep43 m ρ c main_arg19 (by decide)).trans <|
    (keep42 m ρ c main_arg19 (by decide)).trans <|
    (keep41 m ρ c main_arg19 (by decide)).trans <|
    (keep40 m ρ c main_arg19 (by decide)).trans <|
    (keep39 m ρ c main_arg19 (by decide)).trans <|
    (keep38 m ρ c main_arg19 (by decide)).trans <|
    (keep37 m ρ c main_arg19 (by decide)).trans <|
    (keep36 m ρ c main_arg19 (by decide)).trans <|
    (keep35 m ρ c main_arg19 (by decide)).trans <|
    (keep34 m ρ c main_arg19 (by decide)).trans <|
    (keep33 m ρ c main_arg19 (by decide)).trans <|
    (keep32 m ρ c main_arg19 (by decide)).trans <|
    (keep31 m ρ c main_arg19 (by decide)).trans <|
    (keep30 m ρ c main_arg19 (by decide)).trans <|
    (keep29 m ρ c main_arg19 (by decide)).trans <|
    (keep28 m ρ c main_arg19 (by decide)).trans <|
    (keep27 m ρ c main_arg19 (by decide)).trans <|
    (keep26 m ρ c main_arg19 (by decide)).trans <|
    (keep25 m ρ c main_arg19 (by decide)).trans <|
    (keep24 m ρ c main_arg19 (by decide)).trans <|
    (keep23 m ρ c main_arg19 (by decide)).trans <|
    (keep22 m ρ c main_arg19 (by decide)).trans <|
    (keep21 m ρ c main_arg19 (by decide)).trans <|
    (keep20 m ρ c main_arg19 (by decide)).trans <|
    (keep19 m ρ c main_arg19 (by decide)).trans <|
    (keep18 m ρ c main_arg19 (by decide)).trans <|
    (keep17 m ρ c main_arg19 (by decide)).trans <|
    (keep16 m ρ c main_arg19 (by decide)).trans <|
    (keep15 m ρ c main_arg19 (by decide)).trans <|
    (keep14 m ρ c main_arg19 (by decide)).trans <|
    (keep13 m ρ c main_arg19 (by decide)).trans <|
    (keep12 m ρ c main_arg19 (by decide)).trans <|
    (keep11 m ρ c main_arg19 (by decide)).trans <|
    (keep10 m ρ c main_arg19 (by decide)).trans <|
    (keep9 m ρ c main_arg19 (by decide)).trans <|
    (keep8 m ρ c main_arg19 (by decide)).trans <|
    (keep7 m ρ c main_arg19 (by decide)).trans <|
    (keep6 m ρ c main_arg19 (by decide)).trans <|
    (keep5 m ρ c main_arg19 (by decide)).trans <|
    (keep4 m ρ c main_arg19 (by decide)).trans <|
    (keep3 m ρ c main_arg19 (by decide)).trans <|
    (keep2 m ρ c main_arg19 (by decide)).trans <|
    (keep1 m ρ c main_arg19 (by decide)).trans <|
    (keep0 m ρ c main_arg19 (by decide)).trans rfl
theorem kept_arg20 (c : Dev nD) : W55 m ρ c (Proc.devRef .tc main_arg20) = m ((c : Thread nD τ).loc main_arg20) :=
  (keep54 m ρ c main_arg20 (by decide)).trans <|
    (keep53 m ρ c main_arg20 (by decide)).trans <|
    (keep52 m ρ c main_arg20 (by decide)).trans <|
    (keep51 m ρ c main_arg20 (by decide)).trans <|
    (keep50 m ρ c main_arg20 (by decide)).trans <|
    (keep49 m ρ c main_arg20 (by decide)).trans <|
    (keep48 m ρ c main_arg20 (by decide)).trans <|
    (keep47 m ρ c main_arg20 (by decide)).trans <|
    (keep46 m ρ c main_arg20 (by decide)).trans <|
    (keep45 m ρ c main_arg20 (by decide)).trans <|
    (keep44 m ρ c main_arg20 (by decide)).trans <|
    (keep43 m ρ c main_arg20 (by decide)).trans <|
    (keep42 m ρ c main_arg20 (by decide)).trans <|
    (keep41 m ρ c main_arg20 (by decide)).trans <|
    (keep40 m ρ c main_arg20 (by decide)).trans <|
    (keep39 m ρ c main_arg20 (by decide)).trans <|
    (keep38 m ρ c main_arg20 (by decide)).trans <|
    (keep37 m ρ c main_arg20 (by decide)).trans <|
    (keep36 m ρ c main_arg20 (by decide)).trans <|
    (keep35 m ρ c main_arg20 (by decide)).trans <|
    (keep34 m ρ c main_arg20 (by decide)).trans <|
    (keep33 m ρ c main_arg20 (by decide)).trans <|
    (keep32 m ρ c main_arg20 (by decide)).trans <|
    (keep31 m ρ c main_arg20 (by decide)).trans <|
    (keep30 m ρ c main_arg20 (by decide)).trans <|
    (keep29 m ρ c main_arg20 (by decide)).trans <|
    (keep28 m ρ c main_arg20 (by decide)).trans <|
    (keep27 m ρ c main_arg20 (by decide)).trans <|
    (keep26 m ρ c main_arg20 (by decide)).trans <|
    (keep25 m ρ c main_arg20 (by decide)).trans <|
    (keep24 m ρ c main_arg20 (by decide)).trans <|
    (keep23 m ρ c main_arg20 (by decide)).trans <|
    (keep22 m ρ c main_arg20 (by decide)).trans <|
    (keep21 m ρ c main_arg20 (by decide)).trans <|
    (keep20 m ρ c main_arg20 (by decide)).trans <|
    (keep19 m ρ c main_arg20 (by decide)).trans <|
    (keep18 m ρ c main_arg20 (by decide)).trans <|
    (keep17 m ρ c main_arg20 (by decide)).trans <|
    (keep16 m ρ c main_arg20 (by decide)).trans <|
    (keep15 m ρ c main_arg20 (by decide)).trans <|
    (keep14 m ρ c main_arg20 (by decide)).trans <|
    (keep13 m ρ c main_arg20 (by decide)).trans <|
    (keep12 m ρ c main_arg20 (by decide)).trans <|
    (keep11 m ρ c main_arg20 (by decide)).trans <|
    (keep10 m ρ c main_arg20 (by decide)).trans <|
    (keep9 m ρ c main_arg20 (by decide)).trans <|
    (keep8 m ρ c main_arg20 (by decide)).trans <|
    (keep7 m ρ c main_arg20 (by decide)).trans <|
    (keep6 m ρ c main_arg20 (by decide)).trans <|
    (keep5 m ρ c main_arg20 (by decide)).trans <|
    (keep4 m ρ c main_arg20 (by decide)).trans <|
    (keep3 m ρ c main_arg20 (by decide)).trans <|
    (keep2 m ρ c main_arg20 (by decide)).trans <|
    (keep1 m ρ c main_arg20 (by decide)).trans <|
    (keep0 m ρ c main_arg20 (by decide)).trans rfl
theorem kept_arg21 (c : Dev nD) : W55 m ρ c (Proc.devRef .tc main_arg21) = m ((c : Thread nD τ).loc main_arg21) :=
  (keep54 m ρ c main_arg21 (by decide)).trans <|
    (keep53 m ρ c main_arg21 (by decide)).trans <|
    (keep52 m ρ c main_arg21 (by decide)).trans <|
    (keep51 m ρ c main_arg21 (by decide)).trans <|
    (keep50 m ρ c main_arg21 (by decide)).trans <|
    (keep49 m ρ c main_arg21 (by decide)).trans <|
    (keep48 m ρ c main_arg21 (by decide)).trans <|
    (keep47 m ρ c main_arg21 (by decide)).trans <|
    (keep46 m ρ c main_arg21 (by decide)).trans <|
    (keep45 m ρ c main_arg21 (by decide)).trans <|
    (keep44 m ρ c main_arg21 (by decide)).trans <|
    (keep43 m ρ c main_arg21 (by decide)).trans <|
    (keep42 m ρ c main_arg21 (by decide)).trans <|
    (keep41 m ρ c main_arg21 (by decide)).trans <|
    (keep40 m ρ c main_arg21 (by decide)).trans <|
    (keep39 m ρ c main_arg21 (by decide)).trans <|
    (keep38 m ρ c main_arg21 (by decide)).trans <|
    (keep37 m ρ c main_arg21 (by decide)).trans <|
    (keep36 m ρ c main_arg21 (by decide)).trans <|
    (keep35 m ρ c main_arg21 (by decide)).trans <|
    (keep34 m ρ c main_arg21 (by decide)).trans <|
    (keep33 m ρ c main_arg21 (by decide)).trans <|
    (keep32 m ρ c main_arg21 (by decide)).trans <|
    (keep31 m ρ c main_arg21 (by decide)).trans <|
    (keep30 m ρ c main_arg21 (by decide)).trans <|
    (keep29 m ρ c main_arg21 (by decide)).trans <|
    (keep28 m ρ c main_arg21 (by decide)).trans <|
    (keep27 m ρ c main_arg21 (by decide)).trans <|
    (keep26 m ρ c main_arg21 (by decide)).trans <|
    (keep25 m ρ c main_arg21 (by decide)).trans <|
    (keep24 m ρ c main_arg21 (by decide)).trans <|
    (keep23 m ρ c main_arg21 (by decide)).trans <|
    (keep22 m ρ c main_arg21 (by decide)).trans <|
    (keep21 m ρ c main_arg21 (by decide)).trans <|
    (keep20 m ρ c main_arg21 (by decide)).trans <|
    (keep19 m ρ c main_arg21 (by decide)).trans <|
    (keep18 m ρ c main_arg21 (by decide)).trans <|
    (keep17 m ρ c main_arg21 (by decide)).trans <|
    (keep16 m ρ c main_arg21 (by decide)).trans <|
    (keep15 m ρ c main_arg21 (by decide)).trans <|
    (keep14 m ρ c main_arg21 (by decide)).trans <|
    (keep13 m ρ c main_arg21 (by decide)).trans <|
    (keep12 m ρ c main_arg21 (by decide)).trans <|
    (keep11 m ρ c main_arg21 (by decide)).trans <|
    (keep10 m ρ c main_arg21 (by decide)).trans <|
    (keep9 m ρ c main_arg21 (by decide)).trans <|
    (keep8 m ρ c main_arg21 (by decide)).trans <|
    (keep7 m ρ c main_arg21 (by decide)).trans <|
    (keep6 m ρ c main_arg21 (by decide)).trans <|
    (keep5 m ρ c main_arg21 (by decide)).trans <|
    (keep4 m ρ c main_arg21 (by decide)).trans <|
    (keep3 m ρ c main_arg21 (by decide)).trans <|
    (keep2 m ρ c main_arg21 (by decide)).trans <|
    (keep1 m ρ c main_arg21 (by decide)).trans <|
    (keep0 m ρ c main_arg21 (by decide)).trans rfl
theorem kept_arg22 (c : Dev nD) : W55 m ρ c (Proc.devRef .tc main_arg22) = m ((c : Thread nD τ).loc main_arg22) :=
  (keep54 m ρ c main_arg22 (by decide)).trans <|
    (keep53 m ρ c main_arg22 (by decide)).trans <|
    (keep52 m ρ c main_arg22 (by decide)).trans <|
    (keep51 m ρ c main_arg22 (by decide)).trans <|
    (keep50 m ρ c main_arg22 (by decide)).trans <|
    (keep49 m ρ c main_arg22 (by decide)).trans <|
    (keep48 m ρ c main_arg22 (by decide)).trans <|
    (keep47 m ρ c main_arg22 (by decide)).trans <|
    (keep46 m ρ c main_arg22 (by decide)).trans <|
    (keep45 m ρ c main_arg22 (by decide)).trans <|
    (keep44 m ρ c main_arg22 (by decide)).trans <|
    (keep43 m ρ c main_arg22 (by decide)).trans <|
    (keep42 m ρ c main_arg22 (by decide)).trans <|
    (keep41 m ρ c main_arg22 (by decide)).trans <|
    (keep40 m ρ c main_arg22 (by decide)).trans <|
    (keep39 m ρ c main_arg22 (by decide)).trans <|
    (keep38 m ρ c main_arg22 (by decide)).trans <|
    (keep37 m ρ c main_arg22 (by decide)).trans <|
    (keep36 m ρ c main_arg22 (by decide)).trans <|
    (keep35 m ρ c main_arg22 (by decide)).trans <|
    (keep34 m ρ c main_arg22 (by decide)).trans <|
    (keep33 m ρ c main_arg22 (by decide)).trans <|
    (keep32 m ρ c main_arg22 (by decide)).trans <|
    (keep31 m ρ c main_arg22 (by decide)).trans <|
    (keep30 m ρ c main_arg22 (by decide)).trans <|
    (keep29 m ρ c main_arg22 (by decide)).trans <|
    (keep28 m ρ c main_arg22 (by decide)).trans <|
    (keep27 m ρ c main_arg22 (by decide)).trans <|
    (keep26 m ρ c main_arg22 (by decide)).trans <|
    (keep25 m ρ c main_arg22 (by decide)).trans <|
    (keep24 m ρ c main_arg22 (by decide)).trans <|
    (keep23 m ρ c main_arg22 (by decide)).trans <|
    (keep22 m ρ c main_arg22 (by decide)).trans <|
    (keep21 m ρ c main_arg22 (by decide)).trans <|
    (keep20 m ρ c main_arg22 (by decide)).trans <|
    (keep19 m ρ c main_arg22 (by decide)).trans <|
    (keep18 m ρ c main_arg22 (by decide)).trans <|
    (keep17 m ρ c main_arg22 (by decide)).trans <|
    (keep16 m ρ c main_arg22 (by decide)).trans <|
    (keep15 m ρ c main_arg22 (by decide)).trans <|
    (keep14 m ρ c main_arg22 (by decide)).trans <|
    (keep13 m ρ c main_arg22 (by decide)).trans <|
    (keep12 m ρ c main_arg22 (by decide)).trans <|
    (keep11 m ρ c main_arg22 (by decide)).trans <|
    (keep10 m ρ c main_arg22 (by decide)).trans <|
    (keep9 m ρ c main_arg22 (by decide)).trans <|
    (keep8 m ρ c main_arg22 (by decide)).trans <|
    (keep7 m ρ c main_arg22 (by decide)).trans <|
    (keep6 m ρ c main_arg22 (by decide)).trans <|
    (keep5 m ρ c main_arg22 (by decide)).trans <|
    (keep4 m ρ c main_arg22 (by decide)).trans <|
    (keep3 m ρ c main_arg22 (by decide)).trans <|
    (keep2 m ρ c main_arg22 (by decide)).trans <|
    (keep1 m ρ c main_arg22 (by decide)).trans <|
    (keep0 m ρ c main_arg22 (by decide)).trans rfl
theorem kept_arg23 (c : Dev nD) : W55 m ρ c (Proc.devRef .tc main_arg23) = m ((c : Thread nD τ).loc main_arg23) :=
  (keep54 m ρ c main_arg23 (by decide)).trans <|
    (keep53 m ρ c main_arg23 (by decide)).trans <|
    (keep52 m ρ c main_arg23 (by decide)).trans <|
    (keep51 m ρ c main_arg23 (by decide)).trans <|
    (keep50 m ρ c main_arg23 (by decide)).trans <|
    (keep49 m ρ c main_arg23 (by decide)).trans <|
    (keep48 m ρ c main_arg23 (by decide)).trans <|
    (keep47 m ρ c main_arg23 (by decide)).trans <|
    (keep46 m ρ c main_arg23 (by decide)).trans <|
    (keep45 m ρ c main_arg23 (by decide)).trans <|
    (keep44 m ρ c main_arg23 (by decide)).trans <|
    (keep43 m ρ c main_arg23 (by decide)).trans <|
    (keep42 m ρ c main_arg23 (by decide)).trans <|
    (keep41 m ρ c main_arg23 (by decide)).trans <|
    (keep40 m ρ c main_arg23 (by decide)).trans <|
    (keep39 m ρ c main_arg23 (by decide)).trans <|
    (keep38 m ρ c main_arg23 (by decide)).trans <|
    (keep37 m ρ c main_arg23 (by decide)).trans <|
    (keep36 m ρ c main_arg23 (by decide)).trans <|
    (keep35 m ρ c main_arg23 (by decide)).trans <|
    (keep34 m ρ c main_arg23 (by decide)).trans <|
    (keep33 m ρ c main_arg23 (by decide)).trans <|
    (keep32 m ρ c main_arg23 (by decide)).trans <|
    (keep31 m ρ c main_arg23 (by decide)).trans <|
    (keep30 m ρ c main_arg23 (by decide)).trans <|
    (keep29 m ρ c main_arg23 (by decide)).trans <|
    (keep28 m ρ c main_arg23 (by decide)).trans <|
    (keep27 m ρ c main_arg23 (by decide)).trans <|
    (keep26 m ρ c main_arg23 (by decide)).trans <|
    (keep25 m ρ c main_arg23 (by decide)).trans <|
    (keep24 m ρ c main_arg23 (by decide)).trans <|
    (keep23 m ρ c main_arg23 (by decide)).trans <|
    (keep22 m ρ c main_arg23 (by decide)).trans <|
    (keep21 m ρ c main_arg23 (by decide)).trans <|
    (keep20 m ρ c main_arg23 (by decide)).trans <|
    (keep19 m ρ c main_arg23 (by decide)).trans <|
    (keep18 m ρ c main_arg23 (by decide)).trans <|
    (keep17 m ρ c main_arg23 (by decide)).trans <|
    (keep16 m ρ c main_arg23 (by decide)).trans <|
    (keep15 m ρ c main_arg23 (by decide)).trans <|
    (keep14 m ρ c main_arg23 (by decide)).trans <|
    (keep13 m ρ c main_arg23 (by decide)).trans <|
    (keep12 m ρ c main_arg23 (by decide)).trans <|
    (keep11 m ρ c main_arg23 (by decide)).trans <|
    (keep10 m ρ c main_arg23 (by decide)).trans <|
    (keep9 m ρ c main_arg23 (by decide)).trans <|
    (keep8 m ρ c main_arg23 (by decide)).trans <|
    (keep7 m ρ c main_arg23 (by decide)).trans <|
    (keep6 m ρ c main_arg23 (by decide)).trans <|
    (keep5 m ρ c main_arg23 (by decide)).trans <|
    (keep4 m ρ c main_arg23 (by decide)).trans <|
    (keep3 m ρ c main_arg23 (by decide)).trans <|
    (keep2 m ρ c main_arg23 (by decide)).trans <|
    (keep1 m ρ c main_arg23 (by decide)).trans <|
    (keep0 m ρ c main_arg23 (by decide)).trans rfl
theorem kept_arg24 (c : Dev nD) : W55 m ρ c (Proc.devRef .tc main_arg24) = m ((c : Thread nD τ).loc main_arg24) :=
  (keep54 m ρ c main_arg24 (by decide)).trans <|
    (keep53 m ρ c main_arg24 (by decide)).trans <|
    (keep52 m ρ c main_arg24 (by decide)).trans <|
    (keep51 m ρ c main_arg24 (by decide)).trans <|
    (keep50 m ρ c main_arg24 (by decide)).trans <|
    (keep49 m ρ c main_arg24 (by decide)).trans <|
    (keep48 m ρ c main_arg24 (by decide)).trans <|
    (keep47 m ρ c main_arg24 (by decide)).trans <|
    (keep46 m ρ c main_arg24 (by decide)).trans <|
    (keep45 m ρ c main_arg24 (by decide)).trans <|
    (keep44 m ρ c main_arg24 (by decide)).trans <|
    (keep43 m ρ c main_arg24 (by decide)).trans <|
    (keep42 m ρ c main_arg24 (by decide)).trans <|
    (keep41 m ρ c main_arg24 (by decide)).trans <|
    (keep40 m ρ c main_arg24 (by decide)).trans <|
    (keep39 m ρ c main_arg24 (by decide)).trans <|
    (keep38 m ρ c main_arg24 (by decide)).trans <|
    (keep37 m ρ c main_arg24 (by decide)).trans <|
    (keep36 m ρ c main_arg24 (by decide)).trans <|
    (keep35 m ρ c main_arg24 (by decide)).trans <|
    (keep34 m ρ c main_arg24 (by decide)).trans <|
    (keep33 m ρ c main_arg24 (by decide)).trans <|
    (keep32 m ρ c main_arg24 (by decide)).trans <|
    (keep31 m ρ c main_arg24 (by decide)).trans <|
    (keep30 m ρ c main_arg24 (by decide)).trans <|
    (keep29 m ρ c main_arg24 (by decide)).trans <|
    (keep28 m ρ c main_arg24 (by decide)).trans <|
    (keep27 m ρ c main_arg24 (by decide)).trans <|
    (keep26 m ρ c main_arg24 (by decide)).trans <|
    (keep25 m ρ c main_arg24 (by decide)).trans <|
    (keep24 m ρ c main_arg24 (by decide)).trans <|
    (keep23 m ρ c main_arg24 (by decide)).trans <|
    (keep22 m ρ c main_arg24 (by decide)).trans <|
    (keep21 m ρ c main_arg24 (by decide)).trans <|
    (keep20 m ρ c main_arg24 (by decide)).trans <|
    (keep19 m ρ c main_arg24 (by decide)).trans <|
    (keep18 m ρ c main_arg24 (by decide)).trans <|
    (keep17 m ρ c main_arg24 (by decide)).trans <|
    (keep16 m ρ c main_arg24 (by decide)).trans <|
    (keep15 m ρ c main_arg24 (by decide)).trans <|
    (keep14 m ρ c main_arg24 (by decide)).trans <|
    (keep13 m ρ c main_arg24 (by decide)).trans <|
    (keep12 m ρ c main_arg24 (by decide)).trans <|
    (keep11 m ρ c main_arg24 (by decide)).trans <|
    (keep10 m ρ c main_arg24 (by decide)).trans <|
    (keep9 m ρ c main_arg24 (by decide)).trans <|
    (keep8 m ρ c main_arg24 (by decide)).trans <|
    (keep7 m ρ c main_arg24 (by decide)).trans <|
    (keep6 m ρ c main_arg24 (by decide)).trans <|
    (keep5 m ρ c main_arg24 (by decide)).trans <|
    (keep4 m ρ c main_arg24 (by decide)).trans <|
    (keep3 m ρ c main_arg24 (by decide)).trans <|
    (keep2 m ρ c main_arg24 (by decide)).trans <|
    (keep1 m ρ c main_arg24 (by decide)).trans <|
    (keep0 m ρ c main_arg24 (by decide)).trans rfl
theorem kept_arg25 (c : Dev nD) : W55 m ρ c (Proc.devRef .tc main_arg25) = m ((c : Thread nD τ).loc main_arg25) :=
  (keep54 m ρ c main_arg25 (by decide)).trans <|
    (keep53 m ρ c main_arg25 (by decide)).trans <|
    (keep52 m ρ c main_arg25 (by decide)).trans <|
    (keep51 m ρ c main_arg25 (by decide)).trans <|
    (keep50 m ρ c main_arg25 (by decide)).trans <|
    (keep49 m ρ c main_arg25 (by decide)).trans <|
    (keep48 m ρ c main_arg25 (by decide)).trans <|
    (keep47 m ρ c main_arg25 (by decide)).trans <|
    (keep46 m ρ c main_arg25 (by decide)).trans <|
    (keep45 m ρ c main_arg25 (by decide)).trans <|
    (keep44 m ρ c main_arg25 (by decide)).trans <|
    (keep43 m ρ c main_arg25 (by decide)).trans <|
    (keep42 m ρ c main_arg25 (by decide)).trans <|
    (keep41 m ρ c main_arg25 (by decide)).trans <|
    (keep40 m ρ c main_arg25 (by decide)).trans <|
    (keep39 m ρ c main_arg25 (by decide)).trans <|
    (keep38 m ρ c main_arg25 (by decide)).trans <|
    (keep37 m ρ c main_arg25 (by decide)).trans <|
    (keep36 m ρ c main_arg25 (by decide)).trans <|
    (keep35 m ρ c main_arg25 (by decide)).trans <|
    (keep34 m ρ c main_arg25 (by decide)).trans <|
    (keep33 m ρ c main_arg25 (by decide)).trans <|
    (keep32 m ρ c main_arg25 (by decide)).trans <|
    (keep31 m ρ c main_arg25 (by decide)).trans <|
    (keep30 m ρ c main_arg25 (by decide)).trans <|
    (keep29 m ρ c main_arg25 (by decide)).trans <|
    (keep28 m ρ c main_arg25 (by decide)).trans <|
    (keep27 m ρ c main_arg25 (by decide)).trans <|
    (keep26 m ρ c main_arg25 (by decide)).trans <|
    (keep25 m ρ c main_arg25 (by decide)).trans <|
    (keep24 m ρ c main_arg25 (by decide)).trans <|
    (keep23 m ρ c main_arg25 (by decide)).trans <|
    (keep22 m ρ c main_arg25 (by decide)).trans <|
    (keep21 m ρ c main_arg25 (by decide)).trans <|
    (keep20 m ρ c main_arg25 (by decide)).trans <|
    (keep19 m ρ c main_arg25 (by decide)).trans <|
    (keep18 m ρ c main_arg25 (by decide)).trans <|
    (keep17 m ρ c main_arg25 (by decide)).trans <|
    (keep16 m ρ c main_arg25 (by decide)).trans <|
    (keep15 m ρ c main_arg25 (by decide)).trans <|
    (keep14 m ρ c main_arg25 (by decide)).trans <|
    (keep13 m ρ c main_arg25 (by decide)).trans <|
    (keep12 m ρ c main_arg25 (by decide)).trans <|
    (keep11 m ρ c main_arg25 (by decide)).trans <|
    (keep10 m ρ c main_arg25 (by decide)).trans <|
    (keep9 m ρ c main_arg25 (by decide)).trans <|
    (keep8 m ρ c main_arg25 (by decide)).trans <|
    (keep7 m ρ c main_arg25 (by decide)).trans <|
    (keep6 m ρ c main_arg25 (by decide)).trans <|
    (keep5 m ρ c main_arg25 (by decide)).trans <|
    (keep4 m ρ c main_arg25 (by decide)).trans <|
    (keep3 m ρ c main_arg25 (by decide)).trans <|
    (keep2 m ρ c main_arg25 (by decide)).trans <|
    (keep1 m ρ c main_arg25 (by decide)).trans <|
    (keep0 m ρ c main_arg25 (by decide)).trans rfl
theorem kept_arg26 (c : Dev nD) : W55 m ρ c (Proc.devRef .tc main_arg26) = m ((c : Thread nD τ).loc main_arg26) :=
  (keep54 m ρ c main_arg26 (by decide)).trans <|
    (keep53 m ρ c main_arg26 (by decide)).trans <|
    (keep52 m ρ c main_arg26 (by decide)).trans <|
    (keep51 m ρ c main_arg26 (by decide)).trans <|
    (keep50 m ρ c main_arg26 (by decide)).trans <|
    (keep49 m ρ c main_arg26 (by decide)).trans <|
    (keep48 m ρ c main_arg26 (by decide)).trans <|
    (keep47 m ρ c main_arg26 (by decide)).trans <|
    (keep46 m ρ c main_arg26 (by decide)).trans <|
    (keep45 m ρ c main_arg26 (by decide)).trans <|
    (keep44 m ρ c main_arg26 (by decide)).trans <|
    (keep43 m ρ c main_arg26 (by decide)).trans <|
    (keep42 m ρ c main_arg26 (by decide)).trans <|
    (keep41 m ρ c main_arg26 (by decide)).trans <|
    (keep40 m ρ c main_arg26 (by decide)).trans <|
    (keep39 m ρ c main_arg26 (by decide)).trans <|
    (keep38 m ρ c main_arg26 (by decide)).trans <|
    (keep37 m ρ c main_arg26 (by decide)).trans <|
    (keep36 m ρ c main_arg26 (by decide)).trans <|
    (keep35 m ρ c main_arg26 (by decide)).trans <|
    (keep34 m ρ c main_arg26 (by decide)).trans <|
    (keep33 m ρ c main_arg26 (by decide)).trans <|
    (keep32 m ρ c main_arg26 (by decide)).trans <|
    (keep31 m ρ c main_arg26 (by decide)).trans <|
    (keep30 m ρ c main_arg26 (by decide)).trans <|
    (keep29 m ρ c main_arg26 (by decide)).trans <|
    (keep28 m ρ c main_arg26 (by decide)).trans <|
    (keep27 m ρ c main_arg26 (by decide)).trans <|
    (keep26 m ρ c main_arg26 (by decide)).trans <|
    (keep25 m ρ c main_arg26 (by decide)).trans <|
    (keep24 m ρ c main_arg26 (by decide)).trans <|
    (keep23 m ρ c main_arg26 (by decide)).trans <|
    (keep22 m ρ c main_arg26 (by decide)).trans <|
    (keep21 m ρ c main_arg26 (by decide)).trans <|
    (keep20 m ρ c main_arg26 (by decide)).trans <|
    (keep19 m ρ c main_arg26 (by decide)).trans <|
    (keep18 m ρ c main_arg26 (by decide)).trans <|
    (keep17 m ρ c main_arg26 (by decide)).trans <|
    (keep16 m ρ c main_arg26 (by decide)).trans <|
    (keep15 m ρ c main_arg26 (by decide)).trans <|
    (keep14 m ρ c main_arg26 (by decide)).trans <|
    (keep13 m ρ c main_arg26 (by decide)).trans <|
    (keep12 m ρ c main_arg26 (by decide)).trans <|
    (keep11 m ρ c main_arg26 (by decide)).trans <|
    (keep10 m ρ c main_arg26 (by decide)).trans <|
    (keep9 m ρ c main_arg26 (by decide)).trans <|
    (keep8 m ρ c main_arg26 (by decide)).trans <|
    (keep7 m ρ c main_arg26 (by decide)).trans <|
    (keep6 m ρ c main_arg26 (by decide)).trans <|
    (keep5 m ρ c main_arg26 (by decide)).trans <|
    (keep4 m ρ c main_arg26 (by decide)).trans <|
    (keep3 m ρ c main_arg26 (by decide)).trans <|
    (keep2 m ρ c main_arg26 (by decide)).trans <|
    (keep1 m ρ c main_arg26 (by decide)).trans <|
    (keep0 m ρ c main_arg26 (by decide)).trans rfl
theorem kept_arg27 (c : Dev nD) : W55 m ρ c (Proc.devRef .tc main_arg27) = m ((c : Thread nD τ).loc main_arg27) :=
  (keep54 m ρ c main_arg27 (by decide)).trans <|
    (keep53 m ρ c main_arg27 (by decide)).trans <|
    (keep52 m ρ c main_arg27 (by decide)).trans <|
    (keep51 m ρ c main_arg27 (by decide)).trans <|
    (keep50 m ρ c main_arg27 (by decide)).trans <|
    (keep49 m ρ c main_arg27 (by decide)).trans <|
    (keep48 m ρ c main_arg27 (by decide)).trans <|
    (keep47 m ρ c main_arg27 (by decide)).trans <|
    (keep46 m ρ c main_arg27 (by decide)).trans <|
    (keep45 m ρ c main_arg27 (by decide)).trans <|
    (keep44 m ρ c main_arg27 (by decide)).trans <|
    (keep43 m ρ c main_arg27 (by decide)).trans <|
    (keep42 m ρ c main_arg27 (by decide)).trans <|
    (keep41 m ρ c main_arg27 (by decide)).trans <|
    (keep40 m ρ c main_arg27 (by decide)).trans <|
    (keep39 m ρ c main_arg27 (by decide)).trans <|
    (keep38 m ρ c main_arg27 (by decide)).trans <|
    (keep37 m ρ c main_arg27 (by decide)).trans <|
    (keep36 m ρ c main_arg27 (by decide)).trans <|
    (keep35 m ρ c main_arg27 (by decide)).trans <|
    (keep34 m ρ c main_arg27 (by decide)).trans <|
    (keep33 m ρ c main_arg27 (by decide)).trans <|
    (keep32 m ρ c main_arg27 (by decide)).trans <|
    (keep31 m ρ c main_arg27 (by decide)).trans <|
    (keep30 m ρ c main_arg27 (by decide)).trans <|
    (keep29 m ρ c main_arg27 (by decide)).trans <|
    (keep28 m ρ c main_arg27 (by decide)).trans <|
    (keep27 m ρ c main_arg27 (by decide)).trans <|
    (keep26 m ρ c main_arg27 (by decide)).trans <|
    (keep25 m ρ c main_arg27 (by decide)).trans <|
    (keep24 m ρ c main_arg27 (by decide)).trans <|
    (keep23 m ρ c main_arg27 (by decide)).trans <|
    (keep22 m ρ c main_arg27 (by decide)).trans <|
    (keep21 m ρ c main_arg27 (by decide)).trans <|
    (keep20 m ρ c main_arg27 (by decide)).trans <|
    (keep19 m ρ c main_arg27 (by decide)).trans <|
    (keep18 m ρ c main_arg27 (by decide)).trans <|
    (keep17 m ρ c main_arg27 (by decide)).trans <|
    (keep16 m ρ c main_arg27 (by decide)).trans <|
    (keep15 m ρ c main_arg27 (by decide)).trans <|
    (keep14 m ρ c main_arg27 (by decide)).trans <|
    (keep13 m ρ c main_arg27 (by decide)).trans <|
    (keep12 m ρ c main_arg27 (by decide)).trans <|
    (keep11 m ρ c main_arg27 (by decide)).trans <|
    (keep10 m ρ c main_arg27 (by decide)).trans <|
    (keep9 m ρ c main_arg27 (by decide)).trans <|
    (keep8 m ρ c main_arg27 (by decide)).trans <|
    (keep7 m ρ c main_arg27 (by decide)).trans <|
    (keep6 m ρ c main_arg27 (by decide)).trans <|
    (keep5 m ρ c main_arg27 (by decide)).trans <|
    (keep4 m ρ c main_arg27 (by decide)).trans <|
    (keep3 m ρ c main_arg27 (by decide)).trans <|
    (keep2 m ρ c main_arg27 (by decide)).trans <|
    (keep1 m ρ c main_arg27 (by decide)).trans <|
    (keep0 m ρ c main_arg27 (by decide)).trans rfl
theorem kept_arg28 (c : Dev nD) : W55 m ρ c (Proc.devRef .tc main_arg28) = m ((c : Thread nD τ).loc main_arg28) :=
  (keep54 m ρ c main_arg28 (by decide)).trans <|
    (keep53 m ρ c main_arg28 (by decide)).trans <|
    (keep52 m ρ c main_arg28 (by decide)).trans <|
    (keep51 m ρ c main_arg28 (by decide)).trans <|
    (keep50 m ρ c main_arg28 (by decide)).trans <|
    (keep49 m ρ c main_arg28 (by decide)).trans <|
    (keep48 m ρ c main_arg28 (by decide)).trans <|
    (keep47 m ρ c main_arg28 (by decide)).trans <|
    (keep46 m ρ c main_arg28 (by decide)).trans <|
    (keep45 m ρ c main_arg28 (by decide)).trans <|
    (keep44 m ρ c main_arg28 (by decide)).trans <|
    (keep43 m ρ c main_arg28 (by decide)).trans <|
    (keep42 m ρ c main_arg28 (by decide)).trans <|
    (keep41 m ρ c main_arg28 (by decide)).trans <|
    (keep40 m ρ c main_arg28 (by decide)).trans <|
    (keep39 m ρ c main_arg28 (by decide)).trans <|
    (keep38 m ρ c main_arg28 (by decide)).trans <|
    (keep37 m ρ c main_arg28 (by decide)).trans <|
    (keep36 m ρ c main_arg28 (by decide)).trans <|
    (keep35 m ρ c main_arg28 (by decide)).trans <|
    (keep34 m ρ c main_arg28 (by decide)).trans <|
    (keep33 m ρ c main_arg28 (by decide)).trans <|
    (keep32 m ρ c main_arg28 (by decide)).trans <|
    (keep31 m ρ c main_arg28 (by decide)).trans <|
    (keep30 m ρ c main_arg28 (by decide)).trans <|
    (keep29 m ρ c main_arg28 (by decide)).trans <|
    (keep28 m ρ c main_arg28 (by decide)).trans <|
    (keep27 m ρ c main_arg28 (by decide)).trans <|
    (keep26 m ρ c main_arg28 (by decide)).trans <|
    (keep25 m ρ c main_arg28 (by decide)).trans <|
    (keep24 m ρ c main_arg28 (by decide)).trans <|
    (keep23 m ρ c main_arg28 (by decide)).trans <|
    (keep22 m ρ c main_arg28 (by decide)).trans <|
    (keep21 m ρ c main_arg28 (by decide)).trans <|
    (keep20 m ρ c main_arg28 (by decide)).trans <|
    (keep19 m ρ c main_arg28 (by decide)).trans <|
    (keep18 m ρ c main_arg28 (by decide)).trans <|
    (keep17 m ρ c main_arg28 (by decide)).trans <|
    (keep16 m ρ c main_arg28 (by decide)).trans <|
    (keep15 m ρ c main_arg28 (by decide)).trans <|
    (keep14 m ρ c main_arg28 (by decide)).trans <|
    (keep13 m ρ c main_arg28 (by decide)).trans <|
    (keep12 m ρ c main_arg28 (by decide)).trans <|
    (keep11 m ρ c main_arg28 (by decide)).trans <|
    (keep10 m ρ c main_arg28 (by decide)).trans <|
    (keep9 m ρ c main_arg28 (by decide)).trans <|
    (keep8 m ρ c main_arg28 (by decide)).trans <|
    (keep7 m ρ c main_arg28 (by decide)).trans <|
    (keep6 m ρ c main_arg28 (by decide)).trans <|
    (keep5 m ρ c main_arg28 (by decide)).trans <|
    (keep4 m ρ c main_arg28 (by decide)).trans <|
    (keep3 m ρ c main_arg28 (by decide)).trans <|
    (keep2 m ρ c main_arg28 (by decide)).trans <|
    (keep1 m ρ c main_arg28 (by decide)).trans <|
    (keep0 m ρ c main_arg28 (by decide)).trans rfl
theorem kept_arg29 (c : Dev nD) : W55 m ρ c (Proc.devRef .tc main_arg29) = m ((c : Thread nD τ).loc main_arg29) :=
  (keep54 m ρ c main_arg29 (by decide)).trans <|
    (keep53 m ρ c main_arg29 (by decide)).trans <|
    (keep52 m ρ c main_arg29 (by decide)).trans <|
    (keep51 m ρ c main_arg29 (by decide)).trans <|
    (keep50 m ρ c main_arg29 (by decide)).trans <|
    (keep49 m ρ c main_arg29 (by decide)).trans <|
    (keep48 m ρ c main_arg29 (by decide)).trans <|
    (keep47 m ρ c main_arg29 (by decide)).trans <|
    (keep46 m ρ c main_arg29 (by decide)).trans <|
    (keep45 m ρ c main_arg29 (by decide)).trans <|
    (keep44 m ρ c main_arg29 (by decide)).trans <|
    (keep43 m ρ c main_arg29 (by decide)).trans <|
    (keep42 m ρ c main_arg29 (by decide)).trans <|
    (keep41 m ρ c main_arg29 (by decide)).trans <|
    (keep40 m ρ c main_arg29 (by decide)).trans <|
    (keep39 m ρ c main_arg29 (by decide)).trans <|
    (keep38 m ρ c main_arg29 (by decide)).trans <|
    (keep37 m ρ c main_arg29 (by decide)).trans <|
    (keep36 m ρ c main_arg29 (by decide)).trans <|
    (keep35 m ρ c main_arg29 (by decide)).trans <|
    (keep34 m ρ c main_arg29 (by decide)).trans <|
    (keep33 m ρ c main_arg29 (by decide)).trans <|
    (keep32 m ρ c main_arg29 (by decide)).trans <|
    (keep31 m ρ c main_arg29 (by decide)).trans <|
    (keep30 m ρ c main_arg29 (by decide)).trans <|
    (keep29 m ρ c main_arg29 (by decide)).trans <|
    (keep28 m ρ c main_arg29 (by decide)).trans <|
    (keep27 m ρ c main_arg29 (by decide)).trans <|
    (keep26 m ρ c main_arg29 (by decide)).trans <|
    (keep25 m ρ c main_arg29 (by decide)).trans <|
    (keep24 m ρ c main_arg29 (by decide)).trans <|
    (keep23 m ρ c main_arg29 (by decide)).trans <|
    (keep22 m ρ c main_arg29 (by decide)).trans <|
    (keep21 m ρ c main_arg29 (by decide)).trans <|
    (keep20 m ρ c main_arg29 (by decide)).trans <|
    (keep19 m ρ c main_arg29 (by decide)).trans <|
    (keep18 m ρ c main_arg29 (by decide)).trans <|
    (keep17 m ρ c main_arg29 (by decide)).trans <|
    (keep16 m ρ c main_arg29 (by decide)).trans <|
    (keep15 m ρ c main_arg29 (by decide)).trans <|
    (keep14 m ρ c main_arg29 (by decide)).trans <|
    (keep13 m ρ c main_arg29 (by decide)).trans <|
    (keep12 m ρ c main_arg29 (by decide)).trans <|
    (keep11 m ρ c main_arg29 (by decide)).trans <|
    (keep10 m ρ c main_arg29 (by decide)).trans <|
    (keep9 m ρ c main_arg29 (by decide)).trans <|
    (keep8 m ρ c main_arg29 (by decide)).trans <|
    (keep7 m ρ c main_arg29 (by decide)).trans <|
    (keep6 m ρ c main_arg29 (by decide)).trans <|
    (keep5 m ρ c main_arg29 (by decide)).trans <|
    (keep4 m ρ c main_arg29 (by decide)).trans <|
    (keep3 m ρ c main_arg29 (by decide)).trans <|
    (keep2 m ρ c main_arg29 (by decide)).trans <|
    (keep1 m ρ c main_arg29 (by decide)).trans <|
    (keep0 m ρ c main_arg29 (by decide)).trans rfl
theorem kept_arg30 (c : Dev nD) : W55 m ρ c (Proc.devRef .tc main_arg30) = m ((c : Thread nD τ).loc main_arg30) :=
  (keep54 m ρ c main_arg30 (by decide)).trans <|
    (keep53 m ρ c main_arg30 (by decide)).trans <|
    (keep52 m ρ c main_arg30 (by decide)).trans <|
    (keep51 m ρ c main_arg30 (by decide)).trans <|
    (keep50 m ρ c main_arg30 (by decide)).trans <|
    (keep49 m ρ c main_arg30 (by decide)).trans <|
    (keep48 m ρ c main_arg30 (by decide)).trans <|
    (keep47 m ρ c main_arg30 (by decide)).trans <|
    (keep46 m ρ c main_arg30 (by decide)).trans <|
    (keep45 m ρ c main_arg30 (by decide)).trans <|
    (keep44 m ρ c main_arg30 (by decide)).trans <|
    (keep43 m ρ c main_arg30 (by decide)).trans <|
    (keep42 m ρ c main_arg30 (by decide)).trans <|
    (keep41 m ρ c main_arg30 (by decide)).trans <|
    (keep40 m ρ c main_arg30 (by decide)).trans <|
    (keep39 m ρ c main_arg30 (by decide)).trans <|
    (keep38 m ρ c main_arg30 (by decide)).trans <|
    (keep37 m ρ c main_arg30 (by decide)).trans <|
    (keep36 m ρ c main_arg30 (by decide)).trans <|
    (keep35 m ρ c main_arg30 (by decide)).trans <|
    (keep34 m ρ c main_arg30 (by decide)).trans <|
    (keep33 m ρ c main_arg30 (by decide)).trans <|
    (keep32 m ρ c main_arg30 (by decide)).trans <|
    (keep31 m ρ c main_arg30 (by decide)).trans <|
    (keep30 m ρ c main_arg30 (by decide)).trans <|
    (keep29 m ρ c main_arg30 (by decide)).trans <|
    (keep28 m ρ c main_arg30 (by decide)).trans <|
    (keep27 m ρ c main_arg30 (by decide)).trans <|
    (keep26 m ρ c main_arg30 (by decide)).trans <|
    (keep25 m ρ c main_arg30 (by decide)).trans <|
    (keep24 m ρ c main_arg30 (by decide)).trans <|
    (keep23 m ρ c main_arg30 (by decide)).trans <|
    (keep22 m ρ c main_arg30 (by decide)).trans <|
    (keep21 m ρ c main_arg30 (by decide)).trans <|
    (keep20 m ρ c main_arg30 (by decide)).trans <|
    (keep19 m ρ c main_arg30 (by decide)).trans <|
    (keep18 m ρ c main_arg30 (by decide)).trans <|
    (keep17 m ρ c main_arg30 (by decide)).trans <|
    (keep16 m ρ c main_arg30 (by decide)).trans <|
    (keep15 m ρ c main_arg30 (by decide)).trans <|
    (keep14 m ρ c main_arg30 (by decide)).trans <|
    (keep13 m ρ c main_arg30 (by decide)).trans <|
    (keep12 m ρ c main_arg30 (by decide)).trans <|
    (keep11 m ρ c main_arg30 (by decide)).trans <|
    (keep10 m ρ c main_arg30 (by decide)).trans <|
    (keep9 m ρ c main_arg30 (by decide)).trans <|
    (keep8 m ρ c main_arg30 (by decide)).trans <|
    (keep7 m ρ c main_arg30 (by decide)).trans <|
    (keep6 m ρ c main_arg30 (by decide)).trans <|
    (keep5 m ρ c main_arg30 (by decide)).trans <|
    (keep4 m ρ c main_arg30 (by decide)).trans <|
    (keep3 m ρ c main_arg30 (by decide)).trans <|
    (keep2 m ρ c main_arg30 (by decide)).trans <|
    (keep1 m ρ c main_arg30 (by decide)).trans <|
    (keep0 m ρ c main_arg30 (by decide)).trans rfl
theorem kept_arg31 (c : Dev nD) : W55 m ρ c (Proc.devRef .tc main_arg31) = m ((c : Thread nD τ).loc main_arg31) :=
  (keep54 m ρ c main_arg31 (by decide)).trans <|
    (keep53 m ρ c main_arg31 (by decide)).trans <|
    (keep52 m ρ c main_arg31 (by decide)).trans <|
    (keep51 m ρ c main_arg31 (by decide)).trans <|
    (keep50 m ρ c main_arg31 (by decide)).trans <|
    (keep49 m ρ c main_arg31 (by decide)).trans <|
    (keep48 m ρ c main_arg31 (by decide)).trans <|
    (keep47 m ρ c main_arg31 (by decide)).trans <|
    (keep46 m ρ c main_arg31 (by decide)).trans <|
    (keep45 m ρ c main_arg31 (by decide)).trans <|
    (keep44 m ρ c main_arg31 (by decide)).trans <|
    (keep43 m ρ c main_arg31 (by decide)).trans <|
    (keep42 m ρ c main_arg31 (by decide)).trans <|
    (keep41 m ρ c main_arg31 (by decide)).trans <|
    (keep40 m ρ c main_arg31 (by decide)).trans <|
    (keep39 m ρ c main_arg31 (by decide)).trans <|
    (keep38 m ρ c main_arg31 (by decide)).trans <|
    (keep37 m ρ c main_arg31 (by decide)).trans <|
    (keep36 m ρ c main_arg31 (by decide)).trans <|
    (keep35 m ρ c main_arg31 (by decide)).trans <|
    (keep34 m ρ c main_arg31 (by decide)).trans <|
    (keep33 m ρ c main_arg31 (by decide)).trans <|
    (keep32 m ρ c main_arg31 (by decide)).trans <|
    (keep31 m ρ c main_arg31 (by decide)).trans <|
    (keep30 m ρ c main_arg31 (by decide)).trans <|
    (keep29 m ρ c main_arg31 (by decide)).trans <|
    (keep28 m ρ c main_arg31 (by decide)).trans <|
    (keep27 m ρ c main_arg31 (by decide)).trans <|
    (keep26 m ρ c main_arg31 (by decide)).trans <|
    (keep25 m ρ c main_arg31 (by decide)).trans <|
    (keep24 m ρ c main_arg31 (by decide)).trans <|
    (keep23 m ρ c main_arg31 (by decide)).trans <|
    (keep22 m ρ c main_arg31 (by decide)).trans <|
    (keep21 m ρ c main_arg31 (by decide)).trans <|
    (keep20 m ρ c main_arg31 (by decide)).trans <|
    (keep19 m ρ c main_arg31 (by decide)).trans <|
    (keep18 m ρ c main_arg31 (by decide)).trans <|
    (keep17 m ρ c main_arg31 (by decide)).trans <|
    (keep16 m ρ c main_arg31 (by decide)).trans <|
    (keep15 m ρ c main_arg31 (by decide)).trans <|
    (keep14 m ρ c main_arg31 (by decide)).trans <|
    (keep13 m ρ c main_arg31 (by decide)).trans <|
    (keep12 m ρ c main_arg31 (by decide)).trans <|
    (keep11 m ρ c main_arg31 (by decide)).trans <|
    (keep10 m ρ c main_arg31 (by decide)).trans <|
    (keep9 m ρ c main_arg31 (by decide)).trans <|
    (keep8 m ρ c main_arg31 (by decide)).trans <|
    (keep7 m ρ c main_arg31 (by decide)).trans <|
    (keep6 m ρ c main_arg31 (by decide)).trans <|
    (keep5 m ρ c main_arg31 (by decide)).trans <|
    (keep4 m ρ c main_arg31 (by decide)).trans <|
    (keep3 m ρ c main_arg31 (by decide)).trans <|
    (keep2 m ρ c main_arg31 (by decide)).trans <|
    (keep1 m ρ c main_arg31 (by decide)).trans <|
    (keep0 m ρ c main_arg31 (by decide)).trans rfl
theorem kept_arg32 (c : Dev nD) : W55 m ρ c (Proc.devRef .tc main_arg32) = m ((c : Thread nD τ).loc main_arg32) :=
  (keep54 m ρ c main_arg32 (by decide)).trans <|
    (keep53 m ρ c main_arg32 (by decide)).trans <|
    (keep52 m ρ c main_arg32 (by decide)).trans <|
    (keep51 m ρ c main_arg32 (by decide)).trans <|
    (keep50 m ρ c main_arg32 (by decide)).trans <|
    (keep49 m ρ c main_arg32 (by decide)).trans <|
    (keep48 m ρ c main_arg32 (by decide)).trans <|
    (keep47 m ρ c main_arg32 (by decide)).trans <|
    (keep46 m ρ c main_arg32 (by decide)).trans <|
    (keep45 m ρ c main_arg32 (by decide)).trans <|
    (keep44 m ρ c main_arg32 (by decide)).trans <|
    (keep43 m ρ c main_arg32 (by decide)).trans <|
    (keep42 m ρ c main_arg32 (by decide)).trans <|
    (keep41 m ρ c main_arg32 (by decide)).trans <|
    (keep40 m ρ c main_arg32 (by decide)).trans <|
    (keep39 m ρ c main_arg32 (by decide)).trans <|
    (keep38 m ρ c main_arg32 (by decide)).trans <|
    (keep37 m ρ c main_arg32 (by decide)).trans <|
    (keep36 m ρ c main_arg32 (by decide)).trans <|
    (keep35 m ρ c main_arg32 (by decide)).trans <|
    (keep34 m ρ c main_arg32 (by decide)).trans <|
    (keep33 m ρ c main_arg32 (by decide)).trans <|
    (keep32 m ρ c main_arg32 (by decide)).trans <|
    (keep31 m ρ c main_arg32 (by decide)).trans <|
    (keep30 m ρ c main_arg32 (by decide)).trans <|
    (keep29 m ρ c main_arg32 (by decide)).trans <|
    (keep28 m ρ c main_arg32 (by decide)).trans <|
    (keep27 m ρ c main_arg32 (by decide)).trans <|
    (keep26 m ρ c main_arg32 (by decide)).trans <|
    (keep25 m ρ c main_arg32 (by decide)).trans <|
    (keep24 m ρ c main_arg32 (by decide)).trans <|
    (keep23 m ρ c main_arg32 (by decide)).trans <|
    (keep22 m ρ c main_arg32 (by decide)).trans <|
    (keep21 m ρ c main_arg32 (by decide)).trans <|
    (keep20 m ρ c main_arg32 (by decide)).trans <|
    (keep19 m ρ c main_arg32 (by decide)).trans <|
    (keep18 m ρ c main_arg32 (by decide)).trans <|
    (keep17 m ρ c main_arg32 (by decide)).trans <|
    (keep16 m ρ c main_arg32 (by decide)).trans <|
    (keep15 m ρ c main_arg32 (by decide)).trans <|
    (keep14 m ρ c main_arg32 (by decide)).trans <|
    (keep13 m ρ c main_arg32 (by decide)).trans <|
    (keep12 m ρ c main_arg32 (by decide)).trans <|
    (keep11 m ρ c main_arg32 (by decide)).trans <|
    (keep10 m ρ c main_arg32 (by decide)).trans <|
    (keep9 m ρ c main_arg32 (by decide)).trans <|
    (keep8 m ρ c main_arg32 (by decide)).trans <|
    (keep7 m ρ c main_arg32 (by decide)).trans <|
    (keep6 m ρ c main_arg32 (by decide)).trans <|
    (keep5 m ρ c main_arg32 (by decide)).trans <|
    (keep4 m ρ c main_arg32 (by decide)).trans <|
    (keep3 m ρ c main_arg32 (by decide)).trans <|
    (keep2 m ρ c main_arg32 (by decide)).trans <|
    (keep1 m ρ c main_arg32 (by decide)).trans <|
    (keep0 m ρ c main_arg32 (by decide)).trans rfl
theorem kept_arg33 (c : Dev nD) : W55 m ρ c (Proc.devRef .tc main_arg33) = m ((c : Thread nD τ).loc main_arg33) :=
  (keep54 m ρ c main_arg33 (by decide)).trans <|
    (keep53 m ρ c main_arg33 (by decide)).trans <|
    (keep52 m ρ c main_arg33 (by decide)).trans <|
    (keep51 m ρ c main_arg33 (by decide)).trans <|
    (keep50 m ρ c main_arg33 (by decide)).trans <|
    (keep49 m ρ c main_arg33 (by decide)).trans <|
    (keep48 m ρ c main_arg33 (by decide)).trans <|
    (keep47 m ρ c main_arg33 (by decide)).trans <|
    (keep46 m ρ c main_arg33 (by decide)).trans <|
    (keep45 m ρ c main_arg33 (by decide)).trans <|
    (keep44 m ρ c main_arg33 (by decide)).trans <|
    (keep43 m ρ c main_arg33 (by decide)).trans <|
    (keep42 m ρ c main_arg33 (by decide)).trans <|
    (keep41 m ρ c main_arg33 (by decide)).trans <|
    (keep40 m ρ c main_arg33 (by decide)).trans <|
    (keep39 m ρ c main_arg33 (by decide)).trans <|
    (keep38 m ρ c main_arg33 (by decide)).trans <|
    (keep37 m ρ c main_arg33 (by decide)).trans <|
    (keep36 m ρ c main_arg33 (by decide)).trans <|
    (keep35 m ρ c main_arg33 (by decide)).trans <|
    (keep34 m ρ c main_arg33 (by decide)).trans <|
    (keep33 m ρ c main_arg33 (by decide)).trans <|
    (keep32 m ρ c main_arg33 (by decide)).trans <|
    (keep31 m ρ c main_arg33 (by decide)).trans <|
    (keep30 m ρ c main_arg33 (by decide)).trans <|
    (keep29 m ρ c main_arg33 (by decide)).trans <|
    (keep28 m ρ c main_arg33 (by decide)).trans <|
    (keep27 m ρ c main_arg33 (by decide)).trans <|
    (keep26 m ρ c main_arg33 (by decide)).trans <|
    (keep25 m ρ c main_arg33 (by decide)).trans <|
    (keep24 m ρ c main_arg33 (by decide)).trans <|
    (keep23 m ρ c main_arg33 (by decide)).trans <|
    (keep22 m ρ c main_arg33 (by decide)).trans <|
    (keep21 m ρ c main_arg33 (by decide)).trans <|
    (keep20 m ρ c main_arg33 (by decide)).trans <|
    (keep19 m ρ c main_arg33 (by decide)).trans <|
    (keep18 m ρ c main_arg33 (by decide)).trans <|
    (keep17 m ρ c main_arg33 (by decide)).trans <|
    (keep16 m ρ c main_arg33 (by decide)).trans <|
    (keep15 m ρ c main_arg33 (by decide)).trans <|
    (keep14 m ρ c main_arg33 (by decide)).trans <|
    (keep13 m ρ c main_arg33 (by decide)).trans <|
    (keep12 m ρ c main_arg33 (by decide)).trans <|
    (keep11 m ρ c main_arg33 (by decide)).trans <|
    (keep10 m ρ c main_arg33 (by decide)).trans <|
    (keep9 m ρ c main_arg33 (by decide)).trans <|
    (keep8 m ρ c main_arg33 (by decide)).trans <|
    (keep7 m ρ c main_arg33 (by decide)).trans <|
    (keep6 m ρ c main_arg33 (by decide)).trans <|
    (keep5 m ρ c main_arg33 (by decide)).trans <|
    (keep4 m ρ c main_arg33 (by decide)).trans <|
    (keep3 m ρ c main_arg33 (by decide)).trans <|
    (keep2 m ρ c main_arg33 (by decide)).trans <|
    (keep1 m ρ c main_arg33 (by decide)).trans <|
    (keep0 m ρ c main_arg33 (by decide)).trans rfl
end Cert.Kernel.Hand

end
-- ==== Proof.KI.BodyDef0.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: the dense layer relu(x W + b) on a row tile, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose
    array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is a whole block -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-! ## What the body leaves in the output window's buffer -/

/-- Window 3's staging buffer after the body, from the input windows' blocks: its one store, of the whole block. -/
def out0_3 (x0 : Vec F S5000x64 .f32) (x1 : Vec F S64x128 .f32) (x2 : Vec F S1x128 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

end Cert.KernelIdeal.Hand
-- ==== Proof.KI.BodyDef1.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 1: the dense layer relu(x W1 + y W2 + b) on a row tile, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not, for any proof data whose
    array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is a whole block -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 5's staging buffer after the body, from the input windows' blocks: its one store, of the whole block. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_0, k1_pay1 (View.ld x0 r1_0) (View.ld x2 r1_1) (View.ld x1 r1_0) (View.ld x3 r1_1) (View.ld x4 r1_2)⟩]

/-- The one store covers the buffer. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The pipeline's proof data -/

/-- The proof data of pipeline 1 on core `c`: the arrays as the region finds them (`V`); after the body at point `t`
    each input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

end Cert.KernelIdeal.Hand
-- ==== Proof.KI.BodyDef2.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 2: the dense layer relu(x W1 + y W2 + b) on a row tile, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not, for any proof data whose
    array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same of input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The same of input window 3. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The same of input window 4. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every one is a whole block -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 5's staging buffer after the body, from the input windows' blocks: its one store, of the whole block. -/
def out2_5 (x0 : Vec F S5000x128 .f32) (x1 : Vec F S5000x128 .f32) (x2 : Vec F S128x128 .f32) (x3 : Vec F S128x128 .f32) (x4 : Vec F S1x128 .f32) : Vec F S5000x128 .f32 :=
  View.canon [⟨r2_0, k2_pay1 (View.ld x0 r2_0) (View.ld x2 r2_1) (View.ld x1 r2_0) (View.ld x3 r2_1) (View.ld x4 r2_2)⟩]

/-- The one store covers the buffer. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Cert.KernelIdeal.Hand
-- ==== Proof.KI.BodyDef3.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 3: the dense layer relu(x W + b) on a row tile, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not, for any proof data whose
    array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one is a whole block -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 3's staging buffer after the body, from the input windows' blocks: its one store, of the whole block. -/
def out3_3 (x0 : Vec F S2000x128 .f32) (x1 : Vec F S128x128 .f32) (x2 : Vec F S1x128 .f32) : Vec F S2000x128 .f32 :=
  View.canon [⟨r3_0, k3_pay1 (View.ld x0 r3_0) (View.ld x1 r3_1) (View.ld x2 r3_2)⟩]

/-- The one store covers the buffer. -/
theorem cover3_3 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The pipeline's proof data -/

/-- The proof data of pipeline 3 on core `c`: the arrays as the region finds them (`V`); after the body at point `t`
    each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.KernelIdeal.Hand
-- ==== Proof.KI.BodyDef4.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 4: the dense layer relu(x W + b) on a row tile, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not, for any proof data whose
    array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every one is a whole block -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 3's staging buffer after the body, from the input windows' blocks: its one store, of the whole block. -/
def out4_3 (x0 : Vec F S2000x128 .f32) (x1 : Vec F S128x128 .f32) (x2 : Vec F S1x128 .f32) : Vec F S2000x128 .f32 :=
  View.canon [⟨r4_0, k4_pay1 (View.ld x0 r4_0) (View.ld x1 r4_1) (View.ld x2 r4_2)⟩]

/-- The one store covers the buffer. -/
theorem cover4_3 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The pipeline's proof data -/

/-- The proof data of pipeline 4 on core `c`: the arrays as the region finds them (`V`); after the body at point `t`
    each input's buffer at its block and the output's at `out4_3` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

end Cert.KernelIdeal.Hand
-- ==== Proof.KI.BodyDef5.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 5: the dense layer relu(x W + b) on a row tile, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not, for any proof data whose
    array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every one is a whole block -/

abbrev r5_0 : Rect S50x128 := Rect.unit (s := S50x128) ![0, 0] S50x128.size inb_S50x128_S50x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in the output window's buffer -/

/-- Window 3's staging buffer after the body, from the input windows' blocks: its one store, of the whole block. -/
def out5_3 (x0 : Vec F S50x128 .f32) (x1 : Vec F S128x128 .f32) (x2 : Vec F S1x128 .f32) : Vec F S50x128 .f32 :=
  View.canon [⟨r5_0, k5_pay1 (View.ld x0 r5_0) (View.ld x1 r5_1) (View.ld x2 r5_2)⟩]

/-- The one store covers the buffer. -/
theorem cover5_3 (p0 : Vec F S50x128 .f32) (y : S50x128.Idx) :
    ∃ pc ∈ ([⟨r5_0, p0⟩] : List (View.Piece (Elt F) S50x128 .f32)), y ∈ pc.1.set :=
  View.cover_of_tiled [⟨r5_0, p0⟩] S50x128.size (by rfl) y

/-! ## The pipeline's proof data -/

/-- The proof data of pipeline 5 on core `c`: the arrays as the region finds them (`V`); after the body at point `t`
    each input's buffer at its block and the output's at `out5_3` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

end Cert.KernelIdeal.Hand
-- ==== Proof.KI.BodyDef6.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 6: the dense layer relu(x W + b) on a row tile, at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not, for any proof data whose
    array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same of input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same of input window 2. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every one is a whole block -/

abbrev r6_0 : Rect S50x128 := Rect.unit (s := S50x128) ![0, 0] S50x128.size inb_S50x128_S50x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in the output window's buffer -/

/-- Window 3's staging buffer after the body, from the input windows' blocks: its one store, of the whole block. -/
def out6_3 (x0 : Vec F S50x128 .f32) (x1 : Vec F S128x128 .f32) (x2 : Vec F S1x128 .f32) : Vec F S50x128 .f32 :=
  View.canon [⟨r6_0, k6_pay1 (View.ld x0 r6_0) (View.ld x1 r6_1) (View.ld x2 r6_2)⟩]

/-- The one store covers the buffer. -/
theorem cover6_3 (p0 : Vec F S50x128 .f32) (y : S50x128.Idx) :
    ∃ pc ∈ ([⟨r6_0, p0⟩] : List (View.Piece (Elt F) S50x128 .f32)), y ∈ pc.1.set :=
  View.cover_of_tiled [⟨r6_0, p0⟩] S50x128.size (by rfl) y

/-! ## The pipeline's proof data -/

/-- The proof data of pipeline 6 on core `c`: the arrays as the region finds them (`V`); after the body at point `t`
    each input's buffer at its block and the output's at `out6_3` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

end Cert.KernelIdeal.Hand
-- ==== Proof.KI.BodyDef7.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 7: the dense layer relu(x W1 + y W2 + b) on a row tile, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not, for any proof data whose
    array is `V`'s and whose body leaves the block in place: unfetched, the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same of input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same of input window 2. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- The same of input window 3. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- The same of input window 4. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every one is a whole block -/

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

/-! ## What the body leaves in the output window's buffer -/

/-- Window 5's staging buffer after the body, from the input windows' blocks: its one store, of the whole block. -/
def out7_5 (x0 : Vec F S5000x128 .f32) (x1 : Vec F S5000x128 .f32) (x2 : Vec F S128x128 .f32) (x3 : Vec F S128x128 .f32) (x4 : Vec F S1x128 .f32) : Vec F S5000x128 .f32 :=
  View.canon [⟨r7_0, k7_pay1 (View.ld x0 r7_0) (View.ld x2 r7_1) (View.ld x1 r7_0) (View.ld x3 r7_1) (View.ld x4 r7_2)⟩]

/-- The one store covers the buffer. -/
theorem cover7_5 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The pipeline's proof data -/

/-- The proof data of pipeline 7 on core `c`: the arrays as the region finds them (`V`); after the body at point `t`
    each input's buffer at its block and the output's at `out7_5` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

end Cert.KernelIdeal.Hand
-- ==== Proof.KI.BodyDef8.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 8: the dense layer relu(x W1 + y W2 + z W3 + b) on a row tile, at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not, for any proof data whose
    array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same of input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The same of input window 2. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- The same of input window 3. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- The same of input window 4. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- The same of input window 5. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- The same of input window 6. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every one is a whole block -/

abbrev r8_0 : Rect S2000x128 := Rect.unit (s := S2000x128) ![0, 0] S2000x128.size inb_S2000x128_S2000x128_0_0
abbrev r8_1 : Rect S128x128 := Rect.unit (s := S128x128) ![0, 0] S128x128.size inb_S128x128_S128x128_0_0
abbrev r8_2 : Rect S1x128 := Rect.unit (s := S1x128) ![0, 0] S1x128.size inb_S1x128_S1x128_0_0

/-! ## What the body leaves in the output window's buffer -/

/-- Window 7's staging buffer after the body, from the input windows' blocks: its one store, of the whole block. -/
def out8_7 (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) : Vec F S2000x128 .f32 :=
  View.canon [⟨r8_0, k8_pay1 (View.ld x0 r8_0) (View.ld x3 r8_1) (View.ld x1 r8_0) (View.ld x4 r8_1) (View.ld x2 r8_0) (View.ld x5 r8_1) (View.ld x6 r8_2)⟩]

/-- The one store covers the buffer. -/
theorem cover8_7 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The pipeline's proof data -/

/-- The proof data of pipeline 8 on core `c`: the arrays as the region finds them (`V`); after the body at point `t`
    each input's buffer at its block and the output's at `out8_7` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

end Cert.KernelIdeal.Hand
-- ==== Proof.KI.BodyDef9.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 9: the dense layer relu(x W1 + y W2 + b) on a row tile, at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not, for any proof data whose
    array is `V`'s and whose body leaves the block in place: unfetched, the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same of input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same of input window 2. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same of input window 3. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- The same of input window 4. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every one is a whole block -/

abbrev r9_0 : Rect S50x128 := Rect.unit (s := S50x128) ![0, 0] S50x128.size inb_S50x128_S50x128_0_0
abbrev r9_1 : Rect S128x128 := Rect.unit (s := S128x128) ![0, 0] S128x128.size inb_S128x128_S128x128_0_0
abbrev r9_2 : Rect S1x128 := Rect.unit (s := S1x128) ![0, 0] S1x128.size inb_S1x128_S1x128_0_0

/-! ## What the body leaves in the output window's buffer -/

/-- Window 5's staging buffer after the body, from the input windows' blocks: its one store, of the whole block. -/
def out9_5 (x0 : Vec F S50x128 .f32) (x1 : Vec F S50x128 .f32) (x2 : Vec F S128x128 .f32) (x3 : Vec F S128x128 .f32) (x4 : Vec F S1x128 .f32) : Vec F S50x128 .f32 :=
  View.canon [⟨r9_0, k9_pay1 (View.ld x0 r9_0) (View.ld x2 r9_1) (View.ld x1 r9_0) (View.ld x3 r9_1) (View.ld x4 r9_2)⟩]

/-- The one store covers the buffer. -/
theorem cover9_5 (p0 : Vec F S50x128 .f32) (y : S50x128.Idx) :
    ∃ pc ∈ ([⟨r9_0, p0⟩] : List (View.Piece (Elt F) S50x128 .f32)), y ∈ pc.1.set :=
  View.cover_of_tiled [⟨r9_0, p0⟩] S50x128.size (by rfl) y

/-! ## The pipeline's proof data -/

/-- The proof data of pipeline 9 on core `c`: the arrays as the region finds them (`V`); after the body at point `t`
    each input's buffer at its block and the output's at `out9_5` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

end Cert.KernelIdeal.Hand
-- ==== Proof.KI.BodyDef10.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 10: the dense layer relu(x W1 + y W2 + b) on a row tile, at the entry contents `V` -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not, for any proof data whose
    array is `V`'s and whose body leaves the block in place: unfetched, the block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same of input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same of input window 2. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- The same of input window 3. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- The same of input window 4. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: every one is a whole block -/

abbrev r10_0 : Rect S5000x128 := Rect.unit (s := S5000x128) ![0, 0] S5000x128.size inb_S5000x128_S5000x128_0_0
abbrev r10_1 : Rect S128x128 := Rect.unit (s := S128x128) ![0, 0] S128x128.size inb_S128x128_S128x128_0_0
abbrev r10_2 : Rect S1x128 := Rect.unit (s := S1x128) ![0, 0] S1x128.size inb_S1x128_S1x128_0_0

/-! ## What the body leaves in the output window's buffer -/

/-- Window 5's staging buffer after the body, from the input windows' blocks: its one store, of the whole block. -/
def out10_5 (x0 : Vec F S5000x128 .f32) (x1 : Vec F S5000x128 .f32) (x2 : Vec F S128x128 .f32) (x3 : Vec F S128x128 .f32) (x4 : Vec F S1x128 .f32) : Vec F S5000x128 .f32 :=
  View.canon [⟨r10_0, k10_pay1 (View.ld x0 r10_0) (View.ld x2 r10_1) (View.ld x1 r10_0) (View.ld x3 r10_1) (View.ld x4 r10_2)⟩]

/-- The one store covers the buffer. -/
theorem cover10_5 (p0 : Vec F S5000x128 .f32) (y : S5000x128.Idx) :
    ∃ pc ∈ ([⟨r10_0, p0⟩] : List (View.Piece (Elt F) S5000x128 .f32)), y ∈ pc.1.set :=
  View.cover_of_tiled [⟨r10_0, p0⟩] S5000x128.size (by rfl) y

/-! ## The pipeline's proof data -/

/-- The proof data of pipeline 10 on core `c`: the arrays as the region finds them (`V`); after the body at point `t`
    each input's buffer at its block and the output's at `out10_5` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

end Cert.KernelIdeal.Hand
-- ==== Proof.KI.BodyDef11.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 11: the dense layer relu(x W1 + y W2 + b) on a row tile, at the entry contents `V` -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not, for any proof data whose
    array is `V`'s and whose body leaves the block in place: unfetched, the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same of input window 1. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The same of input window 2. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- The same of input window 3. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- The same of input window 4. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every one is a whole block -/

abbrev r11_0 : Rect S5000x128 := Rect.unit (s := S5000x128) ![0, 0] S5000x128.size inb_S5000x128_S5000x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0

/-! ## What the body leaves in the output window's buffer -/

/-- Window 5's staging buffer after the body, from the input windows' blocks: its one store, of the whole block. -/
def out11_5 (x0 : Vec F S5000x128 .f32) (x1 : Vec F S5000x128 .f32) (x2 : Vec F S128x128 .f32) (x3 : Vec F S128x128 .f32) (x4 : Vec F S1x128 .f32) : Vec F S5000x128 .f32 :=
  View.canon [⟨r11_0, k11_pay1 (View.ld x0 r11_0) (View.ld x2 r11_1) (View.ld x1 r11_0) (View.ld x3 r11_1) (View.ld x4 r11_2)⟩]

/-- The one store covers the buffer. -/
theorem cover11_5 (p0 : Vec F S5000x128 .f32) (y : S5000x128.Idx) :
    ∃ pc ∈ ([⟨r11_0, p0⟩] : List (View.Piece (Elt F) S5000x128 .f32)), y ∈ pc.1.set :=
  View.cover_of_tiled [⟨r11_0, p0⟩] S5000x128.size (by rfl) y

/-! ## The pipeline's proof data -/

/-- The proof data of pipeline 11 on core `c`: the arrays as the region finds them (`V`); after the body at point `t`
    each input's buffer at its block and the output's at `out11_5` of the input blocks; the invariant the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

end Cert.KernelIdeal.Hand
-- ==== Proof.KI.BodyDef12.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 12: the dense layer relu(x W + b) on a row tile, at the entry contents `V` -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not, for any proof data whose
    array is `V`'s and whose body leaves the block in place: unfetched, the block index has not moved. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same of input window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- The same of input window 2. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every one is a whole block -/

abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0

/-! ## What the body leaves in the output window's buffer -/

/-- Window 3's staging buffer after the body, from the input windows' blocks: its one store, of the whole block. -/
def out12_3 (x0 : Vec F S2000x128 .f32) (x1 : Vec F S128x128 .f32) (x2 : Vec F S1x128 .f32) : Vec F S2000x128 .f32 :=
  View.canon [⟨r12_0, k12_pay1 (View.ld x0 r12_0) (View.ld x1 r12_1) (View.ld x2 r12_2)⟩]

/-- The one store covers the buffer. -/
theorem cover12_3 (p0 : Vec F S2000x128 .f32) (y : S2000x128.Idx) :
    ∃ pc ∈ ([⟨r12_0, p0⟩] : List (View.Piece (Elt F) S2000x128 .f32)), y ∈ pc.1.set :=
  View.cover_of_tiled [⟨r12_0, p0⟩] S2000x128.size (by rfl) y

/-! ## The pipeline's proof data -/

/-- The proof data of pipeline 12 on core `c`: the arrays as the region finds them (`V`); after the body at point `t`
    each input's buffer at its block and the output's at `out12_3` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

end Cert.KernelIdeal.Hand
-- ==== Proof.KI.BodyDef13.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 13: the dense layer relu(x W + b) on a row tile, at the entry contents `V` -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or not, for any proof data whose
    array is `V`'s and whose body leaves the block in place: unfetched, the block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The same of input window 1. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- The same of input window 2. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every one is a whole block -/

abbrev r13_0 : Rect S2000x128 := Rect.unit (s := S2000x128) ![0, 0] S2000x128.size inb_S2000x128_S2000x128_0_0
abbrev r13_1 : Rect S128x128 := Rect.unit (s := S128x128) ![0, 0] S128x128.size inb_S128x128_S128x128_0_0
abbrev r13_2 : Rect S1x128 := Rect.unit (s := S1x128) ![0, 0] S1x128.size inb_S1x128_S1x128_0_0

/-! ## What the body leaves in the output window's buffer -/

/-- Window 3's staging buffer after the body, from the input windows' blocks: its one store, of the whole block. -/
def out13_3 (x0 : Vec F S2000x128 .f32) (x1 : Vec F S128x128 .f32) (x2 : Vec F S1x128 .f32) : Vec F S2000x128 .f32 :=
  View.canon [⟨r13_0, k13_pay1 (View.ld x0 r13_0) (View.ld x1 r13_1) (View.ld x2 r13_2)⟩]

/-- The one store covers the buffer. -/
theorem cover13_3 (p0 : Vec F S2000x128 .f32) (y : S2000x128.Idx) :
    ∃ pc ∈ ([⟨r13_0, p0⟩] : List (View.Piece (Elt F) S2000x128 .f32)), y ∈ pc.1.set :=
  View.cover_of_tiled [⟨r13_0, p0⟩] S2000x128.size (by rfl) y

/-! ## The pipeline's proof data -/

/-- The proof data of pipeline 13 on core `c`: the arrays as the region finds them (`V`); after the body at point `t`
    each input's buffer at its block and the output's at `out13_3` of the input blocks; the invariant the scoped rest
    and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) (iblk13 V c 2 t) := by dsimp only [dat13]

end Cert.KernelIdeal.Hand
-- ==== Proof.KI.BodyDef14.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 14: the dense layer relu(x W + b) on a row tile, at the entry contents `V` -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or not, for any proof data whose
    array is `V`'s and whose body leaves the block in place: unfetched, the block index has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same of input window 1. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- The same of input window 2. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: every one is a whole block -/

abbrev r14_0 : Rect S50x128 := Rect.unit (s := S50x128) ![0, 0] S50x128.size inb_S50x128_S50x128_0_0
abbrev r14_1 : Rect S128x128 := Rect.unit (s := S128x128) ![0, 0] S128x128.size inb_S128x128_S128x128_0_0
abbrev r14_2 : Rect S1x128 := Rect.unit (s := S1x128) ![0, 0] S1x128.size inb_S1x128_S1x128_0_0

/-! ## What the body leaves in the output window's buffer -/

/-- Window 3's staging buffer after the body, from the input windows' blocks: its one store, of the whole block. -/
def out14_3 (x0 : Vec F S50x128 .f32) (x1 : Vec F S128x128 .f32) (x2 : Vec F S1x128 .f32) : Vec F S50x128 .f32 :=
  View.canon [⟨r14_0, k14_pay1 (View.ld x0 r14_0) (View.ld x1 r14_1) (View.ld x2 r14_2)⟩]

/-- The one store covers the buffer. -/
theorem cover14_3 (p0 : Vec F S50x128 .f32) (y : S50x128.Idx) :
    ∃ pc ∈ ([⟨r14_0, p0⟩] : List (View.Piece (Elt F) S50x128 .f32)), y ∈ pc.1.set :=
  View.cover_of_tiled [⟨r14_0, p0⟩] S50x128.size (by rfl) y

/-! ## The pipeline's proof data -/

/-- The proof data of pipeline 14 on core `c`: the arrays as the region finds them (`V`); after the body at point `t`
    each input's buffer at its block and the output's at `out14_3` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

end Cert.KernelIdeal.Hand
-- ==== Proof.KI.BodyDef15.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 15: the dense layer relu(x W + b) on a row tile, at the entry contents `V` -/

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's staging buffer holds its block at every point, fetched there or not, for any proof data whose
    array is `V`'s and whose body leaves the block in place: unfetched, the block index has not moved. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The same of input window 1. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- The same of input window 2. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: every one is a whole block -/

abbrev r15_0 : Rect S50x128 := Rect.unit (s := S50x128) ![0, 0] S50x128.size inb_S50x128_S50x128_0_0
abbrev r15_1 : Rect S128x128 := Rect.unit (s := S128x128) ![0, 0] S128x128.size inb_S128x128_S128x128_0_0
abbrev r15_2 : Rect S1x128 := Rect.unit (s := S1x128) ![0, 0] S1x128.size inb_S1x128_S1x128_0_0

/-! ## What the body leaves in the output window's buffer -/

/-- Window 3's staging buffer after the body, from the input windows' blocks: its one store, of the whole block. -/
def out15_3 (x0 : Vec F S50x128 .f32) (x1 : Vec F S128x128 .f32) (x2 : Vec F S1x128 .f32) : Vec F S50x128 .f32 :=
  View.canon [⟨r15_0, k15_pay1 (View.ld x0 r15_0) (View.ld x1 r15_1) (View.ld x2 r15_2)⟩]

/-- The one store covers the buffer. -/
theorem cover15_3 (p0 : Vec F S50x128 .f32) (y : S50x128.Idx) :
    ∃ pc ∈ ([⟨r15_0, p0⟩] : List (View.Piece (Elt F) S50x128 .f32)), y ∈ pc.1.set :=
  View.cover_of_tiled [⟨r15_0, p0⟩] S50x128.size (by rfl) y

/-! ## The pipeline's proof data -/

/-- The proof data of pipeline 15 on core `c`: the arrays as the region finds them (`V`); after the body at point `t`
    each input's buffer at its block and the output's at `out15_3` of the input blocks; the invariant the scoped rest
    and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

end Cert.KernelIdeal.Hand
-- ==== Proof.KI.BodyDef16.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 16: the dense layer relu(x W1 + y W2 + b) on a row tile, at the entry contents `V` -/

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not, for any proof data whose
    array is `V`'s and whose body leaves the block in place: unfetched, the block index has not moved. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- The same of input window 1. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- The same of input window 2. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
/-- The same of input window 3. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
/-- The same of input window 4. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: every one is a whole block -/

abbrev r16_0 : Rect S5000x128 := Rect.unit (s := S5000x128) ![0, 0] S5000x128.size inb_S5000x128_S5000x128_0_0
abbrev r16_1 : Rect S128x128 := Rect.unit (s := S128x128) ![0, 0] S128x128.size inb_S128x128_S128x128_0_0
abbrev r16_2 : Rect S1x128 := Rect.unit (s := S1x128) ![0, 0] S1x128.size inb_S1x128_S1x128_0_0

/-! ## What the body leaves in the output window's buffer -/

/-- Window 5's staging buffer after the body, from the input windows' blocks: its one store, of the whole block. -/
def out16_5 (x0 : Vec F S5000x128 .f32) (x1 : Vec F S5000x128 .f32) (x2 : Vec F S128x128 .f32) (x3 : Vec F S128x128 .f32) (x4 : Vec F S1x128 .f32) : Vec F S5000x128 .f32 :=
  View.canon [⟨r16_0, k16_pay1 (View.ld x0 r16_0) (View.ld x2 r16_1) (View.ld x1 r16_0) (View.ld x3 r16_1) (View.ld x4 r16_2)⟩]

/-- The one store covers the buffer. -/
theorem cover16_5 (p0 : Vec F S5000x128 .f32) (y : S5000x128.Idx) :
    ∃ pc ∈ ([⟨r16_0, p0⟩] : List (View.Piece (Elt F) S5000x128 .f32)), y ∈ pc.1.set :=
  View.cover_of_tiled [⟨r16_0, p0⟩] S5000x128.size (by rfl) y

/-! ## The pipeline's proof data -/

/-- The proof data of pipeline 16 on core `c`: the arrays as the region finds them (`V`); after the body at point `t`
    each input's buffer at its block and the output's at `out16_5` of the input blocks; the invariant the scoped rest
    and the generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = out16_5 (iblk16 V c 0 t) (iblk16 V c 1 t) (iblk16 V c 2 t) (iblk16 V c 3 t) (iblk16 V c 4 t) := by dsimp only [dat16]

end Cert.KernelIdeal.Hand
-- ==== Proof.KI.BodyDef17.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 17: the dense layer relu(x W1 + y W2 + z W3 + b) on a row tile, at the entry contents `V` -/

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's staging buffer holds its block at every point, fetched there or not, for any proof data whose
    array is `V`'s and whose body leaves the block in place: unfetched, the block index has not moved. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
/-- The same of input window 1. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
/-- The same of input window 2. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
/-- The same of input window 3. -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)
/-- The same of input window 4. -/
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)
/-- The same of input window 5. -/
theorem before17_5_of {c : Dev nD} (dat : Dat τ (Elt F) Unit ℕ (UR sig nD τ) ℕ cfg17 c) (hA : dat.A 5 = V c (Pipeline.arrRef spec17 5))
    (hafter : ∀ t, dat.after 5 t = iblk17 V c 5 t) (t : Fin cfg17.N) (d) : dat.before 5 t d = iblk17 V c 5 t :=
  (dat.before_in_eq_fetched 5 rfl (fun _ => rfl) (fun _ _ _ => rfl) (fun t => by rw [hafter]; unfold Dat.blockOf iblk17; rw [hA]; try rfl) t d).trans
    (by unfold Dat.fetched Dat.blockOf iblk17; rw [hA]; try rfl)
/-- The same of input window 6. -/
theorem before17_6_of {c : Dev nD} (dat : Dat τ (Elt F) Unit ℕ (UR sig nD τ) ℕ cfg17 c) (hA : dat.A 6 = V c (Pipeline.arrRef spec17 6))
    (hafter : ∀ t, dat.after 6 t = iblk17 V c 6 t) (t : Fin cfg17.N) (d) : dat.before 6 t d = iblk17 V c 6 t :=
  (dat.before_in_eq_fetched 6 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: every one is a whole block -/

abbrev r17_0 : Rect S2000x128 := Rect.unit (s := S2000x128) ![0, 0] S2000x128.size inb_S2000x128_S2000x128_0_0
abbrev r17_1 : Rect S128x128 := Rect.unit (s := S128x128) ![0, 0] S128x128.size inb_S128x128_S128x128_0_0
abbrev r17_2 : Rect S1x128 := Rect.unit (s := S1x128) ![0, 0] S1x128.size inb_S1x128_S1x128_0_0

/-! ## What the body leaves in the output window's buffer -/

/-- Window 7's staging buffer after the body, from the input windows' blocks: its one store, of the whole block. -/
def out17_7 (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) : Vec F S2000x128 .f32 :=
  View.canon [⟨r17_0, k17_pay1 (View.ld x0 r17_0) (View.ld x3 r17_1) (View.ld x1 r17_0) (View.ld x4 r17_1) (View.ld x2 r17_0) (View.ld x5 r17_1) (View.ld x6 r17_2)⟩]

/-- The one store covers the buffer. -/
theorem cover17_7 (p0 : Vec F S2000x128 .f32) (y : S2000x128.Idx) :
    ∃ pc ∈ ([⟨r17_0, p0⟩] : List (View.Piece (Elt F) S2000x128 .f32)), y ∈ pc.1.set :=
  View.cover_of_tiled [⟨r17_0, p0⟩] S2000x128.size (by rfl) y

/-! ## The pipeline's proof data -/

/-- The proof data of pipeline 17 on core `c`: the arrays as the region finds them (`V`); after the body at point `t`
    each input's buffer at its block and the output's at `out17_7` of the input blocks; the invariant the scoped rest
    and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => iblk17 V c 5 t
    | ⟨6, _⟩ => iblk17 V c 6 t
    | ⟨7, _⟩ => out17_7 (iblk17 V c 0 t) (iblk17 V c 1 t) (iblk17 V c 2 t) (iblk17 V c 3 t) (iblk17 V c 4 t) (iblk17 V c 5 t) (iblk17 V c 6 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t = iblk17 V c 5 t := by dsimp only [dat17]
theorem after17_6 (c : Dev nD) (t : Fin cfg17.N) : (dat17 V c).after 6 t = iblk17 V c 6 t := by dsimp only [dat17]
theorem after17_7 (c : Dev nD) (t : Fin cfg17.N) : (dat17 V c).after 7 t = out17_7 (iblk17 V c 0 t) (iblk17 V c 1 t) (iblk17 V c 2 t) (iblk17 V c 3 t) (iblk17 V c 4 t) (iblk17 V c 5 t) (iblk17 V c 6 t) := by dsimp only [dat17]

end Cert.KernelIdeal.Hand
-- ==== Proof.KI.BodyDef18.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 18: the dense layer relu(x W1 + y W2 + b) on a row tile, at the entry contents `V` -/

/-! ## The windows' blocks -/

/-- Window `w`'s block at point `t`, read off its array as the region finds it (`V`). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's staging buffer holds its block at every point, fetched there or not, for any proof data whose
    array is `V`'s and whose body leaves the block in place: unfetched, the block index has not moved. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
/-- The same of input window 1. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
/-- The same of input window 2. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)
/-- The same of input window 3. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)
/-- The same of input window 4. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses: every one is a whole block -/

abbrev r18_0 : Rect S50x128 := Rect.unit (s := S50x128) ![0, 0] S50x128.size inb_S50x128_S50x128_0_0
abbrev r18_1 : Rect S128x128 := Rect.unit (s := S128x128) ![0, 0] S128x128.size inb_S128x128_S128x128_0_0
abbrev r18_2 : Rect S1x128 := Rect.unit (s := S1x128) ![0, 0] S1x128.size inb_S1x128_S1x128_0_0

/-! ## What the body leaves in the output window's buffer -/

/-- Window 5's staging buffer after the body, from the input windows' blocks: its one store, of the whole block. -/
def out18_5 (x0 : Vec F S50x128 .f32) (x1 : Vec F S50x128 .f32) (x2 : Vec F S128x128 .f32) (x3 : Vec F S128x128 .f32) (x4 : Vec F S1x128 .f32) : Vec F S50x128 .f32 :=
  View.canon [⟨r18_0, k18_pay1 (View.ld x0 r18_0) (View.ld x2 r18_1) (View.ld x1 r18_0) (View.ld x3 r18_1) (View.ld x4 r18_2)⟩]

/-- The one store covers the buffer. -/
theorem cover18_5 (p0 : Vec F S50x128 .f32) (y : S50x128.Idx) :
    ∃ pc ∈ ([⟨r18_0, p0⟩] : List (View.Piece (Elt F) S50x128 .f32)), y ∈ pc.1.set :=
  View.cover_of_tiled [⟨r18_0, p0⟩] S50x128.size (by rfl) y

/-! ## The pipeline's proof data -/

/-- The proof data of pipeline 18 on core `c`: the arrays as the region finds them (`V`); after the body at point `t`
    each input's buffer at its block and the output's at `out18_5` of the input blocks; the invariant the scoped rest
    and the generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = out18_5 (iblk18 V c 0 t) (iblk18 V c 1 t) (iblk18 V c 2 t) (iblk18 V c 3 t) (iblk18 V c 4 t) := by dsimp only [dat18]

end Cert.KernelIdeal.Hand
-- ==== Proof.KI.BodyDef19.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 19: the dense layer relu(x W1 + y W2 + b) on a row tile, at the entry contents `V` -/

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's staging buffer holds its block at every point, fetched there or not, for any proof data whose
    array is `V`'s and whose body leaves the block in place: unfetched, the block index has not moved. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- The same of input window 1. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
/-- The same of input window 2. -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)
/-- The same of input window 3. -/
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)
/-- The same of input window 4. -/
theorem before19_4_of {c : Dev nD} (dat : Dat τ (Elt F) Unit ℕ (UR sig nD τ) ℕ cfg19 c) (hA : dat.A 4 = V c (Pipeline.arrRef spec19 4))
    (hafter : ∀ t, dat.after 4 t = iblk19 V c 4 t) (t : Fin cfg19.N) (d) : dat.before 4 t d = iblk19 V c 4 t :=
  (dat.before_in_eq_fetched 4 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses: every one is a whole block -/

abbrev r19_0 : Rect S5000x128 := Rect.unit (s := S5000x128) ![0, 0] S5000x128.size inb_S5000x128_S5000x128_0_0
abbrev r19_1 : Rect S128x128 := Rect.unit (s := S128x128) ![0, 0] S128x128.size inb_S128x128_S128x128_0_0
abbrev r19_2 : Rect S1x128 := Rect.unit (s := S1x128) ![0, 0] S1x128.size inb_S1x128_S1x128_0_0

/-! ## What the body leaves in the output window's buffer -/

/-- Window 5's staging buffer after the body, from the input windows' blocks: its one store, of the whole block. -/
def out19_5 (x0 : Vec F S5000x128 .f32) (x1 : Vec F S5000x128 .f32) (x2 : Vec F S128x128 .f32) (x3 : Vec F S128x128 .f32) (x4 : Vec F S1x128 .f32) : Vec F S5000x128 .f32 :=
  View.canon [⟨r19_0, k19_pay1 (View.ld x0 r19_0) (View.ld x2 r19_1) (View.ld x1 r19_0) (View.ld x3 r19_1) (View.ld x4 r19_2)⟩]

/-- The one store covers the buffer. -/
theorem cover19_5 (p0 : Vec F S5000x128 .f32) (y : S5000x128.Idx) :
    ∃ pc ∈ ([⟨r19_0, p0⟩] : List (View.Piece (Elt F) S5000x128 .f32)), y ∈ pc.1.set :=
  View.cover_of_tiled [⟨r19_0, p0⟩] S5000x128.size (by rfl) y

/-! ## The pipeline's proof data -/

/-- The proof data of pipeline 19 on core `c`: the arrays as the region finds them (`V`); after the body at point `t`
    each input's buffer at its block and the output's at `out19_5` of the input blocks; the invariant the scoped rest
    and the generator register, untouched; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => out19_5 (iblk19 V c 0 t) (iblk19 V c 1 t) (iblk19 V c 2 t) (iblk19 V c 3 t) (iblk19 V c 4 t)
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t = out19_5 (iblk19 V c 0 t) (iblk19 V c 1 t) (iblk19 V c 2 t) (iblk19 V c 3 t) (iblk19 V c 4 t) := by dsimp only [dat19]

end Cert.KernelIdeal.Hand
-- ==== Proof.KI.BodyDef20.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 20: the dense layer relu(x W1 + y W2 + b) on a row tile, at the entry contents `V` -/

/-! ## The windows' blocks -/

/-- Window `w`'s block at point `t`, read off its array as the region finds it (`V`). -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's staging buffer holds its block at every point, fetched there or not, for any proof data whose
    array is `V`'s and whose body leaves the block in place: unfetched, the block index has not moved. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
/-- The same of input window 1. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
/-- The same of input window 2. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)
/-- The same of input window 3. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)
/-- The same of input window 4. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses: every one is a whole block -/

abbrev r20_0 : Rect S5000x128 := Rect.unit (s := S5000x128) ![0, 0] S5000x128.size inb_S5000x128_S5000x128_0_0
abbrev r20_1 : Rect S128x128 := Rect.unit (s := S128x128) ![0, 0] S128x128.size inb_S128x128_S128x128_0_0
abbrev r20_2 : Rect S1x128 := Rect.unit (s := S1x128) ![0, 0] S1x128.size inb_S1x128_S1x128_0_0

/-! ## What the body leaves in the output window's buffer -/

/-- Window 5's staging buffer after the body, from the input windows' blocks: its one store, of the whole block. -/
def out20_5 (x0 : Vec F S5000x128 .f32) (x1 : Vec F S5000x128 .f32) (x2 : Vec F S128x128 .f32) (x3 : Vec F S128x128 .f32) (x4 : Vec F S1x128 .f32) : Vec F S5000x128 .f32 :=
  View.canon [⟨r20_0, k20_pay1 (View.ld x0 r20_0) (View.ld x2 r20_1) (View.ld x1 r20_0) (View.ld x3 r20_1) (View.ld x4 r20_2)⟩]

/-- The one store covers the buffer. -/
theorem cover20_5 (p0 : Vec F S5000x128 .f32) (y : S5000x128.Idx) :
    ∃ pc ∈ ([⟨r20_0, p0⟩] : List (View.Piece (Elt F) S5000x128 .f32)), y ∈ pc.1.set :=
  View.cover_of_tiled [⟨r20_0, p0⟩] S5000x128.size (by rfl) y

/-! ## The pipeline's proof data -/

/-- The proof data of pipeline 20 on core `c`: the arrays as the region finds them (`V`); after the body at point `t`
    each input's buffer at its block and the output's at `out20_5` of the input blocks; the invariant the scoped rest
    and the generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => out20_5 (iblk20 V c 0 t) (iblk20 V c 1 t) (iblk20 V c 2 t) (iblk20 V c 3 t) (iblk20 V c 4 t)
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = out20_5 (iblk20 V c 0 t) (iblk20 V c 1 t) (iblk20 V c 2 t) (iblk20 V c 3 t) (iblk20 V c 4 t) := by dsimp only [dat20]

end Cert.KernelIdeal.Hand
-- ==== Proof.KI.BodyDef21.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 21: the dense layer relu(x W + b) on a row tile, at the entry contents `V` -/

/-! ## The windows' blocks -/

/-- Window `w`'s block at point `t`, read off its array as the region finds it (`V`). -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's staging buffer holds its block at every point, fetched there or not, for any proof data whose
    array is `V`'s and whose body leaves the block in place: unfetched, the block index has not moved. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
/-- The same of input window 1. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
/-- The same of input window 2. -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses: every one is a whole block -/

abbrev r21_0 : Rect S2000x128 := Rect.unit (s := S2000x128) ![0, 0] S2000x128.size inb_S2000x128_S2000x128_0_0
abbrev r21_1 : Rect S128x128 := Rect.unit (s := S128x128) ![0, 0] S128x128.size inb_S128x128_S128x128_0_0
abbrev r21_2 : Rect S1x128 := Rect.unit (s := S1x128) ![0, 0] S1x128.size inb_S1x128_S1x128_0_0

/-! ## What the body leaves in the output window's buffer -/

/-- Window 3's staging buffer after the body, from the input windows' blocks: its one store, of the whole block. -/
def out21_3 (x0 : Vec F S2000x128 .f32) (x1 : Vec F S128x128 .f32) (x2 : Vec F S1x128 .f32) : Vec F S2000x128 .f32 :=
  View.canon [⟨r21_0, k21_pay1 (View.ld x0 r21_0) (View.ld x1 r21_1) (View.ld x2 r21_2)⟩]

/-- The one store covers the buffer. -/
theorem cover21_3 (p0 : Vec F S2000x128 .f32) (y : S2000x128.Idx) :
    ∃ pc ∈ ([⟨r21_0, p0⟩] : List (View.Piece (Elt F) S2000x128 .f32)), y ∈ pc.1.set :=
  View.cover_of_tiled [⟨r21_0, p0⟩] S2000x128.size (by rfl) y

/-! ## The pipeline's proof data -/

/-- The proof data of pipeline 21 on core `c`: the arrays as the region finds them (`V`); after the body at point `t`
    each input's buffer at its block and the output's at `out21_3` of the input blocks; the invariant the scoped rest
    and the generator register, untouched; nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => out21_3 (iblk21 V c 0 t) (iblk21 V c 1 t) (iblk21 V c 2 t)
  Φ _ := Pipeline.ΦA spec21 c
  q _ := fullShare
  owed _ := 0

/-- The proof data's arrays are the region-entry contents. -/
theorem A_eq21 (c : Dev nD) (w : Fin cfg21.W) : (dat21 V c).A w = V c (Pipeline.arrRef spec21 w) := by
  dsimp only [dat21]

/-- What the body leaves, window by window. -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = out21_3 (iblk21 V c 0 t) (iblk21 V c 1 t) (iblk21 V c 2 t) := by dsimp only [dat21]

end Cert.KernelIdeal.Hand
-- ==== Proof.KI.BodyDef22.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 22: the dense layer relu(x W + b) on a row tile, at the entry contents `V` -/

/-! ## The windows' blocks -/

/-- Window `w`'s block at point `t`, read off its array as the region finds it (`V`). -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's staging buffer holds its block at every point, fetched there or not, for any proof data whose
    array is `V`'s and whose body leaves the block in place: unfetched, the block index has not moved. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
/-- The same of input window 1. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
/-- The same of input window 2. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses: every one is a whole block -/

abbrev r22_0 : Rect S2000x128 := Rect.unit (s := S2000x128) ![0, 0] S2000x128.size inb_S2000x128_S2000x128_0_0
abbrev r22_1 : Rect S128x128 := Rect.unit (s := S128x128) ![0, 0] S128x128.size inb_S128x128_S128x128_0_0
abbrev r22_2 : Rect S1x128 := Rect.unit (s := S1x128) ![0, 0] S1x128.size inb_S1x128_S1x128_0_0

/-! ## What the body leaves in the output window's buffer -/

/-- Window 3's staging buffer after the body, from the input windows' blocks: its one store, of the whole block. -/
def out22_3 (x0 : Vec F S2000x128 .f32) (x1 : Vec F S128x128 .f32) (x2 : Vec F S1x128 .f32) : Vec F S2000x128 .f32 :=
  View.canon [⟨r22_0, k22_pay1 (View.ld x0 r22_0) (View.ld x1 r22_1) (View.ld x2 r22_2)⟩]

/-- The one store covers the buffer. -/
theorem cover22_3 (p0 : Vec F S2000x128 .f32) (y : S2000x128.Idx) :
    ∃ pc ∈ ([⟨r22_0, p0⟩] : List (View.Piece (Elt F) S2000x128 .f32)), y ∈ pc.1.set :=
  View.cover_of_tiled [⟨r22_0, p0⟩] S2000x128.size (by rfl) y

/-! ## The pipeline's proof data -/

/-- The proof data of pipeline 22 on core `c`: the arrays as the region finds them (`V`); after the body at point `t`
    each input's buffer at its block and the output's at `out22_3` of the input blocks; the invariant the scoped rest
    and the generator register, untouched; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => out22_3 (iblk22 V c 0 t) (iblk22 V c 1 t) (iblk22 V c 2 t)
  Φ _ := Pipeline.ΦA spec22 c
  q _ := fullShare
  owed _ := 0

/-- The proof data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = out22_3 (iblk22 V c 0 t) (iblk22 V c 1 t) (iblk22 V c 2 t) := by dsimp only [dat22]

end Cert.KernelIdeal.Hand
-- ==== Proof.KI.BodyDef23.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 23: the dense layer relu(x W + b) on a row tile, at the entry contents `V` -/

/-! ## The windows' blocks -/

/-- Window `w`'s block at point `t`, read off its array as the region finds it (`V`). -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0's staging buffer holds its block at every point, fetched there or not, for any proof data whose
    array is `V`'s and whose body leaves the block in place: unfetched, the block index has not moved. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- The same of input window 1. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)
/-- The same of input window 2. -/
theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)

/-! ## The body's accesses: every one is a whole block -/

abbrev r23_0 : Rect S50x128 := Rect.unit (s := S50x128) ![0, 0] S50x128.size inb_S50x128_S50x128_0_0
abbrev r23_1 : Rect S128x128 := Rect.unit (s := S128x128) ![0, 0] S128x128.size inb_S128x128_S128x128_0_0
abbrev r23_2 : Rect S1x128 := Rect.unit (s := S1x128) ![0, 0] S1x128.size inb_S1x128_S1x128_0_0

/-! ## What the body leaves in the output window's buffer -/

/-- Window 3's staging buffer after the body, from the input windows' blocks: its one store, of the whole block. -/
def out23_3 (x0 : Vec F S50x128 .f32) (x1 : Vec F S128x128 .f32) (x2 : Vec F S1x128 .f32) : Vec F S50x128 .f32 :=
  View.canon [⟨r23_0, k23_pay1 (View.ld x0 r23_0) (View.ld x1 r23_1) (View.ld x2 r23_2)⟩]

/-- The one store covers the buffer. -/
theorem cover23_3 (p0 : Vec F S50x128 .f32) (y : S50x128.Idx) :
    ∃ pc ∈ ([⟨r23_0, p0⟩] : List (View.Piece (Elt F) S50x128 .f32)), y ∈ pc.1.set :=
  View.cover_of_tiled [⟨r23_0, p0⟩] S50x128.size (by rfl) y

/-! ## The pipeline's proof data -/

/-- The proof data of pipeline 23 on core `c`: the arrays as the region finds them (`V`); after the body at point `t`
    each input's buffer at its block and the output's at `out23_3` of the input blocks; the invariant the scoped rest
    and the generator register, untouched; nothing owed; full shares. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => out23_3 (iblk23 V c 0 t) (iblk23 V c 1 t) (iblk23 V c 2 t)
  Φ _ := Pipeline.ΦA spec23 c
  q _ := fullShare
  owed _ := 0

/-- The proof data's arrays are the region-entry contents. -/
theorem A_eq23 (c : Dev nD) (w : Fin cfg23.W) : (dat23 V c).A w = V c (Pipeline.arrRef spec23 w) := by
  dsimp only [dat23]

/-- What the body leaves, window by window. -/
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = out23_3 (iblk23 V c 0 t) (iblk23 V c 1 t) (iblk23 V c 2 t) := by dsimp only [dat23]

end Cert.KernelIdeal.Hand
-- ==== Proof.KI.BodyDef24.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 24: the dense layer relu(x W + b) on a row tile, at the entry contents `V` -/

/-! ## The windows' blocks -/

/-- Window `w`'s block at point `t`, read off its array as the region finds it (`V`). -/
def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's staging buffer holds its block at every point, fetched there or not, for any proof data whose
    array is `V`'s and whose body leaves the block in place: unfetched, the block index has not moved. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)
/-- The same of input window 1. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)
/-- The same of input window 2. -/
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-! ## The body's accesses: every one is a whole block -/

abbrev r24_0 : Rect S50x128 := Rect.unit (s := S50x128) ![0, 0] S50x128.size inb_S50x128_S50x128_0_0
abbrev r24_1 : Rect S128x128 := Rect.unit (s := S128x128) ![0, 0] S128x128.size inb_S128x128_S128x128_0_0
abbrev r24_2 : Rect S1x128 := Rect.unit (s := S1x128) ![0, 0] S1x128.size inb_S1x128_S1x128_0_0

/-! ## What the body leaves in the output window's buffer -/

/-- Window 3's staging buffer after the body, from the input windows' blocks: its one store, of the whole block. -/
def out24_3 (x0 : Vec F S50x128 .f32) (x1 : Vec F S128x128 .f32) (x2 : Vec F S1x128 .f32) : Vec F S50x128 .f32 :=
  View.canon [⟨r24_0, k24_pay1 (View.ld x0 r24_0) (View.ld x1 r24_1) (View.ld x2 r24_2)⟩]

/-- The one store covers the buffer. -/
theorem cover24_3 (p0 : Vec F S50x128 .f32) (y : S50x128.Idx) :
    ∃ pc ∈ ([⟨r24_0, p0⟩] : List (View.Piece (Elt F) S50x128 .f32)), y ∈ pc.1.set :=
  View.cover_of_tiled [⟨r24_0, p0⟩] S50x128.size (by rfl) y

/-! ## The pipeline's proof data -/

/-- The proof data of pipeline 24 on core `c`: the arrays as the region finds them (`V`); after the body at point `t`
    each input's buffer at its block and the output's at `out24_3` of the input blocks; the invariant the scoped rest
    and the generator register, untouched; nothing owed; full shares. -/
def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => out24_3 (iblk24 V c 0 t) (iblk24 V c 1 t) (iblk24 V c 2 t)
  Φ _ := Pipeline.ΦA spec24 c
  q _ := fullShare
  owed _ := 0

/-- The proof data's arrays are the region-entry contents. -/
theorem A_eq24 (c : Dev nD) (w : Fin cfg24.W) : (dat24 V c).A w = V c (Pipeline.arrRef spec24 w) := by
  dsimp only [dat24]

/-- What the body leaves, window by window. -/
theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) : (dat24 V c).after 3 t = out24_3 (iblk24 V c 0 t) (iblk24 V c 1 t) (iblk24 V c 2 t) := by dsimp only [dat24]

end Cert.KernelIdeal.Hand
-- ==== Proof.KI.BodyDef25.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 25: the dense layer relu(x W + b) on a row tile, at the entry contents `V` -/

/-! ## The windows' blocks -/

/-- Window `w`'s block at point `t`, read off its array as the region finds it (`V`). -/
def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's staging buffer holds its block at every point, fetched there or not, for any proof data whose
    array is `V`'s and whose body leaves the block in place: unfetched, the block index has not moved. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
/-- The same of input window 1. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)
/-- The same of input window 2. -/
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses: every one is a whole block -/

abbrev r25_0 : Rect S50x384 := Rect.unit (s := S50x384) ![0, 0] S50x384.size inb_S50x384_S50x384_0_0
abbrev r25_1 : Rect S384x128 := Rect.unit (s := S384x128) ![0, 0] S384x128.size inb_S384x128_S384x128_0_0
abbrev r25_2 : Rect S1x128 := Rect.unit (s := S1x128) ![0, 0] S1x128.size inb_S1x128_S1x128_0_0
abbrev r25_3 : Rect S50x128 := Rect.unit (s := S50x128) ![0, 0] S50x128.size inb_S50x128_S50x128_0_0

/-! ## What the body leaves in the output window's buffer -/

/-- Window 3's staging buffer after the body, from the input windows' blocks: its one store, of the whole block. -/
def out25_3 (x0 : Vec F S50x384 .f32) (x1 : Vec F S384x128 .f32) (x2 : Vec F S1x128 .f32) : Vec F S50x128 .f32 :=
  View.canon [⟨r25_3, k25_pay1 (View.ld x0 r25_0) (View.ld x1 r25_1) (View.ld x2 r25_2)⟩]

/-- The one store covers the buffer. -/
theorem cover25_3 (p0 : Vec F S50x128 .f32) (y : S50x128.Idx) :
    ∃ pc ∈ ([⟨r25_3, p0⟩] : List (View.Piece (Elt F) S50x128 .f32)), y ∈ pc.1.set :=
  View.cover_of_tiled [⟨r25_3, p0⟩] S50x128.size (by rfl) y

/-! ## The pipeline's proof data -/

/-- The proof data of pipeline 25 on core `c`: the arrays as the region finds them (`V`); after the body at point `t`
    each input's buffer at its block and the output's at `out25_3` of the input blocks; the invariant the scoped rest
    and the generator register, untouched; nothing owed; full shares. -/
def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => out25_3 (iblk25 V c 0 t) (iblk25 V c 1 t) (iblk25 V c 2 t)
  Φ _ := Pipeline.ΦA spec25 c
  q _ := fullShare
  owed _ := 0

/-- The proof data's arrays are the region-entry contents. -/
theorem A_eq25 (c : Dev nD) (w : Fin cfg25.W) : (dat25 V c).A w = V c (Pipeline.arrRef spec25 w) := by
  dsimp only [dat25]

/-- What the body leaves, window by window. -/
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) : (dat25 V c).after 3 t = out25_3 (iblk25 V c 0 t) (iblk25 V c 1 t) (iblk25 V c 2 t) := by dsimp only [dat25]

end Cert.KernelIdeal.Hand
-- ==== Proof.KI.Chain.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.BodyDef0
import proofs.«141679_j61469571940402_1_alg».proof.Proof.KI.BodyDef1
import proofs.«141679_j61469571940402_1_alg».proof.Proof.KI.BodyDef2
import proofs.«141679_j61469571940402_1_alg».proof.Proof.KI.BodyDef3
import proofs.«141679_j61469571940402_1_alg».proof.Proof.KI.BodyDef4
import proofs.«141679_j61469571940402_1_alg».proof.Proof.KI.BodyDef5
import proofs.«141679_j61469571940402_1_alg».proof.Proof.KI.BodyDef6
import proofs.«141679_j61469571940402_1_alg».proof.Proof.KI.BodyDef7
import proofs.«141679_j61469571940402_1_alg».proof.Proof.KI.BodyDef8
import proofs.«141679_j61469571940402_1_alg».proof.Proof.KI.BodyDef9
import proofs.«141679_j61469571940402_1_alg».proof.Proof.KI.BodyDef10
import proofs.«141679_j61469571940402_1_alg».proof.Proof.KI.BodyDef11
import proofs.«141679_j61469571940402_1_alg».proof.Proof.KI.BodyDef12
import proofs.«141679_j61469571940402_1_alg».proof.Proof.KI.BodyDef13
import proofs.«141679_j61469571940402_1_alg».proof.Proof.KI.BodyDef14
import proofs.«141679_j61469571940402_1_alg».proof.Proof.KI.BodyDef15
import proofs.«141679_j61469571940402_1_alg».proof.Proof.KI.BodyDef16
import proofs.«141679_j61469571940402_1_alg».proof.Proof.KI.BodyDef17
import proofs.«141679_j61469571940402_1_alg».proof.Proof.KI.BodyDef18
import proofs.«141679_j61469571940402_1_alg».proof.Proof.KI.BodyDef19
import proofs.«141679_j61469571940402_1_alg».proof.Proof.KI.BodyDef20
import proofs.«141679_j61469571940402_1_alg».proof.Proof.KI.BodyDef21
import proofs.«141679_j61469571940402_1_alg».proof.Proof.KI.BodyDef22
import proofs.«141679_j61469571940402_1_alg».proof.Proof.KI.BodyDef23
import proofs.«141679_j61469571940402_1_alg».proof.Proof.KI.BodyDef24
import proofs.«141679_j61469571940402_1_alg».proof.Proof.KI.BodyDef25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of @main: a fold from the launch memory -/

/-- The core's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
/-- After the host stretch hostOps0_1. -/
abbrev W2 : Dev nD → Valuation τ sig (Elt F) := fun c => StableHlo.after hostOps0_1 (W1 m ρ c)
/-- After the host stretch hostOps0_2. -/
abbrev W3 : Dev nD → Valuation τ sig (Elt F) := fun c => StableHlo.after hostOps0_2 (W2 m ρ c)

/-- The contents region 0 is entered from, read at the core's own references (what its proof data take). -/
abbrev V3 : (c : Dev nD) → (b : Ref sig .tc) → Buf (Elt F) ((c : Thread nD τ).loc b) := fun c b => W3 m ρ c b
/-- At region 0's exit: its arrays at what the pipeline leaves (an input as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's own references (region 0's exit contents). -/
abbrev V4 : (c : Dev nD) → (b : Ref sig .tc) → Buf (Elt F) ((c : Thread nD τ).loc b) := fun c b => W4 m ρ c b
/-- At region 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch hostOps1. -/
abbrev W5 : Dev nD → Valuation τ sig (Elt F) := fun c => StableHlo.after hostOps1 (W4 m ρ c)

/-- The contents region 1 is entered from, read at the core's own references (what its proof data take). -/
abbrev V5 : (c : Dev nD) → (b : Ref sig .tc) → Buf (Elt F) ((c : Thread nD τ).loc b) := fun c b => W5 m ρ c b
/-- At region 1's exit: its arrays at what the pipeline leaves (an input as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the core's own references (region 1's exit contents). -/
abbrev V6 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host stretch hostOps2. -/
abbrev W7 : Dev nD → Valuation τ sig (Elt F) := fun c => StableHlo.after hostOps2 (W6 m ρ c)

/-- The contents region 2 is entered from, read at the core's own references (what its proof data take). -/
abbrev V7 : (c : Dev nD) → (b : Ref sig .tc) → Buf (Elt F) ((c : Thread nD τ).loc b) := fun c b => W7 m ρ c b
/-- At region 2's exit: its arrays at what the pipeline leaves (an input as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the core's own references (region 2's exit contents). -/
abbrev V8 : (c : Dev nD) → (b : Ref sig .tc) → Buf (Elt F) ((c : Thread nD τ).loc b) := fun c b => W8 m ρ c b
/-- At region 2's exit each of its arrays holds what the pipeline leaves and every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the host stretch hostOps3. -/
abbrev W9 : Dev nD → Valuation τ sig (Elt F) := fun c => StableHlo.after hostOps3 (W8 m ρ c)

/-- The contents region 3 is entered from, read at the core's own references (what its proof data take). -/
abbrev V9 : (c : Dev nD) → (b : Ref sig .tc) → Buf (Elt F) ((c : Thread nD τ).loc b) := fun c b => W9 m ρ c b
/-- At region 3's exit: its arrays at what the pipeline leaves (an input as entered, the output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the core's own references (region 3's exit contents). -/
abbrev V10 : (c : Dev nD) → (b : Ref sig .tc) → Buf (Elt F) ((c : Thread nD τ).loc b) := fun c b => W10 m ρ c b
/-- At region 3's exit each of its arrays holds what the pipeline leaves and every other buffer what it held at entry. -/
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the host stretch hostOps4. -/
abbrev W11 : Dev nD → Valuation τ sig (Elt F) := fun c => StableHlo.after hostOps4 (W10 m ρ c)

/-- The contents region 4 is entered from, read at the core's own references (what its proof data take). -/
abbrev V11 : (c : Dev nD) → (b : Ref sig .tc) → Buf (Elt F) ((c : Thread nD τ).loc b) := fun c b => W11 m ρ c b
/-- At region 4's exit: its arrays at what the pipeline leaves (an input as entered, the output's write-backs
    folded), every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- The same read at the core's own references (region 4's exit contents). -/
abbrev V12 : (c : Dev nD) → (b : Ref sig .tc) → Buf (Elt F) ((c : Thread nD τ).loc b) := fun c b => W12 m ρ c b
/-- At region 4's exit each of its arrays holds what the pipeline leaves and every other buffer what it held at entry. -/
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- After the host stretch hostOps5. -/
abbrev W13 : Dev nD → Valuation τ sig (Elt F) := fun c => StableHlo.after hostOps5 (W12 m ρ c)

/-- The contents region 5 is entered from, read at the core's own references (what its proof data take). -/
abbrev V13 : (c : Dev nD) → (b : Ref sig .tc) → Buf (Elt F) ((c : Thread nD τ).loc b) := fun c b => W13 m ρ c b
/-- At region 5's exit: its arrays at what the pipeline leaves (an input as entered, the output's write-backs
    folded), every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- The same read at the core's own references (region 5's exit contents). -/
abbrev V14 : (c : Dev nD) → (b : Ref sig .tc) → Buf (Elt F) ((c : Thread nD τ).loc b) := fun c b => W14 m ρ c b
/-- At region 5's exit each of its arrays holds what the pipeline leaves and every other buffer what it held at entry. -/
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)

/-- After the host stretch hostOps6. -/
abbrev W15 : Dev nD → Valuation τ sig (Elt F) := fun c => StableHlo.after hostOps6 (W14 m ρ c)

/-- The contents region 6 is entered from, read at the core's own references (what its proof data take). -/
abbrev V15 : (c : Dev nD) → (b : Ref sig .tc) → Buf (Elt F) ((c : Thread nD τ).loc b) := fun c b => W15 m ρ c b
/-- At region 6's exit: its arrays at what the pipeline leaves (an input as entered, the output's write-backs
    folded), every other buffer as entered. -/
def W16 (c : Dev nD) : Valuation τ sig (Elt F) :=
  Pipeline.withArrays spec6 c (W15 m ρ c) fun w => (dat6 (V15 m ρ) c).arrAt w cfg6.N
theorem W16_arr (c : Dev nD) (w : Fin cfg6.W) :
    W16 m ρ c (Proc.devRef .tc (Pipeline.arrRef spec6 w)) = (dat6 (V15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
/-- The same read at the core's own references (region 6's exit contents). -/
abbrev V16 : (c : Dev nD) → (b : Ref sig .tc) → Buf (Elt F) ((c : Thread nD τ).loc b) := fun c b => W16 m ρ c b
/-- At region 6's exit each of its arrays holds what the pipeline leaves and every other buffer what it held at entry. -/
theorem hF6 (c : Dev nD) (w : Fin cfg6.W) : (dat6 (V15 m ρ) c).arrAt w cfg6.N = V16 m ρ c (Pipeline.arrRef spec6 w) :=
  (W16_arr m ρ c w).symm
theorem hrest6 (c : Dev nD) : ∀ b, b ∉ Finset.univ.image (Pipeline.arrRef spec6) → V16 m ρ c b = V15 m ρ c b :=
  fun b hb => W16_of_ne m ρ c b fun w e => hb (Finset.mem_image.mpr ⟨w, Finset.mem_univ _, e⟩)

/-- After the host stretch hostOps7. -/
abbrev W17 : Dev nD → Valuation τ sig (Elt F) := fun c => StableHlo.after hostOps7 (W16 m ρ c)

/-- The contents region 7 is entered from, read at the core's own references (what its proof data take). -/
abbrev V17 : (c : Dev nD) → (b : Ref sig .tc) → Buf (Elt F) ((c : Thread nD τ).loc b) := fun c b => W17 m ρ c b
/-- At region 7's exit: its arrays at what the pipeline leaves (an input as entered, the output's write-backs
    folded), every other buffer as entered. -/
def W18 (c : Dev nD) : Valuation τ sig (Elt F) :=
  Pipeline.withArrays spec7 c (W17 m ρ c) fun w => (dat7 (V17 m ρ) c).arrAt w cfg7.N
theorem W18_arr (c : Dev nD) (w : Fin cfg7.W) :
    W18 m ρ c (Proc.devRef .tc (Pipeline.arrRef spec7 w)) = (dat7 (V17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
/-- The same read at the core's own references (region 7's exit contents). -/
abbrev V18 : (c : Dev nD) → (b : Ref sig .tc) → Buf (Elt F) ((c : Thread nD τ).loc b) := fun c b => W18 m ρ c b
/-- At region 7's exit each of its arrays holds what the pipeline leaves and every other buffer what it held at entry. -/
theorem hF7 (c : Dev nD) (w : Fin cfg7.W) : (dat7 (V17 m ρ) c).arrAt w cfg7.N = V18 m ρ c (Pipeline.arrRef spec7 w) :=
  (W18_arr m ρ c w).symm
theorem hrest7 (c : Dev nD) : ∀ b, b ∉ Finset.univ.image (Pipeline.arrRef spec7) → V18 m ρ c b = V17 m ρ c b :=
  fun b hb => W18_of_ne m ρ c b fun w e => hb (Finset.mem_image.mpr ⟨w, Finset.mem_univ _, e⟩)

/-- After the host stretch hostOps8. -/
abbrev W19 : Dev nD → Valuation τ sig (Elt F) := fun c => StableHlo.after hostOps8 (W18 m ρ c)

/-- The contents region 8 is entered from, read at the core's own references (what its proof data take). -/
abbrev V19 : (c : Dev nD) → (b : Ref sig .tc) → Buf (Elt F) ((c : Thread nD τ).loc b) := fun c b => W19 m ρ c b
/-- At region 8's exit: its arrays at what the pipeline leaves (an input as entered, the output's write-backs
    folded), every other buffer as entered. -/
def W20 (c : Dev nD) : Valuation τ sig (Elt F) :=
  Pipeline.withArrays spec8 c (W19 m ρ c) fun w => (dat8 (V19 m ρ) c).arrAt w cfg8.N
theorem W20_arr (c : Dev nD) (w : Fin cfg8.W) :
    W20 m ρ c (Proc.devRef .tc (Pipeline.arrRef spec8 w)) = (dat8 (V19 m ρ) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m ρ c (Proc.devRef .tc b) = W19 m ρ c (Proc.devRef .tc b) := by
  unfold W20; exact Pipeline.withArrays_of_ne spec8 c _ _ b hb
/-- The same read at the core's own references (region 8's exit contents). -/
abbrev V20 : (c : Dev nD) → (b : Ref sig .tc) → Buf (Elt F) ((c : Thread nD τ).loc b) := fun c b => W20 m ρ c b
/-- At region 8's exit each of its arrays holds what the pipeline leaves and every other buffer what it held at entry. -/
theorem hF8 (c : Dev nD) (w : Fin cfg8.W) : (dat8 (V19 m ρ) c).arrAt w cfg8.N = V20 m ρ c (Pipeline.arrRef spec8 w) :=
  (W20_arr m ρ c w).symm
theorem hrest8 (c : Dev nD) : ∀ b, b ∉ Finset.univ.image (Pipeline.arrRef spec8) → V20 m ρ c b = V19 m ρ c b :=
  fun b hb => W20_of_ne m ρ c b fun w e => hb (Finset.mem_image.mpr ⟨w, Finset.mem_univ _, e⟩)

/-- After the host stretch hostOps9. -/
abbrev W21 : Dev nD → Valuation τ sig (Elt F) := fun c => StableHlo.after hostOps9 (W20 m ρ c)

/-- The contents region 9 is entered from, read at the core's own references (what its proof data take). -/
abbrev V21 : (c : Dev nD) → (b : Ref sig .tc) → Buf (Elt F) ((c : Thread nD τ).loc b) := fun c b => W21 m ρ c b
/-- At region 9's exit: its arrays at what the pipeline leaves (an input as entered, the output's write-backs
    folded), every other buffer as entered. -/
def W22 (c : Dev nD) : Valuation τ sig (Elt F) :=
  Pipeline.withArrays spec9 c (W21 m ρ c) fun w => (dat9 (V21 m ρ) c).arrAt w cfg9.N
theorem W22_arr (c : Dev nD) (w : Fin cfg9.W) :
    W22 m ρ c (Proc.devRef .tc (Pipeline.arrRef spec9 w)) = (dat9 (V21 m ρ) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m ρ c (Proc.devRef .tc b) = W21 m ρ c (Proc.devRef .tc b) := by
  unfold W22; exact Pipeline.withArrays_of_ne spec9 c _ _ b hb
/-- The same read at the core's own references (region 9's exit contents). -/
abbrev V22 : (c : Dev nD) → (b : Ref sig .tc) → Buf (Elt F) ((c : Thread nD τ).loc b) := fun c b => W22 m ρ c b
/-- At region 9's exit each of its arrays holds what the pipeline leaves and every other buffer what it held at entry. -/
theorem hF9 (c : Dev nD) (w : Fin cfg9.W) : (dat9 (V21 m ρ) c).arrAt w cfg9.N = V22 m ρ c (Pipeline.arrRef spec9 w) :=
  (W22_arr m ρ c w).symm
theorem hrest9 (c : Dev nD) : ∀ b, b ∉ Finset.univ.image (Pipeline.arrRef spec9) → V22 m ρ c b = V21 m ρ c b :=
  fun b hb => W22_of_ne m ρ c b fun w e => hb (Finset.mem_image.mpr ⟨w, Finset.mem_univ _, e⟩)

/-- After the host stretch hostOps10. -/
abbrev W23 : Dev nD → Valuation τ sig (Elt F) := fun c => StableHlo.after hostOps10 (W22 m ρ c)

/-- The contents region 10 is entered from, read at the core's own references (what its proof data take). -/
abbrev V23 : (c : Dev nD) → (b : Ref sig .tc) → Buf (Elt F) ((c : Thread nD τ).loc b) := fun c b => W23 m ρ c b
/-- At region 10's exit: its arrays at what the pipeline leaves (an input as entered, the output's write-backs
    folded), every other buffer as entered. -/
def W24 (c : Dev nD) : Valuation τ sig (Elt F) :=
  Pipeline.withArrays spec10 c (W23 m ρ c) fun w => (dat10 (V23 m ρ) c).arrAt w cfg10.N
theorem W24_arr (c : Dev nD) (w : Fin cfg10.W) :
    W24 m ρ c (Proc.devRef .tc (Pipeline.arrRef spec10 w)) = (dat10 (V23 m ρ) c).arrAt w cfg10.N := by
  unfold W24; exact Pipeline.withArrays_arr spec10 launch10.win.arr_inj c _ _ w
theorem W24_of_ne (c : Dev nD) (b : Ref sig .tc) (hb : ∀ w, Pipeline.arrRef spec10 w ≠ b) :
    W24 m ρ c (Proc.devRef .tc b) = W23 m ρ c (Proc.devRef .tc b) := by
  unfold W24; exact Pipeline.withArrays_of_ne spec10 c _ _ b hb
/-- The same read at the core's own references (region 10's exit contents). -/
abbrev V24 : (c : Dev nD) → (b : Ref sig .tc) → Buf (Elt F) ((c : Thread nD τ).loc b) := fun c b => W24 m ρ c b
/-- At region 10's exit each of its arrays holds what the pipeline leaves and every other buffer what it held at entry. -/
theorem hF10 (c : Dev nD) (w : Fin cfg10.W) : (dat10 (V23 m ρ) c).arrAt w cfg10.N = V24 m ρ c (Pipeline.arrRef spec10 w) :=
  (W24_arr m ρ c w).symm
theorem hrest10 (c : Dev nD) : ∀ b, b ∉ Finset.univ.image (Pipeline.arrRef spec10) → V24 m ρ c b = V23 m ρ c b :=
  fun b hb => W24_of_ne m ρ c b fun w e => hb (Finset.mem_image.mpr ⟨w, Finset.mem_univ _, e⟩)

/-- After the host stretch hostOps11. -/
abbrev W25 : Dev nD → Valuation τ sig (Elt F) := fun c => StableHlo.after hostOps11 (W24 m ρ c)

/-- The contents region 11 is entered from, read at the core's own references (what its proof data take). -/
abbrev V25 : (c : Dev nD) → (b : Ref sig .tc) → Buf (Elt F) ((c : Thread nD τ).loc b) := fun c b => W25 m ρ c b
/-- At region 11's exit: its arrays at what the pipeline leaves (an input as entered, the output's write-backs
    folded), every other buffer as entered. -/
def W26 (c : Dev nD) : Valuation τ sig (Elt F) :=
  Pipeline.withArrays spec11 c (W25 m ρ c) fun w => (dat11 (V25 m ρ) c).arrAt w cfg11.N
theorem W26_arr (c : Dev nD) (w : Fin cfg11.W) :
    W26 m ρ c (Proc.devRef .tc (Pipeline.arrRef spec11 w)) = (dat11 (V25 m ρ) c).arrAt w cfg11.N := by
  unfold W26; exact Pipeline.withArrays_arr spec11 launch11.win.arr_inj c _ _ w
theorem W26_of_ne (c : Dev nD) (b : Ref sig .tc) (hb : ∀ w, Pipeline.arrRef spec11 w ≠ b) :
    W26 m ρ c (Proc.devRef .tc b) = W25 m ρ c (Proc.devRef .tc b) := by
  unfold W26; exact Pipeline.withArrays_of_ne spec11 c _ _ b hb
/-- The same read at the core's own references (region 11's exit contents). -/
abbrev V26 : (c : Dev nD) → (b : Ref sig .tc) → Buf (Elt F) ((c : Thread nD τ).loc b) := fun c b => W26 m ρ c b
/-- At region 11's exit each of its arrays holds what the pipeline leaves and every other buffer what it held at entry. -/
theorem hF11 (c : Dev nD) (w : Fin cfg11.W) : (dat11 (V25 m ρ) c).arrAt w cfg11.N = V26 m ρ c (Pipeline.arrRef spec11 w) :=
  (W26_arr m ρ c w).symm
theorem hrest11 (c : Dev nD) : ∀ b, b ∉ Finset.univ.image (Pipeline.arrRef spec11) → V26 m ρ c b = V25 m ρ c b :=
  fun b hb => W26_of_ne m ρ c b fun w e => hb (Finset.mem_image.mpr ⟨w, Finset.mem_univ _, e⟩)

/-- After the host stretch hostOps12. -/
abbrev W27 : Dev nD → Valuation τ sig (Elt F) := fun c => StableHlo.after hostOps12 (W26 m ρ c)

/-- The contents region 12 is entered from, read at the core's own references (what its proof data take). -/
abbrev V27 : (c : Dev nD) → (b : Ref sig .tc) → Buf (Elt F) ((c : Thread nD τ).loc b) := fun c b => W27 m ρ c b
/-- At region 12's exit: its arrays at what the pipeline leaves (an input as entered, the output's write-backs
    folded), every other buffer as entered. -/
def W28 (c : Dev nD) : Valuation τ sig (Elt F) :=
  Pipeline.withArrays spec12 c (W27 m ρ c) fun w => (dat12 (V27 m ρ) c).arrAt w cfg12.N
theorem W28_arr (c : Dev nD) (w : Fin cfg12.W) :
    W28 m ρ c (Proc.devRef .tc (Pipeline.arrRef spec12 w)) = (dat12 (V27 m ρ) c).arrAt w cfg12.N := by
  unfold W28; exact Pipeline.withArrays_arr spec12 launch12.win.arr_inj c _ _ w
theorem W28_of_ne (c : Dev nD) (b : Ref sig .tc) (hb : ∀ w, Pipeline.arrRef spec12 w ≠ b) :
    W28 m ρ c (Proc.devRef .tc b) = W27 m ρ c (Proc.devRef .tc b) := by
  unfold W28; exact Pipeline.withArrays_of_ne spec12 c _ _ b hb
/-- The same read at the core's own references (region 12's exit contents). -/
abbrev V28 : (c : Dev nD) → (b : Ref sig .tc) → Buf (Elt F) ((c : Thread nD τ).loc b) := fun c b => W28 m ρ c b
/-- At region 12's exit each of its arrays holds what the pipeline leaves and every other buffer what it held at entry. -/
theorem hF12 (c : Dev nD) (w : Fin cfg12.W) : (dat12 (V27 m ρ) c).arrAt w cfg12.N = V28 m ρ c (Pipeline.arrRef spec12 w) :=
  (W28_arr m ρ c w).symm
theorem hrest12 (c : Dev nD) : ∀ b, b ∉ Finset.univ.image (Pipeline.arrRef spec12) → V28 m ρ c b = V27 m ρ c b :=
  fun b hb => W28_of_ne m ρ c b fun w e => hb (Finset.mem_image.mpr ⟨w, Finset.mem_univ _, e⟩)

/-- After the host stretch hostOps13. -/
abbrev W29 : Dev nD → Valuation τ sig (Elt F) := fun c => StableHlo.after hostOps13 (W28 m ρ c)

/-- The contents region 13 is entered from, read at the core's own references (what its proof data take). -/
abbrev V29 : (c : Dev nD) → (b : Ref sig .tc) → Buf (Elt F) ((c : Thread nD τ).loc b) := fun c b => W29 m ρ c b
/-- At region 13's exit: its arrays at what the pipeline leaves (an input as entered, the output's write-backs
    folded), every other buffer as entered. -/
def W30 (c : Dev nD) : Valuation τ sig (Elt F) :=
  Pipeline.withArrays spec13 c (W29 m ρ c) fun w => (dat13 (V29 m ρ) c).arrAt w cfg13.N
theorem W30_arr (c : Dev nD) (w : Fin cfg13.W) :
    W30 m ρ c (Proc.devRef .tc (Pipeline.arrRef spec13 w)) = (dat13 (V29 m ρ) c).arrAt w cfg13.N := by
  unfold W30; exact Pipeline.withArrays_arr spec13 launch13.win.arr_inj c _ _ w
theorem W30_of_ne (c : Dev nD) (b : Ref sig .tc) (hb : ∀ w, Pipeline.arrRef spec13 w ≠ b) :
    W30 m ρ c (Proc.devRef .tc b) = W29 m ρ c (Proc.devRef .tc b) := by
  unfold W30; exact Pipeline.withArrays_of_ne spec13 c _ _ b hb
/-- The same read at the core's own references (region 13's exit contents). -/
abbrev V30 : (c : Dev nD) → (b : Ref sig .tc) → Buf (Elt F) ((c : Thread nD τ).loc b) := fun c b => W30 m ρ c b
/-- At region 13's exit each of its arrays holds what the pipeline leaves and every other buffer what it held at entry. -/
theorem hF13 (c : Dev nD) (w : Fin cfg13.W) : (dat13 (V29 m ρ) c).arrAt w cfg13.N = V30 m ρ c (Pipeline.arrRef spec13 w) :=
  (W30_arr m ρ c w).symm
theorem hrest13 (c : Dev nD) : ∀ b, b ∉ Finset.univ.image (Pipeline.arrRef spec13) → V30 m ρ c b = V29 m ρ c b :=
  fun b hb => W30_of_ne m ρ c b fun w e => hb (Finset.mem_image.mpr ⟨w, Finset.mem_univ _, e⟩)

/-- After the host stretch hostOps14. -/
abbrev W31 : Dev nD → Valuation τ sig (Elt F) := fun c => StableHlo.after hostOps14 (W30 m ρ c)

/-- The contents region 14 is entered from, read at the core's own references (what its proof data take). -/
abbrev V31 : (c : Dev nD) → (b : Ref sig .tc) → Buf (Elt F) ((c : Thread nD τ).loc b) := fun c b => W31 m ρ c b
/-- At region 14's exit: its arrays at what the pipeline leaves (an input as entered, the output's write-backs
    folded), every other buffer as entered. -/
def W32 (c : Dev nD) : Valuation τ sig (Elt F) :=
  Pipeline.withArrays spec14 c (W31 m ρ c) fun w => (dat14 (V31 m ρ) c).arrAt w cfg14.N
theorem W32_arr (c : Dev nD) (w : Fin cfg14.W) :
    W32 m ρ c (Proc.devRef .tc (Pipeline.arrRef spec14 w)) = (dat14 (V31 m ρ) c).arrAt w cfg14.N := by
  unfold W32; exact Pipeline.withArrays_arr spec14 launch14.win.arr_inj c _ _ w
theorem W32_of_ne (c : Dev nD) (b : Ref sig .tc) (hb : ∀ w, Pipeline.arrRef spec14 w ≠ b) :
    W32 m ρ c (Proc.devRef .tc b) = W31 m ρ c (Proc.devRef .tc b) := by
  unfold W32; exact Pipeline.withArrays_of_ne spec14 c _ _ b hb
/-- The same read at the core's own references (region 14's exit contents). -/
abbrev V32 : (c : Dev nD) → (b : Ref sig .tc) → Buf (Elt F) ((c : Thread nD τ).loc b) := fun c b => W32 m ρ c b
/-- At region 14's exit each of its arrays holds what the pipeline leaves and every other buffer what it held at entry. -/
theorem hF14 (c : Dev nD) (w : Fin cfg14.W) : (dat14 (V31 m ρ) c).arrAt w cfg14.N = V32 m ρ c (Pipeline.arrRef spec14 w) :=
  (W32_arr m ρ c w).symm
theorem hrest14 (c : Dev nD) : ∀ b, b ∉ Finset.univ.image (Pipeline.arrRef spec14) → V32 m ρ c b = V31 m ρ c b :=
  fun b hb => W32_of_ne m ρ c b fun w e => hb (Finset.mem_image.mpr ⟨w, Finset.mem_univ _, e⟩)

/-- After the host stretch hostOps15. -/
abbrev W33 : Dev nD → Valuation τ sig (Elt F) := fun c => StableHlo.after hostOps15 (W32 m ρ c)

/-- The contents region 15 is entered from, read at the core's own references (what its proof data take). -/
abbrev V33 : (c : Dev nD) → (b : Ref sig .tc) → Buf (Elt F) ((c : Thread nD τ).loc b) := fun c b => W33 m ρ c b
/-- At region 15's exit: its arrays at what the pipeline leaves (an input as entered, the output's write-backs
    folded), every other buffer as entered. -/
def W34 (c : Dev nD) : Valuation τ sig (Elt F) :=
  Pipeline.withArrays spec15 c (W33 m ρ c) fun w => (dat15 (V33 m ρ) c).arrAt w cfg15.N
theorem W34_arr (c : Dev nD) (w : Fin cfg15.W) :
    W34 m ρ c (Proc.devRef .tc (Pipeline.arrRef spec15 w)) = (dat15 (V33 m ρ) c).arrAt w cfg15.N := by
  unfold W34; exact Pipeline.withArrays_arr spec15 launch15.win.arr_inj c _ _ w
theorem W34_of_ne (c : Dev nD) (b : Ref sig .tc) (hb : ∀ w, Pipeline.arrRef spec15 w ≠ b) :
    W34 m ρ c (Proc.devRef .tc b) = W33 m ρ c (Proc.devRef .tc b) := by
  unfold W34; exact Pipeline.withArrays_of_ne spec15 c _ _ b hb
/-- The same read at the core's own references (region 15's exit contents). -/
abbrev V34 : (c : Dev nD) → (b : Ref sig .tc) → Buf (Elt F) ((c : Thread nD τ).loc b) := fun c b => W34 m ρ c b
/-- At region 15's exit each of its arrays holds what the pipeline leaves and every other buffer what it held at entry. -/
theorem hF15 (c : Dev nD) (w : Fin cfg15.W) : (dat15 (V33 m ρ) c).arrAt w cfg15.N = V34 m ρ c (Pipeline.arrRef spec15 w) :=
  (W34_arr m ρ c w).symm
theorem hrest15 (c : Dev nD) : ∀ b, b ∉ Finset.univ.image (Pipeline.arrRef spec15) → V34 m ρ c b = V33 m ρ c b :=
  fun b hb => W34_of_ne m ρ c b fun w e => hb (Finset.mem_image.mpr ⟨w, Finset.mem_univ _, e⟩)

/-- After the host stretch hostOps16. -/
abbrev W35 : Dev nD → Valuation τ sig (Elt F) := fun c => StableHlo.after hostOps16 (W34 m ρ c)

/-- The contents region 16 is entered from, read at the core's own references (what its proof data take). -/
abbrev V35 : (c : Dev nD) → (b : Ref sig .tc) → Buf (Elt F) ((c : Thread nD τ).loc b) := fun c b => W35 m ρ c b
/-- At region 16's exit: its arrays at what the pipeline leaves (an input as entered, the output's write-backs
    folded), every other buffer as entered. -/
def W36 (c : Dev nD) : Valuation τ sig (Elt F) :=
  Pipeline.withArrays spec16 c (W35 m ρ c) fun w => (dat16 (V35 m ρ) c).arrAt w cfg16.N
theorem W36_arr (c : Dev nD) (w : Fin cfg16.W) :
    W36 m ρ c (Proc.devRef .tc (Pipeline.arrRef spec16 w)) = (dat16 (V35 m ρ) c).arrAt w cfg16.N := by
  unfold W36; exact Pipeline.withArrays_arr spec16 launch16.win.arr_inj c _ _ w
theorem W36_of_ne (c : Dev nD) (b : Ref sig .tc) (hb : ∀ w, Pipeline.arrRef spec16 w ≠ b) :
    W36 m ρ c (Proc.devRef .tc b) = W35 m ρ c (Proc.devRef .tc b) := by
  unfold W36; exact Pipeline.withArrays_of_ne spec16 c _ _ b hb
/-- The same read at the core's own references (region 16's exit contents). -/
abbrev V36 : (c : Dev nD) → (b : Ref sig .tc) → Buf (Elt F) ((c : Thread nD τ).loc b) := fun c b => W36 m ρ c b
/-- At region 16's exit each of its arrays holds what the pipeline leaves and every other buffer what it held at entry. -/
theorem hF16 (c : Dev nD) (w : Fin cfg16.W) : (dat16 (V35 m ρ) c).arrAt w cfg16.N = V36 m ρ c (Pipeline.arrRef spec16 w) :=
  (W36_arr m ρ c w).symm
theorem hrest16 (c : Dev nD) : ∀ b, b ∉ Finset.univ.image (Pipeline.arrRef spec16) → V36 m ρ c b = V35 m ρ c b :=
  fun b hb => W36_of_ne m ρ c b fun w e => hb (Finset.mem_image.mpr ⟨w, Finset.mem_univ _, e⟩)

/-- After the host stretch hostOps17. -/
abbrev W37 : Dev nD → Valuation τ sig (Elt F) := fun c => StableHlo.after hostOps17 (W36 m ρ c)

/-- The contents region 17 is entered from, read at the core's own references (what its proof data take). -/
abbrev V37 : (c : Dev nD) → (b : Ref sig .tc) → Buf (Elt F) ((c : Thread nD τ).loc b) := fun c b => W37 m ρ c b
/-- At region 17's exit: its arrays at what the pipeline leaves (an input as entered, the output's write-backs
    folded), every other buffer as entered. -/
def W38 (c : Dev nD) : Valuation τ sig (Elt F) :=
  Pipeline.withArrays spec17 c (W37 m ρ c) fun w => (dat17 (V37 m ρ) c).arrAt w cfg17.N
theorem W38_arr (c : Dev nD) (w : Fin cfg17.W) :
    W38 m ρ c (Proc.devRef .tc (Pipeline.arrRef spec17 w)) = (dat17 (V37 m ρ) c).arrAt w cfg17.N := by
  unfold W38; exact Pipeline.withArrays_arr spec17 launch17.win.arr_inj c _ _ w
theorem W38_of_ne (c : Dev nD) (b : Ref sig .tc) (hb : ∀ w, Pipeline.arrRef spec17 w ≠ b) :
    W38 m ρ c (Proc.devRef .tc b) = W37 m ρ c (Proc.devRef .tc b) := by
  unfold W38; exact Pipeline.withArrays_of_ne spec17 c _ _ b hb
/-- The same read at the core's own references (region 17's exit contents). -/
abbrev V38 : (c : Dev nD) → (b : Ref sig .tc) → Buf (Elt F) ((c : Thread nD τ).loc b) := fun c b => W38 m ρ c b
/-- At region 17's exit each of its arrays holds what the pipeline leaves and every other buffer what it held at entry. -/
theorem hF17 (c : Dev nD) (w : Fin cfg17.W) : (dat17 (V37 m ρ) c).arrAt w cfg17.N = V38 m ρ c (Pipeline.arrRef spec17 w) :=
  (W38_arr m ρ c w).symm
theorem hrest17 (c : Dev nD) : ∀ b, b ∉ Finset.univ.image (Pipeline.arrRef spec17) → V38 m ρ c b = V37 m ρ c b :=
  fun b hb => W38_of_ne m ρ c b fun w e => hb (Finset.mem_image.mpr ⟨w, Finset.mem_univ _, e⟩)

/-- After the host stretch hostOps18. -/
abbrev W39 : Dev nD → Valuation τ sig (Elt F) := fun c => StableHlo.after hostOps18 (W38 m ρ c)

/-- The contents region 18 is entered from, read at the core's own references (what its proof data take). -/
abbrev V39 : (c : Dev nD) → (b : Ref sig .tc) → Buf (Elt F) ((c : Thread nD τ).loc b) := fun c b => W39 m ρ c b
/-- At region 18's exit: its arrays at what the pipeline leaves (an input as entered, the output's write-backs
    folded), every other buffer as entered. -/
def W40 (c : Dev nD) : Valuation τ sig (Elt F) :=
  Pipeline.withArrays spec18 c (W39 m ρ c) fun w => (dat18 (V39 m ρ) c).arrAt w cfg18.N
theorem W40_arr (c : Dev nD) (w : Fin cfg18.W) :
    W40 m ρ c (Proc.devRef .tc (Pipeline.arrRef spec18 w)) = (dat18 (V39 m ρ) c).arrAt w cfg18.N := by
  unfold W40; exact Pipeline.withArrays_arr spec18 launch18.win.arr_inj c _ _ w
theorem W40_of_ne (c : Dev nD) (b : Ref sig .tc) (hb : ∀ w, Pipeline.arrRef spec18 w ≠ b) :
    W40 m ρ c (Proc.devRef .tc b) = W39 m ρ c (Proc.devRef .tc b) := by
  unfold W40; exact Pipeline.withArrays_of_ne spec18 c _ _ b hb
/-- The same read at the core's own references (region 18's exit contents). -/
abbrev V40 : (c : Dev nD) → (b : Ref sig .tc) → Buf (Elt F) ((c : Thread nD τ).loc b) := fun c b => W40 m ρ c b
/-- At region 18's exit each of its arrays holds what the pipeline leaves and every other buffer what it held at entry. -/
theorem hF18 (c : Dev nD) (w : Fin cfg18.W) : (dat18 (V39 m ρ) c).arrAt w cfg18.N = V40 m ρ c (Pipeline.arrRef spec18 w) :=
  (W40_arr m ρ c w).symm
theorem hrest18 (c : Dev nD) : ∀ b, b ∉ Finset.univ.image (Pipeline.arrRef spec18) → V40 m ρ c b = V39 m ρ c b :=
  fun b hb => W40_of_ne m ρ c b fun w e => hb (Finset.mem_image.mpr ⟨w, Finset.mem_univ _, e⟩)

/-- After the host stretch hostOps19. -/
abbrev W41 : Dev nD → Valuation τ sig (Elt F) := fun c => StableHlo.after hostOps19 (W40 m ρ c)

/-- The contents region 19 is entered from, read at the core's own references (what its proof data take). -/
abbrev V41 : (c : Dev nD) → (b : Ref sig .tc) → Buf (Elt F) ((c : Thread nD τ).loc b) := fun c b => W41 m ρ c b
/-- At region 19's exit: its arrays at what the pipeline leaves (an input as entered, the output's write-backs
    folded), every other buffer as entered. -/
def W42 (c : Dev nD) : Valuation τ sig (Elt F) :=
  Pipeline.withArrays spec19 c (W41 m ρ c) fun w => (dat19 (V41 m ρ) c).arrAt w cfg19.N
theorem W42_arr (c : Dev nD) (w : Fin cfg19.W) :
    W42 m ρ c (Proc.devRef .tc (Pipeline.arrRef spec19 w)) = (dat19 (V41 m ρ) c).arrAt w cfg19.N := by
  unfold W42; exact Pipeline.withArrays_arr spec19 launch19.win.arr_inj c _ _ w
theorem W42_of_ne (c : Dev nD) (b : Ref sig .tc) (hb : ∀ w, Pipeline.arrRef spec19 w ≠ b) :
    W42 m ρ c (Proc.devRef .tc b) = W41 m ρ c (Proc.devRef .tc b) := by
  unfold W42; exact Pipeline.withArrays_of_ne spec19 c _ _ b hb
/-- The same read at the core's own references (region 19's exit contents). -/
abbrev V42 : (c : Dev nD) → (b : Ref sig .tc) → Buf (Elt F) ((c : Thread nD τ).loc b) := fun c b => W42 m ρ c b
/-- At region 19's exit each of its arrays holds what the pipeline leaves and every other buffer what it held at entry. -/
theorem hF19 (c : Dev nD) (w : Fin cfg19.W) : (dat19 (V41 m ρ) c).arrAt w cfg19.N = V42 m ρ c (Pipeline.arrRef spec19 w) :=
  (W42_arr m ρ c w).symm
theorem hrest19 (c : Dev nD) : ∀ b, b ∉ Finset.univ.image (Pipeline.arrRef spec19) → V42 m ρ c b = V41 m ρ c b :=
  fun b hb => W42_of_ne m ρ c b fun w e => hb (Finset.mem_image.mpr ⟨w, Finset.mem_univ _, e⟩)

/-- After the host stretch hostOps20. -/
abbrev W43 : Dev nD → Valuation τ sig (Elt F) := fun c => StableHlo.after hostOps20 (W42 m ρ c)

/-- The contents region 20 is entered from, read at the core's own references (what its proof data take). -/
abbrev V43 : (c : Dev nD) → (b : Ref sig .tc) → Buf (Elt F) ((c : Thread nD τ).loc b) := fun c b => W43 m ρ c b
/-- At region 20's exit: its arrays at what the pipeline leaves (an input as entered, the output's write-backs
    folded), every other buffer as entered. -/
def W44 (c : Dev nD) : Valuation τ sig (Elt F) :=
  Pipeline.withArrays spec20 c (W43 m ρ c) fun w => (dat20 (V43 m ρ) c).arrAt w cfg20.N
theorem W44_arr (c : Dev nD) (w : Fin cfg20.W) :
    W44 m ρ c (Proc.devRef .tc (Pipeline.arrRef spec20 w)) = (dat20 (V43 m ρ) c).arrAt w cfg20.N := by
  unfold W44; exact Pipeline.withArrays_arr spec20 launch20.win.arr_inj c _ _ w
theorem W44_of_ne (c : Dev nD) (b : Ref sig .tc) (hb : ∀ w, Pipeline.arrRef spec20 w ≠ b) :
    W44 m ρ c (Proc.devRef .tc b) = W43 m ρ c (Proc.devRef .tc b) := by
  unfold W44; exact Pipeline.withArrays_of_ne spec20 c _ _ b hb
/-- The same read at the core's own references (region 20's exit contents). -/
abbrev V44 : (c : Dev nD) → (b : Ref sig .tc) → Buf (Elt F) ((c : Thread nD τ).loc b) := fun c b => W44 m ρ c b
/-- At region 20's exit each of its arrays holds what the pipeline leaves and every other buffer what it held at entry. -/
theorem hF20 (c : Dev nD) (w : Fin cfg20.W) : (dat20 (V43 m ρ) c).arrAt w cfg20.N = V44 m ρ c (Pipeline.arrRef spec20 w) :=
  (W44_arr m ρ c w).symm
theorem hrest20 (c : Dev nD) : ∀ b, b ∉ Finset.univ.image (Pipeline.arrRef spec20) → V44 m ρ c b = V43 m ρ c b :=
  fun b hb => W44_of_ne m ρ c b fun w e => hb (Finset.mem_image.mpr ⟨w, Finset.mem_univ _, e⟩)

/-- After the host stretch hostOps21. -/
abbrev W45 : Dev nD → Valuation τ sig (Elt F) := fun c => StableHlo.after hostOps21 (W44 m ρ c)

/-- The contents region 21 is entered from, read at the core's own references (what its proof data take). -/
abbrev V45 : (c : Dev nD) → (b : Ref sig .tc) → Buf (Elt F) ((c : Thread nD τ).loc b) := fun c b => W45 m ρ c b
/-- At region 21's exit: its arrays at what the pipeline leaves (an input as entered, the output's write-backs
    folded), every other buffer as entered. -/
def W46 (c : Dev nD) : Valuation τ sig (Elt F) :=
  Pipeline.withArrays spec21 c (W45 m ρ c) fun w => (dat21 (V45 m ρ) c).arrAt w cfg21.N
theorem W46_arr (c : Dev nD) (w : Fin cfg21.W) :
    W46 m ρ c (Proc.devRef .tc (Pipeline.arrRef spec21 w)) = (dat21 (V45 m ρ) c).arrAt w cfg21.N := by
  unfold W46; exact Pipeline.withArrays_arr spec21 launch21.win.arr_inj c _ _ w
theorem W46_of_ne (c : Dev nD) (b : Ref sig .tc) (hb : ∀ w, Pipeline.arrRef spec21 w ≠ b) :
    W46 m ρ c (Proc.devRef .tc b) = W45 m ρ c (Proc.devRef .tc b) := by
  unfold W46; exact Pipeline.withArrays_of_ne spec21 c _ _ b hb
/-- The same read at the core's own references (region 21's exit contents). -/
abbrev V46 : (c : Dev nD) → (b : Ref sig .tc) → Buf (Elt F) ((c : Thread nD τ).loc b) := fun c b => W46 m ρ c b
/-- At region 21's exit each of its arrays holds what the pipeline leaves and every other buffer what it held at entry. -/
theorem hF21 (c : Dev nD) (w : Fin cfg21.W) : (dat21 (V45 m ρ) c).arrAt w cfg21.N = V46 m ρ c (Pipeline.arrRef spec21 w) :=
  (W46_arr m ρ c w).symm
theorem hrest21 (c : Dev nD) : ∀ b, b ∉ Finset.univ.image (Pipeline.arrRef spec21) → V46 m ρ c b = V45 m ρ c b :=
  fun b hb => W46_of_ne m ρ c b fun w e => hb (Finset.mem_image.mpr ⟨w, Finset.mem_univ _, e⟩)

/-- After the host stretch hostOps22. -/
abbrev W47 : Dev nD → Valuation τ sig (Elt F) := fun c => StableHlo.after hostOps22 (W46 m ρ c)

/-- The contents region 22 is entered from, read at the core's own references (what its proof data take). -/
abbrev V47 : (c : Dev nD) → (b : Ref sig .tc) → Buf (Elt F) ((c : Thread nD τ).loc b) := fun c b => W47 m ρ c b
/-- At region 22's exit: its arrays at what the pipeline leaves (an input as entered, the output's write-backs
    folded), every other buffer as entered. -/
def W48 (c : Dev nD) : Valuation τ sig (Elt F) :=
  Pipeline.withArrays spec22 c (W47 m ρ c) fun w => (dat22 (V47 m ρ) c).arrAt w cfg22.N
theorem W48_arr (c : Dev nD) (w : Fin cfg22.W) :
    W48 m ρ c (Proc.devRef .tc (Pipeline.arrRef spec22 w)) = (dat22 (V47 m ρ) c).arrAt w cfg22.N := by
  unfold W48; exact Pipeline.withArrays_arr spec22 launch22.win.arr_inj c _ _ w
theorem W48_of_ne (c : Dev nD) (b : Ref sig .tc) (hb : ∀ w, Pipeline.arrRef spec22 w ≠ b) :
    W48 m ρ c (Proc.devRef .tc b) = W47 m ρ c (Proc.devRef .tc b) := by
  unfold W48; exact Pipeline.withArrays_of_ne spec22 c _ _ b hb
/-- The same read at the core's own references (region 22's exit contents). -/
abbrev V48 : (c : Dev nD) → (b : Ref sig .tc) → Buf (Elt F) ((c : Thread nD τ).loc b) := fun c b => W48 m ρ c b
/-- At region 22's exit each of its arrays holds what the pipeline leaves and every other buffer what it held at entry. -/
theorem hF22 (c : Dev nD) (w : Fin cfg22.W) : (dat22 (V47 m ρ) c).arrAt w cfg22.N = V48 m ρ c (Pipeline.arrRef spec22 w) :=
  (W48_arr m ρ c w).symm
theorem hrest22 (c : Dev nD) : ∀ b, b ∉ Finset.univ.image (Pipeline.arrRef spec22) → V48 m ρ c b = V47 m ρ c b :=
  fun b hb => W48_of_ne m ρ c b fun w e => hb (Finset.mem_image.mpr ⟨w, Finset.mem_univ _, e⟩)

/-- After the host stretch hostOps23. -/
abbrev W49 : Dev nD → Valuation τ sig (Elt F) := fun c => StableHlo.after hostOps23 (W48 m ρ c)

/-- The contents region 23 is entered from, read at the core's own references (what its proof data take). -/
abbrev V49 : (c : Dev nD) → (b : Ref sig .tc) → Buf (Elt F) ((c : Thread nD τ).loc b) := fun c b => W49 m ρ c b
/-- At region 23's exit: its arrays at what the pipeline leaves (an input as entered, the output's write-backs
    folded), every other buffer as entered. -/
def W50 (c : Dev nD) : Valuation τ sig (Elt F) :=
  Pipeline.withArrays spec23 c (W49 m ρ c) fun w => (dat23 (V49 m ρ) c).arrAt w cfg23.N
theorem W50_arr (c : Dev nD) (w : Fin cfg23.W) :
    W50 m ρ c (Proc.devRef .tc (Pipeline.arrRef spec23 w)) = (dat23 (V49 m ρ) c).arrAt w cfg23.N := by
  unfold W50; exact Pipeline.withArrays_arr spec23 launch23.win.arr_inj c _ _ w
theorem W50_of_ne (c : Dev nD) (b : Ref sig .tc) (hb : ∀ w, Pipeline.arrRef spec23 w ≠ b) :
    W50 m ρ c (Proc.devRef .tc b) = W49 m ρ c (Proc.devRef .tc b) := by
  unfold W50; exact Pipeline.withArrays_of_ne spec23 c _ _ b hb
/-- The same read at the core's own references (region 23's exit contents). -/
abbrev V50 : (c : Dev nD) → (b : Ref sig .tc) → Buf (Elt F) ((c : Thread nD τ).loc b) := fun c b => W50 m ρ c b
/-- At region 23's exit each of its arrays holds what the pipeline leaves and every other buffer what it held at entry. -/
theorem hF23 (c : Dev nD) (w : Fin cfg23.W) : (dat23 (V49 m ρ) c).arrAt w cfg23.N = V50 m ρ c (Pipeline.arrRef spec23 w) :=
  (W50_arr m ρ c w).symm
theorem hrest23 (c : Dev nD) : ∀ b, b ∉ Finset.univ.image (Pipeline.arrRef spec23) → V50 m ρ c b = V49 m ρ c b :=
  fun b hb => W50_of_ne m ρ c b fun w e => hb (Finset.mem_image.mpr ⟨w, Finset.mem_univ _, e⟩)

/-- After the host stretch hostOps24. -/
abbrev W51 : Dev nD → Valuation τ sig (Elt F) := fun c => StableHlo.after hostOps24 (W50 m ρ c)

/-- The contents region 24 is entered from, read at the core's own references (what its proof data take). -/
abbrev V51 : (c : Dev nD) → (b : Ref sig .tc) → Buf (Elt F) ((c : Thread nD τ).loc b) := fun c b => W51 m ρ c b
/-- At region 24's exit: its arrays at what the pipeline leaves (an input as entered, the output's write-backs
    folded), every other buffer as entered. -/
def W52 (c : Dev nD) : Valuation τ sig (Elt F) :=
  Pipeline.withArrays spec24 c (W51 m ρ c) fun w => (dat24 (V51 m ρ) c).arrAt w cfg24.N
theorem W52_arr (c : Dev nD) (w : Fin cfg24.W) :
    W52 m ρ c (Proc.devRef .tc (Pipeline.arrRef spec24 w)) = (dat24 (V51 m ρ) c).arrAt w cfg24.N := by
  unfold W52; exact Pipeline.withArrays_arr spec24 launch24.win.arr_inj c _ _ w
theorem W52_of_ne (c : Dev nD) (b : Ref sig .tc) (hb : ∀ w, Pipeline.arrRef spec24 w ≠ b) :
    W52 m ρ c (Proc.devRef .tc b) = W51 m ρ c (Proc.devRef .tc b) := by
  unfold W52; exact Pipeline.withArrays_of_ne spec24 c _ _ b hb
/-- The same read at the core's own references (region 24's exit contents). -/
abbrev V52 : (c : Dev nD) → (b : Ref sig .tc) → Buf (Elt F) ((c : Thread nD τ).loc b) := fun c b => W52 m ρ c b
/-- At region 24's exit each of its arrays holds what the pipeline leaves and every other buffer what it held at entry. -/
theorem hF24 (c : Dev nD) (w : Fin cfg24.W) : (dat24 (V51 m ρ) c).arrAt w cfg24.N = V52 m ρ c (Pipeline.arrRef spec24 w) :=
  (W52_arr m ρ c w).symm
theorem hrest24 (c : Dev nD) : ∀ b, b ∉ Finset.univ.image (Pipeline.arrRef spec24) → V52 m ρ c b = V51 m ρ c b :=
  fun b hb => W52_of_ne m ρ c b fun w e => hb (Finset.mem_image.mpr ⟨w, Finset.mem_univ _, e⟩)

/-- After the host stretch hostOps25. -/
abbrev W53 : Dev nD → Valuation τ sig (Elt F) := fun c => StableHlo.after hostOps25 (W52 m ρ c)

/-- The contents region 25 is entered from, read at the core's own references (what its proof data take). -/
abbrev V53 : (c : Dev nD) → (b : Ref sig .tc) → Buf (Elt F) ((c : Thread nD τ).loc b) := fun c b => W53 m ρ c b
/-- At region 25's exit: its arrays at what the pipeline leaves (an input as entered, the output's write-backs
    folded), every other buffer as entered. -/
def W54 (c : Dev nD) : Valuation τ sig (Elt F) :=
  Pipeline.withArrays spec25 c (W53 m ρ c) fun w => (dat25 (V53 m ρ) c).arrAt w cfg25.N
theorem W54_arr (c : Dev nD) (w : Fin cfg25.W) :
    W54 m ρ c (Proc.devRef .tc (Pipeline.arrRef spec25 w)) = (dat25 (V53 m ρ) c).arrAt w cfg25.N := by
  unfold W54; exact Pipeline.withArrays_arr spec25 launch25.win.arr_inj c _ _ w
theorem W54_of_ne (c : Dev nD) (b : Ref sig .tc) (hb : ∀ w, Pipeline.arrRef spec25 w ≠ b) :
    W54 m ρ c (Proc.devRef .tc b) = W53 m ρ c (Proc.devRef .tc b) := by
  unfold W54; exact Pipeline.withArrays_of_ne spec25 c _ _ b hb
/-- The same read at the core's own references (region 25's exit contents). -/
abbrev V54 : (c : Dev nD) → (b : Ref sig .tc) → Buf (Elt F) ((c : Thread nD τ).loc b) := fun c b => W54 m ρ c b
/-- At region 25's exit each of its arrays holds what the pipeline leaves and every other buffer what it held at entry. -/
theorem hF25 (c : Dev nD) (w : Fin cfg25.W) : (dat25 (V53 m ρ) c).arrAt w cfg25.N = V54 m ρ c (Pipeline.arrRef spec25 w) :=
  (W54_arr m ρ c w).symm
theorem hrest25 (c : Dev nD) : ∀ b, b ∉ Finset.univ.image (Pipeline.arrRef spec25) → V54 m ρ c b = V53 m ρ c b :=
  fun b hb => W54_of_ne m ρ c b fun w e => hb (Finset.mem_image.mpr ⟨w, Finset.mem_univ _, e⟩)

/-- After the host stretch hostOps26. -/
abbrev W55 : Dev nD → Valuation τ sig (Elt F) := fun c => StableHlo.after hostOps26 (W54 m ρ c)

/-! # The proof data family and what rides beside the buffers -/

/-- The prefetched tables' admissible contents: no pipeline has a table. -/
abbrev adm : (p : Fin 26) → (pcfgs (F := F) p).Adm := fun p => (cfgs p).toPCfg_adm
/-- Every pipeline's proof data, each at its region's entry contents: a literal match, so that the pinned
    configuration at a numeral reduces to the printed one. -/
def pdats : (p : Fin 26) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
  | ⟨8, _⟩ => fun c => dat8 (V19 m ρ) c
  | ⟨9, _⟩ => fun c => dat9 (V21 m ρ) c
  | ⟨10, _⟩ => fun c => dat10 (V23 m ρ) c
  | ⟨11, _⟩ => fun c => dat11 (V25 m ρ) c
  | ⟨12, _⟩ => fun c => dat12 (V27 m ρ) c
  | ⟨13, _⟩ => fun c => dat13 (V29 m ρ) c
  | ⟨14, _⟩ => fun c => dat14 (V31 m ρ) c
  | ⟨15, _⟩ => fun c => dat15 (V33 m ρ) c
  | ⟨16, _⟩ => fun c => dat16 (V35 m ρ) c
  | ⟨17, _⟩ => fun c => dat17 (V37 m ρ) c
  | ⟨18, _⟩ => fun c => dat18 (V39 m ρ) c
  | ⟨19, _⟩ => fun c => dat19 (V41 m ρ) c
  | ⟨20, _⟩ => fun c => dat20 (V43 m ρ) c
  | ⟨21, _⟩ => fun c => dat21 (V45 m ρ) c
  | ⟨22, _⟩ => fun c => dat22 (V47 m ρ) c
  | ⟨23, _⟩ => fun c => dat23 (V49 m ρ) c
  | ⟨24, _⟩ => fun c => dat24 (V51 m ρ) c
  | ⟨25, _⟩ => fun c => dat25 (V53 m ρ) c
  | ⟨_ + 26, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it is left
    with those references at the stretch's result from W, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W55 m ρ c) ∗ ∃ r, prngReg c r)

end Cert.KernelIdeal.Hand

end
-- ==== Proof.KI.Body0.lean ====
import proofs.«141679_j61469571940402_1_alg».proof.Proof.KI.BodyDef0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: the body's triple and the body obligation -/

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg0.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 0 over the thread state: entered from every unscoped buffer at W3, left at W4. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body1.lean ====
import proofs.«141679_j61469571940402_1_alg».proof.Proof.KI.BodyDef1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 1: the body's triple and the body obligation -/

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg1.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 1 over the thread state: entered from every unscoped buffer at W5, left at W6. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body2.lean ====
import proofs.«141679_j61469571940402_1_alg».proof.Proof.KI.BodyDef2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 2: the body's triple and the body obligation -/

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg2.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 2 over the thread state: entered from every unscoped buffer at W7, left at W8. Its arrays are
    split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body3.lean ====
import proofs.«141679_j61469571940402_1_alg».proof.Proof.KI.BodyDef3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 3: the body's triple and the body obligation -/

/-! ## The body's triple -/

set_option maxHeartbeats 1000000 in
/-- The kernel body on whole staging memrefs, the inputs' at read contents `xW` and the output's at anything, runs to
    the continuation holding the inputs' as they were and the output's at `out3_3` of the inputs'. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- Each input's staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg3.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 3 over the thread state: entered from every unscoped buffer at W9, left at W10. Its arrays are
    split out of the unscoped buffers and put back at the exit contents; the generator register goes into the
    class invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body4.lean ====
import proofs.«141679_j61469571940402_1_alg».proof.Proof.KI.BodyDef4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 4: the body's triple and the body obligation -/

/-! ## The body's triple -/

set_option maxHeartbeats 1000000 in
/-- The kernel body on whole staging memrefs, the inputs' at read contents `xW` and the output's at anything, runs to
    the continuation holding the inputs' as they were and the output's at `out4_3` of the inputs'. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- Each input's staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg4.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 4 over the thread state: entered from every unscoped buffer at W11, left at W12. Its arrays are
    split out of the unscoped buffers and put back at the exit contents; the generator register goes into the
    class invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body5.lean ====
import proofs.«141679_j61469571940402_1_alg».proof.Proof.KI.BodyDef5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 5: the body's triple and the body obligation -/

/-! ## The body's triple -/

set_option maxHeartbeats 1000000 in
/-- The kernel body on whole staging memrefs, the inputs' at read contents `xW` and the output's at anything, runs to
    the continuation holding the inputs' as they were and the output's at `out5_3` of the inputs'. -/
theorem sound_kernel5 (c : Dev nD) (E : Set ℕ) (i : grid5.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- Each input's staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Reg5.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 5 over the thread state: entered from every unscoped buffer at W13, left at W14. Its arrays are
    split out of the unscoped buffers and put back at the exit contents; the generator register goes into the
    class invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body6.lean ====
import proofs.«141679_j61469571940402_1_alg».proof.Proof.KI.BodyDef6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 6: the body's triple and the body obligation -/

/-! ## The body's triple -/

set_option maxHeartbeats 1000000 in
/-- The kernel body on whole staging memrefs, the inputs' at read contents `xW` and the output's at anything, runs to
    the continuation holding the inputs' as they were and the output's at `out6_3` of the inputs'. -/
theorem sound_kernel6 (c : Dev nD) (E : Set ℕ) (i : grid6.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- Each input's staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Reg6.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 6 over the thread state: entered from every unscoped buffer at W15, left at W16. Its arrays are
    split out of the unscoped buffers and put back at the exit contents; the generator register goes into the
    class invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (V15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V15 m ρ c) (V16 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body7.lean ====
import proofs.«141679_j61469571940402_1_alg».proof.Proof.KI.BodyDef7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 7: the body's triple and the body obligation -/

/-! ## The body's triple -/

set_option maxHeartbeats 1000000 in
/-- The kernel body on whole staging memrefs, the inputs' at read contents `xW` and the output's at anything, runs to
    the continuation holding the inputs' as they were and the output's at `out7_5` of the inputs'. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- Each input's staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Reg7.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 7 over the thread state: entered from every unscoped buffer at W17, left at W18. Its arrays are
    split out of the unscoped buffers and put back at the exit contents; the generator register goes into the
    class invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V17 m ρ) c).loose
  hwaits := Pipeline.hwaits_of_owed_zero _ _ _ _ L lv 7 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec7 c (V17 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V17 m ρ c) (V18 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body8.lean ====
import proofs.«141679_j61469571940402_1_alg».proof.Proof.KI.BodyDef8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 8: the body's triple and the body obligation -/

/-! ## The body's triple -/

set_option maxHeartbeats 1000000 in
/-- The kernel body on whole staging memrefs, the inputs' at read contents `xW` and the output's at anything, runs to
    the continuation holding the inputs' as they were and the output's at `out8_7` of the inputs'. -/
theorem sound_kernel8 (c : Dev nD) (E : Set ℕ) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6)) -∗ K ⟨⟩))
      ⊢ wp frame (wpE (defs₀ (F := F)) Variants.none c none) E (cc8_kernel i arg1 harg1 arg2 harg2 arg3 harg3 arg4 harg4 arg5 harg5 arg6 harg6 arg7 harg7 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-- Each input's staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Reg8.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 8 over the thread state: entered from every unscoped buffer at W19, left at W20. Its arrays are
    split out of the unscoped buffers and put back at the exit contents; the generator register goes into the
    class invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V19 m ρ) c).loose
  hwaits := Pipeline.hwaits_of_owed_zero _ _ _ _ L lv 8 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec8 c (V19 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V19 m ρ c) (V20 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body9.lean ====
import proofs.«141679_j61469571940402_1_alg».proof.Proof.KI.BodyDef9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 9: the body's triple and the body obligation -/

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg1 : Memref sig .tc .vmem S50x128 .f32) (harg1 : arg1.IsWhole) (arg2 : Memref sig .tc .vmem S50x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S50x128 .f32) (harg6 : arg6.IsWhole)
    (x0 : Vec F S50x128 .f32) (x1 : Vec F S50x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9_kernel i arg1 harg1 arg2 harg2 arg3 harg3 arg4 harg4 arg5 harg5 arg6 harg6) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-- Each input's staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.Reg9.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 9 over the thread state: entered from every unscoped buffer at W21, left at W22. Its arrays are
    split out of the unscoped buffers and put back at the exit contents; the generator register goes into the
    class invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V21 m ρ) c).loose
  hwaits := Pipeline.hwaits_of_owed_zero _ _ _ _ L lv 9 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec9 c (V21 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V21 m ρ c) (V22 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body10.lean ====
import proofs.«141679_j61469571940402_1_alg».proof.Proof.KI.BodyDef10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 10: the body's triple and the body obligation -/

/-! ## The body's triple -/

set_option maxHeartbeats 1000000 in
/-- The kernel body on whole staging memrefs, the inputs' at read contents `xW` and the output's at anything, runs to
    the continuation holding the inputs' as they were and the output's at `out10_5` of the inputs'. -/
theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10_kernel i arg1 harg1 arg2 harg2 arg3 harg3 arg4 harg4 arg5 harg5 arg6 harg6) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-- Each input's staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand
-- ==== Proof.KI.Reg10.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 10 over the thread state: entered from every unscoped buffer at W23, left at W24. Its arrays are
    split out of the unscoped buffers and put back at the exit contents; the generator register goes into the
    class invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V23 m ρ) c).loose
  hwaits := Pipeline.hwaits_of_owed_zero _ _ _ _ L lv 10 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec10 c (V23 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V23 m ρ c) (V24 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body11.lean ====
import proofs.«141679_j61469571940402_1_alg».proof.Proof.KI.BodyDef11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 11: the body's triple and the body obligation -/

/-! ## The body's triple -/

set_option maxHeartbeats 1000000 in
/-- The kernel body on whole staging memrefs, the inputs' at read contents `xW` and the output's at anything, runs to
    the continuation holding the inputs' as they were and the output's at `out11_5` of the inputs'. -/
theorem sound_kernel11 (c : Dev nD) (E : Set ℕ) (i : grid11.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- Each input's staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.Reg11.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 11 over the thread state: entered from every unscoped buffer at W25, left at W26. Its arrays are
    split out of the unscoped buffers and put back at the exit contents; the generator register goes into the
    class invariant and comes out; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V25 m ρ) c).loose
  hwaits := Pipeline.hwaits_of_owed_zero _ _ _ _ L lv 11 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec11 c (V25 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V25 m ρ c) (V26 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body12.lean ====
import proofs.«141679_j61469571940402_1_alg».proof.Proof.KI.BodyDef12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 12: the body's triple and the body obligation -/

/-! ## The body's triple -/

set_option maxHeartbeats 1000000 in
/-- The kernel body on whole staging memrefs, the inputs' at read contents `xW` and the output's at anything, runs to
    the continuation holding the inputs' as they were and the output's at `out12_3` of the inputs'. -/
theorem sound_kernel12 (c : Dev nD) (E : Set ℕ) (i : grid12.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12_kernel i arg1 harg1 arg2 harg2 arg3 harg3 arg4 harg4) K := by
  simp only [cc12_kernel_eq_skeleton]; unfold cc12_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- Each input's staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so `sound_kernel12` applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Reg12.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 12 over the thread state: entered from every unscoped buffer at W27, left at W28. Its arrays are
    split out of the unscoped buffers and put back at the exit contents; the generator register goes into the
    class invariant and comes out; nothing is owed; the kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V27 m ρ) c).loose
  hwaits := Pipeline.hwaits_of_owed_zero _ _ _ _ L lv 12 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec12 c (V27 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V27 m ρ c) (V28 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body13.lean ====
import proofs.«141679_j61469571940402_1_alg».proof.Proof.KI.BodyDef13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 13: the body's triple and the body obligation -/

/-! ## The body's triple -/

set_option maxHeartbeats 1000000 in
/-- The kernel body on whole staging memrefs, the inputs' at read contents `xW` and the output's at anything, runs to
    the continuation holding the inputs' as they were and the output's at `out13_3` of the inputs'. -/
theorem sound_kernel13 (c : Dev nD) (E : Set ℕ) (i : grid13.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out13_3 x0 x1 x2)) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-- Each input's staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so `sound_kernel13` applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand
-- ==== Proof.KI.Reg13.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 13 over the thread state: entered from every unscoped buffer at W29, left at W30. Its arrays are
    split out of the unscoped buffers and put back at the exit contents; the generator register goes into the
    class invariant and comes out; nothing is owed; the kernel has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V29 m ρ) c).loose
  hwaits := Pipeline.hwaits_of_owed_zero _ _ _ _ L lv 13 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec13 c (V29 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V29 m ρ c) (V30 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body14.lean ====
import proofs.«141679_j61469571940402_1_alg».proof.Proof.KI.BodyDef14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 14: the body's triple and the body obligation -/

/-! ## The body's triple -/

set_option maxHeartbeats 1000000 in
/-- The kernel body on whole staging memrefs, the inputs' at read contents `xW` and the output's at anything, runs to
    the continuation holding the inputs' as they were and the output's at `out14_3` of the inputs'. -/
theorem sound_kernel14 (c : Dev nD) (E : Set ℕ) (i : grid14.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14_3 x0 x1 x2)) -∗ K ⟨⟩))
      ⊢ wp frame (wpE (defs₀ (F := F)) Variants.none c none) E (cc14_kernel i arg1 harg1 arg2 harg2 arg3 harg3 arg4 harg4) K := by
  simp only [cc14_kernel_eq_skeleton]; unfold cc14_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-- Each input's staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so `sound_kernel14` applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ (grid14.coords t) _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand
-- ==== Proof.KI.Reg14.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 14 over the thread state: entered from every unscoped buffer at W31, left at W32. Its arrays are
    split out of the unscoped buffers and put back at the exit contents; the generator register goes into the
    class invariant and comes out; nothing is owed; the kernel has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V31 m ρ) c).loose
  hwaits := Pipeline.hwaits_of_owed_zero _ _ _ _ L lv 14 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec14 c (V31 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V31 m ρ c) (V32 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body15.lean ====
import proofs.«141679_j61469571940402_1_alg».proof.Proof.KI.BodyDef15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 15: the body's triple and the body obligation -/

/-! ## The body's triple -/

set_option maxHeartbeats 1000000 in
/-- The kernel body on whole staging memrefs, the inputs' at read contents `xW` and the output's at anything, runs to
    the continuation holding the inputs' as they were and the output's at `out15_3` of the inputs'. -/
theorem sound_kernel15 (c : Dev nD) (E : Set ℕ) (i : grid15.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- Each input's staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks, so `sound_kernel15` applies; the invariant and the
    core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ (grid15.coords t) _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand
-- ==== Proof.KI.Reg15.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 15 over the thread state: entered from every unscoped buffer at W33, left at W34. Its arrays are
    split out of the unscoped buffers and put back at the exit contents; the generator register goes into the
    class invariant and comes out; nothing is owed; the kernel has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V33 m ρ) c).loose
  hwaits := Pipeline.hwaits_of_owed_zero _ _ _ _ L lv 15 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec15 c (V33 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V33 m ρ c) (V34 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body16.lean ====
import proofs.«141679_j61469571940402_1_alg».proof.Proof.KI.BodyDef16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 16: the body's triple and the body obligation -/

/-! ## The body's triple -/

set_option maxHeartbeats 1000000 in
/-- The kernel body on whole staging memrefs, the inputs' at read contents `xW` and the output's at anything, runs to
    the continuation holding the inputs' as they were and the output's at `out16_5` of the inputs'. -/
theorem sound_kernel16 (c : Dev nD) (E : Set ℕ) (i : grid16.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out16_5 x0 x1 x2 x3 x4)) -∗ K ⟨⟩))
      ⊢ wp frame (wpE (defs₀ (F := F)) Variants.none c none) E (cc16_kernel i arg1 harg1 arg2 harg2 arg3 harg3 arg4 harg4 arg5 harg5 arg6 harg6) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-- Each input's staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' memrefs hold their blocks, so `sound_kernel16` applies; the invariant and the
    core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ (grid16.coords t) _ _ _ _ _ _ _ _ _ _ _ _ (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Hand
-- ==== Proof.KI.Reg16.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 16 over the thread state: entered from every unscoped buffer at W35, left at W36. Its arrays are
    split out of the unscoped buffers and put back at the exit contents; the generator register goes into the
    class invariant and comes out; nothing is owed; the kernel has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V35 m ρ) c).loose
  hwaits := Pipeline.hwaits_of_owed_zero _ _ _ _ L lv 16 fun _ _ => rfl
  pre c := iprop(StableHlo.held (c : Thread nD τ) (Pipeline.ucRefs τ sig) (W35 m ρ c) ∗ R c)
  post c := iprop(StableHlo.held (c : Thread nD τ) (Pipeline.ucRefs τ sig) (W36 m ρ c) ∗ R c)
  X c := iprop(∃ r, prngReg c r)
  Y c := iprop(∃ r, prngReg c r)
  Z c := Pipeline.unscopedRest (Ix := Unit) (Name := ℕ) (U := UR sig nD τ) (Lvl := ℕ) spec16 c (V35 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V35 m ρ c) (V36 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body17.lean ====
import proofs.«141679_j61469571940402_1_alg».proof.Proof.KI.BodyDef17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 17: the body's triple and the body obligation -/

/-! ## The body's triple -/

set_option maxHeartbeats 1000000 in
/-- The kernel body on whole staging memrefs, the inputs' at read contents `xW` and the output's at anything, runs to
    the continuation holding the inputs' as they were and the output's at `out17_7` of the inputs'. -/
theorem sound_kernel17 (c : Dev nD) (E : Set ℕ) (i : grid17.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out17_7 x0 x1 x2 x3 x4 x5 x6)) -∗ K ⟨⟩))
      ⊢ wp frame (wpE (defs₀ (F := F)) Variants.none c none) E (cc17_kernel i arg1 harg1 arg2 harg2 arg3 harg3 arg4 harg4 arg5 harg5 arg6 harg6 arg7 harg7 arg8 harg8) K := by
  simp only [cc17_kernel_eq_skeleton]; unfold cc17_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover17_7 _)

/-- Each input's staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d
theorem before17_5 (c : Dev nD) (t : Fin cfg17.N) (d) : (dat17 V c).before 5 t d = iblk17 V c 5 t :=
  before17_5_of V (dat17 V c) (A_eq17 V c 5) (after17_5 V c) t d
theorem before17_6 (c : Dev nD) (t : Fin cfg17.N) (d) : (dat17 V c).before 6 t d = iblk17 V c 6 t :=
  before17_6_of V (dat17 V c) (A_eq17 V c 6) (after17_6 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d))
    ∗ (∃ d, owns (c : Thread nD τ) (st17_6 t) fullShare ((dat17 V c).before 6 t d))
    ∗ (∃ d, owns (c : Thread nD τ) (st17_7 t) fullShare ((dat17 V c).before 7 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t)
    ∗ owns (c : Thread nD τ) (st17_6 t) fullShare ((dat17 V c).after 6 t)
    ∗ owns (c : Thread nD τ) (st17_7 t) fullShare ((dat17 V c).after 7 t))

/-- The body at any point: the inputs' memrefs hold their blocks, so `sound_kernel17` applies; the invariant and the
    core's dues pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4, before17_5, before17_6]
  rw [show (dat17 V c).Φ t.succ = (dat17 V c).Φ t.castSucc from rfl,
    show (dat17 V c).owesAt () t.succ = (dat17 V c).owesAt () t.castSucc from rfl,
    after17_0, after17_1, after17_2, after17_3, after17_4, after17_5, after17_6, after17_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel17 c Set.univ (grid17.coords t) _ _ _ _ _ _ _ _ _ _ _ _ _ _ _ _ (iblk17 V c 0 t) (iblk17 V c 1 t) (iblk17 V c 2 t) (iblk17 V c 3 t) (iblk17 V c 4 t) (iblk17 V c 5 t) (iblk17 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Hand
-- ==== Proof.KI.Reg17.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 17 over the thread state: entered from every unscoped buffer at W37, left at W38. Its arrays are
    split out of the unscoped buffers and put back at the exit contents; the generator register goes into the
    class invariant and comes out; nothing is owed; the kernel has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V37 m ρ) c).loose
  hwaits := Pipeline.hwaits_of_owed_zero _ _ _ _ L lv 17 fun _ _ => rfl
  pre c := iprop(StableHlo.held (c : Thread nD τ) (Pipeline.ucRefs τ sig) (W37 m ρ c) ∗ R c)
  post c := iprop(StableHlo.held (c : Thread nD τ) (Pipeline.ucRefs τ sig) (W38 m ρ c) ∗ R c)
  X c := iprop(∃ r, prngReg c r)
  Y c := iprop(∃ r, prngReg c r)
  Z c := Pipeline.unscopedRest (Ix := Unit) (Name := ℕ) (U := UR sig nD τ) (Lvl := ℕ) spec17 c (V37 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V37 m ρ c) (V38 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body18.lean ====
import proofs.«141679_j61469571940402_1_alg».proof.Proof.KI.BodyDef18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 18: the body's triple and the body obligation -/

/-! ## The body's triple -/

set_option maxHeartbeats 1000000 in
/-- The kernel body on whole staging memrefs, the inputs' at read contents `xW` and the output's at anything, runs to
    the continuation holding the inputs' as they were and the output's at `out18_5` of the inputs'. -/
theorem sound_kernel18 (c : Dev nD) (E : Set ℕ) (i : grid18.Coords) (arg1 : Memref sig .tc .vmem S50x128 .f32) (harg1 : arg1.IsWhole) (arg2 : Memref sig .tc .vmem S50x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S50x128 .f32) (harg6 : arg6.IsWhole)
    (x0 : Vec F S50x128 .f32) (x1 : Vec F S50x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out18_5 x0 x1 x2 x3 x4)) -∗ K ⟨⟩))
      ⊢ wp frame (wpE (defs₀ (F := F)) Variants.none c none) E (cc18_kernel i arg1 harg1 arg2 harg2 arg3 harg3 arg4 harg4 arg5 harg5 arg6 harg6) K := by
  simp only [cc18_kernel_eq_skeleton]; unfold cc18_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover18_5 _)

/-- Each input's staging buffer holds its block at every point, fetched there or not. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

/-- The body at any point: the inputs' memrefs hold their blocks, so `sound_kernel18` applies; the invariant and the
    core's dues pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ (grid18.coords t) _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.KernelIdeal.Hand
-- ==== Proof.KI.Reg18.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 18 over the thread state: entered from every unscoped buffer at W39, left at W40. Its arrays are
    split out of the unscoped buffers and put back at the exit contents; the generator register goes into the
    class invariant and comes out; nothing is owed; the kernel has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V39 m ρ) c).loose
  hwaits := Pipeline.hwaits_of_owed_zero _ _ _ _ L lv 18 fun _ _ => rfl
  pre c := iprop(StableHlo.held (c : Thread nD τ) (Pipeline.ucRefs τ sig) (W39 m ρ c) ∗ R c)
  post c := iprop(StableHlo.held (c : Thread nD τ) (Pipeline.ucRefs τ sig) (W40 m ρ c) ∗ R c)
  X c := iprop(∃ r, prngReg c r)
  Y c := iprop(∃ r, prngReg c r)
  Z c := Pipeline.unscopedRest (Ix := Unit) (Name := ℕ) (U := UR sig nD τ) (Lvl := ℕ) spec18 c (V39 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V39 m ρ c) (V40 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body19.lean ====
import proofs.«141679_j61469571940402_1_alg».proof.Proof.KI.BodyDef19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 19: the body's triple and the body obligation -/

/-! ## The body's triple -/

set_option maxHeartbeats 1000000 in
/-- The kernel body on whole staging memrefs, the inputs' at read contents `xW` and the output's at anything, runs to
    the continuation holding the inputs' as they were and the output's at `out19_5` of the inputs'. -/
theorem sound_kernel19 (c : Dev nD) (E : Set ℕ) (i : grid19.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out19_5 x0 x1 x2 x3 x4)) -∗ K ⟨⟩))
      ⊢ wp frame (wpE (defs₀ (F := F)) Variants.none c none) E (cc19_kernel i arg1 harg1 arg2 harg2 arg3 harg3 arg4 harg4 arg5 harg5 arg6 harg6) K := by
  simp only [cc19_kernel_eq_skeleton]; unfold cc19_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover19_5 _)

/-- Each input's staging buffer holds its block at every point, fetched there or not. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d
theorem before19_4 (c : Dev nD) (t : Fin cfg19.N) (d) : (dat19 V c).before 4 t d = iblk19 V c 4 t :=
  before19_4_of V (dat19 V c) (A_eq19 V c 4) (after19_4 V c) t d

/-! ## The body obligation, at a generic point -/

/-- What the body is called with at point `t`, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t))

/-- The body at any point: the inputs' memrefs hold their blocks, so `sound_kernel19` applies; the invariant and the
    core's dues pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4]
  rw [show (dat19 V c).Φ t.succ = (dat19 V c).Φ t.castSucc from rfl,
    show (dat19 V c).owesAt () t.succ = (dat19 V c).owesAt () t.castSucc from rfl,
    after19_0, after19_1, after19_2, after19_3, after19_4, after19_5]
  iintro ⟨HΦ, Ho, ⟨%d0, H0⟩, ⟨%d1, H1⟩, ⟨%d2, H2⟩, ⟨%d3, H3⟩, ⟨%d4, H4⟩, ⟨%d5, H5⟩⟩
  iapply (sound_kernel19 c Set.univ (grid19.coords t) _ _ _ _ _ _ _ _ _ _ _ _ (iblk19 V c 0 t) (iblk19 V c 1 t) (iblk19 V c 2 t) (iblk19 V c 3 t) (iblk19 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.KernelIdeal.Hand
-- ==== Proof.KI.Reg19.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 19 over the thread state: entered from every unscoped buffer at W41, left at W42. Its arrays are
    split out of the unscoped buffers and put back at the exit contents; the generator register goes into the
    class invariant and comes out; nothing is owed; the kernel has no semaphore of its own. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V41 m ρ) c).loose
  hwaits := Pipeline.hwaits_of_owed_zero _ _ _ _ L lv 19 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X c := iprop(∃ r, prngReg c r)
  Y c := iprop(∃ r, prngReg c r)
  Z c := Pipeline.unscopedRest (Ix := Unit) (Name := ℕ) (U := UR sig nD τ) (Lvl := ℕ) spec19 c (V41 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V41 m ρ c) (V42 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body20.lean ====
import proofs.«141679_j61469571940402_1_alg».proof.Proof.KI.BodyDef20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 20: the body's triple and the body obligation -/

/-! ## The body's triple -/

set_option maxHeartbeats 1000000 in
/-- The kernel body on whole staging memrefs, the inputs' at read contents `xW` and the output's at anything, runs to
    the continuation holding the inputs' as they were and the output's at `out20_5` of the inputs'. -/
theorem sound_kernel20 (c : Dev nD) (E : Set ℕ) (i : grid20.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out20_5 x0 x1 x2 x3 x4)) -∗ K ⟨⟩))
      ⊢ wp frame (wpE (defs₀ (F := F)) Variants.none c none) E (cc20_kernel i arg1 harg1 arg2 harg2 arg3 harg3 arg4 harg4 arg5 harg5 arg6 harg6) K := by
  simp only [cc20_kernel_eq_skeleton]; unfold cc20_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover20_5 _)

/-- Each input's staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d

/-! ## The body obligation, at a generic point -/

/-- What the body is called with at point `t`, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t))

/-- The body at any point: the inputs' memrefs hold their blocks, so `sound_kernel20` applies; the invariant and the
    core's dues pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4]
  rw [show (dat20 V c).Φ t.succ = (dat20 V c).Φ t.castSucc from rfl,
    show (dat20 V c).owesAt () t.succ = (dat20 V c).owesAt () t.castSucc from rfl,
    after20_0, after20_1, after20_2, after20_3, after20_4, after20_5]
  iintro ⟨HΦ, Ho, ⟨%d0, H0⟩, ⟨%d1, H1⟩, ⟨%d2, H2⟩, ⟨%d3, H3⟩, ⟨%d4, H4⟩, ⟨%d5, H5⟩⟩
  iapply (sound_kernel20 c Set.univ (grid20.coords t) _ _ _ _ _ _ _ _ _ _ _ _ (iblk20 V c 0 t) (iblk20 V c 1 t) (iblk20 V c 2 t) (iblk20 V c 3 t) (iblk20 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.KernelIdeal.Hand
-- ==== Proof.KI.Reg20.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 20 over the thread state: entered from every unscoped buffer at W43, left at W44. Its arrays are
    split out of the unscoped buffers and put back at the exit contents; the generator register goes into the
    class invariant and comes out; nothing is owed; the kernel has no semaphore of its own. -/
def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (V43 m ρ) c).loose
  hwaits := Pipeline.hwaits_of_owed_zero _ _ _ _ L lv 20 fun _ _ => rfl
  pre c := iprop(StableHlo.held (c : Thread nD τ) (Pipeline.ucRefs τ sig) (W43 m ρ c) ∗ R c)
  post c := iprop(StableHlo.held (c : Thread nD τ) (Pipeline.ucRefs τ sig) (W44 m ρ c) ∗ R c)
  X c := iprop(∃ r, prngReg c r)
  Y c := iprop(∃ r, prngReg c r)
  Z c := Pipeline.unscopedRest (Ix := Unit) (Name := ℕ) (U := UR sig nD τ) (Lvl := ℕ) spec20 c (V43 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (V43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (V43 m ρ c) (V44 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body21.lean ====
import proofs.«141679_j61469571940402_1_alg».proof.Proof.KI.BodyDef21
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 21: the body's triple and the body obligation -/

/-! ## The body's triple -/

set_option maxHeartbeats 1000000 in
/-- The kernel body on whole staging memrefs, the inputs' at read contents `xW` and the output's at anything, runs to
    the continuation holding the inputs' as they were and the output's at `out21_3` of the inputs'. -/
theorem sound_kernel21 (c : Dev nD) (E : Set ℕ) (i : grid21.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out21_3 x0 x1 x2)) -∗ K ⟨⟩))
      ⊢ wp frame (wpE (defs₀ (F := F)) Variants.none c none) E (cc21_kernel i arg1 harg1 arg2 harg2 arg3 harg3 arg4 harg4) K := by
  simp only [cc21_kernel_eq_skeleton]; unfold cc21_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover21_3 _)

/-- Each input's staging buffer holds its block at every point, fetched there or not. -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d

/-! ## The body obligation, at a generic point -/

/-- What the body is called with at point `t`, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t))

/-- The body at any point: the inputs' memrefs hold their blocks, so `sound_kernel21` applies; the invariant and the
    core's dues pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2]
  rw [show (dat21 V c).Φ t.succ = (dat21 V c).Φ t.castSucc from rfl,
    show (dat21 V c).owesAt () t.succ = (dat21 V c).owesAt () t.castSucc from rfl,
    after21_0, after21_1, after21_2, after21_3]
  iintro ⟨HΦ, Ho, ⟨%d0, H0⟩, ⟨%d1, H1⟩, ⟨%d2, H2⟩, ⟨%d3, H3⟩⟩
  iapply (sound_kernel21 c Set.univ (grid21.coords t) _ _ _ _ _ _ _ _ (iblk21 V c 0 t) (iblk21 V c 1 t) (iblk21 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.KernelIdeal.Hand
-- ==== Proof.KI.Reg21.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body21
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 21 over the thread state: entered from every unscoped buffer at W45, left at W46. Its arrays are
    split out of the unscoped buffers and put back at the exit contents; the generator register goes into the
    class invariant and comes out; nothing is owed; the kernel has no semaphore of its own. -/
def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (V45 m ρ) c).loose
  hwaits := Pipeline.hwaits_of_owed_zero _ _ _ _ L lv 21 fun _ _ => rfl
  pre c := iprop(StableHlo.held (c : Thread nD τ) (Pipeline.ucRefs τ sig) (W45 m ρ c) ∗ R c)
  post c := iprop(StableHlo.held (c : Thread nD τ) (Pipeline.ucRefs τ sig) (W46 m ρ c) ∗ R c)
  X c := iprop(∃ r, prngReg c r)
  Y c := iprop(∃ r, prngReg c r)
  Z c := Pipeline.unscopedRest (Ix := Unit) (Name := ℕ) (U := UR sig nD τ) (Lvl := ℕ) spec21 c (V45 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (V45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (V45 m ρ c) (V46 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body22.lean ====
import proofs.«141679_j61469571940402_1_alg».proof.Proof.KI.BodyDef22
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 22: the body's triple and the body obligation -/

/-! ## The body's triple -/

set_option maxHeartbeats 1000000 in
/-- The kernel body on whole staging memrefs, the inputs' at read contents `xW` and the output's at anything, runs to
    the continuation holding the inputs' as they were and the output's at `out22_3` of the inputs'. -/
theorem sound_kernel22 (c : Dev nD) (E : Set ℕ) (i : grid22.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out22_3 x0 x1 x2)) -∗ K ⟨⟩))
      ⊢ wp frame (wpE (defs₀ (F := F)) Variants.none c none) E (cc22_kernel i arg1 harg1 arg2 harg2 arg3 harg3 arg4 harg4) K := by
  simp only [cc22_kernel_eq_skeleton]; unfold cc22_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover22_3 _)

/-- Each input's staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point `t`, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t))

/-- The body at any point: the inputs' memrefs hold their blocks, so `sound_kernel22` applies; the invariant and the
    core's dues pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2]
  rw [show (dat22 V c).Φ t.succ = (dat22 V c).Φ t.castSucc from rfl,
    show (dat22 V c).owesAt () t.succ = (dat22 V c).owesAt () t.castSucc from rfl,
    after22_0, after22_1, after22_2, after22_3]
  iintro ⟨HΦ, Ho, ⟨%d0, H0⟩, ⟨%d1, H1⟩, ⟨%d2, H2⟩, ⟨%d3, H3⟩⟩
  iapply (sound_kernel22 c Set.univ (grid22.coords t) _ _ _ _ _ _ _ _ (iblk22 V c 0 t) (iblk22 V c 1 t) (iblk22 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation22 (c : Dev nD) : BodyObligation (dat22 (F := F) V c) (defs₀ (F := F)) Variants.none () Set.univ := fun t => by
  rw [bigSep_W22, bigSep_W22]
  exact sound_body22 V c t

end Cert.KernelIdeal.Hand
-- ==== Proof.KI.Reg22.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body22
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 22 over the thread state: entered from every unscoped buffer at W47, left at W48. Its arrays are
    split out of the unscoped buffers and put back at the exit contents; the generator register goes into the
    class invariant and comes out; nothing is owed; the kernel has no semaphore of its own. -/
def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (V47 m ρ) c).loose
  hwaits := Pipeline.hwaits_of_owed_zero _ _ _ _ L lv 22 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec22 c (V47 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (V47 m ρ c) (V48 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body23.lean ====
import proofs.«141679_j61469571940402_1_alg».proof.Proof.KI.BodyDef23
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 23: the body's triple and the body obligation -/

/-! ## The body's triple -/

set_option maxHeartbeats 1000000 in
/-- The kernel body on whole staging memrefs, the inputs' at read contents `xW` and the output's at anything, runs to
    the continuation holding the inputs' as they were and the output's at `out23_3` of the inputs'. -/
theorem sound_kernel23 (c : Dev nD) (E : Set ℕ) (i : grid23.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out23_3 x0 x1 x2)) -∗ K ⟨⟩))
      ⊢ wp frame (wpE (defs₀ (F := F)) Variants.none c none) E (cc23_kernel i arg1 harg1 arg2 harg2 arg3 harg3 arg4 harg4) K := by
  simp only [cc23_kernel_eq_skeleton]; unfold cc23_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover23_3 _)

/-- Each input's staging buffer holds its block at every point, fetched there or not. -/
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d

/-! ## The body obligation, at a generic point -/

/-- What the body is called with at point `t`, the windows one by one, -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d)))

/-- and what it returns. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t))

/-- The body at any point: the inputs' memrefs hold their blocks, so `sound_kernel23` applies; the invariant and the
    core's dues pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2]
  rw [show (dat23 V c).Φ t.succ = (dat23 V c).Φ t.castSucc from rfl,
    show (dat23 V c).owesAt () t.succ = (dat23 V c).owesAt () t.castSucc from rfl,
    after23_0, after23_1, after23_2, after23_3]
  iintro ⟨HΦ, Ho, ⟨%d0, H0⟩, ⟨%d1, H1⟩, ⟨%d2, H2⟩, ⟨%d3, H3⟩⟩
  iapply (sound_kernel23 c Set.univ (grid23.coords t) _ _ _ _ _ _ _ _ (iblk23 V c 0 t) (iblk23 V c 1 t) (iblk23 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation23 (c : Dev nD) : BodyObligation (dat23 (F := F) V c) (defs₀ (F := F)) Variants.none () Set.univ := fun t => by
  rw [bigSep_W23, bigSep_W23]
  exact sound_body23 V c t

end Cert.KernelIdeal.Hand
-- ==== Proof.KI.Reg23.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body23
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 23 over the thread state: entered from every unscoped buffer at W49, left at W50. Its arrays are
    split out of the unscoped buffers and put back at the exit contents; the generator register goes into the
    class invariant and comes out; nothing is owed; the kernel has no semaphore of its own. -/
def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (V49 m ρ) c).loose
  hwaits := Pipeline.hwaits_of_owed_zero _ _ _ _ L lv 23 fun _ _ => rfl
  pre c := iprop(StableHlo.held (c : Thread nD τ) (Pipeline.ucRefs τ sig) (W49 m ρ c) ∗ R c)
  post c := iprop(StableHlo.held (c : Thread nD τ) (Pipeline.ucRefs τ sig) (W50 m ρ c) ∗ R c)
  X c := iprop(∃ r, prngReg c r)
  Y c := iprop(∃ r, prngReg c r)
  Z c := Pipeline.unscopedRest (Ix := Unit) (Name := ℕ) (U := UR sig nD τ) (Lvl := ℕ) spec23 c (V49 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (V49 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m ρ 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (V49 m ρ c) (V50 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body24.lean ====
import proofs.«141679_j61469571940402_1_alg».proof.Proof.KI.BodyDef24
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 24: the body's triple and the body obligation -/

/-! ## The body's triple -/

set_option maxHeartbeats 1000000 in
/-- The kernel body on whole staging memrefs, the inputs' at read contents `xW` and the output's at anything, runs to
    the continuation holding the inputs' as they were and the output's at `out24_3` of the inputs'. -/
theorem sound_kernel24 (c : Dev nD) (E : Set ℕ) (i : grid24.Coords) (arg1 : Memref sig .tc .vmem S50x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S50x128 .f32) (harg4 : arg4.IsWhole)
    (x0 : Vec F S50x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out24_3 x0 x1 x2)) -∗ K ⟨⟩))
      ⊢ wp frame (wpE (defs₀ (F := F)) Variants.none c none) E (cc24_kernel i arg1 harg1 arg2 harg2 arg3 harg3 arg4 harg4) K := by
  simp only [cc24_kernel_eq_skeleton]; unfold cc24_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover24_3 _)

/-- Each input's staging buffer holds its block at every point, fetched there or not. -/
theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d

/-! ## The body obligation, at a generic point -/

/-- What the body is called with at point `t`, the windows one by one, -/
def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d)))

/-- and what it returns. -/
def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t))

/-- The body at any point: the inputs' memrefs hold their blocks, so `sound_kernel24` applies; the invariant and the
    core's dues pass through unread. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2]
  rw [show (dat24 V c).Φ t.succ = (dat24 V c).Φ t.castSucc from rfl,
    show (dat24 V c).owesAt () t.succ = (dat24 V c).owesAt () t.castSucc from rfl,
    after24_0, after24_1, after24_2, after24_3]
  iintro ⟨HΦ, Ho, ⟨%d0, H0⟩, ⟨%d1, H1⟩, ⟨%d2, H2⟩, ⟨%d3, H3⟩⟩
  iapply (sound_kernel24 c Set.univ (grid24.coords t) _ _ _ _ _ _ _ _ (iblk24 V c 0 t) (iblk24 V c 1 t) (iblk24 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation24 (c : Dev nD) : BodyObligation (dat24 (F := F) V c) (defs₀ (F := F)) Variants.none () Set.univ := fun t => by
  rw [bigSep_W24, bigSep_W24]
  exact sound_body24 V c t

end Cert.KernelIdeal.Hand
-- ==== Proof.KI.Reg24.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body24
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 24 over the thread state: entered from every unscoped buffer at W51, left at W52. Its arrays are
    split out of the unscoped buffers and put back at the exit contents; the generator register goes into the
    class invariant and comes out; nothing is owed; the kernel has no semaphore of its own. -/
def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (V51 m ρ) c).loose
  hwaits := Pipeline.hwaits_of_owed_zero _ _ _ _ L lv 24 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X c := iprop(∃ r, prngReg c r)
  Y c := iprop(∃ r, prngReg c r)
  Z c := Pipeline.unscopedRest (Ix := Unit) (Name := ℕ) (U := UR sig nD τ) (Lvl := ℕ) spec24 c (V51 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (V51 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (V51 m ρ c) (V52 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body25.lean ====
import proofs.«141679_j61469571940402_1_alg».proof.Proof.KI.BodyDef25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided by a structural recursion along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 25: the body's triple and the body obligation -/

/-! ## The body's triple -/

set_option maxHeartbeats 1000000 in
/-- The kernel body on whole staging memrefs, the inputs' at read contents `xW` and the output's at anything, runs to
    the continuation holding the inputs' as they were and the output's at `out25_3` of the inputs'. -/
theorem sound_kernel25 (c : Dev nD) (E : Set ℕ) (i : grid25.Coords) (arg1 : Memref sig .tc .vmem S50x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S50x128 .f32) (harg4 : arg4.IsWhole)
    (x0 : Vec F S50x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out25_3 x0 x1 x2)) -∗ K ⟨⟩))
      ⊢ wp frame (wpE (defs₀ (F := F)) Variants.none c none) E (cc25_kernel i arg1 harg1 arg2 harg2 arg3 harg3 arg4 harg4) K := by
  simp only [cc25_kernel_eq_skeleton]; unfold cc25_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover25_3 _)

/-- Each input's staging buffer holds its block at every point, fetched there or not. -/
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d

/-! ## The body obligation, at a generic point -/

/-- What the body is called with at point `t`, the windows one by one, -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d)))

/-- and what it returns. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t))

/-- The body at any point: the inputs' memrefs hold their blocks, so `sound_kernel25` applies; the invariant and the
    core's dues pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2]
  rw [show (dat25 V c).Φ t.succ = (dat25 V c).Φ t.castSucc from rfl,
    show (dat25 V c).owesAt () t.succ = (dat25 V c).owesAt () t.castSucc from rfl,
    after25_0, after25_1, after25_2, after25_3]
  iintro ⟨HΦ, Ho, ⟨%d0, H0⟩, ⟨%d1, H1⟩, ⟨%d2, H2⟩, ⟨%d3, H3⟩⟩
  iapply (sound_kernel25 c Set.univ (grid25.coords t) _ _ _ _ _ _ _ _ (iblk25 V c 0 t) (iblk25 V c 1 t) (iblk25 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation25 (c : Dev nD) : BodyObligation (dat25 (F := F) V c) (defs₀ (F := F)) Variants.none () Set.univ := fun t => by
  rw [bigSep_W25, bigSep_W25]
  exact sound_body25 V c t

end Cert.KernelIdeal.Hand
-- ==== Proof.KI.Reg25.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Body25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification
-- may unfold plain definitions in a metavariable's type
set_option backward.isDefEq.respectTransparency.types false in
/-- Region 25 over the thread state: entered from every unscoped buffer at W53, left at W54. Its arrays are
    split out of the unscoped buffers and put back at the exit contents; the generator register goes into the
    class invariant and comes out; nothing is owed; the kernel has no semaphore of its own. -/
def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (V53 m ρ) c).loose
  hwaits := Pipeline.hwaits_of_owed_zero _ _ _ _ L lv 25 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X c := iprop(∃ r, prngReg c r)
  Y c := iprop(∃ r, prngReg c r)
  Z c := Pipeline.unscopedRest (Ix := Unit) (Name := ℕ) (U := UR sig nD τ) (Lvl := ℕ) spec25 c (V53 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (V53 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (V53 m ρ c) (V54 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import proofs.«141679_j61469571940402_1_alg».proof.Proof.KI.Reg0
import proofs.«141679_j61469571940402_1_alg».proof.Proof.KI.Reg1
import proofs.«141679_j61469571940402_1_alg».proof.Proof.KI.Reg2
import proofs.«141679_j61469571940402_1_alg».proof.Proof.KI.Reg3
import proofs.«141679_j61469571940402_1_alg».proof.Proof.KI.Reg4
import proofs.«141679_j61469571940402_1_alg».proof.Proof.KI.Reg5
import proofs.«141679_j61469571940402_1_alg».proof.Proof.KI.Reg6
import proofs.«141679_j61469571940402_1_alg».proof.Proof.KI.Reg7
import proofs.«141679_j61469571940402_1_alg».proof.Proof.KI.Reg8
import proofs.«141679_j61469571940402_1_alg».proof.Proof.KI.Reg9
import proofs.«141679_j61469571940402_1_alg».proof.Proof.KI.Reg10
import proofs.«141679_j61469571940402_1_alg».proof.Proof.KI.Reg11
import proofs.«141679_j61469571940402_1_alg».proof.Proof.KI.Reg12
import proofs.«141679_j61469571940402_1_alg».proof.Proof.KI.Reg13
import proofs.«141679_j61469571940402_1_alg».proof.Proof.KI.Reg14
import proofs.«141679_j61469571940402_1_alg».proof.Proof.KI.Reg15
import proofs.«141679_j61469571940402_1_alg».proof.Proof.KI.Reg16
import proofs.«141679_j61469571940402_1_alg».proof.Proof.KI.Reg17
import proofs.«141679_j61469571940402_1_alg».proof.Proof.KI.Reg18
import proofs.«141679_j61469571940402_1_alg».proof.Proof.KI.Reg19
import proofs.«141679_j61469571940402_1_alg».proof.Proof.KI.Reg20
import proofs.«141679_j61469571940402_1_alg».proof.Proof.KI.Reg21
import proofs.«141679_j61469571940402_1_alg».proof.Proof.KI.Reg22
import proofs.«141679_j61469571940402_1_alg».proof.Proof.KI.Reg23
import proofs.«141679_j61469571940402_1_alg».proof.Proof.KI.Reg24
import proofs.«141679_j61469571940402_1_alg».proof.Proof.KI.Reg25
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 55 items in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .region (reg11 m ρ),
    .host (hseg hostOps12 hostOps12_sub hostOps12_fresh (W26 m ρ)),
    .region (reg12 m ρ),
    .host (hseg hostOps13 hostOps13_sub hostOps13_fresh (W28 m ρ)),
    .region (reg13 m ρ),
    .host (hseg hostOps14 hostOps14_sub hostOps14_fresh (W30 m ρ)),
    .region (reg14 m ρ),
    .host (hseg hostOps15 hostOps15_sub hostOps15_fresh (W32 m ρ)),
    .region (reg15 m ρ),
    .host (hseg hostOps16 hostOps16_sub hostOps16_fresh (W34 m ρ)),
    .region (reg16 m ρ),
    .host (hseg hostOps17 hostOps17_sub hostOps17_fresh (W36 m ρ)),
    .region (reg17 m ρ),
    .host (hseg hostOps18 hostOps18_sub hostOps18_fresh (W38 m ρ)),
    .region (reg18 m ρ),
    .host (hseg hostOps19 hostOps19_sub hostOps19_fresh (W40 m ρ)),
    .region (reg19 m ρ),
    .host (hseg hostOps20 hostOps20_sub hostOps20_fresh (W42 m ρ)),
    .region (reg20 m ρ),
    .host (hseg hostOps21 hostOps21_sub hostOps21_fresh (W44 m ρ)),
    .region (reg21 m ρ),
    .host (hseg hostOps22 hostOps22_sub hostOps22_fresh (W46 m ρ)),
    .region (reg22 m ρ),
    .host (hseg hostOps23 hostOps23_sub hostOps23_fresh (W48 m ρ)),
    .region (reg23 m ρ),
    .host (hseg hostOps24 hostOps24_sub hostOps24_fresh (W50 m ρ)),
    .region (reg24 m ρ),
    .host (hseg hostOps25 hostOps25_sub hostOps25_fresh (W52 m ρ)),
    .region (reg25 m ρ),
    .host (hseg hostOps26 hostOps26_sub hostOps26_fresh (W54 m ρ)) ]
/-- @main is the run of the segments: the printed chain of its items, then the segments' run against that chain. -/
theorem main_run (c : Dev nD) : main (F := F) c = Pipeline.Seg.run (segs m ρ) := (main_chain c).trans (by chain_rfl)

/-- The last item is a host stretch: what it leaves, every unscoped buffer at W55 beside the generator register and
    the dues at nothing, is the last thread state beside the dues (the separating conjunction re-associated). -/
theorem hrun_last (c : Dev nD) :
    iprop(StableHlo.held (c : Thread nD τ) (Pipeline.ucRefs τ sig) (W55 m ρ c)
        ∗ (∃ r, prngReg c r) ∗ ∃ W, owes (c : Thread nD τ) (0 : CellTallies nD τ sig Unit) W)
      ⊢ (iprop((StableHlo.held (c : Thread nD τ) (Pipeline.ucRefs τ sig) (W55 m ρ c) ∗ ∃ r, prngReg c r)
        ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO
-- the launch theorem's implicit arguments are found by unifying its conclusion with this one, which takes unfolding
-- plain definitions in a metavariable's type
set_option backward.isDefEq.respectTransparency.types false in
/-- THE RUN: from any memory with zero counters, every weakly fair execution of @main on the cores terminates, nothing
    faulting, and every final memory holds each unscoped buffer of each core at the last boundary's contents W55. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W55 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => hrun_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W55 m ρ c b)
    (hfin := fun c s' => by
      iintro ⟨⟨Hh, -⟩, HSI⟩
      unfold StableHlo.held
      imodintro
      iapply (pointsTo_read_all (Pipeline.ucRefs τ sig) (fun b => (((c : Thread nD τ)).1, b)) (W55 m ρ c) s')
      isplitl [Hh] <;> iassumption)
    (hQ := fun _ h => h)

/-- info: 'Cert.KernelIdeal.Hand.run_all' depends on axioms: [propext, Classical.choice, Quot.sound] -/
#guard_msgs in #print axioms run_all

end Cert.KernelIdeal.Hand

end
-- ==== Proof.KI.Keep.lean ====
import proofs.«141679_j61469571940402_1_alg».proof.Proof.Gen.KernelIdeal.Launch
import proofs.«141679_j61469571940402_1_alg».proof.Proof.Gen.KernelIdeal.Skeleton
import proofs.«141679_j61469571940402_1_alg».proof.Proof.Gen.KernelIdeal.Points
import proofs.«141679_j61469571940402_1_alg».proof.Proof.KI.RegionsP
import proofs.«141679_j61469571940402_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a stretch's written references walks the whole list
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What each item leaves unchanged

A host stretch leaves every reference it does not write; a region leaves every buffer but its output array: an
input array is only read (an input window's array is as entered at every point), and a buffer that is none of the
region's arrays is not touched. -/

/-- The stretch hostOps0 leaves a reference it does not write. -/
theorem keep0 (c : Dev nD) (b : Ref sig .tc) (hb : b ∉ hostOps0_W) :
    W1 m ρ c (Proc.devRef .tc b) = W0 m ρ c (Proc.devRef .tc b) :=
  StableHlo.after_of_writes_sub hostOps0 _ hostOps0_writes hb
/-- The stretch hostOps0_1 leaves a reference it does not write. -/
theorem keep1 (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb
/-- The stretch hostOps0_2 leaves a reference it does not write. -/
theorem keep2 (c : Dev nD) (b : Ref sig .tc) (hb : b ∉ hostOps0_2_W) :
    W3 m ρ c (Proc.devRef .tc b) = W2 m ρ c (Proc.devRef .tc b) :=
  StableHlo.after_of_writes_sub hostOps0_2 _ hostOps0_2_writes hb
/-- Region 0 leaves its input array main_arg0 (window 0) as entered. -/
theorem hrun_keep3_in0 (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
/-- Region 0 leaves its input array main_arg4 (window 1) as entered. -/
theorem hrun_keep3_in1 (c : Dev nD) : W4 m ρ c (Proc.devRef .tc main_arg4) = W3 m ρ c (Proc.devRef .tc main_arg4) :=
  (W4_arr m ρ c 1).trans (((dat0 (V3 m ρ) c).arrAt_in 1 rfl _).trans (A_eq0 (V3 m ρ) c 1))
/-- Region 0 leaves its input array main_v9 (window 2) as entered. -/
theorem hrun_keep3_in2 (c : Dev nD) : W4 m ρ c (Proc.devRef .tc main_v9) = W3 m ρ c (Proc.devRef .tc main_v9) :=
  (W4_arr m ρ c 2).trans (((dat0 (V3 m ρ) c).arrAt_in 2 rfl _).trans (A_eq0 (V3 m ρ) c 2))
/-- Region 0 leaves every buffer but its output array main_v10. -/
theorem keep3 (c : Dev nD) (b : Ref sig .tc) (hb : b ≠ main_v10) :
    W4 m ρ c (Proc.devRef .tc b) = W3 m ρ c (Proc.devRef .tc b) := by
  by_cases h0 : b = main_arg0
  · subst h0; exact hrun_keep3_in0 m ρ c
  by_cases h1 : b = main_arg4
  · subst h1; exact hrun_keep3_in1 m ρ c
  by_cases h2 : b = main_v9
  · subst h2; exact hrun_keep3_in2 m ρ c
  exact W4_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps1 leaves a reference it does not write. -/
theorem keep4 (c : Dev nD) (b : Ref sig .tc) (hb : b ∉ hostOps1_W) :
    W5 m ρ c (Proc.devRef .tc b) = W4 m ρ c (Proc.devRef .tc b) :=
  StableHlo.after_of_writes_sub hostOps1 _ hostOps1_writes hb
/-- Region 1 leaves its input array main_v10 (window 0) as entered. -/
theorem hrun_keep5_in0 (c : Dev nD) : W6 m ρ c (Proc.devRef .tc main_v10) = W5 m ρ c (Proc.devRef .tc main_v10) :=
  (W6_arr m ρ c 0).trans (((dat1 (V5 m ρ) c).arrAt_in 0 rfl _).trans (A_eq1 (V5 m ρ) c 0))
/-- Region 1 leaves its input array main_v30 (window 1) as entered. -/
theorem hrun_keep5_in1 (c : Dev nD) : W6 m ρ c (Proc.devRef .tc main_v30) = W5 m ρ c (Proc.devRef .tc main_v30) :=
  (W6_arr m ρ c 1).trans (((dat1 (V5 m ρ) c).arrAt_in 1 rfl _).trans (A_eq1 (V5 m ρ) c 1))
/-- Region 1 leaves its input array main_v32 (window 2) as entered. -/
theorem hrun_keep5_in2 (c : Dev nD) : W6 m ρ c (Proc.devRef .tc main_v32) = W5 m ρ c (Proc.devRef .tc main_v32) :=
  (W6_arr m ρ c 2).trans (((dat1 (V5 m ρ) c).arrAt_in 2 rfl _).trans (A_eq1 (V5 m ρ) c 2))
/-- Region 1 leaves its input array main_v34 (window 3) as entered. -/
theorem hrun_keep5_in3 (c : Dev nD) : W6 m ρ c (Proc.devRef .tc main_v34) = W5 m ρ c (Proc.devRef .tc main_v34) :=
  (W6_arr m ρ c 3).trans (((dat1 (V5 m ρ) c).arrAt_in 3 rfl _).trans (A_eq1 (V5 m ρ) c 3))
/-- Region 1 leaves its input array main_v37 (window 4) as entered. -/
theorem hrun_keep5_in4 (c : Dev nD) : W6 m ρ c (Proc.devRef .tc main_v37) = W5 m ρ c (Proc.devRef .tc main_v37) :=
  (W6_arr m ρ c 4).trans (((dat1 (V5 m ρ) c).arrAt_in 4 rfl _).trans (A_eq1 (V5 m ρ) c 4))
/-- Region 1 leaves every buffer but its output array main_v38. -/
theorem keep5 (c : Dev nD) (b : Ref sig .tc) (hb : b ≠ main_v38) :
    W6 m ρ c (Proc.devRef .tc b) = W5 m ρ c (Proc.devRef .tc b) := by
  by_cases h0 : b = main_v10
  · subst h0; exact hrun_keep5_in0 m ρ c
  by_cases h1 : b = main_v30
  · subst h1; exact hrun_keep5_in1 m ρ c
  by_cases h2 : b = main_v32
  · subst h2; exact hrun_keep5_in2 m ρ c
  by_cases h3 : b = main_v34
  · subst h3; exact hrun_keep5_in3 m ρ c
  by_cases h4 : b = main_v37
  · subst h4; exact hrun_keep5_in4 m ρ c
  exact W6_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps2 leaves a reference it does not write. -/
theorem keep6 (c : Dev nD) (b : Ref sig .tc) (hb : b ∉ hostOps2_W) :
    W7 m ρ c (Proc.devRef .tc b) = W6 m ρ c (Proc.devRef .tc b) :=
  StableHlo.after_of_writes_sub hostOps2 _ hostOps2_writes hb
/-- Region 2 leaves its input array main_v38 (window 0) as entered. -/
theorem hrun_keep7_in0 (c : Dev nD) : W8 m ρ c (Proc.devRef .tc main_v38) = W7 m ρ c (Proc.devRef .tc main_v38) :=
  (W8_arr m ρ c 0).trans (((dat2 (V7 m ρ) c).arrAt_in 0 rfl _).trans (A_eq2 (V7 m ρ) c 0))
/-- Region 2 leaves its input array main_v56 (window 1) as entered. -/
theorem hrun_keep7_in1 (c : Dev nD) : W8 m ρ c (Proc.devRef .tc main_v56) = W7 m ρ c (Proc.devRef .tc main_v56) :=
  (W8_arr m ρ c 1).trans (((dat2 (V7 m ρ) c).arrAt_in 1 rfl _).trans (A_eq2 (V7 m ρ) c 1))
/-- Region 2 leaves its input array main_v58 (window 2) as entered. -/
theorem hrun_keep7_in2 (c : Dev nD) : W8 m ρ c (Proc.devRef .tc main_v58) = W7 m ρ c (Proc.devRef .tc main_v58) :=
  (W8_arr m ρ c 2).trans (((dat2 (V7 m ρ) c).arrAt_in 2 rfl _).trans (A_eq2 (V7 m ρ) c 2))
/-- Region 2 leaves its input array main_v60 (window 3) as entered. -/
theorem hrun_keep7_in3 (c : Dev nD) : W8 m ρ c (Proc.devRef .tc main_v60) = W7 m ρ c (Proc.devRef .tc main_v60) :=
  (W8_arr m ρ c 3).trans (((dat2 (V7 m ρ) c).arrAt_in 3 rfl _).trans (A_eq2 (V7 m ρ) c 3))
/-- Region 2 leaves its input array main_v63 (window 4) as entered. -/
theorem hrun_keep7_in4 (c : Dev nD) : W8 m ρ c (Proc.devRef .tc main_v63) = W7 m ρ c (Proc.devRef .tc main_v63) :=
  (W8_arr m ρ c 4).trans (((dat2 (V7 m ρ) c).arrAt_in 4 rfl _).trans (A_eq2 (V7 m ρ) c 4))
/-- Region 2 leaves every buffer but its output array main_v64. -/
theorem keep7 (c : Dev nD) (b : Ref sig .tc) (hb : b ≠ main_v64) :
    W8 m ρ c (Proc.devRef .tc b) = W7 m ρ c (Proc.devRef .tc b) := by
  by_cases h0 : b = main_v38
  · subst h0; exact hrun_keep7_in0 m ρ c
  by_cases h1 : b = main_v56
  · subst h1; exact hrun_keep7_in1 m ρ c
  by_cases h2 : b = main_v58
  · subst h2; exact hrun_keep7_in2 m ρ c
  by_cases h3 : b = main_v60
  · subst h3; exact hrun_keep7_in3 m ρ c
  by_cases h4 : b = main_v63
  · subst h4; exact hrun_keep7_in4 m ρ c
  exact W8_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps3 leaves a reference it does not write. -/
theorem keep8 (c : Dev nD) (b : Ref sig .tc) (hb : b ∉ hostOps3_W) :
    W9 m ρ c (Proc.devRef .tc b) = W8 m ρ c (Proc.devRef .tc b) :=
  StableHlo.after_of_writes_sub hostOps3 _ hostOps3_writes hb
/-- Region 3 leaves its input array main_v11 (window 0) as entered. -/
theorem hrun_keep9_in0 (c : Dev nD) : W10 m ρ c (Proc.devRef .tc main_v11) = W9 m ρ c (Proc.devRef .tc main_v11) :=
  (W10_arr m ρ c 0).trans (((dat3 (V9 m ρ) c).arrAt_in 0 rfl _).trans (A_eq3 (V9 m ρ) c 0))
/-- Region 3 leaves its input array main_v66 (window 1) as entered. -/
theorem hrun_keep9_in1 (c : Dev nD) : W10 m ρ c (Proc.devRef .tc main_v66) = W9 m ρ c (Proc.devRef .tc main_v66) :=
  (W10_arr m ρ c 1).trans (((dat3 (V9 m ρ) c).arrAt_in 1 rfl _).trans (A_eq3 (V9 m ρ) c 1))
/-- Region 3 leaves its input array main_v69 (window 2) as entered. -/
theorem hrun_keep9_in2 (c : Dev nD) : W10 m ρ c (Proc.devRef .tc main_v69) = W9 m ρ c (Proc.devRef .tc main_v69) :=
  (W10_arr m ρ c 2).trans (((dat3 (V9 m ρ) c).arrAt_in 2 rfl _).trans (A_eq3 (V9 m ρ) c 2))
/-- Region 3 leaves every buffer but its output array main_v70. -/
theorem keep9 (c : Dev nD) (b : Ref sig .tc) (hb : b ≠ main_v70) :
    W10 m ρ c (Proc.devRef .tc b) = W9 m ρ c (Proc.devRef .tc b) := by
  by_cases h0 : b = main_v11
  · subst h0; exact hrun_keep9_in0 m ρ c
  by_cases h1 : b = main_v66
  · subst h1; exact hrun_keep9_in1 m ρ c
  by_cases h2 : b = main_v69
  · subst h2; exact hrun_keep9_in2 m ρ c
  exact W10_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps4 leaves a reference it does not write. -/
theorem keep10 (c : Dev nD) (b : Ref sig .tc) (hb : b ∉ hostOps4_W) :
    W11 m ρ c (Proc.devRef .tc b) = W10 m ρ c (Proc.devRef .tc b) :=
  StableHlo.after_of_writes_sub hostOps4 _ hostOps4_writes hb
/-- Region 4 leaves its input array main_v70 (window 0) as entered. -/
theorem hrun_keep11_in0 (c : Dev nD) : W12 m ρ c (Proc.devRef .tc main_v70) = W11 m ρ c (Proc.devRef .tc main_v70) :=
  (W12_arr m ρ c 0).trans (((dat4 (V11 m ρ) c).arrAt_in 0 rfl _).trans (A_eq4 (V11 m ρ) c 0))
/-- Region 4 leaves its input array main_v72 (window 1) as entered. -/
theorem hrun_keep11_in1 (c : Dev nD) : W12 m ρ c (Proc.devRef .tc main_v72) = W11 m ρ c (Proc.devRef .tc main_v72) :=
  (W12_arr m ρ c 1).trans (((dat4 (V11 m ρ) c).arrAt_in 1 rfl _).trans (A_eq4 (V11 m ρ) c 1))
/-- Region 4 leaves its input array main_v75 (window 2) as entered. -/
theorem hrun_keep11_in2 (c : Dev nD) : W12 m ρ c (Proc.devRef .tc main_v75) = W11 m ρ c (Proc.devRef .tc main_v75) :=
  (W12_arr m ρ c 2).trans (((dat4 (V11 m ρ) c).arrAt_in 2 rfl _).trans (A_eq4 (V11 m ρ) c 2))
/-- Region 4 leaves every buffer but its output array main_v76. -/
theorem keep11 (c : Dev nD) (b : Ref sig .tc) (hb : b ≠ main_v76) :
    W12 m ρ c (Proc.devRef .tc b) = W11 m ρ c (Proc.devRef .tc b) := by
  by_cases h0 : b = main_v70
  · subst h0; exact hrun_keep11_in0 m ρ c
  by_cases h1 : b = main_v72
  · subst h1; exact hrun_keep11_in1 m ρ c
  by_cases h2 : b = main_v75
  · subst h2; exact hrun_keep11_in2 m ρ c
  exact W12_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps5 leaves a reference it does not write. -/
theorem keep12 (c : Dev nD) (b : Ref sig .tc) (hb : b ∉ hostOps5_W) :
    W13 m ρ c (Proc.devRef .tc b) = W12 m ρ c (Proc.devRef .tc b) :=
  StableHlo.after_of_writes_sub hostOps5 _ hostOps5_writes hb
/-- Region 5 leaves its input array main_v12 (window 0) as entered. -/
theorem hrun_keep13_in0 (c : Dev nD) : W14 m ρ c (Proc.devRef .tc main_v12) = W13 m ρ c (Proc.devRef .tc main_v12) :=
  (W14_arr m ρ c 0).trans (((dat5 (V13 m ρ) c).arrAt_in 0 rfl _).trans (A_eq5 (V13 m ρ) c 0))
/-- Region 5 leaves its input array main_v78 (window 1) as entered. -/
theorem hrun_keep13_in1 (c : Dev nD) : W14 m ρ c (Proc.devRef .tc main_v78) = W13 m ρ c (Proc.devRef .tc main_v78) :=
  (W14_arr m ρ c 1).trans (((dat5 (V13 m ρ) c).arrAt_in 1 rfl _).trans (A_eq5 (V13 m ρ) c 1))
/-- Region 5 leaves its input array main_v81 (window 2) as entered. -/
theorem hrun_keep13_in2 (c : Dev nD) : W14 m ρ c (Proc.devRef .tc main_v81) = W13 m ρ c (Proc.devRef .tc main_v81) :=
  (W14_arr m ρ c 2).trans (((dat5 (V13 m ρ) c).arrAt_in 2 rfl _).trans (A_eq5 (V13 m ρ) c 2))
/-- Region 5 leaves every buffer but its output array main_v82. -/
theorem keep13 (c : Dev nD) (b : Ref sig .tc) (hb : b ≠ main_v82) :
    W14 m ρ c (Proc.devRef .tc b) = W13 m ρ c (Proc.devRef .tc b) := by
  by_cases h0 : b = main_v12
  · subst h0; exact hrun_keep13_in0 m ρ c
  by_cases h1 : b = main_v78
  · subst h1; exact hrun_keep13_in1 m ρ c
  by_cases h2 : b = main_v81
  · subst h2; exact hrun_keep13_in2 m ρ c
  exact W14_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps6 leaves a reference it does not write. -/
theorem keep14 (c : Dev nD) (b : Ref sig .tc) (hb : b ∉ hostOps6_W) :
    W15 m ρ c (Proc.devRef .tc b) = W14 m ρ c (Proc.devRef .tc b) :=
  StableHlo.after_of_writes_sub hostOps6 _ hostOps6_writes hb
/-- Region 6 leaves its input array main_v82 (window 0) as entered. -/
theorem hrun_keep15_in0 (c : Dev nD) : W16 m ρ c (Proc.devRef .tc main_v82) = W15 m ρ c (Proc.devRef .tc main_v82) :=
  (W16_arr m ρ c 0).trans (((dat6 (V15 m ρ) c).arrAt_in 0 rfl _).trans (A_eq6 (V15 m ρ) c 0))
/-- Region 6 leaves its input array main_v84 (window 1) as entered. -/
theorem hrun_keep15_in1 (c : Dev nD) : W16 m ρ c (Proc.devRef .tc main_v84) = W15 m ρ c (Proc.devRef .tc main_v84) :=
  (W16_arr m ρ c 1).trans (((dat6 (V15 m ρ) c).arrAt_in 1 rfl _).trans (A_eq6 (V15 m ρ) c 1))
/-- Region 6 leaves its input array main_v87 (window 2) as entered. -/
theorem hrun_keep15_in2 (c : Dev nD) : W16 m ρ c (Proc.devRef .tc main_v87) = W15 m ρ c (Proc.devRef .tc main_v87) :=
  (W16_arr m ρ c 2).trans (((dat6 (V15 m ρ) c).arrAt_in 2 rfl _).trans (A_eq6 (V15 m ρ) c 2))
/-- Region 6 leaves every buffer but its output array main_v88. -/
theorem keep15 (c : Dev nD) (b : Ref sig .tc) (hb : b ≠ main_v88) :
    W16 m ρ c (Proc.devRef .tc b) = W15 m ρ c (Proc.devRef .tc b) := by
  by_cases h0 : b = main_v82
  · subst h0; exact hrun_keep15_in0 m ρ c
  by_cases h1 : b = main_v84
  · subst h1; exact hrun_keep15_in1 m ρ c
  by_cases h2 : b = main_v87
  · subst h2; exact hrun_keep15_in2 m ρ c
  exact W16_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps7 leaves a reference it does not write. -/
theorem keep16 (c : Dev nD) (b : Ref sig .tc) (hb : b ∉ hostOps7_W) :
    W17 m ρ c (Proc.devRef .tc b) = W16 m ρ c (Proc.devRef .tc b) :=
  StableHlo.after_of_writes_sub hostOps7 _ hostOps7_writes hb
/-- Region 7 leaves its input array main_v64 (window 0) as entered. -/
theorem hrun_keep17_in0 (c : Dev nD) : W18 m ρ c (Proc.devRef .tc main_v64) = W17 m ρ c (Proc.devRef .tc main_v64) :=
  (W18_arr m ρ c 0).trans (((dat7 (V17 m ρ) c).arrAt_in 0 rfl _).trans (A_eq7 (V17 m ρ) c 0))
/-- Region 7 leaves its input array main_v117 (window 1) as entered. -/
theorem hrun_keep17_in1 (c : Dev nD) : W18 m ρ c (Proc.devRef .tc main_v117) = W17 m ρ c (Proc.devRef .tc main_v117) :=
  (W18_arr m ρ c 1).trans (((dat7 (V17 m ρ) c).arrAt_in 1 rfl _).trans (A_eq7 (V17 m ρ) c 1))
/-- Region 7 leaves its input array main_arg20 (window 2) as entered. -/
theorem hrun_keep17_in2 (c : Dev nD) : W18 m ρ c (Proc.devRef .tc main_arg20) = W17 m ρ c (Proc.devRef .tc main_arg20) :=
  (W18_arr m ρ c 2).trans (((dat7 (V17 m ρ) c).arrAt_in 2 rfl _).trans (A_eq7 (V17 m ρ) c 2))
/-- Region 7 leaves its input array main_arg25 (window 3) as entered. -/
theorem hrun_keep17_in3 (c : Dev nD) : W18 m ρ c (Proc.devRef .tc main_arg25) = W17 m ρ c (Proc.devRef .tc main_arg25) :=
  (W18_arr m ρ c 3).trans (((dat7 (V17 m ρ) c).arrAt_in 3 rfl _).trans (A_eq7 (V17 m ρ) c 3))
/-- Region 7 leaves its input array main_v125 (window 4) as entered. -/
theorem hrun_keep17_in4 (c : Dev nD) : W18 m ρ c (Proc.devRef .tc main_v125) = W17 m ρ c (Proc.devRef .tc main_v125) :=
  (W18_arr m ρ c 4).trans (((dat7 (V17 m ρ) c).arrAt_in 4 rfl _).trans (A_eq7 (V17 m ρ) c 4))
/-- Region 7 leaves every buffer but its output array main_v126. -/
theorem keep17 (c : Dev nD) (b : Ref sig .tc) (hb : b ≠ main_v126) :
    W18 m ρ c (Proc.devRef .tc b) = W17 m ρ c (Proc.devRef .tc b) := by
  by_cases h0 : b = main_v64
  · subst h0; exact hrun_keep17_in0 m ρ c
  by_cases h1 : b = main_v117
  · subst h1; exact hrun_keep17_in1 m ρ c
  by_cases h2 : b = main_arg20
  · subst h2; exact hrun_keep17_in2 m ρ c
  by_cases h3 : b = main_arg25
  · subst h3; exact hrun_keep17_in3 m ρ c
  by_cases h4 : b = main_v125
  · subst h4; exact hrun_keep17_in4 m ρ c
  exact W18_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps8 leaves a reference it does not write. -/
theorem keep18 (c : Dev nD) (b : Ref sig .tc) (hb : b ∉ hostOps8_W) :
    W19 m ρ c (Proc.devRef .tc b) = W18 m ρ c (Proc.devRef .tc b) :=
  StableHlo.after_of_writes_sub hostOps8 _ hostOps8_writes hb
/-- Region 8 leaves its input array main_v76 (window 0) as entered. -/
theorem hrun_keep19_in0 (c : Dev nD) : W20 m ρ c (Proc.devRef .tc main_v76) = W19 m ρ c (Proc.devRef .tc main_v76) :=
  (W20_arr m ρ c 0).trans (((dat8 (V19 m ρ) c).arrAt_in 0 rfl _).trans (A_eq8 (V19 m ρ) c 0))
/-- Region 8 leaves its input array main_v99 (window 1) as entered. -/
theorem hrun_keep19_in1 (c : Dev nD) : W20 m ρ c (Proc.devRef .tc main_v99) = W19 m ρ c (Proc.devRef .tc main_v99) :=
  (W20_arr m ρ c 1).trans (((dat8 (V19 m ρ) c).arrAt_in 1 rfl _).trans (A_eq8 (V19 m ρ) c 1))
/-- Region 8 leaves its input array main_v124 (window 2) as entered. -/
theorem hrun_keep19_in2 (c : Dev nD) : W20 m ρ c (Proc.devRef .tc main_v124) = W19 m ρ c (Proc.devRef .tc main_v124) :=
  (W20_arr m ρ c 2).trans (((dat8 (V19 m ρ) c).arrAt_in 2 rfl _).trans (A_eq8 (V19 m ρ) c 2))
/-- Region 8 leaves its input array main_arg21 (window 3) as entered. -/
theorem hrun_keep19_in3 (c : Dev nD) : W20 m ρ c (Proc.devRef .tc main_arg21) = W19 m ρ c (Proc.devRef .tc main_arg21) :=
  (W20_arr m ρ c 3).trans (((dat8 (V19 m ρ) c).arrAt_in 3 rfl _).trans (A_eq8 (V19 m ρ) c 3))
/-- Region 8 leaves its input array main_arg23 (window 4) as entered. -/
theorem hrun_keep19_in4 (c : Dev nD) : W20 m ρ c (Proc.devRef .tc main_arg23) = W19 m ρ c (Proc.devRef .tc main_arg23) :=
  (W20_arr m ρ c 4).trans (((dat8 (V19 m ρ) c).arrAt_in 4 rfl _).trans (A_eq8 (V19 m ρ) c 4))
/-- Region 8 leaves its input array main_arg26 (window 5) as entered. -/
theorem hrun_keep19_in5 (c : Dev nD) : W20 m ρ c (Proc.devRef .tc main_arg26) = W19 m ρ c (Proc.devRef .tc main_arg26) :=
  (W20_arr m ρ c 5).trans (((dat8 (V19 m ρ) c).arrAt_in 5 rfl _).trans (A_eq8 (V19 m ρ) c 5))
/-- Region 8 leaves its input array main_v127 (window 6) as entered. -/
theorem hrun_keep19_in6 (c : Dev nD) : W20 m ρ c (Proc.devRef .tc main_v127) = W19 m ρ c (Proc.devRef .tc main_v127) :=
  (W20_arr m ρ c 6).trans (((dat8 (V19 m ρ) c).arrAt_in 6 rfl _).trans (A_eq8 (V19 m ρ) c 6))
/-- Region 8 leaves every buffer but its output array main_v128. -/
theorem keep19 (c : Dev nD) (b : Ref sig .tc) (hb : b ≠ main_v128) :
    W20 m ρ c (Proc.devRef .tc b) = W19 m ρ c (Proc.devRef .tc b) := by
  by_cases h0 : b = main_v76
  · subst h0; exact hrun_keep19_in0 m ρ c
  by_cases h1 : b = main_v99
  · subst h1; exact hrun_keep19_in1 m ρ c
  by_cases h2 : b = main_v124
  · subst h2; exact hrun_keep19_in2 m ρ c
  by_cases h3 : b = main_arg21
  · subst h3; exact hrun_keep19_in3 m ρ c
  by_cases h4 : b = main_arg23
  · subst h4; exact hrun_keep19_in4 m ρ c
  by_cases h5 : b = main_arg26
  · subst h5; exact hrun_keep19_in5 m ρ c
  by_cases h6 : b = main_v127
  · subst h6; exact hrun_keep19_in6 m ρ c
  exact W20_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => hb e.symm)
/-- The stretch hostOps9 leaves a reference it does not write. -/
theorem keep20 (c : Dev nD) (b : Ref sig .tc) (hb : b ∉ hostOps9_W) :
    W21 m ρ c (Proc.devRef .tc b) = W20 m ρ c (Proc.devRef .tc b) :=
  StableHlo.after_of_writes_sub hostOps9 _ hostOps9_writes hb
/-- Region 9 leaves its input array main_v88 (window 0) as entered. -/
theorem hrun_keep21_in0 (c : Dev nD) : W22 m ρ c (Proc.devRef .tc main_v88) = W21 m ρ c (Proc.devRef .tc main_v88) :=
  (W22_arr m ρ c 0).trans (((dat9 (V21 m ρ) c).arrAt_in 0 rfl _).trans (A_eq9 (V21 m ρ) c 0))
/-- Region 9 leaves its input array main_v110 (window 1) as entered. -/
theorem hrun_keep21_in1 (c : Dev nD) : W22 m ρ c (Proc.devRef .tc main_v110) = W21 m ρ c (Proc.devRef .tc main_v110) :=
  (W22_arr m ρ c 1).trans (((dat9 (V21 m ρ) c).arrAt_in 1 rfl _).trans (A_eq9 (V21 m ρ) c 1))
/-- Region 9 leaves its input array main_arg22 (window 2) as entered. -/
theorem hrun_keep21_in2 (c : Dev nD) : W22 m ρ c (Proc.devRef .tc main_arg22) = W21 m ρ c (Proc.devRef .tc main_arg22) :=
  (W22_arr m ρ c 2).trans (((dat9 (V21 m ρ) c).arrAt_in 2 rfl _).trans (A_eq9 (V21 m ρ) c 2))
/-- Region 9 leaves its input array main_arg24 (window 3) as entered. -/
theorem hrun_keep21_in3 (c : Dev nD) : W22 m ρ c (Proc.devRef .tc main_arg24) = W21 m ρ c (Proc.devRef .tc main_arg24) :=
  (W22_arr m ρ c 3).trans (((dat9 (V21 m ρ) c).arrAt_in 3 rfl _).trans (A_eq9 (V21 m ρ) c 3))
/-- Region 9 leaves its input array main_v129 (window 4) as entered. -/
theorem hrun_keep21_in4 (c : Dev nD) : W22 m ρ c (Proc.devRef .tc main_v129) = W21 m ρ c (Proc.devRef .tc main_v129) :=
  (W22_arr m ρ c 4).trans (((dat9 (V21 m ρ) c).arrAt_in 4 rfl _).trans (A_eq9 (V21 m ρ) c 4))
/-- Region 9 leaves every buffer but its output array main_v130. -/
theorem keep21 (c : Dev nD) (b : Ref sig .tc) (hb : b ≠ main_v130) :
    W22 m ρ c (Proc.devRef .tc b) = W21 m ρ c (Proc.devRef .tc b) := by
  by_cases h0 : b = main_v88
  · subst h0; exact hrun_keep21_in0 m ρ c
  by_cases h1 : b = main_v110
  · subst h1; exact hrun_keep21_in1 m ρ c
  by_cases h2 : b = main_arg22
  · subst h2; exact hrun_keep21_in2 m ρ c
  by_cases h3 : b = main_arg24
  · subst h3; exact hrun_keep21_in3 m ρ c
  by_cases h4 : b = main_v129
  · subst h4; exact hrun_keep21_in4 m ρ c
  exact W22_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps10 leaves a reference it does not write. -/
theorem keep22 (c : Dev nD) (b : Ref sig .tc) (hb : b ∉ hostOps10_W) :
    W23 m ρ c (Proc.devRef .tc b) = W22 m ρ c (Proc.devRef .tc b) :=
  StableHlo.after_of_writes_sub hostOps10 _ hostOps10_writes hb
/-- Region 10 leaves its input array main_v126 (window 0) as entered. -/
theorem hrun_keep23_in0 (c : Dev nD) : W24 m ρ c (Proc.devRef .tc main_v126) = W23 m ρ c (Proc.devRef .tc main_v126) :=
  (W24_arr m ρ c 0).trans (((dat10 (V23 m ρ) c).arrAt_in 0 rfl _).trans (A_eq10 (V23 m ρ) c 0))
/-- Region 10 leaves its input array main_v148 (window 1) as entered. -/
theorem hrun_keep23_in1 (c : Dev nD) : W24 m ρ c (Proc.devRef .tc main_v148) = W23 m ρ c (Proc.devRef .tc main_v148) :=
  (W24_arr m ρ c 1).trans (((dat10 (V23 m ρ) c).arrAt_in 1 rfl _).trans (A_eq10 (V23 m ρ) c 1))
/-- Region 10 leaves its input array main_v150 (window 2) as entered. -/
theorem hrun_keep23_in2 (c : Dev nD) : W24 m ρ c (Proc.devRef .tc main_v150) = W23 m ρ c (Proc.devRef .tc main_v150) :=
  (W24_arr m ρ c 2).trans (((dat10 (V23 m ρ) c).arrAt_in 2 rfl _).trans (A_eq10 (V23 m ρ) c 2))
/-- Region 10 leaves its input array main_v152 (window 3) as entered. -/
theorem hrun_keep23_in3 (c : Dev nD) : W24 m ρ c (Proc.devRef .tc main_v152) = W23 m ρ c (Proc.devRef .tc main_v152) :=
  (W24_arr m ρ c 3).trans (((dat10 (V23 m ρ) c).arrAt_in 3 rfl _).trans (A_eq10 (V23 m ρ) c 3))
/-- Region 10 leaves its input array main_v155 (window 4) as entered. -/
theorem hrun_keep23_in4 (c : Dev nD) : W24 m ρ c (Proc.devRef .tc main_v155) = W23 m ρ c (Proc.devRef .tc main_v155) :=
  (W24_arr m ρ c 4).trans (((dat10 (V23 m ρ) c).arrAt_in 4 rfl _).trans (A_eq10 (V23 m ρ) c 4))
/-- Region 10 leaves every buffer but its output array main_v156. -/
theorem keep23 (c : Dev nD) (b : Ref sig .tc) (hb : b ≠ main_v156) :
    W24 m ρ c (Proc.devRef .tc b) = W23 m ρ c (Proc.devRef .tc b) := by
  by_cases h0 : b = main_v126
  · subst h0; exact hrun_keep23_in0 m ρ c
  by_cases h1 : b = main_v148
  · subst h1; exact hrun_keep23_in1 m ρ c
  by_cases h2 : b = main_v150
  · subst h2; exact hrun_keep23_in2 m ρ c
  by_cases h3 : b = main_v152
  · subst h3; exact hrun_keep23_in3 m ρ c
  by_cases h4 : b = main_v155
  · subst h4; exact hrun_keep23_in4 m ρ c
  exact W24_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps11 leaves a reference it does not write. -/
theorem keep24 (c : Dev nD) (b : Ref sig .tc) (hb : b ∉ hostOps11_W) :
    W25 m ρ c (Proc.devRef .tc b) = W24 m ρ c (Proc.devRef .tc b) :=
  StableHlo.after_of_writes_sub hostOps11 _ hostOps11_writes hb
/-- Region 11 leaves its input array main_v156 (window 0) as entered. -/
theorem hrun_keep25_in0 (c : Dev nD) : W26 m ρ c (Proc.devRef .tc main_v156) = W25 m ρ c (Proc.devRef .tc main_v156) :=
  (W26_arr m ρ c 0).trans (((dat11 (V25 m ρ) c).arrAt_in 0 rfl _).trans (A_eq11 (V25 m ρ) c 0))
/-- Region 11 leaves its input array main_v174 (window 1) as entered. -/
theorem hrun_keep25_in1 (c : Dev nD) : W26 m ρ c (Proc.devRef .tc main_v174) = W25 m ρ c (Proc.devRef .tc main_v174) :=
  (W26_arr m ρ c 1).trans (((dat11 (V25 m ρ) c).arrAt_in 1 rfl _).trans (A_eq11 (V25 m ρ) c 1))
/-- Region 11 leaves its input array main_v176 (window 2) as entered. -/
theorem hrun_keep25_in2 (c : Dev nD) : W26 m ρ c (Proc.devRef .tc main_v176) = W25 m ρ c (Proc.devRef .tc main_v176) :=
  (W26_arr m ρ c 2).trans (((dat11 (V25 m ρ) c).arrAt_in 2 rfl _).trans (A_eq11 (V25 m ρ) c 2))
/-- Region 11 leaves its input array main_v178 (window 3) as entered. -/
theorem hrun_keep25_in3 (c : Dev nD) : W26 m ρ c (Proc.devRef .tc main_v178) = W25 m ρ c (Proc.devRef .tc main_v178) :=
  (W26_arr m ρ c 3).trans (((dat11 (V25 m ρ) c).arrAt_in 3 rfl _).trans (A_eq11 (V25 m ρ) c 3))
/-- Region 11 leaves its input array main_v181 (window 4) as entered. -/
theorem hrun_keep25_in4 (c : Dev nD) : W26 m ρ c (Proc.devRef .tc main_v181) = W25 m ρ c (Proc.devRef .tc main_v181) :=
  (W26_arr m ρ c 4).trans (((dat11 (V25 m ρ) c).arrAt_in 4 rfl _).trans (A_eq11 (V25 m ρ) c 4))
/-- Region 11 leaves every buffer but its output array main_v182. -/
theorem keep25 (c : Dev nD) (b : Ref sig .tc) (hb : b ≠ main_v182) :
    W26 m ρ c (Proc.devRef .tc b) = W25 m ρ c (Proc.devRef .tc b) := by
  by_cases h0 : b = main_v156
  · subst h0; exact hrun_keep25_in0 m ρ c
  by_cases h1 : b = main_v174
  · subst h1; exact hrun_keep25_in1 m ρ c
  by_cases h2 : b = main_v176
  · subst h2; exact hrun_keep25_in2 m ρ c
  by_cases h3 : b = main_v178
  · subst h3; exact hrun_keep25_in3 m ρ c
  by_cases h4 : b = main_v181
  · subst h4; exact hrun_keep25_in4 m ρ c
  exact W26_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps12 leaves a reference it does not write. -/
theorem keep26 (c : Dev nD) (b : Ref sig .tc) (hb : b ∉ hostOps12_W) :
    W27 m ρ c (Proc.devRef .tc b) = W26 m ρ c (Proc.devRef .tc b) :=
  StableHlo.after_of_writes_sub hostOps12 _ hostOps12_writes hb
/-- Region 12 leaves its input array main_v128 (window 0) as entered. -/
theorem hrun_keep27_in0 (c : Dev nD) : W28 m ρ c (Proc.devRef .tc main_v128) = W27 m ρ c (Proc.devRef .tc main_v128) :=
  (W28_arr m ρ c 0).trans (((dat12 (V27 m ρ) c).arrAt_in 0 rfl _).trans (A_eq12 (V27 m ρ) c 0))
/-- Region 12 leaves its input array main_v184 (window 1) as entered. -/
theorem hrun_keep27_in1 (c : Dev nD) : W28 m ρ c (Proc.devRef .tc main_v184) = W27 m ρ c (Proc.devRef .tc main_v184) :=
  (W28_arr m ρ c 1).trans (((dat12 (V27 m ρ) c).arrAt_in 1 rfl _).trans (A_eq12 (V27 m ρ) c 1))
/-- Region 12 leaves its input array main_v187 (window 2) as entered. -/
theorem hrun_keep27_in2 (c : Dev nD) : W28 m ρ c (Proc.devRef .tc main_v187) = W27 m ρ c (Proc.devRef .tc main_v187) :=
  (W28_arr m ρ c 2).trans (((dat12 (V27 m ρ) c).arrAt_in 2 rfl _).trans (A_eq12 (V27 m ρ) c 2))
/-- Region 12 leaves every buffer but its output array main_v188. -/
theorem keep27 (c : Dev nD) (b : Ref sig .tc) (hb : b ≠ main_v188) :
    W28 m ρ c (Proc.devRef .tc b) = W27 m ρ c (Proc.devRef .tc b) := by
  by_cases h0 : b = main_v128
  · subst h0; exact hrun_keep27_in0 m ρ c
  by_cases h1 : b = main_v184
  · subst h1; exact hrun_keep27_in1 m ρ c
  by_cases h2 : b = main_v187
  · subst h2; exact hrun_keep27_in2 m ρ c
  exact W28_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps13 leaves a reference it does not write. -/
theorem keep28 (c : Dev nD) (b : Ref sig .tc) (hb : b ∉ hostOps13_W) :
    W29 m ρ c (Proc.devRef .tc b) = W28 m ρ c (Proc.devRef .tc b) :=
  StableHlo.after_of_writes_sub hostOps13 _ hostOps13_writes hb
/-- Region 13 leaves its input array main_v188 (window 0) as entered. -/
theorem hrun_keep29_in0 (c : Dev nD) : W30 m ρ c (Proc.devRef .tc main_v188) = W29 m ρ c (Proc.devRef .tc main_v188) :=
  (W30_arr m ρ c 0).trans (((dat13 (V29 m ρ) c).arrAt_in 0 rfl _).trans (A_eq13 (V29 m ρ) c 0))
/-- Region 13 leaves its input array main_v190 (window 1) as entered. -/
theorem hrun_keep29_in1 (c : Dev nD) : W30 m ρ c (Proc.devRef .tc main_v190) = W29 m ρ c (Proc.devRef .tc main_v190) :=
  (W30_arr m ρ c 1).trans (((dat13 (V29 m ρ) c).arrAt_in 1 rfl _).trans (A_eq13 (V29 m ρ) c 1))
/-- Region 13 leaves its input array main_v193 (window 2) as entered. -/
theorem hrun_keep29_in2 (c : Dev nD) : W30 m ρ c (Proc.devRef .tc main_v193) = W29 m ρ c (Proc.devRef .tc main_v193) :=
  (W30_arr m ρ c 2).trans (((dat13 (V29 m ρ) c).arrAt_in 2 rfl _).trans (A_eq13 (V29 m ρ) c 2))
/-- Region 13 leaves every buffer but its output array main_v194. -/
theorem keep29 (c : Dev nD) (b : Ref sig .tc) (hb : b ≠ main_v194) :
    W30 m ρ c (Proc.devRef .tc b) = W29 m ρ c (Proc.devRef .tc b) := by
  by_cases h0 : b = main_v188
  · subst h0; exact hrun_keep29_in0 m ρ c
  by_cases h1 : b = main_v190
  · subst h1; exact hrun_keep29_in1 m ρ c
  by_cases h2 : b = main_v193
  · subst h2; exact hrun_keep29_in2 m ρ c
  exact W30_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps14 leaves a reference it does not write. -/
theorem keep30 (c : Dev nD) (b : Ref sig .tc) (hb : b ∉ hostOps14_W) :
    W31 m ρ c (Proc.devRef .tc b) = W30 m ρ c (Proc.devRef .tc b) :=
  StableHlo.after_of_writes_sub hostOps14 _ hostOps14_writes hb
/-- Region 14 leaves its input array main_v130 (window 0) as entered. -/
theorem hrun_keep31_in0 (c : Dev nD) : W32 m ρ c (Proc.devRef .tc main_v130) = W31 m ρ c (Proc.devRef .tc main_v130) :=
  (W32_arr m ρ c 0).trans (((dat14 (V31 m ρ) c).arrAt_in 0 rfl _).trans (A_eq14 (V31 m ρ) c 0))
/-- Region 14 leaves its input array main_v196 (window 1) as entered. -/
theorem hrun_keep31_in1 (c : Dev nD) : W32 m ρ c (Proc.devRef .tc main_v196) = W31 m ρ c (Proc.devRef .tc main_v196) :=
  (W32_arr m ρ c 1).trans (((dat14 (V31 m ρ) c).arrAt_in 1 rfl _).trans (A_eq14 (V31 m ρ) c 1))
/-- Region 14 leaves its input array main_v199 (window 2) as entered. -/
theorem hrun_keep31_in2 (c : Dev nD) : W32 m ρ c (Proc.devRef .tc main_v199) = W31 m ρ c (Proc.devRef .tc main_v199) :=
  (W32_arr m ρ c 2).trans (((dat14 (V31 m ρ) c).arrAt_in 2 rfl _).trans (A_eq14 (V31 m ρ) c 2))
/-- Region 14 leaves every buffer but its output array main_v200. -/
theorem keep31 (c : Dev nD) (b : Ref sig .tc) (hb : b ≠ main_v200) :
    W32 m ρ c (Proc.devRef .tc b) = W31 m ρ c (Proc.devRef .tc b) := by
  by_cases h0 : b = main_v130
  · subst h0; exact hrun_keep31_in0 m ρ c
  by_cases h1 : b = main_v196
  · subst h1; exact hrun_keep31_in1 m ρ c
  by_cases h2 : b = main_v199
  · subst h2; exact hrun_keep31_in2 m ρ c
  exact W32_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps15 leaves a reference it does not write. -/
theorem keep32 (c : Dev nD) (b : Ref sig .tc) (hb : b ∉ hostOps15_W) :
    W33 m ρ c (Proc.devRef .tc b) = W32 m ρ c (Proc.devRef .tc b) :=
  StableHlo.after_of_writes_sub hostOps15 _ hostOps15_writes hb
/-- Region 15 leaves its input array main_v200 (window 0) as entered. -/
theorem hrun_keep33_in0 (c : Dev nD) : W34 m ρ c (Proc.devRef .tc main_v200) = W33 m ρ c (Proc.devRef .tc main_v200) :=
  (W34_arr m ρ c 0).trans (((dat15 (V33 m ρ) c).arrAt_in 0 rfl _).trans (A_eq15 (V33 m ρ) c 0))
/-- Region 15 leaves its input array main_v202 (window 1) as entered. -/
theorem hrun_keep33_in1 (c : Dev nD) : W34 m ρ c (Proc.devRef .tc main_v202) = W33 m ρ c (Proc.devRef .tc main_v202) :=
  (W34_arr m ρ c 1).trans (((dat15 (V33 m ρ) c).arrAt_in 1 rfl _).trans (A_eq15 (V33 m ρ) c 1))
/-- Region 15 leaves its input array main_v205 (window 2) as entered. -/
theorem hrun_keep33_in2 (c : Dev nD) : W34 m ρ c (Proc.devRef .tc main_v205) = W33 m ρ c (Proc.devRef .tc main_v205) :=
  (W34_arr m ρ c 2).trans (((dat15 (V33 m ρ) c).arrAt_in 2 rfl _).trans (A_eq15 (V33 m ρ) c 2))
/-- Region 15 leaves every buffer but its output array main_v206. -/
theorem keep33 (c : Dev nD) (b : Ref sig .tc) (hb : b ≠ main_v206) :
    W34 m ρ c (Proc.devRef .tc b) = W33 m ρ c (Proc.devRef .tc b) := by
  by_cases h0 : b = main_v200
  · subst h0; exact hrun_keep33_in0 m ρ c
  by_cases h1 : b = main_v202
  · subst h1; exact hrun_keep33_in1 m ρ c
  by_cases h2 : b = main_v205
  · subst h2; exact hrun_keep33_in2 m ρ c
  exact W34_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps16 leaves a reference it does not write. -/
theorem keep34 (c : Dev nD) (b : Ref sig .tc) (hb : b ∉ hostOps16_W) :
    W35 m ρ c (Proc.devRef .tc b) = W34 m ρ c (Proc.devRef .tc b) :=
  StableHlo.after_of_writes_sub hostOps16 _ hostOps16_writes hb
/-- Region 16 leaves its input array main_v182 (window 0) as entered. -/
theorem hrun_keep35_in0 (c : Dev nD) : W36 m ρ c (Proc.devRef .tc main_v182) = W35 m ρ c (Proc.devRef .tc main_v182) :=
  (W36_arr m ρ c 0).trans (((dat16 (V35 m ρ) c).arrAt_in 0 rfl _).trans (A_eq16 (V35 m ρ) c 0))
/-- Region 16 leaves its input array main_v235 (window 1) as entered. -/
theorem hrun_keep35_in1 (c : Dev nD) : W36 m ρ c (Proc.devRef .tc main_v235) = W35 m ρ c (Proc.devRef .tc main_v235) :=
  (W36_arr m ρ c 1).trans (((dat16 (V35 m ρ) c).arrAt_in 1 rfl _).trans (A_eq16 (V35 m ρ) c 1))
/-- Region 16 leaves its input array main_arg20 (window 2) as entered. -/
theorem hrun_keep35_in2 (c : Dev nD) : W36 m ρ c (Proc.devRef .tc main_arg20) = W35 m ρ c (Proc.devRef .tc main_arg20) :=
  (W36_arr m ρ c 2).trans (((dat16 (V35 m ρ) c).arrAt_in 2 rfl _).trans (A_eq16 (V35 m ρ) c 2))
/-- Region 16 leaves its input array main_arg25 (window 3) as entered. -/
theorem hrun_keep35_in3 (c : Dev nD) : W36 m ρ c (Proc.devRef .tc main_arg25) = W35 m ρ c (Proc.devRef .tc main_arg25) :=
  (W36_arr m ρ c 3).trans (((dat16 (V35 m ρ) c).arrAt_in 3 rfl _).trans (A_eq16 (V35 m ρ) c 3))
/-- Region 16 leaves its input array main_v243 (window 4) as entered. -/
theorem hrun_keep35_in4 (c : Dev nD) : W36 m ρ c (Proc.devRef .tc main_v243) = W35 m ρ c (Proc.devRef .tc main_v243) :=
  (W36_arr m ρ c 4).trans (((dat16 (V35 m ρ) c).arrAt_in 4 rfl _).trans (A_eq16 (V35 m ρ) c 4))
/-- Region 16 leaves every buffer but its output array main_v244. -/
theorem keep35 (c : Dev nD) (b : Ref sig .tc) (hb : b ≠ main_v244) :
    W36 m ρ c (Proc.devRef .tc b) = W35 m ρ c (Proc.devRef .tc b) := by
  by_cases h0 : b = main_v182
  · subst h0; exact hrun_keep35_in0 m ρ c
  by_cases h1 : b = main_v235
  · subst h1; exact hrun_keep35_in1 m ρ c
  by_cases h2 : b = main_arg20
  · subst h2; exact hrun_keep35_in2 m ρ c
  by_cases h3 : b = main_arg25
  · subst h3; exact hrun_keep35_in3 m ρ c
  by_cases h4 : b = main_v243
  · subst h4; exact hrun_keep35_in4 m ρ c
  exact W36_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps17 leaves a reference it does not write. -/
theorem keep36 (c : Dev nD) (b : Ref sig .tc) (hb : b ∉ hostOps17_W) :
    W37 m ρ c (Proc.devRef .tc b) = W36 m ρ c (Proc.devRef .tc b) :=
  StableHlo.after_of_writes_sub hostOps17 _ hostOps17_writes hb
/-- Region 17 leaves its input array main_v194 (window 0) as entered. -/
theorem hrun_keep37_in0 (c : Dev nD) : W38 m ρ c (Proc.devRef .tc main_v194) = W37 m ρ c (Proc.devRef .tc main_v194) :=
  (W38_arr m ρ c 0).trans (((dat17 (V37 m ρ) c).arrAt_in 0 rfl _).trans (A_eq17 (V37 m ρ) c 0))
/-- Region 17 leaves its input array main_v217 (window 1) as entered. -/
theorem hrun_keep37_in1 (c : Dev nD) : W38 m ρ c (Proc.devRef .tc main_v217) = W37 m ρ c (Proc.devRef .tc main_v217) :=
  (W38_arr m ρ c 1).trans (((dat17 (V37 m ρ) c).arrAt_in 1 rfl _).trans (A_eq17 (V37 m ρ) c 1))
/-- Region 17 leaves its input array main_v242 (window 2) as entered. -/
theorem hrun_keep37_in2 (c : Dev nD) : W38 m ρ c (Proc.devRef .tc main_v242) = W37 m ρ c (Proc.devRef .tc main_v242) :=
  (W38_arr m ρ c 2).trans (((dat17 (V37 m ρ) c).arrAt_in 2 rfl _).trans (A_eq17 (V37 m ρ) c 2))
/-- Region 17 leaves its input array main_arg21 (window 3) as entered. -/
theorem hrun_keep37_in3 (c : Dev nD) : W38 m ρ c (Proc.devRef .tc main_arg21) = W37 m ρ c (Proc.devRef .tc main_arg21) :=
  (W38_arr m ρ c 3).trans (((dat17 (V37 m ρ) c).arrAt_in 3 rfl _).trans (A_eq17 (V37 m ρ) c 3))
/-- Region 17 leaves its input array main_arg23 (window 4) as entered. -/
theorem hrun_keep37_in4 (c : Dev nD) : W38 m ρ c (Proc.devRef .tc main_arg23) = W37 m ρ c (Proc.devRef .tc main_arg23) :=
  (W38_arr m ρ c 4).trans (((dat17 (V37 m ρ) c).arrAt_in 4 rfl _).trans (A_eq17 (V37 m ρ) c 4))
/-- Region 17 leaves its input array main_arg26 (window 5) as entered. -/
theorem hrun_keep37_in5 (c : Dev nD) : W38 m ρ c (Proc.devRef .tc main_arg26) = W37 m ρ c (Proc.devRef .tc main_arg26) :=
  (W38_arr m ρ c 5).trans (((dat17 (V37 m ρ) c).arrAt_in 5 rfl _).trans (A_eq17 (V37 m ρ) c 5))
/-- Region 17 leaves its input array main_v245 (window 6) as entered. -/
theorem hrun_keep37_in6 (c : Dev nD) : W38 m ρ c (Proc.devRef .tc main_v245) = W37 m ρ c (Proc.devRef .tc main_v245) :=
  (W38_arr m ρ c 6).trans (((dat17 (V37 m ρ) c).arrAt_in 6 rfl _).trans (A_eq17 (V37 m ρ) c 6))
/-- Region 17 leaves every buffer but its output array main_v246. -/
theorem keep37 (c : Dev nD) (b : Ref sig .tc) (hb : b ≠ main_v246) :
    W38 m ρ c (Proc.devRef .tc b) = W37 m ρ c (Proc.devRef .tc b) := by
  by_cases h0 : b = main_v194
  · subst h0; exact hrun_keep37_in0 m ρ c
  by_cases h1 : b = main_v217
  · subst h1; exact hrun_keep37_in1 m ρ c
  by_cases h2 : b = main_v242
  · subst h2; exact hrun_keep37_in2 m ρ c
  by_cases h3 : b = main_arg21
  · subst h3; exact hrun_keep37_in3 m ρ c
  by_cases h4 : b = main_arg23
  · subst h4; exact hrun_keep37_in4 m ρ c
  by_cases h5 : b = main_arg26
  · subst h5; exact hrun_keep37_in5 m ρ c
  by_cases h6 : b = main_v245
  · subst h6; exact hrun_keep37_in6 m ρ c
  exact W38_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => hb e.symm)
/-- The stretch hostOps18 leaves a reference it does not write. -/
theorem keep38 (c : Dev nD) (b : Ref sig .tc) (hb : b ∉ hostOps18_W) :
    W39 m ρ c (Proc.devRef .tc b) = W38 m ρ c (Proc.devRef .tc b) :=
  StableHlo.after_of_writes_sub hostOps18 _ hostOps18_writes hb
/-- Region 18 leaves its input array main_v206 (window 0) as entered. -/
theorem hrun_keep39_in0 (c : Dev nD) : W40 m ρ c (Proc.devRef .tc main_v206) = W39 m ρ c (Proc.devRef .tc main_v206) :=
  (W40_arr m ρ c 0).trans (((dat18 (V39 m ρ) c).arrAt_in 0 rfl _).trans (A_eq18 (V39 m ρ) c 0))
/-- Region 18 leaves its input array main_v228 (window 1) as entered. -/
theorem hrun_keep39_in1 (c : Dev nD) : W40 m ρ c (Proc.devRef .tc main_v228) = W39 m ρ c (Proc.devRef .tc main_v228) :=
  (W40_arr m ρ c 1).trans (((dat18 (V39 m ρ) c).arrAt_in 1 rfl _).trans (A_eq18 (V39 m ρ) c 1))
/-- Region 18 leaves its input array main_arg22 (window 2) as entered. -/
theorem hrun_keep39_in2 (c : Dev nD) : W40 m ρ c (Proc.devRef .tc main_arg22) = W39 m ρ c (Proc.devRef .tc main_arg22) :=
  (W40_arr m ρ c 2).trans (((dat18 (V39 m ρ) c).arrAt_in 2 rfl _).trans (A_eq18 (V39 m ρ) c 2))
/-- Region 18 leaves its input array main_arg24 (window 3) as entered. -/
theorem hrun_keep39_in3 (c : Dev nD) : W40 m ρ c (Proc.devRef .tc main_arg24) = W39 m ρ c (Proc.devRef .tc main_arg24) :=
  (W40_arr m ρ c 3).trans (((dat18 (V39 m ρ) c).arrAt_in 3 rfl _).trans (A_eq18 (V39 m ρ) c 3))
/-- Region 18 leaves its input array main_v247 (window 4) as entered. -/
theorem hrun_keep39_in4 (c : Dev nD) : W40 m ρ c (Proc.devRef .tc main_v247) = W39 m ρ c (Proc.devRef .tc main_v247) :=
  (W40_arr m ρ c 4).trans (((dat18 (V39 m ρ) c).arrAt_in 4 rfl _).trans (A_eq18 (V39 m ρ) c 4))
/-- Region 18 leaves every buffer but its output array main_v248. -/
theorem keep39 (c : Dev nD) (b : Ref sig .tc) (hb : b ≠ main_v248) :
    W40 m ρ c (Proc.devRef .tc b) = W39 m ρ c (Proc.devRef .tc b) := by
  by_cases h0 : b = main_v206
  · subst h0; exact hrun_keep39_in0 m ρ c
  by_cases h1 : b = main_v228
  · subst h1; exact hrun_keep39_in1 m ρ c
  by_cases h2 : b = main_arg22
  · subst h2; exact hrun_keep39_in2 m ρ c
  by_cases h3 : b = main_arg24
  · subst h3; exact hrun_keep39_in3 m ρ c
  by_cases h4 : b = main_v247
  · subst h4; exact hrun_keep39_in4 m ρ c
  exact W40_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps19 leaves a reference it does not write. -/
theorem keep40 (c : Dev nD) (b : Ref sig .tc) (hb : b ∉ hostOps19_W) :
    W41 m ρ c (Proc.devRef .tc b) = W40 m ρ c (Proc.devRef .tc b) :=
  StableHlo.after_of_writes_sub hostOps19 _ hostOps19_writes hb
/-- Region 19 leaves its input array main_v244 (window 0) as entered. -/
theorem hrun_keep41_in0 (c : Dev nD) : W42 m ρ c (Proc.devRef .tc main_v244) = W41 m ρ c (Proc.devRef .tc main_v244) :=
  (W42_arr m ρ c 0).trans (((dat19 (V41 m ρ) c).arrAt_in 0 rfl _).trans (A_eq19 (V41 m ρ) c 0))
/-- Region 19 leaves its input array main_v266 (window 1) as entered. -/
theorem hrun_keep41_in1 (c : Dev nD) : W42 m ρ c (Proc.devRef .tc main_v266) = W41 m ρ c (Proc.devRef .tc main_v266) :=
  (W42_arr m ρ c 1).trans (((dat19 (V41 m ρ) c).arrAt_in 1 rfl _).trans (A_eq19 (V41 m ρ) c 1))
/-- Region 19 leaves its input array main_v268 (window 2) as entered. -/
theorem hrun_keep41_in2 (c : Dev nD) : W42 m ρ c (Proc.devRef .tc main_v268) = W41 m ρ c (Proc.devRef .tc main_v268) :=
  (W42_arr m ρ c 2).trans (((dat19 (V41 m ρ) c).arrAt_in 2 rfl _).trans (A_eq19 (V41 m ρ) c 2))
/-- Region 19 leaves its input array main_v270 (window 3) as entered. -/
theorem hrun_keep41_in3 (c : Dev nD) : W42 m ρ c (Proc.devRef .tc main_v270) = W41 m ρ c (Proc.devRef .tc main_v270) :=
  (W42_arr m ρ c 3).trans (((dat19 (V41 m ρ) c).arrAt_in 3 rfl _).trans (A_eq19 (V41 m ρ) c 3))
/-- Region 19 leaves its input array main_v273 (window 4) as entered. -/
theorem hrun_keep41_in4 (c : Dev nD) : W42 m ρ c (Proc.devRef .tc main_v273) = W41 m ρ c (Proc.devRef .tc main_v273) :=
  (W42_arr m ρ c 4).trans (((dat19 (V41 m ρ) c).arrAt_in 4 rfl _).trans (A_eq19 (V41 m ρ) c 4))
/-- Region 19 leaves every buffer but its output array main_v274. -/
theorem keep41 (c : Dev nD) (b : Ref sig .tc) (hb : b ≠ main_v274) :
    W42 m ρ c (Proc.devRef .tc b) = W41 m ρ c (Proc.devRef .tc b) := by
  by_cases h0 : b = main_v244
  · subst h0; exact hrun_keep41_in0 m ρ c
  by_cases h1 : b = main_v266
  · subst h1; exact hrun_keep41_in1 m ρ c
  by_cases h2 : b = main_v268
  · subst h2; exact hrun_keep41_in2 m ρ c
  by_cases h3 : b = main_v270
  · subst h3; exact hrun_keep41_in3 m ρ c
  by_cases h4 : b = main_v273
  · subst h4; exact hrun_keep41_in4 m ρ c
  exact W42_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps20 leaves a reference it does not write. -/
theorem keep42 (c : Dev nD) (b : Ref sig .tc) (hb : b ∉ hostOps20_W) :
    W43 m ρ c (Proc.devRef .tc b) = W42 m ρ c (Proc.devRef .tc b) :=
  StableHlo.after_of_writes_sub hostOps20 _ hostOps20_writes hb
/-- Region 20 leaves its input array main_v274 (window 0) as entered. -/
theorem hrun_keep43_in0 (c : Dev nD) : W44 m ρ c (Proc.devRef .tc main_v274) = W43 m ρ c (Proc.devRef .tc main_v274) :=
  (W44_arr m ρ c 0).trans (((dat20 (V43 m ρ) c).arrAt_in 0 rfl _).trans (A_eq20 (V43 m ρ) c 0))
/-- Region 20 leaves its input array main_v292 (window 1) as entered. -/
theorem hrun_keep43_in1 (c : Dev nD) : W44 m ρ c (Proc.devRef .tc main_v292) = W43 m ρ c (Proc.devRef .tc main_v292) :=
  (W44_arr m ρ c 1).trans (((dat20 (V43 m ρ) c).arrAt_in 1 rfl _).trans (A_eq20 (V43 m ρ) c 1))
/-- Region 20 leaves its input array main_v294 (window 2) as entered. -/
theorem hrun_keep43_in2 (c : Dev nD) : W44 m ρ c (Proc.devRef .tc main_v294) = W43 m ρ c (Proc.devRef .tc main_v294) :=
  (W44_arr m ρ c 2).trans (((dat20 (V43 m ρ) c).arrAt_in 2 rfl _).trans (A_eq20 (V43 m ρ) c 2))
/-- Region 20 leaves its input array main_v296 (window 3) as entered. -/
theorem hrun_keep43_in3 (c : Dev nD) : W44 m ρ c (Proc.devRef .tc main_v296) = W43 m ρ c (Proc.devRef .tc main_v296) :=
  (W44_arr m ρ c 3).trans (((dat20 (V43 m ρ) c).arrAt_in 3 rfl _).trans (A_eq20 (V43 m ρ) c 3))
/-- Region 20 leaves its input array main_v299 (window 4) as entered. -/
theorem hrun_keep43_in4 (c : Dev nD) : W44 m ρ c (Proc.devRef .tc main_v299) = W43 m ρ c (Proc.devRef .tc main_v299) :=
  (W44_arr m ρ c 4).trans (((dat20 (V43 m ρ) c).arrAt_in 4 rfl _).trans (A_eq20 (V43 m ρ) c 4))
/-- Region 20 leaves every buffer but its output array main_v300. -/
theorem keep43 (c : Dev nD) (b : Ref sig .tc) (hb : b ≠ main_v300) :
    W44 m ρ c (Proc.devRef .tc b) = W43 m ρ c (Proc.devRef .tc b) := by
  by_cases h0 : b = main_v274
  · subst h0; exact hrun_keep43_in0 m ρ c
  by_cases h1 : b = main_v292
  · subst h1; exact hrun_keep43_in1 m ρ c
  by_cases h2 : b = main_v294
  · subst h2; exact hrun_keep43_in2 m ρ c
  by_cases h3 : b = main_v296
  · subst h3; exact hrun_keep43_in3 m ρ c
  by_cases h4 : b = main_v299
  · subst h4; exact hrun_keep43_in4 m ρ c
  exact W44_of_ne m ρ c b (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm)
/-- The stretch hostOps21 leaves a reference it does not write. -/
theorem keep44 (c : Dev nD) (b : Ref sig .tc) (hb : b ∉ hostOps21_W) :
    W45 m ρ c (Proc.devRef .tc b) = W44 m ρ c (Proc.devRef .tc b) :=
  StableHlo.after_of_writes_sub hostOps21 _ hostOps21_writes hb
/-- Region 21 leaves its input array main_v246 (window 0) as entered. -/
theorem hrun_keep45_in0 (c : Dev nD) : W46 m ρ c (Proc.devRef .tc main_v246) = W45 m ρ c (Proc.devRef .tc main_v246) :=
  (W46_arr m ρ c 0).trans (((dat21 (V45 m ρ) c).arrAt_in 0 rfl _).trans (A_eq21 (V45 m ρ) c 0))
/-- Region 21 leaves its input array main_v302 (window 1) as entered. -/
theorem hrun_keep45_in1 (c : Dev nD) : W46 m ρ c (Proc.devRef .tc main_v302) = W45 m ρ c (Proc.devRef .tc main_v302) :=
  (W46_arr m ρ c 1).trans (((dat21 (V45 m ρ) c).arrAt_in 1 rfl _).trans (A_eq21 (V45 m ρ) c 1))
/-- Region 21 leaves its input array main_v305 (window 2) as entered. -/
theorem hrun_keep45_in2 (c : Dev nD) : W46 m ρ c (Proc.devRef .tc main_v305) = W45 m ρ c (Proc.devRef .tc main_v305) :=
  (W46_arr m ρ c 2).trans (((dat21 (V45 m ρ) c).arrAt_in 2 rfl _).trans (A_eq21 (V45 m ρ) c 2))
/-- Region 21 leaves every buffer but its output array main_v306. -/
theorem keep45 (c : Dev nD) (b : Ref sig .tc) (hb : b ≠ main_v306) :
    W46 m ρ c (Proc.devRef .tc b) = W45 m ρ c (Proc.devRef .tc b) := by
  by_cases h0 : b = main_v246
  · subst h0; exact hrun_keep45_in0 m ρ c
  by_cases h1 : b = main_v302
  · subst h1; exact hrun_keep45_in1 m ρ c
  by_cases h2 : b = main_v305
  · subst h2; exact hrun_keep45_in2 m ρ c
  exact W46_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps22 leaves a reference it does not write. -/
theorem keep46 (c : Dev nD) (b : Ref sig .tc) (hb : b ∉ hostOps22_W) :
    W47 m ρ c (Proc.devRef .tc b) = W46 m ρ c (Proc.devRef .tc b) :=
  StableHlo.after_of_writes_sub hostOps22 _ hostOps22_writes hb
/-- Region 22 leaves its input array main_v306 (window 0) as entered. -/
theorem hrun_keep47_in0 (c : Dev nD) : W48 m ρ c (Proc.devRef .tc main_v306) = W47 m ρ c (Proc.devRef .tc main_v306) :=
  (W48_arr m ρ c 0).trans (((dat22 (V47 m ρ) c).arrAt_in 0 rfl _).trans (A_eq22 (V47 m ρ) c 0))
/-- Region 22 leaves its input array main_v308 (window 1) as entered. -/
theorem hrun_keep47_in1 (c : Dev nD) : W48 m ρ c (Proc.devRef .tc main_v308) = W47 m ρ c (Proc.devRef .tc main_v308) :=
  (W48_arr m ρ c 1).trans (((dat22 (V47 m ρ) c).arrAt_in 1 rfl _).trans (A_eq22 (V47 m ρ) c 1))
/-- Region 22 leaves its input array main_v311 (window 2) as entered. -/
theorem hrun_keep47_in2 (c : Dev nD) : W48 m ρ c (Proc.devRef .tc main_v311) = W47 m ρ c (Proc.devRef .tc main_v311) :=
  (W48_arr m ρ c 2).trans (((dat22 (V47 m ρ) c).arrAt_in 2 rfl _).trans (A_eq22 (V47 m ρ) c 2))
/-- Region 22 leaves every buffer but its output array main_v312. -/
theorem keep47 (c : Dev nD) (b : Ref sig .tc) (hb : b ≠ main_v312) :
    W48 m ρ c (Proc.devRef .tc b) = W47 m ρ c (Proc.devRef .tc b) := by
  by_cases h0 : b = main_v306
  · subst h0; exact hrun_keep47_in0 m ρ c
  by_cases h1 : b = main_v308
  · subst h1; exact hrun_keep47_in1 m ρ c
  by_cases h2 : b = main_v311
  · subst h2; exact hrun_keep47_in2 m ρ c
  exact W48_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps23 leaves a reference it does not write. -/
theorem keep48 (c : Dev nD) (b : Ref sig .tc) (hb : b ∉ hostOps23_W) :
    W49 m ρ c (Proc.devRef .tc b) = W48 m ρ c (Proc.devRef .tc b) :=
  StableHlo.after_of_writes_sub hostOps23 _ hostOps23_writes hb
/-- Region 23 leaves its input array main_v248 (window 0) as entered. -/
theorem hrun_keep49_in0 (c : Dev nD) : W50 m ρ c (Proc.devRef .tc main_v248) = W49 m ρ c (Proc.devRef .tc main_v248) :=
  (W50_arr m ρ c 0).trans (((dat23 (V49 m ρ) c).arrAt_in 0 rfl _).trans (A_eq23 (V49 m ρ) c 0))
/-- Region 23 leaves its input array main_v314 (window 1) as entered. -/
theorem hrun_keep49_in1 (c : Dev nD) : W50 m ρ c (Proc.devRef .tc main_v314) = W49 m ρ c (Proc.devRef .tc main_v314) :=
  (W50_arr m ρ c 1).trans (((dat23 (V49 m ρ) c).arrAt_in 1 rfl _).trans (A_eq23 (V49 m ρ) c 1))
/-- Region 23 leaves its input array main_v317 (window 2) as entered. -/
theorem hrun_keep49_in2 (c : Dev nD) : W50 m ρ c (Proc.devRef .tc main_v317) = W49 m ρ c (Proc.devRef .tc main_v317) :=
  (W50_arr m ρ c 2).trans (((dat23 (V49 m ρ) c).arrAt_in 2 rfl _).trans (A_eq23 (V49 m ρ) c 2))
/-- Region 23 leaves every buffer but its output array main_v318. -/
theorem keep49 (c : Dev nD) (b : Ref sig .tc) (hb : b ≠ main_v318) :
    W50 m ρ c (Proc.devRef .tc b) = W49 m ρ c (Proc.devRef .tc b) := by
  by_cases h0 : b = main_v248
  · subst h0; exact hrun_keep49_in0 m ρ c
  by_cases h1 : b = main_v314
  · subst h1; exact hrun_keep49_in1 m ρ c
  by_cases h2 : b = main_v317
  · subst h2; exact hrun_keep49_in2 m ρ c
  exact W50_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps24 leaves a reference it does not write. -/
theorem keep50 (c : Dev nD) (b : Ref sig .tc) (hb : b ∉ hostOps24_W) :
    W51 m ρ c (Proc.devRef .tc b) = W50 m ρ c (Proc.devRef .tc b) :=
  StableHlo.after_of_writes_sub hostOps24 _ hostOps24_writes hb
/-- Region 24 leaves its input array main_v318 (window 0) as entered. -/
theorem hrun_keep51_in0 (c : Dev nD) : W52 m ρ c (Proc.devRef .tc main_v318) = W51 m ρ c (Proc.devRef .tc main_v318) :=
  (W52_arr m ρ c 0).trans (((dat24 (V51 m ρ) c).arrAt_in 0 rfl _).trans (A_eq24 (V51 m ρ) c 0))
/-- Region 24 leaves its input array main_v320 (window 1) as entered. -/
theorem hrun_keep51_in1 (c : Dev nD) : W52 m ρ c (Proc.devRef .tc main_v320) = W51 m ρ c (Proc.devRef .tc main_v320) :=
  (W52_arr m ρ c 1).trans (((dat24 (V51 m ρ) c).arrAt_in 1 rfl _).trans (A_eq24 (V51 m ρ) c 1))
/-- Region 24 leaves its input array main_v323 (window 2) as entered. -/
theorem hrun_keep51_in2 (c : Dev nD) : W52 m ρ c (Proc.devRef .tc main_v323) = W51 m ρ c (Proc.devRef .tc main_v323) :=
  (W52_arr m ρ c 2).trans (((dat24 (V51 m ρ) c).arrAt_in 2 rfl _).trans (A_eq24 (V51 m ρ) c 2))
/-- Region 24 leaves every buffer but its output array main_v324. -/
theorem keep51 (c : Dev nD) (b : Ref sig .tc) (hb : b ≠ main_v324) :
    W52 m ρ c (Proc.devRef .tc b) = W51 m ρ c (Proc.devRef .tc b) := by
  by_cases h0 : b = main_v318
  · subst h0; exact hrun_keep51_in0 m ρ c
  by_cases h1 : b = main_v320
  · subst h1; exact hrun_keep51_in1 m ρ c
  by_cases h2 : b = main_v323
  · subst h2; exact hrun_keep51_in2 m ρ c
  exact W52_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps25 leaves a reference it does not write. -/
theorem keep52 (c : Dev nD) (b : Ref sig .tc) (hb : b ∉ hostOps25_W) :
    W53 m ρ c (Proc.devRef .tc b) = W52 m ρ c (Proc.devRef .tc b) :=
  StableHlo.after_of_writes_sub hostOps25 _ hostOps25_writes hb
/-- Region 25 leaves its input array main_v347 (window 0) as entered. -/
theorem hrun_keep53_in0 (c : Dev nD) : W54 m ρ c (Proc.devRef .tc main_v347) = W53 m ρ c (Proc.devRef .tc main_v347) :=
  (W54_arr m ρ c 0).trans (((dat25 (V53 m ρ) c).arrAt_in 0 rfl _).trans (A_eq25 (V53 m ρ) c 0))
/-- Region 25 leaves its input array main_arg30 (window 1) as entered. -/
theorem hrun_keep53_in1 (c : Dev nD) : W54 m ρ c (Proc.devRef .tc main_arg30) = W53 m ρ c (Proc.devRef .tc main_arg30) :=
  (W54_arr m ρ c 1).trans (((dat25 (V53 m ρ) c).arrAt_in 1 rfl _).trans (A_eq25 (V53 m ρ) c 1))
/-- Region 25 leaves its input array main_v348 (window 2) as entered. -/
theorem hrun_keep53_in2 (c : Dev nD) : W54 m ρ c (Proc.devRef .tc main_v348) = W53 m ρ c (Proc.devRef .tc main_v348) :=
  (W54_arr m ρ c 2).trans (((dat25 (V53 m ρ) c).arrAt_in 2 rfl _).trans (A_eq25 (V53 m ρ) c 2))
/-- Region 25 leaves every buffer but its output array main_v349. -/
theorem keep53 (c : Dev nD) (b : Ref sig .tc) (hb : b ≠ main_v349) :
    W54 m ρ c (Proc.devRef .tc b) = W53 m ρ c (Proc.devRef .tc b) := by
  by_cases h0 : b = main_v347
  · subst h0; exact hrun_keep53_in0 m ρ c
  by_cases h1 : b = main_arg30
  · subst h1; exact hrun_keep53_in1 m ρ c
  by_cases h2 : b = main_v348
  · subst h2; exact hrun_keep53_in2 m ρ c
  exact W54_of_ne m ρ c b (fun
    | ⟨0, _⟩ => fun e => h0 e.symm
    | ⟨1, _⟩ => fun e => h1 e.symm
    | ⟨2, _⟩ => fun e => h2 e.symm
    | ⟨3, _⟩ => fun e => hb e.symm)
/-- The stretch hostOps26 leaves a reference it does not write. -/
theorem keep54 (c : Dev nD) (b : Ref sig .tc) (hb : b ∉ hostOps26_W) :
    W55 m ρ c (Proc.devRef .tc b) = W54 m ρ c (Proc.devRef .tc b) :=
  StableHlo.after_of_writes_sub hostOps26 _ hostOps26_writes hb

/-! # The arguments end as launched: no host stretch writes one and no region's output array is one, so the fold at
    an argument's buffer walks back to the launch memory -/

theorem kept_arg0 (c : Dev nD) : W55 m ρ c (Proc.devRef .tc main_arg0) = m ((c : Thread nD τ).loc main_arg0) :=
  (keep54 m ρ c main_arg0 (by decide)).trans <|
    (keep53 m ρ c main_arg0 (by decide)).trans <|
    (keep52 m ρ c main_arg0 (by decide)).trans <|
    (keep51 m ρ c main_arg0 (by decide)).trans <|
    (keep50 m ρ c main_arg0 (by decide)).trans <|
    (keep49 m ρ c main_arg0 (by decide)).trans <|
    (keep48 m ρ c main_arg0 (by decide)).trans <|
    (keep47 m ρ c main_arg0 (by decide)).trans <|
    (keep46 m ρ c main_arg0 (by decide)).trans <|
    (keep45 m ρ c main_arg0 (by decide)).trans <|
    (keep44 m ρ c main_arg0 (by decide)).trans <|
    (keep43 m ρ c main_arg0 (by decide)).trans <|
    (keep42 m ρ c main_arg0 (by decide)).trans <|
    (keep41 m ρ c main_arg0 (by decide)).trans <|
    (keep40 m ρ c main_arg0 (by decide)).trans <|
    (keep39 m ρ c main_arg0 (by decide)).trans <|
    (keep38 m ρ c main_arg0 (by decide)).trans <|
    (keep37 m ρ c main_arg0 (by decide)).trans <|
    (keep36 m ρ c main_arg0 (by decide)).trans <|
    (keep35 m ρ c main_arg0 (by decide)).trans <|
    (keep34 m ρ c main_arg0 (by decide)).trans <|
    (keep33 m ρ c main_arg0 (by decide)).trans <|
    (keep32 m ρ c main_arg0 (by decide)).trans <|
    (keep31 m ρ c main_arg0 (by decide)).trans <|
    (keep30 m ρ c main_arg0 (by decide)).trans <|
    (keep29 m ρ c main_arg0 (by decide)).trans <|
    (keep28 m ρ c main_arg0 (by decide)).trans <|
    (keep27 m ρ c main_arg0 (by decide)).trans <|
    (keep26 m ρ c main_arg0 (by decide)).trans <|
    (keep25 m ρ c main_arg0 (by decide)).trans <|
    (keep24 m ρ c main_arg0 (by decide)).trans <|
    (keep23 m ρ c main_arg0 (by decide)).trans <|
    (keep22 m ρ c main_arg0 (by decide)).trans <|
    (keep21 m ρ c main_arg0 (by decide)).trans <|
    (keep20 m ρ c main_arg0 (by decide)).trans <|
    (keep19 m ρ c main_arg0 (by decide)).trans <|
    (keep18 m ρ c main_arg0 (by decide)).trans <|
    (keep17 m ρ c main_arg0 (by decide)).trans <|
    (keep16 m ρ c main_arg0 (by decide)).trans <|
    (keep15 m ρ c main_arg0 (by decide)).trans <|
    (keep14 m ρ c main_arg0 (by decide)).trans <|
    (keep13 m ρ c main_arg0 (by decide)).trans <|
    (keep12 m ρ c main_arg0 (by decide)).trans <|
    (keep11 m ρ c main_arg0 (by decide)).trans <|
    (keep10 m ρ c main_arg0 (by decide)).trans <|
    (keep9 m ρ c main_arg0 (by decide)).trans <|
    (keep8 m ρ c main_arg0 (by decide)).trans <|
    (keep7 m ρ c main_arg0 (by decide)).trans <|
    (keep6 m ρ c main_arg0 (by decide)).trans <|
    (keep5 m ρ c main_arg0 (by decide)).trans <|
    (keep4 m ρ c main_arg0 (by decide)).trans <|
    (keep3 m ρ c main_arg0 (by decide)).trans <|
    (keep2 m ρ c main_arg0 (by decide)).trans <|
    (keep1 m ρ c main_arg0 (by decide)).trans <|
    (keep0 m ρ c main_arg0 (by decide)).trans rfl
theorem kept_arg1 (c : Dev nD) : W55 m ρ c (Proc.devRef .tc main_arg1) = m ((c : Thread nD τ).loc main_arg1) :=
  (keep54 m ρ c main_arg1 (by decide)).trans <|
    (keep53 m ρ c main_arg1 (by decide)).trans <|
    (keep52 m ρ c main_arg1 (by decide)).trans <|
    (keep51 m ρ c main_arg1 (by decide)).trans <|
    (keep50 m ρ c main_arg1 (by decide)).trans <|
    (keep49 m ρ c main_arg1 (by decide)).trans <|
    (keep48 m ρ c main_arg1 (by decide)).trans <|
    (keep47 m ρ c main_arg1 (by decide)).trans <|
    (keep46 m ρ c main_arg1 (by decide)).trans <|
    (keep45 m ρ c main_arg1 (by decide)).trans <|
    (keep44 m ρ c main_arg1 (by decide)).trans <|
    (keep43 m ρ c main_arg1 (by decide)).trans <|
    (keep42 m ρ c main_arg1 (by decide)).trans <|
    (keep41 m ρ c main_arg1 (by decide)).trans <|
    (keep40 m ρ c main_arg1 (by decide)).trans <|
    (keep39 m ρ c main_arg1 (by decide)).trans <|
    (keep38 m ρ c main_arg1 (by decide)).trans <|
    (keep37 m ρ c main_arg1 (by decide)).trans <|
    (keep36 m ρ c main_arg1 (by decide)).trans <|
    (keep35 m ρ c main_arg1 (by decide)).trans <|
    (keep34 m ρ c main_arg1 (by decide)).trans <|
    (keep33 m ρ c main_arg1 (by decide)).trans <|
    (keep32 m ρ c main_arg1 (by decide)).trans <|
    (keep31 m ρ c main_arg1 (by decide)).trans <|
    (keep30 m ρ c main_arg1 (by decide)).trans <|
    (keep29 m ρ c main_arg1 (by decide)).trans <|
    (keep28 m ρ c main_arg1 (by decide)).trans <|
    (keep27 m ρ c main_arg1 (by decide)).trans <|
    (keep26 m ρ c main_arg1 (by decide)).trans <|
    (keep25 m ρ c main_arg1 (by decide)).trans <|
    (keep24 m ρ c main_arg1 (by decide)).trans <|
    (keep23 m ρ c main_arg1 (by decide)).trans <|
    (keep22 m ρ c main_arg1 (by decide)).trans <|
    (keep21 m ρ c main_arg1 (by decide)).trans <|
    (keep20 m ρ c main_arg1 (by decide)).trans <|
    (keep19 m ρ c main_arg1 (by decide)).trans <|
    (keep18 m ρ c main_arg1 (by decide)).trans <|
    (keep17 m ρ c main_arg1 (by decide)).trans <|
    (keep16 m ρ c main_arg1 (by decide)).trans <|
    (keep15 m ρ c main_arg1 (by decide)).trans <|
    (keep14 m ρ c main_arg1 (by decide)).trans <|
    (keep13 m ρ c main_arg1 (by decide)).trans <|
    (keep12 m ρ c main_arg1 (by decide)).trans <|
    (keep11 m ρ c main_arg1 (by decide)).trans <|
    (keep10 m ρ c main_arg1 (by decide)).trans <|
    (keep9 m ρ c main_arg1 (by decide)).trans <|
    (keep8 m ρ c main_arg1 (by decide)).trans <|
    (keep7 m ρ c main_arg1 (by decide)).trans <|
    (keep6 m ρ c main_arg1 (by decide)).trans <|
    (keep5 m ρ c main_arg1 (by decide)).trans <|
    (keep4 m ρ c main_arg1 (by decide)).trans <|
    (keep3 m ρ c main_arg1 (by decide)).trans <|
    (keep2 m ρ c main_arg1 (by decide)).trans <|
    (keep1 m ρ c main_arg1 (by decide)).trans <|
    (keep0 m ρ c main_arg1 (by decide)).trans rfl
theorem kept_arg2 (c : Dev nD) : W55 m ρ c (Proc.devRef .tc main_arg2) = m ((c : Thread nD τ).loc main_arg2) :=
  (keep54 m ρ c main_arg2 (by decide)).trans <|
    (keep53 m ρ c main_arg2 (by decide)).trans <|
    (keep52 m ρ c main_arg2 (by decide)).trans <|
    (keep51 m ρ c main_arg2 (by decide)).trans <|
    (keep50 m ρ c main_arg2 (by decide)).trans <|
    (keep49 m ρ c main_arg2 (by decide)).trans <|
    (keep48 m ρ c main_arg2 (by decide)).trans <|
    (keep47 m ρ c main_arg2 (by decide)).trans <|
    (keep46 m ρ c main_arg2 (by decide)).trans <|
    (keep45 m ρ c main_arg2 (by decide)).trans <|
    (keep44 m ρ c main_arg2 (by decide)).trans <|
    (keep43 m ρ c main_arg2 (by decide)).trans <|
    (keep42 m ρ c main_arg2 (by decide)).trans <|
    (keep41 m ρ c main_arg2 (by decide)).trans <|
    (keep40 m ρ c main_arg2 (by decide)).trans <|
    (keep39 m ρ c main_arg2 (by decide)).trans <|
    (keep38 m ρ c main_arg2 (by decide)).trans <|
    (keep37 m ρ c main_arg2 (by decide)).trans <|
    (keep36 m ρ c main_arg2 (by decide)).trans <|
    (keep35 m ρ c main_arg2 (by decide)).trans <|
    (keep34 m ρ c main_arg2 (by decide)).trans <|
    (keep33 m ρ c main_arg2 (by decide)).trans <|
    (keep32 m ρ c main_arg2 (by decide)).trans <|
    (keep31 m ρ c main_arg2 (by decide)).trans <|
    (keep30 m ρ c main_arg2 (by decide)).trans <|
    (keep29 m ρ c main_arg2 (by decide)).trans <|
    (keep28 m ρ c main_arg2 (by decide)).trans <|
    (keep27 m ρ c main_arg2 (by decide)).trans <|
    (keep26 m ρ c main_arg2 (by decide)).trans <|
    (keep25 m ρ c main_arg2 (by decide)).trans <|
    (keep24 m ρ c main_arg2 (by decide)).trans <|
    (keep23 m ρ c main_arg2 (by decide)).trans <|
    (keep22 m ρ c main_arg2 (by decide)).trans <|
    (keep21 m ρ c main_arg2 (by decide)).trans <|
    (keep20 m ρ c main_arg2 (by decide)).trans <|
    (keep19 m ρ c main_arg2 (by decide)).trans <|
    (keep18 m ρ c main_arg2 (by decide)).trans <|
    (keep17 m ρ c main_arg2 (by decide)).trans <|
    (keep16 m ρ c main_arg2 (by decide)).trans <|
    (keep15 m ρ c main_arg2 (by decide)).trans <|
    (keep14 m ρ c main_arg2 (by decide)).trans <|
    (keep13 m ρ c main_arg2 (by decide)).trans <|
    (keep12 m ρ c main_arg2 (by decide)).trans <|
    (keep11 m ρ c main_arg2 (by decide)).trans <|
    (keep10 m ρ c main_arg2 (by decide)).trans <|
    (keep9 m ρ c main_arg2 (by decide)).trans <|
    (keep8 m ρ c main_arg2 (by decide)).trans <|
    (keep7 m ρ c main_arg2 (by decide)).trans <|
    (keep6 m ρ c main_arg2 (by decide)).trans <|
    (keep5 m ρ c main_arg2 (by decide)).trans <|
    (keep4 m ρ c main_arg2 (by decide)).trans <|
    (keep3 m ρ c main_arg2 (by decide)).trans <|
    (keep2 m ρ c main_arg2 (by decide)).trans <|
    (keep1 m ρ c main_arg2 (by decide)).trans <|
    (keep0 m ρ c main_arg2 (by decide)).trans rfl
theorem kept_arg3 (c : Dev nD) : W55 m ρ c (Proc.devRef .tc main_arg3) = m ((c : Thread nD τ).loc main_arg3) :=
  (keep54 m ρ c main_arg3 (by decide)).trans <|
    (keep53 m ρ c main_arg3 (by decide)).trans <|
    (keep52 m ρ c main_arg3 (by decide)).trans <|
    (keep51 m ρ c main_arg3 (by decide)).trans <|
    (keep50 m ρ c main_arg3 (by decide)).trans <|
    (keep49 m ρ c main_arg3 (by decide)).trans <|
    (keep48 m ρ c main_arg3 (by decide)).trans <|
    (keep47 m ρ c main_arg3 (by decide)).trans <|
    (keep46 m ρ c main_arg3 (by decide)).trans <|
    (keep45 m ρ c main_arg3 (by decide)).trans <|
    (keep44 m ρ c main_arg3 (by decide)).trans <|
    (keep43 m ρ c main_arg3 (by decide)).trans <|
    (keep42 m ρ c main_arg3 (by decide)).trans <|
    (keep41 m ρ c main_arg3 (by decide)).trans <|
    (keep40 m ρ c main_arg3 (by decide)).trans <|
    (keep39 m ρ c main_arg3 (by decide)).trans <|
    (keep38 m ρ c main_arg3 (by decide)).trans <|
    (keep37 m ρ c main_arg3 (by decide)).trans <|
    (keep36 m ρ c main_arg3 (by decide)).trans <|
    (keep35 m ρ c main_arg3 (by decide)).trans <|
    (keep34 m ρ c main_arg3 (by decide)).trans <|
    (keep33 m ρ c main_arg3 (by decide)).trans <|
    (keep32 m ρ c main_arg3 (by decide)).trans <|
    (keep31 m ρ c main_arg3 (by decide)).trans <|
    (keep30 m ρ c main_arg3 (by decide)).trans <|
    (keep29 m ρ c main_arg3 (by decide)).trans <|
    (keep28 m ρ c main_arg3 (by decide)).trans <|
    (keep27 m ρ c main_arg3 (by decide)).trans <|
    (keep26 m ρ c main_arg3 (by decide)).trans <|
    (keep25 m ρ c main_arg3 (by decide)).trans <|
    (keep24 m ρ c main_arg3 (by decide)).trans <|
    (keep23 m ρ c main_arg3 (by decide)).trans <|
    (keep22 m ρ c main_arg3 (by decide)).trans <|
    (keep21 m ρ c main_arg3 (by decide)).trans <|
    (keep20 m ρ c main_arg3 (by decide)).trans <|
    (keep19 m ρ c main_arg3 (by decide)).trans <|
    (keep18 m ρ c main_arg3 (by decide)).trans <|
    (keep17 m ρ c main_arg3 (by decide)).trans <|
    (keep16 m ρ c main_arg3 (by decide)).trans <|
    (keep15 m ρ c main_arg3 (by decide)).trans <|
    (keep14 m ρ c main_arg3 (by decide)).trans <|
    (keep13 m ρ c main_arg3 (by decide)).trans <|
    (keep12 m ρ c main_arg3 (by decide)).trans <|
    (keep11 m ρ c main_arg3 (by decide)).trans <|
    (keep10 m ρ c main_arg3 (by decide)).trans <|
    (keep9 m ρ c main_arg3 (by decide)).trans <|
    (keep8 m ρ c main_arg3 (by decide)).trans <|
    (keep7 m ρ c main_arg3 (by decide)).trans <|
    (keep6 m ρ c main_arg3 (by decide)).trans <|
    (keep5 m ρ c main_arg3 (by decide)).trans <|
    (keep4 m ρ c main_arg3 (by decide)).trans <|
    (keep3 m ρ c main_arg3 (by decide)).trans <|
    (keep2 m ρ c main_arg3 (by decide)).trans <|
    (keep1 m ρ c main_arg3 (by decide)).trans <|
    (keep0 m ρ c main_arg3 (by decide)).trans rfl
theorem kept_arg4 (c : Dev nD) : W55 m ρ c (Proc.devRef .tc main_arg4) = m ((c : Thread nD τ).loc main_arg4) :=
  (keep54 m ρ c main_arg4 (by decide)).trans <|
    (keep53 m ρ c main_arg4 (by decide)).trans <|
    (keep52 m ρ c main_arg4 (by decide)).trans <|
    (keep51 m ρ c main_arg4 (by decide)).trans <|
    (keep50 m ρ c main_arg4 (by decide)).trans <|
    (keep49 m ρ c main_arg4 (by decide)).trans <|
    (keep48 m ρ c main_arg4 (by decide)).trans <|
    (keep47 m ρ c main_arg4 (by decide)).trans <|
    (keep46 m ρ c main_arg4 (by decide)).trans <|
    (keep45 m ρ c main_arg4 (by decide)).trans <|
    (keep44 m ρ c main_arg4 (by decide)).trans <|
    (keep43 m ρ c main_arg4 (by decide)).trans <|
    (keep42 m ρ c main_arg4 (by decide)).trans <|
    (keep41 m ρ c main_arg4 (by decide)).trans <|
    (keep40 m ρ c main_arg4 (by decide)).trans <|
    (keep39 m ρ c main_arg4 (by decide)).trans <|
    (keep38 m ρ c main_arg4 (by decide)).trans <|
    (keep37 m ρ c main_arg4 (by decide)).trans <|
    (keep36 m ρ c main_arg4 (by decide)).trans <|
    (keep35 m ρ c main_arg4 (by decide)).trans <|
    (keep34 m ρ c main_arg4 (by decide)).trans <|
    (keep33 m ρ c main_arg4 (by decide)).trans <|
    (keep32 m ρ c main_arg4 (by decide)).trans <|
    (keep31 m ρ c main_arg4 (by decide)).trans <|
    (keep30 m ρ c main_arg4 (by decide)).trans <|
    (keep29 m ρ c main_arg4 (by decide)).trans <|
    (keep28 m ρ c main_arg4 (by decide)).trans <|
    (keep27 m ρ c main_arg4 (by decide)).trans <|
    (keep26 m ρ c main_arg4 (by decide)).trans <|
    (keep25 m ρ c main_arg4 (by decide)).trans <|
    (keep24 m ρ c main_arg4 (by decide)).trans <|
    (keep23 m ρ c main_arg4 (by decide)).trans <|
    (keep22 m ρ c main_arg4 (by decide)).trans <|
    (keep21 m ρ c main_arg4 (by decide)).trans <|
    (keep20 m ρ c main_arg4 (by decide)).trans <|
    (keep19 m ρ c main_arg4 (by decide)).trans <|
    (keep18 m ρ c main_arg4 (by decide)).trans <|
    (keep17 m ρ c main_arg4 (by decide)).trans <|
    (keep16 m ρ c main_arg4 (by decide)).trans <|
    (keep15 m ρ c main_arg4 (by decide)).trans <|
    (keep14 m ρ c main_arg4 (by decide)).trans <|
    (keep13 m ρ c main_arg4 (by decide)).trans <|
    (keep12 m ρ c main_arg4 (by decide)).trans <|
    (keep11 m ρ c main_arg4 (by decide)).trans <|
    (keep10 m ρ c main_arg4 (by decide)).trans <|
    (keep9 m ρ c main_arg4 (by decide)).trans <|
    (keep8 m ρ c main_arg4 (by decide)).trans <|
    (keep7 m ρ c main_arg4 (by decide)).trans <|
    (keep6 m ρ c main_arg4 (by decide)).trans <|
    (keep5 m ρ c main_arg4 (by decide)).trans <|
    (keep4 m ρ c main_arg4 (by decide)).trans <|
    (keep3 m ρ c main_arg4 (by decide)).trans <|
    (keep2 m ρ c main_arg4 (by decide)).trans <|
    (keep1 m ρ c main_arg4 (by decide)).trans <|
    (keep0 m ρ c main_arg4 (by decide)).trans rfl
theorem kept_arg5 (c : Dev nD) : W55 m ρ c (Proc.devRef .tc main_arg5) = m ((c : Thread nD τ).loc main_arg5) :=
  (keep54 m ρ c main_arg5 (by decide)).trans <|
    (keep53 m ρ c main_arg5 (by decide)).trans <|
    (keep52 m ρ c main_arg5 (by decide)).trans <|
    (keep51 m ρ c main_arg5 (by decide)).trans <|
    (keep50 m ρ c main_arg5 (by decide)).trans <|
    (keep49 m ρ c main_arg5 (by decide)).trans <|
    (keep48 m ρ c main_arg5 (by decide)).trans <|
    (keep47 m ρ c main_arg5 (by decide)).trans <|
    (keep46 m ρ c main_arg5 (by decide)).trans <|
    (keep45 m ρ c main_arg5 (by decide)).trans <|
    (keep44 m ρ c main_arg5 (by decide)).trans <|
    (keep43 m ρ c main_arg5 (by decide)).trans <|
    (keep42 m ρ c main_arg5 (by decide)).trans <|
    (keep41 m ρ c main_arg5 (by decide)).trans <|
    (keep40 m ρ c main_arg5 (by decide)).trans <|
    (keep39 m ρ c main_arg5 (by decide)).trans <|
    (keep38 m ρ c main_arg5 (by decide)).trans <|
    (keep37 m ρ c main_arg5 (by decide)).trans <|
    (keep36 m ρ c main_arg5 (by decide)).trans <|
    (keep35 m ρ c main_arg5 (by decide)).trans <|
    (keep34 m ρ c main_arg5 (by decide)).trans <|
    (keep33 m ρ c main_arg5 (by decide)).trans <|
    (keep32 m ρ c main_arg5 (by decide)).trans <|
    (keep31 m ρ c main_arg5 (by decide)).trans <|
    (keep30 m ρ c main_arg5 (by decide)).trans <|
    (keep29 m ρ c main_arg5 (by decide)).trans <|
    (keep28 m ρ c main_arg5 (by decide)).trans <|
    (keep27 m ρ c main_arg5 (by decide)).trans <|
    (keep26 m ρ c main_arg5 (by decide)).trans <|
    (keep25 m ρ c main_arg5 (by decide)).trans <|
    (keep24 m ρ c main_arg5 (by decide)).trans <|
    (keep23 m ρ c main_arg5 (by decide)).trans <|
    (keep22 m ρ c main_arg5 (by decide)).trans <|
    (keep21 m ρ c main_arg5 (by decide)).trans <|
    (keep20 m ρ c main_arg5 (by decide)).trans <|
    (keep19 m ρ c main_arg5 (by decide)).trans <|
    (keep18 m ρ c main_arg5 (by decide)).trans <|
    (keep17 m ρ c main_arg5 (by decide)).trans <|
    (keep16 m ρ c main_arg5 (by decide)).trans <|
    (keep15 m ρ c main_arg5 (by decide)).trans <|
    (keep14 m ρ c main_arg5 (by decide)).trans <|
    (keep13 m ρ c main_arg5 (by decide)).trans <|
    (keep12 m ρ c main_arg5 (by decide)).trans <|
    (keep11 m ρ c main_arg5 (by decide)).trans <|
    (keep10 m ρ c main_arg5 (by decide)).trans <|
    (keep9 m ρ c main_arg5 (by decide)).trans <|
    (keep8 m ρ c main_arg5 (by decide)).trans <|
    (keep7 m ρ c main_arg5 (by decide)).trans <|
    (keep6 m ρ c main_arg5 (by decide)).trans <|
    (keep5 m ρ c main_arg5 (by decide)).trans <|
    (keep4 m ρ c main_arg5 (by decide)).trans <|
    (keep3 m ρ c main_arg5 (by decide)).trans <|
    (keep2 m ρ c main_arg5 (by decide)).trans <|
    (keep1 m ρ c main_arg5 (by decide)).trans <|
    (keep0 m ρ c main_arg5 (by decide)).trans rfl
theorem kept_arg6 (c : Dev nD) : W55 m ρ c (Proc.devRef .tc main_arg6) = m ((c : Thread nD τ).loc main_arg6) :=
  (keep54 m ρ c main_arg6 (by decide)).trans <|
    (keep53 m ρ c main_arg6 (by decide)).trans <|
    (keep52 m ρ c main_arg6 (by decide)).trans <|
    (keep51 m ρ c main_arg6 (by decide)).trans <|
    (keep50 m ρ c main_arg6 (by decide)).trans <|
    (keep49 m ρ c main_arg6 (by decide)).trans <|
    (keep48 m ρ c main_arg6 (by decide)).trans <|
    (keep47 m ρ c main_arg6 (by decide)).trans <|
    (keep46 m ρ c main_arg6 (by decide)).trans <|
    (keep45 m ρ c main_arg6 (by decide)).trans <|
    (keep44 m ρ c main_arg6 (by decide)).trans <|
    (keep43 m ρ c main_arg6 (by decide)).trans <|
    (keep42 m ρ c main_arg6 (by decide)).trans <|
    (keep41 m ρ c main_arg6 (by decide)).trans <|
    (keep40 m ρ c main_arg6 (by decide)).trans <|
    (keep39 m ρ c main_arg6 (by decide)).trans <|
    (keep38 m ρ c main_arg6 (by decide)).trans <|
    (keep37 m ρ c main_arg6 (by decide)).trans <|
    (keep36 m ρ c main_arg6 (by decide)).trans <|
    (keep35 m ρ c main_arg6 (by decide)).trans <|
    (keep34 m ρ c main_arg6 (by decide)).trans <|
    (keep33 m ρ c main_arg6 (by decide)).trans <|
    (keep32 m ρ c main_arg6 (by decide)).trans <|
    (keep31 m ρ c main_arg6 (by decide)).trans <|
    (keep30 m ρ c main_arg6 (by decide)).trans <|
    (keep29 m ρ c main_arg6 (by decide)).trans <|
    (keep28 m ρ c main_arg6 (by decide)).trans <|
    (keep27 m ρ c main_arg6 (by decide)).trans <|
    (keep26 m ρ c main_arg6 (by decide)).trans <|
    (keep25 m ρ c main_arg6 (by decide)).trans <|
    (keep24 m ρ c main_arg6 (by decide)).trans <|
    (keep23 m ρ c main_arg6 (by decide)).trans <|
    (keep22 m ρ c main_arg6 (by decide)).trans <|
    (keep21 m ρ c main_arg6 (by decide)).trans <|
    (keep20 m ρ c main_arg6 (by decide)).trans <|
    (keep19 m ρ c main_arg6 (by decide)).trans <|
    (keep18 m ρ c main_arg6 (by decide)).trans <|
    (keep17 m ρ c main_arg6 (by decide)).trans <|
    (keep16 m ρ c main_arg6 (by decide)).trans <|
    (keep15 m ρ c main_arg6 (by decide)).trans <|
    (keep14 m ρ c main_arg6 (by decide)).trans <|
    (keep13 m ρ c main_arg6 (by decide)).trans <|
    (keep12 m ρ c main_arg6 (by decide)).trans <|
    (keep11 m ρ c main_arg6 (by decide)).trans <|
    (keep10 m ρ c main_arg6 (by decide)).trans <|
    (keep9 m ρ c main_arg6 (by decide)).trans <|
    (keep8 m ρ c main_arg6 (by decide)).trans <|
    (keep7 m ρ c main_arg6 (by decide)).trans <|
    (keep6 m ρ c main_arg6 (by decide)).trans <|
    (keep5 m ρ c main_arg6 (by decide)).trans <|
    (keep4 m ρ c main_arg6 (by decide)).trans <|
    (keep3 m ρ c main_arg6 (by decide)).trans <|
    (keep2 m ρ c main_arg6 (by decide)).trans <|
    (keep1 m ρ c main_arg6 (by decide)).trans <|
    (keep0 m ρ c main_arg6 (by decide)).trans rfl
theorem kept_arg7 (c : Dev nD) : W55 m ρ c (Proc.devRef .tc main_arg7) = m ((c : Thread nD τ).loc main_arg7) :=
  (keep54 m ρ c main_arg7 (by decide)).trans <|
    (keep53 m ρ c main_arg7 (by decide)).trans <|
    (keep52 m ρ c main_arg7 (by decide)).trans <|
    (keep51 m ρ c main_arg7 (by decide)).trans <|
    (keep50 m ρ c main_arg7 (by decide)).trans <|
    (keep49 m ρ c main_arg7 (by decide)).trans <|
    (keep48 m ρ c main_arg7 (by decide)).trans <|
    (keep47 m ρ c main_arg7 (by decide)).trans <|
    (keep46 m ρ c main_arg7 (by decide)).trans <|
    (keep45 m ρ c main_arg7 (by decide)).trans <|
    (keep44 m ρ c main_arg7 (by decide)).trans <|
    (keep43 m ρ c main_arg7 (by decide)).trans <|
    (keep42 m ρ c main_arg7 (by decide)).trans <|
    (keep41 m ρ c main_arg7 (by decide)).trans <|
    (keep40 m ρ c main_arg7 (by decide)).trans <|
    (keep39 m ρ c main_arg7 (by decide)).trans <|
    (keep38 m ρ c main_arg7 (by decide)).trans <|
    (keep37 m ρ c main_arg7 (by decide)).trans <|
    (keep36 m ρ c main_arg7 (by decide)).trans <|
    (keep35 m ρ c main_arg7 (by decide)).trans <|
    (keep34 m ρ c main_arg7 (by decide)).trans <|
    (keep33 m ρ c main_arg7 (by decide)).trans <|
    (keep32 m ρ c main_arg7 (by decide)).trans <|
    (keep31 m ρ c main_arg7 (by decide)).trans <|
    (keep30 m ρ c main_arg7 (by decide)).trans <|
    (keep29 m ρ c main_arg7 (by decide)).trans <|
    (keep28 m ρ c main_arg7 (by decide)).trans <|
    (keep27 m ρ c main_arg7 (by decide)).trans <|
    (keep26 m ρ c main_arg7 (by decide)).trans <|
    (keep25 m ρ c main_arg7 (by decide)).trans <|
    (keep24 m ρ c main_arg7 (by decide)).trans <|
    (keep23 m ρ c main_arg7 (by decide)).trans <|
    (keep22 m ρ c main_arg7 (by decide)).trans <|
    (keep21 m ρ c main_arg7 (by decide)).trans <|
    (keep20 m ρ c main_arg7 (by decide)).trans <|
    (keep19 m ρ c main_arg7 (by decide)).trans <|
    (keep18 m ρ c main_arg7 (by decide)).trans <|
    (keep17 m ρ c main_arg7 (by decide)).trans <|
    (keep16 m ρ c main_arg7 (by decide)).trans <|
    (keep15 m ρ c main_arg7 (by decide)).trans <|
    (keep14 m ρ c main_arg7 (by decide)).trans <|
    (keep13 m ρ c main_arg7 (by decide)).trans <|
    (keep12 m ρ c main_arg7 (by decide)).trans <|
    (keep11 m ρ c main_arg7 (by decide)).trans <|
    (keep10 m ρ c main_arg7 (by decide)).trans <|
    (keep9 m ρ c main_arg7 (by decide)).trans <|
    (keep8 m ρ c main_arg7 (by decide)).trans <|
    (keep7 m ρ c main_arg7 (by decide)).trans <|
    (keep6 m ρ c main_arg7 (by decide)).trans <|
    (keep5 m ρ c main_arg7 (by decide)).trans <|
    (keep4 m ρ c main_arg7 (by decide)).trans <|
    (keep3 m ρ c main_arg7 (by decide)).trans <|
    (keep2 m ρ c main_arg7 (by decide)).trans <|
    (keep1 m ρ c main_arg7 (by decide)).trans <|
    (keep0 m ρ c main_arg7 (by decide)).trans rfl
theorem kept_arg8 (c : Dev nD) : W55 m ρ c (Proc.devRef .tc main_arg8) = m ((c : Thread nD τ).loc main_arg8) :=
  (keep54 m ρ c main_arg8 (by decide)).trans <|
    (keep53 m ρ c main_arg8 (by decide)).trans <|
    (keep52 m ρ c main_arg8 (by decide)).trans <|
    (keep51 m ρ c main_arg8 (by decide)).trans <|
    (keep50 m ρ c main_arg8 (by decide)).trans <|
    (keep49 m ρ c main_arg8 (by decide)).trans <|
    (keep48 m ρ c main_arg8 (by decide)).trans <|
    (keep47 m ρ c main_arg8 (by decide)).trans <|
    (keep46 m ρ c main_arg8 (by decide)).trans <|
    (keep45 m ρ c main_arg8 (by decide)).trans <|
    (keep44 m ρ c main_arg8 (by decide)).trans <|
    (keep43 m ρ c main_arg8 (by decide)).trans <|
    (keep42 m ρ c main_arg8 (by decide)).trans <|
    (keep41 m ρ c main_arg8 (by decide)).trans <|
    (keep40 m ρ c main_arg8 (by decide)).trans <|
    (keep39 m ρ c main_arg8 (by decide)).trans <|
    (keep38 m ρ c main_arg8 (by decide)).trans <|
    (keep37 m ρ c main_arg8 (by decide)).trans <|
    (keep36 m ρ c main_arg8 (by decide)).trans <|
    (keep35 m ρ c main_arg8 (by decide)).trans <|
    (keep34 m ρ c main_arg8 (by decide)).trans <|
    (keep33 m ρ c main_arg8 (by decide)).trans <|
    (keep32 m ρ c main_arg8 (by decide)).trans <|
    (keep31 m ρ c main_arg8 (by decide)).trans <|
    (keep30 m ρ c main_arg8 (by decide)).trans <|
    (keep29 m ρ c main_arg8 (by decide)).trans <|
    (keep28 m ρ c main_arg8 (by decide)).trans <|
    (keep27 m ρ c main_arg8 (by decide)).trans <|
    (keep26 m ρ c main_arg8 (by decide)).trans <|
    (keep25 m ρ c main_arg8 (by decide)).trans <|
    (keep24 m ρ c main_arg8 (by decide)).trans <|
    (keep23 m ρ c main_arg8 (by decide)).trans <|
    (keep22 m ρ c main_arg8 (by decide)).trans <|
    (keep21 m ρ c main_arg8 (by decide)).trans <|
    (keep20 m ρ c main_arg8 (by decide)).trans <|
    (keep19 m ρ c main_arg8 (by decide)).trans <|
    (keep18 m ρ c main_arg8 (by decide)).trans <|
    (keep17 m ρ c main_arg8 (by decide)).trans <|
    (keep16 m ρ c main_arg8 (by decide)).trans <|
    (keep15 m ρ c main_arg8 (by decide)).trans <|
    (keep14 m ρ c main_arg8 (by decide)).trans <|
    (keep13 m ρ c main_arg8 (by decide)).trans <|
    (keep12 m ρ c main_arg8 (by decide)).trans <|
    (keep11 m ρ c main_arg8 (by decide)).trans <|
    (keep10 m ρ c main_arg8 (by decide)).trans <|
    (keep9 m ρ c main_arg8 (by decide)).trans <|
    (keep8 m ρ c main_arg8 (by decide)).trans <|
    (keep7 m ρ c main_arg8 (by decide)).trans <|
    (keep6 m ρ c main_arg8 (by decide)).trans <|
    (keep5 m ρ c main_arg8 (by decide)).trans <|
    (keep4 m ρ c main_arg8 (by decide)).trans <|
    (keep3 m ρ c main_arg8 (by decide)).trans <|
    (keep2 m ρ c main_arg8 (by decide)).trans <|
    (keep1 m ρ c main_arg8 (by decide)).trans <|
    (keep0 m ρ c main_arg8 (by decide)).trans rfl
theorem kept_arg9 (c : Dev nD) : W55 m ρ c (Proc.devRef .tc main_arg9) = m ((c : Thread nD τ).loc main_arg9) :=
  (keep54 m ρ c main_arg9 (by decide)).trans <|
    (keep53 m ρ c main_arg9 (by decide)).trans <|
    (keep52 m ρ c main_arg9 (by decide)).trans <|
    (keep51 m ρ c main_arg9 (by decide)).trans <|
    (keep50 m ρ c main_arg9 (by decide)).trans <|
    (keep49 m ρ c main_arg9 (by decide)).trans <|
    (keep48 m ρ c main_arg9 (by decide)).trans <|
    (keep47 m ρ c main_arg9 (by decide)).trans <|
    (keep46 m ρ c main_arg9 (by decide)).trans <|
    (keep45 m ρ c main_arg9 (by decide)).trans <|
    (keep44 m ρ c main_arg9 (by decide)).trans <|
    (keep43 m ρ c main_arg9 (by decide)).trans <|
    (keep42 m ρ c main_arg9 (by decide)).trans <|
    (keep41 m ρ c main_arg9 (by decide)).trans <|
    (keep40 m ρ c main_arg9 (by decide)).trans <|
    (keep39 m ρ c main_arg9 (by decide)).trans <|
    (keep38 m ρ c main_arg9 (by decide)).trans <|
    (keep37 m ρ c main_arg9 (by decide)).trans <|
    (keep36 m ρ c main_arg9 (by decide)).trans <|
    (keep35 m ρ c main_arg9 (by decide)).trans <|
    (keep34 m ρ c main_arg9 (by decide)).trans <|
    (keep33 m ρ c main_arg9 (by decide)).trans <|
    (keep32 m ρ c main_arg9 (by decide)).trans <|
    (keep31 m ρ c main_arg9 (by decide)).trans <|
    (keep30 m ρ c main_arg9 (by decide)).trans <|
    (keep29 m ρ c main_arg9 (by decide)).trans <|
    (keep28 m ρ c main_arg9 (by decide)).trans <|
    (keep27 m ρ c main_arg9 (by decide)).trans <|
    (keep26 m ρ c main_arg9 (by decide)).trans <|
    (keep25 m ρ c main_arg9 (by decide)).trans <|
    (keep24 m ρ c main_arg9 (by decide)).trans <|
    (keep23 m ρ c main_arg9 (by decide)).trans <|
    (keep22 m ρ c main_arg9 (by decide)).trans <|
    (keep21 m ρ c main_arg9 (by decide)).trans <|
    (keep20 m ρ c main_arg9 (by decide)).trans <|
    (keep19 m ρ c main_arg9 (by decide)).trans <|
    (keep18 m ρ c main_arg9 (by decide)).trans <|
    (keep17 m ρ c main_arg9 (by decide)).trans <|
    (keep16 m ρ c main_arg9 (by decide)).trans <|
    (keep15 m ρ c main_arg9 (by decide)).trans <|
    (keep14 m ρ c main_arg9 (by decide)).trans <|
    (keep13 m ρ c main_arg9 (by decide)).trans <|
    (keep12 m ρ c main_arg9 (by decide)).trans <|
    (keep11 m ρ c main_arg9 (by decide)).trans <|
    (keep10 m ρ c main_arg9 (by decide)).trans <|
    (keep9 m ρ c main_arg9 (by decide)).trans <|
    (keep8 m ρ c main_arg9 (by decide)).trans <|
    (keep7 m ρ c main_arg9 (by decide)).trans <|
    (keep6 m ρ c main_arg9 (by decide)).trans <|
    (keep5 m ρ c main_arg9 (by decide)).trans <|
    (keep4 m ρ c main_arg9 (by decide)).trans <|
    (keep3 m ρ c main_arg9 (by decide)).trans <|
    (keep2 m ρ c main_arg9 (by decide)).trans <|
    (keep1 m ρ c main_arg9 (by decide)).trans <|
    (keep0 m ρ c main_arg9 (by decide)).trans rfl
theorem kept_arg10 (c : Dev nD) : W55 m ρ c (Proc.devRef .tc main_arg10) = m ((c : Thread nD τ).loc main_arg10) :=
  (keep54 m ρ c main_arg10 (by decide)).trans <|
    (keep53 m ρ c main_arg10 (by decide)).trans <|
    (keep52 m ρ c main_arg10 (by decide)).trans <|
    (keep51 m ρ c main_arg10 (by decide)).trans <|
    (keep50 m ρ c main_arg10 (by decide)).trans <|
    (keep49 m ρ c main_arg10 (by decide)).trans <|
    (keep48 m ρ c main_arg10 (by decide)).trans <|
    (keep47 m ρ c main_arg10 (by decide)).trans <|
    (keep46 m ρ c main_arg10 (by decide)).trans <|
    (keep45 m ρ c main_arg10 (by decide)).trans <|
    (keep44 m ρ c main_arg10 (by decide)).trans <|
    (keep43 m ρ c main_arg10 (by decide)).trans <|
    (keep42 m ρ c main_arg10 (by decide)).trans <|
    (keep41 m ρ c main_arg10 (by decide)).trans <|
    (keep40 m ρ c main_arg10 (by decide)).trans <|
    (keep39 m ρ c main_arg10 (by decide)).trans <|
    (keep38 m ρ c main_arg10 (by decide)).trans <|
    (keep37 m ρ c main_arg10 (by decide)).trans <|
    (keep36 m ρ c main_arg10 (by decide)).trans <|
    (keep35 m ρ c main_arg10 (by decide)).trans <|
    (keep34 m ρ c main_arg10 (by decide)).trans <|
    (keep33 m ρ c main_arg10 (by decide)).trans <|
    (keep32 m ρ c main_arg10 (by decide)).trans <|
    (keep31 m ρ c main_arg10 (by decide)).trans <|
    (keep30 m ρ c main_arg10 (by decide)).trans <|
    (keep29 m ρ c main_arg10 (by decide)).trans <|
    (keep28 m ρ c main_arg10 (by decide)).trans <|
    (keep27 m ρ c main_arg10 (by decide)).trans <|
    (keep26 m ρ c main_arg10 (by decide)).trans <|
    (keep25 m ρ c main_arg10 (by decide)).trans <|
    (keep24 m ρ c main_arg10 (by decide)).trans <|
    (keep23 m ρ c main_arg10 (by decide)).trans <|
    (keep22 m ρ c main_arg10 (by decide)).trans <|
    (keep21 m ρ c main_arg10 (by decide)).trans <|
    (keep20 m ρ c main_arg10 (by decide)).trans <|
    (keep19 m ρ c main_arg10 (by decide)).trans <|
    (keep18 m ρ c main_arg10 (by decide)).trans <|
    (keep17 m ρ c main_arg10 (by decide)).trans <|
    (keep16 m ρ c main_arg10 (by decide)).trans <|
    (keep15 m ρ c main_arg10 (by decide)).trans <|
    (keep14 m ρ c main_arg10 (by decide)).trans <|
    (keep13 m ρ c main_arg10 (by decide)).trans <|
    (keep12 m ρ c main_arg10 (by decide)).trans <|
    (keep11 m ρ c main_arg10 (by decide)).trans <|
    (keep10 m ρ c main_arg10 (by decide)).trans <|
    (keep9 m ρ c main_arg10 (by decide)).trans <|
    (keep8 m ρ c main_arg10 (by decide)).trans <|
    (keep7 m ρ c main_arg10 (by decide)).trans <|
    (keep6 m ρ c main_arg10 (by decide)).trans <|
    (keep5 m ρ c main_arg10 (by decide)).trans <|
    (keep4 m ρ c main_arg10 (by decide)).trans <|
    (keep3 m ρ c main_arg10 (by decide)).trans <|
    (keep2 m ρ c main_arg10 (by decide)).trans <|
    (keep1 m ρ c main_arg10 (by decide)).trans <|
    (keep0 m ρ c main_arg10 (by decide)).trans rfl
theorem kept_arg11 (c : Dev nD) : W55 m ρ c (Proc.devRef .tc main_arg11) = m ((c : Thread nD τ).loc main_arg11) :=
  (keep54 m ρ c main_arg11 (by decide)).trans <|
    (keep53 m ρ c main_arg11 (by decide)).trans <|
    (keep52 m ρ c main_arg11 (by decide)).trans <|
    (keep51 m ρ c main_arg11 (by decide)).trans <|
    (keep50 m ρ c main_arg11 (by decide)).trans <|
    (keep49 m ρ c main_arg11 (by decide)).trans <|
    (keep48 m ρ c main_arg11 (by decide)).trans <|
    (keep47 m ρ c main_arg11 (by decide)).trans <|
    (keep46 m ρ c main_arg11 (by decide)).trans <|
    (keep45 m ρ c main_arg11 (by decide)).trans <|
    (keep44 m ρ c main_arg11 (by decide)).trans <|
    (keep43 m ρ c main_arg11 (by decide)).trans <|
    (keep42 m ρ c main_arg11 (by decide)).trans <|
    (keep41 m ρ c main_arg11 (by decide)).trans <|
    (keep40 m ρ c main_arg11 (by decide)).trans <|
    (keep39 m ρ c main_arg11 (by decide)).trans <|
    (keep38 m ρ c main_arg11 (by decide)).trans <|
    (keep37 m ρ c main_arg11 (by decide)).trans <|
    (keep36 m ρ c main_arg11 (by decide)).trans <|
    (keep35 m ρ c main_arg11 (by decide)).trans <|
    (keep34 m ρ c main_arg11 (by decide)).trans <|
    (keep33 m ρ c main_arg11 (by decide)).trans <|
    (keep32 m ρ c main_arg11 (by decide)).trans <|
    (keep31 m ρ c main_arg11 (by decide)).trans <|
    (keep30 m ρ c main_arg11 (by decide)).trans <|
    (keep29 m ρ c main_arg11 (by decide)).trans <|
    (keep28 m ρ c main_arg11 (by decide)).trans <|
    (keep27 m ρ c main_arg11 (by decide)).trans <|
    (keep26 m ρ c main_arg11 (by decide)).trans <|
    (keep25 m ρ c main_arg11 (by decide)).trans <|
    (keep24 m ρ c main_arg11 (by decide)).trans <|
    (keep23 m ρ c main_arg11 (by decide)).trans <|
    (keep22 m ρ c main_arg11 (by decide)).trans <|
    (keep21 m ρ c main_arg11 (by decide)).trans <|
    (keep20 m ρ c main_arg11 (by decide)).trans <|
    (keep19 m ρ c main_arg11 (by decide)).trans <|
    (keep18 m ρ c main_arg11 (by decide)).trans <|
    (keep17 m ρ c main_arg11 (by decide)).trans <|
    (keep16 m ρ c main_arg11 (by decide)).trans <|
    (keep15 m ρ c main_arg11 (by decide)).trans <|
    (keep14 m ρ c main_arg11 (by decide)).trans <|
    (keep13 m ρ c main_arg11 (by decide)).trans <|
    (keep12 m ρ c main_arg11 (by decide)).trans <|
    (keep11 m ρ c main_arg11 (by decide)).trans <|
    (keep10 m ρ c main_arg11 (by decide)).trans <|
    (keep9 m ρ c main_arg11 (by decide)).trans <|
    (keep8 m ρ c main_arg11 (by decide)).trans <|
    (keep7 m ρ c main_arg11 (by decide)).trans <|
    (keep6 m ρ c main_arg11 (by decide)).trans <|
    (keep5 m ρ c main_arg11 (by decide)).trans <|
    (keep4 m ρ c main_arg11 (by decide)).trans <|
    (keep3 m ρ c main_arg11 (by decide)).trans <|
    (keep2 m ρ c main_arg11 (by decide)).trans <|
    (keep1 m ρ c main_arg11 (by decide)).trans <|
    (keep0 m ρ c main_arg11 (by decide)).trans rfl
theorem kept_arg12 (c : Dev nD) : W55 m ρ c (Proc.devRef .tc main_arg12) = m ((c : Thread nD τ).loc main_arg12) :=
  (keep54 m ρ c main_arg12 (by decide)).trans <|
    (keep53 m ρ c main_arg12 (by decide)).trans <|
    (keep52 m ρ c main_arg12 (by decide)).trans <|
    (keep51 m ρ c main_arg12 (by decide)).trans <|
    (keep50 m ρ c main_arg12 (by decide)).trans <|
    (keep49 m ρ c main_arg12 (by decide)).trans <|
    (keep48 m ρ c main_arg12 (by decide)).trans <|
    (keep47 m ρ c main_arg12 (by decide)).trans <|
    (keep46 m ρ c main_arg12 (by decide)).trans <|
    (keep45 m ρ c main_arg12 (by decide)).trans <|
    (keep44 m ρ c main_arg12 (by decide)).trans <|
    (keep43 m ρ c main_arg12 (by decide)).trans <|
    (keep42 m ρ c main_arg12 (by decide)).trans <|
    (keep41 m ρ c main_arg12 (by decide)).trans <|
    (keep40 m ρ c main_arg12 (by decide)).trans <|
    (keep39 m ρ c main_arg12 (by decide)).trans <|
    (keep38 m ρ c main_arg12 (by decide)).trans <|
    (keep37 m ρ c main_arg12 (by decide)).trans <|
    (keep36 m ρ c main_arg12 (by decide)).trans <|
    (keep35 m ρ c main_arg12 (by decide)).trans <|
    (keep34 m ρ c main_arg12 (by decide)).trans <|
    (keep33 m ρ c main_arg12 (by decide)).trans <|
    (keep32 m ρ c main_arg12 (by decide)).trans <|
    (keep31 m ρ c main_arg12 (by decide)).trans <|
    (keep30 m ρ c main_arg12 (by decide)).trans <|
    (keep29 m ρ c main_arg12 (by decide)).trans <|
    (keep28 m ρ c main_arg12 (by decide)).trans <|
    (keep27 m ρ c main_arg12 (by decide)).trans <|
    (keep26 m ρ c main_arg12 (by decide)).trans <|
    (keep25 m ρ c main_arg12 (by decide)).trans <|
    (keep24 m ρ c main_arg12 (by decide)).trans <|
    (keep23 m ρ c main_arg12 (by decide)).trans <|
    (keep22 m ρ c main_arg12 (by decide)).trans <|
    (keep21 m ρ c main_arg12 (by decide)).trans <|
    (keep20 m ρ c main_arg12 (by decide)).trans <|
    (keep19 m ρ c main_arg12 (by decide)).trans <|
    (keep18 m ρ c main_arg12 (by decide)).trans <|
    (keep17 m ρ c main_arg12 (by decide)).trans <|
    (keep16 m ρ c main_arg12 (by decide)).trans <|
    (keep15 m ρ c main_arg12 (by decide)).trans <|
    (keep14 m ρ c main_arg12 (by decide)).trans <|
    (keep13 m ρ c main_arg12 (by decide)).trans <|
    (keep12 m ρ c main_arg12 (by decide)).trans <|
    (keep11 m ρ c main_arg12 (by decide)).trans <|
    (keep10 m ρ c main_arg12 (by decide)).trans <|
    (keep9 m ρ c main_arg12 (by decide)).trans <|
    (keep8 m ρ c main_arg12 (by decide)).trans <|
    (keep7 m ρ c main_arg12 (by decide)).trans <|
    (keep6 m ρ c main_arg12 (by decide)).trans <|
    (keep5 m ρ c main_arg12 (by decide)).trans <|
    (keep4 m ρ c main_arg12 (by decide)).trans <|
    (keep3 m ρ c main_arg12 (by decide)).trans <|
    (keep2 m ρ c main_arg12 (by decide)).trans <|
    (keep1 m ρ c main_arg12 (by decide)).trans <|
    (keep0 m ρ c main_arg12 (by decide)).trans rfl
theorem kept_arg13 (c : Dev nD) : W55 m ρ c (Proc.devRef .tc main_arg13) = m ((c : Thread nD τ).loc main_arg13) :=
  (keep54 m ρ c main_arg13 (by decide)).trans <|
    (keep53 m ρ c main_arg13 (by decide)).trans <|
    (keep52 m ρ c main_arg13 (by decide)).trans <|
    (keep51 m ρ c main_arg13 (by decide)).trans <|
    (keep50 m ρ c main_arg13 (by decide)).trans <|
    (keep49 m ρ c main_arg13 (by decide)).trans <|
    (keep48 m ρ c main_arg13 (by decide)).trans <|
    (keep47 m ρ c main_arg13 (by decide)).trans <|
    (keep46 m ρ c main_arg13 (by decide)).trans <|
    (keep45 m ρ c main_arg13 (by decide)).trans <|
    (keep44 m ρ c main_arg13 (by decide)).trans <|
    (keep43 m ρ c main_arg13 (by decide)).trans <|
    (keep42 m ρ c main_arg13 (by decide)).trans <|
    (keep41 m ρ c main_arg13 (by decide)).trans <|
    (keep40 m ρ c main_arg13 (by decide)).trans <|
    (keep39 m ρ c main_arg13 (by decide)).trans <|
    (keep38 m ρ c main_arg13 (by decide)).trans <|
    (keep37 m ρ c main_arg13 (by decide)).trans <|
    (keep36 m ρ c main_arg13 (by decide)).trans <|
    (keep35 m ρ c main_arg13 (by decide)).trans <|
    (keep34 m ρ c main_arg13 (by decide)).trans <|
    (keep33 m ρ c main_arg13 (by decide)).trans <|
    (keep32 m ρ c main_arg13 (by decide)).trans <|
    (keep31 m ρ c main_arg13 (by decide)).trans <|
    (keep30 m ρ c main_arg13 (by decide)).trans <|
    (keep29 m ρ c main_arg13 (by decide)).trans <|
    (keep28 m ρ c main_arg13 (by decide)).trans <|
    (keep27 m ρ c main_arg13 (by decide)).trans <|
    (keep26 m ρ c main_arg13 (by decide)).trans <|
    (keep25 m ρ c main_arg13 (by decide)).trans <|
    (keep24 m ρ c main_arg13 (by decide)).trans <|
    (keep23 m ρ c main_arg13 (by decide)).trans <|
    (keep22 m ρ c main_arg13 (by decide)).trans <|
    (keep21 m ρ c main_arg13 (by decide)).trans <|
    (keep20 m ρ c main_arg13 (by decide)).trans <|
    (keep19 m ρ c main_arg13 (by decide)).trans <|
    (keep18 m ρ c main_arg13 (by decide)).trans <|
    (keep17 m ρ c main_arg13 (by decide)).trans <|
    (keep16 m ρ c main_arg13 (by decide)).trans <|
    (keep15 m ρ c main_arg13 (by decide)).trans <|
    (keep14 m ρ c main_arg13 (by decide)).trans <|
    (keep13 m ρ c main_arg13 (by decide)).trans <|
    (keep12 m ρ c main_arg13 (by decide)).trans <|
    (keep11 m ρ c main_arg13 (by decide)).trans <|
    (keep10 m ρ c main_arg13 (by decide)).trans <|
    (keep9 m ρ c main_arg13 (by decide)).trans <|
    (keep8 m ρ c main_arg13 (by decide)).trans <|
    (keep7 m ρ c main_arg13 (by decide)).trans <|
    (keep6 m ρ c main_arg13 (by decide)).trans <|
    (keep5 m ρ c main_arg13 (by decide)).trans <|
    (keep4 m ρ c main_arg13 (by decide)).trans <|
    (keep3 m ρ c main_arg13 (by decide)).trans <|
    (keep2 m ρ c main_arg13 (by decide)).trans <|
    (keep1 m ρ c main_arg13 (by decide)).trans <|
    (keep0 m ρ c main_arg13 (by decide)).trans rfl
theorem kept_arg14 (c : Dev nD) : W55 m ρ c (Proc.devRef .tc main_arg14) = m ((c : Thread nD τ).loc main_arg14) :=
  (keep54 m ρ c main_arg14 (by decide)).trans <|
    (keep53 m ρ c main_arg14 (by decide)).trans <|
    (keep52 m ρ c main_arg14 (by decide)).trans <|
    (keep51 m ρ c main_arg14 (by decide)).trans <|
    (keep50 m ρ c main_arg14 (by decide)).trans <|
    (keep49 m ρ c main_arg14 (by decide)).trans <|
    (keep48 m ρ c main_arg14 (by decide)).trans <|
    (keep47 m ρ c main_arg14 (by decide)).trans <|
    (keep46 m ρ c main_arg14 (by decide)).trans <|
    (keep45 m ρ c main_arg14 (by decide)).trans <|
    (keep44 m ρ c main_arg14 (by decide)).trans <|
    (keep43 m ρ c main_arg14 (by decide)).trans <|
    (keep42 m ρ c main_arg14 (by decide)).trans <|
    (keep41 m ρ c main_arg14 (by decide)).trans <|
    (keep40 m ρ c main_arg14 (by decide)).trans <|
    (keep39 m ρ c main_arg14 (by decide)).trans <|
    (keep38 m ρ c main_arg14 (by decide)).trans <|
    (keep37 m ρ c main_arg14 (by decide)).trans <|
    (keep36 m ρ c main_arg14 (by decide)).trans <|
    (keep35 m ρ c main_arg14 (by decide)).trans <|
    (keep34 m ρ c main_arg14 (by decide)).trans <|
    (keep33 m ρ c main_arg14 (by decide)).trans <|
    (keep32 m ρ c main_arg14 (by decide)).trans <|
    (keep31 m ρ c main_arg14 (by decide)).trans <|
    (keep30 m ρ c main_arg14 (by decide)).trans <|
    (keep29 m ρ c main_arg14 (by decide)).trans <|
    (keep28 m ρ c main_arg14 (by decide)).trans <|
    (keep27 m ρ c main_arg14 (by decide)).trans <|
    (keep26 m ρ c main_arg14 (by decide)).trans <|
    (keep25 m ρ c main_arg14 (by decide)).trans <|
    (keep24 m ρ c main_arg14 (by decide)).trans <|
    (keep23 m ρ c main_arg14 (by decide)).trans <|
    (keep22 m ρ c main_arg14 (by decide)).trans <|
    (keep21 m ρ c main_arg14 (by decide)).trans <|
    (keep20 m ρ c main_arg14 (by decide)).trans <|
    (keep19 m ρ c main_arg14 (by decide)).trans <|
    (keep18 m ρ c main_arg14 (by decide)).trans <|
    (keep17 m ρ c main_arg14 (by decide)).trans <|
    (keep16 m ρ c main_arg14 (by decide)).trans <|
    (keep15 m ρ c main_arg14 (by decide)).trans <|
    (keep14 m ρ c main_arg14 (by decide)).trans <|
    (keep13 m ρ c main_arg14 (by decide)).trans <|
    (keep12 m ρ c main_arg14 (by decide)).trans <|
    (keep11 m ρ c main_arg14 (by decide)).trans <|
    (keep10 m ρ c main_arg14 (by decide)).trans <|
    (keep9 m ρ c main_arg14 (by decide)).trans <|
    (keep8 m ρ c main_arg14 (by decide)).trans <|
    (keep7 m ρ c main_arg14 (by decide)).trans <|
    (keep6 m ρ c main_arg14 (by decide)).trans <|
    (keep5 m ρ c main_arg14 (by decide)).trans <|
    (keep4 m ρ c main_arg14 (by decide)).trans <|
    (keep3 m ρ c main_arg14 (by decide)).trans <|
    (keep2 m ρ c main_arg14 (by decide)).trans <|
    (keep1 m ρ c main_arg14 (by decide)).trans <|
    (keep0 m ρ c main_arg14 (by decide)).trans rfl
theorem kept_arg15 (c : Dev nD) : W55 m ρ c (Proc.devRef .tc main_arg15) = m ((c : Thread nD τ).loc main_arg15) :=
  (keep54 m ρ c main_arg15 (by decide)).trans <|
    (keep53 m ρ c main_arg15 (by decide)).trans <|
    (keep52 m ρ c main_arg15 (by decide)).trans <|
    (keep51 m ρ c main_arg15 (by decide)).trans <|
    (keep50 m ρ c main_arg15 (by decide)).trans <|
    (keep49 m ρ c main_arg15 (by decide)).trans <|
    (keep48 m ρ c main_arg15 (by decide)).trans <|
    (keep47 m ρ c main_arg15 (by decide)).trans <|
    (keep46 m ρ c main_arg15 (by decide)).trans <|
    (keep45 m ρ c main_arg15 (by decide)).trans <|
    (keep44 m ρ c main_arg15 (by decide)).trans <|
    (keep43 m ρ c main_arg15 (by decide)).trans <|
    (keep42 m ρ c main_arg15 (by decide)).trans <|
    (keep41 m ρ c main_arg15 (by decide)).trans <|
    (keep40 m ρ c main_arg15 (by decide)).trans <|
    (keep39 m ρ c main_arg15 (by decide)).trans <|
    (keep38 m ρ c main_arg15 (by decide)).trans <|
    (keep37 m ρ c main_arg15 (by decide)).trans <|
    (keep36 m ρ c main_arg15 (by decide)).trans <|
    (keep35 m ρ c main_arg15 (by decide)).trans <|
    (keep34 m ρ c main_arg15 (by decide)).trans <|
    (keep33 m ρ c main_arg15 (by decide)).trans <|
    (keep32 m ρ c main_arg15 (by decide)).trans <|
    (keep31 m ρ c main_arg15 (by decide)).trans <|
    (keep30 m ρ c main_arg15 (by decide)).trans <|
    (keep29 m ρ c main_arg15 (by decide)).trans <|
    (keep28 m ρ c main_arg15 (by decide)).trans <|
    (keep27 m ρ c main_arg15 (by decide)).trans <|
    (keep26 m ρ c main_arg15 (by decide)).trans <|
    (keep25 m ρ c main_arg15 (by decide)).trans <|
    (keep24 m ρ c main_arg15 (by decide)).trans <|
    (keep23 m ρ c main_arg15 (by decide)).trans <|
    (keep22 m ρ c main_arg15 (by decide)).trans <|
    (keep21 m ρ c main_arg15 (by decide)).trans <|
    (keep20 m ρ c main_arg15 (by decide)).trans <|
    (keep19 m ρ c main_arg15 (by decide)).trans <|
    (keep18 m ρ c main_arg15 (by decide)).trans <|
    (keep17 m ρ c main_arg15 (by decide)).trans <|
    (keep16 m ρ c main_arg15 (by decide)).trans <|
    (keep15 m ρ c main_arg15 (by decide)).trans <|
    (keep14 m ρ c main_arg15 (by decide)).trans <|
    (keep13 m ρ c main_arg15 (by decide)).trans <|
    (keep12 m ρ c main_arg15 (by decide)).trans <|
    (keep11 m ρ c main_arg15 (by decide)).trans <|
    (keep10 m ρ c main_arg15 (by decide)).trans <|
    (keep9 m ρ c main_arg15 (by decide)).trans <|
    (keep8 m ρ c main_arg15 (by decide)).trans <|
    (keep7 m ρ c main_arg15 (by decide)).trans <|
    (keep6 m ρ c main_arg15 (by decide)).trans <|
    (keep5 m ρ c main_arg15 (by decide)).trans <|
    (keep4 m ρ c main_arg15 (by decide)).trans <|
    (keep3 m ρ c main_arg15 (by decide)).trans <|
    (keep2 m ρ c main_arg15 (by decide)).trans <|
    (keep1 m ρ c main_arg15 (by decide)).trans <|
    (keep0 m ρ c main_arg15 (by decide)).trans rfl
theorem kept_arg16 (c : Dev nD) : W55 m ρ c (Proc.devRef .tc main_arg16) = m ((c : Thread nD τ).loc main_arg16) :=
  (keep54 m ρ c main_arg16 (by decide)).trans <|
    (keep53 m ρ c main_arg16 (by decide)).trans <|
    (keep52 m ρ c main_arg16 (by decide)).trans <|
    (keep51 m ρ c main_arg16 (by decide)).trans <|
    (keep50 m ρ c main_arg16 (by decide)).trans <|
    (keep49 m ρ c main_arg16 (by decide)).trans <|
    (keep48 m ρ c main_arg16 (by decide)).trans <|
    (keep47 m ρ c main_arg16 (by decide)).trans <|
    (keep46 m ρ c main_arg16 (by decide)).trans <|
    (keep45 m ρ c main_arg16 (by decide)).trans <|
    (keep44 m ρ c main_arg16 (by decide)).trans <|
    (keep43 m ρ c main_arg16 (by decide)).trans <|
    (keep42 m ρ c main_arg16 (by decide)).trans <|
    (keep41 m ρ c main_arg16 (by decide)).trans <|
    (keep40 m ρ c main_arg16 (by decide)).trans <|
    (keep39 m ρ c main_arg16 (by decide)).trans <|
    (keep38 m ρ c main_arg16 (by decide)).trans <|
    (keep37 m ρ c main_arg16 (by decide)).trans <|
    (keep36 m ρ c main_arg16 (by decide)).trans <|
    (keep35 m ρ c main_arg16 (by decide)).trans <|
    (keep34 m ρ c main_arg16 (by decide)).trans <|
    (keep33 m ρ c main_arg16 (by decide)).trans <|
    (keep32 m ρ c main_arg16 (by decide)).trans <|
    (keep31 m ρ c main_arg16 (by decide)).trans <|
    (keep30 m ρ c main_arg16 (by decide)).trans <|
    (keep29 m ρ c main_arg16 (by decide)).trans <|
    (keep28 m ρ c main_arg16 (by decide)).trans <|
    (keep27 m ρ c main_arg16 (by decide)).trans <|
    (keep26 m ρ c main_arg16 (by decide)).trans <|
    (keep25 m ρ c main_arg16 (by decide)).trans <|
    (keep24 m ρ c main_arg16 (by decide)).trans <|
    (keep23 m ρ c main_arg16 (by decide)).trans <|
    (keep22 m ρ c main_arg16 (by decide)).trans <|
    (keep21 m ρ c main_arg16 (by decide)).trans <|
    (keep20 m ρ c main_arg16 (by decide)).trans <|
    (keep19 m ρ c main_arg16 (by decide)).trans <|
    (keep18 m ρ c main_arg16 (by decide)).trans <|
    (keep17 m ρ c main_arg16 (by decide)).trans <|
    (keep16 m ρ c main_arg16 (by decide)).trans <|
    (keep15 m ρ c main_arg16 (by decide)).trans <|
    (keep14 m ρ c main_arg16 (by decide)).trans <|
    (keep13 m ρ c main_arg16 (by decide)).trans <|
    (keep12 m ρ c main_arg16 (by decide)).trans <|
    (keep11 m ρ c main_arg16 (by decide)).trans <|
    (keep10 m ρ c main_arg16 (by decide)).trans <|
    (keep9 m ρ c main_arg16 (by decide)).trans <|
    (keep8 m ρ c main_arg16 (by decide)).trans <|
    (keep7 m ρ c main_arg16 (by decide)).trans <|
    (keep6 m ρ c main_arg16 (by decide)).trans <|
    (keep5 m ρ c main_arg16 (by decide)).trans <|
    (keep4 m ρ c main_arg16 (by decide)).trans <|
    (keep3 m ρ c main_arg16 (by decide)).trans <|
    (keep2 m ρ c main_arg16 (by decide)).trans <|
    (keep1 m ρ c main_arg16 (by decide)).trans <|
    (keep0 m ρ c main_arg16 (by decide)).trans rfl
theorem kept_arg17 (c : Dev nD) : W55 m ρ c (Proc.devRef .tc main_arg17) = m ((c : Thread nD τ).loc main_arg17) :=
  (keep54 m ρ c main_arg17 (by decide)).trans <|
    (keep53 m ρ c main_arg17 (by decide)).trans <|
    (keep52 m ρ c main_arg17 (by decide)).trans <|
    (keep51 m ρ c main_arg17 (by decide)).trans <|
    (keep50 m ρ c main_arg17 (by decide)).trans <|
    (keep49 m ρ c main_arg17 (by decide)).trans <|
    (keep48 m ρ c main_arg17 (by decide)).trans <|
    (keep47 m ρ c main_arg17 (by decide)).trans <|
    (keep46 m ρ c main_arg17 (by decide)).trans <|
    (keep45 m ρ c main_arg17 (by decide)).trans <|
    (keep44 m ρ c main_arg17 (by decide)).trans <|
    (keep43 m ρ c main_arg17 (by decide)).trans <|
    (keep42 m ρ c main_arg17 (by decide)).trans <|
    (keep41 m ρ c main_arg17 (by decide)).trans <|
    (keep40 m ρ c main_arg17 (by decide)).trans <|
    (keep39 m ρ c main_arg17 (by decide)).trans <|
    (keep38 m ρ c main_arg17 (by decide)).trans <|
    (keep37 m ρ c main_arg17 (by decide)).trans <|
    (keep36 m ρ c main_arg17 (by decide)).trans <|
    (keep35 m ρ c main_arg17 (by decide)).trans <|
    (keep34 m ρ c main_arg17 (by decide)).trans <|
    (keep33 m ρ c main_arg17 (by decide)).trans <|
    (keep32 m ρ c main_arg17 (by decide)).trans <|
    (keep31 m ρ c main_arg17 (by decide)).trans <|
    (keep30 m ρ c main_arg17 (by decide)).trans <|
    (keep29 m ρ c main_arg17 (by decide)).trans <|
    (keep28 m ρ c main_arg17 (by decide)).trans <|
    (keep27 m ρ c main_arg17 (by decide)).trans <|
    (keep26 m ρ c main_arg17 (by decide)).trans <|
    (keep25 m ρ c main_arg17 (by decide)).trans <|
    (keep24 m ρ c main_arg17 (by decide)).trans <|
    (keep23 m ρ c main_arg17 (by decide)).trans <|
    (keep22 m ρ c main_arg17 (by decide)).trans <|
    (keep21 m ρ c main_arg17 (by decide)).trans <|
    (keep20 m ρ c main_arg17 (by decide)).trans <|
    (keep19 m ρ c main_arg17 (by decide)).trans <|
    (keep18 m ρ c main_arg17 (by decide)).trans <|
    (keep17 m ρ c main_arg17 (by decide)).trans <|
    (keep16 m ρ c main_arg17 (by decide)).trans <|
    (keep15 m ρ c main_arg17 (by decide)).trans <|
    (keep14 m ρ c main_arg17 (by decide)).trans <|
    (keep13 m ρ c main_arg17 (by decide)).trans <|
    (keep12 m ρ c main_arg17 (by decide)).trans <|
    (keep11 m ρ c main_arg17 (by decide)).trans <|
    (keep10 m ρ c main_arg17 (by decide)).trans <|
    (keep9 m ρ c main_arg17 (by decide)).trans <|
    (keep8 m ρ c main_arg17 (by decide)).trans <|
    (keep7 m ρ c main_arg17 (by decide)).trans <|
    (keep6 m ρ c main_arg17 (by decide)).trans <|
    (keep5 m ρ c main_arg17 (by decide)).trans <|
    (keep4 m ρ c main_arg17 (by decide)).trans <|
    (keep3 m ρ c main_arg17 (by decide)).trans <|
    (keep2 m ρ c main_arg17 (by decide)).trans <|
    (keep1 m ρ c main_arg17 (by decide)).trans <|
    (keep0 m ρ c main_arg17 (by decide)).trans rfl
theorem kept_arg18 (c : Dev nD) : W55 m ρ c (Proc.devRef .tc main_arg18) = m ((c : Thread nD τ).loc main_arg18) :=
  (keep54 m ρ c main_arg18 (by decide)).trans <|
    (keep53 m ρ c main_arg18 (by decide)).trans <|
    (keep52 m ρ c main_arg18 (by decide)).trans <|
    (keep51 m ρ c main_arg18 (by decide)).trans <|
    (keep50 m ρ c main_arg18 (by decide)).trans <|
    (keep49 m ρ c main_arg18 (by decide)).trans <|
    (keep48 m ρ c main_arg18 (by decide)).trans <|
    (keep47 m ρ c main_arg18 (by decide)).trans <|
    (keep46 m ρ c main_arg18 (by decide)).trans <|
    (keep45 m ρ c main_arg18 (by decide)).trans <|
    (keep44 m ρ c main_arg18 (by decide)).trans <|
    (keep43 m ρ c main_arg18 (by decide)).trans <|
    (keep42 m ρ c main_arg18 (by decide)).trans <|
    (keep41 m ρ c main_arg18 (by decide)).trans <|
    (keep40 m ρ c main_arg18 (by decide)).trans <|
    (keep39 m ρ c main_arg18 (by decide)).trans <|
    (keep38 m ρ c main_arg18 (by decide)).trans <|
    (keep37 m ρ c main_arg18 (by decide)).trans <|
    (keep36 m ρ c main_arg18 (by decide)).trans <|
    (keep35 m ρ c main_arg18 (by decide)).trans <|
    (keep34 m ρ c main_arg18 (by decide)).trans <|
    (keep33 m ρ c main_arg18 (by decide)).trans <|
    (keep32 m ρ c main_arg18 (by decide)).trans <|
    (keep31 m ρ c main_arg18 (by decide)).trans <|
    (keep30 m ρ c main_arg18 (by decide)).trans <|
    (keep29 m ρ c main_arg18 (by decide)).trans <|
    (keep28 m ρ c main_arg18 (by decide)).trans <|
    (keep27 m ρ c main_arg18 (by decide)).trans <|
    (keep26 m ρ c main_arg18 (by decide)).trans <|
    (keep25 m ρ c main_arg18 (by decide)).trans <|
    (keep24 m ρ c main_arg18 (by decide)).trans <|
    (keep23 m ρ c main_arg18 (by decide)).trans <|
    (keep22 m ρ c main_arg18 (by decide)).trans <|
    (keep21 m ρ c main_arg18 (by decide)).trans <|
    (keep20 m ρ c main_arg18 (by decide)).trans <|
    (keep19 m ρ c main_arg18 (by decide)).trans <|
    (keep18 m ρ c main_arg18 (by decide)).trans <|
    (keep17 m ρ c main_arg18 (by decide)).trans <|
    (keep16 m ρ c main_arg18 (by decide)).trans <|
    (keep15 m ρ c main_arg18 (by decide)).trans <|
    (keep14 m ρ c main_arg18 (by decide)).trans <|
    (keep13 m ρ c main_arg18 (by decide)).trans <|
    (keep12 m ρ c main_arg18 (by decide)).trans <|
    (keep11 m ρ c main_arg18 (by decide)).trans <|
    (keep10 m ρ c main_arg18 (by decide)).trans <|
    (keep9 m ρ c main_arg18 (by decide)).trans <|
    (keep8 m ρ c main_arg18 (by decide)).trans <|
    (keep7 m ρ c main_arg18 (by decide)).trans <|
    (keep6 m ρ c main_arg18 (by decide)).trans <|
    (keep5 m ρ c main_arg18 (by decide)).trans <|
    (keep4 m ρ c main_arg18 (by decide)).trans <|
    (keep3 m ρ c main_arg18 (by decide)).trans <|
    (keep2 m ρ c main_arg18 (by decide)).trans <|
    (keep1 m ρ c main_arg18 (by decide)).trans <|
    (keep0 m ρ c main_arg18 (by decide)).trans rfl
theorem kept_arg19 (c : Dev nD) : W55 m ρ c (Proc.devRef .tc main_arg19) = m ((c : Thread nD τ).loc main_arg19) :=
  (keep54 m ρ c main_arg19 (by decide)).trans <|
    (keep53 m ρ c main_arg19 (by decide)).trans <|
    (keep52 m ρ c main_arg19 (by decide)).trans <|
    (keep51 m ρ c main_arg19 (by decide)).trans <|
    (keep50 m ρ c main_arg19 (by decide)).trans <|
    (keep49 m ρ c main_arg19 (by decide)).trans <|
    (keep48 m ρ c main_arg19 (by decide)).trans <|
    (keep47 m ρ c main_arg19 (by decide)).trans <|
    (keep46 m ρ c main_arg19 (by decide)).trans <|
    (keep45 m ρ c main_arg19 (by decide)).trans <|
    (keep44 m ρ c main_arg19 (by decide)).trans <|
    (keep43 m ρ c main_arg19 (by decide)).trans <|
    (keep42 m ρ c main_arg19 (by decide)).trans <|
    (keep41 m ρ c main_arg19 (by decide)).trans <|
    (keep40 m ρ c main_arg19 (by decide)).trans <|
    (keep39 m ρ c main_arg19 (by decide)).trans <|
    (keep38 m ρ c main_arg19 (by decide)).trans <|
    (keep37 m ρ c main_arg19 (by decide)).trans <|
    (keep36 m ρ c main_arg19 (by decide)).trans <|
    (keep35 m ρ c main_arg19 (by decide)).trans <|
    (keep34 m ρ c main_arg19 (by decide)).trans <|
    (keep33 m ρ c main_arg19 (by decide)).trans <|
    (keep32 m ρ c main_arg19 (by decide)).trans <|
    (keep31 m ρ c main_arg19 (by decide)).trans <|
    (keep30 m ρ c main_arg19 (by decide)).trans <|
    (keep29 m ρ c main_arg19 (by decide)).trans <|
    (keep28 m ρ c main_arg19 (by decide)).trans <|
    (keep27 m ρ c main_arg19 (by decide)).trans <|
    (keep26 m ρ c main_arg19 (by decide)).trans <|
    (keep25 m ρ c main_arg19 (by decide)).trans <|
    (keep24 m ρ c main_arg19 (by decide)).trans <|
    (keep23 m ρ c main_arg19 (by decide)).trans <|
    (keep22 m ρ c main_arg19 (by decide)).trans <|
    (keep21 m ρ c main_arg19 (by decide)).trans <|
    (keep20 m ρ c main_arg19 (by decide)).trans <|
    (keep19 m ρ c main_arg19 (by decide)).trans <|
    (keep18 m ρ c main_arg19 (by decide)).trans <|
    (keep17 m ρ c main_arg19 (by decide)).trans <|
    (keep16 m ρ c main_arg19 (by decide)).trans <|
    (keep15 m ρ c main_arg19 (by decide)).trans <|
    (keep14 m ρ c main_arg19 (by decide)).trans <|
    (keep13 m ρ c main_arg19 (by decide)).trans <|
    (keep12 m ρ c main_arg19 (by decide)).trans <|
    (keep11 m ρ c main_arg19 (by decide)).trans <|
    (keep10 m ρ c main_arg19 (by decide)).trans <|
    (keep9 m ρ c main_arg19 (by decide)).trans <|
    (keep8 m ρ c main_arg19 (by decide)).trans <|
    (keep7 m ρ c main_arg19 (by decide)).trans <|
    (keep6 m ρ c main_arg19 (by decide)).trans <|
    (keep5 m ρ c main_arg19 (by decide)).trans <|
    (keep4 m ρ c main_arg19 (by decide)).trans <|
    (keep3 m ρ c main_arg19 (by decide)).trans <|
    (keep2 m ρ c main_arg19 (by decide)).trans <|
    (keep1 m ρ c main_arg19 (by decide)).trans <|
    (keep0 m ρ c main_arg19 (by decide)).trans rfl
theorem kept_arg20 (c : Dev nD) : W55 m ρ c (Proc.devRef .tc main_arg20) = m ((c : Thread nD τ).loc main_arg20) :=
  (keep54 m ρ c main_arg20 (by decide)).trans <|
    (keep53 m ρ c main_arg20 (by decide)).trans <|
    (keep52 m ρ c main_arg20 (by decide)).trans <|
    (keep51 m ρ c main_arg20 (by decide)).trans <|
    (keep50 m ρ c main_arg20 (by decide)).trans <|
    (keep49 m ρ c main_arg20 (by decide)).trans <|
    (keep48 m ρ c main_arg20 (by decide)).trans <|
    (keep47 m ρ c main_arg20 (by decide)).trans <|
    (keep46 m ρ c main_arg20 (by decide)).trans <|
    (keep45 m ρ c main_arg20 (by decide)).trans <|
    (keep44 m ρ c main_arg20 (by decide)).trans <|
    (keep43 m ρ c main_arg20 (by decide)).trans <|
    (keep42 m ρ c main_arg20 (by decide)).trans <|
    (keep41 m ρ c main_arg20 (by decide)).trans <|
    (keep40 m ρ c main_arg20 (by decide)).trans <|
    (keep39 m ρ c main_arg20 (by decide)).trans <|
    (keep38 m ρ c main_arg20 (by decide)).trans <|
    (keep37 m ρ c main_arg20 (by decide)).trans <|
    (keep36 m ρ c main_arg20 (by decide)).trans <|
    (keep35 m ρ c main_arg20 (by decide)).trans <|
    (keep34 m ρ c main_arg20 (by decide)).trans <|
    (keep33 m ρ c main_arg20 (by decide)).trans <|
    (keep32 m ρ c main_arg20 (by decide)).trans <|
    (keep31 m ρ c main_arg20 (by decide)).trans <|
    (keep30 m ρ c main_arg20 (by decide)).trans <|
    (keep29 m ρ c main_arg20 (by decide)).trans <|
    (keep28 m ρ c main_arg20 (by decide)).trans <|
    (keep27 m ρ c main_arg20 (by decide)).trans <|
    (keep26 m ρ c main_arg20 (by decide)).trans <|
    (keep25 m ρ c main_arg20 (by decide)).trans <|
    (keep24 m ρ c main_arg20 (by decide)).trans <|
    (keep23 m ρ c main_arg20 (by decide)).trans <|
    (keep22 m ρ c main_arg20 (by decide)).trans <|
    (keep21 m ρ c main_arg20 (by decide)).trans <|
    (keep20 m ρ c main_arg20 (by decide)).trans <|
    (keep19 m ρ c main_arg20 (by decide)).trans <|
    (keep18 m ρ c main_arg20 (by decide)).trans <|
    (keep17 m ρ c main_arg20 (by decide)).trans <|
    (keep16 m ρ c main_arg20 (by decide)).trans <|
    (keep15 m ρ c main_arg20 (by decide)).trans <|
    (keep14 m ρ c main_arg20 (by decide)).trans <|
    (keep13 m ρ c main_arg20 (by decide)).trans <|
    (keep12 m ρ c main_arg20 (by decide)).trans <|
    (keep11 m ρ c main_arg20 (by decide)).trans <|
    (keep10 m ρ c main_arg20 (by decide)).trans <|
    (keep9 m ρ c main_arg20 (by decide)).trans <|
    (keep8 m ρ c main_arg20 (by decide)).trans <|
    (keep7 m ρ c main_arg20 (by decide)).trans <|
    (keep6 m ρ c main_arg20 (by decide)).trans <|
    (keep5 m ρ c main_arg20 (by decide)).trans <|
    (keep4 m ρ c main_arg20 (by decide)).trans <|
    (keep3 m ρ c main_arg20 (by decide)).trans <|
    (keep2 m ρ c main_arg20 (by decide)).trans <|
    (keep1 m ρ c main_arg20 (by decide)).trans <|
    (keep0 m ρ c main_arg20 (by decide)).trans rfl
theorem kept_arg21 (c : Dev nD) : W55 m ρ c (Proc.devRef .tc main_arg21) = m ((c : Thread nD τ).loc main_arg21) :=
  (keep54 m ρ c main_arg21 (by decide)).trans <|
    (keep53 m ρ c main_arg21 (by decide)).trans <|
    (keep52 m ρ c main_arg21 (by decide)).trans <|
    (keep51 m ρ c main_arg21 (by decide)).trans <|
    (keep50 m ρ c main_arg21 (by decide)).trans <|
    (keep49 m ρ c main_arg21 (by decide)).trans <|
    (keep48 m ρ c main_arg21 (by decide)).trans <|
    (keep47 m ρ c main_arg21 (by decide)).trans <|
    (keep46 m ρ c main_arg21 (by decide)).trans <|
    (keep45 m ρ c main_arg21 (by decide)).trans <|
    (keep44 m ρ c main_arg21 (by decide)).trans <|
    (keep43 m ρ c main_arg21 (by decide)).trans <|
    (keep42 m ρ c main_arg21 (by decide)).trans <|
    (keep41 m ρ c main_arg21 (by decide)).trans <|
    (keep40 m ρ c main_arg21 (by decide)).trans <|
    (keep39 m ρ c main_arg21 (by decide)).trans <|
    (keep38 m ρ c main_arg21 (by decide)).trans <|
    (keep37 m ρ c main_arg21 (by decide)).trans <|
    (keep36 m ρ c main_arg21 (by decide)).trans <|
    (keep35 m ρ c main_arg21 (by decide)).trans <|
    (keep34 m ρ c main_arg21 (by decide)).trans <|
    (keep33 m ρ c main_arg21 (by decide)).trans <|
    (keep32 m ρ c main_arg21 (by decide)).trans <|
    (keep31 m ρ c main_arg21 (by decide)).trans <|
    (keep30 m ρ c main_arg21 (by decide)).trans <|
    (keep29 m ρ c main_arg21 (by decide)).trans <|
    (keep28 m ρ c main_arg21 (by decide)).trans <|
    (keep27 m ρ c main_arg21 (by decide)).trans <|
    (keep26 m ρ c main_arg21 (by decide)).trans <|
    (keep25 m ρ c main_arg21 (by decide)).trans <|
    (keep24 m ρ c main_arg21 (by decide)).trans <|
    (keep23 m ρ c main_arg21 (by decide)).trans <|
    (keep22 m ρ c main_arg21 (by decide)).trans <|
    (keep21 m ρ c main_arg21 (by decide)).trans <|
    (keep20 m ρ c main_arg21 (by decide)).trans <|
    (keep19 m ρ c main_arg21 (by decide)).trans <|
    (keep18 m ρ c main_arg21 (by decide)).trans <|
    (keep17 m ρ c main_arg21 (by decide)).trans <|
    (keep16 m ρ c main_arg21 (by decide)).trans <|
    (keep15 m ρ c main_arg21 (by decide)).trans <|
    (keep14 m ρ c main_arg21 (by decide)).trans <|
    (keep13 m ρ c main_arg21 (by decide)).trans <|
    (keep12 m ρ c main_arg21 (by decide)).trans <|
    (keep11 m ρ c main_arg21 (by decide)).trans <|
    (keep10 m ρ c main_arg21 (by decide)).trans <|
    (keep9 m ρ c main_arg21 (by decide)).trans <|
    (keep8 m ρ c main_arg21 (by decide)).trans <|
    (keep7 m ρ c main_arg21 (by decide)).trans <|
    (keep6 m ρ c main_arg21 (by decide)).trans <|
    (keep5 m ρ c main_arg21 (by decide)).trans <|
    (keep4 m ρ c main_arg21 (by decide)).trans <|
    (keep3 m ρ c main_arg21 (by decide)).trans <|
    (keep2 m ρ c main_arg21 (by decide)).trans <|
    (keep1 m ρ c main_arg21 (by decide)).trans <|
    (keep0 m ρ c main_arg21 (by decide)).trans rfl
theorem kept_arg22 (c : Dev nD) : W55 m ρ c (Proc.devRef .tc main_arg22) = m ((c : Thread nD τ).loc main_arg22) :=
  (keep54 m ρ c main_arg22 (by decide)).trans <|
    (keep53 m ρ c main_arg22 (by decide)).trans <|
    (keep52 m ρ c main_arg22 (by decide)).trans <|
    (keep51 m ρ c main_arg22 (by decide)).trans <|
    (keep50 m ρ c main_arg22 (by decide)).trans <|
    (keep49 m ρ c main_arg22 (by decide)).trans <|
    (keep48 m ρ c main_arg22 (by decide)).trans <|
    (keep47 m ρ c main_arg22 (by decide)).trans <|
    (keep46 m ρ c main_arg22 (by decide)).trans <|
    (keep45 m ρ c main_arg22 (by decide)).trans <|
    (keep44 m ρ c main_arg22 (by decide)).trans <|
    (keep43 m ρ c main_arg22 (by decide)).trans <|
    (keep42 m ρ c main_arg22 (by decide)).trans <|
    (keep41 m ρ c main_arg22 (by decide)).trans <|
    (keep40 m ρ c main_arg22 (by decide)).trans <|
    (keep39 m ρ c main_arg22 (by decide)).trans <|
    (keep38 m ρ c main_arg22 (by decide)).trans <|
    (keep37 m ρ c main_arg22 (by decide)).trans <|
    (keep36 m ρ c main_arg22 (by decide)).trans <|
    (keep35 m ρ c main_arg22 (by decide)).trans <|
    (keep34 m ρ c main_arg22 (by decide)).trans <|
    (keep33 m ρ c main_arg22 (by decide)).trans <|
    (keep32 m ρ c main_arg22 (by decide)).trans <|
    (keep31 m ρ c main_arg22 (by decide)).trans <|
    (keep30 m ρ c main_arg22 (by decide)).trans <|
    (keep29 m ρ c main_arg22 (by decide)).trans <|
    (keep28 m ρ c main_arg22 (by decide)).trans <|
    (keep27 m ρ c main_arg22 (by decide)).trans <|
    (keep26 m ρ c main_arg22 (by decide)).trans <|
    (keep25 m ρ c main_arg22 (by decide)).trans <|
    (keep24 m ρ c main_arg22 (by decide)).trans <|
    (keep23 m ρ c main_arg22 (by decide)).trans <|
    (keep22 m ρ c main_arg22 (by decide)).trans <|
    (keep21 m ρ c main_arg22 (by decide)).trans <|
    (keep20 m ρ c main_arg22 (by decide)).trans <|
    (keep19 m ρ c main_arg22 (by decide)).trans <|
    (keep18 m ρ c main_arg22 (by decide)).trans <|
    (keep17 m ρ c main_arg22 (by decide)).trans <|
    (keep16 m ρ c main_arg22 (by decide)).trans <|
    (keep15 m ρ c main_arg22 (by decide)).trans <|
    (keep14 m ρ c main_arg22 (by decide)).trans <|
    (keep13 m ρ c main_arg22 (by decide)).trans <|
    (keep12 m ρ c main_arg22 (by decide)).trans <|
    (keep11 m ρ c main_arg22 (by decide)).trans <|
    (keep10 m ρ c main_arg22 (by decide)).trans <|
    (keep9 m ρ c main_arg22 (by decide)).trans <|
    (keep8 m ρ c main_arg22 (by decide)).trans <|
    (keep7 m ρ c main_arg22 (by decide)).trans <|
    (keep6 m ρ c main_arg22 (by decide)).trans <|
    (keep5 m ρ c main_arg22 (by decide)).trans <|
    (keep4 m ρ c main_arg22 (by decide)).trans <|
    (keep3 m ρ c main_arg22 (by decide)).trans <|
    (keep2 m ρ c main_arg22 (by decide)).trans <|
    (keep1 m ρ c main_arg22 (by decide)).trans <|
    (keep0 m ρ c main_arg22 (by decide)).trans rfl
theorem kept_arg23 (c : Dev nD) : W55 m ρ c (Proc.devRef .tc main_arg23) = m ((c : Thread nD τ).loc main_arg23) :=
  (keep54 m ρ c main_arg23 (by decide)).trans <|
    (keep53 m ρ c main_arg23 (by decide)).trans <|
    (keep52 m ρ c main_arg23 (by decide)).trans <|
    (keep51 m ρ c main_arg23 (by decide)).trans <|
    (keep50 m ρ c main_arg23 (by decide)).trans <|
    (keep49 m ρ c main_arg23 (by decide)).trans <|
    (keep48 m ρ c main_arg23 (by decide)).trans <|
    (keep47 m ρ c main_arg23 (by decide)).trans <|
    (keep46 m ρ c main_arg23 (by decide)).trans <|
    (keep45 m ρ c main_arg23 (by decide)).trans <|
    (keep44 m ρ c main_arg23 (by decide)).trans <|
    (keep43 m ρ c main_arg23 (by decide)).trans <|
    (keep42 m ρ c main_arg23 (by decide)).trans <|
    (keep41 m ρ c main_arg23 (by decide)).trans <|
    (keep40 m ρ c main_arg23 (by decide)).trans <|
    (keep39 m ρ c main_arg23 (by decide)).trans <|
    (keep38 m ρ c main_arg23 (by decide)).trans <|
    (keep37 m ρ c main_arg23 (by decide)).trans <|
    (keep36 m ρ c main_arg23 (by decide)).trans <|
    (keep35 m ρ c main_arg23 (by decide)).trans <|
    (keep34 m ρ c main_arg23 (by decide)).trans <|
    (keep33 m ρ c main_arg23 (by decide)).trans <|
    (keep32 m ρ c main_arg23 (by decide)).trans <|
    (keep31 m ρ c main_arg23 (by decide)).trans <|
    (keep30 m ρ c main_arg23 (by decide)).trans <|
    (keep29 m ρ c main_arg23 (by decide)).trans <|
    (keep28 m ρ c main_arg23 (by decide)).trans <|
    (keep27 m ρ c main_arg23 (by decide)).trans <|
    (keep26 m ρ c main_arg23 (by decide)).trans <|
    (keep25 m ρ c main_arg23 (by decide)).trans <|
    (keep24 m ρ c main_arg23 (by decide)).trans <|
    (keep23 m ρ c main_arg23 (by decide)).trans <|
    (keep22 m ρ c main_arg23 (by decide)).trans <|
    (keep21 m ρ c main_arg23 (by decide)).trans <|
    (keep20 m ρ c main_arg23 (by decide)).trans <|
    (keep19 m ρ c main_arg23 (by decide)).trans <|
    (keep18 m ρ c main_arg23 (by decide)).trans <|
    (keep17 m ρ c main_arg23 (by decide)).trans <|
    (keep16 m ρ c main_arg23 (by decide)).trans <|
    (keep15 m ρ c main_arg23 (by decide)).trans <|
    (keep14 m ρ c main_arg23 (by decide)).trans <|
    (keep13 m ρ c main_arg23 (by decide)).trans <|
    (keep12 m ρ c main_arg23 (by decide)).trans <|
    (keep11 m ρ c main_arg23 (by decide)).trans <|
    (keep10 m ρ c main_arg23 (by decide)).trans <|
    (keep9 m ρ c main_arg23 (by decide)).trans <|
    (keep8 m ρ c main_arg23 (by decide)).trans <|
    (keep7 m ρ c main_arg23 (by decide)).trans <|
    (keep6 m ρ c main_arg23 (by decide)).trans <|
    (keep5 m ρ c main_arg23 (by decide)).trans <|
    (keep4 m ρ c main_arg23 (by decide)).trans <|
    (keep3 m ρ c main_arg23 (by decide)).trans <|
    (keep2 m ρ c main_arg23 (by decide)).trans <|
    (keep1 m ρ c main_arg23 (by decide)).trans <|
    (keep0 m ρ c main_arg23 (by decide)).trans rfl
theorem kept_arg24 (c : Dev nD) : W55 m ρ c (Proc.devRef .tc main_arg24) = m ((c : Thread nD τ).loc main_arg24) :=
  (keep54 m ρ c main_arg24 (by decide)).trans <|
    (keep53 m ρ c main_arg24 (by decide)).trans <|
    (keep52 m ρ c main_arg24 (by decide)).trans <|
    (keep51 m ρ c main_arg24 (by decide)).trans <|
    (keep50 m ρ c main_arg24 (by decide)).trans <|
    (keep49 m ρ c main_arg24 (by decide)).trans <|
    (keep48 m ρ c main_arg24 (by decide)).trans <|
    (keep47 m ρ c main_arg24 (by decide)).trans <|
    (keep46 m ρ c main_arg24 (by decide)).trans <|
    (keep45 m ρ c main_arg24 (by decide)).trans <|
    (keep44 m ρ c main_arg24 (by decide)).trans <|
    (keep43 m ρ c main_arg24 (by decide)).trans <|
    (keep42 m ρ c main_arg24 (by decide)).trans <|
    (keep41 m ρ c main_arg24 (by decide)).trans <|
    (keep40 m ρ c main_arg24 (by decide)).trans <|
    (keep39 m ρ c main_arg24 (by decide)).trans <|
    (keep38 m ρ c main_arg24 (by decide)).trans <|
    (keep37 m ρ c main_arg24 (by decide)).trans <|
    (keep36 m ρ c main_arg24 (by decide)).trans <|
    (keep35 m ρ c main_arg24 (by decide)).trans <|
    (keep34 m ρ c main_arg24 (by decide)).trans <|
    (keep33 m ρ c main_arg24 (by decide)).trans <|
    (keep32 m ρ c main_arg24 (by decide)).trans <|
    (keep31 m ρ c main_arg24 (by decide)).trans <|
    (keep30 m ρ c main_arg24 (by decide)).trans <|
    (keep29 m ρ c main_arg24 (by decide)).trans <|
    (keep28 m ρ c main_arg24 (by decide)).trans <|
    (keep27 m ρ c main_arg24 (by decide)).trans <|
    (keep26 m ρ c main_arg24 (by decide)).trans <|
    (keep25 m ρ c main_arg24 (by decide)).trans <|
    (keep24 m ρ c main_arg24 (by decide)).trans <|
    (keep23 m ρ c main_arg24 (by decide)).trans <|
    (keep22 m ρ c main_arg24 (by decide)).trans <|
    (keep21 m ρ c main_arg24 (by decide)).trans <|
    (keep20 m ρ c main_arg24 (by decide)).trans <|
    (keep19 m ρ c main_arg24 (by decide)).trans <|
    (keep18 m ρ c main_arg24 (by decide)).trans <|
    (keep17 m ρ c main_arg24 (by decide)).trans <|
    (keep16 m ρ c main_arg24 (by decide)).trans <|
    (keep15 m ρ c main_arg24 (by decide)).trans <|
    (keep14 m ρ c main_arg24 (by decide)).trans <|
    (keep13 m ρ c main_arg24 (by decide)).trans <|
    (keep12 m ρ c main_arg24 (by decide)).trans <|
    (keep11 m ρ c main_arg24 (by decide)).trans <|
    (keep10 m ρ c main_arg24 (by decide)).trans <|
    (keep9 m ρ c main_arg24 (by decide)).trans <|
    (keep8 m ρ c main_arg24 (by decide)).trans <|
    (keep7 m ρ c main_arg24 (by decide)).trans <|
    (keep6 m ρ c main_arg24 (by decide)).trans <|
    (keep5 m ρ c main_arg24 (by decide)).trans <|
    (keep4 m ρ c main_arg24 (by decide)).trans <|
    (keep3 m ρ c main_arg24 (by decide)).trans <|
    (keep2 m ρ c main_arg24 (by decide)).trans <|
    (keep1 m ρ c main_arg24 (by decide)).trans <|
    (keep0 m ρ c main_arg24 (by decide)).trans rfl
theorem kept_arg25 (c : Dev nD) : W55 m ρ c (Proc.devRef .tc main_arg25) = m ((c : Thread nD τ).loc main_arg25) :=
  (keep54 m ρ c main_arg25 (by decide)).trans <|
    (keep53 m ρ c main_arg25 (by decide)).trans <|
    (keep52 m ρ c main_arg25 (by decide)).trans <|
    (keep51 m ρ c main_arg25 (by decide)).trans <|
    (keep50 m ρ c main_arg25 (by decide)).trans <|
    (keep49 m ρ c main_arg25 (by decide)).trans <|
    (keep48 m ρ c main_arg25 (by decide)).trans <|
    (keep47 m ρ c main_arg25 (by decide)).trans <|
    (keep46 m ρ c main_arg25 (by decide)).trans <|
    (keep45 m ρ c main_arg25 (by decide)).trans <|
    (keep44 m ρ c main_arg25 (by decide)).trans <|
    (keep43 m ρ c main_arg25 (by decide)).trans <|
    (keep42 m ρ c main_arg25 (by decide)).trans <|
    (keep41 m ρ c main_arg25 (by decide)).trans <|
    (keep40 m ρ c main_arg25 (by decide)).trans <|
    (keep39 m ρ c main_arg25 (by decide)).trans <|
    (keep38 m ρ c main_arg25 (by decide)).trans <|
    (keep37 m ρ c main_arg25 (by decide)).trans <|
    (keep36 m ρ c main_arg25 (by decide)).trans <|
    (keep35 m ρ c main_arg25 (by decide)).trans <|
    (keep34 m ρ c main_arg25 (by decide)).trans <|
    (keep33 m ρ c main_arg25 (by decide)).trans <|
    (keep32 m ρ c main_arg25 (by decide)).trans <|
    (keep31 m ρ c main_arg25 (by decide)).trans <|
    (keep30 m ρ c main_arg25 (by decide)).trans <|
    (keep29 m ρ c main_arg25 (by decide)).trans <|
    (keep28 m ρ c main_arg25 (by decide)).trans <|
    (keep27 m ρ c main_arg25 (by decide)).trans <|
    (keep26 m ρ c main_arg25 (by decide)).trans <|
    (keep25 m ρ c main_arg25 (by decide)).trans <|
    (keep24 m ρ c main_arg25 (by decide)).trans <|
    (keep23 m ρ c main_arg25 (by decide)).trans <|
    (keep22 m ρ c main_arg25 (by decide)).trans <|
    (keep21 m ρ c main_arg25 (by decide)).trans <|
    (keep20 m ρ c main_arg25 (by decide)).trans <|
    (keep19 m ρ c main_arg25 (by decide)).trans <|
    (keep18 m ρ c main_arg25 (by decide)).trans <|
    (keep17 m ρ c main_arg25 (by decide)).trans <|
    (keep16 m ρ c main_arg25 (by decide)).trans <|
    (keep15 m ρ c main_arg25 (by decide)).trans <|
    (keep14 m ρ c main_arg25 (by decide)).trans <|
    (keep13 m ρ c main_arg25 (by decide)).trans <|
    (keep12 m ρ c main_arg25 (by decide)).trans <|
    (keep11 m ρ c main_arg25 (by decide)).trans <|
    (keep10 m ρ c main_arg25 (by decide)).trans <|
    (keep9 m ρ c main_arg25 (by decide)).trans <|
    (keep8 m ρ c main_arg25 (by decide)).trans <|
    (keep7 m ρ c main_arg25 (by decide)).trans <|
    (keep6 m ρ c main_arg25 (by decide)).trans <|
    (keep5 m ρ c main_arg25 (by decide)).trans <|
    (keep4 m ρ c main_arg25 (by decide)).trans <|
    (keep3 m ρ c main_arg25 (by decide)).trans <|
    (keep2 m ρ c main_arg25 (by decide)).trans <|
    (keep1 m ρ c main_arg25 (by decide)).trans <|
    (keep0 m ρ c main_arg25 (by decide)).trans rfl
theorem kept_arg26 (c : Dev nD) : W55 m ρ c (Proc.devRef .tc main_arg26) = m ((c : Thread nD τ).loc main_arg26) :=
  (keep54 m ρ c main_arg26 (by decide)).trans <|
    (keep53 m ρ c main_arg26 (by decide)).trans <|
    (keep52 m ρ c main_arg26 (by decide)).trans <|
    (keep51 m ρ c main_arg26 (by decide)).trans <|
    (keep50 m ρ c main_arg26 (by decide)).trans <|
    (keep49 m ρ c main_arg26 (by decide)).trans <|
    (keep48 m ρ c main_arg26 (by decide)).trans <|
    (keep47 m ρ c main_arg26 (by decide)).trans <|
    (keep46 m ρ c main_arg26 (by decide)).trans <|
    (keep45 m ρ c main_arg26 (by decide)).trans <|
    (keep44 m ρ c main_arg26 (by decide)).trans <|
    (keep43 m ρ c main_arg26 (by decide)).trans <|
    (keep42 m ρ c main_arg26 (by decide)).trans <|
    (keep41 m ρ c main_arg26 (by decide)).trans <|
    (keep40 m ρ c main_arg26 (by decide)).trans <|
    (keep39 m ρ c main_arg26 (by decide)).trans <|
    (keep38 m ρ c main_arg26 (by decide)).trans <|
    (keep37 m ρ c main_arg26 (by decide)).trans <|
    (keep36 m ρ c main_arg26 (by decide)).trans <|
    (keep35 m ρ c main_arg26 (by decide)).trans <|
    (keep34 m ρ c main_arg26 (by decide)).trans <|
    (keep33 m ρ c main_arg26 (by decide)).trans <|
    (keep32 m ρ c main_arg26 (by decide)).trans <|
    (keep31 m ρ c main_arg26 (by decide)).trans <|
    (keep30 m ρ c main_arg26 (by decide)).trans <|
    (keep29 m ρ c main_arg26 (by decide)).trans <|
    (keep28 m ρ c main_arg26 (by decide)).trans <|
    (keep27 m ρ c main_arg26 (by decide)).trans <|
    (keep26 m ρ c main_arg26 (by decide)).trans <|
    (keep25 m ρ c main_arg26 (by decide)).trans <|
    (keep24 m ρ c main_arg26 (by decide)).trans <|
    (keep23 m ρ c main_arg26 (by decide)).trans <|
    (keep22 m ρ c main_arg26 (by decide)).trans <|
    (keep21 m ρ c main_arg26 (by decide)).trans <|
    (keep20 m ρ c main_arg26 (by decide)).trans <|
    (keep19 m ρ c main_arg26 (by decide)).trans <|
    (keep18 m ρ c main_arg26 (by decide)).trans <|
    (keep17 m ρ c main_arg26 (by decide)).trans <|
    (keep16 m ρ c main_arg26 (by decide)).trans <|
    (keep15 m ρ c main_arg26 (by decide)).trans <|
    (keep14 m ρ c main_arg26 (by decide)).trans <|
    (keep13 m ρ c main_arg26 (by decide)).trans <|
    (keep12 m ρ c main_arg26 (by decide)).trans <|
    (keep11 m ρ c main_arg26 (by decide)).trans <|
    (keep10 m ρ c main_arg26 (by decide)).trans <|
    (keep9 m ρ c main_arg26 (by decide)).trans <|
    (keep8 m ρ c main_arg26 (by decide)).trans <|
    (keep7 m ρ c main_arg26 (by decide)).trans <|
    (keep6 m ρ c main_arg26 (by decide)).trans <|
    (keep5 m ρ c main_arg26 (by decide)).trans <|
    (keep4 m ρ c main_arg26 (by decide)).trans <|
    (keep3 m ρ c main_arg26 (by decide)).trans <|
    (keep2 m ρ c main_arg26 (by decide)).trans <|
    (keep1 m ρ c main_arg26 (by decide)).trans <|
    (keep0 m ρ c main_arg26 (by decide)).trans rfl
theorem kept_arg27 (c : Dev nD) : W55 m ρ c (Proc.devRef .tc main_arg27) = m ((c : Thread nD τ).loc main_arg27) :=
  (keep54 m ρ c main_arg27 (by decide)).trans <|
    (keep53 m ρ c main_arg27 (by decide)).trans <|
    (keep52 m ρ c main_arg27 (by decide)).trans <|
    (keep51 m ρ c main_arg27 (by decide)).trans <|
    (keep50 m ρ c main_arg27 (by decide)).trans <|
    (keep49 m ρ c main_arg27 (by decide)).trans <|
    (keep48 m ρ c main_arg27 (by decide)).trans <|
    (keep47 m ρ c main_arg27 (by decide)).trans <|
    (keep46 m ρ c main_arg27 (by decide)).trans <|
    (keep45 m ρ c main_arg27 (by decide)).trans <|
    (keep44 m ρ c main_arg27 (by decide)).trans <|
    (keep43 m ρ c main_arg27 (by decide)).trans <|
    (keep42 m ρ c main_arg27 (by decide)).trans <|
    (keep41 m ρ c main_arg27 (by decide)).trans <|
    (keep40 m ρ c main_arg27 (by decide)).trans <|
    (keep39 m ρ c main_arg27 (by decide)).trans <|
    (keep38 m ρ c main_arg27 (by decide)).trans <|
    (keep37 m ρ c main_arg27 (by decide)).trans <|
    (keep36 m ρ c main_arg27 (by decide)).trans <|
    (keep35 m ρ c main_arg27 (by decide)).trans <|
    (keep34 m ρ c main_arg27 (by decide)).trans <|
    (keep33 m ρ c main_arg27 (by decide)).trans <|
    (keep32 m ρ c main_arg27 (by decide)).trans <|
    (keep31 m ρ c main_arg27 (by decide)).trans <|
    (keep30 m ρ c main_arg27 (by decide)).trans <|
    (keep29 m ρ c main_arg27 (by decide)).trans <|
    (keep28 m ρ c main_arg27 (by decide)).trans <|
    (keep27 m ρ c main_arg27 (by decide)).trans <|
    (keep26 m ρ c main_arg27 (by decide)).trans <|
    (keep25 m ρ c main_arg27 (by decide)).trans <|
    (keep24 m ρ c main_arg27 (by decide)).trans <|
    (keep23 m ρ c main_arg27 (by decide)).trans <|
    (keep22 m ρ c main_arg27 (by decide)).trans <|
    (keep21 m ρ c main_arg27 (by decide)).trans <|
    (keep20 m ρ c main_arg27 (by decide)).trans <|
    (keep19 m ρ c main_arg27 (by decide)).trans <|
    (keep18 m ρ c main_arg27 (by decide)).trans <|
    (keep17 m ρ c main_arg27 (by decide)).trans <|
    (keep16 m ρ c main_arg27 (by decide)).trans <|
    (keep15 m ρ c main_arg27 (by decide)).trans <|
    (keep14 m ρ c main_arg27 (by decide)).trans <|
    (keep13 m ρ c main_arg27 (by decide)).trans <|
    (keep12 m ρ c main_arg27 (by decide)).trans <|
    (keep11 m ρ c main_arg27 (by decide)).trans <|
    (keep10 m ρ c main_arg27 (by decide)).trans <|
    (keep9 m ρ c main_arg27 (by decide)).trans <|
    (keep8 m ρ c main_arg27 (by decide)).trans <|
    (keep7 m ρ c main_arg27 (by decide)).trans <|
    (keep6 m ρ c main_arg27 (by decide)).trans <|
    (keep5 m ρ c main_arg27 (by decide)).trans <|
    (keep4 m ρ c main_arg27 (by decide)).trans <|
    (keep3 m ρ c main_arg27 (by decide)).trans <|
    (keep2 m ρ c main_arg27 (by decide)).trans <|
    (keep1 m ρ c main_arg27 (by decide)).trans <|
    (keep0 m ρ c main_arg27 (by decide)).trans rfl
theorem kept_arg28 (c : Dev nD) : W55 m ρ c (Proc.devRef .tc main_arg28) = m ((c : Thread nD τ).loc main_arg28) :=
  (keep54 m ρ c main_arg28 (by decide)).trans <|
    (keep53 m ρ c main_arg28 (by decide)).trans <|
    (keep52 m ρ c main_arg28 (by decide)).trans <|
    (keep51 m ρ c main_arg28 (by decide)).trans <|
    (keep50 m ρ c main_arg28 (by decide)).trans <|
    (keep49 m ρ c main_arg28 (by decide)).trans <|
    (keep48 m ρ c main_arg28 (by decide)).trans <|
    (keep47 m ρ c main_arg28 (by decide)).trans <|
    (keep46 m ρ c main_arg28 (by decide)).trans <|
    (keep45 m ρ c main_arg28 (by decide)).trans <|
    (keep44 m ρ c main_arg28 (by decide)).trans <|
    (keep43 m ρ c main_arg28 (by decide)).trans <|
    (keep42 m ρ c main_arg28 (by decide)).trans <|
    (keep41 m ρ c main_arg28 (by decide)).trans <|
    (keep40 m ρ c main_arg28 (by decide)).trans <|
    (keep39 m ρ c main_arg28 (by decide)).trans <|
    (keep38 m ρ c main_arg28 (by decide)).trans <|
    (keep37 m ρ c main_arg28 (by decide)).trans <|
    (keep36 m ρ c main_arg28 (by decide)).trans <|
    (keep35 m ρ c main_arg28 (by decide)).trans <|
    (keep34 m ρ c main_arg28 (by decide)).trans <|
    (keep33 m ρ c main_arg28 (by decide)).trans <|
    (keep32 m ρ c main_arg28 (by decide)).trans <|
    (keep31 m ρ c main_arg28 (by decide)).trans <|
    (keep30 m ρ c main_arg28 (by decide)).trans <|
    (keep29 m ρ c main_arg28 (by decide)).trans <|
    (keep28 m ρ c main_arg28 (by decide)).trans <|
    (keep27 m ρ c main_arg28 (by decide)).trans <|
    (keep26 m ρ c main_arg28 (by decide)).trans <|
    (keep25 m ρ c main_arg28 (by decide)).trans <|
    (keep24 m ρ c main_arg28 (by decide)).trans <|
    (keep23 m ρ c main_arg28 (by decide)).trans <|
    (keep22 m ρ c main_arg28 (by decide)).trans <|
    (keep21 m ρ c main_arg28 (by decide)).trans <|
    (keep20 m ρ c main_arg28 (by decide)).trans <|
    (keep19 m ρ c main_arg28 (by decide)).trans <|
    (keep18 m ρ c main_arg28 (by decide)).trans <|
    (keep17 m ρ c main_arg28 (by decide)).trans <|
    (keep16 m ρ c main_arg28 (by decide)).trans <|
    (keep15 m ρ c main_arg28 (by decide)).trans <|
    (keep14 m ρ c main_arg28 (by decide)).trans <|
    (keep13 m ρ c main_arg28 (by decide)).trans <|
    (keep12 m ρ c main_arg28 (by decide)).trans <|
    (keep11 m ρ c main_arg28 (by decide)).trans <|
    (keep10 m ρ c main_arg28 (by decide)).trans <|
    (keep9 m ρ c main_arg28 (by decide)).trans <|
    (keep8 m ρ c main_arg28 (by decide)).trans <|
    (keep7 m ρ c main_arg28 (by decide)).trans <|
    (keep6 m ρ c main_arg28 (by decide)).trans <|
    (keep5 m ρ c main_arg28 (by decide)).trans <|
    (keep4 m ρ c main_arg28 (by decide)).trans <|
    (keep3 m ρ c main_arg28 (by decide)).trans <|
    (keep2 m ρ c main_arg28 (by decide)).trans <|
    (keep1 m ρ c main_arg28 (by decide)).trans <|
    (keep0 m ρ c main_arg28 (by decide)).trans rfl
theorem kept_arg29 (c : Dev nD) : W55 m ρ c (Proc.devRef .tc main_arg29) = m ((c : Thread nD τ).loc main_arg29) :=
  (keep54 m ρ c main_arg29 (by decide)).trans <|
    (keep53 m ρ c main_arg29 (by decide)).trans <|
    (keep52 m ρ c main_arg29 (by decide)).trans <|
    (keep51 m ρ c main_arg29 (by decide)).trans <|
    (keep50 m ρ c main_arg29 (by decide)).trans <|
    (keep49 m ρ c main_arg29 (by decide)).trans <|
    (keep48 m ρ c main_arg29 (by decide)).trans <|
    (keep47 m ρ c main_arg29 (by decide)).trans <|
    (keep46 m ρ c main_arg29 (by decide)).trans <|
    (keep45 m ρ c main_arg29 (by decide)).trans <|
    (keep44 m ρ c main_arg29 (by decide)).trans <|
    (keep43 m ρ c main_arg29 (by decide)).trans <|
    (keep42 m ρ c main_arg29 (by decide)).trans <|
    (keep41 m ρ c main_arg29 (by decide)).trans <|
    (keep40 m ρ c main_arg29 (by decide)).trans <|
    (keep39 m ρ c main_arg29 (by decide)).trans <|
    (keep38 m ρ c main_arg29 (by decide)).trans <|
    (keep37 m ρ c main_arg29 (by decide)).trans <|
    (keep36 m ρ c main_arg29 (by decide)).trans <|
    (keep35 m ρ c main_arg29 (by decide)).trans <|
    (keep34 m ρ c main_arg29 (by decide)).trans <|
    (keep33 m ρ c main_arg29 (by decide)).trans <|
    (keep32 m ρ c main_arg29 (by decide)).trans <|
    (keep31 m ρ c main_arg29 (by decide)).trans <|
    (keep30 m ρ c main_arg29 (by decide)).trans <|
    (keep29 m ρ c main_arg29 (by decide)).trans <|
    (keep28 m ρ c main_arg29 (by decide)).trans <|
    (keep27 m ρ c main_arg29 (by decide)).trans <|
    (keep26 m ρ c main_arg29 (by decide)).trans <|
    (keep25 m ρ c main_arg29 (by decide)).trans <|
    (keep24 m ρ c main_arg29 (by decide)).trans <|
    (keep23 m ρ c main_arg29 (by decide)).trans <|
    (keep22 m ρ c main_arg29 (by decide)).trans <|
    (keep21 m ρ c main_arg29 (by decide)).trans <|
    (keep20 m ρ c main_arg29 (by decide)).trans <|
    (keep19 m ρ c main_arg29 (by decide)).trans <|
    (keep18 m ρ c main_arg29 (by decide)).trans <|
    (keep17 m ρ c main_arg29 (by decide)).trans <|
    (keep16 m ρ c main_arg29 (by decide)).trans <|
    (keep15 m ρ c main_arg29 (by decide)).trans <|
    (keep14 m ρ c main_arg29 (by decide)).trans <|
    (keep13 m ρ c main_arg29 (by decide)).trans <|
    (keep12 m ρ c main_arg29 (by decide)).trans <|
    (keep11 m ρ c main_arg29 (by decide)).trans <|
    (keep10 m ρ c main_arg29 (by decide)).trans <|
    (keep9 m ρ c main_arg29 (by decide)).trans <|
    (keep8 m ρ c main_arg29 (by decide)).trans <|
    (keep7 m ρ c main_arg29 (by decide)).trans <|
    (keep6 m ρ c main_arg29 (by decide)).trans <|
    (keep5 m ρ c main_arg29 (by decide)).trans <|
    (keep4 m ρ c main_arg29 (by decide)).trans <|
    (keep3 m ρ c main_arg29 (by decide)).trans <|
    (keep2 m ρ c main_arg29 (by decide)).trans <|
    (keep1 m ρ c main_arg29 (by decide)).trans <|
    (keep0 m ρ c main_arg29 (by decide)).trans rfl
theorem kept_arg30 (c : Dev nD) : W55 m ρ c (Proc.devRef .tc main_arg30) = m ((c : Thread nD τ).loc main_arg30) :=
  (keep54 m ρ c main_arg30 (by decide)).trans <|
    (keep53 m ρ c main_arg30 (by decide)).trans <|
    (keep52 m ρ c main_arg30 (by decide)).trans <|
    (keep51 m ρ c main_arg30 (by decide)).trans <|
    (keep50 m ρ c main_arg30 (by decide)).trans <|
    (keep49 m ρ c main_arg30 (by decide)).trans <|
    (keep48 m ρ c main_arg30 (by decide)).trans <|
    (keep47 m ρ c main_arg30 (by decide)).trans <|
    (keep46 m ρ c main_arg30 (by decide)).trans <|
    (keep45 m ρ c main_arg30 (by decide)).trans <|
    (keep44 m ρ c main_arg30 (by decide)).trans <|
    (keep43 m ρ c main_arg30 (by decide)).trans <|
    (keep42 m ρ c main_arg30 (by decide)).trans <|
    (keep41 m ρ c main_arg30 (by decide)).trans <|
    (keep40 m ρ c main_arg30 (by decide)).trans <|
    (keep39 m ρ c main_arg30 (by decide)).trans <|
    (keep38 m ρ c main_arg30 (by decide)).trans <|
    (keep37 m ρ c main_arg30 (by decide)).trans <|
    (keep36 m ρ c main_arg30 (by decide)).trans <|
    (keep35 m ρ c main_arg30 (by decide)).trans <|
    (keep34 m ρ c main_arg30 (by decide)).trans <|
    (keep33 m ρ c main_arg30 (by decide)).trans <|
    (keep32 m ρ c main_arg30 (by decide)).trans <|
    (keep31 m ρ c main_arg30 (by decide)).trans <|
    (keep30 m ρ c main_arg30 (by decide)).trans <|
    (keep29 m ρ c main_arg30 (by decide)).trans <|
    (keep28 m ρ c main_arg30 (by decide)).trans <|
    (keep27 m ρ c main_arg30 (by decide)).trans <|
    (keep26 m ρ c main_arg30 (by decide)).trans <|
    (keep25 m ρ c main_arg30 (by decide)).trans <|
    (keep24 m ρ c main_arg30 (by decide)).trans <|
    (keep23 m ρ c main_arg30 (by decide)).trans <|
    (keep22 m ρ c main_arg30 (by decide)).trans <|
    (keep21 m ρ c main_arg30 (by decide)).trans <|
    (keep20 m ρ c main_arg30 (by decide)).trans <|
    (keep19 m ρ c main_arg30 (by decide)).trans <|
    (keep18 m ρ c main_arg30 (by decide)).trans <|
    (keep17 m ρ c main_arg30 (by decide)).trans <|
    (keep16 m ρ c main_arg30 (by decide)).trans <|
    (keep15 m ρ c main_arg30 (by decide)).trans <|
    (keep14 m ρ c main_arg30 (by decide)).trans <|
    (keep13 m ρ c main_arg30 (by decide)).trans <|
    (keep12 m ρ c main_arg30 (by decide)).trans <|
    (keep11 m ρ c main_arg30 (by decide)).trans <|
    (keep10 m ρ c main_arg30 (by decide)).trans <|
    (keep9 m ρ c main_arg30 (by decide)).trans <|
    (keep8 m ρ c main_arg30 (by decide)).trans <|
    (keep7 m ρ c main_arg30 (by decide)).trans <|
    (keep6 m ρ c main_arg30 (by decide)).trans <|
    (keep5 m ρ c main_arg30 (by decide)).trans <|
    (keep4 m ρ c main_arg30 (by decide)).trans <|
    (keep3 m ρ c main_arg30 (by decide)).trans <|
    (keep2 m ρ c main_arg30 (by decide)).trans <|
    (keep1 m ρ c main_arg30 (by decide)).trans <|
    (keep0 m ρ c main_arg30 (by decide)).trans rfl
theorem kept_arg31 (c : Dev nD) : W55 m ρ c (Proc.devRef .tc main_arg31) = m ((c : Thread nD τ).loc main_arg31) :=
  (keep54 m ρ c main_arg31 (by decide)).trans <|
    (keep53 m ρ c main_arg31 (by decide)).trans <|
    (keep52 m ρ c main_arg31 (by decide)).trans <|
    (keep51 m ρ c main_arg31 (by decide)).trans <|
    (keep50 m ρ c main_arg31 (by decide)).trans <|
    (keep49 m ρ c main_arg31 (by decide)).trans <|
    (keep48 m ρ c main_arg31 (by decide)).trans <|
    (keep47 m ρ c main_arg31 (by decide)).trans <|
    (keep46 m ρ c main_arg31 (by decide)).trans <|
    (keep45 m ρ c main_arg31 (by decide)).trans <|
    (keep44 m ρ c main_arg31 (by decide)).trans <|
    (keep43 m ρ c main_arg31 (by decide)).trans <|
    (keep42 m ρ c main_arg31 (by decide)).trans <|
    (keep41 m ρ c main_arg31 (by decide)).trans <|
    (keep40 m ρ c main_arg31 (by decide)).trans <|
    (keep39 m ρ c main_arg31 (by decide)).trans <|
    (keep38 m ρ c main_arg31 (by decide)).trans <|
    (keep37 m ρ c main_arg31 (by decide)).trans <|
    (keep36 m ρ c main_arg31 (by decide)).trans <|
    (keep35 m ρ c main_arg31 (by decide)).trans <|
    (keep34 m ρ c main_arg31 (by decide)).trans <|
    (keep33 m ρ c main_arg31 (by decide)).trans <|
    (keep32 m ρ c main_arg31 (by decide)).trans <|
    (keep31 m ρ c main_arg31 (by decide)).trans <|
    (keep30 m ρ c main_arg31 (by decide)).trans <|
    (keep29 m ρ c main_arg31 (by decide)).trans <|
    (keep28 m ρ c main_arg31 (by decide)).trans <|
    (keep27 m ρ c main_arg31 (by decide)).trans <|
    (keep26 m ρ c main_arg31 (by decide)).trans <|
    (keep25 m ρ c main_arg31 (by decide)).trans <|
    (keep24 m ρ c main_arg31 (by decide)).trans <|
    (keep23 m ρ c main_arg31 (by decide)).trans <|
    (keep22 m ρ c main_arg31 (by decide)).trans <|
    (keep21 m ρ c main_arg31 (by decide)).trans <|
    (keep20 m ρ c main_arg31 (by decide)).trans <|
    (keep19 m ρ c main_arg31 (by decide)).trans <|
    (keep18 m ρ c main_arg31 (by decide)).trans <|
    (keep17 m ρ c main_arg31 (by decide)).trans <|
    (keep16 m ρ c main_arg31 (by decide)).trans <|
    (keep15 m ρ c main_arg31 (by decide)).trans <|
    (keep14 m ρ c main_arg31 (by decide)).trans <|
    (keep13 m ρ c main_arg31 (by decide)).trans <|
    (keep12 m ρ c main_arg31 (by decide)).trans <|
    (keep11 m ρ c main_arg31 (by decide)).trans <|
    (keep10 m ρ c main_arg31 (by decide)).trans <|
    (keep9 m ρ c main_arg31 (by decide)).trans <|
    (keep8 m ρ c main_arg31 (by decide)).trans <|
    (keep7 m ρ c main_arg31 (by decide)).trans <|
    (keep6 m ρ c main_arg31 (by decide)).trans <|
    (keep5 m ρ c main_arg31 (by decide)).trans <|
    (keep4 m ρ c main_arg31 (by decide)).trans <|
    (keep3 m ρ c main_arg31 (by decide)).trans <|
    (keep2 m ρ c main_arg31 (by decide)).trans <|
    (keep1 m ρ c main_arg31 (by decide)).trans <|
    (keep0 m ρ c main_arg31 (by decide)).trans rfl
theorem kept_arg32 (c : Dev nD) : W55 m ρ c (Proc.devRef .tc main_arg32) = m ((c : Thread nD τ).loc main_arg32) :=
  (keep54 m ρ c main_arg32 (by decide)).trans <|
    (keep53 m ρ c main_arg32 (by decide)).trans <|
    (keep52 m ρ c main_arg32 (by decide)).trans <|
    (keep51 m ρ c main_arg32 (by decide)).trans <|
    (keep50 m ρ c main_arg32 (by decide)).trans <|
    (keep49 m ρ c main_arg32 (by decide)).trans <|
    (keep48 m ρ c main_arg32 (by decide)).trans <|
    (keep47 m ρ c main_arg32 (by decide)).trans <|
    (keep46 m ρ c main_arg32 (by decide)).trans <|
    (keep45 m ρ c main_arg32 (by decide)).trans <|
    (keep44 m ρ c main_arg32 (by decide)).trans <|
    (keep43 m ρ c main_arg32 (by decide)).trans <|
    (keep42 m ρ c main_arg32 (by decide)).trans <|
    (keep41 m ρ c main_arg32 (by decide)).trans <|
    (keep40 m ρ c main_arg32 (by decide)).trans <|
    (keep39 m ρ c main_arg32 (by decide)).trans <|
    (keep38 m ρ c main_arg32 (by decide)).trans <|
    (keep37 m ρ c main_arg32 (by decide)).trans <|
    (keep36 m ρ c main_arg32 (by decide)).trans <|
    (keep35 m ρ c main_arg32 (by decide)).trans <|
    (keep34 m ρ c main_arg32 (by decide)).trans <|
    (keep33 m ρ c main_arg32 (by decide)).trans <|
    (keep32 m ρ c main_arg32 (by decide)).trans <|
    (keep31 m ρ c main_arg32 (by decide)).trans <|
    (keep30 m ρ c main_arg32 (by decide)).trans <|
    (keep29 m ρ c main_arg32 (by decide)).trans <|
    (keep28 m ρ c main_arg32 (by decide)).trans <|
    (keep27 m ρ c main_arg32 (by decide)).trans <|
    (keep26 m ρ c main_arg32 (by decide)).trans <|
    (keep25 m ρ c main_arg32 (by decide)).trans <|
    (keep24 m ρ c main_arg32 (by decide)).trans <|
    (keep23 m ρ c main_arg32 (by decide)).trans <|
    (keep22 m ρ c main_arg32 (by decide)).trans <|
    (keep21 m ρ c main_arg32 (by decide)).trans <|
    (keep20 m ρ c main_arg32 (by decide)).trans <|
    (keep19 m ρ c main_arg32 (by decide)).trans <|
    (keep18 m ρ c main_arg32 (by decide)).trans <|
    (keep17 m ρ c main_arg32 (by decide)).trans <|
    (keep16 m ρ c main_arg32 (by decide)).trans <|
    (keep15 m ρ c main_arg32 (by decide)).trans <|
    (keep14 m ρ c main_arg32 (by decide)).trans <|
    (keep13 m ρ c main_arg32 (by decide)).trans <|
    (keep12 m ρ c main_arg32 (by decide)).trans <|
    (keep11 m ρ c main_arg32 (by decide)).trans <|
    (keep10 m ρ c main_arg32 (by decide)).trans <|
    (keep9 m ρ c main_arg32 (by decide)).trans <|
    (keep8 m ρ c main_arg32 (by decide)).trans <|
    (keep7 m ρ c main_arg32 (by decide)).trans <|
    (keep6 m ρ c main_arg32 (by decide)).trans <|
    (keep5 m ρ c main_arg32 (by decide)).trans <|
    (keep4 m ρ c main_arg32 (by decide)).trans <|
    (keep3 m ρ c main_arg32 (by decide)).trans <|
    (keep2 m ρ c main_arg32 (by decide)).trans <|
    (keep1 m ρ c main_arg32 (by decide)).trans <|
    (keep0 m ρ c main_arg32 (by decide)).trans rfl
theorem kept_arg33 (c : Dev nD) : W55 m ρ c (Proc.devRef .tc main_arg33) = m ((c : Thread nD τ).loc main_arg33) :=
  (keep54 m ρ c main_arg33 (by decide)).trans <|
    (keep53 m ρ c main_arg33 (by decide)).trans <|
    (keep52 m ρ c main_arg33 (by decide)).trans <|
    (keep51 m ρ c main_arg33 (by decide)).trans <|
    (keep50 m ρ c main_arg33 (by decide)).trans <|
    (keep49 m ρ c main_arg33 (by decide)).trans <|
    (keep48 m ρ c main_arg33 (by decide)).trans <|
    (keep47 m ρ c main_arg33 (by decide)).trans <|
    (keep46 m ρ c main_arg33 (by decide)).trans <|
    (keep45 m ρ c main_arg33 (by decide)).trans <|
    (keep44 m ρ c main_arg33 (by decide)).trans <|
    (keep43 m ρ c main_arg33 (by decide)).trans <|
    (keep42 m ρ c main_arg33 (by decide)).trans <|
    (keep41 m ρ c main_arg33 (by decide)).trans <|
    (keep40 m ρ c main_arg33 (by decide)).trans <|
    (keep39 m ρ c main_arg33 (by decide)).trans <|
    (keep38 m ρ c main_arg33 (by decide)).trans <|
    (keep37 m ρ c main_arg33 (by decide)).trans <|
    (keep36 m ρ c main_arg33 (by decide)).trans <|
    (keep35 m ρ c main_arg33 (by decide)).trans <|
    (keep34 m ρ c main_arg33 (by decide)).trans <|
    (keep33 m ρ c main_arg33 (by decide)).trans <|
    (keep32 m ρ c main_arg33 (by decide)).trans <|
    (keep31 m ρ c main_arg33 (by decide)).trans <|
    (keep30 m ρ c main_arg33 (by decide)).trans <|
    (keep29 m ρ c main_arg33 (by decide)).trans <|
    (keep28 m ρ c main_arg33 (by decide)).trans <|
    (keep27 m ρ c main_arg33 (by decide)).trans <|
    (keep26 m ρ c main_arg33 (by decide)).trans <|
    (keep25 m ρ c main_arg33 (by decide)).trans <|
    (keep24 m ρ c main_arg33 (by decide)).trans <|
    (keep23 m ρ c main_arg33 (by decide)).trans <|
    (keep22 m ρ c main_arg33 (by decide)).trans <|
    (keep21 m ρ c main_arg33 (by decide)).trans <|
    (keep20 m ρ c main_arg33 (by decide)).trans <|
    (keep19 m ρ c main_arg33 (by decide)).trans <|
    (keep18 m ρ c main_arg33 (by decide)).trans <|
    (keep17 m ρ c main_arg33 (by decide)).trans <|
    (keep16 m ρ c main_arg33 (by decide)).trans <|
    (keep15 m ρ c main_arg33 (by decide)).trans <|
    (keep14 m ρ c main_arg33 (by decide)).trans <|
    (keep13 m ρ c main_arg33 (by decide)).trans <|
    (keep12 m ρ c main_arg33 (by decide)).trans <|
    (keep11 m ρ c main_arg33 (by decide)).trans <|
    (keep10 m ρ c main_arg33 (by decide)).trans <|
    (keep9 m ρ c main_arg33 (by decide)).trans <|
    (keep8 m ρ c main_arg33 (by decide)).trans <|
    (keep7 m ρ c main_arg33 (by decide)).trans <|
    (keep6 m ρ c main_arg33 (by decide)).trans <|
    (keep5 m ρ c main_arg33 (by decide)).trans <|
    (keep4 m ρ c main_arg33 (by decide)).trans <|
    (keep3 m ρ c main_arg33 (by decide)).trans <|
    (keep2 m ρ c main_arg33 (by decide)).trans <|
    (keep1 m ρ c main_arg33 (by decide)).trans <|
    (keep0 m ρ c main_arg33 (by decide)).trans rfl
end Cert.KernelIdeal.Hand

end
-- ==== Proof.Ref.Ops0.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 0 of @main as a list of 80 operations, in order: its own statements as printed, and at each call of an
    outlined function that function's operations over the call's operands and the call's own buffers. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),  -- %0 = stablehlo.slice %arg1 [0:1, 0:600000] : (tensor<2x600000xi32>) -> tensor<1x600000xi32>  @ reference:39
    StableHlo.reshape main_v0 main_v1 rfl shapeCasts_S1x600000_S600000,  -- %1 = stablehlo.reshape %0 : (tensor<1x600000xi32>) -> tensor<600000xi32>  @ reference:39
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),  -- %2 = stablehlo.slice %arg1 [1:2, 0:600000] : (tensor<2x600000xi32>) -> tensor<1x600000xi32>  @ reference:39
    StableHlo.reshape main_v2 main_v3 rfl shapeCasts_S1x600000_S600000,  -- %3 = stablehlo.reshape %2 : (tensor<1x600000xi32>) -> tensor<600000xi32>  @ reference:39
    StableHlo.nullary main_c (constantI S_ 32 40#32),  -- %c = stablehlo.constant dense<40> : tensor<i32>
    StableHlo.unary main_c main_v4 (broadcastInDim S100000 ![] bcast_S_S100000 : (⟨S_, .i32⟩ : BufTy).Contents (Elt F) → (⟨S100000, .i32⟩ : BufTy).Contents (Elt F)),  -- %4 = stablehlo.broadcast_in_dim %c, dims = [] : (tensor<i32>) -> tensor<100000xi32>  @ reference:41
    StableHlo.binary main_arg2 main_v4 main_v5 (muli : (⟨S100000, .i32⟩ : BufTy).Contents (Elt F) → (⟨S100000, .i32⟩ : BufTy).Contents (Elt F) → (⟨S100000, .i32⟩ : BufTy).Contents (Elt F)),  -- %5 = stablehlo.multiply %arg2, %4 : tensor<100000xi32>  @ reference:41
    StableHlo.binary main_arg3 main_v5 main_v6 (addi : (⟨S100000, .i32⟩ : BufTy).Contents (Elt F) → (⟨S100000, .i32⟩ : BufTy).Contents (Elt F) → (⟨S100000, .i32⟩ : BufTy).Contents (Elt F)),  -- %6 = stablehlo.add %arg3, %5 : tensor<100000xi32>  @ reference:41
    StableHlo.nullary main_v7 (iotaInDim S2000 32 0),  -- %7 = stablehlo.iota dim = 0 : tensor<2000xi32>  @ reference:42
    StableHlo.nullary main_c_0 (constantI S_ 32 40#32),  -- %c_0 = stablehlo.constant dense<40> : tensor<i32>
    StableHlo.TRef.unary (.of main_c_0 : StableHlo.TRef sig ⟨S_, .i32⟩) main_call0.v0 id,  -- in %8 = func.call @floor_divide(%7, %c_0) : (tensor<2000xi32>, tensor<i32>) -> tensor<2000xi32>  @ reference:42
    StableHlo.TRef.unary main_call0.v0 main_call0.v1 (broadcastInDim S2000 ![] bcast_S_S2000),  -- in %8 = func.call @floor_divide(%7, %c_0) : (tensor<2000xi32>, tensor<i32>) -> tensor<2000xi32>  @ reference:42
    StableHlo.TRef.binary (.of main_v7 : StableHlo.TRef sig ⟨S2000, .i32⟩) main_call0.v1 main_call0.v2 Host.divsi,  -- in %8 = func.call @floor_divide(%7, %c_0) : (tensor<2000xi32>, tensor<i32>) -> tensor<2000xi32>  @ reference:42
    StableHlo.TRef.unary (.of main_v7 : StableHlo.TRef sig ⟨S2000, .i32⟩) main_call0.v3 signi,  -- in %8 = func.call @floor_divide(%7, %c_0) : (tensor<2000xi32>, tensor<i32>) -> tensor<2000xi32>  @ reference:42
    StableHlo.TRef.unary main_call0.v0 main_call0.v4 signi,  -- in %8 = func.call @floor_divide(%7, %c_0) : (tensor<2000xi32>, tensor<i32>) -> tensor<2000xi32>  @ reference:42
    StableHlo.TRef.unary main_call0.v4 main_call0.v5 (broadcastInDim S2000 ![] bcast_S_S2000),  -- in %8 = func.call @floor_divide(%7, %c_0) : (tensor<2000xi32>, tensor<i32>) -> tensor<2000xi32>  @ reference:42
    StableHlo.TRef.binary main_call0.v3 main_call0.v5 main_call0.v6 (cmpi .ne),  -- in %8 = func.call @floor_divide(%7, %c_0) : (tensor<2000xi32>, tensor<i32>) -> tensor<2000xi32>  @ reference:42
    StableHlo.TRef.unary main_call0.v0 main_call0.v7 (broadcastInDim S2000 ![] bcast_S_S2000),  -- in %8 = func.call @floor_divide(%7, %c_0) : (tensor<2000xi32>, tensor<i32>) -> tensor<2000xi32>  @ reference:42
    StableHlo.TRef.binary (.of main_v7 : StableHlo.TRef sig ⟨S2000, .i32⟩) main_call0.v7 main_call0.v8 Host.remsi,  -- in %8 = func.call @floor_divide(%7, %c_0) : (tensor<2000xi32>, tensor<i32>) -> tensor<2000xi32>  @ reference:42
    StableHlo.TRef.nullary main_call0.c (constantI S_ 32 0#32),  -- in %8 = func.call @floor_divide(%7, %c_0) : (tensor<2000xi32>, tensor<i32>) -> tensor<2000xi32>  @ reference:42
    StableHlo.TRef.unary main_call0.c main_call0.v9 (broadcastInDim S2000 ![] bcast_S_S2000),  -- in %8 = func.call @floor_divide(%7, %c_0) : (tensor<2000xi32>, tensor<i32>) -> tensor<2000xi32>  @ reference:42
    StableHlo.TRef.binary main_call0.v8 main_call0.v9 main_call0.v10 (cmpi .ne),  -- in %8 = func.call @floor_divide(%7, %c_0) : (tensor<2000xi32>, tensor<i32>) -> tensor<2000xi32>  @ reference:42
    StableHlo.TRef.binary main_call0.v6 main_call0.v10 main_call0.v11 andi,  -- in %8 = func.call @floor_divide(%7, %c_0) : (tensor<2000xi32>, tensor<i32>) -> tensor<2000xi32>  @ reference:42
    StableHlo.TRef.nullary main_call0.c_0 (constantI S_ 32 1#32),  -- in %8 = func.call @floor_divide(%7, %c_0) : (tensor<2000xi32>, tensor<i32>) -> tensor<2000xi32>  @ reference:42
    StableHlo.TRef.unary main_call0.c_0 main_call0.v12 (broadcastInDim S2000 ![] bcast_S_S2000),  -- in %8 = func.call @floor_divide(%7, %c_0) : (tensor<2000xi32>, tensor<i32>) -> tensor<2000xi32>  @ reference:42
    StableHlo.TRef.binary main_call0.v2 main_call0.v12 main_call0.v13 subi,  -- in %8 = func.call @floor_divide(%7, %c_0) : (tensor<2000xi32>, tensor<i32>) -> tensor<2000xi32>  @ reference:42
    StableHlo.TRef.ternary main_call0.v11 main_call0.v13 main_call0.v2 main_call0.call0.v0 select,  -- in %8 = func.call @floor_divide(%7, %c_0) : (tensor<2000xi32>, tensor<i32>) -> tensor<2000xi32>  @ reference:42
    StableHlo.binary main_arg0 main_arg4 main_v9 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),  -- %9 = stablehlo.dot_general %arg0, %arg4, contracting_dims = [1] x [0], precision = [DEFAULT, DEFAULT] : (tensor<100000x64xf32>, tensor<64x128xf32>) -> tensor<100000x128xf32>  @ reference:43
    StableHlo.unary main_arg5 main_v10 (broadcastInDim S1x128 ![1] bcast_S128_S1x128_1 : (⟨S128, .f32⟩ : BufTy).Contents (Elt F) → (⟨S1x128, .f32⟩ : BufTy).Contents (Elt F)),  -- %10 = stablehlo.broadcast_in_dim %arg5, dims = [1] : (tensor<128xf32>) -> tensor<1x128xf32>  @ reference:43
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),  -- %11 = stablehlo.broadcast_in_dim %10, dims = [0, 1] : (tensor<1x128xf32>) -> tensor<100000x128xf32>  @ reference:43
    StableHlo.binary main_v9 main_v11 main_v12 (addf : (⟨S100000x128, .f32⟩ : BufTy).Contents (Elt F) → (⟨S100000x128, .f32⟩ : BufTy).Contents (Elt F) → (⟨S100000x128, .f32⟩ : BufTy).Contents (Elt F)),  -- %12 = stablehlo.add %9, %11 : tensor<100000x128xf32>  @ reference:43
    StableHlo.TRef.nullary main_call1.cst (constant S_ .f32 0x00000000#32),  -- in %13 = func.call @relu(%12) : (tensor<100000x128xf32>) -> tensor<100000x128xf32>  @ reference:43
    StableHlo.TRef.unary main_call1.cst main_call1.v0 (broadcastInDim S100000x128 ![] bcast_S_S100000x128),  -- in %13 = func.call @relu(%12) : (tensor<100000x128xf32>) -> tensor<100000x128xf32>  @ reference:43
    StableHlo.TRef.binary (.of main_v12 : StableHlo.TRef sig ⟨S100000x128, .f32⟩) main_call1.v0 main_call1.v1 maximumf,  -- in %13 = func.call @relu(%12) : (tensor<100000x128xf32>) -> tensor<100000x128xf32>  @ reference:43
    StableHlo.nullary main_cst (constant S_ .f32 0x00000000#32),  -- %cst = stablehlo.constant dense<0.000000e+00> : tensor<f32>
    StableHlo.unary main_cst main_v14 (broadcastInDim S2000x128 ![] bcast_S_S2000x128 : (⟨S_, .f32⟩ : BufTy).Contents (Elt F) → (⟨S2000x128, .f32⟩ : BufTy).Contents (Elt F)),  -- %14 = stablehlo.broadcast_in_dim %cst, dims = [] : (tensor<f32>) -> tensor<2000x128xf32>  @ reference:44
    StableHlo.nullary main_cst_1 (constant S_ .f32 0x00000000#32),  -- %cst_1 = stablehlo.constant dense<0.000000e+00> : tensor<f32>
    StableHlo.unary main_cst_1 main_v15 (broadcastInDim S50x128 ![] bcast_S_S50x128 : (⟨S_, .f32⟩ : BufTy).Contents (Elt F) → (⟨S50x128, .f32⟩ : BufTy).Contents (Elt F)),  -- %15 = stablehlo.broadcast_in_dim %cst_1, dims = [] : (tensor<f32>) -> tensor<50x128xf32>  @ reference:45
    StableHlo.nullary main_c_2 (constantI S_ 32 0#32),  -- %c_2 = stablehlo.constant dense<0> : tensor<i32>
    StableHlo.unary main_c_2 main_v16 (broadcastInDim S600000 ![] bcast_S_S600000 : (⟨S_, .i32⟩ : BufTy).Contents (Elt F) → (⟨S600000, .i32⟩ : BufTy).Contents (Elt F)),  -- %16 = stablehlo.broadcast_in_dim %c_2, dims = [] : (tensor<i32>) -> tensor<600000xi32>  @ reference:23
    StableHlo.binary main_v1 main_v16 main_v17 (cmpi .slt : (⟨S600000, .i32⟩ : BufTy).Contents (Elt F) → (⟨S600000, .i32⟩ : BufTy).Contents (Elt F) → (⟨S600000, .i1⟩ : BufTy).Contents (Elt F)),  -- %17 = stablehlo.compare LT, %1, %16, SIGNED : (tensor<600000xi32>, tensor<600000xi32>) -> tensor<600000xi1>  @ reference:23
    StableHlo.nullary main_c_3 (constantI S_ 32 100000#32),  -- %c_3 = stablehlo.constant dense<100000> : tensor<i32>
    StableHlo.unary main_c_3 main_v18 (broadcastInDim S600000 ![] bcast_S_S600000 : (⟨S_, .i32⟩ : BufTy).Contents (Elt F) → (⟨S600000, .i32⟩ : BufTy).Contents (Elt F)),  -- %18 = stablehlo.broadcast_in_dim %c_3, dims = [] : (tensor<i32>) -> tensor<600000xi32>  @ reference:23
    StableHlo.binary main_v1 main_v18 main_v19 (addi : (⟨S600000, .i32⟩ : BufTy).Contents (Elt F) → (⟨S600000, .i32⟩ : BufTy).Contents (Elt F) → (⟨S600000, .i32⟩ : BufTy).Contents (Elt F)),  -- %19 = stablehlo.add %1, %18 : tensor<600000xi32>  @ reference:23
    StableHlo.ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),  -- %20 = stablehlo.select %17, %19, %1 : tensor<600000xi1>, tensor<600000xi32>  @ reference:23
    StableHlo.unary main_v20 main_v21 (broadcastInDim S600000x1 ![0] bcast_S600000_S600000x1_0 : (⟨S600000, .i32⟩ : BufTy).Contents (Elt F) → (⟨S600000x1, .i32⟩ : BufTy).Contents (Elt F)),  -- %21 = stablehlo.broadcast_in_dim %20, dims = [0] : (tensor<600000xi32>) -> tensor<600000x1xi32>  @ reference:23
    StableHlo.binary main_v13 main_v21 main_v22 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),  -- %22 = "stablehlo.gather"(%13, %21) <{dimension_numbers = #stablehlo.gather<offset_dims = [1], collapsed_slice_dims = [0], start_index_map = [0], index_vector_dim = 1>, indices_are_sorted = false, slice_sizes = array<i64: 1, 128>}> : (tensor<100000x128xf32>, tensor<600000x1xi32>) -> tensor<600000x128xf32>  @ reference:23
    StableHlo.nullary main_cst_4 (constant S_ .f32 0x00000000#32),  -- %cst_4 = stablehlo.constant dense<0.000000e+00> : tensor<f32>
    StableHlo.unary main_cst_4 main_v23 (broadcastInDim S100000x128 ![] bcast_S_S100000x128 : (⟨S_, .f32⟩ : BufTy).Contents (Elt F) → (⟨S100000x128, .f32⟩ : BufTy).Contents (Elt F)),  -- %23 = stablehlo.broadcast_in_dim %cst_4, dims = [] : (tensor<f32>) -> tensor<100000x128xf32>  @ reference:15
    StableHlo.unary main_v3 main_v24 (broadcastInDim S600000x1 ![0] bcast_S600000_S600000x1_0 : (⟨S600000, .i32⟩ : BufTy).Contents (Elt F) → (⟨S600000x1, .i32⟩ : BufTy).Contents (Elt F)),  -- %24 = stablehlo.broadcast_in_dim %3, dims = [0] : (tensor<600000xi32>) -> tensor<600000x1xi32>  @ reference:15
    StableHlo.ternary main_v23 main_v24 main_v22 main_v25 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),  -- %25 = "stablehlo.scatter"(%23, %24, %22) <{indices_are_sorted = false, scatter_dimension_numbers = #stablehlo.scatter<update_window_dims = [1], inserted_window_dims = [0], scatter_dims_to_operand_dims = [0], index_vector_dim = 1>, unique_indices = false}> ( {  @ reference:15
    StableHlo.nullary main_cst_5 (constant S_ .f32 0x3F800000#32),  -- %cst_5 = stablehlo.constant dense<1.000000e+00> : tensor<f32>
    StableHlo.unary main_cst_5 main_v26 (broadcastInDim S600000x1 ![] bcast_S_S600000x1 : (⟨S_, .f32⟩ : BufTy).Contents (Elt F) → (⟨S600000x1, .f32⟩ : BufTy).Contents (Elt F)),  -- %26 = stablehlo.broadcast_in_dim %cst_5, dims = [] : (tensor<f32>) -> tensor<600000x1xf32>  @ reference:16
    StableHlo.nullary main_cst_6 (constant S_ .f32 0x00000000#32),  -- %cst_6 = stablehlo.constant dense<0.000000e+00> : tensor<f32>
    StableHlo.unary main_cst_6 main_v27 (broadcastInDim S100000x1 ![] bcast_S_S100000x1 : (⟨S_, .f32⟩ : BufTy).Contents (Elt F) → (⟨S100000x1, .f32⟩ : BufTy).Contents (Elt F)),  -- %27 = stablehlo.broadcast_in_dim %cst_6, dims = [] : (tensor<f32>) -> tensor<100000x1xf32>  @ reference:16
    StableHlo.unary main_v3 main_v28 (broadcastInDim S600000x1 ![0] bcast_S600000_S600000x1_0 : (⟨S600000, .i32⟩ : BufTy).Contents (Elt F) → (⟨S600000x1, .i32⟩ : BufTy).Contents (Elt F)),  -- %28 = stablehlo.broadcast_in_dim %3, dims = [0] : (tensor<600000xi32>) -> tensor<600000x1xi32>  @ reference:16
    StableHlo.ternary main_v27 main_v28 main_v26 main_v29 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),  -- %29 = "stablehlo.scatter"(%27, %28, %26) <{indices_are_sorted = false, scatter_dimension_numbers = #stablehlo.scatter<update_window_dims = [1], inserted_window_dims = [0], scatter_dims_to_operand_dims = [0], index_vector_dim = 1>, unique_indices = false}> ( {  @ reference:16
    StableHlo.nullary main_cst_7 (constant S_ .f32 0x3F800000#32),  -- %cst_7 = stablehlo.constant dense<1.000000e+00> : tensor<f32>
    StableHlo.unary main_cst_7 main_v30 (broadcastInDim S100000x1 ![] bcast_S_S100000x1 : (⟨S_, .f32⟩ : BufTy).Contents (Elt F) → (⟨S100000x1, .f32⟩ : BufTy).Contents (Elt F)),  -- %30 = stablehlo.broadcast_in_dim %cst_7, dims = [] : (tensor<f32>) -> tensor<100000x1xf32>  @ reference:17
    StableHlo.binary main_v29 main_v30 main_v31 (maximumf : (⟨S100000x1, .f32⟩ : BufTy).Contents (Elt F) → (⟨S100000x1, .f32⟩ : BufTy).Contents (Elt F) → (⟨S100000x1, .f32⟩ : BufTy).Contents (Elt F)),  -- %31 = stablehlo.maximum %29, %30 : tensor<100000x1xf32>  @ reference:17
    StableHlo.unary main_v31 main_v32 (broadcastInDim S100000x128 ![0, 1] bcast_S100000x1_S100000x128_0_1 : (⟨S100000x1, .f32⟩ : BufTy).Contents (Elt F) → (⟨S100000x128, .f32⟩ : BufTy).Contents (Elt F)),  -- %32 = stablehlo.broadcast_in_dim %31, dims = [0, 1] : (tensor<100000x1xf32>) -> tensor<100000x128xf32>  @ reference:17
    StableHlo.binary main_v25 main_v32 main_v33 (Host.divf : (⟨S100000x128, .f32⟩ : BufTy).Contents (Elt F) → (⟨S100000x128, .f32⟩ : BufTy).Contents (Elt F) → (⟨S100000x128, .f32⟩ : BufTy).Contents (Elt F)),  -- %33 = stablehlo.divide %25, %32 : tensor<100000x128xf32>  @ reference:17
    StableHlo.unary main_arg6 main_v34 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %34 = stablehlo.slice %arg6 [0:1, 0:128, 0:128] : (tensor<2x128x128xf32>) -> tensor<1x128x128xf32>  @ reference:24
    StableHlo.reshape main_v34 main_v35 rfl shapeCasts_S1x128x128_S128x128,  -- %35 = stablehlo.reshape %34 : (tensor<1x128x128xf32>) -> tensor<128x128xf32>  @ reference:24
    StableHlo.binary main_v13 main_v35 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %36 = stablehlo.dot_general %13, %35, contracting_dims = [1] x [0], precision = [DEFAULT, DEFAULT] : (tensor<100000x128xf32>, tensor<128x128xf32>) -> tensor<100000x128xf32>  @ reference:24
    StableHlo.unary main_arg7 main_v37 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %37 = stablehlo.slice %arg7 [0:1, 0:128, 0:128] : (tensor<2x128x128xf32>) -> tensor<1x128x128xf32>  @ reference:24
    StableHlo.reshape main_v37 main_v38 rfl shapeCasts_S1x128x128_S128x128,  -- %38 = stablehlo.reshape %37 : (tensor<1x128x128xf32>) -> tensor<128x128xf32>  @ reference:24
    StableHlo.binary main_v33 main_v38 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %39 = stablehlo.dot_general %33, %38, contracting_dims = [1] x [0], precision = [DEFAULT, DEFAULT] : (tensor<100000x128xf32>, tensor<128x128xf32>) -> tensor<100000x128xf32>  @ reference:24
    StableHlo.binary main_v36 main_v39 main_v40 (addf : (⟨S100000x128, .f32⟩ : BufTy).Contents (Elt F) → (⟨S100000x128, .f32⟩ : BufTy).Contents (Elt F) → (⟨S100000x128, .f32⟩ : BufTy).Contents (Elt F)),  -- %40 = stablehlo.add %36, %39 : tensor<100000x128xf32>  @ reference:24
    StableHlo.unary main_arg8 main_v41 ((extractStridedSlice S1x128 ![0, 0] · slices_S2x128_S1x128_0_0) : (⟨S2x128, .f32⟩ : BufTy).Contents (Elt F) → (⟨S1x128, .f32⟩ : BufTy).Contents (Elt F)),  -- %41 = stablehlo.slice %arg8 [0:1, 0:128] : (tensor<2x128xf32>) -> tensor<1x128xf32>  @ reference:24
    StableHlo.reshape main_v41 main_v42 rfl shapeCasts_S1x128_S128,  -- %42 = stablehlo.reshape %41 : (tensor<1x128xf32>) -> tensor<128xf32>  @ reference:24
    StableHlo.unary main_v42 main_v43 (broadcastInDim S1x128 ![1] bcast_S128_S1x128_1 : (⟨S128, .f32⟩ : BufTy).Contents (Elt F) → (⟨S1x128, .f32⟩ : BufTy).Contents (Elt F)),  -- %43 = stablehlo.broadcast_in_dim %42, dims = [1] : (tensor<128xf32>) -> tensor<1x128xf32>  @ reference:24
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),  -- %44 = stablehlo.broadcast_in_dim %43, dims = [0, 1] : (tensor<1x128xf32>) -> tensor<100000x128xf32>  @ reference:24
    StableHlo.binary main_v40 main_v44 main_v45 (addf : (⟨S100000x128, .f32⟩ : BufTy).Contents (Elt F) → (⟨S100000x128, .f32⟩ : BufTy).Contents (Elt F) → (⟨S100000x128, .f32⟩ : BufTy).Contents (Elt F)),  -- %45 = stablehlo.add %40, %44 : tensor<100000x128xf32>  @ reference:24
    StableHlo.TRef.nullary main_call2.cst (constant S_ .f32 0x00000000#32),  -- in %46 = func.call @relu(%45) : (tensor<100000x128xf32>) -> tensor<100000x128xf32>  @ reference:24
    StableHlo.TRef.unary main_call2.cst main_call2.v0 (broadcastInDim S100000x128 ![] bcast_S_S100000x128),  -- in %46 = func.call @relu(%45) : (tensor<100000x128xf32>) -> tensor<100000x128xf32>  @ reference:24
    StableHlo.TRef.binary (.of main_v45 : StableHlo.TRef sig ⟨S100000x128, .f32⟩) main_call2.v0 main_call2.v1 maximumf,  -- in %46 = func.call @relu(%45) : (tensor<100000x128xf32>) -> tensor<100000x128xf32>  @ reference:24
    StableHlo.nullary main_c_8 (constantI S_ 32 0#32),  -- %c_8 = stablehlo.constant dense<0> : tensor<i32>
    StableHlo.unary main_c_8 main_v47 (broadcastInDim S600000 ![] bcast_S_S600000 : (⟨S_, .i32⟩ : BufTy).Contents (Elt F) → (⟨S600000, .i32⟩ : BufTy).Contents (Elt F)),  -- %47 = stablehlo.broadcast_in_dim %c_8, dims = [] : (tensor<i32>) -> tensor<600000xi32>  @ reference:23
    StableHlo.binary main_v1 main_v47 main_v48 (cmpi .slt : (⟨S600000, .i32⟩ : BufTy).Contents (Elt F) → (⟨S600000, .i32⟩ : BufTy).Contents (Elt F) → (⟨S600000, .i1⟩ : BufTy).Contents (Elt F)) ]  -- %48 = stablehlo.compare LT, %1, %47, SIGNED : (tensor<600000xi32>, tensor<600000xi32>) -> tensor<600000xi1>  @ reference:23

set_option maxRecDepth 4096 in
/-- Part 0 is that straight line: the called functions unfolded at their calls, both sides are one chain of
    single operations once the sequencing is reassociated. -/
theorem main_part0_eq (c : Dev nD) : main_part0 (F := F) c = seq ops0 := by
  simp only [main_part0, fn_floor_divide.body, fn_relu.body, fn_where.body, seq, bind_assoc, pure_bind]
  rfl

/-- Every operation of the part touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., binary_bufs_sub .., nullary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., binary_bufs_sub .., unary_bufs_sub .., reshape_bufs_sub .., binary_bufs_sub .., unary_bufs_sub ..,
    reshape_bufs_sub .., binary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub ..⟩

/-- Every operation of the part determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- The references the part's operations write: one each, its result. -/
abbrev href_W0 : List (Ref sig .tc) :=
  [main_v0, main_v1, main_v2, main_v3, main_c, main_v4, main_v5, main_v6,
   main_v7, main_c_0, main_call0.v0.ref, main_call0.v1.ref, main_call0.v2.ref, main_call0.v3.ref, main_call0.v4.ref, main_call0.v5.ref,
   main_call0.v6.ref, main_call0.v7.ref, main_call0.v8.ref, main_call0.c.ref, main_call0.v9.ref, main_call0.v10.ref, main_call0.v11.ref, main_call0.c_0.ref,
   main_call0.v12.ref, main_call0.v13.ref, main_call0.call0.v0.ref, main_v9, main_v10, main_v11, main_v12, main_call1.cst.ref,
   main_call1.v0.ref, main_call1.v1.ref, main_cst, main_v14, main_cst_1, main_v15, main_c_2, main_v16,
   main_v17, main_c_3, main_v18, main_v19, main_v20, main_v21, main_v22, main_cst_4,
   main_v23, main_v24, main_v25, main_cst_5, main_v26, main_cst_6, main_v27, main_v28,
   main_v29, main_cst_7, main_v30, main_v31, main_v32, main_v33, main_v34, main_v35,
   main_v36, main_v37, main_v38, main_v39, main_v40, main_v41, main_v42, main_v43,
   main_v44, main_v45, main_call2.cst.ref, main_call2.v0.ref, main_call2.v1.ref, main_c_8, main_v47, main_v48]

theorem ops0_writes : (ops0 : List (HloOp τ sig (Elt F))).Forall fun op =>
    op.writes ⊆ (href_W0.map (Proc.devRef (τ := τ) .tc)).toFinset :=
  ⟨href_wsub main_v0 rfl (by decide), href_wsub main_v1 rfl (by decide), href_wsub main_v2 rfl (by decide),
    href_wsub main_v3 rfl (by decide), href_wsub main_c rfl (by decide), href_wsub main_v4 rfl (by decide),
    href_wsub main_v5 rfl (by decide), href_wsub main_v6 rfl (by decide), href_wsub main_v7 rfl (by decide),
    href_wsub main_c_0 rfl (by decide), href_wsub main_call0.v0.ref rfl (by decide), href_wsub main_call0.v1.ref rfl (by decide),
    href_wsub main_call0.v2.ref rfl (by decide), href_wsub main_call0.v3.ref rfl (by decide), href_wsub main_call0.v4.ref rfl (by decide),
    href_wsub main_call0.v5.ref rfl (by decide), href_wsub main_call0.v6.ref rfl (by decide), href_wsub main_call0.v7.ref rfl (by decide),
    href_wsub main_call0.v8.ref rfl (by decide), href_wsub main_call0.c.ref rfl (by decide), href_wsub main_call0.v9.ref rfl (by decide),
    href_wsub main_call0.v10.ref rfl (by decide), href_wsub main_call0.v11.ref rfl (by decide), href_wsub main_call0.c_0.ref rfl (by decide),
    href_wsub main_call0.v12.ref rfl (by decide), href_wsub main_call0.v13.ref rfl (by decide), href_wsub main_call0.call0.v0.ref rfl (by decide),
    href_wsub main_v9 rfl (by decide), href_wsub main_v10 rfl (by decide), href_wsub main_v11 rfl (by decide),
    href_wsub main_v12 rfl (by decide), href_wsub main_call1.cst.ref rfl (by decide), href_wsub main_call1.v0.ref rfl (by decide),
    href_wsub main_call1.v1.ref rfl (by decide), href_wsub main_cst rfl (by decide), href_wsub main_v14 rfl (by decide),
    href_wsub main_cst_1 rfl (by decide), href_wsub main_v15 rfl (by decide), href_wsub main_c_2 rfl (by decide),
    href_wsub main_v16 rfl (by decide), href_wsub main_v17 rfl (by decide), href_wsub main_c_3 rfl (by decide),
    href_wsub main_v18 rfl (by decide), href_wsub main_v19 rfl (by decide), href_wsub main_v20 rfl (by decide),
    href_wsub main_v21 rfl (by decide), href_wsub main_v22 rfl (by decide), href_wsub main_cst_4 rfl (by decide),
    href_wsub main_v23 rfl (by decide), href_wsub main_v24 rfl (by decide), href_wsub main_v25 rfl (by decide),
    href_wsub main_cst_5 rfl (by decide), href_wsub main_v26 rfl (by decide), href_wsub main_cst_6 rfl (by decide),
    href_wsub main_v27 rfl (by decide), href_wsub main_v28 rfl (by decide), href_wsub main_v29 rfl (by decide),
    href_wsub main_cst_7 rfl (by decide), href_wsub main_v30 rfl (by decide), href_wsub main_v31 rfl (by decide),
    href_wsub main_v32 rfl (by decide), href_wsub main_v33 rfl (by decide), href_wsub main_v34 rfl (by decide),
    href_wsub main_v35 rfl (by decide), href_wsub main_v36 rfl (by decide), href_wsub main_v37 rfl (by decide),
    href_wsub main_v38 rfl (by decide), href_wsub main_v39 rfl (by decide), href_wsub main_v40 rfl (by decide),
    href_wsub main_v41 rfl (by decide), href_wsub main_v42 rfl (by decide), href_wsub main_v43 rfl (by decide),
    href_wsub main_v44 rfl (by decide), href_wsub main_v45 rfl (by decide), href_wsub main_call2.cst.ref rfl (by decide),
    href_wsub main_call2.v0.ref rfl (by decide), href_wsub main_call2.v1.ref rfl (by decide), href_wsub main_c_8 rfl (by decide),
    href_wsub main_v47 rfl (by decide), href_wsub main_v48 rfl (by decide)⟩

end Cert.ReferenceIdeal.Hand

end
-- ==== Proof.Ref.Ops1.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 1 of @main as a list of 66 operations, in order: its own statements as printed, and at each call of an
    outlined function that function's operations over the call's operands and the call's own buffers. -/
abbrev ops1 : List (HloOp τ sig (Elt F)) :=
  [ StableHlo.nullary main_c_9 (constantI S_ 32 100000#32),  -- %c_9 = stablehlo.constant dense<100000> : tensor<i32>
    StableHlo.unary main_c_9 main_v49 (broadcastInDim S600000 ![] bcast_S_S600000 : (⟨S_, .i32⟩ : BufTy).Contents (Elt F) → (⟨S600000, .i32⟩ : BufTy).Contents (Elt F)),  -- %49 = stablehlo.broadcast_in_dim %c_9, dims = [] : (tensor<i32>) -> tensor<600000xi32>  @ reference:23
    StableHlo.binary main_v1 main_v49 main_v50 (addi : (⟨S600000, .i32⟩ : BufTy).Contents (Elt F) → (⟨S600000, .i32⟩ : BufTy).Contents (Elt F) → (⟨S600000, .i32⟩ : BufTy).Contents (Elt F)),  -- %50 = stablehlo.add %1, %49 : tensor<600000xi32>  @ reference:23
    StableHlo.ternary main_v48 main_v50 main_v1 main_v51 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),  -- %51 = stablehlo.select %48, %50, %1 : tensor<600000xi1>, tensor<600000xi32>  @ reference:23
    StableHlo.unary main_v51 main_v52 (broadcastInDim S600000x1 ![0] bcast_S600000_S600000x1_0 : (⟨S600000, .i32⟩ : BufTy).Contents (Elt F) → (⟨S600000x1, .i32⟩ : BufTy).Contents (Elt F)),  -- %52 = stablehlo.broadcast_in_dim %51, dims = [0] : (tensor<600000xi32>) -> tensor<600000x1xi32>  @ reference:23
    StableHlo.binary main_v46 main_v52 main_v53 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),  -- %53 = "stablehlo.gather"(%46, %52) <{dimension_numbers = #stablehlo.gather<offset_dims = [1], collapsed_slice_dims = [0], start_index_map = [0], index_vector_dim = 1>, indices_are_sorted = false, slice_sizes = array<i64: 1, 128>}> : (tensor<100000x128xf32>, tensor<600000x1xi32>) -> tensor<600000x128xf32>  @ reference:23
    StableHlo.nullary main_cst_10 (constant S_ .f32 0x00000000#32),  -- %cst_10 = stablehlo.constant dense<0.000000e+00> : tensor<f32>
    StableHlo.unary main_cst_10 main_v54 (broadcastInDim S100000x128 ![] bcast_S_S100000x128 : (⟨S_, .f32⟩ : BufTy).Contents (Elt F) → (⟨S100000x128, .f32⟩ : BufTy).Contents (Elt F)),  -- %54 = stablehlo.broadcast_in_dim %cst_10, dims = [] : (tensor<f32>) -> tensor<100000x128xf32>  @ reference:15
    StableHlo.unary main_v3 main_v55 (broadcastInDim S600000x1 ![0] bcast_S600000_S600000x1_0 : (⟨S600000, .i32⟩ : BufTy).Contents (Elt F) → (⟨S600000x1, .i32⟩ : BufTy).Contents (Elt F)),  -- %55 = stablehlo.broadcast_in_dim %3, dims = [0] : (tensor<600000xi32>) -> tensor<600000x1xi32>  @ reference:15
    StableHlo.ternary main_v54 main_v55 main_v53 main_v56 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),  -- %56 = "stablehlo.scatter"(%54, %55, %53) <{indices_are_sorted = false, scatter_dimension_numbers = #stablehlo.scatter<update_window_dims = [1], inserted_window_dims = [0], scatter_dims_to_operand_dims = [0], index_vector_dim = 1>, unique_indices = false}> ( {  @ reference:15
    StableHlo.nullary main_cst_11 (constant S_ .f32 0x3F800000#32),  -- %cst_11 = stablehlo.constant dense<1.000000e+00> : tensor<f32>
    StableHlo.unary main_cst_11 main_v57 (broadcastInDim S600000x1 ![] bcast_S_S600000x1 : (⟨S_, .f32⟩ : BufTy).Contents (Elt F) → (⟨S600000x1, .f32⟩ : BufTy).Contents (Elt F)),  -- %57 = stablehlo.broadcast_in_dim %cst_11, dims = [] : (tensor<f32>) -> tensor<600000x1xf32>  @ reference:16
    StableHlo.nullary main_cst_12 (constant S_ .f32 0x00000000#32),  -- %cst_12 = stablehlo.constant dense<0.000000e+00> : tensor<f32>
    StableHlo.unary main_cst_12 main_v58 (broadcastInDim S100000x1 ![] bcast_S_S100000x1 : (⟨S_, .f32⟩ : BufTy).Contents (Elt F) → (⟨S100000x1, .f32⟩ : BufTy).Contents (Elt F)),  -- %58 = stablehlo.broadcast_in_dim %cst_12, dims = [] : (tensor<f32>) -> tensor<100000x1xf32>  @ reference:16
    StableHlo.unary main_v3 main_v59 (broadcastInDim S600000x1 ![0] bcast_S600000_S600000x1_0 : (⟨S600000, .i32⟩ : BufTy).Contents (Elt F) → (⟨S600000x1, .i32⟩ : BufTy).Contents (Elt F)),  -- %59 = stablehlo.broadcast_in_dim %3, dims = [0] : (tensor<600000xi32>) -> tensor<600000x1xi32>  @ reference:16
    StableHlo.ternary main_v58 main_v59 main_v57 main_v60 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),  -- %60 = "stablehlo.scatter"(%58, %59, %57) <{indices_are_sorted = false, scatter_dimension_numbers = #stablehlo.scatter<update_window_dims = [1], inserted_window_dims = [0], scatter_dims_to_operand_dims = [0], index_vector_dim = 1>, unique_indices = false}> ( {  @ reference:16
    StableHlo.nullary main_cst_13 (constant S_ .f32 0x3F800000#32),  -- %cst_13 = stablehlo.constant dense<1.000000e+00> : tensor<f32>
    StableHlo.unary main_cst_13 main_v61 (broadcastInDim S100000x1 ![] bcast_S_S100000x1 : (⟨S_, .f32⟩ : BufTy).Contents (Elt F) → (⟨S100000x1, .f32⟩ : BufTy).Contents (Elt F)),  -- %61 = stablehlo.broadcast_in_dim %cst_13, dims = [] : (tensor<f32>) -> tensor<100000x1xf32>  @ reference:17
    StableHlo.binary main_v60 main_v61 main_v62 (maximumf : (⟨S100000x1, .f32⟩ : BufTy).Contents (Elt F) → (⟨S100000x1, .f32⟩ : BufTy).Contents (Elt F) → (⟨S100000x1, .f32⟩ : BufTy).Contents (Elt F)),  -- %62 = stablehlo.maximum %60, %61 : tensor<100000x1xf32>  @ reference:17
    StableHlo.unary main_v62 main_v63 (broadcastInDim S100000x128 ![0, 1] bcast_S100000x1_S100000x128_0_1 : (⟨S100000x1, .f32⟩ : BufTy).Contents (Elt F) → (⟨S100000x128, .f32⟩ : BufTy).Contents (Elt F)),  -- %63 = stablehlo.broadcast_in_dim %62, dims = [0, 1] : (tensor<100000x1xf32>) -> tensor<100000x128xf32>  @ reference:17
    StableHlo.binary main_v56 main_v63 main_v64 (Host.divf : (⟨S100000x128, .f32⟩ : BufTy).Contents (Elt F) → (⟨S100000x128, .f32⟩ : BufTy).Contents (Elt F) → (⟨S100000x128, .f32⟩ : BufTy).Contents (Elt F)),  -- %64 = stablehlo.divide %56, %63 : tensor<100000x128xf32>  @ reference:17
    StableHlo.unary main_arg6 main_v65 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %65 = stablehlo.slice %arg6 [1:2, 0:128, 0:128] : (tensor<2x128x128xf32>) -> tensor<1x128x128xf32>  @ reference:24
    StableHlo.reshape main_v65 main_v66 rfl shapeCasts_S1x128x128_S128x128,  -- %66 = stablehlo.reshape %65 : (tensor<1x128x128xf32>) -> tensor<128x128xf32>  @ reference:24
    StableHlo.binary main_v46 main_v66 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %67 = stablehlo.dot_general %46, %66, contracting_dims = [1] x [0], precision = [DEFAULT, DEFAULT] : (tensor<100000x128xf32>, tensor<128x128xf32>) -> tensor<100000x128xf32>  @ reference:24
    StableHlo.unary main_arg7 main_v68 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %68 = stablehlo.slice %arg7 [1:2, 0:128, 0:128] : (tensor<2x128x128xf32>) -> tensor<1x128x128xf32>  @ reference:24
    StableHlo.reshape main_v68 main_v69 rfl shapeCasts_S1x128x128_S128x128,  -- %69 = stablehlo.reshape %68 : (tensor<1x128x128xf32>) -> tensor<128x128xf32>  @ reference:24
    StableHlo.binary main_v64 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %70 = stablehlo.dot_general %64, %69, contracting_dims = [1] x [0], precision = [DEFAULT, DEFAULT] : (tensor<100000x128xf32>, tensor<128x128xf32>) -> tensor<100000x128xf32>  @ reference:24
    StableHlo.binary main_v67 main_v70 main_v71 (addf : (⟨S100000x128, .f32⟩ : BufTy).Contents (Elt F) → (⟨S100000x128, .f32⟩ : BufTy).Contents (Elt F) → (⟨S100000x128, .f32⟩ : BufTy).Contents (Elt F)),  -- %71 = stablehlo.add %67, %70 : tensor<100000x128xf32>  @ reference:24
    StableHlo.unary main_arg8 main_v72 ((extractStridedSlice S1x128 ![1, 0] · slices_S2x128_S1x128_1_0) : (⟨S2x128, .f32⟩ : BufTy).Contents (Elt F) → (⟨S1x128, .f32⟩ : BufTy).Contents (Elt F)),  -- %72 = stablehlo.slice %arg8 [1:2, 0:128] : (tensor<2x128xf32>) -> tensor<1x128xf32>  @ reference:24
    StableHlo.reshape main_v72 main_v73 rfl shapeCasts_S1x128_S128,  -- %73 = stablehlo.reshape %72 : (tensor<1x128xf32>) -> tensor<128xf32>  @ reference:24
    StableHlo.unary main_v73 main_v74 (broadcastInDim S1x128 ![1] bcast_S128_S1x128_1 : (⟨S128, .f32⟩ : BufTy).Contents (Elt F) → (⟨S1x128, .f32⟩ : BufTy).Contents (Elt F)),  -- %74 = stablehlo.broadcast_in_dim %73, dims = [1] : (tensor<128xf32>) -> tensor<1x128xf32>  @ reference:24
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),  -- %75 = stablehlo.broadcast_in_dim %74, dims = [0, 1] : (tensor<1x128xf32>) -> tensor<100000x128xf32>  @ reference:24
    StableHlo.binary main_v71 main_v75 main_v76 (addf : (⟨S100000x128, .f32⟩ : BufTy).Contents (Elt F) → (⟨S100000x128, .f32⟩ : BufTy).Contents (Elt F) → (⟨S100000x128, .f32⟩ : BufTy).Contents (Elt F)),  -- %76 = stablehlo.add %71, %75 : tensor<100000x128xf32>  @ reference:24
    StableHlo.TRef.nullary main_call3.cst (constant S_ .f32 0x00000000#32),  -- in %77 = func.call @relu(%76) : (tensor<100000x128xf32>) -> tensor<100000x128xf32>  @ reference:24
    StableHlo.TRef.unary main_call3.cst main_call3.v0 (broadcastInDim S100000x128 ![] bcast_S_S100000x128),  -- in %77 = func.call @relu(%76) : (tensor<100000x128xf32>) -> tensor<100000x128xf32>  @ reference:24
    StableHlo.TRef.binary (.of main_v76 : StableHlo.TRef sig ⟨S100000x128, .f32⟩) main_call3.v0 main_call3.v1 maximumf,  -- in %77 = func.call @relu(%76) : (tensor<100000x128xf32>) -> tensor<100000x128xf32>  @ reference:24
    StableHlo.unary main_arg9 main_v78 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %78 = stablehlo.slice %arg9 [0:1, 0:128, 0:128] : (tensor<2x128x128xf32>) -> tensor<1x128x128xf32>  @ reference:31
    StableHlo.reshape main_v78 main_v79 rfl shapeCasts_S1x128x128_S128x128,  -- %79 = stablehlo.reshape %78 : (tensor<1x128x128xf32>) -> tensor<128x128xf32>  @ reference:31
    StableHlo.binary main_v14 main_v79 main_v80 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %80 = stablehlo.dot_general %14, %79, contracting_dims = [1] x [0], precision = [DEFAULT, DEFAULT] : (tensor<2000x128xf32>, tensor<128x128xf32>) -> tensor<2000x128xf32>  @ reference:31
    StableHlo.unary main_arg10 main_v81 ((extractStridedSlice S1x128 ![0, 0] · slices_S2x128_S1x128_0_0) : (⟨S2x128, .f32⟩ : BufTy).Contents (Elt F) → (⟨S1x128, .f32⟩ : BufTy).Contents (Elt F)),  -- %81 = stablehlo.slice %arg10 [0:1, 0:128] : (tensor<2x128xf32>) -> tensor<1x128xf32>  @ reference:31
    StableHlo.reshape main_v81 main_v82 rfl shapeCasts_S1x128_S128,  -- %82 = stablehlo.reshape %81 : (tensor<1x128xf32>) -> tensor<128xf32>  @ reference:31
    StableHlo.unary main_v82 main_v83 (broadcastInDim S1x128 ![1] bcast_S128_S1x128_1 : (⟨S128, .f32⟩ : BufTy).Contents (Elt F) → (⟨S1x128, .f32⟩ : BufTy).Contents (Elt F)),  -- %83 = stablehlo.broadcast_in_dim %82, dims = [1] : (tensor<128xf32>) -> tensor<1x128xf32>  @ reference:31
    StableHlo.unary main_v83 main_v84 (broadcastInDim S2000x128 ![0, 1] bcast_S1x128_S2000x128_0_1 : (⟨S1x128, .f32⟩ : BufTy).Contents (Elt F) → (⟨S2000x128, .f32⟩ : BufTy).Contents (Elt F)),  -- %84 = stablehlo.broadcast_in_dim %83, dims = [0, 1] : (tensor<1x128xf32>) -> tensor<2000x128xf32>  @ reference:31
    StableHlo.binary main_v80 main_v84 main_v85 (addf : (⟨S2000x128, .f32⟩ : BufTy).Contents (Elt F) → (⟨S2000x128, .f32⟩ : BufTy).Contents (Elt F) → (⟨S2000x128, .f32⟩ : BufTy).Contents (Elt F)),  -- %85 = stablehlo.add %80, %84 : tensor<2000x128xf32>  @ reference:31
    StableHlo.TRef.nullary main_call4.cst (constant S_ .f32 0x00000000#32),  -- in %86 = func.call @relu_0(%85) : (tensor<2000x128xf32>) -> tensor<2000x128xf32>  @ reference:31
    StableHlo.TRef.unary main_call4.cst main_call4.v0 (broadcastInDim S2000x128 ![] bcast_S_S2000x128),  -- in %86 = func.call @relu_0(%85) : (tensor<2000x128xf32>) -> tensor<2000x128xf32>  @ reference:31
    StableHlo.TRef.binary (.of main_v85 : StableHlo.TRef sig ⟨S2000x128, .f32⟩) main_call4.v0 main_call4.v1 maximumf,  -- in %86 = func.call @relu_0(%85) : (tensor<2000x128xf32>) -> tensor<2000x128xf32>  @ reference:31
    StableHlo.unary main_arg9 main_v87 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %87 = stablehlo.slice %arg9 [1:2, 0:128, 0:128] : (tensor<2x128x128xf32>) -> tensor<1x128x128xf32>  @ reference:31
    StableHlo.reshape main_v87 main_v88 rfl shapeCasts_S1x128x128_S128x128,  -- %88 = stablehlo.reshape %87 : (tensor<1x128x128xf32>) -> tensor<128x128xf32>  @ reference:31
    StableHlo.binary main_v86 main_v88 main_v89 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %89 = stablehlo.dot_general %86, %88, contracting_dims = [1] x [0], precision = [DEFAULT, DEFAULT] : (tensor<2000x128xf32>, tensor<128x128xf32>) -> tensor<2000x128xf32>  @ reference:31
    StableHlo.unary main_arg10 main_v90 ((extractStridedSlice S1x128 ![1, 0] · slices_S2x128_S1x128_1_0) : (⟨S2x128, .f32⟩ : BufTy).Contents (Elt F) → (⟨S1x128, .f32⟩ : BufTy).Contents (Elt F)),  -- %90 = stablehlo.slice %arg10 [1:2, 0:128] : (tensor<2x128xf32>) -> tensor<1x128xf32>  @ reference:31
    StableHlo.reshape main_v90 main_v91 rfl shapeCasts_S1x128_S128,  -- %91 = stablehlo.reshape %90 : (tensor<1x128xf32>) -> tensor<128xf32>  @ reference:31
    StableHlo.unary main_v91 main_v92 (broadcastInDim S1x128 ![1] bcast_S128_S1x128_1 : (⟨S128, .f32⟩ : BufTy).Contents (Elt F) → (⟨S1x128, .f32⟩ : BufTy).Contents (Elt F)),  -- %92 = stablehlo.broadcast_in_dim %91, dims = [1] : (tensor<128xf32>) -> tensor<1x128xf32>  @ reference:31
    StableHlo.unary main_v92 main_v93 (broadcastInDim S2000x128 ![0, 1] bcast_S1x128_S2000x128_0_1 : (⟨S1x128, .f32⟩ : BufTy).Contents (Elt F) → (⟨S2000x128, .f32⟩ : BufTy).Contents (Elt F)),  -- %93 = stablehlo.broadcast_in_dim %92, dims = [0, 1] : (tensor<1x128xf32>) -> tensor<2000x128xf32>  @ reference:31
    StableHlo.binary main_v89 main_v93 main_v94 (addf : (⟨S2000x128, .f32⟩ : BufTy).Contents (Elt F) → (⟨S2000x128, .f32⟩ : BufTy).Contents (Elt F) → (⟨S2000x128, .f32⟩ : BufTy).Contents (Elt F)),  -- %94 = stablehlo.add %89, %93 : tensor<2000x128xf32>  @ reference:31
    StableHlo.TRef.nullary main_call5.cst (constant S_ .f32 0x00000000#32),  -- in %95 = func.call @relu_0(%94) : (tensor<2000x128xf32>) -> tensor<2000x128xf32>  @ reference:31
    StableHlo.TRef.unary main_call5.cst main_call5.v0 (broadcastInDim S2000x128 ![] bcast_S_S2000x128),  -- in %95 = func.call @relu_0(%94) : (tensor<2000x128xf32>) -> tensor<2000x128xf32>  @ reference:31
    StableHlo.TRef.binary (.of main_v94 : StableHlo.TRef sig ⟨S2000x128, .f32⟩) main_call5.v0 main_call5.v1 maximumf,  -- in %95 = func.call @relu_0(%94) : (tensor<2000x128xf32>) -> tensor<2000x128xf32>  @ reference:31
    StableHlo.unary main_arg11 main_v96 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %96 = stablehlo.slice %arg11 [0:1, 0:128, 0:128] : (tensor<2x128x128xf32>) -> tensor<1x128x128xf32>  @ reference:31
    StableHlo.reshape main_v96 main_v97 rfl shapeCasts_S1x128x128_S128x128,  -- %97 = stablehlo.reshape %96 : (tensor<1x128x128xf32>) -> tensor<128x128xf32>  @ reference:31
    StableHlo.binary main_v15 main_v97 main_v98 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %98 = stablehlo.dot_general %15, %97, contracting_dims = [1] x [0], precision = [DEFAULT, DEFAULT] : (tensor<50x128xf32>, tensor<128x128xf32>) -> tensor<50x128xf32>  @ reference:31
    StableHlo.unary main_arg12 main_v99 ((extractStridedSlice S1x128 ![0, 0] · slices_S2x128_S1x128_0_0) : (⟨S2x128, .f32⟩ : BufTy).Contents (Elt F) → (⟨S1x128, .f32⟩ : BufTy).Contents (Elt F)),  -- %99 = stablehlo.slice %arg12 [0:1, 0:128] : (tensor<2x128xf32>) -> tensor<1x128xf32>  @ reference:31
    StableHlo.reshape main_v99 main_v100 rfl shapeCasts_S1x128_S128,  -- %100 = stablehlo.reshape %99 : (tensor<1x128xf32>) -> tensor<128xf32>  @ reference:31
    StableHlo.unary main_v100 main_v101 (broadcastInDim S1x128 ![1] bcast_S128_S1x128_1 : (⟨S128, .f32⟩ : BufTy).Contents (Elt F) → (⟨S1x128, .f32⟩ : BufTy).Contents (Elt F)),  -- %101 = stablehlo.broadcast_in_dim %100, dims = [1] : (tensor<128xf32>) -> tensor<1x128xf32>  @ reference:31
    StableHlo.unary main_v101 main_v102 (broadcastInDim S50x128 ![0, 1] bcast_S1x128_S50x128_0_1 : (⟨S1x128, .f32⟩ : BufTy).Contents (Elt F) → (⟨S50x128, .f32⟩ : BufTy).Contents (Elt F)),  -- %102 = stablehlo.broadcast_in_dim %101, dims = [0, 1] : (tensor<1x128xf32>) -> tensor<50x128xf32>  @ reference:31
    StableHlo.binary main_v98 main_v102 main_v103 (addf : (⟨S50x128, .f32⟩ : BufTy).Contents (Elt F) → (⟨S50x128, .f32⟩ : BufTy).Contents (Elt F) → (⟨S50x128, .f32⟩ : BufTy).Contents (Elt F)) ]  -- %103 = stablehlo.add %98, %102 : tensor<50x128xf32>  @ reference:31

set_option maxRecDepth 4096 in
/-- Part 1 is that straight line: the called functions unfolded at their calls, both sides are one chain of
    single operations once the sequencing is reassociated. -/
theorem main_part1_eq (c : Dev nD) : main_part1 (F := F) c = seq ops1 := by
  simp only [main_part1, fn_relu.body, fn_relu_0.body, seq, bind_assoc, pure_bind]
  rfl

/-- Every operation of the part touches TensorCore references only. -/
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..⟩

/-- Every operation of the part determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The references the part's operations write: one each, its result. -/
abbrev href_W1 : List (Ref sig .tc) :=
  [main_c_9, main_v49, main_v50, main_v51, main_v52, main_v53, main_cst_10, main_v54,
   main_v55, main_v56, main_cst_11, main_v57, main_cst_12, main_v58, main_v59, main_v60,
   main_cst_13, main_v61, main_v62, main_v63, main_v64, main_v65, main_v66, main_v67,
   main_v68, main_v69, main_v70, main_v71, main_v72, main_v73, main_v74, main_v75,
   main_v76, main_call3.cst.ref, main_call3.v0.ref, main_call3.v1.ref, main_v78, main_v79, main_v80, main_v81,
   main_v82, main_v83, main_v84, main_v85, main_call4.cst.ref, main_call4.v0.ref, main_call4.v1.ref, main_v87,
   main_v88, main_v89, main_v90, main_v91, main_v92, main_v93, main_v94, main_call5.cst.ref,
   main_call5.v0.ref, main_call5.v1.ref, main_v96, main_v97, main_v98, main_v99, main_v100, main_v101,
   main_v102, main_v103]

theorem ops1_writes : (ops1 : List (HloOp τ sig (Elt F))).Forall fun op =>
    op.writes ⊆ (href_W1.map (Proc.devRef (τ := τ) .tc)).toFinset :=
  ⟨href_wsub main_c_9 rfl (by decide), href_wsub main_v49 rfl (by decide), href_wsub main_v50 rfl (by decide),
    href_wsub main_v51 rfl (by decide), href_wsub main_v52 rfl (by decide), href_wsub main_v53 rfl (by decide),
    href_wsub main_cst_10 rfl (by decide), href_wsub main_v54 rfl (by decide), href_wsub main_v55 rfl (by decide),
    href_wsub main_v56 rfl (by decide), href_wsub main_cst_11 rfl (by decide), href_wsub main_v57 rfl (by decide),
    href_wsub main_cst_12 rfl (by decide), href_wsub main_v58 rfl (by decide), href_wsub main_v59 rfl (by decide),
    href_wsub main_v60 rfl (by decide), href_wsub main_cst_13 rfl (by decide), href_wsub main_v61 rfl (by decide),
    href_wsub main_v62 rfl (by decide), href_wsub main_v63 rfl (by decide), href_wsub main_v64 rfl (by decide),
    href_wsub main_v65 rfl (by decide), href_wsub main_v66 rfl (by decide), href_wsub main_v67 rfl (by decide),
    href_wsub main_v68 rfl (by decide), href_wsub main_v69 rfl (by decide), href_wsub main_v70 rfl (by decide),
    href_wsub main_v71 rfl (by decide), href_wsub main_v72 rfl (by decide), href_wsub main_v73 rfl (by decide),
    href_wsub main_v74 rfl (by decide), href_wsub main_v75 rfl (by decide), href_wsub main_v76 rfl (by decide),
    href_wsub main_call3.cst.ref rfl (by decide), href_wsub main_call3.v0.ref rfl (by decide), href_wsub main_call3.v1.ref rfl (by decide),
    href_wsub main_v78 rfl (by decide), href_wsub main_v79 rfl (by decide), href_wsub main_v80 rfl (by decide),
    href_wsub main_v81 rfl (by decide), href_wsub main_v82 rfl (by decide), href_wsub main_v83 rfl (by decide),
    href_wsub main_v84 rfl (by decide), href_wsub main_v85 rfl (by decide), href_wsub main_call4.cst.ref rfl (by decide),
    href_wsub main_call4.v0.ref rfl (by decide), href_wsub main_call4.v1.ref rfl (by decide), href_wsub main_v87 rfl (by decide),
    href_wsub main_v88 rfl (by decide), href_wsub main_v89 rfl (by decide), href_wsub main_v90 rfl (by decide),
    href_wsub main_v91 rfl (by decide), href_wsub main_v92 rfl (by decide), href_wsub main_v93 rfl (by decide),
    href_wsub main_v94 rfl (by decide), href_wsub main_call5.cst.ref rfl (by decide), href_wsub main_call5.v0.ref rfl (by decide),
    href_wsub main_call5.v1.ref rfl (by decide), href_wsub main_v96 rfl (by decide), href_wsub main_v97 rfl (by decide),
    href_wsub main_v98 rfl (by decide), href_wsub main_v99 rfl (by decide), href_wsub main_v100 rfl (by decide),
    href_wsub main_v101 rfl (by decide), href_wsub main_v102 rfl (by decide), href_wsub main_v103 rfl (by decide)⟩

end Cert.ReferenceIdeal.Hand

end
-- ==== Proof.Ref.Ops2.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 2 of @main as a list of 66 operations, in order: its own statements as printed, and at each call of an
    outlined function that function's operations over the call's operands and the call's own buffers. -/
abbrev ops2 : List (HloOp τ sig (Elt F)) :=
  [ StableHlo.TRef.nullary main_call6.cst (constant S_ .f32 0x00000000#32),  -- in %104 = func.call @relu_1(%103) : (tensor<50x128xf32>) -> tensor<50x128xf32>  @ reference:31
    StableHlo.TRef.unary main_call6.cst main_call6.v0 (broadcastInDim S50x128 ![] bcast_S_S50x128),  -- in %104 = func.call @relu_1(%103) : (tensor<50x128xf32>) -> tensor<50x128xf32>  @ reference:31
    StableHlo.TRef.binary (.of main_v103 : StableHlo.TRef sig ⟨S50x128, .f32⟩) main_call6.v0 main_call6.v1 maximumf,  -- in %104 = func.call @relu_1(%103) : (tensor<50x128xf32>) -> tensor<50x128xf32>  @ reference:31
    StableHlo.unary main_arg11 main_v105 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %105 = stablehlo.slice %arg11 [1:2, 0:128, 0:128] : (tensor<2x128x128xf32>) -> tensor<1x128x128xf32>  @ reference:31
    StableHlo.reshape main_v105 main_v106 rfl shapeCasts_S1x128x128_S128x128,  -- %106 = stablehlo.reshape %105 : (tensor<1x128x128xf32>) -> tensor<128x128xf32>  @ reference:31
    StableHlo.binary main_v104 main_v106 main_v107 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %107 = stablehlo.dot_general %104, %106, contracting_dims = [1] x [0], precision = [DEFAULT, DEFAULT] : (tensor<50x128xf32>, tensor<128x128xf32>) -> tensor<50x128xf32>  @ reference:31
    StableHlo.unary main_arg12 main_v108 ((extractStridedSlice S1x128 ![1, 0] · slices_S2x128_S1x128_1_0) : (⟨S2x128, .f32⟩ : BufTy).Contents (Elt F) → (⟨S1x128, .f32⟩ : BufTy).Contents (Elt F)),  -- %108 = stablehlo.slice %arg12 [1:2, 0:128] : (tensor<2x128xf32>) -> tensor<1x128xf32>  @ reference:31
    StableHlo.reshape main_v108 main_v109 rfl shapeCasts_S1x128_S128,  -- %109 = stablehlo.reshape %108 : (tensor<1x128xf32>) -> tensor<128xf32>  @ reference:31
    StableHlo.unary main_v109 main_v110 (broadcastInDim S1x128 ![1] bcast_S128_S1x128_1 : (⟨S128, .f32⟩ : BufTy).Contents (Elt F) → (⟨S1x128, .f32⟩ : BufTy).Contents (Elt F)),  -- %110 = stablehlo.broadcast_in_dim %109, dims = [1] : (tensor<128xf32>) -> tensor<1x128xf32>  @ reference:31
    StableHlo.unary main_v110 main_v111 (broadcastInDim S50x128 ![0, 1] bcast_S1x128_S50x128_0_1 : (⟨S1x128, .f32⟩ : BufTy).Contents (Elt F) → (⟨S50x128, .f32⟩ : BufTy).Contents (Elt F)),  -- %111 = stablehlo.broadcast_in_dim %110, dims = [0, 1] : (tensor<1x128xf32>) -> tensor<50x128xf32>  @ reference:31
    StableHlo.binary main_v107 main_v111 main_v112 (addf : (⟨S50x128, .f32⟩ : BufTy).Contents (Elt F) → (⟨S50x128, .f32⟩ : BufTy).Contents (Elt F) → (⟨S50x128, .f32⟩ : BufTy).Contents (Elt F)),  -- %112 = stablehlo.add %107, %111 : tensor<50x128xf32>  @ reference:31
    StableHlo.TRef.nullary main_call7.cst (constant S_ .f32 0x00000000#32),  -- in %113 = func.call @relu_1(%112) : (tensor<50x128xf32>) -> tensor<50x128xf32>  @ reference:31
    StableHlo.TRef.unary main_call7.cst main_call7.v0 (broadcastInDim S50x128 ![] bcast_S_S50x128),  -- in %113 = func.call @relu_1(%112) : (tensor<50x128xf32>) -> tensor<50x128xf32>  @ reference:31
    StableHlo.TRef.binary (.of main_v112 : StableHlo.TRef sig ⟨S50x128, .f32⟩) main_call7.v0 main_call7.v1 maximumf,  -- in %113 = func.call @relu_1(%112) : (tensor<50x128xf32>) -> tensor<50x128xf32>  @ reference:31
    StableHlo.nullary main_cst_14 (constant S_ .f32 0x00000000#32),  -- %cst_14 = stablehlo.constant dense<0.000000e+00> : tensor<f32>
    StableHlo.unary main_cst_14 main_v114 (broadcastInDim S2000x128 ![] bcast_S_S2000x128 : (⟨S_, .f32⟩ : BufTy).Contents (Elt F) → (⟨S2000x128, .f32⟩ : BufTy).Contents (Elt F)),  -- %114 = stablehlo.broadcast_in_dim %cst_14, dims = [] : (tensor<f32>) -> tensor<2000x128xf32>  @ reference:15
    StableHlo.unary main_v6 main_v115 (broadcastInDim S100000x1 ![0] bcast_S100000_S100000x1_0 : (⟨S100000, .i32⟩ : BufTy).Contents (Elt F) → (⟨S100000x1, .i32⟩ : BufTy).Contents (Elt F)),  -- %115 = stablehlo.broadcast_in_dim %6, dims = [0] : (tensor<100000xi32>) -> tensor<100000x1xi32>  @ reference:15
    StableHlo.ternary main_v114 main_v115 main_v77 main_v116 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),  -- %116 = "stablehlo.scatter"(%114, %115, %77) <{indices_are_sorted = false, scatter_dimension_numbers = #stablehlo.scatter<update_window_dims = [1], inserted_window_dims = [0], scatter_dims_to_operand_dims = [0], index_vector_dim = 1>, unique_indices = false}> ( {  @ reference:15
    StableHlo.nullary main_cst_15 (constant S_ .f32 0x3F800000#32),  -- %cst_15 = stablehlo.constant dense<1.000000e+00> : tensor<f32>
    StableHlo.unary main_cst_15 main_v117 (broadcastInDim S100000x1 ![] bcast_S_S100000x1 : (⟨S_, .f32⟩ : BufTy).Contents (Elt F) → (⟨S100000x1, .f32⟩ : BufTy).Contents (Elt F)),  -- %117 = stablehlo.broadcast_in_dim %cst_15, dims = [] : (tensor<f32>) -> tensor<100000x1xf32>  @ reference:16
    StableHlo.nullary main_cst_16 (constant S_ .f32 0x00000000#32),  -- %cst_16 = stablehlo.constant dense<0.000000e+00> : tensor<f32>
    StableHlo.unary main_cst_16 main_v118 (broadcastInDim S2000x1 ![] bcast_S_S2000x1 : (⟨S_, .f32⟩ : BufTy).Contents (Elt F) → (⟨S2000x1, .f32⟩ : BufTy).Contents (Elt F)),  -- %118 = stablehlo.broadcast_in_dim %cst_16, dims = [] : (tensor<f32>) -> tensor<2000x1xf32>  @ reference:16
    StableHlo.unary main_v6 main_v119 (broadcastInDim S100000x1 ![0] bcast_S100000_S100000x1_0 : (⟨S100000, .i32⟩ : BufTy).Contents (Elt F) → (⟨S100000x1, .i32⟩ : BufTy).Contents (Elt F)),  -- %119 = stablehlo.broadcast_in_dim %6, dims = [0] : (tensor<100000xi32>) -> tensor<100000x1xi32>  @ reference:16
    StableHlo.ternary main_v118 main_v119 main_v117 main_v120 ((fun x i u => Host.scatterAdd scatter_S2000x1_S100000x1_S100000x1_1_0_0_1 x i u) : (⟨S2000x1, .f32⟩ : BufTy).Contents (Elt F) → (⟨S100000x1, .i32⟩ : BufTy).Contents (Elt F) → (⟨S100000x1, .f32⟩ : BufTy).Contents (Elt F) → (⟨S2000x1, .f32⟩ : BufTy).Contents (Elt F)),  -- %120 = "stablehlo.scatter"(%118, %119, %117) <{indices_are_sorted = false, scatter_dimension_numbers = #stablehlo.scatter<update_window_dims = [1], inserted_window_dims = [0], scatter_dims_to_operand_dims = [0], index_vector_dim = 1>, unique_indices = false}> ( {  @ reference:16
    StableHlo.nullary main_cst_17 (constant S_ .f32 0x3F800000#32),  -- %cst_17 = stablehlo.constant dense<1.000000e+00> : tensor<f32>
    StableHlo.unary main_cst_17 main_v121 (broadcastInDim S2000x1 ![] bcast_S_S2000x1 : (⟨S_, .f32⟩ : BufTy).Contents (Elt F) → (⟨S2000x1, .f32⟩ : BufTy).Contents (Elt F)),  -- %121 = stablehlo.broadcast_in_dim %cst_17, dims = [] : (tensor<f32>) -> tensor<2000x1xf32>  @ reference:17
    StableHlo.binary main_v120 main_v121 main_v122 (maximumf : (⟨S2000x1, .f32⟩ : BufTy).Contents (Elt F) → (⟨S2000x1, .f32⟩ : BufTy).Contents (Elt F) → (⟨S2000x1, .f32⟩ : BufTy).Contents (Elt F)),  -- %122 = stablehlo.maximum %120, %121 : tensor<2000x1xf32>  @ reference:17
    StableHlo.unary main_v122 main_v123 (broadcastInDim S2000x128 ![0, 1] bcast_S2000x1_S2000x128_0_1 : (⟨S2000x1, .f32⟩ : BufTy).Contents (Elt F) → (⟨S2000x128, .f32⟩ : BufTy).Contents (Elt F)),  -- %123 = stablehlo.broadcast_in_dim %122, dims = [0, 1] : (tensor<2000x1xf32>) -> tensor<2000x128xf32>  @ reference:17
    StableHlo.binary main_v116 main_v123 main_v124 (Host.divf : (⟨S2000x128, .f32⟩ : BufTy).Contents (Elt F) → (⟨S2000x128, .f32⟩ : BufTy).Contents (Elt F) → (⟨S2000x128, .f32⟩ : BufTy).Contents (Elt F)),  -- %124 = stablehlo.divide %116, %123 : tensor<2000x128xf32>  @ reference:17
    StableHlo.nullary main_cst_18 (constant S_ .f32 0x00000000#32),  -- %cst_18 = stablehlo.constant dense<0.000000e+00> : tensor<f32>
    StableHlo.unary main_cst_18 main_v125 (broadcastInDim S50x128 ![] bcast_S_S50x128 : (⟨S_, .f32⟩ : BufTy).Contents (Elt F) → (⟨S50x128, .f32⟩ : BufTy).Contents (Elt F)),  -- %125 = stablehlo.broadcast_in_dim %cst_18, dims = [] : (tensor<f32>) -> tensor<50x128xf32>  @ reference:15
    StableHlo.unary main_v8 main_v126 (broadcastInDim S2000x1 ![0] bcast_S2000_S2000x1_0 : (⟨S2000, .i32⟩ : BufTy).Contents (Elt F) → (⟨S2000x1, .i32⟩ : BufTy).Contents (Elt F)),  -- %126 = stablehlo.broadcast_in_dim %8, dims = [0] : (tensor<2000xi32>) -> tensor<2000x1xi32>  @ reference:15
    StableHlo.ternary main_v125 main_v126 main_v95 main_v127 ((fun x i u => Host.scatterAdd scatter_S50x128_S2000x1_S2000x128_1_0_0_1 x i u) : (⟨S50x128, .f32⟩ : BufTy).Contents (Elt F) → (⟨S2000x1, .i32⟩ : BufTy).Contents (Elt F) → (⟨S2000x128, .f32⟩ : BufTy).Contents (Elt F) → (⟨S50x128, .f32⟩ : BufTy).Contents (Elt F)),  -- %127 = "stablehlo.scatter"(%125, %126, %95) <{indices_are_sorted = false, scatter_dimension_numbers = #stablehlo.scatter<update_window_dims = [1], inserted_window_dims = [0], scatter_dims_to_operand_dims = [0], index_vector_dim = 1>, unique_indices = false}> ( {  @ reference:15
    StableHlo.nullary main_cst_19 (constant S_ .f32 0x3F800000#32),  -- %cst_19 = stablehlo.constant dense<1.000000e+00> : tensor<f32>
    StableHlo.unary main_cst_19 main_v128 (broadcastInDim S2000x1 ![] bcast_S_S2000x1 : (⟨S_, .f32⟩ : BufTy).Contents (Elt F) → (⟨S2000x1, .f32⟩ : BufTy).Contents (Elt F)),  -- %128 = stablehlo.broadcast_in_dim %cst_19, dims = [] : (tensor<f32>) -> tensor<2000x1xf32>  @ reference:16
    StableHlo.nullary main_cst_20 (constant S_ .f32 0x00000000#32),  -- %cst_20 = stablehlo.constant dense<0.000000e+00> : tensor<f32>
    StableHlo.unary main_cst_20 main_v129 (broadcastInDim S50x1 ![] bcast_S_S50x1 : (⟨S_, .f32⟩ : BufTy).Contents (Elt F) → (⟨S50x1, .f32⟩ : BufTy).Contents (Elt F)),  -- %129 = stablehlo.broadcast_in_dim %cst_20, dims = [] : (tensor<f32>) -> tensor<50x1xf32>  @ reference:16
    StableHlo.unary main_v8 main_v130 (broadcastInDim S2000x1 ![0] bcast_S2000_S2000x1_0 : (⟨S2000, .i32⟩ : BufTy).Contents (Elt F) → (⟨S2000x1, .i32⟩ : BufTy).Contents (Elt F)),  -- %130 = stablehlo.broadcast_in_dim %8, dims = [0] : (tensor<2000xi32>) -> tensor<2000x1xi32>  @ reference:16
    StableHlo.ternary main_v129 main_v130 main_v128 main_v131 ((fun x i u => Host.scatterAdd scatter_S50x1_S2000x1_S2000x1_1_0_0_1 x i u) : (⟨S50x1, .f32⟩ : BufTy).Contents (Elt F) → (⟨S2000x1, .i32⟩ : BufTy).Contents (Elt F) → (⟨S2000x1, .f32⟩ : BufTy).Contents (Elt F) → (⟨S50x1, .f32⟩ : BufTy).Contents (Elt F)),  -- %131 = "stablehlo.scatter"(%129, %130, %128) <{indices_are_sorted = false, scatter_dimension_numbers = #stablehlo.scatter<update_window_dims = [1], inserted_window_dims = [0], scatter_dims_to_operand_dims = [0], index_vector_dim = 1>, unique_indices = false}> ( {  @ reference:16
    StableHlo.nullary main_cst_21 (constant S_ .f32 0x3F800000#32),  -- %cst_21 = stablehlo.constant dense<1.000000e+00> : tensor<f32>
    StableHlo.unary main_cst_21 main_v132 (broadcastInDim S50x1 ![] bcast_S_S50x1 : (⟨S_, .f32⟩ : BufTy).Contents (Elt F) → (⟨S50x1, .f32⟩ : BufTy).Contents (Elt F)),  -- %132 = stablehlo.broadcast_in_dim %cst_21, dims = [] : (tensor<f32>) -> tensor<50x1xf32>  @ reference:17
    StableHlo.binary main_v131 main_v132 main_v133 (maximumf : (⟨S50x1, .f32⟩ : BufTy).Contents (Elt F) → (⟨S50x1, .f32⟩ : BufTy).Contents (Elt F) → (⟨S50x1, .f32⟩ : BufTy).Contents (Elt F)),  -- %133 = stablehlo.maximum %131, %132 : tensor<50x1xf32>  @ reference:17
    StableHlo.unary main_v133 main_v134 (broadcastInDim S50x128 ![0, 1] bcast_S50x1_S50x128_0_1 : (⟨S50x1, .f32⟩ : BufTy).Contents (Elt F) → (⟨S50x128, .f32⟩ : BufTy).Contents (Elt F)),  -- %134 = stablehlo.broadcast_in_dim %133, dims = [0, 1] : (tensor<50x1xf32>) -> tensor<50x128xf32>  @ reference:17
    StableHlo.binary main_v127 main_v134 main_v135 (Host.divf : (⟨S50x128, .f32⟩ : BufTy).Contents (Elt F) → (⟨S50x128, .f32⟩ : BufTy).Contents (Elt F) → (⟨S50x128, .f32⟩ : BufTy).Contents (Elt F)),  -- %135 = stablehlo.divide %127, %134 : tensor<50x128xf32>  @ reference:17
    StableHlo.binary main_v77 main_arg20 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %136 = stablehlo.dot_general %77, %arg20, contracting_dims = [1] x [0], precision = [DEFAULT, DEFAULT] : (tensor<100000x128xf32>, tensor<128x128xf32>) -> tensor<100000x128xf32>  @ reference:53
    StableHlo.nullary main_c_22 (constantI S_ 32 0#32),  -- %c_22 = stablehlo.constant dense<0> : tensor<i32>
    StableHlo.unary main_c_22 main_v137 (broadcastInDim S100000 ![] bcast_S_S100000 : (⟨S_, .i32⟩ : BufTy).Contents (Elt F) → (⟨S100000, .i32⟩ : BufTy).Contents (Elt F)),  -- %137 = stablehlo.broadcast_in_dim %c_22, dims = [] : (tensor<i32>) -> tensor<100000xi32>  @ reference:53
    StableHlo.binary main_v6 main_v137 main_v138 (cmpi .slt : (⟨S100000, .i32⟩ : BufTy).Contents (Elt F) → (⟨S100000, .i32⟩ : BufTy).Contents (Elt F) → (⟨S100000, .i1⟩ : BufTy).Contents (Elt F)),  -- %138 = stablehlo.compare LT, %6, %137, SIGNED : (tensor<100000xi32>, tensor<100000xi32>) -> tensor<100000xi1>  @ reference:53
    StableHlo.nullary main_c_23 (constantI S_ 32 2000#32),  -- %c_23 = stablehlo.constant dense<2000> : tensor<i32>
    StableHlo.unary main_c_23 main_v139 (broadcastInDim S100000 ![] bcast_S_S100000 : (⟨S_, .i32⟩ : BufTy).Contents (Elt F) → (⟨S100000, .i32⟩ : BufTy).Contents (Elt F)),  -- %139 = stablehlo.broadcast_in_dim %c_23, dims = [] : (tensor<i32>) -> tensor<100000xi32>  @ reference:53
    StableHlo.binary main_v6 main_v139 main_v140 (addi : (⟨S100000, .i32⟩ : BufTy).Contents (Elt F) → (⟨S100000, .i32⟩ : BufTy).Contents (Elt F) → (⟨S100000, .i32⟩ : BufTy).Contents (Elt F)),  -- %140 = stablehlo.add %6, %139 : tensor<100000xi32>  @ reference:53
    StableHlo.ternary main_v138 main_v140 main_v6 main_v141 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),  -- %141 = stablehlo.select %138, %140, %6 : tensor<100000xi1>, tensor<100000xi32>  @ reference:53
    StableHlo.unary main_v141 main_v142 (broadcastInDim S100000x1 ![0] bcast_S100000_S100000x1_0 : (⟨S100000, .i32⟩ : BufTy).Contents (Elt F) → (⟨S100000x1, .i32⟩ : BufTy).Contents (Elt F)),  -- %142 = stablehlo.broadcast_in_dim %141, dims = [0] : (tensor<100000xi32>) -> tensor<100000x1xi32>  @ reference:53
    StableHlo.binary main_v95 main_v142 main_v143 ((fun x i => Host.gather gather_S2000x128_S100000x1_S100000x128_1_0_n_n_0_1_1128 x i) : (⟨S2000x128, .f32⟩ : BufTy).Contents (Elt F) → (⟨S100000x1, .i32⟩ : BufTy).Contents (Elt F) → (⟨S100000x128, .f32⟩ : BufTy).Contents (Elt F)),  -- %143 = "stablehlo.gather"(%95, %142) <{dimension_numbers = #stablehlo.gather<offset_dims = [1], collapsed_slice_dims = [0], start_index_map = [0], index_vector_dim = 1>, indices_are_sorted = false, slice_sizes = array<i64: 1, 128>}> : (tensor<2000x128xf32>, tensor<100000x1xi32>) -> tensor<100000x128xf32>  @ reference:53
    StableHlo.binary main_v143 main_arg25 main_v144 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %144 = stablehlo.dot_general %143, %arg25, contracting_dims = [1] x [0], precision = [DEFAULT, DEFAULT] : (tensor<100000x128xf32>, tensor<128x128xf32>) -> tensor<100000x128xf32>  @ reference:53
    StableHlo.binary main_v136 main_v144 main_v145 (addf : (⟨S100000x128, .f32⟩ : BufTy).Contents (Elt F) → (⟨S100000x128, .f32⟩ : BufTy).Contents (Elt F) → (⟨S100000x128, .f32⟩ : BufTy).Contents (Elt F)),  -- %145 = stablehlo.add %136, %144 : tensor<100000x128xf32>  @ reference:53
    StableHlo.unary main_arg27 main_v146 (broadcastInDim S1x128 ![1] bcast_S128_S1x128_1 : (⟨S128, .f32⟩ : BufTy).Contents (Elt F) → (⟨S1x128, .f32⟩ : BufTy).Contents (Elt F)),  -- %146 = stablehlo.broadcast_in_dim %arg27, dims = [1] : (tensor<128xf32>) -> tensor<1x128xf32>  @ reference:53
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),  -- %147 = stablehlo.broadcast_in_dim %146, dims = [0, 1] : (tensor<1x128xf32>) -> tensor<100000x128xf32>  @ reference:53
    StableHlo.binary main_v145 main_v147 main_v148 (addf : (⟨S100000x128, .f32⟩ : BufTy).Contents (Elt F) → (⟨S100000x128, .f32⟩ : BufTy).Contents (Elt F) → (⟨S100000x128, .f32⟩ : BufTy).Contents (Elt F)),  -- %148 = stablehlo.add %145, %147 : tensor<100000x128xf32>  @ reference:53
    StableHlo.TRef.nullary main_call8.cst (constant S_ .f32 0x00000000#32),  -- in %149 = func.call @relu(%148) : (tensor<100000x128xf32>) -> tensor<100000x128xf32>  @ reference:53
    StableHlo.TRef.unary main_call8.cst main_call8.v0 (broadcastInDim S100000x128 ![] bcast_S_S100000x128),  -- in %149 = func.call @relu(%148) : (tensor<100000x128xf32>) -> tensor<100000x128xf32>  @ reference:53
    StableHlo.TRef.binary (.of main_v148 : StableHlo.TRef sig ⟨S100000x128, .f32⟩) main_call8.v0 main_call8.v1 maximumf,  -- in %149 = func.call @relu(%148) : (tensor<100000x128xf32>) -> tensor<100000x128xf32>  @ reference:53
    StableHlo.binary main_v95 main_arg21 main_v150 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %150 = stablehlo.dot_general %95, %arg21, contracting_dims = [1] x [0], precision = [DEFAULT, DEFAULT] : (tensor<2000x128xf32>, tensor<128x128xf32>) -> tensor<2000x128xf32>  @ reference:54
    StableHlo.binary main_v124 main_arg23 main_v151 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %151 = stablehlo.dot_general %124, %arg23, contracting_dims = [1] x [0], precision = [DEFAULT, DEFAULT] : (tensor<2000x128xf32>, tensor<128x128xf32>) -> tensor<2000x128xf32>  @ reference:54
    StableHlo.binary main_v150 main_v151 main_v152 (addf : (⟨S2000x128, .f32⟩ : BufTy).Contents (Elt F) → (⟨S2000x128, .f32⟩ : BufTy).Contents (Elt F) → (⟨S2000x128, .f32⟩ : BufTy).Contents (Elt F)),  -- %152 = stablehlo.add %150, %151 : tensor<2000x128xf32>  @ reference:54
    StableHlo.nullary main_c_24 (constantI S_ 32 0#32) ]  -- %c_24 = stablehlo.constant dense<0> : tensor<i32>

set_option maxRecDepth 4096 in
/-- Part 2 is that straight line: the called functions unfolded at their calls, both sides are one chain of
    single operations once the sequencing is reassociated. -/
theorem main_part2_eq (c : Dev nD) : main_part2 (F := F) c = seq ops2 := by
  simp only [main_part2, fn_relu.body, fn_relu_1.body, seq, bind_assoc, pure_bind]
  rfl

/-- Every operation of the part touches TensorCore references only. -/
theorem ops2_sub : (ops2 : List (HloOp τ sig (Elt F))).Forall fun op => op.bufs ⊆ tcRefs τ sig :=
  ⟨nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., binary_bufs_sub .., binary_bufs_sub .., binary_bufs_sub .., nullary_bufs_sub ..⟩

/-- Every operation of the part determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The references the part's operations write: one each, its result. -/
abbrev href_W2 : List (Ref sig .tc) :=
  [main_call6.cst.ref, main_call6.v0.ref, main_call6.v1.ref, main_v105, main_v106, main_v107, main_v108, main_v109,
   main_v110, main_v111, main_v112, main_call7.cst.ref, main_call7.v0.ref, main_call7.v1.ref, main_cst_14, main_v114,
   main_v115, main_v116, main_cst_15, main_v117, main_cst_16, main_v118, main_v119, main_v120,
   main_cst_17, main_v121, main_v122, main_v123, main_v124, main_cst_18, main_v125, main_v126,
   main_v127, main_cst_19, main_v128, main_cst_20, main_v129, main_v130, main_v131, main_cst_21,
   main_v132, main_v133, main_v134, main_v135, main_v136, main_c_22, main_v137, main_v138,
   main_c_23, main_v139, main_v140, main_v141, main_v142, main_v143, main_v144, main_v145,
   main_v146, main_v147, main_v148, main_call8.cst.ref, main_call8.v0.ref, main_call8.v1.ref, main_v150, main_v151,
   main_v152, main_c_24]

theorem ops2_writes : (ops2 : List (HloOp τ sig (Elt F))).Forall fun op =>
    op.writes ⊆ (href_W2.map (Proc.devRef (τ := τ) .tc)).toFinset :=
  ⟨href_wsub main_call6.cst.ref rfl (by decide), href_wsub main_call6.v0.ref rfl (by decide), href_wsub main_call6.v1.ref rfl (by decide),
    href_wsub main_v105 rfl (by decide), href_wsub main_v106 rfl (by decide), href_wsub main_v107 rfl (by decide),
    href_wsub main_v108 rfl (by decide), href_wsub main_v109 rfl (by decide), href_wsub main_v110 rfl (by decide),
    href_wsub main_v111 rfl (by decide), href_wsub main_v112 rfl (by decide), href_wsub main_call7.cst.ref rfl (by decide),
    href_wsub main_call7.v0.ref rfl (by decide), href_wsub main_call7.v1.ref rfl (by decide), href_wsub main_cst_14 rfl (by decide),
    href_wsub main_v114 rfl (by decide), href_wsub main_v115 rfl (by decide), href_wsub main_v116 rfl (by decide),
    href_wsub main_cst_15 rfl (by decide), href_wsub main_v117 rfl (by decide), href_wsub main_cst_16 rfl (by decide),
    href_wsub main_v118 rfl (by decide), href_wsub main_v119 rfl (by decide), href_wsub main_v120 rfl (by decide),
    href_wsub main_cst_17 rfl (by decide), href_wsub main_v121 rfl (by decide), href_wsub main_v122 rfl (by decide),
    href_wsub main_v123 rfl (by decide), href_wsub main_v124 rfl (by decide), href_wsub main_cst_18 rfl (by decide),
    href_wsub main_v125 rfl (by decide), href_wsub main_v126 rfl (by decide), href_wsub main_v127 rfl (by decide),
    href_wsub main_cst_19 rfl (by decide), href_wsub main_v128 rfl (by decide), href_wsub main_cst_20 rfl (by decide),
    href_wsub main_v129 rfl (by decide), href_wsub main_v130 rfl (by decide), href_wsub main_v131 rfl (by decide),
    href_wsub main_cst_21 rfl (by decide), href_wsub main_v132 rfl (by decide), href_wsub main_v133 rfl (by decide),
    href_wsub main_v134 rfl (by decide), href_wsub main_v135 rfl (by decide), href_wsub main_v136 rfl (by decide),
    href_wsub main_c_22 rfl (by decide), href_wsub main_v137 rfl (by decide), href_wsub main_v138 rfl (by decide),
    href_wsub main_c_23 rfl (by decide), href_wsub main_v139 rfl (by decide), href_wsub main_v140 rfl (by decide),
    href_wsub main_v141 rfl (by decide), href_wsub main_v142 rfl (by decide), href_wsub main_v143 rfl (by decide),
    href_wsub main_v144 rfl (by decide), href_wsub main_v145 rfl (by decide), href_wsub main_v146 rfl (by decide),
    href_wsub main_v147 rfl (by decide), href_wsub main_v148 rfl (by decide), href_wsub main_call8.cst.ref rfl (by decide),
    href_wsub main_call8.v0.ref rfl (by decide), href_wsub main_call8.v1.ref rfl (by decide), href_wsub main_v150 rfl (by decide),
    href_wsub main_v151 rfl (by decide), href_wsub main_v152 rfl (by decide), href_wsub main_c_24 rfl (by decide)⟩

end Cert.ReferenceIdeal.Hand

end
-- ==== Proof.Ref.Ops3.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 3 of @main as a list of 66 operations, in order: its own statements as printed, and at each call of an
    outlined function that function's operations over the call's operands and the call's own buffers. -/
abbrev ops3 : List (HloOp τ sig (Elt F)) :=
  [ StableHlo.unary main_c_24 main_v153 (broadcastInDim S2000 ![] bcast_S_S2000 : (⟨S_, .i32⟩ : BufTy).Contents (Elt F) → (⟨S2000, .i32⟩ : BufTy).Contents (Elt F)),  -- %153 = stablehlo.broadcast_in_dim %c_24, dims = [] : (tensor<i32>) -> tensor<2000xi32>  @ reference:54
    StableHlo.binary main_v8 main_v153 main_v154 (cmpi .slt : (⟨S2000, .i32⟩ : BufTy).Contents (Elt F) → (⟨S2000, .i32⟩ : BufTy).Contents (Elt F) → (⟨S2000, .i1⟩ : BufTy).Contents (Elt F)),  -- %154 = stablehlo.compare LT, %8, %153, SIGNED : (tensor<2000xi32>, tensor<2000xi32>) -> tensor<2000xi1>  @ reference:54
    StableHlo.nullary main_c_25 (constantI S_ 32 50#32),  -- %c_25 = stablehlo.constant dense<50> : tensor<i32>
    StableHlo.unary main_c_25 main_v155 (broadcastInDim S2000 ![] bcast_S_S2000 : (⟨S_, .i32⟩ : BufTy).Contents (Elt F) → (⟨S2000, .i32⟩ : BufTy).Contents (Elt F)),  -- %155 = stablehlo.broadcast_in_dim %c_25, dims = [] : (tensor<i32>) -> tensor<2000xi32>  @ reference:54
    StableHlo.binary main_v8 main_v155 main_v156 (addi : (⟨S2000, .i32⟩ : BufTy).Contents (Elt F) → (⟨S2000, .i32⟩ : BufTy).Contents (Elt F) → (⟨S2000, .i32⟩ : BufTy).Contents (Elt F)),  -- %156 = stablehlo.add %8, %155 : tensor<2000xi32>  @ reference:54
    StableHlo.ternary main_v154 main_v156 main_v8 main_v157 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),  -- %157 = stablehlo.select %154, %156, %8 : tensor<2000xi1>, tensor<2000xi32>  @ reference:54
    StableHlo.unary main_v157 main_v158 (broadcastInDim S2000x1 ![0] bcast_S2000_S2000x1_0 : (⟨S2000, .i32⟩ : BufTy).Contents (Elt F) → (⟨S2000x1, .i32⟩ : BufTy).Contents (Elt F)),  -- %158 = stablehlo.broadcast_in_dim %157, dims = [0] : (tensor<2000xi32>) -> tensor<2000x1xi32>  @ reference:54
    StableHlo.binary main_v113 main_v158 main_v159 ((fun x i => Host.gather gather_S50x128_S2000x1_S2000x128_1_0_n_n_0_1_1128 x i) : (⟨S50x128, .f32⟩ : BufTy).Contents (Elt F) → (⟨S2000x1, .i32⟩ : BufTy).Contents (Elt F) → (⟨S2000x128, .f32⟩ : BufTy).Contents (Elt F)),  -- %159 = "stablehlo.gather"(%113, %158) <{dimension_numbers = #stablehlo.gather<offset_dims = [1], collapsed_slice_dims = [0], start_index_map = [0], index_vector_dim = 1>, indices_are_sorted = false, slice_sizes = array<i64: 1, 128>}> : (tensor<50x128xf32>, tensor<2000x1xi32>) -> tensor<2000x128xf32>  @ reference:54
    StableHlo.binary main_v159 main_arg26 main_v160 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %160 = stablehlo.dot_general %159, %arg26, contracting_dims = [1] x [0], precision = [DEFAULT, DEFAULT] : (tensor<2000x128xf32>, tensor<128x128xf32>) -> tensor<2000x128xf32>  @ reference:54
    StableHlo.binary main_v152 main_v160 main_v161 (addf : (⟨S2000x128, .f32⟩ : BufTy).Contents (Elt F) → (⟨S2000x128, .f32⟩ : BufTy).Contents (Elt F) → (⟨S2000x128, .f32⟩ : BufTy).Contents (Elt F)),  -- %161 = stablehlo.add %152, %160 : tensor<2000x128xf32>  @ reference:54
    StableHlo.unary main_arg28 main_v162 (broadcastInDim S1x128 ![1] bcast_S128_S1x128_1 : (⟨S128, .f32⟩ : BufTy).Contents (Elt F) → (⟨S1x128, .f32⟩ : BufTy).Contents (Elt F)),  -- %162 = stablehlo.broadcast_in_dim %arg28, dims = [1] : (tensor<128xf32>) -> tensor<1x128xf32>  @ reference:54
    StableHlo.unary main_v162 main_v163 (broadcastInDim S2000x128 ![0, 1] bcast_S1x128_S2000x128_0_1 : (⟨S1x128, .f32⟩ : BufTy).Contents (Elt F) → (⟨S2000x128, .f32⟩ : BufTy).Contents (Elt F)),  -- %163 = stablehlo.broadcast_in_dim %162, dims = [0, 1] : (tensor<1x128xf32>) -> tensor<2000x128xf32>  @ reference:54
    StableHlo.binary main_v161 main_v163 main_v164 (addf : (⟨S2000x128, .f32⟩ : BufTy).Contents (Elt F) → (⟨S2000x128, .f32⟩ : BufTy).Contents (Elt F) → (⟨S2000x128, .f32⟩ : BufTy).Contents (Elt F)),  -- %164 = stablehlo.add %161, %163 : tensor<2000x128xf32>  @ reference:54
    StableHlo.TRef.nullary main_call9.cst (constant S_ .f32 0x00000000#32),  -- in %165 = func.call @relu_0(%164) : (tensor<2000x128xf32>) -> tensor<2000x128xf32>  @ reference:54
    StableHlo.TRef.unary main_call9.cst main_call9.v0 (broadcastInDim S2000x128 ![] bcast_S_S2000x128),  -- in %165 = func.call @relu_0(%164) : (tensor<2000x128xf32>) -> tensor<2000x128xf32>  @ reference:54
    StableHlo.TRef.binary (.of main_v164 : StableHlo.TRef sig ⟨S2000x128, .f32⟩) main_call9.v0 main_call9.v1 maximumf,  -- in %165 = func.call @relu_0(%164) : (tensor<2000x128xf32>) -> tensor<2000x128xf32>  @ reference:54
    StableHlo.binary main_v113 main_arg22 main_v166 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %166 = stablehlo.dot_general %113, %arg22, contracting_dims = [1] x [0], precision = [DEFAULT, DEFAULT] : (tensor<50x128xf32>, tensor<128x128xf32>) -> tensor<50x128xf32>  @ reference:55
    StableHlo.binary main_v135 main_arg24 main_v167 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %167 = stablehlo.dot_general %135, %arg24, contracting_dims = [1] x [0], precision = [DEFAULT, DEFAULT] : (tensor<50x128xf32>, tensor<128x128xf32>) -> tensor<50x128xf32>  @ reference:55
    StableHlo.binary main_v166 main_v167 main_v168 (addf : (⟨S50x128, .f32⟩ : BufTy).Contents (Elt F) → (⟨S50x128, .f32⟩ : BufTy).Contents (Elt F) → (⟨S50x128, .f32⟩ : BufTy).Contents (Elt F)),  -- %168 = stablehlo.add %166, %167 : tensor<50x128xf32>  @ reference:55
    StableHlo.unary main_arg29 main_v169 (broadcastInDim S1x128 ![1] bcast_S128_S1x128_1 : (⟨S128, .f32⟩ : BufTy).Contents (Elt F) → (⟨S1x128, .f32⟩ : BufTy).Contents (Elt F)),  -- %169 = stablehlo.broadcast_in_dim %arg29, dims = [1] : (tensor<128xf32>) -> tensor<1x128xf32>  @ reference:55
    StableHlo.unary main_v169 main_v170 (broadcastInDim S50x128 ![0, 1] bcast_S1x128_S50x128_0_1 : (⟨S1x128, .f32⟩ : BufTy).Contents (Elt F) → (⟨S50x128, .f32⟩ : BufTy).Contents (Elt F)),  -- %170 = stablehlo.broadcast_in_dim %169, dims = [0, 1] : (tensor<1x128xf32>) -> tensor<50x128xf32>  @ reference:55
    StableHlo.binary main_v168 main_v170 main_v171 (addf : (⟨S50x128, .f32⟩ : BufTy).Contents (Elt F) → (⟨S50x128, .f32⟩ : BufTy).Contents (Elt F) → (⟨S50x128, .f32⟩ : BufTy).Contents (Elt F)),  -- %171 = stablehlo.add %168, %170 : tensor<50x128xf32>  @ reference:55
    StableHlo.TRef.nullary main_call10.cst (constant S_ .f32 0x00000000#32),  -- in %172 = func.call @relu_1(%171) : (tensor<50x128xf32>) -> tensor<50x128xf32>  @ reference:55
    StableHlo.TRef.unary main_call10.cst main_call10.v0 (broadcastInDim S50x128 ![] bcast_S_S50x128),  -- in %172 = func.call @relu_1(%171) : (tensor<50x128xf32>) -> tensor<50x128xf32>  @ reference:55
    StableHlo.TRef.binary (.of main_v171 : StableHlo.TRef sig ⟨S50x128, .f32⟩) main_call10.v0 main_call10.v1 maximumf,  -- in %172 = func.call @relu_1(%171) : (tensor<50x128xf32>) -> tensor<50x128xf32>  @ reference:55
    StableHlo.nullary main_c_26 (constantI S_ 32 0#32),  -- %c_26 = stablehlo.constant dense<0> : tensor<i32>
    StableHlo.unary main_c_26 main_v173 (broadcastInDim S600000 ![] bcast_S_S600000 : (⟨S_, .i32⟩ : BufTy).Contents (Elt F) → (⟨S600000, .i32⟩ : BufTy).Contents (Elt F)),  -- %173 = stablehlo.broadcast_in_dim %c_26, dims = [] : (tensor<i32>) -> tensor<600000xi32>  @ reference:23
    StableHlo.binary main_v1 main_v173 main_v174 (cmpi .slt : (⟨S600000, .i32⟩ : BufTy).Contents (Elt F) → (⟨S600000, .i32⟩ : BufTy).Contents (Elt F) → (⟨S600000, .i1⟩ : BufTy).Contents (Elt F)),  -- %174 = stablehlo.compare LT, %1, %173, SIGNED : (tensor<600000xi32>, tensor<600000xi32>) -> tensor<600000xi1>  @ reference:23
    StableHlo.nullary main_c_27 (constantI S_ 32 100000#32),  -- %c_27 = stablehlo.constant dense<100000> : tensor<i32>
    StableHlo.unary main_c_27 main_v175 (broadcastInDim S600000 ![] bcast_S_S600000 : (⟨S_, .i32⟩ : BufTy).Contents (Elt F) → (⟨S600000, .i32⟩ : BufTy).Contents (Elt F)),  -- %175 = stablehlo.broadcast_in_dim %c_27, dims = [] : (tensor<i32>) -> tensor<600000xi32>  @ reference:23
    StableHlo.binary main_v1 main_v175 main_v176 (addi : (⟨S600000, .i32⟩ : BufTy).Contents (Elt F) → (⟨S600000, .i32⟩ : BufTy).Contents (Elt F) → (⟨S600000, .i32⟩ : BufTy).Contents (Elt F)),  -- %176 = stablehlo.add %1, %175 : tensor<600000xi32>  @ reference:23
    StableHlo.ternary main_v174 main_v176 main_v1 main_v177 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),  -- %177 = stablehlo.select %174, %176, %1 : tensor<600000xi1>, tensor<600000xi32>  @ reference:23
    StableHlo.unary main_v177 main_v178 (broadcastInDim S600000x1 ![0] bcast_S600000_S600000x1_0 : (⟨S600000, .i32⟩ : BufTy).Contents (Elt F) → (⟨S600000x1, .i32⟩ : BufTy).Contents (Elt F)),  -- %178 = stablehlo.broadcast_in_dim %177, dims = [0] : (tensor<600000xi32>) -> tensor<600000x1xi32>  @ reference:23
    StableHlo.binary main_v149 main_v178 main_v179 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),  -- %179 = "stablehlo.gather"(%149, %178) <{dimension_numbers = #stablehlo.gather<offset_dims = [1], collapsed_slice_dims = [0], start_index_map = [0], index_vector_dim = 1>, indices_are_sorted = false, slice_sizes = array<i64: 1, 128>}> : (tensor<100000x128xf32>, tensor<600000x1xi32>) -> tensor<600000x128xf32>  @ reference:23
    StableHlo.nullary main_cst_28 (constant S_ .f32 0x00000000#32),  -- %cst_28 = stablehlo.constant dense<0.000000e+00> : tensor<f32>
    StableHlo.unary main_cst_28 main_v180 (broadcastInDim S100000x128 ![] bcast_S_S100000x128 : (⟨S_, .f32⟩ : BufTy).Contents (Elt F) → (⟨S100000x128, .f32⟩ : BufTy).Contents (Elt F)),  -- %180 = stablehlo.broadcast_in_dim %cst_28, dims = [] : (tensor<f32>) -> tensor<100000x128xf32>  @ reference:15
    StableHlo.unary main_v3 main_v181 (broadcastInDim S600000x1 ![0] bcast_S600000_S600000x1_0 : (⟨S600000, .i32⟩ : BufTy).Contents (Elt F) → (⟨S600000x1, .i32⟩ : BufTy).Contents (Elt F)),  -- %181 = stablehlo.broadcast_in_dim %3, dims = [0] : (tensor<600000xi32>) -> tensor<600000x1xi32>  @ reference:15
    StableHlo.ternary main_v180 main_v181 main_v179 main_v182 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),  -- %182 = "stablehlo.scatter"(%180, %181, %179) <{indices_are_sorted = false, scatter_dimension_numbers = #stablehlo.scatter<update_window_dims = [1], inserted_window_dims = [0], scatter_dims_to_operand_dims = [0], index_vector_dim = 1>, unique_indices = false}> ( {  @ reference:15
    StableHlo.nullary main_cst_29 (constant S_ .f32 0x3F800000#32),  -- %cst_29 = stablehlo.constant dense<1.000000e+00> : tensor<f32>
    StableHlo.unary main_cst_29 main_v183 (broadcastInDim S600000x1 ![] bcast_S_S600000x1 : (⟨S_, .f32⟩ : BufTy).Contents (Elt F) → (⟨S600000x1, .f32⟩ : BufTy).Contents (Elt F)),  -- %183 = stablehlo.broadcast_in_dim %cst_29, dims = [] : (tensor<f32>) -> tensor<600000x1xf32>  @ reference:16
    StableHlo.nullary main_cst_30 (constant S_ .f32 0x00000000#32),  -- %cst_30 = stablehlo.constant dense<0.000000e+00> : tensor<f32>
    StableHlo.unary main_cst_30 main_v184 (broadcastInDim S100000x1 ![] bcast_S_S100000x1 : (⟨S_, .f32⟩ : BufTy).Contents (Elt F) → (⟨S100000x1, .f32⟩ : BufTy).Contents (Elt F)),  -- %184 = stablehlo.broadcast_in_dim %cst_30, dims = [] : (tensor<f32>) -> tensor<100000x1xf32>  @ reference:16
    StableHlo.unary main_v3 main_v185 (broadcastInDim S600000x1 ![0] bcast_S600000_S600000x1_0 : (⟨S600000, .i32⟩ : BufTy).Contents (Elt F) → (⟨S600000x1, .i32⟩ : BufTy).Contents (Elt F)),  -- %185 = stablehlo.broadcast_in_dim %3, dims = [0] : (tensor<600000xi32>) -> tensor<600000x1xi32>  @ reference:16
    StableHlo.ternary main_v184 main_v185 main_v183 main_v186 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),  -- %186 = "stablehlo.scatter"(%184, %185, %183) <{indices_are_sorted = false, scatter_dimension_numbers = #stablehlo.scatter<update_window_dims = [1], inserted_window_dims = [0], scatter_dims_to_operand_dims = [0], index_vector_dim = 1>, unique_indices = false}> ( {  @ reference:16
    StableHlo.nullary main_cst_31 (constant S_ .f32 0x3F800000#32),  -- %cst_31 = stablehlo.constant dense<1.000000e+00> : tensor<f32>
    StableHlo.unary main_cst_31 main_v187 (broadcastInDim S100000x1 ![] bcast_S_S100000x1 : (⟨S_, .f32⟩ : BufTy).Contents (Elt F) → (⟨S100000x1, .f32⟩ : BufTy).Contents (Elt F)),  -- %187 = stablehlo.broadcast_in_dim %cst_31, dims = [] : (tensor<f32>) -> tensor<100000x1xf32>  @ reference:17
    StableHlo.binary main_v186 main_v187 main_v188 (maximumf : (⟨S100000x1, .f32⟩ : BufTy).Contents (Elt F) → (⟨S100000x1, .f32⟩ : BufTy).Contents (Elt F) → (⟨S100000x1, .f32⟩ : BufTy).Contents (Elt F)),  -- %188 = stablehlo.maximum %186, %187 : tensor<100000x1xf32>  @ reference:17
    StableHlo.unary main_v188 main_v189 (broadcastInDim S100000x128 ![0, 1] bcast_S100000x1_S100000x128_0_1 : (⟨S100000x1, .f32⟩ : BufTy).Contents (Elt F) → (⟨S100000x128, .f32⟩ : BufTy).Contents (Elt F)),  -- %189 = stablehlo.broadcast_in_dim %188, dims = [0, 1] : (tensor<100000x1xf32>) -> tensor<100000x128xf32>  @ reference:17
    StableHlo.binary main_v182 main_v189 main_v190 (Host.divf : (⟨S100000x128, .f32⟩ : BufTy).Contents (Elt F) → (⟨S100000x128, .f32⟩ : BufTy).Contents (Elt F) → (⟨S100000x128, .f32⟩ : BufTy).Contents (Elt F)),  -- %190 = stablehlo.divide %182, %189 : tensor<100000x128xf32>  @ reference:17
    StableHlo.unary main_arg13 main_v191 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %191 = stablehlo.slice %arg13 [0:1, 0:128, 0:128] : (tensor<2x128x128xf32>) -> tensor<1x128x128xf32>  @ reference:24
    StableHlo.reshape main_v191 main_v192 rfl shapeCasts_S1x128x128_S128x128,  -- %192 = stablehlo.reshape %191 : (tensor<1x128x128xf32>) -> tensor<128x128xf32>  @ reference:24
    StableHlo.binary main_v149 main_v192 main_v193 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %193 = stablehlo.dot_general %149, %192, contracting_dims = [1] x [0], precision = [DEFAULT, DEFAULT] : (tensor<100000x128xf32>, tensor<128x128xf32>) -> tensor<100000x128xf32>  @ reference:24
    StableHlo.unary main_arg14 main_v194 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %194 = stablehlo.slice %arg14 [0:1, 0:128, 0:128] : (tensor<2x128x128xf32>) -> tensor<1x128x128xf32>  @ reference:24
    StableHlo.reshape main_v194 main_v195 rfl shapeCasts_S1x128x128_S128x128,  -- %195 = stablehlo.reshape %194 : (tensor<1x128x128xf32>) -> tensor<128x128xf32>  @ reference:24
    StableHlo.binary main_v190 main_v195 main_v196 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %196 = stablehlo.dot_general %190, %195, contracting_dims = [1] x [0], precision = [DEFAULT, DEFAULT] : (tensor<100000x128xf32>, tensor<128x128xf32>) -> tensor<100000x128xf32>  @ reference:24
    StableHlo.binary main_v193 main_v196 main_v197 (addf : (⟨S100000x128, .f32⟩ : BufTy).Contents (Elt F) → (⟨S100000x128, .f32⟩ : BufTy).Contents (Elt F) → (⟨S100000x128, .f32⟩ : BufTy).Contents (Elt F)),  -- %197 = stablehlo.add %193, %196 : tensor<100000x128xf32>  @ reference:24
    StableHlo.unary main_arg15 main_v198 ((extractStridedSlice S1x128 ![0, 0] · slices_S2x128_S1x128_0_0) : (⟨S2x128, .f32⟩ : BufTy).Contents (Elt F) → (⟨S1x128, .f32⟩ : BufTy).Contents (Elt F)),  -- %198 = stablehlo.slice %arg15 [0:1, 0:128] : (tensor<2x128xf32>) -> tensor<1x128xf32>  @ reference:24
    StableHlo.reshape main_v198 main_v199 rfl shapeCasts_S1x128_S128,  -- %199 = stablehlo.reshape %198 : (tensor<1x128xf32>) -> tensor<128xf32>  @ reference:24
    StableHlo.unary main_v199 main_v200 (broadcastInDim S1x128 ![1] bcast_S128_S1x128_1 : (⟨S128, .f32⟩ : BufTy).Contents (Elt F) → (⟨S1x128, .f32⟩ : BufTy).Contents (Elt F)),  -- %200 = stablehlo.broadcast_in_dim %199, dims = [1] : (tensor<128xf32>) -> tensor<1x128xf32>  @ reference:24
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),  -- %201 = stablehlo.broadcast_in_dim %200, dims = [0, 1] : (tensor<1x128xf32>) -> tensor<100000x128xf32>  @ reference:24
    StableHlo.binary main_v197 main_v201 main_v202 (addf : (⟨S100000x128, .f32⟩ : BufTy).Contents (Elt F) → (⟨S100000x128, .f32⟩ : BufTy).Contents (Elt F) → (⟨S100000x128, .f32⟩ : BufTy).Contents (Elt F)),  -- %202 = stablehlo.add %197, %201 : tensor<100000x128xf32>  @ reference:24
    StableHlo.TRef.nullary main_call11.cst (constant S_ .f32 0x00000000#32),  -- in %203 = func.call @relu(%202) : (tensor<100000x128xf32>) -> tensor<100000x128xf32>  @ reference:24
    StableHlo.TRef.unary main_call11.cst main_call11.v0 (broadcastInDim S100000x128 ![] bcast_S_S100000x128),  -- in %203 = func.call @relu(%202) : (tensor<100000x128xf32>) -> tensor<100000x128xf32>  @ reference:24
    StableHlo.TRef.binary (.of main_v202 : StableHlo.TRef sig ⟨S100000x128, .f32⟩) main_call11.v0 main_call11.v1 maximumf,  -- in %203 = func.call @relu(%202) : (tensor<100000x128xf32>) -> tensor<100000x128xf32>  @ reference:24
    StableHlo.nullary main_c_32 (constantI S_ 32 0#32),  -- %c_32 = stablehlo.constant dense<0> : tensor<i32>
    StableHlo.unary main_c_32 main_v204 (broadcastInDim S600000 ![] bcast_S_S600000 : (⟨S_, .i32⟩ : BufTy).Contents (Elt F) → (⟨S600000, .i32⟩ : BufTy).Contents (Elt F)) ]  -- %204 = stablehlo.broadcast_in_dim %c_32, dims = [] : (tensor<i32>) -> tensor<600000xi32>  @ reference:23

set_option maxRecDepth 4096 in
/-- Part 3 is that straight line: the called functions unfolded at their calls, both sides are one chain of
    single operations once the sequencing is reassociated. -/
theorem main_part3_eq (c : Dev nD) : main_part3 (F := F) c = seq ops3 := by
  simp only [main_part3, fn_relu.body, fn_relu_0.body, fn_relu_1.body, seq, bind_assoc, pure_bind]
  rfl

/-- Every operation of the part touches TensorCore references only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    binary_bufs_sub .., unary_bufs_sub .., reshape_bufs_sub .., binary_bufs_sub .., unary_bufs_sub .., reshape_bufs_sub ..,
    binary_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..⟩

/-- Every operation of the part determines what it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The references the part's operations write: one each, its result. -/
abbrev href_W3 : List (Ref sig .tc) :=
  [main_v153, main_v154, main_c_25, main_v155, main_v156, main_v157, main_v158, main_v159,
   main_v160, main_v161, main_v162, main_v163, main_v164, main_call9.cst.ref, main_call9.v0.ref, main_call9.v1.ref,
   main_v166, main_v167, main_v168, main_v169, main_v170, main_v171, main_call10.cst.ref, main_call10.v0.ref,
   main_call10.v1.ref, main_c_26, main_v173, main_v174, main_c_27, main_v175, main_v176, main_v177,
   main_v178, main_v179, main_cst_28, main_v180, main_v181, main_v182, main_cst_29, main_v183,
   main_cst_30, main_v184, main_v185, main_v186, main_cst_31, main_v187, main_v188, main_v189,
   main_v190, main_v191, main_v192, main_v193, main_v194, main_v195, main_v196, main_v197,
   main_v198, main_v199, main_v200, main_v201, main_v202, main_call11.cst.ref, main_call11.v0.ref, main_call11.v1.ref,
   main_c_32, main_v204]

theorem ops3_writes : (ops3 : List (HloOp τ sig (Elt F))).Forall fun op =>
    op.writes ⊆ (href_W3.map (Proc.devRef (τ := τ) .tc)).toFinset :=
  ⟨href_wsub main_v153 rfl (by decide), href_wsub main_v154 rfl (by decide), href_wsub main_c_25 rfl (by decide),
    href_wsub main_v155 rfl (by decide), href_wsub main_v156 rfl (by decide), href_wsub main_v157 rfl (by decide),
    href_wsub main_v158 rfl (by decide), href_wsub main_v159 rfl (by decide), href_wsub main_v160 rfl (by decide),
    href_wsub main_v161 rfl (by decide), href_wsub main_v162 rfl (by decide), href_wsub main_v163 rfl (by decide),
    href_wsub main_v164 rfl (by decide), href_wsub main_call9.cst.ref rfl (by decide), href_wsub main_call9.v0.ref rfl (by decide),
    href_wsub main_call9.v1.ref rfl (by decide), href_wsub main_v166 rfl (by decide), href_wsub main_v167 rfl (by decide),
    href_wsub main_v168 rfl (by decide), href_wsub main_v169 rfl (by decide), href_wsub main_v170 rfl (by decide),
    href_wsub main_v171 rfl (by decide), href_wsub main_call10.cst.ref rfl (by decide), href_wsub main_call10.v0.ref rfl (by decide),
    href_wsub main_call10.v1.ref rfl (by decide), href_wsub main_c_26 rfl (by decide), href_wsub main_v173 rfl (by decide),
    href_wsub main_v174 rfl (by decide), href_wsub main_c_27 rfl (by decide), href_wsub main_v175 rfl (by decide),
    href_wsub main_v176 rfl (by decide), href_wsub main_v177 rfl (by decide), href_wsub main_v178 rfl (by decide),
    href_wsub main_v179 rfl (by decide), href_wsub main_cst_28 rfl (by decide), href_wsub main_v180 rfl (by decide),
    href_wsub main_v181 rfl (by decide), href_wsub main_v182 rfl (by decide), href_wsub main_cst_29 rfl (by decide),
    href_wsub main_v183 rfl (by decide), href_wsub main_cst_30 rfl (by decide), href_wsub main_v184 rfl (by decide),
    href_wsub main_v185 rfl (by decide), href_wsub main_v186 rfl (by decide), href_wsub main_cst_31 rfl (by decide),
    href_wsub main_v187 rfl (by decide), href_wsub main_v188 rfl (by decide), href_wsub main_v189 rfl (by decide),
    href_wsub main_v190 rfl (by decide), href_wsub main_v191 rfl (by decide), href_wsub main_v192 rfl (by decide),
    href_wsub main_v193 rfl (by decide), href_wsub main_v194 rfl (by decide), href_wsub main_v195 rfl (by decide),
    href_wsub main_v196 rfl (by decide), href_wsub main_v197 rfl (by decide), href_wsub main_v198 rfl (by decide),
    href_wsub main_v199 rfl (by decide), href_wsub main_v200 rfl (by decide), href_wsub main_v201 rfl (by decide),
    href_wsub main_v202 rfl (by decide), href_wsub main_call11.cst.ref rfl (by decide), href_wsub main_call11.v0.ref rfl (by decide),
    href_wsub main_call11.v1.ref rfl (by decide), href_wsub main_c_32 rfl (by decide), href_wsub main_v204 rfl (by decide)⟩

end Cert.ReferenceIdeal.Hand

end
-- ==== Proof.Ref.Ops4.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 4 of @main as a list of 66 operations, in order: its own statements as printed, and at each call of an
    outlined function that function's operations over the call's operands and the call's own buffers. -/
abbrev ops4 : List (HloOp τ sig (Elt F)) :=
  [ StableHlo.binary main_v1 main_v204 main_v205 (cmpi .slt : (⟨S600000, .i32⟩ : BufTy).Contents (Elt F) → (⟨S600000, .i32⟩ : BufTy).Contents (Elt F) → (⟨S600000, .i1⟩ : BufTy).Contents (Elt F)),  -- %205 = stablehlo.compare LT, %1, %204, SIGNED : (tensor<600000xi32>, tensor<600000xi32>) -> tensor<600000xi1>  @ reference:23
    StableHlo.nullary main_c_33 (constantI S_ 32 100000#32),  -- %c_33 = stablehlo.constant dense<100000> : tensor<i32>
    StableHlo.unary main_c_33 main_v206 (broadcastInDim S600000 ![] bcast_S_S600000 : (⟨S_, .i32⟩ : BufTy).Contents (Elt F) → (⟨S600000, .i32⟩ : BufTy).Contents (Elt F)),  -- %206 = stablehlo.broadcast_in_dim %c_33, dims = [] : (tensor<i32>) -> tensor<600000xi32>  @ reference:23
    StableHlo.binary main_v1 main_v206 main_v207 (addi : (⟨S600000, .i32⟩ : BufTy).Contents (Elt F) → (⟨S600000, .i32⟩ : BufTy).Contents (Elt F) → (⟨S600000, .i32⟩ : BufTy).Contents (Elt F)),  -- %207 = stablehlo.add %1, %206 : tensor<600000xi32>  @ reference:23
    StableHlo.ternary main_v205 main_v207 main_v1 main_v208 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),  -- %208 = stablehlo.select %205, %207, %1 : tensor<600000xi1>, tensor<600000xi32>  @ reference:23
    StableHlo.unary main_v208 main_v209 (broadcastInDim S600000x1 ![0] bcast_S600000_S600000x1_0 : (⟨S600000, .i32⟩ : BufTy).Contents (Elt F) → (⟨S600000x1, .i32⟩ : BufTy).Contents (Elt F)),  -- %209 = stablehlo.broadcast_in_dim %208, dims = [0] : (tensor<600000xi32>) -> tensor<600000x1xi32>  @ reference:23
    StableHlo.binary main_v203 main_v209 main_v210 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),  -- %210 = "stablehlo.gather"(%203, %209) <{dimension_numbers = #stablehlo.gather<offset_dims = [1], collapsed_slice_dims = [0], start_index_map = [0], index_vector_dim = 1>, indices_are_sorted = false, slice_sizes = array<i64: 1, 128>}> : (tensor<100000x128xf32>, tensor<600000x1xi32>) -> tensor<600000x128xf32>  @ reference:23
    StableHlo.nullary main_cst_34 (constant S_ .f32 0x00000000#32),  -- %cst_34 = stablehlo.constant dense<0.000000e+00> : tensor<f32>
    StableHlo.unary main_cst_34 main_v211 (broadcastInDim S100000x128 ![] bcast_S_S100000x128 : (⟨S_, .f32⟩ : BufTy).Contents (Elt F) → (⟨S100000x128, .f32⟩ : BufTy).Contents (Elt F)),  -- %211 = stablehlo.broadcast_in_dim %cst_34, dims = [] : (tensor<f32>) -> tensor<100000x128xf32>  @ reference:15
    StableHlo.unary main_v3 main_v212 (broadcastInDim S600000x1 ![0] bcast_S600000_S600000x1_0 : (⟨S600000, .i32⟩ : BufTy).Contents (Elt F) → (⟨S600000x1, .i32⟩ : BufTy).Contents (Elt F)),  -- %212 = stablehlo.broadcast_in_dim %3, dims = [0] : (tensor<600000xi32>) -> tensor<600000x1xi32>  @ reference:15
    StableHlo.ternary main_v211 main_v212 main_v210 main_v213 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),  -- %213 = "stablehlo.scatter"(%211, %212, %210) <{indices_are_sorted = false, scatter_dimension_numbers = #stablehlo.scatter<update_window_dims = [1], inserted_window_dims = [0], scatter_dims_to_operand_dims = [0], index_vector_dim = 1>, unique_indices = false}> ( {  @ reference:15
    StableHlo.nullary main_cst_35 (constant S_ .f32 0x3F800000#32),  -- %cst_35 = stablehlo.constant dense<1.000000e+00> : tensor<f32>
    StableHlo.unary main_cst_35 main_v214 (broadcastInDim S600000x1 ![] bcast_S_S600000x1 : (⟨S_, .f32⟩ : BufTy).Contents (Elt F) → (⟨S600000x1, .f32⟩ : BufTy).Contents (Elt F)),  -- %214 = stablehlo.broadcast_in_dim %cst_35, dims = [] : (tensor<f32>) -> tensor<600000x1xf32>  @ reference:16
    StableHlo.nullary main_cst_36 (constant S_ .f32 0x00000000#32),  -- %cst_36 = stablehlo.constant dense<0.000000e+00> : tensor<f32>
    StableHlo.unary main_cst_36 main_v215 (broadcastInDim S100000x1 ![] bcast_S_S100000x1 : (⟨S_, .f32⟩ : BufTy).Contents (Elt F) → (⟨S100000x1, .f32⟩ : BufTy).Contents (Elt F)),  -- %215 = stablehlo.broadcast_in_dim %cst_36, dims = [] : (tensor<f32>) -> tensor<100000x1xf32>  @ reference:16
    StableHlo.unary main_v3 main_v216 (broadcastInDim S600000x1 ![0] bcast_S600000_S600000x1_0 : (⟨S600000, .i32⟩ : BufTy).Contents (Elt F) → (⟨S600000x1, .i32⟩ : BufTy).Contents (Elt F)),  -- %216 = stablehlo.broadcast_in_dim %3, dims = [0] : (tensor<600000xi32>) -> tensor<600000x1xi32>  @ reference:16
    StableHlo.ternary main_v215 main_v216 main_v214 main_v217 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),  -- %217 = "stablehlo.scatter"(%215, %216, %214) <{indices_are_sorted = false, scatter_dimension_numbers = #stablehlo.scatter<update_window_dims = [1], inserted_window_dims = [0], scatter_dims_to_operand_dims = [0], index_vector_dim = 1>, unique_indices = false}> ( {  @ reference:16
    StableHlo.nullary main_cst_37 (constant S_ .f32 0x3F800000#32),  -- %cst_37 = stablehlo.constant dense<1.000000e+00> : tensor<f32>
    StableHlo.unary main_cst_37 main_v218 (broadcastInDim S100000x1 ![] bcast_S_S100000x1 : (⟨S_, .f32⟩ : BufTy).Contents (Elt F) → (⟨S100000x1, .f32⟩ : BufTy).Contents (Elt F)),  -- %218 = stablehlo.broadcast_in_dim %cst_37, dims = [] : (tensor<f32>) -> tensor<100000x1xf32>  @ reference:17
    StableHlo.binary main_v217 main_v218 main_v219 (maximumf : (⟨S100000x1, .f32⟩ : BufTy).Contents (Elt F) → (⟨S100000x1, .f32⟩ : BufTy).Contents (Elt F) → (⟨S100000x1, .f32⟩ : BufTy).Contents (Elt F)),  -- %219 = stablehlo.maximum %217, %218 : tensor<100000x1xf32>  @ reference:17
    StableHlo.unary main_v219 main_v220 (broadcastInDim S100000x128 ![0, 1] bcast_S100000x1_S100000x128_0_1 : (⟨S100000x1, .f32⟩ : BufTy).Contents (Elt F) → (⟨S100000x128, .f32⟩ : BufTy).Contents (Elt F)),  -- %220 = stablehlo.broadcast_in_dim %219, dims = [0, 1] : (tensor<100000x1xf32>) -> tensor<100000x128xf32>  @ reference:17
    StableHlo.binary main_v213 main_v220 main_v221 (Host.divf : (⟨S100000x128, .f32⟩ : BufTy).Contents (Elt F) → (⟨S100000x128, .f32⟩ : BufTy).Contents (Elt F) → (⟨S100000x128, .f32⟩ : BufTy).Contents (Elt F)),  -- %221 = stablehlo.divide %213, %220 : tensor<100000x128xf32>  @ reference:17
    StableHlo.unary main_arg13 main_v222 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %222 = stablehlo.slice %arg13 [1:2, 0:128, 0:128] : (tensor<2x128x128xf32>) -> tensor<1x128x128xf32>  @ reference:24
    StableHlo.reshape main_v222 main_v223 rfl shapeCasts_S1x128x128_S128x128,  -- %223 = stablehlo.reshape %222 : (tensor<1x128x128xf32>) -> tensor<128x128xf32>  @ reference:24
    StableHlo.binary main_v203 main_v223 main_v224 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %224 = stablehlo.dot_general %203, %223, contracting_dims = [1] x [0], precision = [DEFAULT, DEFAULT] : (tensor<100000x128xf32>, tensor<128x128xf32>) -> tensor<100000x128xf32>  @ reference:24
    StableHlo.unary main_arg14 main_v225 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %225 = stablehlo.slice %arg14 [1:2, 0:128, 0:128] : (tensor<2x128x128xf32>) -> tensor<1x128x128xf32>  @ reference:24
    StableHlo.reshape main_v225 main_v226 rfl shapeCasts_S1x128x128_S128x128,  -- %226 = stablehlo.reshape %225 : (tensor<1x128x128xf32>) -> tensor<128x128xf32>  @ reference:24
    StableHlo.binary main_v221 main_v226 main_v227 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %227 = stablehlo.dot_general %221, %226, contracting_dims = [1] x [0], precision = [DEFAULT, DEFAULT] : (tensor<100000x128xf32>, tensor<128x128xf32>) -> tensor<100000x128xf32>  @ reference:24
    StableHlo.binary main_v224 main_v227 main_v228 (addf : (⟨S100000x128, .f32⟩ : BufTy).Contents (Elt F) → (⟨S100000x128, .f32⟩ : BufTy).Contents (Elt F) → (⟨S100000x128, .f32⟩ : BufTy).Contents (Elt F)),  -- %228 = stablehlo.add %224, %227 : tensor<100000x128xf32>  @ reference:24
    StableHlo.unary main_arg15 main_v229 ((extractStridedSlice S1x128 ![1, 0] · slices_S2x128_S1x128_1_0) : (⟨S2x128, .f32⟩ : BufTy).Contents (Elt F) → (⟨S1x128, .f32⟩ : BufTy).Contents (Elt F)),  -- %229 = stablehlo.slice %arg15 [1:2, 0:128] : (tensor<2x128xf32>) -> tensor<1x128xf32>  @ reference:24
    StableHlo.reshape main_v229 main_v230 rfl shapeCasts_S1x128_S128,  -- %230 = stablehlo.reshape %229 : (tensor<1x128xf32>) -> tensor<128xf32>  @ reference:24
    StableHlo.unary main_v230 main_v231 (broadcastInDim S1x128 ![1] bcast_S128_S1x128_1 : (⟨S128, .f32⟩ : BufTy).Contents (Elt F) → (⟨S1x128, .f32⟩ : BufTy).Contents (Elt F)),  -- %231 = stablehlo.broadcast_in_dim %230, dims = [1] : (tensor<128xf32>) -> tensor<1x128xf32>  @ reference:24
    StableHlo.unary main_v231 main_v232 (broadcastInDim S100000x128 ![0, 1] bcast_S1x128_S100000x128_0_1 : (⟨S1x128, .f32⟩ : BufTy).Contents (Elt F) → (⟨S100000x128, .f32⟩ : BufTy).Contents (Elt F)),  -- %232 = stablehlo.broadcast_in_dim %231, dims = [0, 1] : (tensor<1x128xf32>) -> tensor<100000x128xf32>  @ reference:24
    StableHlo.binary main_v228 main_v232 main_v233 (addf : (⟨S100000x128, .f32⟩ : BufTy).Contents (Elt F) → (⟨S100000x128, .f32⟩ : BufTy).Contents (Elt F) → (⟨S100000x128, .f32⟩ : BufTy).Contents (Elt F)),  -- %233 = stablehlo.add %228, %232 : tensor<100000x128xf32>  @ reference:24
    StableHlo.TRef.nullary main_call12.cst (constant S_ .f32 0x00000000#32),  -- in %234 = func.call @relu(%233) : (tensor<100000x128xf32>) -> tensor<100000x128xf32>  @ reference:24
    StableHlo.TRef.unary main_call12.cst main_call12.v0 (broadcastInDim S100000x128 ![] bcast_S_S100000x128),  -- in %234 = func.call @relu(%233) : (tensor<100000x128xf32>) -> tensor<100000x128xf32>  @ reference:24
    StableHlo.TRef.binary (.of main_v233 : StableHlo.TRef sig ⟨S100000x128, .f32⟩) main_call12.v0 main_call12.v1 maximumf,  -- in %234 = func.call @relu(%233) : (tensor<100000x128xf32>) -> tensor<100000x128xf32>  @ reference:24
    StableHlo.unary main_arg16 main_v235 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %235 = stablehlo.slice %arg16 [0:1, 0:128, 0:128] : (tensor<2x128x128xf32>) -> tensor<1x128x128xf32>  @ reference:31
    StableHlo.reshape main_v235 main_v236 rfl shapeCasts_S1x128x128_S128x128,  -- %236 = stablehlo.reshape %235 : (tensor<1x128x128xf32>) -> tensor<128x128xf32>  @ reference:31
    StableHlo.binary main_v165 main_v236 main_v237 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %237 = stablehlo.dot_general %165, %236, contracting_dims = [1] x [0], precision = [DEFAULT, DEFAULT] : (tensor<2000x128xf32>, tensor<128x128xf32>) -> tensor<2000x128xf32>  @ reference:31
    StableHlo.unary main_arg17 main_v238 ((extractStridedSlice S1x128 ![0, 0] · slices_S2x128_S1x128_0_0) : (⟨S2x128, .f32⟩ : BufTy).Contents (Elt F) → (⟨S1x128, .f32⟩ : BufTy).Contents (Elt F)),  -- %238 = stablehlo.slice %arg17 [0:1, 0:128] : (tensor<2x128xf32>) -> tensor<1x128xf32>  @ reference:31
    StableHlo.reshape main_v238 main_v239 rfl shapeCasts_S1x128_S128,  -- %239 = stablehlo.reshape %238 : (tensor<1x128xf32>) -> tensor<128xf32>  @ reference:31
    StableHlo.unary main_v239 main_v240 (broadcastInDim S1x128 ![1] bcast_S128_S1x128_1 : (⟨S128, .f32⟩ : BufTy).Contents (Elt F) → (⟨S1x128, .f32⟩ : BufTy).Contents (Elt F)),  -- %240 = stablehlo.broadcast_in_dim %239, dims = [1] : (tensor<128xf32>) -> tensor<1x128xf32>  @ reference:31
    StableHlo.unary main_v240 main_v241 (broadcastInDim S2000x128 ![0, 1] bcast_S1x128_S2000x128_0_1 : (⟨S1x128, .f32⟩ : BufTy).Contents (Elt F) → (⟨S2000x128, .f32⟩ : BufTy).Contents (Elt F)),  -- %241 = stablehlo.broadcast_in_dim %240, dims = [0, 1] : (tensor<1x128xf32>) -> tensor<2000x128xf32>  @ reference:31
    StableHlo.binary main_v237 main_v241 main_v242 (addf : (⟨S2000x128, .f32⟩ : BufTy).Contents (Elt F) → (⟨S2000x128, .f32⟩ : BufTy).Contents (Elt F) → (⟨S2000x128, .f32⟩ : BufTy).Contents (Elt F)),  -- %242 = stablehlo.add %237, %241 : tensor<2000x128xf32>  @ reference:31
    StableHlo.TRef.nullary main_call13.cst (constant S_ .f32 0x00000000#32),  -- in %243 = func.call @relu_0(%242) : (tensor<2000x128xf32>) -> tensor<2000x128xf32>  @ reference:31
    StableHlo.TRef.unary main_call13.cst main_call13.v0 (broadcastInDim S2000x128 ![] bcast_S_S2000x128),  -- in %243 = func.call @relu_0(%242) : (tensor<2000x128xf32>) -> tensor<2000x128xf32>  @ reference:31
    StableHlo.TRef.binary (.of main_v242 : StableHlo.TRef sig ⟨S2000x128, .f32⟩) main_call13.v0 main_call13.v1 maximumf,  -- in %243 = func.call @relu_0(%242) : (tensor<2000x128xf32>) -> tensor<2000x128xf32>  @ reference:31
    StableHlo.unary main_arg16 main_v244 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %244 = stablehlo.slice %arg16 [1:2, 0:128, 0:128] : (tensor<2x128x128xf32>) -> tensor<1x128x128xf32>  @ reference:31
    StableHlo.reshape main_v244 main_v245 rfl shapeCasts_S1x128x128_S128x128,  -- %245 = stablehlo.reshape %244 : (tensor<1x128x128xf32>) -> tensor<128x128xf32>  @ reference:31
    StableHlo.binary main_v243 main_v245 main_v246 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %246 = stablehlo.dot_general %243, %245, contracting_dims = [1] x [0], precision = [DEFAULT, DEFAULT] : (tensor<2000x128xf32>, tensor<128x128xf32>) -> tensor<2000x128xf32>  @ reference:31
    StableHlo.unary main_arg17 main_v247 ((extractStridedSlice S1x128 ![1, 0] · slices_S2x128_S1x128_1_0) : (⟨S2x128, .f32⟩ : BufTy).Contents (Elt F) → (⟨S1x128, .f32⟩ : BufTy).Contents (Elt F)),  -- %247 = stablehlo.slice %arg17 [1:2, 0:128] : (tensor<2x128xf32>) -> tensor<1x128xf32>  @ reference:31
    StableHlo.reshape main_v247 main_v248 rfl shapeCasts_S1x128_S128,  -- %248 = stablehlo.reshape %247 : (tensor<1x128xf32>) -> tensor<128xf32>  @ reference:31
    StableHlo.unary main_v248 main_v249 (broadcastInDim S1x128 ![1] bcast_S128_S1x128_1 : (⟨S128, .f32⟩ : BufTy).Contents (Elt F) → (⟨S1x128, .f32⟩ : BufTy).Contents (Elt F)),  -- %249 = stablehlo.broadcast_in_dim %248, dims = [1] : (tensor<128xf32>) -> tensor<1x128xf32>  @ reference:31
    StableHlo.unary main_v249 main_v250 (broadcastInDim S2000x128 ![0, 1] bcast_S1x128_S2000x128_0_1 : (⟨S1x128, .f32⟩ : BufTy).Contents (Elt F) → (⟨S2000x128, .f32⟩ : BufTy).Contents (Elt F)),  -- %250 = stablehlo.broadcast_in_dim %249, dims = [0, 1] : (tensor<1x128xf32>) -> tensor<2000x128xf32>  @ reference:31
    StableHlo.binary main_v246 main_v250 main_v251 (addf : (⟨S2000x128, .f32⟩ : BufTy).Contents (Elt F) → (⟨S2000x128, .f32⟩ : BufTy).Contents (Elt F) → (⟨S2000x128, .f32⟩ : BufTy).Contents (Elt F)),  -- %251 = stablehlo.add %246, %250 : tensor<2000x128xf32>  @ reference:31
    StableHlo.TRef.nullary main_call14.cst (constant S_ .f32 0x00000000#32),  -- in %252 = func.call @relu_0(%251) : (tensor<2000x128xf32>) -> tensor<2000x128xf32>  @ reference:31
    StableHlo.TRef.unary main_call14.cst main_call14.v0 (broadcastInDim S2000x128 ![] bcast_S_S2000x128),  -- in %252 = func.call @relu_0(%251) : (tensor<2000x128xf32>) -> tensor<2000x128xf32>  @ reference:31
    StableHlo.TRef.binary (.of main_v251 : StableHlo.TRef sig ⟨S2000x128, .f32⟩) main_call14.v0 main_call14.v1 maximumf,  -- in %252 = func.call @relu_0(%251) : (tensor<2000x128xf32>) -> tensor<2000x128xf32>  @ reference:31
    StableHlo.unary main_arg18 main_v253 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %253 = stablehlo.slice %arg18 [0:1, 0:128, 0:128] : (tensor<2x128x128xf32>) -> tensor<1x128x128xf32>  @ reference:31
    StableHlo.reshape main_v253 main_v254 rfl shapeCasts_S1x128x128_S128x128,  -- %254 = stablehlo.reshape %253 : (tensor<1x128x128xf32>) -> tensor<128x128xf32>  @ reference:31
    StableHlo.binary main_v172 main_v254 main_v255 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %255 = stablehlo.dot_general %172, %254, contracting_dims = [1] x [0], precision = [DEFAULT, DEFAULT] : (tensor<50x128xf32>, tensor<128x128xf32>) -> tensor<50x128xf32>  @ reference:31
    StableHlo.unary main_arg19 main_v256 ((extractStridedSlice S1x128 ![0, 0] · slices_S2x128_S1x128_0_0) : (⟨S2x128, .f32⟩ : BufTy).Contents (Elt F) → (⟨S1x128, .f32⟩ : BufTy).Contents (Elt F)),  -- %256 = stablehlo.slice %arg19 [0:1, 0:128] : (tensor<2x128xf32>) -> tensor<1x128xf32>  @ reference:31
    StableHlo.reshape main_v256 main_v257 rfl shapeCasts_S1x128_S128,  -- %257 = stablehlo.reshape %256 : (tensor<1x128xf32>) -> tensor<128xf32>  @ reference:31
    StableHlo.unary main_v257 main_v258 (broadcastInDim S1x128 ![1] bcast_S128_S1x128_1 : (⟨S128, .f32⟩ : BufTy).Contents (Elt F) → (⟨S1x128, .f32⟩ : BufTy).Contents (Elt F)),  -- %258 = stablehlo.broadcast_in_dim %257, dims = [1] : (tensor<128xf32>) -> tensor<1x128xf32>  @ reference:31
    StableHlo.unary main_v258 main_v259 (broadcastInDim S50x128 ![0, 1] bcast_S1x128_S50x128_0_1 : (⟨S1x128, .f32⟩ : BufTy).Contents (Elt F) → (⟨S50x128, .f32⟩ : BufTy).Contents (Elt F)) ]  -- %259 = stablehlo.broadcast_in_dim %258, dims = [0, 1] : (tensor<1x128xf32>) -> tensor<50x128xf32>  @ reference:31

set_option maxRecDepth 4096 in
/-- Part 4 is that straight line: the called functions unfolded at their calls, both sides are one chain of
    single operations once the sequencing is reassociated. -/
theorem main_part4_eq (c : Dev nD) : main_part4 (F := F) c = seq ops4 := by
  simp only [main_part4, fn_relu.body, fn_relu_0.body, seq, bind_assoc, pure_bind]
  rfl

/-- Every operation of the part touches TensorCore references only. -/
theorem ops4_sub : (ops4 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., unary_bufs_sub .., reshape_bufs_sub ..,
    binary_bufs_sub .., unary_bufs_sub .., reshape_bufs_sub .., binary_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..⟩

/-- Every operation of the part determines what it writes. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The references the part's operations write: one each, its result. -/
abbrev href_W4 : List (Ref sig .tc) :=
  [main_v205, main_c_33, main_v206, main_v207, main_v208, main_v209, main_v210, main_cst_34,
   main_v211, main_v212, main_v213, main_cst_35, main_v214, main_cst_36, main_v215, main_v216,
   main_v217, main_cst_37, main_v218, main_v219, main_v220, main_v221, main_v222, main_v223,
   main_v224, main_v225, main_v226, main_v227, main_v228, main_v229, main_v230, main_v231,
   main_v232, main_v233, main_call12.cst.ref, main_call12.v0.ref, main_call12.v1.ref, main_v235, main_v236, main_v237,
   main_v238, main_v239, main_v240, main_v241, main_v242, main_call13.cst.ref, main_call13.v0.ref, main_call13.v1.ref,
   main_v244, main_v245, main_v246, main_v247, main_v248, main_v249, main_v250, main_v251,
   main_call14.cst.ref, main_call14.v0.ref, main_call14.v1.ref, main_v253, main_v254, main_v255, main_v256, main_v257,
   main_v258, main_v259]

theorem ops4_writes : (ops4 : List (HloOp τ sig (Elt F))).Forall fun op =>
    op.writes ⊆ (href_W4.map (Proc.devRef (τ := τ) .tc)).toFinset :=
  ⟨href_wsub main_v205 rfl (by decide), href_wsub main_c_33 rfl (by decide), href_wsub main_v206 rfl (by decide),
    href_wsub main_v207 rfl (by decide), href_wsub main_v208 rfl (by decide), href_wsub main_v209 rfl (by decide),
    href_wsub main_v210 rfl (by decide), href_wsub main_cst_34 rfl (by decide), href_wsub main_v211 rfl (by decide),
    href_wsub main_v212 rfl (by decide), href_wsub main_v213 rfl (by decide), href_wsub main_cst_35 rfl (by decide),
    href_wsub main_v214 rfl (by decide), href_wsub main_cst_36 rfl (by decide), href_wsub main_v215 rfl (by decide),
    href_wsub main_v216 rfl (by decide), href_wsub main_v217 rfl (by decide), href_wsub main_cst_37 rfl (by decide),
    href_wsub main_v218 rfl (by decide), href_wsub main_v219 rfl (by decide), href_wsub main_v220 rfl (by decide),
    href_wsub main_v221 rfl (by decide), href_wsub main_v222 rfl (by decide), href_wsub main_v223 rfl (by decide),
    href_wsub main_v224 rfl (by decide), href_wsub main_v225 rfl (by decide), href_wsub main_v226 rfl (by decide),
    href_wsub main_v227 rfl (by decide), href_wsub main_v228 rfl (by decide), href_wsub main_v229 rfl (by decide),
    href_wsub main_v230 rfl (by decide), href_wsub main_v231 rfl (by decide), href_wsub main_v232 rfl (by decide),
    href_wsub main_v233 rfl (by decide), href_wsub main_call12.cst.ref rfl (by decide), href_wsub main_call12.v0.ref rfl (by decide),
    href_wsub main_call12.v1.ref rfl (by decide), href_wsub main_v235 rfl (by decide), href_wsub main_v236 rfl (by decide),
    href_wsub main_v237 rfl (by decide), href_wsub main_v238 rfl (by decide), href_wsub main_v239 rfl (by decide),
    href_wsub main_v240 rfl (by decide), href_wsub main_v241 rfl (by decide), href_wsub main_v242 rfl (by decide),
    href_wsub main_call13.cst.ref rfl (by decide), href_wsub main_call13.v0.ref rfl (by decide), href_wsub main_call13.v1.ref rfl (by decide),
    href_wsub main_v244 rfl (by decide), href_wsub main_v245 rfl (by decide), href_wsub main_v246 rfl (by decide),
    href_wsub main_v247 rfl (by decide), href_wsub main_v248 rfl (by decide), href_wsub main_v249 rfl (by decide),
    href_wsub main_v250 rfl (by decide), href_wsub main_v251 rfl (by decide), href_wsub main_call14.cst.ref rfl (by decide),
    href_wsub main_call14.v0.ref rfl (by decide), href_wsub main_call14.v1.ref rfl (by decide), href_wsub main_v253 rfl (by decide),
    href_wsub main_v254 rfl (by decide), href_wsub main_v255 rfl (by decide), href_wsub main_v256 rfl (by decide),
    href_wsub main_v257 rfl (by decide), href_wsub main_v258 rfl (by decide), href_wsub main_v259 rfl (by decide)⟩

end Cert.ReferenceIdeal.Hand

end
-- ==== Proof.Ref.Ops5.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 5 of @main as a list of 66 operations, in order: its own statements as printed, and at each call of an
    outlined function that function's operations over the call's operands and the call's own buffers. -/
abbrev ops5 : List (HloOp τ sig (Elt F)) :=
  [ StableHlo.binary main_v255 main_v259 main_v260 (addf : (⟨S50x128, .f32⟩ : BufTy).Contents (Elt F) → (⟨S50x128, .f32⟩ : BufTy).Contents (Elt F) → (⟨S50x128, .f32⟩ : BufTy).Contents (Elt F)),  -- %260 = stablehlo.add %255, %259 : tensor<50x128xf32>  @ reference:31
    StableHlo.TRef.nullary main_call15.cst (constant S_ .f32 0x00000000#32),  -- in %261 = func.call @relu_1(%260) : (tensor<50x128xf32>) -> tensor<50x128xf32>  @ reference:31
    StableHlo.TRef.unary main_call15.cst main_call15.v0 (broadcastInDim S50x128 ![] bcast_S_S50x128),  -- in %261 = func.call @relu_1(%260) : (tensor<50x128xf32>) -> tensor<50x128xf32>  @ reference:31
    StableHlo.TRef.binary (.of main_v260 : StableHlo.TRef sig ⟨S50x128, .f32⟩) main_call15.v0 main_call15.v1 maximumf,  -- in %261 = func.call @relu_1(%260) : (tensor<50x128xf32>) -> tensor<50x128xf32>  @ reference:31
    StableHlo.unary main_arg18 main_v262 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %262 = stablehlo.slice %arg18 [1:2, 0:128, 0:128] : (tensor<2x128x128xf32>) -> tensor<1x128x128xf32>  @ reference:31
    StableHlo.reshape main_v262 main_v263 rfl shapeCasts_S1x128x128_S128x128,  -- %263 = stablehlo.reshape %262 : (tensor<1x128x128xf32>) -> tensor<128x128xf32>  @ reference:31
    StableHlo.binary main_v261 main_v263 main_v264 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %264 = stablehlo.dot_general %261, %263, contracting_dims = [1] x [0], precision = [DEFAULT, DEFAULT] : (tensor<50x128xf32>, tensor<128x128xf32>) -> tensor<50x128xf32>  @ reference:31
    StableHlo.unary main_arg19 main_v265 ((extractStridedSlice S1x128 ![1, 0] · slices_S2x128_S1x128_1_0) : (⟨S2x128, .f32⟩ : BufTy).Contents (Elt F) → (⟨S1x128, .f32⟩ : BufTy).Contents (Elt F)),  -- %265 = stablehlo.slice %arg19 [1:2, 0:128] : (tensor<2x128xf32>) -> tensor<1x128xf32>  @ reference:31
    StableHlo.reshape main_v265 main_v266 rfl shapeCasts_S1x128_S128,  -- %266 = stablehlo.reshape %265 : (tensor<1x128xf32>) -> tensor<128xf32>  @ reference:31
    StableHlo.unary main_v266 main_v267 (broadcastInDim S1x128 ![1] bcast_S128_S1x128_1 : (⟨S128, .f32⟩ : BufTy).Contents (Elt F) → (⟨S1x128, .f32⟩ : BufTy).Contents (Elt F)),  -- %267 = stablehlo.broadcast_in_dim %266, dims = [1] : (tensor<128xf32>) -> tensor<1x128xf32>  @ reference:31
    StableHlo.unary main_v267 main_v268 (broadcastInDim S50x128 ![0, 1] bcast_S1x128_S50x128_0_1 : (⟨S1x128, .f32⟩ : BufTy).Contents (Elt F) → (⟨S50x128, .f32⟩ : BufTy).Contents (Elt F)),  -- %268 = stablehlo.broadcast_in_dim %267, dims = [0, 1] : (tensor<1x128xf32>) -> tensor<50x128xf32>  @ reference:31
    StableHlo.binary main_v264 main_v268 main_v269 (addf : (⟨S50x128, .f32⟩ : BufTy).Contents (Elt F) → (⟨S50x128, .f32⟩ : BufTy).Contents (Elt F) → (⟨S50x128, .f32⟩ : BufTy).Contents (Elt F)),  -- %269 = stablehlo.add %264, %268 : tensor<50x128xf32>  @ reference:31
    StableHlo.TRef.nullary main_call16.cst (constant S_ .f32 0x00000000#32),  -- in %270 = func.call @relu_1(%269) : (tensor<50x128xf32>) -> tensor<50x128xf32>  @ reference:31
    StableHlo.TRef.unary main_call16.cst main_call16.v0 (broadcastInDim S50x128 ![] bcast_S_S50x128),  -- in %270 = func.call @relu_1(%269) : (tensor<50x128xf32>) -> tensor<50x128xf32>  @ reference:31
    StableHlo.TRef.binary (.of main_v269 : StableHlo.TRef sig ⟨S50x128, .f32⟩) main_call16.v0 main_call16.v1 maximumf,  -- in %270 = func.call @relu_1(%269) : (tensor<50x128xf32>) -> tensor<50x128xf32>  @ reference:31
    StableHlo.nullary main_cst_38 (constant S_ .f32 0x00000000#32),  -- %cst_38 = stablehlo.constant dense<0.000000e+00> : tensor<f32>
    StableHlo.unary main_cst_38 main_v271 (broadcastInDim S2000x128 ![] bcast_S_S2000x128 : (⟨S_, .f32⟩ : BufTy).Contents (Elt F) → (⟨S2000x128, .f32⟩ : BufTy).Contents (Elt F)),  -- %271 = stablehlo.broadcast_in_dim %cst_38, dims = [] : (tensor<f32>) -> tensor<2000x128xf32>  @ reference:15
    StableHlo.unary main_v6 main_v272 (broadcastInDim S100000x1 ![0] bcast_S100000_S100000x1_0 : (⟨S100000, .i32⟩ : BufTy).Contents (Elt F) → (⟨S100000x1, .i32⟩ : BufTy).Contents (Elt F)),  -- %272 = stablehlo.broadcast_in_dim %6, dims = [0] : (tensor<100000xi32>) -> tensor<100000x1xi32>  @ reference:15
    StableHlo.ternary main_v271 main_v272 main_v234 main_v273 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),  -- %273 = "stablehlo.scatter"(%271, %272, %234) <{indices_are_sorted = false, scatter_dimension_numbers = #stablehlo.scatter<update_window_dims = [1], inserted_window_dims = [0], scatter_dims_to_operand_dims = [0], index_vector_dim = 1>, unique_indices = false}> ( {  @ reference:15
    StableHlo.nullary main_cst_39 (constant S_ .f32 0x3F800000#32),  -- %cst_39 = stablehlo.constant dense<1.000000e+00> : tensor<f32>
    StableHlo.unary main_cst_39 main_v274 (broadcastInDim S100000x1 ![] bcast_S_S100000x1 : (⟨S_, .f32⟩ : BufTy).Contents (Elt F) → (⟨S100000x1, .f32⟩ : BufTy).Contents (Elt F)),  -- %274 = stablehlo.broadcast_in_dim %cst_39, dims = [] : (tensor<f32>) -> tensor<100000x1xf32>  @ reference:16
    StableHlo.nullary main_cst_40 (constant S_ .f32 0x00000000#32),  -- %cst_40 = stablehlo.constant dense<0.000000e+00> : tensor<f32>
    StableHlo.unary main_cst_40 main_v275 (broadcastInDim S2000x1 ![] bcast_S_S2000x1 : (⟨S_, .f32⟩ : BufTy).Contents (Elt F) → (⟨S2000x1, .f32⟩ : BufTy).Contents (Elt F)),  -- %275 = stablehlo.broadcast_in_dim %cst_40, dims = [] : (tensor<f32>) -> tensor<2000x1xf32>  @ reference:16
    StableHlo.unary main_v6 main_v276 (broadcastInDim S100000x1 ![0] bcast_S100000_S100000x1_0 : (⟨S100000, .i32⟩ : BufTy).Contents (Elt F) → (⟨S100000x1, .i32⟩ : BufTy).Contents (Elt F)),  -- %276 = stablehlo.broadcast_in_dim %6, dims = [0] : (tensor<100000xi32>) -> tensor<100000x1xi32>  @ reference:16
    StableHlo.ternary main_v275 main_v276 main_v274 main_v277 ((fun x i u => Host.scatterAdd scatter_S2000x1_S100000x1_S100000x1_1_0_0_1 x i u) : (⟨S2000x1, .f32⟩ : BufTy).Contents (Elt F) → (⟨S100000x1, .i32⟩ : BufTy).Contents (Elt F) → (⟨S100000x1, .f32⟩ : BufTy).Contents (Elt F) → (⟨S2000x1, .f32⟩ : BufTy).Contents (Elt F)),  -- %277 = "stablehlo.scatter"(%275, %276, %274) <{indices_are_sorted = false, scatter_dimension_numbers = #stablehlo.scatter<update_window_dims = [1], inserted_window_dims = [0], scatter_dims_to_operand_dims = [0], index_vector_dim = 1>, unique_indices = false}> ( {  @ reference:16
    StableHlo.nullary main_cst_41 (constant S_ .f32 0x3F800000#32),  -- %cst_41 = stablehlo.constant dense<1.000000e+00> : tensor<f32>
    StableHlo.unary main_cst_41 main_v278 (broadcastInDim S2000x1 ![] bcast_S_S2000x1 : (⟨S_, .f32⟩ : BufTy).Contents (Elt F) → (⟨S2000x1, .f32⟩ : BufTy).Contents (Elt F)),  -- %278 = stablehlo.broadcast_in_dim %cst_41, dims = [] : (tensor<f32>) -> tensor<2000x1xf32>  @ reference:17
    StableHlo.binary main_v277 main_v278 main_v279 (maximumf : (⟨S2000x1, .f32⟩ : BufTy).Contents (Elt F) → (⟨S2000x1, .f32⟩ : BufTy).Contents (Elt F) → (⟨S2000x1, .f32⟩ : BufTy).Contents (Elt F)),  -- %279 = stablehlo.maximum %277, %278 : tensor<2000x1xf32>  @ reference:17
    StableHlo.unary main_v279 main_v280 (broadcastInDim S2000x128 ![0, 1] bcast_S2000x1_S2000x128_0_1 : (⟨S2000x1, .f32⟩ : BufTy).Contents (Elt F) → (⟨S2000x128, .f32⟩ : BufTy).Contents (Elt F)),  -- %280 = stablehlo.broadcast_in_dim %279, dims = [0, 1] : (tensor<2000x1xf32>) -> tensor<2000x128xf32>  @ reference:17
    StableHlo.binary main_v273 main_v280 main_v281 (Host.divf : (⟨S2000x128, .f32⟩ : BufTy).Contents (Elt F) → (⟨S2000x128, .f32⟩ : BufTy).Contents (Elt F) → (⟨S2000x128, .f32⟩ : BufTy).Contents (Elt F)),  -- %281 = stablehlo.divide %273, %280 : tensor<2000x128xf32>  @ reference:17
    StableHlo.nullary main_cst_42 (constant S_ .f32 0x00000000#32),  -- %cst_42 = stablehlo.constant dense<0.000000e+00> : tensor<f32>
    StableHlo.unary main_cst_42 main_v282 (broadcastInDim S50x128 ![] bcast_S_S50x128 : (⟨S_, .f32⟩ : BufTy).Contents (Elt F) → (⟨S50x128, .f32⟩ : BufTy).Contents (Elt F)),  -- %282 = stablehlo.broadcast_in_dim %cst_42, dims = [] : (tensor<f32>) -> tensor<50x128xf32>  @ reference:15
    StableHlo.unary main_v8 main_v283 (broadcastInDim S2000x1 ![0] bcast_S2000_S2000x1_0 : (⟨S2000, .i32⟩ : BufTy).Contents (Elt F) → (⟨S2000x1, .i32⟩ : BufTy).Contents (Elt F)),  -- %283 = stablehlo.broadcast_in_dim %8, dims = [0] : (tensor<2000xi32>) -> tensor<2000x1xi32>  @ reference:15
    StableHlo.ternary main_v282 main_v283 main_v252 main_v284 ((fun x i u => Host.scatterAdd scatter_S50x128_S2000x1_S2000x128_1_0_0_1 x i u) : (⟨S50x128, .f32⟩ : BufTy).Contents (Elt F) → (⟨S2000x1, .i32⟩ : BufTy).Contents (Elt F) → (⟨S2000x128, .f32⟩ : BufTy).Contents (Elt F) → (⟨S50x128, .f32⟩ : BufTy).Contents (Elt F)),  -- %284 = "stablehlo.scatter"(%282, %283, %252) <{indices_are_sorted = false, scatter_dimension_numbers = #stablehlo.scatter<update_window_dims = [1], inserted_window_dims = [0], scatter_dims_to_operand_dims = [0], index_vector_dim = 1>, unique_indices = false}> ( {  @ reference:15
    StableHlo.nullary main_cst_43 (constant S_ .f32 0x3F800000#32),  -- %cst_43 = stablehlo.constant dense<1.000000e+00> : tensor<f32>
    StableHlo.unary main_cst_43 main_v285 (broadcastInDim S2000x1 ![] bcast_S_S2000x1 : (⟨S_, .f32⟩ : BufTy).Contents (Elt F) → (⟨S2000x1, .f32⟩ : BufTy).Contents (Elt F)),  -- %285 = stablehlo.broadcast_in_dim %cst_43, dims = [] : (tensor<f32>) -> tensor<2000x1xf32>  @ reference:16
    StableHlo.nullary main_cst_44 (constant S_ .f32 0x00000000#32),  -- %cst_44 = stablehlo.constant dense<0.000000e+00> : tensor<f32>
    StableHlo.unary main_cst_44 main_v286 (broadcastInDim S50x1 ![] bcast_S_S50x1 : (⟨S_, .f32⟩ : BufTy).Contents (Elt F) → (⟨S50x1, .f32⟩ : BufTy).Contents (Elt F)),  -- %286 = stablehlo.broadcast_in_dim %cst_44, dims = [] : (tensor<f32>) -> tensor<50x1xf32>  @ reference:16
    StableHlo.unary main_v8 main_v287 (broadcastInDim S2000x1 ![0] bcast_S2000_S2000x1_0 : (⟨S2000, .i32⟩ : BufTy).Contents (Elt F) → (⟨S2000x1, .i32⟩ : BufTy).Contents (Elt F)),  -- %287 = stablehlo.broadcast_in_dim %8, dims = [0] : (tensor<2000xi32>) -> tensor<2000x1xi32>  @ reference:16
    StableHlo.ternary main_v286 main_v287 main_v285 main_v288 ((fun x i u => Host.scatterAdd scatter_S50x1_S2000x1_S2000x1_1_0_0_1 x i u) : (⟨S50x1, .f32⟩ : BufTy).Contents (Elt F) → (⟨S2000x1, .i32⟩ : BufTy).Contents (Elt F) → (⟨S2000x1, .f32⟩ : BufTy).Contents (Elt F) → (⟨S50x1, .f32⟩ : BufTy).Contents (Elt F)),  -- %288 = "stablehlo.scatter"(%286, %287, %285) <{indices_are_sorted = false, scatter_dimension_numbers = #stablehlo.scatter<update_window_dims = [1], inserted_window_dims = [0], scatter_dims_to_operand_dims = [0], index_vector_dim = 1>, unique_indices = false}> ( {  @ reference:16
    StableHlo.nullary main_cst_45 (constant S_ .f32 0x3F800000#32),  -- %cst_45 = stablehlo.constant dense<1.000000e+00> : tensor<f32>
    StableHlo.unary main_cst_45 main_v289 (broadcastInDim S50x1 ![] bcast_S_S50x1 : (⟨S_, .f32⟩ : BufTy).Contents (Elt F) → (⟨S50x1, .f32⟩ : BufTy).Contents (Elt F)),  -- %289 = stablehlo.broadcast_in_dim %cst_45, dims = [] : (tensor<f32>) -> tensor<50x1xf32>  @ reference:17
    StableHlo.binary main_v288 main_v289 main_v290 (maximumf : (⟨S50x1, .f32⟩ : BufTy).Contents (Elt F) → (⟨S50x1, .f32⟩ : BufTy).Contents (Elt F) → (⟨S50x1, .f32⟩ : BufTy).Contents (Elt F)),  -- %290 = stablehlo.maximum %288, %289 : tensor<50x1xf32>  @ reference:17
    StableHlo.unary main_v290 main_v291 (broadcastInDim S50x128 ![0, 1] bcast_S50x1_S50x128_0_1 : (⟨S50x1, .f32⟩ : BufTy).Contents (Elt F) → (⟨S50x128, .f32⟩ : BufTy).Contents (Elt F)),  -- %291 = stablehlo.broadcast_in_dim %290, dims = [0, 1] : (tensor<50x1xf32>) -> tensor<50x128xf32>  @ reference:17
    StableHlo.binary main_v284 main_v291 main_v292 (Host.divf : (⟨S50x128, .f32⟩ : BufTy).Contents (Elt F) → (⟨S50x128, .f32⟩ : BufTy).Contents (Elt F) → (⟨S50x128, .f32⟩ : BufTy).Contents (Elt F)),  -- %292 = stablehlo.divide %284, %291 : tensor<50x128xf32>  @ reference:17
    StableHlo.binary main_v234 main_arg20 main_v293 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %293 = stablehlo.dot_general %234, %arg20, contracting_dims = [1] x [0], precision = [DEFAULT, DEFAULT] : (tensor<100000x128xf32>, tensor<128x128xf32>) -> tensor<100000x128xf32>  @ reference:53
    StableHlo.nullary main_c_46 (constantI S_ 32 0#32),  -- %c_46 = stablehlo.constant dense<0> : tensor<i32>
    StableHlo.unary main_c_46 main_v294 (broadcastInDim S100000 ![] bcast_S_S100000 : (⟨S_, .i32⟩ : BufTy).Contents (Elt F) → (⟨S100000, .i32⟩ : BufTy).Contents (Elt F)),  -- %294 = stablehlo.broadcast_in_dim %c_46, dims = [] : (tensor<i32>) -> tensor<100000xi32>  @ reference:53
    StableHlo.binary main_v6 main_v294 main_v295 (cmpi .slt : (⟨S100000, .i32⟩ : BufTy).Contents (Elt F) → (⟨S100000, .i32⟩ : BufTy).Contents (Elt F) → (⟨S100000, .i1⟩ : BufTy).Contents (Elt F)),  -- %295 = stablehlo.compare LT, %6, %294, SIGNED : (tensor<100000xi32>, tensor<100000xi32>) -> tensor<100000xi1>  @ reference:53
    StableHlo.nullary main_c_47 (constantI S_ 32 2000#32),  -- %c_47 = stablehlo.constant dense<2000> : tensor<i32>
    StableHlo.unary main_c_47 main_v296 (broadcastInDim S100000 ![] bcast_S_S100000 : (⟨S_, .i32⟩ : BufTy).Contents (Elt F) → (⟨S100000, .i32⟩ : BufTy).Contents (Elt F)),  -- %296 = stablehlo.broadcast_in_dim %c_47, dims = [] : (tensor<i32>) -> tensor<100000xi32>  @ reference:53
    StableHlo.binary main_v6 main_v296 main_v297 (addi : (⟨S100000, .i32⟩ : BufTy).Contents (Elt F) → (⟨S100000, .i32⟩ : BufTy).Contents (Elt F) → (⟨S100000, .i32⟩ : BufTy).Contents (Elt F)),  -- %297 = stablehlo.add %6, %296 : tensor<100000xi32>  @ reference:53
    StableHlo.ternary main_v295 main_v297 main_v6 main_v298 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),  -- %298 = stablehlo.select %295, %297, %6 : tensor<100000xi1>, tensor<100000xi32>  @ reference:53
    StableHlo.unary main_v298 main_v299 (broadcastInDim S100000x1 ![0] bcast_S100000_S100000x1_0 : (⟨S100000, .i32⟩ : BufTy).Contents (Elt F) → (⟨S100000x1, .i32⟩ : BufTy).Contents (Elt F)),  -- %299 = stablehlo.broadcast_in_dim %298, dims = [0] : (tensor<100000xi32>) -> tensor<100000x1xi32>  @ reference:53
    StableHlo.binary main_v252 main_v299 main_v300 ((fun x i => Host.gather gather_S2000x128_S100000x1_S100000x128_1_0_n_n_0_1_1128 x i) : (⟨S2000x128, .f32⟩ : BufTy).Contents (Elt F) → (⟨S100000x1, .i32⟩ : BufTy).Contents (Elt F) → (⟨S100000x128, .f32⟩ : BufTy).Contents (Elt F)),  -- %300 = "stablehlo.gather"(%252, %299) <{dimension_numbers = #stablehlo.gather<offset_dims = [1], collapsed_slice_dims = [0], start_index_map = [0], index_vector_dim = 1>, indices_are_sorted = false, slice_sizes = array<i64: 1, 128>}> : (tensor<2000x128xf32>, tensor<100000x1xi32>) -> tensor<100000x128xf32>  @ reference:53
    StableHlo.binary main_v300 main_arg25 main_v301 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %301 = stablehlo.dot_general %300, %arg25, contracting_dims = [1] x [0], precision = [DEFAULT, DEFAULT] : (tensor<100000x128xf32>, tensor<128x128xf32>) -> tensor<100000x128xf32>  @ reference:53
    StableHlo.binary main_v293 main_v301 main_v302 (addf : (⟨S100000x128, .f32⟩ : BufTy).Contents (Elt F) → (⟨S100000x128, .f32⟩ : BufTy).Contents (Elt F) → (⟨S100000x128, .f32⟩ : BufTy).Contents (Elt F)),  -- %302 = stablehlo.add %293, %301 : tensor<100000x128xf32>  @ reference:53
    StableHlo.unary main_arg27 main_v303 (broadcastInDim S1x128 ![1] bcast_S128_S1x128_1 : (⟨S128, .f32⟩ : BufTy).Contents (Elt F) → (⟨S1x128, .f32⟩ : BufTy).Contents (Elt F)),  -- %303 = stablehlo.broadcast_in_dim %arg27, dims = [1] : (tensor<128xf32>) -> tensor<1x128xf32>  @ reference:53
    StableHlo.unary main_v303 main_v304 (broadcastInDim S100000x128 ![0, 1] bcast_S1x128_S100000x128_0_1 : (⟨S1x128, .f32⟩ : BufTy).Contents (Elt F) → (⟨S100000x128, .f32⟩ : BufTy).Contents (Elt F)),  -- %304 = stablehlo.broadcast_in_dim %303, dims = [0, 1] : (tensor<1x128xf32>) -> tensor<100000x128xf32>  @ reference:53
    StableHlo.binary main_v302 main_v304 main_v305 (addf : (⟨S100000x128, .f32⟩ : BufTy).Contents (Elt F) → (⟨S100000x128, .f32⟩ : BufTy).Contents (Elt F) → (⟨S100000x128, .f32⟩ : BufTy).Contents (Elt F)),  -- %305 = stablehlo.add %302, %304 : tensor<100000x128xf32>  @ reference:53
    StableHlo.TRef.nullary main_call17.cst (constant S_ .f32 0x00000000#32),  -- in %306 = func.call @relu(%305) : (tensor<100000x128xf32>) -> tensor<100000x128xf32>  @ reference:53
    StableHlo.TRef.unary main_call17.cst main_call17.v0 (broadcastInDim S100000x128 ![] bcast_S_S100000x128),  -- in %306 = func.call @relu(%305) : (tensor<100000x128xf32>) -> tensor<100000x128xf32>  @ reference:53
    StableHlo.TRef.binary (.of main_v305 : StableHlo.TRef sig ⟨S100000x128, .f32⟩) main_call17.v0 main_call17.v1 maximumf,  -- in %306 = func.call @relu(%305) : (tensor<100000x128xf32>) -> tensor<100000x128xf32>  @ reference:53
    StableHlo.binary main_v252 main_arg21 main_v307 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %307 = stablehlo.dot_general %252, %arg21, contracting_dims = [1] x [0], precision = [DEFAULT, DEFAULT] : (tensor<2000x128xf32>, tensor<128x128xf32>) -> tensor<2000x128xf32>  @ reference:54
    StableHlo.binary main_v281 main_arg23 main_v308 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %308 = stablehlo.dot_general %281, %arg23, contracting_dims = [1] x [0], precision = [DEFAULT, DEFAULT] : (tensor<2000x128xf32>, tensor<128x128xf32>) -> tensor<2000x128xf32>  @ reference:54
    StableHlo.binary main_v307 main_v308 main_v309 (addf : (⟨S2000x128, .f32⟩ : BufTy).Contents (Elt F) → (⟨S2000x128, .f32⟩ : BufTy).Contents (Elt F) → (⟨S2000x128, .f32⟩ : BufTy).Contents (Elt F)) ]  -- %309 = stablehlo.add %307, %308 : tensor<2000x128xf32>  @ reference:54

set_option maxRecDepth 4096 in
/-- Part 5 is that straight line: the called functions unfolded at their calls, both sides are one chain of
    single operations once the sequencing is reassociated. -/
theorem main_part5_eq (c : Dev nD) : main_part5 (F := F) c = seq ops5 := by
  simp only [main_part5, fn_relu.body, fn_relu_1.body, seq, bind_assoc, pure_bind]
  rfl

/-- Every operation of the part touches TensorCore references only. -/
theorem ops5_sub : (ops5 : List (HloOp τ sig (Elt F))).Forall fun op => op.bufs ⊆ tcRefs τ sig :=
  ⟨binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., binary_bufs_sub .., binary_bufs_sub ..⟩

/-- Every operation of the part determines what it writes. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The references the part's operations write: one each, its result. -/
abbrev href_W5 : List (Ref sig .tc) :=
  [main_v260, main_call15.cst.ref, main_call15.v0.ref, main_call15.v1.ref, main_v262, main_v263, main_v264, main_v265,
   main_v266, main_v267, main_v268, main_v269, main_call16.cst.ref, main_call16.v0.ref, main_call16.v1.ref, main_cst_38,
   main_v271, main_v272, main_v273, main_cst_39, main_v274, main_cst_40, main_v275, main_v276,
   main_v277, main_cst_41, main_v278, main_v279, main_v280, main_v281, main_cst_42, main_v282,
   main_v283, main_v284, main_cst_43, main_v285, main_cst_44, main_v286, main_v287, main_v288,
   main_cst_45, main_v289, main_v290, main_v291, main_v292, main_v293, main_c_46, main_v294,
   main_v295, main_c_47, main_v296, main_v297, main_v298, main_v299, main_v300, main_v301,
   main_v302, main_v303, main_v304, main_v305, main_call17.cst.ref, main_call17.v0.ref, main_call17.v1.ref, main_v307,
   main_v308, main_v309]

theorem ops5_writes : (ops5 : List (HloOp τ sig (Elt F))).Forall fun op =>
    op.writes ⊆ (href_W5.map (Proc.devRef (τ := τ) .tc)).toFinset :=
  ⟨href_wsub main_v260 rfl (by decide), href_wsub main_call15.cst.ref rfl (by decide), href_wsub main_call15.v0.ref rfl (by decide),
    href_wsub main_call15.v1.ref rfl (by decide), href_wsub main_v262 rfl (by decide), href_wsub main_v263 rfl (by decide),
    href_wsub main_v264 rfl (by decide), href_wsub main_v265 rfl (by decide), href_wsub main_v266 rfl (by decide),
    href_wsub main_v267 rfl (by decide), href_wsub main_v268 rfl (by decide), href_wsub main_v269 rfl (by decide),
    href_wsub main_call16.cst.ref rfl (by decide), href_wsub main_call16.v0.ref rfl (by decide), href_wsub main_call16.v1.ref rfl (by decide),
    href_wsub main_cst_38 rfl (by decide), href_wsub main_v271 rfl (by decide), href_wsub main_v272 rfl (by decide),
    href_wsub main_v273 rfl (by decide), href_wsub main_cst_39 rfl (by decide), href_wsub main_v274 rfl (by decide),
    href_wsub main_cst_40 rfl (by decide), href_wsub main_v275 rfl (by decide), href_wsub main_v276 rfl (by decide),
    href_wsub main_v277 rfl (by decide), href_wsub main_cst_41 rfl (by decide), href_wsub main_v278 rfl (by decide),
    href_wsub main_v279 rfl (by decide), href_wsub main_v280 rfl (by decide), href_wsub main_v281 rfl (by decide),
    href_wsub main_cst_42 rfl (by decide), href_wsub main_v282 rfl (by decide), href_wsub main_v283 rfl (by decide),
    href_wsub main_v284 rfl (by decide), href_wsub main_cst_43 rfl (by decide), href_wsub main_v285 rfl (by decide),
    href_wsub main_cst_44 rfl (by decide), href_wsub main_v286 rfl (by decide), href_wsub main_v287 rfl (by decide),
    href_wsub main_v288 rfl (by decide), href_wsub main_cst_45 rfl (by decide), href_wsub main_v289 rfl (by decide),
    href_wsub main_v290 rfl (by decide), href_wsub main_v291 rfl (by decide), href_wsub main_v292 rfl (by decide),
    href_wsub main_v293 rfl (by decide), href_wsub main_c_46 rfl (by decide), href_wsub main_v294 rfl (by decide),
    href_wsub main_v295 rfl (by decide), href_wsub main_c_47 rfl (by decide), href_wsub main_v296 rfl (by decide),
    href_wsub main_v297 rfl (by decide), href_wsub main_v298 rfl (by decide), href_wsub main_v299 rfl (by decide),
    href_wsub main_v300 rfl (by decide), href_wsub main_v301 rfl (by decide), href_wsub main_v302 rfl (by decide),
    href_wsub main_v303 rfl (by decide), href_wsub main_v304 rfl (by decide), href_wsub main_v305 rfl (by decide),
    href_wsub main_call17.cst.ref rfl (by decide), href_wsub main_call17.v0.ref rfl (by decide), href_wsub main_call17.v1.ref rfl (by decide),
    href_wsub main_v307 rfl (by decide), href_wsub main_v308 rfl (by decide), href_wsub main_v309 rfl (by decide)⟩

end Cert.ReferenceIdeal.Hand

end
-- ==== Proof.Ref.Ops6.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 6 of @main as a list of 66 operations, in order: its own statements as printed, and at each call of an
    outlined function that function's operations over the call's operands and the call's own buffers. -/
abbrev ops6 : List (HloOp τ sig (Elt F)) :=
  [ StableHlo.nullary main_c_48 (constantI S_ 32 0#32),  -- %c_48 = stablehlo.constant dense<0> : tensor<i32>
    StableHlo.unary main_c_48 main_v310 (broadcastInDim S2000 ![] bcast_S_S2000 : (⟨S_, .i32⟩ : BufTy).Contents (Elt F) → (⟨S2000, .i32⟩ : BufTy).Contents (Elt F)),  -- %310 = stablehlo.broadcast_in_dim %c_48, dims = [] : (tensor<i32>) -> tensor<2000xi32>  @ reference:54
    StableHlo.binary main_v8 main_v310 main_v311 (cmpi .slt : (⟨S2000, .i32⟩ : BufTy).Contents (Elt F) → (⟨S2000, .i32⟩ : BufTy).Contents (Elt F) → (⟨S2000, .i1⟩ : BufTy).Contents (Elt F)),  -- %311 = stablehlo.compare LT, %8, %310, SIGNED : (tensor<2000xi32>, tensor<2000xi32>) -> tensor<2000xi1>  @ reference:54
    StableHlo.nullary main_c_49 (constantI S_ 32 50#32),  -- %c_49 = stablehlo.constant dense<50> : tensor<i32>
    StableHlo.unary main_c_49 main_v312 (broadcastInDim S2000 ![] bcast_S_S2000 : (⟨S_, .i32⟩ : BufTy).Contents (Elt F) → (⟨S2000, .i32⟩ : BufTy).Contents (Elt F)),  -- %312 = stablehlo.broadcast_in_dim %c_49, dims = [] : (tensor<i32>) -> tensor<2000xi32>  @ reference:54
    StableHlo.binary main_v8 main_v312 main_v313 (addi : (⟨S2000, .i32⟩ : BufTy).Contents (Elt F) → (⟨S2000, .i32⟩ : BufTy).Contents (Elt F) → (⟨S2000, .i32⟩ : BufTy).Contents (Elt F)),  -- %313 = stablehlo.add %8, %312 : tensor<2000xi32>  @ reference:54
    StableHlo.ternary main_v311 main_v313 main_v8 main_v314 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),  -- %314 = stablehlo.select %311, %313, %8 : tensor<2000xi1>, tensor<2000xi32>  @ reference:54
    StableHlo.unary main_v314 main_v315 (broadcastInDim S2000x1 ![0] bcast_S2000_S2000x1_0 : (⟨S2000, .i32⟩ : BufTy).Contents (Elt F) → (⟨S2000x1, .i32⟩ : BufTy).Contents (Elt F)),  -- %315 = stablehlo.broadcast_in_dim %314, dims = [0] : (tensor<2000xi32>) -> tensor<2000x1xi32>  @ reference:54
    StableHlo.binary main_v270 main_v315 main_v316 ((fun x i => Host.gather gather_S50x128_S2000x1_S2000x128_1_0_n_n_0_1_1128 x i) : (⟨S50x128, .f32⟩ : BufTy).Contents (Elt F) → (⟨S2000x1, .i32⟩ : BufTy).Contents (Elt F) → (⟨S2000x128, .f32⟩ : BufTy).Contents (Elt F)),  -- %316 = "stablehlo.gather"(%270, %315) <{dimension_numbers = #stablehlo.gather<offset_dims = [1], collapsed_slice_dims = [0], start_index_map = [0], index_vector_dim = 1>, indices_are_sorted = false, slice_sizes = array<i64: 1, 128>}> : (tensor<50x128xf32>, tensor<2000x1xi32>) -> tensor<2000x128xf32>  @ reference:54
    StableHlo.binary main_v316 main_arg26 main_v317 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %317 = stablehlo.dot_general %316, %arg26, contracting_dims = [1] x [0], precision = [DEFAULT, DEFAULT] : (tensor<2000x128xf32>, tensor<128x128xf32>) -> tensor<2000x128xf32>  @ reference:54
    StableHlo.binary main_v309 main_v317 main_v318 (addf : (⟨S2000x128, .f32⟩ : BufTy).Contents (Elt F) → (⟨S2000x128, .f32⟩ : BufTy).Contents (Elt F) → (⟨S2000x128, .f32⟩ : BufTy).Contents (Elt F)),  -- %318 = stablehlo.add %309, %317 : tensor<2000x128xf32>  @ reference:54
    StableHlo.unary main_arg28 main_v319 (broadcastInDim S1x128 ![1] bcast_S128_S1x128_1 : (⟨S128, .f32⟩ : BufTy).Contents (Elt F) → (⟨S1x128, .f32⟩ : BufTy).Contents (Elt F)),  -- %319 = stablehlo.broadcast_in_dim %arg28, dims = [1] : (tensor<128xf32>) -> tensor<1x128xf32>  @ reference:54
    StableHlo.unary main_v319 main_v320 (broadcastInDim S2000x128 ![0, 1] bcast_S1x128_S2000x128_0_1 : (⟨S1x128, .f32⟩ : BufTy).Contents (Elt F) → (⟨S2000x128, .f32⟩ : BufTy).Contents (Elt F)),  -- %320 = stablehlo.broadcast_in_dim %319, dims = [0, 1] : (tensor<1x128xf32>) -> tensor<2000x128xf32>  @ reference:54
    StableHlo.binary main_v318 main_v320 main_v321 (addf : (⟨S2000x128, .f32⟩ : BufTy).Contents (Elt F) → (⟨S2000x128, .f32⟩ : BufTy).Contents (Elt F) → (⟨S2000x128, .f32⟩ : BufTy).Contents (Elt F)),  -- %321 = stablehlo.add %318, %320 : tensor<2000x128xf32>  @ reference:54
    StableHlo.TRef.nullary main_call18.cst (constant S_ .f32 0x00000000#32),  -- in %322 = func.call @relu_0(%321) : (tensor<2000x128xf32>) -> tensor<2000x128xf32>  @ reference:54
    StableHlo.TRef.unary main_call18.cst main_call18.v0 (broadcastInDim S2000x128 ![] bcast_S_S2000x128),  -- in %322 = func.call @relu_0(%321) : (tensor<2000x128xf32>) -> tensor<2000x128xf32>  @ reference:54
    StableHlo.TRef.binary (.of main_v321 : StableHlo.TRef sig ⟨S2000x128, .f32⟩) main_call18.v0 main_call18.v1 maximumf,  -- in %322 = func.call @relu_0(%321) : (tensor<2000x128xf32>) -> tensor<2000x128xf32>  @ reference:54
    StableHlo.binary main_v270 main_arg22 main_v323 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %323 = stablehlo.dot_general %270, %arg22, contracting_dims = [1] x [0], precision = [DEFAULT, DEFAULT] : (tensor<50x128xf32>, tensor<128x128xf32>) -> tensor<50x128xf32>  @ reference:55
    StableHlo.binary main_v292 main_arg24 main_v324 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %324 = stablehlo.dot_general %292, %arg24, contracting_dims = [1] x [0], precision = [DEFAULT, DEFAULT] : (tensor<50x128xf32>, tensor<128x128xf32>) -> tensor<50x128xf32>  @ reference:55
    StableHlo.binary main_v323 main_v324 main_v325 (addf : (⟨S50x128, .f32⟩ : BufTy).Contents (Elt F) → (⟨S50x128, .f32⟩ : BufTy).Contents (Elt F) → (⟨S50x128, .f32⟩ : BufTy).Contents (Elt F)),  -- %325 = stablehlo.add %323, %324 : tensor<50x128xf32>  @ reference:55
    StableHlo.unary main_arg29 main_v326 (broadcastInDim S1x128 ![1] bcast_S128_S1x128_1 : (⟨S128, .f32⟩ : BufTy).Contents (Elt F) → (⟨S1x128, .f32⟩ : BufTy).Contents (Elt F)),  -- %326 = stablehlo.broadcast_in_dim %arg29, dims = [1] : (tensor<128xf32>) -> tensor<1x128xf32>  @ reference:55
    StableHlo.unary main_v326 main_v327 (broadcastInDim S50x128 ![0, 1] bcast_S1x128_S50x128_0_1 : (⟨S1x128, .f32⟩ : BufTy).Contents (Elt F) → (⟨S50x128, .f32⟩ : BufTy).Contents (Elt F)),  -- %327 = stablehlo.broadcast_in_dim %326, dims = [0, 1] : (tensor<1x128xf32>) -> tensor<50x128xf32>  @ reference:55
    StableHlo.binary main_v325 main_v327 main_v328 (addf : (⟨S50x128, .f32⟩ : BufTy).Contents (Elt F) → (⟨S50x128, .f32⟩ : BufTy).Contents (Elt F) → (⟨S50x128, .f32⟩ : BufTy).Contents (Elt F)),  -- %328 = stablehlo.add %325, %327 : tensor<50x128xf32>  @ reference:55
    StableHlo.TRef.nullary main_call19.cst (constant S_ .f32 0x00000000#32),  -- in %329 = func.call @relu_1(%328) : (tensor<50x128xf32>) -> tensor<50x128xf32>  @ reference:55
    StableHlo.TRef.unary main_call19.cst main_call19.v0 (broadcastInDim S50x128 ![] bcast_S_S50x128),  -- in %329 = func.call @relu_1(%328) : (tensor<50x128xf32>) -> tensor<50x128xf32>  @ reference:55
    StableHlo.TRef.binary (.of main_v328 : StableHlo.TRef sig ⟨S50x128, .f32⟩) main_call19.v0 main_call19.v1 maximumf,  -- in %329 = func.call @relu_1(%328) : (tensor<50x128xf32>) -> tensor<50x128xf32>  @ reference:55
    StableHlo.nullary main_c_50 (constantI S_ 32 0#32),  -- %c_50 = stablehlo.constant dense<0> : tensor<i32>
    StableHlo.unary main_c_50 main_v330 (broadcastInDim S600000 ![] bcast_S_S600000 : (⟨S_, .i32⟩ : BufTy).Contents (Elt F) → (⟨S600000, .i32⟩ : BufTy).Contents (Elt F)),  -- %330 = stablehlo.broadcast_in_dim %c_50, dims = [] : (tensor<i32>) -> tensor<600000xi32>  @ reference:23
    StableHlo.binary main_v1 main_v330 main_v331 (cmpi .slt : (⟨S600000, .i32⟩ : BufTy).Contents (Elt F) → (⟨S600000, .i32⟩ : BufTy).Contents (Elt F) → (⟨S600000, .i1⟩ : BufTy).Contents (Elt F)),  -- %331 = stablehlo.compare LT, %1, %330, SIGNED : (tensor<600000xi32>, tensor<600000xi32>) -> tensor<600000xi1>  @ reference:23
    StableHlo.nullary main_c_51 (constantI S_ 32 100000#32),  -- %c_51 = stablehlo.constant dense<100000> : tensor<i32>
    StableHlo.unary main_c_51 main_v332 (broadcastInDim S600000 ![] bcast_S_S600000 : (⟨S_, .i32⟩ : BufTy).Contents (Elt F) → (⟨S600000, .i32⟩ : BufTy).Contents (Elt F)),  -- %332 = stablehlo.broadcast_in_dim %c_51, dims = [] : (tensor<i32>) -> tensor<600000xi32>  @ reference:23
    StableHlo.binary main_v1 main_v332 main_v333 (addi : (⟨S600000, .i32⟩ : BufTy).Contents (Elt F) → (⟨S600000, .i32⟩ : BufTy).Contents (Elt F) → (⟨S600000, .i32⟩ : BufTy).Contents (Elt F)),  -- %333 = stablehlo.add %1, %332 : tensor<600000xi32>  @ reference:23
    StableHlo.ternary main_v331 main_v333 main_v1 main_v334 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),  -- %334 = stablehlo.select %331, %333, %1 : tensor<600000xi1>, tensor<600000xi32>  @ reference:23
    StableHlo.unary main_v334 main_v335 (broadcastInDim S600000x1 ![0] bcast_S600000_S600000x1_0 : (⟨S600000, .i32⟩ : BufTy).Contents (Elt F) → (⟨S600000x1, .i32⟩ : BufTy).Contents (Elt F)),  -- %335 = stablehlo.broadcast_in_dim %334, dims = [0] : (tensor<600000xi32>) -> tensor<600000x1xi32>  @ reference:23
    StableHlo.binary main_v306 main_v335 main_v336 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),  -- %336 = "stablehlo.gather"(%306, %335) <{dimension_numbers = #stablehlo.gather<offset_dims = [1], collapsed_slice_dims = [0], start_index_map = [0], index_vector_dim = 1>, indices_are_sorted = false, slice_sizes = array<i64: 1, 128>}> : (tensor<100000x128xf32>, tensor<600000x1xi32>) -> tensor<600000x128xf32>  @ reference:23
    StableHlo.nullary main_cst_52 (constant S_ .f32 0x00000000#32),  -- %cst_52 = stablehlo.constant dense<0.000000e+00> : tensor<f32>
    StableHlo.unary main_cst_52 main_v337 (broadcastInDim S100000x128 ![] bcast_S_S100000x128 : (⟨S_, .f32⟩ : BufTy).Contents (Elt F) → (⟨S100000x128, .f32⟩ : BufTy).Contents (Elt F)),  -- %337 = stablehlo.broadcast_in_dim %cst_52, dims = [] : (tensor<f32>) -> tensor<100000x128xf32>  @ reference:15
    StableHlo.unary main_v3 main_v338 (broadcastInDim S600000x1 ![0] bcast_S600000_S600000x1_0 : (⟨S600000, .i32⟩ : BufTy).Contents (Elt F) → (⟨S600000x1, .i32⟩ : BufTy).Contents (Elt F)),  -- %338 = stablehlo.broadcast_in_dim %3, dims = [0] : (tensor<600000xi32>) -> tensor<600000x1xi32>  @ reference:15
    StableHlo.ternary main_v337 main_v338 main_v336 main_v339 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),  -- %339 = "stablehlo.scatter"(%337, %338, %336) <{indices_are_sorted = false, scatter_dimension_numbers = #stablehlo.scatter<update_window_dims = [1], inserted_window_dims = [0], scatter_dims_to_operand_dims = [0], index_vector_dim = 1>, unique_indices = false}> ( {  @ reference:15
    StableHlo.nullary main_cst_53 (constant S_ .f32 0x3F800000#32),  -- %cst_53 = stablehlo.constant dense<1.000000e+00> : tensor<f32>
    StableHlo.unary main_cst_53 main_v340 (broadcastInDim S600000x1 ![] bcast_S_S600000x1 : (⟨S_, .f32⟩ : BufTy).Contents (Elt F) → (⟨S600000x1, .f32⟩ : BufTy).Contents (Elt F)),  -- %340 = stablehlo.broadcast_in_dim %cst_53, dims = [] : (tensor<f32>) -> tensor<600000x1xf32>  @ reference:16
    StableHlo.nullary main_cst_54 (constant S_ .f32 0x00000000#32),  -- %cst_54 = stablehlo.constant dense<0.000000e+00> : tensor<f32>
    StableHlo.unary main_cst_54 main_v341 (broadcastInDim S100000x1 ![] bcast_S_S100000x1 : (⟨S_, .f32⟩ : BufTy).Contents (Elt F) → (⟨S100000x1, .f32⟩ : BufTy).Contents (Elt F)),  -- %341 = stablehlo.broadcast_in_dim %cst_54, dims = [] : (tensor<f32>) -> tensor<100000x1xf32>  @ reference:16
    StableHlo.unary main_v3 main_v342 (broadcastInDim S600000x1 ![0] bcast_S600000_S600000x1_0 : (⟨S600000, .i32⟩ : BufTy).Contents (Elt F) → (⟨S600000x1, .i32⟩ : BufTy).Contents (Elt F)),  -- %342 = stablehlo.broadcast_in_dim %3, dims = [0] : (tensor<600000xi32>) -> tensor<600000x1xi32>  @ reference:16
    StableHlo.ternary main_v341 main_v342 main_v340 main_v343 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),  -- %343 = "stablehlo.scatter"(%341, %342, %340) <{indices_are_sorted = false, scatter_dimension_numbers = #stablehlo.scatter<update_window_dims = [1], inserted_window_dims = [0], scatter_dims_to_operand_dims = [0], index_vector_dim = 1>, unique_indices = false}> ( {  @ reference:16
    StableHlo.nullary main_cst_55 (constant S_ .f32 0x3F800000#32),  -- %cst_55 = stablehlo.constant dense<1.000000e+00> : tensor<f32>
    StableHlo.unary main_cst_55 main_v344 (broadcastInDim S100000x1 ![] bcast_S_S100000x1 : (⟨S_, .f32⟩ : BufTy).Contents (Elt F) → (⟨S100000x1, .f32⟩ : BufTy).Contents (Elt F)),  -- %344 = stablehlo.broadcast_in_dim %cst_55, dims = [] : (tensor<f32>) -> tensor<100000x1xf32>  @ reference:17
    StableHlo.binary main_v343 main_v344 main_v345 (maximumf : (⟨S100000x1, .f32⟩ : BufTy).Contents (Elt F) → (⟨S100000x1, .f32⟩ : BufTy).Contents (Elt F) → (⟨S100000x1, .f32⟩ : BufTy).Contents (Elt F)),  -- %345 = stablehlo.maximum %343, %344 : tensor<100000x1xf32>  @ reference:17
    StableHlo.unary main_v345 main_v346 (broadcastInDim S100000x128 ![0, 1] bcast_S100000x1_S100000x128_0_1 : (⟨S100000x1, .f32⟩ : BufTy).Contents (Elt F) → (⟨S100000x128, .f32⟩ : BufTy).Contents (Elt F)),  -- %346 = stablehlo.broadcast_in_dim %345, dims = [0, 1] : (tensor<100000x1xf32>) -> tensor<100000x128xf32>  @ reference:17
    StableHlo.binary main_v339 main_v346 main_v347 (Host.divf : (⟨S100000x128, .f32⟩ : BufTy).Contents (Elt F) → (⟨S100000x128, .f32⟩ : BufTy).Contents (Elt F) → (⟨S100000x128, .f32⟩ : BufTy).Contents (Elt F)),  -- %347 = stablehlo.divide %339, %346 : tensor<100000x128xf32>  @ reference:17
    StableHlo.unary main_arg13 main_v348 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %348 = stablehlo.slice %arg13 [0:1, 0:128, 0:128] : (tensor<2x128x128xf32>) -> tensor<1x128x128xf32>  @ reference:24
    StableHlo.reshape main_v348 main_v349 rfl shapeCasts_S1x128x128_S128x128,  -- %349 = stablehlo.reshape %348 : (tensor<1x128x128xf32>) -> tensor<128x128xf32>  @ reference:24
    StableHlo.binary main_v306 main_v349 main_v350 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %350 = stablehlo.dot_general %306, %349, contracting_dims = [1] x [0], precision = [DEFAULT, DEFAULT] : (tensor<100000x128xf32>, tensor<128x128xf32>) -> tensor<100000x128xf32>  @ reference:24
    StableHlo.unary main_arg14 main_v351 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %351 = stablehlo.slice %arg14 [0:1, 0:128, 0:128] : (tensor<2x128x128xf32>) -> tensor<1x128x128xf32>  @ reference:24
    StableHlo.reshape main_v351 main_v352 rfl shapeCasts_S1x128x128_S128x128,  -- %352 = stablehlo.reshape %351 : (tensor<1x128x128xf32>) -> tensor<128x128xf32>  @ reference:24
    StableHlo.binary main_v347 main_v352 main_v353 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %353 = stablehlo.dot_general %347, %352, contracting_dims = [1] x [0], precision = [DEFAULT, DEFAULT] : (tensor<100000x128xf32>, tensor<128x128xf32>) -> tensor<100000x128xf32>  @ reference:24
    StableHlo.binary main_v350 main_v353 main_v354 (addf : (⟨S100000x128, .f32⟩ : BufTy).Contents (Elt F) → (⟨S100000x128, .f32⟩ : BufTy).Contents (Elt F) → (⟨S100000x128, .f32⟩ : BufTy).Contents (Elt F)),  -- %354 = stablehlo.add %350, %353 : tensor<100000x128xf32>  @ reference:24
    StableHlo.unary main_arg15 main_v355 ((extractStridedSlice S1x128 ![0, 0] · slices_S2x128_S1x128_0_0) : (⟨S2x128, .f32⟩ : BufTy).Contents (Elt F) → (⟨S1x128, .f32⟩ : BufTy).Contents (Elt F)),  -- %355 = stablehlo.slice %arg15 [0:1, 0:128] : (tensor<2x128xf32>) -> tensor<1x128xf32>  @ reference:24
    StableHlo.reshape main_v355 main_v356 rfl shapeCasts_S1x128_S128,  -- %356 = stablehlo.reshape %355 : (tensor<1x128xf32>) -> tensor<128xf32>  @ reference:24
    StableHlo.unary main_v356 main_v357 (broadcastInDim S1x128 ![1] bcast_S128_S1x128_1 : (⟨S128, .f32⟩ : BufTy).Contents (Elt F) → (⟨S1x128, .f32⟩ : BufTy).Contents (Elt F)),  -- %357 = stablehlo.broadcast_in_dim %356, dims = [1] : (tensor<128xf32>) -> tensor<1x128xf32>  @ reference:24
    StableHlo.unary main_v357 main_v358 (broadcastInDim S100000x128 ![0, 1] bcast_S1x128_S100000x128_0_1 : (⟨S1x128, .f32⟩ : BufTy).Contents (Elt F) → (⟨S100000x128, .f32⟩ : BufTy).Contents (Elt F)),  -- %358 = stablehlo.broadcast_in_dim %357, dims = [0, 1] : (tensor<1x128xf32>) -> tensor<100000x128xf32>  @ reference:24
    StableHlo.binary main_v354 main_v358 main_v359 (addf : (⟨S100000x128, .f32⟩ : BufTy).Contents (Elt F) → (⟨S100000x128, .f32⟩ : BufTy).Contents (Elt F) → (⟨S100000x128, .f32⟩ : BufTy).Contents (Elt F)),  -- %359 = stablehlo.add %354, %358 : tensor<100000x128xf32>  @ reference:24
    StableHlo.TRef.nullary main_call20.cst (constant S_ .f32 0x00000000#32),  -- in %360 = func.call @relu(%359) : (tensor<100000x128xf32>) -> tensor<100000x128xf32>  @ reference:24
    StableHlo.TRef.unary main_call20.cst main_call20.v0 (broadcastInDim S100000x128 ![] bcast_S_S100000x128),  -- in %360 = func.call @relu(%359) : (tensor<100000x128xf32>) -> tensor<100000x128xf32>  @ reference:24
    StableHlo.TRef.binary (.of main_v359 : StableHlo.TRef sig ⟨S100000x128, .f32⟩) main_call20.v0 main_call20.v1 maximumf,  -- in %360 = func.call @relu(%359) : (tensor<100000x128xf32>) -> tensor<100000x128xf32>  @ reference:24
    StableHlo.nullary main_c_56 (constantI S_ 32 0#32) ]  -- %c_56 = stablehlo.constant dense<0> : tensor<i32>

set_option maxRecDepth 4096 in
/-- Part 6 is that straight line: the called functions unfolded at their calls, both sides are one chain of
    single operations once the sequencing is reassociated. -/
theorem main_part6_eq (c : Dev nD) : main_part6 (F := F) c = seq ops6 := by
  simp only [main_part6, fn_relu.body, fn_relu_0.body, fn_relu_1.body, seq, bind_assoc, pure_bind]
  rfl

/-- Every operation of the part touches TensorCore references only. -/
theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., binary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., binary_bufs_sub .., unary_bufs_sub .., reshape_bufs_sub .., binary_bufs_sub .., unary_bufs_sub ..,
    reshape_bufs_sub .., binary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..⟩

/-- Every operation of the part determines what it writes. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The references the part's operations write: one each, its result. -/
abbrev href_W6 : List (Ref sig .tc) :=
  [main_c_48, main_v310, main_v311, main_c_49, main_v312, main_v313, main_v314, main_v315,
   main_v316, main_v317, main_v318, main_v319, main_v320, main_v321, main_call18.cst.ref, main_call18.v0.ref,
   main_call18.v1.ref, main_v323, main_v324, main_v325, main_v326, main_v327, main_v328, main_call19.cst.ref,
   main_call19.v0.ref, main_call19.v1.ref, main_c_50, main_v330, main_v331, main_c_51, main_v332, main_v333,
   main_v334, main_v335, main_v336, main_cst_52, main_v337, main_v338, main_v339, main_cst_53,
   main_v340, main_cst_54, main_v341, main_v342, main_v343, main_cst_55, main_v344, main_v345,
   main_v346, main_v347, main_v348, main_v349, main_v350, main_v351, main_v352, main_v353,
   main_v354, main_v355, main_v356, main_v357, main_v358, main_v359, main_call20.cst.ref, main_call20.v0.ref,
   main_call20.v1.ref, main_c_56]

theorem ops6_writes : (ops6 : List (HloOp τ sig (Elt F))).Forall fun op =>
    op.writes ⊆ (href_W6.map (Proc.devRef (τ := τ) .tc)).toFinset :=
  ⟨href_wsub main_c_48 rfl (by decide), href_wsub main_v310 rfl (by decide), href_wsub main_v311 rfl (by decide),
    href_wsub main_c_49 rfl (by decide), href_wsub main_v312 rfl (by decide), href_wsub main_v313 rfl (by decide),
    href_wsub main_v314 rfl (by decide), href_wsub main_v315 rfl (by decide), href_wsub main_v316 rfl (by decide),
    href_wsub main_v317 rfl (by decide), href_wsub main_v318 rfl (by decide), href_wsub main_v319 rfl (by decide),
    href_wsub main_v320 rfl (by decide), href_wsub main_v321 rfl (by decide), href_wsub main_call18.cst.ref rfl (by decide),
    href_wsub main_call18.v0.ref rfl (by decide), href_wsub main_call18.v1.ref rfl (by decide), href_wsub main_v323 rfl (by decide),
    href_wsub main_v324 rfl (by decide), href_wsub main_v325 rfl (by decide), href_wsub main_v326 rfl (by decide),
    href_wsub main_v327 rfl (by decide), href_wsub main_v328 rfl (by decide), href_wsub main_call19.cst.ref rfl (by decide),
    href_wsub main_call19.v0.ref rfl (by decide), href_wsub main_call19.v1.ref rfl (by decide), href_wsub main_c_50 rfl (by decide),
    href_wsub main_v330 rfl (by decide), href_wsub main_v331 rfl (by decide), href_wsub main_c_51 rfl (by decide),
    href_wsub main_v332 rfl (by decide), href_wsub main_v333 rfl (by decide), href_wsub main_v334 rfl (by decide),
    href_wsub main_v335 rfl (by decide), href_wsub main_v336 rfl (by decide), href_wsub main_cst_52 rfl (by decide),
    href_wsub main_v337 rfl (by decide), href_wsub main_v338 rfl (by decide), href_wsub main_v339 rfl (by decide),
    href_wsub main_cst_53 rfl (by decide), href_wsub main_v340 rfl (by decide), href_wsub main_cst_54 rfl (by decide),
    href_wsub main_v341 rfl (by decide), href_wsub main_v342 rfl (by decide), href_wsub main_v343 rfl (by decide),
    href_wsub main_cst_55 rfl (by decide), href_wsub main_v344 rfl (by decide), href_wsub main_v345 rfl (by decide),
    href_wsub main_v346 rfl (by decide), href_wsub main_v347 rfl (by decide), href_wsub main_v348 rfl (by decide),
    href_wsub main_v349 rfl (by decide), href_wsub main_v350 rfl (by decide), href_wsub main_v351 rfl (by decide),
    href_wsub main_v352 rfl (by decide), href_wsub main_v353 rfl (by decide), href_wsub main_v354 rfl (by decide),
    href_wsub main_v355 rfl (by decide), href_wsub main_v356 rfl (by decide), href_wsub main_v357 rfl (by decide),
    href_wsub main_v358 rfl (by decide), href_wsub main_v359 rfl (by decide), href_wsub main_call20.cst.ref rfl (by decide),
    href_wsub main_call20.v0.ref rfl (by decide), href_wsub main_call20.v1.ref rfl (by decide), href_wsub main_c_56 rfl (by decide)⟩

end Cert.ReferenceIdeal.Hand

end
-- ==== Proof.Ref.Ops7.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 7 of @main as a list of 66 operations, in order: its own statements as printed, and at each call of an
    outlined function that function's operations over the call's operands and the call's own buffers. -/
abbrev ops7 : List (HloOp τ sig (Elt F)) :=
  [ StableHlo.unary main_c_56 main_v361 (broadcastInDim S600000 ![] bcast_S_S600000 : (⟨S_, .i32⟩ : BufTy).Contents (Elt F) → (⟨S600000, .i32⟩ : BufTy).Contents (Elt F)),  -- %361 = stablehlo.broadcast_in_dim %c_56, dims = [] : (tensor<i32>) -> tensor<600000xi32>  @ reference:23
    StableHlo.binary main_v1 main_v361 main_v362 (cmpi .slt : (⟨S600000, .i32⟩ : BufTy).Contents (Elt F) → (⟨S600000, .i32⟩ : BufTy).Contents (Elt F) → (⟨S600000, .i1⟩ : BufTy).Contents (Elt F)),  -- %362 = stablehlo.compare LT, %1, %361, SIGNED : (tensor<600000xi32>, tensor<600000xi32>) -> tensor<600000xi1>  @ reference:23
    StableHlo.nullary main_c_57 (constantI S_ 32 100000#32),  -- %c_57 = stablehlo.constant dense<100000> : tensor<i32>
    StableHlo.unary main_c_57 main_v363 (broadcastInDim S600000 ![] bcast_S_S600000 : (⟨S_, .i32⟩ : BufTy).Contents (Elt F) → (⟨S600000, .i32⟩ : BufTy).Contents (Elt F)),  -- %363 = stablehlo.broadcast_in_dim %c_57, dims = [] : (tensor<i32>) -> tensor<600000xi32>  @ reference:23
    StableHlo.binary main_v1 main_v363 main_v364 (addi : (⟨S600000, .i32⟩ : BufTy).Contents (Elt F) → (⟨S600000, .i32⟩ : BufTy).Contents (Elt F) → (⟨S600000, .i32⟩ : BufTy).Contents (Elt F)),  -- %364 = stablehlo.add %1, %363 : tensor<600000xi32>  @ reference:23
    StableHlo.ternary main_v362 main_v364 main_v1 main_v365 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),  -- %365 = stablehlo.select %362, %364, %1 : tensor<600000xi1>, tensor<600000xi32>  @ reference:23
    StableHlo.unary main_v365 main_v366 (broadcastInDim S600000x1 ![0] bcast_S600000_S600000x1_0 : (⟨S600000, .i32⟩ : BufTy).Contents (Elt F) → (⟨S600000x1, .i32⟩ : BufTy).Contents (Elt F)),  -- %366 = stablehlo.broadcast_in_dim %365, dims = [0] : (tensor<600000xi32>) -> tensor<600000x1xi32>  @ reference:23
    StableHlo.binary main_v360 main_v366 main_v367 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),  -- %367 = "stablehlo.gather"(%360, %366) <{dimension_numbers = #stablehlo.gather<offset_dims = [1], collapsed_slice_dims = [0], start_index_map = [0], index_vector_dim = 1>, indices_are_sorted = false, slice_sizes = array<i64: 1, 128>}> : (tensor<100000x128xf32>, tensor<600000x1xi32>) -> tensor<600000x128xf32>  @ reference:23
    StableHlo.nullary main_cst_58 (constant S_ .f32 0x00000000#32),  -- %cst_58 = stablehlo.constant dense<0.000000e+00> : tensor<f32>
    StableHlo.unary main_cst_58 main_v368 (broadcastInDim S100000x128 ![] bcast_S_S100000x128 : (⟨S_, .f32⟩ : BufTy).Contents (Elt F) → (⟨S100000x128, .f32⟩ : BufTy).Contents (Elt F)),  -- %368 = stablehlo.broadcast_in_dim %cst_58, dims = [] : (tensor<f32>) -> tensor<100000x128xf32>  @ reference:15
    StableHlo.unary main_v3 main_v369 (broadcastInDim S600000x1 ![0] bcast_S600000_S600000x1_0 : (⟨S600000, .i32⟩ : BufTy).Contents (Elt F) → (⟨S600000x1, .i32⟩ : BufTy).Contents (Elt F)),  -- %369 = stablehlo.broadcast_in_dim %3, dims = [0] : (tensor<600000xi32>) -> tensor<600000x1xi32>  @ reference:15
    StableHlo.ternary main_v368 main_v369 main_v367 main_v370 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),  -- %370 = "stablehlo.scatter"(%368, %369, %367) <{indices_are_sorted = false, scatter_dimension_numbers = #stablehlo.scatter<update_window_dims = [1], inserted_window_dims = [0], scatter_dims_to_operand_dims = [0], index_vector_dim = 1>, unique_indices = false}> ( {  @ reference:15
    StableHlo.nullary main_cst_59 (constant S_ .f32 0x3F800000#32),  -- %cst_59 = stablehlo.constant dense<1.000000e+00> : tensor<f32>
    StableHlo.unary main_cst_59 main_v371 (broadcastInDim S600000x1 ![] bcast_S_S600000x1 : (⟨S_, .f32⟩ : BufTy).Contents (Elt F) → (⟨S600000x1, .f32⟩ : BufTy).Contents (Elt F)),  -- %371 = stablehlo.broadcast_in_dim %cst_59, dims = [] : (tensor<f32>) -> tensor<600000x1xf32>  @ reference:16
    StableHlo.nullary main_cst_60 (constant S_ .f32 0x00000000#32),  -- %cst_60 = stablehlo.constant dense<0.000000e+00> : tensor<f32>
    StableHlo.unary main_cst_60 main_v372 (broadcastInDim S100000x1 ![] bcast_S_S100000x1 : (⟨S_, .f32⟩ : BufTy).Contents (Elt F) → (⟨S100000x1, .f32⟩ : BufTy).Contents (Elt F)),  -- %372 = stablehlo.broadcast_in_dim %cst_60, dims = [] : (tensor<f32>) -> tensor<100000x1xf32>  @ reference:16
    StableHlo.unary main_v3 main_v373 (broadcastInDim S600000x1 ![0] bcast_S600000_S600000x1_0 : (⟨S600000, .i32⟩ : BufTy).Contents (Elt F) → (⟨S600000x1, .i32⟩ : BufTy).Contents (Elt F)),  -- %373 = stablehlo.broadcast_in_dim %3, dims = [0] : (tensor<600000xi32>) -> tensor<600000x1xi32>  @ reference:16
    StableHlo.ternary main_v372 main_v373 main_v371 main_v374 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),  -- %374 = "stablehlo.scatter"(%372, %373, %371) <{indices_are_sorted = false, scatter_dimension_numbers = #stablehlo.scatter<update_window_dims = [1], inserted_window_dims = [0], scatter_dims_to_operand_dims = [0], index_vector_dim = 1>, unique_indices = false}> ( {  @ reference:16
    StableHlo.nullary main_cst_61 (constant S_ .f32 0x3F800000#32),  -- %cst_61 = stablehlo.constant dense<1.000000e+00> : tensor<f32>
    StableHlo.unary main_cst_61 main_v375 (broadcastInDim S100000x1 ![] bcast_S_S100000x1 : (⟨S_, .f32⟩ : BufTy).Contents (Elt F) → (⟨S100000x1, .f32⟩ : BufTy).Contents (Elt F)),  -- %375 = stablehlo.broadcast_in_dim %cst_61, dims = [] : (tensor<f32>) -> tensor<100000x1xf32>  @ reference:17
    StableHlo.binary main_v374 main_v375 main_v376 (maximumf : (⟨S100000x1, .f32⟩ : BufTy).Contents (Elt F) → (⟨S100000x1, .f32⟩ : BufTy).Contents (Elt F) → (⟨S100000x1, .f32⟩ : BufTy).Contents (Elt F)),  -- %376 = stablehlo.maximum %374, %375 : tensor<100000x1xf32>  @ reference:17
    StableHlo.unary main_v376 main_v377 (broadcastInDim S100000x128 ![0, 1] bcast_S100000x1_S100000x128_0_1 : (⟨S100000x1, .f32⟩ : BufTy).Contents (Elt F) → (⟨S100000x128, .f32⟩ : BufTy).Contents (Elt F)),  -- %377 = stablehlo.broadcast_in_dim %376, dims = [0, 1] : (tensor<100000x1xf32>) -> tensor<100000x128xf32>  @ reference:17
    StableHlo.binary main_v370 main_v377 main_v378 (Host.divf : (⟨S100000x128, .f32⟩ : BufTy).Contents (Elt F) → (⟨S100000x128, .f32⟩ : BufTy).Contents (Elt F) → (⟨S100000x128, .f32⟩ : BufTy).Contents (Elt F)),  -- %378 = stablehlo.divide %370, %377 : tensor<100000x128xf32>  @ reference:17
    StableHlo.unary main_arg13 main_v379 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %379 = stablehlo.slice %arg13 [1:2, 0:128, 0:128] : (tensor<2x128x128xf32>) -> tensor<1x128x128xf32>  @ reference:24
    StableHlo.reshape main_v379 main_v380 rfl shapeCasts_S1x128x128_S128x128,  -- %380 = stablehlo.reshape %379 : (tensor<1x128x128xf32>) -> tensor<128x128xf32>  @ reference:24
    StableHlo.binary main_v360 main_v380 main_v381 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %381 = stablehlo.dot_general %360, %380, contracting_dims = [1] x [0], precision = [DEFAULT, DEFAULT] : (tensor<100000x128xf32>, tensor<128x128xf32>) -> tensor<100000x128xf32>  @ reference:24
    StableHlo.unary main_arg14 main_v382 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %382 = stablehlo.slice %arg14 [1:2, 0:128, 0:128] : (tensor<2x128x128xf32>) -> tensor<1x128x128xf32>  @ reference:24
    StableHlo.reshape main_v382 main_v383 rfl shapeCasts_S1x128x128_S128x128,  -- %383 = stablehlo.reshape %382 : (tensor<1x128x128xf32>) -> tensor<128x128xf32>  @ reference:24
    StableHlo.binary main_v378 main_v383 main_v384 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %384 = stablehlo.dot_general %378, %383, contracting_dims = [1] x [0], precision = [DEFAULT, DEFAULT] : (tensor<100000x128xf32>, tensor<128x128xf32>) -> tensor<100000x128xf32>  @ reference:24
    StableHlo.binary main_v381 main_v384 main_v385 (addf : (⟨S100000x128, .f32⟩ : BufTy).Contents (Elt F) → (⟨S100000x128, .f32⟩ : BufTy).Contents (Elt F) → (⟨S100000x128, .f32⟩ : BufTy).Contents (Elt F)),  -- %385 = stablehlo.add %381, %384 : tensor<100000x128xf32>  @ reference:24
    StableHlo.unary main_arg15 main_v386 ((extractStridedSlice S1x128 ![1, 0] · slices_S2x128_S1x128_1_0) : (⟨S2x128, .f32⟩ : BufTy).Contents (Elt F) → (⟨S1x128, .f32⟩ : BufTy).Contents (Elt F)),  -- %386 = stablehlo.slice %arg15 [1:2, 0:128] : (tensor<2x128xf32>) -> tensor<1x128xf32>  @ reference:24
    StableHlo.reshape main_v386 main_v387 rfl shapeCasts_S1x128_S128,  -- %387 = stablehlo.reshape %386 : (tensor<1x128xf32>) -> tensor<128xf32>  @ reference:24
    StableHlo.unary main_v387 main_v388 (broadcastInDim S1x128 ![1] bcast_S128_S1x128_1 : (⟨S128, .f32⟩ : BufTy).Contents (Elt F) → (⟨S1x128, .f32⟩ : BufTy).Contents (Elt F)),  -- %388 = stablehlo.broadcast_in_dim %387, dims = [1] : (tensor<128xf32>) -> tensor<1x128xf32>  @ reference:24
    StableHlo.unary main_v388 main_v389 (broadcastInDim S100000x128 ![0, 1] bcast_S1x128_S100000x128_0_1 : (⟨S1x128, .f32⟩ : BufTy).Contents (Elt F) → (⟨S100000x128, .f32⟩ : BufTy).Contents (Elt F)),  -- %389 = stablehlo.broadcast_in_dim %388, dims = [0, 1] : (tensor<1x128xf32>) -> tensor<100000x128xf32>  @ reference:24
    StableHlo.binary main_v385 main_v389 main_v390 (addf : (⟨S100000x128, .f32⟩ : BufTy).Contents (Elt F) → (⟨S100000x128, .f32⟩ : BufTy).Contents (Elt F) → (⟨S100000x128, .f32⟩ : BufTy).Contents (Elt F)),  -- %390 = stablehlo.add %385, %389 : tensor<100000x128xf32>  @ reference:24
    StableHlo.TRef.nullary main_call21.cst (constant S_ .f32 0x00000000#32),  -- in %391 = func.call @relu(%390) : (tensor<100000x128xf32>) -> tensor<100000x128xf32>  @ reference:24
    StableHlo.TRef.unary main_call21.cst main_call21.v0 (broadcastInDim S100000x128 ![] bcast_S_S100000x128),  -- in %391 = func.call @relu(%390) : (tensor<100000x128xf32>) -> tensor<100000x128xf32>  @ reference:24
    StableHlo.TRef.binary (.of main_v390 : StableHlo.TRef sig ⟨S100000x128, .f32⟩) main_call21.v0 main_call21.v1 maximumf,  -- in %391 = func.call @relu(%390) : (tensor<100000x128xf32>) -> tensor<100000x128xf32>  @ reference:24
    StableHlo.unary main_arg16 main_v392 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %392 = stablehlo.slice %arg16 [0:1, 0:128, 0:128] : (tensor<2x128x128xf32>) -> tensor<1x128x128xf32>  @ reference:31
    StableHlo.reshape main_v392 main_v393 rfl shapeCasts_S1x128x128_S128x128,  -- %393 = stablehlo.reshape %392 : (tensor<1x128x128xf32>) -> tensor<128x128xf32>  @ reference:31
    StableHlo.binary main_v322 main_v393 main_v394 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %394 = stablehlo.dot_general %322, %393, contracting_dims = [1] x [0], precision = [DEFAULT, DEFAULT] : (tensor<2000x128xf32>, tensor<128x128xf32>) -> tensor<2000x128xf32>  @ reference:31
    StableHlo.unary main_arg17 main_v395 ((extractStridedSlice S1x128 ![0, 0] · slices_S2x128_S1x128_0_0) : (⟨S2x128, .f32⟩ : BufTy).Contents (Elt F) → (⟨S1x128, .f32⟩ : BufTy).Contents (Elt F)),  -- %395 = stablehlo.slice %arg17 [0:1, 0:128] : (tensor<2x128xf32>) -> tensor<1x128xf32>  @ reference:31
    StableHlo.reshape main_v395 main_v396 rfl shapeCasts_S1x128_S128,  -- %396 = stablehlo.reshape %395 : (tensor<1x128xf32>) -> tensor<128xf32>  @ reference:31
    StableHlo.unary main_v396 main_v397 (broadcastInDim S1x128 ![1] bcast_S128_S1x128_1 : (⟨S128, .f32⟩ : BufTy).Contents (Elt F) → (⟨S1x128, .f32⟩ : BufTy).Contents (Elt F)),  -- %397 = stablehlo.broadcast_in_dim %396, dims = [1] : (tensor<128xf32>) -> tensor<1x128xf32>  @ reference:31
    StableHlo.unary main_v397 main_v398 (broadcastInDim S2000x128 ![0, 1] bcast_S1x128_S2000x128_0_1 : (⟨S1x128, .f32⟩ : BufTy).Contents (Elt F) → (⟨S2000x128, .f32⟩ : BufTy).Contents (Elt F)),  -- %398 = stablehlo.broadcast_in_dim %397, dims = [0, 1] : (tensor<1x128xf32>) -> tensor<2000x128xf32>  @ reference:31
    StableHlo.binary main_v394 main_v398 main_v399 (addf : (⟨S2000x128, .f32⟩ : BufTy).Contents (Elt F) → (⟨S2000x128, .f32⟩ : BufTy).Contents (Elt F) → (⟨S2000x128, .f32⟩ : BufTy).Contents (Elt F)),  -- %399 = stablehlo.add %394, %398 : tensor<2000x128xf32>  @ reference:31
    StableHlo.TRef.nullary main_call22.cst (constant S_ .f32 0x00000000#32),  -- in %400 = func.call @relu_0(%399) : (tensor<2000x128xf32>) -> tensor<2000x128xf32>  @ reference:31
    StableHlo.TRef.unary main_call22.cst main_call22.v0 (broadcastInDim S2000x128 ![] bcast_S_S2000x128),  -- in %400 = func.call @relu_0(%399) : (tensor<2000x128xf32>) -> tensor<2000x128xf32>  @ reference:31
    StableHlo.TRef.binary (.of main_v399 : StableHlo.TRef sig ⟨S2000x128, .f32⟩) main_call22.v0 main_call22.v1 maximumf,  -- in %400 = func.call @relu_0(%399) : (tensor<2000x128xf32>) -> tensor<2000x128xf32>  @ reference:31
    StableHlo.unary main_arg16 main_v401 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %401 = stablehlo.slice %arg16 [1:2, 0:128, 0:128] : (tensor<2x128x128xf32>) -> tensor<1x128x128xf32>  @ reference:31
    StableHlo.reshape main_v401 main_v402 rfl shapeCasts_S1x128x128_S128x128,  -- %402 = stablehlo.reshape %401 : (tensor<1x128x128xf32>) -> tensor<128x128xf32>  @ reference:31
    StableHlo.binary main_v400 main_v402 main_v403 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),  -- %403 = stablehlo.dot_general %400, %402, contracting_dims = [1] x [0], precision = [DEFAULT, DEFAULT] : (tensor<2000x128xf32>, tensor<128x128xf32>) -> tensor<2000x128xf32>  @ reference:31
    StableHlo.unary main_arg17 main_v404 ((extractStridedSlice S1x128 ![1, 0] · slices_S2x128_S1x128_1_0) : (⟨S2x128, .f32⟩ : BufTy).Contents (Elt F) → (⟨S1x128, .f32⟩ : BufTy).Contents (Elt F)),  -- %404 = stablehlo.slice %arg17 [1:2, 0:128] : (tensor<2x128xf32>) -> tensor<1x128xf32>  @ reference:31
    StableHlo.reshape main_v404 main_v405 rfl shapeCasts_S1x128_S128,  -- %405 = stablehlo.reshape %404 : (tensor<1x128xf32>) -> tensor<128xf32>  @ reference:31
    StableHlo.unary main_v405 main_v406 (broadcastInDim S1x128 ![1] bcast_S128_S1x128_1 : (⟨S128, .f32⟩ : BufTy).Contents (Elt F) → (⟨S1x128, .f32⟩ : BufTy).Contents (Elt F)),  -- %406 = stablehlo.broadcast_in_dim %405, dims = [1] : (tensor<128xf32>) -> tensor<1x128xf32>  @ reference:31
    StableHlo.unary main_v406 main_v407 (broadcastInDim S2000x128 ![0, 1] bcast_S1x128_S2000x128_0_1 : (⟨S1x128, .f32⟩ : BufTy).Contents (Elt F) → (⟨S2000x128, .f32⟩ : BufTy).Contents (Elt F)),  -- %407 = stablehlo.broadcast_in_dim %406, dims = [0, 1] : (tensor<1x128xf32>) -> tensor<2000x128xf32>  @ reference:31
    StableHlo.binary main_v403 main_v407 main_v408 (addf : (⟨S2000x128, .f32⟩ : BufTy).Contents (Elt F) → (⟨S2000x128, .f32⟩ : BufTy).Contents (Elt F) → (⟨S2000x128, .f32⟩ : BufTy).Contents (Elt F)),  -- %408 = stablehlo.add %403, %407 : tensor<2000x128xf32>  @ reference:31
    StableHlo.TRef.nullary main_call23.cst (constant S_ .f32 0x00000000#32),  -- in %409 = func.call @relu_0(%408) : (tensor<2000x128xf32>) -> tensor<2000x128xf32>  @ reference:31
    StableHlo.TRef.unary main_call23.cst main_call23.v0 (broadcastInDim S2000x128 ![] bcast_S_S2000x128),  -- in %409 = func.call @relu_0(%408) : (tensor<2000x128xf32>) -> tensor<2000x128xf32>  @ reference:31
    StableHlo.TRef.binary (.of main_v408 : StableHlo.TRef sig ⟨S2000x128, .f32⟩) main_call23.v0 main_call23.v1 maximumf,  -- in %409 = func.call @relu_0(%408) : (tensor<2000x128xf32>) -> tensor<2000x128xf32>  @ reference:31
    StableHlo.unary main_arg18 main_v410 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %410 = stablehlo.slice %arg18 [0:1, 0:128, 0:128] : (tensor<2x128x128xf32>) -> tensor<1x128x128xf32>  @ reference:31
    StableHlo.reshape main_v410 main_v411 rfl shapeCasts_S1x128x128_S128x128,  -- %411 = stablehlo.reshape %410 : (tensor<1x128x128xf32>) -> tensor<128x128xf32>  @ reference:31
    StableHlo.binary main_v329 main_v411 main_v412 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %412 = stablehlo.dot_general %329, %411, contracting_dims = [1] x [0], precision = [DEFAULT, DEFAULT] : (tensor<50x128xf32>, tensor<128x128xf32>) -> tensor<50x128xf32>  @ reference:31
    StableHlo.unary main_arg19 main_v413 ((extractStridedSlice S1x128 ![0, 0] · slices_S2x128_S1x128_0_0) : (⟨S2x128, .f32⟩ : BufTy).Contents (Elt F) → (⟨S1x128, .f32⟩ : BufTy).Contents (Elt F)),  -- %413 = stablehlo.slice %arg19 [0:1, 0:128] : (tensor<2x128xf32>) -> tensor<1x128xf32>  @ reference:31
    StableHlo.reshape main_v413 main_v414 rfl shapeCasts_S1x128_S128,  -- %414 = stablehlo.reshape %413 : (tensor<1x128xf32>) -> tensor<128xf32>  @ reference:31
    StableHlo.unary main_v414 main_v415 (broadcastInDim S1x128 ![1] bcast_S128_S1x128_1 : (⟨S128, .f32⟩ : BufTy).Contents (Elt F) → (⟨S1x128, .f32⟩ : BufTy).Contents (Elt F)) ]  -- %415 = stablehlo.broadcast_in_dim %414, dims = [1] : (tensor<128xf32>) -> tensor<1x128xf32>  @ reference:31

set_option maxRecDepth 4096 in
/-- Part 7 is that straight line: the called functions unfolded at their calls, both sides are one chain of
    single operations once the sequencing is reassociated. -/
theorem main_part7_eq (c : Dev nD) : main_part7 (F := F) c = seq ops7 := by
  simp only [main_part7, fn_relu.body, fn_relu_0.body, seq, bind_assoc, pure_bind]
  rfl

/-- Every operation of the part touches TensorCore references only. -/
theorem ops7_sub : (ops7 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., binary_bufs_sub .., unary_bufs_sub ..,
    reshape_bufs_sub .., binary_bufs_sub .., unary_bufs_sub .., reshape_bufs_sub .., binary_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..⟩

/-- Every operation of the part determines what it writes. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The references the part's operations write: one each, its result. -/
abbrev href_W7 : List (Ref sig .tc) :=
  [main_v361, main_v362, main_c_57, main_v363, main_v364, main_v365, main_v366, main_v367,
   main_cst_58, main_v368, main_v369, main_v370, main_cst_59, main_v371, main_cst_60, main_v372,
   main_v373, main_v374, main_cst_61, main_v375, main_v376, main_v377, main_v378, main_v379,
   main_v380, main_v381, main_v382, main_v383, main_v384, main_v385, main_v386, main_v387,
   main_v388, main_v389, main_v390, main_call21.cst.ref, main_call21.v0.ref, main_call21.v1.ref, main_v392, main_v393,
   main_v394, main_v395, main_v396, main_v397, main_v398, main_v399, main_call22.cst.ref, main_call22.v0.ref,
   main_call22.v1.ref, main_v401, main_v402, main_v403, main_v404, main_v405, main_v406, main_v407,
   main_v408, main_call23.cst.ref, main_call23.v0.ref, main_call23.v1.ref, main_v410, main_v411, main_v412, main_v413,
   main_v414, main_v415]

theorem ops7_writes : (ops7 : List (HloOp τ sig (Elt F))).Forall fun op =>
    op.writes ⊆ (href_W7.map (Proc.devRef (τ := τ) .tc)).toFinset :=
  ⟨href_wsub main_v361 rfl (by decide), href_wsub main_v362 rfl (by decide), href_wsub main_c_57 rfl (by decide),
    href_wsub main_v363 rfl (by decide), href_wsub main_v364 rfl (by decide), href_wsub main_v365 rfl (by decide),
    href_wsub main_v366 rfl (by decide), href_wsub main_v367 rfl (by decide), href_wsub main_cst_58 rfl (by decide),
    href_wsub main_v368 rfl (by decide), href_wsub main_v369 rfl (by decide), href_wsub main_v370 rfl (by decide),
    href_wsub main_cst_59 rfl (by decide), href_wsub main_v371 rfl (by decide), href_wsub main_cst_60 rfl (by decide),
    href_wsub main_v372 rfl (by decide), href_wsub main_v373 rfl (by decide), href_wsub main_v374 rfl (by decide),
    href_wsub main_cst_61 rfl (by decide), href_wsub main_v375 rfl (by decide), href_wsub main_v376 rfl (by decide),
    href_wsub main_v377 rfl (by decide), href_wsub main_v378 rfl (by decide), href_wsub main_v379 rfl (by decide),
    href_wsub main_v380 rfl (by decide), href_wsub main_v381 rfl (by decide), href_wsub main_v382 rfl (by decide),
    href_wsub main_v383 rfl (by decide), href_wsub main_v384 rfl (by decide), href_wsub main_v385 rfl (by decide),
    href_wsub main_v386 rfl (by decide), href_wsub main_v387 rfl (by decide), href_wsub main_v388 rfl (by decide),
    href_wsub main_v389 rfl (by decide), href_wsub main_v390 rfl (by decide), href_wsub main_call21.cst.ref rfl (by decide),
    href_wsub main_call21.v0.ref rfl (by decide), href_wsub main_call21.v1.ref rfl (by decide), href_wsub main_v392 rfl (by decide),
    href_wsub main_v393 rfl (by decide), href_wsub main_v394 rfl (by decide), href_wsub main_v395 rfl (by decide),
    href_wsub main_v396 rfl (by decide), href_wsub main_v397 rfl (by decide), href_wsub main_v398 rfl (by decide),
    href_wsub main_v399 rfl (by decide), href_wsub main_call22.cst.ref rfl (by decide), href_wsub main_call22.v0.ref rfl (by decide),
    href_wsub main_call22.v1.ref rfl (by decide), href_wsub main_v401 rfl (by decide), href_wsub main_v402 rfl (by decide),
    href_wsub main_v403 rfl (by decide), href_wsub main_v404 rfl (by decide), href_wsub main_v405 rfl (by decide),
    href_wsub main_v406 rfl (by decide), href_wsub main_v407 rfl (by decide), href_wsub main_v408 rfl (by decide),
    href_wsub main_call23.cst.ref rfl (by decide), href_wsub main_call23.v0.ref rfl (by decide), href_wsub main_call23.v1.ref rfl (by decide),
    href_wsub main_v410 rfl (by decide), href_wsub main_v411 rfl (by decide), href_wsub main_v412 rfl (by decide),
    href_wsub main_v413 rfl (by decide), href_wsub main_v414 rfl (by decide), href_wsub main_v415 rfl (by decide)⟩

end Cert.ReferenceIdeal.Hand

end
-- ==== Proof.Ref.Ops8.lean ====
import proofs.«141679_j61469571940402_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of one reference writes inside any list of references holding it. -/
private theorem href_wsub {op : HloOp τ sig (Elt F)} {W : List (Ref sig .tc)} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]; exact List.mem_map_of_mem hy

/-- Part 8 of @main as a list of 58 operations, in order: its own statements as printed, and at each call of an
    outlined function that function's operations over the call's operands and the call's own buffers. -/
abbrev ops8 : List (HloOp τ sig (Elt F)) :=
  [ StableHlo.unary main_v415 main_v416 (broadcastInDim S50x128 ![0, 1] bcast_S1x128_S50x128_0_1 : (⟨S1x128, .f32⟩ : BufTy).Contents (Elt F) → (⟨S50x128, .f32⟩ : BufTy).Contents (Elt F)),  -- %416 = stablehlo.broadcast_in_dim %415, dims = [0, 1] : (tensor<1x128xf32>) -> tensor<50x128xf32>  @ reference:31
    StableHlo.binary main_v412 main_v416 main_v417 (addf : (⟨S50x128, .f32⟩ : BufTy).Contents (Elt F) → (⟨S50x128, .f32⟩ : BufTy).Contents (Elt F) → (⟨S50x128, .f32⟩ : BufTy).Contents (Elt F)),  -- %417 = stablehlo.add %412, %416 : tensor<50x128xf32>  @ reference:31
    StableHlo.TRef.nullary main_call24.cst (constant S_ .f32 0x00000000#32),  -- in %418 = func.call @relu_1(%417) : (tensor<50x128xf32>) -> tensor<50x128xf32>  @ reference:31
    StableHlo.TRef.unary main_call24.cst main_call24.v0 (broadcastInDim S50x128 ![] bcast_S_S50x128),  -- in %418 = func.call @relu_1(%417) : (tensor<50x128xf32>) -> tensor<50x128xf32>  @ reference:31
    StableHlo.TRef.binary (.of main_v417 : StableHlo.TRef sig ⟨S50x128, .f32⟩) main_call24.v0 main_call24.v1 maximumf,  -- in %418 = func.call @relu_1(%417) : (tensor<50x128xf32>) -> tensor<50x128xf32>  @ reference:31
    StableHlo.unary main_arg18 main_v419 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %419 = stablehlo.slice %arg18 [1:2, 0:128, 0:128] : (tensor<2x128x128xf32>) -> tensor<1x128x128xf32>  @ reference:31
    StableHlo.reshape main_v419 main_v420 rfl shapeCasts_S1x128x128_S128x128,  -- %420 = stablehlo.reshape %419 : (tensor<1x128x128xf32>) -> tensor<128x128xf32>  @ reference:31
    StableHlo.binary main_v418 main_v420 main_v421 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),  -- %421 = stablehlo.dot_general %418, %420, contracting_dims = [1] x [0], precision = [DEFAULT, DEFAULT] : (tensor<50x128xf32>, tensor<128x128xf32>) -> tensor<50x128xf32>  @ reference:31
    StableHlo.unary main_arg19 main_v422 ((extractStridedSlice S1x128 ![1, 0] · slices_S2x128_S1x128_1_0) : (⟨S2x128, .f32⟩ : BufTy).Contents (Elt F) → (⟨S1x128, .f32⟩ : BufTy).Contents (Elt F)),  -- %422 = stablehlo.slice %arg19 [1:2, 0:128] : (tensor<2x128xf32>) -> tensor<1x128xf32>  @ reference:31
    StableHlo.reshape main_v422 main_v423 rfl shapeCasts_S1x128_S128,  -- %423 = stablehlo.reshape %422 : (tensor<1x128xf32>) -> tensor<128xf32>  @ reference:31
    StableHlo.unary main_v423 main_v424 (broadcastInDim S1x128 ![1] bcast_S128_S1x128_1 : (⟨S128, .f32⟩ : BufTy).Contents (Elt F) → (⟨S1x128, .f32⟩ : BufTy).Contents (Elt F)),  -- %424 = stablehlo.broadcast_in_dim %423, dims = [1] : (tensor<128xf32>) -> tensor<1x128xf32>  @ reference:31
    StableHlo.unary main_v424 main_v425 (broadcastInDim S50x128 ![0, 1] bcast_S1x128_S50x128_0_1 : (⟨S1x128, .f32⟩ : BufTy).Contents (Elt F) → (⟨S50x128, .f32⟩ : BufTy).Contents (Elt F)),  -- %425 = stablehlo.broadcast_in_dim %424, dims = [0, 1] : (tensor<1x128xf32>) -> tensor<50x128xf32>  @ reference:31
    StableHlo.binary main_v421 main_v425 main_v426 (addf : (⟨S50x128, .f32⟩ : BufTy).Contents (Elt F) → (⟨S50x128, .f32⟩ : BufTy).Contents (Elt F) → (⟨S50x128, .f32⟩ : BufTy).Contents (Elt F)),  -- %426 = stablehlo.add %421, %425 : tensor<50x128xf32>  @ reference:31
    StableHlo.TRef.nullary main_call25.cst (constant S_ .f32 0x00000000#32),  -- in %427 = func.call @relu_1(%426) : (tensor<50x128xf32>) -> tensor<50x128xf32>  @ reference:31
    StableHlo.TRef.unary main_call25.cst main_call25.v0 (broadcastInDim S50x128 ![] bcast_S_S50x128),  -- in %427 = func.call @relu_1(%426) : (tensor<50x128xf32>) -> tensor<50x128xf32>  @ reference:31
    StableHlo.TRef.binary (.of main_v426 : StableHlo.TRef sig ⟨S50x128, .f32⟩) main_call25.v0 main_call25.v1 maximumf,  -- in %427 = func.call @relu_1(%426) : (tensor<50x128xf32>) -> tensor<50x128xf32>  @ reference:31
    StableHlo.nullary main_cst_62 (constant S_ .f32 0x00000000#32),  -- %cst_62 = stablehlo.constant dense<0.000000e+00> : tensor<f32>
    StableHlo.unary main_cst_62 main_v428 (broadcastInDim S50x128 ![] bcast_S_S50x128 : (⟨S_, .f32⟩ : BufTy).Contents (Elt F) → (⟨S50x128, .f32⟩ : BufTy).Contents (Elt F)),  -- %428 = stablehlo.broadcast_in_dim %cst_62, dims = [] : (tensor<f32>) -> tensor<50x128xf32>  @ reference:15
    StableHlo.unary main_arg2 main_v429 (broadcastInDim S100000x1 ![0] bcast_S100000_S100000x1_0 : (⟨S100000, .i32⟩ : BufTy).Contents (Elt F) → (⟨S100000x1, .i32⟩ : BufTy).Contents (Elt F)),  -- %429 = stablehlo.broadcast_in_dim %arg2, dims = [0] : (tensor<100000xi32>) -> tensor<100000x1xi32>  @ reference:15
    StableHlo.ternary main_v428 main_v429 main_v391 main_v430 ((fun x i u => Host.scatterAdd scatter_S50x128_S100000x1_S100000x128_1_0_0_1 x i u) : (⟨S50x128, .f32⟩ : BufTy).Contents (Elt F) → (⟨S100000x1, .i32⟩ : BufTy).Contents (Elt F) → (⟨S100000x128, .f32⟩ : BufTy).Contents (Elt F) → (⟨S50x128, .f32⟩ : BufTy).Contents (Elt F)),  -- %430 = "stablehlo.scatter"(%428, %429, %391) <{indices_are_sorted = false, scatter_dimension_numbers = #stablehlo.scatter<update_window_dims = [1], inserted_window_dims = [0], scatter_dims_to_operand_dims = [0], index_vector_dim = 1>, unique_indices = false}> ( {  @ reference:15
    StableHlo.nullary main_cst_63 (constant S_ .f32 0x3F800000#32),  -- %cst_63 = stablehlo.constant dense<1.000000e+00> : tensor<f32>
    StableHlo.unary main_cst_63 main_v431 (broadcastInDim S100000x1 ![] bcast_S_S100000x1 : (⟨S_, .f32⟩ : BufTy).Contents (Elt F) → (⟨S100000x1, .f32⟩ : BufTy).Contents (Elt F)),  -- %431 = stablehlo.broadcast_in_dim %cst_63, dims = [] : (tensor<f32>) -> tensor<100000x1xf32>  @ reference:16
    StableHlo.nullary main_cst_64 (constant S_ .f32 0x00000000#32),  -- %cst_64 = stablehlo.constant dense<0.000000e+00> : tensor<f32>
    StableHlo.unary main_cst_64 main_v432 (broadcastInDim S50x1 ![] bcast_S_S50x1 : (⟨S_, .f32⟩ : BufTy).Contents (Elt F) → (⟨S50x1, .f32⟩ : BufTy).Contents (Elt F)),  -- %432 = stablehlo.broadcast_in_dim %cst_64, dims = [] : (tensor<f32>) -> tensor<50x1xf32>  @ reference:16
    StableHlo.unary main_arg2 main_v433 (broadcastInDim S100000x1 ![0] bcast_S100000_S100000x1_0 : (⟨S100000, .i32⟩ : BufTy).Contents (Elt F) → (⟨S100000x1, .i32⟩ : BufTy).Contents (Elt F)),  -- %433 = stablehlo.broadcast_in_dim %arg2, dims = [0] : (tensor<100000xi32>) -> tensor<100000x1xi32>  @ reference:16
    StableHlo.ternary main_v432 main_v433 main_v431 main_v434 ((fun x i u => Host.scatterAdd scatter_S50x1_S100000x1_S100000x1_1_0_0_1 x i u) : (⟨S50x1, .f32⟩ : BufTy).Contents (Elt F) → (⟨S100000x1, .i32⟩ : BufTy).Contents (Elt F) → (⟨S100000x1, .f32⟩ : BufTy).Contents (Elt F) → (⟨S50x1, .f32⟩ : BufTy).Contents (Elt F)),  -- %434 = "stablehlo.scatter"(%432, %433, %431) <{indices_are_sorted = false, scatter_dimension_numbers = #stablehlo.scatter<update_window_dims = [1], inserted_window_dims = [0], scatter_dims_to_operand_dims = [0], index_vector_dim = 1>, unique_indices = false}> ( {  @ reference:16
    StableHlo.nullary main_cst_65 (constant S_ .f32 0x3F800000#32),  -- %cst_65 = stablehlo.constant dense<1.000000e+00> : tensor<f32>
    StableHlo.unary main_cst_65 main_v435 (broadcastInDim S50x1 ![] bcast_S_S50x1 : (⟨S_, .f32⟩ : BufTy).Contents (Elt F) → (⟨S50x1, .f32⟩ : BufTy).Contents (Elt F)),  -- %435 = stablehlo.broadcast_in_dim %cst_65, dims = [] : (tensor<f32>) -> tensor<50x1xf32>  @ reference:17
    StableHlo.binary main_v434 main_v435 main_v436 (maximumf : (⟨S50x1, .f32⟩ : BufTy).Contents (Elt F) → (⟨S50x1, .f32⟩ : BufTy).Contents (Elt F) → (⟨S50x1, .f32⟩ : BufTy).Contents (Elt F)),  -- %436 = stablehlo.maximum %434, %435 : tensor<50x1xf32>  @ reference:17
    StableHlo.unary main_v436 main_v437 (broadcastInDim S50x128 ![0, 1] bcast_S50x1_S50x128_0_1 : (⟨S50x1, .f32⟩ : BufTy).Contents (Elt F) → (⟨S50x128, .f32⟩ : BufTy).Contents (Elt F)),  -- %437 = stablehlo.broadcast_in_dim %436, dims = [0, 1] : (tensor<50x1xf32>) -> tensor<50x128xf32>  @ reference:17
    StableHlo.binary main_v430 main_v437 main_v438 (Host.divf : (⟨S50x128, .f32⟩ : BufTy).Contents (Elt F) → (⟨S50x128, .f32⟩ : BufTy).Contents (Elt F) → (⟨S50x128, .f32⟩ : BufTy).Contents (Elt F)),  -- %438 = stablehlo.divide %430, %437 : tensor<50x128xf32>  @ reference:17
    StableHlo.nullary main_cst_66 (constant S_ .f32 0x00000000#32),  -- %cst_66 = stablehlo.constant dense<0.000000e+00> : tensor<f32>
    StableHlo.unary main_cst_66 main_v439 (broadcastInDim S50x128 ![] bcast_S_S50x128 : (⟨S_, .f32⟩ : BufTy).Contents (Elt F) → (⟨S50x128, .f32⟩ : BufTy).Contents (Elt F)),  -- %439 = stablehlo.broadcast_in_dim %cst_66, dims = [] : (tensor<f32>) -> tensor<50x128xf32>  @ reference:15
    StableHlo.unary main_v8 main_v440 (broadcastInDim S2000x1 ![0] bcast_S2000_S2000x1_0 : (⟨S2000, .i32⟩ : BufTy).Contents (Elt F) → (⟨S2000x1, .i32⟩ : BufTy).Contents (Elt F)),  -- %440 = stablehlo.broadcast_in_dim %8, dims = [0] : (tensor<2000xi32>) -> tensor<2000x1xi32>  @ reference:15
    StableHlo.ternary main_v439 main_v440 main_v409 main_v441 ((fun x i u => Host.scatterAdd scatter_S50x128_S2000x1_S2000x128_1_0_0_1 x i u) : (⟨S50x128, .f32⟩ : BufTy).Contents (Elt F) → (⟨S2000x1, .i32⟩ : BufTy).Contents (Elt F) → (⟨S2000x128, .f32⟩ : BufTy).Contents (Elt F) → (⟨S50x128, .f32⟩ : BufTy).Contents (Elt F)),  -- %441 = "stablehlo.scatter"(%439, %440, %409) <{indices_are_sorted = false, scatter_dimension_numbers = #stablehlo.scatter<update_window_dims = [1], inserted_window_dims = [0], scatter_dims_to_operand_dims = [0], index_vector_dim = 1>, unique_indices = false}> ( {  @ reference:15
    StableHlo.nullary main_cst_67 (constant S_ .f32 0x3F800000#32),  -- %cst_67 = stablehlo.constant dense<1.000000e+00> : tensor<f32>
    StableHlo.unary main_cst_67 main_v442 (broadcastInDim S2000x1 ![] bcast_S_S2000x1 : (⟨S_, .f32⟩ : BufTy).Contents (Elt F) → (⟨S2000x1, .f32⟩ : BufTy).Contents (Elt F)),  -- %442 = stablehlo.broadcast_in_dim %cst_67, dims = [] : (tensor<f32>) -> tensor<2000x1xf32>  @ reference:16
    StableHlo.nullary main_cst_68 (constant S_ .f32 0x00000000#32),  -- %cst_68 = stablehlo.constant dense<0.000000e+00> : tensor<f32>
    StableHlo.unary main_cst_68 main_v443 (broadcastInDim S50x1 ![] bcast_S_S50x1 : (⟨S_, .f32⟩ : BufTy).Contents (Elt F) → (⟨S50x1, .f32⟩ : BufTy).Contents (Elt F)),  -- %443 = stablehlo.broadcast_in_dim %cst_68, dims = [] : (tensor<f32>) -> tensor<50x1xf32>  @ reference:16
    StableHlo.unary main_v8 main_v444 (broadcastInDim S2000x1 ![0] bcast_S2000_S2000x1_0 : (⟨S2000, .i32⟩ : BufTy).Contents (Elt F) → (⟨S2000x1, .i32⟩ : BufTy).Contents (Elt F)),  -- %444 = stablehlo.broadcast_in_dim %8, dims = [0] : (tensor<2000xi32>) -> tensor<2000x1xi32>  @ reference:16
    StableHlo.ternary main_v443 main_v444 main_v442 main_v445 ((fun x i u => Host.scatterAdd scatter_S50x1_S2000x1_S2000x1_1_0_0_1 x i u) : (⟨S50x1, .f32⟩ : BufTy).Contents (Elt F) → (⟨S2000x1, .i32⟩ : BufTy).Contents (Elt F) → (⟨S2000x1, .f32⟩ : BufTy).Contents (Elt F) → (⟨S50x1, .f32⟩ : BufTy).Contents (Elt F)),  -- %445 = "stablehlo.scatter"(%443, %444, %442) <{indices_are_sorted = false, scatter_dimension_numbers = #stablehlo.scatter<update_window_dims = [1], inserted_window_dims = [0], scatter_dims_to_operand_dims = [0], index_vector_dim = 1>, unique_indices = false}> ( {  @ reference:16
    StableHlo.nullary main_cst_69 (constant S_ .f32 0x3F800000#32),  -- %cst_69 = stablehlo.constant dense<1.000000e+00> : tensor<f32>
    StableHlo.unary main_cst_69 main_v446 (broadcastInDim S50x1 ![] bcast_S_S50x1 : (⟨S_, .f32⟩ : BufTy).Contents (Elt F) → (⟨S50x1, .f32⟩ : BufTy).Contents (Elt F)),  -- %446 = stablehlo.broadcast_in_dim %cst_69, dims = [] : (tensor<f32>) -> tensor<50x1xf32>  @ reference:17
    StableHlo.binary main_v445 main_v446 main_v447 (maximumf : (⟨S50x1, .f32⟩ : BufTy).Contents (Elt F) → (⟨S50x1, .f32⟩ : BufTy).Contents (Elt F) → (⟨S50x1, .f32⟩ : BufTy).Contents (Elt F)),  -- %447 = stablehlo.maximum %445, %446 : tensor<50x1xf32>  @ reference:17
    StableHlo.unary main_v447 main_v448 (broadcastInDim S50x128 ![0, 1] bcast_S50x1_S50x128_0_1 : (⟨S50x1, .f32⟩ : BufTy).Contents (Elt F) → (⟨S50x128, .f32⟩ : BufTy).Contents (Elt F)),  -- %448 = stablehlo.broadcast_in_dim %447, dims = [0, 1] : (tensor<50x1xf32>) -> tensor<50x128xf32>  @ reference:17
    StableHlo.binary main_v441 main_v448 main_v449 (Host.divf : (⟨S50x128, .f32⟩ : BufTy).Contents (Elt F) → (⟨S50x128, .f32⟩ : BufTy).Contents (Elt F) → (⟨S50x128, .f32⟩ : BufTy).Contents (Elt F)),  -- %449 = stablehlo.divide %441, %448 : tensor<50x128xf32>  @ reference:17
    StableHlo.nary ![main_v438, main_v449, main_v427] main_v450 (fun u => concatenate S50x384 1 [⟨S50x128, u 0⟩, ⟨S50x128, u 1⟩, ⟨S50x128, u 2⟩] concatenates_S50x128_S50x128_S50x128_S50x384_d1),  -- %450 = stablehlo.concatenate %438, %449, %427, dim = 1 : (tensor<50x128xf32>, tensor<50x128xf32>, tensor<50x128xf32>) -> tensor<50x384xf32>  @ reference:62
    StableHlo.binary main_v450 main_arg30 main_v451 ((fun l r => Host.dotGeneral dot_S50x384_S384x128_S50x128_1_0_0_1_n_n none l r) : (⟨S50x384, .f32⟩ : BufTy).Contents (Elt F) → (⟨S384x128, .f32⟩ : BufTy).Contents (Elt F) → (⟨S50x128, .f32⟩ : BufTy).Contents (Elt F)),  -- %451 = stablehlo.dot_general %450, %arg30, contracting_dims = [1] x [0], precision = [DEFAULT, DEFAULT] : (tensor<50x384xf32>, tensor<384x128xf32>) -> tensor<50x128xf32>  @ reference:63
    StableHlo.unary main_arg31 main_v452 (broadcastInDim S1x128 ![1] bcast_S128_S1x128_1 : (⟨S128, .f32⟩ : BufTy).Contents (Elt F) → (⟨S1x128, .f32⟩ : BufTy).Contents (Elt F)),  -- %452 = stablehlo.broadcast_in_dim %arg31, dims = [1] : (tensor<128xf32>) -> tensor<1x128xf32>  @ reference:63
    StableHlo.unary main_v452 main_v453 (broadcastInDim S50x128 ![0, 1] bcast_S1x128_S50x128_0_1 : (⟨S1x128, .f32⟩ : BufTy).Contents (Elt F) → (⟨S50x128, .f32⟩ : BufTy).Contents (Elt F)),  -- %453 = stablehlo.broadcast_in_dim %452, dims = [0, 1] : (tensor<1x128xf32>) -> tensor<50x128xf32>  @ reference:63
    StableHlo.binary main_v451 main_v453 main_v454 (addf : (⟨S50x128, .f32⟩ : BufTy).Contents (Elt F) → (⟨S50x128, .f32⟩ : BufTy).Contents (Elt F) → (⟨S50x128, .f32⟩ : BufTy).Contents (Elt F)),  -- %454 = stablehlo.add %451, %453 : tensor<50x128xf32>  @ reference:63
    StableHlo.TRef.nullary main_call26.cst (constant S_ .f32 0x00000000#32),  -- in %455 = func.call @relu_1(%454) : (tensor<50x128xf32>) -> tensor<50x128xf32>  @ reference:63
    StableHlo.TRef.unary main_call26.cst main_call26.v0 (broadcastInDim S50x128 ![] bcast_S_S50x128),  -- in %455 = func.call @relu_1(%454) : (tensor<50x128xf32>) -> tensor<50x128xf32>  @ reference:63
    StableHlo.TRef.binary (.of main_v454 : StableHlo.TRef sig ⟨S50x128, .f32⟩) main_call26.v0 main_call26.v1 maximumf,  -- in %455 = func.call @relu_1(%454) : (tensor<50x128xf32>) -> tensor<50x128xf32>  @ reference:63
    StableHlo.binary main_v455 main_arg32 main_v456 ((fun l r => Host.dotGeneral dot_S50x128_S128x2_S50x2_1_0_0_1_n_n none l r) : (⟨S50x128, .f32⟩ : BufTy).Contents (Elt F) → (⟨S128x2, .f32⟩ : BufTy).Contents (Elt F) → (⟨S50x2, .f32⟩ : BufTy).Contents (Elt F)),  -- %456 = stablehlo.dot_general %455, %arg32, contracting_dims = [1] x [0], precision = [DEFAULT, DEFAULT] : (tensor<50x128xf32>, tensor<128x2xf32>) -> tensor<50x2xf32>  @ reference:63
    StableHlo.unary main_arg33 main_v457 (broadcastInDim S1x2 ![1] bcast_S2_S1x2_1 : (⟨S2, .f32⟩ : BufTy).Contents (Elt F) → (⟨S1x2, .f32⟩ : BufTy).Contents (Elt F)),  -- %457 = stablehlo.broadcast_in_dim %arg33, dims = [1] : (tensor<2xf32>) -> tensor<1x2xf32>  @ reference:63
    StableHlo.unary main_v457 main_v458 (broadcastInDim S50x2 ![0, 1] bcast_S1x2_S50x2_0_1 : (⟨S1x2, .f32⟩ : BufTy).Contents (Elt F) → (⟨S50x2, .f32⟩ : BufTy).Contents (Elt F)),  -- %458 = stablehlo.broadcast_in_dim %457, dims = [0, 1] : (tensor<1x2xf32>) -> tensor<50x2xf32>  @ reference:63
    StableHlo.binary main_v456 main_v458 main_v459 (addf : (⟨S50x2, .f32⟩ : BufTy).Contents (Elt F) → (⟨S50x2, .f32⟩ : BufTy).Contents (Elt F) → (⟨S50x2, .f32⟩ : BufTy).Contents (Elt F)) ]  -- %459 = stablehlo.add %456, %458 : tensor<50x2xf32>  @ reference:63

set_option maxRecDepth 4096 in
/-- Part 8 is that straight line: the called functions unfolded at their calls, both sides are one chain of
    single operations once the sequencing is reassociated. -/
theorem main_part8_eq (c : Dev nD) : main_part8 (F := F) c = seq ops8 := by
  simp only [main_part8, fn_relu_1.body, seq, bind_assoc, pure_bind]

/-- Every operation of the part touches TensorCore references only. -/
theorem ops8_sub : (ops8 : List (HloOp τ sig (Elt F))).Forall fun op => op.bufs ⊆ tcRefs τ sig :=
  ⟨unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

/-- Every operation of the part determines what it writes. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- The references the part's operations write: one each, its result. -/
abbrev href_W8 : List (Ref sig .tc) :=
  [main_v416, main_v417, main_call24.cst.ref, main_call24.v0.ref, main_call24.v1.ref, main_v419, main_v420, main_v421,
   main_v422, main_v423, main_v424, main_v425, main_v426, main_call25.cst.ref, main_call25.v0.ref, main_call25.v1.ref,
   main_cst_62, main_v428, main_v429, main_v430, main_cst_63, main_v431, main_cst_64, main_v432,
   main_v433, main_v434, main_cst_65, main_v435, main_v436, main_v437, main_v438, main_cst_66,
   main_v439, main_v440, main_v441, main_cst_67, main_v442, main_cst_68, main_v443, main_v444,
   main_v445, main_cst_69, main_v446, main_v447, main_v448, main_v449, main_v450, main_v451,
   main_v452, main_v453, main_v454, main_call26.cst.ref, main_call26.v0.ref, main_call26.v1.ref, main_v456, main_v457,
   main_v458, main_v459]

theorem ops8_writes : (ops8 : List (HloOp τ sig (Elt F))).Forall fun op =>
    op.writes ⊆ (href_W8.map (Proc.devRef (τ := τ) .tc)).toFinset :=
  ⟨href_wsub main_v416 rfl (by decide), href_wsub main_v417 rfl (by decide), href_wsub main_call24.cst.ref rfl (by decide),
    href_wsub main_call24.v0.ref rfl (by decide), href_wsub main_call24.v1.ref rfl (by decide), href_wsub main_v419 rfl (by decide),
    href_wsub main_v420 rfl (by decide), href_wsub main_v421 rfl (by decide), href_wsub main_v422 rfl (by decide),
    href_wsub main_v423 rfl (by decide), href_wsub main_v424 rfl (by decide), href_wsub main_v425 rfl (by decide),
    href_wsub main_v426 rfl (by decide), href_wsub main_call25.cst.ref rfl (by decide), href_wsub main_call25.v0.ref rfl (by decide),
    href_wsub main_call25.v1.ref rfl (by decide), href_wsub main_cst_62 rfl (by decide), href_wsub main_v428 rfl (by decide),
    href_wsub main_v429 rfl (by decide), href_wsub main_v430 rfl (by decide), href_wsub main_cst_63 rfl (by decide),
    href_wsub main_v431 rfl (by decide), href_wsub main_cst_64 rfl (by decide), href_wsub main_v432 rfl (by decide),
    href_wsub main_v433 rfl (by decide), href_wsub main_v434 rfl (by decide), href_wsub main_cst_65 rfl (by decide),
    href_wsub main_v435 rfl (by decide), href_wsub main_v436 rfl (by decide), href_wsub main_v437 rfl (by decide),
    href_wsub main_v438 rfl (by decide), href_wsub main_cst_66 rfl (by decide), href_wsub main_v439 rfl (by decide),
    href_wsub main_v440 rfl (by decide), href_wsub main_v441 rfl (by decide), href_wsub main_cst_67 rfl (by decide),
    href_wsub main_v442 rfl (by decide), href_wsub main_cst_68 rfl (by decide), href_wsub main_v443 rfl (by decide),
    href_wsub main_v444 rfl (by decide), href_wsub main_v445 rfl (by decide), href_wsub main_cst_69 rfl (by decide),
    href_wsub main_v446 rfl (by decide), href_wsub main_v447 rfl (by decide), href_wsub main_v448 rfl (by decide),
    href_wsub main_v449 rfl (by decide), href_wsub main_v450 rfl (by decide), href_wsub main_v451 rfl (by decide),
    href_wsub main_v452 rfl (by decide), href_wsub main_v453 rfl (by decide), href_wsub main_v454 rfl (by decide),
    href_wsub main_call26.cst.ref rfl (by decide), href_wsub main_call26.v0.ref rfl (by decide), href_wsub main_call26.v1.ref rfl (by decide),
    href_wsub main_v456 rfl (by decide), href_wsub main_v457 rfl (by decide), href_wsub main_v458 rfl (by decide),
    href_wsub main_v459 rfl (by decide)⟩

end Cert.ReferenceIdeal.Hand

end
-- ==== Proof.Ref.Chunks.lean ====
/-
  The reference program's host operations in order, the called functions' operations written at their call sites, cut
  after each dense layer's final maximum: R0 … R25 end with a layer, R26 is what follows the last one.
-/
import proofs.«141679_j61469571940402_1_alg».proof.Proof.Gen.ReferenceIdeal

set_option maxRecDepth 3048

noncomputable section

namespace Cert.ReferenceIdeal.Hand

open Idealize.ShloMosaic Cert.ReferenceIdeal Cert.ReferenceIdeal.Gen

variable {F : FTy → Type} [FloatOps F]

def R0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 40#32),
    StableHlo.unary main_c main_v4 (broadcastInDim S100000 ![] bcast_S_S100000 : (⟨S_, .i32⟩ : BufTy).Contents (Elt F) → (⟨S100000, .i32⟩ : BufTy).Contents (Elt F)),
    StableHlo.binary main_arg2 main_v4 main_v5 (muli : (⟨S100000, .i32⟩ : BufTy).Contents (Elt F) → (⟨S100000, .i32⟩ : BufTy).Contents (Elt F) → (⟨S100000, .i32⟩ : BufTy).Contents (Elt F)),
    StableHlo.binary main_arg3 main_v5 main_v6 (addi : (⟨S100000, .i32⟩ : BufTy).Contents (Elt F) → (⟨S100000, .i32⟩ : BufTy).Contents (Elt F) → (⟨S100000, .i32⟩ : BufTy).Contents (Elt F)),
    StableHlo.nullary main_v7 (iotaInDim S2000 32 0),
    StableHlo.nullary main_c_0 (constantI S_ 32 40#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2000, .i32⟩) (broadcastInDim S2000 ![] bcast_S_S2000),
    StableHlo.TRef.binary (.of main_v7 : StableHlo.TRef sig ⟨S2000, .i32⟩) (.of main_call0_v1 : StableHlo.TRef sig ⟨S2000, .i32⟩) (.of main_call0_v2 : StableHlo.TRef sig ⟨S2000, .i32⟩) Host.divsi,
    StableHlo.TRef.unary (.of main_v7 : StableHlo.TRef sig ⟨S2000, .i32⟩) (.of main_call0_v3 : StableHlo.TRef sig ⟨S2000, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S2000, .i32⟩) (broadcastInDim S2000 ![] bcast_S_S2000),
    StableHlo.TRef.binary (.of main_call0_v3 : StableHlo.TRef sig ⟨S2000, .i32⟩) (.of main_call0_v5 : StableHlo.TRef sig ⟨S2000, .i32⟩) (.of main_call0_v6 : StableHlo.TRef sig ⟨S2000, .i1⟩) (cmpi .ne),
    StableHlo.TRef.unary (.of main_call0_v0 : StableHlo.TRef sig ⟨S_, .i32⟩) (.of main_call0_v7 : StableHlo.TRef sig ⟨S2000, .i32⟩) (broadcastInDim S2000 ![] bcast_S_S2000),
    StableHlo.TRef.binary (.of main_v7 : StableHlo.TRef sig ⟨S2000, .i32⟩) (.of main_call0_v7 : StableHlo.TRef sig ⟨S2000, .i32⟩) (.of main_call0_v8 : StableHlo.TRef sig ⟨S2000, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S2000, .i32⟩) (broadcastInDim S2000 ![] bcast_S_S2000),
    StableHlo.TRef.binary (.of main_call0_v8 : StableHlo.TRef sig ⟨S2000, .i32⟩) (.of main_call0_v9 : StableHlo.TRef sig ⟨S2000, .i32⟩) (.of main_call0_v10 : StableHlo.TRef sig ⟨S2000, .i1⟩) (cmpi .ne),
    StableHlo.TRef.binary (.of main_call0_v6 : StableHlo.TRef sig ⟨S2000, .i1⟩) (.of main_call0_v10 : StableHlo.TRef sig ⟨S2000, .i1⟩) (.of main_call0_v11 : StableHlo.TRef sig ⟨S2000, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S2000, .i32⟩) (broadcastInDim S2000 ![] bcast_S_S2000),
    StableHlo.TRef.binary (.of main_call0_v2 : StableHlo.TRef sig ⟨S2000, .i32⟩) (.of main_call0_v12 : StableHlo.TRef sig ⟨S2000, .i32⟩) (.of main_call0_v13 : StableHlo.TRef sig ⟨S2000, .i32⟩) subi,
    StableHlo.TRef.ternary (.of main_call0_v11 : StableHlo.TRef sig ⟨S2000, .i1⟩) (.of main_call0_v13 : StableHlo.TRef sig ⟨S2000, .i32⟩) (.of main_call0_v2 : StableHlo.TRef sig ⟨S2000, .i32⟩) (.of main_v8 : StableHlo.TRef sig ⟨S2000, .i32⟩) select,
    StableHlo.binary main_arg0 main_arg4 main_v9 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg5 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),
    StableHlo.binary main_v9 main_v11 main_v12 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v12 : StableHlo.TRef sig ⟨S100000x128, .f32⟩) (.of main_call1_v0 : StableHlo.TRef sig ⟨S100000x128, .f32⟩) (.of main_v13 : StableHlo.TRef sig ⟨S100000x128, .f32⟩) maximumf ]

def R1 : List (HloOp τ sig (Elt F)) :=
  [ StableHlo.nullary main_cst (constant S_ .f32 0x00000000#32),
    StableHlo.unary main_cst main_v14 (broadcastInDim S2000x128 ![] bcast_S_S2000x128 : (⟨S_, .f32⟩ : BufTy).Contents (Elt F) → (⟨S2000x128, .f32⟩ : BufTy).Contents (Elt F)),
    StableHlo.nullary main_cst_1 (constant S_ .f32 0x00000000#32),
    StableHlo.unary main_cst_1 main_v15 (broadcastInDim S50x128 ![] bcast_S_S50x128 : (⟨S_, .f32⟩ : BufTy).Contents (Elt F) → (⟨S50x128, .f32⟩ : BufTy).Contents (Elt F)),
    StableHlo.nullary main_c_2 (constantI S_ 32 0#32),
    StableHlo.unary main_c_2 main_v16 (broadcastInDim S600000 ![] bcast_S_S600000 : (⟨S_, .i32⟩ : BufTy).Contents (Elt F) → (⟨S600000, .i32⟩ : BufTy).Contents (Elt F)),
    StableHlo.binary main_v1 main_v16 main_v17 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 100000#32),
    StableHlo.unary main_c_3 main_v18 (broadcastInDim S600000 ![] bcast_S_S600000 : (⟨S_, .i32⟩ : BufTy).Contents (Elt F) → (⟨S600000, .i32⟩ : BufTy).Contents (Elt F)),
    StableHlo.binary main_v1 main_v18 main_v19 (addi : (⟨S600000, .i32⟩ : BufTy).Contents (Elt F) → (⟨S600000, .i32⟩ : BufTy).Contents (Elt F) → (⟨S600000, .i32⟩ : BufTy).Contents (Elt F)),
    StableHlo.ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v20 main_v21 (broadcastInDim S600000x1 ![0] bcast_S600000_S600000x1_0 : (⟨S600000, .i32⟩ : BufTy).Contents (Elt F) → (⟨S600000x1, .i32⟩ : BufTy).Contents (Elt F)),
    StableHlo.binary main_v13 main_v21 main_v22 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_4 (constant S_ .f32 0x00000000#32),
    StableHlo.unary main_cst_4 main_v23 (broadcastInDim S100000x128 ![] bcast_S_S100000x128 : (⟨S_, .f32⟩ : BufTy).Contents (Elt F) → (⟨S100000x128, .f32⟩ : BufTy).Contents (Elt F)),
    StableHlo.unary main_v3 main_v24 (broadcastInDim S600000x1 ![0] bcast_S600000_S600000x1_0 : (⟨S600000, .i32⟩ : BufTy).Contents (Elt F) → (⟨S600000x1, .i32⟩ : BufTy).Contents (Elt F)),
    StableHlo.ternary main_v23 main_v24 main_v22 main_v25 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_5 (constant S_ .f32 0x3F800000#32),
    StableHlo.unary main_cst_5 main_v26 (broadcastInDim S600000x1 ![] bcast_S_S600000x1 : (⟨S_, .f32⟩ : BufTy).Contents (Elt F) → (⟨S600000x1, .f32⟩ : BufTy).Contents (Elt F)),
    StableHlo.nullary main_cst_6 (constant S_ .f32 0x00000000#32),
    StableHlo.unary main_cst_6 main_v27 (broadcastInDim S100000x1 ![] bcast_S_S100000x1 : (⟨S_, .f32⟩ : BufTy).Contents (Elt F) → (⟨S100000x1, .f32⟩ : BufTy).Contents (Elt F)),
    StableHlo.unary main_v3 main_v28 (broadcastInDim S600000x1 ![0] bcast_S600000_S600000x1_0 : (⟨S600000, .i32⟩ : BufTy).Contents (Elt F) → (⟨S600000x1, .i32⟩ : BufTy).Contents (Elt F)),
    StableHlo.ternary main_v27 main_v28 main_v26 main_v29 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    StableHlo.nullary main_cst_7 (constant S_ .f32 0x3F800000#32),
    StableHlo.unary main_cst_7 main_v30 (broadcastInDim S100000x1 ![] bcast_S_S100000x1 : (⟨S_, .f32⟩ : BufTy).Contents (Elt F) → (⟨S100000x1, .f32⟩ : BufTy).Contents (Elt F)),
    StableHlo.binary main_v29 main_v30 main_v31 (maximumf : (⟨S100000x1, .f32⟩ : BufTy).Contents (Elt F) → (⟨S100000x1, .f32⟩ : BufTy).Contents (Elt F) → (⟨S100000x1, .f32⟩ : BufTy).Contents (Elt F)),
    StableHlo.unary main_v31 main_v32 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v32 main_v33 (Host.divf : (⟨S100000x128, .f32⟩ : BufTy).Contents (Elt F) → (⟨S100000x128, .f32⟩ : BufTy).Contents (Elt F) → (⟨S100000x128, .f32⟩ : BufTy).Contents (Elt F)),
    StableHlo.unary main_arg6 main_v34 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v34 main_v35 rfl shapeCasts_S1x128x128_S128x128,
    StableHlo.binary main_v13 main_v35 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v37 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v37 main_v38 rfl shapeCasts_S1x128x128_S128x128,
    StableHlo.binary main_v33 main_v38 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v36 main_v39 main_v40 (addf : (⟨S100000x128, .f32⟩ : BufTy).Contents (Elt F) → (⟨S100000x128, .f32⟩ : BufTy).Contents (Elt F) → (⟨S100000x128, .f32⟩ : BufTy).Contents (Elt F)),
    StableHlo.unary main_arg8 main_v41 ((extractStridedSlice S1x128 ![0, 0] · slices_S2x128_S1x128_0_0) : (⟨S2x128, .f32⟩ : BufTy).Contents (Elt F) → (⟨S1x128, .f32⟩ : BufTy).Contents (Elt F)),
    StableHlo.reshape main_v41 main_v42 rfl shapeCasts_S1x128_S128,
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v44 main_v45 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x128, .f32⟩) (broadcastInDim S100000x128 ![] bcast_S_S100000x128),
    StableHlo.TRef.binary (.of main_v45 : StableHlo.TRef sig ⟨S100000x128, .f32⟩) (.of main_call2_v0 : StableHlo.TRef sig ⟨S100000x128, .f32⟩) (.of main_v46 : StableHlo.TRef sig ⟨S100000x128, .f32⟩) maximumf ]

def R2 : List (HloOp τ sig (Elt F)) :=
  [ StableHlo.nullary main_c_8 (constantI S_ 32 0#32),
    StableHlo.unary main_c_8 main_v47 (broadcastInDim S600000 ![] bcast_S_S600000 : (⟨S_, .i32⟩ : BufTy).Contents (Elt F) → (⟨S600000, .i32⟩ : BufTy).Contents (Elt F)),
    StableHlo.binary main_v1 main_v47 main_v48 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 100000#32),
    StableHlo.unary main_c_9 main_v49 (broadcastInDim S600000 ![] bcast_S_S600000 : (⟨S_, .i32⟩ : BufTy).Contents (Elt F) → (⟨S600000, .i32⟩ : BufTy).Contents (Elt F)),
    StableHlo.binary main_v1 main_v49 main_v50 (addi : (⟨S600000, .i32⟩ : BufTy).Contents (Elt F) → (⟨S600000, .i32⟩ : BufTy).Contents (Elt F) → (⟨S600000, .i32⟩ : BufTy).Contents (Elt F)),
    StableHlo.ternary main_v48 main_v50 main_v1 main_v51 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v51 main_v52 (broadcastInDim S600000x1 ![0] bcast_S600000_S600000x1_0 : (⟨S600000, .i32⟩ : BufTy).Contents (Elt F) → (⟨S600000x1, .i32⟩ : BufTy).Contents (Elt F)),
    StableHlo.binary main_v46 main_v52 main_v53 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_10 (constant S_ .f32 0x00000000#32),
    StableHlo.unary main_cst_10 main_v54 (broadcastInDim S100000x128 ![] bcast_S_S100000x128 : (⟨S_, .f32⟩ : BufTy).Contents (Elt F) → (⟨S100000x128, .f32⟩ : BufTy).Contents (Elt F)),
    StableHlo.unary main_v3 main_v55 (broadcastInDim S600000x1 ![0] bcast_S600000_S600000x1_0 : (⟨S600000, .i32⟩ : BufTy).Contents (Elt F) → (⟨S600000x1, .i32⟩ : BufTy).Contents (Elt F)),
    StableHlo.ternary main_v54 main_v55 main_v53 main_v56 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_11 (constant S_ .f32 0x3F800000#32),
    StableHlo.unary main_cst_11 main_v57 (broadcastInDim S600000x1 ![] bcast_S_S600000x1 : (⟨S_, .f32⟩ : BufTy).Contents (Elt F) → (⟨S600000x1, .f32⟩ : BufTy).Contents (Elt F)),
    StableHlo.nullary main_cst_12 (constant S_ .f32 0x00000000#32),
    StableHlo.unary main_cst_12 main_v58 (broadcastInDim S100000x1 ![] bcast_S_S100000x1 : (⟨S_, .f32⟩ : BufTy).Contents (Elt F) → (⟨S100000x1, .f32⟩ : BufTy).Contents (Elt F)),
    StableHlo.unary main_v3 main_v59 (broadcastInDim S600000x1 ![0] bcast_S600000_S600000x1_0 : (⟨S600000, .i32⟩ : BufTy).Contents (Elt F) → (⟨S600000x1, .i32⟩ : BufTy).Contents (Elt F)),
    StableHlo.ternary main_v58 main_v59 main_v57 main_v60 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    StableHlo.nullary main_cst_13 (constant S_ .f32 0x3F800000#32),
    StableHlo.unary main_cst_13 main_v61 (broadcastInDim S100000x1 ![] bcast_S_S100000x1 : (⟨S_, .f32⟩ : BufTy).Contents (Elt F) → (⟨S100000x1, .f32⟩ : BufTy).Contents (Elt F)),
    StableHlo.binary main_v60 main_v61 main_v62 (maximumf : (⟨S100000x1, .f32⟩ : BufTy).Contents (Elt F) → (⟨S100000x1, .f32⟩ : BufTy).Contents (Elt F) → (⟨S100000x1, .f32⟩ : BufTy).Contents (Elt F)),
    StableHlo.unary main_v62 main_v63 (broadcastInDim S100000x128 ![0, 1] bcast_S100000x1_S100000x128_0_1 : (⟨S100000x1, .f32⟩ : BufTy).Contents (Elt F) → (⟨S100000x128, .f32⟩ : BufTy).Contents (Elt F)),
    StableHlo.binary main_v56 main_v63 main_v64 (Host.divf : (⟨S100000x128, .f32⟩ : BufTy).Contents (Elt F) → (⟨S100000x128, .f32⟩ : BufTy).Contents (Elt F) → (⟨S100000x128, .f32⟩ : BufTy).Contents (Elt F)),
    StableHlo.unary main_arg6 main_v65 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v65 main_v66 rfl shapeCasts_S1x128x128_S128x128,
    StableHlo.binary main_v46 main_v66 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v68 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v68 main_v69 rfl shapeCasts_S1x128x128_S128x128,
    StableHlo.binary main_v64 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v67 main_v70 main_v71 (addf : (⟨S100000x128, .f32⟩ : BufTy).Contents (Elt F) → (⟨S100000x128, .f32⟩ : BufTy).Contents (Elt F) → (⟨S100000x128, .f32⟩ : BufTy).Contents (Elt F)),
    StableHlo.unary main_arg8 main_v72 ((extractStridedSlice S1x128 ![1, 0] · slices_S2x128_S1x128_1_0) : (⟨S2x128, .f32⟩ : BufTy).Contents (Elt F) → (⟨S1x128, .f32⟩ : BufTy).Contents (Elt F)),
    StableHlo.reshape main_v72 main_v73 rfl shapeCasts_S1x128_S128,
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v75 main_v76 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v76 : StableHlo.TRef sig ⟨S100000x128, .f32⟩) (.of main_call3_v0 : StableHlo.TRef sig ⟨S100000x128, .f32⟩) (.of main_v77 : StableHlo.TRef sig ⟨S100000x128, .f32⟩) maximumf ]

def R3 : List (HloOp τ sig (Elt F)) :=
  [ StableHlo.unary main_arg9 main_v78 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v78 main_v79 rfl shapeCasts_S1x128x128_S128x128,
    StableHlo.binary main_v14 main_v79 main_v80 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.unary main_arg10 main_v81 ((extractStridedSlice S1x128 ![0, 0] · slices_S2x128_S1x128_0_0) : (⟨S2x128, .f32⟩ : BufTy).Contents (Elt F) → (⟨S1x128, .f32⟩ : BufTy).Contents (Elt F)),
    StableHlo.reshape main_v81 main_v82 rfl shapeCasts_S1x128_S128,
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S2000x128 ![0, 1] bcast_S1x128_S2000x128_0_1 : (⟨S1x128, .f32⟩ : BufTy).Contents (Elt F) → (⟨S2000x128, .f32⟩ : BufTy).Contents (Elt F)),
    StableHlo.binary main_v80 main_v84 main_v85 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S2000x128, .f32⟩) (broadcastInDim S2000x128 ![] bcast_S_S2000x128),
    StableHlo.TRef.binary (.of main_v85 : StableHlo.TRef sig ⟨S2000x128, .f32⟩) (.of main_call4_v0 : StableHlo.TRef sig ⟨S2000x128, .f32⟩) (.of main_v86 : StableHlo.TRef sig ⟨S2000x128, .f32⟩) maximumf ]

def R4 : List (HloOp τ sig (Elt F)) :=
  [ StableHlo.unary main_arg9 main_v87 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v87 main_v88 rfl shapeCasts_S1x128x128_S128x128,
    StableHlo.binary main_v86 main_v88 main_v89 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.unary main_arg10 main_v90 ((extractStridedSlice S1x128 ![1, 0] · slices_S2x128_S1x128_1_0) : (⟨S2x128, .f32⟩ : BufTy).Contents (Elt F) → (⟨S1x128, .f32⟩ : BufTy).Contents (Elt F)),
    StableHlo.reshape main_v90 main_v91 rfl shapeCasts_S1x128_S128,
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S2000x128 ![0, 1] bcast_S1x128_S2000x128_0_1 : (⟨S1x128, .f32⟩ : BufTy).Contents (Elt F) → (⟨S2000x128, .f32⟩ : BufTy).Contents (Elt F)),
    StableHlo.binary main_v89 main_v93 main_v94 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S2000x128, .f32⟩) (broadcastInDim S2000x128 ![] bcast_S_S2000x128),
    StableHlo.TRef.binary (.of main_v94 : StableHlo.TRef sig ⟨S2000x128, .f32⟩) (.of main_call5_v0 : StableHlo.TRef sig ⟨S2000x128, .f32⟩) (.of main_v95 : StableHlo.TRef sig ⟨S2000x128, .f32⟩) maximumf ]

def R5 : List (HloOp τ sig (Elt F)) :=
  [ StableHlo.unary main_arg11 main_v96 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v96 main_v97 rfl shapeCasts_S1x128x128_S128x128,
    StableHlo.binary main_v15 main_v97 main_v98 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.unary main_arg12 main_v99 ((extractStridedSlice S1x128 ![0, 0] · slices_S2x128_S1x128_0_0) : (⟨S2x128, .f32⟩ : BufTy).Contents (Elt F) → (⟨S1x128, .f32⟩ : BufTy).Contents (Elt F)),
    StableHlo.reshape main_v99 main_v100 rfl shapeCasts_S1x128_S128,
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50x128 ![0, 1] bcast_S1x128_S50x128_0_1 : (⟨S1x128, .f32⟩ : BufTy).Contents (Elt F) → (⟨S50x128, .f32⟩ : BufTy).Contents (Elt F)),
    StableHlo.binary main_v98 main_v102 main_v103 (addf : (⟨S50x128, .f32⟩ : BufTy).Contents (Elt F) → (⟨S50x128, .f32⟩ : BufTy).Contents (Elt F) → (⟨S50x128, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50x128, .f32⟩) (broadcastInDim S50x128 ![] bcast_S_S50x128),
    StableHlo.TRef.binary (.of main_v103 : StableHlo.TRef sig ⟨S50x128, .f32⟩) (.of main_call6_v0 : StableHlo.TRef sig ⟨S50x128, .f32⟩) (.of main_v104 : StableHlo.TRef sig ⟨S50x128, .f32⟩) maximumf ]

def R6 : List (HloOp τ sig (Elt F)) :=
  [ StableHlo.unary main_arg11 main_v105 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v105 main_v106 rfl shapeCasts_S1x128x128_S128x128,
    StableHlo.binary main_v104 main_v106 main_v107 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.unary main_arg12 main_v108 ((extractStridedSlice S1x128 ![1, 0] · slices_S2x128_S1x128_1_0) : (⟨S2x128, .f32⟩ : BufTy).Contents (Elt F) → (⟨S1x128, .f32⟩ : BufTy).Contents (Elt F)),
    StableHlo.reshape main_v108 main_v109 rfl shapeCasts_S1x128_S128,
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50x128 ![0, 1] bcast_S1x128_S50x128_0_1 : (⟨S1x128, .f32⟩ : BufTy).Contents (Elt F) → (⟨S50x128, .f32⟩ : BufTy).Contents (Elt F)),
    StableHlo.binary main_v107 main_v111 main_v112 (addf : (⟨S50x128, .f32⟩ : BufTy).Contents (Elt F) → (⟨S50x128, .f32⟩ : BufTy).Contents (Elt F) → (⟨S50x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50x128, .f32⟩) (broadcastInDim S50x128 ![] bcast_S_S50x128),
    StableHlo.TRef.binary (.of main_v112 : StableHlo.TRef sig ⟨S50x128, .f32⟩) (.of main_call7_v0 : StableHlo.TRef sig ⟨S50x128, .f32⟩) (.of main_v113 : StableHlo.TRef sig ⟨S50x128, .f32⟩) maximumf ]

def R7 : List (HloOp τ sig (Elt F)) :=
  [ StableHlo.nullary main_cst_14 (constant S_ .f32 0x00000000#32),
    StableHlo.unary main_cst_14 main_v114 (broadcastInDim S2000x128 ![] bcast_S_S2000x128 : (⟨S_, .f32⟩ : BufTy).Contents (Elt F) → (⟨S2000x128, .f32⟩ : BufTy).Contents (Elt F)),
    StableHlo.unary main_v6 main_v115 (broadcastInDim S100000x1 ![0] bcast_S100000_S100000x1_0 : (⟨S100000, .i32⟩ : BufTy).Contents (Elt F) → (⟨S100000x1, .i32⟩ : BufTy).Contents (Elt F)),
    StableHlo.ternary main_v114 main_v115 main_v77 main_v116 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.nullary main_cst_15 (constant S_ .f32 0x3F800000#32),
    StableHlo.unary main_cst_15 main_v117 (broadcastInDim S100000x1 ![] bcast_S_S100000x1 : (⟨S_, .f32⟩ : BufTy).Contents (Elt F) → (⟨S100000x1, .f32⟩ : BufTy).Contents (Elt F)),
    StableHlo.nullary main_cst_16 (constant S_ .f32 0x00000000#32),
    StableHlo.unary main_cst_16 main_v118 (broadcastInDim S2000x1 ![] bcast_S_S2000x1 : (⟨S_, .f32⟩ : BufTy).Contents (Elt F) → (⟨S2000x1, .f32⟩ : BufTy).Contents (Elt F)),
    StableHlo.unary main_v6 main_v119 (broadcastInDim S100000x1 ![0] bcast_S100000_S100000x1_0 : (⟨S100000, .i32⟩ : BufTy).Contents (Elt F) → (⟨S100000x1, .i32⟩ : BufTy).Contents (Elt F)),
    StableHlo.ternary main_v118 main_v119 main_v117 main_v120 ((fun x i u => Host.scatterAdd scatter_S2000x1_S100000x1_S100000x1_1_0_0_1 x i u) : (⟨S2000x1, .f32⟩ : BufTy).Contents (Elt F) → (⟨S100000x1, .i32⟩ : BufTy).Contents (Elt F) → (⟨S100000x1, .f32⟩ : BufTy).Contents (Elt F) → (⟨S2000x1, .f32⟩ : BufTy).Contents (Elt F)),
    StableHlo.nullary main_cst_17 (constant S_ .f32 0x3F800000#32),
    StableHlo.unary main_cst_17 main_v121 (broadcastInDim S2000x1 ![] bcast_S_S2000x1 : (⟨S_, .f32⟩ : BufTy).Contents (Elt F) → (⟨S2000x1, .f32⟩ : BufTy).Contents (Elt F)),
    StableHlo.binary main_v120 main_v121 main_v122 (maximumf : (⟨S2000x1, .f32⟩ : BufTy).Contents (Elt F) → (⟨S2000x1, .f32⟩ : BufTy).Contents (Elt F) → (⟨S2000x1, .f32⟩ : BufTy).Contents (Elt F)),
    StableHlo.unary main_v122 main_v123 (broadcastInDim S2000x128 ![0, 1] bcast_S2000x1_S2000x128_0_1 : (⟨S2000x1, .f32⟩ : BufTy).Contents (Elt F) → (⟨S2000x128, .f32⟩ : BufTy).Contents (Elt F)),
    StableHlo.binary main_v116 main_v123 main_v124 (Host.divf : (⟨S2000x128, .f32⟩ : BufTy).Contents (Elt F) → (⟨S2000x128, .f32⟩ : BufTy).Contents (Elt F) → (⟨S2000x128, .f32⟩ : BufTy).Contents (Elt F)),
    StableHlo.nullary main_cst_18 (constant S_ .f32 0x00000000#32),
    StableHlo.unary main_cst_18 main_v125 (broadcastInDim S50x128 ![] bcast_S_S50x128 : (⟨S_, .f32⟩ : BufTy).Contents (Elt F) → (⟨S50x128, .f32⟩ : BufTy).Contents (Elt F)),
    StableHlo.unary main_v8 main_v126 (broadcastInDim S2000x1 ![0] bcast_S2000_S2000x1_0 : (⟨S2000, .i32⟩ : BufTy).Contents (Elt F) → (⟨S2000x1, .i32⟩ : BufTy).Contents (Elt F)),
    StableHlo.ternary main_v125 main_v126 main_v95 main_v127 ((fun x i u => Host.scatterAdd scatter_S50x128_S2000x1_S2000x128_1_0_0_1 x i u) : (⟨S50x128, .f32⟩ : BufTy).Contents (Elt F) → (⟨S2000x1, .i32⟩ : BufTy).Contents (Elt F) → (⟨S2000x128, .f32⟩ : BufTy).Contents (Elt F) → (⟨S50x128, .f32⟩ : BufTy).Contents (Elt F)),
    StableHlo.nullary main_cst_19 (constant S_ .f32 0x3F800000#32),
    StableHlo.unary main_cst_19 main_v128 (broadcastInDim S2000x1 ![] bcast_S_S2000x1 : (⟨S_, .f32⟩ : BufTy).Contents (Elt F) → (⟨S2000x1, .f32⟩ : BufTy).Contents (Elt F)),
    StableHlo.nullary main_cst_20 (constant S_ .f32 0x00000000#32),
    StableHlo.unary main_cst_20 main_v129 (broadcastInDim S50x1 ![] bcast_S_S50x1 : (⟨S_, .f32⟩ : BufTy).Contents (Elt F) → (⟨S50x1, .f32⟩ : BufTy).Contents (Elt F)),
    StableHlo.unary main_v8 main_v130 (broadcastInDim S2000x1 ![0] bcast_S2000_S2000x1_0 : (⟨S2000, .i32⟩ : BufTy).Contents (Elt F) → (⟨S2000x1, .i32⟩ : BufTy).Contents (Elt F)),
    StableHlo.ternary main_v129 main_v130 main_v128 main_v131 ((fun x i u => Host.scatterAdd scatter_S50x1_S2000x1_S2000x1_1_0_0_1 x i u) : (⟨S50x1, .f32⟩ : BufTy).Contents (Elt F) → (⟨S2000x1, .i32⟩ : BufTy).Contents (Elt F) → (⟨S2000x1, .f32⟩ : BufTy).Contents (Elt F) → (⟨S50x1, .f32⟩ : BufTy).Contents (Elt F)),
    StableHlo.nullary main_cst_21 (constant S_ .f32 0x3F800000#32),
    StableHlo.unary main_cst_21 main_v132 (broadcastInDim S50x1 ![] bcast_S_S50x1 : (⟨S_, .f32⟩ : BufTy).Contents (Elt F) → (⟨S50x1, .f32⟩ : BufTy).Contents (Elt F)),
    StableHlo.binary main_v131 main_v132 main_v133 (maximumf : (⟨S50x1, .f32⟩ : BufTy).Contents (Elt F) → (⟨S50x1, .f32⟩ : BufTy).Contents (Elt F) → (⟨S50x1, .f32⟩ : BufTy).Contents (Elt F)),
    StableHlo.unary main_v133 main_v134 (broadcastInDim S50x128 ![0, 1] bcast_S50x1_S50x128_0_1 : (⟨S50x1, .f32⟩ : BufTy).Contents (Elt F) → (⟨S50x128, .f32⟩ : BufTy).Contents (Elt F)),
    StableHlo.binary main_v127 main_v134 main_v135 (Host.divf : (⟨S50x128, .f32⟩ : BufTy).Contents (Elt F) → (⟨S50x128, .f32⟩ : BufTy).Contents (Elt F) → (⟨S50x128, .f32⟩ : BufTy).Contents (Elt F)),
    StableHlo.binary main_v77 main_arg20 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_22 (constantI S_ 32 0#32),
    StableHlo.unary main_c_22 main_v137 (broadcastInDim S100000 ![] bcast_S_S100000 : (⟨S_, .i32⟩ : BufTy).Contents (Elt F) → (⟨S100000, .i32⟩ : BufTy).Contents (Elt F)),
    StableHlo.binary main_v6 main_v137 main_v138 (cmpi .slt : (⟨S100000, .i32⟩ : BufTy).Contents (Elt F) → (⟨S100000, .i32⟩ : BufTy).Contents (Elt F) → (⟨S100000, .i1⟩ : BufTy).Contents (Elt F)),
    StableHlo.nullary main_c_23 (constantI S_ 32 2000#32),
    StableHlo.unary main_c_23 main_v139 (broadcastInDim S100000 ![] bcast_S_S100000 : (⟨S_, .i32⟩ : BufTy).Contents (Elt F) → (⟨S100000, .i32⟩ : BufTy).Contents (Elt F)),
    StableHlo.binary main_v6 main_v139 main_v140 (addi : (⟨S100000, .i32⟩ : BufTy).Contents (Elt F) → (⟨S100000, .i32⟩ : BufTy).Contents (Elt F) → (⟨S100000, .i32⟩ : BufTy).Contents (Elt F)),
    StableHlo.ternary main_v138 main_v140 main_v6 main_v141 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v141 main_v142 (broadcastInDim S100000x1 ![0] bcast_S100000_S100000x1_0 : (⟨S100000, .i32⟩ : BufTy).Contents (Elt F) → (⟨S100000x1, .i32⟩ : BufTy).Contents (Elt F)),
    StableHlo.binary main_v95 main_v142 main_v143 ((fun x i => Host.gather gather_S2000x128_S100000x1_S100000x128_1_0_n_n_0_1_1128 x i) : (⟨S2000x128, .f32⟩ : BufTy).Contents (Elt F) → (⟨S100000x1, .i32⟩ : BufTy).Contents (Elt F) → (⟨S100000x128, .f32⟩ : BufTy).Contents (Elt F)),
    StableHlo.binary main_v143 main_arg25 main_v144 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v136 main_v144 main_v145 (addf : (⟨S100000x128, .f32⟩ : BufTy).Contents (Elt F) → (⟨S100000x128, .f32⟩ : BufTy).Contents (Elt F) → (⟨S100000x128, .f32⟩ : BufTy).Contents (Elt F)),
    StableHlo.unary main_arg27 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v147 main_v148 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S100000x128, .f32⟩) (broadcastInDim S100000x128 ![] bcast_S_S100000x128),
    StableHlo.TRef.binary (.of main_v148 : StableHlo.TRef sig ⟨S100000x128, .f32⟩) (.of main_call8_v0 : StableHlo.TRef sig ⟨S100000x128, .f32⟩) (.of main_v149 : StableHlo.TRef sig ⟨S100000x128, .f32⟩) maximumf ]

def R8 : List (HloOp τ sig (Elt F)) :=
  [ StableHlo.binary main_v95 main_arg21 main_v150 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.binary main_v124 main_arg23 main_v151 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.binary main_v150 main_v151 main_v152 (addf : (⟨S2000x128, .f32⟩ : BufTy).Contents (Elt F) → (⟨S2000x128, .f32⟩ : BufTy).Contents (Elt F) → (⟨S2000x128, .f32⟩ : BufTy).Contents (Elt F)),
    StableHlo.nullary main_c_24 (constantI S_ 32 0#32),
    StableHlo.unary main_c_24 main_v153 (broadcastInDim S2000 ![] bcast_S_S2000 : (⟨S_, .i32⟩ : BufTy).Contents (Elt F) → (⟨S2000, .i32⟩ : BufTy).Contents (Elt F)),
    StableHlo.binary main_v8 main_v153 main_v154 (cmpi .slt : (⟨S2000, .i32⟩ : BufTy).Contents (Elt F) → (⟨S2000, .i32⟩ : BufTy).Contents (Elt F) → (⟨S2000, .i1⟩ : BufTy).Contents (Elt F)),
    StableHlo.nullary main_c_25 (constantI S_ 32 50#32),
    StableHlo.unary main_c_25 main_v155 (broadcastInDim S2000 ![] bcast_S_S2000 : (⟨S_, .i32⟩ : BufTy).Contents (Elt F) → (⟨S2000, .i32⟩ : BufTy).Contents (Elt F)),
    StableHlo.binary main_v8 main_v155 main_v156 (addi : (⟨S2000, .i32⟩ : BufTy).Contents (Elt F) → (⟨S2000, .i32⟩ : BufTy).Contents (Elt F) → (⟨S2000, .i32⟩ : BufTy).Contents (Elt F)),
    StableHlo.ternary main_v154 main_v156 main_v8 main_v157 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v157 main_v158 (broadcastInDim S2000x1 ![0] bcast_S2000_S2000x1_0 : (⟨S2000, .i32⟩ : BufTy).Contents (Elt F) → (⟨S2000x1, .i32⟩ : BufTy).Contents (Elt F)),
    StableHlo.binary main_v113 main_v158 main_v159 ((fun x i => Host.gather gather_S50x128_S2000x1_S2000x128_1_0_n_n_0_1_1128 x i) : (⟨S50x128, .f32⟩ : BufTy).Contents (Elt F) → (⟨S2000x1, .i32⟩ : BufTy).Contents (Elt F) → (⟨S2000x128, .f32⟩ : BufTy).Contents (Elt F)),
    StableHlo.binary main_v159 main_arg26 main_v160 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.binary main_v152 main_v160 main_v161 (addf : (⟨S2000x128, .f32⟩ : BufTy).Contents (Elt F) → (⟨S2000x128, .f32⟩ : BufTy).Contents (Elt F) → (⟨S2000x128, .f32⟩ : BufTy).Contents (Elt F)),
    StableHlo.unary main_arg28 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S2000x128 ![0, 1] bcast_S1x128_S2000x128_0_1 : (⟨S1x128, .f32⟩ : BufTy).Contents (Elt F) → (⟨S2000x128, .f32⟩ : BufTy).Contents (Elt F)),
    StableHlo.binary main_v161 main_v163 main_v164 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S2000x128, .f32⟩) (broadcastInDim S2000x128 ![] bcast_S_S2000x128),
    StableHlo.TRef.binary (.of main_v164 : StableHlo.TRef sig ⟨S2000x128, .f32⟩) (.of main_call9_v0 : StableHlo.TRef sig ⟨S2000x128, .f32⟩) (.of main_v165 : StableHlo.TRef sig ⟨S2000x128, .f32⟩) maximumf ]

def R9 : List (HloOp τ sig (Elt F)) :=
  [ StableHlo.binary main_v113 main_arg22 main_v166 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.binary main_v135 main_arg24 main_v167 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.binary main_v166 main_v167 main_v168 (addf : (⟨S50x128, .f32⟩ : BufTy).Contents (Elt F) → (⟨S50x128, .f32⟩ : BufTy).Contents (Elt F) → (⟨S50x128, .f32⟩ : BufTy).Contents (Elt F)),
    StableHlo.unary main_arg29 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S50x128 ![0, 1] bcast_S1x128_S50x128_0_1 : (⟨S1x128, .f32⟩ : BufTy).Contents (Elt F) → (⟨S50x128, .f32⟩ : BufTy).Contents (Elt F)),
    StableHlo.binary main_v168 main_v170 main_v171 (addf : (⟨S50x128, .f32⟩ : BufTy).Contents (Elt F) → (⟨S50x128, .f32⟩ : BufTy).Contents (Elt F) → (⟨S50x128, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S50x128, .f32⟩) (broadcastInDim S50x128 ![] bcast_S_S50x128),
    StableHlo.TRef.binary (.of main_v171 : StableHlo.TRef sig ⟨S50x128, .f32⟩) (.of main_call10_v0 : StableHlo.TRef sig ⟨S50x128, .f32⟩) (.of main_v172 : StableHlo.TRef sig ⟨S50x128, .f32⟩) maximumf ]

def R10 : List (HloOp τ sig (Elt F)) :=
  [ StableHlo.nullary main_c_26 (constantI S_ 32 0#32),
    StableHlo.unary main_c_26 main_v173 (broadcastInDim S600000 ![] bcast_S_S600000 : (⟨S_, .i32⟩ : BufTy).Contents (Elt F) → (⟨S600000, .i32⟩ : BufTy).Contents (Elt F)),
    StableHlo.binary main_v1 main_v173 main_v174 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 100000#32),
    StableHlo.unary main_c_27 main_v175 (broadcastInDim S600000 ![] bcast_S_S600000 : (⟨S_, .i32⟩ : BufTy).Contents (Elt F) → (⟨S600000, .i32⟩ : BufTy).Contents (Elt F)),
    StableHlo.binary main_v1 main_v175 main_v176 (addi : (⟨S600000, .i32⟩ : BufTy).Contents (Elt F) → (⟨S600000, .i32⟩ : BufTy).Contents (Elt F) → (⟨S600000, .i32⟩ : BufTy).Contents (Elt F)),
    StableHlo.ternary main_v174 main_v176 main_v1 main_v177 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v177 main_v178 (broadcastInDim S600000x1 ![0] bcast_S600000_S600000x1_0 : (⟨S600000, .i32⟩ : BufTy).Contents (Elt F) → (⟨S600000x1, .i32⟩ : BufTy).Contents (Elt F)),
    StableHlo.binary main_v149 main_v178 main_v179 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_28 (constant S_ .f32 0x00000000#32),
    StableHlo.unary main_cst_28 main_v180 (broadcastInDim S100000x128 ![] bcast_S_S100000x128 : (⟨S_, .f32⟩ : BufTy).Contents (Elt F) → (⟨S100000x128, .f32⟩ : BufTy).Contents (Elt F)),
    StableHlo.unary main_v3 main_v181 (broadcastInDim S600000x1 ![0] bcast_S600000_S600000x1_0 : (⟨S600000, .i32⟩ : BufTy).Contents (Elt F) → (⟨S600000x1, .i32⟩ : BufTy).Contents (Elt F)),
    StableHlo.ternary main_v180 main_v181 main_v179 main_v182 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_29 (constant S_ .f32 0x3F800000#32),
    StableHlo.unary main_cst_29 main_v183 (broadcastInDim S600000x1 ![] bcast_S_S600000x1 : (⟨S_, .f32⟩ : BufTy).Contents (Elt F) → (⟨S600000x1, .f32⟩ : BufTy).Contents (Elt F)),
    StableHlo.nullary main_cst_30 (constant S_ .f32 0x00000000#32),
    StableHlo.unary main_cst_30 main_v184 (broadcastInDim S100000x1 ![] bcast_S_S100000x1 : (⟨S_, .f32⟩ : BufTy).Contents (Elt F) → (⟨S100000x1, .f32⟩ : BufTy).Contents (Elt F)),
    StableHlo.unary main_v3 main_v185 (broadcastInDim S600000x1 ![0] bcast_S600000_S600000x1_0 : (⟨S600000, .i32⟩ : BufTy).Contents (Elt F) → (⟨S600000x1, .i32⟩ : BufTy).Contents (Elt F)),
    StableHlo.ternary main_v184 main_v185 main_v183 main_v186 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    StableHlo.nullary main_cst_31 (constant S_ .f32 0x3F800000#32),
    StableHlo.unary main_cst_31 main_v187 (broadcastInDim S100000x1 ![] bcast_S_S100000x1 : (⟨S_, .f32⟩ : BufTy).Contents (Elt F) → (⟨S100000x1, .f32⟩ : BufTy).Contents (Elt F)),
    StableHlo.binary main_v186 main_v187 main_v188 (maximumf : (⟨S100000x1, .f32⟩ : BufTy).Contents (Elt F) → (⟨S100000x1, .f32⟩ : BufTy).Contents (Elt F) → (⟨S100000x1, .f32⟩ : BufTy).Contents (Elt F)),
    StableHlo.unary main_v188 main_v189 (broadcastInDim S100000x128 ![0, 1] bcast_S100000x1_S100000x128_0_1 : (⟨S100000x1, .f32⟩ : BufTy).Contents (Elt F) → (⟨S100000x128, .f32⟩ : BufTy).Contents (Elt F)),
    StableHlo.binary main_v182 main_v189 main_v190 (Host.divf : (⟨S100000x128, .f32⟩ : BufTy).Contents (Elt F) → (⟨S100000x128, .f32⟩ : BufTy).Contents (Elt F) → (⟨S100000x128, .f32⟩ : BufTy).Contents (Elt F)),
    StableHlo.unary main_arg13 main_v191 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v191 main_v192 rfl shapeCasts_S1x128x128_S128x128,
    StableHlo.binary main_v149 main_v192 main_v193 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v194 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v194 main_v195 rfl shapeCasts_S1x128x128_S128x128,
    StableHlo.binary main_v190 main_v195 main_v196 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v193 main_v196 main_v197 (addf : (⟨S100000x128, .f32⟩ : BufTy).Contents (Elt F) → (⟨S100000x128, .f32⟩ : BufTy).Contents (Elt F) → (⟨S100000x128, .f32⟩ : BufTy).Contents (Elt F)),
    StableHlo.unary main_arg15 main_v198 ((extractStridedSlice S1x128 ![0, 0] · slices_S2x128_S1x128_0_0) : (⟨S2x128, .f32⟩ : BufTy).Contents (Elt F) → (⟨S1x128, .f32⟩ : BufTy).Contents (Elt F)),
    StableHlo.reshape main_v198 main_v199 rfl shapeCasts_S1x128_S128,
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v197 main_v201 main_v202 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S100000x128, .f32⟩) (broadcastInDim S100000x128 ![] bcast_S_S100000x128),
    StableHlo.TRef.binary (.of main_v202 : StableHlo.TRef sig ⟨S100000x128, .f32⟩) (.of main_call11_v0 : StableHlo.TRef sig ⟨S100000x128, .f32⟩) (.of main_v203 : StableHlo.TRef sig ⟨S100000x128, .f32⟩) maximumf ]

def R11 : List (HloOp τ sig (Elt F)) :=
  [ StableHlo.nullary main_c_32 (constantI S_ 32 0#32),
    StableHlo.unary main_c_32 main_v204 (broadcastInDim S600000 ![] bcast_S_S600000 : (⟨S_, .i32⟩ : BufTy).Contents (Elt F) → (⟨S600000, .i32⟩ : BufTy).Contents (Elt F)),
    StableHlo.binary main_v1 main_v204 main_v205 (cmpi .slt : (⟨S600000, .i32⟩ : BufTy).Contents (Elt F) → (⟨S600000, .i32⟩ : BufTy).Contents (Elt F) → (⟨S600000, .i1⟩ : BufTy).Contents (Elt F)),
    StableHlo.nullary main_c_33 (constantI S_ 32 100000#32),
    StableHlo.unary main_c_33 main_v206 (broadcastInDim S600000 ![] bcast_S_S600000 : (⟨S_, .i32⟩ : BufTy).Contents (Elt F) → (⟨S600000, .i32⟩ : BufTy).Contents (Elt F)),
    StableHlo.binary main_v1 main_v206 main_v207 (addi : (⟨S600000, .i32⟩ : BufTy).Contents (Elt F) → (⟨S600000, .i32⟩ : BufTy).Contents (Elt F) → (⟨S600000, .i32⟩ : BufTy).Contents (Elt F)),
    StableHlo.ternary main_v205 main_v207 main_v1 main_v208 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v208 main_v209 (broadcastInDim S600000x1 ![0] bcast_S600000_S600000x1_0 : (⟨S600000, .i32⟩ : BufTy).Contents (Elt F) → (⟨S600000x1, .i32⟩ : BufTy).Contents (Elt F)),
    StableHlo.binary main_v203 main_v209 main_v210 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_34 (constant S_ .f32 0x00000000#32),
    StableHlo.unary main_cst_34 main_v211 (broadcastInDim S100000x128 ![] bcast_S_S100000x128 : (⟨S_, .f32⟩ : BufTy).Contents (Elt F) → (⟨S100000x128, .f32⟩ : BufTy).Contents (Elt F)),
    StableHlo.unary main_v3 main_v212 (broadcastInDim S600000x1 ![0] bcast_S600000_S600000x1_0 : (⟨S600000, .i32⟩ : BufTy).Contents (Elt F) → (⟨S600000x1, .i32⟩ : BufTy).Contents (Elt F)),
    StableHlo.ternary main_v211 main_v212 main_v210 main_v213 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_35 (constant S_ .f32 0x3F800000#32),
    StableHlo.unary main_cst_35 main_v214 (broadcastInDim S600000x1 ![] bcast_S_S600000x1 : (⟨S_, .f32⟩ : BufTy).Contents (Elt F) → (⟨S600000x1, .f32⟩ : BufTy).Contents (Elt F)),
    StableHlo.nullary main_cst_36 (constant S_ .f32 0x00000000#32),
    StableHlo.unary main_cst_36 main_v215 (broadcastInDim S100000x1 ![] bcast_S_S100000x1 : (⟨S_, .f32⟩ : BufTy).Contents (Elt F) → (⟨S100000x1, .f32⟩ : BufTy).Contents (Elt F)),
    StableHlo.unary main_v3 main_v216 (broadcastInDim S600000x1 ![0] bcast_S600000_S600000x1_0 : (⟨S600000, .i32⟩ : BufTy).Contents (Elt F) → (⟨S600000x1, .i32⟩ : BufTy).Contents (Elt F)),
    StableHlo.ternary main_v215 main_v216 main_v214 main_v217 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    StableHlo.nullary main_cst_37 (constant S_ .f32 0x3F800000#32),
    StableHlo.unary main_cst_37 main_v218 (broadcastInDim S100000x1 ![] bcast_S_S100000x1 : (⟨S_, .f32⟩ : BufTy).Contents (Elt F) → (⟨S100000x1, .f32⟩ : BufTy).Contents (Elt F)),
    StableHlo.binary main_v217 main_v218 main_v219 (maximumf : (⟨S100000x1, .f32⟩ : BufTy).Contents (Elt F) → (⟨S100000x1, .f32⟩ : BufTy).Contents (Elt F) → (⟨S100000x1, .f32⟩ : BufTy).Contents (Elt F)),
    StableHlo.unary main_v219 main_v220 (broadcastInDim S100000x128 ![0, 1] bcast_S100000x1_S100000x128_0_1 : (⟨S100000x1, .f32⟩ : BufTy).Contents (Elt F) → (⟨S100000x128, .f32⟩ : BufTy).Contents (Elt F)),
    StableHlo.binary main_v213 main_v220 main_v221 (Host.divf : (⟨S100000x128, .f32⟩ : BufTy).Contents (Elt F) → (⟨S100000x128, .f32⟩ : BufTy).Contents (Elt F) → (⟨S100000x128, .f32⟩ : BufTy).Contents (Elt F)),
    StableHlo.unary main_arg13 main_v222 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v222 main_v223 rfl shapeCasts_S1x128x128_S128x128,
    StableHlo.binary main_v203 main_v223 main_v224 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v225 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v225 main_v226 rfl shapeCasts_S1x128x128_S128x128,
    StableHlo.binary main_v221 main_v226 main_v227 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v224 main_v227 main_v228 (addf : (⟨S100000x128, .f32⟩ : BufTy).Contents (Elt F) → (⟨S100000x128, .f32⟩ : BufTy).Contents (Elt F) → (⟨S100000x128, .f32⟩ : BufTy).Contents (Elt F)),
    StableHlo.unary main_arg15 main_v229 ((extractStridedSlice S1x128 ![1, 0] · slices_S2x128_S1x128_1_0) : (⟨S2x128, .f32⟩ : BufTy).Contents (Elt F) → (⟨S1x128, .f32⟩ : BufTy).Contents (Elt F)),
    StableHlo.reshape main_v229 main_v230 rfl shapeCasts_S1x128_S128,
    StableHlo.unary main_v230 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S100000x128 ![0, 1] bcast_S1x128_S100000x128_0_1 : (⟨S1x128, .f32⟩ : BufTy).Contents (Elt F) → (⟨S100000x128, .f32⟩ : BufTy).Contents (Elt F)),
    StableHlo.binary main_v228 main_v232 main_v233 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S100000x128, .f32⟩) (broadcastInDim S100000x128 ![] bcast_S_S100000x128),
    StableHlo.TRef.binary (.of main_v233 : StableHlo.TRef sig ⟨S100000x128, .f32⟩) (.of main_call12_v0 : StableHlo.TRef sig ⟨S100000x128, .f32⟩) (.of main_v234 : StableHlo.TRef sig ⟨S100000x128, .f32⟩) maximumf ]

def R12 : List (HloOp τ sig (Elt F)) :=
  [ StableHlo.unary main_arg16 main_v235 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v235 main_v236 rfl shapeCasts_S1x128x128_S128x128,
    StableHlo.binary main_v165 main_v236 main_v237 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.unary main_arg17 main_v238 ((extractStridedSlice S1x128 ![0, 0] · slices_S2x128_S1x128_0_0) : (⟨S2x128, .f32⟩ : BufTy).Contents (Elt F) → (⟨S1x128, .f32⟩ : BufTy).Contents (Elt F)),
    StableHlo.reshape main_v238 main_v239 rfl shapeCasts_S1x128_S128,
    StableHlo.unary main_v239 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S2000x128 ![0, 1] bcast_S1x128_S2000x128_0_1 : (⟨S1x128, .f32⟩ : BufTy).Contents (Elt F) → (⟨S2000x128, .f32⟩ : BufTy).Contents (Elt F)),
    StableHlo.binary main_v237 main_v241 main_v242 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S2000x128, .f32⟩) (broadcastInDim S2000x128 ![] bcast_S_S2000x128),
    StableHlo.TRef.binary (.of main_v242 : StableHlo.TRef sig ⟨S2000x128, .f32⟩) (.of main_call13_v0 : StableHlo.TRef sig ⟨S2000x128, .f32⟩) (.of main_v243 : StableHlo.TRef sig ⟨S2000x128, .f32⟩) maximumf ]

def R13 : List (HloOp τ sig (Elt F)) :=
  [ StableHlo.unary main_arg16 main_v244 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v244 main_v245 rfl shapeCasts_S1x128x128_S128x128,
    StableHlo.binary main_v243 main_v245 main_v246 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.unary main_arg17 main_v247 ((extractStridedSlice S1x128 ![1, 0] · slices_S2x128_S1x128_1_0) : (⟨S2x128, .f32⟩ : BufTy).Contents (Elt F) → (⟨S1x128, .f32⟩ : BufTy).Contents (Elt F)),
    StableHlo.reshape main_v247 main_v248 rfl shapeCasts_S1x128_S128,
    StableHlo.unary main_v248 main_v249 (broadcastInDim S1x128 ![1] bcast_S128_S1x128_1 : (⟨S128, .f32⟩ : BufTy).Contents (Elt F) → (⟨S1x128, .f32⟩ : BufTy).Contents (Elt F)),
    StableHlo.unary main_v249 main_v250 (broadcastInDim S2000x128 ![0, 1] bcast_S1x128_S2000x128_0_1 : (⟨S1x128, .f32⟩ : BufTy).Contents (Elt F) → (⟨S2000x128, .f32⟩ : BufTy).Contents (Elt F)),
    StableHlo.binary main_v246 main_v250 main_v251 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v0 : StableHlo.TRef sig ⟨S2000x128, .f32⟩) (broadcastInDim S2000x128 ![] bcast_S_S2000x128),
    StableHlo.TRef.binary (.of main_v251 : StableHlo.TRef sig ⟨S2000x128, .f32⟩) (.of main_call14_v0 : StableHlo.TRef sig ⟨S2000x128, .f32⟩) (.of main_v252 : StableHlo.TRef sig ⟨S2000x128, .f32⟩) maximumf ]

def R14 : List (HloOp τ sig (Elt F)) :=
  [ StableHlo.unary main_arg18 main_v253 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v253 main_v254 rfl shapeCasts_S1x128x128_S128x128,
    StableHlo.binary main_v172 main_v254 main_v255 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.unary main_arg19 main_v256 ((extractStridedSlice S1x128 ![0, 0] · slices_S2x128_S1x128_0_0) : (⟨S2x128, .f32⟩ : BufTy).Contents (Elt F) → (⟨S1x128, .f32⟩ : BufTy).Contents (Elt F)),
    StableHlo.reshape main_v256 main_v257 rfl shapeCasts_S1x128_S128,
    StableHlo.unary main_v257 main_v258 (broadcastInDim S1x128 ![1] bcast_S128_S1x128_1 : (⟨S128, .f32⟩ : BufTy).Contents (Elt F) → (⟨S1x128, .f32⟩ : BufTy).Contents (Elt F)),
    StableHlo.unary main_v258 main_v259 (broadcastInDim S50x128 ![0, 1] bcast_S1x128_S50x128_0_1 : (⟨S1x128, .f32⟩ : BufTy).Contents (Elt F) → (⟨S50x128, .f32⟩ : BufTy).Contents (Elt F)),
    StableHlo.binary main_v255 main_v259 main_v260 (addf : (⟨S50x128, .f32⟩ : BufTy).Contents (Elt F) → (⟨S50x128, .f32⟩ : BufTy).Contents (Elt F) → (⟨S50x128, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S50x128, .f32⟩) (broadcastInDim S50x128 ![] bcast_S_S50x128),
    StableHlo.TRef.binary (.of main_v260 : StableHlo.TRef sig ⟨S50x128, .f32⟩) (.of main_call15_v0 : StableHlo.TRef sig ⟨S50x128, .f32⟩) (.of main_v261 : StableHlo.TRef sig ⟨S50x128, .f32⟩) maximumf ]

def R15 : List (HloOp τ sig (Elt F)) :=
  [ StableHlo.unary main_arg18 main_v262 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v262 main_v263 rfl shapeCasts_S1x128x128_S128x128,
    StableHlo.binary main_v261 main_v263 main_v264 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.unary main_arg19 main_v265 ((extractStridedSlice S1x128 ![1, 0] · slices_S2x128_S1x128_1_0) : (⟨S2x128, .f32⟩ : BufTy).Contents (Elt F) → (⟨S1x128, .f32⟩ : BufTy).Contents (Elt F)),
    StableHlo.reshape main_v265 main_v266 rfl shapeCasts_S1x128_S128,
    StableHlo.unary main_v266 main_v267 (broadcastInDim S1x128 ![1] bcast_S128_S1x128_1 : (⟨S128, .f32⟩ : BufTy).Contents (Elt F) → (⟨S1x128, .f32⟩ : BufTy).Contents (Elt F)),
    StableHlo.unary main_v267 main_v268 (broadcastInDim S50x128 ![0, 1] bcast_S1x128_S50x128_0_1 : (⟨S1x128, .f32⟩ : BufTy).Contents (Elt F) → (⟨S50x128, .f32⟩ : BufTy).Contents (Elt F)),
    StableHlo.binary main_v264 main_v268 main_v269 (addf : (⟨S50x128, .f32⟩ : BufTy).Contents (Elt F) → (⟨S50x128, .f32⟩ : BufTy).Contents (Elt F) → (⟨S50x128, .f32⟩ : BufTy).Contents (Elt F)),
    StableHlo.TRef.nullary (.of main_call16_cst : StableHlo.TRef sig ⟨S_, .f32⟩) (constant S_ .f32 0x00000000#32),
    StableHlo.TRef.unary (.of main_call16_cst : StableHlo.TRef sig ⟨S_, .f32⟩) (.of main_call16_v0 : StableHlo.TRef sig ⟨S50x128, .f32⟩) (broadcastInDim S50x128 ![] bcast_S_S50x128),
    StableHlo.TRef.binary (.of main_v269 : StableHlo.TRef sig ⟨S50x128, .f32⟩) (.of main_call16_v0 : StableHlo.TRef sig ⟨S50x128, .f32⟩) (.of main_v270 : StableHlo.TRef sig ⟨S50x128, .f32⟩) maximumf ]

def R16 : List (HloOp τ sig (Elt F)) :=
  [ StableHlo.nullary main_cst_38 (constant S_ .f32 0x00000000#32),
    StableHlo.unary main_cst_38 main_v271 (broadcastInDim S2000x128 ![] bcast_S_S2000x128 : (⟨S_, .f32⟩ : BufTy).Contents (Elt F) → (⟨S2000x128, .f32⟩ : BufTy).Contents (Elt F)),
    StableHlo.unary main_v6 main_v272 (broadcastInDim S100000x1 ![0] bcast_S100000_S100000x1_0 : (⟨S100000, .i32⟩ : BufTy).Contents (Elt F) → (⟨S100000x1, .i32⟩ : BufTy).Contents (Elt F)),
    StableHlo.ternary main_v271 main_v272 main_v234 main_v273 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.nullary main_cst_39 (constant S_ .f32 0x3F800000#32),
    StableHlo.unary main_cst_39 main_v274 (broadcastInDim S100000x1 ![] bcast_S_S100000x1 : (⟨S_, .f32⟩ : BufTy).Contents (Elt F) → (⟨S100000x1, .f32⟩ : BufTy).Contents (Elt F)),
    StableHlo.nullary main_cst_40 (constant S_ .f32 0x00000000#32),
    StableHlo.unary main_cst_40 main_v275 (broadcastInDim S2000x1 ![] bcast_S_S2000x1 : (⟨S_, .f32⟩ : BufTy).Contents (Elt F) → (⟨S2000x1, .f32⟩ : BufTy).Contents (Elt F)),
    StableHlo.unary main_v6 main_v276 (broadcastInDim S100000x1 ![0] bcast_S100000_S100000x1_0 : (⟨S100000, .i32⟩ : BufTy).Contents (Elt F) → (⟨S100000x1, .i32⟩ : BufTy).Contents (Elt F)),
    StableHlo.ternary main_v275 main_v276 main_v274 main_v277 ((fun x i u => Host.scatterAdd scatter_S2000x1_S100000x1_S100000x1_1_0_0_1 x i u) : (⟨S2000x1, .f32⟩ : BufTy).Contents (Elt F) → (⟨S100000x1, .i32⟩ : BufTy).Contents (Elt F) → (⟨S100000x1, .f32⟩ : BufTy).Contents (Elt F) → (⟨S2000x1, .f32⟩ : BufTy).Contents (Elt F)),
    StableHlo.nullary main_cst_41 (constant S_ .f32 0x3F800000#32),
    StableHlo.unary main_cst_41 main_v278 (broadcastInDim S2000x1 ![] bcast_S_S2000x1 : (⟨S_, .f32⟩ : BufTy).Contents (Elt F) → (⟨S2000x1, .f32⟩ : BufTy).Contents (Elt F)),
    StableHlo.binary main_v277 main_v278 main_v279 (maximumf : (⟨S2000x1, .f32⟩ : BufTy).Contents (Elt F) → (⟨S2000x1, .f32⟩ : BufTy).Contents (Elt F) → (⟨S2000x1, .f32⟩ : BufTy).Contents (Elt F)),
    StableHlo.unary main_v279 main_v280 (broadcastInDim S2000x128 ![0, 1] bcast_S2000x1_S2000x128_0_1 : (⟨S2000x1, .f32⟩ : BufTy).Contents (Elt F) → (⟨S2000x128, .f32⟩ : BufTy).Contents (Elt F)),
    StableHlo.binary main_v273 main_v280 main_v281 (Host.divf : (⟨S2000x128, .f32⟩ : BufTy).Contents (Elt F) → (⟨S2000x128, .f32⟩ : BufTy).Contents (Elt F) → (⟨S2000x128, .f32⟩ : BufTy).Contents (Elt F)),
    StableHlo.nullary main_cst_42 (constant S_ .f32 0x00000000#32),
    StableHlo.unary main_cst_42 main_v282 (broadcastInDim S50x128 ![] bcast_S_S50x128 : (⟨S_, .f32⟩ : BufTy).Contents (Elt F) → (⟨S50x128, .f32⟩ : BufTy).Contents (Elt F)),
    StableHlo.unary main_v8 main_v283 (broadcastInDim S2000x1 ![0] bcast_S2000_S2000x1_0 : (⟨S2000, .i32⟩ : BufTy).Contents (Elt F) → (⟨S2000x1, .i32⟩ : BufTy).Contents (Elt F)),
    StableHlo.ternary main_v282 main_v283 main_v252 main_v284 ((fun x i u => Host.scatterAdd scatter_S50x128_S2000x1_S2000x128_1_0_0_1 x i u) : (⟨S50x128, .f32⟩ : BufTy).Contents (Elt F) → (⟨S2000x1, .i32⟩ : BufTy).Contents (Elt F) → (⟨S2000x128, .f32⟩ : BufTy).Contents (Elt F) → (⟨S50x128, .f32⟩ : BufTy).Contents (Elt F)),
    StableHlo.nullary main_cst_43 (constant S_ .f32 0x3F800000#32),
    StableHlo.unary main_cst_43 main_v285 (broadcastInDim S2000x1 ![] bcast_S_S2000x1 : (⟨S_, .f32⟩ : BufTy).Contents (Elt F) → (⟨S2000x1, .f32⟩ : BufTy).Contents (Elt F)),
    StableHlo.nullary main_cst_44 (constant S_ .f32 0x00000000#32),
    StableHlo.unary main_cst_44 main_v286 (broadcastInDim S50x1 ![] bcast_S_S50x1 : (⟨S_, .f32⟩ : BufTy).Contents (Elt F) → (⟨S50x1, .f32⟩ : BufTy).Contents (Elt F)),
    StableHlo.unary main_v8 main_v287 (broadcastInDim S2000x1 ![0] bcast_S2000_S2000x1_0 : (⟨S2000, .i32⟩ : BufTy).Contents (Elt F) → (⟨S2000x1, .i32⟩ : BufTy).Contents (Elt F)),
    StableHlo.ternary main_v286 main_v287 main_v285 main_v288 ((fun x i u => Host.scatterAdd scatter_S50x1_S2000x1_S2000x1_1_0_0_1 x i u) : (⟨S50x1, .f32⟩ : BufTy).Contents (Elt F) → (⟨S2000x1, .i32⟩ : BufTy).Contents (Elt F) → (⟨S2000x1, .f32⟩ : BufTy).Contents (Elt F) → (⟨S50x1, .f32⟩ : BufTy).Contents (Elt F)),
    StableHlo.nullary main_cst_45 (constant S_ .f32 0x3F800000#32),
    StableHlo.unary main_cst_45 main_v289 (broadcastInDim S50x1 ![] bcast_S_S50x1 : (⟨S_, .f32⟩ : BufTy).Contents (Elt F) → (⟨S50x1, .f32⟩ : BufTy).Contents (Elt F)),
    StableHlo.binary main_v288 main_v289 main_v290 (maximumf : (⟨S50x1, .f32⟩ : BufTy).Contents (Elt F) → (⟨S50x1, .f32⟩ : BufTy).Contents (Elt F) → (⟨S50x1, .f32⟩ : BufTy).Contents (Elt F)),
    StableHlo.unary main_v290 main_v291 (broadcastInDim S50x128 ![0, 1] bcast_S50x1_S50x128_0_1 : (⟨S50x1, .f32⟩ : BufTy).Contents (Elt F) → (⟨S50x128, .f32⟩ : BufTy).Contents (Elt F)),
    StableHlo.binary main_v284 main_v291 main_v292 (Host.divf : (⟨S50x128, .f32⟩ : BufTy).Contents (Elt F) → (⟨S50x128, .f32⟩ : BufTy).Contents (Elt F) → (⟨S50x128, .f32⟩ : BufTy).Contents (Elt F)),
    StableHlo.binary main_v234 main_arg20 main_v293 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_46 (constantI S_ 32 0#32),
    StableHlo.unary main_c_46 main_v294 (broadcastInDim S100000 ![] bcast_S_S100000 : (⟨S_, .i32⟩ : BufTy).Contents (Elt F) → (⟨S100000, .i32⟩ : BufTy).Contents (Elt F)),
    StableHlo.binary main_v6 main_v294 main_v295 (cmpi .slt : (⟨S100000, .i32⟩ : BufTy).Contents (Elt F) → (⟨S100000, .i32⟩ : BufTy).Contents (Elt F) → (⟨S100000, .i1⟩ : BufTy).Contents (Elt F)),
    StableHlo.nullary main_c_47 (constantI S_ 32 2000#32),
    StableHlo.unary main_c_47 main_v296 (broadcastInDim S100000 ![] bcast_S_S100000 : (⟨S_, .i32⟩ : BufTy).Contents (Elt F) → (⟨S100000, .i32⟩ : BufTy).Contents (Elt F)),
    StableHlo.binary main_v6 main_v296 main_v297 (addi : (⟨S100000, .i32⟩ : BufTy).Contents (Elt F) → (⟨S100000, .i32⟩ : BufTy).Contents (Elt F) → (⟨S100000, .i32⟩ : BufTy).Contents (Elt F)),
    StableHlo.ternary main_v295 main_v297 main_v6 main_v298 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v298 main_v299 (broadcastInDim S100000x1 ![0] bcast_S100000_S100000x1_0 : (⟨S100000, .i32⟩ : BufTy).Contents (Elt F) → (⟨S100000x1, .i32⟩ : BufTy).Contents (Elt F)),
    StableHlo.binary main_v252 main_v299 main_v300 ((fun x i => Host.gather gather_S2000x128_S100000x1_S100000x128_1_0_n_n_0_1_1128 x i) : (⟨S2000x128, .f32⟩ : BufTy).Contents (Elt F) → (⟨S100000x1, .i32⟩ : BufTy).Contents (Elt F) → (⟨S100000x128, .f32⟩ : BufTy).Contents (Elt F)),
    StableHlo.binary main_v300 main_arg25 main_v301 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v293 main_v301 main_v302 (addf : (⟨S100000x128, .f32⟩ : BufTy).Contents (Elt F) → (⟨S100000x128, .f32⟩ : BufTy).Contents (Elt F) → (⟨S100000x128, .f32⟩ : BufTy).Contents (Elt F)),
    StableHlo.unary main_arg27 main_v303 (broadcastInDim S1x128 ![1] bcast_S128_S1x128_1 : (⟨S128, .f32⟩ : BufTy).Contents (Elt F) → (⟨S1x128, .f32⟩ : BufTy).Contents (Elt F)),
    StableHlo.unary main_v303 main_v304 (broadcastInDim S100000x128 ![0, 1] bcast_S1x128_S100000x128_0_1 : (⟨S1x128, .f32⟩ : BufTy).Contents (Elt F) → (⟨S100000x128, .f32⟩ : BufTy).Contents (Elt F)),
    StableHlo.binary main_v302 main_v304 main_v305 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S100000x128, .f32⟩) (broadcastInDim S100000x128 ![] bcast_S_S100000x128),
    StableHlo.TRef.binary (.of main_v305 : StableHlo.TRef sig ⟨S100000x128, .f32⟩) (.of main_call17_v0 : StableHlo.TRef sig ⟨S100000x128, .f32⟩) (.of main_v306 : StableHlo.TRef sig ⟨S100000x128, .f32⟩) maximumf ]

def R17 : List (HloOp τ sig (Elt F)) :=
  [ StableHlo.binary main_v252 main_arg21 main_v307 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.binary main_v281 main_arg23 main_v308 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.binary main_v307 main_v308 main_v309 (addf : (⟨S2000x128, .f32⟩ : BufTy).Contents (Elt F) → (⟨S2000x128, .f32⟩ : BufTy).Contents (Elt F) → (⟨S2000x128, .f32⟩ : BufTy).Contents (Elt F)),
    StableHlo.nullary main_c_48 (constantI S_ 32 0#32),
    StableHlo.unary main_c_48 main_v310 (broadcastInDim S2000 ![] bcast_S_S2000 : (⟨S_, .i32⟩ : BufTy).Contents (Elt F) → (⟨S2000, .i32⟩ : BufTy).Contents (Elt F)),
    StableHlo.binary main_v8 main_v310 main_v311 (cmpi .slt : (⟨S2000, .i32⟩ : BufTy).Contents (Elt F) → (⟨S2000, .i32⟩ : BufTy).Contents (Elt F) → (⟨S2000, .i1⟩ : BufTy).Contents (Elt F)),
    StableHlo.nullary main_c_49 (constantI S_ 32 50#32),
    StableHlo.unary main_c_49 main_v312 (broadcastInDim S2000 ![] bcast_S_S2000 : (⟨S_, .i32⟩ : BufTy).Contents (Elt F) → (⟨S2000, .i32⟩ : BufTy).Contents (Elt F)),
    StableHlo.binary main_v8 main_v312 main_v313 (addi : (⟨S2000, .i32⟩ : BufTy).Contents (Elt F) → (⟨S2000, .i32⟩ : BufTy).Contents (Elt F) → (⟨S2000, .i32⟩ : BufTy).Contents (Elt F)),
    StableHlo.ternary main_v311 main_v313 main_v8 main_v314 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v314 main_v315 (broadcastInDim S2000x1 ![0] bcast_S2000_S2000x1_0 : (⟨S2000, .i32⟩ : BufTy).Contents (Elt F) → (⟨S2000x1, .i32⟩ : BufTy).Contents (Elt F)),
    StableHlo.binary main_v270 main_v315 main_v316 ((fun x i => Host.gather gather_S50x128_S2000x1_S2000x128_1_0_n_n_0_1_1128 x i) : (⟨S50x128, .f32⟩ : BufTy).Contents (Elt F) → (⟨S2000x1, .i32⟩ : BufTy).Contents (Elt F) → (⟨S2000x128, .f32⟩ : BufTy).Contents (Elt F)),
    StableHlo.binary main_v316 main_arg26 main_v317 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.binary main_v309 main_v317 main_v318 (addf : (⟨S2000x128, .f32⟩ : BufTy).Contents (Elt F) → (⟨S2000x128, .f32⟩ : BufTy).Contents (Elt F) → (⟨S2000x128, .f32⟩ : BufTy).Contents (Elt F)),
    StableHlo.unary main_arg28 main_v319 (broadcastInDim S1x128 ![1] bcast_S128_S1x128_1 : (⟨S128, .f32⟩ : BufTy).Contents (Elt F) → (⟨S1x128, .f32⟩ : BufTy).Contents (Elt F)),
    StableHlo.unary main_v319 main_v320 (broadcastInDim S2000x128 ![0, 1] bcast_S1x128_S2000x128_0_1 : (⟨S1x128, .f32⟩ : BufTy).Contents (Elt F) → (⟨S2000x128, .f32⟩ : BufTy).Contents (Elt F)),
    StableHlo.binary main_v318 main_v320 main_v321 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call18_cst : StableHlo.TRef sig ⟨S_, .f32⟩) (constant S_ .f32 0x00000000#32),
    StableHlo.TRef.unary (.of main_call18_cst : StableHlo.TRef sig ⟨S_, .f32⟩) (.of main_call18_v0 : StableHlo.TRef sig ⟨S2000x128, .f32⟩) (broadcastInDim S2000x128 ![] bcast_S_S2000x128),
    StableHlo.TRef.binary (.of main_v321 : StableHlo.TRef sig ⟨S2000x128, .f32⟩) (.of main_call18_v0 : StableHlo.TRef sig ⟨S2000x128, .f32⟩) (.of main_v322 : StableHlo.TRef sig ⟨S2000x128, .f32⟩) maximumf ]

def R18 : List (HloOp τ sig (Elt F)) :=
  [ StableHlo.binary main_v270 main_arg22 main_v323 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.binary main_v292 main_arg24 main_v324 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.binary main_v323 main_v324 main_v325 (addf : (⟨S50x128, .f32⟩ : BufTy).Contents (Elt F) → (⟨S50x128, .f32⟩ : BufTy).Contents (Elt F) → (⟨S50x128, .f32⟩ : BufTy).Contents (Elt F)),
    StableHlo.unary main_arg29 main_v326 (broadcastInDim S1x128 ![1] bcast_S128_S1x128_1 : (⟨S128, .f32⟩ : BufTy).Contents (Elt F) → (⟨S1x128, .f32⟩ : BufTy).Contents (Elt F)),
    StableHlo.unary main_v326 main_v327 (broadcastInDim S50x128 ![0, 1] bcast_S1x128_S50x128_0_1 : (⟨S1x128, .f32⟩ : BufTy).Contents (Elt F) → (⟨S50x128, .f32⟩ : BufTy).Contents (Elt F)),
    StableHlo.binary main_v325 main_v327 main_v328 (addf : (⟨S50x128, .f32⟩ : BufTy).Contents (Elt F) → (⟨S50x128, .f32⟩ : BufTy).Contents (Elt F) → (⟨S50x128, .f32⟩ : BufTy).Contents (Elt F)),
    StableHlo.TRef.nullary (.of main_call19_cst : StableHlo.TRef sig ⟨S_, .f32⟩) (constant S_ .f32 0x00000000#32),
    StableHlo.TRef.unary (.of main_call19_cst : StableHlo.TRef sig ⟨S_, .f32⟩) (.of main_call19_v0 : StableHlo.TRef sig ⟨S50x128, .f32⟩) (broadcastInDim S50x128 ![] bcast_S_S50x128),
    StableHlo.TRef.binary (.of main_v328 : StableHlo.TRef sig ⟨S50x128, .f32⟩) (.of main_call19_v0 : StableHlo.TRef sig ⟨S50x128, .f32⟩) (.of main_v329 : StableHlo.TRef sig ⟨S50x128, .f32⟩) maximumf ]

def R19 : List (HloOp τ sig (Elt F)) :=
  [ StableHlo.nullary main_c_50 (constantI S_ 32 0#32),
    StableHlo.unary main_c_50 main_v330 (broadcastInDim S600000 ![] bcast_S_S600000 : (⟨S_, .i32⟩ : BufTy).Contents (Elt F) → (⟨S600000, .i32⟩ : BufTy).Contents (Elt F)),
    StableHlo.binary main_v1 main_v330 main_v331 (cmpi .slt : (⟨S600000, .i32⟩ : BufTy).Contents (Elt F) → (⟨S600000, .i32⟩ : BufTy).Contents (Elt F) → (⟨S600000, .i1⟩ : BufTy).Contents (Elt F)),
    StableHlo.nullary main_c_51 (constantI S_ 32 100000#32),
    StableHlo.unary main_c_51 main_v332 (broadcastInDim S600000 ![] bcast_S_S600000 : (⟨S_, .i32⟩ : BufTy).Contents (Elt F) → (⟨S600000, .i32⟩ : BufTy).Contents (Elt F)),
    StableHlo.binary main_v1 main_v332 main_v333 (addi : (⟨S600000, .i32⟩ : BufTy).Contents (Elt F) → (⟨S600000, .i32⟩ : BufTy).Contents (Elt F) → (⟨S600000, .i32⟩ : BufTy).Contents (Elt F)),
    StableHlo.ternary main_v331 main_v333 main_v1 main_v334 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v334 main_v335 (broadcastInDim S600000x1 ![0] bcast_S600000_S600000x1_0 : (⟨S600000, .i32⟩ : BufTy).Contents (Elt F) → (⟨S600000x1, .i32⟩ : BufTy).Contents (Elt F)),
    StableHlo.binary main_v306 main_v335 main_v336 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_52 (constant S_ .f32 0x00000000#32),
    StableHlo.unary main_cst_52 main_v337 (broadcastInDim S100000x128 ![] bcast_S_S100000x128 : (⟨S_, .f32⟩ : BufTy).Contents (Elt F) → (⟨S100000x128, .f32⟩ : BufTy).Contents (Elt F)),
    StableHlo.unary main_v3 main_v338 (broadcastInDim S600000x1 ![0] bcast_S600000_S600000x1_0 : (⟨S600000, .i32⟩ : BufTy).Contents (Elt F) → (⟨S600000x1, .i32⟩ : BufTy).Contents (Elt F)),
    StableHlo.ternary main_v337 main_v338 main_v336 main_v339 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_53 (constant S_ .f32 0x3F800000#32),
    StableHlo.unary main_cst_53 main_v340 (broadcastInDim S600000x1 ![] bcast_S_S600000x1 : (⟨S_, .f32⟩ : BufTy).Contents (Elt F) → (⟨S600000x1, .f32⟩ : BufTy).Contents (Elt F)),
    StableHlo.nullary main_cst_54 (constant S_ .f32 0x00000000#32),
    StableHlo.unary main_cst_54 main_v341 (broadcastInDim S100000x1 ![] bcast_S_S100000x1 : (⟨S_, .f32⟩ : BufTy).Contents (Elt F) → (⟨S100000x1, .f32⟩ : BufTy).Contents (Elt F)),
    StableHlo.unary main_v3 main_v342 (broadcastInDim S600000x1 ![0] bcast_S600000_S600000x1_0 : (⟨S600000, .i32⟩ : BufTy).Contents (Elt F) → (⟨S600000x1, .i32⟩ : BufTy).Contents (Elt F)),
    StableHlo.ternary main_v341 main_v342 main_v340 main_v343 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    StableHlo.nullary main_cst_55 (constant S_ .f32 0x3F800000#32),
    StableHlo.unary main_cst_55 main_v344 (broadcastInDim S100000x1 ![] bcast_S_S100000x1 : (⟨S_, .f32⟩ : BufTy).Contents (Elt F) → (⟨S100000x1, .f32⟩ : BufTy).Contents (Elt F)),
    StableHlo.binary main_v343 main_v344 main_v345 (maximumf : (⟨S100000x1, .f32⟩ : BufTy).Contents (Elt F) → (⟨S100000x1, .f32⟩ : BufTy).Contents (Elt F) → (⟨S100000x1, .f32⟩ : BufTy).Contents (Elt F)),
    StableHlo.unary main_v345 main_v346 (broadcastInDim S100000x128 ![0, 1] bcast_S100000x1_S100000x128_0_1 : (⟨S100000x1, .f32⟩ : BufTy).Contents (Elt F) → (⟨S100000x128, .f32⟩ : BufTy).Contents (Elt F)),
    StableHlo.binary main_v339 main_v346 main_v347 (Host.divf : (⟨S100000x128, .f32⟩ : BufTy).Contents (Elt F) → (⟨S100000x128, .f32⟩ : BufTy).Contents (Elt F) → (⟨S100000x128, .f32⟩ : BufTy).Contents (Elt F)),
    StableHlo.unary main_arg13 main_v348 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v348 main_v349 rfl shapeCasts_S1x128x128_S128x128,
    StableHlo.binary main_v306 main_v349 main_v350 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v351 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v351 main_v352 rfl shapeCasts_S1x128x128_S128x128,
    StableHlo.binary main_v347 main_v352 main_v353 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v350 main_v353 main_v354 (addf : (⟨S100000x128, .f32⟩ : BufTy).Contents (Elt F) → (⟨S100000x128, .f32⟩ : BufTy).Contents (Elt F) → (⟨S100000x128, .f32⟩ : BufTy).Contents (Elt F)),
    StableHlo.unary main_arg15 main_v355 ((extractStridedSlice S1x128 ![0, 0] · slices_S2x128_S1x128_0_0) : (⟨S2x128, .f32⟩ : BufTy).Contents (Elt F) → (⟨S1x128, .f32⟩ : BufTy).Contents (Elt F)),
    StableHlo.reshape main_v355 main_v356 rfl shapeCasts_S1x128_S128,
    StableHlo.unary main_v356 main_v357 (broadcastInDim S1x128 ![1] bcast_S128_S1x128_1 : (⟨S128, .f32⟩ : BufTy).Contents (Elt F) → (⟨S1x128, .f32⟩ : BufTy).Contents (Elt F)),
    StableHlo.unary main_v357 main_v358 (broadcastInDim S100000x128 ![0, 1] bcast_S1x128_S100000x128_0_1 : (⟨S1x128, .f32⟩ : BufTy).Contents (Elt F) → (⟨S100000x128, .f32⟩ : BufTy).Contents (Elt F)),
    StableHlo.binary main_v354 main_v358 main_v359 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call20_cst : StableHlo.TRef sig ⟨S_, .f32⟩) (constant S_ .f32 0x00000000#32),
    StableHlo.TRef.unary (.of main_call20_cst : StableHlo.TRef sig ⟨S_, .f32⟩) (.of main_call20_v0 : StableHlo.TRef sig ⟨S100000x128, .f32⟩) (broadcastInDim S100000x128 ![] bcast_S_S100000x128),
    StableHlo.TRef.binary (.of main_v359 : StableHlo.TRef sig ⟨S100000x128, .f32⟩) (.of main_call20_v0 : StableHlo.TRef sig ⟨S100000x128, .f32⟩) (.of main_v360 : StableHlo.TRef sig ⟨S100000x128, .f32⟩) maximumf ]

def R20 : List (HloOp τ sig (Elt F)) :=
  [ StableHlo.nullary main_c_56 (constantI S_ 32 0#32),
    StableHlo.unary main_c_56 main_v361 (broadcastInDim S600000 ![] bcast_S_S600000 : (⟨S_, .i32⟩ : BufTy).Contents (Elt F) → (⟨S600000, .i32⟩ : BufTy).Contents (Elt F)),
    StableHlo.binary main_v1 main_v361 main_v362 (cmpi .slt : (⟨S600000, .i32⟩ : BufTy).Contents (Elt F) → (⟨S600000, .i32⟩ : BufTy).Contents (Elt F) → (⟨S600000, .i1⟩ : BufTy).Contents (Elt F)),
    StableHlo.nullary main_c_57 (constantI S_ 32 100000#32),
    StableHlo.unary main_c_57 main_v363 (broadcastInDim S600000 ![] bcast_S_S600000 : (⟨S_, .i32⟩ : BufTy).Contents (Elt F) → (⟨S600000, .i32⟩ : BufTy).Contents (Elt F)),
    StableHlo.binary main_v1 main_v363 main_v364 (addi : (⟨S600000, .i32⟩ : BufTy).Contents (Elt F) → (⟨S600000, .i32⟩ : BufTy).Contents (Elt F) → (⟨S600000, .i32⟩ : BufTy).Contents (Elt F)),
    StableHlo.ternary main_v362 main_v364 main_v1 main_v365 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v365 main_v366 (broadcastInDim S600000x1 ![0] bcast_S600000_S600000x1_0 : (⟨S600000, .i32⟩ : BufTy).Contents (Elt F) → (⟨S600000x1, .i32⟩ : BufTy).Contents (Elt F)),
    StableHlo.binary main_v360 main_v366 main_v367 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_58 (constant S_ .f32 0x00000000#32),
    StableHlo.unary main_cst_58 main_v368 (broadcastInDim S100000x128 ![] bcast_S_S100000x128 : (⟨S_, .f32⟩ : BufTy).Contents (Elt F) → (⟨S100000x128, .f32⟩ : BufTy).Contents (Elt F)),
    StableHlo.unary main_v3 main_v369 (broadcastInDim S600000x1 ![0] bcast_S600000_S600000x1_0 : (⟨S600000, .i32⟩ : BufTy).Contents (Elt F) → (⟨S600000x1, .i32⟩ : BufTy).Contents (Elt F)),
    StableHlo.ternary main_v368 main_v369 main_v367 main_v370 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_59 (constant S_ .f32 0x3F800000#32),
    StableHlo.unary main_cst_59 main_v371 (broadcastInDim S600000x1 ![] bcast_S_S600000x1 : (⟨S_, .f32⟩ : BufTy).Contents (Elt F) → (⟨S600000x1, .f32⟩ : BufTy).Contents (Elt F)),
    StableHlo.nullary main_cst_60 (constant S_ .f32 0x00000000#32),
    StableHlo.unary main_cst_60 main_v372 (broadcastInDim S100000x1 ![] bcast_S_S100000x1 : (⟨S_, .f32⟩ : BufTy).Contents (Elt F) → (⟨S100000x1, .f32⟩ : BufTy).Contents (Elt F)),
    StableHlo.unary main_v3 main_v373 (broadcastInDim S600000x1 ![0] bcast_S600000_S600000x1_0 : (⟨S600000, .i32⟩ : BufTy).Contents (Elt F) → (⟨S600000x1, .i32⟩ : BufTy).Contents (Elt F)),
    StableHlo.ternary main_v372 main_v373 main_v371 main_v374 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    StableHlo.nullary main_cst_61 (constant S_ .f32 0x3F800000#32),
    StableHlo.unary main_cst_61 main_v375 (broadcastInDim S100000x1 ![] bcast_S_S100000x1 : (⟨S_, .f32⟩ : BufTy).Contents (Elt F) → (⟨S100000x1, .f32⟩ : BufTy).Contents (Elt F)),
    StableHlo.binary main_v374 main_v375 main_v376 (maximumf : (⟨S100000x1, .f32⟩ : BufTy).Contents (Elt F) → (⟨S100000x1, .f32⟩ : BufTy).Contents (Elt F) → (⟨S100000x1, .f32⟩ : BufTy).Contents (Elt F)),
    StableHlo.unary main_v376 main_v377 (broadcastInDim S100000x128 ![0, 1] bcast_S100000x1_S100000x128_0_1 : (⟨S100000x1, .f32⟩ : BufTy).Contents (Elt F) → (⟨S100000x128, .f32⟩ : BufTy).Contents (Elt F)),
    StableHlo.binary main_v370 main_v377 main_v378 (Host.divf : (⟨S100000x128, .f32⟩ : BufTy).Contents (Elt F) → (⟨S100000x128, .f32⟩ : BufTy).Contents (Elt F) → (⟨S100000x128, .f32⟩ : BufTy).Contents (Elt F)),
    StableHlo.unary main_arg13 main_v379 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v379 main_v380 rfl shapeCasts_S1x128x128_S128x128,
    StableHlo.binary main_v360 main_v380 main_v381 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v382 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v382 main_v383 rfl shapeCasts_S1x128x128_S128x128,
    StableHlo.binary main_v378 main_v383 main_v384 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v381 main_v384 main_v385 (addf : (⟨S100000x128, .f32⟩ : BufTy).Contents (Elt F) → (⟨S100000x128, .f32⟩ : BufTy).Contents (Elt F) → (⟨S100000x128, .f32⟩ : BufTy).Contents (Elt F)),
    StableHlo.unary main_arg15 main_v386 ((extractStridedSlice S1x128 ![1, 0] · slices_S2x128_S1x128_1_0) : (⟨S2x128, .f32⟩ : BufTy).Contents (Elt F) → (⟨S1x128, .f32⟩ : BufTy).Contents (Elt F)),
    StableHlo.reshape main_v386 main_v387 rfl shapeCasts_S1x128_S128,
    StableHlo.unary main_v387 main_v388 (broadcastInDim S1x128 ![1] bcast_S128_S1x128_1 : (⟨S128, .f32⟩ : BufTy).Contents (Elt F) → (⟨S1x128, .f32⟩ : BufTy).Contents (Elt F)),
    StableHlo.unary main_v388 main_v389 (broadcastInDim S100000x128 ![0, 1] bcast_S1x128_S100000x128_0_1 : (⟨S1x128, .f32⟩ : BufTy).Contents (Elt F) → (⟨S100000x128, .f32⟩ : BufTy).Contents (Elt F)),
    StableHlo.binary main_v385 main_v389 main_v390 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call21_cst : StableHlo.TRef sig ⟨S_, .f32⟩) (constant S_ .f32 0x00000000#32),
    StableHlo.TRef.unary (.of main_call21_cst : StableHlo.TRef sig ⟨S_, .f32⟩) (.of main_call21_v0 : StableHlo.TRef sig ⟨S100000x128, .f32⟩) (broadcastInDim S100000x128 ![] bcast_S_S100000x128),
    StableHlo.TRef.binary (.of main_v390 : StableHlo.TRef sig ⟨S100000x128, .f32⟩) (.of main_call21_v0 : StableHlo.TRef sig ⟨S100000x128, .f32⟩) (.of main_v391 : StableHlo.TRef sig ⟨S100000x128, .f32⟩) maximumf ]

def R21 : List (HloOp τ sig (Elt F)) :=
  [ StableHlo.unary main_arg16 main_v392 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v392 main_v393 rfl shapeCasts_S1x128x128_S128x128,
    StableHlo.binary main_v322 main_v393 main_v394 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.unary main_arg17 main_v395 ((extractStridedSlice S1x128 ![0, 0] · slices_S2x128_S1x128_0_0) : (⟨S2x128, .f32⟩ : BufTy).Contents (Elt F) → (⟨S1x128, .f32⟩ : BufTy).Contents (Elt F)),
    StableHlo.reshape main_v395 main_v396 rfl shapeCasts_S1x128_S128,
    StableHlo.unary main_v396 main_v397 (broadcastInDim S1x128 ![1] bcast_S128_S1x128_1 : (⟨S128, .f32⟩ : BufTy).Contents (Elt F) → (⟨S1x128, .f32⟩ : BufTy).Contents (Elt F)),
    StableHlo.unary main_v397 main_v398 (broadcastInDim S2000x128 ![0, 1] bcast_S1x128_S2000x128_0_1 : (⟨S1x128, .f32⟩ : BufTy).Contents (Elt F) → (⟨S2000x128, .f32⟩ : BufTy).Contents (Elt F)),
    StableHlo.binary main_v394 main_v398 main_v399 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call22_cst : StableHlo.TRef sig ⟨S_, .f32⟩) (constant S_ .f32 0x00000000#32),
    StableHlo.TRef.unary (.of main_call22_cst : StableHlo.TRef sig ⟨S_, .f32⟩) (.of main_call22_v0 : StableHlo.TRef sig ⟨S2000x128, .f32⟩) (broadcastInDim S2000x128 ![] bcast_S_S2000x128),
    StableHlo.TRef.binary (.of main_v399 : StableHlo.TRef sig ⟨S2000x128, .f32⟩) (.of main_call22_v0 : StableHlo.TRef sig ⟨S2000x128, .f32⟩) (.of main_v400 : StableHlo.TRef sig ⟨S2000x128, .f32⟩) maximumf ]

def R22 : List (HloOp τ sig (Elt F)) :=
  [ StableHlo.unary main_arg16 main_v401 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v401 main_v402 rfl shapeCasts_S1x128x128_S128x128,
    StableHlo.binary main_v400 main_v402 main_v403 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    StableHlo.unary main_arg17 main_v404 ((extractStridedSlice S1x128 ![1, 0] · slices_S2x128_S1x128_1_0) : (⟨S2x128, .f32⟩ : BufTy).Contents (Elt F) → (⟨S1x128, .f32⟩ : BufTy).Contents (Elt F)),
    StableHlo.reshape main_v404 main_v405 rfl shapeCasts_S1x128_S128,
    StableHlo.unary main_v405 main_v406 (broadcastInDim S1x128 ![1] bcast_S128_S1x128_1 : (⟨S128, .f32⟩ : BufTy).Contents (Elt F) → (⟨S1x128, .f32⟩ : BufTy).Contents (Elt F)),
    StableHlo.unary main_v406 main_v407 (broadcastInDim S2000x128 ![0, 1] bcast_S1x128_S2000x128_0_1 : (⟨S1x128, .f32⟩ : BufTy).Contents (Elt F) → (⟨S2000x128, .f32⟩ : BufTy).Contents (Elt F)),
    StableHlo.binary main_v403 main_v407 main_v408 (addf : (⟨S2000x128, .f32⟩ : BufTy).Contents (Elt F) → (⟨S2000x128, .f32⟩ : BufTy).Contents (Elt F) → (⟨S2000x128, .f32⟩ : BufTy).Contents (Elt F)),
    StableHlo.TRef.nullary (.of main_call23_cst : StableHlo.TRef sig ⟨S_, .f32⟩) (constant S_ .f32 0x00000000#32),
    StableHlo.TRef.unary (.of main_call23_cst : StableHlo.TRef sig ⟨S_, .f32⟩) (.of main_call23_v0 : StableHlo.TRef sig ⟨S2000x128, .f32⟩) (broadcastInDim S2000x128 ![] bcast_S_S2000x128),
    StableHlo.TRef.binary (.of main_v408 : StableHlo.TRef sig ⟨S2000x128, .f32⟩) (.of main_call23_v0 : StableHlo.TRef sig ⟨S2000x128, .f32⟩) (.of main_v409 : StableHlo.TRef sig ⟨S2000x128, .f32⟩) maximumf ]

def R23 : List (HloOp τ sig (Elt F)) :=
  [ StableHlo.unary main_arg18 main_v410 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v410 main_v411 rfl shapeCasts_S1x128x128_S128x128,
    StableHlo.binary main_v329 main_v411 main_v412 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.unary main_arg19 main_v413 ((extractStridedSlice S1x128 ![0, 0] · slices_S2x128_S1x128_0_0) : (⟨S2x128, .f32⟩ : BufTy).Contents (Elt F) → (⟨S1x128, .f32⟩ : BufTy).Contents (Elt F)),
    StableHlo.reshape main_v413 main_v414 rfl shapeCasts_S1x128_S128,
    StableHlo.unary main_v414 main_v415 (broadcastInDim S1x128 ![1] bcast_S128_S1x128_1 : (⟨S128, .f32⟩ : BufTy).Contents (Elt F) → (⟨S1x128, .f32⟩ : BufTy).Contents (Elt F)),
    StableHlo.unary main_v415 main_v416 (broadcastInDim S50x128 ![0, 1] bcast_S1x128_S50x128_0_1 : (⟨S1x128, .f32⟩ : BufTy).Contents (Elt F) → (⟨S50x128, .f32⟩ : BufTy).Contents (Elt F)),
    StableHlo.binary main_v412 main_v416 main_v417 (addf : (⟨S50x128, .f32⟩ : BufTy).Contents (Elt F) → (⟨S50x128, .f32⟩ : BufTy).Contents (Elt F) → (⟨S50x128, .f32⟩ : BufTy).Contents (Elt F)),
    StableHlo.TRef.nullary (.of main_call24_cst : StableHlo.TRef sig ⟨S_, .f32⟩) (constant S_ .f32 0x00000000#32),
    StableHlo.TRef.unary (.of main_call24_cst : StableHlo.TRef sig ⟨S_, .f32⟩) (.of main_call24_v0 : StableHlo.TRef sig ⟨S50x128, .f32⟩) (broadcastInDim S50x128 ![] bcast_S_S50x128),
    StableHlo.TRef.binary (.of main_v417 : StableHlo.TRef sig ⟨S50x128, .f32⟩) (.of main_call24_v0 : StableHlo.TRef sig ⟨S50x128, .f32⟩) (.of main_v418 : StableHlo.TRef sig ⟨S50x128, .f32⟩) maximumf ]

def R24 : List (HloOp τ sig (Elt F)) :=
  [ StableHlo.unary main_arg18 main_v419 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v419 main_v420 rfl shapeCasts_S1x128x128_S128x128,
    StableHlo.binary main_v418 main_v420 main_v421 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F)),
    StableHlo.unary main_arg19 main_v422 ((extractStridedSlice S1x128 ![1, 0] · slices_S2x128_S1x128_1_0) : (⟨S2x128, .f32⟩ : BufTy).Contents (Elt F) → (⟨S1x128, .f32⟩ : BufTy).Contents (Elt F)),
    StableHlo.reshape main_v422 main_v423 rfl shapeCasts_S1x128_S128,
    StableHlo.unary main_v423 main_v424 (broadcastInDim S1x128 ![1] bcast_S128_S1x128_1 : (⟨S128, .f32⟩ : BufTy).Contents (Elt F) → (⟨S1x128, .f32⟩ : BufTy).Contents (Elt F)),
    StableHlo.unary main_v424 main_v425 (broadcastInDim S50x128 ![0, 1] bcast_S1x128_S50x128_0_1 : (⟨S1x128, .f32⟩ : BufTy).Contents (Elt F) → (⟨S50x128, .f32⟩ : BufTy).Contents (Elt F)),
    StableHlo.binary main_v421 main_v425 main_v426 (addf : (⟨S50x128, .f32⟩ : BufTy).Contents (Elt F) → (⟨S50x128, .f32⟩ : BufTy).Contents (Elt F) → (⟨S50x128, .f32⟩ : BufTy).Contents (Elt F)),
    StableHlo.TRef.nullary (.of main_call25_cst : StableHlo.TRef sig ⟨S_, .f32⟩) (constant S_ .f32 0x00000000#32),
    StableHlo.TRef.unary (.of main_call25_cst : StableHlo.TRef sig ⟨S_, .f32⟩) (.of main_call25_v0 : StableHlo.TRef sig ⟨S50x128, .f32⟩) (broadcastInDim S50x128 ![] bcast_S_S50x128),
    StableHlo.TRef.binary (.of main_v426 : StableHlo.TRef sig ⟨S50x128, .f32⟩) (.of main_call25_v0 : StableHlo.TRef sig ⟨S50x128, .f32⟩) (.of main_v427 : StableHlo.TRef sig ⟨S50x128, .f32⟩) maximumf ]

def R25 : List (HloOp τ sig (Elt F)) :=
  [ StableHlo.nullary main_cst_62 (constant S_ .f32 0x00000000#32),
    StableHlo.unary main_cst_62 main_v428 (broadcastInDim S50x128 ![] bcast_S_S50x128 : (⟨S_, .f32⟩ : BufTy).Contents (Elt F) → (⟨S50x128, .f32⟩ : BufTy).Contents (Elt F)),
    StableHlo.unary main_arg2 main_v429 (broadcastInDim S100000x1 ![0] bcast_S100000_S100000x1_0 : (⟨S100000, .i32⟩ : BufTy).Contents (Elt F) → (⟨S100000x1, .i32⟩ : BufTy).Contents (Elt F)),
    StableHlo.ternary main_v428 main_v429 main_v391 main_v430 ((fun x i u => Host.scatterAdd scatter_S50x128_S100000x1_S100000x128_1_0_0_1 x i u) : (⟨S50x128, .f32⟩ : BufTy).Contents (Elt F) → (⟨S100000x1, .i32⟩ : BufTy).Contents (Elt F) → (⟨S100000x128, .f32⟩ : BufTy).Contents (Elt F) → (⟨S50x128, .f32⟩ : BufTy).Contents (Elt F)),
    StableHlo.nullary main_cst_63 (constant S_ .f32 0x3F800000#32),
    StableHlo.unary main_cst_63 main_v431 (broadcastInDim S100000x1 ![] bcast_S_S100000x1 : (⟨S_, .f32⟩ : BufTy).Contents (Elt F) → (⟨S100000x1, .f32⟩ : BufTy).Contents (Elt F)),
    StableHlo.nullary main_cst_64 (constant S_ .f32 0x00000000#32),
    StableHlo.unary main_cst_64 main_v432 (broadcastInDim S50x1 ![] bcast_S_S50x1 : (⟨S_, .f32⟩ : BufTy).Contents (Elt F) → (⟨S50x1, .f32⟩ : BufTy).Contents (Elt F)),
    StableHlo.unary main_arg2 main_v433 (broadcastInDim S100000x1 ![0] bcast_S100000_S100000x1_0 : (⟨S100000, .i32⟩ : BufTy).Contents (Elt F) → (⟨S100000x1, .i32⟩ : BufTy).Contents (Elt F)),
    StableHlo.ternary main_v432 main_v433 main_v431 main_v434 ((fun x i u => Host.scatterAdd scatter_S50x1_S100000x1_S100000x1_1_0_0_1 x i u) : (⟨S50x1, .f32⟩ : BufTy).Contents (Elt F) → (⟨S100000x1, .i32⟩ : BufTy).Contents (Elt F) → (⟨S100000x1, .f32⟩ : BufTy).Contents (Elt F) → (⟨S50x1, .f32⟩ : BufTy).Contents (Elt F)),
    StableHlo.nullary main_cst_65 (constant S_ .f32 0x3F800000#32),
    StableHlo.unary main_cst_65 main_v435 (broadcastInDim S50x1 ![] bcast_S_S50x1 : (⟨S_, .f32⟩ : BufTy).Contents (Elt F) → (⟨S50x1, .f32⟩ : BufTy).Contents (Elt F)),
    StableHlo.binary main_v434 main_v435 main_v436 (maximumf : (⟨S50x1, .f32⟩ : BufTy).Contents (Elt F) → (⟨S50x1, .f32⟩ : BufTy).Contents (Elt F) → (⟨S50x1, .f32⟩ : BufTy).Contents (Elt F)),
    StableHlo.unary main_v436 main_v437 (broadcastInDim S50x128 ![0, 1] bcast_S50x1_S50x128_0_1 : (⟨S50x1, .f32⟩ : BufTy).Contents (Elt F) → (⟨S50x128, .f32⟩ : BufTy).Contents (Elt F)),
    StableHlo.binary main_v430 main_v437 main_v438 (Host.divf : (⟨S50x128, .f32⟩ : BufTy).Contents (Elt F) → (⟨S50x128, .f32⟩ : BufTy).Contents (Elt F) → (⟨S50x128, .f32⟩ : BufTy).Contents (Elt F)),
    StableHlo.nullary main_cst_66 (constant S_ .f32 0x00000000#32),
    StableHlo.unary main_cst_66 main_v439 (broadcastInDim S50x128 ![] bcast_S_S50x128 : (⟨S_, .f32⟩ : BufTy).Contents (Elt F) → (⟨S50x128, .f32⟩ : BufTy).Contents (Elt F)),
    StableHlo.unary main_v8 main_v440 (broadcastInDim S2000x1 ![0] bcast_S2000_S2000x1_0 : (⟨S2000, .i32⟩ : BufTy).Contents (Elt F) → (⟨S2000x1, .i32⟩ : BufTy).Contents (Elt F)),
    StableHlo.ternary main_v439 main_v440 main_v409 main_v441 ((fun x i u => Host.scatterAdd scatter_S50x128_S2000x1_S2000x128_1_0_0_1 x i u) : (⟨S50x128, .f32⟩ : BufTy).Contents (Elt F) → (⟨S2000x1, .i32⟩ : BufTy).Contents (Elt F) → (⟨S2000x128, .f32⟩ : BufTy).Contents (Elt F) → (⟨S50x128, .f32⟩ : BufTy).Contents (Elt F)),
    StableHlo.nullary main_cst_67 (constant S_ .f32 0x3F800000#32),
    StableHlo.unary main_cst_67 main_v442 (broadcastInDim S2000x1 ![] bcast_S_S2000x1 : (⟨S_, .f32⟩ : BufTy).Contents (Elt F) → (⟨S2000x1, .f32⟩ : BufTy).Contents (Elt F)),
    StableHlo.nullary main_cst_68 (constant S_ .f32 0x00000000#32),
    StableHlo.unary main_cst_68 main_v443 (broadcastInDim S50x1 ![] bcast_S_S50x1 : (⟨S_, .f32⟩ : BufTy).Contents (Elt F) → (⟨S50x1, .f32⟩ : BufTy).Contents (Elt F)),
    StableHlo.unary main_v8 main_v444 (broadcastInDim S2000x1 ![0] bcast_S2000_S2000x1_0 : (⟨S2000, .i32⟩ : BufTy).Contents (Elt F) → (⟨S2000x1, .i32⟩ : BufTy).Contents (Elt F)),
    StableHlo.ternary main_v443 main_v444 main_v442 main_v445 ((fun x i u => Host.scatterAdd scatter_S50x1_S2000x1_S2000x1_1_0_0_1 x i u) : (⟨S50x1, .f32⟩ : BufTy).Contents (Elt F) → (⟨S2000x1, .i32⟩ : BufTy).Contents (Elt F) → (⟨S2000x1, .f32⟩ : BufTy).Contents (Elt F) → (⟨S50x1, .f32⟩ : BufTy).Contents (Elt F)),
    StableHlo.nullary main_cst_69 (constant S_ .f32 0x3F800000#32),
    StableHlo.unary main_cst_69 main_v446 (broadcastInDim S50x1 ![] bcast_S_S50x1 : (⟨S_, .f32⟩ : BufTy).Contents (Elt F) → (⟨S50x1, .f32⟩ : BufTy).Contents (Elt F)),
    StableHlo.binary main_v445 main_v446 main_v447 (maximumf : (⟨S50x1, .f32⟩ : BufTy).Contents (Elt F) → (⟨S50x1, .f32⟩ : BufTy).Contents (Elt F) → (⟨S50x1, .f32⟩ : BufTy).Contents (Elt F)),
    StableHlo.unary main_v447 main_v448 (broadcastInDim S50x128 ![0, 1] bcast_S50x1_S50x128_0_1 : (⟨S50x1, .f32⟩ : BufTy).Contents (Elt F) → (⟨S50x128, .f32⟩ : BufTy).Contents (Elt F)),
    StableHlo.binary main_v441 main_v448 main_v449 (Host.divf : (⟨S50x128, .f32⟩ : BufTy).Contents (Elt F) → (⟨S50x128, .f32⟩ : BufTy).Contents (Elt F) → (⟨S50x128, .f32⟩ : BufTy).Contents (Elt F)),
    StableHlo.nary ![main_v438, main_v449, main_v427] main_v450 (fun u => concatenate S50x384 1 [⟨S50x128, u 0⟩, ⟨S50x128, u 1⟩, ⟨S50x128, u 2⟩] concatenates_S50x128_S50x128_S50x128_S50x384_d1),
    StableHlo.binary main_v450 main_arg30 main_v451 ((fun l r => Host.dotGeneral dot_S50x384_S384x128_S50x128_1_0_0_1_n_n none l r) : (⟨S50x384, .f32⟩ : BufTy).Contents (Elt F) → (⟨S384x128, .f32⟩ : BufTy).Contents (Elt F) → (⟨S50x128, .f32⟩ : BufTy).Contents (Elt F)),
    StableHlo.unary main_arg31 main_v452 (broadcastInDim S1x128 ![1] bcast_S128_S1x128_1 : (⟨S128, .f32⟩ : BufTy).Contents (Elt F) → (⟨S1x128, .f32⟩ : BufTy).Contents (Elt F)),
    StableHlo.unary main_v452 main_v453 (broadcastInDim S50x128 ![0, 1] bcast_S1x128_S50x128_0_1 : (⟨S1x128, .f32⟩ : BufTy).Contents (Elt F) → (⟨S50x128, .f32⟩ : BufTy).Contents (Elt F)),
    StableHlo.binary main_v451 main_v453 main_v454 (addf : (⟨S50x128, .f32⟩ : BufTy).Contents (Elt F) → (⟨S50x128, .f32⟩ : BufTy).Contents (Elt F) → (⟨S50x128, .f32⟩ : BufTy).Contents (Elt F)),
    StableHlo.TRef.nullary (.of main_call26_cst : StableHlo.TRef sig ⟨S_, .f32⟩) (constant S_ .f32 0x00000000#32),
    StableHlo.TRef.unary (.of main_call26_cst : StableHlo.TRef sig ⟨S_, .f32⟩) (.of main_call26_v0 : StableHlo.TRef sig ⟨S50x128, .f32⟩) (broadcastInDim S50x128 ![] bcast_S_S50x128),
    StableHlo.TRef.binary (.of main_v454 : StableHlo.TRef sig ⟨S50x128, .f32⟩) (.of main_call26_v0 : StableHlo.TRef sig ⟨S50x128, .f32⟩) (.of main_v455 : StableHlo.TRef sig ⟨S50x128, .f32⟩) maximumf ]

def R26 : List (HloOp τ sig (Elt F)) :=
  [ StableHlo.binary main_v455 main_arg32 main_v456 ((fun l r => Host.dotGeneral dot_S50x128_S128x2_S50x2_1_0_0_1_n_n none l r) : (⟨S50x128, .f32⟩ : BufTy).Contents (Elt F) → (⟨S128x2, .f32⟩ : BufTy).Contents (Elt F) → (⟨S50x2, .f32⟩ : BufTy).Contents (Elt F)),
    StableHlo.unary main_arg33 main_v457 (broadcastInDim S1x2 ![1] bcast_S2_S1x2_1 : (⟨S2, .f32⟩ : BufTy).Contents (Elt F) → (⟨S1x2, .f32⟩ : BufTy).Contents (Elt F)),
    StableHlo.unary main_v457 main_v458 (broadcastInDim S50x2 ![0, 1] bcast_S1x2_S50x2_0_1 : (⟨S1x2, .f32⟩ : BufTy).Contents (Elt F) → (⟨S50x2, .f32⟩ : BufTy).Contents (Elt F)),
    StableHlo.binary main_v456 main_v458 main_v459 (addf : (⟨S50x2, .f32⟩ : BufTy).Contents (Elt F) → (⟨S50x2, .f32⟩ : BufTy).Contents (Elt F) → (⟨S50x2, .f32⟩ : BufTy).Contents (Elt F)) ]

end Cert.ReferenceIdeal.Hand

end
-- ==== Proof.LibAfter.lean ====
/-
  Two general facts about a list of host operations run as a fold over buffer contents.
-/
import Idealize.ShloMosaic.Lib.StableHlo.Run

namespace Cert.Lib

open Idealize.ShloMosaic Idealize.ShloMosaic.StableHlo

variable {τ : Topo} {sig : RefSig} {Val : EltTy → Type}

/-- The fold of a concatenation of two operation lists is the second list's fold over the first's: the operations run
    in order, so splitting the list anywhere splits the run there. -/
theorem after_append (l₁ l₂ : List (HloOp τ sig Val)) (X : Valuation τ sig Val) :
    after (l₁ ++ l₂) X = after l₂ (after l₁ X) := by
  induction l₁ generalizing X with
  | nil => rfl
  | cons op l ih => exact ih (op.result X)

/-- A typed reference's view of a buffer's contents undoes its own embedding: reading back what was written through the
    same typed reference is the identity. -/
theorem ofBuf_toBuf {T : BufTy} (x : TRef sig T) (v : T.Contents Val) : x.ofBuf (x.toBuf v) = v := by
  obtain ⟨ref, hty, hd, hu⟩ := x
  subst hty
  rfl

end Cert.Lib
-- ==== Proof.Ref.Run.lean ====
import proofs.«141679_j61469571940402_1_alg».proof.Proof.Ref.Ops0
import proofs.«141679_j61469571940402_1_alg».proof.Proof.Ref.Ops1
import proofs.«141679_j61469571940402_1_alg».proof.Proof.Ref.Ops2
import proofs.«141679_j61469571940402_1_alg».proof.Proof.Ref.Ops3
import proofs.«141679_j61469571940402_1_alg».proof.Proof.Ref.Ops4
import proofs.«141679_j61469571940402_1_alg».proof.Proof.Ref.Ops5
import proofs.«141679_j61469571940402_1_alg».proof.Proof.Ref.Ops6
import proofs.«141679_j61469571940402_1_alg».proof.Proof.Ref.Ops7
import proofs.«141679_j61469571940402_1_alg».proof.Proof.Ref.Ops8
import proofs.«141679_j61469571940402_1_alg».proof.Proof.Ref.Chunks
import proofs.«141679_j61469571940402_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The nine parts one after the other: @main's 600 operations in order. -/
abbrev href_opsP : List (HloOp τ sig (Elt F)) :=
  ops0 ++ (ops1 ++ (ops2 ++ (ops3 ++ (ops4 ++ (ops5 ++ (ops6 ++ (ops7 ++ ops8)))))))

/-- @main's 600 operations in order, cut after each dense layer's final maximum. -/
abbrev ops : List (HloOp τ sig (Elt F)) :=
  R0 ++ R1 ++ R2 ++ R3 ++ R4 ++ R5 ++ R6 ++ R7 ++ R8 ++ R9 ++ R10 ++ R11 ++ R12 ++ R13 ++ R14 ++ R15 ++ R16 ++ R17 ++ R18 ++ R19 ++ R20 ++ R21 ++ R22 ++ R23 ++ R24 ++ R25 ++ R26

set_option maxRecDepth 65536 in
/-- The two cuttings are of one list: both concatenations flatten to the same 600 operations in the same order, a typed
    reference written as a field of a call's record being the literal reference that field holds. -/
theorem href_opsP_eq : (href_opsP : List (HloOp τ sig (Elt F))) = ops := by
  simp only [href_opsP, ops, ops0, ops1, ops2, ops3, ops4, ops5, ops6, ops7, ops8,
    R0, R1, R2, R3, R4, R5, R6, R7, R8, R9, R10, R11, R12, R13, R14, R15, R16, R17, R18, R19, R20, R21, R22, R23, R24, R25, R26,
    List.append_assoc, List.cons_append, List.nil_append] <;> rfl

/-- @main is the parts' straight line: it runs its nine parts in order, each part is a straight line, and two lines run
    one after the other are their concatenation run as one. -/
theorem href_main_eqP (c : Dev nD) : main (F := F) c = seq href_opsP := by
  simp only [main, main_part0_eq, main_part1_eq, main_part2_eq, main_part3_eq, main_part4_eq, main_part5_eq, main_part6_eq, main_part7_eq, main_part8_eq, href_opsP, seq_append]

theorem main_eq (c : Dev nD) : main (F := F) c = seq ops :=
  (href_main_eqP c).trans (congrArg (fun l => seq l) href_opsP_eq)

/-- No TensorCore reference of this signature is scoped: its table of scoped buffers is constantly false, and the
    spaces other than HBM hold no buffer. -/
theorem href_unscoped (b : Ref sig .tc) : b.isScoped = false := by
  obtain ⟨sp, i, h⟩ := b
  cases sp <;> first | rfl | exact i.elim0

theorem scopedRefs_eq : (Finset.univ.filter fun b : Ref sig .tc => b.isScoped) = ∅ :=
  Finset.filter_eq_empty_iff.mpr fun b _ => by simp [href_unscoped b]

theorem scopedSems_eq : (Finset.univ.filter fun sm : SemLoc sig => sm.isScoped .tc) = ∅ := by decide

/-- Every operation of @main touches TensorCore references only: part by part. -/
theorem href_opsP_sub : (href_opsP : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub, List.forall_append.2 ⟨ops5_sub, List.forall_append.2 ⟨ops6_sub, List.forall_append.2 ⟨ops7_sub, ops8_sub⟩⟩⟩⟩⟩⟩⟩⟩

theorem ops_sub : (ops : List (HloOp τ sig (Elt F))).Forall fun op => op.bufs ⊆ tcRefs τ sig := by
  rw [← href_opsP_eq]; exact href_opsP_sub

/-- Every operation of @main determines what it writes: part by part. -/
theorem href_opsP_fresh : ∀ op ∈ (href_opsP : List (HloOp τ sig (Elt F))), op.fresh = ∅ :=
  List.forall_iff_forall_mem.1 (List.forall_append.2 ⟨ops0_fresh, List.forall_append.2 ⟨ops1_fresh, List.forall_append.2 ⟨ops2_fresh, List.forall_append.2 ⟨ops3_fresh, List.forall_append.2 ⟨ops4_fresh, List.forall_append.2 ⟨ops5_fresh, List.forall_append.2 ⟨ops6_fresh, List.forall_append.2 ⟨ops7_fresh, ops8_fresh⟩⟩⟩⟩⟩⟩⟩⟩)

theorem ops_fresh : ∀ op ∈ (ops : List (HloOp τ sig (Elt F))), op.fresh = ∅ := by
  rw [← href_opsP_eq]; exact href_opsP_fresh

/-- A reference that none of the nine parts writes holds after the whole line what it held before: the line's fold
    splits at the parts, and each part leaves alone what it does not write. -/
theorem href_keepP (V : Valuation τ sig (Elt F)) (r : Ref sig .tc)
    (h0 : r ∉ href_W0) (h1 : r ∉ href_W1) (h2 : r ∉ href_W2) (h3 : r ∉ href_W3) (h4 : r ∉ href_W4) (h5 : r ∉ href_W5) (h6 : r ∉ href_W6) (h7 : r ∉ href_W7) (h8 : r ∉ href_W8) :
    after href_opsP V (Proc.devRef .tc r) = V (Proc.devRef .tc r) := by
  simp only [href_opsP, Cert.Lib.after_append]
  rw [after_of_writes_sub ops8 _ ops8_writes h8,
    after_of_writes_sub ops7 _ ops7_writes h7,
    after_of_writes_sub ops6 _ ops6_writes h6,
    after_of_writes_sub ops5 _ ops5_writes h5,
    after_of_writes_sub ops4 _ ops4_writes h4,
    after_of_writes_sub ops3 _ ops3_writes h3,
    after_of_writes_sub ops2 _ ops2_writes h2,
    after_of_writes_sub ops1 _ ops1_writes h1,
    after_of_writes_sub ops0 _ ops0_writes h0]

/-! Each argument of @main is written by no operation: over the parts' list, and over the chunked list. -/

theorem href_kept_argP0 (V : Valuation τ sig (Elt F)) : after href_opsP V (Proc.devRef .tc main_arg0) = V (Proc.devRef .tc main_arg0) :=
  href_keepP V main_arg0 (by decide) (by decide) (by decide) (by decide) (by decide) (by decide) (by decide) (by decide) (by decide)
theorem href_kept_argP1 (V : Valuation τ sig (Elt F)) : after href_opsP V (Proc.devRef .tc main_arg1) = V (Proc.devRef .tc main_arg1) :=
  href_keepP V main_arg1 (by decide) (by decide) (by decide) (by decide) (by decide) (by decide) (by decide) (by decide) (by decide)
theorem href_kept_argP2 (V : Valuation τ sig (Elt F)) : after href_opsP V (Proc.devRef .tc main_arg2) = V (Proc.devRef .tc main_arg2) :=
  href_keepP V main_arg2 (by decide) (by decide) (by decide) (by decide) (by decide) (by decide) (by decide) (by decide) (by decide)
theorem href_kept_argP3 (V : Valuation τ sig (Elt F)) : after href_opsP V (Proc.devRef .tc main_arg3) = V (Proc.devRef .tc main_arg3) :=
  href_keepP V main_arg3 (by decide) (by decide) (by decide) (by decide) (by decide) (by decide) (by decide) (by decide) (by decide)
theorem href_kept_argP4 (V : Valuation τ sig (Elt F)) : after href_opsP V (Proc.devRef .tc main_arg4) = V (Proc.devRef .tc main_arg4) :=
  href_keepP V main_arg4 (by decide) (by decide) (by decide) (by decide) (by decide) (by decide) (by decide) (by decide) (by decide)
theorem href_kept_argP5 (V : Valuation τ sig (Elt F)) : after href_opsP V (Proc.devRef .tc main_arg5) = V (Proc.devRef .tc main_arg5) :=
  href_keepP V main_arg5 (by decide) (by decide) (by decide) (by decide) (by decide) (by decide) (by decide) (by decide) (by decide)
theorem href_kept_argP6 (V : Valuation τ sig (Elt F)) : after href_opsP V (Proc.devRef .tc main_arg6) = V (Proc.devRef .tc main_arg6) :=
  href_keepP V main_arg6 (by decide) (by decide) (by decide) (by decide) (by decide) (by decide) (by decide) (by decide) (by decide)
theorem href_kept_argP7 (V : Valuation τ sig (Elt F)) : after href_opsP V (Proc.devRef .tc main_arg7) = V (Proc.devRef .tc main_arg7) :=
  href_keepP V main_arg7 (by decide) (by decide) (by decide) (by decide) (by decide) (by decide) (by decide) (by decide) (by decide)
theorem href_kept_argP8 (V : Valuation τ sig (Elt F)) : after href_opsP V (Proc.devRef .tc main_arg8) = V (Proc.devRef .tc main_arg8) :=
  href_keepP V main_arg8 (by decide) (by decide) (by decide) (by decide) (by decide) (by decide) (by decide) (by decide) (by decide)
theorem href_kept_argP9 (V : Valuation τ sig (Elt F)) : after href_opsP V (Proc.devRef .tc main_arg9) = V (Proc.devRef .tc main_arg9) :=
  href_keepP V main_arg9 (by decide) (by decide) (by decide) (by decide) (by decide) (by decide) (by decide) (by decide) (by decide)
theorem href_kept_argP10 (V : Valuation τ sig (Elt F)) : after href_opsP V (Proc.devRef .tc main_arg10) = V (Proc.devRef .tc main_arg10) :=
  href_keepP V main_arg10 (by decide) (by decide) (by decide) (by decide) (by decide) (by decide) (by decide) (by decide) (by decide)
theorem href_kept_argP11 (V : Valuation τ sig (Elt F)) : after href_opsP V (Proc.devRef .tc main_arg11) = V (Proc.devRef .tc main_arg11) :=
  href_keepP V main_arg11 (by decide) (by decide) (by decide) (by decide) (by decide) (by decide) (by decide) (by decide) (by decide)
theorem href_kept_argP12 (V : Valuation τ sig (Elt F)) : after href_opsP V (Proc.devRef .tc main_arg12) = V (Proc.devRef .tc main_arg12) :=
  href_keepP V main_arg12 (by decide) (by decide) (by decide) (by decide) (by decide) (by decide) (by decide) (by decide) (by decide)
theorem href_kept_argP13 (V : Valuation τ sig (Elt F)) : after href_opsP V (Proc.devRef .tc main_arg13) = V (Proc.devRef .tc main_arg13) :=
  href_keepP V main_arg13 (by decide) (by decide) (by decide) (by decide) (by decide) (by decide) (by decide) (by decide) (by decide)
theorem href_kept_argP14 (V : Valuation τ sig (Elt F)) : after href_opsP V (Proc.devRef .tc main_arg14) = V (Proc.devRef .tc main_arg14) :=
  href_keepP V main_arg14 (by decide) (by decide) (by decide) (by decide) (by decide) (by decide) (by decide) (by decide) (by decide)
theorem href_kept_argP15 (V : Valuation τ sig (Elt F)) : after href_opsP V (Proc.devRef .tc main_arg15) = V (Proc.devRef .tc main_arg15) :=
  href_keepP V main_arg15 (by decide) (by decide) (by decide) (by decide) (by decide) (by decide) (by decide) (by decide) (by decide)
theorem href_kept_argP16 (V : Valuation τ sig (Elt F)) : after href_opsP V (Proc.devRef .tc main_arg16) = V (Proc.devRef .tc main_arg16) :=
  href_keepP V main_arg16 (by decide) (by decide) (by decide) (by decide) (by decide) (by decide) (by decide) (by decide) (by decide)
theorem href_kept_argP17 (V : Valuation τ sig (Elt F)) : after href_opsP V (Proc.devRef .tc main_arg17) = V (Proc.devRef .tc main_arg17) :=
  href_keepP V main_arg17 (by decide) (by decide) (by decide) (by decide) (by decide) (by decide) (by decide) (by decide) (by decide)
theorem href_kept_argP18 (V : Valuation τ sig (Elt F)) : after href_opsP V (Proc.devRef .tc main_arg18) = V (Proc.devRef .tc main_arg18) :=
  href_keepP V main_arg18 (by decide) (by decide) (by decide) (by decide) (by decide) (by decide) (by decide) (by decide) (by decide)
theorem href_kept_argP19 (V : Valuation τ sig (Elt F)) : after href_opsP V (Proc.devRef .tc main_arg19) = V (Proc.devRef .tc main_arg19) :=
  href_keepP V main_arg19 (by decide) (by decide) (by decide) (by decide) (by decide) (by decide) (by decide) (by decide) (by decide)
theorem href_kept_argP20 (V : Valuation τ sig (Elt F)) : after href_opsP V (Proc.devRef .tc main_arg20) = V (Proc.devRef .tc main_arg20) :=
  href_keepP V main_arg20 (by decide) (by decide) (by decide) (by decide) (by decide) (by decide) (by decide) (by decide) (by decide)
theorem href_kept_argP21 (V : Valuation τ sig (Elt F)) : after href_opsP V (Proc.devRef .tc main_arg21) = V (Proc.devRef .tc main_arg21) :=
  href_keepP V main_arg21 (by decide) (by decide) (by decide) (by decide) (by decide) (by decide) (by decide) (by decide) (by decide)
theorem href_kept_argP22 (V : Valuation τ sig (Elt F)) : after href_opsP V (Proc.devRef .tc main_arg22) = V (Proc.devRef .tc main_arg22) :=
  href_keepP V main_arg22 (by decide) (by decide) (by decide) (by decide) (by decide) (by decide) (by decide) (by decide) (by decide)
theorem href_kept_argP23 (V : Valuation τ sig (Elt F)) : after href_opsP V (Proc.devRef .tc main_arg23) = V (Proc.devRef .tc main_arg23) :=
  href_keepP V main_arg23 (by decide) (by decide) (by decide) (by decide) (by decide) (by decide) (by decide) (by decide) (by decide)
theorem href_kept_argP24 (V : Valuation τ sig (Elt F)) : after href_opsP V (Proc.devRef .tc main_arg24) = V (Proc.devRef .tc main_arg24) :=
  href_keepP V main_arg24 (by decide) (by decide) (by decide) (by decide) (by decide) (by decide) (by decide) (by decide) (by decide)
theorem href_kept_argP25 (V : Valuation τ sig (Elt F)) : after href_opsP V (Proc.devRef .tc main_arg25) = V (Proc.devRef .tc main_arg25) :=
  href_keepP V main_arg25 (by decide) (by decide) (by decide) (by decide) (by decide) (by decide) (by decide) (by decide) (by decide)
theorem href_kept_argP26 (V : Valuation τ sig (Elt F)) : after href_opsP V (Proc.devRef .tc main_arg26) = V (Proc.devRef .tc main_arg26) :=
  href_keepP V main_arg26 (by decide) (by decide) (by decide) (by decide) (by decide) (by decide) (by decide) (by decide) (by decide)
theorem href_kept_argP27 (V : Valuation τ sig (Elt F)) : after href_opsP V (Proc.devRef .tc main_arg27) = V (Proc.devRef .tc main_arg27) :=
  href_keepP V main_arg27 (by decide) (by decide) (by decide) (by decide) (by decide) (by decide) (by decide) (by decide) (by decide)
theorem href_kept_argP28 (V : Valuation τ sig (Elt F)) : after href_opsP V (Proc.devRef .tc main_arg28) = V (Proc.devRef .tc main_arg28) :=
  href_keepP V main_arg28 (by decide) (by decide) (by decide) (by decide) (by decide) (by decide) (by decide) (by decide) (by decide)
theorem href_kept_argP29 (V : Valuation τ sig (Elt F)) : after href_opsP V (Proc.devRef .tc main_arg29) = V (Proc.devRef .tc main_arg29) :=
  href_keepP V main_arg29 (by decide) (by decide) (by decide) (by decide) (by decide) (by decide) (by decide) (by decide) (by decide)
theorem href_kept_argP30 (V : Valuation τ sig (Elt F)) : after href_opsP V (Proc.devRef .tc main_arg30) = V (Proc.devRef .tc main_arg30) :=
  href_keepP V main_arg30 (by decide) (by decide) (by decide) (by decide) (by decide) (by decide) (by decide) (by decide) (by decide)
theorem href_kept_argP31 (V : Valuation τ sig (Elt F)) : after href_opsP V (Proc.devRef .tc main_arg31) = V (Proc.devRef .tc main_arg31) :=
  href_keepP V main_arg31 (by decide) (by decide) (by decide) (by decide) (by decide) (by decide) (by decide) (by decide) (by decide)
theorem href_kept_argP32 (V : Valuation τ sig (Elt F)) : after href_opsP V (Proc.devRef .tc main_arg32) = V (Proc.devRef .tc main_arg32) :=
  href_keepP V main_arg32 (by decide) (by decide) (by decide) (by decide) (by decide) (by decide) (by decide) (by decide) (by decide)
theorem href_kept_argP33 (V : Valuation τ sig (Elt F)) : after href_opsP V (Proc.devRef .tc main_arg33) = V (Proc.devRef .tc main_arg33) :=
  href_keepP V main_arg33 (by decide) (by decide) (by decide) (by decide) (by decide) (by decide) (by decide) (by decide) (by decide)

theorem href_kept_arg0 (V : Valuation τ sig (Elt F)) : after ops V (Proc.devRef .tc main_arg0) = V (Proc.devRef .tc main_arg0) :=
  href_opsP_eq (F := F) ▸ href_kept_argP0 V
theorem href_kept_arg1 (V : Valuation τ sig (Elt F)) : after ops V (Proc.devRef .tc main_arg1) = V (Proc.devRef .tc main_arg1) :=
  href_opsP_eq (F := F) ▸ href_kept_argP1 V
theorem href_kept_arg2 (V : Valuation τ sig (Elt F)) : after ops V (Proc.devRef .tc main_arg2) = V (Proc.devRef .tc main_arg2) :=
  href_opsP_eq (F := F) ▸ href_kept_argP2 V
theorem href_kept_arg3 (V : Valuation τ sig (Elt F)) : after ops V (Proc.devRef .tc main_arg3) = V (Proc.devRef .tc main_arg3) :=
  href_opsP_eq (F := F) ▸ href_kept_argP3 V
theorem href_kept_arg4 (V : Valuation τ sig (Elt F)) : after ops V (Proc.devRef .tc main_arg4) = V (Proc.devRef .tc main_arg4) :=
  href_opsP_eq (F := F) ▸ href_kept_argP4 V
theorem href_kept_arg5 (V : Valuation τ sig (Elt F)) : after ops V (Proc.devRef .tc main_arg5) = V (Proc.devRef .tc main_arg5) :=
  href_opsP_eq (F := F) ▸ href_kept_argP5 V
theorem href_kept_arg6 (V : Valuation τ sig (Elt F)) : after ops V (Proc.devRef .tc main_arg6) = V (Proc.devRef .tc main_arg6) :=
  href_opsP_eq (F := F) ▸ href_kept_argP6 V
theorem href_kept_arg7 (V : Valuation τ sig (Elt F)) : after ops V (Proc.devRef .tc main_arg7) = V (Proc.devRef .tc main_arg7) :=
  href_opsP_eq (F := F) ▸ href_kept_argP7 V
theorem href_kept_arg8 (V : Valuation τ sig (Elt F)) : after ops V (Proc.devRef .tc main_arg8) = V (Proc.devRef .tc main_arg8) :=
  href_opsP_eq (F := F) ▸ href_kept_argP8 V
theorem href_kept_arg9 (V : Valuation τ sig (Elt F)) : after ops V (Proc.devRef .tc main_arg9) = V (Proc.devRef .tc main_arg9) :=
  href_opsP_eq (F := F) ▸ href_kept_argP9 V
theorem href_kept_arg10 (V : Valuation τ sig (Elt F)) : after ops V (Proc.devRef .tc main_arg10) = V (Proc.devRef .tc main_arg10) :=
  href_opsP_eq (F := F) ▸ href_kept_argP10 V
theorem href_kept_arg11 (V : Valuation τ sig (Elt F)) : after ops V (Proc.devRef .tc main_arg11) = V (Proc.devRef .tc main_arg11) :=
  href_opsP_eq (F := F) ▸ href_kept_argP11 V
theorem href_kept_arg12 (V : Valuation τ sig (Elt F)) : after ops V (Proc.devRef .tc main_arg12) = V (Proc.devRef .tc main_arg12) :=
  href_opsP_eq (F := F) ▸ href_kept_argP12 V
theorem href_kept_arg13 (V : Valuation τ sig (Elt F)) : after ops V (Proc.devRef .tc main_arg13) = V (Proc.devRef .tc main_arg13) :=
  href_opsP_eq (F := F) ▸ href_kept_argP13 V
theorem href_kept_arg14 (V : Valuation τ sig (Elt F)) : after ops V (Proc.devRef .tc main_arg14) = V (Proc.devRef .tc main_arg14) :=
  href_opsP_eq (F := F) ▸ href_kept_argP14 V
theorem href_kept_arg15 (V : Valuation τ sig (Elt F)) : after ops V (Proc.devRef .tc main_arg15) = V (Proc.devRef .tc main_arg15) :=
  href_opsP_eq (F := F) ▸ href_kept_argP15 V
theorem href_kept_arg16 (V : Valuation τ sig (Elt F)) : after ops V (Proc.devRef .tc main_arg16) = V (Proc.devRef .tc main_arg16) :=
  href_opsP_eq (F := F) ▸ href_kept_argP16 V
theorem href_kept_arg17 (V : Valuation τ sig (Elt F)) : after ops V (Proc.devRef .tc main_arg17) = V (Proc.devRef .tc main_arg17) :=
  href_opsP_eq (F := F) ▸ href_kept_argP17 V
theorem href_kept_arg18 (V : Valuation τ sig (Elt F)) : after ops V (Proc.devRef .tc main_arg18) = V (Proc.devRef .tc main_arg18) :=
  href_opsP_eq (F := F) ▸ href_kept_argP18 V
theorem href_kept_arg19 (V : Valuation τ sig (Elt F)) : after ops V (Proc.devRef .tc main_arg19) = V (Proc.devRef .tc main_arg19) :=
  href_opsP_eq (F := F) ▸ href_kept_argP19 V
theorem href_kept_arg20 (V : Valuation τ sig (Elt F)) : after ops V (Proc.devRef .tc main_arg20) = V (Proc.devRef .tc main_arg20) :=
  href_opsP_eq (F := F) ▸ href_kept_argP20 V
theorem href_kept_arg21 (V : Valuation τ sig (Elt F)) : after ops V (Proc.devRef .tc main_arg21) = V (Proc.devRef .tc main_arg21) :=
  href_opsP_eq (F := F) ▸ href_kept_argP21 V
theorem href_kept_arg22 (V : Valuation τ sig (Elt F)) : after ops V (Proc.devRef .tc main_arg22) = V (Proc.devRef .tc main_arg22) :=
  href_opsP_eq (F := F) ▸ href_kept_argP22 V
theorem href_kept_arg23 (V : Valuation τ sig (Elt F)) : after ops V (Proc.devRef .tc main_arg23) = V (Proc.devRef .tc main_arg23) :=
  href_opsP_eq (F := F) ▸ href_kept_argP23 V
theorem href_kept_arg24 (V : Valuation τ sig (Elt F)) : after ops V (Proc.devRef .tc main_arg24) = V (Proc.devRef .tc main_arg24) :=
  href_opsP_eq (F := F) ▸ href_kept_argP24 V
theorem href_kept_arg25 (V : Valuation τ sig (Elt F)) : after ops V (Proc.devRef .tc main_arg25) = V (Proc.devRef .tc main_arg25) :=
  href_opsP_eq (F := F) ▸ href_kept_argP25 V
theorem href_kept_arg26 (V : Valuation τ sig (Elt F)) : after ops V (Proc.devRef .tc main_arg26) = V (Proc.devRef .tc main_arg26) :=
  href_opsP_eq (F := F) ▸ href_kept_argP26 V
theorem href_kept_arg27 (V : Valuation τ sig (Elt F)) : after ops V (Proc.devRef .tc main_arg27) = V (Proc.devRef .tc main_arg27) :=
  href_opsP_eq (F := F) ▸ href_kept_argP27 V
theorem href_kept_arg28 (V : Valuation τ sig (Elt F)) : after ops V (Proc.devRef .tc main_arg28) = V (Proc.devRef .tc main_arg28) :=
  href_opsP_eq (F := F) ▸ href_kept_argP28 V
theorem href_kept_arg29 (V : Valuation τ sig (Elt F)) : after ops V (Proc.devRef .tc main_arg29) = V (Proc.devRef .tc main_arg29) :=
  href_opsP_eq (F := F) ▸ href_kept_argP29 V
theorem href_kept_arg30 (V : Valuation τ sig (Elt F)) : after ops V (Proc.devRef .tc main_arg30) = V (Proc.devRef .tc main_arg30) :=
  href_opsP_eq (F := F) ▸ href_kept_argP30 V
theorem href_kept_arg31 (V : Valuation τ sig (Elt F)) : after ops V (Proc.devRef .tc main_arg31) = V (Proc.devRef .tc main_arg31) :=
  href_opsP_eq (F := F) ▸ href_kept_argP31 V
theorem href_kept_arg32 (V : Valuation τ sig (Elt F)) : after ops V (Proc.devRef .tc main_arg32) = V (Proc.devRef .tc main_arg32) :=
  href_opsP_eq (F := F) ▸ href_kept_argP32 V
theorem href_kept_arg33 (V : Valuation τ sig (Elt F)) : after ops V (Proc.devRef .tc main_arg33) = V (Proc.devRef .tc main_arg33) :=
  href_opsP_eq (F := F) ▸ href_kept_argP33 V

/-- On every device, for any float values, from any memory with zero counters: every weakly fair execution of @main
    terminates, and every final state has each TensorCore buffer at the fold of the 600 operations over its launch contents. -/
theorem href_run_rawP (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after href_opsP (launchContents m d) (Proc.devRef .tc b) :=
  run_seq scopedRefs_eq scopedSems_eq defs main (fun _ => href_opsP) href_main_eqP (fun _ => href_opsP_sub) m ρ (fun _ => href_opsP_fresh)

/-- On every device, for any float values, from any memory with zero counters: every weakly fair execution of @main
    terminates with the result buffer at the fold of the 600 operations over the launch contents, and every argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v459) = after ops (fun b => m (c, b)) (Proc.devRef .tc main_v459)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33) :=
  (θ_run defs _ _).mono (fun _ h c =>
    ⟨(h c main_v459).trans (congrArg (fun l => after l (fun b => m (c, b)) (Proc.devRef .tc main_v459)) href_opsP_eq),
      (h c main_arg0).trans (href_kept_argP0 _),
      (h c main_arg1).trans (href_kept_argP1 _),
      (h c main_arg2).trans (href_kept_argP2 _),
      (h c main_arg3).trans (href_kept_argP3 _),
      (h c main_arg4).trans (href_kept_argP4 _),
      (h c main_arg5).trans (href_kept_argP5 _),
      (h c main_arg6).trans (href_kept_argP6 _),
      (h c main_arg7).trans (href_kept_argP7 _),
      (h c main_arg8).trans (href_kept_argP8 _),
      (h c main_arg9).trans (href_kept_argP9 _),
      (h c main_arg10).trans (href_kept_argP10 _),
      (h c main_arg11).trans (href_kept_argP11 _),
      (h c main_arg12).trans (href_kept_argP12 _),
      (h c main_arg13).trans (href_kept_argP13 _),
      (h c main_arg14).trans (href_kept_argP14 _),
      (h c main_arg15).trans (href_kept_argP15 _),
      (h c main_arg16).trans (href_kept_argP16 _),
      (h c main_arg17).trans (href_kept_argP17 _),
      (h c main_arg18).trans (href_kept_argP18 _),
      (h c main_arg19).trans (href_kept_argP19 _),
      (h c main_arg20).trans (href_kept_argP20 _),
      (h c main_arg21).trans (href_kept_argP21 _),
      (h c main_arg22).trans (href_kept_argP22 _),
      (h c main_arg23).trans (href_kept_argP23 _),
      (h c main_arg24).trans (href_kept_argP24 _),
      (h c main_arg25).trans (href_kept_argP25 _),
      (h c main_arg26).trans (href_kept_argP26 _),
      (h c main_arg27).trans (href_kept_argP27 _),
      (h c main_arg28).trans (href_kept_argP28 _),
      (h c main_arg29).trans (href_kept_argP29 _),
      (h c main_arg30).trans (href_kept_argP30 _),
      (h c main_arg31).trans (href_kept_argP31 _),
      (h c main_arg32).trans (href_kept_argP32 _),
      (h c main_arg33).trans (href_kept_argP33 _)⟩)
    (href_run_rawP m ρ)

end Cert.ReferenceIdeal.Hand

end
-- ==== Proof.Net.lean ====
/-
  The network between the dense layers, as functions of arrays.

  Both programs apply the same host operations between their dense layers: slices of the edge list, index
  normalisation, gathers of rows, sums of rows into segments with their counts, the division by the count, slices of
  the stacked weights. Each function G_n below is one stretch of those operations, from the arrays it reads to the
  array it produces, written once; gv_n is the same array as a function of the program's arguments alone. Both
  programs' runs are read against these.
-/
import proofs.«141679_j61469571940402_1_alg».proof.Proof.Gen.ReferenceIdeal

set_option maxRecDepth 3048

noncomputable section

namespace Cert.Net

open Idealize.ShloMosaic Cert.ReferenceIdeal Cert.ReferenceIdeal.Gen

variable {F : FTy → Type} [FloatOps F]

def G_0 (x0 : (⟨S2x600000, .i32⟩ : BufTy).Contents (Elt F)) : (⟨S600000, .i32⟩ : BufTy).Contents (Elt F) :=
  (fun i => shapeCast S600000 ((extractStridedSlice S1x600000 ![0, 0] · slices_S2x600000_S1x600000_0_0) x0) shapeCasts_S1x600000_S600000 i)

def G_1 (x0 : (⟨S2x600000, .i32⟩ : BufTy).Contents (Elt F)) : (⟨S600000, .i32⟩ : BufTy).Contents (Elt F) :=
  (fun i => shapeCast S600000 ((extractStridedSlice S1x600000 ![1, 0] · slices_S2x600000_S1x600000_1_0) x0) shapeCasts_S1x600000_S600000 i)

def G_2  : (⟨S_, .i32⟩ : BufTy).Contents (Elt F) :=
  (constantI S_ 32 40#32)

def G_3 (x0 : (⟨S100000, .i32⟩ : BufTy).Contents (Elt F)) (x1 : (⟨S100000, .i32⟩ : BufTy).Contents (Elt F)) (x2 : (⟨S_, .i32⟩ : BufTy).Contents (Elt F)) : (⟨S100000, .i32⟩ : BufTy).Contents (Elt F) :=
  (addi x0 (muli x1 ((broadcastInDim S100000 ![] bcast_S_S100000) x2)))

def G_4  : (⟨S2000, .i32⟩ : BufTy).Contents (Elt F) :=
  (iotaInDim S2000 32 0)

def G_5 (x0 : (⟨S2000, .i32⟩ : BufTy).Contents (Elt F)) (x1 : (⟨S_, .i32⟩ : BufTy).Contents (Elt F)) (x2 : (⟨S2000, .i32⟩ : BufTy).Contents (Elt F)) (x3 : (⟨S_, .i32⟩ : BufTy).Contents (Elt F)) (x4 : (⟨S2000, .i32⟩ : BufTy).Contents (Elt F)) (x5 : (⟨S_, .i32⟩ : BufTy).Contents (Elt F)) (x6 : (⟨S2000, .i32⟩ : BufTy).Contents (Elt F)) (x7 : (⟨S_, .i32⟩ : BufTy).Contents (Elt F)) : (⟨S2000, .i32⟩ : BufTy).Contents (Elt F) :=
  (select (andi ((cmpi .ne) (signi x0) ((broadcastInDim S2000 ![] bcast_S_S2000) (signi (id x1)))) ((cmpi .ne) (Host.remsi x2 ((broadcastInDim S2000 ![] bcast_S_S2000) (id x3))) ((broadcastInDim S2000 ![] bcast_S_S2000) (constantI S_ 32 0#32)))) (subi (Host.divsi x4 ((broadcastInDim S2000 ![] bcast_S_S2000) (id x5))) ((broadcastInDim S2000 ![] bcast_S_S2000) (constantI S_ 32 1#32))) (Host.divsi x6 ((broadcastInDim S2000 ![] bcast_S_S2000) (id x7))))

def G_6 (x0 : (⟨S100000x64, .f32⟩ : BufTy).Contents (Elt F)) (x1 : (⟨S64x128, .f32⟩ : BufTy).Contents (Elt F)) (x2 : (⟨S128, .f32⟩ : BufTy).Contents (Elt F)) : (⟨S100000x128, .f32⟩ : BufTy).Contents (Elt F) :=
  (maximumf (addf ((fun l r => Host.dotGeneral dot_S100000x64_S64x128_S100000x128_1_0_0_1_n_n none l r) x0 x1) ((broadcastInDim S100000x128 ![0, 1] bcast_S1x128_S100000x128_0_1) ((broadcastInDim S1x128 ![1] bcast_S128_S1x128_1) x2))) ((broadcastInDim S100000x128 ![] bcast_S_S100000x128) (constant S_ .f32 0x00000000#32)))

def G_7  : (⟨S2000x128, .f32⟩ : BufTy).Contents (Elt F) :=
  ((broadcastInDim S2000x128 ![] bcast_S_S2000x128) (constant S_ .f32 0x00000000#32))

def G_8  : (⟨S50x128, .f32⟩ : BufTy).Contents (Elt F) :=
  ((broadcastInDim S50x128 ![] bcast_S_S50x128) (constant S_ .f32 0x00000000#32))

def G_9 (x0 : (⟨S600000, .i32⟩ : BufTy).Contents (Elt F)) (x1 : (⟨S100000x128, .f32⟩ : BufTy).Contents (Elt F)) (x2 : (⟨S600000, .i32⟩ : BufTy).Contents (Elt F)) (x3 : (⟨S600000, .i32⟩ : BufTy).Contents (Elt F)) (x4 : (⟨S600000, .i32⟩ : BufTy).Contents (Elt F)) (x5 : (⟨S600000, .i32⟩ : BufTy).Contents (Elt F)) : (⟨S100000x128, .f32⟩ : BufTy).Contents (Elt F) :=
  (Host.divf ((fun x i u => Host.scatterAdd scatter_S100000x128_S600000x1_S600000x128_1_0_0_1 x i u) ((broadcastInDim S100000x128 ![] bcast_S_S100000x128) (constant S_ .f32 0x00000000#32)) ((broadcastInDim S600000x1 ![0] bcast_S600000_S600000x1_0) x0) ((fun x i => Host.gather gather_S100000x128_S600000x1_S600000x128_1_0_n_n_0_1_1128 x i) x1 ((broadcastInDim S600000x1 ![0] bcast_S600000_S600000x1_0) (select ((cmpi .slt) x2 ((broadcastInDim S600000 ![] bcast_S_S600000) (constantI S_ 32 0#32))) (addi x3 ((broadcastInDim S600000 ![] bcast_S_S600000) (constantI S_ 32 100000#32))) x4)))) ((broadcastInDim S100000x128 ![0, 1] bcast_S100000x1_S100000x128_0_1) (maximumf ((fun x i u => Host.scatterAdd scatter_S100000x1_S600000x1_S600000x1_1_0_0_1 x i u) ((broadcastInDim S100000x1 ![] bcast_S_S100000x1) (constant S_ .f32 0x00000000#32)) ((broadcastInDim S600000x1 ![0] bcast_S600000_S600000x1_0) x5) ((broadcastInDim S600000x1 ![] bcast_S_S600000x1) (constant S_ .f32 0x3F800000#32))) ((broadcastInDim S100000x1 ![] bcast_S_S100000x1) (constant S_ .f32 0x3F800000#32)))))

def G_10 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_11 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_12 (x0 : (⟨S2x128, .f32⟩ : BufTy).Contents (Elt F)) : (⟨S128, .f32⟩ : BufTy).Contents (Elt F) :=
  (fun i => shapeCast S128 ((extractStridedSlice S1x128 ![0, 0] · slices_S2x128_S1x128_0_0) x0) shapeCasts_S1x128_S128 i)

def G_13 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_14 (x0 : (⟨S600000, .i32⟩ : BufTy).Contents (Elt F)) (x1 : (⟨S100000x128, .f32⟩ : BufTy).Contents (Elt F)) (x2 : (⟨S600000, .i32⟩ : BufTy).Contents (Elt F)) (x3 : (⟨S600000, .i32⟩ : BufTy).Contents (Elt F)) (x4 : (⟨S600000, .i32⟩ : BufTy).Contents (Elt F)) (x5 : (⟨S600000, .i32⟩ : BufTy).Contents (Elt F)) : (⟨S100000x128, .f32⟩ : BufTy).Contents (Elt F) :=
  (Host.divf ((fun x i u => Host.scatterAdd scatter_S100000x128_S600000x1_S600000x128_1_0_0_1 x i u) ((broadcastInDim S100000x128 ![] bcast_S_S100000x128) (constant S_ .f32 0x00000000#32)) ((broadcastInDim S600000x1 ![0] bcast_S600000_S600000x1_0) x0) ((fun x i => Host.gather gather_S100000x128_S600000x1_S600000x128_1_0_n_n_0_1_1128 x i) x1 ((broadcastInDim S600000x1 ![0] bcast_S600000_S600000x1_0) (select ((cmpi .slt) x2 ((broadcastInDim S600000 ![] bcast_S_S600000) (constantI S_ 32 0#32))) (addi x3 ((broadcastInDim S600000 ![] bcast_S_S600000) (constantI S_ 32 100000#32))) x4)))) ((broadcastInDim S100000x128 ![0, 1] bcast_S100000x1_S100000x128_0_1) (maximumf ((fun x i u => Host.scatterAdd scatter_S100000x1_S600000x1_S600000x1_1_0_0_1 x i u) ((broadcastInDim S100000x1 ![] bcast_S_S100000x1) (constant S_ .f32 0x00000000#32)) ((broadcastInDim S600000x1 ![0] bcast_S600000_S600000x1_0) x5) ((broadcastInDim S600000x1 ![] bcast_S_S600000x1) (constant S_ .f32 0x3F800000#32))) ((broadcastInDim S100000x1 ![] bcast_S_S100000x1) (constant S_ .f32 0x3F800000#32)))))

def G_15 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_16 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_17 (x0 : (⟨S2x128, .f32⟩ : BufTy).Contents (Elt F)) : (⟨S128, .f32⟩ : BufTy).Contents (Elt F) :=
  (fun i => shapeCast S128 ((extractStridedSlice S1x128 ![1, 0] · slices_S2x128_S1x128_1_0) x0) shapeCasts_S1x128_S128 i)

def G_18 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_19 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_20 (x0 : (⟨S2x128, .f32⟩ : BufTy).Contents (Elt F)) : (⟨S128, .f32⟩ : BufTy).Contents (Elt F) :=
  (fun i => shapeCast S128 ((extractStridedSlice S1x128 ![0, 0] · slices_S2x128_S1x128_0_0) x0) shapeCasts_S1x128_S128 i)

def G_21 (x0 : (⟨S2000x128, .f32⟩ : BufTy).Contents (Elt F)) (x1 : (⟨S128x128, .f32⟩ : BufTy).Contents (Elt F)) (x2 : (⟨S128, .f32⟩ : BufTy).Contents (Elt F)) (x3 : (⟨S2000x128, .f32⟩ : BufTy).Contents (Elt F)) : (⟨S2000x128, .f32⟩ : BufTy).Contents (Elt F) :=
  (maximumf (addf ((fun l r => Host.dotGeneral dot_S2000x128_S128x128_S2000x128_1_0_0_1_n_n none l r) x0 x1) ((broadcastInDim S2000x128 ![0, 1] bcast_S1x128_S2000x128_0_1) ((broadcastInDim S1x128 ![1] bcast_S128_S1x128_1) x2))) x3)

def G_22 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_23 (x0 : (⟨S2x128, .f32⟩ : BufTy).Contents (Elt F)) : (⟨S128, .f32⟩ : BufTy).Contents (Elt F) :=
  (fun i => shapeCast S128 ((extractStridedSlice S1x128 ![1, 0] · slices_S2x128_S1x128_1_0) x0) shapeCasts_S1x128_S128 i)

def G_24 (x0 : (⟨S2000x128, .f32⟩ : BufTy).Contents (Elt F)) (x1 : (⟨S128x128, .f32⟩ : BufTy).Contents (Elt F)) (x2 : (⟨S128, .f32⟩ : BufTy).Contents (Elt F)) (x3 : (⟨S2000x128, .f32⟩ : BufTy).Contents (Elt F)) : (⟨S2000x128, .f32⟩ : BufTy).Contents (Elt F) :=
  (maximumf (addf ((fun l r => Host.dotGeneral dot_S2000x128_S128x128_S2000x128_1_0_0_1_n_n none l r) x0 x1) ((broadcastInDim S2000x128 ![0, 1] bcast_S1x128_S2000x128_0_1) ((broadcastInDim S1x128 ![1] bcast_S128_S1x128_1) x2))) x3)

def G_25 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_26 (x0 : (⟨S2x128, .f32⟩ : BufTy).Contents (Elt F)) : (⟨S128, .f32⟩ : BufTy).Contents (Elt F) :=
  (fun i => shapeCast S128 ((extractStridedSlice S1x128 ![0, 0] · slices_S2x128_S1x128_0_0) x0) shapeCasts_S1x128_S128 i)

def G_27 (x0 : (⟨S50x128, .f32⟩ : BufTy).Contents (Elt F)) (x1 : (⟨S128x128, .f32⟩ : BufTy).Contents (Elt F)) (x2 : (⟨S128, .f32⟩ : BufTy).Contents (Elt F)) (x3 : (⟨S50x128, .f32⟩ : BufTy).Contents (Elt F)) : (⟨S50x128, .f32⟩ : BufTy).Contents (Elt F) :=
  (maximumf (addf ((fun l r => Host.dotGeneral dot_S50x128_S128x128_S50x128_1_0_0_1_n_n none l r) x0 x1) ((broadcastInDim S50x128 ![0, 1] bcast_S1x128_S50x128_0_1) ((broadcastInDim S1x128 ![1] bcast_S128_S1x128_1) x2))) x3)

def G_28 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_29 (x0 : (⟨S2x128, .f32⟩ : BufTy).Contents (Elt F)) : (⟨S128, .f32⟩ : BufTy).Contents (Elt F) :=
  (fun i => shapeCast S128 ((extractStridedSlice S1x128 ![1, 0] · slices_S2x128_S1x128_1_0) x0) shapeCasts_S1x128_S128 i)

def G_30 (x0 : (⟨S50x128, .f32⟩ : BufTy).Contents (Elt F)) (x1 : (⟨S128x128, .f32⟩ : BufTy).Contents (Elt F)) (x2 : (⟨S128, .f32⟩ : BufTy).Contents (Elt F)) (x3 : (⟨S50x128, .f32⟩ : BufTy).Contents (Elt F)) : (⟨S50x128, .f32⟩ : BufTy).Contents (Elt F) :=
  (maximumf (addf ((fun l r => Host.dotGeneral dot_S50x128_S128x128_S50x128_1_0_0_1_n_n none l r) x0 x1) ((broadcastInDim S50x128 ![0, 1] bcast_S1x128_S50x128_0_1) ((broadcastInDim S1x128 ![1] bcast_S128_S1x128_1) x2))) x3)

def G_31 (x0 : (⟨S2000x128, .f32⟩ : BufTy).Contents (Elt F)) (x1 : (⟨S100000, .i32⟩ : BufTy).Contents (Elt F)) (x2 : (⟨S100000x128, .f32⟩ : BufTy).Contents (Elt F)) (x3 : (⟨S100000, .i32⟩ : BufTy).Contents (Elt F)) : (⟨S2000x128, .f32⟩ : BufTy).Contents (Elt F) :=
  (Host.divf ((fun x i u => Host.scatterAdd scatter_S2000x128_S100000x1_S100000x128_1_0_0_1 x i u) x0 ((broadcastInDim S100000x1 ![0] bcast_S100000_S100000x1_0) x1) x2) ((broadcastInDim S2000x128 ![0, 1] bcast_S2000x1_S2000x128_0_1) (maximumf ((fun x i u => Host.scatterAdd scatter_S2000x1_S100000x1_S100000x1_1_0_0_1 x i u) ((broadcastInDim S2000x1 ![] bcast_S_S2000x1) (constant S_ .f32 0x00000000#32)) ((broadcastInDim S100000x1 ![0] bcast_S100000_S100000x1_0) x3) ((broadcastInDim S100000x1 ![] bcast_S_S100000x1) (constant S_ .f32 0x3F800000#32))) ((broadcastInDim S2000x1 ![] bcast_S_S2000x1) (constant S_ .f32 0x3F800000#32)))))

def G_32 (x0 : (⟨S50x128, .f32⟩ : BufTy).Contents (Elt F)) (x1 : (⟨S2000, .i32⟩ : BufTy).Contents (Elt F)) (x2 : (⟨S2000x128, .f32⟩ : BufTy).Contents (Elt F)) (x3 : (⟨S2000, .i32⟩ : BufTy).Contents (Elt F)) : (⟨S50x128, .f32⟩ : BufTy).Contents (Elt F) :=
  (Host.divf ((fun x i u => Host.scatterAdd scatter_S50x128_S2000x1_S2000x128_1_0_0_1 x i u) x0 ((broadcastInDim S2000x1 ![0] bcast_S2000_S2000x1_0) x1) x2) ((broadcastInDim S50x128 ![0, 1] bcast_S50x1_S50x128_0_1) (maximumf ((fun x i u => Host.scatterAdd scatter_S50x1_S2000x1_S2000x1_1_0_0_1 x i u) ((broadcastInDim S50x1 ![] bcast_S_S50x1) (constant S_ .f32 0x00000000#32)) ((broadcastInDim S2000x1 ![0] bcast_S2000_S2000x1_0) x3) ((broadcastInDim S2000x1 ![] bcast_S_S2000x1) (constant S_ .f32 0x3F800000#32))) ((broadcastInDim S50x1 ![] bcast_S_S50x1) (constant S_ .f32 0x3F800000#32)))))

def G_33 (x0 : (⟨S2000x128, .f32⟩ : BufTy).Contents (Elt F)) (x1 : (⟨S100000, .i32⟩ : BufTy).Contents (Elt F)) (x2 : (⟨S100000, .i32⟩ : BufTy).Contents (Elt F)) (x3 : (⟨S100000, .i32⟩ : BufTy).Contents (Elt F)) : (⟨S100000x128, .f32⟩ : BufTy).Contents (Elt F) :=
  ((fun x i => Host.gather gather_S2000x128_S100000x1_S100000x128_1_0_n_n_0_1_1128 x i) x0 ((broadcastInDim S100000x1 ![0] bcast_S100000_S100000x1_0) (select ((cmpi .slt) x1 ((broadcastInDim S100000 ![] bcast_S_S100000) (constantI S_ 32 0#32))) (addi x2 ((broadcastInDim S100000 ![] bcast_S_S100000) (constantI S_ 32 2000#32))) x3)))

def G_34 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_35 (x0 : (⟨S50x128, .f32⟩ : BufTy).Contents (Elt F)) (x1 : (⟨S2000, .i32⟩ : BufTy).Contents (Elt F)) (x2 : (⟨S2000, .i32⟩ : BufTy).Contents (Elt F)) (x3 : (⟨S2000, .i32⟩ : BufTy).Contents (Elt F)) : (⟨S2000x128, .f32⟩ : BufTy).Contents (Elt F) :=
  ((fun x i => Host.gather gather_S50x128_S2000x1_S2000x128_1_0_n_n_0_1_1128 x i) x0 ((broadcastInDim S2000x1 ![0] bcast_S2000_S2000x1_0) (select ((cmpi .slt) x1 ((broadcastInDim S2000 ![] bcast_S_S2000) (constantI S_ 32 0#32))) (addi x2 ((broadcastInDim S2000 ![] bcast_S_S2000) (constantI S_ 32 50#32))) x3)))

def G_36 (x0 : (⟨S2000x128, .f32⟩ : BufTy).Contents (Elt F)) (x1 : (⟨S128x128, .f32⟩ : BufTy).Contents (Elt F)) (x2 : (⟨S2000x128, .f32⟩ : BufTy).Contents (Elt F)) (x3 : (⟨S128x128, .f32⟩ : BufTy).Contents (Elt F)) (x4 : (⟨S2000x128, .f32⟩ : BufTy).Contents (Elt F)) (x5 : (⟨S128x128, .f32⟩ : BufTy).Contents (Elt F)) (x6 : (⟨S128, .f32⟩ : BufTy).Contents (Elt F)) (x7 : (⟨S2000x128, .f32⟩ : BufTy).Contents (Elt F)) : (⟨S2000x128, .f32⟩ : BufTy).Contents (Elt F) :=
  (maximumf (addf (addf (addf ((fun l r => Host.dotGeneral dot_S2000x128_S128x128_S2000x128_1_0_0_1_n_n none l r) x0 x1) ((fun l r => Host.dotGeneral dot_S2000x128_S128x128_S2000x128_1_0_0_1_n_n none l r) x2 x3)) ((fun l r => Host.dotGeneral dot_S2000x128_S128x128_S2000x128_1_0_0_1_n_n none l r) x4 x5)) ((broadcastInDim S2000x128 ![0, 1] bcast_S1x128_S2000x128_0_1) ((broadcastInDim S1x128 ![1] bcast_S128_S1x128_1) x6))) x7)

def G_37 (x0 : (⟨S50x128, .f32⟩ : BufTy).Contents (Elt F)) (x1 : (⟨S128x128, .f32⟩ : BufTy).Contents (Elt F)) (x2 : (⟨S50x128, .f32⟩ : BufTy).Contents (Elt F)) (x3 : (⟨S128x128, .f32⟩ : BufTy).Contents (Elt F)) (x4 : (⟨S128, .f32⟩ : BufTy).Contents (Elt F)) (x5 : (⟨S50x128, .f32⟩ : BufTy).Contents (Elt F)) : (⟨S50x128, .f32⟩ : BufTy).Contents (Elt F) :=
  (maximumf (addf (addf ((fun l r => Host.dotGeneral dot_S50x128_S128x128_S50x128_1_0_0_1_n_n none l r) x0 x1) ((fun l r => Host.dotGeneral dot_S50x128_S128x128_S50x128_1_0_0_1_n_n none l r) x2 x3)) ((broadcastInDim S50x128 ![0, 1] bcast_S1x128_S50x128_0_1) ((broadcastInDim S1x128 ![1] bcast_S128_S1x128_1) x4))) x5)

def G_38 (x0 : (⟨S600000, .i32⟩ : BufTy).Contents (Elt F)) (x1 : (⟨S100000x128, .f32⟩ : BufTy).Contents (Elt F)) (x2 : (⟨S600000, .i32⟩ : BufTy).Contents (Elt F)) (x3 : (⟨S600000, .i32⟩ : BufTy).Contents (Elt F)) (x4 : (⟨S600000, .i32⟩ : BufTy).Contents (Elt F)) (x5 : (⟨S600000, .i32⟩ : BufTy).Contents (Elt F)) : (⟨S100000x128, .f32⟩ : BufTy).Contents (Elt F) :=
  (Host.divf ((fun x i u => Host.scatterAdd scatter_S100000x128_S600000x1_S600000x128_1_0_0_1 x i u) ((broadcastInDim S100000x128 ![] bcast_S_S100000x128) (constant S_ .f32 0x00000000#32)) ((broadcastInDim S600000x1 ![0] bcast_S600000_S600000x1_0) x0) ((fun x i => Host.gather gather_S100000x128_S600000x1_S600000x128_1_0_n_n_0_1_1128 x i) x1 ((broadcastInDim S600000x1 ![0] bcast_S600000_S600000x1_0) (select ((cmpi .slt) x2 ((broadcastInDim S600000 ![] bcast_S_S600000) (constantI S_ 32 0#32))) (addi x3 ((broadcastInDim S600000 ![] bcast_S_S600000) (constantI S_ 32 100000#32))) x4)))) ((broadcastInDim S100000x128 ![0, 1] bcast_S100000x1_S100000x128_0_1) (maximumf ((fun x i u => Host.scatterAdd scatter_S100000x1_S600000x1_S600000x1_1_0_0_1 x i u) ((broadcastInDim S100000x1 ![] bcast_S_S100000x1) (constant S_ .f32 0x00000000#32)) ((broadcastInDim S600000x1 ![0] bcast_S600000_S600000x1_0) x5) ((broadcastInDim S600000x1 ![] bcast_S_S600000x1) (constant S_ .f32 0x3F800000#32))) ((broadcastInDim S100000x1 ![] bcast_S_S100000x1) (constant S_ .f32 0x3F800000#32)))))

def G_39 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_40 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_41 (x0 : (⟨S2x128, .f32⟩ : BufTy).Contents (Elt F)) : (⟨S128, .f32⟩ : BufTy).Contents (Elt F) :=
  (fun i => shapeCast S128 ((extractStridedSlice S1x128 ![0, 0] · slices_S2x128_S1x128_0_0) x0) shapeCasts_S1x128_S128 i)

def G_42 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_43 (x0 : (⟨S600000, .i32⟩ : BufTy).Contents (Elt F)) (x1 : (⟨S100000x128, .f32⟩ : BufTy).Contents (Elt F)) (x2 : (⟨S600000, .i32⟩ : BufTy).Contents (Elt F)) (x3 : (⟨S600000, .i32⟩ : BufTy).Contents (Elt F)) (x4 : (⟨S600000, .i32⟩ : BufTy).Contents (Elt F)) (x5 : (⟨S600000, .i32⟩ : BufTy).Contents (Elt F)) : (⟨S100000x128, .f32⟩ : BufTy).Contents (Elt F) :=
  (Host.divf ((fun x i u => Host.scatterAdd scatter_S100000x128_S600000x1_S600000x128_1_0_0_1 x i u) ((broadcastInDim S100000x128 ![] bcast_S_S100000x128) (constant S_ .f32 0x00000000#32)) ((broadcastInDim S600000x1 ![0] bcast_S600000_S600000x1_0) x0) ((fun x i => Host.gather gather_S100000x128_S600000x1_S600000x128_1_0_n_n_0_1_1128 x i) x1 ((broadcastInDim S600000x1 ![0] bcast_S600000_S600000x1_0) (select ((cmpi .slt) x2 ((broadcastInDim S600000 ![] bcast_S_S600000) (constantI S_ 32 0#32))) (addi x3 ((broadcastInDim S600000 ![] bcast_S_S600000) (constantI S_ 32 100000#32))) x4)))) ((broadcastInDim S100000x128 ![0, 1] bcast_S100000x1_S100000x128_0_1) (maximumf ((fun x i u => Host.scatterAdd scatter_S100000x1_S600000x1_S600000x1_1_0_0_1 x i u) ((broadcastInDim S100000x1 ![] bcast_S_S100000x1) (constant S_ .f32 0x00000000#32)) ((broadcastInDim S600000x1 ![0] bcast_S600000_S600000x1_0) x5) ((broadcastInDim S600000x1 ![] bcast_S_S600000x1) (constant S_ .f32 0x3F800000#32))) ((broadcastInDim S100000x1 ![] bcast_S_S100000x1) (constant S_ .f32 0x3F800000#32)))))

def G_44 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_45 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_46 (x0 : (⟨S2x128, .f32⟩ : BufTy).Contents (Elt F)) : (⟨S128, .f32⟩ : BufTy).Contents (Elt F) :=
  (fun i => shapeCast S128 ((extractStridedSlice S1x128 ![1, 0] · slices_S2x128_S1x128_1_0) x0) shapeCasts_S1x128_S128 i)

def G_47 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_48 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_49 (x0 : (⟨S2x128, .f32⟩ : BufTy).Contents (Elt F)) : (⟨S128, .f32⟩ : BufTy).Contents (Elt F) :=
  (fun i => shapeCast S128 ((extractStridedSlice S1x128 ![0, 0] · slices_S2x128_S1x128_0_0) x0) shapeCasts_S1x128_S128 i)

def G_50 (x0 : (⟨S2000x128, .f32⟩ : BufTy).Contents (Elt F)) (x1 : (⟨S128x128, .f32⟩ : BufTy).Contents (Elt F)) (x2 : (⟨S128, .f32⟩ : BufTy).Contents (Elt F)) (x3 : (⟨S2000x128, .f32⟩ : BufTy).Contents (Elt F)) : (⟨S2000x128, .f32⟩ : BufTy).Contents (Elt F) :=
  (maximumf (addf ((fun l r => Host.dotGeneral dot_S2000x128_S128x128_S2000x128_1_0_0_1_n_n none l r) x0 x1) ((broadcastInDim S2000x128 ![0, 1] bcast_S1x128_S2000x128_0_1) ((broadcastInDim S1x128 ![1] bcast_S128_S1x128_1) x2))) x3)

def G_51 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_52 (x0 : (⟨S2x128, .f32⟩ : BufTy).Contents (Elt F)) : (⟨S128, .f32⟩ : BufTy).Contents (Elt F) :=
  (fun i => shapeCast S128 ((extractStridedSlice S1x128 ![1, 0] · slices_S2x128_S1x128_1_0) x0) shapeCasts_S1x128_S128 i)

def G_53 (x0 : (⟨S2000x128, .f32⟩ : BufTy).Contents (Elt F)) (x1 : (⟨S128x128, .f32⟩ : BufTy).Contents (Elt F)) (x2 : (⟨S128, .f32⟩ : BufTy).Contents (Elt F)) (x3 : (⟨S2000x128, .f32⟩ : BufTy).Contents (Elt F)) : (⟨S2000x128, .f32⟩ : BufTy).Contents (Elt F) :=
  (maximumf (addf ((fun l r => Host.dotGeneral dot_S2000x128_S128x128_S2000x128_1_0_0_1_n_n none l r) x0 x1) ((broadcastInDim S2000x128 ![0, 1] bcast_S1x128_S2000x128_0_1) ((broadcastInDim S1x128 ![1] bcast_S128_S1x128_1) x2))) x3)

def G_54 (x0 : (⟨S2x128x128, .f32⟩ : BufTy).Contents (Elt F)) : (⟨S128x128, .f32⟩ : BufTy).Contents (Elt F) :=
  (fun i => shapeCast S128x128 ((extractStridedSlice S1x128x128 ![0, 0, 0] · slices_S2x128x128_S1x128x128_0_0_0) x0) shapeCasts_S1x128x128_S128x128 i)

def G_55 (x0 : (⟨S2x128, .f32⟩ : BufTy).Contents (Elt F)) : (⟨S128, .f32⟩ : BufTy).Contents (Elt F) :=
  (fun i => shapeCast S128 ((extractStridedSlice S1x128 ![0, 0] · slices_S2x128_S1x128_0_0) x0) shapeCasts_S1x128_S128 i)

def G_56 (x0 : (⟨S50x128, .f32⟩ : BufTy).Contents (Elt F)) (x1 : (⟨S128x128, .f32⟩ : BufTy).Contents (Elt F)) (x2 : (⟨S128, .f32⟩ : BufTy).Contents (Elt F)) (x3 : (⟨S50x128, .f32⟩ : BufTy).Contents (Elt F)) : (⟨S50x128, .f32⟩ : BufTy).Contents (Elt F) :=
  (maximumf (addf ((fun l r => Host.dotGeneral dot_S50x128_S128x128_S50x128_1_0_0_1_n_n none l r) x0 x1) ((broadcastInDim S50x128 ![0, 1] bcast_S1x128_S50x128_0_1) ((broadcastInDim S1x128 ![1] bcast_S128_S1x128_1) x2))) x3)

def G_57 (x0 : (⟨S2x128x128, .f32⟩ : BufTy).Contents (Elt F)) : (⟨S128x128, .f32⟩ : BufTy).Contents (Elt F) :=
  (fun i => shapeCast S128x128 ((extractStridedSlice S1x128x128 ![1, 0, 0] · slices_S2x128x128_S1x128x128_1_0_0) x0) shapeCasts_S1x128x128_S128x128 i)

def G_58 (x0 : (⟨S2x128, .f32⟩ : BufTy).Contents (Elt F)) : (⟨S128, .f32⟩ : BufTy).Contents (Elt F) :=
  (fun i => shapeCast S128 ((extractStridedSlice S1x128 ![1, 0] · slices_S2x128_S1x128_1_0) x0) shapeCasts_S1x128_S128 i)

def G_59 (x0 : (⟨S50x128, .f32⟩ : BufTy).Contents (Elt F)) (x1 : (⟨S128x128, .f32⟩ : BufTy).Contents (Elt F)) (x2 : (⟨S128, .f32⟩ : BufTy).Contents (Elt F)) (x3 : (⟨S50x128, .f32⟩ : BufTy).Contents (Elt F)) : (⟨S50x128, .f32⟩ : BufTy).Contents (Elt F) :=
  (maximumf (addf ((fun l r => Host.dotGeneral dot_S50x128_S128x128_S50x128_1_0_0_1_n_n none l r) x0 x1) ((broadcastInDim S50x128 ![0, 1] bcast_S1x128_S50x128_0_1) ((broadcastInDim S1x128 ![1] bcast_S128_S1x128_1) x2))) x3)

def G_60 (x0 : (⟨S2000x128, .f32⟩ : BufTy).Contents (Elt F)) (x1 : (⟨S100000, .i32⟩ : BufTy).Contents (Elt F)) (x2 : (⟨S100000x128, .f32⟩ : BufTy).Contents (Elt F)) (x3 : (⟨S100000, .i32⟩ : BufTy).Contents (Elt F)) : (⟨S2000x128, .f32⟩ : BufTy).Contents (Elt F) :=
  (Host.divf ((fun x i u => Host.scatterAdd scatter_S2000x128_S100000x1_S100000x128_1_0_0_1 x i u) x0 ((broadcastInDim S100000x1 ![0] bcast_S100000_S100000x1_0) x1) x2) ((broadcastInDim S2000x128 ![0, 1] bcast_S2000x1_S2000x128_0_1) (maximumf ((fun x i u => Host.scatterAdd scatter_S2000x1_S100000x1_S100000x1_1_0_0_1 x i u) ((broadcastInDim S2000x1 ![] bcast_S_S2000x1) (constant S_ .f32 0x00000000#32)) ((broadcastInDim S100000x1 ![0] bcast_S100000_S100000x1_0) x3) ((broadcastInDim S100000x1 ![] bcast_S_S100000x1) (constant S_ .f32 0x3F800000#32))) ((broadcastInDim S2000x1 ![] bcast_S_S2000x1) (constant S_ .f32 0x3F800000#32)))))

def G_61 (x0 : (⟨S50x128, .f32⟩ : BufTy).Contents (Elt F)) (x1 : (⟨S2000, .i32⟩ : BufTy).Contents (Elt F)) (x2 : (⟨S2000x128, .f32⟩ : BufTy).Contents (Elt F)) (x3 : (⟨S2000, .i32⟩ : BufTy).Contents (Elt F)) : (⟨S50x128, .f32⟩ : BufTy).Contents (Elt F) :=
  (Host.divf ((fun x i u => Host.scatterAdd scatter_S50x128_S2000x1_S2000x128_1_0_0_1 x i u) x0 ((broadcastInDim S2000x1 ![0] bcast_S2000_S2000x1_0) x1) x2) ((broadcastInDim S50x128 ![0, 1] bcast_S50x1_S50x128_0_1) (maximumf ((fun x i u => Host.scatterAdd scatter_S50x1_S2000x1_S2000x1_1_0_0_1 x i u) ((broadcastInDim S50x1 ![] bcast_S_S50x1) (constant S_ .f32 0x00000000#32)) ((broadcastInDim S2000x1 ![0] bcast_S2000_S2000x1_0) x3) ((broadcastInDim S2000x1 ![] bcast_S_S2000x1) (constant S_ .f32 0x3F800000#32))) ((broadcastInDim S50x1 ![] bcast_S_S50x1) (constant S_ .f32 0x3F800000#32)))))

def G_62 (x0 : (⟨S2000x128, .f32⟩ : BufTy).Contents (Elt F)) (x1 : (⟨S100000, .i32⟩ : BufTy).Contents (Elt F)) (x2 : (⟨S100000, .i32⟩ : BufTy).Contents (Elt F)) (x3 : (⟨S100000, .i32⟩ : BufTy).Contents (Elt F)) : (⟨S100000x128, .f32⟩ : BufTy).Contents (Elt F) :=
  ((fun x i => Host.gather gather_S2000x128_S100000x1_S100000x128_1_0_n_n_0_1_1128 x i) x0 ((broadcastInDim S100000x1 ![0] bcast_S100000_S100000x1_0) (select ((cmpi .slt) x1 ((broadcastInDim S100000 ![] bcast_S_S100000) (constantI S_ 32 0#32))) (addi x2 ((broadcastInDim S100000 ![] bcast_S_S100000) (constantI S_ 32 2000#32))) x3)))

def G_63 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_64 (x0 : (⟨S50x128, .f32⟩ : BufTy).Contents (Elt F)) (x1 : (⟨S2000, .i32⟩ : BufTy).Contents (Elt F)) (x2 : (⟨S2000, .i32⟩ : BufTy).Contents (Elt F)) (x3 : (⟨S2000, .i32⟩ : BufTy).Contents (Elt F)) : (⟨S2000x128, .f32⟩ : BufTy).Contents (Elt F) :=
  ((fun x i => Host.gather gather_S50x128_S2000x1_S2000x128_1_0_n_n_0_1_1128 x i) x0 ((broadcastInDim S2000x1 ![0] bcast_S2000_S2000x1_0) (select ((cmpi .slt) x1 ((broadcastInDim S2000 ![] bcast_S_S2000) (constantI S_ 32 0#32))) (addi x2 ((broadcastInDim S2000 ![] bcast_S_S2000) (constantI S_ 32 50#32))) x3)))

def G_65 (x0 : (⟨S2000x128, .f32⟩ : BufTy).Contents (Elt F)) (x1 : (⟨S128x128, .f32⟩ : BufTy).Contents (Elt F)) (x2 : (⟨S2000x128, .f32⟩ : BufTy).Contents (Elt F)) (x3 : (⟨S128x128, .f32⟩ : BufTy).Contents (Elt F)) (x4 : (⟨S2000x128, .f32⟩ : BufTy).Contents (Elt F)) (x5 : (⟨S128x128, .f32⟩ : BufTy).Contents (Elt F)) (x6 : (⟨S128, .f32⟩ : BufTy).Contents (Elt F)) (x7 : (⟨S2000x128, .f32⟩ : BufTy).Contents (Elt F)) : (⟨S2000x128, .f32⟩ : BufTy).Contents (Elt F) :=
  (maximumf (addf (addf (addf ((fun l r => Host.dotGeneral dot_S2000x128_S128x128_S2000x128_1_0_0_1_n_n none l r) x0 x1) ((fun l r => Host.dotGeneral dot_S2000x128_S128x128_S2000x128_1_0_0_1_n_n none l r) x2 x3)) ((fun l r => Host.dotGeneral dot_S2000x128_S128x128_S2000x128_1_0_0_1_n_n none l r) x4 x5)) ((broadcastInDim S2000x128 ![0, 1] bcast_S1x128_S2000x128_0_1) ((broadcastInDim S1x128 ![1] bcast_S128_S1x128_1) x6))) x7)

def G_66 (x0 : (⟨S50x128, .f32⟩ : BufTy).Contents (Elt F)) (x1 : (⟨S128x128, .f32⟩ : BufTy).Contents (Elt F)) (x2 : (⟨S50x128, .f32⟩ : BufTy).Contents (Elt F)) (x3 : (⟨S128x128, .f32⟩ : BufTy).Contents (Elt F)) (x4 : (⟨S128, .f32⟩ : BufTy).Contents (Elt F)) (x5 : (⟨S50x128, .f32⟩ : BufTy).Contents (Elt F)) : (⟨S50x128, .f32⟩ : BufTy).Contents (Elt F) :=
  (maximumf (addf (addf ((fun l r => Host.dotGeneral dot_S50x128_S128x128_S50x128_1_0_0_1_n_n none l r) x0 x1) ((fun l r => Host.dotGeneral dot_S50x128_S128x128_S50x128_1_0_0_1_n_n none l r) x2 x3)) ((broadcastInDim S50x128 ![0, 1] bcast_S1x128_S50x128_0_1) ((broadcastInDim S1x128 ![1] bcast_S128_S1x128_1) x4))) x5)

def G_67 (x0 : (⟨S600000, .i32⟩ : BufTy).Contents (Elt F)) (x1 : (⟨S100000x128, .f32⟩ : BufTy).Contents (Elt F)) (x2 : (⟨S600000, .i32⟩ : BufTy).Contents (Elt F)) (x3 : (⟨S600000, .i32⟩ : BufTy).Contents (Elt F)) (x4 : (⟨S600000, .i32⟩ : BufTy).Contents (Elt F)) (x5 : (⟨S600000, .i32⟩ : BufTy).Contents (Elt F)) : (⟨S100000x128, .f32⟩ : BufTy).Contents (Elt F) :=
  (Host.divf ((fun x i u => Host.scatterAdd scatter_S100000x128_S600000x1_S600000x128_1_0_0_1 x i u) ((broadcastInDim S100000x128 ![] bcast_S_S100000x128) (constant S_ .f32 0x00000000#32)) ((broadcastInDim S600000x1 ![0] bcast_S600000_S600000x1_0) x0) ((fun x i => Host.gather gather_S100000x128_S600000x1_S600000x128_1_0_n_n_0_1_1128 x i) x1 ((broadcastInDim S600000x1 ![0] bcast_S600000_S600000x1_0) (select ((cmpi .slt) x2 ((broadcastInDim S600000 ![] bcast_S_S600000) (constantI S_ 32 0#32))) (addi x3 ((broadcastInDim S600000 ![] bcast_S_S600000) (constantI S_ 32 100000#32))) x4)))) ((broadcastInDim S100000x128 ![0, 1] bcast_S100000x1_S100000x128_0_1) (maximumf ((fun x i u => Host.scatterAdd scatter_S100000x1_S600000x1_S600000x1_1_0_0_1 x i u) ((broadcastInDim S100000x1 ![] bcast_S_S100000x1) (constant S_ .f32 0x00000000#32)) ((broadcastInDim S600000x1 ![0] bcast_S600000_S600000x1_0) x5) ((broadcastInDim S600000x1 ![] bcast_S_S600000x1) (constant S_ .f32 0x3F800000#32))) ((broadcastInDim S100000x1 ![] bcast_S_S100000x1) (constant S_ .f32 0x3F800000#32)))))

def G_68 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_69 (x0 : (⟨S600000, .i32⟩ : BufTy).Contents (Elt F)) (x1 : (⟨S100000x128, .f32⟩ : BufTy).Contents (Elt F)) (x2 : (⟨S600000, .i32⟩ : BufTy).Contents (Elt F)) (x3 : (⟨S600000, .i32⟩ : BufTy).Contents (Elt F)) (x4 : (⟨S600000, .i32⟩ : BufTy).Contents (Elt F)) (x5 : (⟨S600000, .i32⟩ : BufTy).Contents (Elt F)) : (⟨S100000x128, .f32⟩ : BufTy).Contents (Elt F) :=
  (Host.divf ((fun x i u => Host.scatterAdd scatter_S100000x128_S600000x1_S600000x128_1_0_0_1 x i u) ((broadcastInDim S100000x128 ![] bcast_S_S100000x128) (constant S_ .f32 0x00000000#32)) ((broadcastInDim S600000x1 ![0] bcast_S600000_S600000x1_0) x0) ((fun x i => Host.gather gather_S100000x128_S600000x1_S600000x128_1_0_n_n_0_1_1128 x i) x1 ((broadcastInDim S600000x1 ![0] bcast_S600000_S600000x1_0) (select ((cmpi .slt) x2 ((broadcastInDim S600000 ![] bcast_S_S600000) (constantI S_ 32 0#32))) (addi x3 ((broadcastInDim S600000 ![] bcast_S_S600000) (constantI S_ 32 100000#32))) x4)))) ((broadcastInDim S100000x128 ![0, 1] bcast_S100000x1_S100000x128_0_1) (maximumf ((fun x i u => Host.scatterAdd scatter_S100000x1_S600000x1_S600000x1_1_0_0_1 x i u) ((broadcastInDim S100000x1 ![] bcast_S_S100000x1) (constant S_ .f32 0x00000000#32)) ((broadcastInDim S600000x1 ![0] bcast_S600000_S600000x1_0) x5) ((broadcastInDim S600000x1 ![] bcast_S_S600000x1) (constant S_ .f32 0x3F800000#32))) ((broadcastInDim S100000x1 ![] bcast_S_S100000x1) (constant S_ .f32 0x3F800000#32)))))

def G_70 (x0 : (⟨S100000x128, .f32⟩ : BufTy).Contents (Elt F)) (x1 : (⟨S128x128, .f32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  (maximumf (addf (addf ((fun l r => Host.dotGeneral dot_S100000x128_S128x128_S100000x128_1_0_0_1_n_n none l r) x0 x1) ((fun l r => Host.dotGeneral dot_S100000x128_S128x128_S100000x128_1_0_0_1_n_n none l r) x2 x3)) ((broadcastInDim S100000x128 ![0, 1] bcast_S1x128_S100000x128_0_1) ((broadcastInDim S1x128 ![1] bcast_S128_S1x128_1) x4))) ((broadcastInDim S100000x128 ![] bcast_S_S100000x128) (constant S_ .f32 0x00000000#32)))

def G_71 (x0 : (⟨S2000x128, .f32⟩ : BufTy).Contents (Elt F)) (x1 : (⟨S128x128, .f32⟩ : BufTy).Contents (Elt F)) (x2 : (⟨S128, .f32⟩ : BufTy).Contents (Elt F)) (x3 : (⟨S2000x128, .f32⟩ : BufTy).Contents (Elt F)) : (⟨S2000x128, .f32⟩ : BufTy).Contents (Elt F) :=
  (maximumf (addf ((fun l r => Host.dotGeneral dot_S2000x128_S128x128_S2000x128_1_0_0_1_n_n none l r) x0 x1) ((broadcastInDim S2000x128 ![0, 1] bcast_S1x128_S2000x128_0_1) ((broadcastInDim S1x128 ![1] bcast_S128_S1x128_1) x2))) x3)

def G_72 (x0 : (⟨S2000x128, .f32⟩ : BufTy).Contents (Elt F)) (x1 : (⟨S128x128, .f32⟩ : BufTy).Contents (Elt F)) (x2 : (⟨S128, .f32⟩ : BufTy).Contents (Elt F)) (x3 : (⟨S2000x128, .f32⟩ : BufTy).Contents (Elt F)) : (⟨S2000x128, .f32⟩ : BufTy).Contents (Elt F) :=
  (maximumf (addf ((fun l r => Host.dotGeneral dot_S2000x128_S128x128_S2000x128_1_0_0_1_n_n none l r) x0 x1) ((broadcastInDim S2000x128 ![0, 1] bcast_S1x128_S2000x128_0_1) ((broadcastInDim S1x128 ![1] bcast_S128_S1x128_1) x2))) x3)

def G_73 (x0 : (⟨S50x128, .f32⟩ : BufTy).Contents (Elt F)) (x1 : (⟨S128x128, .f32⟩ : BufTy).Contents (Elt F)) (x2 : (⟨S128, .f32⟩ : BufTy).Contents (Elt F)) (x3 : (⟨S50x128, .f32⟩ : BufTy).Contents (Elt F)) : (⟨S50x128, .f32⟩ : BufTy).Contents (Elt F) :=
  (maximumf (addf ((fun l r => Host.dotGeneral dot_S50x128_S128x128_S50x128_1_0_0_1_n_n none l r) x0 x1) ((broadcastInDim S50x128 ![0, 1] bcast_S1x128_S50x128_0_1) ((broadcastInDim S1x128 ![1] bcast_S128_S1x128_1) x2))) x3)

def G_74 (x0 : (⟨S50x128, .f32⟩ : BufTy).Contents (Elt F)) (x1 : (⟨S128x128, .f32⟩ : BufTy).Contents (Elt F)) (x2 : (⟨S128, .f32⟩ : BufTy).Contents (Elt F)) (x3 : (⟨S50x128, .f32⟩ : BufTy).Contents (Elt F)) : (⟨S50x128, .f32⟩ : BufTy).Contents (Elt F) :=
  (maximumf (addf ((fun l r => Host.dotGeneral dot_S50x128_S128x128_S50x128_1_0_0_1_n_n none l r) x0 x1) ((broadcastInDim S50x128 ![0, 1] bcast_S1x128_S50x128_0_1) ((broadcastInDim S1x128 ![1] bcast_S128_S1x128_1) x2))) x3)

def G_75 (x0 : (⟨S50x128, .f32⟩ : BufTy).Contents (Elt F)) (x1 : (⟨S100000, .i32⟩ : BufTy).Contents (Elt F)) (x2 : (⟨S100000x128, .f32⟩ : BufTy).Contents (Elt F)) (x3 : (⟨S100000, .i32⟩ : BufTy).Contents (Elt F)) (x4 : (⟨S50x128, .f32⟩ : BufTy).Contents (Elt F)) (x5 : (⟨S2000, .i32⟩ : BufTy).Contents (Elt F)) (x6 : (⟨S2000x128, .f32⟩ : BufTy).Contents (Elt F)) (x7 : (⟨S2000, .i32⟩ : BufTy).Contents (Elt F)) (x8 : (⟨S50x128, .f32⟩ : BufTy).Contents (Elt F)) : (⟨S50x384, .f32⟩ : BufTy).Contents (Elt F) :=
  (concatenate S50x384 1 [⟨S50x128, (Host.divf ((fun x i u => Host.scatterAdd scatter_S50x128_S100000x1_S100000x128_1_0_0_1 x i u) x0 ((broadcastInDim S100000x1 ![0] bcast_S100000_S100000x1_0) x1) x2) ((broadcastInDim S50x128 ![0, 1] bcast_S50x1_S50x128_0_1) (maximumf ((fun x i u => Host.scatterAdd scatter_S50x1_S100000x1_S100000x1_1_0_0_1 x i u) ((broadcastInDim S50x1 ![] bcast_S_S50x1) (constant S_ .f32 0x00000000#32)) ((broadcastInDim S100000x1 ![0] bcast_S100000_S100000x1_0) x3) ((broadcastInDim S100000x1 ![] bcast_S_S100000x1) (constant S_ .f32 0x3F800000#32))) ((broadcastInDim S50x1 ![] bcast_S_S50x1) (constant S_ .f32 0x3F800000#32)))))⟩, ⟨S50x128, (Host.divf ((fun x i u => Host.scatterAdd scatter_S50x128_S2000x1_S2000x128_1_0_0_1 x i u) x4 ((broadcastInDim S2000x1 ![0] bcast_S2000_S2000x1_0) x5) x6) ((broadcastInDim S50x128 ![0, 1] bcast_S50x1_S50x128_0_1) (maximumf ((fun x i u => Host.scatterAdd scatter_S50x1_S2000x1_S2000x1_1_0_0_1 x i u) ((broadcastInDim S50x1 ![] bcast_S_S50x1) (constant S_ .f32 0x00000000#32)) ((broadcastInDim S2000x1 ![0] bcast_S2000_S2000x1_0) x7) ((broadcastInDim S2000x1 ![] bcast_S_S2000x1) (constant S_ .f32 0x3F800000#32))) ((broadcastInDim S50x1 ![] bcast_S_S50x1) (constant S_ .f32 0x3F800000#32)))))⟩, ⟨S50x128, x8⟩] concatenates_S50x128_S50x128_S50x128_S50x384_d1)

def G_76 (x0 : (⟨S50x384, .f32⟩ : BufTy).Contents (Elt F)) (x1 : (⟨S384x128, .f32⟩ : BufTy).Contents (Elt F)) (x2 : (⟨S128, .f32⟩ : BufTy).Contents (Elt F)) (x3 : (⟨S50x128, .f32⟩ : BufTy).Contents (Elt F)) : (⟨S50x128, .f32⟩ : BufTy).Contents (Elt F) :=
  (maximumf (addf ((fun l r => Host.dotGeneral dot_S50x384_S384x128_S50x128_1_0_0_1_n_n none l r) x0 x1) ((broadcastInDim S50x128 ![0, 1] bcast_S1x128_S50x128_0_1) ((broadcastInDim S1x128 ![1] bcast_S128_S1x128_1) x2))) x3)

def G_77 (x0 : (⟨S50x128, .f32⟩ : BufTy).Contents (Elt F)) (x1 : (⟨S128x2, .f32⟩ : BufTy).Contents (Elt F)) (x2 : (⟨S2, .f32⟩ : BufTy).Contents (Elt F)) : (⟨S50x2, .f32⟩ : BufTy).Contents (Elt F) :=
  (addf ((fun l r => Host.dotGeneral dot_S50x128_S128x2_S50x2_1_0_0_1_n_n none l r) x0 x1) ((broadcastInDim S50x2 ![0, 1] bcast_S1x2_S50x2_0_1) ((broadcastInDim S1x2 ![1] bcast_S2_S1x2_1) x2)))

/-- The programs' argument arrays. -/
structure Args (F : FTy → Type) [FloatOps F] where
  a0 : (⟨S100000x64, .f32⟩ : BufTy).Contents (Elt F)
  a1 : (⟨S2x600000, .i32⟩ : BufTy).Contents (Elt F)
  a2 : (⟨S100000, .i32⟩ : BufTy).Contents (Elt F)
  a3 : (⟨S100000, .i32⟩ : BufTy).Contents (Elt F)
  a4 : (⟨S64x128, .f32⟩ : BufTy).Contents (Elt F)
  a5 : (⟨S128, .f32⟩ : BufTy).Contents (Elt F)
  a6 : (⟨S2x128x128, .f32⟩ : BufTy).Contents (Elt F)
  a7 : (⟨S2x128x128, .f32⟩ : BufTy).Contents (Elt F)
  a8 : (⟨S2x128, .f32⟩ : BufTy).Contents (Elt F)
  a9 : (⟨S2x128x128, .f32⟩ : BufTy).Contents (Elt F)
  a10 : (⟨S2x128, .f32⟩ : BufTy).Contents (Elt F)
  a11 : (⟨S2x128x128, .f32⟩ : BufTy).Contents (Elt F)
  a12 : (⟨S2x128, .f32⟩ : BufTy).Contents (Elt F)
  a13 : (⟨S2x128x128, .f32⟩ : BufTy).Contents (Elt F)
  a14 : (⟨S2x128x128, .f32⟩ : BufTy).Contents (Elt F)
  a15 : (⟨S2x128, .f32⟩ : BufTy).Contents (Elt F)
  a16 : (⟨S2x128x128, .f32⟩ : BufTy).Contents (Elt F)
  a17 : (⟨S2x128, .f32⟩ : BufTy).Contents (Elt F)
  a18 : (⟨S2x128x128, .f32⟩ : BufTy).Contents (Elt F)
  a19 : (⟨S2x128, .f32⟩ : BufTy).Contents (Elt F)
  a20 : (⟨S128x128, .f32⟩ : BufTy).Contents (Elt F)
  a21 : (⟨S128x128, .f32⟩ : BufTy).Contents (Elt F)
  a22 : (⟨S128x128, .f32⟩ : BufTy).Contents (Elt F)
  a23 : (⟨S128x128, .f32⟩ : BufTy).Contents (Elt F)
  a24 : (⟨S128x128, .f32⟩ : BufTy).Contents (Elt F)
  a25 : (⟨S128x128, .f32⟩ : BufTy).Contents (Elt F)
  a26 : (⟨S128x128, .f32⟩ : BufTy).Contents (Elt F)
  a27 : (⟨S128, .f32⟩ : BufTy).Contents (Elt F)
  a28 : (⟨S128, .f32⟩ : BufTy).Contents (Elt F)
  a29 : (⟨S128, .f32⟩ : BufTy).Contents (Elt F)
  a30 : (⟨S384x128, .f32⟩ : BufTy).Contents (Elt F)
  a31 : (⟨S128, .f32⟩ : BufTy).Contents (Elt F)
  a32 : (⟨S128x2, .f32⟩ : BufTy).Contents (Elt F)
  a33 : (⟨S2, .f32⟩ : BufTy).Contents (Elt F)

def gv_0 (A : Args F) : (⟨S600000, .i32⟩ : BufTy).Contents (Elt F) := G_0 A.a1
def gv_1 (A : Args F) : (⟨S600000, .i32⟩ : BufTy).Contents (Elt F) := G_1 A.a1
def gv_2 (A : Args F) : (⟨S_, .i32⟩ : BufTy).Contents (Elt F) := G_2
def gv_3 (A : Args F) : (⟨S100000, .i32⟩ : BufTy).Contents (Elt F) := G_3 A.a3 A.a2 (gv_2 A)
def gv_4 (A : Args F) : (⟨S2000, .i32⟩ : BufTy).Contents (Elt F) := G_4
def gv_5 (A : Args F) : (⟨S2000, .i32⟩ : BufTy).Contents (Elt F) := G_5 (gv_4 A) (gv_2 A) (gv_4 A) (gv_2 A) (gv_4 A) (gv_2 A) (gv_4 A) (gv_2 A)
def gv_6 (A : Args F) : (⟨S100000x128, .f32⟩ : BufTy).Contents (Elt F) := G_6 A.a0 A.a4 A.a5
def gv_7 (A : Args F) : (⟨S2000x128, .f32⟩ : BufTy).Contents (Elt F) := G_7
def gv_8 (A : Args F) : (⟨S50x128, .f32⟩ : BufTy).Contents (Elt F) := G_8
def gv_9 (A : Args F) : (⟨S100000x128, .f32⟩ : BufTy).Contents (Elt F) := G_9 (gv_1 A) (gv_6 A) (gv_0 A) (gv_0 A) (gv_0 A) (gv_1 A)
def gv_10 (A : Args F) : (⟨S128x128, .f32⟩ : BufTy).Contents (Elt F) := G_10 A.a6
def gv_11 (A : Args F) : (⟨S128x128, .f32⟩ : BufTy).Contents (Elt F) := G_11 A.a7
def gv_12 (A : Args F) : (⟨S128, .f32⟩ : BufTy).Contents (Elt F) := G_12 A.a8
def gv_13 (A : Args F) : (⟨S100000x128, .f32⟩ : BufTy).Contents (Elt F) := G_13 (gv_6 A) (gv_10 A) (gv_9 A) (gv_11 A) (gv_12 A)
def gv_14 (A : Args F) : (⟨S100000x128, .f32⟩ : BufTy).Contents (Elt F) := G_14 (gv_1 A) (gv_13 A) (gv_0 A) (gv_0 A) (gv_0 A) (gv_1 A)
def gv_15 (A : Args F) : (⟨S128x128, .f32⟩ : BufTy).Contents (Elt F) := G_15 A.a6
def gv_16 (A : Args F) : (⟨S128x128, .f32⟩ : BufTy).Contents (Elt F) := G_16 A.a7
def gv_17 (A : Args F) : (⟨S128, .f32⟩ : BufTy).Contents (Elt F) := G_17 A.a8
def gv_18 (A : Args F) : (⟨S100000x128, .f32⟩ : BufTy).Contents (Elt F) := G_18 (gv_13 A) (gv_15 A) (gv_14 A) (gv_16 A) (gv_17 A)
def gv_19 (A : Args F) : (⟨S128x128, .f32⟩ : BufTy).Contents (Elt F) := G_19 A.a9
def gv_20 (A : Args F) : (⟨S128, .f32⟩ : BufTy).Contents (Elt F) := G_20 A.a10
def gv_21 (A : Args F) : (⟨S2000x128, .f32⟩ : BufTy).Contents (Elt F) := G_21 (gv_7 A) (gv_19 A) (gv_20 A) (gv_7 A)
def gv_22 (A : Args F) : (⟨S128x128, .f32⟩ : BufTy).Contents (Elt F) := G_22 A.a9
def gv_23 (A : Args F) : (⟨S128, .f32⟩ : BufTy).Contents (Elt F) := G_23 A.a10
def gv_24 (A : Args F) : (⟨S2000x128, .f32⟩ : BufTy).Contents (Elt F) := G_24 (gv_21 A) (gv_22 A) (gv_23 A) (gv_7 A)
def gv_25 (A : Args F) : (⟨S128x128, .f32⟩ : BufTy).Contents (Elt F) := G_25 A.a11
def gv_26 (A : Args F) : (⟨S128, .f32⟩ : BufTy).Contents (Elt F) := G_26 A.a12
def gv_27 (A : Args F) : (⟨S50x128, .f32⟩ : BufTy).Contents (Elt F) := G_27 (gv_8 A) (gv_25 A) (gv_26 A) (gv_8 A)
def gv_28 (A : Args F) : (⟨S128x128, .f32⟩ : BufTy).Contents (Elt F) := G_28 A.a11
def gv_29 (A : Args F) : (⟨S128, .f32⟩ : BufTy).Contents (Elt F) := G_29 A.a12
def gv_30 (A : Args F) : (⟨S50x128, .f32⟩ : BufTy).Contents (Elt F) := G_30 (gv_27 A) (gv_28 A) (gv_29 A) (gv_8 A)
def gv_31 (A : Args F) : (⟨S2000x128, .f32⟩ : BufTy).Contents (Elt F) := G_31 (gv_7 A) (gv_3 A) (gv_18 A) (gv_3 A)
def gv_32 (A : Args F) : (⟨S50x128, .f32⟩ : BufTy).Contents (Elt F) := G_32 (gv_8 A) (gv_5 A) (gv_24 A) (gv_5 A)
def gv_33 (A : Args F) : (⟨S100000x128, .f32⟩ : BufTy).Contents (Elt F) := G_33 (gv_24 A) (gv_3 A) (gv_3 A) (gv_3 A)
def gv_34 (A : Args F) : (⟨S100000x128, .f32⟩ : BufTy).Contents (Elt F) := G_34 (gv_18 A) A.a20 (gv_33 A) A.a25 A.a27
def gv_35 (A : Args F) : (⟨S2000x128, .f32⟩ : BufTy).Contents (Elt F) := G_35 (gv_30 A) (gv_5 A) (gv_5 A) (gv_5 A)
def gv_36 (A : Args F) : (⟨S2000x128, .f32⟩ : BufTy).Contents (Elt F) := G_36 (gv_24 A) A.a21 (gv_31 A) A.a23 (gv_35 A) A.a26 A.a28 (gv_7 A)
def gv_37 (A : Args F) : (⟨S50x128, .f32⟩ : BufTy).Contents (Elt F) := G_37 (gv_30 A) A.a22 (gv_32 A) A.a24 A.a29 (gv_8 A)
def gv_38 (A : Args F) : (⟨S100000x128, .f32⟩ : BufTy).Contents (Elt F) := G_38 (gv_1 A) (gv_34 A) (gv_0 A) (gv_0 A) (gv_0 A) (gv_1 A)
def gv_39 (A : Args F) : (⟨S128x128, .f32⟩ : BufTy).Contents (Elt F) := G_39 A.a13
def gv_40 (A : Args F) : (⟨S128x128, .f32⟩ : BufTy).Contents (Elt F) := G_40 A.a14
def gv_41 (A : Args F) : (⟨S128, .f32⟩ : BufTy).Contents (Elt F) := G_41 A.a15
def gv_42 (A : Args F) : (⟨S100000x128, .f32⟩ : BufTy).Contents (Elt F) := G_42 (gv_34 A) (gv_39 A) (gv_38 A) (gv_40 A) (gv_41 A)
def gv_43 (A : Args F) : (⟨S100000x128, .f32⟩ : BufTy).Contents (Elt F) := G_43 (gv_1 A) (gv_42 A) (gv_0 A) (gv_0 A) (gv_0 A) (gv_1 A)
def gv_44 (A : Args F) : (⟨S128x128, .f32⟩ : BufTy).Contents (Elt F) := G_44 A.a13
def gv_45 (A : Args F) : (⟨S128x128, .f32⟩ : BufTy).Contents (Elt F) := G_45 A.a14
def gv_46 (A : Args F) : (⟨S128, .f32⟩ : BufTy).Contents (Elt F) := G_46 A.a15
def gv_47 (A : Args F) : (⟨S100000x128, .f32⟩ : BufTy).Contents (Elt F) := G_47 (gv_42 A) (gv_44 A) (gv_43 A) (gv_45 A) (gv_46 A)
def gv_48 (A : Args F) : (⟨S128x128, .f32⟩ : BufTy).Contents (Elt F) := G_48 A.a16
def gv_49 (A : Args F) : (⟨S128, .f32⟩ : BufTy).Contents (Elt F) := G_49 A.a17
def gv_50 (A : Args F) : (⟨S2000x128, .f32⟩ : BufTy).Contents (Elt F) := G_50 (gv_36 A) (gv_48 A) (gv_49 A) (gv_7 A)
def gv_51 (A : Args F) : (⟨S128x128, .f32⟩ : BufTy).Contents (Elt F) := G_51 A.a16
def gv_52 (A : Args F) : (⟨S128, .f32⟩ : BufTy).Contents (Elt F) := G_52 A.a17
def gv_53 (A : Args F) : (⟨S2000x128, .f32⟩ : BufTy).Contents (Elt F) := G_53 (gv_50 A) (gv_51 A) (gv_52 A) (gv_7 A)
def gv_54 (A : Args F) : (⟨S128x128, .f32⟩ : BufTy).Contents (Elt F) := G_54 A.a18
def gv_55 (A : Args F) : (⟨S128, .f32⟩ : BufTy).Contents (Elt F) := G_55 A.a19
def gv_56 (A : Args F) : (⟨S50x128, .f32⟩ : BufTy).Contents (Elt F) := G_56 (gv_37 A) (gv_54 A) (gv_55 A) (gv_8 A)
def gv_57 (A : Args F) : (⟨S128x128, .f32⟩ : BufTy).Contents (Elt F) := G_57 A.a18
def gv_58 (A : Args F) : (⟨S128, .f32⟩ : BufTy).Contents (Elt F) := G_58 A.a19
def gv_59 (A : Args F) : (⟨S50x128, .f32⟩ : BufTy).Contents (Elt F) := G_59 (gv_56 A) (gv_57 A) (gv_58 A) (gv_8 A)
def gv_60 (A : Args F) : (⟨S2000x128, .f32⟩ : BufTy).Contents (Elt F) := G_60 (gv_7 A) (gv_3 A) (gv_47 A) (gv_3 A)
def gv_61 (A : Args F) : (⟨S50x128, .f32⟩ : BufTy).Contents (Elt F) := G_61 (gv_8 A) (gv_5 A) (gv_53 A) (gv_5 A)
def gv_62 (A : Args F) : (⟨S100000x128, .f32⟩ : BufTy).Contents (Elt F) := G_62 (gv_53 A) (gv_3 A) (gv_3 A) (gv_3 A)
def gv_63 (A : Args F) : (⟨S100000x128, .f32⟩ : BufTy).Contents (Elt F) := G_63 (gv_47 A) A.a20 (gv_62 A) A.a25 A.a27
def gv_64 (A : Args F) : (⟨S2000x128, .f32⟩ : BufTy).Contents (Elt F) := G_64 (gv_59 A) (gv_5 A) (gv_5 A) (gv_5 A)
def gv_65 (A : Args F) : (⟨S2000x128, .f32⟩ : BufTy).Contents (Elt F) := G_65 (gv_53 A) A.a21 (gv_60 A) A.a23 (gv_64 A) A.a26 A.a28 (gv_7 A)
def gv_66 (A : Args F) : (⟨S50x128, .f32⟩ : BufTy).Contents (Elt F) := G_66 (gv_59 A) A.a22 (gv_61 A) A.a24 A.a29 (gv_8 A)
def gv_67 (A : Args F) : (⟨S100000x128, .f32⟩ : BufTy).Contents (Elt F) := G_67 (gv_1 A) (gv_63 A) (gv_0 A) (gv_0 A) (gv_0 A) (gv_1 A)
def gv_68 (A : Args F) : (⟨S100000x128, .f32⟩ : BufTy).Contents (Elt F) := G_68 (gv_63 A) (gv_39 A) (gv_67 A) (gv_40 A) (gv_41 A)
def gv_69 (A : Args F) : (⟨S100000x128, .f32⟩ : BufTy).Contents (Elt F) := G_69 (gv_1 A) (gv_68 A) (gv_0 A) (gv_0 A) (gv_0 A) (gv_1 A)
def gv_70 (A : Args F) : (⟨S100000x128, .f32⟩ : BufTy).Contents (Elt F) := G_70 (gv_68 A) (gv_44 A) (gv_69 A) (gv_45 A) (gv_46 A)
def gv_71 (A : Args F) : (⟨S2000x128, .f32⟩ : BufTy).Contents (Elt F) := G_71 (gv_65 A) (gv_48 A) (gv_49 A) (gv_7 A)
def gv_72 (A : Args F) : (⟨S2000x128, .f32⟩ : BufTy).Contents (Elt F) := G_72 (gv_71 A) (gv_51 A) (gv_52 A) (gv_7 A)
def gv_73 (A : Args F) : (⟨S50x128, .f32⟩ : BufTy).Contents (Elt F) := G_73 (gv_66 A) (gv_54 A) (gv_55 A) (gv_8 A)
def gv_74 (A : Args F) : (⟨S50x128, .f32⟩ : BufTy).Contents (Elt F) := G_74 (gv_73 A) (gv_57 A) (gv_58 A) (gv_8 A)
def gv_75 (A : Args F) : (⟨S50x384, .f32⟩ : BufTy).Contents (Elt F) := G_75 (gv_8 A) A.a2 (gv_70 A) A.a2 (gv_8 A) (gv_5 A) (gv_72 A) (gv_5 A) (gv_74 A)
def gv_76 (A : Args F) : (⟨S50x128, .f32⟩ : BufTy).Contents (Elt F) := G_76 (gv_75 A) A.a30 A.a31 (gv_8 A)
def gv_77 (A : Args F) : (⟨S50x2, .f32⟩ : BufTy).Contents (Elt F) := G_77 (gv_76 A) A.a32 A.a33

end Cert.Net

end
-- ==== Proof.LibDense.lean ====
/-
  A general lemma about plain matrix products, free of any program.

  A matrix product's dimension record (`DotDims`) sums over an abstract contraction index. For the plain
  product of an M×K by a K×N array — one contracted axis, the left operand's columns against the right operand's
  rows, no batch axis — that sum is the familiar ∑ₖ L (i, k) · R (k, j) over k : Fin K. `PlainDot d` collects the
  coordinate facts that say a record is such a product (each holds by computation for a record of literal extents),
  and `sum_plain` reindexes the sum. The kernel's `tpu.matmul` into a zero accumulator and the host's
  `dot_general` both read, at the exact instance, as the abstract sum (PureOps/Ideal/Laws.lean
  `matmul_constant_zero_apply`, `dotGeneral_apply`), so this one lemma serves both.
-/
import Idealize.ShloMosaic.PureOps.Ideal
import Idealize.ShloMosaic.PureOps.Ideal.Laws
import Idealize.ShloMosaic.Lib.ValueIdx

noncomputable section

open scoped BigOperators

namespace Cert.LibDense

open Idealize.ShloMosaic Idealize.ShloMosaic.ValueIdx

/-- The record `d` is the plain product of an M×K by a K×N array: its contraction has one axis of extent K, the
    left operand is read at (row of the output, k) and the right operand at (k, column of the output). -/
structure PlainDot {M K N : Nat} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (k : d.contr.Idx), (d.lhsIdx j k 0).val = (j 0).val
  l1 : ∀ (j : (⟨2, ![M, N]⟩ : Shape).Idx) (k : d.contr.Idx), (d.lhsIdx j k 1).val = (k ⟨0, by omega⟩).val
  r0 : ∀ (j : (⟨2, ![M, N]⟩ : Shape).Idx) (k : d.contr.Idx), (d.rhsIdx j k 0).val = (k ⟨0, by omega⟩).val
  r1 : ∀ (j : (⟨2, ![M, N]⟩ : Shape).Idx) (k : d.contr.Idx), (d.rhsIdx j k 1).val = (j 1).val

variable {M K N : Nat} {d : DotDims (⟨2, ![M, K]⟩ : Shape) (⟨2, ![K, N]⟩ : Shape) (⟨2, ![M, N]⟩ : Shape)}

/-- The left operand's index at contraction position `k : Fin K` is (row, k). -/
theorem PlainDot.lhs_eq (h : PlainDot d) (j : (⟨2, ![M, N]⟩ : Shape).Idx) (k : Fin K) :
    d.lhsIdx j ((contrEquiv1 d K h.rank h.size).symm k) = ix2 (j 0) k := by
  funext a
  apply Fin.ext
  match a with
  | ⟨0, _⟩ => exact h.l0 j _
  | ⟨1, _⟩ => exact (h.l1 j _).trans (contrEquiv1_symm_val d K h.rank h.size k)

/-- The right operand's index at contraction position `k : Fin K` is (k, column). -/
theorem PlainDot.rhs_eq (h : PlainDot d) (j : (⟨2, ![M, N]⟩ : Shape).Idx) (k : Fin K) :
    d.rhsIdx j ((contrEquiv1 d K h.rank h.size).symm k) = ix2 k (j 1) := by
  funext a
  apply Fin.ext
  match a with
  | ⟨0, _⟩ => exact (h.r0 j _).trans (contrEquiv1_symm_val d K h.rank h.size k)
  | ⟨1, _⟩ => exact h.r1 j _

/-- A plain product's contraction sum is ∑ₖ L (row, k) · R (k, column) over k : Fin K. -/
theorem sum_plain (h : PlainDot d) (L : (⟨2, ![M, K]⟩ : Shape).Idx → EReal) (R : (⟨2, ![K, N]⟩ : Shape).Idx → EReal)
    (j : (⟨2, ![M, N]⟩ : Shape).Idx) :
    ∑ k : d.contr.Idx, L (d.lhsIdx j k) * R (d.rhsIdx j k) = ∑ k : Fin K, L (ix2 (j 0) k) * R (ix2 k (j 1)) := by
  rw [← Equiv.sum_comp (contrEquiv1 d K h.rank h.size).symm]
  exact Finset.sum_congr rfl fun k _ => congrArg₂ (· * ·) (congrArg L (h.lhs_eq j k)) (congrArg R (h.rhs_eq j k))

/-- The kernel's matrix product into a zero accumulator, at the exact instance, read at an output index. -/
theorem matmul_zero_plain (h : PlainDot d) {φ₁ φ₂ : FTy} (prec : Option ContractPrecision)
    (L : FVec Ideal (⟨2, ![M, K]⟩ : Shape) φ₁) (R : FVec Ideal (⟨2, ![K, N]⟩ : Shape) φ₂) (j : (⟨2, ![M, N]⟩ : Shape).Idx) :
    FloatOps.matmul d prec L R (constant (⟨2, ![M, N]⟩ : Shape) .f32 0x00000000#32) j
      = ∑ k : Fin K, (L (ix2 (j 0) k) : EReal) * (R (ix2 k (j 1)) : EReal) :=
  (Ideal.matmul_constant_zero_apply d prec L R j).trans (sum_plain h L R j)

/-- The host's `dot_general`, at the exact instance, read at an output index. -/
theorem dotGeneral_plain (h : PlainDot d) {φ₁ φ₂ : FTy} (prec : Option ContractPrecision) (sched : HostSchedule)
    (L : FVec Ideal (⟨2, ![M, K]⟩ : Shape) φ₁) (R : FVec Ideal (⟨2, ![K, N]⟩ : Shape) φ₂) (j : (⟨2, ![M, N]⟩ : Shape).Idx) :
    FloatOps.dotGeneral d prec sched L R j
      = ∑ k : Fin K, (L (ix2 (j 0) k) : EReal) * (R (ix2 k (j 1)) : EReal) :=
  (Ideal.dotGeneral_apply d prec sched L R j).trans (sum_plain h L R j)

end Cert.LibDense

end
-- ==== Proof.Spec.lean ====
/-
  The dense layers of the network as functions of their operand arrays, entry by entry, on the extended reals.

  A layer takes one, two or three activation matrices, a weight matrix for each, and a bias row, and returns
  max (x·W₁ [+ y·W₂ [+ z·W₃]] + b, 0): every matrix product is the plain sum over the contracted axis, the partial
  products are added left to right, the bias row is added last, and the result is cut off below at zero.
  Both programs compute these layers; the kernel program tile by tile over the rows, the reference as whole-array
  operations. The functions below are the common form both are read into.
-/
import Idealize.ShloMosaic.Lib.ValueIdx

noncomputable section

open scoped BigOperators

namespace Cert.Spec

open Idealize.ShloMosaic Idealize.ShloMosaic.ValueIdx

/-- One activation matrix: entry (r, q) is max (∑ₖ x (r, k) · w (k, q) + b (0, q), 0). -/
def lin1 {M K N : Nat} (x : (⟨2, ![M, K]⟩ : Shape).Idx → EReal) (w : (⟨2, ![K, N]⟩ : Shape).Idx → EReal)
    (b : (⟨2, ![1, N]⟩ : Shape).Idx → EReal) (i : (⟨2, ![M, N]⟩ : Shape).Idx) : EReal :=
  max ((∑ k : Fin K, x (ix2 (i 0) k) * w (ix2 k (i 1))) + b (ix2 0 (i 1))) 0

/-- Two activation matrices: entry (r, q) is max ((∑ₖ x (r, k) · w₁ (k, q) + ∑ₖ y (r, k) · w₂ (k, q)) + b (0, q), 0). -/
def lin2 {M K N : Nat} (x y : (⟨2, ![M, K]⟩ : Shape).Idx → EReal) (w1 w2 : (⟨2, ![K, N]⟩ : Shape).Idx → EReal)
    (b : (⟨2, ![1, N]⟩ : Shape).Idx → EReal) (i : (⟨2, ![M, N]⟩ : Shape).Idx) : EReal :=
  max (((∑ k : Fin K, x (ix2 (i 0) k) * w1 (ix2 k (i 1))) + (∑ k : Fin K, y (ix2 (i 0) k) * w2 (ix2 k (i 1))))
    + b (ix2 0 (i 1))) 0

/-- Three activation matrices: the three products added left to right, then the bias row, then the cut at zero. -/
def lin3 {M K N : Nat} (x y z : (⟨2, ![M, K]⟩ : Shape).Idx → EReal) (w1 w2 w3 : (⟨2, ![K, N]⟩ : Shape).Idx → EReal)
    (b : (⟨2, ![1, N]⟩ : Shape).Idx → EReal) (i : (⟨2, ![M, N]⟩ : Shape).Idx) : EReal :=
  max ((((∑ k : Fin K, x (ix2 (i 0) k) * w1 (ix2 k (i 1))) + (∑ k : Fin K, y (ix2 (i 0) k) * w2 (ix2 k (i 1))))
    + (∑ k : Fin K, z (ix2 (i 0) k) * w3 (ix2 k (i 1)))) + b (ix2 0 (i 1))) 0

end Cert.Spec

end
-- ==== Proof.LayerRef.lean ====
/-
  A dense layer written with whole-array host operations, read entry by entry on the extended reals.

  The reference program computes a layer as matrix products of whole arrays, their sum, the bias row broadcast over
  the rows and added, and the entrywise maximum with a zero array. At the exact instance a host matrix product is the
  plain sum over the contracted axis, addition and maximum act entry by entry, the broadcast of a row reads the row,
  and the broadcast of the zero word reads zero: so the layer is the function Cert.Spec.lin1 / lin2 / lin3.
-/
import proofs.«141679_j61469571940402_1_alg».proof.Proof.LibDense
import proofs.«141679_j61469571940402_1_alg».proof.Proof.Spec
import Idealize.ShloMosaic.Lib.ValueIdx
import Idealize.ShloMosaic.Lib.Pipeline.Value
import Idealize.ShloMosaic.PureOps.Contract

noncomputable section

open scoped BigOperators

namespace Cert.LayerRef

open Idealize.ShloMosaic Idealize.ShloMosaic.ValueIdx Cert.LibDense

variable {M K N : Nat} {d : DotDims (⟨2, ![M, K]⟩ : Shape) (⟨2, ![K, N]⟩ : Shape) (⟨2, ![M, N]⟩ : Shape)}

/-- A host matrix product of a plain record, at an output entry, is the sum over the contracted axis. -/
theorem dot_at (hd : PlainDot d) (x : FVec Ideal (⟨2, ![M, K]⟩ : Shape) .f32) (w : FVec Ideal (⟨2, ![K, N]⟩ : Shape) .f32)
    (i : (⟨2, ![M, N]⟩ : Shape).Idx) :
    Host.dotGeneral d none x w i = ∑ k : Fin K, x (ix2 (i 0) k) * w (ix2 k (i 1)) :=
  dotGeneral_plain hd none .single x w i

/-- A row broadcast over M rows reads, at entry (r, q), the row's entry q (the row has more than one entry). -/
theorem bias_bcast {α : Type} (hN : N ≠ 1)
    (h : (⟨2, ![1, N]⟩ : Shape).BroadcastsInDim (⟨2, ![M, N]⟩ : Shape) ![0, 1])
    (b : (⟨2, ![1, N]⟩ : Shape).Idx → α) (i : (⟨2, ![M, N]⟩ : Shape).Idx) :
    broadcastInDim (⟨2, ![M, N]⟩ : Shape) ![0, 1] h b i = b (ix2 0 (i 1)) :=
  broadcastInDim_apply ![0, 1] h b i (ix2 0 (i 1)) (fun a => by
    match a with
    | ⟨0, _⟩ => rfl
    | ⟨1, _⟩ => show (i 1).val = if N = 1 then 0 else (i 1).val; rw [if_neg hN])

/-- The zero word broadcast to any shape reads zero everywhere. -/
theorem zero_bcast {t : Shape} (h : (⟨0, ![]⟩ : Shape).BroadcastsInDim t ![]) (i : t.Idx) :
    broadcastInDim t ![] h (constant (F := Ideal) (⟨0, ![]⟩ : Shape) .f32 0x00000000#32) i = 0 :=
  (broadcastInDim_apply (s := (⟨0, ![]⟩ : Shape)) ![] h _ i (fun a => (a : Fin 0).elim0) (fun a => (a : Fin 0).elim0)).trans
    ((constant_apply _ _).trans Ideal.ofBits_zero_f32)

/-- One product, the bias, the cut at zero. -/
theorem layer1 (hd : PlainDot d) (x : FVec Ideal (⟨2, ![M, K]⟩ : Shape) .f32) (w : FVec Ideal (⟨2, ![K, N]⟩ : Shape) .f32)
    (bb z : FVec Ideal (⟨2, ![M, N]⟩ : Shape) .f32) (b : FVec Ideal (⟨2, ![1, N]⟩ : Shape) .f32)
    (hbb : ∀ i, bb i = b (ix2 0 (i 1))) (hz : ∀ i, z i = 0) (i : (⟨2, ![M, N]⟩ : Shape).Idx) :
    maximumf (addf (Host.dotGeneral d none x w) bb) z i = Cert.Spec.lin1 x w b i := by
  rw [maximumf_apply, addf_apply, dot_at hd, hbb, hz]
  rfl

/-- Two products added, the bias, the cut at zero. -/
theorem layer2 (hd : PlainDot d) (x y : FVec Ideal (⟨2, ![M, K]⟩ : Shape) .f32) (w1 w2 : FVec Ideal (⟨2, ![K, N]⟩ : Shape) .f32)
    (bb z : FVec Ideal (⟨2, ![M, N]⟩ : Shape) .f32) (b : FVec Ideal (⟨2, ![1, N]⟩ : Shape) .f32)
    (hbb : ∀ i, bb i = b (ix2 0 (i 1))) (hz : ∀ i, z i = 0) (i : (⟨2, ![M, N]⟩ : Shape).Idx) :
    maximumf (addf (addf (Host.dotGeneral d none x w1) (Host.dotGeneral d none y w2)) bb) z i
      = Cert.Spec.lin2 x y w1 w2 b i := by
  rw [maximumf_apply, addf_apply, addf_apply, dot_at hd, dot_at hd, hbb, hz]
  rfl

/-- Three products added left to right, the bias, the cut at zero. -/
theorem layer3 (hd : PlainDot d) (x y z' : FVec Ideal (⟨2, ![M, K]⟩ : Shape) .f32)
    (w1 w2 w3 : FVec Ideal (⟨2, ![K, N]⟩ : Shape) .f32)
    (bb z : FVec Ideal (⟨2, ![M, N]⟩ : Shape) .f32) (b : FVec Ideal (⟨2, ![1, N]⟩ : Shape) .f32)
    (hbb : ∀ i, bb i = b (ix2 0 (i 1))) (hz : ∀ i, z i = 0) (i : (⟨2, ![M, N]⟩ : Shape).Idx) :
    maximumf (addf (addf (addf (Host.dotGeneral d none x w1) (Host.dotGeneral d none y w2)) (Host.dotGeneral d none z' w3)) bb) z i
      = Cert.Spec.lin3 x y z' w1 w2 w3 b i := by
  rw [maximumf_apply, addf_apply, addf_apply, addf_apply, dot_at hd, dot_at hd, dot_at hd, hbb, hz]
  rfl

end Cert.LayerRef

end
-- ==== Proof.Layers.lean ====
/-
  Each dense layer's shared function, entry by entry: it is the layer function of Cert.Spec at the layer's operands,
  the bias read as the row array the kernel program stages.
-/
import proofs.«141679_j61469571940402_1_alg».proof.Proof.Net
import proofs.«141679_j61469571940402_1_alg».proof.Proof.LayerRef

set_option maxRecDepth 3048

noncomputable section

namespace Cert.Layers

open Idealize.ShloMosaic Idealize.ShloMosaic.ValueIdx Cert.ReferenceIdeal Cert.ReferenceIdeal.Gen Cert.LibDense

theorem plain_dot_S100000x64_S64x128_S100000x128_1_0_0_1_n_n : PlainDot dot_S100000x64_S64x128_S100000x128_1_0_0_1_n_n := ⟨rfl, rfl, fun _ _ => rfl, fun _ _ => rfl, fun _ _ => rfl, fun _ _ => rfl⟩

theorem lay0 (A : Cert.Net.Args Ideal) (i : S100000x128.Idx) :
    Cert.Net.gv_6 A i = Cert.Spec.lin1 A.a0 A.a4 (broadcastInDim S1x128 ![1] bcast_S128_S1x128_1 A.a5) i := by
  unfold Cert.Net.gv_6 Cert.Net.G_6
  exact Cert.LayerRef.layer1 plain_dot_S100000x64_S64x128_S100000x128_1_0_0_1_n_n _ _ _ _ _
    (fun i => Cert.LayerRef.bias_bcast (by decide) _ _ i) (fun i => Cert.LayerRef.zero_bcast _ i) i

theorem plain_dot_S100000x128_S128x128_S100000x128_1_0_0_1_n_n : PlainDot dot_S100000x128_S128x128_S100000x128_1_0_0_1_n_n := ⟨rfl, rfl, fun _ _ => rfl, fun _ _ => rfl, fun _ _ => rfl, fun _ _ => rfl⟩

theorem lay1 (A : Cert.Net.Args Ideal) (i : S100000x128.Idx) :
    Cert.Net.gv_13 A i = Cert.Spec.lin2 (Cert.Net.gv_6 A) (Cert.Net.gv_9 A) (Cert.Net.gv_10 A) (Cert.Net.gv_11 A) (broadcastInDim S1x128 ![1] bcast_S128_S1x128_1 (Cert.Net.gv_12 A)) i := by
  unfold Cert.Net.gv_13 Cert.Net.G_13
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem lay2 (A : Cert.Net.Args Ideal) (i : S100000x128.Idx) :
    Cert.Net.gv_18 A i = Cert.Spec.lin2 (Cert.Net.gv_13 A) (Cert.Net.gv_14 A) (Cert.Net.gv_15 A) (Cert.Net.gv_16 A) (broadcastInDim S1x128 ![1] bcast_S128_S1x128_1 (Cert.Net.gv_17 A)) i := by
  unfold Cert.Net.gv_18 Cert.Net.G_18
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem plain_dot_S2000x128_S128x128_S2000x128_1_0_0_1_n_n : PlainDot dot_S2000x128_S128x128_S2000x128_1_0_0_1_n_n := ⟨rfl, rfl, fun _ _ => rfl, fun _ _ => rfl, fun _ _ => rfl, fun _ _ => rfl⟩

theorem lay3 (A : Cert.Net.Args Ideal) (i : S2000x128.Idx) :
    Cert.Net.gv_21 A i = Cert.Spec.lin1 (Cert.Net.gv_7 A) (Cert.Net.gv_19 A) (broadcastInDim S1x128 ![1] bcast_S128_S1x128_1 (Cert.Net.gv_20 A)) i := by
  unfold Cert.Net.gv_21 Cert.Net.G_21
  exact Cert.LayerRef.layer1 plain_dot_S2000x128_S128x128_S2000x128_1_0_0_1_n_n _ _ _ _ _
    (fun i => Cert.LayerRef.bias_bcast (by decide) _ _ i) (fun i => by unfold Cert.Net.gv_7 Cert.Net.G_7; exact Cert.LayerRef.zero_bcast _ i) i

theorem lay4 (A : Cert.Net.Args Ideal) (i : S2000x128.Idx) :
    Cert.Net.gv_24 A i = Cert.Spec.lin1 (Cert.Net.gv_21 A) (Cert.Net.gv_22 A) (broadcastInDim S1x128 ![1] bcast_S128_S1x128_1 (Cert.Net.gv_23 A)) i := by
  unfold Cert.Net.gv_24 Cert.Net.G_24
  exact Cert.LayerRef.layer1 plain_dot_S2000x128_S128x128_S2000x128_1_0_0_1_n_n _ _ _ _ _
    (fun i => Cert.LayerRef.bias_bcast (by decide) _ _ i) (fun i => by unfold Cert.Net.gv_7 Cert.Net.G_7; exact Cert.LayerRef.zero_bcast _ i) i

theorem plain_dot_S50x128_S128x128_S50x128_1_0_0_1_n_n : PlainDot dot_S50x128_S128x128_S50x128_1_0_0_1_n_n := ⟨rfl, rfl, fun _ _ => rfl, fun _ _ => rfl, fun _ _ => rfl, fun _ _ => rfl⟩

theorem lay5 (A : Cert.Net.Args Ideal) (i : S50x128.Idx) :
    Cert.Net.gv_27 A i = Cert.Spec.lin1 (Cert.Net.gv_8 A) (Cert.Net.gv_25 A) (broadcastInDim S1x128 ![1] bcast_S128_S1x128_1 (Cert.Net.gv_26 A)) i := by
  unfold Cert.Net.gv_27 Cert.Net.G_27
  exact Cert.LayerRef.layer1 plain_dot_S50x128_S128x128_S50x128_1_0_0_1_n_n _ _ _ _ _
    (fun i => Cert.LayerRef.bias_bcast (by decide) _ _ i) (fun i => by unfold Cert.Net.gv_8 Cert.Net.G_8; exact Cert.LayerRef.zero_bcast _ i) i

theorem lay6 (A : Cert.Net.Args Ideal) (i : S50x128.Idx) :
    Cert.Net.gv_30 A i = Cert.Spec.lin1 (Cert.Net.gv_27 A) (Cert.Net.gv_28 A) (broadcastInDim S1x128 ![1] bcast_S128_S1x128_1 (Cert.Net.gv_29 A)) i := by
  unfold Cert.Net.gv_30 Cert.Net.G_30
  exact Cert.LayerRef.layer1 plain_dot_S50x128_S128x128_S50x128_1_0_0_1_n_n _ _ _ _ _
    (fun i => Cert.LayerRef.bias_bcast (by decide) _ _ i) (fun i => by unfold Cert.Net.gv_8 Cert.Net.G_8; exact Cert.LayerRef.zero_bcast _ i) i

theorem lay7 (A : Cert.Net.Args Ideal) (i : S100000x128.Idx) :
    Cert.Net.gv_34 A i = Cert.Spec.lin2 (Cert.Net.gv_18 A) (Cert.Net.gv_33 A) A.a20 A.a25 (broadcastInDim S1x128 ![1] bcast_S128_S1x128_1 A.a27) i := by
  unfold Cert.Net.gv_34 Cert.Net.G_34
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem lay8 (A : Cert.Net.Args Ideal) (i : S2000x128.Idx) :
    Cert.Net.gv_36 A i = Cert.Spec.lin3 (Cert.Net.gv_24 A) (Cert.Net.gv_31 A) (Cert.Net.gv_35 A) A.a21 A.a23 A.a26 (broadcastInDim S1x128 ![1] bcast_S128_S1x128_1 A.a28) i := by
  unfold Cert.Net.gv_36 Cert.Net.G_36
  exact Cert.LayerRef.layer3 plain_dot_S2000x128_S128x128_S2000x128_1_0_0_1_n_n _ _ _ _ _ _ _ _ _
    (fun i => Cert.LayerRef.bias_bcast (by decide) _ _ i) (fun i => by unfold Cert.Net.gv_7 Cert.Net.G_7; exact Cert.LayerRef.zero_bcast _ i) i

theorem lay9 (A : Cert.Net.Args Ideal) (i : S50x128.Idx) :
    Cert.Net.gv_37 A i = Cert.Spec.lin2 (Cert.Net.gv_30 A) (Cert.Net.gv_32 A) A.a22 A.a24 (broadcastInDim S1x128 ![1] bcast_S128_S1x128_1 A.a29) i := by
  unfold Cert.Net.gv_37 Cert.Net.G_37
  exact Cert.LayerRef.layer2 plain_dot_S50x128_S128x128_S50x128_1_0_0_1_n_n _ _ _ _ _ _ _
    (fun i => Cert.LayerRef.bias_bcast (by decide) _ _ i) (fun i => by unfold Cert.Net.gv_8 Cert.Net.G_8; exact Cert.LayerRef.zero_bcast _ i) i

theorem lay10 (A : Cert.Net.Args Ideal) (i : S100000x128.Idx) :
    Cert.Net.gv_42 A i = Cert.Spec.lin2 (Cert.Net.gv_34 A) (Cert.Net.gv_38 A) (Cert.Net.gv_39 A) (Cert.Net.gv_40 A) (broadcastInDim S1x128 ![1] bcast_S128_S1x128_1 (Cert.Net.gv_41 A)) i := by
  unfold Cert.Net.gv_42 Cert.Net.G_42
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem lay11 (A : Cert.Net.Args Ideal) (i : S100000x128.Idx) :
    Cert.Net.gv_47 A i = Cert.Spec.lin2 (Cert.Net.gv_42 A) (Cert.Net.gv_43 A) (Cert.Net.gv_44 A) (Cert.Net.gv_45 A) (broadcastInDim S1x128 ![1] bcast_S128_S1x128_1 (Cert.Net.gv_46 A)) i := by
  unfold Cert.Net.gv_47 Cert.Net.G_47
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem lay12 (A : Cert.Net.Args Ideal) (i : S2000x128.Idx) :
    Cert.Net.gv_50 A i = Cert.Spec.lin1 (Cert.Net.gv_36 A) (Cert.Net.gv_48 A) (broadcastInDim S1x128 ![1] bcast_S128_S1x128_1 (Cert.Net.gv_49 A)) i := by
  unfold Cert.Net.gv_50 Cert.Net.G_50
  exact Cert.LayerRef.layer1 plain_dot_S2000x128_S128x128_S2000x128_1_0_0_1_n_n _ _ _ _ _
    (fun i => Cert.LayerRef.bias_bcast (by decide) _ _ i) (fun i => by unfold Cert.Net.gv_7 Cert.Net.G_7; exact Cert.LayerRef.zero_bcast _ i) i

theorem lay13 (A : Cert.Net.Args Ideal) (i : S2000x128.Idx) :
    Cert.Net.gv_53 A i = Cert.Spec.lin1 (Cert.Net.gv_50 A) (Cert.Net.gv_51 A) (broadcastInDim S1x128 ![1] bcast_S128_S1x128_1 (Cert.Net.gv_52 A)) i := by
  unfold Cert.Net.gv_53 Cert.Net.G_53
  exact Cert.LayerRef.layer1 plain_dot_S2000x128_S128x128_S2000x128_1_0_0_1_n_n _ _ _ _ _
    (fun i => Cert.LayerRef.bias_bcast (by decide) _ _ i) (fun i => by unfold Cert.Net.gv_7 Cert.Net.G_7; exact Cert.LayerRef.zero_bcast _ i) i

theorem lay14 (A : Cert.Net.Args Ideal) (i : S50x128.Idx) :
    Cert.Net.gv_56 A i = Cert.Spec.lin1 (Cert.Net.gv_37 A) (Cert.Net.gv_54 A) (broadcastInDim S1x128 ![1] bcast_S128_S1x128_1 (Cert.Net.gv_55 A)) i := by
  unfold Cert.Net.gv_56 Cert.Net.G_56
  exact Cert.LayerRef.layer1 plain_dot_S50x128_S128x128_S50x128_1_0_0_1_n_n _ _ _ _ _
    (fun i => Cert.LayerRef.bias_bcast (by decide) _ _ i) (fun i => by unfold Cert.Net.gv_8 Cert.Net.G_8; exact Cert.LayerRef.zero_bcast _ i) i

theorem lay15 (A : Cert.Net.Args Ideal) (i : S50x128.Idx) :
    Cert.Net.gv_59 A i = Cert.Spec.lin1 (Cert.Net.gv_56 A) (Cert.Net.gv_57 A) (broadcastInDim S1x128 ![1] bcast_S128_S1x128_1 (Cert.Net.gv_58 A)) i := by
  unfold Cert.Net.gv_59 Cert.Net.G_59
  exact Cert.LayerRef.layer1 plain_dot_S50x128_S128x128_S50x128_1_0_0_1_n_n _ _ _ _ _
    (fun i => Cert.LayerRef.bias_bcast (by decide) _ _ i) (fun i => by unfold Cert.Net.gv_8 Cert.Net.G_8; exact Cert.LayerRef.zero_bcast _ i) i

theorem lay16 (A : Cert.Net.Args Ideal) (i : S100000x128.Idx) :
    Cert.Net.gv_63 A i = Cert.Spec.lin2 (Cert.Net.gv_47 A) (Cert.Net.gv_62 A) A.a20 A.a25 (broadcastInDim S1x128 ![1] bcast_S128_S1x128_1 A.a27) i := by
  unfold Cert.Net.gv_63 Cert.Net.G_63
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem lay17 (A : Cert.Net.Args Ideal) (i : S2000x128.Idx) :
    Cert.Net.gv_65 A i = Cert.Spec.lin3 (Cert.Net.gv_53 A) (Cert.Net.gv_60 A) (Cert.Net.gv_64 A) A.a21 A.a23 A.a26 (broadcastInDim S1x128 ![1] bcast_S128_S1x128_1 A.a28) i := by
  unfold Cert.Net.gv_65 Cert.Net.G_65
  exact Cert.LayerRef.layer3 plain_dot_S2000x128_S128x128_S2000x128_1_0_0_1_n_n _ _ _ _ _ _ _ _ _
    (fun i => Cert.LayerRef.bias_bcast (by decide) _ _ i) (fun i => by unfold Cert.Net.gv_7 Cert.Net.G_7; exact Cert.LayerRef.zero_bcast _ i) i

theorem lay18 (A : Cert.Net.Args Ideal) (i : S50x128.Idx) :
    Cert.Net.gv_66 A i = Cert.Spec.lin2 (Cert.Net.gv_59 A) (Cert.Net.gv_61 A) A.a22 A.a24 (broadcastInDim S1x128 ![1] bcast_S128_S1x128_1 A.a29) i := by
  unfold Cert.Net.gv_66 Cert.Net.G_66
  exact Cert.LayerRef.layer2 plain_dot_S50x128_S128x128_S50x128_1_0_0_1_n_n _ _ _ _ _ _ _
    (fun i => Cert.LayerRef.bias_bcast (by decide) _ _ i) (fun i => by unfold Cert.Net.gv_8 Cert.Net.G_8; exact Cert.LayerRef.zero_bcast _ i) i

theorem lay19 (A : Cert.Net.Args Ideal) (i : S100000x128.Idx) :
    Cert.Net.gv_68 A i = Cert.Spec.lin2 (Cert.Net.gv_63 A) (Cert.Net.gv_67 A) (Cert.Net.gv_39 A) (Cert.Net.gv_40 A) (broadcastInDim S1x128 ![1] bcast_S128_S1x128_1 (Cert.Net.gv_41 A)) i := by
  unfold Cert.Net.gv_68 Cert.Net.G_68
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem lay20 (A : Cert.Net.Args Ideal) (i : S100000x128.Idx) :
    Cert.Net.gv_70 A i = Cert.Spec.lin2 (Cert.Net.gv_68 A) (Cert.Net.gv_69 A) (Cert.Net.gv_44 A) (Cert.Net.gv_45 A) (broadcastInDim S1x128 ![1] bcast_S128_S1x128_1 (Cert.Net.gv_46 A)) i := by
  unfold Cert.Net.gv_70 Cert.Net.G_70
  exact Cert.LayerRef.layer2 plain_dot_S100000x128_S128x128_S100000x128_1_0_0_1_n_n _ _ _ _ _ _ _
    (fun i => Cert.LayerRef.bias_bcast (by decide) _ _ i) (fun i => Cert.LayerRef.zero_bcast _ i) i

theorem lay21 (A : Cert.Net.Args Ideal) (i : S2000x128.Idx) :
    Cert.Net.gv_71 A i = Cert.Spec.lin1 (Cert.Net.gv_65 A) (Cert.Net.gv_48 A) (broadcastInDim S1x128 ![1] bcast_S128_S1x128_1 (Cert.Net.gv_49 A)) i := by
  unfold Cert.Net.gv_71 Cert.Net.G_71
  exact Cert.LayerRef.layer1 plain_dot_S2000x128_S128x128_S2000x128_1_0_0_1_n_n _ _ _ _ _
    (fun i => Cert.LayerRef.bias_bcast (by decide) _ _ i) (fun i => by unfold Cert.Net.gv_7 Cert.Net.G_7; exact Cert.LayerRef.zero_bcast _ i) i

theorem lay22 (A : Cert.Net.Args Ideal) (i : S2000x128.Idx) :
    Cert.Net.gv_72 A i = Cert.Spec.lin1 (Cert.Net.gv_71 A) (Cert.Net.gv_51 A) (broadcastInDim S1x128 ![1] bcast_S128_S1x128_1 (Cert.Net.gv_52 A)) i := by
  unfold Cert.Net.gv_72 Cert.Net.G_72
  exact Cert.LayerRef.layer1 plain_dot_S2000x128_S128x128_S2000x128_1_0_0_1_n_n _ _ _ _ _
    (fun i => Cert.LayerRef.bias_bcast (by decide) _ _ i) (fun i => by unfold Cert.Net.gv_7 Cert.Net.G_7; exact Cert.LayerRef.zero_bcast _ i) i

theorem lay23 (A : Cert.Net.Args Ideal) (i : S50x128.Idx) :
    Cert.Net.gv_73 A i = Cert.Spec.lin1 (Cert.Net.gv_66 A) (Cert.Net.gv_54 A) (broadcastInDim S1x128 ![1] bcast_S128_S1x128_1 (Cert.Net.gv_55 A)) i := by
  unfold Cert.Net.gv_73 Cert.Net.G_73
  exact Cert.LayerRef.layer1 plain_dot_S50x128_S128x128_S50x128_1_0_0_1_n_n _ _ _ _ _
    (fun i => Cert.LayerRef.bias_bcast (by decide) _ _ i) (fun i => by unfold Cert.Net.gv_8 Cert.Net.G_8; exact Cert.LayerRef.zero_bcast _ i) i

theorem lay24 (A : Cert.Net.Args Ideal) (i : S50x128.Idx) :
    Cert.Net.gv_74 A i = Cert.Spec.lin1 (Cert.Net.gv_73 A) (Cert.Net.gv_57 A) (broadcastInDim S1x128 ![1] bcast_S128_S1x128_1 (Cert.Net.gv_58 A)) i := by
  unfold Cert.Net.gv_74 Cert.Net.G_74
  exact Cert.LayerRef.layer1 plain_dot_S50x128_S128x128_S50x128_1_0_0_1_n_n _ _ _ _ _
    (fun i => Cert.LayerRef.bias_bcast (by decide) _ _ i) (fun i => by unfold Cert.Net.gv_8 Cert.Net.G_8; exact Cert.LayerRef.zero_bcast _ i) i

theorem plain_dot_S50x384_S384x128_S50x128_1_0_0_1_n_n : PlainDot dot_S50x384_S384x128_S50x128_1_0_0_1_n_n := ⟨rfl, rfl, fun _ _ => rfl, fun _ _ => rfl, fun _ _ => rfl, fun _ _ => rfl⟩

theorem lay25 (A : Cert.Net.Args Ideal) (i : S50x128.Idx) :
    Cert.Net.gv_76 A i = Cert.Spec.lin1 (Cert.Net.gv_75 A) A.a30 (broadcastInDim S1x128 ![1] bcast_S128_S1x128_1 A.a31) i := by
  unfold Cert.Net.gv_76 Cert.Net.G_76
  exact Cert.LayerRef.layer1 plain_dot_S50x384_S384x128_S50x128_1_0_0_1_n_n _ _ _ _ _
    (fun i => Cert.LayerRef.bias_bcast (by decide) _ _ i) (fun i => by unfold Cert.Net.gv_8 Cert.Net.G_8; exact Cert.LayerRef.zero_bcast _ i) i

end Cert.Layers

end
-- ==== Proof.Host.LibRow.lean ====
/-
  A vector given a leading unit axis two ways: by a reshape, and by a broadcast along the trailing axis. The two arrays
  are the same.
-/
import Idealize.ShloMosaic.Lib.ValueLayout

namespace Cert.Host

open Idealize.ShloMosaic Idealize.ShloMosaic.ValueIdx

/-- An `[n]` array reshaped to `[1, n]` is the array broadcast to `[1, n]` along the trailing axis: both read, at
    `(u, i)`, the operand at `i` (when `n = 1` the broadcast reads coordinate `0`, the only one). -/
theorem shapeCast_row_eq_broadcastInDim {α : Type} {n : Nat} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) h' x := by
  funext j
  obtain ⟨u, i, rfl⟩ : ∃ u i, j = ix2 u i := ⟨j 0, j 1, eq_ix2 j⟩
  rw [shapeCast_a_1a_apply x h u i]
  refine (broadcastInDim_apply (![1] : Fin 1 → Fin 2) h' x (ix2 u i) (ix1 i) ?_).symm
  intro a
  match a with
  | ⟨0, _⟩ =>
    show i.val = if n = 1 then 0 else i.val
    split_ifs with hn
    · subst hn; omega
    · rfl

end Cert.Host
-- ==== Proof.Host.LibNary.lean ====
/-
  A host operation over three operands, read with each operand's contents at its own reference.
-/
import Idealize.ShloMosaic.Lib.StableHlo.Run

namespace Cert.Host

open Idealize.ShloMosaic

/-- The result of a three-operand operation is its function at the three operands' contents, each named at its own reference
    (in place of a family indexed by position): the family read at positions 0, 1, 2 is the three contents in order. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- The same, stated so that one rewriting pass finds it at any result reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- Every operation's result in one rewriting pass, a three-operand operation's operands each at its own reference, so that
    the pass goes on into what those operands hold. -/
macro "after_results_simp3" : tactic =>
  `(tactic| (simp (disch := decide) only [StableHlo.after_cons, StableHlo.after_nil,
      StableHlo.nullary_result', StableHlo.unary_result', StableHlo.binary_result', StableHlo.ternary_result', StableHlo.quaternary_result',
      StableHlo.reshape_result', Cert.Host.nary3_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne']))

end Cert.Host
-- ==== Proof.Host.K0.lean ====
/-
  What host stretch hostOps0 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K0_main_v1 (W : Valuation τ sig (Elt F)) :
    StableHlo.after hostOps0 W (Proc.devRef .tc main_v1) = Cert.Net.G_0 (W (Proc.devRef .tc main_arg1)) := by
  after_results_simp
  rfl

theorem K0_main_v3 (W : Valuation τ sig (Elt F)) :
    StableHlo.after hostOps0 W (Proc.devRef .tc main_v3) = Cert.Net.G_1 (W (Proc.devRef .tc main_arg1)) := by
  after_results_simp
  rfl

theorem K0_main_c (W : Valuation τ sig (Elt F)) :
    StableHlo.after hostOps0 W (Proc.devRef .tc main_c) = Cert.Net.G_2  := by
  after_results_simp
  rfl

theorem K0_main_v6 (W : Valuation τ sig (Elt F)) :
    StableHlo.after hostOps0 W (Proc.devRef .tc main_v6) = Cert.Net.G_3 (W (Proc.devRef .tc main_arg3)) (W (Proc.devRef .tc main_arg2)) (StableHlo.after hostOps0 W (Proc.devRef .tc main_c)) := by
  after_results_simp
  rfl

theorem K0_main_v7 (W : Valuation τ sig (Elt F)) :
    StableHlo.after hostOps0 W (Proc.devRef .tc main_v7) = Cert.Net.G_4  := by
  after_results_simp
  rfl

theorem K0_main_c_0 (W : Valuation τ sig (Elt F)) :
    StableHlo.after hostOps0 W (Proc.devRef .tc main_c_0) = Cert.Net.G_2  := by
  after_results_simp
  rfl

end Cert.KernelIdeal.Hand

end
-- ==== Proof.Host.K1.lean ====
/-
  What host stretch hostOps0_1 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K1_main_v8 (W : Valuation τ sig (Elt F)) :
    StableHlo.after hostOps0_1 W (Proc.devRef .tc main_v8) = Cert.Net.G_5 (W (Proc.devRef .tc main_v7)) (W (Proc.devRef .tc main_c_0)) (W (Proc.devRef .tc main_v7)) (W (Proc.devRef .tc main_c_0)) (W (Proc.devRef .tc main_v7)) (W (Proc.devRef .tc main_c_0)) (W (Proc.devRef .tc main_v7)) (W (Proc.devRef .tc main_c_0)) := by
  after_results_simp
  rfl

end Cert.KernelIdeal.Hand

end
-- ==== Proof.Host.K2.lean ====
/-
  What host stretch hostOps0_2 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K2_main_v9 (W : Valuation τ sig (Elt F)) :
    StableHlo.after hostOps0_2 W (Proc.devRef .tc main_v9) = broadcastInDim Cert.ReferenceIdeal.S1x128 ![1] Cert.ReferenceIdeal.Gen.bcast_S128_S1x128_1 (W (Proc.devRef .tc main_arg5)) := by
  after_results_simp
  exact Cert.Host.shapeCast_row_eq_broadcastInDim _ _ _

end Cert.KernelIdeal.Hand

end
-- ==== Proof.Host.K4.lean ====
/-
  What host stretch hostOps1 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K4_main_v11 (W : Valuation τ sig (Elt F)) :
    StableHlo.after hostOps1 W (Proc.devRef .tc main_v11) = Cert.Net.G_7  := by
  after_results_simp
  rfl

theorem K4_main_v12 (W : Valuation τ sig (Elt F)) :
    StableHlo.after hostOps1 W (Proc.devRef .tc main_v12) = Cert.Net.G_8  := by
  after_results_simp
  rfl

theorem K4_main_v30 (W : Valuation τ sig (Elt F)) :
    StableHlo.after hostOps1 W (Proc.devRef .tc main_v30) = Cert.Net.G_9 (W (Proc.devRef .tc main_v3)) (W (Proc.devRef .tc main_v10)) (W (Proc.devRef .tc main_v1)) (W (Proc.devRef .tc main_v1)) (W (Proc.devRef .tc main_v1)) (W (Proc.devRef .tc main_v3)) := by
  after_results_simp
  rfl

theorem K4_main_v32 (W : Valuation τ sig (Elt F)) :
    StableHlo.after hostOps1 W (Proc.devRef .tc main_v32) = Cert.Net.G_10 (W (Proc.devRef .tc main_arg6)) := by
  after_results_simp
  rfl

theorem K4_main_v34 (W : Valuation τ sig (Elt F)) :
    StableHlo.after hostOps1 W (Proc.devRef .tc main_v34) = Cert.Net.G_11 (W (Proc.devRef .tc main_arg7)) := by
  after_results_simp
  rfl

theorem K4_main_v36 (W : Valuation τ sig (Elt F)) :
    StableHlo.after hostOps1 W (Proc.devRef .tc main_v36) = Cert.Net.G_12 (W (Proc.devRef .tc main_arg8)) := by
  after_results_simp
  rfl

theorem K4_main_v37 (W : Valuation τ sig (Elt F)) :
    StableHlo.after hostOps1 W (Proc.devRef .tc main_v37) = broadcastInDim Cert.ReferenceIdeal.S1x128 ![1] Cert.ReferenceIdeal.Gen.bcast_S128_S1x128_1 (StableHlo.after hostOps1 W (Proc.devRef .tc main_v36)) := by
  after_results_simp
  exact Cert.Host.shapeCast_row_eq_broadcastInDim _ _ _

end Cert.KernelIdeal.Hand

end
-- ==== Proof.Host.K6.lean ====
/-
  What host stretch hostOps2 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K6_main_v56 (W : Valuation τ sig (Elt F)) :
    StableHlo.after hostOps2 W (Proc.devRef .tc main_v56) = Cert.Net.G_14 (W (Proc.devRef .tc main_v3)) (W (Proc.devRef .tc main_v38)) (W (Proc.devRef .tc main_v1)) (W (Proc.devRef .tc main_v1)) (W (Proc.devRef .tc main_v1)) (W (Proc.devRef .tc main_v3)) := by
  after_results_simp
  rfl

theorem K6_main_v58 (W : Valuation τ sig (Elt F)) :
    StableHlo.after hostOps2 W (Proc.devRef .tc main_v58) = Cert.Net.G_15 (W (Proc.devRef .tc main_arg6)) := by
  after_results_simp
  rfl

theorem K6_main_v60 (W : Valuation τ sig (Elt F)) :
    StableHlo.after hostOps2 W (Proc.devRef .tc main_v60) = Cert.Net.G_16 (W (Proc.devRef .tc main_arg7)) := by
  after_results_simp
  rfl

theorem K6_main_v62 (W : Valuation τ sig (Elt F)) :
    StableHlo.after hostOps2 W (Proc.devRef .tc main_v62) = Cert.Net.G_17 (W (Proc.devRef .tc main_arg8)) := by
  after_results_simp
  rfl

theorem K6_main_v63 (W : Valuation τ sig (Elt F)) :
    StableHlo.after hostOps2 W (Proc.devRef .tc main_v63) = broadcastInDim Cert.ReferenceIdeal.S1x128 ![1] Cert.ReferenceIdeal.Gen.bcast_S128_S1x128_1 (StableHlo.after hostOps2 W (Proc.devRef .tc main_v62)) := by
  after_results_simp
  exact Cert.Host.shapeCast_row_eq_broadcastInDim _ _ _

end Cert.KernelIdeal.Hand

end
-- ==== Proof.Host.K8.lean ====
/-
  What host stretch hostOps3 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K8_main_v66 (W : Valuation τ sig (Elt F)) :
    StableHlo.after hostOps3 W (Proc.devRef .tc main_v66) = Cert.Net.G_19 (W (Proc.devRef .tc main_arg9)) := by
  after_results_simp
  rfl

theorem K8_main_v68 (W : Valuation τ sig (Elt F)) :
    StableHlo.after hostOps3 W (Proc.devRef .tc main_v68) = Cert.Net.G_20 (W (Proc.devRef .tc main_arg10)) := by
  after_results_simp
  rfl

theorem K8_main_v69 (W : Valuation τ sig (Elt F)) :
    StableHlo.after hostOps3 W (Proc.devRef .tc main_v69) = broadcastInDim Cert.ReferenceIdeal.S1x128 ![1] Cert.ReferenceIdeal.Gen.bcast_S128_S1x128_1 (StableHlo.after hostOps3 W (Proc.devRef .tc main_v68)) := by
  after_results_simp
  exact Cert.Host.shapeCast_row_eq_broadcastInDim _ _ _

end Cert.KernelIdeal.Hand

end
-- ==== Proof.Host.K10.lean ====
/-
  What host stretch hostOps4 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K10_main_v72 (W : Valuation τ sig (Elt F)) :
    StableHlo.after hostOps4 W (Proc.devRef .tc main_v72) = Cert.Net.G_22 (W (Proc.devRef .tc main_arg9)) := by
  after_results_simp
  rfl

theorem K10_main_v74 (W : Valuation τ sig (Elt F)) :
    StableHlo.after hostOps4 W (Proc.devRef .tc main_v74) = Cert.Net.G_23 (W (Proc.devRef .tc main_arg10)) := by
  after_results_simp
  rfl

theorem K10_main_v75 (W : Valuation τ sig (Elt F)) :
    StableHlo.after hostOps4 W (Proc.devRef .tc main_v75) = broadcastInDim Cert.ReferenceIdeal.S1x128 ![1] Cert.ReferenceIdeal.Gen.bcast_S128_S1x128_1 (StableHlo.after hostOps4 W (Proc.devRef .tc main_v74)) := by
  after_results_simp
  exact Cert.Host.shapeCast_row_eq_broadcastInDim _ _ _

end Cert.KernelIdeal.Hand

end
-- ==== Proof.Host.K12.lean ====
/-
  What host stretch hostOps5 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K12_main_v78 (W : Valuation τ sig (Elt F)) :
    StableHlo.after hostOps5 W (Proc.devRef .tc main_v78) = Cert.Net.G_25 (W (Proc.devRef .tc main_arg11)) := by
  after_results_simp
  rfl

theorem K12_main_v80 (W : Valuation τ sig (Elt F)) :
    StableHlo.after hostOps5 W (Proc.devRef .tc main_v80) = Cert.Net.G_26 (W (Proc.devRef .tc main_arg12)) := by
  after_results_simp
  rfl

theorem K12_main_v81 (W : Valuation τ sig (Elt F)) :
    StableHlo.after hostOps5 W (Proc.devRef .tc main_v81) = broadcastInDim Cert.ReferenceIdeal.S1x128 ![1] Cert.ReferenceIdeal.Gen.bcast_S128_S1x128_1 (StableHlo.after hostOps5 W (Proc.devRef .tc main_v80)) := by
  after_results_simp
  exact Cert.Host.shapeCast_row_eq_broadcastInDim _ _ _

end Cert.KernelIdeal.Hand

end
-- ==== Proof.Host.K14.lean ====
/-
  What host stretch hostOps6 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K14_main_v84 (W : Valuation τ sig (Elt F)) :
    StableHlo.after hostOps6 W (Proc.devRef .tc main_v84) = Cert.Net.G_28 (W (Proc.devRef .tc main_arg11)) := by
  after_results_simp
  rfl

theorem K14_main_v86 (W : Valuation τ sig (Elt F)) :
    StableHlo.after hostOps6 W (Proc.devRef .tc main_v86) = Cert.Net.G_29 (W (Proc.devRef .tc main_arg12)) := by
  after_results_simp
  rfl

theorem K14_main_v87 (W : Valuation τ sig (Elt F)) :
    StableHlo.after hostOps6 W (Proc.devRef .tc main_v87) = broadcastInDim Cert.ReferenceIdeal.S1x128 ![1] Cert.ReferenceIdeal.Gen.bcast_S128_S1x128_1 (StableHlo.after hostOps6 W (Proc.devRef .tc main_v86)) := by
  after_results_simp
  exact Cert.Host.shapeCast_row_eq_broadcastInDim _ _ _

end Cert.KernelIdeal.Hand

end
-- ==== Proof.Host.K16.lean ====
/-
  What host stretch hostOps7 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K16_main_v89 (W : Valuation τ sig (Elt F)) :
    StableHlo.after hostOps7 W (Proc.devRef .tc main_v89) = Cert.Net.G_7  := by
  after_results_simp
  rfl

theorem K16_main_v99 (W : Valuation τ sig (Elt F)) :
    StableHlo.after hostOps7 W (Proc.devRef .tc main_v99) = Cert.Net.G_31 (StableHlo.after hostOps7 W (Proc.devRef .tc main_v89)) (W (Proc.devRef .tc main_v6)) (W (Proc.devRef .tc main_v64)) (W (Proc.devRef .tc main_v6)) := by
  after_results_simp
  rfl

theorem K16_main_v100 (W : Valuation τ sig (Elt F)) :
    StableHlo.after hostOps7 W (Proc.devRef .tc main_v100) = Cert.Net.G_8  := by
  after_results_simp
  rfl

theorem K16_main_v110 (W : Valuation τ sig (Elt F)) :
    StableHlo.after hostOps7 W (Proc.devRef .tc main_v110) = Cert.Net.G_32 (StableHlo.after hostOps7 W (Proc.devRef .tc main_v100)) (W (Proc.devRef .tc main_v8)) (W (Proc.devRef .tc main_v76)) (W (Proc.devRef .tc main_v8)) := by
  after_results_simp
  rfl

theorem K16_main_v117 (W : Valuation τ sig (Elt F)) :
    StableHlo.after hostOps7 W (Proc.devRef .tc main_v117) = Cert.Net.G_33 (W (Proc.devRef .tc main_v76)) (W (Proc.devRef .tc main_v6)) (W (Proc.devRef .tc main_v6)) (W (Proc.devRef .tc main_v6)) := by
  after_results_simp
  rfl

theorem K16_main_v124 (W : Valuation τ sig (Elt F)) :
    StableHlo.after hostOps7 W (Proc.devRef .tc main_v124) = Cert.Net.G_35 (W (Proc.devRef .tc main_v88)) (W (Proc.devRef .tc main_v8)) (W (Proc.devRef .tc main_v8)) (W (Proc.devRef .tc main_v8)) := by
  after_results_simp
  rfl

theorem K16_main_v125 (W : Valuation τ sig (Elt F)) :
    StableHlo.after hostOps7 W (Proc.devRef .tc main_v125) = broadcastInDim Cert.ReferenceIdeal.S1x128 ![1] Cert.ReferenceIdeal.Gen.bcast_S128_S1x128_1 (W (Proc.devRef .tc main_arg27)) := by
  after_results_simp
  exact Cert.Host.shapeCast_row_eq_broadcastInDim _ _ _

end Cert.KernelIdeal.Hand

end
-- ==== Proof.Host.K18.lean ====
/-
  What host stretch hostOps8 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K18_main_v127 (W : Valuation τ sig (Elt F)) :
    StableHlo.after hostOps8 W (Proc.devRef .tc main_v127) = broadcastInDim Cert.ReferenceIdeal.S1x128 ![1] Cert.ReferenceIdeal.Gen.bcast_S128_S1x128_1 (W (Proc.devRef .tc main_arg28)) := by
  after_results_simp
  exact Cert.Host.shapeCast_row_eq_broadcastInDim _ _ _

end Cert.KernelIdeal.Hand

end
-- ==== Proof.Host.K20.lean ====
/-
  What host stretch hostOps9 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K20_main_v129 (W : Valuation τ sig (Elt F)) :
    StableHlo.after hostOps9 W (Proc.devRef .tc main_v129) = broadcastInDim Cert.ReferenceIdeal.S1x128 ![1] Cert.ReferenceIdeal.Gen.bcast_S128_S1x128_1 (W (Proc.devRef .tc main_arg29)) := by
  after_results_simp
  exact Cert.Host.shapeCast_row_eq_broadcastInDim _ _ _

end Cert.KernelIdeal.Hand

end
-- ==== Proof.Host.K22.lean ====
/-
  What host stretch hostOps10 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K22_main_v148 (W : Valuation τ sig (Elt F)) :
    StableHlo.after hostOps10 W (Proc.devRef .tc main_v148) = Cert.Net.G_38 (W (Proc.devRef .tc main_v3)) (W (Proc.devRef .tc main_v126)) (W (Proc.devRef .tc main_v1)) (W (Proc.devRef .tc main_v1)) (W (Proc.devRef .tc main_v1)) (W (Proc.devRef .tc main_v3)) := by
  after_results_simp
  rfl

theorem K22_main_v150 (W : Valuation τ sig (Elt F)) :
    StableHlo.after hostOps10 W (Proc.devRef .tc main_v150) = Cert.Net.G_39 (W (Proc.devRef .tc main_arg13)) := by
  after_results_simp
  rfl

theorem K22_main_v152 (W : Valuation τ sig (Elt F)) :
    StableHlo.after hostOps10 W (Proc.devRef .tc main_v152) = Cert.Net.G_40 (W (Proc.devRef .tc main_arg14)) := by
  after_results_simp
  rfl

theorem K22_main_v154 (W : Valuation τ sig (Elt F)) :
    StableHlo.after hostOps10 W (Proc.devRef .tc main_v154) = Cert.Net.G_41 (W (Proc.devRef .tc main_arg15)) := by
  after_results_simp
  rfl

theorem K22_main_v155 (W : Valuation τ sig (Elt F)) :
    StableHlo.after hostOps10 W (Proc.devRef .tc main_v155) = broadcastInDim Cert.ReferenceIdeal.S1x128 ![1] Cert.ReferenceIdeal.Gen.bcast_S128_S1x128_1 (StableHlo.after hostOps10 W (Proc.devRef .tc main_v154)) := by
  after_results_simp
  exact Cert.Host.shapeCast_row_eq_broadcastInDim _ _ _

end Cert.KernelIdeal.Hand

end
-- ==== Proof.Host.K24.lean ====
/-
  What host stretch hostOps11 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K24_main_v174 (W : Valuation τ sig (Elt F)) :
    StableHlo.after hostOps11 W (Proc.devRef .tc main_v174) = Cert.Net.G_43 (W (Proc.devRef .tc main_v3)) (W (Proc.devRef .tc main_v156)) (W (Proc.devRef .tc main_v1)) (W (Proc.devRef .tc main_v1)) (W (Proc.devRef .tc main_v1)) (W (Proc.devRef .tc main_v3)) := by
  after_results_simp
  rfl

theorem K24_main_v176 (W : Valuation τ sig (Elt F)) :
    StableHlo.after hostOps11 W (Proc.devRef .tc main_v176) = Cert.Net.G_44 (W (Proc.devRef .tc main_arg13)) := by
  after_results_simp
  rfl

theorem K24_main_v178 (W : Valuation τ sig (Elt F)) :
    StableHlo.after hostOps11 W (Proc.devRef .tc main_v178) = Cert.Net.G_45 (W (Proc.devRef .tc main_arg14)) := by
  after_results_simp
  rfl

theorem K24_main_v180 (W : Valuation τ sig (Elt F)) :
    StableHlo.after hostOps11 W (Proc.devRef .tc main_v180) = Cert.Net.G_46 (W (Proc.devRef .tc main_arg15)) := by
  after_results_simp
  rfl

theorem K24_main_v181 (W : Valuation τ sig (Elt F)) :
    StableHlo.after hostOps11 W (Proc.devRef .tc main_v181) = broadcastInDim Cert.ReferenceIdeal.S1x128 ![1] Cert.ReferenceIdeal.Gen.bcast_S128_S1x128_1 (StableHlo.after hostOps11 W (Proc.devRef .tc main_v180)) := by
  after_results_simp
  exact Cert.Host.shapeCast_row_eq_broadcastInDim _ _ _

end Cert.KernelIdeal.Hand

end
-- ==== Proof.Host.K26.lean ====
/-
  What host stretch hostOps12 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K26_main_v184 (W : Valuation τ sig (Elt F)) :
    StableHlo.after hostOps12 W (Proc.devRef .tc main_v184) = Cert.Net.G_48 (W (Proc.devRef .tc main_arg16)) := by
  after_results_simp
  rfl

theorem K26_main_v186 (W : Valuation τ sig (Elt F)) :
    StableHlo.after hostOps12 W (Proc.devRef .tc main_v186) = Cert.Net.G_49 (W (Proc.devRef .tc main_arg17)) := by
  after_results_simp
  rfl

theorem K26_main_v187 (W : Valuation τ sig (Elt F)) :
    StableHlo.after hostOps12 W (Proc.devRef .tc main_v187) = broadcastInDim Cert.ReferenceIdeal.S1x128 ![1] Cert.ReferenceIdeal.Gen.bcast_S128_S1x128_1 (StableHlo.after hostOps12 W (Proc.devRef .tc main_v186)) := by
  after_results_simp
  exact Cert.Host.shapeCast_row_eq_broadcastInDim _ _ _

end Cert.KernelIdeal.Hand

end
-- ==== Proof.Host.K28.lean ====
/-
  What host stretch hostOps13 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K28_main_v190 (W : Valuation τ sig (Elt F)) :
    StableHlo.after hostOps13 W (Proc.devRef .tc main_v190) = Cert.Net.G_51 (W (Proc.devRef .tc main_arg16)) := by
  after_results_simp
  rfl

theorem K28_main_v192 (W : Valuation τ sig (Elt F)) :
    StableHlo.after hostOps13 W (Proc.devRef .tc main_v192) = Cert.Net.G_52 (W (Proc.devRef .tc main_arg17)) := by
  after_results_simp
  rfl

theorem K28_main_v193 (W : Valuation τ sig (Elt F)) :
    StableHlo.after hostOps13 W (Proc.devRef .tc main_v193) = broadcastInDim Cert.ReferenceIdeal.S1x128 ![1] Cert.ReferenceIdeal.Gen.bcast_S128_S1x128_1 (StableHlo.after hostOps13 W (Proc.devRef .tc main_v192)) := by
  after_results_simp
  exact Cert.Host.shapeCast_row_eq_broadcastInDim _ _ _

end Cert.KernelIdeal.Hand

end
-- ==== Proof.Host.K30.lean ====
/-
  What host stretch hostOps14 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K30_main_v196 (W : Valuation τ sig (Elt F)) :
    StableHlo.after hostOps14 W (Proc.devRef .tc main_v196) = Cert.Net.G_54 (W (Proc.devRef .tc main_arg18)) := by
  after_results_simp
  rfl

theorem K30_main_v198 (W : Valuation τ sig (Elt F)) :
    StableHlo.after hostOps14 W (Proc.devRef .tc main_v198) = Cert.Net.G_55 (W (Proc.devRef .tc main_arg19)) := by
  after_results_simp
  rfl

theorem K30_main_v199 (W : Valuation τ sig (Elt F)) :
    StableHlo.after hostOps14 W (Proc.devRef .tc main_v199) = broadcastInDim Cert.ReferenceIdeal.S1x128 ![1] Cert.ReferenceIdeal.Gen.bcast_S128_S1x128_1 (StableHlo.after hostOps14 W (Proc.devRef .tc main_v198)) := by
  after_results_simp
  exact Cert.Host.shapeCast_row_eq_broadcastInDim _ _ _

end Cert.KernelIdeal.Hand

end
-- ==== Proof.Host.K32.lean ====
/-
  What host stretch hostOps15 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K32_main_v202 (W : Valuation τ sig (Elt F)) :
    StableHlo.after hostOps15 W (Proc.devRef .tc main_v202) = Cert.Net.G_57 (W (Proc.devRef .tc main_arg18)) := by
  after_results_simp
  rfl

theorem K32_main_v204 (W : Valuation τ sig (Elt F)) :
    StableHlo.after hostOps15 W (Proc.devRef .tc main_v204) = Cert.Net.G_58 (W (Proc.devRef .tc main_arg19)) := by
  after_results_simp
  rfl

theorem K32_main_v205 (W : Valuation τ sig (Elt F)) :
    StableHlo.after hostOps15 W (Proc.devRef .tc main_v205) = broadcastInDim Cert.ReferenceIdeal.S1x128 ![1] Cert.ReferenceIdeal.Gen.bcast_S128_S1x128_1 (StableHlo.after hostOps15 W (Proc.devRef .tc main_v204)) := by
  after_results_simp
  exact Cert.Host.shapeCast_row_eq_broadcastInDim _ _ _

end Cert.KernelIdeal.Hand

end
-- ==== Proof.Host.K34.lean ====
/-
  What host stretch hostOps16 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K34_main_v207 (W : Valuation τ sig (Elt F)) :
    StableHlo.after hostOps16 W (Proc.devRef .tc main_v207) = Cert.Net.G_7  := by
  after_results_simp
  rfl

theorem K34_main_v217 (W : Valuation τ sig (Elt F)) :
    StableHlo.after hostOps16 W (Proc.devRef .tc main_v217) = Cert.Net.G_60 (StableHlo.after hostOps16 W (Proc.devRef .tc main_v207)) (W (Proc.devRef .tc main_v6)) (W (Proc.devRef .tc main_v182)) (W (Proc.devRef .tc main_v6)) := by
  after_results_simp
  rfl

theorem K34_main_v218 (W : Valuation τ sig (Elt F)) :
    StableHlo.after hostOps16 W (Proc.devRef .tc main_v218) = Cert.Net.G_8  := by
  after_results_simp
  rfl

theorem K34_main_v228 (W : Valuation τ sig (Elt F)) :
    StableHlo.after hostOps16 W (Proc.devRef .tc main_v228) = Cert.Net.G_61 (StableHlo.after hostOps16 W (Proc.devRef .tc main_v218)) (W (Proc.devRef .tc main_v8)) (W (Proc.devRef .tc main_v194)) (W (Proc.devRef .tc main_v8)) := by
  after_results_simp
  rfl

theorem K34_main_v235 (W : Valuation τ sig (Elt F)) :
    StableHlo.after hostOps16 W (Proc.devRef .tc main_v235) = Cert.Net.G_62 (W (Proc.devRef .tc main_v194)) (W (Proc.devRef .tc main_v6)) (W (Proc.devRef .tc main_v6)) (W (Proc.devRef .tc main_v6)) := by
  after_results_simp
  rfl

theorem K34_main_v242 (W : Valuation τ sig (Elt F)) :
    StableHlo.after hostOps16 W (Proc.devRef .tc main_v242) = Cert.Net.G_64 (W (Proc.devRef .tc main_v206)) (W (Proc.devRef .tc main_v8)) (W (Proc.devRef .tc main_v8)) (W (Proc.devRef .tc main_v8)) := by
  after_results_simp
  rfl

theorem K34_main_v243 (W : Valuation τ sig (Elt F)) :
    StableHlo.after hostOps16 W (Proc.devRef .tc main_v243) = broadcastInDim Cert.ReferenceIdeal.S1x128 ![1] Cert.ReferenceIdeal.Gen.bcast_S128_S1x128_1 (W (Proc.devRef .tc main_arg27)) := by
  after_results_simp
  exact Cert.Host.shapeCast_row_eq_broadcastInDim _ _ _

end Cert.KernelIdeal.Hand

end
-- ==== Proof.Host.K36.lean ====
/-
  What host stretch hostOps17 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K36_main_v245 (W : Valuation τ sig (Elt F)) :
    StableHlo.after hostOps17 W (Proc.devRef .tc main_v245) = broadcastInDim Cert.ReferenceIdeal.S1x128 ![1] Cert.ReferenceIdeal.Gen.bcast_S128_S1x128_1 (W (Proc.devRef .tc main_arg28)) := by
  after_results_simp
  exact Cert.Host.shapeCast_row_eq_broadcastInDim _ _ _

end Cert.KernelIdeal.Hand

end
-- ==== Proof.Host.K38.lean ====
/-
  What host stretch hostOps18 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K38_main_v247 (W : Valuation τ sig (Elt F)) :
    StableHlo.after hostOps18 W (Proc.devRef .tc main_v247) = broadcastInDim Cert.ReferenceIdeal.S1x128 ![1] Cert.ReferenceIdeal.Gen.bcast_S128_S1x128_1 (W (Proc.devRef .tc main_arg29)) := by
  after_results_simp
  exact Cert.Host.shapeCast_row_eq_broadcastInDim _ _ _

end Cert.KernelIdeal.Hand

end
-- ==== Proof.Host.K40.lean ====
/-
  What host stretch hostOps19 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K40_main_v266 (W : Valuation τ sig (Elt F)) :
    StableHlo.after hostOps19 W (Proc.devRef .tc main_v266) = Cert.Net.G_67 (W (Proc.devRef .tc main_v3)) (W (Proc.devRef .tc main_v244)) (W (Proc.devRef .tc main_v1)) (W (Proc.devRef .tc main_v1)) (W (Proc.devRef .tc main_v1)) (W (Proc.devRef .tc main_v3)) := by
  after_results_simp
  rfl

theorem K40_main_v268 (W : Valuation τ sig (Elt F)) :
    StableHlo.after hostOps19 W (Proc.devRef .tc main_v268) = Cert.Net.G_39 (W (Proc.devRef .tc main_arg13)) := by
  after_results_simp
  rfl

theorem K40_main_v270 (W : Valuation τ sig (Elt F)) :
    StableHlo.after hostOps19 W (Proc.devRef .tc main_v270) = Cert.Net.G_40 (W (Proc.devRef .tc main_arg14)) := by
  after_results_simp
  rfl

theorem K40_main_v272 (W : Valuation τ sig (Elt F)) :
    StableHlo.after hostOps19 W (Proc.devRef .tc main_v272) = Cert.Net.G_41 (W (Proc.devRef .tc main_arg15)) := by
  after_results_simp
  rfl

theorem K40_main_v273 (W : Valuation τ sig (Elt F)) :
    StableHlo.after hostOps19 W (Proc.devRef .tc main_v273) = broadcastInDim Cert.ReferenceIdeal.S1x128 ![1] Cert.ReferenceIdeal.Gen.bcast_S128_S1x128_1 (StableHlo.after hostOps19 W (Proc.devRef .tc main_v272)) := by
  after_results_simp
  exact Cert.Host.shapeCast_row_eq_broadcastInDim _ _ _

end Cert.KernelIdeal.Hand

end
-- ==== Proof.Host.K42.lean ====
/-
  What host stretch hostOps20 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K42_main_v292 (W : Valuation τ sig (Elt F)) :
    StableHlo.after hostOps20 W (Proc.devRef .tc main_v292) = Cert.Net.G_69 (W (Proc.devRef .tc main_v3)) (W (Proc.devRef .tc main_v274)) (W (Proc.devRef .tc main_v1)) (W (Proc.devRef .tc main_v1)) (W (Proc.devRef .tc main_v1)) (W (Proc.devRef .tc main_v3)) := by
  after_results_simp
  rfl

theorem K42_main_v294 (W : Valuation τ sig (Elt F)) :
    StableHlo.after hostOps20 W (Proc.devRef .tc main_v294) = Cert.Net.G_44 (W (Proc.devRef .tc main_arg13)) := by
  after_results_simp
  rfl

theorem K42_main_v296 (W : Valuation τ sig (Elt F)) :
    StableHlo.after hostOps20 W (Proc.devRef .tc main_v296) = Cert.Net.G_45 (W (Proc.devRef .tc main_arg14)) := by
  after_results_simp
  rfl

theorem K42_main_v298 (W : Valuation τ sig (Elt F)) :
    StableHlo.after hostOps20 W (Proc.devRef .tc main_v298) = Cert.Net.G_46 (W (Proc.devRef .tc main_arg15)) := by
  after_results_simp
  rfl

theorem K42_main_v299 (W : Valuation τ sig (Elt F)) :
    StableHlo.after hostOps20 W (Proc.devRef .tc main_v299) = broadcastInDim Cert.ReferenceIdeal.S1x128 ![1] Cert.ReferenceIdeal.Gen.bcast_S128_S1x128_1 (StableHlo.after hostOps20 W (Proc.devRef .tc main_v298)) := by
  after_results_simp
  exact Cert.Host.shapeCast_row_eq_broadcastInDim _ _ _

end Cert.KernelIdeal.Hand

end
-- ==== Proof.Host.K44.lean ====
/-
  What host stretch hostOps21 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K44_main_v302 (W : Valuation τ sig (Elt F)) :
    StableHlo.after hostOps21 W (Proc.devRef .tc main_v302) = Cert.Net.G_48 (W (Proc.devRef .tc main_arg16)) := by
  after_results_simp
  rfl

theorem K44_main_v304 (W : Valuation τ sig (Elt F)) :
    StableHlo.after hostOps21 W (Proc.devRef .tc main_v304) = Cert.Net.G_49 (W (Proc.devRef .tc main_arg17)) := by
  after_results_simp
  rfl

theorem K44_main_v305 (W : Valuation τ sig (Elt F)) :
    StableHlo.after hostOps21 W (Proc.devRef .tc main_v305) = broadcastInDim Cert.ReferenceIdeal.S1x128 ![1] Cert.ReferenceIdeal.Gen.bcast_S128_S1x128_1 (StableHlo.after hostOps21 W (Proc.devRef .tc main_v304)) := by
  after_results_simp
  exact Cert.Host.shapeCast_row_eq_broadcastInDim _ _ _

end Cert.KernelIdeal.Hand

end
-- ==== Proof.Host.K46.lean ====
/-
  What host stretch hostOps22 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K46_main_v308 (W : Valuation τ sig (Elt F)) :
    StableHlo.after hostOps22 W (Proc.devRef .tc main_v308) = Cert.Net.G_51 (W (Proc.devRef .tc main_arg16)) := by
  after_results_simp
  rfl

theorem K46_main_v310 (W : Valuation τ sig (Elt F)) :
    StableHlo.after hostOps22 W (Proc.devRef .tc main_v310) = Cert.Net.G_52 (W (Proc.devRef .tc main_arg17)) := by
  after_results_simp
  rfl

theorem K46_main_v311 (W : Valuation τ sig (Elt F)) :
    StableHlo.after hostOps22 W (Proc.devRef .tc main_v311) = broadcastInDim Cert.ReferenceIdeal.S1x128 ![1] Cert.ReferenceIdeal.Gen.bcast_S128_S1x128_1 (StableHlo.after hostOps22 W (Proc.devRef .tc main_v310)) := by
  after_results_simp
  exact Cert.Host.shapeCast_row_eq_broadcastInDim _ _ _

end Cert.KernelIdeal.Hand

end
-- ==== Proof.Host.K48.lean ====
/-
  What host stretch hostOps23 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K48_main_v314 (W : Valuation τ sig (Elt F)) :
    StableHlo.after hostOps23 W (Proc.devRef .tc main_v314) = Cert.Net.G_54 (W (Proc.devRef .tc main_arg18)) := by
  after_results_simp
  rfl

theorem K48_main_v316 (W : Valuation τ sig (Elt F)) :
    StableHlo.after hostOps23 W (Proc.devRef .tc main_v316) = Cert.Net.G_55 (W (Proc.devRef .tc main_arg19)) := by
  after_results_simp
  rfl

theorem K48_main_v317 (W : Valuation τ sig (Elt F)) :
    StableHlo.after hostOps23 W (Proc.devRef .tc main_v317) = broadcastInDim Cert.ReferenceIdeal.S1x128 ![1] Cert.ReferenceIdeal.Gen.bcast_S128_S1x128_1 (StableHlo.after hostOps23 W (Proc.devRef .tc main_v316)) := by
  after_results_simp
  exact Cert.Host.shapeCast_row_eq_broadcastInDim _ _ _

end Cert.KernelIdeal.Hand

end
-- ==== Proof.Host.K50.lean ====
/-
  What host stretch hostOps24 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K50_main_v320 (W : Valuation τ sig (Elt F)) :
    StableHlo.after hostOps24 W (Proc.devRef .tc main_v320) = Cert.Net.G_57 (W (Proc.devRef .tc main_arg18)) := by
  after_results_simp
  rfl

theorem K50_main_v322 (W : Valuation τ sig (Elt F)) :
    StableHlo.after hostOps24 W (Proc.devRef .tc main_v322) = Cert.Net.G_58 (W (Proc.devRef .tc main_arg19)) := by
  after_results_simp
  rfl

theorem K50_main_v323 (W : Valuation τ sig (Elt F)) :
    StableHlo.after hostOps24 W (Proc.devRef .tc main_v323) = broadcastInDim Cert.ReferenceIdeal.S1x128 ![1] Cert.ReferenceIdeal.Gen.bcast_S128_S1x128_1 (StableHlo.after hostOps24 W (Proc.devRef .tc main_v322)) := by
  after_results_simp
  exact Cert.Host.shapeCast_row_eq_broadcastInDim _ _ _

end Cert.KernelIdeal.Hand

end
-- ==== Proof.Host.K52.lean ====
/-
  What host stretch hostOps25 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K52_main_v325 (W : Valuation τ sig (Elt F)) :
    StableHlo.after hostOps25 W (Proc.devRef .tc main_v325) = Cert.Net.G_8  := by
  after_results_simp3
  rfl

theorem K52_main_v336 (W : Valuation τ sig (Elt F)) :
    StableHlo.after hostOps25 W (Proc.devRef .tc main_v336) = Cert.Net.G_8  := by
  after_results_simp3
  rfl

theorem K52_main_v347 (W : Valuation τ sig (Elt F)) :
    StableHlo.after hostOps25 W (Proc.devRef .tc main_v347) = Cert.Net.G_75 (StableHlo.after hostOps25 W (Proc.devRef .tc main_v325)) (W (Proc.devRef .tc main_arg2)) (W (Proc.devRef .tc main_v300)) (W (Proc.devRef .tc main_arg2)) (StableHlo.after hostOps25 W (Proc.devRef .tc main_v336)) (W (Proc.devRef .tc main_v8)) (W (Proc.devRef .tc main_v312)) (W (Proc.devRef .tc main_v8)) (W (Proc.devRef .tc main_v324)) := by
  after_results_simp3
  rfl

theorem K52_main_v348 (W : Valuation τ sig (Elt F)) :
    StableHlo.after hostOps25 W (Proc.devRef .tc main_v348) = broadcastInDim Cert.ReferenceIdeal.S1x128 ![1] Cert.ReferenceIdeal.Gen.bcast_S128_S1x128_1 (W (Proc.devRef .tc main_arg31)) := by
  after_results_simp
  exact Cert.Host.shapeCast_row_eq_broadcastInDim _ _ _

end Cert.KernelIdeal.Hand

end
-- ==== Proof.Host.K54.lean ====
/-
  What host stretch hostOps26 of the kernel program leaves in the buffers read after it, as the shared functions of the arrays
  it reads: the stretch's operations unfolded once.
-/
import proofs.«141679_j61469571940402_1_alg».proof.Proof.Gen.KernelIdeal.Launch
import proofs.«141679_j61469571940402_1_alg».proof.Proof.Net
import proofs.«141679_j61469571940402_1_alg».proof.Proof.Host.LibRow
import proofs.«141679_j61469571940402_1_alg».proof.Proof.Host.LibNary
import Idealize.ShloMosaic.Lib.StableHlo.Run

set_option maxRecDepth 3048

noncomputable section

namespace Cert.KernelIdeal.Hand

open Idealize.ShloMosaic Cert.KernelIdeal Cert.KernelIdeal.Gen Cert.Host

variable {F : FTy → Type} [FloatOps F]

theorem K54_main_v353 (W : Valuation τ sig (Elt F)) :
    StableHlo.after hostOps26 W (Proc.devRef .tc main_v353) = Cert.Net.G_77 (W (Proc.devRef .tc main_v349)) (W (Proc.devRef .tc main_arg32)) (W (Proc.devRef .tc main_arg33)) := by
  after_results_simp
  rfl

end Cert.KernelIdeal.Hand

end
-- ==== Proof.KI.ValLib.lean ====
/-
  The dense layers read at an index, at the exact (extended real) instance.

  Every layer of the network is max (x·W₁ [+ y·W₂ [+ z·W₃]] + b, 0) on a tile of rows. The kernel bodies spell it
  with a matrix product into a zero accumulator per operand pair, a bias row repeated down the rows, and a maximum
  against a zero splat; changes of float format and reshapes to the same shape are the identity here. The lemmas
  below read such a term at an output index (p, q): each product is the plain sum ∑ₖ x (p, k) · w (k, q), the
  repeated bias row is b (0, q), the zero splat is 0. They are stated over variable operands, with the facts that
  the spelt operands ARE the plain arrays passed as hypotheses, so that one lemma serves every spelling.
-/
import Idealize.ShloMosaic.PureOps.Ideal
import Idealize.ShloMosaic.PureOps.Ideal.Laws
import Idealize.ShloMosaic.Lib.ValueIdx
import Idealize.ShloMosaic.Lib.Pipeline.Value
import proofs.«141679_j61469571940402_1_alg».proof.Proof.LibDense
import proofs.«141679_j61469571940402_1_alg».proof.Proof.Spec
import proofs.«141679_j61469571940402_1_alg».proof.Proof.Gen.KernelIdeal

noncomputable section

open scoped BigOperators

namespace Cert.KernelIdeal.Hand

open Cert.KernelIdeal Cert.KernelIdeal.Gen
open Idealize.ShloMosaic Idealize.ShloMosaic.ValueIdx Cert.LibDense

/-! ## The bias row repeated down the rows -/

/-- A row b of 128 entries, reshaped to its own shape and repeated over M rows, read at (p, q), is b (0, q). -/
theorem hval_bias {M : Nat} (b : (⟨2, ![1, 128]⟩ : Shape).Idx → EReal)
    (hs : (⟨2, ![1, 128]⟩ : Shape).ShapeCasts ⟨2, ![1, 128]⟩) (hb : (⟨2, ![1, 128]⟩ : Shape).Broadcasts ⟨2, ![M, 128]⟩)
    (j : (⟨2, ![M, 128]⟩ : Shape).Idx) :
    broadcastTo (⟨2, ![M, 128]⟩ : Shape) (shapeCast (⟨2, ![1, 128]⟩ : Shape) b hs) hb j = b (ix2 0 (j 1)) := by
  rw [shapeCast_self]
  refine broadcastTo_apply b hb j (ix2 0 (j 1)) fun a => ?_
  match a with
  | ⟨0, _⟩ => rfl
  | ⟨1, _⟩ => rfl

/-! ## One, two and three products, the bias, the cut at zero -/

variable {M K : Nat} {d : DotDims (⟨2, ![M, K]⟩ : Shape) (⟨2, ![K, 128]⟩ : Shape) (⟨2, ![M, 128]⟩ : Shape)}

/-- One product into zero, plus a bias term, cut at zero: `lin1` of the plain arrays the operands are. -/
theorem hval_lin1_val (hd : PlainDot d) {φ₁ φ₂ : FTy}
    (X : FVec Ideal (⟨2, ![M, K]⟩ : Shape) φ₁) (W : FVec Ideal (⟨2, ![K, 128]⟩ : Shape) φ₂)
    (B : FVec Ideal (⟨2, ![M, 128]⟩ : Shape) .f32)
    (x : (⟨2, ![M, K]⟩ : Shape).Idx → EReal) (w : (⟨2, ![K, 128]⟩ : Shape).Idx → EReal)
    (b : (⟨2, ![1, 128]⟩ : Shape).Idx → EReal)
    (hX : ∀ i, (X i : EReal) = x i) (hW : ∀ i, (W i : EReal) = w i)
    (hB : ∀ j, (B j : EReal) = b (ix2 0 (j 1))) (j : (⟨2, ![M, 128]⟩ : Shape).Idx) :
    (maximumf (addf (matmul d none X W (constant (⟨2, ![M, 128]⟩ : Shape) .f32 0x00000000#32)) B)
        (broadcast (⟨2, ![M, 128]⟩ : Shape) (Scalar.ofBits (F := Ideal) .f32 0x00000000#32)) j : EReal)
      = Cert.Spec.lin1 x w b j := by
  show max (FloatOps.matmul d none X W (constant (⟨2, ![M, 128]⟩ : Shape) .f32 0x00000000#32) j + B j)
      (Ideal.ofBits .f32 0x00000000#32) = _
  rw [matmul_zero_plain hd none X W j, Ideal.ofBits_zero_f32, hB j]
  unfold Cert.Spec.lin1
  exact congrArg (fun s => max (s + b (ix2 0 (j 1))) 0)
    (Finset.sum_congr rfl fun k _ => congrArg₂ (· * ·) (hX _) (hW _))

/-- Two products into zero added, plus a bias term, cut at zero: `lin2`. -/
theorem hval_lin2_val (hd : PlainDot d) {φ₁ φ₂ φ₃ φ₄ : FTy}
    (X : FVec Ideal (⟨2, ![M, K]⟩ : Shape) φ₁) (W1 : FVec Ideal (⟨2, ![K, 128]⟩ : Shape) φ₂)
    (Y : FVec Ideal (⟨2, ![M, K]⟩ : Shape) φ₃) (W2 : FVec Ideal (⟨2, ![K, 128]⟩ : Shape) φ₄)
    (B : FVec Ideal (⟨2, ![M, 128]⟩ : Shape) .f32)
    (x y : (⟨2, ![M, K]⟩ : Shape).Idx → EReal) (w1 w2 : (⟨2, ![K, 128]⟩ : Shape).Idx → EReal)
    (b : (⟨2, ![1, 128]⟩ : Shape).Idx → EReal)
    (hX : ∀ i, (X i : EReal) = x i) (hW1 : ∀ i, (W1 i : EReal) = w1 i)
    (hY : ∀ i, (Y i : EReal) = y i) (hW2 : ∀ i, (W2 i : EReal) = w2 i)
    (hB : ∀ j, (B j : EReal) = b (ix2 0 (j 1))) (j : (⟨2, ![M, 128]⟩ : Shape).Idx) :
    (maximumf (addf (addf (matmul d none X W1 (constant (⟨2, ![M, 128]⟩ : Shape) .f32 0x00000000#32))
          (matmul d none Y W2 (constant (⟨2, ![M, 128]⟩ : Shape) .f32 0x00000000#32))) B)
        (broadcast (⟨2, ![M, 128]⟩ : Shape) (Scalar.ofBits (F := Ideal) .f32 0x00000000#32)) j : EReal)
      = Cert.Spec.lin2 x y w1 w2 b j := by
  show max ((FloatOps.matmul d none X W1 (constant (⟨2, ![M, 128]⟩ : Shape) .f32 0x00000000#32) j
        + FloatOps.matmul d none Y W2 (constant (⟨2, ![M, 128]⟩ : Shape) .f32 0x00000000#32) j) + B j)
      (Ideal.ofBits .f32 0x00000000#32) = _
  rw [matmul_zero_plain hd none X W1 j, matmul_zero_plain hd none Y W2 j, Ideal.ofBits_zero_f32, hB j]
  unfold Cert.Spec.lin2
  exact congrArg₂ (fun s s' => max ((s + s') + b (ix2 0 (j 1))) 0)
    (Finset.sum_congr rfl fun k _ => congrArg₂ (· * ·) (hX _) (hW1 _))
    (Finset.sum_congr rfl fun k _ => congrArg₂ (· * ·) (hY _) (hW2 _))

/-- Three products into zero added left to right, plus a bias term, cut at zero: `lin3`. -/
theorem hval_lin3_val (hd : PlainDot d) {φ₁ φ₂ φ₃ φ₄ φ₅ φ₆ : FTy}
    (X : FVec Ideal (⟨2, ![M, K]⟩ : Shape) φ₁) (W1 : FVec Ideal (⟨2, ![K, 128]⟩ : Shape) φ₂)
    (Y : FVec Ideal (⟨2, ![M, K]⟩ : Shape) φ₃) (W2 : FVec Ideal (⟨2, ![K, 128]⟩ : Shape) φ₄)
    (Z : FVec Ideal (⟨2, ![M, K]⟩ : Shape) φ₅) (W3 : FVec Ideal (⟨2, ![K, 128]⟩ : Shape) φ₆)
    (B : FVec Ideal (⟨2, ![M, 128]⟩ : Shape) .f32)
    (x y z : (⟨2, ![M, K]⟩ : Shape).Idx → EReal) (w1 w2 w3 : (⟨2, ![K, 128]⟩ : Shape).Idx → EReal)
    (b : (⟨2, ![1, 128]⟩ : Shape).Idx → EReal)
    (hX : ∀ i, (X i : EReal) = x i) (hW1 : ∀ i, (W1 i : EReal) = w1 i)
    (hY : ∀ i, (Y i : EReal) = y i) (hW2 : ∀ i, (W2 i : EReal) = w2 i)
    (hZ : ∀ i, (Z i : EReal) = z i) (hW3 : ∀ i, (W3 i : EReal) = w3 i)
    (hB : ∀ j, (B j : EReal) = b (ix2 0 (j 1))) (j : (⟨2, ![M, 128]⟩ : Shape).Idx) :
    (maximumf (addf (addf (addf (matmul d none X W1 (constant (⟨2, ![M, 128]⟩ : Shape) .f32 0x00000000#32))
          (matmul d none Y W2 (constant (⟨2, ![M, 128]⟩ : Shape) .f32 0x00000000#32)))
          (matmul d none Z W3 (constant (⟨2, ![M, 128]⟩ : Shape) .f32 0x00000000#32))) B)
        (broadcast (⟨2, ![M, 128]⟩ : Shape) (Scalar.ofBits (F := Ideal) .f32 0x00000000#32)) j : EReal)
      = Cert.Spec.lin3 x y z w1 w2 w3 b j := by
  show max (((FloatOps.matmul d none X W1 (constant (⟨2, ![M, 128]⟩ : Shape) .f32 0x00000000#32) j
        + FloatOps.matmul d none Y W2 (constant (⟨2, ![M, 128]⟩ : Shape) .f32 0x00000000#32) j)
        + FloatOps.matmul d none Z W3 (constant (⟨2, ![M, 128]⟩ : Shape) .f32 0x00000000#32) j) + B j)
      (Ideal.ofBits .f32 0x00000000#32) = _
  rw [matmul_zero_plain hd none X W1 j, matmul_zero_plain hd none Y W2 j, matmul_zero_plain hd none Z W3 j,
    Ideal.ofBits_zero_f32, hB j]
  unfold Cert.Spec.lin3
  have e1 := Finset.sum_congr (s₁ := Finset.univ) rfl fun (k : Fin K) _ => congrArg₂ (· * ·) (hX (ix2 (j 0) k)) (hW1 (ix2 k (j 1)))
  have e2 := Finset.sum_congr (s₁ := Finset.univ) rfl fun (k : Fin K) _ => congrArg₂ (· * ·) (hY (ix2 (j 0) k)) (hW2 (ix2 k (j 1)))
  have e3 := Finset.sum_congr (s₁ := Finset.univ) rfl fun (k : Fin K) _ => congrArg₂ (· * ·) (hZ (ix2 (j 0) k)) (hW3 (ix2 k (j 1)))
  rw [e1, e2, e3]

/-! ## The five product records of this program are plain products -/

theorem hval_plain_5000_64 : PlainDot dot_S5000x64_S64x128_S5000x128_1_0_0_1_n_n :=
  ⟨rfl, rfl, fun _ _ => rfl, fun _ _ => rfl, fun _ _ => rfl, fun _ _ => rfl⟩
theorem hval_plain_5000_128 : PlainDot dot_S5000x128_S128x128_S5000x128_1_0_0_1_n_n :=
  ⟨rfl, rfl, fun _ _ => rfl, fun _ _ => rfl, fun _ _ => rfl, fun _ _ => rfl⟩
theorem hval_plain_2000_128 : PlainDot dot_S2000x128_S128x128_S2000x128_1_0_0_1_n_n :=
  ⟨rfl, rfl, fun _ _ => rfl, fun _ _ => rfl, fun _ _ => rfl, fun _ _ => rfl⟩
theorem hval_plain_50_128 : PlainDot dot_S50x128_S128x128_S50x128_1_0_0_1_n_n :=
  ⟨rfl, rfl, fun _ _ => rfl, fun _ _ => rfl, fun _ _ => rfl, fun _ _ => rfl⟩
theorem hval_plain_50_384 : PlainDot dot_S50x384_S384x128_S50x128_1_0_0_1_n_n :=
  ⟨rfl, rfl, fun _ _ => rfl, fun _ _ => rfl, fun _ _ => rfl, fun _ _ => rfl⟩

/-! ## From a tile to the whole array -/

/-- Two indices of a two-axis shape with the same coordinates are equal. -/
theorem hval_idx2_ext {A B : Nat} (p q : (⟨2, ![A, B]⟩ : Shape).Idx) (h0 : (p 0).val = (q 0).val)
    (h1 : (p 1).val = (q 1).val) : p = q := by
  funext a
  apply Fin.ext
  match a with
  | ⟨0, _⟩ => exact h0
  | ⟨1, _⟩ => exact h1

/-- The zero offsets of a whole-block access, however spelt. -/
theorem hval_hz : (![0, 0] : Fin 2 → Nat) = fun _ => 0 := funext fun a => by fin_cases a <;> rfl

variable {Mb : Nat}

/-- `lin1` on a tile at (p, q) is `lin1` on the whole arrays at (r, q') when row p of the activation tile is row r
    of the activation array, column q of the weight and bias tiles is column q' of theirs. -/
theorem hval_lin1_congr
    (xb : (⟨2, ![Mb, K]⟩ : Shape).Idx → EReal) (wb : (⟨2, ![K, 128]⟩ : Shape).Idx → EReal)
    (bb : (⟨2, ![1, 128]⟩ : Shape).Idx → EReal)
    (x : (⟨2, ![M, K]⟩ : Shape).Idx → EReal) (w : (⟨2, ![K, 128]⟩ : Shape).Idx → EReal)
    (b : (⟨2, ![1, 128]⟩ : Shape).Idx → EReal)
    (j : (⟨2, ![Mb, 128]⟩ : Shape).Idx) (i : (⟨2, ![M, 128]⟩ : Shape).Idx)
    (hx : ∀ k : Fin K, xb (ix2 (j 0) k) = x (ix2 (i 0) k))
    (hw : ∀ k : Fin K, wb (ix2 k (j 1)) = w (ix2 k (i 1)))
    (hb : bb (ix2 0 (j 1)) = b (ix2 0 (i 1))) :
    Cert.Spec.lin1 xb wb bb j = Cert.Spec.lin1 x w b i := by
  unfold Cert.Spec.lin1
  rw [hb]
  exact congrArg (fun s => max (s + b (ix2 0 (i 1))) 0)
    (Finset.sum_congr rfl fun k _ => congrArg₂ (· * ·) (hx k) (hw k))

/-- The same for two activation arrays. -/
theorem hval_lin2_congr
    (xb yb : (⟨2, ![Mb, K]⟩ : Shape).Idx → EReal) (w1b w2b : (⟨2, ![K, 128]⟩ : Shape).Idx → EReal)
    (bb : (⟨2, ![1, 128]⟩ : Shape).Idx → EReal)
    (x y : (⟨2, ![M, K]⟩ : Shape).Idx → EReal) (w1 w2 : (⟨2, ![K, 128]⟩ : Shape).Idx → EReal)
    (b : (⟨2, ![1, 128]⟩ : Shape).Idx → EReal)
    (j : (⟨2, ![Mb, 128]⟩ : Shape).Idx) (i : (⟨2, ![M, 128]⟩ : Shape).Idx)
    (hx : ∀ k : Fin K, xb (ix2 (j 0) k) = x (ix2 (i 0) k))
    (hy : ∀ k : Fin K, yb (ix2 (j 0) k) = y (ix2 (i 0) k))
    (hw1 : ∀ k : Fin K, w1b (ix2 k (j 1)) = w1 (ix2 k (i 1)))
    (hw2 : ∀ k : Fin K, w2b (ix2 k (j 1)) = w2 (ix2 k (i 1)))
    (hb : bb (ix2 0 (j 1)) = b (ix2 0 (i 1))) :
    Cert.Spec.lin2 xb yb w1b w2b bb j = Cert.Spec.lin2 x y w1 w2 b i := by
  unfold Cert.Spec.lin2
  rw [hb]
  exact congrArg₂ (fun s s' => max ((s + s') + b (ix2 0 (i 1))) 0)
    (Finset.sum_congr rfl fun k _ => congrArg₂ (· * ·) (hx k) (hw1 k))
    (Finset.sum_congr rfl fun k _ => congrArg₂ (· * ·) (hy k) (hw2 k))

/-- The same for three activation arrays. -/
theorem hval_lin3_congr
    (xb yb zb : (⟨2, ![Mb, K]⟩ : Shape).Idx → EReal) (w1b w2b w3b : (⟨2, ![K, 128]⟩ : Shape).Idx → EReal)
    (bb : (⟨2, ![1, 128]⟩ : Shape).Idx → EReal)
    (x y z : (⟨2, ![M, K]⟩ : Shape).Idx → EReal) (w1 w2 w3 : (⟨2, ![K, 128]⟩ : Shape).Idx → EReal)
    (b : (⟨2, ![1, 128]⟩ : Shape).Idx → EReal)
    (j : (⟨2, ![Mb, 128]⟩ : Shape).Idx) (i : (⟨2, ![M, 128]⟩ : Shape).Idx)
    (hx : ∀ k : Fin K, xb (ix2 (j 0) k) = x (ix2 (i 0) k))
    (hy : ∀ k : Fin K, yb (ix2 (j 0) k) = y (ix2 (i 0) k))
    (hz : ∀ k : Fin K, zb (ix2 (j 0) k) = z (ix2 (i 0) k))
    (hw1 : ∀ k : Fin K, w1b (ix2 k (j 1)) = w1 (ix2 k (i 1)))
    (hw2 : ∀ k : Fin K, w2b (ix2 k (j 1)) = w2 (ix2 k (i 1)))
    (hw3 : ∀ k : Fin K, w3b (ix2 k (j 1)) = w3 (ix2 k (i 1)))
    (hb : bb (ix2 0 (j 1)) = b (ix2 0 (i 1))) :
    Cert.Spec.lin3 xb yb zb w1b w2b w3b bb j = Cert.Spec.lin3 x y z w1 w2 w3 b i := by
  unfold Cert.Spec.lin3
  have e1 := Finset.sum_congr (s₁ := Finset.univ) rfl fun (k : Fin K) _ => congrArg₂ (· * ·) (hx k) (hw1 k)
  have e2 := Finset.sum_congr (s₁ := Finset.univ) rfl fun (k : Fin K) _ => congrArg₂ (· * ·) (hy k) (hw2 k)
  have e3 := Finset.sum_congr (s₁ := Finset.univ) rfl fun (k : Fin K) _ => congrArg₂ (· * ·) (hz k) (hw3 k)
  rw [hb, e1, e2, e3]

end Cert.KernelIdeal.Hand

end
-- ==== Proof.KI.Val0.lean ====
/-
  Region 0's output array after the region, at the exact (extended real) instance: entry (r, q) is the dense layer
  max (x·W + b, 0) of row r of the activation array, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef0

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay0 (x : Vec Ideal S5000x64 .f32) (w : Vec Ideal S64x128 .f32) (b : Vec Ideal S1x128 .f32) (j : S5000x128.Idx) :
    (k0_pay1 (F := Ideal) x w b j : EReal) = Cert.Spec.lin1 x w b j :=
  hval_lin1_val hval_plain_5000_64 _ _ _ x w b
    (fun _ => rfl) (fun _ => rfl)
    (fun j => hval_bias b _ _ j) j

/-- The block index maps over the grid: the activation and output tiles move down the rows with the point, the
    weight and bias blocks stay. -/
theorem hval_idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is tile t of the layer of the arrays as the region finds them. -/
theorem hval_flushed0 (c : Dev nD) (t : Fin cfg0.N) :
    (dat0 (F := Ideal) V c).flushed 3 t = ((cfg0.win 3).blk t).view.read (Elt Ideal)
      (fun i => Cert.Spec.lin1 (V c main_arg0) (V c main_arg4) (V c main_v9) i) := by
  show (cfg0.win 3).cut (grid0.coords t) ((dat0 (F := Ideal) V c).after 3 t) = _
  rw [after0_3]
  unfold out0_3
  rw [View.canon_unit_zero hval_hz]
  simp only [View.ld_unit_zero (S := S5000x64) hval_hz, View.ld_unit_zero (S := S64x128) hval_hz, View.ld_unit_zero (S := S1x128) hval_hz]
  obtain ⟨e00, e01, e10, e11, e20, e21, e30, e31⟩ := hval_idx0 t
  funext j
  show (k0_pay1 (F := Ideal) (iblk0 V c 0 t) (iblk0 V c 1 t) (iblk0 V c 2 t) j : EReal)
    = Cert.Spec.lin1 (V c main_arg0) (V c main_arg4) (V c main_v9) (((cfg0.win 3).blk t).view.emb j)
  refine (hval_pay0 (iblk0 V c 0 t) (iblk0 V c 1 t) (iblk0 V c 2 t) j).trans ?_
  have hj0 : (j 0).val < 5000 := (j 0).isLt
  have hj1 : (j 1).val < 128 := (j 1).isLt
  refine hval_lin1_congr _ _ _ _ _ _ j _ (fun k => ?_) (fun k => ?_) ?_
  · show V c main_arg0 (((cfg0.win 0).blk t).view.emb (ix2 (j 0) k)) = V c main_arg0 (ix2 ((((cfg0.win 3).blk t).view.emb j) 0) k)
    refine congrArg (V c main_arg0) (hval_idx2_ext _ _ ?_ ?_)
    · show win0_0.index t (0 : Fin 2) * 5000 + 1 * (j 0).val = win0_3.index t (0 : Fin 2) * 5000 + 1 * (j 0).val
      omega
    · show win0_0.index t (1 : Fin 2) * 64 + 1 * k.val = k.val
      omega
  · show V c main_arg4 (((cfg0.win 1).blk t).view.emb (ix2 k (j 1))) = V c main_arg4 (ix2 k ((((cfg0.win 3).blk t).view.emb j) 1))
    refine congrArg (V c main_arg4) (hval_idx2_ext _ _ ?_ ?_)
    · show win0_1.index t (0 : Fin 2) * 64 + 1 * k.val = k.val
      omega
    · show win0_1.index t (1 : Fin 2) * 128 + 1 * (j 1).val = win0_3.index t (1 : Fin 2) * 128 + 1 * (j 1).val
      omega
  · show V c main_v9 (((cfg0.win 2).blk t).view.emb (ix2 0 (j 1))) = V c main_v9 (ix2 0 ((((cfg0.win 3).blk t).view.emb j) 1))
    refine congrArg (V c main_v9) (hval_idx2_ext _ _ ?_ ?_)
    · show win0_2.index t (0 : Fin 2) * 1 + 1 * 0 = 0
      omega
    · show win0_2.index t (1 : Fin 2) * 128 + 1 * (j 1).val = win0_3.index t (1 : Fin 2) * 128 + 1 * (j 1).val
      omega

/-- An entry of the output array lies in point t's tile iff each coordinate is in the tile's range. -/
theorem hval_mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v10).slice (win0_3.rect t)).set ↔ _
  rw [View.set_slice_whole, Rect.mem_set_unit]
  exact Iff.rfl

/-- Every row of the output array is in some point's tile: row r in tile r / 5000. -/
theorem hval_cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, eo0, eo1⟩ := hval_idx0 t
  refine ⟨t, flush0_3 t, ?_⟩
  rw [hval_mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- Region 0's output array after the region: the dense layer of the activation, weight and bias arrays the region
    found, entry by entry. -/
theorem val0 (c : Dev nD) (i : S100000x128.Idx) :
    (dat0 (F := Ideal) V c).arrAt 3 cfg0.N i = Cert.Spec.lin1 (V c main_arg0) (V c main_arg4) (V c main_v9) i :=
  congrFun ((dat0 (F := Ideal) V c).arrAt_eq_of_cover 3
    (fun i => Cert.Spec.lin1 (V c main_arg0) (V c main_arg4) (V c main_v9) i)
    (fun t _ => hval_flushed0 V c t) (hval_cover0)) i

end Cert.KernelIdeal.Hand

end
-- ==== Proof.KI.Val1.lean ====
/-
  Region 1's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef1

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay1 (x : Vec Ideal S5000x128 .f32) (w1 : Vec Ideal S128x128 .f32) (y : Vec Ideal S5000x128 .f32) (w2 : Vec Ideal S128x128 .f32) (b : Vec Ideal S1x128 .f32) (j : S5000x128.Idx) :
    (k1_pay1 (F := Ideal) x w1 y w2 b j : EReal) = Cert.Spec.lin2 x y w1 w2 b j :=
  hval_lin2_val hval_plain_5000_128 _ _ _ _ _ x y w1 w2 b
    (fun i => congrFun (shapeCast_self x _) i) (fun i => congrFun (shapeCast_self w1 _) i) (fun i => congrFun (shapeCast_self y _) i) (fun i => congrFun (shapeCast_self w2 _) i)
    (fun j => hval_bias b _ _ j) j

/-- The block index maps over the grid: the activation and output tiles move down the rows with the point, the
    weight and bias blocks stay. -/
theorem hval_idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is tile t of the layer of the arrays as the region finds them. -/
theorem hval_flushed1 (c : Dev nD) (t : Fin cfg1.N) :
    (dat1 (F := Ideal) V c).flushed 5 t = ((cfg1.win 5).blk t).view.read (Elt Ideal)
      (fun i => Cert.Spec.lin2 (V c main_v10) (V c main_v30) (V c main_v32) (V c main_v34) (V c main_v37) i) := by
  show (cfg1.win 5).cut (grid1.coords t) ((dat1 (F := Ideal) V c).after 5 t) = _
  rw [after1_5]
  unfold out1_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx1 t
  funext j
  show (k1_pay1 (F := Ideal) (iblk1 V c 0 t) (iblk1 V c 2 t) (iblk1 V c 1 t) (iblk1 V c 3 t) (iblk1 V c 4 t) j : EReal)
    = Cert.Spec.lin2 (V c main_v10) (V c main_v30) (V c main_v32) (V c main_v34) (V c main_v37) (((cfg1.win 5).blk t).view.emb j)
  refine (hval_pay1 (iblk1 V c 0 t) (iblk1 V c 2 t) (iblk1 V c 1 t) (iblk1 V c 3 t) (iblk1 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v10 (((cfg1.win 0).blk t).view.emb (ix2 (j 0) k)) = V c main_v10 (ix2 ((((cfg1.win 5).blk t).view.emb j) 0) k)
    refine congrArg (V c main_v10) (hval_idx2_ext _ _ ?_ ?_)
    · show win1_0.index t (0 : Fin 2) * 5000 + 1 * (j 0).val = win1_5.index t (0 : Fin 2) * 5000 + 1 * (j 0).val
      omega
    · show win1_0.index t (1 : Fin 2) * 128 + 1 * k.val = k.val
      omega
  · show V c main_v30 (((cfg1.win 1).blk t).view.emb (ix2 (j 0) k)) = V c main_v30 (ix2 ((((cfg1.win 5).blk t).view.emb j) 0) k)
    refine congrArg (V c main_v30) (hval_idx2_ext _ _ ?_ ?_)
    · show win1_1.index t (0 : Fin 2) * 5000 + 1 * (j 0).val = win1_5.index t (0 : Fin 2) * 5000 + 1 * (j 0).val
      omega
    · show win1_1.index t (1 : Fin 2) * 128 + 1 * k.val = k.val
      omega
  · show V c main_v32 (((cfg1.win 2).blk t).view.emb (ix2 k (j 1))) = V c main_v32 (ix2 k ((((cfg1.win 5).blk t).view.emb j) 1))
    refine congrArg (V c main_v32) (hval_idx2_ext _ _ ?_ ?_)
    · show win1_2.index t (0 : Fin 2) * 128 + 1 * k.val = k.val
      omega
    · show win1_2.index t (1 : Fin 2) * 128 + 1 * (j 1).val = win1_5.index t (1 : Fin 2) * 128 + 1 * (j 1).val
      omega
  · show V c main_v34 (((cfg1.win 3).blk t).view.emb (ix2 k (j 1))) = V c main_v34 (ix2 k ((((cfg1.win 5).blk t).view.emb j) 1))
    refine congrArg (V c main_v34) (hval_idx2_ext _ _ ?_ ?_)
    · show win1_3.index t (0 : Fin 2) * 128 + 1 * k.val = k.val
      omega
    · show win1_3.index t (1 : Fin 2) * 128 + 1 * (j 1).val = win1_5.index t (1 : Fin 2) * 128 + 1 * (j 1).val
      omega
  · show V c main_v37 (((cfg1.win 4).blk t).view.emb (ix2 0 (j 1))) = V c main_v37 (ix2 0 ((((cfg1.win 5).blk t).view.emb j) 1))
    refine congrArg (V c main_v37) (hval_idx2_ext _ _ ?_ ?_)
    · show win1_4.index t (0 : Fin 2) * 1 + 1 * 0 = 0
      omega
    · show win1_4.index t (1 : Fin 2) * 128 + 1 * (j 1).val = win1_5.index t (1 : Fin 2) * 128 + 1 * (j 1).val
      omega

/-- An entry of the output array lies in point t's tile iff each coordinate is in the tile's range. -/
theorem hval_mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v38).slice (win1_5.rect t)).set ↔ _
  rw [View.set_slice_whole, Rect.mem_set_unit]
  exact Iff.rfl

/-- Every row of the output array is in some point's tile: row r in tile r / 5000. -/
theorem hval_cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, eo0, eo1⟩ := hval_idx1 t
  refine ⟨t, flush1_5 t, ?_⟩
  rw [hval_mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- Region 1's output array after the region: the dense layer of the activation, weight and bias arrays the region
    found, entry by entry. -/
theorem val1 (c : Dev nD) (i : S100000x128.Idx) :
    (dat1 (F := Ideal) V c).arrAt 5 cfg1.N i = Cert.Spec.lin2 (V c main_v10) (V c main_v30) (V c main_v32) (V c main_v34) (V c main_v37) i :=
  congrFun ((dat1 (F := Ideal) V c).arrAt_eq_of_cover 5
    (fun i => Cert.Spec.lin2 (V c main_v10) (V c main_v30) (V c main_v32) (V c main_v34) (V c main_v37) i)
    (fun t _ => hval_flushed1 V c t) (hval_cover1)) i

end Cert.KernelIdeal.Hand

end
-- ==== Proof.KI.Val2.lean ====
/-
  Region 2's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef2

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay2 (x : Vec Ideal S5000x128 .f32) (w1 : Vec Ideal S128x128 .f32) (y : Vec Ideal S5000x128 .f32) (w2 : Vec Ideal S128x128 .f32) (b : Vec Ideal S1x128 .f32) (j : S5000x128.Idx) :
    (k2_pay1 (F := Ideal) x w1 y w2 b j : EReal) = Cert.Spec.lin2 x y w1 w2 b j :=
  hval_lin2_val hval_plain_5000_128 _ _ _ _ _ x y w1 w2 b
    (fun i => congrFun (shapeCast_self x _) i) (fun i => congrFun (shapeCast_self w1 _) i) (fun i => congrFun (shapeCast_self y _) i) (fun i => congrFun (shapeCast_self w2 _) i)
    (fun j => hval_bias b _ _ j) j

/-- The block index maps over the grid: the activation and output tiles move down the rows with the point, the
    weight and bias blocks stay. -/
theorem hval_idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is tile t of the layer of the arrays as the region finds them. -/
theorem hval_flushed2 (c : Dev nD) (t : Fin cfg2.N) :
    (dat2 (F := Ideal) V c).flushed 5 t = ((cfg2.win 5).blk t).view.read (Elt Ideal)
      (fun i => Cert.Spec.lin2 (V c main_v38) (V c main_v56) (V c main_v58) (V c main_v60) (V c main_v63) i) := by
  show (cfg2.win 5).cut (grid2.coords t) ((dat2 (F := Ideal) V c).after 5 t) = _
  rw [after2_5]
  unfold out2_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx2 t
  funext j
  show (k2_pay1 (F := Ideal) (iblk2 V c 0 t) (iblk2 V c 2 t) (iblk2 V c 1 t) (iblk2 V c 3 t) (iblk2 V c 4 t) j : EReal)
    = Cert.Spec.lin2 (V c main_v38) (V c main_v56) (V c main_v58) (V c main_v60) (V c main_v63) (((cfg2.win 5).blk t).view.emb j)
  refine (hval_pay2 (iblk2 V c 0 t) (iblk2 V c 2 t) (iblk2 V c 1 t) (iblk2 V c 3 t) (iblk2 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v38 (((cfg2.win 0).blk t).view.emb (ix2 (j 0) k)) = V c main_v38 (ix2 ((((cfg2.win 5).blk t).view.emb j) 0) k)
    refine congrArg (V c main_v38) (hval_idx2_ext _ _ ?_ ?_)
    · show win2_0.index t (0 : Fin 2) * 5000 + 1 * (j 0).val = win2_5.index t (0 : Fin 2) * 5000 + 1 * (j 0).val
      omega
    · show win2_0.index t (1 : Fin 2) * 128 + 1 * k.val = k.val
      omega
  · show V c main_v56 (((cfg2.win 1).blk t).view.emb (ix2 (j 0) k)) = V c main_v56 (ix2 ((((cfg2.win 5).blk t).view.emb j) 0) k)
    refine congrArg (V c main_v56) (hval_idx2_ext _ _ ?_ ?_)
    · show win2_1.index t (0 : Fin 2) * 5000 + 1 * (j 0).val = win2_5.index t (0 : Fin 2) * 5000 + 1 * (j 0).val
      omega
    · show win2_1.index t (1 : Fin 2) * 128 + 1 * k.val = k.val
      omega
  · show V c main_v58 (((cfg2.win 2).blk t).view.emb (ix2 k (j 1))) = V c main_v58 (ix2 k ((((cfg2.win 5).blk t).view.emb j) 1))
    refine congrArg (V c main_v58) (hval_idx2_ext _ _ ?_ ?_)
    · show win2_2.index t (0 : Fin 2) * 128 + 1 * k.val = k.val
      omega
    · show win2_2.index t (1 : Fin 2) * 128 + 1 * (j 1).val = win2_5.index t (1 : Fin 2) * 128 + 1 * (j 1).val
      omega
  · show V c main_v60 (((cfg2.win 3).blk t).view.emb (ix2 k (j 1))) = V c main_v60 (ix2 k ((((cfg2.win 5).blk t).view.emb j) 1))
    refine congrArg (V c main_v60) (hval_idx2_ext _ _ ?_ ?_)
    · show win2_3.index t (0 : Fin 2) * 128 + 1 * k.val = k.val
      omega
    · show win2_3.index t (1 : Fin 2) * 128 + 1 * (j 1).val = win2_5.index t (1 : Fin 2) * 128 + 1 * (j 1).val
      omega
  · show V c main_v63 (((cfg2.win 4).blk t).view.emb (ix2 0 (j 1))) = V c main_v63 (ix2 0 ((((cfg2.win 5).blk t).view.emb j) 1))
    refine congrArg (V c main_v63) (hval_idx2_ext _ _ ?_ ?_)
    · show win2_4.index t (0 : Fin 2) * 1 + 1 * 0 = 0
      omega
    · show win2_4.index t (1 : Fin 2) * 128 + 1 * (j 1).val = win2_5.index t (1 : Fin 2) * 128 + 1 * (j 1).val
      omega

/-- An entry of the output array lies in point t's tile iff each coordinate is in the tile's range. -/
theorem hval_mem_blk2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v64).slice (win2_5.rect t)).set ↔ _
  rw [View.set_slice_whole, Rect.mem_set_unit]
  exact Iff.rfl

/-- Every row of the output array is in some point's tile: row r in tile r / 5000. -/
theorem hval_cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, eo0, eo1⟩ := hval_idx2 t
  refine ⟨t, flush2_5 t, ?_⟩
  rw [hval_mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- Region 2's output array after the region: the dense layer of the activation, weight and bias arrays the region
    found, entry by entry. -/
theorem val2 (c : Dev nD) (i : S100000x128.Idx) :
    (dat2 (F := Ideal) V c).arrAt 5 cfg2.N i = Cert.Spec.lin2 (V c main_v38) (V c main_v56) (V c main_v58) (V c main_v60) (V c main_v63) i :=
  congrFun ((dat2 (F := Ideal) V c).arrAt_eq_of_cover 5
    (fun i => Cert.Spec.lin2 (V c main_v38) (V c main_v56) (V c main_v58) (V c main_v60) (V c main_v63) i)
    (fun t _ => hval_flushed2 V c t) (hval_cover2)) i

end Cert.KernelIdeal.Hand

end
-- ==== Proof.KI.Val3.lean ====
/-
  Region 3's output array after the region, at the exact (extended real) instance: entry (r, q) is the dense layer
  max (x·W + b, 0) of row r of the activation array, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef3

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay3 (x : Vec Ideal S2000x128 .f32) (w : Vec Ideal S128x128 .f32) (b : Vec Ideal S1x128 .f32) (j : S2000x128.Idx) :
    (k3_pay1 (F := Ideal) x w b j : EReal) = Cert.Spec.lin1 x w b j :=
  hval_lin1_val hval_plain_2000_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is tile t of the layer of the arrays as the region finds them. -/
theorem hval_flushed3 (c : Dev nD) (t : Fin cfg3.N) :
    (dat3 (F := Ideal) V c).flushed 3 t = ((cfg3.win 3).blk t).view.read (Elt Ideal)
      (fun i => Cert.Spec.lin1 (V c main_v11) (V c main_v66) (V c main_v69) i) := by
  show (cfg3.win 3).cut (grid3.coords t) ((dat3 (F := Ideal) V c).after 3 t) = _
  rw [after3_3]
  unfold out3_3
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31⟩ := hval_idx3 t
  funext j
  show (k3_pay1 (F := Ideal) (iblk3 V c 0 t) (iblk3 V c 1 t) (iblk3 V c 2 t) j : EReal)
    = Cert.Spec.lin1 (V c main_v11) (V c main_v66) (V c main_v69) (((cfg3.win 3).blk t).view.emb j)
  refine (hval_pay3 (iblk3 V c 0 t) (iblk3 V c 1 t) (iblk3 V c 2 t) j).trans ?_
  have hj0 : (j 0).val < 2000 := (j 0).isLt
  have hj1 : (j 1).val < 128 := (j 1).isLt
  refine hval_lin1_congr _ _ _ _ _ _ j _ (fun k => ?_) (fun k => ?_) ?_
  · show V c main_v11 (((cfg3.win 0).blk t).view.emb (ix2 (j 0) k)) = V c main_v11 (ix2 ((((cfg3.win 3).blk t).view.emb j) 0) k)
    refine congrArg (V c main_v11) (hval_idx2_ext _ _ ?_ ?_)
    · show win3_0.index t (0 : Fin 2) * 2000 + 1 * (j 0).val = win3_3.index t (0 : Fin 2) * 2000 + 1 * (j 0).val
      omega
    · show win3_0.index t (1 : Fin 2) * 128 + 1 * k.val = k.val
      omega
  · show V c main_v66 (((cfg3.win 1).blk t).view.emb (ix2 k (j 1))) = V c main_v66 (ix2 k ((((cfg3.win 3).blk t).view.emb j) 1))
    refine congrArg (V c main_v66) (hval_idx2_ext _ _ ?_ ?_)
    · show win3_1.index t (0 : Fin 2) * 128 + 1 * k.val = k.val
      omega
    · show win3_1.index t (1 : Fin 2) * 128 + 1 * (j 1).val = win3_3.index t (1 : Fin 2) * 128 + 1 * (j 1).val
      omega
  · show V c main_v69 (((cfg3.win 2).blk t).view.emb (ix2 0 (j 1))) = V c main_v69 (ix2 0 ((((cfg3.win 3).blk t).view.emb j) 1))
    refine congrArg (V c main_v69) (hval_idx2_ext _ _ ?_ ?_)
    · show win3_2.index t (0 : Fin 2) * 1 + 1 * 0 = 0
      omega
    · show win3_2.index t (1 : Fin 2) * 128 + 1 * (j 1).val = win3_3.index t (1 : Fin 2) * 128 + 1 * (j 1).val
      omega

/-- An entry of the output array lies in point t's tile iff each coordinate is in the tile's range. -/
theorem hval_mem_blk3 (t : Fin cfg3.N) (i : S2000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v70).slice (win3_3.rect t)).set ↔ _
  rw [View.set_slice_whole, Rect.mem_set_unit]
  exact Iff.rfl

/-- Every row of the output array is in some point's tile: row r in tile r / 2000. -/
theorem hval_cover3 (i : S2000x128.Idx) :
    ∃ t : Fin cfg3.N, (cfg3.win 3).flush t = true ∧ i ∈ ((cfg3.win 3).blk t).view.set := by
  have hi0 : (i 0).val < 2000 := (i 0).isLt
  have hi1 : (i 1).val < 128 := (i 1).isLt
  obtain ⟨t, ht⟩ : ∃ t : Fin cfg3.N, t.val = (i 0).val / 2000 :=
    ⟨⟨(i 0).val / 2000, by rw [show cfg3.N = 1 from N_3]; omega⟩, rfl⟩
  obtain ⟨-, -, -, -, -, -, eo0, eo1⟩ := hval_idx3 t
  refine ⟨t, flush3_3 t, ?_⟩
  rw [hval_mem_blk3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 128 ≤ (i 1).val ∧ (i 1).val < win3_3.index t (1 : Fin 2) * 128 + 128
    omega

/-- Region 3's output array after the region: the dense layer of the activation, weight and bias arrays the region
    found, entry by entry. -/
theorem val3 (c : Dev nD) (i : S2000x128.Idx) :
    (dat3 (F := Ideal) V c).arrAt 3 cfg3.N i = Cert.Spec.lin1 (V c main_v11) (V c main_v66) (V c main_v69) i :=
  congrFun ((dat3 (F := Ideal) V c).arrAt_eq_of_cover 3
    (fun i => Cert.Spec.lin1 (V c main_v11) (V c main_v66) (V c main_v69) i)
    (fun t _ => hval_flushed3 V c t) (hval_cover3)) i

end Cert.KernelIdeal.Hand

end
-- ==== Proof.KI.Val4.lean ====
/-
  Region 4's output array after the region, at the exact (extended real) instance: entry (r, q) is the dense layer
  max (x·W + b, 0) of row r of the activation array, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef4

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay4 (x : Vec Ideal S2000x128 .f32) (w : Vec Ideal S128x128 .f32) (b : Vec Ideal S1x128 .f32) (j : S2000x128.Idx) :
    (k4_pay1 (F := Ideal) x w b j : EReal) = Cert.Spec.lin1 x w b j :=
  hval_lin1_val hval_plain_2000_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is tile t of the layer of the arrays as the region finds them. -/
theorem hval_flushed4 (c : Dev nD) (t : Fin cfg4.N) :
    (dat4 (F := Ideal) V c).flushed 3 t = ((cfg4.win 3).blk t).view.read (Elt Ideal)
      (fun i => Cert.Spec.lin1 (V c main_v70) (V c main_v72) (V c main_v75) i) := by
  show (cfg4.win 3).cut (grid4.coords t) ((dat4 (F := Ideal) V c).after 3 t) = _
  rw [after4_3]
  unfold out4_3
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31⟩ := hval_idx4 t
  funext j
  show (k4_pay1 (F := Ideal) (iblk4 V c 0 t) (iblk4 V c 1 t) (iblk4 V c 2 t) j : EReal)
    = Cert.Spec.lin1 (V c main_v70) (V c main_v72) (V c main_v75) (((cfg4.win 3).blk t).view.emb j)
  refine (hval_pay4 (iblk4 V c 0 t) (iblk4 V c 1 t) (iblk4 V c 2 t) j).trans ?_
  have hj0 : (j 0).val < 2000 := (j 0).isLt
  have hj1 : (j 1).val < 128 := (j 1).isLt
  refine hval_lin1_congr _ _ _ _ _ _ j _ (fun k => ?_) (fun k => ?_) ?_
  · show V c main_v70 (((cfg4.win 0).blk t).view.emb (ix2 (j 0) k)) = V c main_v70 (ix2 ((((cfg4.win 3).blk t).view.emb j) 0) k)
    refine congrArg (V c main_v70) (hval_idx2_ext _ _ ?_ ?_)
    · show win4_0.index t (0 : Fin 2) * 2000 + 1 * (j 0).val = win4_3.index t (0 : Fin 2) * 2000 + 1 * (j 0).val
      omega
    · show win4_0.index t (1 : Fin 2) * 128 + 1 * k.val = k.val
      omega
  · show V c main_v72 (((cfg4.win 1).blk t).view.emb (ix2 k (j 1))) = V c main_v72 (ix2 k ((((cfg4.win 3).blk t).view.emb j) 1))
    refine congrArg (V c main_v72) (hval_idx2_ext _ _ ?_ ?_)
    · show win4_1.index t (0 : Fin 2) * 128 + 1 * k.val = k.val
      omega
    · show win4_1.index t (1 : Fin 2) * 128 + 1 * (j 1).val = win4_3.index t (1 : Fin 2) * 128 + 1 * (j 1).val
      omega
  · show V c main_v75 (((cfg4.win 2).blk t).view.emb (ix2 0 (j 1))) = V c main_v75 (ix2 0 ((((cfg4.win 3).blk t).view.emb j) 1))
    refine congrArg (V c main_v75) (hval_idx2_ext _ _ ?_ ?_)
    · show win4_2.index t (0 : Fin 2) * 1 + 1 * 0 = 0
      omega
    · show win4_2.index t (1 : Fin 2) * 128 + 1 * (j 1).val = win4_3.index t (1 : Fin 2) * 128 + 1 * (j 1).val
      omega

/-- An entry of the output array lies in point t's tile iff each coordinate is in the tile's range. -/
theorem hval_mem_blk4 (t : Fin cfg4.N) (i : S2000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v76).slice (win4_3.rect t)).set ↔ _
  rw [View.set_slice_whole, Rect.mem_set_unit]
  exact Iff.rfl

/-- Every row of the output array is in some point's tile: row r in tile r / 2000. -/
theorem hval_cover4 (i : S2000x128.Idx) :
    ∃ t : Fin cfg4.N, (cfg4.win 3).flush t = true ∧ i ∈ ((cfg4.win 3).blk t).view.set := by
  have hi0 : (i 0).val < 2000 := (i 0).isLt
  have hi1 : (i 1).val < 128 := (i 1).isLt
  obtain ⟨t, ht⟩ : ∃ t : Fin cfg4.N, t.val = (i 0).val / 2000 :=
    ⟨⟨(i 0).val / 2000, by rw [show cfg4.N = 1 from N_4]; omega⟩, rfl⟩
  obtain ⟨-, -, -, -, -, -, eo0, eo1⟩ := hval_idx4 t
  refine ⟨t, flush4_3 t, ?_⟩
  rw [hval_mem_blk4]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 128 ≤ (i 1).val ∧ (i 1).val < win4_3.index t (1 : Fin 2) * 128 + 128
    omega

/-- Region 4's output array after the region: the dense layer of the activation, weight and bias arrays the region
    found, entry by entry. -/
theorem val4 (c : Dev nD) (i : S2000x128.Idx) :
    (dat4 (F := Ideal) V c).arrAt 3 cfg4.N i = Cert.Spec.lin1 (V c main_v70) (V c main_v72) (V c main_v75) i :=
  congrFun ((dat4 (F := Ideal) V c).arrAt_eq_of_cover 3
    (fun i => Cert.Spec.lin1 (V c main_v70) (V c main_v72) (V c main_v75) i)
    (fun t _ => hval_flushed4 V c t) (hval_cover4)) i

end Cert.KernelIdeal.Hand

end
-- ==== Proof.KI.Val5.lean ====
/-
  Region 5's output array after the region, at the exact (extended real) instance: entry (r, q) is the dense layer
  max (x·W + b, 0) of row r of the activation array, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef5

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay5 (x : Vec Ideal S50x128 .f32) (w : Vec Ideal S128x128 .f32) (b : Vec Ideal S1x128 .f32) (j : S50x128.Idx) :
    (k5_pay1 (F := Ideal) x w b j : EReal) = Cert.Spec.lin1 x w b j :=
  hval_lin1_val hval_plain_50_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is tile t of the layer of the arrays as the region finds them. -/
theorem hval_flushed5 (c : Dev nD) (t : Fin cfg5.N) :
    (dat5 (F := Ideal) V c).flushed 3 t = ((cfg5.win 3).blk t).view.read (Elt Ideal)
      (fun i => Cert.Spec.lin1 (V c main_v12) (V c main_v78) (V c main_v81) i) := by
  show (cfg5.win 3).cut (grid5.coords t) ((dat5 (F := Ideal) V c).after 3 t) = _
  rw [after5_3]
  unfold out5_3
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31⟩ := hval_idx5 t
  funext j
  show (k5_pay1 (F := Ideal) (iblk5 V c 0 t) (iblk5 V c 1 t) (iblk5 V c 2 t) j : EReal)
    = Cert.Spec.lin1 (V c main_v12) (V c main_v78) (V c main_v81) (((cfg5.win 3).blk t).view.emb j)
  refine (hval_pay5 (iblk5 V c 0 t) (iblk5 V c 1 t) (iblk5 V c 2 t) j).trans ?_
  have hj0 : (j 0).val < 50 := (j 0).isLt
  have hj1 : (j 1).val < 128 := (j 1).isLt
  refine hval_lin1_congr _ _ _ _ _ _ j _ (fun k => ?_) (fun k => ?_) ?_
  · show V c main_v12 (((cfg5.win 0).blk t).view.emb (ix2 (j 0) k)) = V c main_v12 (ix2 ((((cfg5.win 3).blk t).view.emb j) 0) k)
    refine congrArg (V c main_v12) (hval_idx2_ext _ _ ?_ ?_)
    · show win5_0.index t (0 : Fin 2) * 50 + 1 * (j 0).val = win5_3.index t (0 : Fin 2) * 50 + 1 * (j 0).val
      omega
    · show win5_0.index t (1 : Fin 2) * 128 + 1 * k.val = k.val
      omega
  · show V c main_v78 (((cfg5.win 1).blk t).view.emb (ix2 k (j 1))) = V c main_v78 (ix2 k ((((cfg5.win 3).blk t).view.emb j) 1))
    refine congrArg (V c main_v78) (hval_idx2_ext _ _ ?_ ?_)
    · show win5_1.index t (0 : Fin 2) * 128 + 1 * k.val = k.val
      omega
    · show win5_1.index t (1 : Fin 2) * 128 + 1 * (j 1).val = win5_3.index t (1 : Fin 2) * 128 + 1 * (j 1).val
      omega
  · show V c main_v81 (((cfg5.win 2).blk t).view.emb (ix2 0 (j 1))) = V c main_v81 (ix2 0 ((((cfg5.win 3).blk t).view.emb j) 1))
    refine congrArg (V c main_v81) (hval_idx2_ext _ _ ?_ ?_)
    · show win5_2.index t (0 : Fin 2) * 1 + 1 * 0 = 0
      omega
    · show win5_2.index t (1 : Fin 2) * 128 + 1 * (j 1).val = win5_3.index t (1 : Fin 2) * 128 + 1 * (j 1).val
      omega

/-- An entry of the output array lies in point t's tile iff each coordinate is in the tile's range. -/
theorem hval_mem_blk5 (t : Fin cfg5.N) (i : S50x128.Idx) :
    i ∈ ((cfg5.win 3).blk t).view.set ↔ ∀ a : Fin 2, win5_3.index t a * S50x128.size a ≤ (i a).val
      ∧ (i a).val < win5_3.index t a * S50x128.size a + S50x128.size a := by
  show i ∈ ((View.whole main_v82).slice (win5_3.rect t)).set ↔ _
  rw [View.set_slice_whole, Rect.mem_set_unit]
  exact Iff.rfl

/-- Every row of the output array is in some point's tile: row r in tile r / 50. -/
theorem hval_cover5 (i : S50x128.Idx) :
    ∃ t : Fin cfg5.N, (cfg5.win 3).flush t = true ∧ i ∈ ((cfg5.win 3).blk t).view.set := by
  have hi0 : (i 0).val < 50 := (i 0).isLt
  have hi1 : (i 1).val < 128 := (i 1).isLt
  obtain ⟨t, ht⟩ : ∃ t : Fin cfg5.N, t.val = (i 0).val / 50 :=
    ⟨⟨(i 0).val / 50, by rw [show cfg5.N = 1 from N_5]; omega⟩, rfl⟩
  obtain ⟨-, -, -, -, -, -, eo0, eo1⟩ := hval_idx5 t
  refine ⟨t, flush5_3 t, ?_⟩
  rw [hval_mem_blk5]
  intro a
  match a with
  | ⟨0, _⟩ =>
    show win5_3.index t (0 : Fin 2) * 50 ≤ (i 0).val ∧ (i 0).val < win5_3.index t (0 : Fin 2) * 50 + 50
    omega
  | ⟨1, _⟩ =>
    show win5_3.index t (1 : Fin 2) * 128 ≤ (i 1).val ∧ (i 1).val < win5_3.index t (1 : Fin 2) * 128 + 128
    omega

/-- Region 5's output array after the region: the dense layer of the activation, weight and bias arrays the region
    found, entry by entry. -/
theorem val5 (c : Dev nD) (i : S50x128.Idx) :
    (dat5 (F := Ideal) V c).arrAt 3 cfg5.N i = Cert.Spec.lin1 (V c main_v12) (V c main_v78) (V c main_v81) i :=
  congrFun ((dat5 (F := Ideal) V c).arrAt_eq_of_cover 3
    (fun i => Cert.Spec.lin1 (V c main_v12) (V c main_v78) (V c main_v81) i)
    (fun t _ => hval_flushed5 V c t) (hval_cover5)) i

end Cert.KernelIdeal.Hand

end
-- ==== Proof.KI.Val6.lean ====
/-
  Region 6's output array after the region, at the exact (extended real) instance: entry (r, q) is the dense layer
  max (x·W + b, 0) of row r of the activation array, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef6

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay6 (x : Vec Ideal S50x128 .f32) (w : Vec Ideal S128x128 .f32) (b : Vec Ideal S1x128 .f32) (j : S50x128.Idx) :
    (k6_pay1 (F := Ideal) x w b j : EReal) = Cert.Spec.lin1 x w b j :=
  hval_lin1_val hval_plain_50_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is tile t of the layer of the arrays as the region finds them. -/
theorem hval_flushed6 (c : Dev nD) (t : Fin cfg6.N) :
    (dat6 (F := Ideal) V c).flushed 3 t = ((cfg6.win 3).blk t).view.read (Elt Ideal)
      (fun i => Cert.Spec.lin1 (V c main_v82) (V c main_v84) (V c main_v87) i) := by
  show (cfg6.win 3).cut (grid6.coords t) ((dat6 (F := Ideal) V c).after 3 t) = _
  rw [after6_3]
  unfold out6_3
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31⟩ := hval_idx6 t
  funext j
  show (k6_pay1 (F := Ideal) (iblk6 V c 0 t) (iblk6 V c 1 t) (iblk6 V c 2 t) j : EReal)
    = Cert.Spec.lin1 (V c main_v82) (V c main_v84) (V c main_v87) (((cfg6.win 3).blk t).view.emb j)
  refine (hval_pay6 (iblk6 V c 0 t) (iblk6 V c 1 t) (iblk6 V c 2 t) j).trans ?_
  have hj0 : (j 0).val < 50 := (j 0).isLt
  have hj1 : (j 1).val < 128 := (j 1).isLt
  refine hval_lin1_congr _ _ _ _ _ _ j _ (fun k => ?_) (fun k => ?_) ?_
  · show V c main_v82 (((cfg6.win 0).blk t).view.emb (ix2 (j 0) k)) = V c main_v82 (ix2 ((((cfg6.win 3).blk t).view.emb j) 0) k)
    refine congrArg (V c main_v82) (hval_idx2_ext _ _ ?_ ?_)
    · show win6_0.index t (0 : Fin 2) * 50 + 1 * (j 0).val = win6_3.index t (0 : Fin 2) * 50 + 1 * (j 0).val
      omega
    · show win6_0.index t (1 : Fin 2) * 128 + 1 * k.val = k.val
      omega
  · show V c main_v84 (((cfg6.win 1).blk t).view.emb (ix2 k (j 1))) = V c main_v84 (ix2 k ((((cfg6.win 3).blk t).view.emb j) 1))
    refine congrArg (V c main_v84) (hval_idx2_ext _ _ ?_ ?_)
    · show win6_1.index t (0 : Fin 2) * 128 + 1 * k.val = k.val
      omega
    · show win6_1.index t (1 : Fin 2) * 128 + 1 * (j 1).val = win6_3.index t (1 : Fin 2) * 128 + 1 * (j 1).val
      omega
  · show V c main_v87 (((cfg6.win 2).blk t).view.emb (ix2 0 (j 1))) = V c main_v87 (ix2 0 ((((cfg6.win 3).blk t).view.emb j) 1))
    refine congrArg (V c main_v87) (hval_idx2_ext _ _ ?_ ?_)
    · show win6_2.index t (0 : Fin 2) * 1 + 1 * 0 = 0
      omega
    · show win6_2.index t (1 : Fin 2) * 128 + 1 * (j 1).val = win6_3.index t (1 : Fin 2) * 128 + 1 * (j 1).val
      omega

/-- An entry of the output array lies in point t's tile iff each coordinate is in the tile's range. -/
theorem hval_mem_blk6 (t : Fin cfg6.N) (i : S50x128.Idx) :
    i ∈ ((cfg6.win 3).blk t).view.set ↔ ∀ a : Fin 2, win6_3.index t a * S50x128.size a ≤ (i a).val
      ∧ (i a).val < win6_3.index t a * S50x128.size a + S50x128.size a := by
  show i ∈ ((View.whole main_v88).slice (win6_3.rect t)).set ↔ _
  rw [View.set_slice_whole, Rect.mem_set_unit]
  exact Iff.rfl

/-- Every row of the output array is in some point's tile: row r in tile r / 50. -/
theorem hval_cover6 (i : S50x128.Idx) :
    ∃ t : Fin cfg6.N, (cfg6.win 3).flush t = true ∧ i ∈ ((cfg6.win 3).blk t).view.set := by
  have hi0 : (i 0).val < 50 := (i 0).isLt
  have hi1 : (i 1).val < 128 := (i 1).isLt
  obtain ⟨t, ht⟩ : ∃ t : Fin cfg6.N, t.val = (i 0).val / 50 :=
    ⟨⟨(i 0).val / 50, by rw [show cfg6.N = 1 from N_6]; omega⟩, rfl⟩
  obtain ⟨-, -, -, -, -, -, eo0, eo1⟩ := hval_idx6 t
  refine ⟨t, flush6_3 t, ?_⟩
  rw [hval_mem_blk6]
  intro a
  match a with
  | ⟨0, _⟩ =>
    show win6_3.index t (0 : Fin 2) * 50 ≤ (i 0).val ∧ (i 0).val < win6_3.index t (0 : Fin 2) * 50 + 50
    omega
  | ⟨1, _⟩ =>
    show win6_3.index t (1 : Fin 2) * 128 ≤ (i 1).val ∧ (i 1).val < win6_3.index t (1 : Fin 2) * 128 + 128
    omega

/-- Region 6's output array after the region: the dense layer of the activation, weight and bias arrays the region
    found, entry by entry. -/
theorem val6 (c : Dev nD) (i : S50x128.Idx) :
    (dat6 (F := Ideal) V c).arrAt 3 cfg6.N i = Cert.Spec.lin1 (V c main_v82) (V c main_v84) (V c main_v87) i :=
  congrFun ((dat6 (F := Ideal) V c).arrAt_eq_of_cover 3
    (fun i => Cert.Spec.lin1 (V c main_v82) (V c main_v84) (V c main_v87) i)
    (fun t _ => hval_flushed6 V c t) (hval_cover6)) i

end Cert.KernelIdeal.Hand

end
-- ==== Proof.KI.Val7.lean ====
/-
  Region 7's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef7

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay7 (x : Vec Ideal S5000x128 .f32) (w1 : Vec Ideal S128x128 .f32) (y : Vec Ideal S5000x128 .f32) (w2 : Vec Ideal S128x128 .f32) (b : Vec Ideal S1x128 .f32) (j : S5000x128.Idx) :
    (k7_pay1 (F := Ideal) x w1 y w2 b j : EReal) = Cert.Spec.lin2 x y w1 w2 b j :=
  hval_lin2_val hval_plain_5000_128 _ _ _ _ _ x y w1 w2 b
    (fun i => congrFun (shapeCast_self x _) i) (fun _ => rfl) (fun i => congrFun (shapeCast_self y _) i) (fun _ => rfl)
    (fun j => hval_bias b _ _ j) j

/-- The block index maps over the grid: the activation and output tiles move down the rows with the point, the
    weight and bias blocks stay. -/
theorem hval_idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point t writes back is tile t of the layer of the arrays as the region finds them. -/
theorem hval_flushed7 (c : Dev nD) (t : Fin cfg7.N) :
    (dat7 (F := Ideal) V c).flushed 5 t = ((cfg7.win 5).blk t).view.read (Elt Ideal)
      (fun i => Cert.Spec.lin2 (V c main_v64) (V c main_v117) (V c main_arg20) (V c main_arg25) (V c main_v125) i) := by
  show (cfg7.win 5).cut (grid7.coords t) ((dat7 (F := Ideal) V c).after 5 t) = _
  rw [after7_5]
  unfold out7_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx7 t
  funext j
  show (k7_pay1 (F := Ideal) (iblk7 V c 0 t) (iblk7 V c 2 t) (iblk7 V c 1 t) (iblk7 V c 3 t) (iblk7 V c 4 t) j : EReal)
    = Cert.Spec.lin2 (V c main_v64) (V c main_v117) (V c main_arg20) (V c main_arg25) (V c main_v125) (((cfg7.win 5).blk t).view.emb j)
  refine (hval_pay7 (iblk7 V c 0 t) (iblk7 V c 2 t) (iblk7 V c 1 t) (iblk7 V c 3 t) (iblk7 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v64 (((cfg7.win 0).blk t).view.emb (ix2 (j 0) k)) = V c main_v64 (ix2 ((((cfg7.win 5).blk t).view.emb j) 0) k)
    refine congrArg (V c main_v64) (hval_idx2_ext _ _ ?_ ?_)
    · show win7_0.index t (0 : Fin 2) * 5000 + 1 * (j 0).val = win7_5.index t (0 : Fin 2) * 5000 + 1 * (j 0).val
      omega
    · show win7_0.index t (1 : Fin 2) * 128 + 1 * k.val = k.val
      omega
  · show V c main_v117 (((cfg7.win 1).blk t).view.emb (ix2 (j 0) k)) = V c main_v117 (ix2 ((((cfg7.win 5).blk t).view.emb j) 0) k)
    refine congrArg (V c main_v117) (hval_idx2_ext _ _ ?_ ?_)
    · show win7_1.index t (0 : Fin 2) * 5000 + 1 * (j 0).val = win7_5.index t (0 : Fin 2) * 5000 + 1 * (j 0).val
      omega
    · show win7_1.index t (1 : Fin 2) * 128 + 1 * k.val = k.val
      omega
  · show V c main_arg20 (((cfg7.win 2).blk t).view.emb (ix2 k (j 1))) = V c main_arg20 (ix2 k ((((cfg7.win 5).blk t).view.emb j) 1))
    refine congrArg (V c main_arg20) (hval_idx2_ext _ _ ?_ ?_)
    · show win7_2.index t (0 : Fin 2) * 128 + 1 * k.val = k.val
      omega
    · show win7_2.index t (1 : Fin 2) * 128 + 1 * (j 1).val = win7_5.index t (1 : Fin 2) * 128 + 1 * (j 1).val
      omega
  · show V c main_arg25 (((cfg7.win 3).blk t).view.emb (ix2 k (j 1))) = V c main_arg25 (ix2 k ((((cfg7.win 5).blk t).view.emb j) 1))
    refine congrArg (V c main_arg25) (hval_idx2_ext _ _ ?_ ?_)
    · show win7_3.index t (0 : Fin 2) * 128 + 1 * k.val = k.val
      omega
    · show win7_3.index t (1 : Fin 2) * 128 + 1 * (j 1).val = win7_5.index t (1 : Fin 2) * 128 + 1 * (j 1).val
      omega
  · show V c main_v125 (((cfg7.win 4).blk t).view.emb (ix2 0 (j 1))) = V c main_v125 (ix2 0 ((((cfg7.win 5).blk t).view.emb j) 1))
    refine congrArg (V c main_v125) (hval_idx2_ext _ _ ?_ ?_)
    · show win7_4.index t (0 : Fin 2) * 1 + 1 * 0 = 0
      omega
    · show win7_4.index t (1 : Fin 2) * 128 + 1 * (j 1).val = win7_5.index t (1 : Fin 2) * 128 + 1 * (j 1).val
      omega

/-- An entry of the output array lies in point t's tile iff each coordinate is in the tile's range. -/
theorem hval_mem_blk7 (t : Fin cfg7.N) (i : S100000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v126).slice (win7_5.rect t)).set ↔ _
  rw [View.set_slice_whole, Rect.mem_set_unit]
  exact Iff.rfl

/-- Every row of the output array is in some point's tile: row r in tile r / 5000. -/
theorem hval_cover7 (i : S100000x128.Idx) :
    ∃ t : Fin cfg7.N, (cfg7.win 5).flush t = true ∧ i ∈ ((cfg7.win 5).blk t).view.set := by
  have hi0 : (i 0).val < 100000 := (i 0).isLt
  have hi1 : (i 1).val < 128 := (i 1).isLt
  obtain ⟨t, ht⟩ : ∃ t : Fin cfg7.N, t.val = (i 0).val / 5000 :=
    ⟨⟨(i 0).val / 5000, by rw [show cfg7.N = 20 from N_7]; omega⟩, rfl⟩
  obtain ⟨-, -, -, -, -, -, -, -, -, -, eo0, eo1⟩ := hval_idx7 t
  refine ⟨t, flush7_5 t, ?_⟩
  rw [hval_mem_blk7]
  intro a
  match a with
  | ⟨0, _⟩ =>
    show win7_5.index t (0 : Fin 2) * 5000 ≤ (i 0).val ∧ (i 0).val < win7_5.index t (0 : Fin 2) * 5000 + 5000
    omega
  | ⟨1, _⟩ =>
    show win7_5.index t (1 : Fin 2) * 128 ≤ (i 1).val ∧ (i 1).val < win7_5.index t (1 : Fin 2) * 128 + 128
    omega

/-- Region 7's output array after the region: the dense layer of the activation, weight and bias arrays the region
    found, entry by entry. -/
theorem val7 (c : Dev nD) (i : S100000x128.Idx) :
    (dat7 (F := Ideal) V c).arrAt 5 cfg7.N i = Cert.Spec.lin2 (V c main_v64) (V c main_v117) (V c main_arg20) (V c main_arg25) (V c main_v125) i :=
  congrFun ((dat7 (F := Ideal) V c).arrAt_eq_of_cover 5
    (fun i => Cert.Spec.lin2 (V c main_v64) (V c main_v117) (V c main_arg20) (V c main_arg25) (V c main_v125) i)
    (fun t _ => hval_flushed7 V c t) (hval_cover7)) i

end Cert.KernelIdeal.Hand

end
-- ==== Proof.KI.Val8.lean ====
/-
  Region 8's output array after the region, at the exact (extended real) instance: entry (r, q) is the dense layer
  max (((x·W₁ + y·W₂) + z·W₃) + b, 0) of row r of the activation arrays, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef8

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay8 (x : Vec Ideal S2000x128 .f32) (w1 : Vec Ideal S128x128 .f32) (y : Vec Ideal S2000x128 .f32) (w2 : Vec Ideal S128x128 .f32) (z : Vec Ideal S2000x128 .f32) (w3 : Vec Ideal S128x128 .f32) (b : Vec Ideal S1x128 .f32) (j : S2000x128.Idx) :
    (k8_pay1 (F := Ideal) x w1 y w2 z w3 b j : EReal) = Cert.Spec.lin3 x y z w1 w2 w3 b j :=
  hval_lin3_val hval_plain_2000_128 _ _ _ _ _ _ _ x y z w1 w2 w3 b
    (fun i => congrFun (shapeCast_self x _) i) (fun _ => rfl) (fun i => congrFun (shapeCast_self y _) i) (fun _ => rfl) (fun i => congrFun (shapeCast_self z _) i) (fun _ => rfl)
    (fun j => hval_bias b _ _ j) j

/-- The block index maps over the grid: the activation and output tiles move down the rows with the point, the
    weight and bias blocks stay. -/
theorem hval_idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

/-- What point t writes back is tile t of the layer of the arrays as the region finds them. -/
theorem hval_flushed8 (c : Dev nD) (t : Fin cfg8.N) :
    (dat8 (F := Ideal) V c).flushed 7 t = ((cfg8.win 7).blk t).view.read (Elt Ideal)
      (fun i => Cert.Spec.lin3 (V c main_v76) (V c main_v99) (V c main_v124) (V c main_arg21) (V c main_arg23) (V c main_arg26) (V c main_v127) i) := by
  show (cfg8.win 7).cut (grid8.coords t) ((dat8 (F := Ideal) V c).after 7 t) = _
  rw [after8_7]
  unfold out8_7
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31, e40, e41, e50, e51, e60, e61, e70, e71⟩ := hval_idx8 t
  funext j
  show (k8_pay1 (F := Ideal) (iblk8 V c 0 t) (iblk8 V c 3 t) (iblk8 V c 1 t) (iblk8 V c 4 t) (iblk8 V c 2 t) (iblk8 V c 5 t) (iblk8 V c 6 t) j : EReal)
    = Cert.Spec.lin3 (V c main_v76) (V c main_v99) (V c main_v124) (V c main_arg21) (V c main_arg23) (V c main_arg26) (V c main_v127) (((cfg8.win 7).blk t).view.emb j)
  refine (hval_pay8 (iblk8 V c 0 t) (iblk8 V c 3 t) (iblk8 V c 1 t) (iblk8 V c 4 t) (iblk8 V c 2 t) (iblk8 V c 5 t) (iblk8 V c 6 t) j).trans ?_
  have hj0 : (j 0).val < 2000 := (j 0).isLt
  have hj1 : (j 1).val < 128 := (j 1).isLt
  refine hval_lin3_congr _ _ _ _ _ _ _ _ _ _ _ _ _ _ j _ (fun k => ?_) (fun k => ?_) (fun k => ?_) (fun k => ?_) (fun k => ?_) (fun k => ?_) ?_
  · show V c main_v76 (((cfg8.win 0).blk t).view.emb (ix2 (j 0) k)) = V c main_v76 (ix2 ((((cfg8.win 7).blk t).view.emb j) 0) k)
    refine congrArg (V c main_v76) (hval_idx2_ext _ _ ?_ ?_)
    · show win8_0.index t (0 : Fin 2) * 2000 + 1 * (j 0).val = win8_7.index t (0 : Fin 2) * 2000 + 1 * (j 0).val
      omega
    · show win8_0.index t (1 : Fin 2) * 128 + 1 * k.val = k.val
      omega
  · show V c main_v99 (((cfg8.win 1).blk t).view.emb (ix2 (j 0) k)) = V c main_v99 (ix2 ((((cfg8.win 7).blk t).view.emb j) 0) k)
    refine congrArg (V c main_v99) (hval_idx2_ext _ _ ?_ ?_)
    · show win8_1.index t (0 : Fin 2) * 2000 + 1 * (j 0).val = win8_7.index t (0 : Fin 2) * 2000 + 1 * (j 0).val
      omega
    · show win8_1.index t (1 : Fin 2) * 128 + 1 * k.val = k.val
      omega
  · show V c main_v124 (((cfg8.win 2).blk t).view.emb (ix2 (j 0) k)) = V c main_v124 (ix2 ((((cfg8.win 7).blk t).view.emb j) 0) k)
    refine congrArg (V c main_v124) (hval_idx2_ext _ _ ?_ ?_)
    · show win8_2.index t (0 : Fin 2) * 2000 + 1 * (j 0).val = win8_7.index t (0 : Fin 2) * 2000 + 1 * (j 0).val
      omega
    · show win8_2.index t (1 : Fin 2) * 128 + 1 * k.val = k.val
      omega
  · show V c main_arg21 (((cfg8.win 3).blk t).view.emb (ix2 k (j 1))) = V c main_arg21 (ix2 k ((((cfg8.win 7).blk t).view.emb j) 1))
    refine congrArg (V c main_arg21) (hval_idx2_ext _ _ ?_ ?_)
    · show win8_3.index t (0 : Fin 2) * 128 + 1 * k.val = k.val
      omega
    · show win8_3.index t (1 : Fin 2) * 128 + 1 * (j 1).val = win8_7.index t (1 : Fin 2) * 128 + 1 * (j 1).val
      omega
  · show V c main_arg23 (((cfg8.win 4).blk t).view.emb (ix2 k (j 1))) = V c main_arg23 (ix2 k ((((cfg8.win 7).blk t).view.emb j) 1))
    refine congrArg (V c main_arg23) (hval_idx2_ext _ _ ?_ ?_)
    · show win8_4.index t (0 : Fin 2) * 128 + 1 * k.val = k.val
      omega
    · show win8_4.index t (1 : Fin 2) * 128 + 1 * (j 1).val = win8_7.index t (1 : Fin 2) * 128 + 1 * (j 1).val
      omega
  · show V c main_arg26 (((cfg8.win 5).blk t).view.emb (ix2 k (j 1))) = V c main_arg26 (ix2 k ((((cfg8.win 7).blk t).view.emb j) 1))
    refine congrArg (V c main_arg26) (hval_idx2_ext _ _ ?_ ?_)
    · show win8_5.index t (0 : Fin 2) * 128 + 1 * k.val = k.val
      omega
    · show win8_5.index t (1 : Fin 2) * 128 + 1 * (j 1).val = win8_7.index t (1 : Fin 2) * 128 + 1 * (j 1).val
      omega
  · show V c main_v127 (((cfg8.win 6).blk t).view.emb (ix2 0 (j 1))) = V c main_v127 (ix2 0 ((((cfg8.win 7).blk t).view.emb j) 1))
    refine congrArg (V c main_v127) (hval_idx2_ext _ _ ?_ ?_)
    · show win8_6.index t (0 : Fin 2) * 1 + 1 * 0 = 0
      omega
    · show win8_6.index t (1 : Fin 2) * 128 + 1 * (j 1).val = win8_7.index t (1 : Fin 2) * 128 + 1 * (j 1).val
      omega

/-- An entry of the output array lies in point t's tile iff each coordinate is in the tile's range. -/
theorem hval_mem_blk8 (t : Fin cfg8.N) (i : S2000x128.Idx) :
    i ∈ ((cfg8.win 7).blk t).view.set ↔ ∀ a : Fin 2, win8_7.index t a * S2000x128.size a ≤ (i a).val
      ∧ (i a).val < win8_7.index t a * S2000x128.size a + S2000x128.size a := by
  show i ∈ ((View.whole main_v128).slice (win8_7.rect t)).set ↔ _
  rw [View.set_slice_whole, Rect.mem_set_unit]
  exact Iff.rfl

/-- Every row of the output array is in some point's tile: row r in tile r / 2000. -/
theorem hval_cover8 (i : S2000x128.Idx) :
    ∃ t : Fin cfg8.N, (cfg8.win 7).flush t = true ∧ i ∈ ((cfg8.win 7).blk t).view.set := by
  have hi0 : (i 0).val < 2000 := (i 0).isLt
  have hi1 : (i 1).val < 128 := (i 1).isLt
  obtain ⟨t, ht⟩ : ∃ t : Fin cfg8.N, t.val = (i 0).val / 2000 :=
    ⟨⟨(i 0).val / 2000, by rw [show cfg8.N = 1 from N_8]; omega⟩, rfl⟩
  obtain ⟨-, -, -, -, -, -, -, -, -, -, -, -, -, -, eo0, eo1⟩ := hval_idx8 t
  refine ⟨t, flush8_7 t, ?_⟩
  rw [hval_mem_blk8]
  intro a
  match a with
  | ⟨0, _⟩ =>
    show win8_7.index t (0 : Fin 2) * 2000 ≤ (i 0).val ∧ (i 0).val < win8_7.index t (0 : Fin 2) * 2000 + 2000
    omega
  | ⟨1, _⟩ =>
    show win8_7.index t (1 : Fin 2) * 128 ≤ (i 1).val ∧ (i 1).val < win8_7.index t (1 : Fin 2) * 128 + 128
    omega

/-- Region 8's output array after the region: the dense layer of the activation, weight and bias arrays the region
    found, entry by entry. -/
theorem val8 (c : Dev nD) (i : S2000x128.Idx) :
    (dat8 (F := Ideal) V c).arrAt 7 cfg8.N i = Cert.Spec.lin3 (V c main_v76) (V c main_v99) (V c main_v124) (V c main_arg21) (V c main_arg23) (V c main_arg26) (V c main_v127) i :=
  congrFun ((dat8 (F := Ideal) V c).arrAt_eq_of_cover 7
    (fun i => Cert.Spec.lin3 (V c main_v76) (V c main_v99) (V c main_v124) (V c main_arg21) (V c main_arg23) (V c main_arg26) (V c main_v127) i)
    (fun t _ => hval_flushed8 V c t) (hval_cover8)) i

end Cert.KernelIdeal.Hand

end
-- ==== Proof.KI.Val9.lean ====
/-
  Region 9's output array after the region, at the exact (extended real) instance: entry (r, q) is the dense layer
  max ((x·W₁ + y·W₂) + b, 0) of row r of the activation arrays, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef9

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay9 (x : Vec Ideal S50x128 .f32) (w1 : Vec Ideal S128x128 .f32) (y : Vec Ideal S50x128 .f32) (w2 : Vec Ideal S128x128 .f32) (b : Vec Ideal S1x128 .f32) (j : S50x128.Idx) :
    (k9_pay1 (F := Ideal) x w1 y w2 b j : EReal) = Cert.Spec.lin2 x y w1 w2 b j :=
  hval_lin2_val hval_plain_50_128 _ _ _ _ _ x y w1 w2 b
    (fun i => congrFun (shapeCast_self x _) i) (fun _ => rfl) (fun i => congrFun (shapeCast_self y _) i) (fun _ => rfl)
    (fun j => hval_bias b _ _ j) j

/-- The block index maps over the grid: the activation and output tiles move down the rows with the point, the
    weight and bias blocks stay. -/
theorem hval_idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- What point t writes back is tile t of the layer of the arrays as the region finds them. -/
theorem hval_flushed9 (c : Dev nD) (t : Fin cfg9.N) :
    (dat9 (F := Ideal) V c).flushed 5 t = ((cfg9.win 5).blk t).view.read (Elt Ideal)
      (fun i => Cert.Spec.lin2 (V c main_v88) (V c main_v110) (V c main_arg22) (V c main_arg24) (V c main_v129) i) := by
  show (cfg9.win 5).cut (grid9.coords t) ((dat9 (F := Ideal) V c).after 5 t) = _
  rw [after9_5]
  unfold out9_5
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31, e40, e41, e50, e51⟩ := hval_idx9 t
  funext j
  show (k9_pay1 (F := Ideal) (iblk9 V c 0 t) (iblk9 V c 2 t) (iblk9 V c 1 t) (iblk9 V c 3 t) (iblk9 V c 4 t) j : EReal)
    = Cert.Spec.lin2 (V c main_v88) (V c main_v110) (V c main_arg22) (V c main_arg24) (V c main_v129) (((cfg9.win 5).blk t).view.emb j)
  refine (hval_pay9 (iblk9 V c 0 t) (iblk9 V c 2 t) (iblk9 V c 1 t) (iblk9 V c 3 t) (iblk9 V c 4 t) j).trans ?_
  have hj0 : (j 0).val < 50 := (j 0).isLt
  have hj1 : (j 1).val < 128 := (j 1).isLt
  refine hval_lin2_congr _ _ _ _ _ _ _ _ _ _ j _ (fun k => ?_) (fun k => ?_) (fun k => ?_) (fun k => ?_) ?_
  · show V c main_v88 (((cfg9.win 0).blk t).view.emb (ix2 (j 0) k)) = V c main_v88 (ix2 ((((cfg9.win 5).blk t).view.emb j) 0) k)
    refine congrArg (V c main_v88) (hval_idx2_ext _ _ ?_ ?_)
    · show win9_0.index t (0 : Fin 2) * 50 + 1 * (j 0).val = win9_5.index t (0 : Fin 2) * 50 + 1 * (j 0).val
      omega
    · show win9_0.index t (1 : Fin 2) * 128 + 1 * k.val = k.val
      omega
  · show V c main_v110 (((cfg9.win 1).blk t).view.emb (ix2 (j 0) k)) = V c main_v110 (ix2 ((((cfg9.win 5).blk t).view.emb j) 0) k)
    refine congrArg (V c main_v110) (hval_idx2_ext _ _ ?_ ?_)
    · show win9_1.index t (0 : Fin 2) * 50 + 1 * (j 0).val = win9_5.index t (0 : Fin 2) * 50 + 1 * (j 0).val
      omega
    · show win9_1.index t (1 : Fin 2) * 128 + 1 * k.val = k.val
      omega
  · show V c main_arg22 (((cfg9.win 2).blk t).view.emb (ix2 k (j 1))) = V c main_arg22 (ix2 k ((((cfg9.win 5).blk t).view.emb j) 1))
    refine congrArg (V c main_arg22) (hval_idx2_ext _ _ ?_ ?_)
    · show win9_2.index t (0 : Fin 2) * 128 + 1 * k.val = k.val
      omega
    · show win9_2.index t (1 : Fin 2) * 128 + 1 * (j 1).val = win9_5.index t (1 : Fin 2) * 128 + 1 * (j 1).val
      omega
  · show V c main_arg24 (((cfg9.win 3).blk t).view.emb (ix2 k (j 1))) = V c main_arg24 (ix2 k ((((cfg9.win 5).blk t).view.emb j) 1))
    refine congrArg (V c main_arg24) (hval_idx2_ext _ _ ?_ ?_)
    · show win9_3.index t (0 : Fin 2) * 128 + 1 * k.val = k.val
      omega
    · show win9_3.index t (1 : Fin 2) * 128 + 1 * (j 1).val = win9_5.index t (1 : Fin 2) * 128 + 1 * (j 1).val
      omega
  · show V c main_v129 (((cfg9.win 4).blk t).view.emb (ix2 0 (j 1))) = V c main_v129 (ix2 0 ((((cfg9.win 5).blk t).view.emb j) 1))
    refine congrArg (V c main_v129) (hval_idx2_ext _ _ ?_ ?_)
    · show win9_4.index t (0 : Fin 2) * 1 + 1 * 0 = 0
      omega
    · show win9_4.index t (1 : Fin 2) * 128 + 1 * (j 1).val = win9_5.index t (1 : Fin 2) * 128 + 1 * (j 1).val
      omega

/-- An entry of the output array lies in point t's tile iff each coordinate is in the tile's range. -/
theorem hval_mem_blk9 (t : Fin cfg9.N) (i : S50x128.Idx) :
    i ∈ ((cfg9.win 5).blk t).view.set ↔ ∀ a : Fin 2, win9_5.index t a * S50x128.size a ≤ (i a).val
      ∧ (i a).val < win9_5.index t a * S50x128.size a + S50x128.size a := by
  show i ∈ ((View.whole main_v130).slice (win9_5.rect t)).set ↔ _
  rw [View.set_slice_whole, Rect.mem_set_unit]
  exact Iff.rfl

/-- Every row of the output array is in some point's tile: row r in tile r / 50. -/
theorem hval_cover9 (i : S50x128.Idx) :
    ∃ t : Fin cfg9.N, (cfg9.win 5).flush t = true ∧ i ∈ ((cfg9.win 5).blk t).view.set := by
  have hi0 : (i 0).val < 50 := (i 0).isLt
  have hi1 : (i 1).val < 128 := (i 1).isLt
  obtain ⟨t, ht⟩ : ∃ t : Fin cfg9.N, t.val = (i 0).val / 50 :=
    ⟨⟨(i 0).val / 50, by rw [show cfg9.N = 1 from N_9]; omega⟩, rfl⟩
  obtain ⟨-, -, -, -, -, -, -, -, -, -, eo0, eo1⟩ := hval_idx9 t
  refine ⟨t, flush9_5 t, ?_⟩
  rw [hval_mem_blk9]
  intro a
  match a with
  | ⟨0, _⟩ =>
    show win9_5.index t (0 : Fin 2) * 50 ≤ (i 0).val ∧ (i 0).val < win9_5.index t (0 : Fin 2) * 50 + 50
    omega
  | ⟨1, _⟩ =>
    show win9_5.index t (1 : Fin 2) * 128 ≤ (i 1).val ∧ (i 1).val < win9_5.index t (1 : Fin 2) * 128 + 128
    omega

/-- Region 9's output array after the region: the dense layer of the activation, weight and bias arrays the region
    found, entry by entry. -/
theorem val9 (c : Dev nD) (i : S50x128.Idx) :
    (dat9 (F := Ideal) V c).arrAt 5 cfg9.N i = Cert.Spec.lin2 (V c main_v88) (V c main_v110) (V c main_arg22) (V c main_arg24) (V c main_v129) i :=
  congrFun ((dat9 (F := Ideal) V c).arrAt_eq_of_cover 5
    (fun i => Cert.Spec.lin2 (V c main_v88) (V c main_v110) (V c main_arg22) (V c main_arg24) (V c main_v129) i)
    (fun t _ => hval_flushed9 V c t) (hval_cover9)) i

end Cert.KernelIdeal.Hand

end
-- ==== Proof.KI.Val10.lean ====
/-
  Region 10's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef10

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay10 (x : Vec Ideal S5000x128 .f32) (w1 : Vec Ideal S128x128 .f32) (y : Vec Ideal S5000x128 .f32) (w2 : Vec Ideal S128x128 .f32) (b : Vec Ideal S1x128 .f32) (j : S5000x128.Idx) :
    (k10_pay1 (F := Ideal) x w1 y w2 b j : EReal) = Cert.Spec.lin2 x y w1 w2 b j :=
  hval_lin2_val hval_plain_5000_128 _ _ _ _ _ x y w1 w2 b
    (fun i => congrFun (shapeCast_self x _) i) (fun i => congrFun (shapeCast_self w1 _) i) (fun i => congrFun (shapeCast_self y _) i) (fun i => congrFun (shapeCast_self w2 _) i)
    (fun j => hval_bias b _ _ j) j

/-- The block index maps over the grid: the activation and output tiles move down the rows with the point, the
    weight and bias blocks stay. -/
theorem hval_idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- What point t writes back is tile t of the layer of the arrays as the region finds them. -/
theorem hval_flushed10 (c : Dev nD) (t : Fin cfg10.N) :
    (dat10 (F := Ideal) V c).flushed 5 t = ((cfg10.win 5).blk t).view.read (Elt Ideal)
      (fun i => Cert.Spec.lin2 (V c main_v126) (V c main_v148) (V c main_v150) (V c main_v152) (V c main_v155) i) := by
  show (cfg10.win 5).cut (grid10.coords t) ((dat10 (F := Ideal) V c).after 5 t) = _
  rw [after10_5]
  unfold out10_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx10 t
  funext j
  show (k10_pay1 (F := Ideal) (iblk10 V c 0 t) (iblk10 V c 2 t) (iblk10 V c 1 t) (iblk10 V c 3 t) (iblk10 V c 4 t) j : EReal)
    = Cert.Spec.lin2 (V c main_v126) (V c main_v148) (V c main_v150) (V c main_v152) (V c main_v155) (((cfg10.win 5).blk t).view.emb j)
  refine (hval_pay10 (iblk10 V c 0 t) (iblk10 V c 2 t) (iblk10 V c 1 t) (iblk10 V c 3 t) (iblk10 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v126 (((cfg10.win 0).blk t).view.emb (ix2 (j 0) k)) = V c main_v126 (ix2 ((((cfg10.win 5).blk t).view.emb j) 0) k)
    refine congrArg (V c main_v126) (hval_idx2_ext _ _ ?_ ?_)
    · show win10_0.index t (0 : Fin 2) * 5000 + 1 * (j 0).val = win10_5.index t (0 : Fin 2) * 5000 + 1 * (j 0).val
      omega
    · show win10_0.index t (1 : Fin 2) * 128 + 1 * k.val = k.val
      omega
  · show V c main_v148 (((cfg10.win 1).blk t).view.emb (ix2 (j 0) k)) = V c main_v148 (ix2 ((((cfg10.win 5).blk t).view.emb j) 0) k)
    refine congrArg (V c main_v148) (hval_idx2_ext _ _ ?_ ?_)
    · show win10_1.index t (0 : Fin 2) * 5000 + 1 * (j 0).val = win10_5.index t (0 : Fin 2) * 5000 + 1 * (j 0).val
      omega
    · show win10_1.index t (1 : Fin 2) * 128 + 1 * k.val = k.val
      omega
  · show V c main_v150 (((cfg10.win 2).blk t).view.emb (ix2 k (j 1))) = V c main_v150 (ix2 k ((((cfg10.win 5).blk t).view.emb j) 1))
    refine congrArg (V c main_v150) (hval_idx2_ext _ _ ?_ ?_)
    · show win10_2.index t (0 : Fin 2) * 128 + 1 * k.val = k.val
      omega
    · show win10_2.index t (1 : Fin 2) * 128 + 1 * (j 1).val = win10_5.index t (1 : Fin 2) * 128 + 1 * (j 1).val
      omega
  · show V c main_v152 (((cfg10.win 3).blk t).view.emb (ix2 k (j 1))) = V c main_v152 (ix2 k ((((cfg10.win 5).blk t).view.emb j) 1))
    refine congrArg (V c main_v152) (hval_idx2_ext _ _ ?_ ?_)
    · show win10_3.index t (0 : Fin 2) * 128 + 1 * k.val = k.val
      omega
    · show win10_3.index t (1 : Fin 2) * 128 + 1 * (j 1).val = win10_5.index t (1 : Fin 2) * 128 + 1 * (j 1).val
      omega
  · show V c main_v155 (((cfg10.win 4).blk t).view.emb (ix2 0 (j 1))) = V c main_v155 (ix2 0 ((((cfg10.win 5).blk t).view.emb j) 1))
    refine congrArg (V c main_v155) (hval_idx2_ext _ _ ?_ ?_)
    · show win10_4.index t (0 : Fin 2) * 1 + 1 * 0 = 0
      omega
    · show win10_4.index t (1 : Fin 2) * 128 + 1 * (j 1).val = win10_5.index t (1 : Fin 2) * 128 + 1 * (j 1).val
      omega

/-- An entry of the output array lies in point t's tile iff each coordinate is in the tile's range. -/
theorem hval_mem_blk10 (t : Fin cfg10.N) (i : S100000x128.Idx) :
    i ∈ ((cfg10.win 5).blk t).view.set ↔ ∀ a : Fin 2, win10_5.index t a * S5000x128.size a ≤ (i a).val
      ∧ (i a).val < win10_5.index t a * S5000x128.size a + S5000x128.size a := by
  show i ∈ ((View.whole main_v156).slice (win10_5.rect t)).set ↔ _
  rw [View.set_slice_whole, Rect.mem_set_unit]
  exact Iff.rfl

/-- Every row of the output array is in some point's tile: row r in tile r / 5000. -/
theorem hval_cover10 (i : S100000x128.Idx) :
    ∃ t : Fin cfg10.N, (cfg10.win 5).flush t = true ∧ i ∈ ((cfg10.win 5).blk t).view.set := by
  have hi0 : (i 0).val < 100000 := (i 0).isLt
  have hi1 : (i 1).val < 128 := (i 1).isLt
  obtain ⟨t, ht⟩ : ∃ t : Fin cfg10.N, t.val = (i 0).val / 5000 :=
    ⟨⟨(i 0).val / 5000, by rw [show cfg10.N = 20 from N_10]; omega⟩, rfl⟩
  obtain ⟨-, -, -, -, -, -, -, -, -, -, eo0, eo1⟩ := hval_idx10 t
  refine ⟨t, flush10_5 t, ?_⟩
  rw [hval_mem_blk10]
  intro a
  match a with
  | ⟨0, _⟩ =>
    show win10_5.index t (0 : Fin 2) * 5000 ≤ (i 0).val ∧ (i 0).val < win10_5.index t (0 : Fin 2) * 5000 + 5000
    omega
  | ⟨1, _⟩ =>
    show win10_5.index t (1 : Fin 2) * 128 ≤ (i 1).val ∧ (i 1).val < win10_5.index t (1 : Fin 2) * 128 + 128
    omega

/-- Region 10's output array after the region: the dense layer of the activation, weight and bias arrays the region
    found, entry by entry. -/
theorem val10 (c : Dev nD) (i : S100000x128.Idx) :
    (dat10 (F := Ideal) V c).arrAt 5 cfg10.N i = Cert.Spec.lin2 (V c main_v126) (V c main_v148) (V c main_v150) (V c main_v152) (V c main_v155) i :=
  congrFun ((dat10 (F := Ideal) V c).arrAt_eq_of_cover 5
    (fun i => Cert.Spec.lin2 (V c main_v126) (V c main_v148) (V c main_v150) (V c main_v152) (V c main_v155) i)
    (fun t _ => hval_flushed10 V c t) (hval_cover10)) i

end Cert.KernelIdeal.Hand

end
-- ==== Proof.KI.Val11.lean ====
/-
  Region 11's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef11

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay11 (x : Vec Ideal S5000x128 .f32) (w1 : Vec Ideal S128x128 .f32) (y : Vec Ideal S5000x128 .f32) (w2 : Vec Ideal S128x128 .f32) (b : Vec Ideal S1x128 .f32) (j : S5000x128.Idx) :
    (k11_pay1 (F := Ideal) x w1 y w2 b j : EReal) = Cert.Spec.lin2 x y w1 w2 b j :=
  hval_lin2_val hval_plain_5000_128 _ _ _ _ _ x y w1 w2 b
    (fun i => congrFun (shapeCast_self x _) i) (fun i => congrFun (shapeCast_self w1 _) i) (fun i => congrFun (shapeCast_self y _) i) (fun i => congrFun (shapeCast_self w2 _) i)
    (fun j => hval_bias b _ _ j) j

/-- The block index maps over the grid: the activation and output tiles move down the rows with the point, the
    weight and bias blocks stay. -/
theorem hval_idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- What point t writes back is tile t of the layer of the arrays as the region finds them. -/
theorem hval_flushed11 (c : Dev nD) (t : Fin cfg11.N) :
    (dat11 (F := Ideal) V c).flushed 5 t = ((cfg11.win 5).blk t).view.read (Elt Ideal)
      (fun i => Cert.Spec.lin2 (V c main_v156) (V c main_v174) (V c main_v176) (V c main_v178) (V c main_v181) i) := by
  show (cfg11.win 5).cut (grid11.coords t) ((dat11 (F := Ideal) V c).after 5 t) = _
  rw [after11_5]
  unfold out11_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx11 t
  funext j
  show (k11_pay1 (F := Ideal) (iblk11 V c 0 t) (iblk11 V c 2 t) (iblk11 V c 1 t) (iblk11 V c 3 t) (iblk11 V c 4 t) j : EReal)
    = Cert.Spec.lin2 (V c main_v156) (V c main_v174) (V c main_v176) (V c main_v178) (V c main_v181) (((cfg11.win 5).blk t).view.emb j)
  refine (hval_pay11 (iblk11 V c 0 t) (iblk11 V c 2 t) (iblk11 V c 1 t) (iblk11 V c 3 t) (iblk11 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v156 (((cfg11.win 0).blk t).view.emb (ix2 (j 0) k)) = V c main_v156 (ix2 ((((cfg11.win 5).blk t).view.emb j) 0) k)
    refine congrArg (V c main_v156) (hval_idx2_ext _ _ ?_ ?_)
    · show win11_0.index t (0 : Fin 2) * 5000 + 1 * (j 0).val = win11_5.index t (0 : Fin 2) * 5000 + 1 * (j 0).val
      omega
    · show win11_0.index t (1 : Fin 2) * 128 + 1 * k.val = k.val
      omega
  · show V c main_v174 (((cfg11.win 1).blk t).view.emb (ix2 (j 0) k)) = V c main_v174 (ix2 ((((cfg11.win 5).blk t).view.emb j) 0) k)
    refine congrArg (V c main_v174) (hval_idx2_ext _ _ ?_ ?_)
    · show win11_1.index t (0 : Fin 2) * 5000 + 1 * (j 0).val = win11_5.index t (0 : Fin 2) * 5000 + 1 * (j 0).val
      omega
    · show win11_1.index t (1 : Fin 2) * 128 + 1 * k.val = k.val
      omega
  · show V c main_v176 (((cfg11.win 2).blk t).view.emb (ix2 k (j 1))) = V c main_v176 (ix2 k ((((cfg11.win 5).blk t).view.emb j) 1))
    refine congrArg (V c main_v176) (hval_idx2_ext _ _ ?_ ?_)
    · show win11_2.index t (0 : Fin 2) * 128 + 1 * k.val = k.val
      omega
    · show win11_2.index t (1 : Fin 2) * 128 + 1 * (j 1).val = win11_5.index t (1 : Fin 2) * 128 + 1 * (j 1).val
      omega
  · show V c main_v178 (((cfg11.win 3).blk t).view.emb (ix2 k (j 1))) = V c main_v178 (ix2 k ((((cfg11.win 5).blk t).view.emb j) 1))
    refine congrArg (V c main_v178) (hval_idx2_ext _ _ ?_ ?_)
    · show win11_3.index t (0 : Fin 2) * 128 + 1 * k.val = k.val
      omega
    · show win11_3.index t (1 : Fin 2) * 128 + 1 * (j 1).val = win11_5.index t (1 : Fin 2) * 128 + 1 * (j 1).val
      omega
  · show V c main_v181 (((cfg11.win 4).blk t).view.emb (ix2 0 (j 1))) = V c main_v181 (ix2 0 ((((cfg11.win 5).blk t).view.emb j) 1))
    refine congrArg (V c main_v181) (hval_idx2_ext _ _ ?_ ?_)
    · show win11_4.index t (0 : Fin 2) * 1 + 1 * 0 = 0
      omega
    · show win11_4.index t (1 : Fin 2) * 128 + 1 * (j 1).val = win11_5.index t (1 : Fin 2) * 128 + 1 * (j 1).val
      omega

/-- An entry of the output array lies in point t's tile iff each coordinate is in the tile's range. -/
theorem hval_mem_blk11 (t : Fin cfg11.N) (i : S100000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole main_v182).slice (win11_5.rect t)).set ↔ _
  rw [View.set_slice_whole, Rect.mem_set_unit]
  exact Iff.rfl

/-- Every row of the output array is in some point's tile: row r in tile r / 5000. -/
theorem hval_cover11 (i : S100000x128.Idx) :
    ∃ t : Fin cfg11.N, (cfg11.win 5).flush t = true ∧ i ∈ ((cfg11.win 5).blk t).view.set := by
  have hi0 : (i 0).val < 100000 := (i 0).isLt
  have hi1 : (i 1).val < 128 := (i 1).isLt
  obtain ⟨t, ht⟩ : ∃ t : Fin cfg11.N, t.val = (i 0).val / 5000 :=
    ⟨⟨(i 0).val / 5000, by rw [show cfg11.N = 20 from N_11]; omega⟩, rfl⟩
  obtain ⟨-, -, -, -, -, -, -, -, -, -, eo0, eo1⟩ := hval_idx11 t
  refine ⟨t, flush11_5 t, ?_⟩
  rw [hval_mem_blk11]
  intro a
  match a with
  | ⟨0, _⟩ =>
    show win11_5.index t (0 : Fin 2) * 5000 ≤ (i 0).val ∧ (i 0).val < win11_5.index t (0 : Fin 2) * 5000 + 5000
    omega
  | ⟨1, _⟩ =>
    show win11_5.index t (1 : Fin 2) * 128 ≤ (i 1).val ∧ (i 1).val < win11_5.index t (1 : Fin 2) * 128 + 128
    omega

/-- Region 11's output array after the region: the dense layer of the activation, weight and bias arrays the region
    found, entry by entry. -/
theorem val11 (c : Dev nD) (i : S100000x128.Idx) :
    (dat11 (F := Ideal) V c).arrAt 5 cfg11.N i = Cert.Spec.lin2 (V c main_v156) (V c main_v174) (V c main_v176) (V c main_v178) (V c main_v181) i :=
  congrFun ((dat11 (F := Ideal) V c).arrAt_eq_of_cover 5
    (fun i => Cert.Spec.lin2 (V c main_v156) (V c main_v174) (V c main_v176) (V c main_v178) (V c main_v181) i)
    (fun t _ => hval_flushed11 V c t) (hval_cover11)) i

end Cert.KernelIdeal.Hand

end
-- ==== Proof.KI.Val12.lean ====
/-
  Region 12's output array after the region, at the exact (extended real) instance: entry (r, q) is the dense layer
  max (x·W + b, 0) of row r of the activation array, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef12

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay12 (x : Vec Ideal S2000x128 .f32) (w : Vec Ideal S128x128 .f32) (b : Vec Ideal S1x128 .f32) (j : S2000x128.Idx) :
    (k12_pay1 (F := Ideal) x w b j : EReal) = Cert.Spec.lin1 x w b j :=
  hval_lin1_val hval_plain_2000_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- What point t writes back is tile t of the layer of the arrays as the region finds them. -/
theorem hval_flushed12 (c : Dev nD) (t : Fin cfg12.N) :
    (dat12 (F := Ideal) V c).flushed 3 t = ((cfg12.win 3).blk t).view.read (Elt Ideal)
      (fun i => Cert.Spec.lin1 (V c main_v128) (V c main_v184) (V c main_v187) i) := by
  show (cfg12.win 3).cut (grid12.coords t) ((dat12 (F := Ideal) V c).after 3 t) = _
  rw [after12_3]
  unfold out12_3
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31⟩ := hval_idx12 t
  funext j
  show (k12_pay1 (F := Ideal) (iblk12 V c 0 t) (iblk12 V c 1 t) (iblk12 V c 2 t) j : EReal)
    = Cert.Spec.lin1 (V c main_v128) (V c main_v184) (V c main_v187) (((cfg12.win 3).blk t).view.emb j)
  refine (hval_pay12 (iblk12 V c 0 t) (iblk12 V c 1 t) (iblk12 V c 2 t) j).trans ?_
  have hj0 : (j 0).val < 2000 := (j 0).isLt
  have hj1 : (j 1).val < 128 := (j 1).isLt
  refine hval_lin1_congr _ _ _ _ _ _ j _ (fun k => ?_) (fun k => ?_) ?_
  · show V c main_v128 (((cfg12.win 0).blk t).view.emb (ix2 (j 0) k)) = V c main_v128 (ix2 ((((cfg12.win 3).blk t).view.emb j) 0) k)
    refine congrArg (V c main_v128) (hval_idx2_ext _ _ ?_ ?_)
    · show win12_0.index t (0 : Fin 2) * 2000 + 1 * (j 0).val = win12_3.index t (0 : Fin 2) * 2000 + 1 * (j 0).val
      omega
    · show win12_0.index t (1 : Fin 2) * 128 + 1 * k.val = k.val
      omega
  · show V c main_v184 (((cfg12.win 1).blk t).view.emb (ix2 k (j 1))) = V c main_v184 (ix2 k ((((cfg12.win 3).blk t).view.emb j) 1))
    refine congrArg (V c main_v184) (hval_idx2_ext _ _ ?_ ?_)
    · show win12_1.index t (0 : Fin 2) * 128 + 1 * k.val = k.val
      omega
    · show win12_1.index t (1 : Fin 2) * 128 + 1 * (j 1).val = win12_3.index t (1 : Fin 2) * 128 + 1 * (j 1).val
      omega
  · show V c main_v187 (((cfg12.win 2).blk t).view.emb (ix2 0 (j 1))) = V c main_v187 (ix2 0 ((((cfg12.win 3).blk t).view.emb j) 1))
    refine congrArg (V c main_v187) (hval_idx2_ext _ _ ?_ ?_)
    · show win12_2.index t (0 : Fin 2) * 1 + 1 * 0 = 0
      omega
    · show win12_2.index t (1 : Fin 2) * 128 + 1 * (j 1).val = win12_3.index t (1 : Fin 2) * 128 + 1 * (j 1).val
      omega

/-- An entry of the output array lies in point t's tile iff each coordinate is in the tile's range. -/
theorem hval_mem_blk12 (t : Fin cfg12.N) (i : S2000x128.Idx) :
    i ∈ ((cfg12.win 3).blk t).view.set ↔ ∀ a : Fin 2, win12_3.index t a * S2000x128.size a ≤ (i a).val
      ∧ (i a).val < win12_3.index t a * S2000x128.size a + S2000x128.size a := by
  show i ∈ ((View.whole main_v188).slice (win12_3.rect t)).set ↔ _
  rw [View.set_slice_whole, Rect.mem_set_unit]
  exact Iff.rfl

/-- Every row of the output array is in some point's tile: row r in tile r / 2000. -/
theorem hval_cover12 (i : S2000x128.Idx) :
    ∃ t : Fin cfg12.N, (cfg12.win 3).flush t = true ∧ i ∈ ((cfg12.win 3).blk t).view.set := by
  have hi0 : (i 0).val < 2000 := (i 0).isLt
  have hi1 : (i 1).val < 128 := (i 1).isLt
  obtain ⟨t, ht⟩ : ∃ t : Fin cfg12.N, t.val = (i 0).val / 2000 :=
    ⟨⟨(i 0).val / 2000, by rw [show cfg12.N = 1 from N_12]; omega⟩, rfl⟩
  obtain ⟨-, -, -, -, -, -, eo0, eo1⟩ := hval_idx12 t
  refine ⟨t, flush12_3 t, ?_⟩
  rw [hval_mem_blk12]
  intro a
  match a with
  | ⟨0, _⟩ =>
    show win12_3.index t (0 : Fin 2) * 2000 ≤ (i 0).val ∧ (i 0).val < win12_3.index t (0 : Fin 2) * 2000 + 2000
    omega
  | ⟨1, _⟩ =>
    show win12_3.index t (1 : Fin 2) * 128 ≤ (i 1).val ∧ (i 1).val < win12_3.index t (1 : Fin 2) * 128 + 128
    omega

/-- Region 12's output array after the region: the dense layer of the activation, weight and bias arrays the region
    found, entry by entry. -/
theorem val12 (c : Dev nD) (i : S2000x128.Idx) :
    (dat12 (F := Ideal) V c).arrAt 3 cfg12.N i = Cert.Spec.lin1 (V c main_v128) (V c main_v184) (V c main_v187) i :=
  congrFun ((dat12 (F := Ideal) V c).arrAt_eq_of_cover 3
    (fun i => Cert.Spec.lin1 (V c main_v128) (V c main_v184) (V c main_v187) i)
    (fun t _ => hval_flushed12 V c t) (hval_cover12)) i

end Cert.KernelIdeal.Hand

end
-- ==== Proof.KI.Val13.lean ====
/-
  Region 13's output array after the region, at the exact (extended real) instance: entry (r, q) is the dense layer
  max (x·W + b, 0) of row r of the activation array, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef13

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay13 (x : Vec Ideal S2000x128 .f32) (w : Vec Ideal S128x128 .f32) (b : Vec Ideal S1x128 .f32) (j : S2000x128.Idx) :
    (k13_pay1 (F := Ideal) x w b j : EReal) = Cert.Spec.lin1 x w b j :=
  hval_lin1_val hval_plain_2000_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- What point t writes back is tile t of the layer of the arrays as the region finds them. -/
theorem hval_flushed13 (c : Dev nD) (t : Fin cfg13.N) :
    (dat13 (F := Ideal) V c).flushed 3 t = ((cfg13.win 3).blk t).view.read (Elt Ideal)
      (fun i => Cert.Spec.lin1 (V c main_v188) (V c main_v190) (V c main_v193) i) := by
  show (cfg13.win 3).cut (grid13.coords t) ((dat13 (F := Ideal) V c).after 3 t) = _
  rw [after13_3]
  unfold out13_3
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31⟩ := hval_idx13 t
  funext j
  show (k13_pay1 (F := Ideal) (iblk13 V c 0 t) (iblk13 V c 1 t) (iblk13 V c 2 t) j : EReal)
    = Cert.Spec.lin1 (V c main_v188) (V c main_v190) (V c main_v193) (((cfg13.win 3).blk t).view.emb j)
  refine (hval_pay13 (iblk13 V c 0 t) (iblk13 V c 1 t) (iblk13 V c 2 t) j).trans ?_
  have hj0 : (j 0).val < 2000 := (j 0).isLt
  have hj1 : (j 1).val < 128 := (j 1).isLt
  refine hval_lin1_congr _ _ _ _ _ _ j _ (fun k => ?_) (fun k => ?_) ?_
  · show V c main_v188 (((cfg13.win 0).blk t).view.emb (ix2 (j 0) k)) = V c main_v188 (ix2 ((((cfg13.win 3).blk t).view.emb j) 0) k)
    refine congrArg (V c main_v188) (hval_idx2_ext _ _ ?_ ?_)
    · show win13_0.index t (0 : Fin 2) * 2000 + 1 * (j 0).val = win13_3.index t (0 : Fin 2) * 2000 + 1 * (j 0).val
      omega
    · show win13_0.index t (1 : Fin 2) * 128 + 1 * k.val = k.val
      omega
  · show V c main_v190 (((cfg13.win 1).blk t).view.emb (ix2 k (j 1))) = V c main_v190 (ix2 k ((((cfg13.win 3).blk t).view.emb j) 1))
    refine congrArg (V c main_v190) (hval_idx2_ext _ _ ?_ ?_)
    · show win13_1.index t (0 : Fin 2) * 128 + 1 * k.val = k.val
      omega
    · show win13_1.index t (1 : Fin 2) * 128 + 1 * (j 1).val = win13_3.index t (1 : Fin 2) * 128 + 1 * (j 1).val
      omega
  · show V c main_v193 (((cfg13.win 2).blk t).view.emb (ix2 0 (j 1))) = V c main_v193 (ix2 0 ((((cfg13.win 3).blk t).view.emb j) 1))
    refine congrArg (V c main_v193) (hval_idx2_ext _ _ ?_ ?_)
    · show win13_2.index t (0 : Fin 2) * 1 + 1 * 0 = 0
      omega
    · show win13_2.index t (1 : Fin 2) * 128 + 1 * (j 1).val = win13_3.index t (1 : Fin 2) * 128 + 1 * (j 1).val
      omega

/-- An entry of the output array lies in point t's tile iff each coordinate is in the tile's range. -/
theorem hval_mem_blk13 (t : Fin cfg13.N) (i : S2000x128.Idx) :
    i ∈ ((cfg13.win 3).blk t).view.set ↔ ∀ a : Fin 2, win13_3.index t a * S2000x128.size a ≤ (i a).val
      ∧ (i a).val < win13_3.index t a * S2000x128.size a + S2000x128.size a := by
  show i ∈ ((View.whole main_v194).slice (win13_3.rect t)).set ↔ _
  rw [View.set_slice_whole, Rect.mem_set_unit]
  exact Iff.rfl

/-- Every row of the output array is in some point's tile: row r in tile r / 2000. -/
theorem hval_cover13 (i : S2000x128.Idx) :
    ∃ t : Fin cfg13.N, (cfg13.win 3).flush t = true ∧ i ∈ ((cfg13.win 3).blk t).view.set := by
  have hi0 : (i 0).val < 2000 := (i 0).isLt
  have hi1 : (i 1).val < 128 := (i 1).isLt
  obtain ⟨t, ht⟩ : ∃ t : Fin cfg13.N, t.val = (i 0).val / 2000 :=
    ⟨⟨(i 0).val / 2000, by rw [show cfg13.N = 1 from N_13]; omega⟩, rfl⟩
  obtain ⟨-, -, -, -, -, -, eo0, eo1⟩ := hval_idx13 t
  refine ⟨t, flush13_3 t, ?_⟩
  rw [hval_mem_blk13]
  intro a
  match a with
  | ⟨0, _⟩ =>
    show win13_3.index t (0 : Fin 2) * 2000 ≤ (i 0).val ∧ (i 0).val < win13_3.index t (0 : Fin 2) * 2000 + 2000
    omega
  | ⟨1, _⟩ =>
    show win13_3.index t (1 : Fin 2) * 128 ≤ (i 1).val ∧ (i 1).val < win13_3.index t (1 : Fin 2) * 128 + 128
    omega

/-- Region 13's output array after the region: the dense layer of the activation, weight and bias arrays the region
    found, entry by entry. -/
theorem val13 (c : Dev nD) (i : S2000x128.Idx) :
    (dat13 (F := Ideal) V c).arrAt 3 cfg13.N i = Cert.Spec.lin1 (V c main_v188) (V c main_v190) (V c main_v193) i :=
  congrFun ((dat13 (F := Ideal) V c).arrAt_eq_of_cover 3
    (fun i => Cert.Spec.lin1 (V c main_v188) (V c main_v190) (V c main_v193) i)
    (fun t _ => hval_flushed13 V c t) (hval_cover13)) i

end Cert.KernelIdeal.Hand

end
-- ==== Proof.KI.Val14.lean ====
/-
  Region 14's output array after the region, at the exact (extended real) instance: entry (r, q) is the dense layer
  max (x·W + b, 0) of row r of the activation array, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef14

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay14 (x : Vec Ideal S50x128 .f32) (w : Vec Ideal S128x128 .f32) (b : Vec Ideal S1x128 .f32) (j : S50x128.Idx) :
    (k14_pay1 (F := Ideal) x w b j : EReal) = Cert.Spec.lin1 x w b j :=
  hval_lin1_val hval_plain_50_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- What point t writes back is tile t of the layer of the arrays as the region finds them. -/
theorem hval_flushed14 (c : Dev nD) (t : Fin cfg14.N) :
    (dat14 (F := Ideal) V c).flushed 3 t = ((cfg14.win 3).blk t).view.read (Elt Ideal)
      (fun i => Cert.Spec.lin1 (V c main_v130) (V c main_v196) (V c main_v199) i) := by
  show (cfg14.win 3).cut (grid14.coords t) ((dat14 (F := Ideal) V c).after 3 t) = _
  rw [after14_3]
  unfold out14_3
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31⟩ := hval_idx14 t
  funext j
  show (k14_pay1 (F := Ideal) (iblk14 V c 0 t) (iblk14 V c 1 t) (iblk14 V c 2 t) j : EReal)
    = Cert.Spec.lin1 (V c main_v130) (V c main_v196) (V c main_v199) (((cfg14.win 3).blk t).view.emb j)
  refine (hval_pay14 (iblk14 V c 0 t) (iblk14 V c 1 t) (iblk14 V c 2 t) j).trans ?_
  have hj0 : (j 0).val < 50 := (j 0).isLt
  have hj1 : (j 1).val < 128 := (j 1).isLt
  refine hval_lin1_congr _ _ _ _ _ _ j _ (fun k => ?_) (fun k => ?_) ?_
  · show V c main_v130 (((cfg14.win 0).blk t).view.emb (ix2 (j 0) k)) = V c main_v130 (ix2 ((((cfg14.win 3).blk t).view.emb j) 0) k)
    refine congrArg (V c main_v130) (hval_idx2_ext _ _ ?_ ?_)
    · show win14_0.index t (0 : Fin 2) * 50 + 1 * (j 0).val = win14_3.index t (0 : Fin 2) * 50 + 1 * (j 0).val
      omega
    · show win14_0.index t (1 : Fin 2) * 128 + 1 * k.val = k.val
      omega
  · show V c main_v196 (((cfg14.win 1).blk t).view.emb (ix2 k (j 1))) = V c main_v196 (ix2 k ((((cfg14.win 3).blk t).view.emb j) 1))
    refine congrArg (V c main_v196) (hval_idx2_ext _ _ ?_ ?_)
    · show win14_1.index t (0 : Fin 2) * 128 + 1 * k.val = k.val
      omega
    · show win14_1.index t (1 : Fin 2) * 128 + 1 * (j 1).val = win14_3.index t (1 : Fin 2) * 128 + 1 * (j 1).val
      omega
  · show V c main_v199 (((cfg14.win 2).blk t).view.emb (ix2 0 (j 1))) = V c main_v199 (ix2 0 ((((cfg14.win 3).blk t).view.emb j) 1))
    refine congrArg (V c main_v199) (hval_idx2_ext _ _ ?_ ?_)
    · show win14_2.index t (0 : Fin 2) * 1 + 1 * 0 = 0
      omega
    · show win14_2.index t (1 : Fin 2) * 128 + 1 * (j 1).val = win14_3.index t (1 : Fin 2) * 128 + 1 * (j 1).val
      omega

/-- An entry of the output array lies in point t's tile iff each coordinate is in the tile's range. -/
theorem hval_mem_blk14 (t : Fin cfg14.N) (i : S50x128.Idx) :
    i ∈ ((cfg14.win 3).blk t).view.set ↔ ∀ a : Fin 2, win14_3.index t a * S50x128.size a ≤ (i a).val
      ∧ (i a).val < win14_3.index t a * S50x128.size a + S50x128.size a := by
  show i ∈ ((View.whole main_v200).slice (win14_3.rect t)).set ↔ _
  rw [View.set_slice_whole, Rect.mem_set_unit]
  exact Iff.rfl

/-- Every row of the output array is in some point's tile: row r in tile r / 50. -/
theorem hval_cover14 (i : S50x128.Idx) :
    ∃ t : Fin cfg14.N, (cfg14.win 3).flush t = true ∧ i ∈ ((cfg14.win 3).blk t).view.set := by
  have hi0 : (i 0).val < 50 := (i 0).isLt
  have hi1 : (i 1).val < 128 := (i 1).isLt
  obtain ⟨t, ht⟩ : ∃ t : Fin cfg14.N, t.val = (i 0).val / 50 :=
    ⟨⟨(i 0).val / 50, by rw [show cfg14.N = 1 from N_14]; omega⟩, rfl⟩
  obtain ⟨-, -, -, -, -, -, eo0, eo1⟩ := hval_idx14 t
  refine ⟨t, flush14_3 t, ?_⟩
  rw [hval_mem_blk14]
  intro a
  match a with
  | ⟨0, _⟩ =>
    show win14_3.index t (0 : Fin 2) * 50 ≤ (i 0).val ∧ (i 0).val < win14_3.index t (0 : Fin 2) * 50 + 50
    omega
  | ⟨1, _⟩ =>
    show win14_3.index t (1 : Fin 2) * 128 ≤ (i 1).val ∧ (i 1).val < win14_3.index t (1 : Fin 2) * 128 + 128
    omega

/-- Region 14's output array after the region: the dense layer of the activation, weight and bias arrays the region
    found, entry by entry. -/
theorem val14 (c : Dev nD) (i : S50x128.Idx) :
    (dat14 (F := Ideal) V c).arrAt 3 cfg14.N i = Cert.Spec.lin1 (V c main_v130) (V c main_v196) (V c main_v199) i :=
  congrFun ((dat14 (F := Ideal) V c).arrAt_eq_of_cover 3
    (fun i => Cert.Spec.lin1 (V c main_v130) (V c main_v196) (V c main_v199) i)
    (fun t _ => hval_flushed14 V c t) (hval_cover14)) i

end Cert.KernelIdeal.Hand

end
-- ==== Proof.KI.Val15.lean ====
/-
  Region 15's output array after the region, at the exact (extended real) instance: entry (r, q) is the dense layer
  max (x·W + b, 0) of row r of the activation array, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef15

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay15 (x : Vec Ideal S50x128 .f32) (w : Vec Ideal S128x128 .f32) (b : Vec Ideal S1x128 .f32) (j : S50x128.Idx) :
    (k15_pay1 (F := Ideal) x w b j : EReal) = Cert.Spec.lin1 x w b j :=
  hval_lin1_val hval_plain_50_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- What point t writes back is tile t of the layer of the arrays as the region finds them. -/
theorem hval_flushed15 (c : Dev nD) (t : Fin cfg15.N) :
    (dat15 (F := Ideal) V c).flushed 3 t = ((cfg15.win 3).blk t).view.read (Elt Ideal)
      (fun i => Cert.Spec.lin1 (V c main_v200) (V c main_v202) (V c main_v205) i) := by
  show (cfg15.win 3).cut (grid15.coords t) ((dat15 (F := Ideal) V c).after 3 t) = _
  rw [after15_3]
  unfold out15_3
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31⟩ := hval_idx15 t
  funext j
  show (k15_pay1 (F := Ideal) (iblk15 V c 0 t) (iblk15 V c 1 t) (iblk15 V c 2 t) j : EReal)
    = Cert.Spec.lin1 (V c main_v200) (V c main_v202) (V c main_v205) (((cfg15.win 3).blk t).view.emb j)
  refine (hval_pay15 (iblk15 V c 0 t) (iblk15 V c 1 t) (iblk15 V c 2 t) j).trans ?_
  have hj0 : (j 0).val < 50 := (j 0).isLt
  have hj1 : (j 1).val < 128 := (j 1).isLt
  refine hval_lin1_congr _ _ _ _ _ _ j _ (fun k => ?_) (fun k => ?_) ?_
  · show V c main_v200 (((cfg15.win 0).blk t).view.emb (ix2 (j 0) k)) = V c main_v200 (ix2 ((((cfg15.win 3).blk t).view.emb j) 0) k)
    refine congrArg (V c main_v200) (hval_idx2_ext _ _ ?_ ?_)
    · show win15_0.index t (0 : Fin 2) * 50 + 1 * (j 0).val = win15_3.index t (0 : Fin 2) * 50 + 1 * (j 0).val
      omega
    · show win15_0.index t (1 : Fin 2) * 128 + 1 * k.val = k.val
      omega
  · show V c main_v202 (((cfg15.win 1).blk t).view.emb (ix2 k (j 1))) = V c main_v202 (ix2 k ((((cfg15.win 3).blk t).view.emb j) 1))
    refine congrArg (V c main_v202) (hval_idx2_ext _ _ ?_ ?_)
    · show win15_1.index t (0 : Fin 2) * 128 + 1 * k.val = k.val
      omega
    · show win15_1.index t (1 : Fin 2) * 128 + 1 * (j 1).val = win15_3.index t (1 : Fin 2) * 128 + 1 * (j 1).val
      omega
  · show V c main_v205 (((cfg15.win 2).blk t).view.emb (ix2 0 (j 1))) = V c main_v205 (ix2 0 ((((cfg15.win 3).blk t).view.emb j) 1))
    refine congrArg (V c main_v205) (hval_idx2_ext _ _ ?_ ?_)
    · show win15_2.index t (0 : Fin 2) * 1 + 1 * 0 = 0
      omega
    · show win15_2.index t (1 : Fin 2) * 128 + 1 * (j 1).val = win15_3.index t (1 : Fin 2) * 128 + 1 * (j 1).val
      omega

/-- An entry of the output array lies in point t's tile iff each coordinate is in the tile's range. -/
theorem hval_mem_blk15 (t : Fin cfg15.N) (i : S50x128.Idx) :
    i ∈ ((cfg15.win 3).blk t).view.set ↔ ∀ a : Fin 2, win15_3.index t a * S50x128.size a ≤ (i a).val
      ∧ (i a).val < win15_3.index t a * S50x128.size a + S50x128.size a := by
  show i ∈ ((View.whole main_v206).slice (win15_3.rect t)).set ↔ _
  rw [View.set_slice_whole, Rect.mem_set_unit]
  exact Iff.rfl

/-- Every row of the output array is in some point's tile: row r in tile r / 50. -/
theorem hval_cover15 (i : S50x128.Idx) :
    ∃ t : Fin cfg15.N, (cfg15.win 3).flush t = true ∧ i ∈ ((cfg15.win 3).blk t).view.set := by
  have hi0 : (i 0).val < 50 := (i 0).isLt
  have hi1 : (i 1).val < 128 := (i 1).isLt
  obtain ⟨t, ht⟩ : ∃ t : Fin cfg15.N, t.val = (i 0).val / 50 :=
    ⟨⟨(i 0).val / 50, by rw [show cfg15.N = 1 from N_15]; omega⟩, rfl⟩
  obtain ⟨-, -, -, -, -, -, eo0, eo1⟩ := hval_idx15 t
  refine ⟨t, flush15_3 t, ?_⟩
  rw [hval_mem_blk15]
  intro a
  match a with
  | ⟨0, _⟩ =>
    show win15_3.index t (0 : Fin 2) * 50 ≤ (i 0).val ∧ (i 0).val < win15_3.index t (0 : Fin 2) * 50 + 50
    omega
  | ⟨1, _⟩ =>
    show win15_3.index t (1 : Fin 2) * 128 ≤ (i 1).val ∧ (i 1).val < win15_3.index t (1 : Fin 2) * 128 + 128
    omega

/-- Region 15's output array after the region: the dense layer of the activation, weight and bias arrays the region
    found, entry by entry. -/
theorem val15 (c : Dev nD) (i : S50x128.Idx) :
    (dat15 (F := Ideal) V c).arrAt 3 cfg15.N i = Cert.Spec.lin1 (V c main_v200) (V c main_v202) (V c main_v205) i :=
  congrFun ((dat15 (F := Ideal) V c).arrAt_eq_of_cover 3
    (fun i => Cert.Spec.lin1 (V c main_v200) (V c main_v202) (V c main_v205) i)
    (fun t _ => hval_flushed15 V c t) (hval_cover15)) i

end Cert.KernelIdeal.Hand

end
-- ==== Proof.KI.Val16.lean ====
/-
  Region 16's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef16

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay16 (x : Vec Ideal S5000x128 .f32) (w1 : Vec Ideal S128x128 .f32) (y : Vec Ideal S5000x128 .f32) (w2 : Vec Ideal S128x128 .f32) (b : Vec Ideal S1x128 .f32) (j : S5000x128.Idx) :
    (k16_pay1 (F := Ideal) x w1 y w2 b j : EReal) = Cert.Spec.lin2 x y w1 w2 b j :=
  hval_lin2_val hval_plain_5000_128 _ _ _ _ _ x y w1 w2 b
    (fun i => congrFun (shapeCast_self x _) i) (fun _ => rfl) (fun i => congrFun (shapeCast_self y _) i) (fun _ => rfl)
    (fun j => hval_bias b _ _ j) j

/-- The block index maps over the grid: the activation and output tiles move down the rows with the point, the
    weight and bias blocks stay. -/
theorem hval_idx16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0 :=
  (by decide +kernel : ∀ t : Fin grid16.N, _)

/-- What point t writes back is tile t of the layer of the arrays as the region finds them. -/
theorem hval_flushed16 (c : Dev nD) (t : Fin cfg16.N) :
    (dat16 (F := Ideal) V c).flushed 5 t = ((cfg16.win 5).blk t).view.read (Elt Ideal)
      (fun i => Cert.Spec.lin2 (V c main_v182) (V c main_v235) (V c main_arg20) (V c main_arg25) (V c main_v243) i) := by
  show (cfg16.win 5).cut (grid16.coords t) ((dat16 (F := Ideal) V c).after 5 t) = _
  rw [after16_5]
  unfold out16_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx16 t
  funext j
  show (k16_pay1 (F := Ideal) (iblk16 V c 0 t) (iblk16 V c 2 t) (iblk16 V c 1 t) (iblk16 V c 3 t) (iblk16 V c 4 t) j : EReal)
    = Cert.Spec.lin2 (V c main_v182) (V c main_v235) (V c main_arg20) (V c main_arg25) (V c main_v243) (((cfg16.win 5).blk t).view.emb j)
  refine (hval_pay16 (iblk16 V c 0 t) (iblk16 V c 2 t) (iblk16 V c 1 t) (iblk16 V c 3 t) (iblk16 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v182 (((cfg16.win 0).blk t).view.emb (ix2 (j 0) k)) = V c main_v182 (ix2 ((((cfg16.win 5).blk t).view.emb j) 0) k)
    refine congrArg (V c main_v182) (hval_idx2_ext _ _ ?_ ?_)
    · show win16_0.index t (0 : Fin 2) * 5000 + 1 * (j 0).val = win16_5.index t (0 : Fin 2) * 5000 + 1 * (j 0).val
      omega
    · show win16_0.index t (1 : Fin 2) * 128 + 1 * k.val = k.val
      omega
  · show V c main_v235 (((cfg16.win 1).blk t).view.emb (ix2 (j 0) k)) = V c main_v235 (ix2 ((((cfg16.win 5).blk t).view.emb j) 0) k)
    refine congrArg (V c main_v235) (hval_idx2_ext _ _ ?_ ?_)
    · show win16_1.index t (0 : Fin 2) * 5000 + 1 * (j 0).val = win16_5.index t (0 : Fin 2) * 5000 + 1 * (j 0).val
      omega
    · show win16_1.index t (1 : Fin 2) * 128 + 1 * k.val = k.val
      omega
  · show V c main_arg20 (((cfg16.win 2).blk t).view.emb (ix2 k (j 1))) = V c main_arg20 (ix2 k ((((cfg16.win 5).blk t).view.emb j) 1))
    refine congrArg (V c main_arg20) (hval_idx2_ext _ _ ?_ ?_)
    · show win16_2.index t (0 : Fin 2) * 128 + 1 * k.val = k.val
      omega
    · show win16_2.index t (1 : Fin 2) * 128 + 1 * (j 1).val = win16_5.index t (1 : Fin 2) * 128 + 1 * (j 1).val
      omega
  · show V c main_arg25 (((cfg16.win 3).blk t).view.emb (ix2 k (j 1))) = V c main_arg25 (ix2 k ((((cfg16.win 5).blk t).view.emb j) 1))
    refine congrArg (V c main_arg25) (hval_idx2_ext _ _ ?_ ?_)
    · show win16_3.index t (0 : Fin 2) * 128 + 1 * k.val = k.val
      omega
    · show win16_3.index t (1 : Fin 2) * 128 + 1 * (j 1).val = win16_5.index t (1 : Fin 2) * 128 + 1 * (j 1).val
      omega
  · show V c main_v243 (((cfg16.win 4).blk t).view.emb (ix2 0 (j 1))) = V c main_v243 (ix2 0 ((((cfg16.win 5).blk t).view.emb j) 1))
    refine congrArg (V c main_v243) (hval_idx2_ext _ _ ?_ ?_)
    · show win16_4.index t (0 : Fin 2) * 1 + 1 * 0 = 0
      omega
    · show win16_4.index t (1 : Fin 2) * 128 + 1 * (j 1).val = win16_5.index t (1 : Fin 2) * 128 + 1 * (j 1).val
      omega

/-- An entry of the output array lies in point t's tile iff each coordinate is in the tile's range. -/
theorem hval_mem_blk16 (t : Fin cfg16.N) (i : S100000x128.Idx) :
    i ∈ ((cfg16.win 5).blk t).view.set ↔ ∀ a : Fin 2, win16_5.index t a * S5000x128.size a ≤ (i a).val
      ∧ (i a).val < win16_5.index t a * S5000x128.size a + S5000x128.size a := by
  show i ∈ ((View.whole main_v244).slice (win16_5.rect t)).set ↔ _
  rw [View.set_slice_whole, Rect.mem_set_unit]
  exact Iff.rfl

/-- Every row of the output array is in some point's tile: row r in tile r / 5000. -/
theorem hval_cover16 (i : S100000x128.Idx) :
    ∃ t : Fin cfg16.N, (cfg16.win 5).flush t = true ∧ i ∈ ((cfg16.win 5).blk t).view.set := by
  have hi0 : (i 0).val < 100000 := (i 0).isLt
  have hi1 : (i 1).val < 128 := (i 1).isLt
  obtain ⟨t, ht⟩ : ∃ t : Fin cfg16.N, t.val = (i 0).val / 5000 :=
    ⟨⟨(i 0).val / 5000, by rw [show cfg16.N = 20 from N_16]; omega⟩, rfl⟩
  obtain ⟨-, -, -, -, -, -, -, -, -, -, eo0, eo1⟩ := hval_idx16 t
  refine ⟨t, flush16_5 t, ?_⟩
  rw [hval_mem_blk16]
  intro a
  match a with
  | ⟨0, _⟩ =>
    show win16_5.index t (0 : Fin 2) * 5000 ≤ (i 0).val ∧ (i 0).val < win16_5.index t (0 : Fin 2) * 5000 + 5000
    omega
  | ⟨1, _⟩ =>
    show win16_5.index t (1 : Fin 2) * 128 ≤ (i 1).val ∧ (i 1).val < win16_5.index t (1 : Fin 2) * 128 + 128
    omega

/-- Region 16's output array after the region: the dense layer of the activation, weight and bias arrays the region
    found, entry by entry. -/
theorem val16 (c : Dev nD) (i : S100000x128.Idx) :
    (dat16 (F := Ideal) V c).arrAt 5 cfg16.N i = Cert.Spec.lin2 (V c main_v182) (V c main_v235) (V c main_arg20) (V c main_arg25) (V c main_v243) i :=
  congrFun ((dat16 (F := Ideal) V c).arrAt_eq_of_cover 5
    (fun i => Cert.Spec.lin2 (V c main_v182) (V c main_v235) (V c main_arg20) (V c main_arg25) (V c main_v243) i)
    (fun t _ => hval_flushed16 V c t) (hval_cover16)) i

end Cert.KernelIdeal.Hand

end
-- ==== Proof.KI.Val17.lean ====
/-
  Region 17's output array after the region, at the exact (extended real) instance: entry (r, q) is the dense layer
  max (((x·W₁ + y·W₂) + z·W₃) + b, 0) of row r of the activation arrays, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef17

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay17 (x : Vec Ideal S2000x128 .f32) (w1 : Vec Ideal S128x128 .f32) (y : Vec Ideal S2000x128 .f32) (w2 : Vec Ideal S128x128 .f32) (z : Vec Ideal S2000x128 .f32) (w3 : Vec Ideal S128x128 .f32) (b : Vec Ideal S1x128 .f32) (j : S2000x128.Idx) :
    (k17_pay1 (F := Ideal) x w1 y w2 z w3 b j : EReal) = Cert.Spec.lin3 x y z w1 w2 w3 b j :=
  hval_lin3_val hval_plain_2000_128 _ _ _ _ _ _ _ x y z w1 w2 w3 b
    (fun i => congrFun (shapeCast_self x _) i) (fun _ => rfl) (fun i => congrFun (shapeCast_self y _) i) (fun _ => rfl) (fun i => congrFun (shapeCast_self z _) i) (fun _ => rfl)
    (fun j => hval_bias b _ _ j) j

/-- The block index maps over the grid: the activation and output tiles move down the rows with the point, the
    weight and bias blocks stay. -/
theorem hval_idx17 : ∀ t : Fin cfg17.N,
    win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0
    ∧ win17_5.index t (0 : Fin 2) = 0 ∧ win17_5.index t (1 : Fin 2) = 0
    ∧ win17_6.index t (0 : Fin 2) = 0 ∧ win17_6.index t (1 : Fin 2) = 0
    ∧ win17_7.index t (0 : Fin 2) = t.val ∧ win17_7.index t (1 : Fin 2) = 0 :=
  (by decide +kernel : ∀ t : Fin grid17.N, _)

/-- What point t writes back is tile t of the layer of the arrays as the region finds them. -/
theorem hval_flushed17 (c : Dev nD) (t : Fin cfg17.N) :
    (dat17 (F := Ideal) V c).flushed 7 t = ((cfg17.win 7).blk t).view.read (Elt Ideal)
      (fun i => Cert.Spec.lin3 (V c main_v194) (V c main_v217) (V c main_v242) (V c main_arg21) (V c main_arg23) (V c main_arg26) (V c main_v245) i) := by
  show (cfg17.win 7).cut (grid17.coords t) ((dat17 (F := Ideal) V c).after 7 t) = _
  rw [after17_7]
  unfold out17_7
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31, e40, e41, e50, e51, e60, e61, e70, e71⟩ := hval_idx17 t
  funext j
  show (k17_pay1 (F := Ideal) (iblk17 V c 0 t) (iblk17 V c 3 t) (iblk17 V c 1 t) (iblk17 V c 4 t) (iblk17 V c 2 t) (iblk17 V c 5 t) (iblk17 V c 6 t) j : EReal)
    = Cert.Spec.lin3 (V c main_v194) (V c main_v217) (V c main_v242) (V c main_arg21) (V c main_arg23) (V c main_arg26) (V c main_v245) (((cfg17.win 7).blk t).view.emb j)
  refine (hval_pay17 (iblk17 V c 0 t) (iblk17 V c 3 t) (iblk17 V c 1 t) (iblk17 V c 4 t) (iblk17 V c 2 t) (iblk17 V c 5 t) (iblk17 V c 6 t) j).trans ?_
  have hj0 : (j 0).val < 2000 := (j 0).isLt
  have hj1 : (j 1).val < 128 := (j 1).isLt
  refine hval_lin3_congr _ _ _ _ _ _ _ _ _ _ _ _ _ _ j _ (fun k => ?_) (fun k => ?_) (fun k => ?_) (fun k => ?_) (fun k => ?_) (fun k => ?_) ?_
  · show V c main_v194 (((cfg17.win 0).blk t).view.emb (ix2 (j 0) k)) = V c main_v194 (ix2 ((((cfg17.win 7).blk t).view.emb j) 0) k)
    refine congrArg (V c main_v194) (hval_idx2_ext _ _ ?_ ?_)
    · show win17_0.index t (0 : Fin 2) * 2000 + 1 * (j 0).val = win17_7.index t (0 : Fin 2) * 2000 + 1 * (j 0).val
      omega
    · show win17_0.index t (1 : Fin 2) * 128 + 1 * k.val = k.val
      omega
  · show V c main_v217 (((cfg17.win 1).blk t).view.emb (ix2 (j 0) k)) = V c main_v217 (ix2 ((((cfg17.win 7).blk t).view.emb j) 0) k)
    refine congrArg (V c main_v217) (hval_idx2_ext _ _ ?_ ?_)
    · show win17_1.index t (0 : Fin 2) * 2000 + 1 * (j 0).val = win17_7.index t (0 : Fin 2) * 2000 + 1 * (j 0).val
      omega
    · show win17_1.index t (1 : Fin 2) * 128 + 1 * k.val = k.val
      omega
  · show V c main_v242 (((cfg17.win 2).blk t).view.emb (ix2 (j 0) k)) = V c main_v242 (ix2 ((((cfg17.win 7).blk t).view.emb j) 0) k)
    refine congrArg (V c main_v242) (hval_idx2_ext _ _ ?_ ?_)
    · show win17_2.index t (0 : Fin 2) * 2000 + 1 * (j 0).val = win17_7.index t (0 : Fin 2) * 2000 + 1 * (j 0).val
      omega
    · show win17_2.index t (1 : Fin 2) * 128 + 1 * k.val = k.val
      omega
  · show V c main_arg21 (((cfg17.win 3).blk t).view.emb (ix2 k (j 1))) = V c main_arg21 (ix2 k ((((cfg17.win 7).blk t).view.emb j) 1))
    refine congrArg (V c main_arg21) (hval_idx2_ext _ _ ?_ ?_)
    · show win17_3.index t (0 : Fin 2) * 128 + 1 * k.val = k.val
      omega
    · show win17_3.index t (1 : Fin 2) * 128 + 1 * (j 1).val = win17_7.index t (1 : Fin 2) * 128 + 1 * (j 1).val
      omega
  · show V c main_arg23 (((cfg17.win 4).blk t).view.emb (ix2 k (j 1))) = V c main_arg23 (ix2 k ((((cfg17.win 7).blk t).view.emb j) 1))
    refine congrArg (V c main_arg23) (hval_idx2_ext _ _ ?_ ?_)
    · show win17_4.index t (0 : Fin 2) * 128 + 1 * k.val = k.val
      omega
    · show win17_4.index t (1 : Fin 2) * 128 + 1 * (j 1).val = win17_7.index t (1 : Fin 2) * 128 + 1 * (j 1).val
      omega
  · show V c main_arg26 (((cfg17.win 5).blk t).view.emb (ix2 k (j 1))) = V c main_arg26 (ix2 k ((((cfg17.win 7).blk t).view.emb j) 1))
    refine congrArg (V c main_arg26) (hval_idx2_ext _ _ ?_ ?_)
    · show win17_5.index t (0 : Fin 2) * 128 + 1 * k.val = k.val
      omega
    · show win17_5.index t (1 : Fin 2) * 128 + 1 * (j 1).val = win17_7.index t (1 : Fin 2) * 128 + 1 * (j 1).val
      omega
  · show V c main_v245 (((cfg17.win 6).blk t).view.emb (ix2 0 (j 1))) = V c main_v245 (ix2 0 ((((cfg17.win 7).blk t).view.emb j) 1))
    refine congrArg (V c main_v245) (hval_idx2_ext _ _ ?_ ?_)
    · show win17_6.index t (0 : Fin 2) * 1 + 1 * 0 = 0
      omega
    · show win17_6.index t (1 : Fin 2) * 128 + 1 * (j 1).val = win17_7.index t (1 : Fin 2) * 128 + 1 * (j 1).val
      omega

/-- An entry of the output array lies in point t's tile iff each coordinate is in the tile's range. -/
theorem hval_mem_blk17 (t : Fin cfg17.N) (i : S2000x128.Idx) :
    i ∈ ((cfg17.win 7).blk t).view.set ↔ ∀ a : Fin 2, win17_7.index t a * S2000x128.size a ≤ (i a).val
      ∧ (i a).val < win17_7.index t a * S2000x128.size a + S2000x128.size a := by
  show i ∈ ((View.whole main_v246).slice (win17_7.rect t)).set ↔ _
  rw [View.set_slice_whole, Rect.mem_set_unit]
  exact Iff.rfl

/-- Every row of the output array is in some point's tile: row r in tile r / 2000. -/
theorem hval_cover17 (i : S2000x128.Idx) :
    ∃ t : Fin cfg17.N, (cfg17.win 7).flush t = true ∧ i ∈ ((cfg17.win 7).blk t).view.set := by
  have hi0 : (i 0).val < 2000 := (i 0).isLt
  have hi1 : (i 1).val < 128 := (i 1).isLt
  obtain ⟨t, ht⟩ : ∃ t : Fin cfg17.N, t.val = (i 0).val / 2000 :=
    ⟨⟨(i 0).val / 2000, by rw [show cfg17.N = 1 from N_17]; omega⟩, rfl⟩
  obtain ⟨-, -, -, -, -, -, -, -, -, -, -, -, -, -, eo0, eo1⟩ := hval_idx17 t
  refine ⟨t, flush17_7 t, ?_⟩
  rw [hval_mem_blk17]
  intro a
  match a with
  | ⟨0, _⟩ =>
    show win17_7.index t (0 : Fin 2) * 2000 ≤ (i 0).val ∧ (i 0).val < win17_7.index t (0 : Fin 2) * 2000 + 2000
    omega
  | ⟨1, _⟩ =>
    show win17_7.index t (1 : Fin 2) * 128 ≤ (i 1).val ∧ (i 1).val < win17_7.index t (1 : Fin 2) * 128 + 128
    omega

/-- Region 17's output array after the region: the dense layer of the activation, weight and bias arrays the region
    found, entry by entry. -/
theorem val17 (c : Dev nD) (i : S2000x128.Idx) :
    (dat17 (F := Ideal) V c).arrAt 7 cfg17.N i = Cert.Spec.lin3 (V c main_v194) (V c main_v217) (V c main_v242) (V c main_arg21) (V c main_arg23) (V c main_arg26) (V c main_v245) i :=
  congrFun ((dat17 (F := Ideal) V c).arrAt_eq_of_cover 7
    (fun i => Cert.Spec.lin3 (V c main_v194) (V c main_v217) (V c main_v242) (V c main_arg21) (V c main_arg23) (V c main_arg26) (V c main_v245) i)
    (fun t _ => hval_flushed17 V c t) (hval_cover17)) i

end Cert.KernelIdeal.Hand

end
-- ==== Proof.KI.Val18.lean ====
/-
  Region 18's output array after the region, at the exact (extended real) instance: entry (r, q) is the dense layer
  max ((x·W₁ + y·W₂) + b, 0) of row r of the activation arrays, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef18

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay18 (x : Vec Ideal S50x128 .f32) (w1 : Vec Ideal S128x128 .f32) (y : Vec Ideal S50x128 .f32) (w2 : Vec Ideal S128x128 .f32) (b : Vec Ideal S1x128 .f32) (j : S50x128.Idx) :
    (k18_pay1 (F := Ideal) x w1 y w2 b j : EReal) = Cert.Spec.lin2 x y w1 w2 b j :=
  hval_lin2_val hval_plain_50_128 _ _ _ _ _ x y w1 w2 b
    (fun i => congrFun (shapeCast_self x _) i) (fun _ => rfl) (fun i => congrFun (shapeCast_self y _) i) (fun _ => rfl)
    (fun j => hval_bias b _ _ j) j

/-- The block index maps over the grid: the activation and output tiles move down the rows with the point, the
    weight and bias blocks stay. -/
theorem hval_idx18 : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0 :=
  (by decide +kernel : ∀ t : Fin grid18.N, _)

/-- What point t writes back is tile t of the layer of the arrays as the region finds them. -/
theorem hval_flushed18 (c : Dev nD) (t : Fin cfg18.N) :
    (dat18 (F := Ideal) V c).flushed 5 t = ((cfg18.win 5).blk t).view.read (Elt Ideal)
      (fun i => Cert.Spec.lin2 (V c main_v206) (V c main_v228) (V c main_arg22) (V c main_arg24) (V c main_v247) i) := by
  show (cfg18.win 5).cut (grid18.coords t) ((dat18 (F := Ideal) V c).after 5 t) = _
  rw [after18_5]
  unfold out18_5
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31, e40, e41, e50, e51⟩ := hval_idx18 t
  funext j
  show (k18_pay1 (F := Ideal) (iblk18 V c 0 t) (iblk18 V c 2 t) (iblk18 V c 1 t) (iblk18 V c 3 t) (iblk18 V c 4 t) j : EReal)
    = Cert.Spec.lin2 (V c main_v206) (V c main_v228) (V c main_arg22) (V c main_arg24) (V c main_v247) (((cfg18.win 5).blk t).view.emb j)
  refine (hval_pay18 (iblk18 V c 0 t) (iblk18 V c 2 t) (iblk18 V c 1 t) (iblk18 V c 3 t) (iblk18 V c 4 t) j).trans ?_
  have hj0 : (j 0).val < 50 := (j 0).isLt
  have hj1 : (j 1).val < 128 := (j 1).isLt
  refine hval_lin2_congr _ _ _ _ _ _ _ _ _ _ j _ (fun k => ?_) (fun k => ?_) (fun k => ?_) (fun k => ?_) ?_
  · show V c main_v206 (((cfg18.win 0).blk t).view.emb (ix2 (j 0) k)) = V c main_v206 (ix2 ((((cfg18.win 5).blk t).view.emb j) 0) k)
    refine congrArg (V c main_v206) (hval_idx2_ext _ _ ?_ ?_)
    · show win18_0.index t (0 : Fin 2) * 50 + 1 * (j 0).val = win18_5.index t (0 : Fin 2) * 50 + 1 * (j 0).val
      omega
    · show win18_0.index t (1 : Fin 2) * 128 + 1 * k.val = k.val
      omega
  · show V c main_v228 (((cfg18.win 1).blk t).view.emb (ix2 (j 0) k)) = V c main_v228 (ix2 ((((cfg18.win 5).blk t).view.emb j) 0) k)
    refine congrArg (V c main_v228) (hval_idx2_ext _ _ ?_ ?_)
    · show win18_1.index t (0 : Fin 2) * 50 + 1 * (j 0).val = win18_5.index t (0 : Fin 2) * 50 + 1 * (j 0).val
      omega
    · show win18_1.index t (1 : Fin 2) * 128 + 1 * k.val = k.val
      omega
  · show V c main_arg22 (((cfg18.win 2).blk t).view.emb (ix2 k (j 1))) = V c main_arg22 (ix2 k ((((cfg18.win 5).blk t).view.emb j) 1))
    refine congrArg (V c main_arg22) (hval_idx2_ext _ _ ?_ ?_)
    · show win18_2.index t (0 : Fin 2) * 128 + 1 * k.val = k.val
      omega
    · show win18_2.index t (1 : Fin 2) * 128 + 1 * (j 1).val = win18_5.index t (1 : Fin 2) * 128 + 1 * (j 1).val
      omega
  · show V c main_arg24 (((cfg18.win 3).blk t).view.emb (ix2 k (j 1))) = V c main_arg24 (ix2 k ((((cfg18.win 5).blk t).view.emb j) 1))
    refine congrArg (V c main_arg24) (hval_idx2_ext _ _ ?_ ?_)
    · show win18_3.index t (0 : Fin 2) * 128 + 1 * k.val = k.val
      omega
    · show win18_3.index t (1 : Fin 2) * 128 + 1 * (j 1).val = win18_5.index t (1 : Fin 2) * 128 + 1 * (j 1).val
      omega
  · show V c main_v247 (((cfg18.win 4).blk t).view.emb (ix2 0 (j 1))) = V c main_v247 (ix2 0 ((((cfg18.win 5).blk t).view.emb j) 1))
    refine congrArg (V c main_v247) (hval_idx2_ext _ _ ?_ ?_)
    · show win18_4.index t (0 : Fin 2) * 1 + 1 * 0 = 0
      omega
    · show win18_4.index t (1 : Fin 2) * 128 + 1 * (j 1).val = win18_5.index t (1 : Fin 2) * 128 + 1 * (j 1).val
      omega

/-- An entry of the output array lies in point t's tile iff each coordinate is in the tile's range. -/
theorem hval_mem_blk18 (t : Fin cfg18.N) (i : S50x128.Idx) :
    i ∈ ((cfg18.win 5).blk t).view.set ↔ ∀ a : Fin 2, win18_5.index t a * S50x128.size a ≤ (i a).val
      ∧ (i a).val < win18_5.index t a * S50x128.size a + S50x128.size a := by
  show i ∈ ((View.whole main_v248).slice (win18_5.rect t)).set ↔ _
  rw [View.set_slice_whole, Rect.mem_set_unit]
  exact Iff.rfl

/-- Every row of the output array is in some point's tile: row r in tile r / 50. -/
theorem hval_cover18 (i : S50x128.Idx) :
    ∃ t : Fin cfg18.N, (cfg18.win 5).flush t = true ∧ i ∈ ((cfg18.win 5).blk t).view.set := by
  have hi0 : (i 0).val < 50 := (i 0).isLt
  have hi1 : (i 1).val < 128 := (i 1).isLt
  obtain ⟨t, ht⟩ : ∃ t : Fin cfg18.N, t.val = (i 0).val / 50 :=
    ⟨⟨(i 0).val / 50, by rw [show cfg18.N = 1 from N_18]; omega⟩, rfl⟩
  obtain ⟨-, -, -, -, -, -, -, -, -, -, eo0, eo1⟩ := hval_idx18 t
  refine ⟨t, flush18_5 t, ?_⟩
  rw [hval_mem_blk18]
  intro a
  match a with
  | ⟨0, _⟩ =>
    show win18_5.index t (0 : Fin 2) * 50 ≤ (i 0).val ∧ (i 0).val < win18_5.index t (0 : Fin 2) * 50 + 50
    omega
  | ⟨1, _⟩ =>
    show win18_5.index t (1 : Fin 2) * 128 ≤ (i 1).val ∧ (i 1).val < win18_5.index t (1 : Fin 2) * 128 + 128
    omega

/-- Region 18's output array after the region: the dense layer of the activation, weight and bias arrays the region
    found, entry by entry. -/
theorem val18 (c : Dev nD) (i : S50x128.Idx) :
    (dat18 (F := Ideal) V c).arrAt 5 cfg18.N i = Cert.Spec.lin2 (V c main_v206) (V c main_v228) (V c main_arg22) (V c main_arg24) (V c main_v247) i :=
  congrFun ((dat18 (F := Ideal) V c).arrAt_eq_of_cover 5
    (fun i => Cert.Spec.lin2 (V c main_v206) (V c main_v228) (V c main_arg22) (V c main_arg24) (V c main_v247) i)
    (fun t _ => hval_flushed18 V c t) (hval_cover18)) i

end Cert.KernelIdeal.Hand

end
-- ==== Proof.KI.Val19.lean ====
/-
  Region 19's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef19

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay19 (x : Vec Ideal S5000x128 .f32) (w1 : Vec Ideal S128x128 .f32) (y : Vec Ideal S5000x128 .f32) (w2 : Vec Ideal S128x128 .f32) (b : Vec Ideal S1x128 .f32) (j : S5000x128.Idx) :
    (k19_pay1 (F := Ideal) x w1 y w2 b j : EReal) = Cert.Spec.lin2 x y w1 w2 b j :=
  hval_lin2_val hval_plain_5000_128 _ _ _ _ _ x y w1 w2 b
    (fun i => congrFun (shapeCast_self x _) i) (fun i => congrFun (shapeCast_self w1 _) i) (fun i => congrFun (shapeCast_self y _) i) (fun i => congrFun (shapeCast_self w2 _) i)
    (fun j => hval_bias b _ _ j) j

/-- The block index maps over the grid: the activation and output tiles move down the rows with the point, the
    weight and bias blocks stay. -/
theorem hval_idx19 : ∀ t : Fin cfg19.N,
    win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0
    ∧ win19_5.index t (0 : Fin 2) = t.val ∧ win19_5.index t (1 : Fin 2) = 0 :=
  (by decide +kernel : ∀ t : Fin grid19.N, _)

/-- What point t writes back is tile t of the layer of the arrays as the region finds them. -/
theorem hval_flushed19 (c : Dev nD) (t : Fin cfg19.N) :
    (dat19 (F := Ideal) V c).flushed 5 t = ((cfg19.win 5).blk t).view.read (Elt Ideal)
      (fun i => Cert.Spec.lin2 (V c main_v244) (V c main_v266) (V c main_v268) (V c main_v270) (V c main_v273) i) := by
  show (cfg19.win 5).cut (grid19.coords t) ((dat19 (F := Ideal) V c).after 5 t) = _
  rw [after19_5]
  unfold out19_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx19 t
  funext j
  show (k19_pay1 (F := Ideal) (iblk19 V c 0 t) (iblk19 V c 2 t) (iblk19 V c 1 t) (iblk19 V c 3 t) (iblk19 V c 4 t) j : EReal)
    = Cert.Spec.lin2 (V c main_v244) (V c main_v266) (V c main_v268) (V c main_v270) (V c main_v273) (((cfg19.win 5).blk t).view.emb j)
  refine (hval_pay19 (iblk19 V c 0 t) (iblk19 V c 2 t) (iblk19 V c 1 t) (iblk19 V c 3 t) (iblk19 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v244 (((cfg19.win 0).blk t).view.emb (ix2 (j 0) k)) = V c main_v244 (ix2 ((((cfg19.win 5).blk t).view.emb j) 0) k)
    refine congrArg (V c main_v244) (hval_idx2_ext _ _ ?_ ?_)
    · show win19_0.index t (0 : Fin 2) * 5000 + 1 * (j 0).val = win19_5.index t (0 : Fin 2) * 5000 + 1 * (j 0).val
      omega
    · show win19_0.index t (1 : Fin 2) * 128 + 1 * k.val = k.val
      omega
  · show V c main_v266 (((cfg19.win 1).blk t).view.emb (ix2 (j 0) k)) = V c main_v266 (ix2 ((((cfg19.win 5).blk t).view.emb j) 0) k)
    refine congrArg (V c main_v266) (hval_idx2_ext _ _ ?_ ?_)
    · show win19_1.index t (0 : Fin 2) * 5000 + 1 * (j 0).val = win19_5.index t (0 : Fin 2) * 5000 + 1 * (j 0).val
      omega
    · show win19_1.index t (1 : Fin 2) * 128 + 1 * k.val = k.val
      omega
  · show V c main_v268 (((cfg19.win 2).blk t).view.emb (ix2 k (j 1))) = V c main_v268 (ix2 k ((((cfg19.win 5).blk t).view.emb j) 1))
    refine congrArg (V c main_v268) (hval_idx2_ext _ _ ?_ ?_)
    · show win19_2.index t (0 : Fin 2) * 128 + 1 * k.val = k.val
      omega
    · show win19_2.index t (1 : Fin 2) * 128 + 1 * (j 1).val = win19_5.index t (1 : Fin 2) * 128 + 1 * (j 1).val
      omega
  · show V c main_v270 (((cfg19.win 3).blk t).view.emb (ix2 k (j 1))) = V c main_v270 (ix2 k ((((cfg19.win 5).blk t).view.emb j) 1))
    refine congrArg (V c main_v270) (hval_idx2_ext _ _ ?_ ?_)
    · show win19_3.index t (0 : Fin 2) * 128 + 1 * k.val = k.val
      omega
    · show win19_3.index t (1 : Fin 2) * 128 + 1 * (j 1).val = win19_5.index t (1 : Fin 2) * 128 + 1 * (j 1).val
      omega
  · show V c main_v273 (((cfg19.win 4).blk t).view.emb (ix2 0 (j 1))) = V c main_v273 (ix2 0 ((((cfg19.win 5).blk t).view.emb j) 1))
    refine congrArg (V c main_v273) (hval_idx2_ext _ _ ?_ ?_)
    · show win19_4.index t (0 : Fin 2) * 1 + 1 * 0 = 0
      omega
    · show win19_4.index t (1 : Fin 2) * 128 + 1 * (j 1).val = win19_5.index t (1 : Fin 2) * 128 + 1 * (j 1).val
      omega

/-- An entry of the output array lies in point t's tile iff each coordinate is in the tile's range. -/
theorem hval_mem_blk19 (t : Fin cfg19.N) (i : S100000x128.Idx) :
    i ∈ ((cfg19.win 5).blk t).view.set ↔ ∀ a : Fin 2, win19_5.index t a * S5000x128.size a ≤ (i a).val
      ∧ (i a).val < win19_5.index t a * S5000x128.size a + S5000x128.size a := by
  show i ∈ ((View.whole main_v274).slice (win19_5.rect t)).set ↔ _
  rw [View.set_slice_whole, Rect.mem_set_unit]
  exact Iff.rfl

/-- Every row of the output array is in some point's tile: row r in tile r / 5000. -/
theorem hval_cover19 (i : S100000x128.Idx) :
    ∃ t : Fin cfg19.N, (cfg19.win 5).flush t = true ∧ i ∈ ((cfg19.win 5).blk t).view.set := by
  have hi0 : (i 0).val < 100000 := (i 0).isLt
  have hi1 : (i 1).val < 128 := (i 1).isLt
  obtain ⟨t, ht⟩ : ∃ t : Fin cfg19.N, t.val = (i 0).val / 5000 :=
    ⟨⟨(i 0).val / 5000, by rw [show cfg19.N = 20 from N_19]; omega⟩, rfl⟩
  obtain ⟨-, -, -, -, -, -, -, -, -, -, eo0, eo1⟩ := hval_idx19 t
  refine ⟨t, flush19_5 t, ?_⟩
  rw [hval_mem_blk19]
  intro a
  match a with
  | ⟨0, _⟩ =>
    show win19_5.index t (0 : Fin 2) * 5000 ≤ (i 0).val ∧ (i 0).val < win19_5.index t (0 : Fin 2) * 5000 + 5000
    omega
  | ⟨1, _⟩ =>
    show win19_5.index t (1 : Fin 2) * 128 ≤ (i 1).val ∧ (i 1).val < win19_5.index t (1 : Fin 2) * 128 + 128
    omega

/-- Region 19's output array after the region: the dense layer of the activation, weight and bias arrays the region
    found, entry by entry. -/
theorem val19 (c : Dev nD) (i : S100000x128.Idx) :
    (dat19 (F := Ideal) V c).arrAt 5 cfg19.N i = Cert.Spec.lin2 (V c main_v244) (V c main_v266) (V c main_v268) (V c main_v270) (V c main_v273) i :=
  congrFun ((dat19 (F := Ideal) V c).arrAt_eq_of_cover 5
    (fun i => Cert.Spec.lin2 (V c main_v244) (V c main_v266) (V c main_v268) (V c main_v270) (V c main_v273) i)
    (fun t _ => hval_flushed19 V c t) (hval_cover19)) i

end Cert.KernelIdeal.Hand

end
-- ==== Proof.KI.Val20.lean ====
/-
  Region 20's output array after the region, at the exact (extended real) instance: entry (r, q) is the dense layer
  max ((x·W₁ + y·W₂) + b, 0) of row r of the activation arrays, column q of the weights and of the bias row.
  The 100000 rows are written in 20 tiles of 5000 rows, tile t by grid point t; row r lies in tile r / 5000. The weights and the bias are read whole at every point.
-/
import proofs.«141679_j61469571940402_1_alg».proof.Proof.KI.ValLib
import proofs.«141679_j61469571940402_1_alg».proof.Proof.KI.BodyDef20

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay20 (x : Vec Ideal S5000x128 .f32) (w1 : Vec Ideal S128x128 .f32) (y : Vec Ideal S5000x128 .f32) (w2 : Vec Ideal S128x128 .f32) (b : Vec Ideal S1x128 .f32) (j : S5000x128.Idx) :
    (k20_pay1 (F := Ideal) x w1 y w2 b j : EReal) = Cert.Spec.lin2 x y w1 w2 b j :=
  hval_lin2_val hval_plain_5000_128 _ _ _ _ _ x y w1 w2 b
    (fun i => congrFun (shapeCast_self x _) i) (fun i => congrFun (shapeCast_self w1 _) i) (fun i => congrFun (shapeCast_self y _) i) (fun i => congrFun (shapeCast_self w2 _) i)
    (fun j => hval_bias b _ _ j) j

/-- The block index maps over the grid: the activation and output tiles move down the rows with the point, the
    weight and bias blocks stay. -/
theorem hval_idx20 : ∀ t : Fin cfg20.N,
    win20_0.index t (0 : Fin 2) = t.val ∧ win20_0.index t (1 : Fin 2) = 0
    ∧ win20_1.index t (0 : Fin 2) = t.val ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = t.val ∧ win20_5.index t (1 : Fin 2) = 0 :=
  (by decide +kernel : ∀ t : Fin grid20.N, _)

/-- What point t writes back is tile t of the layer of the arrays as the region finds them. -/
theorem hval_flushed20 (c : Dev nD) (t : Fin cfg20.N) :
    (dat20 (F := Ideal) V c).flushed 5 t = ((cfg20.win 5).blk t).view.read (Elt Ideal)
      (fun i => Cert.Spec.lin2 (V c main_v274) (V c main_v292) (V c main_v294) (V c main_v296) (V c main_v299) i) := by
  show (cfg20.win 5).cut (grid20.coords t) ((dat20 (F := Ideal) V c).after 5 t) = _
  rw [after20_5]
  unfold out20_5
  rw [View.canon_unit_zero hval_hz]
  simp only [View.ld_unit_zero (S := S5000x128) hval_hz, View.ld_unit_zero (S := S128x128) hval_hz, View.ld_unit_zero (S := S1x128) hval_hz]
  obtain ⟨e00, e01, e10, e11, e20, e21, e30, e31, e40, e41, e50, e51⟩ := hval_idx20 t
  funext j
  show (k20_pay1 (F := Ideal) (iblk20 V c 0 t) (iblk20 V c 2 t) (iblk20 V c 1 t) (iblk20 V c 3 t) (iblk20 V c 4 t) j : EReal)
    = Cert.Spec.lin2 (V c main_v274) (V c main_v292) (V c main_v294) (V c main_v296) (V c main_v299) (((cfg20.win 5).blk t).view.emb j)
  refine (hval_pay20 (iblk20 V c 0 t) (iblk20 V c 2 t) (iblk20 V c 1 t) (iblk20 V c 3 t) (iblk20 V c 4 t) j).trans ?_
  have hj0 : (j 0).val < 5000 := (j 0).isLt
  have hj1 : (j 1).val < 128 := (j 1).isLt
  refine hval_lin2_congr _ _ _ _ _ _ _ _ _ _ j _ (fun k => ?_) (fun k => ?_) (fun k => ?_) (fun k => ?_) ?_
  · show V c main_v274 (((cfg20.win 0).blk t).view.emb (ix2 (j 0) k)) = V c main_v274 (ix2 ((((cfg20.win 5).blk t).view.emb j) 0) k)
    refine congrArg (V c main_v274) (hval_idx2_ext _ _ ?_ ?_)
    · show win20_0.index t (0 : Fin 2) * 5000 + 1 * (j 0).val = win20_5.index t (0 : Fin 2) * 5000 + 1 * (j 0).val
      omega
    · show win20_0.index t (1 : Fin 2) * 128 + 1 * k.val = k.val
      omega
  · show V c main_v292 (((cfg20.win 1).blk t).view.emb (ix2 (j 0) k)) = V c main_v292 (ix2 ((((cfg20.win 5).blk t).view.emb j) 0) k)
    refine congrArg (V c main_v292) (hval_idx2_ext _ _ ?_ ?_)
    · show win20_1.index t (0 : Fin 2) * 5000 + 1 * (j 0).val = win20_5.index t (0 : Fin 2) * 5000 + 1 * (j 0).val
      omega
    · show win20_1.index t (1 : Fin 2) * 128 + 1 * k.val = k.val
      omega
  · show V c main_v294 (((cfg20.win 2).blk t).view.emb (ix2 k (j 1))) = V c main_v294 (ix2 k ((((cfg20.win 5).blk t).view.emb j) 1))
    refine congrArg (V c main_v294) (hval_idx2_ext _ _ ?_ ?_)
    · show win20_2.index t (0 : Fin 2) * 128 + 1 * k.val = k.val
      omega
    · show win20_2.index t (1 : Fin 2) * 128 + 1 * (j 1).val = win20_5.index t (1 : Fin 2) * 128 + 1 * (j 1).val
      omega
  · show V c main_v296 (((cfg20.win 3).blk t).view.emb (ix2 k (j 1))) = V c main_v296 (ix2 k ((((cfg20.win 5).blk t).view.emb j) 1))
    refine congrArg (V c main_v296) (hval_idx2_ext _ _ ?_ ?_)
    · show win20_3.index t (0 : Fin 2) * 128 + 1 * k.val = k.val
      omega
    · show win20_3.index t (1 : Fin 2) * 128 + 1 * (j 1).val = win20_5.index t (1 : Fin 2) * 128 + 1 * (j 1).val
      omega
  · show V c main_v299 (((cfg20.win 4).blk t).view.emb (ix2 0 (j 1))) = V c main_v299 (ix2 0 ((((cfg20.win 5).blk t).view.emb j) 1))
    refine congrArg (V c main_v299) (hval_idx2_ext _ _ ?_ ?_)
    · show win20_4.index t (0 : Fin 2) * 1 + 1 * 0 = 0
      omega
    · show win20_4.index t (1 : Fin 2) * 128 + 1 * (j 1).val = win20_5.index t (1 : Fin 2) * 128 + 1 * (j 1).val
      omega

/-- An entry of the output array lies in point t's tile iff each coordinate is in the tile's range. -/
theorem hval_mem_blk20 (t : Fin cfg20.N) (i : S100000x128.Idx) :
    i ∈ ((cfg20.win 5).blk t).view.set ↔ ∀ a : Fin 2, win20_5.index t a * S5000x128.size a ≤ (i a).val
      ∧ (i a).val < win20_5.index t a * S5000x128.size a + S5000x128.size a := by
  show i ∈ ((View.whole main_v300).slice (win20_5.rect t)).set ↔ _
  rw [View.set_slice_whole, Rect.mem_set_unit]
  exact Iff.rfl

/-- Every row of the output array is in some point's tile: row r in tile r / 5000. -/
theorem hval_cover20 (i : S100000x128.Idx) :
    ∃ t : Fin cfg20.N, (cfg20.win 5).flush t = true ∧ i ∈ ((cfg20.win 5).blk t).view.set := by
  have hi0 : (i 0).val < 100000 := (i 0).isLt
  have hi1 : (i 1).val < 128 := (i 1).isLt
  obtain ⟨t, ht⟩ : ∃ t : Fin cfg20.N, t.val = (i 0).val / 5000 :=
    ⟨⟨(i 0).val / 5000, by rw [show cfg20.N = 20 from N_20]; omega⟩, rfl⟩
  obtain ⟨-, -, -, -, -, -, -, -, -, -, eo0, eo1⟩ := hval_idx20 t
  refine ⟨t, flush20_5 t, ?_⟩
  rw [hval_mem_blk20]
  intro a
  match a with
  | ⟨0, _⟩ =>
    show win20_5.index t (0 : Fin 2) * 5000 ≤ (i 0).val ∧ (i 0).val < win20_5.index t (0 : Fin 2) * 5000 + 5000
    omega
  | ⟨1, _⟩ =>
    show win20_5.index t (1 : Fin 2) * 128 ≤ (i 1).val ∧ (i 1).val < win20_5.index t (1 : Fin 2) * 128 + 128
    omega

/-- Region 20's output array after the region: the dense layer of the activation, weight and bias arrays the region
    found, entry by entry. -/
theorem val20 (c : Dev nD) (i : S100000x128.Idx) :
    (dat20 (F := Ideal) V c).arrAt 5 cfg20.N i = Cert.Spec.lin2 (V c main_v274) (V c main_v292) (V c main_v294) (V c main_v296) (V c main_v299) i :=
  congrFun ((dat20 (F := Ideal) V c).arrAt_eq_of_cover 5
    (fun i => Cert.Spec.lin2 (V c main_v274) (V c main_v292) (V c main_v294) (V c main_v296) (V c main_v299) i)
    (fun t _ => hval_flushed20 V c t) (hval_cover20)) i

end Cert.KernelIdeal.Hand

end
-- ==== Proof.KI.Val21.lean ====
/-
  Region 21's output array after the region, at the exact (extended real) instance: entry (r, q) is the dense layer
  max (x·W + b, 0) of row r of the activation array, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef21

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay21 (x : Vec Ideal S2000x128 .f32) (w : Vec Ideal S128x128 .f32) (b : Vec Ideal S1x128 .f32) (j : S2000x128.Idx) :
    (k21_pay1 (F := Ideal) x w b j : EReal) = Cert.Spec.lin1 x w b j :=
  hval_lin1_val hval_plain_2000_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx21 : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = t.val ∧ win21_3.index t (1 : Fin 2) = 0 :=
  (by decide +kernel : ∀ t : Fin grid21.N, _)

/-- What point t writes back is tile t of the layer of the arrays as the region finds them. -/
theorem hval_flushed21 (c : Dev nD) (t : Fin cfg21.N) :
    (dat21 (F := Ideal) V c).flushed 3 t = ((cfg21.win 3).blk t).view.read (Elt Ideal)
      (fun i => Cert.Spec.lin1 (V c main_v246) (V c main_v302) (V c main_v305) i) := by
  show (cfg21.win 3).cut (grid21.coords t) ((dat21 (F := Ideal) V c).after 3 t) = _
  rw [after21_3]
  unfold out21_3
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31⟩ := hval_idx21 t
  funext j
  show (k21_pay1 (F := Ideal) (iblk21 V c 0 t) (iblk21 V c 1 t) (iblk21 V c 2 t) j : EReal)
    = Cert.Spec.lin1 (V c main_v246) (V c main_v302) (V c main_v305) (((cfg21.win 3).blk t).view.emb j)
  refine (hval_pay21 (iblk21 V c 0 t) (iblk21 V c 1 t) (iblk21 V c 2 t) j).trans ?_
  have hj0 : (j 0).val < 2000 := (j 0).isLt
  have hj1 : (j 1).val < 128 := (j 1).isLt
  refine hval_lin1_congr _ _ _ _ _ _ j _ (fun k => ?_) (fun k => ?_) ?_
  · show V c main_v246 (((cfg21.win 0).blk t).view.emb (ix2 (j 0) k)) = V c main_v246 (ix2 ((((cfg21.win 3).blk t).view.emb j) 0) k)
    refine congrArg (V c main_v246) (hval_idx2_ext _ _ ?_ ?_)
    · show win21_0.index t (0 : Fin 2) * 2000 + 1 * (j 0).val = win21_3.index t (0 : Fin 2) * 2000 + 1 * (j 0).val
      omega
    · show win21_0.index t (1 : Fin 2) * 128 + 1 * k.val = k.val
      omega
  · show V c main_v302 (((cfg21.win 1).blk t).view.emb (ix2 k (j 1))) = V c main_v302 (ix2 k ((((cfg21.win 3).blk t).view.emb j) 1))
    refine congrArg (V c main_v302) (hval_idx2_ext _ _ ?_ ?_)
    · show win21_1.index t (0 : Fin 2) * 128 + 1 * k.val = k.val
      omega
    · show win21_1.index t (1 : Fin 2) * 128 + 1 * (j 1).val = win21_3.index t (1 : Fin 2) * 128 + 1 * (j 1).val
      omega
  · show V c main_v305 (((cfg21.win 2).blk t).view.emb (ix2 0 (j 1))) = V c main_v305 (ix2 0 ((((cfg21.win 3).blk t).view.emb j) 1))
    refine congrArg (V c main_v305) (hval_idx2_ext _ _ ?_ ?_)
    · show win21_2.index t (0 : Fin 2) * 1 + 1 * 0 = 0
      omega
    · show win21_2.index t (1 : Fin 2) * 128 + 1 * (j 1).val = win21_3.index t (1 : Fin 2) * 128 + 1 * (j 1).val
      omega

/-- An entry of the output array lies in point t's tile iff each coordinate is in the tile's range. -/
theorem hval_mem_blk21 (t : Fin cfg21.N) (i : S2000x128.Idx) :
    i ∈ ((cfg21.win 3).blk t).view.set ↔ ∀ a : Fin 2, win21_3.index t a * S2000x128.size a ≤ (i a).val
      ∧ (i a).val < win21_3.index t a * S2000x128.size a + S2000x128.size a := by
  show i ∈ ((View.whole main_v306).slice (win21_3.rect t)).set ↔ _
  rw [View.set_slice_whole, Rect.mem_set_unit]
  exact Iff.rfl

/-- Every row of the output array is in some point's tile: row r in tile r / 2000. -/
theorem hval_cover21 (i : S2000x128.Idx) :
    ∃ t : Fin cfg21.N, (cfg21.win 3).flush t = true ∧ i ∈ ((cfg21.win 3).blk t).view.set := by
  have hi0 : (i 0).val < 2000 := (i 0).isLt
  have hi1 : (i 1).val < 128 := (i 1).isLt
  obtain ⟨t, ht⟩ : ∃ t : Fin cfg21.N, t.val = (i 0).val / 2000 :=
    ⟨⟨(i 0).val / 2000, by rw [show cfg21.N = 1 from N_21]; omega⟩, rfl⟩
  obtain ⟨-, -, -, -, -, -, eo0, eo1⟩ := hval_idx21 t
  refine ⟨t, flush21_3 t, ?_⟩
  rw [hval_mem_blk21]
  intro a
  match a with
  | ⟨0, _⟩ =>
    show win21_3.index t (0 : Fin 2) * 2000 ≤ (i 0).val ∧ (i 0).val < win21_3.index t (0 : Fin 2) * 2000 + 2000
    omega
  | ⟨1, _⟩ =>
    show win21_3.index t (1 : Fin 2) * 128 ≤ (i 1).val ∧ (i 1).val < win21_3.index t (1 : Fin 2) * 128 + 128
    omega

/-- Region 21's output array after the region: the dense layer of the activation, weight and bias arrays the region
    found, entry by entry. -/
theorem val21 (c : Dev nD) (i : S2000x128.Idx) :
    (dat21 (F := Ideal) V c).arrAt 3 cfg21.N i = Cert.Spec.lin1 (V c main_v246) (V c main_v302) (V c main_v305) i :=
  congrFun ((dat21 (F := Ideal) V c).arrAt_eq_of_cover 3
    (fun i => Cert.Spec.lin1 (V c main_v246) (V c main_v302) (V c main_v305) i)
    (fun t _ => hval_flushed21 V c t) (hval_cover21)) i

end Cert.KernelIdeal.Hand

end
-- ==== Proof.KI.Val22.lean ====
/-
  Region 22's output array after the region, at the exact (extended real) instance: entry (r, q) is the dense layer
  max (x·W + b, 0) of row r of the activation array, column q of the weights and of the bias row.
  The 2000 rows are one tile, written by the one grid point. The weights and the bias are read whole at every point.
-/
import proofs.«141679_j61469571940402_1_alg».proof.Proof.KI.ValLib
import proofs.«141679_j61469571940402_1_alg».proof.Proof.KI.BodyDef22

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay22 (x : Vec Ideal S2000x128 .f32) (w : Vec Ideal S128x128 .f32) (b : Vec Ideal S1x128 .f32) (j : S2000x128.Idx) :
    (k22_pay1 (F := Ideal) x w b j : EReal) = Cert.Spec.lin1 x w b j :=
  hval_lin1_val hval_plain_2000_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx22 : ∀ t : Fin cfg22.N,
    win22_0.index t (0 : Fin 2) = t.val ∧ win22_0.index t (1 : Fin 2) = 0
    ∧ win22_1.index t (0 : Fin 2) = 0 ∧ win22_1.index t (1 : Fin 2) = 0
    ∧ win22_2.index t (0 : Fin 2) = 0 ∧ win22_2.index t (1 : Fin 2) = 0
    ∧ win22_3.index t (0 : Fin 2) = t.val ∧ win22_3.index t (1 : Fin 2) = 0 :=
  (by decide +kernel : ∀ t : Fin grid22.N, _)

/-- What point t writes back is tile t of the layer of the arrays as the region finds them. -/
theorem hval_flushed22 (c : Dev nD) (t : Fin cfg22.N) :
    (dat22 (F := Ideal) V c).flushed 3 t = ((cfg22.win 3).blk t).view.read (Elt Ideal)
      (fun i => Cert.Spec.lin1 (V c main_v306) (V c main_v308) (V c main_v311) i) := by
  show (cfg22.win 3).cut (grid22.coords t) ((dat22 (F := Ideal) V c).after 3 t) = _
  rw [after22_3]
  unfold out22_3
  rw [View.canon_unit_zero hval_hz]
  simp only [View.ld_unit_zero (S := S2000x128) hval_hz, View.ld_unit_zero (S := S128x128) hval_hz, View.ld_unit_zero (S := S1x128) hval_hz]
  obtain ⟨e00, e01, e10, e11, e20, e21, e30, e31⟩ := hval_idx22 t
  funext j
  show (k22_pay1 (F := Ideal) (iblk22 V c 0 t) (iblk22 V c 1 t) (iblk22 V c 2 t) j : EReal)
    = Cert.Spec.lin1 (V c main_v306) (V c main_v308) (V c main_v311) (((cfg22.win 3).blk t).view.emb j)
  refine (hval_pay22 (iblk22 V c 0 t) (iblk22 V c 1 t) (iblk22 V c 2 t) j).trans ?_
  have hj0 : (j 0).val < 2000 := (j 0).isLt
  have hj1 : (j 1).val < 128 := (j 1).isLt
  refine hval_lin1_congr _ _ _ _ _ _ j _ (fun k => ?_) (fun k => ?_) ?_
  · show V c main_v306 (((cfg22.win 0).blk t).view.emb (ix2 (j 0) k)) = V c main_v306 (ix2 ((((cfg22.win 3).blk t).view.emb j) 0) k)
    refine congrArg (V c main_v306) (hval_idx2_ext _ _ ?_ ?_)
    · show win22_0.index t (0 : Fin 2) * 2000 + 1 * (j 0).val = win22_3.index t (0 : Fin 2) * 2000 + 1 * (j 0).val
      omega
    · show win22_0.index t (1 : Fin 2) * 128 + 1 * k.val = k.val
      omega
  · show V c main_v308 (((cfg22.win 1).blk t).view.emb (ix2 k (j 1))) = V c main_v308 (ix2 k ((((cfg22.win 3).blk t).view.emb j) 1))
    refine congrArg (V c main_v308) (hval_idx2_ext _ _ ?_ ?_)
    · show win22_1.index t (0 : Fin 2) * 128 + 1 * k.val = k.val
      omega
    · show win22_1.index t (1 : Fin 2) * 128 + 1 * (j 1).val = win22_3.index t (1 : Fin 2) * 128 + 1 * (j 1).val
      omega
  · show V c main_v311 (((cfg22.win 2).blk t).view.emb (ix2 0 (j 1))) = V c main_v311 (ix2 0 ((((cfg22.win 3).blk t).view.emb j) 1))
    refine congrArg (V c main_v311) (hval_idx2_ext _ _ ?_ ?_)
    · show win22_2.index t (0 : Fin 2) * 1 + 1 * 0 = 0
      omega
    · show win22_2.index t (1 : Fin 2) * 128 + 1 * (j 1).val = win22_3.index t (1 : Fin 2) * 128 + 1 * (j 1).val
      omega

/-- An entry of the output array lies in point t's tile iff each coordinate is in the tile's range. -/
theorem hval_mem_blk22 (t : Fin cfg22.N) (i : S2000x128.Idx) :
    i ∈ ((cfg22.win 3).blk t).view.set ↔ ∀ a : Fin 2, win22_3.index t a * S2000x128.size a ≤ (i a).val
      ∧ (i a).val < win22_3.index t a * S2000x128.size a + S2000x128.size a := by
  show i ∈ ((View.whole main_v312).slice (win22_3.rect t)).set ↔ _
  rw [View.set_slice_whole, Rect.mem_set_unit]
  exact Iff.rfl

/-- Every row of the output array is in some point's tile: row r in tile r / 2000. -/
theorem hval_cover22 (i : S2000x128.Idx) :
    ∃ t : Fin cfg22.N, (cfg22.win 3).flush t = true ∧ i ∈ ((cfg22.win 3).blk t).view.set := by
  have hi0 : (i 0).val < 2000 := (i 0).isLt
  have hi1 : (i 1).val < 128 := (i 1).isLt
  obtain ⟨t, ht⟩ : ∃ t : Fin cfg22.N, t.val = (i 0).val / 2000 :=
    ⟨⟨(i 0).val / 2000, by rw [show cfg22.N = 1 from N_22]; omega⟩, rfl⟩
  obtain ⟨-, -, -, -, -, -, eo0, eo1⟩ := hval_idx22 t
  refine ⟨t, flush22_3 t, ?_⟩
  rw [hval_mem_blk22]
  intro a
  match a with
  | ⟨0, _⟩ =>
    show win22_3.index t (0 : Fin 2) * 2000 ≤ (i 0).val ∧ (i 0).val < win22_3.index t (0 : Fin 2) * 2000 + 2000
    omega
  | ⟨1, _⟩ =>
    show win22_3.index t (1 : Fin 2) * 128 ≤ (i 1).val ∧ (i 1).val < win22_3.index t (1 : Fin 2) * 128 + 128
    omega

/-- Region 22's output array after the region: the dense layer of the activation, weight and bias arrays the region
    found, entry by entry. -/
theorem val22 (c : Dev nD) (i : S2000x128.Idx) :
    (dat22 (F := Ideal) V c).arrAt 3 cfg22.N i = Cert.Spec.lin1 (V c main_v306) (V c main_v308) (V c main_v311) i :=
  congrFun ((dat22 (F := Ideal) V c).arrAt_eq_of_cover 3
    (fun i => Cert.Spec.lin1 (V c main_v306) (V c main_v308) (V c main_v311) i)
    (fun t _ => hval_flushed22 V c t) (hval_cover22)) i

end Cert.KernelIdeal.Hand

end
-- ==== Proof.KI.Val23.lean ====
/-
  Region 23's output array after the region, at the exact (extended real) instance: entry (r, q) is the dense layer
  max (x·W + b, 0) of row r of the activation array, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef23

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay23 (x : Vec Ideal S50x128 .f32) (w : Vec Ideal S128x128 .f32) (b : Vec Ideal S1x128 .f32) (j : S50x128.Idx) :
    (k23_pay1 (F := Ideal) x w b j : EReal) = Cert.Spec.lin1 x w b j :=
  hval_lin1_val hval_plain_50_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx23 : ∀ t : Fin cfg23.N,
    win23_0.index t (0 : Fin 2) = t.val ∧ win23_0.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = t.val ∧ win23_3.index t (1 : Fin 2) = 0 :=
  (by decide +kernel : ∀ t : Fin grid23.N, _)

/-- What point t writes back is tile t of the layer of the arrays as the region finds them. -/
theorem hval_flushed23 (c : Dev nD) (t : Fin cfg23.N) :
    (dat23 (F := Ideal) V c).flushed 3 t = ((cfg23.win 3).blk t).view.read (Elt Ideal)
      (fun i => Cert.Spec.lin1 (V c main_v248) (V c main_v314) (V c main_v317) i) := by
  show (cfg23.win 3).cut (grid23.coords t) ((dat23 (F := Ideal) V c).after 3 t) = _
  rw [after23_3]
  unfold out23_3
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31⟩ := hval_idx23 t
  funext j
  show (k23_pay1 (F := Ideal) (iblk23 V c 0 t) (iblk23 V c 1 t) (iblk23 V c 2 t) j : EReal)
    = Cert.Spec.lin1 (V c main_v248) (V c main_v314) (V c main_v317) (((cfg23.win 3).blk t).view.emb j)
  refine (hval_pay23 (iblk23 V c 0 t) (iblk23 V c 1 t) (iblk23 V c 2 t) j).trans ?_
  have hj0 : (j 0).val < 50 := (j 0).isLt
  have hj1 : (j 1).val < 128 := (j 1).isLt
  refine hval_lin1_congr _ _ _ _ _ _ j _ (fun k => ?_) (fun k => ?_) ?_
  · show V c main_v248 (((cfg23.win 0).blk t).view.emb (ix2 (j 0) k)) = V c main_v248 (ix2 ((((cfg23.win 3).blk t).view.emb j) 0) k)
    refine congrArg (V c main_v248) (hval_idx2_ext _ _ ?_ ?_)
    · show win23_0.index t (0 : Fin 2) * 50 + 1 * (j 0).val = win23_3.index t (0 : Fin 2) * 50 + 1 * (j 0).val
      omega
    · show win23_0.index t (1 : Fin 2) * 128 + 1 * k.val = k.val
      omega
  · show V c main_v314 (((cfg23.win 1).blk t).view.emb (ix2 k (j 1))) = V c main_v314 (ix2 k ((((cfg23.win 3).blk t).view.emb j) 1))
    refine congrArg (V c main_v314) (hval_idx2_ext _ _ ?_ ?_)
    · show win23_1.index t (0 : Fin 2) * 128 + 1 * k.val = k.val
      omega
    · show win23_1.index t (1 : Fin 2) * 128 + 1 * (j 1).val = win23_3.index t (1 : Fin 2) * 128 + 1 * (j 1).val
      omega
  · show V c main_v317 (((cfg23.win 2).blk t).view.emb (ix2 0 (j 1))) = V c main_v317 (ix2 0 ((((cfg23.win 3).blk t).view.emb j) 1))
    refine congrArg (V c main_v317) (hval_idx2_ext _ _ ?_ ?_)
    · show win23_2.index t (0 : Fin 2) * 1 + 1 * 0 = 0
      omega
    · show win23_2.index t (1 : Fin 2) * 128 + 1 * (j 1).val = win23_3.index t (1 : Fin 2) * 128 + 1 * (j 1).val
      omega

/-- An entry of the output array lies in point t's tile iff each coordinate is in the tile's range. -/
theorem hval_mem_blk23 (t : Fin cfg23.N) (i : S50x128.Idx) :
    i ∈ ((cfg23.win 3).blk t).view.set ↔ ∀ a : Fin 2, win23_3.index t a * S50x128.size a ≤ (i a).val
      ∧ (i a).val < win23_3.index t a * S50x128.size a + S50x128.size a := by
  show i ∈ ((View.whole main_v318).slice (win23_3.rect t)).set ↔ _
  rw [View.set_slice_whole, Rect.mem_set_unit]
  exact Iff.rfl

/-- Every row of the output array is in some point's tile: row r in tile r / 50. -/
theorem hval_cover23 (i : S50x128.Idx) :
    ∃ t : Fin cfg23.N, (cfg23.win 3).flush t = true ∧ i ∈ ((cfg23.win 3).blk t).view.set := by
  have hi0 : (i 0).val < 50 := (i 0).isLt
  have hi1 : (i 1).val < 128 := (i 1).isLt
  obtain ⟨t, ht⟩ : ∃ t : Fin cfg23.N, t.val = (i 0).val / 50 :=
    ⟨⟨(i 0).val / 50, by rw [show cfg23.N = 1 from N_23]; omega⟩, rfl⟩
  obtain ⟨-, -, -, -, -, -, eo0, eo1⟩ := hval_idx23 t
  refine ⟨t, flush23_3 t, ?_⟩
  rw [hval_mem_blk23]
  intro a
  match a with
  | ⟨0, _⟩ =>
    show win23_3.index t (0 : Fin 2) * 50 ≤ (i 0).val ∧ (i 0).val < win23_3.index t (0 : Fin 2) * 50 + 50
    omega
  | ⟨1, _⟩ =>
    show win23_3.index t (1 : Fin 2) * 128 ≤ (i 1).val ∧ (i 1).val < win23_3.index t (1 : Fin 2) * 128 + 128
    omega

/-- Region 23's output array after the region: the dense layer of the activation, weight and bias arrays the region
    found, entry by entry. -/
theorem val23 (c : Dev nD) (i : S50x128.Idx) :
    (dat23 (F := Ideal) V c).arrAt 3 cfg23.N i = Cert.Spec.lin1 (V c main_v248) (V c main_v314) (V c main_v317) i :=
  congrFun ((dat23 (F := Ideal) V c).arrAt_eq_of_cover 3
    (fun i => Cert.Spec.lin1 (V c main_v248) (V c main_v314) (V c main_v317) i)
    (fun t _ => hval_flushed23 V c t) (hval_cover23)) i

end Cert.KernelIdeal.Hand

end
-- ==== Proof.KI.Val24.lean ====
/-
  Region 24's output array after the region, at the exact (extended real) instance: entry (r, q) is the dense layer
  max (x·W + b, 0) of row r of the activation array, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef24

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay24 (x : Vec Ideal S50x128 .f32) (w : Vec Ideal S128x128 .f32) (b : Vec Ideal S1x128 .f32) (j : S50x128.Idx) :
    (k24_pay1 (F := Ideal) x w b j : EReal) = Cert.Spec.lin1 x w b j :=
  hval_lin1_val hval_plain_50_128 _ _ _ x w b
    (fun i => congrFun (shapeCast_self x _) i) (fun i => congrFun (shapeCast_self w _) i)
    (fun j => hval_bias b _ _ j) j

/-- The block index maps over the grid: the activation and output tiles move down the rows with the point, the
    weight and bias blocks stay. -/
theorem hval_idx24 : ∀ t : Fin cfg24.N,
    win24_0.index t (0 : Fin 2) = t.val ∧ win24_0.index t (1 : Fin 2) = 0
    ∧ win24_1.index t (0 : Fin 2) = 0 ∧ win24_1.index t (1 : Fin 2) = 0
    ∧ win24_2.index t (0 : Fin 2) = 0 ∧ win24_2.index t (1 : Fin 2) = 0
    ∧ win24_3.index t (0 : Fin 2) = t.val ∧ win24_3.index t (1 : Fin 2) = 0 :=
  (by decide +kernel : ∀ t : Fin grid24.N, _)

/-- What point t writes back is tile t of the layer of the arrays as the region finds them. -/
theorem hval_flushed24 (c : Dev nD) (t : Fin cfg24.N) :
    (dat24 (F := Ideal) V c).flushed 3 t = ((cfg24.win 3).blk t).view.read (Elt Ideal)
      (fun i => Cert.Spec.lin1 (V c main_v318) (V c main_v320) (V c main_v323) i) := by
  show (cfg24.win 3).cut (grid24.coords t) ((dat24 (F := Ideal) V c).after 3 t) = _
  rw [after24_3]
  unfold out24_3
  rw [View.canon_unit_zero hval_hz]
  simp only [View.ld_unit_zero (S := S50x128) hval_hz, View.ld_unit_zero (S := S128x128) hval_hz, View.ld_unit_zero (S := S1x128) hval_hz]
  obtain ⟨e00, e01, e10, e11, e20, e21, e30, e31⟩ := hval_idx24 t
  funext j
  show (k24_pay1 (F := Ideal) (iblk24 V c 0 t) (iblk24 V c 1 t) (iblk24 V c 2 t) j : EReal)
    = Cert.Spec.lin1 (V c main_v318) (V c main_v320) (V c main_v323) (((cfg24.win 3).blk t).view.emb j)
  refine (hval_pay24 (iblk24 V c 0 t) (iblk24 V c 1 t) (iblk24 V c 2 t) j).trans ?_
  have hj0 : (j 0).val < 50 := (j 0).isLt
  have hj1 : (j 1).val < 128 := (j 1).isLt
  refine hval_lin1_congr _ _ _ _ _ _ j _ (fun k => ?_) (fun k => ?_) ?_
  · show V c main_v318 (((cfg24.win 0).blk t).view.emb (ix2 (j 0) k)) = V c main_v318 (ix2 ((((cfg24.win 3).blk t).view.emb j) 0) k)
    refine congrArg (V c main_v318) (hval_idx2_ext _ _ ?_ ?_)
    · show win24_0.index t (0 : Fin 2) * 50 + 1 * (j 0).val = win24_3.index t (0 : Fin 2) * 50 + 1 * (j 0).val
      omega
    · show win24_0.index t (1 : Fin 2) * 128 + 1 * k.val = k.val
      omega
  · show V c main_v320 (((cfg24.win 1).blk t).view.emb (ix2 k (j 1))) = V c main_v320 (ix2 k ((((cfg24.win 3).blk t).view.emb j) 1))
    refine congrArg (V c main_v320) (hval_idx2_ext _ _ ?_ ?_)
    · show win24_1.index t (0 : Fin 2) * 128 + 1 * k.val = k.val
      omega
    · show win24_1.index t (1 : Fin 2) * 128 + 1 * (j 1).val = win24_3.index t (1 : Fin 2) * 128 + 1 * (j 1).val
      omega
  · show V c main_v323 (((cfg24.win 2).blk t).view.emb (ix2 0 (j 1))) = V c main_v323 (ix2 0 ((((cfg24.win 3).blk t).view.emb j) 1))
    refine congrArg (V c main_v323) (hval_idx2_ext _ _ ?_ ?_)
    · show win24_2.index t (0 : Fin 2) * 1 + 1 * 0 = 0
      omega
    · show win24_2.index t (1 : Fin 2) * 128 + 1 * (j 1).val = win24_3.index t (1 : Fin 2) * 128 + 1 * (j 1).val
      omega

/-- An entry of the output array lies in point t's tile iff each coordinate is in the tile's range. -/
theorem hval_mem_blk24 (t : Fin cfg24.N) (i : S50x128.Idx) :
    i ∈ ((cfg24.win 3).blk t).view.set ↔ ∀ a : Fin 2, win24_3.index t a * S50x128.size a ≤ (i a).val
      ∧ (i a).val < win24_3.index t a * S50x128.size a + S50x128.size a := by
  show i ∈ ((View.whole main_v324).slice (win24_3.rect t)).set ↔ _
  rw [View.set_slice_whole, Rect.mem_set_unit]
  exact Iff.rfl

/-- Every row of the output array is in some point's tile: row r in tile r / 50. -/
theorem hval_cover24 (i : S50x128.Idx) :
    ∃ t : Fin cfg24.N, (cfg24.win 3).flush t = true ∧ i ∈ ((cfg24.win 3).blk t).view.set := by
  have hi0 : (i 0).val < 50 := (i 0).isLt
  have hi1 : (i 1).val < 128 := (i 1).isLt
  obtain ⟨t, ht⟩ : ∃ t : Fin cfg24.N, t.val = (i 0).val / 50 :=
    ⟨⟨(i 0).val / 50, by rw [show cfg24.N = 1 from N_24]; omega⟩, rfl⟩
  obtain ⟨-, -, -, -, -, -, eo0, eo1⟩ := hval_idx24 t
  refine ⟨t, flush24_3 t, ?_⟩
  rw [hval_mem_blk24]
  intro a
  match a with
  | ⟨0, _⟩ =>
    show win24_3.index t (0 : Fin 2) * 50 ≤ (i 0).val ∧ (i 0).val < win24_3.index t (0 : Fin 2) * 50 + 50
    omega
  | ⟨1, _⟩ =>
    show win24_3.index t (1 : Fin 2) * 128 ≤ (i 1).val ∧ (i 1).val < win24_3.index t (1 : Fin 2) * 128 + 128
    omega

/-- Region 24's output array after the region: the dense layer of the activation, weight and bias arrays the region
    found, entry by entry. -/
theorem val24 (c : Dev nD) (i : S50x128.Idx) :
    (dat24 (F := Ideal) V c).arrAt 3 cfg24.N i = Cert.Spec.lin1 (V c main_v318) (V c main_v320) (V c main_v323) i :=
  congrFun ((dat24 (F := Ideal) V c).arrAt_eq_of_cover 3
    (fun i => Cert.Spec.lin1 (V c main_v318) (V c main_v320) (V c main_v323) i)
    (fun t _ => hval_flushed24 V c t) (hval_cover24)) i

end Cert.KernelIdeal.Hand

end
-- ==== Proof.KI.Val25.lean ====
/-
  Region 25's output array after the region, at the exact (extended real) instance: entry (r, q) is the dense layer
  max (x·W + b, 0) of row r of the activation array, column q of the weights and of the bias row.
  The 50 rows are one tile, written by the one grid point. The weights and the bias are read whole at every point.
-/
import proofs.«141679_j61469571940402_1_alg».proof.Proof.KI.ValLib
import proofs.«141679_j61469571940402_1_alg».proof.Proof.KI.BodyDef25

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's payload at an entry of the tile is the layer of the loaded blocks: each product into a zero
    accumulator is the plain sum over the contracted axis, the changes of float format and the reshapes to the same
    shape are the identity, the repeated bias row is its entry in that column. -/
theorem hval_pay25 (x : Vec Ideal S50x384 .f32) (w : Vec Ideal S384x128 .f32) (b : Vec Ideal S1x128 .f32) (j : S50x128.Idx) :
    (k25_pay1 (F := Ideal) x w b j : EReal) = Cert.Spec.lin1 x w b j :=
  hval_lin1_val hval_plain_50_384 _ _ _ x w b
    (fun i => congrFun (shapeCast_self x _) i) (fun _ => rfl)
    (fun j => hval_bias b _ _ j) j

/-- The block index maps over the grid: the activation and output tiles move down the rows with the point, the
    weight and bias blocks stay. -/
theorem hval_idx25 : ∀ t : Fin cfg25.N,
    win25_0.index t (0 : Fin 2) = t.val ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = t.val ∧ win25_3.index t (1 : Fin 2) = 0 :=
  (by decide +kernel : ∀ t : Fin grid25.N, _)

/-- What point t writes back is tile t of the layer of the arrays as the region finds them. -/
theorem hval_flushed25 (c : Dev nD) (t : Fin cfg25.N) :
    (dat25 (F := Ideal) V c).flushed 3 t = ((cfg25.win 3).blk t).view.read (Elt Ideal)
      (fun i => Cert.Spec.lin1 (V c main_v347) (V c main_arg30) (V c main_v348) i) := by
  show (cfg25.win 3).cut (grid25.coords t) ((dat25 (F := Ideal) V c).after 3 t) = _
  rw [after25_3]
  unfold out25_3
  rw [View.canon_unit_zero hval_hz]
  simp only [View.ld_unit_zero (S := S50x384) hval_hz, View.ld_unit_zero (S := S384x128) hval_hz, View.ld_unit_zero (S := S1x128) hval_hz]
  obtain ⟨e00, e01, e10, e11, e20, e21, e30, e31⟩ := hval_idx25 t
  funext j
  show (k25_pay1 (F := Ideal) (iblk25 V c 0 t) (iblk25 V c 1 t) (iblk25 V c 2 t) j : EReal)
    = Cert.Spec.lin1 (V c main_v347) (V c main_arg30) (V c main_v348) (((cfg25.win 3).blk t).view.emb j)
  refine (hval_pay25 (iblk25 V c 0 t) (iblk25 V c 1 t) (iblk25 V c 2 t) j).trans ?_
  have hj0 : (j 0).val < 50 := (j 0).isLt
  have hj1 : (j 1).val < 128 := (j 1).isLt
  refine hval_lin1_congr _ _ _ _ _ _ j _ (fun k => ?_) (fun k => ?_) ?_
  · show V c main_v347 (((cfg25.win 0).blk t).view.emb (ix2 (j 0) k)) = V c main_v347 (ix2 ((((cfg25.win 3).blk t).view.emb j) 0) k)
    refine congrArg (V c main_v347) (hval_idx2_ext _ _ ?_ ?_)
    · show win25_0.index t (0 : Fin 2) * 50 + 1 * (j 0).val = win25_3.index t (0 : Fin 2) * 50 + 1 * (j 0).val
      omega
    · show win25_0.index t (1 : Fin 2) * 384 + 1 * k.val = k.val
      omega
  · show V c main_arg30 (((cfg25.win 1).blk t).view.emb (ix2 k (j 1))) = V c main_arg30 (ix2 k ((((cfg25.win 3).blk t).view.emb j) 1))
    refine congrArg (V c main_arg30) (hval_idx2_ext _ _ ?_ ?_)
    · show win25_1.index t (0 : Fin 2) * 384 + 1 * k.val = k.val
      omega
    · show win25_1.index t (1 : Fin 2) * 128 + 1 * (j 1).val = win25_3.index t (1 : Fin 2) * 128 + 1 * (j 1).val
      omega
  · show V c main_v348 (((cfg25.win 2).blk t).view.emb (ix2 0 (j 1))) = V c main_v348 (ix2 0 ((((cfg25.win 3).blk t).view.emb j) 1))
    refine congrArg (V c main_v348) (hval_idx2_ext _ _ ?_ ?_)
    · show win25_2.index t (0 : Fin 2) * 1 + 1 * 0 = 0
      omega
    · show win25_2.index t (1 : Fin 2) * 128 + 1 * (j 1).val = win25_3.index t (1 : Fin 2) * 128 + 1 * (j 1).val
      omega

/-- An entry of the output array lies in point t's tile iff each coordinate is in the tile's range. -/
theorem hval_mem_blk25 (t : Fin cfg25.N) (i : S50x128.Idx) :
    i ∈ ((cfg25.win 3).blk t).view.set ↔ ∀ a : Fin 2, win25_3.index t a * S50x128.size a ≤ (i a).val
      ∧ (i a).val < win25_3.index t a * S50x128.size a + S50x128.size a := by
  show i ∈ ((View.whole main_v349).slice (win25_3.rect t)).set ↔ _
  rw [View.set_slice_whole, Rect.mem_set_unit]
  exact Iff.rfl

/-- Every row of the output array is in some point's tile: row r in tile r / 50. -/
theorem hval_cover25 (i : S50x128.Idx) :
    ∃ t : Fin cfg25.N, (cfg25.win 3).flush t = true ∧ i ∈ ((cfg25.win 3).blk t).view.set := by
  have hi0 : (i 0).val < 50 := (i 0).isLt
  have hi1 : (i 1).val < 128 := (i 1).isLt
  obtain ⟨t, ht⟩ : ∃ t : Fin cfg25.N, t.val = (i 0).val / 50 :=
    ⟨⟨(i 0).val / 50, by rw [show cfg25.N = 1 from N_25]; omega⟩, rfl⟩
  obtain ⟨-, -, -, -, -, -, eo0, eo1⟩ := hval_idx25 t
  refine ⟨t, flush25_3 t, ?_⟩
  rw [hval_mem_blk25]
  intro a
  match a with
  | ⟨0, _⟩ =>
    show win25_3.index t (0 : Fin 2) * 50 ≤ (i 0).val ∧ (i 0).val < win25_3.index t (0 : Fin 2) * 50 + 50
    omega
  | ⟨1, _⟩ =>
    show win25_3.index t (1 : Fin 2) * 128 ≤ (i 1).val ∧ (i 1).val < win25_3.index t (1 : Fin 2) * 128 + 128
    omega

/-- Region 25's output array after the region: the dense layer of the activation, weight and bias arrays the region
    found, entry by entry. -/
theorem val25 (c : Dev nD) (i : S50x128.Idx) :
    (dat25 (F := Ideal) V c).arrAt 3 cfg25.N i = Cert.Spec.lin1 (V c main_v347) (V c main_arg30) (V c main_v348) i :=
  congrFun ((dat25 (F := Ideal) V c).arrAt_eq_of_cover 3
    (fun i => Cert.Spec.lin1 (V c main_v347) (V c main_arg30) (V c main_v348) i)
    (fun t _ => hval_flushed25 V c t) (hval_cover25)) i

end Cert.KernelIdeal.Hand

end
-- ==== Proof.FinalK.lean ====
/-
  The kernel program's run, boundary by boundary: every buffer that is read later holds the shared function gv_n of the
  program's arguments. A host stretch's buffers by the stretch's own unfolding, a buffer no item writes by the items'
  keep lemmas, a dense layer's output array by the layer's value entry by entry and the layer read as whole-array
  operations. The last fact names the program's result.
-/
import proofs.«141679_j61469571940402_1_alg».proof.Proof.KI.Keep
import proofs.«141679_j61469571940402_1_alg».proof.Proof.Layers
import proofs.«141679_j61469571940402_1_alg».proof.Proof.Host.K0
import proofs.«141679_j61469571940402_1_alg».proof.Proof.Host.K1
import proofs.«141679_j61469571940402_1_alg».proof.Proof.Host.K2
import proofs.«141679_j61469571940402_1_alg».proof.Proof.Host.K4
import proofs.«141679_j61469571940402_1_alg».proof.Proof.Host.K6
import proofs.«141679_j61469571940402_1_alg».proof.Proof.Host.K8
import proofs.«141679_j61469571940402_1_alg».proof.Proof.Host.K10
import proofs.«141679_j61469571940402_1_alg».proof.Proof.Host.K12
import proofs.«141679_j61469571940402_1_alg».proof.Proof.Host.K14
import proofs.«141679_j61469571940402_1_alg».proof.Proof.Host.K16
import proofs.«141679_j61469571940402_1_alg».proof.Proof.Host.K18
import proofs.«141679_j61469571940402_1_alg».proof.Proof.Host.K20
import proofs.«141679_j61469571940402_1_alg».proof.Proof.Host.K22
import proofs.«141679_j61469571940402_1_alg».proof.Proof.Host.K24
import proofs.«141679_j61469571940402_1_alg».proof.Proof.Host.K26
import proofs.«141679_j61469571940402_1_alg».proof.Proof.Host.K28
import proofs.«141679_j61469571940402_1_alg».proof.Proof.Host.K30
import proofs.«141679_j61469571940402_1_alg».proof.Proof.Host.K32
import proofs.«141679_j61469571940402_1_alg».proof.Proof.Host.K34
import proofs.«141679_j61469571940402_1_alg».proof.Proof.Host.K36
import proofs.«141679_j61469571940402_1_alg».proof.Proof.Host.K38
import proofs.«141679_j61469571940402_1_alg».proof.Proof.Host.K40
import proofs.«141679_j61469571940402_1_alg».proof.Proof.Host.K42
import proofs.«141679_j61469571940402_1_alg».proof.Proof.Host.K44
import proofs.«141679_j61469571940402_1_alg».proof.Proof.Host.K46
import proofs.«141679_j61469571940402_1_alg».proof.Proof.Host.K48
import proofs.«141679_j61469571940402_1_alg».proof.Proof.Host.K50
import proofs.«141679_j61469571940402_1_alg».proof.Proof.Host.K52
import proofs.«141679_j61469571940402_1_alg».proof.Proof.Host.K54
import proofs.«141679_j61469571940402_1_alg».proof.Proof.KI.Val0
import proofs.«141679_j61469571940402_1_alg».proof.Proof.KI.Val1
import proofs.«141679_j61469571940402_1_alg».proof.Proof.KI.Val2
import proofs.«141679_j61469571940402_1_alg».proof.Proof.KI.Val3
import proofs.«141679_j61469571940402_1_alg».proof.Proof.KI.Val4
import proofs.«141679_j61469571940402_1_alg».proof.Proof.KI.Val5
import proofs.«141679_j61469571940402_1_alg».proof.Proof.KI.Val6
import proofs.«141679_j61469571940402_1_alg».proof.Proof.KI.Val7
import proofs.«141679_j61469571940402_1_alg».proof.Proof.KI.Val8
import proofs.«141679_j61469571940402_1_alg».proof.Proof.KI.Val9
import proofs.«141679_j61469571940402_1_alg».proof.Proof.KI.Val10
import proofs.«141679_j61469571940402_1_alg».proof.Proof.KI.Val11
import proofs.«141679_j61469571940402_1_alg».proof.Proof.KI.Val12
import proofs.«141679_j61469571940402_1_alg».proof.Proof.KI.Val13
import proofs.«141679_j61469571940402_1_alg».proof.Proof.KI.Val14
import proofs.«141679_j61469571940402_1_alg».proof.Proof.KI.Val15
import proofs.«141679_j61469571940402_1_alg».proof.Proof.KI.Val16
import proofs.«141679_j61469571940402_1_alg».proof.Proof.KI.Val17
import proofs.«141679_j61469571940402_1_alg».proof.Proof.KI.Val18
import proofs.«141679_j61469571940402_1_alg».proof.Proof.KI.Val19
import proofs.«141679_j61469571940402_1_alg».proof.Proof.KI.Val20
import proofs.«141679_j61469571940402_1_alg».proof.Proof.KI.Val21
import proofs.«141679_j61469571940402_1_alg».proof.Proof.KI.Val22
import proofs.«141679_j61469571940402_1_alg».proof.Proof.KI.Val23
import proofs.«141679_j61469571940402_1_alg».proof.Proof.KI.Val24
import proofs.«141679_j61469571940402_1_alg».proof.Proof.KI.Val25

set_option maxRecDepth 3048

noncomputable section

namespace Cert.KernelIdeal.Hand

open Idealize.ShloMosaic Idealize.ShloMosaic.TcCoe Cert.KernelIdeal Cert.KernelIdeal.Gen
open Idealize.SL.Sem

variable (m : (ℓ : Loc nD τ sig) → Buf (Elt Ideal) ℓ) (ρ : Dev nD → PrngReg) (c : Dev nD)

/-- The argument arrays as launched, on core c. -/
abbrev argsK : Cert.Net.Args Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32), m ((c : Thread nD τ).loc main_arg33)⟩

theorem fa_0_0 : W0 m ρ c (Proc.devRef .tc main_arg0) = (argsK m c).a0 := rfl
theorem fa_4_0 : W0 m ρ c (Proc.devRef .tc main_arg4) = (argsK m c).a4 := rfl
theorem fa_20_0 : W0 m ρ c (Proc.devRef .tc main_arg20) = (argsK m c).a20 := rfl
theorem fa_25_0 : W0 m ρ c (Proc.devRef .tc main_arg25) = (argsK m c).a25 := rfl
theorem fa_21_0 : W0 m ρ c (Proc.devRef .tc main_arg21) = (argsK m c).a21 := rfl
theorem fa_23_0 : W0 m ρ c (Proc.devRef .tc main_arg23) = (argsK m c).a23 := rfl
theorem fa_26_0 : W0 m ρ c (Proc.devRef .tc main_arg26) = (argsK m c).a26 := rfl
theorem fa_22_0 : W0 m ρ c (Proc.devRef .tc main_arg22) = (argsK m c).a22 := rfl
theorem fa_24_0 : W0 m ρ c (Proc.devRef .tc main_arg24) = (argsK m c).a24 := rfl
theorem fa_30_0 : W0 m ρ c (Proc.devRef .tc main_arg30) = (argsK m c).a30 := rfl
theorem fa_32_0 : W0 m ρ c (Proc.devRef .tc main_arg32) = (argsK m c).a32 := rfl
theorem fa_33_0 : W0 m ρ c (Proc.devRef .tc main_arg33) = (argsK m c).a33 := rfl
theorem fa_5_0 : W0 m ρ c (Proc.devRef .tc main_arg5) = (argsK m c).a5 := rfl
theorem fa_6_0 : W0 m ρ c (Proc.devRef .tc main_arg6) = (argsK m c).a6 := rfl
theorem fa_7_0 : W0 m ρ c (Proc.devRef .tc main_arg7) = (argsK m c).a7 := rfl
theorem fa_9_0 : W0 m ρ c (Proc.devRef .tc main_arg9) = (argsK m c).a9 := rfl
theorem fa_11_0 : W0 m ρ c (Proc.devRef .tc main_arg11) = (argsK m c).a11 := rfl
theorem fa_27_0 : W0 m ρ c (Proc.devRef .tc main_arg27) = (argsK m c).a27 := rfl
theorem fa_28_0 : W0 m ρ c (Proc.devRef .tc main_arg28) = (argsK m c).a28 := rfl
theorem fa_29_0 : W0 m ρ c (Proc.devRef .tc main_arg29) = (argsK m c).a29 := rfl
theorem fa_13_0 : W0 m ρ c (Proc.devRef .tc main_arg13) = (argsK m c).a13 := rfl
theorem fa_14_0 : W0 m ρ c (Proc.devRef .tc main_arg14) = (argsK m c).a14 := rfl
theorem fa_16_0 : W0 m ρ c (Proc.devRef .tc main_arg16) = (argsK m c).a16 := rfl
theorem fa_18_0 : W0 m ρ c (Proc.devRef .tc main_arg18) = (argsK m c).a18 := rfl
theorem fa_2_0 : W0 m ρ c (Proc.devRef .tc main_arg2) = (argsK m c).a2 := rfl
theorem fa_31_0 : W0 m ρ c (Proc.devRef .tc main_arg31) = (argsK m c).a31 := rfl
theorem fa_1_0 : W0 m ρ c (Proc.devRef .tc main_arg1) = (argsK m c).a1 := rfl
theorem fa_8_0 : W0 m ρ c (Proc.devRef .tc main_arg8) = (argsK m c).a8 := rfl
theorem fa_10_0 : W0 m ρ c (Proc.devRef .tc main_arg10) = (argsK m c).a10 := rfl
theorem fa_12_0 : W0 m ρ c (Proc.devRef .tc main_arg12) = (argsK m c).a12 := rfl
theorem fa_3_0 : W0 m ρ c (Proc.devRef .tc main_arg3) = (argsK m c).a3 := rfl
theorem fa_15_0 : W0 m ρ c (Proc.devRef .tc main_arg15) = (argsK m c).a15 := rfl
theorem fa_17_0 : W0 m ρ c (Proc.devRef .tc main_arg17) = (argsK m c).a17 := rfl
theorem fa_19_0 : W0 m ρ c (Proc.devRef .tc main_arg19) = (argsK m c).a19 := rfl
theorem fk'_main_v1 : StableHlo.after hostOps0 (W0 m ρ c) (Proc.devRef .tc main_v1) = Cert.Net.gv_0 (argsK m c) :=
  (K0_main_v1 (W0 m ρ c)).trans (by rw [fa_1_0 m ρ c]; rfl)
theorem fk_main_v1_1 : W1 m ρ c (Proc.devRef .tc main_v1) = Cert.Net.gv_0 (argsK m c) := fk'_main_v1 m ρ c
theorem fk'_main_v3 : StableHlo.after hostOps0 (W0 m ρ c) (Proc.devRef .tc main_v3) = Cert.Net.gv_1 (argsK m c) :=
  (K0_main_v3 (W0 m ρ c)).trans (by rw [fa_1_0 m ρ c]; rfl)
theorem fk_main_v3_1 : W1 m ρ c (Proc.devRef .tc main_v3) = Cert.Net.gv_1 (argsK m c) := fk'_main_v3 m ρ c
theorem fk'_main_c : StableHlo.after hostOps0 (W0 m ρ c) (Proc.devRef .tc main_c) = Cert.Net.gv_2 (argsK m c) :=
  (K0_main_c (W0 m ρ c)).trans (by rfl)
theorem fk_main_c_1 : W1 m ρ c (Proc.devRef .tc main_c) = Cert.Net.gv_2 (argsK m c) := fk'_main_c m ρ c
theorem fk'_main_v6 : StableHlo.after hostOps0 (W0 m ρ c) (Proc.devRef .tc main_v6) = Cert.Net.gv_3 (argsK m c) :=
  (K0_main_v6 (W0 m ρ c)).trans (by rw [fa_3_0 m ρ c, fa_2_0 m ρ c, fk'_main_c m ρ c]; rfl)
theorem fk_main_v6_1 : W1 m ρ c (Proc.devRef .tc main_v6) = Cert.Net.gv_3 (argsK m c) := fk'_main_v6 m ρ c
theorem fk'_main_v7 : StableHlo.after hostOps0 (W0 m ρ c) (Proc.devRef .tc main_v7) = Cert.Net.gv_4 (argsK m c) :=
  (K0_main_v7 (W0 m ρ c)).trans (by rfl)
theorem fk_main_v7_1 : W1 m ρ c (Proc.devRef .tc main_v7) = Cert.Net.gv_4 (argsK m c) := fk'_main_v7 m ρ c
theorem fk'_main_c_0 : StableHlo.after hostOps0 (W0 m ρ c) (Proc.devRef .tc main_c_0) = Cert.Net.gv_2 (argsK m c) :=
  (K0_main_c_0 (W0 m ρ c)).trans (by rfl)
theorem fk_main_c_0_1 : W1 m ρ c (Proc.devRef .tc main_c_0) = Cert.Net.gv_2 (argsK m c) := fk'_main_c_0 m ρ c
theorem fa_0_1 : W1 m ρ c (Proc.devRef .tc main_arg0) = (argsK m c).a0 :=
  (keep0 m ρ c main_arg0 (by decide)).trans (fa_0_0 m ρ c)
theorem fa_4_1 : W1 m ρ c (Proc.devRef .tc main_arg4) = (argsK m c).a4 :=
  (keep0 m ρ c main_arg4 (by decide)).trans (fa_4_0 m ρ c)
theorem fa_20_1 : W1 m ρ c (Proc.devRef .tc main_arg20) = (argsK m c).a20 :=
  (keep0 m ρ c main_arg20 (by decide)).trans (fa_20_0 m ρ c)
theorem fa_25_1 : W1 m ρ c (Proc.devRef .tc main_arg25) = (argsK m c).a25 :=
  (keep0 m ρ c main_arg25 (by decide)).trans (fa_25_0 m ρ c)
theorem fa_21_1 : W1 m ρ c (Proc.devRef .tc main_arg21) = (argsK m c).a21 :=
  (keep0 m ρ c main_arg21 (by decide)).trans (fa_21_0 m ρ c)
theorem fa_23_1 : W1 m ρ c (Proc.devRef .tc main_arg23) = (argsK m c).a23 :=
  (keep0 m ρ c main_arg23 (by decide)).trans (fa_23_0 m ρ c)
theorem fa_26_1 : W1 m ρ c (Proc.devRef .tc main_arg26) = (argsK m c).a26 :=
  (keep0 m ρ c main_arg26 (by decide)).trans (fa_26_0 m ρ c)
theorem fa_22_1 : W1 m ρ c (Proc.devRef .tc main_arg22) = (argsK m c).a22 :=
  (keep0 m ρ c main_arg22 (by decide)).trans (fa_22_0 m ρ c)
theorem fa_24_1 : W1 m ρ c (Proc.devRef .tc main_arg24) = (argsK m c).a24 :=
  (keep0 m ρ c main_arg24 (by decide)).trans (fa_24_0 m ρ c)
theorem fa_30_1 : W1 m ρ c (Proc.devRef .tc main_arg30) = (argsK m c).a30 :=
  (keep0 m ρ c main_arg30 (by decide)).trans (fa_30_0 m ρ c)
theorem fa_32_1 : W1 m ρ c (Proc.devRef .tc main_arg32) = (argsK m c).a32 :=
  (keep0 m ρ c main_arg32 (by decide)).trans (fa_32_0 m ρ c)
theorem fa_33_1 : W1 m ρ c (Proc.devRef .tc main_arg33) = (argsK m c).a33 :=
  (keep0 m ρ c main_arg33 (by decide)).trans (fa_33_0 m ρ c)
theorem fa_5_1 : W1 m ρ c (Proc.devRef .tc main_arg5) = (argsK m c).a5 :=
  (keep0 m ρ c main_arg5 (by decide)).trans (fa_5_0 m ρ c)
theorem fa_6_1 : W1 m ρ c (Proc.devRef .tc main_arg6) = (argsK m c).a6 :=
  (keep0 m ρ c main_arg6 (by decide)).trans (fa_6_0 m ρ c)
theorem fa_7_1 : W1 m ρ c (Proc.devRef .tc main_arg7) = (argsK m c).a7 :=
  (keep0 m ρ c main_arg7 (by decide)).trans (fa_7_0 m ρ c)
theorem fa_9_1 : W1 m ρ c (Proc.devRef .tc main_arg9) = (argsK m c).a9 :=
  (keep0 m ρ c main_arg9 (by decide)).trans (fa_9_0 m ρ c)
theorem fa_11_1 : W1 m ρ c (Proc.devRef .tc main_arg11) = (argsK m c).a11 :=
  (keep0 m ρ c main_arg11 (by decide)).trans (fa_11_0 m ρ c)
theorem fa_27_1 : W1 m ρ c (Proc.devRef .tc main_arg27) = (argsK m c).a27 :=
  (keep0 m ρ c main_arg27 (by decide)).trans (fa_27_0 m ρ c)
theorem fa_28_1 : W1 m ρ c (Proc.devRef .tc main_arg28) = (argsK m c).a28 :=
  (keep0 m ρ c main_arg28 (by decide)).trans (fa_28_0 m ρ c)
theorem fa_29_1 : W1 m ρ c (Proc.devRef .tc main_arg29) = (argsK m c).a29 :=
  (keep0 m ρ c main_arg29 (by decide)).trans (fa_29_0 m ρ c)
theorem fa_13_1 : W1 m ρ c (Proc.devRef .tc main_arg13) = (argsK m c).a13 :=
  (keep0 m ρ c main_arg13 (by decide)).trans (fa_13_0 m ρ c)
theorem fa_14_1 : W1 m ρ c (Proc.devRef .tc main_arg14) = (argsK m c).a14 :=
  (keep0 m ρ c main_arg14 (by decide)).trans (fa_14_0 m ρ c)
theorem fa_16_1 : W1 m ρ c (Proc.devRef .tc main_arg16) = (argsK m c).a16 :=
  (keep0 m ρ c main_arg16 (by decide)).trans (fa_16_0 m ρ c)
theorem fa_18_1 : W1 m ρ c (Proc.devRef .tc main_arg18) = (argsK m c).a18 :=
  (keep0 m ρ c main_arg18 (by decide)).trans (fa_18_0 m ρ c)
theorem fa_2_1 : W1 m ρ c (Proc.devRef .tc main_arg2) = (argsK m c).a2 :=
  (keep0 m ρ c main_arg2 (by decide)).trans (fa_2_0 m ρ c)
theorem fa_31_1 : W1 m ρ c (Proc.devRef .tc main_arg31) = (argsK m c).a31 :=
  (keep0 m ρ c main_arg31 (by decide)).trans (fa_31_0 m ρ c)
theorem fa_8_1 : W1 m ρ c (Proc.devRef .tc main_arg8) = (argsK m c).a8 :=
  (keep0 m ρ c main_arg8 (by decide)).trans (fa_8_0 m ρ c)
theorem fa_10_1 : W1 m ρ c (Proc.devRef .tc main_arg10) = (argsK m c).a10 :=
  (keep0 m ρ c main_arg10 (by decide)).trans (fa_10_0 m ρ c)
theorem fa_12_1 : W1 m ρ c (Proc.devRef .tc main_arg12) = (argsK m c).a12 :=
  (keep0 m ρ c main_arg12 (by decide)).trans (fa_12_0 m ρ c)
theorem fa_15_1 : W1 m ρ c (Proc.devRef .tc main_arg15) = (argsK m c).a15 :=
  (keep0 m ρ c main_arg15 (by decide)).trans (fa_15_0 m ρ c)
theorem fa_17_1 : W1 m ρ c (Proc.devRef .tc main_arg17) = (argsK m c).a17 :=
  (keep0 m ρ c main_arg17 (by decide)).trans (fa_17_0 m ρ c)
theorem fa_19_1 : W1 m ρ c (Proc.devRef .tc main_arg19) = (argsK m c).a19 :=
  (keep0 m ρ c main_arg19 (by decide)).trans (fa_19_0 m ρ c)
theorem fk'_main_v8 : StableHlo.after hostOps0_1 (W1 m ρ c) (Proc.devRef .tc main_v8) = Cert.Net.gv_5 (argsK m c) :=
  (K1_main_v8 (W1 m ρ c)).trans (by rw [fk_main_v7_1 m ρ c, fk_main_c_0_1 m ρ c]; rfl)
theorem fk_main_v8_2 : W2 m ρ c (Proc.devRef .tc main_v8) = Cert.Net.gv_5 (argsK m c) := fk'_main_v8 m ρ c
theorem fa_0_2 : W2 m ρ c (Proc.devRef .tc main_arg0) = (argsK m c).a0 :=
  (keep1 m ρ c main_arg0 (by decide)).trans (fa_0_1 m ρ c)
theorem fa_4_2 : W2 m ρ c (Proc.devRef .tc main_arg4) = (argsK m c).a4 :=
  (keep1 m ρ c main_arg4 (by decide)).trans (fa_4_1 m ρ c)
theorem fa_20_2 : W2 m ρ c (Proc.devRef .tc main_arg20) = (argsK m c).a20 :=
  (keep1 m ρ c main_arg20 (by decide)).trans (fa_20_1 m ρ c)
theorem fa_25_2 : W2 m ρ c (Proc.devRef .tc main_arg25) = (argsK m c).a25 :=
  (keep1 m ρ c main_arg25 (by decide)).trans (fa_25_1 m ρ c)
theorem fa_21_2 : W2 m ρ c (Proc.devRef .tc main_arg21) = (argsK m c).a21 :=
  (keep1 m ρ c main_arg21 (by decide)).trans (fa_21_1 m ρ c)
theorem fa_23_2 : W2 m ρ c (Proc.devRef .tc main_arg23) = (argsK m c).a23 :=
  (keep1 m ρ c main_arg23 (by decide)).trans (fa_23_1 m ρ c)
theorem fa_26_2 : W2 m ρ c (Proc.devRef .tc main_arg26) = (argsK m c).a26 :=
  (keep1 m ρ c main_arg26 (by decide)).trans (fa_26_1 m ρ c)
theorem fa_22_2 : W2 m ρ c (Proc.devRef .tc main_arg22) = (argsK m c).a22 :=
  (keep1 m ρ c main_arg22 (by decide)).trans (fa_22_1 m ρ c)
theorem fa_24_2 : W2 m ρ c (Proc.devRef .tc main_arg24) = (argsK m c).a24 :=
  (keep1 m ρ c main_arg24 (by decide)).trans (fa_24_1 m ρ c)
theorem fa_30_2 : W2 m ρ c (Proc.devRef .tc main_arg30) = (argsK m c).a30 :=
  (keep1 m ρ c main_arg30 (by decide)).trans (fa_30_1 m ρ c)
theorem fa_32_2 : W2 m ρ c (Proc.devRef .tc main_arg32) = (argsK m c).a32 :=
  (keep1 m ρ c main_arg32 (by decide)).trans (fa_32_1 m ρ c)
theorem fa_33_2 : W2 m ρ c (Proc.devRef .tc main_arg33) = (argsK m c).a33 :=
  (keep1 m ρ c main_arg33 (by decide)).trans (fa_33_1 m ρ c)
theorem fa_5_2 : W2 m ρ c (Proc.devRef .tc main_arg5) = (argsK m c).a5 :=
  (keep1 m ρ c main_arg5 (by decide)).trans (fa_5_1 m ρ c)
theorem fa_6_2 : W2 m ρ c (Proc.devRef .tc main_arg6) = (argsK m c).a6 :=
  (keep1 m ρ c main_arg6 (by decide)).trans (fa_6_1 m ρ c)
theorem fa_7_2 : W2 m ρ c (Proc.devRef .tc main_arg7) = (argsK m c).a7 :=
  (keep1 m ρ c main_arg7 (by decide)).trans (fa_7_1 m ρ c)
theorem fa_9_2 : W2 m ρ c (Proc.devRef .tc main_arg9) = (argsK m c).a9 :=
  (keep1 m ρ c main_arg9 (by decide)).trans (fa_9_1 m ρ c)
theorem fa_11_2 : W2 m ρ c (Proc.devRef .tc main_arg11) = (argsK m c).a11 :=
  (keep1 m ρ c main_arg11 (by decide)).trans (fa_11_1 m ρ c)
theorem fa_27_2 : W2 m ρ c (Proc.devRef .tc main_arg27) = (argsK m c).a27 :=
  (keep1 m ρ c main_arg27 (by decide)).trans (fa_27_1 m ρ c)
theorem fa_28_2 : W2 m ρ c (Proc.devRef .tc main_arg28) = (argsK m c).a28 :=
  (keep1 m ρ c main_arg28 (by decide)).trans (fa_28_1 m ρ c)
theorem fa_29_2 : W2 m ρ c (Proc.devRef .tc main_arg29) = (argsK m c).a29 :=
  (keep1 m ρ c main_arg29 (by decide)).trans (fa_29_1 m ρ c)
theorem fa_13_2 : W2 m ρ c (Proc.devRef .tc main_arg13) = (argsK m c).a13 :=
  (keep1 m ρ c main_arg13 (by decide)).trans (fa_13_1 m ρ c)
theorem fa_14_2 : W2 m ρ c (Proc.devRef .tc main_arg14) = (argsK m c).a14 :=
  (keep1 m ρ c main_arg14 (by decide)).trans (fa_14_1 m ρ c)
theorem fa_16_2 : W2 m ρ c (Proc.devRef .tc main_arg16) = (argsK m c).a16 :=
  (keep1 m ρ c main_arg16 (by decide)).trans (fa_16_1 m ρ c)
theorem fa_18_2 : W2 m ρ c (Proc.devRef .tc main_arg18) = (argsK m c).a18 :=
  (keep1 m ρ c main_arg18 (by decide)).trans (fa_18_1 m ρ c)
theorem fa_2_2 : W2 m ρ c (Proc.devRef .tc main_arg2) = (argsK m c).a2 :=
  (keep1 m ρ c main_arg2 (by decide)).trans (fa_2_1 m ρ c)
theorem fa_31_2 : W2 m ρ c (Proc.devRef .tc main_arg31) = (argsK m c).a31 :=
  (keep1 m ρ c main_arg31 (by decide)).trans (fa_31_1 m ρ c)
theorem fa_8_2 : W2 m ρ c (Proc.devRef .tc main_arg8) = (argsK m c).a8 :=
  (keep1 m ρ c main_arg8 (by decide)).trans (fa_8_1 m ρ c)
theorem fa_10_2 : W2 m ρ c (Proc.devRef .tc main_arg10) = (argsK m c).a10 :=
  (keep1 m ρ c main_arg10 (by decide)).trans (fa_10_1 m ρ c)
theorem fa_12_2 : W2 m ρ c (Proc.devRef .tc main_arg12) = (argsK m c).a12 :=
  (keep1 m ρ c main_arg12 (by decide)).trans (fa_12_1 m ρ c)
theorem fa_15_2 : W2 m ρ c (Proc.devRef .tc main_arg15) = (argsK m c).a15 :=
  (keep1 m ρ c main_arg15 (by decide)).trans (fa_15_1 m ρ c)
theorem fa_17_2 : W2 m ρ c (Proc.devRef .tc main_arg17) = (argsK m c).a17 :=
  (keep1 m ρ c main_arg17 (by decide)).trans (fa_17_1 m ρ c)
theorem fa_19_2 : W2 m ρ c (Proc.devRef .tc main_arg19) = (argsK m c).a19 :=
  (keep1 m ρ c main_arg19 (by decide)).trans (fa_19_1 m ρ c)
theorem fk_main_v1_2 : W2 m ρ c (Proc.devRef .tc main_v1) = Cert.Net.gv_0 (argsK m c) :=
  (keep1 m ρ c main_v1 (by decide)).trans (fk_main_v1_1 m ρ c)
theorem fk_main_v3_2 : W2 m ρ c (Proc.devRef .tc main_v3) = Cert.Net.gv_1 (argsK m c) :=
  (keep1 m ρ c main_v3 (by decide)).trans (fk_main_v3_1 m ρ c)
theorem fk_main_v6_2 : W2 m ρ c (Proc.devRef .tc main_v6) = Cert.Net.gv_3 (argsK m c) :=
  (keep1 m ρ c main_v6 (by decide)).trans (fk_main_v6_1 m ρ c)
theorem fk'_main_v9 : StableHlo.after hostOps0_2 (W2 m ρ c) (Proc.devRef .tc main_v9) = broadcastInDim Cert.ReferenceIdeal.S1x128 ![1] Cert.ReferenceIdeal.Gen.bcast_S128_S1x128_1 ((argsK m c).a5) :=
  (K2_main_v9 (W2 m ρ c)).trans (by rw [fa_5_2 m ρ c])
theorem fk_main_v9_3 : W3 m ρ c (Proc.devRef .tc main_v9) = broadcastInDim Cert.ReferenceIdeal.S1x128 ![1] Cert.ReferenceIdeal.Gen.bcast_S128_S1x128_1 ((argsK m c).a5) := fk'_main_v9 m ρ c
theorem fa_0_3 : W3 m ρ c (Proc.devRef .tc main_arg0) = (argsK m c).a0 :=
  (keep2 m ρ c main_arg0 (by decide)).trans (fa_0_2 m ρ c)
theorem fa_4_3 : W3 m ρ c (Proc.devRef .tc main_arg4) = (argsK m c).a4 :=
  (keep2 m ρ c main_arg4 (by decide)).trans (fa_4_2 m ρ c)
theorem fa_20_3 : W3 m ρ c (Proc.devRef .tc main_arg20) = (argsK m c).a20 :=
  (keep2 m ρ c main_arg20 (by decide)).trans (fa_20_2 m ρ c)
theorem fa_25_3 : W3 m ρ c (Proc.devRef .tc main_arg25) = (argsK m c).a25 :=
  (keep2 m ρ c main_arg25 (by decide)).trans (fa_25_2 m ρ c)
theorem fa_21_3 : W3 m ρ c (Proc.devRef .tc main_arg21) = (argsK m c).a21 :=
  (keep2 m ρ c main_arg21 (by decide)).trans (fa_21_2 m ρ c)
theorem fa_23_3 : W3 m ρ c (Proc.devRef .tc main_arg23) = (argsK m c).a23 :=
  (keep2 m ρ c main_arg23 (by decide)).trans (fa_23_2 m ρ c)
theorem fa_26_3 : W3 m ρ c (Proc.devRef .tc main_arg26) = (argsK m c).a26 :=
  (keep2 m ρ c main_arg26 (by decide)).trans (fa_26_2 m ρ c)
theorem fa_22_3 : W3 m ρ c (Proc.devRef .tc main_arg22) = (argsK m c).a22 :=
  (keep2 m ρ c main_arg22 (by decide)).trans (fa_22_2 m ρ c)
theorem fa_24_3 : W3 m ρ c (Proc.devRef .tc main_arg24) = (argsK m c).a24 :=
  (keep2 m ρ c main_arg24 (by decide)).trans (fa_24_2 m ρ c)
theorem fa_30_3 : W3 m ρ c (Proc.devRef .tc main_arg30) = (argsK m c).a30 :=
  (keep2 m ρ c main_arg30 (by decide)).trans (fa_30_2 m ρ c)
theorem fa_32_3 : W3 m ρ c (Proc.devRef .tc main_arg32) = (argsK m c).a32 :=
  (keep2 m ρ c main_arg32 (by decide)).trans (fa_32_2 m ρ c)
theorem fa_33_3 : W3 m ρ c (Proc.devRef .tc main_arg33) = (argsK m c).a33 :=
  (keep2 m ρ c main_arg33 (by decide)).trans (fa_33_2 m ρ c)
theorem fa_6_3 : W3 m ρ c (Proc.devRef .tc main_arg6) = (argsK m c).a6 :=
  (keep2 m ρ c main_arg6 (by decide)).trans (fa_6_2 m ρ c)
theorem fa_7_3 : W3 m ρ c (Proc.devRef .tc main_arg7) = (argsK m c).a7 :=
  (keep2 m ρ c main_arg7 (by decide)).trans (fa_7_2 m ρ c)
theorem fa_9_3 : W3 m ρ c (Proc.devRef .tc main_arg9) = (argsK m c).a9 :=
  (keep2 m ρ c main_arg9 (by decide)).trans (fa_9_2 m ρ c)
theorem fa_11_3 : W3 m ρ c (Proc.devRef .tc main_arg11) = (argsK m c).a11 :=
  (keep2 m ρ c main_arg11 (by decide)).trans (fa_11_2 m ρ c)
theorem fa_27_3 : W3 m ρ c (Proc.devRef .tc main_arg27) = (argsK m c).a27 :=
  (keep2 m ρ c main_arg27 (by decide)).trans (fa_27_2 m ρ c)
theorem fa_28_3 : W3 m ρ c (Proc.devRef .tc main_arg28) = (argsK m c).a28 :=
  (keep2 m ρ c main_arg28 (by decide)).trans (fa_28_2 m ρ c)
theorem fa_29_3 : W3 m ρ c (Proc.devRef .tc main_arg29) = (argsK m c).a29 :=
  (keep2 m ρ c main_arg29 (by decide)).trans (fa_29_2 m ρ c)
theorem fa_13_3 : W3 m ρ c (Proc.devRef .tc main_arg13) = (argsK m c).a13 :=
  (keep2 m ρ c main_arg13 (by decide)).trans (fa_13_2 m ρ c)
theorem fa_14_3 : W3 m ρ c (Proc.devRef .tc main_arg14) = (argsK m c).a14 :=
  (keep2 m ρ c main_arg14 (by decide)).trans (fa_14_2 m ρ c)
theorem fa_16_3 : W3 m ρ c (Proc.devRef .tc main_arg16) = (argsK m c).a16 :=
  (keep2 m ρ c main_arg16 (by decide)).trans (fa_16_2 m ρ c)
theorem fa_18_3 : W3 m ρ c (Proc.devRef .tc main_arg18) = (argsK m c).a18 :=
  (keep2 m ρ c main_arg18 (by decide)).trans (fa_18_2 m ρ c)
theorem fa_2_3 : W3 m ρ c (Proc.devRef .tc main_arg2) = (argsK m c).a2 :=
  (keep2 m ρ c main_arg2 (by decide)).trans (fa_2_2 m ρ c)
theorem fa_31_3 : W3 m ρ c (Proc.devRef .tc main_arg31) = (argsK m c).a31 :=
  (keep2 m ρ c main_arg31 (by decide)).trans (fa_31_2 m ρ c)
theorem fa_8_3 : W3 m ρ c (Proc.devRef .tc main_arg8) = (argsK m c).a8 :=
  (keep2 m ρ c main_arg8 (by decide)).trans (fa_8_2 m ρ c)
theorem fa_10_3 : W3 m ρ c (Proc.devRef .tc main_arg10) = (argsK m c).a10 :=
  (keep2 m ρ c main_arg10 (by decide)).trans (fa_10_2 m ρ c)
theorem fa_12_3 : W3 m ρ c (Proc.devRef .tc main_arg12) = (argsK m c).a12 :=
  (keep2 m ρ c main_arg12 (by decide)).trans (fa_12_2 m ρ c)
theorem fa_15_3 : W3 m ρ c (Proc.devRef .tc main_arg15) = (argsK m c).a15 :=
  (keep2 m ρ c main_arg15 (by decide)).trans (fa_15_2 m ρ c)
theorem fa_17_3 : W3 m ρ c (Proc.devRef .tc main_arg17) = (argsK m c).a17 :=
  (keep2 m ρ c main_arg17 (by decide)).trans (fa_17_2 m ρ c)
theorem fa_19_3 : W3 m ρ c (Proc.devRef .tc main_arg19) = (argsK m c).a19 :=
  (keep2 m ρ c main_arg19 (by decide)).trans (fa_19_2 m ρ c)
theorem fk_main_v1_3 : W3 m ρ c (Proc.devRef .tc main_v1) = Cert.Net.gv_0 (argsK m c) :=
  (keep2 m ρ c main_v1 (by decide)).trans (fk_main_v1_2 m ρ c)
theorem fk_main_v3_3 : W3 m ρ c (Proc.devRef .tc main_v3) = Cert.Net.gv_1 (argsK m c) :=
  (keep2 m ρ c main_v3 (by decide)).trans (fk_main_v3_2 m ρ c)
theorem fk_main_v6_3 : W3 m ρ c (Proc.devRef .tc main_v6) = Cert.Net.gv_3 (argsK m c) :=
  (keep2 m ρ c main_v6 (by decide)).trans (fk_main_v6_2 m ρ c)
theorem fk_main_v8_3 : W3 m ρ c (Proc.devRef .tc main_v8) = Cert.Net.gv_5 (argsK m c) :=
  (keep2 m ρ c main_v8 (by decide)).trans (fk_main_v8_2 m ρ c)
theorem fk_main_v10_4 : W4 m ρ c (Proc.devRef .tc main_v10) = Cert.Net.gv_6 (argsK m c) := by
  funext i
  refine (congrFun (W4_arr m ρ c 3) i).trans ?_
  refine (val0 (V3 m ρ) c i).trans ?_
  rw [show V3 m ρ c main_arg0 = _ from fa_0_3 m ρ c, show V3 m ρ c main_arg4 = _ from fa_4_3 m ρ c, show V3 m ρ c main_v9 = _ from fk_main_v9_3 m ρ c]
  exact (Cert.Layers.lay0 (argsK m c) i).symm
theorem fa_20_4 : W4 m ρ c (Proc.devRef .tc main_arg20) = (argsK m c).a20 :=
  (keep3 m ρ c main_arg20 (by decide)).trans (fa_20_3 m ρ c)
theorem fa_25_4 : W4 m ρ c (Proc.devRef .tc main_arg25) = (argsK m c).a25 :=
  (keep3 m ρ c main_arg25 (by decide)).trans (fa_25_3 m ρ c)
theorem fa_21_4 : W4 m ρ c (Proc.devRef .tc main_arg21) = (argsK m c).a21 :=
  (keep3 m ρ c main_arg21 (by decide)).trans (fa_21_3 m ρ c)
theorem fa_23_4 : W4 m ρ c (Proc.devRef .tc main_arg23) = (argsK m c).a23 :=
  (keep3 m ρ c main_arg23 (by decide)).trans (fa_23_3 m ρ c)
theorem fa_26_4 : W4 m ρ c (Proc.devRef .tc main_arg26) = (argsK m c).a26 :=
  (keep3 m ρ c main_arg26 (by decide)).trans (fa_26_3 m ρ c)
theorem fa_22_4 : W4 m ρ c (Proc.devRef .tc main_arg22) = (argsK m c).a22 :=
  (keep3 m ρ c main_arg22 (by decide)).trans (fa_22_3 m ρ c)
theorem fa_24_4 : W4 m ρ c (Proc.devRef .tc main_arg24) = (argsK m c).a24 :=
  (keep3 m ρ c main_arg24 (by decide)).trans (fa_24_3 m ρ c)
theorem fa_30_4 : W4 m ρ c (Proc.devRef .tc main_arg30) = (argsK m c).a30 :=
  (keep3 m ρ c main_arg30 (by decide)).trans (fa_30_3 m ρ c)
theorem fa_32_4 : W4 m ρ c (Proc.devRef .tc main_arg32) = (argsK m c).a32 :=
  (keep3 m ρ c main_arg32 (by decide)).trans (fa_32_3 m ρ c)
theorem fa_33_4 : W4 m ρ c (Proc.devRef .tc main_arg33) = (argsK m c).a33 :=
  (keep3 m ρ c main_arg33 (by decide)).trans (fa_33_3 m ρ c)
theorem fa_6_4 : W4 m ρ c (Proc.devRef .tc main_arg6) = (argsK m c).a6 :=
  (keep3 m ρ c main_arg6 (by decide)).trans (fa_6_3 m ρ c)
theorem fa_7_4 : W4 m ρ c (Proc.devRef .tc main_arg7) = (argsK m c).a7 :=
  (keep3 m ρ c main_arg7 (by decide)).trans (fa_7_3 m ρ c)
theorem fa_9_4 : W4 m ρ c (Proc.devRef .tc main_arg9) = (argsK m c).a9 :=
  (keep3 m ρ c main_arg9 (by decide)).trans (fa_9_3 m ρ c)
theorem fa_11_4 : W4 m ρ c (Proc.devRef .tc main_arg11) = (argsK m c).a11 :=
  (keep3 m ρ c main_arg11 (by decide)).trans (fa_11_3 m ρ c)
theorem fa_27_4 : W4 m ρ c (Proc.devRef .tc main_arg27) = (argsK m c).a27 :=
  (keep3 m ρ c main_arg27 (by decide)).trans (fa_27_3 m ρ c)
theorem fa_28_4 : W4 m ρ c (Proc.devRef .tc main_arg28) = (argsK m c).a28 :=
  (keep3 m ρ c main_arg28 (by decide)).trans (fa_28_3 m ρ c)
theorem fa_29_4 : W4 m ρ c (Proc.devRef .tc main_arg29) = (argsK m c).a29 :=
  (keep3 m ρ c main_arg29 (by decide)).trans (fa_29_3 m ρ c)
theorem fa_13_4 : W4 m ρ c (Proc.devRef .tc main_arg13) = (argsK m c).a13 :=
  (keep3 m ρ c main_arg13 (by decide)).trans (fa_13_3 m ρ c)
theorem fa_14_4 : W4 m ρ c (Proc.devRef .tc main_arg14) = (argsK m c).a14 :=
  (keep3 m ρ c main_arg14 (by decide)).trans (fa_14_3 m ρ c)
theorem fa_16_4 : W4 m ρ c (Proc.devRef .tc main_arg16) = (argsK m c).a16 :=
  (keep3 m ρ c main_arg16 (by decide)).trans (fa_16_3 m ρ c)
theorem fa_18_4 : W4 m ρ c (Proc.devRef .tc main_arg18) = (argsK m c).a18 :=
  (keep3 m ρ c main_arg18 (by decide)).trans (fa_18_3 m ρ c)
theorem fa_2_4 : W4 m ρ c (Proc.devRef .tc main_arg2) = (argsK m c).a2 :=
  (keep3 m ρ c main_arg2 (by decide)).trans (fa_2_3 m ρ c)
theorem fa_31_4 : W4 m ρ c (Proc.devRef .tc main_arg31) = (argsK m c).a31 :=
  (keep3 m ρ c main_arg31 (by decide)).trans (fa_31_3 m ρ c)
theorem fa_8_4 : W4 m ρ c (Proc.devRef .tc main_arg8) = (argsK m c).a8 :=
  (keep3 m ρ c main_arg8 (by decide)).trans (fa_8_3 m ρ c)
theorem fa_10_4 : W4 m ρ c (Proc.devRef .tc main_arg10) = (argsK m c).a10 :=
  (keep3 m ρ c main_arg10 (by decide)).trans (fa_10_3 m ρ c)
theorem fa_12_4 : W4 m ρ c (Proc.devRef .tc main_arg12) = (argsK m c).a12 :=
  (keep3 m ρ c main_arg12 (by decide)).trans (fa_12_3 m ρ c)
theorem fa_15_4 : W4 m ρ c (Proc.devRef .tc main_arg15) = (argsK m c).a15 :=
  (keep3 m ρ c main_arg15 (by decide)).trans (fa_15_3 m ρ c)
theorem fa_17_4 : W4 m ρ c (Proc.devRef .tc main_arg17) = (argsK m c).a17 :=
  (keep3 m ρ c main_arg17 (by decide)).trans (fa_17_3 m ρ c)
theorem fa_19_4 : W4 m ρ c (Proc.devRef .tc main_arg19) = (argsK m c).a19 :=
  (keep3 m ρ c main_arg19 (by decide)).trans (fa_19_3 m ρ c)
theorem fk_main_v1_4 : W4 m ρ c (Proc.devRef .tc main_v1) = Cert.Net.gv_0 (argsK m c) :=
  (keep3 m ρ c main_v1 (by decide)).trans (fk_main_v1_3 m ρ c)
theorem fk_main_v3_4 : W4 m ρ c (Proc.devRef .tc main_v3) = Cert.Net.gv_1 (argsK m c) :=
  (keep3 m ρ c main_v3 (by decide)).trans (fk_main_v3_3 m ρ c)
theorem fk_main_v6_4 : W4 m ρ c (Proc.devRef .tc main_v6) = Cert.Net.gv_3 (argsK m c) :=
  (keep3 m ρ c main_v6 (by decide)).trans (fk_main_v6_3 m ρ c)
theorem fk_main_v8_4 : W4 m ρ c (Proc.devRef .tc main_v8) = Cert.Net.gv_5 (argsK m c) :=
  (keep3 m ρ c main_v8 (by decide)).trans (fk_main_v8_3 m ρ c)
theorem fk'_main_v11 : StableHlo.after hostOps1 (W4 m ρ c) (Proc.devRef .tc main_v11) = Cert.Net.gv_7 (argsK m c) :=
  (K4_main_v11 (W4 m ρ c)).trans (by rfl)
theorem fk_main_v11_5 : W5 m ρ c (Proc.devRef .tc main_v11) = Cert.Net.gv_7 (argsK m c) := fk'_main_v11 m ρ c
theorem fk'_main_v12 : StableHlo.after hostOps1 (W4 m ρ c) (Proc.devRef .tc main_v12) = Cert.Net.gv_8 (argsK m c) :=
  (K4_main_v12 (W4 m ρ c)).trans (by rfl)
theorem fk_main_v12_5 : W5 m ρ c (Proc.devRef .tc main_v12) = Cert.Net.gv_8 (argsK m c) := fk'_main_v12 m ρ c
theorem fk'_main_v30 : StableHlo.after hostOps1 (W4 m ρ c) (Proc.devRef .tc main_v30) = Cert.Net.gv_9 (argsK m c) :=
  (K4_main_v30 (W4 m ρ c)).trans (by rw [fk_main_v3_4 m ρ c, fk_main_v10_4 m ρ c, fk_main_v1_4 m ρ c]; rfl)
theorem fk_main_v30_5 : W5 m ρ c (Proc.devRef .tc main_v30) = Cert.Net.gv_9 (argsK m c) := fk'_main_v30 m ρ c
theorem fk'_main_v32 : StableHlo.after hostOps1 (W4 m ρ c) (Proc.devRef .tc main_v32) = Cert.Net.gv_10 (argsK m c) :=
  (K4_main_v32 (W4 m ρ c)).trans (by rw [fa_6_4 m ρ c]; rfl)
theorem fk_main_v32_5 : W5 m ρ c (Proc.devRef .tc main_v32) = Cert.Net.gv_10 (argsK m c) := fk'_main_v32 m ρ c
theorem fk'_main_v34 : StableHlo.after hostOps1 (W4 m ρ c) (Proc.devRef .tc main_v34) = Cert.Net.gv_11 (argsK m c) :=
  (K4_main_v34 (W4 m ρ c)).trans (by rw [fa_7_4 m ρ c]; rfl)
theorem fk_main_v34_5 : W5 m ρ c (Proc.devRef .tc main_v34) = Cert.Net.gv_11 (argsK m c) := fk'_main_v34 m ρ c
theorem fk'_main_v36 : StableHlo.after hostOps1 (W4 m ρ c) (Proc.devRef .tc main_v36) = Cert.Net.gv_12 (argsK m c) :=
  (K4_main_v36 (W4 m ρ c)).trans (by rw [fa_8_4 m ρ c]; rfl)
theorem fk_main_v36_5 : W5 m ρ c (Proc.devRef .tc main_v36) = Cert.Net.gv_12 (argsK m c) := fk'_main_v36 m ρ c
theorem fk'_main_v37 : StableHlo.after hostOps1 (W4 m ρ c) (Proc.devRef .tc main_v37) = broadcastInDim Cert.ReferenceIdeal.S1x128 ![1] Cert.ReferenceIdeal.Gen.bcast_S128_S1x128_1 (Cert.Net.gv_12 (argsK m c)) :=
  (K4_main_v37 (W4 m ρ c)).trans (by rw [fk'_main_v36 m ρ c])
theorem fk_main_v37_5 : W5 m ρ c (Proc.devRef .tc main_v37) = broadcastInDim Cert.ReferenceIdeal.S1x128 ![1] Cert.ReferenceIdeal.Gen.bcast_S128_S1x128_1 (Cert.Net.gv_12 (argsK m c)) := fk'_main_v37 m ρ c
theorem fa_20_5 : W5 m ρ c (Proc.devRef .tc main_arg20) = (argsK m c).a20 :=
  (keep4 m ρ c main_arg20 (by decide)).trans (fa_20_4 m ρ c)
theorem fa_25_5 : W5 m ρ c (Proc.devRef .tc main_arg25) = (argsK m c).a25 :=
  (keep4 m ρ c main_arg25 (by decide)).trans (fa_25_4 m ρ c)
theorem fa_21_5 : W5 m ρ c (Proc.devRef .tc main_arg21) = (argsK m c).a21 :=
  (keep4 m ρ c main_arg21 (by decide)).trans (fa_21_4 m ρ c)
theorem fa_23_5 : W5 m ρ c (Proc.devRef .tc main_arg23) = (argsK m c).a23 :=
  (keep4 m ρ c main_arg23 (by decide)).trans (fa_23_4 m ρ c)
theorem fa_26_5 : W5 m ρ c (Proc.devRef .tc main_arg26) = (argsK m c).a26 :=
  (keep4 m ρ c main_arg26 (by decide)).trans (fa_26_4 m ρ c)
theorem fa_22_5 : W5 m ρ c (Proc.devRef .tc main_arg22) = (argsK m c).a22 :=
  (keep4 m ρ c main_arg22 (by decide)).trans (fa_22_4 m ρ c)
theorem fa_24_5 : W5 m ρ c (Proc.devRef .tc main_arg24) = (argsK m c).a24 :=
  (keep4 m ρ c main_arg24 (by decide)).trans (fa_24_4 m ρ c)
theorem fa_30_5 : W5 m ρ c (Proc.devRef .tc main_arg30) = (argsK m c).a30 :=
  (keep4 m ρ c main_arg30 (by decide)).trans (fa_30_4 m ρ c)
theorem fa_32_5 : W5 m ρ c (Proc.devRef .tc main_arg32) = (argsK m c).a32 :=
  (keep4 m ρ c main_arg32 (by decide)).trans (fa_32_4 m ρ c)
theorem fa_33_5 : W5 m ρ c (Proc.devRef .tc main_arg33) = (argsK m c).a33 :=
  (keep4 m ρ c main_arg33 (by decide)).trans (fa_33_4 m ρ c)
theorem fa_6_5 : W5 m ρ c (Proc.devRef .tc main_arg6) = (argsK m c).a6 :=
  (keep4 m ρ c main_arg6 (by decide)).trans (fa_6_4 m ρ c)
theorem fa_7_5 : W5 m ρ c (Proc.devRef .tc main_arg7) = (argsK m c).a7 :=
  (keep4 m ρ c main_arg7 (by decide)).trans (fa_7_4 m ρ c)
theorem fa_9_5 : W5 m ρ c (Proc.devRef .tc main_arg9) = (argsK m c).a9 :=
  (keep4 m ρ c main_arg9 (by decide)).trans (fa_9_4 m ρ c)
theorem fa_11_5 : W5 m ρ c (Proc.devRef .tc main_arg11) = (argsK m c).a11 :=
  (keep4 m ρ c main_arg11 (by decide)).trans (fa_11_4 m ρ c)
theorem fa_27_5 : W5 m ρ c (Proc.devRef .tc main_arg27) = (argsK m c).a27 :=
  (keep4 m ρ c main_arg27 (by decide)).trans (fa_27_4 m ρ c)
theorem fa_28_5 : W5 m ρ c (Proc.devRef .tc main_arg28) = (argsK m c).a28 :=
  (keep4 m ρ c main_arg28 (by decide)).trans (fa_28_4 m ρ c)
theorem fa_29_5 : W5 m ρ c (Proc.devRef .tc main_arg29) = (argsK m c).a29 :=
  (keep4 m ρ c main_arg29 (by decide)).trans (fa_29_4 m ρ c)
theorem fa_13_5 : W5 m ρ c (Proc.devRef .tc main_arg13) = (argsK m c).a13 :=
  (keep4 m ρ c main_arg13 (by decide)).trans (fa_13_4 m ρ c)
theorem fa_14_5 : W5 m ρ c (Proc.devRef .tc main_arg14) = (argsK m c).a14 :=
  (keep4 m ρ c main_arg14 (by decide)).trans (fa_14_4 m ρ c)
theorem fa_16_5 : W5 m ρ c (Proc.devRef .tc main_arg16) = (argsK m c).a16 :=
  (keep4 m ρ c main_arg16 (by decide)).trans (fa_16_4 m ρ c)
theorem fa_18_5 : W5 m ρ c (Proc.devRef .tc main_arg18) = (argsK m c).a18 :=
  (keep4 m ρ c main_arg18 (by decide)).trans (fa_18_4 m ρ c)
theorem fa_2_5 : W5 m ρ c (Proc.devRef .tc main_arg2) = (argsK m c).a2 :=
  (keep4 m ρ c main_arg2 (by decide)).trans (fa_2_4 m ρ c)
theorem fa_31_5 : W5 m ρ c (Proc.devRef .tc main_arg31) = (argsK m c).a31 :=
  (keep4 m ρ c main_arg31 (by decide)).trans (fa_31_4 m ρ c)
theorem fa_8_5 : W5 m ρ c (Proc.devRef .tc main_arg8) = (argsK m c).a8 :=
  (keep4 m ρ c main_arg8 (by decide)).trans (fa_8_4 m ρ c)
theorem fa_10_5 : W5 m ρ c (Proc.devRef .tc main_arg10) = (argsK m c).a10 :=
  (keep4 m ρ c main_arg10 (by decide)).trans (fa_10_4 m ρ c)
theorem fa_12_5 : W5 m ρ c (Proc.devRef .tc main_arg12) = (argsK m c).a12 :=
  (keep4 m ρ c main_arg12 (by decide)).trans (fa_12_4 m ρ c)
theorem fa_15_5 : W5 m ρ c (Proc.devRef .tc main_arg15) = (argsK m c).a15 :=
  (keep4 m ρ c main_arg15 (by decide)).trans (fa_15_4 m ρ c)
theorem fa_17_5 : W5 m ρ c (Proc.devRef .tc main_arg17) = (argsK m c).a17 :=
  (keep4 m ρ c main_arg17 (by decide)).trans (fa_17_4 m ρ c)
theorem fa_19_5 : W5 m ρ c (Proc.devRef .tc main_arg19) = (argsK m c).a19 :=
  (keep4 m ρ c main_arg19 (by decide)).trans (fa_19_4 m ρ c)
theorem fk_main_v1_5 : W5 m ρ c (Proc.devRef .tc main_v1) = Cert.Net.gv_0 (argsK m c) :=
  (keep4 m ρ c main_v1 (by decide)).trans (fk_main_v1_4 m ρ c)
theorem fk_main_v3_5 : W5 m ρ c (Proc.devRef .tc main_v3) = Cert.Net.gv_1 (argsK m c) :=
  (keep4 m ρ c main_v3 (by decide)).trans (fk_main_v3_4 m ρ c)
theorem fk_main_v6_5 : W5 m ρ c (Proc.devRef .tc main_v6) = Cert.Net.gv_3 (argsK m c) :=
  (keep4 m ρ c main_v6 (by decide)).trans (fk_main_v6_4 m ρ c)
theorem fk_main_v8_5 : W5 m ρ c (Proc.devRef .tc main_v8) = Cert.Net.gv_5 (argsK m c) :=
  (keep4 m ρ c main_v8 (by decide)).trans (fk_main_v8_4 m ρ c)
theorem fk_main_v10_5 : W5 m ρ c (Proc.devRef .tc main_v10) = Cert.Net.gv_6 (argsK m c) :=
  (keep4 m ρ c main_v10 (by decide)).trans (fk_main_v10_4 m ρ c)
theorem fk_main_v38_6 : W6 m ρ c (Proc.devRef .tc main_v38) = Cert.Net.gv_13 (argsK m c) := by
  funext i
  refine (congrFun (W6_arr m ρ c 5) i).trans ?_
  refine (val1 (V5 m ρ) c i).trans ?_
  rw [show V5 m ρ c main_v10 = _ from fk_main_v10_5 m ρ c, show V5 m ρ c main_v30 = _ from fk_main_v30_5 m ρ c, show V5 m ρ c main_v32 = _ from fk_main_v32_5 m ρ c, show V5 m ρ c main_v34 = _ from fk_main_v34_5 m ρ c, show V5 m ρ c main_v37 = _ from fk_main_v37_5 m ρ c]
  exact (Cert.Layers.lay1 (argsK m c) i).symm
theorem fa_20_6 : W6 m ρ c (Proc.devRef .tc main_arg20) = (argsK m c).a20 :=
  (keep5 m ρ c main_arg20 (by decide)).trans (fa_20_5 m ρ c)
theorem fa_25_6 : W6 m ρ c (Proc.devRef .tc main_arg25) = (argsK m c).a25 :=
  (keep5 m ρ c main_arg25 (by decide)).trans (fa_25_5 m ρ c)
theorem fa_21_6 : W6 m ρ c (Proc.devRef .tc main_arg21) = (argsK m c).a21 :=
  (keep5 m ρ c main_arg21 (by decide)).trans (fa_21_5 m ρ c)
theorem fa_23_6 : W6 m ρ c (Proc.devRef .tc main_arg23) = (argsK m c).a23 :=
  (keep5 m ρ c main_arg23 (by decide)).trans (fa_23_5 m ρ c)
theorem fa_26_6 : W6 m ρ c (Proc.devRef .tc main_arg26) = (argsK m c).a26 :=
  (keep5 m ρ c main_arg26 (by decide)).trans (fa_26_5 m ρ c)
theorem fa_22_6 : W6 m ρ c (Proc.devRef .tc main_arg22) = (argsK m c).a22 :=
  (keep5 m ρ c main_arg22 (by decide)).trans (fa_22_5 m ρ c)
theorem fa_24_6 : W6 m ρ c (Proc.devRef .tc main_arg24) = (argsK m c).a24 :=
  (keep5 m ρ c main_arg24 (by decide)).trans (fa_24_5 m ρ c)
theorem fa_30_6 : W6 m ρ c (Proc.devRef .tc main_arg30) = (argsK m c).a30 :=
  (keep5 m ρ c main_arg30 (by decide)).trans (fa_30_5 m ρ c)
theorem fa_32_6 : W6 m ρ c (Proc.devRef .tc main_arg32) = (argsK m c).a32 :=
  (keep5 m ρ c main_arg32 (by decide)).trans (fa_32_5 m ρ c)
theorem fa_33_6 : W6 m ρ c (Proc.devRef .tc main_arg33) = (argsK m c).a33 :=
  (keep5 m ρ c main_arg33 (by decide)).trans (fa_33_5 m ρ c)
theorem fa_6_6 : W6 m ρ c (Proc.devRef .tc main_arg6) = (argsK m c).a6 :=
  (keep5 m ρ c main_arg6 (by decide)).trans (fa_6_5 m ρ c)
theorem fa_7_6 : W6 m ρ c (Proc.devRef .tc main_arg7) = (argsK m c).a7 :=
  (keep5 m ρ c main_arg7 (by decide)).trans (fa_7_5 m ρ c)
theorem fa_9_6 : W6 m ρ c (Proc.devRef .tc main_arg9) = (argsK m c).a9 :=
  (keep5 m ρ c main_arg9 (by decide)).trans (fa_9_5 m ρ c)
theorem fa_11_6 : W6 m ρ c (Proc.devRef .tc main_arg11) = (argsK m c).a11 :=
  (keep5 m ρ c main_arg11 (by decide)).trans (fa_11_5 m ρ c)
theorem fa_27_6 : W6 m ρ c (Proc.devRef .tc main_arg27) = (argsK m c).a27 :=
  (keep5 m ρ c main_arg27 (by decide)).trans (fa_27_5 m ρ c)
theorem fa_28_6 : W6 m ρ c (Proc.devRef .tc main_arg28) = (argsK m c).a28 :=
  (keep5 m ρ c main_arg28 (by decide)).trans (fa_28_5 m ρ c)
theorem fa_29_6 : W6 m ρ c (Proc.devRef .tc main_arg29) = (argsK m c).a29 :=
  (keep5 m ρ c main_arg29 (by decide)).trans (fa_29_5 m ρ c)
theorem fa_13_6 : W6 m ρ c (Proc.devRef .tc main_arg13) = (argsK m c).a13 :=
  (keep5 m ρ c main_arg13 (by decide)).trans (fa_13_5 m ρ c)
theorem fa_14_6 : W6 m ρ c (Proc.devRef .tc main_arg14) = (argsK m c).a14 :=
  (keep5 m ρ c main_arg14 (by decide)).trans (fa_14_5 m ρ c)
theorem fa_16_6 : W6 m ρ c (Proc.devRef .tc main_arg16) = (argsK m c).a16 :=
  (keep5 m ρ c main_arg16 (by decide)).trans (fa_16_5 m ρ c)
theorem fa_18_6 : W6 m ρ c (Proc.devRef .tc main_arg18) = (argsK m c).a18 :=
  (keep5 m ρ c main_arg18 (by decide)).trans (fa_18_5 m ρ c)
theorem fa_2_6 : W6 m ρ c (Proc.devRef .tc main_arg2) = (argsK m c).a2 :=
  (keep5 m ρ c main_arg2 (by decide)).trans (fa_2_5 m ρ c)
theorem fa_31_6 : W6 m ρ c (Proc.devRef .tc main_arg31) = (argsK m c).a31 :=
  (keep5 m ρ c main_arg31 (by decide)).trans (fa_31_5 m ρ c)
theorem fa_8_6 : W6 m ρ c (Proc.devRef .tc main_arg8) = (argsK m c).a8 :=
  (keep5 m ρ c main_arg8 (by decide)).trans (fa_8_5 m ρ c)
theorem fa_10_6 : W6 m ρ c (Proc.devRef .tc main_arg10) = (argsK m c).a10 :=
  (keep5 m ρ c main_arg10 (by decide)).trans (fa_10_5 m ρ c)
theorem fa_12_6 : W6 m ρ c (Proc.devRef .tc main_arg12) = (argsK m c).a12 :=
  (keep5 m ρ c main_arg12 (by decide)).trans (fa_12_5 m ρ c)
theorem fa_15_6 : W6 m ρ c (Proc.devRef .tc main_arg15) = (argsK m c).a15 :=
  (keep5 m ρ c main_arg15 (by decide)).trans (fa_15_5 m ρ c)
theorem fa_17_6 : W6 m ρ c (Proc.devRef .tc main_arg17) = (argsK m c).a17 :=
  (keep5 m ρ c main_arg17 (by decide)).trans (fa_17_5 m ρ c)
theorem fa_19_6 : W6 m ρ c (Proc.devRef .tc main_arg19) = (argsK m c).a19 :=
  (keep5 m ρ c main_arg19 (by decide)).trans (fa_19_5 m ρ c)
theorem fk_main_v1_6 : W6 m ρ c (Proc.devRef .tc main_v1) = Cert.Net.gv_0 (argsK m c) :=
  (keep5 m ρ c main_v1 (by decide)).trans (fk_main_v1_5 m ρ c)
theorem fk_main_v3_6 : W6 m ρ c (Proc.devRef .tc main_v3) = Cert.Net.gv_1 (argsK m c) :=
  (keep5 m ρ c main_v3 (by decide)).trans (fk_main_v3_5 m ρ c)
theorem fk_main_v6_6 : W6 m ρ c (Proc.devRef .tc main_v6) = Cert.Net.gv_3 (argsK m c) :=
  (keep5 m ρ c main_v6 (by decide)).trans (fk_main_v6_5 m ρ c)
theorem fk_main_v8_6 : W6 m ρ c (Proc.devRef .tc main_v8) = Cert.Net.gv_5 (argsK m c) :=
  (keep5 m ρ c main_v8 (by decide)).trans (fk_main_v8_5 m ρ c)
theorem fk_main_v11_6 : W6 m ρ c (Proc.devRef .tc main_v11) = Cert.Net.gv_7 (argsK m c) :=
  (keep5 m ρ c main_v11 (by decide)).trans (fk_main_v11_5 m ρ c)
theorem fk_main_v12_6 : W6 m ρ c (Proc.devRef .tc main_v12) = Cert.Net.gv_8 (argsK m c) :=
  (keep5 m ρ c main_v12 (by decide)).trans (fk_main_v12_5 m ρ c)
theorem fk'_main_v56 : StableHlo.after hostOps2 (W6 m ρ c) (Proc.devRef .tc main_v56) = Cert.Net.gv_14 (argsK m c) :=
  (K6_main_v56 (W6 m ρ c)).trans (by rw [fk_main_v3_6 m ρ c, fk_main_v38_6 m ρ c, fk_main_v1_6 m ρ c]; rfl)
theorem fk_main_v56_7 : W7 m ρ c (Proc.devRef .tc main_v56) = Cert.Net.gv_14 (argsK m c) := fk'_main_v56 m ρ c
theorem fk'_main_v58 : StableHlo.after hostOps2 (W6 m ρ c) (Proc.devRef .tc main_v58) = Cert.Net.gv_15 (argsK m c) :=
  (K6_main_v58 (W6 m ρ c)).trans (by rw [fa_6_6 m ρ c]; rfl)
theorem fk_main_v58_7 : W7 m ρ c (Proc.devRef .tc main_v58) = Cert.Net.gv_15 (argsK m c) := fk'_main_v58 m ρ c
theorem fk'_main_v60 : StableHlo.after hostOps2 (W6 m ρ c) (Proc.devRef .tc main_v60) = Cert.Net.gv_16 (argsK m c) :=
  (K6_main_v60 (W6 m ρ c)).trans (by rw [fa_7_6 m ρ c]; rfl)
theorem fk_main_v60_7 : W7 m ρ c (Proc.devRef .tc main_v60) = Cert.Net.gv_16 (argsK m c) := fk'_main_v60 m ρ c
theorem fk'_main_v62 : StableHlo.after hostOps2 (W6 m ρ c) (Proc.devRef .tc main_v62) = Cert.Net.gv_17 (argsK m c) :=
  (K6_main_v62 (W6 m ρ c)).trans (by rw [fa_8_6 m ρ c]; rfl)
theorem fk_main_v62_7 : W7 m ρ c (Proc.devRef .tc main_v62) = Cert.Net.gv_17 (argsK m c) := fk'_main_v62 m ρ c
theorem fk'_main_v63 : StableHlo.after hostOps2 (W6 m ρ c) (Proc.devRef .tc main_v63) = broadcastInDim Cert.ReferenceIdeal.S1x128 ![1] Cert.ReferenceIdeal.Gen.bcast_S128_S1x128_1 (Cert.Net.gv_17 (argsK m c)) :=
  (K6_main_v63 (W6 m ρ c)).trans (by rw [fk'_main_v62 m ρ c])
theorem fk_main_v63_7 : W7 m ρ c (Proc.devRef .tc main_v63) = broadcastInDim Cert.ReferenceIdeal.S1x128 ![1] Cert.ReferenceIdeal.Gen.bcast_S128_S1x128_1 (Cert.Net.gv_17 (argsK m c)) := fk'_main_v63 m ρ c
theorem fa_20_7 : W7 m ρ c (Proc.devRef .tc main_arg20) = (argsK m c).a20 :=
  (keep6 m ρ c main_arg20 (by decide)).trans (fa_20_6 m ρ c)
theorem fa_25_7 : W7 m ρ c (Proc.devRef .tc main_arg25) = (argsK m c).a25 :=
  (keep6 m ρ c main_arg25 (by decide)).trans (fa_25_6 m ρ c)
theorem fa_21_7 : W7 m ρ c (Proc.devRef .tc main_arg21) = (argsK m c).a21 :=
  (keep6 m ρ c main_arg21 (by decide)).trans (fa_21_6 m ρ c)
theorem fa_23_7 : W7 m ρ c (Proc.devRef .tc main_arg23) = (argsK m c).a23 :=
  (keep6 m ρ c main_arg23 (by decide)).trans (fa_23_6 m ρ c)
theorem fa_26_7 : W7 m ρ c (Proc.devRef .tc main_arg26) = (argsK m c).a26 :=
  (keep6 m ρ c main_arg26 (by decide)).trans (fa_26_6 m ρ c)
theorem fa_22_7 : W7 m ρ c (Proc.devRef .tc main_arg22) = (argsK m c).a22 :=
  (keep6 m ρ c main_arg22 (by decide)).trans (fa_22_6 m ρ c)
theorem fa_24_7 : W7 m ρ c (Proc.devRef .tc main_arg24) = (argsK m c).a24 :=
  (keep6 m ρ c main_arg24 (by decide)).trans (fa_24_6 m ρ c)
theorem fa_30_7 : W7 m ρ c (Proc.devRef .tc main_arg30) = (argsK m c).a30 :=
  (keep6 m ρ c main_arg30 (by decide)).trans (fa_30_6 m ρ c)
theorem fa_32_7 : W7 m ρ c (Proc.devRef .tc main_arg32) = (argsK m c).a32 :=
  (keep6 m ρ c main_arg32 (by decide)).trans (fa_32_6 m ρ c)
theorem fa_33_7 : W7 m ρ c (Proc.devRef .tc main_arg33) = (argsK m c).a33 :=
  (keep6 m ρ c main_arg33 (by decide)).trans (fa_33_6 m ρ c)
theorem fa_9_7 : W7 m ρ c (Proc.devRef .tc main_arg9) = (argsK m c).a9 :=
  (keep6 m ρ c main_arg9 (by decide)).trans (fa_9_6 m ρ c)
theorem fa_11_7 : W7 m ρ c (Proc.devRef .tc main_arg11) = (argsK m c).a11 :=
  (keep6 m ρ c main_arg11 (by decide)).trans (fa_11_6 m ρ c)
theorem fa_27_7 : W7 m ρ c (Proc.devRef .tc main_arg27) = (argsK m c).a27 :=
  (keep6 m ρ c main_arg27 (by decide)).trans (fa_27_6 m ρ c)
theorem fa_28_7 : W7 m ρ c (Proc.devRef .tc main_arg28) = (argsK m c).a28 :=
  (keep6 m ρ c main_arg28 (by decide)).trans (fa_28_6 m ρ c)
theorem fa_29_7 : W7 m ρ c (Proc.devRef .tc main_arg29) = (argsK m c).a29 :=
  (keep6 m ρ c main_arg29 (by decide)).trans (fa_29_6 m ρ c)
theorem fa_13_7 : W7 m ρ c (Proc.devRef .tc main_arg13) = (argsK m c).a13 :=
  (keep6 m ρ c main_arg13 (by decide)).trans (fa_13_6 m ρ c)
theorem fa_14_7 : W7 m ρ c (Proc.devRef .tc main_arg14) = (argsK m c).a14 :=
  (keep6 m ρ c main_arg14 (by decide)).trans (fa_14_6 m ρ c)
theorem fa_16_7 : W7 m ρ c (Proc.devRef .tc main_arg16) = (argsK m c).a16 :=
  (keep6 m ρ c main_arg16 (by decide)).trans (fa_16_6 m ρ c)
theorem fa_18_7 : W7 m ρ c (Proc.devRef .tc main_arg18) = (argsK m c).a18 :=
  (keep6 m ρ c main_arg18 (by decide)).trans (fa_18_6 m ρ c)
theorem fa_2_7 : W7 m ρ c (Proc.devRef .tc main_arg2) = (argsK m c).a2 :=
  (keep6 m ρ c main_arg2 (by decide)).trans (fa_2_6 m ρ c)
theorem fa_31_7 : W7 m ρ c (Proc.devRef .tc main_arg31) = (argsK m c).a31 :=
  (keep6 m ρ c main_arg31 (by decide)).trans (fa_31_6 m ρ c)
theorem fa_10_7 : W7 m ρ c (Proc.devRef .tc main_arg10) = (argsK m c).a10 :=
  (keep6 m ρ c main_arg10 (by decide)).trans (fa_10_6 m ρ c)
theorem fa_12_7 : W7 m ρ c (Proc.devRef .tc main_arg12) = (argsK m c).a12 :=
  (keep6 m ρ c main_arg12 (by decide)).trans (fa_12_6 m ρ c)
theorem fa_15_7 : W7 m ρ c (Proc.devRef .tc main_arg15) = (argsK m c).a15 :=
  (keep6 m ρ c main_arg15 (by decide)).trans (fa_15_6 m ρ c)
theorem fa_17_7 : W7 m ρ c (Proc.devRef .tc main_arg17) = (argsK m c).a17 :=
  (keep6 m ρ c main_arg17 (by decide)).trans (fa_17_6 m ρ c)
theorem fa_19_7 : W7 m ρ c (Proc.devRef .tc main_arg19) = (argsK m c).a19 :=
  (keep6 m ρ c main_arg19 (by decide)).trans (fa_19_6 m ρ c)
theorem fk_main_v1_7 : W7 m ρ c (Proc.devRef .tc main_v1) = Cert.Net.gv_0 (argsK m c) :=
  (keep6 m ρ c main_v1 (by decide)).trans (fk_main_v1_6 m ρ c)
theorem fk_main_v3_7 : W7 m ρ c (Proc.devRef .tc main_v3) = Cert.Net.gv_1 (argsK m c) :=
  (keep6 m ρ c main_v3 (by decide)).trans (fk_main_v3_6 m ρ c)
theorem fk_main_v6_7 : W7 m ρ c (Proc.devRef .tc main_v6) = Cert.Net.gv_3 (argsK m c) :=
  (keep6 m ρ c main_v6 (by decide)).trans (fk_main_v6_6 m ρ c)
theorem fk_main_v8_7 : W7 m ρ c (Proc.devRef .tc main_v8) = Cert.Net.gv_5 (argsK m c) :=
  (keep6 m ρ c main_v8 (by decide)).trans (fk_main_v8_6 m ρ c)
theorem fk_main_v11_7 : W7 m ρ c (Proc.devRef .tc main_v11) = Cert.Net.gv_7 (argsK m c) :=
  (keep6 m ρ c main_v11 (by decide)).trans (fk_main_v11_6 m ρ c)
theorem fk_main_v12_7 : W7 m ρ c (Proc.devRef .tc main_v12) = Cert.Net.gv_8 (argsK m c) :=
  (keep6 m ρ c main_v12 (by decide)).trans (fk_main_v12_6 m ρ c)
theorem fk_main_v38_7 : W7 m ρ c (Proc.devRef .tc main_v38) = Cert.Net.gv_13 (argsK m c) :=
  (keep6 m ρ c main_v38 (by decide)).trans (fk_main_v38_6 m ρ c)
theorem fk_main_v64_8 : W8 m ρ c (Proc.devRef .tc main_v64) = Cert.Net.gv_18 (argsK m c) := by
  funext i
  refine (congrFun (W8_arr m ρ c 5) i).trans ?_
  refine (val2 (V7 m ρ) c i).trans ?_
  rw [show V7 m ρ c main_v38 = _ from fk_main_v38_7 m ρ c, show V7 m ρ c main_v56 = _ from fk_main_v56_7 m ρ c, show V7 m ρ c main_v58 = _ from fk_main_v58_7 m ρ c, show V7 m ρ c main_v60 = _ from fk_main_v60_7 m ρ c, show V7 m ρ c main_v63 = _ from fk_main_v63_7 m ρ c]
  exact (Cert.Layers.lay2 (argsK m c) i).symm
theorem fa_20_8 : W8 m ρ c (Proc.devRef .tc main_arg20) = (argsK m c).a20 :=
  (keep7 m ρ c main_arg20 (by decide)).trans (fa_20_7 m ρ c)
theorem fa_25_8 : W8 m ρ c (Proc.devRef .tc main_arg25) = (argsK m c).a25 :=
  (keep7 m ρ c main_arg25 (by decide)).trans (fa_25_7 m ρ c)
theorem fa_21_8 : W8 m ρ c (Proc.devRef .tc main_arg21) = (argsK m c).a21 :=
  (keep7 m ρ c main_arg21 (by decide)).trans (fa_21_7 m ρ c)
theorem fa_23_8 : W8 m ρ c (Proc.devRef .tc main_arg23) = (argsK m c).a23 :=
  (keep7 m ρ c main_arg23 (by decide)).trans (fa_23_7 m ρ c)
theorem fa_26_8 : W8 m ρ c (Proc.devRef .tc main_arg26) = (argsK m c).a26 :=
  (keep7 m ρ c main_arg26 (by decide)).trans (fa_26_7 m ρ c)
theorem fa_22_8 : W8 m ρ c (Proc.devRef .tc main_arg22) = (argsK m c).a22 :=
  (keep7 m ρ c main_arg22 (by decide)).trans (fa_22_7 m ρ c)
theorem fa_24_8 : W8 m ρ c (Proc.devRef .tc main_arg24) = (argsK m c).a24 :=
  (keep7 m ρ c main_arg24 (by decide)).trans (fa_24_7 m ρ c)
theorem fa_30_8 : W8 m ρ c (Proc.devRef .tc main_arg30) = (argsK m c).a30 :=
  (keep7 m ρ c main_arg30 (by decide)).trans (fa_30_7 m ρ c)
theorem fa_32_8 : W8 m ρ c (Proc.devRef .tc main_arg32) = (argsK m c).a32 :=
  (keep7 m ρ c main_arg32 (by decide)).trans (fa_32_7 m ρ c)
theorem fa_33_8 : W8 m ρ c (Proc.devRef .tc main_arg33) = (argsK m c).a33 :=
  (keep7 m ρ c main_arg33 (by decide)).trans (fa_33_7 m ρ c)
theorem fa_9_8 : W8 m ρ c (Proc.devRef .tc main_arg9) = (argsK m c).a9 :=
  (keep7 m ρ c main_arg9 (by decide)).trans (fa_9_7 m ρ c)
theorem fa_11_8 : W8 m ρ c (Proc.devRef .tc main_arg11) = (argsK m c).a11 :=
  (keep7 m ρ c main_arg11 (by decide)).trans (fa_11_7 m ρ c)
theorem fa_27_8 : W8 m ρ c (Proc.devRef .tc main_arg27) = (argsK m c).a27 :=
  (keep7 m ρ c main_arg27 (by decide)).trans (fa_27_7 m ρ c)
theorem fa_28_8 : W8 m ρ c (Proc.devRef .tc main_arg28) = (argsK m c).a28 :=
  (keep7 m ρ c main_arg28 (by decide)).trans (fa_28_7 m ρ c)
theorem fa_29_8 : W8 m ρ c (Proc.devRef .tc main_arg29) = (argsK m c).a29 :=
  (keep7 m ρ c main_arg29 (by decide)).trans (fa_29_7 m ρ c)
theorem fa_13_8 : W8 m ρ c (Proc.devRef .tc main_arg13) = (argsK m c).a13 :=
  (keep7 m ρ c main_arg13 (by decide)).trans (fa_13_7 m ρ c)
theorem fa_14_8 : W8 m ρ c (Proc.devRef .tc main_arg14) = (argsK m c).a14 :=
  (keep7 m ρ c main_arg14 (by decide)).trans (fa_14_7 m ρ c)
theorem fa_16_8 : W8 m ρ c (Proc.devRef .tc main_arg16) = (argsK m c).a16 :=
  (keep7 m ρ c main_arg16 (by decide)).trans (fa_16_7 m ρ c)
theorem fa_18_8 : W8 m ρ c (Proc.devRef .tc main_arg18) = (argsK m c).a18 :=
  (keep7 m ρ c main_arg18 (by decide)).trans (fa_18_7 m ρ c)
theorem fa_2_8 : W8 m ρ c (Proc.devRef .tc main_arg2) = (argsK m c).a2 :=
  (keep7 m ρ c main_arg2 (by decide)).trans (fa_2_7 m ρ c)
theorem fa_31_8 : W8 m ρ c (Proc.devRef .tc main_arg31) = (argsK m c).a31 :=
  (keep7 m ρ c main_arg31 (by decide)).trans (fa_31_7 m ρ c)
theorem fa_10_8 : W8 m ρ c (Proc.devRef .tc main_arg10) = (argsK m c).a10 :=
  (keep7 m ρ c main_arg10 (by decide)).trans (fa_10_7 m ρ c)
theorem fa_12_8 : W8 m ρ c (Proc.devRef .tc main_arg12) = (argsK m c).a12 :=
  (keep7 m ρ c main_arg12 (by decide)).trans (fa_12_7 m ρ c)
theorem fa_15_8 : W8 m ρ c (Proc.devRef .tc main_arg15) = (argsK m c).a15 :=
  (keep7 m ρ c main_arg15 (by decide)).trans (fa_15_7 m ρ c)
theorem fa_17_8 : W8 m ρ c (Proc.devRef .tc main_arg17) = (argsK m c).a17 :=
  (keep7 m ρ c main_arg17 (by decide)).trans (fa_17_7 m ρ c)
theorem fa_19_8 : W8 m ρ c (Proc.devRef .tc main_arg19) = (argsK m c).a19 :=
  (keep7 m ρ c main_arg19 (by decide)).trans (fa_19_7 m ρ c)
theorem fk_main_v1_8 : W8 m ρ c (Proc.devRef .tc main_v1) = Cert.Net.gv_0 (argsK m c) :=
  (keep7 m ρ c main_v1 (by decide)).trans (fk_main_v1_7 m ρ c)
theorem fk_main_v3_8 : W8 m ρ c (Proc.devRef .tc main_v3) = Cert.Net.gv_1 (argsK m c) :=
  (keep7 m ρ c main_v3 (by decide)).trans (fk_main_v3_7 m ρ c)
theorem fk_main_v6_8 : W8 m ρ c (Proc.devRef .tc main_v6) = Cert.Net.gv_3 (argsK m c) :=
  (keep7 m ρ c main_v6 (by decide)).trans (fk_main_v6_7 m ρ c)
theorem fk_main_v8_8 : W8 m ρ c (Proc.devRef .tc main_v8) = Cert.Net.gv_5 (argsK m c) :=
  (keep7 m ρ c main_v8 (by decide)).trans (fk_main_v8_7 m ρ c)
theorem fk_main_v11_8 : W8 m ρ c (Proc.devRef .tc main_v11) = Cert.Net.gv_7 (argsK m c) :=
  (keep7 m ρ c main_v11 (by decide)).trans (fk_main_v11_7 m ρ c)
theorem fk_main_v12_8 : W8 m ρ c (Proc.devRef .tc main_v12) = Cert.Net.gv_8 (argsK m c) :=
  (keep7 m ρ c main_v12 (by decide)).trans (fk_main_v12_7 m ρ c)
theorem fk'_main_v66 : StableHlo.after hostOps3 (W8 m ρ c) (Proc.devRef .tc main_v66) = Cert.Net.gv_19 (argsK m c) :=
  (K8_main_v66 (W8 m ρ c)).trans (by rw [fa_9_8 m ρ c]; rfl)
theorem fk_main_v66_9 : W9 m ρ c (Proc.devRef .tc main_v66) = Cert.Net.gv_19 (argsK m c) := fk'_main_v66 m ρ c
theorem fk'_main_v68 : StableHlo.after hostOps3 (W8 m ρ c) (Proc.devRef .tc main_v68) = Cert.Net.gv_20 (argsK m c) :=
  (K8_main_v68 (W8 m ρ c)).trans (by rw [fa_10_8 m ρ c]; rfl)
theorem fk_main_v68_9 : W9 m ρ c (Proc.devRef .tc main_v68) = Cert.Net.gv_20 (argsK m c) := fk'_main_v68 m ρ c
theorem fk'_main_v69 : StableHlo.after hostOps3 (W8 m ρ c) (Proc.devRef .tc main_v69) = broadcastInDim Cert.ReferenceIdeal.S1x128 ![1] Cert.ReferenceIdeal.Gen.bcast_S128_S1x128_1 (Cert.Net.gv_20 (argsK m c)) :=
  (K8_main_v69 (W8 m ρ c)).trans (by rw [fk'_main_v68 m ρ c])
theorem fk_main_v69_9 : W9 m ρ c (Proc.devRef .tc main_v69) = broadcastInDim Cert.ReferenceIdeal.S1x128 ![1] Cert.ReferenceIdeal.Gen.bcast_S128_S1x128_1 (Cert.Net.gv_20 (argsK m c)) := fk'_main_v69 m ρ c
theorem fa_20_9 : W9 m ρ c (Proc.devRef .tc main_arg20) = (argsK m c).a20 :=
  (keep8 m ρ c main_arg20 (by decide)).trans (fa_20_8 m ρ c)
theorem fa_25_9 : W9 m ρ c (Proc.devRef .tc main_arg25) = (argsK m c).a25 :=
  (keep8 m ρ c main_arg25 (by decide)).trans (fa_25_8 m ρ c)
theorem fa_21_9 : W9 m ρ c (Proc.devRef .tc main_arg21) = (argsK m c).a21 :=
  (keep8 m ρ c main_arg21 (by decide)).trans (fa_21_8 m ρ c)
theorem fa_23_9 : W9 m ρ c (Proc.devRef .tc main_arg23) = (argsK m c).a23 :=
  (keep8 m ρ c main_arg23 (by decide)).trans (fa_23_8 m ρ c)
theorem fa_26_9 : W9 m ρ c (Proc.devRef .tc main_arg26) = (argsK m c).a26 :=
  (keep8 m ρ c main_arg26 (by decide)).trans (fa_26_8 m ρ c)
theorem fa_22_9 : W9 m ρ c (Proc.devRef .tc main_arg22) = (argsK m c).a22 :=
  (keep8 m ρ c main_arg22 (by decide)).trans (fa_22_8 m ρ c)
theorem fa_24_9 : W9 m ρ c (Proc.devRef .tc main_arg24) = (argsK m c).a24 :=
  (keep8 m ρ c main_arg24 (by decide)).trans (fa_24_8 m ρ c)
theorem fa_30_9 : W9 m ρ c (Proc.devRef .tc main_arg30) = (argsK m c).a30 :=
  (keep8 m ρ c main_arg30 (by decide)).trans (fa_30_8 m ρ c)
theorem fa_32_9 : W9 m ρ c (Proc.devRef .tc main_arg32) = (argsK m c).a32 :=
  (keep8 m ρ c main_arg32 (by decide)).trans (fa_32_8 m ρ c)
theorem fa_33_9 : W9 m ρ c (Proc.devRef .tc main_arg33) = (argsK m c).a33 :=
  (keep8 m ρ c main_arg33 (by decide)).trans (fa_33_8 m ρ c)
theorem fa_9_9 : W9 m ρ c (Proc.devRef .tc main_arg9) = (argsK m c).a9 :=
  (keep8 m ρ c main_arg9 (by decide)).trans (fa_9_8 m ρ c)
theorem fa_11_9 : W9 m ρ c (Proc.devRef .tc main_arg11) = (argsK m c).a11 :=
  (keep8 m ρ c main_arg11 (by decide)).trans (fa_11_8 m ρ c)
theorem fa_27_9 : W9 m ρ c (Proc.devRef .tc main_arg27) = (argsK m c).a27 :=
  (keep8 m ρ c main_arg27 (by decide)).trans (fa_27_8 m ρ c)
theorem fa_28_9 : W9 m ρ c (Proc.devRef .tc main_arg28) = (argsK m c).a28 :=
  (keep8 m ρ c main_arg28 (by decide)).trans (fa_28_8 m ρ c)
theorem fa_29_9 : W9 m ρ c (Proc.devRef .tc main_arg29) = (argsK m c).a29 :=
  (keep8 m ρ c main_arg29 (by decide)).trans (fa_29_8 m ρ c)
theorem fa_13_9 : W9 m ρ c (Proc.devRef .tc main_arg13) = (argsK m c).a13 :=
  (keep8 m ρ c main_arg13 (by decide)).trans (fa_13_8 m ρ c)
theorem fa_14_9 : W9 m ρ c (Proc.devRef .tc main_arg14) = (argsK m c).a14 :=
  (keep8 m ρ c main_arg14 (by decide)).trans (fa_14_8 m ρ c)
theorem fa_16_9 : W9 m ρ c (Proc.devRef .tc main_arg16) = (argsK m c).a16 :=
  (keep8 m ρ c main_arg16 (by decide)).trans (fa_16_8 m ρ c)
theorem fa_18_9 : W9 m ρ c (Proc.devRef .tc main_arg18) = (argsK m c).a18 :=
  (keep8 m ρ c main_arg18 (by decide)).trans (fa_18_8 m ρ c)
theorem fa_2_9 : W9 m ρ c (Proc.devRef .tc main_arg2) = (argsK m c).a2 :=
  (keep8 m ρ c main_arg2 (by decide)).trans (fa_2_8 m ρ c)
theorem fa_31_9 : W9 m ρ c (Proc.devRef .tc main_arg31) = (argsK m c).a31 :=
  (keep8 m ρ c main_arg31 (by decide)).trans (fa_31_8 m ρ c)
theorem fa_10_9 : W9 m ρ c (Proc.devRef .tc main_arg10) = (argsK m c).a10 :=
  (keep8 m ρ c main_arg10 (by decide)).trans (fa_10_8 m ρ c)
theorem fa_12_9 : W9 m ρ c (Proc.devRef .tc main_arg12) = (argsK m c).a12 :=
  (keep8 m ρ c main_arg12 (by decide)).trans (fa_12_8 m ρ c)
theorem fa_15_9 : W9 m ρ c (Proc.devRef .tc main_arg15) = (argsK m c).a15 :=
  (keep8 m ρ c main_arg15 (by decide)).trans (fa_15_8 m ρ c)
theorem fa_17_9 : W9 m ρ c (Proc.devRef .tc main_arg17) = (argsK m c).a17 :=
  (keep8 m ρ c main_arg17 (by decide)).trans (fa_17_8 m ρ c)
theorem fa_19_9 : W9 m ρ c (Proc.devRef .tc main_arg19) = (argsK m c).a19 :=
  (keep8 m ρ c main_arg19 (by decide)).trans (fa_19_8 m ρ c)
theorem fk_main_v1_9 : W9 m ρ c (Proc.devRef .tc main_v1) = Cert.Net.gv_0 (argsK m c) :=
  (keep8 m ρ c main_v1 (by decide)).trans (fk_main_v1_8 m ρ c)
theorem fk_main_v3_9 : W9 m ρ c (Proc.devRef .tc main_v3) = Cert.Net.gv_1 (argsK m c) :=
  (keep8 m ρ c main_v3 (by decide)).trans (fk_main_v3_8 m ρ c)
theorem fk_main_v6_9 : W9 m ρ c (Proc.devRef .tc main_v6) = Cert.Net.gv_3 (argsK m c) :=
  (keep8 m ρ c main_v6 (by decide)).trans (fk_main_v6_8 m ρ c)
theorem fk_main_v8_9 : W9 m ρ c (Proc.devRef .tc main_v8) = Cert.Net.gv_5 (argsK m c) :=
  (keep8 m ρ c main_v8 (by decide)).trans (fk_main_v8_8 m ρ c)
theorem fk_main_v11_9 : W9 m ρ c (Proc.devRef .tc main_v11) = Cert.Net.gv_7 (argsK m c) :=
  (keep8 m ρ c main_v11 (by decide)).trans (fk_main_v11_8 m ρ c)
theorem fk_main_v12_9 : W9 m ρ c (Proc.devRef .tc main_v12) = Cert.Net.gv_8 (argsK m c) :=
  (keep8 m ρ c main_v12 (by decide)).trans (fk_main_v12_8 m ρ c)
theorem fk_main_v64_9 : W9 m ρ c (Proc.devRef .tc main_v64) = Cert.Net.gv_18 (argsK m c) :=
  (keep8 m ρ c main_v64 (by decide)).trans (fk_main_v64_8 m ρ c)
theorem fk_main_v70_10 : W10 m ρ c (Proc.devRef .tc main_v70) = Cert.Net.gv_21 (argsK m c) := by
  funext i
  refine (congrFun (W10_arr m ρ c 3) i).trans ?_
  refine (val3 (V9 m ρ) c i).trans ?_
  rw [show V9 m ρ c main_v11 = _ from fk_main_v11_9 m ρ c, show V9 m ρ c main_v66 = _ from fk_main_v66_9 m ρ c, show V9 m ρ c main_v69 = _ from fk_main_v69_9 m ρ c]
  exact (Cert.Layers.lay3 (argsK m c) i).symm
theorem fa_20_10 : W10 m ρ c (Proc.devRef .tc main_arg20) = (argsK m c).a20 :=
  (keep9 m ρ c main_arg20 (by decide)).trans (fa_20_9 m ρ c)
theorem fa_25_10 : W10 m ρ c (Proc.devRef .tc main_arg25) = (argsK m c).a25 :=
  (keep9 m ρ c main_arg25 (by decide)).trans (fa_25_9 m ρ c)
theorem fa_21_10 : W10 m ρ c (Proc.devRef .tc main_arg21) = (argsK m c).a21 :=
  (keep9 m ρ c main_arg21 (by decide)).trans (fa_21_9 m ρ c)
theorem fa_23_10 : W10 m ρ c (Proc.devRef .tc main_arg23) = (argsK m c).a23 :=
  (keep9 m ρ c main_arg23 (by decide)).trans (fa_23_9 m ρ c)
theorem fa_26_10 : W10 m ρ c (Proc.devRef .tc main_arg26) = (argsK m c).a26 :=
  (keep9 m ρ c main_arg26 (by decide)).trans (fa_26_9 m ρ c)
theorem fa_22_10 : W10 m ρ c (Proc.devRef .tc main_arg22) = (argsK m c).a22 :=
  (keep9 m ρ c main_arg22 (by decide)).trans (fa_22_9 m ρ c)
theorem fa_24_10 : W10 m ρ c (Proc.devRef .tc main_arg24) = (argsK m c).a24 :=
  (keep9 m ρ c main_arg24 (by decide)).trans (fa_24_9 m ρ c)
theorem fa_30_10 : W10 m ρ c (Proc.devRef .tc main_arg30) = (argsK m c).a30 :=
  (keep9 m ρ c main_arg30 (by decide)).trans (fa_30_9 m ρ c)
theorem fa_32_10 : W10 m ρ c (Proc.devRef .tc main_arg32) = (argsK m c).a32 :=
  (keep9 m ρ c main_arg32 (by decide)).trans (fa_32_9 m ρ c)
theorem fa_33_10 : W10 m ρ c (Proc.devRef .tc main_arg33) = (argsK m c).a33 :=
  (keep9 m ρ c main_arg33 (by decide)).trans (fa_33_9 m ρ c)
theorem fa_9_10 : W10 m ρ c (Proc.devRef .tc main_arg9) = (argsK m c).a9 :=
  (keep9 m ρ c main_arg9 (by decide)).trans (fa_9_9 m ρ c)
theorem fa_11_10 : W10 m ρ c (Proc.devRef .tc main_arg11) = (argsK m c).a11 :=
  (keep9 m ρ c main_arg11 (by decide)).trans (fa_11_9 m ρ c)
theorem fa_27_10 : W10 m ρ c (Proc.devRef .tc main_arg27) = (argsK m c).a27 :=
  (keep9 m ρ c main_arg27 (by decide)).trans (fa_27_9 m ρ c)
theorem fa_28_10 : W10 m ρ c (Proc.devRef .tc main_arg28) = (argsK m c).a28 :=
  (keep9 m ρ c main_arg28 (by decide)).trans (fa_28_9 m ρ c)
theorem fa_29_10 : W10 m ρ c (Proc.devRef .tc main_arg29) = (argsK m c).a29 :=
  (keep9 m ρ c main_arg29 (by decide)).trans (fa_29_9 m ρ c)
theorem fa_13_10 : W10 m ρ c (Proc.devRef .tc main_arg13) = (argsK m c).a13 :=
  (keep9 m ρ c main_arg13 (by decide)).trans (fa_13_9 m ρ c)
theorem fa_14_10 : W10 m ρ c (Proc.devRef .tc main_arg14) = (argsK m c).a14 :=
  (keep9 m ρ c main_arg14 (by decide)).trans (fa_14_9 m ρ c)
theorem fa_16_10 : W10 m ρ c (Proc.devRef .tc main_arg16) = (argsK m c).a16 :=
  (keep9 m ρ c main_arg16 (by decide)).trans (fa_16_9 m ρ c)
theorem fa_18_10 : W10 m ρ c (Proc.devRef .tc main_arg18) = (argsK m c).a18 :=
  (keep9 m ρ c main_arg18 (by decide)).trans (fa_18_9 m ρ c)
theorem fa_2_10 : W10 m ρ c (Proc.devRef .tc main_arg2) = (argsK m c).a2 :=
  (keep9 m ρ c main_arg2 (by decide)).trans (fa_2_9 m ρ c)
theorem fa_31_10 : W10 m ρ c (Proc.devRef .tc main_arg31) = (argsK m c).a31 :=
  (keep9 m ρ c main_arg31 (by decide)).trans (fa_31_9 m ρ c)
theorem fa_10_10 : W10 m ρ c (Proc.devRef .tc main_arg10) = (argsK m c).a10 :=
  (keep9 m ρ c main_arg10 (by decide)).trans (fa_10_9 m ρ c)
theorem fa_12_10 : W10 m ρ c (Proc.devRef .tc main_arg12) = (argsK m c).a12 :=
  (keep9 m ρ c main_arg12 (by decide)).trans (fa_12_9 m ρ c)
theorem fa_15_10 : W10 m ρ c (Proc.devRef .tc main_arg15) = (argsK m c).a15 :=
  (keep9 m ρ c main_arg15 (by decide)).trans (fa_15_9 m ρ c)
theorem fa_17_10 : W10 m ρ c (Proc.devRef .tc main_arg17) = (argsK m c).a17 :=
  (keep9 m ρ c main_arg17 (by decide)).trans (fa_17_9 m ρ c)
theorem fa_19_10 : W10 m ρ c (Proc.devRef .tc main_arg19) = (argsK m c).a19 :=
  (keep9 m ρ c main_arg19 (by decide)).trans (fa_19_9 m ρ c)
theorem fk_main_v1_10 : W10 m ρ c (Proc.devRef .tc main_v1) = Cert.Net.gv_0 (argsK m c) :=
  (keep9 m ρ c main_v1 (by decide)).trans (fk_main_v1_9 m ρ c)
theorem fk_main_v3_10 : W10 m ρ c (Proc.devRef .tc main_v3) = Cert.Net.gv_1 (argsK m c) :=
  (keep9 m ρ c main_v3 (by decide)).trans (fk_main_v3_9 m ρ c)
theorem fk_main_v6_10 : W10 m ρ c (Proc.devRef .tc main_v6) = Cert.Net.gv_3 (argsK m c) :=
  (keep9 m ρ c main_v6 (by decide)).trans (fk_main_v6_9 m ρ c)
theorem fk_main_v8_10 : W10 m ρ c (Proc.devRef .tc main_v8) = Cert.Net.gv_5 (argsK m c) :=
  (keep9 m ρ c main_v8 (by decide)).trans (fk_main_v8_9 m ρ c)
theorem fk_main_v12_10 : W10 m ρ c (Proc.devRef .tc main_v12) = Cert.Net.gv_8 (argsK m c) :=
  (keep9 m ρ c main_v12 (by decide)).trans (fk_main_v12_9 m ρ c)
theorem fk_main_v64_10 : W10 m ρ c (Proc.devRef .tc main_v64) = Cert.Net.gv_18 (argsK m c) :=
  (keep9 m ρ c main_v64 (by decide)).trans (fk_main_v64_9 m ρ c)
theorem fk'_main_v72 : StableHlo.after hostOps4 (W10 m ρ c) (Proc.devRef .tc main_v72) = Cert.Net.gv_22 (argsK m c) :=
  (K10_main_v72 (W10 m ρ c)).trans (by rw [fa_9_10 m ρ c]; rfl)
theorem fk_main_v72_11 : W11 m ρ c (Proc.devRef .tc main_v72) = Cert.Net.gv_22 (argsK m c) := fk'_main_v72 m ρ c
theorem fk'_main_v74 : StableHlo.after hostOps4 (W10 m ρ c) (Proc.devRef .tc main_v74) = Cert.Net.gv_23 (argsK m c) :=
  (K10_main_v74 (W10 m ρ c)).trans (by rw [fa_10_10 m ρ c]; rfl)
theorem fk_main_v74_11 : W11 m ρ c (Proc.devRef .tc main_v74) = Cert.Net.gv_23 (argsK m c) := fk'_main_v74 m ρ c
theorem fk'_main_v75 : StableHlo.after hostOps4 (W10 m ρ c) (Proc.devRef .tc main_v75) = broadcastInDim Cert.ReferenceIdeal.S1x128 ![1] Cert.ReferenceIdeal.Gen.bcast_S128_S1x128_1 (Cert.Net.gv_23 (argsK m c)) :=
  (K10_main_v75 (W10 m ρ c)).trans (by rw [fk'_main_v74 m ρ c])
theorem fk_main_v75_11 : W11 m ρ c (Proc.devRef .tc main_v75) = broadcastInDim Cert.ReferenceIdeal.S1x128 ![1] Cert.ReferenceIdeal.Gen.bcast_S128_S1x128_1 (Cert.Net.gv_23 (argsK m c)) := fk'_main_v75 m ρ c
theorem fa_20_11 : W11 m ρ c (Proc.devRef .tc main_arg20) = (argsK m c).a20 :=
  (keep10 m ρ c main_arg20 (by decide)).trans (fa_20_10 m ρ c)
theorem fa_25_11 : W11 m ρ c (Proc.devRef .tc main_arg25) = (argsK m c).a25 :=
  (keep10 m ρ c main_arg25 (by decide)).trans (fa_25_10 m ρ c)
theorem fa_21_11 : W11 m ρ c (Proc.devRef .tc main_arg21) = (argsK m c).a21 :=
  (keep10 m ρ c main_arg21 (by decide)).trans (fa_21_10 m ρ c)
theorem fa_23_11 : W11 m ρ c (Proc.devRef .tc main_arg23) = (argsK m c).a23 :=
  (keep10 m ρ c main_arg23 (by decide)).trans (fa_23_10 m ρ c)
theorem fa_26_11 : W11 m ρ c (Proc.devRef .tc main_arg26) = (argsK m c).a26 :=
  (keep10 m ρ c main_arg26 (by decide)).trans (fa_26_10 m ρ c)
theorem fa_22_11 : W11 m ρ c (Proc.devRef .tc main_arg22) = (argsK m c).a22 :=
  (keep10 m ρ c main_arg22 (by decide)).trans (fa_22_10 m ρ c)
theorem fa_24_11 : W11 m ρ c (Proc.devRef .tc main_arg24) = (argsK m c).a24 :=
  (keep10 m ρ c main_arg24 (by decide)).trans (fa_24_10 m ρ c)
theorem fa_30_11 : W11 m ρ c (Proc.devRef .tc main_arg30) = (argsK m c).a30 :=
  (keep10 m ρ c main_arg30 (by decide)).trans (fa_30_10 m ρ c)
theorem fa_32_11 : W11 m ρ c (Proc.devRef .tc main_arg32) = (argsK m c).a32 :=
  (keep10 m ρ c main_arg32 (by decide)).trans (fa_32_10 m ρ c)
theorem fa_33_11 : W11 m ρ c (Proc.devRef .tc main_arg33) = (argsK m c).a33 :=
  (keep10 m ρ c main_arg33 (by decide)).trans (fa_33_10 m ρ c)
theorem fa_11_11 : W11 m ρ c (Proc.devRef .tc main_arg11) = (argsK m c).a11 :=
  (keep10 m ρ c main_arg11 (by decide)).trans (fa_11_10 m ρ c)
theorem fa_27_11 : W11 m ρ c (Proc.devRef .tc main_arg27) = (argsK m c).a27 :=
  (keep10 m ρ c main_arg27 (by decide)).trans (fa_27_10 m ρ c)
theorem fa_28_11 : W11 m ρ c (Proc.devRef .tc main_arg28) = (argsK m c).a28 :=
  (keep10 m ρ c main_arg28 (by decide)).trans (fa_28_10 m ρ c)
theorem fa_29_11 : W11 m ρ c (Proc.devRef .tc main_arg29) = (argsK m c).a29 :=
  (keep10 m ρ c main_arg29 (by decide)).trans (fa_29_10 m ρ c)
theorem fa_13_11 : W11 m ρ c (Proc.devRef .tc main_arg13) = (argsK m c).a13 :=
  (keep10 m ρ c main_arg13 (by decide)).trans (fa_13_10 m ρ c)
theorem fa_14_11 : W11 m ρ c (Proc.devRef .tc main_arg14) = (argsK m c).a14 :=
  (keep10 m ρ c main_arg14 (by decide)).trans (fa_14_10 m ρ c)
theorem fa_16_11 : W11 m ρ c (Proc.devRef .tc main_arg16) = (argsK m c).a16 :=
  (keep10 m ρ c main_arg16 (by decide)).trans (fa_16_10 m ρ c)
theorem fa_18_11 : W11 m ρ c (Proc.devRef .tc main_arg18) = (argsK m c).a18 :=
  (keep10 m ρ c main_arg18 (by decide)).trans (fa_18_10 m ρ c)
theorem fa_2_11 : W11 m ρ c (Proc.devRef .tc main_arg2) = (argsK m c).a2 :=
  (keep10 m ρ c main_arg2 (by decide)).trans (fa_2_10 m ρ c)
theorem fa_31_11 : W11 m ρ c (Proc.devRef .tc main_arg31) = (argsK m c).a31 :=
  (keep10 m ρ c main_arg31 (by decide)).trans (fa_31_10 m ρ c)
theorem fa_12_11 : W11 m ρ c (Proc.devRef .tc main_arg12) = (argsK m c).a12 :=
  (keep10 m ρ c main_arg12 (by decide)).trans (fa_12_10 m ρ c)
theorem fa_15_11 : W11 m ρ c (Proc.devRef .tc main_arg15) = (argsK m c).a15 :=
  (keep10 m ρ c main_arg15 (by decide)).trans (fa_15_10 m ρ c)
theorem fa_17_11 : W11 m ρ c (Proc.devRef .tc main_arg17) = (argsK m c).a17 :=
  (keep10 m ρ c main_arg17 (by decide)).trans (fa_17_10 m ρ c)
theorem fa_19_11 : W11 m ρ c (Proc.devRef .tc main_arg19) = (argsK m c).a19 :=
  (keep10 m ρ c main_arg19 (by decide)).trans (fa_19_10 m ρ c)
theorem fk_main_v1_11 : W11 m ρ c (Proc.devRef .tc main_v1) = Cert.Net.gv_0 (argsK m c) :=
  (keep10 m ρ c main_v1 (by decide)).trans (fk_main_v1_10 m ρ c)
theorem fk_main_v3_11 : W11 m ρ c (Proc.devRef .tc main_v3) = Cert.Net.gv_1 (argsK m c) :=
  (keep10 m ρ c main_v3 (by decide)).trans (fk_main_v3_10 m ρ c)
theorem fk_main_v6_11 : W11 m ρ c (Proc.devRef .tc main_v6) = Cert.Net.gv_3 (argsK m c) :=
  (keep10 m ρ c main_v6 (by decide)).trans (fk_main_v6_10 m ρ c)
theorem fk_main_v8_11 : W11 m ρ c (Proc.devRef .tc main_v8) = Cert.Net.gv_5 (argsK m c) :=
  (keep10 m ρ c main_v8 (by decide)).trans (fk_main_v8_10 m ρ c)
theorem fk_main_v12_11 : W11 m ρ c (Proc.devRef .tc main_v12) = Cert.Net.gv_8 (argsK m c) :=
  (keep10 m ρ c main_v12 (by decide)).trans (fk_main_v12_10 m ρ c)
theorem fk_main_v64_11 : W11 m ρ c (Proc.devRef .tc main_v64) = Cert.Net.gv_18 (argsK m c) :=
  (keep10 m ρ c main_v64 (by decide)).trans (fk_main_v64_10 m ρ c)
theorem fk_main_v70_11 : W11 m ρ c (Proc.devRef .tc main_v70) = Cert.Net.gv_21 (argsK m c) :=
  (keep10 m ρ c main_v70 (by decide)).trans (fk_main_v70_10 m ρ c)
theorem fk_main_v76_12 : W12 m ρ c (Proc.devRef .tc main_v76) = Cert.Net.gv_24 (argsK m c) := by
  funext i
  refine (congrFun (W12_arr m ρ c 3) i).trans ?_
  refine (val4 (V11 m ρ) c i).trans ?_
  rw [show V11 m ρ c main_v70 = _ from fk_main_v70_11 m ρ c, show V11 m ρ c main_v72 = _ from fk_main_v72_11 m ρ c, show V11 m ρ c main_v75 = _ from fk_main_v75_11 m ρ c]
  exact (Cert.Layers.lay4 (argsK m c) i).symm
theorem fa_20_12 : W12 m ρ c (Proc.devRef .tc main_arg20) = (argsK m c).a20 :=
  (keep11 m ρ c main_arg20 (by decide)).trans (fa_20_11 m ρ c)
theorem fa_25_12 : W12 m ρ c (Proc.devRef .tc main_arg25) = (argsK m c).a25 :=
  (keep11 m ρ c main_arg25 (by decide)).trans (fa_25_11 m ρ c)
theorem fa_21_12 : W12 m ρ c (Proc.devRef .tc main_arg21) = (argsK m c).a21 :=
  (keep11 m ρ c main_arg21 (by decide)).trans (fa_21_11 m ρ c)
theorem fa_23_12 : W12 m ρ c (Proc.devRef .tc main_arg23) = (argsK m c).a23 :=
  (keep11 m ρ c main_arg23 (by decide)).trans (fa_23_11 m ρ c)
theorem fa_26_12 : W12 m ρ c (Proc.devRef .tc main_arg26) = (argsK m c).a26 :=
  (keep11 m ρ c main_arg26 (by decide)).trans (fa_26_11 m ρ c)
theorem fa_22_12 : W12 m ρ c (Proc.devRef .tc main_arg22) = (argsK m c).a22 :=
  (keep11 m ρ c main_arg22 (by decide)).trans (fa_22_11 m ρ c)
theorem fa_24_12 : W12 m ρ c (Proc.devRef .tc main_arg24) = (argsK m c).a24 :=
  (keep11 m ρ c main_arg24 (by decide)).trans (fa_24_11 m ρ c)
theorem fa_30_12 : W12 m ρ c (Proc.devRef .tc main_arg30) = (argsK m c).a30 :=
  (keep11 m ρ c main_arg30 (by decide)).trans (fa_30_11 m ρ c)
theorem fa_32_12 : W12 m ρ c (Proc.devRef .tc main_arg32) = (argsK m c).a32 :=
  (keep11 m ρ c main_arg32 (by decide)).trans (fa_32_11 m ρ c)
theorem fa_33_12 : W12 m ρ c (Proc.devRef .tc main_arg33) = (argsK m c).a33 :=
  (keep11 m ρ c main_arg33 (by decide)).trans (fa_33_11 m ρ c)
theorem fa_11_12 : W12 m ρ c (Proc.devRef .tc main_arg11) = (argsK m c).a11 :=
  (keep11 m ρ c main_arg11 (by decide)).trans (fa_11_11 m ρ c)
theorem fa_27_12 : W12 m ρ c (Proc.devRef .tc main_arg27) = (argsK m c).a27 :=
  (keep11 m ρ c main_arg27 (by decide)).trans (fa_27_11 m ρ c)
theorem fa_28_12 : W12 m ρ c (Proc.devRef .tc main_arg28) = (argsK m c).a28 :=
  (keep11 m ρ c main_arg28 (by decide)).trans (fa_28_11 m ρ c)
theorem fa_29_12 : W12 m ρ c (Proc.devRef .tc main_arg29) = (argsK m c).a29 :=
  (keep11 m ρ c main_arg29 (by decide)).trans (fa_29_11 m ρ c)
theorem fa_13_12 : W12 m ρ c (Proc.devRef .tc main_arg13) = (argsK m c).a13 :=
  (keep11 m ρ c main_arg13 (by decide)).trans (fa_13_11 m ρ c)
theorem fa_14_12 : W12 m ρ c (Proc.devRef .tc main_arg14) = (argsK m c).a14 :=
  (keep11 m ρ c main_arg14 (by decide)).trans (fa_14_11 m ρ c)
theorem fa_16_12 : W12 m ρ c (Proc.devRef .tc main_arg16) = (argsK m c).a16 :=
  (keep11 m ρ c main_arg16 (by decide)).trans (fa_16_11 m ρ c)
theorem fa_18_12 : W12 m ρ c (Proc.devRef .tc main_arg18) = (argsK m c).a18 :=
  (keep11 m ρ c main_arg18 (by decide)).trans (fa_18_11 m ρ c)
theorem fa_2_12 : W12 m ρ c (Proc.devRef .tc main_arg2) = (argsK m c).a2 :=
  (keep11 m ρ c main_arg2 (by decide)).trans (fa_2_11 m ρ c)
theorem fa_31_12 : W12 m ρ c (Proc.devRef .tc main_arg31) = (argsK m c).a31 :=
  (keep11 m ρ c main_arg31 (by decide)).trans (fa_31_11 m ρ c)
theorem fa_12_12 : W12 m ρ c (Proc.devRef .tc main_arg12) = (argsK m c).a12 :=
  (keep11 m ρ c main_arg12 (by decide)).trans (fa_12_11 m ρ c)
theorem fa_15_12 : W12 m ρ c (Proc.devRef .tc main_arg15) = (argsK m c).a15 :=
  (keep11 m ρ c main_arg15 (by decide)).trans (fa_15_11 m ρ c)
theorem fa_17_12 : W12 m ρ c (Proc.devRef .tc main_arg17) = (argsK m c).a17 :=
  (keep11 m ρ c main_arg17 (by decide)).trans (fa_17_11 m ρ c)
theorem fa_19_12 : W12 m ρ c (Proc.devRef .tc main_arg19) = (argsK m c).a19 :=
  (keep11 m ρ c main_arg19 (by decide)).trans (fa_19_11 m ρ c)
theorem fk_main_v1_12 : W12 m ρ c (Proc.devRef .tc main_v1) = Cert.Net.gv_0 (argsK m c) :=
  (keep11 m ρ c main_v1 (by decide)).trans (fk_main_v1_11 m ρ c)
theorem fk_main_v3_12 : W12 m ρ c (Proc.devRef .tc main_v3) = Cert.Net.gv_1 (argsK m c) :=
  (keep11 m ρ c main_v3 (by decide)).trans (fk_main_v3_11 m ρ c)
theorem fk_main_v6_12 : W12 m ρ c (Proc.devRef .tc main_v6) = Cert.Net.gv_3 (argsK m c) :=
  (keep11 m ρ c main_v6 (by decide)).trans (fk_main_v6_11 m ρ c)
theorem fk_main_v8_12 : W12 m ρ c (Proc.devRef .tc main_v8) = Cert.Net.gv_5 (argsK m c) :=
  (keep11 m ρ c main_v8 (by decide)).trans (fk_main_v8_11 m ρ c)
theorem fk_main_v12_12 : W12 m ρ c (Proc.devRef .tc main_v12) = Cert.Net.gv_8 (argsK m c) :=
  (keep11 m ρ c main_v12 (by decide)).trans (fk_main_v12_11 m ρ c)
theorem fk_main_v64_12 : W12 m ρ c (Proc.devRef .tc main_v64) = Cert.Net.gv_18 (argsK m c) :=
  (keep11 m ρ c main_v64 (by decide)).trans (fk_main_v64_11 m ρ c)
theorem fk'_main_v78 : StableHlo.after hostOps5 (W12 m ρ c) (Proc.devRef .tc main_v78) = Cert.Net.gv_25 (argsK m c) :=
  (K12_main_v78 (W12 m ρ c)).trans (by rw [fa_11_12 m ρ c]; rfl)
theorem fk_main_v78_13 : W13 m ρ c (Proc.devRef .tc main_v78) = Cert.Net.gv_25 (argsK m c) := fk'_main_v78 m ρ c
theorem fk'_main_v80 : StableHlo.after hostOps5 (W12 m ρ c) (Proc.devRef .tc main_v80) = Cert.Net.gv_26 (argsK m c) :=
  (K12_main_v80 (W12 m ρ c)).trans (by rw [fa_12_12 m ρ c]; rfl)
theorem fk_main_v80_13 : W13 m ρ c (Proc.devRef .tc main_v80) = Cert.Net.gv_26 (argsK m c) := fk'_main_v80 m ρ c
theorem fk'_main_v81 : StableHlo.after hostOps5 (W12 m ρ c) (Proc.devRef .tc main_v81) = broadcastInDim Cert.ReferenceIdeal.S1x128 ![1] Cert.ReferenceIdeal.Gen.bcast_S128_S1x128_1 (Cert.Net.gv_26 (argsK m c)) :=
  (K12_main_v81 (W12 m ρ c)).trans (by rw [fk'_main_v80 m ρ c])
theorem fk_main_v81_13 : W13 m ρ c (Proc.devRef .tc main_v81) = broadcastInDim Cert.ReferenceIdeal.S1x128 ![1] Cert.ReferenceIdeal.Gen.bcast_S128_S1x128_1 (Cert.Net.gv_26 (argsK m c)) := fk'_main_v81 m ρ c
theorem fa_20_13 : W13 m ρ c (Proc.devRef .tc main_arg20) = (argsK m c).a20 :=
  (keep12 m ρ c main_arg20 (by decide)).trans (fa_20_12 m ρ c)
theorem fa_25_13 : W13 m ρ c (Proc.devRef .tc main_arg25) = (argsK m c).a25 :=
  (keep12 m ρ c main_arg25 (by decide)).trans (fa_25_12 m ρ c)
theorem fa_21_13 : W13 m ρ c (Proc.devRef .tc main_arg21) = (argsK m c).a21 :=
  (keep12 m ρ c main_arg21 (by decide)).trans (fa_21_12 m ρ c)
theorem fa_23_13 : W13 m ρ c (Proc.devRef .tc main_arg23) = (argsK m c).a23 :=
  (keep12 m ρ c main_arg23 (by decide)).trans (fa_23_12 m ρ c)
theorem fa_26_13 : W13 m ρ c (Proc.devRef .tc main_arg26) = (argsK m c).a26 :=
  (keep12 m ρ c main_arg26 (by decide)).trans (fa_26_12 m ρ c)
theorem fa_22_13 : W13 m ρ c (Proc.devRef .tc main_arg22) = (argsK m c).a22 :=
  (keep12 m ρ c main_arg22 (by decide)).trans (fa_22_12 m ρ c)
theorem fa_24_13 : W13 m ρ c (Proc.devRef .tc main_arg24) = (argsK m c).a24 :=
  (keep12 m ρ c main_arg24 (by decide)).trans (fa_24_12 m ρ c)
theorem fa_30_13 : W13 m ρ c (Proc.devRef .tc main_arg30) = (argsK m c).a30 :=
  (keep12 m ρ c main_arg30 (by decide)).trans (fa_30_12 m ρ c)
theorem fa_32_13 : W13 m ρ c (Proc.devRef .tc main_arg32) = (argsK m c).a32 :=
  (keep12 m ρ c main_arg32 (by decide)).trans (fa_32_12 m ρ c)
theorem fa_33_13 : W13 m ρ c (Proc.devRef .tc main_arg33) = (argsK m c).a33 :=
  (keep12 m ρ c main_arg33 (by decide)).trans (fa_33_12 m ρ c)
theorem fa_11_13 : W13 m ρ c (Proc.devRef .tc main_arg11) = (argsK m c).a11 :=
  (keep12 m ρ c main_arg11 (by decide)).trans (fa_11_12 m ρ c)
theorem fa_27_13 : W13 m ρ c (Proc.devRef .tc main_arg27) = (argsK m c).a27 :=
  (keep12 m ρ c main_arg27 (by decide)).trans (fa_27_12 m ρ c)
theorem fa_28_13 : W13 m ρ c (Proc.devRef .tc main_arg28) = (argsK m c).a28 :=
  (keep12 m ρ c main_arg28 (by decide)).trans (fa_28_12 m ρ c)
theorem fa_29_13 : W13 m ρ c (Proc.devRef .tc main_arg29) = (argsK m c).a29 :=
  (keep12 m ρ c main_arg29 (by decide)).trans (fa_29_12 m ρ c)
theorem fa_13_13 : W13 m ρ c (Proc.devRef .tc main_arg13) = (argsK m c).a13 :=
  (keep12 m ρ c main_arg13 (by decide)).trans (fa_13_12 m ρ c)
theorem fa_14_13 : W13 m ρ c (Proc.devRef .tc main_arg14) = (argsK m c).a14 :=
  (keep12 m ρ c main_arg14 (by decide)).trans (fa_14_12 m ρ c)
theorem fa_16_13 : W13 m ρ c (Proc.devRef .tc main_arg16) = (argsK m c).a16 :=
  (keep12 m ρ c main_arg16 (by decide)).trans (fa_16_12 m ρ c)
theorem fa_18_13 : W13 m ρ c (Proc.devRef .tc main_arg18) = (argsK m c).a18 :=
  (keep12 m ρ c main_arg18 (by decide)).trans (fa_18_12 m ρ c)
theorem fa_2_13 : W13 m ρ c (Proc.devRef .tc main_arg2) = (argsK m c).a2 :=
  (keep12 m ρ c main_arg2 (by decide)).trans (fa_2_12 m ρ c)
theorem fa_31_13 : W13 m ρ c (Proc.devRef .tc main_arg31) = (argsK m c).a31 :=
  (keep12 m ρ c main_arg31 (by decide)).trans (fa_31_12 m ρ c)
theorem fa_12_13 : W13 m ρ c (Proc.devRef .tc main_arg12) = (argsK m c).a12 :=
  (keep12 m ρ c main_arg12 (by decide)).trans (fa_12_12 m ρ c)
theorem fa_15_13 : W13 m ρ c (Proc.devRef .tc main_arg15) = (argsK m c).a15 :=
  (keep12 m ρ c main_arg15 (by decide)).trans (fa_15_12 m ρ c)
theorem fa_17_13 : W13 m ρ c (Proc.devRef .tc main_arg17) = (argsK m c).a17 :=
  (keep12 m ρ c main_arg17 (by decide)).trans (fa_17_12 m ρ c)
theorem fa_19_13 : W13 m ρ c (Proc.devRef .tc main_arg19) = (argsK m c).a19 :=
  (keep12 m ρ c main_arg19 (by decide)).trans (fa_19_12 m ρ c)
theorem fk_main_v1_13 : W13 m ρ c (Proc.devRef .tc main_v1) = Cert.Net.gv_0 (argsK m c) :=
  (keep12 m ρ c main_v1 (by decide)).trans (fk_main_v1_12 m ρ c)
theorem fk_main_v3_13 : W13 m ρ c (Proc.devRef .tc main_v3) = Cert.Net.gv_1 (argsK m c) :=
  (keep12 m ρ c main_v3 (by decide)).trans (fk_main_v3_12 m ρ c)
theorem fk_main_v6_13 : W13 m ρ c (Proc.devRef .tc main_v6) = Cert.Net.gv_3 (argsK m c) :=
  (keep12 m ρ c main_v6 (by decide)).trans (fk_main_v6_12 m ρ c)
theorem fk_main_v8_13 : W13 m ρ c (Proc.devRef .tc main_v8) = Cert.Net.gv_5 (argsK m c) :=
  (keep12 m ρ c main_v8 (by decide)).trans (fk_main_v8_12 m ρ c)
theorem fk_main_v12_13 : W13 m ρ c (Proc.devRef .tc main_v12) = Cert.Net.gv_8 (argsK m c) :=
  (keep12 m ρ c main_v12 (by decide)).trans (fk_main_v12_12 m ρ c)
theorem fk_main_v64_13 : W13 m ρ c (Proc.devRef .tc main_v64) = Cert.Net.gv_18 (argsK m c) :=
  (keep12 m ρ c main_v64 (by decide)).trans (fk_main_v64_12 m ρ c)
theorem fk_main_v76_13 : W13 m ρ c (Proc.devRef .tc main_v76) = Cert.Net.gv_24 (argsK m c) :=
  (keep12 m ρ c main_v76 (by decide)).trans (fk_main_v76_12 m ρ c)
theorem fk_main_v82_14 : W14 m ρ c (Proc.devRef .tc main_v82) = Cert.Net.gv_27 (argsK m c) := by
  funext i
  refine (congrFun (W14_arr m ρ c 3) i).trans ?_
  refine (val5 (V13 m ρ) c i).trans ?_
  rw [show V13 m ρ c main_v12 = _ from fk_main_v12_13 m ρ c, show V13 m ρ c main_v78 = _ from fk_main_v78_13 m ρ c, show V13 m ρ c main_v81 = _ from fk_main_v81_13 m ρ c]
  exact (Cert.Layers.lay5 (argsK m c) i).symm
theorem fa_20_14 : W14 m ρ c (Proc.devRef .tc main_arg20) = (argsK m c).a20 :=
  (keep13 m ρ c main_arg20 (by decide)).trans (fa_20_13 m ρ c)
theorem fa_25_14 : W14 m ρ c (Proc.devRef .tc main_arg25) = (argsK m c).a25 :=
  (keep13 m ρ c main_arg25 (by decide)).trans (fa_25_13 m ρ c)
theorem fa_21_14 : W14 m ρ c (Proc.devRef .tc main_arg21) = (argsK m c).a21 :=
  (keep13 m ρ c main_arg21 (by decide)).trans (fa_21_13 m ρ c)
theorem fa_23_14 : W14 m ρ c (Proc.devRef .tc main_arg23) = (argsK m c).a23 :=
  (keep13 m ρ c main_arg23 (by decide)).trans (fa_23_13 m ρ c)
theorem fa_26_14 : W14 m ρ c (Proc.devRef .tc main_arg26) = (argsK m c).a26 :=
  (keep13 m ρ c main_arg26 (by decide)).trans (fa_26_13 m ρ c)
theorem fa_22_14 : W14 m ρ c (Proc.devRef .tc main_arg22) = (argsK m c).a22 :=
  (keep13 m ρ c main_arg22 (by decide)).trans (fa_22_13 m ρ c)
theorem fa_24_14 : W14 m ρ c (Proc.devRef .tc main_arg24) = (argsK m c).a24 :=
  (keep13 m ρ c main_arg24 (by decide)).trans (fa_24_13 m ρ c)
theorem fa_30_14 : W14 m ρ c (Proc.devRef .tc main_arg30) = (argsK m c).a30 :=
  (keep13 m ρ c main_arg30 (by decide)).trans (fa_30_13 m ρ c)
theorem fa_32_14 : W14 m ρ c (Proc.devRef .tc main_arg32) = (argsK m c).a32 :=
  (keep13 m ρ c main_arg32 (by decide)).trans (fa_32_13 m ρ c)
theorem fa_33_14 : W14 m ρ c (Proc.devRef .tc main_arg33) = (argsK m c).a33 :=
  (keep13 m ρ c main_arg33 (by decide)).trans (fa_33_13 m ρ c)
theorem fa_11_14 : W14 m ρ c (Proc.devRef .tc main_arg11) = (argsK m c).a11 :=
  (keep13 m ρ c main_arg11 (by decide)).trans (fa_11_13 m ρ c)
theorem fa_27_14 : W14 m ρ c (Proc.devRef .tc main_arg27) = (argsK m c).a27 :=
  (keep13 m ρ c main_arg27 (by decide)).trans (fa_27_13 m ρ c)
theorem fa_28_14 : W14 m ρ c (Proc.devRef .tc main_arg28) = (argsK m c).a28 :=
  (keep13 m ρ c main_arg28 (by decide)).trans (fa_28_13 m ρ c)
theorem fa_29_14 : W14 m ρ c (Proc.devRef .tc main_arg29) = (argsK m c).a29 :=
  (keep13 m ρ c main_arg29 (by decide)).trans (fa_29_13 m ρ c)
theorem fa_13_14 : W14 m ρ c (Proc.devRef .tc main_arg13) = (argsK m c).a13 :=
  (keep13 m ρ c main_arg13 (by decide)).trans (fa_13_13 m ρ c)
theorem fa_14_14 : W14 m ρ c (Proc.devRef .tc main_arg14) = (argsK m c).a14 :=
  (keep13 m ρ c main_arg14 (by decide)).trans (fa_14_13 m ρ c)
theorem fa_16_14 : W14 m ρ c (Proc.devRef .tc main_arg16) = (argsK m c).a16 :=
  (keep13 m ρ c main_arg16 (by decide)).trans (fa_16_13 m ρ c)
theorem fa_18_14 : W14 m ρ c (Proc.devRef .tc main_arg18) = (argsK m c).a18 :=
  (keep13 m ρ c main_arg18 (by decide)).trans (fa_18_13 m ρ c)
theorem fa_2_14 : W14 m ρ c (Proc.devRef .tc main_arg2) = (argsK m c).a2 :=
  (keep13 m ρ c main_arg2 (by decide)).trans (fa_2_13 m ρ c)
theorem fa_31_14 : W14 m ρ c (Proc.devRef .tc main_arg31) = (argsK m c).a31 :=
  (keep13 m ρ c main_arg31 (by decide)).trans (fa_31_13 m ρ c)
theorem fa_12_14 : W14 m ρ c (Proc.devRef .tc main_arg12) = (argsK m c).a12 :=
  (keep13 m ρ c main_arg12 (by decide)).trans (fa_12_13 m ρ c)
theorem fa_15_14 : W14 m ρ c (Proc.devRef .tc main_arg15) = (argsK m c).a15 :=
  (keep13 m ρ c main_arg15 (by decide)).trans (fa_15_13 m ρ c)
theorem fa_17_14 : W14 m ρ c (Proc.devRef .tc main_arg17) = (argsK m c).a17 :=
  (keep13 m ρ c main_arg17 (by decide)).trans (fa_17_13 m ρ c)
theorem fa_19_14 : W14 m ρ c (Proc.devRef .tc main_arg19) = (argsK m c).a19 :=
  (keep13 m ρ c main_arg19 (by decide)).trans (fa_19_13 m ρ c)
theorem fk_main_v1_14 : W14 m ρ c (Proc.devRef .tc main_v1) = Cert.Net.gv_0 (argsK m c) :=
  (keep13 m ρ c main_v1 (by decide)).trans (fk_main_v1_13 m ρ c)
theorem fk_main_v3_14 : W14 m ρ c (Proc.devRef .tc main_v3) = Cert.Net.gv_1 (argsK m c) :=
  (keep13 m ρ c main_v3 (by decide)).trans (fk_main_v3_13 m ρ c)
theorem fk_main_v6_14 : W14 m ρ c (Proc.devRef .tc main_v6) = Cert.Net.gv_3 (argsK m c) :=
  (keep13 m ρ c main_v6 (by decide)).trans (fk_main_v6_13 m ρ c)
theorem fk_main_v8_14 : W14 m ρ c (Proc.devRef .tc main_v8) = Cert.Net.gv_5 (argsK m c) :=
  (keep13 m ρ c main_v8 (by decide)).trans (fk_main_v8_13 m ρ c)
theorem fk_main_v64_14 : W14 m ρ c (Proc.devRef .tc main_v64) = Cert.Net.gv_18 (argsK m c) :=
  (keep13 m ρ c main_v64 (by decide)).trans (fk_main_v64_13 m ρ c)
theorem fk_main_v76_14 : W14 m ρ c (Proc.devRef .tc main_v76) = Cert.Net.gv_24 (argsK m c) :=
  (keep13 m ρ c main_v76 (by decide)).trans (fk_main_v76_13 m ρ c)
theorem fk'_main_v84 : StableHlo.after hostOps6 (W14 m ρ c) (Proc.devRef .tc main_v84) = Cert.Net.gv_28 (argsK m c) :=
  (K14_main_v84 (W14 m ρ c)).trans (by rw [fa_11_14 m ρ c]; rfl)
theorem fk_main_v84_15 : W15 m ρ c (Proc.devRef .tc main_v84) = Cert.Net.gv_28 (argsK m c) := fk'_main_v84 m ρ c
theorem fk'_main_v86 : StableHlo.after hostOps6 (W14 m ρ c) (Proc.devRef .tc main_v86) = Cert.Net.gv_29 (argsK m c) :=
  (K14_main_v86 (W14 m ρ c)).trans (by rw [fa_12_14 m ρ c]; rfl)
theorem fk_main_v86_15 : W15 m ρ c (Proc.devRef .tc main_v86) = Cert.Net.gv_29 (argsK m c) := fk'_main_v86 m ρ c
theorem fk'_main_v87 : StableHlo.after hostOps6 (W14 m ρ c) (Proc.devRef .tc main_v87) = broadcastInDim Cert.ReferenceIdeal.S1x128 ![1] Cert.ReferenceIdeal.Gen.bcast_S128_S1x128_1 (Cert.Net.gv_29 (argsK m c)) :=
  (K14_main_v87 (W14 m ρ c)).trans (by rw [fk'_main_v86 m ρ c])
theorem fk_main_v87_15 : W15 m ρ c (Proc.devRef .tc main_v87) = broadcastInDim Cert.ReferenceIdeal.S1x128 ![1] Cert.ReferenceIdeal.Gen.bcast_S128_S1x128_1 (Cert.Net.gv_29 (argsK m c)) := fk'_main_v87 m ρ c
theorem fa_20_15 : W15 m ρ c (Proc.devRef .tc main_arg20) = (argsK m c).a20 :=
  (keep14 m ρ c main_arg20 (by decide)).trans (fa_20_14 m ρ c)
theorem fa_25_15 : W15 m ρ c (Proc.devRef .tc main_arg25) = (argsK m c).a25 :=
  (keep14 m ρ c main_arg25 (by decide)).trans (fa_25_14 m ρ c)
theorem fa_21_15 : W15 m ρ c (Proc.devRef .tc main_arg21) = (argsK m c).a21 :=
  (keep14 m ρ c main_arg21 (by decide)).trans (fa_21_14 m ρ c)
theorem fa_23_15 : W15 m ρ c (Proc.devRef .tc main_arg23) = (argsK m c).a23 :=
  (keep14 m ρ c main_arg23 (by decide)).trans (fa_23_14 m ρ c)
theorem fa_26_15 : W15 m ρ c (Proc.devRef .tc main_arg26) = (argsK m c).a26 :=
  (keep14 m ρ c main_arg26 (by decide)).trans (fa_26_14 m ρ c)
theorem fa_22_15 : W15 m ρ c (Proc.devRef .tc main_arg22) = (argsK m c).a22 :=
  (keep14 m ρ c main_arg22 (by decide)).trans (fa_22_14 m ρ c)
theorem fa_24_15 : W15 m ρ c (Proc.devRef .tc main_arg24) = (argsK m c).a24 :=
  (keep14 m ρ c main_arg24 (by decide)).trans (fa_24_14 m ρ c)
theorem fa_30_15 : W15 m ρ c (Proc.devRef .tc main_arg30) = (argsK m c).a30 :=
  (keep14 m ρ c main_arg30 (by decide)).trans (fa_30_14 m ρ c)
theorem fa_32_15 : W15 m ρ c (Proc.devRef .tc main_arg32) = (argsK m c).a32 :=
  (keep14 m ρ c main_arg32 (by decide)).trans (fa_32_14 m ρ c)
theorem fa_33_15 : W15 m ρ c (Proc.devRef .tc main_arg33) = (argsK m c).a33 :=
  (keep14 m ρ c main_arg33 (by decide)).trans (fa_33_14 m ρ c)
theorem fa_27_15 : W15 m ρ c (Proc.devRef .tc main_arg27) = (argsK m c).a27 :=
  (keep14 m ρ c main_arg27 (by decide)).trans (fa_27_14 m ρ c)
theorem fa_28_15 : W15 m ρ c (Proc.devRef .tc main_arg28) = (argsK m c).a28 :=
  (keep14 m ρ c main_arg28 (by decide)).trans (fa_28_14 m ρ c)
theorem fa_29_15 : W15 m ρ c (Proc.devRef .tc main_arg29) = (argsK m c).a29 :=
  (keep14 m ρ c main_arg29 (by decide)).trans (fa_29_14 m ρ c)
theorem fa_13_15 : W15 m ρ c (Proc.devRef .tc main_arg13) = (argsK m c).a13 :=
  (keep14 m ρ c main_arg13 (by decide)).trans (fa_13_14 m ρ c)
theorem fa_14_15 : W15 m ρ c (Proc.devRef .tc main_arg14) = (argsK m c).a14 :=
  (keep14 m ρ c main_arg14 (by decide)).trans (fa_14_14 m ρ c)
theorem fa_16_15 : W15 m ρ c (Proc.devRef .tc main_arg16) = (argsK m c).a16 :=
  (keep14 m ρ c main_arg16 (by decide)).trans (fa_16_14 m ρ c)
theorem fa_18_15 : W15 m ρ c (Proc.devRef .tc main_arg18) = (argsK m c).a18 :=
  (keep14 m ρ c main_arg18 (by decide)).trans (fa_18_14 m ρ c)
theorem fa_2_15 : W15 m ρ c (Proc.devRef .tc main_arg2) = (argsK m c).a2 :=
  (keep14 m ρ c main_arg2 (by decide)).trans (fa_2_14 m ρ c)
theorem fa_31_15 : W15 m ρ c (Proc.devRef .tc main_arg31) = (argsK m c).a31 :=
  (keep14 m ρ c main_arg31 (by decide)).trans (fa_31_14 m ρ c)
theorem fa_15_15 : W15 m ρ c (Proc.devRef .tc main_arg15) = (argsK m c).a15 :=
  (keep14 m ρ c main_arg15 (by decide)).trans (fa_15_14 m ρ c)
theorem fa_17_15 : W15 m ρ c (Proc.devRef .tc main_arg17) = (argsK m c).a17 :=
  (keep14 m ρ c main_arg17 (by decide)).trans (fa_17_14 m ρ c)
theorem fa_19_15 : W15 m ρ c (Proc.devRef .tc main_arg19) = (argsK m c).a19 :=
  (keep14 m ρ c main_arg19 (by decide)).trans (fa_19_14 m ρ c)
theorem fk_main_v1_15 : W15 m ρ c (Proc.devRef .tc main_v1) = Cert.Net.gv_0 (argsK m c) :=
  (keep14 m ρ c main_v1 (by decide)).trans (fk_main_v1_14 m ρ c)
theorem fk_main_v3_15 : W15 m ρ c (Proc.devRef .tc main_v3) = Cert.Net.gv_1 (argsK m c) :=
  (keep14 m ρ c main_v3 (by decide)).trans (fk_main_v3_14 m ρ c)
theorem fk_main_v6_15 : W15 m ρ c (Proc.devRef .tc main_v6) = Cert.Net.gv_3 (argsK m c) :=
  (keep14 m ρ c main_v6 (by decide)).trans (fk_main_v6_14 m ρ c)
theorem fk_main_v8_15 : W15 m ρ c (Proc.devRef .tc main_v8) = Cert.Net.gv_5 (argsK m c) :=
  (keep14 m ρ c main_v8 (by decide)).trans (fk_main_v8_14 m ρ c)
theorem fk_main_v64_15 : W15 m ρ c (Proc.devRef .tc main_v64) = Cert.Net.gv_18 (argsK m c) :=
  (keep14 m ρ c main_v64 (by decide)).trans (fk_main_v64_14 m ρ c)
theorem fk_main_v76_15 : W15 m ρ c (Proc.devRef .tc main_v76) = Cert.Net.gv_24 (argsK m c) :=
  (keep14 m ρ c main_v76 (by decide)).trans (fk_main_v76_14 m ρ c)
theorem fk_main_v82_15 : W15 m ρ c (Proc.devRef .tc main_v82) = Cert.Net.gv_27 (argsK m c) :=
  (keep14 m ρ c main_v82 (by decide)).trans (fk_main_v82_14 m ρ c)
theorem fk_main_v88_16 : W16 m ρ c (Proc.devRef .tc main_v88) = Cert.Net.gv_30 (argsK m c) := by
  funext i
  refine (congrFun (W16_arr m ρ c 3) i).trans ?_
  refine (val6 (V15 m ρ) c i).trans ?_
  rw [show V15 m ρ c main_v82 = _ from fk_main_v82_15 m ρ c, show V15 m ρ c main_v84 = _ from fk_main_v84_15 m ρ c, show V15 m ρ c main_v87 = _ from fk_main_v87_15 m ρ c]
  exact (Cert.Layers.lay6 (argsK m c) i).symm
theorem fa_20_16 : W16 m ρ c (Proc.devRef .tc main_arg20) = (argsK m c).a20 :=
  (keep15 m ρ c main_arg20 (by decide)).trans (fa_20_15 m ρ c)
theorem fa_25_16 : W16 m ρ c (Proc.devRef .tc main_arg25) = (argsK m c).a25 :=
  (keep15 m ρ c main_arg25 (by decide)).trans (fa_25_15 m ρ c)
theorem fa_21_16 : W16 m ρ c (Proc.devRef .tc main_arg21) = (argsK m c).a21 :=
  (keep15 m ρ c main_arg21 (by decide)).trans (fa_21_15 m ρ c)
theorem fa_23_16 : W16 m ρ c (Proc.devRef .tc main_arg23) = (argsK m c).a23 :=
  (keep15 m ρ c main_arg23 (by decide)).trans (fa_23_15 m ρ c)
theorem fa_26_16 : W16 m ρ c (Proc.devRef .tc main_arg26) = (argsK m c).a26 :=
  (keep15 m ρ c main_arg26 (by decide)).trans (fa_26_15 m ρ c)
theorem fa_22_16 : W16 m ρ c (Proc.devRef .tc main_arg22) = (argsK m c).a22 :=
  (keep15 m ρ c main_arg22 (by decide)).trans (fa_22_15 m ρ c)
theorem fa_24_16 : W16 m ρ c (Proc.devRef .tc main_arg24) = (argsK m c).a24 :=
  (keep15 m ρ c main_arg24 (by decide)).trans (fa_24_15 m ρ c)
theorem fa_30_16 : W16 m ρ c (Proc.devRef .tc main_arg30) = (argsK m c).a30 :=
  (keep15 m ρ c main_arg30 (by decide)).trans (fa_30_15 m ρ c)
theorem fa_32_16 : W16 m ρ c (Proc.devRef .tc main_arg32) = (argsK m c).a32 :=
  (keep15 m ρ c main_arg32 (by decide)).trans (fa_32_15 m ρ c)
theorem fa_33_16 : W16 m ρ c (Proc.devRef .tc main_arg33) = (argsK m c).a33 :=
  (keep15 m ρ c main_arg33 (by decide)).trans (fa_33_15 m ρ c)
theorem fa_27_16 : W16 m ρ c (Proc.devRef .tc main_arg27) = (argsK m c).a27 :=
  (keep15 m ρ c main_arg27 (by decide)).trans (fa_27_15 m ρ c)
theorem fa_28_16 : W16 m ρ c (Proc.devRef .tc main_arg28) = (argsK m c).a28 :=
  (keep15 m ρ c main_arg28 (by decide)).trans (fa_28_15 m ρ c)
theorem fa_29_16 : W16 m ρ c (Proc.devRef .tc main_arg29) = (argsK m c).a29 :=
  (keep15 m ρ c main_arg29 (by decide)).trans (fa_29_15 m ρ c)
theorem fa_13_16 : W16 m ρ c (Proc.devRef .tc main_arg13) = (argsK m c).a13 :=
  (keep15 m ρ c main_arg13 (by decide)).trans (fa_13_15 m ρ c)
theorem fa_14_16 : W16 m ρ c (Proc.devRef .tc main_arg14) = (argsK m c).a14 :=
  (keep15 m ρ c main_arg14 (by decide)).trans (fa_14_15 m ρ c)
theorem fa_16_16 : W16 m ρ c (Proc.devRef .tc main_arg16) = (argsK m c).a16 :=
  (keep15 m ρ c main_arg16 (by decide)).trans (fa_16_15 m ρ c)
theorem fa_18_16 : W16 m ρ c (Proc.devRef .tc main_arg18) = (argsK m c).a18 :=
  (keep15 m ρ c main_arg18 (by decide)).trans (fa_18_15 m ρ c)
theorem fa_2_16 : W16 m ρ c (Proc.devRef .tc main_arg2) = (argsK m c).a2 :=
  (keep15 m ρ c main_arg2 (by decide)).trans (fa_2_15 m ρ c)
theorem fa_31_16 : W16 m ρ c (Proc.devRef .tc main_arg31) = (argsK m c).a31 :=
  (keep15 m ρ c main_arg31 (by decide)).trans (fa_31_15 m ρ c)
theorem fa_15_16 : W16 m ρ c (Proc.devRef .tc main_arg15) = (argsK m c).a15 :=
  (keep15 m ρ c main_arg15 (by decide)).trans (fa_15_15 m ρ c)
theorem fa_17_16 : W16 m ρ c (Proc.devRef .tc main_arg17) = (argsK m c).a17 :=
  (keep15 m ρ c main_arg17 (by decide)).trans (fa_17_15 m ρ c)
theorem fa_19_16 : W16 m ρ c (Proc.devRef .tc main_arg19) = (argsK m c).a19 :=
  (keep15 m ρ c main_arg19 (by decide)).trans (fa_19_15 m ρ c)
theorem fk_main_v1_16 : W16 m ρ c (Proc.devRef .tc main_v1) = Cert.Net.gv_0 (argsK m c) :=
  (keep15 m ρ c main_v1 (by decide)).trans (fk_main_v1_15 m ρ c)
theorem fk_main_v3_16 : W16 m ρ c (Proc.devRef .tc main_v3) = Cert.Net.gv_1 (argsK m c) :=
  (keep15 m ρ c main_v3 (by decide)).trans (fk_main_v3_15 m ρ c)
theorem fk_main_v6_16 : W16 m ρ c (Proc.devRef .tc main_v6) = Cert.Net.gv_3 (argsK m c) :=
  (keep15 m ρ c main_v6 (by decide)).trans (fk_main_v6_15 m ρ c)
theorem fk_main_v8_16 : W16 m ρ c (Proc.devRef .tc main_v8) = Cert.Net.gv_5 (argsK m c) :=
  (keep15 m ρ c main_v8 (by decide)).trans (fk_main_v8_15 m ρ c)
theorem fk_main_v64_16 : W16 m ρ c (Proc.devRef .tc main_v64) = Cert.Net.gv_18 (argsK m c) :=
  (keep15 m ρ c main_v64 (by decide)).trans (fk_main_v64_15 m ρ c)
theorem fk_main_v76_16 : W16 m ρ c (Proc.devRef .tc main_v76) = Cert.Net.gv_24 (argsK m c) :=
  (keep15 m ρ c main_v76 (by decide)).trans (fk_main_v76_15 m ρ c)
theorem fk'_main_v89 : StableHlo.after hostOps7 (W16 m ρ c) (Proc.devRef .tc main_v89) = Cert.Net.gv_7 (argsK m c) :=
  (K16_main_v89 (W16 m ρ c)).trans (by rfl)
theorem fk_main_v89_17 : W17 m ρ c (Proc.devRef .tc main_v89) = Cert.Net.gv_7 (argsK m c) := fk'_main_v89 m ρ c
theorem fk'_main_v99 : StableHlo.after hostOps7 (W16 m ρ c) (Proc.devRef .tc main_v99) = Cert.Net.gv_31 (argsK m c) :=
  (K16_main_v99 (W16 m ρ c)).trans (by rw [fk'_main_v89 m ρ c, fk_main_v6_16 m ρ c, fk_main_v64_16 m ρ c]; rfl)
theorem fk_main_v99_17 : W17 m ρ c (Proc.devRef .tc main_v99) = Cert.Net.gv_31 (argsK m c) := fk'_main_v99 m ρ c
theorem fk'_main_v100 : StableHlo.after hostOps7 (W16 m ρ c) (Proc.devRef .tc main_v100) = Cert.Net.gv_8 (argsK m c) :=
  (K16_main_v100 (W16 m ρ c)).trans (by rfl)
theorem fk_main_v100_17 : W17 m ρ c (Proc.devRef .tc main_v100) = Cert.Net.gv_8 (argsK m c) := fk'_main_v100 m ρ c
theorem fk'_main_v110 : StableHlo.after hostOps7 (W16 m ρ c) (Proc.devRef .tc main_v110) = Cert.Net.gv_32 (argsK m c) :=
  (K16_main_v110 (W16 m ρ c)).trans (by rw [fk'_main_v100 m ρ c, fk_main_v8_16 m ρ c, fk_main_v76_16 m ρ c]; rfl)
theorem fk_main_v110_17 : W17 m ρ c (Proc.devRef .tc main_v110) = Cert.Net.gv_32 (argsK m c) := fk'_main_v110 m ρ c
theorem fk'_main_v117 : StableHlo.after hostOps7 (W16 m ρ c) (Proc.devRef .tc main_v117) = Cert.Net.gv_33 (argsK m c) :=
  (K16_main_v117 (W16 m ρ c)).trans (by rw [fk_main_v76_16 m ρ c, fk_main_v6_16 m ρ c]; rfl)
theorem fk_main_v117_17 : W17 m ρ c (Proc.devRef .tc main_v117) = Cert.Net.gv_33 (argsK m c) := fk'_main_v117 m ρ c
theorem fk'_main_v124 : StableHlo.after hostOps7 (W16 m ρ c) (Proc.devRef .tc main_v124) = Cert.Net.gv_35 (argsK m c) :=
  (K16_main_v124 (W16 m ρ c)).trans (by rw [fk_main_v88_16 m ρ c, fk_main_v8_16 m ρ c]; rfl)
theorem fk_main_v124_17 : W17 m ρ c (Proc.devRef .tc main_v124) = Cert.Net.gv_35 (argsK m c) := fk'_main_v124 m ρ c
theorem fk'_main_v125 : StableHlo.after hostOps7 (W16 m ρ c) (Proc.devRef .tc main_v125) = broadcastInDim Cert.ReferenceIdeal.S1x128 ![1] Cert.ReferenceIdeal.Gen.bcast_S128_S1x128_1 ((argsK m c).a27) :=
  (K16_main_v125 (W16 m ρ c)).trans (by rw [fa_27_16 m ρ c])
theorem fk_main_v125_17 : W17 m ρ c (Proc.devRef .tc main_v125) = broadcastInDim Cert.ReferenceIdeal.S1x128 ![1] Cert.ReferenceIdeal.Gen.bcast_S128_S1x128_1 ((argsK m c).a27) := fk'_main_v125 m ρ c
theorem fa_20_17 : W17 m ρ c (Proc.devRef .tc main_arg20) = (argsK m c).a20 :=
  (keep16 m ρ c main_arg20 (by decide)).trans (fa_20_16 m ρ c)
theorem fa_25_17 : W17 m ρ c (Proc.devRef .tc main_arg25) = (argsK m c).a25 :=
  (keep16 m ρ c main_arg25 (by decide)).trans (fa_25_16 m ρ c)
theorem fa_21_17 : W17 m ρ c (Proc.devRef .tc main_arg21) = (argsK m c).a21 :=
  (keep16 m ρ c main_arg21 (by decide)).trans (fa_21_16 m ρ c)
theorem fa_23_17 : W17 m ρ c (Proc.devRef .tc main_arg23) = (argsK m c).a23 :=
  (keep16 m ρ c main_arg23 (by decide)).trans (fa_23_16 m ρ c)
theorem fa_26_17 : W17 m ρ c (Proc.devRef .tc main_arg26) = (argsK m c).a26 :=
  (keep16 m ρ c main_arg26 (by decide)).trans (fa_26_16 m ρ c)
theorem fa_22_17 : W17 m ρ c (Proc.devRef .tc main_arg22) = (argsK m c).a22 :=
  (keep16 m ρ c main_arg22 (by decide)).trans (fa_22_16 m ρ c)
theorem fa_24_17 : W17 m ρ c (Proc.devRef .tc main_arg24) = (argsK m c).a24 :=
  (keep16 m ρ c main_arg24 (by decide)).trans (fa_24_16 m ρ c)
theorem fa_30_17 : W17 m ρ c (Proc.devRef .tc main_arg30) = (argsK m c).a30 :=
  (keep16 m ρ c main_arg30 (by decide)).trans (fa_30_16 m ρ c)
theorem fa_32_17 : W17 m ρ c (Proc.devRef .tc main_arg32) = (argsK m c).a32 :=
  (keep16 m ρ c main_arg32 (by decide)).trans (fa_32_16 m ρ c)
theorem fa_33_17 : W17 m ρ c (Proc.devRef .tc main_arg33) = (argsK m c).a33 :=
  (keep16 m ρ c main_arg33 (by decide)).trans (fa_33_16 m ρ c)
theorem fa_27_17 : W17 m ρ c (Proc.devRef .tc main_arg27) = (argsK m c).a27 :=
  (keep16 m ρ c main_arg27 (by decide)).trans (fa_27_16 m ρ c)
theorem fa_28_17 : W17 m ρ c (Proc.devRef .tc main_arg28) = (argsK m c).a28 :=
  (keep16 m ρ c main_arg28 (by decide)).trans (fa_28_16 m ρ c)
theorem fa_29_17 : W17 m ρ c (Proc.devRef .tc main_arg29) = (argsK m c).a29 :=
  (keep16 m ρ c main_arg29 (by decide)).trans (fa_29_16 m ρ c)
theorem fa_13_17 : W17 m ρ c (Proc.devRef .tc main_arg13) = (argsK m c).a13 :=
  (keep16 m ρ c main_arg13 (by decide)).trans (fa_13_16 m ρ c)
theorem fa_14_17 : W17 m ρ c (Proc.devRef .tc main_arg14) = (argsK m c).a14 :=
  (keep16 m ρ c main_arg14 (by decide)).trans (fa_14_16 m ρ c)
theorem fa_16_17 : W17 m ρ c (Proc.devRef .tc main_arg16) = (argsK m c).a16 :=
  (keep16 m ρ c main_arg16 (by decide)).trans (fa_16_16 m ρ c)
theorem fa_18_17 : W17 m ρ c (Proc.devRef .tc main_arg18) = (argsK m c).a18 :=
  (keep16 m ρ c main_arg18 (by decide)).trans (fa_18_16 m ρ c)
theorem fa_2_17 : W17 m ρ c (Proc.devRef .tc main_arg2) = (argsK m c).a2 :=
  (keep16 m ρ c main_arg2 (by decide)).trans (fa_2_16 m ρ c)
theorem fa_31_17 : W17 m ρ c (Proc.devRef .tc main_arg31) = (argsK m c).a31 :=
  (keep16 m ρ c main_arg31 (by decide)).trans (fa_31_16 m ρ c)
theorem fa_15_17 : W17 m ρ c (Proc.devRef .tc main_arg15) = (argsK m c).a15 :=
  (keep16 m ρ c main_arg15 (by decide)).trans (fa_15_16 m ρ c)
theorem fa_17_17 : W17 m ρ c (Proc.devRef .tc main_arg17) = (argsK m c).a17 :=
  (keep16 m ρ c main_arg17 (by decide)).trans (fa_17_16 m ρ c)
theorem fa_19_17 : W17 m ρ c (Proc.devRef .tc main_arg19) = (argsK m c).a19 :=
  (keep16 m ρ c main_arg19 (by decide)).trans (fa_19_16 m ρ c)
theorem fk_main_v1_17 : W17 m ρ c (Proc.devRef .tc main_v1) = Cert.Net.gv_0 (argsK m c) :=
  (keep16 m ρ c main_v1 (by decide)).trans (fk_main_v1_16 m ρ c)
theorem fk_main_v3_17 : W17 m ρ c (Proc.devRef .tc main_v3) = Cert.Net.gv_1 (argsK m c) :=
  (keep16 m ρ c main_v3 (by decide)).trans (fk_main_v3_16 m ρ c)
theorem fk_main_v6_17 : W17 m ρ c (Proc.devRef .tc main_v6) = Cert.Net.gv_3 (argsK m c) :=
  (keep16 m ρ c main_v6 (by decide)).trans (fk_main_v6_16 m ρ c)
theorem fk_main_v8_17 : W17 m ρ c (Proc.devRef .tc main_v8) = Cert.Net.gv_5 (argsK m c) :=
  (keep16 m ρ c main_v8 (by decide)).trans (fk_main_v8_16 m ρ c)
theorem fk_main_v64_17 : W17 m ρ c (Proc.devRef .tc main_v64) = Cert.Net.gv_18 (argsK m c) :=
  (keep16 m ρ c main_v64 (by decide)).trans (fk_main_v64_16 m ρ c)
theorem fk_main_v76_17 : W17 m ρ c (Proc.devRef .tc main_v76) = Cert.Net.gv_24 (argsK m c) :=
  (keep16 m ρ c main_v76 (by decide)).trans (fk_main_v76_16 m ρ c)
theorem fk_main_v88_17 : W17 m ρ c (Proc.devRef .tc main_v88) = Cert.Net.gv_30 (argsK m c) :=
  (keep16 m ρ c main_v88 (by decide)).trans (fk_main_v88_16 m ρ c)
theorem fk_main_v126_18 : W18 m ρ c (Proc.devRef .tc main_v126) = Cert.Net.gv_34 (argsK m c) := by
  funext i
  refine (congrFun (W18_arr m ρ c 5) i).trans ?_
  refine (val7 (V17 m ρ) c i).trans ?_
  rw [show V17 m ρ c main_v64 = _ from fk_main_v64_17 m ρ c, show V17 m ρ c main_v117 = _ from fk_main_v117_17 m ρ c, show V17 m ρ c main_arg20 = _ from fa_20_17 m ρ c, show V17 m ρ c main_arg25 = _ from fa_25_17 m ρ c, show V17 m ρ c main_v125 = _ from fk_main_v125_17 m ρ c]
  exact (Cert.Layers.lay7 (argsK m c) i).symm
theorem fa_20_18 : W18 m ρ c (Proc.devRef .tc main_arg20) = (argsK m c).a20 :=
  (keep17 m ρ c main_arg20 (by decide)).trans (fa_20_17 m ρ c)
theorem fa_25_18 : W18 m ρ c (Proc.devRef .tc main_arg25) = (argsK m c).a25 :=
  (keep17 m ρ c main_arg25 (by decide)).trans (fa_25_17 m ρ c)
theorem fa_21_18 : W18 m ρ c (Proc.devRef .tc main_arg21) = (argsK m c).a21 :=
  (keep17 m ρ c main_arg21 (by decide)).trans (fa_21_17 m ρ c)
theorem fa_23_18 : W18 m ρ c (Proc.devRef .tc main_arg23) = (argsK m c).a23 :=
  (keep17 m ρ c main_arg23 (by decide)).trans (fa_23_17 m ρ c)
theorem fa_26_18 : W18 m ρ c (Proc.devRef .tc main_arg26) = (argsK m c).a26 :=
  (keep17 m ρ c main_arg26 (by decide)).trans (fa_26_17 m ρ c)
theorem fa_22_18 : W18 m ρ c (Proc.devRef .tc main_arg22) = (argsK m c).a22 :=
  (keep17 m ρ c main_arg22 (by decide)).trans (fa_22_17 m ρ c)
theorem fa_24_18 : W18 m ρ c (Proc.devRef .tc main_arg24) = (argsK m c).a24 :=
  (keep17 m ρ c main_arg24 (by decide)).trans (fa_24_17 m ρ c)
theorem fa_30_18 : W18 m ρ c (Proc.devRef .tc main_arg30) = (argsK m c).a30 :=
  (keep17 m ρ c main_arg30 (by decide)).trans (fa_30_17 m ρ c)
theorem fa_32_18 : W18 m ρ c (Proc.devRef .tc main_arg32) = (argsK m c).a32 :=
  (keep17 m ρ c main_arg32 (by decide)).trans (fa_32_17 m ρ c)
theorem fa_33_18 : W18 m ρ c (Proc.devRef .tc main_arg33) = (argsK m c).a33 :=
  (keep17 m ρ c main_arg33 (by decide)).trans (fa_33_17 m ρ c)
theorem fa_27_18 : W18 m ρ c (Proc.devRef .tc main_arg27) = (argsK m c).a27 :=
  (keep17 m ρ c main_arg27 (by decide)).trans (fa_27_17 m ρ c)
theorem fa_28_18 : W18 m ρ c (Proc.devRef .tc main_arg28) = (argsK m c).a28 :=
  (keep17 m ρ c main_arg28 (by decide)).trans (fa_28_17 m ρ c)
theorem fa_29_18 : W18 m ρ c (Proc.devRef .tc main_arg29) = (argsK m c).a29 :=
  (keep17 m ρ c main_arg29 (by decide)).trans (fa_29_17 m ρ c)
theorem fa_13_18 : W18 m ρ c (Proc.devRef .tc main_arg13) = (argsK m c).a13 :=
  (keep17 m ρ c main_arg13 (by decide)).trans (fa_13_17 m ρ c)
theorem fa_14_18 : W18 m ρ c (Proc.devRef .tc main_arg14) = (argsK m c).a14 :=
  (keep17 m ρ c main_arg14 (by decide)).trans (fa_14_17 m ρ c)
theorem fa_16_18 : W18 m ρ c (Proc.devRef .tc main_arg16) = (argsK m c).a16 :=
  (keep17 m ρ c main_arg16 (by decide)).trans (fa_16_17 m ρ c)
theorem fa_18_18 : W18 m ρ c (Proc.devRef .tc main_arg18) = (argsK m c).a18 :=
  (keep17 m ρ c main_arg18 (by decide)).trans (fa_18_17 m ρ c)
theorem fa_2_18 : W18 m ρ c (Proc.devRef .tc main_arg2) = (argsK m c).a2 :=
  (keep17 m ρ c main_arg2 (by decide)).trans (fa_2_17 m ρ c)
theorem fa_31_18 : W18 m ρ c (Proc.devRef .tc main_arg31) = (argsK m c).a31 :=
  (keep17 m ρ c main_arg31 (by decide)).trans (fa_31_17 m ρ c)
theorem fa_15_18 : W18 m ρ c (Proc.devRef .tc main_arg15) = (argsK m c).a15 :=
  (keep17 m ρ c main_arg15 (by decide)).trans (fa_15_17 m ρ c)
theorem fa_17_18 : W18 m ρ c (Proc.devRef .tc main_arg17) = (argsK m c).a17 :=
  (keep17 m ρ c main_arg17 (by decide)).trans (fa_17_17 m ρ c)
theorem fa_19_18 : W18 m ρ c (Proc.devRef .tc main_arg19) = (argsK m c).a19 :=
  (keep17 m ρ c main_arg19 (by decide)).trans (fa_19_17 m ρ c)
theorem fk_main_v1_18 : W18 m ρ c (Proc.devRef .tc main_v1) = Cert.Net.gv_0 (argsK m c) :=
  (keep17 m ρ c main_v1 (by decide)).trans (fk_main_v1_17 m ρ c)
theorem fk_main_v3_18 : W18 m ρ c (Proc.devRef .tc main_v3) = Cert.Net.gv_1 (argsK m c) :=
  (keep17 m ρ c main_v3 (by decide)).trans (fk_main_v3_17 m ρ c)
theorem fk_main_v6_18 : W18 m ρ c (Proc.devRef .tc main_v6) = Cert.Net.gv_3 (argsK m c) :=
  (keep17 m ρ c main_v6 (by decide)).trans (fk_main_v6_17 m ρ c)
theorem fk_main_v8_18 : W18 m ρ c (Proc.devRef .tc main_v8) = Cert.Net.gv_5 (argsK m c) :=
  (keep17 m ρ c main_v8 (by decide)).trans (fk_main_v8_17 m ρ c)
theorem fk_main_v76_18 : W18 m ρ c (Proc.devRef .tc main_v76) = Cert.Net.gv_24 (argsK m c) :=
  (keep17 m ρ c main_v76 (by decide)).trans (fk_main_v76_17 m ρ c)
theorem fk_main_v88_18 : W18 m ρ c (Proc.devRef .tc main_v88) = Cert.Net.gv_30 (argsK m c) :=
  (keep17 m ρ c main_v88 (by decide)).trans (fk_main_v88_17 m ρ c)
theorem fk_main_v99_18 : W18 m ρ c (Proc.devRef .tc main_v99) = Cert.Net.gv_31 (argsK m c) :=
  (keep17 m ρ c main_v99 (by decide)).trans (fk_main_v99_17 m ρ c)
theorem fk_main_v110_18 : W18 m ρ c (Proc.devRef .tc main_v110) = Cert.Net.gv_32 (argsK m c) :=
  (keep17 m ρ c main_v110 (by decide)).trans (fk_main_v110_17 m ρ c)
theorem fk_main_v124_18 : W18 m ρ c (Proc.devRef .tc main_v124) = Cert.Net.gv_35 (argsK m c) :=
  (keep17 m ρ c main_v124 (by decide)).trans (fk_main_v124_17 m ρ c)
theorem fk'_main_v127 : StableHlo.after hostOps8 (W18 m ρ c) (Proc.devRef .tc main_v127) = broadcastInDim Cert.ReferenceIdeal.S1x128 ![1] Cert.ReferenceIdeal.Gen.bcast_S128_S1x128_1 ((argsK m c).a28) :=
  (K18_main_v127 (W18 m ρ c)).trans (by rw [fa_28_18 m ρ c])
theorem fk_main_v127_19 : W19 m ρ c (Proc.devRef .tc main_v127) = broadcastInDim Cert.ReferenceIdeal.S1x128 ![1] Cert.ReferenceIdeal.Gen.bcast_S128_S1x128_1 ((argsK m c).a28) := fk'_main_v127 m ρ c
theorem fa_20_19 : W19 m ρ c (Proc.devRef .tc main_arg20) = (argsK m c).a20 :=
  (keep18 m ρ c main_arg20 (by decide)).trans (fa_20_18 m ρ c)
theorem fa_25_19 : W19 m ρ c (Proc.devRef .tc main_arg25) = (argsK m c).a25 :=
  (keep18 m ρ c main_arg25 (by decide)).trans (fa_25_18 m ρ c)
theorem fa_21_19 : W19 m ρ c (Proc.devRef .tc main_arg21) = (argsK m c).a21 :=
  (keep18 m ρ c main_arg21 (by decide)).trans (fa_21_18 m ρ c)
theorem fa_23_19 : W19 m ρ c (Proc.devRef .tc main_arg23) = (argsK m c).a23 :=
  (keep18 m ρ c main_arg23 (by decide)).trans (fa_23_18 m ρ c)
theorem fa_26_19 : W19 m ρ c (Proc.devRef .tc main_arg26) = (argsK m c).a26 :=
  (keep18 m ρ c main_arg26 (by decide)).trans (fa_26_18 m ρ c)
theorem fa_22_19 : W19 m ρ c (Proc.devRef .tc main_arg22) = (argsK m c).a22 :=
  (keep18 m ρ c main_arg22 (by decide)).trans (fa_22_18 m ρ c)
theorem fa_24_19 : W19 m ρ c (Proc.devRef .tc main_arg24) = (argsK m c).a24 :=
  (keep18 m ρ c main_arg24 (by decide)).trans (fa_24_18 m ρ c)
theorem fa_30_19 : W19 m ρ c (Proc.devRef .tc main_arg30) = (argsK m c).a30 :=
  (keep18 m ρ c main_arg30 (by decide)).trans (fa_30_18 m ρ c)
theorem fa_32_19 : W19 m ρ c (Proc.devRef .tc main_arg32) = (argsK m c).a32 :=
  (keep18 m ρ c main_arg32 (by decide)).trans (fa_32_18 m ρ c)
theorem fa_33_19 : W19 m ρ c (Proc.devRef .tc main_arg33) = (argsK m c).a33 :=
  (keep18 m ρ c main_arg33 (by decide)).trans (fa_33_18 m ρ c)
theorem fa_27_19 : W19 m ρ c (Proc.devRef .tc main_arg27) = (argsK m c).a27 :=
  (keep18 m ρ c main_arg27 (by decide)).trans (fa_27_18 m ρ c)
theorem fa_28_19 : W19 m ρ c (Proc.devRef .tc main_arg28) = (argsK m c).a28 :=
  (keep18 m ρ c main_arg28 (by decide)).trans (fa_28_18 m ρ c)
theorem fa_29_19 : W19 m ρ c (Proc.devRef .tc main_arg29) = (argsK m c).a29 :=
  (keep18 m ρ c main_arg29 (by decide)).trans (fa_29_18 m ρ c)
theorem fa_13_19 : W19 m ρ c (Proc.devRef .tc main_arg13) = (argsK m c).a13 :=
  (keep18 m ρ c main_arg13 (by decide)).trans (fa_13_18 m ρ c)
theorem fa_14_19 : W19 m ρ c (Proc.devRef .tc main_arg14) = (argsK m c).a14 :=
  (keep18 m ρ c main_arg14 (by decide)).trans (fa_14_18 m ρ c)
theorem fa_16_19 : W19 m ρ c (Proc.devRef .tc main_arg16) = (argsK m c).a16 :=
  (keep18 m ρ c main_arg16 (by decide)).trans (fa_16_18 m ρ c)
theorem fa_18_19 : W19 m ρ c (Proc.devRef .tc main_arg18) = (argsK m c).a18 :=
  (keep18 m ρ c main_arg18 (by decide)).trans (fa_18_18 m ρ c)
theorem fa_2_19 : W19 m ρ c (Proc.devRef .tc main_arg2) = (argsK m c).a2 :=
  (keep18 m ρ c main_arg2 (by decide)).trans (fa_2_18 m ρ c)
theorem fa_31_19 : W19 m ρ c (Proc.devRef .tc main_arg31) = (argsK m c).a31 :=
  (keep18 m ρ c main_arg31 (by decide)).trans (fa_31_18 m ρ c)
theorem fa_15_19 : W19 m ρ c (Proc.devRef .tc main_arg15) = (argsK m c).a15 :=
  (keep18 m ρ c main_arg15 (by decide)).trans (fa_15_18 m ρ c)
theorem fa_17_19 : W19 m ρ c (Proc.devRef .tc main_arg17) = (argsK m c).a17 :=
  (keep18 m ρ c main_arg17 (by decide)).trans (fa_17_18 m ρ c)
theorem fa_19_19 : W19 m ρ c (Proc.devRef .tc main_arg19) = (argsK m c).a19 :=
  (keep18 m ρ c main_arg19 (by decide)).trans (fa_19_18 m ρ c)
theorem fk_main_v1_19 : W19 m ρ c (Proc.devRef .tc main_v1) = Cert.Net.gv_0 (argsK m c) :=
  (keep18 m ρ c main_v1 (by decide)).trans (fk_main_v1_18 m ρ c)
theorem fk_main_v3_19 : W19 m ρ c (Proc.devRef .tc main_v3) = Cert.Net.gv_1 (argsK m c) :=
  (keep18 m ρ c main_v3 (by decide)).trans (fk_main_v3_18 m ρ c)
theorem fk_main_v6_19 : W19 m ρ c (Proc.devRef .tc main_v6) = Cert.Net.gv_3 (argsK m c) :=
  (keep18 m ρ c main_v6 (by decide)).trans (fk_main_v6_18 m ρ c)
theorem fk_main_v8_19 : W19 m ρ c (Proc.devRef .tc main_v8) = Cert.Net.gv_5 (argsK m c) :=
  (keep18 m ρ c main_v8 (by decide)).trans (fk_main_v8_18 m ρ c)
theorem fk_main_v76_19 : W19 m ρ c (Proc.devRef .tc main_v76) = Cert.Net.gv_24 (argsK m c) :=
  (keep18 m ρ c main_v76 (by decide)).trans (fk_main_v76_18 m ρ c)
theorem fk_main_v88_19 : W19 m ρ c (Proc.devRef .tc main_v88) = Cert.Net.gv_30 (argsK m c) :=
  (keep18 m ρ c main_v88 (by decide)).trans (fk_main_v88_18 m ρ c)
theorem fk_main_v99_19 : W19 m ρ c (Proc.devRef .tc main_v99) = Cert.Net.gv_31 (argsK m c) :=
  (keep18 m ρ c main_v99 (by decide)).trans (fk_main_v99_18 m ρ c)
theorem fk_main_v110_19 : W19 m ρ c (Proc.devRef .tc main_v110) = Cert.Net.gv_32 (argsK m c) :=
  (keep18 m ρ c main_v110 (by decide)).trans (fk_main_v110_18 m ρ c)
theorem fk_main_v124_19 : W19 m ρ c (Proc.devRef .tc main_v124) = Cert.Net.gv_35 (argsK m c) :=
  (keep18 m ρ c main_v124 (by decide)).trans (fk_main_v124_18 m ρ c)
theorem fk_main_v126_19 : W19 m ρ c (Proc.devRef .tc main_v126) = Cert.Net.gv_34 (argsK m c) :=
  (keep18 m ρ c main_v126 (by decide)).trans (fk_main_v126_18 m ρ c)
theorem fk_main_v128_20 : W20 m ρ c (Proc.devRef .tc main_v128) = Cert.Net.gv_36 (argsK m c) := by
  funext i
  refine (congrFun (W20_arr m ρ c 7) i).trans ?_
  refine (val8 (V19 m ρ) c i).trans ?_
  rw [show V19 m ρ c main_v76 = _ from fk_main_v76_19 m ρ c, show V19 m ρ c main_v99 = _ from fk_main_v99_19 m ρ c, show V19 m ρ c main_v124 = _ from fk_main_v124_19 m ρ c, show V19 m ρ c main_arg21 = _ from fa_21_19 m ρ c, show V19 m ρ c main_arg23 = _ from fa_23_19 m ρ c, show V19 m ρ c main_arg26 = _ from fa_26_19 m ρ c, show V19 m ρ c main_v127 = _ from fk_main_v127_19 m ρ c]
  exact (Cert.Layers.lay8 (argsK m c) i).symm
theorem fa_20_20 : W20 m ρ c (Proc.devRef .tc main_arg20) = (argsK m c).a20 :=
  (keep19 m ρ c main_arg20 (by decide)).trans (fa_20_19 m ρ c)
theorem fa_25_20 : W20 m ρ c (Proc.devRef .tc main_arg25) = (argsK m c).a25 :=
  (keep19 m ρ c main_arg25 (by decide)).trans (fa_25_19 m ρ c)
theorem fa_21_20 : W20 m ρ c (Proc.devRef .tc main_arg21) = (argsK m c).a21 :=
  (keep19 m ρ c main_arg21 (by decide)).trans (fa_21_19 m ρ c)
theorem fa_23_20 : W20 m ρ c (Proc.devRef .tc main_arg23) = (argsK m c).a23 :=
  (keep19 m ρ c main_arg23 (by decide)).trans (fa_23_19 m ρ c)
theorem fa_26_20 : W20 m ρ c (Proc.devRef .tc main_arg26) = (argsK m c).a26 :=
  (keep19 m ρ c main_arg26 (by decide)).trans (fa_26_19 m ρ c)
theorem fa_22_20 : W20 m ρ c (Proc.devRef .tc main_arg22) = (argsK m c).a22 :=
  (keep19 m ρ c main_arg22 (by decide)).trans (fa_22_19 m ρ c)
theorem fa_24_20 : W20 m ρ c (Proc.devRef .tc main_arg24) = (argsK m c).a24 :=
  (keep19 m ρ c main_arg24 (by decide)).trans (fa_24_19 m ρ c)
theorem fa_30_20 : W20 m ρ c (Proc.devRef .tc main_arg30) = (argsK m c).a30 :=
  (keep19 m ρ c main_arg30 (by decide)).trans (fa_30_19 m ρ c)
theorem fa_32_20 : W20 m ρ c (Proc.devRef .tc main_arg32) = (argsK m c).a32 :=
  (keep19 m ρ c main_arg32 (by decide)).trans (fa_32_19 m ρ c)
theorem fa_33_20 : W20 m ρ c (Proc.devRef .tc main_arg33) = (argsK m c).a33 :=
  (keep19 m ρ c main_arg33 (by decide)).trans (fa_33_19 m ρ c)
theorem fa_27_20 : W20 m ρ c (Proc.devRef .tc main_arg27) = (argsK m c).a27 :=
  (keep19 m ρ c main_arg27 (by decide)).trans (fa_27_19 m ρ c)
theorem fa_28_20 : W20 m ρ c (Proc.devRef .tc main_arg28) = (argsK m c).a28 :=
  (keep19 m ρ c main_arg28 (by decide)).trans (fa_28_19 m ρ c)
theorem fa_29_20 : W20 m ρ c (Proc.devRef .tc main_arg29) = (argsK m c).a29 :=
  (keep19 m ρ c main_arg29 (by decide)).trans (fa_29_19 m ρ c)
theorem fa_13_20 : W20 m ρ c (Proc.devRef .tc main_arg13) = (argsK m c).a13 :=
  (keep19 m ρ c main_arg13 (by decide)).trans (fa_13_19 m ρ c)
theorem fa_14_20 : W20 m ρ c (Proc.devRef .tc main_arg14) = (argsK m c).a14 :=
  (keep19 m ρ c main_arg14 (by decide)).trans (fa_14_19 m ρ c)
theorem fa_16_20 : W20 m ρ c (Proc.devRef .tc main_arg16) = (argsK m c).a16 :=
  (keep19 m ρ c main_arg16 (by decide)).trans (fa_16_19 m ρ c)
theorem fa_18_20 : W20 m ρ c (Proc.devRef .tc main_arg18) = (argsK m c).a18 :=
  (keep19 m ρ c main_arg18 (by decide)).trans (fa_18_19 m ρ c)
theorem fa_2_20 : W20 m ρ c (Proc.devRef .tc main_arg2) = (argsK m c).a2 :=
  (keep19 m ρ c main_arg2 (by decide)).trans (fa_2_19 m ρ c)
theorem fa_31_20 : W20 m ρ c (Proc.devRef .tc main_arg31) = (argsK m c).a31 :=
  (keep19 m ρ c main_arg31 (by decide)).trans (fa_31_19 m ρ c)
theorem fa_15_20 : W20 m ρ c (Proc.devRef .tc main_arg15) = (argsK m c).a15 :=
  (keep19 m ρ c main_arg15 (by decide)).trans (fa_15_19 m ρ c)
theorem fa_17_20 : W20 m ρ c (Proc.devRef .tc main_arg17) = (argsK m c).a17 :=
  (keep19 m ρ c main_arg17 (by decide)).trans (fa_17_19 m ρ c)
theorem fa_19_20 : W20 m ρ c (Proc.devRef .tc main_arg19) = (argsK m c).a19 :=
  (keep19 m ρ c main_arg19 (by decide)).trans (fa_19_19 m ρ c)
theorem fk_main_v1_20 : W20 m ρ c (Proc.devRef .tc main_v1) = Cert.Net.gv_0 (argsK m c) :=
  (keep19 m ρ c main_v1 (by decide)).trans (fk_main_v1_19 m ρ c)
theorem fk_main_v3_20 : W20 m ρ c (Proc.devRef .tc main_v3) = Cert.Net.gv_1 (argsK m c) :=
  (keep19 m ρ c main_v3 (by decide)).trans (fk_main_v3_19 m ρ c)
theorem fk_main_v6_20 : W20 m ρ c (Proc.devRef .tc main_v6) = Cert.Net.gv_3 (argsK m c) :=
  (keep19 m ρ c main_v6 (by decide)).trans (fk_main_v6_19 m ρ c)
theorem fk_main_v8_20 : W20 m ρ c (Proc.devRef .tc main_v8) = Cert.Net.gv_5 (argsK m c) :=
  (keep19 m ρ c main_v8 (by decide)).trans (fk_main_v8_19 m ρ c)
theorem fk_main_v88_20 : W20 m ρ c (Proc.devRef .tc main_v88) = Cert.Net.gv_30 (argsK m c) :=
  (keep19 m ρ c main_v88 (by decide)).trans (fk_main_v88_19 m ρ c)
theorem fk_main_v110_20 : W20 m ρ c (Proc.devRef .tc main_v110) = Cert.Net.gv_32 (argsK m c) :=
  (keep19 m ρ c main_v110 (by decide)).trans (fk_main_v110_19 m ρ c)
theorem fk_main_v126_20 : W20 m ρ c (Proc.devRef .tc main_v126) = Cert.Net.gv_34 (argsK m c) :=
  (keep19 m ρ c main_v126 (by decide)).trans (fk_main_v126_19 m ρ c)
theorem fk'_main_v129 : StableHlo.after hostOps9 (W20 m ρ c) (Proc.devRef .tc main_v129) = broadcastInDim Cert.ReferenceIdeal.S1x128 ![1] Cert.ReferenceIdeal.Gen.bcast_S128_S1x128_1 ((argsK m c).a29) :=
  (K20_main_v129 (W20 m ρ c)).trans (by rw [fa_29_20 m ρ c])
theorem fk_main_v129_21 : W21 m ρ c (Proc.devRef .tc main_v129) = broadcastInDim Cert.ReferenceIdeal.S1x128 ![1] Cert.ReferenceIdeal.Gen.bcast_S128_S1x128_1 ((argsK m c).a29) := fk'_main_v129 m ρ c
theorem fa_20_21 : W21 m ρ c (Proc.devRef .tc main_arg20) = (argsK m c).a20 :=
  (keep20 m ρ c main_arg20 (by decide)).trans (fa_20_20 m ρ c)
theorem fa_25_21 : W21 m ρ c (Proc.devRef .tc main_arg25) = (argsK m c).a25 :=
  (keep20 m ρ c main_arg25 (by decide)).trans (fa_25_20 m ρ c)
theorem fa_21_21 : W21 m ρ c (Proc.devRef .tc main_arg21) = (argsK m c).a21 :=
  (keep20 m ρ c main_arg21 (by decide)).trans (fa_21_20 m ρ c)
theorem fa_23_21 : W21 m ρ c (Proc.devRef .tc main_arg23) = (argsK m c).a23 :=
  (keep20 m ρ c main_arg23 (by decide)).trans (fa_23_20 m ρ c)
theorem fa_26_21 : W21 m ρ c (Proc.devRef .tc main_arg26) = (argsK m c).a26 :=
  (keep20 m ρ c main_arg26 (by decide)).trans (fa_26_20 m ρ c)
theorem fa_22_21 : W21 m ρ c (Proc.devRef .tc main_arg22) = (argsK m c).a22 :=
  (keep20 m ρ c main_arg22 (by decide)).trans (fa_22_20 m ρ c)
theorem fa_24_21 : W21 m ρ c (Proc.devRef .tc main_arg24) = (argsK m c).a24 :=
  (keep20 m ρ c main_arg24 (by decide)).trans (fa_24_20 m ρ c)
theorem fa_30_21 : W21 m ρ c (Proc.devRef .tc main_arg30) = (argsK m c).a30 :=
  (keep20 m ρ c main_arg30 (by decide)).trans (fa_30_20 m ρ c)
theorem fa_32_21 : W21 m ρ c (Proc.devRef .tc main_arg32) = (argsK m c).a32 :=
  (keep20 m ρ c main_arg32 (by decide)).trans (fa_32_20 m ρ c)
theorem fa_33_21 : W21 m ρ c (Proc.devRef .tc main_arg33) = (argsK m c).a33 :=
  (keep20 m ρ c main_arg33 (by decide)).trans (fa_33_20 m ρ c)
theorem fa_27_21 : W21 m ρ c (Proc.devRef .tc main_arg27) = (argsK m c).a27 :=
  (keep20 m ρ c main_arg27 (by decide)).trans (fa_27_20 m ρ c)
theorem fa_28_21 : W21 m ρ c (Proc.devRef .tc main_arg28) = (argsK m c).a28 :=
  (keep20 m ρ c main_arg28 (by decide)).trans (fa_28_20 m ρ c)
theorem fa_29_21 : W21 m ρ c (Proc.devRef .tc main_arg29) = (argsK m c).a29 :=
  (keep20 m ρ c main_arg29 (by decide)).trans (fa_29_20 m ρ c)
theorem fa_13_21 : W21 m ρ c (Proc.devRef .tc main_arg13) = (argsK m c).a13 :=
  (keep20 m ρ c main_arg13 (by decide)).trans (fa_13_20 m ρ c)
theorem fa_14_21 : W21 m ρ c (Proc.devRef .tc main_arg14) = (argsK m c).a14 :=
  (keep20 m ρ c main_arg14 (by decide)).trans (fa_14_20 m ρ c)
theorem fa_16_21 : W21 m ρ c (Proc.devRef .tc main_arg16) = (argsK m c).a16 :=
  (keep20 m ρ c main_arg16 (by decide)).trans (fa_16_20 m ρ c)
theorem fa_18_21 : W21 m ρ c (Proc.devRef .tc main_arg18) = (argsK m c).a18 :=
  (keep20 m ρ c main_arg18 (by decide)).trans (fa_18_20 m ρ c)
theorem fa_2_21 : W21 m ρ c (Proc.devRef .tc main_arg2) = (argsK m c).a2 :=
  (keep20 m ρ c main_arg2 (by decide)).trans (fa_2_20 m ρ c)
theorem fa_31_21 : W21 m ρ c (Proc.devRef .tc main_arg31) = (argsK m c).a31 :=
  (keep20 m ρ c main_arg31 (by decide)).trans (fa_31_20 m ρ c)
theorem fa_15_21 : W21 m ρ c (Proc.devRef .tc main_arg15) = (argsK m c).a15 :=
  (keep20 m ρ c main_arg15 (by decide)).trans (fa_15_20 m ρ c)
theorem fa_17_21 : W21 m ρ c (Proc.devRef .tc main_arg17) = (argsK m c).a17 :=
  (keep20 m ρ c main_arg17 (by decide)).trans (fa_17_20 m ρ c)
theorem fa_19_21 : W21 m ρ c (Proc.devRef .tc main_arg19) = (argsK m c).a19 :=
  (keep20 m ρ c main_arg19 (by decide)).trans (fa_19_20 m ρ c)
theorem fk_main_v1_21 : W21 m ρ c (Proc.devRef .tc main_v1) = Cert.Net.gv_0 (argsK m c) :=
  (keep20 m ρ c main_v1 (by decide)).trans (fk_main_v1_20 m ρ c)
theorem fk_main_v3_21 : W21 m ρ c (Proc.devRef .tc main_v3) = Cert.Net.gv_1 (argsK m c) :=
  (keep20 m ρ c main_v3 (by decide)).trans (fk_main_v3_20 m ρ c)
theorem fk_main_v6_21 : W21 m ρ c (Proc.devRef .tc main_v6) = Cert.Net.gv_3 (argsK m c) :=
  (keep20 m ρ c main_v6 (by decide)).trans (fk_main_v6_20 m ρ c)
theorem fk_main_v8_21 : W21 m ρ c (Proc.devRef .tc main_v8) = Cert.Net.gv_5 (argsK m c) :=
  (keep20 m ρ c main_v8 (by decide)).trans (fk_main_v8_20 m ρ c)
theorem fk_main_v88_21 : W21 m ρ c (Proc.devRef .tc main_v88) = Cert.Net.gv_30 (argsK m c) :=
  (keep20 m ρ c main_v88 (by decide)).trans (fk_main_v88_20 m ρ c)
theorem fk_main_v110_21 : W21 m ρ c (Proc.devRef .tc main_v110) = Cert.Net.gv_32 (argsK m c) :=
  (keep20 m ρ c main_v110 (by decide)).trans (fk_main_v110_20 m ρ c)
theorem fk_main_v126_21 : W21 m ρ c (Proc.devRef .tc main_v126) = Cert.Net.gv_34 (argsK m c) :=
  (keep20 m ρ c main_v126 (by decide)).trans (fk_main_v126_20 m ρ c)
theorem fk_main_v128_21 : W21 m ρ c (Proc.devRef .tc main_v128) = Cert.Net.gv_36 (argsK m c) :=
  (keep20 m ρ c main_v128 (by decide)).trans (fk_main_v128_20 m ρ c)
theorem fk_main_v130_22 : W22 m ρ c (Proc.devRef .tc main_v130) = Cert.Net.gv_37 (argsK m c) := by
  funext i
  refine (congrFun (W22_arr m ρ c 5) i).trans ?_
  refine (val9 (V21 m ρ) c i).trans ?_
  rw [show V21 m ρ c main_v88 = _ from fk_main_v88_21 m ρ c, show V21 m ρ c main_v110 = _ from fk_main_v110_21 m ρ c, show V21 m ρ c main_arg22 = _ from fa_22_21 m ρ c, show V21 m ρ c main_arg24 = _ from fa_24_21 m ρ c, show V21 m ρ c main_v129 = _ from fk_main_v129_21 m ρ c]
  exact (Cert.Layers.lay9 (argsK m c) i).symm
theorem fa_20_22 : W22 m ρ c (Proc.devRef .tc main_arg20) = (argsK m c).a20 :=
  (keep21 m ρ c main_arg20 (by decide)).trans (fa_20_21 m ρ c)
theorem fa_25_22 : W22 m ρ c (Proc.devRef .tc main_arg25) = (argsK m c).a25 :=
  (keep21 m ρ c main_arg25 (by decide)).trans (fa_25_21 m ρ c)
theorem fa_21_22 : W22 m ρ c (Proc.devRef .tc main_arg21) = (argsK m c).a21 :=
  (keep21 m ρ c main_arg21 (by decide)).trans (fa_21_21 m ρ c)
theorem fa_23_22 : W22 m ρ c (Proc.devRef .tc main_arg23) = (argsK m c).a23 :=
  (keep21 m ρ c main_arg23 (by decide)).trans (fa_23_21 m ρ c)
theorem fa_26_22 : W22 m ρ c (Proc.devRef .tc main_arg26) = (argsK m c).a26 :=
  (keep21 m ρ c main_arg26 (by decide)).trans (fa_26_21 m ρ c)
theorem fa_22_22 : W22 m ρ c (Proc.devRef .tc main_arg22) = (argsK m c).a22 :=
  (keep21 m ρ c main_arg22 (by decide)).trans (fa_22_21 m ρ c)
theorem fa_24_22 : W22 m ρ c (Proc.devRef .tc main_arg24) = (argsK m c).a24 :=
  (keep21 m ρ c main_arg24 (by decide)).trans (fa_24_21 m ρ c)
theorem fa_30_22 : W22 m ρ c (Proc.devRef .tc main_arg30) = (argsK m c).a30 :=
  (keep21 m ρ c main_arg30 (by decide)).trans (fa_30_21 m ρ c)
theorem fa_32_22 : W22 m ρ c (Proc.devRef .tc main_arg32) = (argsK m c).a32 :=
  (keep21 m ρ c main_arg32 (by decide)).trans (fa_32_21 m ρ c)
theorem fa_33_22 : W22 m ρ c (Proc.devRef .tc main_arg33) = (argsK m c).a33 :=
  (keep21 m ρ c main_arg33 (by decide)).trans (fa_33_21 m ρ c)
theorem fa_27_22 : W22 m ρ c (Proc.devRef .tc main_arg27) = (argsK m c).a27 :=
  (keep21 m ρ c main_arg27 (by decide)).trans (fa_27_21 m ρ c)
theorem fa_28_22 : W22 m ρ c (Proc.devRef .tc main_arg28) = (argsK m c).a28 :=
  (keep21 m ρ c main_arg28 (by decide)).trans (fa_28_21 m ρ c)
theorem fa_29_22 : W22 m ρ c (Proc.devRef .tc main_arg29) = (argsK m c).a29 :=
  (keep21 m ρ c main_arg29 (by decide)).trans (fa_29_21 m ρ c)
theorem fa_13_22 : W22 m ρ c (Proc.devRef .tc main_arg13) = (argsK m c).a13 :=
  (keep21 m ρ c main_arg13 (by decide)).trans (fa_13_21 m ρ c)
theorem fa_14_22 : W22 m ρ c (Proc.devRef .tc main_arg14) = (argsK m c).a14 :=
  (keep21 m ρ c main_arg14 (by decide)).trans (fa_14_21 m ρ c)
theorem fa_16_22 : W22 m ρ c (Proc.devRef .tc main_arg16) = (argsK m c).a16 :=
  (keep21 m ρ c main_arg16 (by decide)).trans (fa_16_21 m ρ c)
theorem fa_18_22 : W22 m ρ c (Proc.devRef .tc main_arg18) = (argsK m c).a18 :=
  (keep21 m ρ c main_arg18 (by decide)).trans (fa_18_21 m ρ c)
theorem fa_2_22 : W22 m ρ c (Proc.devRef .tc main_arg2) = (argsK m c).a2 :=
  (keep21 m ρ c main_arg2 (by decide)).trans (fa_2_21 m ρ c)
theorem fa_31_22 : W22 m ρ c (Proc.devRef .tc main_arg31) = (argsK m c).a31 :=
  (keep21 m ρ c main_arg31 (by decide)).trans (fa_31_21 m ρ c)
theorem fa_15_22 : W22 m ρ c (Proc.devRef .tc main_arg15) = (argsK m c).a15 :=
  (keep21 m ρ c main_arg15 (by decide)).trans (fa_15_21 m ρ c)
theorem fa_17_22 : W22 m ρ c (Proc.devRef .tc main_arg17) = (argsK m c).a17 :=
  (keep21 m ρ c main_arg17 (by decide)).trans (fa_17_21 m ρ c)
theorem fa_19_22 : W22 m ρ c (Proc.devRef .tc main_arg19) = (argsK m c).a19 :=
  (keep21 m ρ c main_arg19 (by decide)).trans (fa_19_21 m ρ c)
theorem fk_main_v1_22 : W22 m ρ c (Proc.devRef .tc main_v1) = Cert.Net.gv_0 (argsK m c) :=
  (keep21 m ρ c main_v1 (by decide)).trans (fk_main_v1_21 m ρ c)
theorem fk_main_v3_22 : W22 m ρ c (Proc.devRef .tc main_v3) = Cert.Net.gv_1 (argsK m c) :=
  (keep21 m ρ c main_v3 (by decide)).trans (fk_main_v3_21 m ρ c)
theorem fk_main_v6_22 : W22 m ρ c (Proc.devRef .tc main_v6) = Cert.Net.gv_3 (argsK m c) :=
  (keep21 m ρ c main_v6 (by decide)).trans (fk_main_v6_21 m ρ c)
theorem fk_main_v8_22 : W22 m ρ c (Proc.devRef .tc main_v8) = Cert.Net.gv_5 (argsK m c) :=
  (keep21 m ρ c main_v8 (by decide)).trans (fk_main_v8_21 m ρ c)
theorem fk_main_v126_22 : W22 m ρ c (Proc.devRef .tc main_v126) = Cert.Net.gv_34 (argsK m c) :=
  (keep21 m ρ c main_v126 (by decide)).trans (fk_main_v126_21 m ρ c)
theorem fk_main_v128_22 : W22 m ρ c (Proc.devRef .tc main_v128) = Cert.Net.gv_36 (argsK m c) :=
  (keep21 m ρ c main_v128 (by decide)).trans (fk_main_v128_21 m ρ c)
theorem fk'_main_v148 : StableHlo.after hostOps10 (W22 m ρ c) (Proc.devRef .tc main_v148) = Cert.Net.gv_38 (argsK m c) :=
  (K22_main_v148 (W22 m ρ c)).trans (by rw [fk_main_v3_22 m ρ c, fk_main_v126_22 m ρ c, fk_main_v1_22 m ρ c]; rfl)
theorem fk_main_v148_23 : W23 m ρ c (Proc.devRef .tc main_v148) = Cert.Net.gv_38 (argsK m c) := fk'_main_v148 m ρ c
theorem fk'_main_v150 : StableHlo.after hostOps10 (W22 m ρ c) (Proc.devRef .tc main_v150) = Cert.Net.gv_39 (argsK m c) :=
  (K22_main_v150 (W22 m ρ c)).trans (by rw [fa_13_22 m ρ c]; rfl)
theorem fk_main_v150_23 : W23 m ρ c (Proc.devRef .tc main_v150) = Cert.Net.gv_39 (argsK m c) := fk'_main_v150 m ρ c
theorem fk'_main_v152 : StableHlo.after hostOps10 (W22 m ρ c) (Proc.devRef .tc main_v152) = Cert.Net.gv_40 (argsK m c) :=
  (K22_main_v152 (W22 m ρ c)).trans (by rw [fa_14_22 m ρ c]; rfl)
theorem fk_main_v152_23 : W23 m ρ c (Proc.devRef .tc main_v152) = Cert.Net.gv_40 (argsK m c) := fk'_main_v152 m ρ c
theorem fk'_main_v154 : StableHlo.after hostOps10 (W22 m ρ c) (Proc.devRef .tc main_v154) = Cert.Net.gv_41 (argsK m c) :=
  (K22_main_v154 (W22 m ρ c)).trans (by rw [fa_15_22 m ρ c]; rfl)
theorem fk_main_v154_23 : W23 m ρ c (Proc.devRef .tc main_v154) = Cert.Net.gv_41 (argsK m c) := fk'_main_v154 m ρ c
theorem fk'_main_v155 : StableHlo.after hostOps10 (W22 m ρ c) (Proc.devRef .tc main_v155) = broadcastInDim Cert.ReferenceIdeal.S1x128 ![1] Cert.ReferenceIdeal.Gen.bcast_S128_S1x128_1 (Cert.Net.gv_41 (argsK m c)) :=
  (K22_main_v155 (W22 m ρ c)).trans (by rw [fk'_main_v154 m ρ c])
theorem fk_main_v155_23 : W23 m ρ c (Proc.devRef .tc main_v155) = broadcastInDim Cert.ReferenceIdeal.S1x128 ![1] Cert.ReferenceIdeal.Gen.bcast_S128_S1x128_1 (Cert.Net.gv_41 (argsK m c)) := fk'_main_v155 m ρ c
theorem fa_20_23 : W23 m ρ c (Proc.devRef .tc main_arg20) = (argsK m c).a20 :=
  (keep22 m ρ c main_arg20 (by decide)).trans (fa_20_22 m ρ c)
theorem fa_25_23 : W23 m ρ c (Proc.devRef .tc main_arg25) = (argsK m c).a25 :=
  (keep22 m ρ c main_arg25 (by decide)).trans (fa_25_22 m ρ c)
theorem fa_21_23 : W23 m ρ c (Proc.devRef .tc main_arg21) = (argsK m c).a21 :=
  (keep22 m ρ c main_arg21 (by decide)).trans (fa_21_22 m ρ c)
theorem fa_23_23 : W23 m ρ c (Proc.devRef .tc main_arg23) = (argsK m c).a23 :=
  (keep22 m ρ c main_arg23 (by decide)).trans (fa_23_22 m ρ c)
theorem fa_26_23 : W23 m ρ c (Proc.devRef .tc main_arg26) = (argsK m c).a26 :=
  (keep22 m ρ c main_arg26 (by decide)).trans (fa_26_22 m ρ c)
theorem fa_22_23 : W23 m ρ c (Proc.devRef .tc main_arg22) = (argsK m c).a22 :=
  (keep22 m ρ c main_arg22 (by decide)).trans (fa_22_22 m ρ c)
theorem fa_24_23 : W23 m ρ c (Proc.devRef .tc main_arg24) = (argsK m c).a24 :=
  (keep22 m ρ c main_arg24 (by decide)).trans (fa_24_22 m ρ c)
theorem fa_30_23 : W23 m ρ c (Proc.devRef .tc main_arg30) = (argsK m c).a30 :=
  (keep22 m ρ c main_arg30 (by decide)).trans (fa_30_22 m ρ c)
theorem fa_32_23 : W23 m ρ c (Proc.devRef .tc main_arg32) = (argsK m c).a32 :=
  (keep22 m ρ c main_arg32 (by decide)).trans (fa_32_22 m ρ c)
theorem fa_33_23 : W23 m ρ c (Proc.devRef .tc main_arg33) = (argsK m c).a33 :=
  (keep22 m ρ c main_arg33 (by decide)).trans (fa_33_22 m ρ c)
theorem fa_27_23 : W23 m ρ c (Proc.devRef .tc main_arg27) = (argsK m c).a27 :=
  (keep22 m ρ c main_arg27 (by decide)).trans (fa_27_22 m ρ c)
theorem fa_28_23 : W23 m ρ c (Proc.devRef .tc main_arg28) = (argsK m c).a28 :=
  (keep22 m ρ c main_arg28 (by decide)).trans (fa_28_22 m ρ c)
theorem fa_29_23 : W23 m ρ c (Proc.devRef .tc main_arg29) = (argsK m c).a29 :=
  (keep22 m ρ c main_arg29 (by decide)).trans (fa_29_22 m ρ c)
theorem fa_13_23 : W23 m ρ c (Proc.devRef .tc main_arg13) = (argsK m c).a13 :=
  (keep22 m ρ c main_arg13 (by decide)).trans (fa_13_22 m ρ c)
theorem fa_14_23 : W23 m ρ c (Proc.devRef .tc main_arg14) = (argsK m c).a14 :=
  (keep22 m ρ c main_arg14 (by decide)).trans (fa_14_22 m ρ c)
theorem fa_16_23 : W23 m ρ c (Proc.devRef .tc main_arg16) = (argsK m c).a16 :=
  (keep22 m ρ c main_arg16 (by decide)).trans (fa_16_22 m ρ c)
theorem fa_18_23 : W23 m ρ c (Proc.devRef .tc main_arg18) = (argsK m c).a18 :=
  (keep22 m ρ c main_arg18 (by decide)).trans (fa_18_22 m ρ c)
theorem fa_2_23 : W23 m ρ c (Proc.devRef .tc main_arg2) = (argsK m c).a2 :=
  (keep22 m ρ c main_arg2 (by decide)).trans (fa_2_22 m ρ c)
theorem fa_31_23 : W23 m ρ c (Proc.devRef .tc main_arg31) = (argsK m c).a31 :=
  (keep22 m ρ c main_arg31 (by decide)).trans (fa_31_22 m ρ c)
theorem fa_15_23 : W23 m ρ c (Proc.devRef .tc main_arg15) = (argsK m c).a15 :=
  (keep22 m ρ c main_arg15 (by decide)).trans (fa_15_22 m ρ c)
theorem fa_17_23 : W23 m ρ c (Proc.devRef .tc main_arg17) = (argsK m c).a17 :=
  (keep22 m ρ c main_arg17 (by decide)).trans (fa_17_22 m ρ c)
theorem fa_19_23 : W23 m ρ c (Proc.devRef .tc main_arg19) = (argsK m c).a19 :=
  (keep22 m ρ c main_arg19 (by decide)).trans (fa_19_22 m ρ c)
theorem fk_main_v1_23 : W23 m ρ c (Proc.devRef .tc main_v1) = Cert.Net.gv_0 (argsK m c) :=
  (keep22 m ρ c main_v1 (by decide)).trans (fk_main_v1_22 m ρ c)
theorem fk_main_v3_23 : W23 m ρ c (Proc.devRef .tc main_v3) = Cert.Net.gv_1 (argsK m c) :=
  (keep22 m ρ c main_v3 (by decide)).trans (fk_main_v3_22 m ρ c)
theorem fk_main_v6_23 : W23 m ρ c (Proc.devRef .tc main_v6) = Cert.Net.gv_3 (argsK m c) :=
  (keep22 m ρ c main_v6 (by decide)).trans (fk_main_v6_22 m ρ c)
theorem fk_main_v8_23 : W23 m ρ c (Proc.devRef .tc main_v8) = Cert.Net.gv_5 (argsK m c) :=
  (keep22 m ρ c main_v8 (by decide)).trans (fk_main_v8_22 m ρ c)
theorem fk_main_v126_23 : W23 m ρ c (Proc.devRef .tc main_v126) = Cert.Net.gv_34 (argsK m c) :=
  (keep22 m ρ c main_v126 (by decide)).trans (fk_main_v126_22 m ρ c)
theorem fk_main_v128_23 : W23 m ρ c (Proc.devRef .tc main_v128) = Cert.Net.gv_36 (argsK m c) :=
  (keep22 m ρ c main_v128 (by decide)).trans (fk_main_v128_22 m ρ c)
theorem fk_main_v130_23 : W23 m ρ c (Proc.devRef .tc main_v130) = Cert.Net.gv_37 (argsK m c) :=
  (keep22 m ρ c main_v130 (by decide)).trans (fk_main_v130_22 m ρ c)
theorem fk_main_v156_24 : W24 m ρ c (Proc.devRef .tc main_v156) = Cert.Net.gv_42 (argsK m c) := by
  funext i
  refine (congrFun (W24_arr m ρ c 5) i).trans ?_
  refine (val10 (V23 m ρ) c i).trans ?_
  rw [show V23 m ρ c main_v126 = _ from fk_main_v126_23 m ρ c, show V23 m ρ c main_v148 = _ from fk_main_v148_23 m ρ c, show V23 m ρ c main_v150 = _ from fk_main_v150_23 m ρ c, show V23 m ρ c main_v152 = _ from fk_main_v152_23 m ρ c, show V23 m ρ c main_v155 = _ from fk_main_v155_23 m ρ c]
  exact (Cert.Layers.lay10 (argsK m c) i).symm
theorem fa_20_24 : W24 m ρ c (Proc.devRef .tc main_arg20) = (argsK m c).a20 :=
  (keep23 m ρ c main_arg20 (by decide)).trans (fa_20_23 m ρ c)
theorem fa_25_24 : W24 m ρ c (Proc.devRef .tc main_arg25) = (argsK m c).a25 :=
  (keep23 m ρ c main_arg25 (by decide)).trans (fa_25_23 m ρ c)
theorem fa_21_24 : W24 m ρ c (Proc.devRef .tc main_arg21) = (argsK m c).a21 :=
  (keep23 m ρ c main_arg21 (by decide)).trans (fa_21_23 m ρ c)
theorem fa_23_24 : W24 m ρ c (Proc.devRef .tc main_arg23) = (argsK m c).a23 :=
  (keep23 m ρ c main_arg23 (by decide)).trans (fa_23_23 m ρ c)
theorem fa_26_24 : W24 m ρ c (Proc.devRef .tc main_arg26) = (argsK m c).a26 :=
  (keep23 m ρ c main_arg26 (by decide)).trans (fa_26_23 m ρ c)
theorem fa_22_24 : W24 m ρ c (Proc.devRef .tc main_arg22) = (argsK m c).a22 :=
  (keep23 m ρ c main_arg22 (by decide)).trans (fa_22_23 m ρ c)
theorem fa_24_24 : W24 m ρ c (Proc.devRef .tc main_arg24) = (argsK m c).a24 :=
  (keep23 m ρ c main_arg24 (by decide)).trans (fa_24_23 m ρ c)
theorem fa_30_24 : W24 m ρ c (Proc.devRef .tc main_arg30) = (argsK m c).a30 :=
  (keep23 m ρ c main_arg30 (by decide)).trans (fa_30_23 m ρ c)
theorem fa_32_24 : W24 m ρ c (Proc.devRef .tc main_arg32) = (argsK m c).a32 :=
  (keep23 m ρ c main_arg32 (by decide)).trans (fa_32_23 m ρ c)
theorem fa_33_24 : W24 m ρ c (Proc.devRef .tc main_arg33) = (argsK m c).a33 :=
  (keep23 m ρ c main_arg33 (by decide)).trans (fa_33_23 m ρ c)
theorem fa_27_24 : W24 m ρ c (Proc.devRef .tc main_arg27) = (argsK m c).a27 :=
  (keep23 m ρ c main_arg27 (by decide)).trans (fa_27_23 m ρ c)
theorem fa_28_24 : W24 m ρ c (Proc.devRef .tc main_arg28) = (argsK m c).a28 :=
  (keep23 m ρ c main_arg28 (by decide)).trans (fa_28_23 m ρ c)
theorem fa_29_24 : W24 m ρ c (Proc.devRef .tc main_arg29) = (argsK m c).a29 :=
  (keep23 m ρ c main_arg29 (by decide)).trans (fa_29_23 m ρ c)
theorem fa_13_24 : W24 m ρ c (Proc.devRef .tc main_arg13) = (argsK m c).a13 :=
  (keep23 m ρ c main_arg13 (by decide)).trans (fa_13_23 m ρ c)
theorem fa_14_24 : W24 m ρ c (Proc.devRef .tc main_arg14) = (argsK m c).a14 :=
  (keep23 m ρ c main_arg14 (by decide)).trans (fa_14_23 m ρ c)
theorem fa_16_24 : W24 m ρ c (Proc.devRef .tc main_arg16) = (argsK m c).a16 :=
  (keep23 m ρ c main_arg16 (by decide)).trans (fa_16_23 m ρ c)
theorem fa_18_24 : W24 m ρ c (Proc.devRef .tc main_arg18) = (argsK m c).a18 :=
  (keep23 m ρ c main_arg18 (by decide)).trans (fa_18_23 m ρ c)
theorem fa_2_24 : W24 m ρ c (Proc.devRef .tc main_arg2) = (argsK m c).a2 :=
  (keep23 m ρ c main_arg2 (by decide)).trans (fa_2_23 m ρ c)
theorem fa_31_24 : W24 m ρ c (Proc.devRef .tc main_arg31) = (argsK m c).a31 :=
  (keep23 m ρ c main_arg31 (by decide)).trans (fa_31_23 m ρ c)
theorem fa_15_24 : W24 m ρ c (Proc.devRef .tc main_arg15) = (argsK m c).a15 :=
  (keep23 m ρ c main_arg15 (by decide)).trans (fa_15_23 m ρ c)
theorem fa_17_24 : W24 m ρ c (Proc.devRef .tc main_arg17) = (argsK m c).a17 :=
  (keep23 m ρ c main_arg17 (by decide)).trans (fa_17_23 m ρ c)
theorem fa_19_24 : W24 m ρ c (Proc.devRef .tc main_arg19) = (argsK m c).a19 :=
  (keep23 m ρ c main_arg19 (by decide)).trans (fa_19_23 m ρ c)
theorem fk_main_v1_24 : W24 m ρ c (Proc.devRef .tc main_v1) = Cert.Net.gv_0 (argsK m c) :=
  (keep23 m ρ c main_v1 (by decide)).trans (fk_main_v1_23 m ρ c)
theorem fk_main_v3_24 : W24 m ρ c (Proc.devRef .tc main_v3) = Cert.Net.gv_1 (argsK m c) :=
  (keep23 m ρ c main_v3 (by decide)).trans (fk_main_v3_23 m ρ c)
theorem fk_main_v6_24 : W24 m ρ c (Proc.devRef .tc main_v6) = Cert.Net.gv_3 (argsK m c) :=
  (keep23 m ρ c main_v6 (by decide)).trans (fk_main_v6_23 m ρ c)
theorem fk_main_v8_24 : W24 m ρ c (Proc.devRef .tc main_v8) = Cert.Net.gv_5 (argsK m c) :=
  (keep23 m ρ c main_v8 (by decide)).trans (fk_main_v8_23 m ρ c)
theorem fk_main_v128_24 : W24 m ρ c (Proc.devRef .tc main_v128) = Cert.Net.gv_36 (argsK m c) :=
  (keep23 m ρ c main_v128 (by decide)).trans (fk_main_v128_23 m ρ c)
theorem fk_main_v130_24 : W24 m ρ c (Proc.devRef .tc main_v130) = Cert.Net.gv_37 (argsK m c) :=
  (keep23 m ρ c main_v130 (by decide)).trans (fk_main_v130_23 m ρ c)
theorem fk'_main_v174 : StableHlo.after hostOps11 (W24 m ρ c) (Proc.devRef .tc main_v174) = Cert.Net.gv_43 (argsK m c) :=
  (K24_main_v174 (W24 m ρ c)).trans (by rw [fk_main_v3_24 m ρ c, fk_main_v156_24 m ρ c, fk_main_v1_24 m ρ c]; rfl)
theorem fk_main_v174_25 : W25 m ρ c (Proc.devRef .tc main_v174) = Cert.Net.gv_43 (argsK m c) := fk'_main_v174 m ρ c
theorem fk'_main_v176 : StableHlo.after hostOps11 (W24 m ρ c) (Proc.devRef .tc main_v176) = Cert.Net.gv_44 (argsK m c) :=
  (K24_main_v176 (W24 m ρ c)).trans (by rw [fa_13_24 m ρ c]; rfl)
theorem fk_main_v176_25 : W25 m ρ c (Proc.devRef .tc main_v176) = Cert.Net.gv_44 (argsK m c) := fk'_main_v176 m ρ c
theorem fk'_main_v178 : StableHlo.after hostOps11 (W24 m ρ c) (Proc.devRef .tc main_v178) = Cert.Net.gv_45 (argsK m c) :=
  (K24_main_v178 (W24 m ρ c)).trans (by rw [fa_14_24 m ρ c]; rfl)
theorem fk_main_v178_25 : W25 m ρ c (Proc.devRef .tc main_v178) = Cert.Net.gv_45 (argsK m c) := fk'_main_v178 m ρ c
theorem fk'_main_v180 : StableHlo.after hostOps11 (W24 m ρ c) (Proc.devRef .tc main_v180) = Cert.Net.gv_46 (argsK m c) :=
  (K24_main_v180 (W24 m ρ c)).trans (by rw [fa_15_24 m ρ c]; rfl)
theorem fk_main_v180_25 : W25 m ρ c (Proc.devRef .tc main_v180) = Cert.Net.gv_46 (argsK m c) := fk'_main_v180 m ρ c
theorem fk'_main_v181 : StableHlo.after hostOps11 (W24 m ρ c) (Proc.devRef .tc main_v181) = broadcastInDim Cert.ReferenceIdeal.S1x128 ![1] Cert.ReferenceIdeal.Gen.bcast_S128_S1x128_1 (Cert.Net.gv_46 (argsK m c)) :=
  (K24_main_v181 (W24 m ρ c)).trans (by rw [fk'_main_v180 m ρ c])
theorem fk_main_v181_25 : W25 m ρ c (Proc.devRef .tc main_v181) = broadcastInDim Cert.ReferenceIdeal.S1x128 ![1] Cert.ReferenceIdeal.Gen.bcast_S128_S1x128_1 (Cert.Net.gv_46 (argsK m c)) := fk'_main_v181 m ρ c
theorem fa_20_25 : W25 m ρ c (Proc.devRef .tc main_arg20) = (argsK m c).a20 :=
  (keep24 m ρ c main_arg20 (by decide)).trans (fa_20_24 m ρ c)
theorem fa_25_25 : W25 m ρ c (Proc.devRef .tc main_arg25) = (argsK m c).a25 :=
  (keep24 m ρ c main_arg25 (by decide)).trans (fa_25_24 m ρ c)
theorem fa_21_25 : W25 m ρ c (Proc.devRef .tc main_arg21) = (argsK m c).a21 :=
  (keep24 m ρ c main_arg21 (by decide)).trans (fa_21_24 m ρ c)
theorem fa_23_25 : W25 m ρ c (Proc.devRef .tc main_arg23) = (argsK m c).a23 :=
  (keep24 m ρ c main_arg23 (by decide)).trans (fa_23_24 m ρ c)
theorem fa_26_25 : W25 m ρ c (Proc.devRef .tc main_arg26) = (argsK m c).a26 :=
  (keep24 m ρ c main_arg26 (by decide)).trans (fa_26_24 m ρ c)
theorem fa_22_25 : W25 m ρ c (Proc.devRef .tc main_arg22) = (argsK m c).a22 :=
  (keep24 m ρ c main_arg22 (by decide)).trans (fa_22_24 m ρ c)
theorem fa_24_25 : W25 m ρ c (Proc.devRef .tc main_arg24) = (argsK m c).a24 :=
  (keep24 m ρ c main_arg24 (by decide)).trans (fa_24_24 m ρ c)
theorem fa_30_25 : W25 m ρ c (Proc.devRef .tc main_arg30) = (argsK m c).a30 :=
  (keep24 m ρ c main_arg30 (by decide)).trans (fa_30_24 m ρ c)
theorem fa_32_25 : W25 m ρ c (Proc.devRef .tc main_arg32) = (argsK m c).a32 :=
  (keep24 m ρ c main_arg32 (by decide)).trans (fa_32_24 m ρ c)
theorem fa_33_25 : W25 m ρ c (Proc.devRef .tc main_arg33) = (argsK m c).a33 :=
  (keep24 m ρ c main_arg33 (by decide)).trans (fa_33_24 m ρ c)
theorem fa_27_25 : W25 m ρ c (Proc.devRef .tc main_arg27) = (argsK m c).a27 :=
  (keep24 m ρ c main_arg27 (by decide)).trans (fa_27_24 m ρ c)
theorem fa_28_25 : W25 m ρ c (Proc.devRef .tc main_arg28) = (argsK m c).a28 :=
  (keep24 m ρ c main_arg28 (by decide)).trans (fa_28_24 m ρ c)
theorem fa_29_25 : W25 m ρ c (Proc.devRef .tc main_arg29) = (argsK m c).a29 :=
  (keep24 m ρ c main_arg29 (by decide)).trans (fa_29_24 m ρ c)
theorem fa_13_25 : W25 m ρ c (Proc.devRef .tc main_arg13) = (argsK m c).a13 :=
  (keep24 m ρ c main_arg13 (by decide)).trans (fa_13_24 m ρ c)
theorem fa_14_25 : W25 m ρ c (Proc.devRef .tc main_arg14) = (argsK m c).a14 :=
  (keep24 m ρ c main_arg14 (by decide)).trans (fa_14_24 m ρ c)
theorem fa_16_25 : W25 m ρ c (Proc.devRef .tc main_arg16) = (argsK m c).a16 :=
  (keep24 m ρ c main_arg16 (by decide)).trans (fa_16_24 m ρ c)
theorem fa_18_25 : W25 m ρ c (Proc.devRef .tc main_arg18) = (argsK m c).a18 :=
  (keep24 m ρ c main_arg18 (by decide)).trans (fa_18_24 m ρ c)
theorem fa_2_25 : W25 m ρ c (Proc.devRef .tc main_arg2) = (argsK m c).a2 :=
  (keep24 m ρ c main_arg2 (by decide)).trans (fa_2_24 m ρ c)
theorem fa_31_25 : W25 m ρ c (Proc.devRef .tc main_arg31) = (argsK m c).a31 :=
  (keep24 m ρ c main_arg31 (by decide)).trans (fa_31_24 m ρ c)
theorem fa_15_25 : W25 m ρ c (Proc.devRef .tc main_arg15) = (argsK m c).a15 :=
  (keep24 m ρ c main_arg15 (by decide)).trans (fa_15_24 m ρ c)
theorem fa_17_25 : W25 m ρ c (Proc.devRef .tc main_arg17) = (argsK m c).a17 :=
  (keep24 m ρ c main_arg17 (by decide)).trans (fa_17_24 m ρ c)
theorem fa_19_25 : W25 m ρ c (Proc.devRef .tc main_arg19) = (argsK m c).a19 :=
  (keep24 m ρ c main_arg19 (by decide)).trans (fa_19_24 m ρ c)
theorem fk_main_v1_25 : W25 m ρ c (Proc.devRef .tc main_v1) = Cert.Net.gv_0 (argsK m c) :=
  (keep24 m ρ c main_v1 (by decide)).trans (fk_main_v1_24 m ρ c)
theorem fk_main_v3_25 : W25 m ρ c (Proc.devRef .tc main_v3) = Cert.Net.gv_1 (argsK m c) :=
  (keep24 m ρ c main_v3 (by decide)).trans (fk_main_v3_24 m ρ c)
theorem fk_main_v6_25 : W25 m ρ c (Proc.devRef .tc main_v6) = Cert.Net.gv_3 (argsK m c) :=
  (keep24 m ρ c main_v6 (by decide)).trans (fk_main_v6_24 m ρ c)
theorem fk_main_v8_25 : W25 m ρ c (Proc.devRef .tc main_v8) = Cert.Net.gv_5 (argsK m c) :=
  (keep24 m ρ c main_v8 (by decide)).trans (fk_main_v8_24 m ρ c)
theorem fk_main_v128_25 : W25 m ρ c (Proc.devRef .tc main_v128) = Cert.Net.gv_36 (argsK m c) :=
  (keep24 m ρ c main_v128 (by decide)).trans (fk_main_v128_24 m ρ c)
theorem fk_main_v130_25 : W25 m ρ c (Proc.devRef .tc main_v130) = Cert.Net.gv_37 (argsK m c) :=
  (keep24 m ρ c main_v130 (by decide)).trans (fk_main_v130_24 m ρ c)
theorem fk_main_v156_25 : W25 m ρ c (Proc.devRef .tc main_v156) = Cert.Net.gv_42 (argsK m c) :=
  (keep24 m ρ c main_v156 (by decide)).trans (fk_main_v156_24 m ρ c)
theorem fk_main_v182_26 : W26 m ρ c (Proc.devRef .tc main_v182) = Cert.Net.gv_47 (argsK m c) := by
  funext i
  refine (congrFun (W26_arr m ρ c 5) i).trans ?_
  refine (val11 (V25 m ρ) c i).trans ?_
  rw [show V25 m ρ c main_v156 = _ from fk_main_v156_25 m ρ c, show V25 m ρ c main_v174 = _ from fk_main_v174_25 m ρ c, show V25 m ρ c main_v176 = _ from fk_main_v176_25 m ρ c, show V25 m ρ c main_v178 = _ from fk_main_v178_25 m ρ c, show V25 m ρ c main_v181 = _ from fk_main_v181_25 m ρ c]
  exact (Cert.Layers.lay11 (argsK m c) i).symm
theorem fa_20_26 : W26 m ρ c (Proc.devRef .tc main_arg20) = (argsK m c).a20 :=
  (keep25 m ρ c main_arg20 (by decide)).trans (fa_20_25 m ρ c)
theorem fa_25_26 : W26 m ρ c (Proc.devRef .tc main_arg25) = (argsK m c).a25 :=
  (keep25 m ρ c main_arg25 (by decide)).trans (fa_25_25 m ρ c)
theorem fa_21_26 : W26 m ρ c (Proc.devRef .tc main_arg21) = (argsK m c).a21 :=
  (keep25 m ρ c main_arg21 (by decide)).trans (fa_21_25 m ρ c)
theorem fa_23_26 : W26 m ρ c (Proc.devRef .tc main_arg23) = (argsK m c).a23 :=
  (keep25 m ρ c main_arg23 (by decide)).trans (fa_23_25 m ρ c)
theorem fa_26_26 : W26 m ρ c (Proc.devRef .tc main_arg26) = (argsK m c).a26 :=
  (keep25 m ρ c main_arg26 (by decide)).trans (fa_26_25 m ρ c)
theorem fa_22_26 : W26 m ρ c (Proc.devRef .tc main_arg22) = (argsK m c).a22 :=
  (keep25 m ρ c main_arg22 (by decide)).trans (fa_22_25 m ρ c)
theorem fa_24_26 : W26 m ρ c (Proc.devRef .tc main_arg24) = (argsK m c).a24 :=
  (keep25 m ρ c main_arg24 (by decide)).trans (fa_24_25 m ρ c)
theorem fa_30_26 : W26 m ρ c (Proc.devRef .tc main_arg30) = (argsK m c).a30 :=
  (keep25 m ρ c main_arg30 (by decide)).trans (fa_30_25 m ρ c)
theorem fa_32_26 : W26 m ρ c (Proc.devRef .tc main_arg32) = (argsK m c).a32 :=
  (keep25 m ρ c main_arg32 (by decide)).trans (fa_32_25 m ρ c)
theorem fa_33_26 : W26 m ρ c (Proc.devRef .tc main_arg33) = (argsK m c).a33 :=
  (keep25 m ρ c main_arg33 (by decide)).trans (fa_33_25 m ρ c)
theorem fa_27_26 : W26 m ρ c (Proc.devRef .tc main_arg27) = (argsK m c).a27 :=
  (keep25 m ρ c main_arg27 (by decide)).trans (fa_27_25 m ρ c)
theorem fa_28_26 : W26 m ρ c (Proc.devRef .tc main_arg28) = (argsK m c).a28 :=
  (keep25 m ρ c main_arg28 (by decide)).trans (fa_28_25 m ρ c)
theorem fa_29_26 : W26 m ρ c (Proc.devRef .tc main_arg29) = (argsK m c).a29 :=
  (keep25 m ρ c main_arg29 (by decide)).trans (fa_29_25 m ρ c)
theorem fa_13_26 : W26 m ρ c (Proc.devRef .tc main_arg13) = (argsK m c).a13 :=
  (keep25 m ρ c main_arg13 (by decide)).trans (fa_13_25 m ρ c)
theorem fa_14_26 : W26 m ρ c (Proc.devRef .tc main_arg14) = (argsK m c).a14 :=
  (keep25 m ρ c main_arg14 (by decide)).trans (fa_14_25 m ρ c)
theorem fa_16_26 : W26 m ρ c (Proc.devRef .tc main_arg16) = (argsK m c).a16 :=
  (keep25 m ρ c main_arg16 (by decide)).trans (fa_16_25 m ρ c)
theorem fa_18_26 : W26 m ρ c (Proc.devRef .tc main_arg18) = (argsK m c).a18 :=
  (keep25 m ρ c main_arg18 (by decide)).trans (fa_18_25 m ρ c)
theorem fa_2_26 : W26 m ρ c (Proc.devRef .tc main_arg2) = (argsK m c).a2 :=
  (keep25 m ρ c main_arg2 (by decide)).trans (fa_2_25 m ρ c)
theorem fa_31_26 : W26 m ρ c (Proc.devRef .tc main_arg31) = (argsK m c).a31 :=
  (keep25 m ρ c main_arg31 (by decide)).trans (fa_31_25 m ρ c)
theorem fa_15_26 : W26 m ρ c (Proc.devRef .tc main_arg15) = (argsK m c).a15 :=
  (keep25 m ρ c main_arg15 (by decide)).trans (fa_15_25 m ρ c)
theorem fa_17_26 : W26 m ρ c (Proc.devRef .tc main_arg17) = (argsK m c).a17 :=
  (keep25 m ρ c main_arg17 (by decide)).trans (fa_17_25 m ρ c)
theorem fa_19_26 : W26 m ρ c (Proc.devRef .tc main_arg19) = (argsK m c).a19 :=
  (keep25 m ρ c main_arg19 (by decide)).trans (fa_19_25 m ρ c)
theorem fk_main_v1_26 : W26 m ρ c (Proc.devRef .tc main_v1) = Cert.Net.gv_0 (argsK m c) :=
  (keep25 m ρ c main_v1 (by decide)).trans (fk_main_v1_25 m ρ c)
theorem fk_main_v3_26 : W26 m ρ c (Proc.devRef .tc main_v3) = Cert.Net.gv_1 (argsK m c) :=
  (keep25 m ρ c main_v3 (by decide)).trans (fk_main_v3_25 m ρ c)
theorem fk_main_v6_26 : W26 m ρ c (Proc.devRef .tc main_v6) = Cert.Net.gv_3 (argsK m c) :=
  (keep25 m ρ c main_v6 (by decide)).trans (fk_main_v6_25 m ρ c)
theorem fk_main_v8_26 : W26 m ρ c (Proc.devRef .tc main_v8) = Cert.Net.gv_5 (argsK m c) :=
  (keep25 m ρ c main_v8 (by decide)).trans (fk_main_v8_25 m ρ c)
theorem fk_main_v128_26 : W26 m ρ c (Proc.devRef .tc main_v128) = Cert.Net.gv_36 (argsK m c) :=
  (keep25 m ρ c main_v128 (by decide)).trans (fk_main_v128_25 m ρ c)
theorem fk_main_v130_26 : W26 m ρ c (Proc.devRef .tc main_v130) = Cert.Net.gv_37 (argsK m c) :=
  (keep25 m ρ c main_v130 (by decide)).trans (fk_main_v130_25 m ρ c)
theorem fk'_main_v184 : StableHlo.after hostOps12 (W26 m ρ c) (Proc.devRef .tc main_v184) = Cert.Net.gv_48 (argsK m c) :=
  (K26_main_v184 (W26 m ρ c)).trans (by rw [fa_16_26 m ρ c]; rfl)
theorem fk_main_v184_27 : W27 m ρ c (Proc.devRef .tc main_v184) = Cert.Net.gv_48 (argsK m c) := fk'_main_v184 m ρ c
theorem fk'_main_v186 : StableHlo.after hostOps12 (W26 m ρ c) (Proc.devRef .tc main_v186) = Cert.Net.gv_49 (argsK m c) :=
  (K26_main_v186 (W26 m ρ c)).trans (by rw [fa_17_26 m ρ c]; rfl)
theorem fk_main_v186_27 : W27 m ρ c (Proc.devRef .tc main_v186) = Cert.Net.gv_49 (argsK m c) := fk'_main_v186 m ρ c
theorem fk'_main_v187 : StableHlo.after hostOps12 (W26 m ρ c) (Proc.devRef .tc main_v187) = broadcastInDim Cert.ReferenceIdeal.S1x128 ![1] Cert.ReferenceIdeal.Gen.bcast_S128_S1x128_1 (Cert.Net.gv_49 (argsK m c)) :=
  (K26_main_v187 (W26 m ρ c)).trans (by rw [fk'_main_v186 m ρ c])
theorem fk_main_v187_27 : W27 m ρ c (Proc.devRef .tc main_v187) = broadcastInDim Cert.ReferenceIdeal.S1x128 ![1] Cert.ReferenceIdeal.Gen.bcast_S128_S1x128_1 (Cert.Net.gv_49 (argsK m c)) := fk'_main_v187 m ρ c
theorem fa_20_27 : W27 m ρ c (Proc.devRef .tc main_arg20) = (argsK m c).a20 :=
  (keep26 m ρ c main_arg20 (by decide)).trans (fa_20_26 m ρ c)
theorem fa_25_27 : W27 m ρ c (Proc.devRef .tc main_arg25) = (argsK m c).a25 :=
  (keep26 m ρ c main_arg25 (by decide)).trans (fa_25_26 m ρ c)
theorem fa_21_27 : W27 m ρ c (Proc.devRef .tc main_arg21) = (argsK m c).a21 :=
  (keep26 m ρ c main_arg21 (by decide)).trans (fa_21_26 m ρ c)
theorem fa_23_27 : W27 m ρ c (Proc.devRef .tc main_arg23) = (argsK m c).a23 :=
  (keep26 m ρ c main_arg23 (by decide)).trans (fa_23_26 m ρ c)
theorem fa_26_27 : W27 m ρ c (Proc.devRef .tc main_arg26) = (argsK m c).a26 :=
  (keep26 m ρ c main_arg26 (by decide)).trans (fa_26_26 m ρ c)
theorem fa_22_27 : W27 m ρ c (Proc.devRef .tc main_arg22) = (argsK m c).a22 :=
  (keep26 m ρ c main_arg22 (by decide)).trans (fa_22_26 m ρ c)
theorem fa_24_27 : W27 m ρ c (Proc.devRef .tc main_arg24) = (argsK m c).a24 :=
  (keep26 m ρ c main_arg24 (by decide)).trans (fa_24_26 m ρ c)
theorem fa_30_27 : W27 m ρ c (Proc.devRef .tc main_arg30) = (argsK m c).a30 :=
  (keep26 m ρ c main_arg30 (by decide)).trans (fa_30_26 m ρ c)
theorem fa_32_27 : W27 m ρ c (Proc.devRef .tc main_arg32) = (argsK m c).a32 :=
  (keep26 m ρ c main_arg32 (by decide)).trans (fa_32_26 m ρ c)
theorem fa_33_27 : W27 m ρ c (Proc.devRef .tc main_arg33) = (argsK m c).a33 :=
  (keep26 m ρ c main_arg33 (by decide)).trans (fa_33_26 m ρ c)
theorem fa_27_27 : W27 m ρ c (Proc.devRef .tc main_arg27) = (argsK m c).a27 :=
  (keep26 m ρ c main_arg27 (by decide)).trans (fa_27_26 m ρ c)
theorem fa_28_27 : W27 m ρ c (Proc.devRef .tc main_arg28) = (argsK m c).a28 :=
  (keep26 m ρ c main_arg28 (by decide)).trans (fa_28_26 m ρ c)
theorem fa_29_27 : W27 m ρ c (Proc.devRef .tc main_arg29) = (argsK m c).a29 :=
  (keep26 m ρ c main_arg29 (by decide)).trans (fa_29_26 m ρ c)
theorem fa_13_27 : W27 m ρ c (Proc.devRef .tc main_arg13) = (argsK m c).a13 :=
  (keep26 m ρ c main_arg13 (by decide)).trans (fa_13_26 m ρ c)
theorem fa_14_27 : W27 m ρ c (Proc.devRef .tc main_arg14) = (argsK m c).a14 :=
  (keep26 m ρ c main_arg14 (by decide)).trans (fa_14_26 m ρ c)
theorem fa_16_27 : W27 m ρ c (Proc.devRef .tc main_arg16) = (argsK m c).a16 :=
  (keep26 m ρ c main_arg16 (by decide)).trans (fa_16_26 m ρ c)
theorem fa_18_27 : W27 m ρ c (Proc.devRef .tc main_arg18) = (argsK m c).a18 :=
  (keep26 m ρ c main_arg18 (by decide)).trans (fa_18_26 m ρ c)
theorem fa_2_27 : W27 m ρ c (Proc.devRef .tc main_arg2) = (argsK m c).a2 :=
  (keep26 m ρ c main_arg2 (by decide)).trans (fa_2_26 m ρ c)
theorem fa_31_27 : W27 m ρ c (Proc.devRef .tc main_arg31) = (argsK m c).a31 :=
  (keep26 m ρ c main_arg31 (by decide)).trans (fa_31_26 m ρ c)
theorem fa_15_27 : W27 m ρ c (Proc.devRef .tc main_arg15) = (argsK m c).a15 :=
  (keep26 m ρ c main_arg15 (by decide)).trans (fa_15_26 m ρ c)
theorem fa_17_27 : W27 m ρ c (Proc.devRef .tc main_arg17) = (argsK m c).a17 :=
  (keep26 m ρ c main_arg17 (by decide)).trans (fa_17_26 m ρ c)
theorem fa_19_27 : W27 m ρ c (Proc.devRef .tc main_arg19) = (argsK m c).a19 :=
  (keep26 m ρ c main_arg19 (by decide)).trans (fa_19_26 m ρ c)
theorem fk_main_v1_27 : W27 m ρ c (Proc.devRef .tc main_v1) = Cert.Net.gv_0 (argsK m c) :=
  (keep26 m ρ c main_v1 (by decide)).trans (fk_main_v1_26 m ρ c)
theorem fk_main_v3_27 : W27 m ρ c (Proc.devRef .tc main_v3) = Cert.Net.gv_1 (argsK m c) :=
  (keep26 m ρ c main_v3 (by decide)).trans (fk_main_v3_26 m ρ c)
theorem fk_main_v6_27 : W27 m ρ c (Proc.devRef .tc main_v6) = Cert.Net.gv_3 (argsK m c) :=
  (keep26 m ρ c main_v6 (by decide)).trans (fk_main_v6_26 m ρ c)
theorem fk_main_v8_27 : W27 m ρ c (Proc.devRef .tc main_v8) = Cert.Net.gv_5 (argsK m c) :=
  (keep26 m ρ c main_v8 (by decide)).trans (fk_main_v8_26 m ρ c)
theorem fk_main_v128_27 : W27 m ρ c (Proc.devRef .tc main_v128) = Cert.Net.gv_36 (argsK m c) :=
  (keep26 m ρ c main_v128 (by decide)).trans (fk_main_v128_26 m ρ c)
theorem fk_main_v130_27 : W27 m ρ c (Proc.devRef .tc main_v130) = Cert.Net.gv_37 (argsK m c) :=
  (keep26 m ρ c main_v130 (by decide)).trans (fk_main_v130_26 m ρ c)
theorem fk_main_v182_27 : W27 m ρ c (Proc.devRef .tc main_v182) = Cert.Net.gv_47 (argsK m c) :=
  (keep26 m ρ c main_v182 (by decide)).trans (fk_main_v182_26 m ρ c)
theorem fk_main_v188_28 : W28 m ρ c (Proc.devRef .tc main_v188) = Cert.Net.gv_50 (argsK m c) := by
  funext i
  refine (congrFun (W28_arr m ρ c 3) i).trans ?_
  refine (val12 (V27 m ρ) c i).trans ?_
  rw [show V27 m ρ c main_v128 = _ from fk_main_v128_27 m ρ c, show V27 m ρ c main_v184 = _ from fk_main_v184_27 m ρ c, show V27 m ρ c main_v187 = _ from fk_main_v187_27 m ρ c]
  exact (Cert.Layers.lay12 (argsK m c) i).symm
theorem fa_20_28 : W28 m ρ c (Proc.devRef .tc main_arg20) = (argsK m c).a20 :=
  (keep27 m ρ c main_arg20 (by decide)).trans (fa_20_27 m ρ c)
theorem fa_25_28 : W28 m ρ c (Proc.devRef .tc main_arg25) = (argsK m c).a25 :=
  (keep27 m ρ c main_arg25 (by decide)).trans (fa_25_27 m ρ c)
theorem fa_21_28 : W28 m ρ c (Proc.devRef .tc main_arg21) = (argsK m c).a21 :=
  (keep27 m ρ c main_arg21 (by decide)).trans (fa_21_27 m ρ c)
theorem fa_23_28 : W28 m ρ c (Proc.devRef .tc main_arg23) = (argsK m c).a23 :=
  (keep27 m ρ c main_arg23 (by decide)).trans (fa_23_27 m ρ c)
theorem fa_26_28 : W28 m ρ c (Proc.devRef .tc main_arg26) = (argsK m c).a26 :=
  (keep27 m ρ c main_arg26 (by decide)).trans (fa_26_27 m ρ c)
theorem fa_22_28 : W28 m ρ c (Proc.devRef .tc main_arg22) = (argsK m c).a22 :=
  (keep27 m ρ c main_arg22 (by decide)).trans (fa_22_27 m ρ c)
theorem fa_24_28 : W28 m ρ c (Proc.devRef .tc main_arg24) = (argsK m c).a24 :=
  (keep27 m ρ c main_arg24 (by decide)).trans (fa_24_27 m ρ c)
theorem fa_30_28 : W28 m ρ c (Proc.devRef .tc main_arg30) = (argsK m c).a30 :=
  (keep27 m ρ c main_arg30 (by decide)).trans (fa_30_27 m ρ c)
theorem fa_32_28 : W28 m ρ c (Proc.devRef .tc main_arg32) = (argsK m c).a32 :=
  (keep27 m ρ c main_arg32 (by decide)).trans (fa_32_27 m ρ c)
theorem fa_33_28 : W28 m ρ c (Proc.devRef .tc main_arg33) = (argsK m c).a33 :=
  (keep27 m ρ c main_arg33 (by decide)).trans (fa_33_27 m ρ c)
theorem fa_27_28 : W28 m ρ c (Proc.devRef .tc main_arg27) = (argsK m c).a27 :=
  (keep27 m ρ c main_arg27 (by decide)).trans (fa_27_27 m ρ c)
theorem fa_28_28 : W28 m ρ c (Proc.devRef .tc main_arg28) = (argsK m c).a28 :=
  (keep27 m ρ c main_arg28 (by decide)).trans (fa_28_27 m ρ c)
theorem fa_29_28 : W28 m ρ c (Proc.devRef .tc main_arg29) = (argsK m c).a29 :=
  (keep27 m ρ c main_arg29 (by decide)).trans (fa_29_27 m ρ c)
theorem fa_13_28 : W28 m ρ c (Proc.devRef .tc main_arg13) = (argsK m c).a13 :=
  (keep27 m ρ c main_arg13 (by decide)).trans (fa_13_27 m ρ c)
theorem fa_14_28 : W28 m ρ c (Proc.devRef .tc main_arg14) = (argsK m c).a14 :=
  (keep27 m ρ c main_arg14 (by decide)).trans (fa_14_27 m ρ c)
theorem fa_16_28 : W28 m ρ c (Proc.devRef .tc main_arg16) = (argsK m c).a16 :=
  (keep27 m ρ c main_arg16 (by decide)).trans (fa_16_27 m ρ c)
theorem fa_18_28 : W28 m ρ c (Proc.devRef .tc main_arg18) = (argsK m c).a18 :=
  (keep27 m ρ c main_arg18 (by decide)).trans (fa_18_27 m ρ c)
theorem fa_2_28 : W28 m ρ c (Proc.devRef .tc main_arg2) = (argsK m c).a2 :=
  (keep27 m ρ c main_arg2 (by decide)).trans (fa_2_27 m ρ c)
theorem fa_31_28 : W28 m ρ c (Proc.devRef .tc main_arg31) = (argsK m c).a31 :=
  (keep27 m ρ c main_arg31 (by decide)).trans (fa_31_27 m ρ c)
theorem fa_15_28 : W28 m ρ c (Proc.devRef .tc main_arg15) = (argsK m c).a15 :=
  (keep27 m ρ c main_arg15 (by decide)).trans (fa_15_27 m ρ c)
theorem fa_17_28 : W28 m ρ c (Proc.devRef .tc main_arg17) = (argsK m c).a17 :=
  (keep27 m ρ c main_arg17 (by decide)).trans (fa_17_27 m ρ c)
theorem fa_19_28 : W28 m ρ c (Proc.devRef .tc main_arg19) = (argsK m c).a19 :=
  (keep27 m ρ c main_arg19 (by decide)).trans (fa_19_27 m ρ c)
theorem fk_main_v1_28 : W28 m ρ c (Proc.devRef .tc main_v1) = Cert.Net.gv_0 (argsK m c) :=
  (keep27 m ρ c main_v1 (by decide)).trans (fk_main_v1_27 m ρ c)
theorem fk_main_v3_28 : W28 m ρ c (Proc.devRef .tc main_v3) = Cert.Net.gv_1 (argsK m c) :=
  (keep27 m ρ c main_v3 (by decide)).trans (fk_main_v3_27 m ρ c)
theorem fk_main_v6_28 : W28 m ρ c (Proc.devRef .tc main_v6) = Cert.Net.gv_3 (argsK m c) :=
  (keep27 m ρ c main_v6 (by decide)).trans (fk_main_v6_27 m ρ c)
theorem fk_main_v8_28 : W28 m ρ c (Proc.devRef .tc main_v8) = Cert.Net.gv_5 (argsK m c) :=
  (keep27 m ρ c main_v8 (by decide)).trans (fk_main_v8_27 m ρ c)
theorem fk_main_v130_28 : W28 m ρ c (Proc.devRef .tc main_v130) = Cert.Net.gv_37 (argsK m c) :=
  (keep27 m ρ c main_v130 (by decide)).trans (fk_main_v130_27 m ρ c)
theorem fk_main_v182_28 : W28 m ρ c (Proc.devRef .tc main_v182) = Cert.Net.gv_47 (argsK m c) :=
  (keep27 m ρ c main_v182 (by decide)).trans (fk_main_v182_27 m ρ c)
theorem fk'_main_v190 : StableHlo.after hostOps13 (W28 m ρ c) (Proc.devRef .tc main_v190) = Cert.Net.gv_51 (argsK m c) :=
  (K28_main_v190 (W28 m ρ c)).trans (by rw [fa_16_28 m ρ c]; rfl)
theorem fk_main_v190_29 : W29 m ρ c (Proc.devRef .tc main_v190) = Cert.Net.gv_51 (argsK m c) := fk'_main_v190 m ρ c
theorem fk'_main_v192 : StableHlo.after hostOps13 (W28 m ρ c) (Proc.devRef .tc main_v192) = Cert.Net.gv_52 (argsK m c) :=
  (K28_main_v192 (W28 m ρ c)).trans (by rw [fa_17_28 m ρ c]; rfl)
theorem fk_main_v192_29 : W29 m ρ c (Proc.devRef .tc main_v192) = Cert.Net.gv_52 (argsK m c) := fk'_main_v192 m ρ c
theorem fk'_main_v193 : StableHlo.after hostOps13 (W28 m ρ c) (Proc.devRef .tc main_v193) = broadcastInDim Cert.ReferenceIdeal.S1x128 ![1] Cert.ReferenceIdeal.Gen.bcast_S128_S1x128_1 (Cert.Net.gv_52 (argsK m c)) :=
  (K28_main_v193 (W28 m ρ c)).trans (by rw [fk'_main_v192 m ρ c])
theorem fk_main_v193_29 : W29 m ρ c (Proc.devRef .tc main_v193) = broadcastInDim Cert.ReferenceIdeal.S1x128 ![1] Cert.ReferenceIdeal.Gen.bcast_S128_S1x128_1 (Cert.Net.gv_52 (argsK m c)) := fk'_main_v193 m ρ c
theorem fa_20_29 : W29 m ρ c (Proc.devRef .tc main_arg20) = (argsK m c).a20 :=
  (keep28 m ρ c main_arg20 (by decide)).trans (fa_20_28 m ρ c)
theorem fa_25_29 : W29 m ρ c (Proc.devRef .tc main_arg25) = (argsK m c).a25 :=
  (keep28 m ρ c main_arg25 (by decide)).trans (fa_25_28 m ρ c)
theorem fa_21_29 : W29 m ρ c (Proc.devRef .tc main_arg21) = (argsK m c).a21 :=
  (keep28 m ρ c main_arg21 (by decide)).trans (fa_21_28 m ρ c)
theorem fa_23_29 : W29 m ρ c (Proc.devRef .tc main_arg23) = (argsK m c).a23 :=
  (keep28 m ρ c main_arg23 (by decide)).trans (fa_23_28 m ρ c)
theorem fa_26_29 : W29 m ρ c (Proc.devRef .tc main_arg26) = (argsK m c).a26 :=
  (keep28 m ρ c main_arg26 (by decide)).trans (fa_26_28 m ρ c)
theorem fa_22_29 : W29 m ρ c (Proc.devRef .tc main_arg22) = (argsK m c).a22 :=
  (keep28 m ρ c main_arg22 (by decide)).trans (fa_22_28 m ρ c)
theorem fa_24_29 : W29 m ρ c (Proc.devRef .tc main_arg24) = (argsK m c).a24 :=
  (keep28 m ρ c main_arg24 (by decide)).trans (fa_24_28 m ρ c)
theorem fa_30_29 : W29 m ρ c (Proc.devRef .tc main_arg30) = (argsK m c).a30 :=
  (keep28 m ρ c main_arg30 (by decide)).trans (fa_30_28 m ρ c)
theorem fa_32_29 : W29 m ρ c (Proc.devRef .tc main_arg32) = (argsK m c).a32 :=
  (keep28 m ρ c main_arg32 (by decide)).trans (fa_32_28 m ρ c)
theorem fa_33_29 : W29 m ρ c (Proc.devRef .tc main_arg33) = (argsK m c).a33 :=
  (keep28 m ρ c main_arg33 (by decide)).trans (fa_33_28 m ρ c)
theorem fa_27_29 : W29 m ρ c (Proc.devRef .tc main_arg27) = (argsK m c).a27 :=
  (keep28 m ρ c main_arg27 (by decide)).trans (fa_27_28 m ρ c)
theorem fa_28_29 : W29 m ρ c (Proc.devRef .tc main_arg28) = (argsK m c).a28 :=
  (keep28 m ρ c main_arg28 (by decide)).trans (fa_28_28 m ρ c)
theorem fa_29_29 : W29 m ρ c (Proc.devRef .tc main_arg29) = (argsK m c).a29 :=
  (keep28 m ρ c main_arg29 (by decide)).trans (fa_29_28 m ρ c)
theorem fa_13_29 : W29 m ρ c (Proc.devRef .tc main_arg13) = (argsK m c).a13 :=
  (keep28 m ρ c main_arg13 (by decide)).trans (fa_13_28 m ρ c)
theorem fa_14_29 : W29 m ρ c (Proc.devRef .tc main_arg14) = (argsK m c).a14 :=
  (keep28 m ρ c main_arg14 (by decide)).trans (fa_14_28 m ρ c)
theorem fa_16_29 : W29 m ρ c (Proc.devRef .tc main_arg16) = (argsK m c).a16 :=
  (keep28 m ρ c main_arg16 (by decide)).trans (fa_16_28 m ρ c)
theorem fa_18_29 : W29 m ρ c (Proc.devRef .tc main_arg18) = (argsK m c).a18 :=
  (keep28 m ρ c main_arg18 (by decide)).trans (fa_18_28 m ρ c)
theorem fa_2_29 : W29 m ρ c (Proc.devRef .tc main_arg2) = (argsK m c).a2 :=
  (keep28 m ρ c main_arg2 (by decide)).trans (fa_2_28 m ρ c)
theorem fa_31_29 : W29 m ρ c (Proc.devRef .tc main_arg31) = (argsK m c).a31 :=
  (keep28 m ρ c main_arg31 (by decide)).trans (fa_31_28 m ρ c)
theorem fa_15_29 : W29 m ρ c (Proc.devRef .tc main_arg15) = (argsK m c).a15 :=
  (keep28 m ρ c main_arg15 (by decide)).trans (fa_15_28 m ρ c)
theorem fa_17_29 : W29 m ρ c (Proc.devRef .tc main_arg17) = (argsK m c).a17 :=
  (keep28 m ρ c main_arg17 (by decide)).trans (fa_17_28 m ρ c)
theorem fa_19_29 : W29 m ρ c (Proc.devRef .tc main_arg19) = (argsK m c).a19 :=
  (keep28 m ρ c main_arg19 (by decide)).trans (fa_19_28 m ρ c)
theorem fk_main_v1_29 : W29 m ρ c (Proc.devRef .tc main_v1) = Cert.Net.gv_0 (argsK m c) :=
  (keep28 m ρ c main_v1 (by decide)).trans (fk_main_v1_28 m ρ c)
theorem fk_main_v3_29 : W29 m ρ c (Proc.devRef .tc main_v3) = Cert.Net.gv_1 (argsK m c) :=
  (keep28 m ρ c main_v3 (by decide)).trans (fk_main_v3_28 m ρ c)
theorem fk_main_v6_29 : W29 m ρ c (Proc.devRef .tc main_v6) = Cert.Net.gv_3 (argsK m c) :=
  (keep28 m ρ c main_v6 (by decide)).trans (fk_main_v6_28 m ρ c)
theorem fk_main_v8_29 : W29 m ρ c (Proc.devRef .tc main_v8) = Cert.Net.gv_5 (argsK m c) :=
  (keep28 m ρ c main_v8 (by decide)).trans (fk_main_v8_28 m ρ c)
theorem fk_main_v130_29 : W29 m ρ c (Proc.devRef .tc main_v130) = Cert.Net.gv_37 (argsK m c) :=
  (keep28 m ρ c main_v130 (by decide)).trans (fk_main_v130_28 m ρ c)
theorem fk_main_v182_29 : W29 m ρ c (Proc.devRef .tc main_v182) = Cert.Net.gv_47 (argsK m c) :=
  (keep28 m ρ c main_v182 (by decide)).trans (fk_main_v182_28 m ρ c)
theorem fk_main_v188_29 : W29 m ρ c (Proc.devRef .tc main_v188) = Cert.Net.gv_50 (argsK m c) :=
  (keep28 m ρ c main_v188 (by decide)).trans (fk_main_v188_28 m ρ c)
theorem fk_main_v194_30 : W30 m ρ c (Proc.devRef .tc main_v194) = Cert.Net.gv_53 (argsK m c) := by
  funext i
  refine (congrFun (W30_arr m ρ c 3) i).trans ?_
  refine (val13 (V29 m ρ) c i).trans ?_
  rw [show V29 m ρ c main_v188 = _ from fk_main_v188_29 m ρ c, show V29 m ρ c main_v190 = _ from fk_main_v190_29 m ρ c, show V29 m ρ c main_v193 = _ from fk_main_v193_29 m ρ c]
  exact (Cert.Layers.lay13 (argsK m c) i).symm
theorem fa_20_30 : W30 m ρ c (Proc.devRef .tc main_arg20) = (argsK m c).a20 :=
  (keep29 m ρ c main_arg20 (by decide)).trans (fa_20_29 m ρ c)
theorem fa_25_30 : W30 m ρ c (Proc.devRef .tc main_arg25) = (argsK m c).a25 :=
  (keep29 m ρ c main_arg25 (by decide)).trans (fa_25_29 m ρ c)
theorem fa_21_30 : W30 m ρ c (Proc.devRef .tc main_arg21) = (argsK m c).a21 :=
  (keep29 m ρ c main_arg21 (by decide)).trans (fa_21_29 m ρ c)
theorem fa_23_30 : W30 m ρ c (Proc.devRef .tc main_arg23) = (argsK m c).a23 :=
  (keep29 m ρ c main_arg23 (by decide)).trans (fa_23_29 m ρ c)
theorem fa_26_30 : W30 m ρ c (Proc.devRef .tc main_arg26) = (argsK m c).a26 :=
  (keep29 m ρ c main_arg26 (by decide)).trans (fa_26_29 m ρ c)
theorem fa_22_30 : W30 m ρ c (Proc.devRef .tc main_arg22) = (argsK m c).a22 :=
  (keep29 m ρ c main_arg22 (by decide)).trans (fa_22_29 m ρ c)
theorem fa_24_30 : W30 m ρ c (Proc.devRef .tc main_arg24) = (argsK m c).a24 :=
  (keep29 m ρ c main_arg24 (by decide)).trans (fa_24_29 m ρ c)
theorem fa_30_30 : W30 m ρ c (Proc.devRef .tc main_arg30) = (argsK m c).a30 :=
  (keep29 m ρ c main_arg30 (by decide)).trans (fa_30_29 m ρ c)
theorem fa_32_30 : W30 m ρ c (Proc.devRef .tc main_arg32) = (argsK m c).a32 :=
  (keep29 m ρ c main_arg32 (by decide)).trans (fa_32_29 m ρ c)
theorem fa_33_30 : W30 m ρ c (Proc.devRef .tc main_arg33) = (argsK m c).a33 :=
  (keep29 m ρ c main_arg33 (by decide)).trans (fa_33_29 m ρ c)
theorem fa_27_30 : W30 m ρ c (Proc.devRef .tc main_arg27) = (argsK m c).a27 :=
  (keep29 m ρ c main_arg27 (by decide)).trans (fa_27_29 m ρ c)
theorem fa_28_30 : W30 m ρ c (Proc.devRef .tc main_arg28) = (argsK m c).a28 :=
  (keep29 m ρ c main_arg28 (by decide)).trans (fa_28_29 m ρ c)
theorem fa_29_30 : W30 m ρ c (Proc.devRef .tc main_arg29) = (argsK m c).a29 :=
  (keep29 m ρ c main_arg29 (by decide)).trans (fa_29_29 m ρ c)
theorem fa_13_30 : W30 m ρ c (Proc.devRef .tc main_arg13) = (argsK m c).a13 :=
  (keep29 m ρ c main_arg13 (by decide)).trans (fa_13_29 m ρ c)
theorem fa_14_30 : W30 m ρ c (Proc.devRef .tc main_arg14) = (argsK m c).a14 :=
  (keep29 m ρ c main_arg14 (by decide)).trans (fa_14_29 m ρ c)
theorem fa_16_30 : W30 m ρ c (Proc.devRef .tc main_arg16) = (argsK m c).a16 :=
  (keep29 m ρ c main_arg16 (by decide)).trans (fa_16_29 m ρ c)
theorem fa_18_30 : W30 m ρ c (Proc.devRef .tc main_arg18) = (argsK m c).a18 :=
  (keep29 m ρ c main_arg18 (by decide)).trans (fa_18_29 m ρ c)
theorem fa_2_30 : W30 m ρ c (Proc.devRef .tc main_arg2) = (argsK m c).a2 :=
  (keep29 m ρ c main_arg2 (by decide)).trans (fa_2_29 m ρ c)
theorem fa_31_30 : W30 m ρ c (Proc.devRef .tc main_arg31) = (argsK m c).a31 :=
  (keep29 m ρ c main_arg31 (by decide)).trans (fa_31_29 m ρ c)
theorem fa_15_30 : W30 m ρ c (Proc.devRef .tc main_arg15) = (argsK m c).a15 :=
  (keep29 m ρ c main_arg15 (by decide)).trans (fa_15_29 m ρ c)
theorem fa_17_30 : W30 m ρ c (Proc.devRef .tc main_arg17) = (argsK m c).a17 :=
  (keep29 m ρ c main_arg17 (by decide)).trans (fa_17_29 m ρ c)
theorem fa_19_30 : W30 m ρ c (Proc.devRef .tc main_arg19) = (argsK m c).a19 :=
  (keep29 m ρ c main_arg19 (by decide)).trans (fa_19_29 m ρ c)
theorem fk_main_v1_30 : W30 m ρ c (Proc.devRef .tc main_v1) = Cert.Net.gv_0 (argsK m c) :=
  (keep29 m ρ c main_v1 (by decide)).trans (fk_main_v1_29 m ρ c)
theorem fk_main_v3_30 : W30 m ρ c (Proc.devRef .tc main_v3) = Cert.Net.gv_1 (argsK m c) :=
  (keep29 m ρ c main_v3 (by decide)).trans (fk_main_v3_29 m ρ c)
theorem fk_main_v6_30 : W30 m ρ c (Proc.devRef .tc main_v6) = Cert.Net.gv_3 (argsK m c) :=
  (keep29 m ρ c main_v6 (by decide)).trans (fk_main_v6_29 m ρ c)
theorem fk_main_v8_30 : W30 m ρ c (Proc.devRef .tc main_v8) = Cert.Net.gv_5 (argsK m c) :=
  (keep29 m ρ c main_v8 (by decide)).trans (fk_main_v8_29 m ρ c)
theorem fk_main_v130_30 : W30 m ρ c (Proc.devRef .tc main_v130) = Cert.Net.gv_37 (argsK m c) :=
  (keep29 m ρ c main_v130 (by decide)).trans (fk_main_v130_29 m ρ c)
theorem fk_main_v182_30 : W30 m ρ c (Proc.devRef .tc main_v182) = Cert.Net.gv_47 (argsK m c) :=
  (keep29 m ρ c main_v182 (by decide)).trans (fk_main_v182_29 m ρ c)
theorem fk'_main_v196 : StableHlo.after hostOps14 (W30 m ρ c) (Proc.devRef .tc main_v196) = Cert.Net.gv_54 (argsK m c) :=
  (K30_main_v196 (W30 m ρ c)).trans (by rw [fa_18_30 m ρ c]; rfl)
theorem fk_main_v196_31 : W31 m ρ c (Proc.devRef .tc main_v196) = Cert.Net.gv_54 (argsK m c) := fk'_main_v196 m ρ c
theorem fk'_main_v198 : StableHlo.after hostOps14 (W30 m ρ c) (Proc.devRef .tc main_v198) = Cert.Net.gv_55 (argsK m c) :=
  (K30_main_v198 (W30 m ρ c)).trans (by rw [fa_19_30 m ρ c]; rfl)
theorem fk_main_v198_31 : W31 m ρ c (Proc.devRef .tc main_v198) = Cert.Net.gv_55 (argsK m c) := fk'_main_v198 m ρ c
theorem fk'_main_v199 : StableHlo.after hostOps14 (W30 m ρ c) (Proc.devRef .tc main_v199) = broadcastInDim Cert.ReferenceIdeal.S1x128 ![1] Cert.ReferenceIdeal.Gen.bcast_S128_S1x128_1 (Cert.Net.gv_55 (argsK m c)) :=
  (K30_main_v199 (W30 m ρ c)).trans (by rw [fk'_main_v198 m ρ c])
theorem fk_main_v199_31 : W31 m ρ c (Proc.devRef .tc main_v199) = broadcastInDim Cert.ReferenceIdeal.S1x128 ![1] Cert.ReferenceIdeal.Gen.bcast_S128_S1x128_1 (Cert.Net.gv_55 (argsK m c)) := fk'_main_v199 m ρ c
theorem fa_20_31 : W31 m ρ c (Proc.devRef .tc main_arg20) = (argsK m c).a20 :=
  (keep30 m ρ c main_arg20 (by decide)).trans (fa_20_30 m ρ c)
theorem fa_25_31 : W31 m ρ c (Proc.devRef .tc main_arg25) = (argsK m c).a25 :=
  (keep30 m ρ c main_arg25 (by decide)).trans (fa_25_30 m ρ c)
theorem fa_21_31 : W31 m ρ c (Proc.devRef .tc main_arg21) = (argsK m c).a21 :=
  (keep30 m ρ c main_arg21 (by decide)).trans (fa_21_30 m ρ c)
theorem fa_23_31 : W31 m ρ c (Proc.devRef .tc main_arg23) = (argsK m c).a23 :=
  (keep30 m ρ c main_arg23 (by decide)).trans (fa_23_30 m ρ c)
theorem fa_26_31 : W31 m ρ c (Proc.devRef .tc main_arg26) = (argsK m c).a26 :=
  (keep30 m ρ c main_arg26 (by decide)).trans (fa_26_30 m ρ c)
theorem fa_22_31 : W31 m ρ c (Proc.devRef .tc main_arg22) = (argsK m c).a22 :=
  (keep30 m ρ c main_arg22 (by decide)).trans (fa_22_30 m ρ c)
theorem fa_24_31 : W31 m ρ c (Proc.devRef .tc main_arg24) = (argsK m c).a24 :=
  (keep30 m ρ c main_arg24 (by decide)).trans (fa_24_30 m ρ c)
theorem fa_30_31 : W31 m ρ c (Proc.devRef .tc main_arg30) = (argsK m c).a30 :=
  (keep30 m ρ c main_arg30 (by decide)).trans (fa_30_30 m ρ c)
theorem fa_32_31 : W31 m ρ c (Proc.devRef .tc main_arg32) = (argsK m c).a32 :=
  (keep30 m ρ c main_arg32 (by decide)).trans (fa_32_30 m ρ c)
theorem fa_33_31 : W31 m ρ c (Proc.devRef .tc main_arg33) = (argsK m c).a33 :=
  (keep30 m ρ c main_arg33 (by decide)).trans (fa_33_30 m ρ c)
theorem fa_27_31 : W31 m ρ c (Proc.devRef .tc main_arg27) = (argsK m c).a27 :=
  (keep30 m ρ c main_arg27 (by decide)).trans (fa_27_30 m ρ c)
theorem fa_28_31 : W31 m ρ c (Proc.devRef .tc main_arg28) = (argsK m c).a28 :=
  (keep30 m ρ c main_arg28 (by decide)).trans (fa_28_30 m ρ c)
theorem fa_29_31 : W31 m ρ c (Proc.devRef .tc main_arg29) = (argsK m c).a29 :=
  (keep30 m ρ c main_arg29 (by decide)).trans (fa_29_30 m ρ c)
theorem fa_13_31 : W31 m ρ c (Proc.devRef .tc main_arg13) = (argsK m c).a13 :=
  (keep30 m ρ c main_arg13 (by decide)).trans (fa_13_30 m ρ c)
theorem fa_14_31 : W31 m ρ c (Proc.devRef .tc main_arg14) = (argsK m c).a14 :=
  (keep30 m ρ c main_arg14 (by decide)).trans (fa_14_30 m ρ c)
theorem fa_16_31 : W31 m ρ c (Proc.devRef .tc main_arg16) = (argsK m c).a16 :=
  (keep30 m ρ c main_arg16 (by decide)).trans (fa_16_30 m ρ c)
theorem fa_18_31 : W31 m ρ c (Proc.devRef .tc main_arg18) = (argsK m c).a18 :=
  (keep30 m ρ c main_arg18 (by decide)).trans (fa_18_30 m ρ c)
theorem fa_2_31 : W31 m ρ c (Proc.devRef .tc main_arg2) = (argsK m c).a2 :=
  (keep30 m ρ c main_arg2 (by decide)).trans (fa_2_30 m ρ c)
theorem fa_31_31 : W31 m ρ c (Proc.devRef .tc main_arg31) = (argsK m c).a31 :=
  (keep30 m ρ c main_arg31 (by decide)).trans (fa_31_30 m ρ c)
theorem fa_15_31 : W31 m ρ c (Proc.devRef .tc main_arg15) = (argsK m c).a15 :=
  (keep30 m ρ c main_arg15 (by decide)).trans (fa_15_30 m ρ c)
theorem fa_17_31 : W31 m ρ c (Proc.devRef .tc main_arg17) = (argsK m c).a17 :=
  (keep30 m ρ c main_arg17 (by decide)).trans (fa_17_30 m ρ c)
theorem fa_19_31 : W31 m ρ c (Proc.devRef .tc main_arg19) = (argsK m c).a19 :=
  (keep30 m ρ c main_arg19 (by decide)).trans (fa_19_30 m ρ c)
theorem fk_main_v1_31 : W31 m ρ c (Proc.devRef .tc main_v1) = Cert.Net.gv_0 (argsK m c) :=
  (keep30 m ρ c main_v1 (by decide)).trans (fk_main_v1_30 m ρ c)
theorem fk_main_v3_31 : W31 m ρ c (Proc.devRef .tc main_v3) = Cert.Net.gv_1 (argsK m c) :=
  (keep30 m ρ c main_v3 (by decide)).trans (fk_main_v3_30 m ρ c)
theorem fk_main_v6_31 : W31 m ρ c (Proc.devRef .tc main_v6) = Cert.Net.gv_3 (argsK m c) :=
  (keep30 m ρ c main_v6 (by decide)).trans (fk_main_v6_30 m ρ c)
theorem fk_main_v8_31 : W31 m ρ c (Proc.devRef .tc main_v8) = Cert.Net.gv_5 (argsK m c) :=
  (keep30 m ρ c main_v8 (by decide)).trans (fk_main_v8_30 m ρ c)
theorem fk_main_v130_31 : W31 m ρ c (Proc.devRef .tc main_v130) = Cert.Net.gv_37 (argsK m c) :=
  (keep30 m ρ c main_v130 (by decide)).trans (fk_main_v130_30 m ρ c)
theorem fk_main_v182_31 : W31 m ρ c (Proc.devRef .tc main_v182) = Cert.Net.gv_47 (argsK m c) :=
  (keep30 m ρ c main_v182 (by decide)).trans (fk_main_v182_30 m ρ c)
theorem fk_main_v194_31 : W31 m ρ c (Proc.devRef .tc main_v194) = Cert.Net.gv_53 (argsK m c) :=
  (keep30 m ρ c main_v194 (by decide)).trans (fk_main_v194_30 m ρ c)
theorem fk_main_v200_32 : W32 m ρ c (Proc.devRef .tc main_v200) = Cert.Net.gv_56 (argsK m c) := by
  funext i
  refine (congrFun (W32_arr m ρ c 3) i).trans ?_
  refine (val14 (V31 m ρ) c i).trans ?_
  rw [show V31 m ρ c main_v130 = _ from fk_main_v130_31 m ρ c, show V31 m ρ c main_v196 = _ from fk_main_v196_31 m ρ c, show V31 m ρ c main_v199 = _ from fk_main_v199_31 m ρ c]
  exact (Cert.Layers.lay14 (argsK m c) i).symm
theorem fa_20_32 : W32 m ρ c (Proc.devRef .tc main_arg20) = (argsK m c).a20 :=
  (keep31 m ρ c main_arg20 (by decide)).trans (fa_20_31 m ρ c)
theorem fa_25_32 : W32 m ρ c (Proc.devRef .tc main_arg25) = (argsK m c).a25 :=
  (keep31 m ρ c main_arg25 (by decide)).trans (fa_25_31 m ρ c)
theorem fa_21_32 : W32 m ρ c (Proc.devRef .tc main_arg21) = (argsK m c).a21 :=
  (keep31 m ρ c main_arg21 (by decide)).trans (fa_21_31 m ρ c)
theorem fa_23_32 : W32 m ρ c (Proc.devRef .tc main_arg23) = (argsK m c).a23 :=
  (keep31 m ρ c main_arg23 (by decide)).trans (fa_23_31 m ρ c)
theorem fa_26_32 : W32 m ρ c (Proc.devRef .tc main_arg26) = (argsK m c).a26 :=
  (keep31 m ρ c main_arg26 (by decide)).trans (fa_26_31 m ρ c)
theorem fa_22_32 : W32 m ρ c (Proc.devRef .tc main_arg22) = (argsK m c).a22 :=
  (keep31 m ρ c main_arg22 (by decide)).trans (fa_22_31 m ρ c)
theorem fa_24_32 : W32 m ρ c (Proc.devRef .tc main_arg24) = (argsK m c).a24 :=
  (keep31 m ρ c main_arg24 (by decide)).trans (fa_24_31 m ρ c)
theorem fa_30_32 : W32 m ρ c (Proc.devRef .tc main_arg30) = (argsK m c).a30 :=
  (keep31 m ρ c main_arg30 (by decide)).trans (fa_30_31 m ρ c)
theorem fa_32_32 : W32 m ρ c (Proc.devRef .tc main_arg32) = (argsK m c).a32 :=
  (keep31 m ρ c main_arg32 (by decide)).trans (fa_32_31 m ρ c)
theorem fa_33_32 : W32 m ρ c (Proc.devRef .tc main_arg33) = (argsK m c).a33 :=
  (keep31 m ρ c main_arg33 (by decide)).trans (fa_33_31 m ρ c)
theorem fa_27_32 : W32 m ρ c (Proc.devRef .tc main_arg27) = (argsK m c).a27 :=
  (keep31 m ρ c main_arg27 (by decide)).trans (fa_27_31 m ρ c)
theorem fa_28_32 : W32 m ρ c (Proc.devRef .tc main_arg28) = (argsK m c).a28 :=
  (keep31 m ρ c main_arg28 (by decide)).trans (fa_28_31 m ρ c)
theorem fa_29_32 : W32 m ρ c (Proc.devRef .tc main_arg29) = (argsK m c).a29 :=
  (keep31 m ρ c main_arg29 (by decide)).trans (fa_29_31 m ρ c)
theorem fa_13_32 : W32 m ρ c (Proc.devRef .tc main_arg13) = (argsK m c).a13 :=
  (keep31 m ρ c main_arg13 (by decide)).trans (fa_13_31 m ρ c)
theorem fa_14_32 : W32 m ρ c (Proc.devRef .tc main_arg14) = (argsK m c).a14 :=
  (keep31 m ρ c main_arg14 (by decide)).trans (fa_14_31 m ρ c)
theorem fa_16_32 : W32 m ρ c (Proc.devRef .tc main_arg16) = (argsK m c).a16 :=
  (keep31 m ρ c main_arg16 (by decide)).trans (fa_16_31 m ρ c)
theorem fa_18_32 : W32 m ρ c (Proc.devRef .tc main_arg18) = (argsK m c).a18 :=
  (keep31 m ρ c main_arg18 (by decide)).trans (fa_18_31 m ρ c)
theorem fa_2_32 : W32 m ρ c (Proc.devRef .tc main_arg2) = (argsK m c).a2 :=
  (keep31 m ρ c main_arg2 (by decide)).trans (fa_2_31 m ρ c)
theorem fa_31_32 : W32 m ρ c (Proc.devRef .tc main_arg31) = (argsK m c).a31 :=
  (keep31 m ρ c main_arg31 (by decide)).trans (fa_31_31 m ρ c)
theorem fa_15_32 : W32 m ρ c (Proc.devRef .tc main_arg15) = (argsK m c).a15 :=
  (keep31 m ρ c main_arg15 (by decide)).trans (fa_15_31 m ρ c)
theorem fa_17_32 : W32 m ρ c (Proc.devRef .tc main_arg17) = (argsK m c).a17 :=
  (keep31 m ρ c main_arg17 (by decide)).trans (fa_17_31 m ρ c)
theorem fa_19_32 : W32 m ρ c (Proc.devRef .tc main_arg19) = (argsK m c).a19 :=
  (keep31 m ρ c main_arg19 (by decide)).trans (fa_19_31 m ρ c)
theorem fk_main_v1_32 : W32 m ρ c (Proc.devRef .tc main_v1) = Cert.Net.gv_0 (argsK m c) :=
  (keep31 m ρ c main_v1 (by decide)).trans (fk_main_v1_31 m ρ c)
theorem fk_main_v3_32 : W32 m ρ c (Proc.devRef .tc main_v3) = Cert.Net.gv_1 (argsK m c) :=
  (keep31 m ρ c main_v3 (by decide)).trans (fk_main_v3_31 m ρ c)
theorem fk_main_v6_32 : W32 m ρ c (Proc.devRef .tc main_v6) = Cert.Net.gv_3 (argsK m c) :=
  (keep31 m ρ c main_v6 (by decide)).trans (fk_main_v6_31 m ρ c)
theorem fk_main_v8_32 : W32 m ρ c (Proc.devRef .tc main_v8) = Cert.Net.gv_5 (argsK m c) :=
  (keep31 m ρ c main_v8 (by decide)).trans (fk_main_v8_31 m ρ c)
theorem fk_main_v182_32 : W32 m ρ c (Proc.devRef .tc main_v182) = Cert.Net.gv_47 (argsK m c) :=
  (keep31 m ρ c main_v182 (by decide)).trans (fk_main_v182_31 m ρ c)
theorem fk_main_v194_32 : W32 m ρ c (Proc.devRef .tc main_v194) = Cert.Net.gv_53 (argsK m c) :=
  (keep31 m ρ c main_v194 (by decide)).trans (fk_main_v194_31 m ρ c)
theorem fk'_main_v202 : StableHlo.after hostOps15 (W32 m ρ c) (Proc.devRef .tc main_v202) = Cert.Net.gv_57 (argsK m c) :=
  (K32_main_v202 (W32 m ρ c)).trans (by rw [fa_18_32 m ρ c]; rfl)
theorem fk_main_v202_33 : W33 m ρ c (Proc.devRef .tc main_v202) = Cert.Net.gv_57 (argsK m c) := fk'_main_v202 m ρ c
theorem fk'_main_v204 : StableHlo.after hostOps15 (W32 m ρ c) (Proc.devRef .tc main_v204) = Cert.Net.gv_58 (argsK m c) :=
  (K32_main_v204 (W32 m ρ c)).trans (by rw [fa_19_32 m ρ c]; rfl)
theorem fk_main_v204_33 : W33 m ρ c (Proc.devRef .tc main_v204) = Cert.Net.gv_58 (argsK m c) := fk'_main_v204 m ρ c
theorem fk'_main_v205 : StableHlo.after hostOps15 (W32 m ρ c) (Proc.devRef .tc main_v205) = broadcastInDim Cert.ReferenceIdeal.S1x128 ![1] Cert.ReferenceIdeal.Gen.bcast_S128_S1x128_1 (Cert.Net.gv_58 (argsK m c)) :=
  (K32_main_v205 (W32 m ρ c)).trans (by rw [fk'_main_v204 m ρ c])
theorem fk_main_v205_33 : W33 m ρ c (Proc.devRef .tc main_v205) = broadcastInDim Cert.ReferenceIdeal.S1x128 ![1] Cert.ReferenceIdeal.Gen.bcast_S128_S1x128_1 (Cert.Net.gv_58 (argsK m c)) := fk'_main_v205 m ρ c
theorem fa_20_33 : W33 m ρ c (Proc.devRef .tc main_arg20) = (argsK m c).a20 :=
  (keep32 m ρ c main_arg20 (by decide)).trans (fa_20_32 m ρ c)
theorem fa_25_33 : W33 m ρ c (Proc.devRef .tc main_arg25) = (argsK m c).a25 :=
  (keep32 m ρ c main_arg25 (by decide)).trans (fa_25_32 m ρ c)
theorem fa_21_33 : W33 m ρ c (Proc.devRef .tc main_arg21) = (argsK m c).a21 :=
  (keep32 m ρ c main_arg21 (by decide)).trans (fa_21_32 m ρ c)
theorem fa_23_33 : W33 m ρ c (Proc.devRef .tc main_arg23) = (argsK m c).a23 :=
  (keep32 m ρ c main_arg23 (by decide)).trans (fa_23_32 m ρ c)
theorem fa_26_33 : W33 m ρ c (Proc.devRef .tc main_arg26) = (argsK m c).a26 :=
  (keep32 m ρ c main_arg26 (by decide)).trans (fa_26_32 m ρ c)
theorem fa_22_33 : W33 m ρ c (Proc.devRef .tc main_arg22) = (argsK m c).a22 :=
  (keep32 m ρ c main_arg22 (by decide)).trans (fa_22_32 m ρ c)
theorem fa_24_33 : W33 m ρ c (Proc.devRef .tc main_arg24) = (argsK m c).a24 :=
  (keep32 m ρ c main_arg24 (by decide)).trans (fa_24_32 m ρ c)
theorem fa_30_33 : W33 m ρ c (Proc.devRef .tc main_arg30) = (argsK m c).a30 :=
  (keep32 m ρ c main_arg30 (by decide)).trans (fa_30_32 m ρ c)
theorem fa_32_33 : W33 m ρ c (Proc.devRef .tc main_arg32) = (argsK m c).a32 :=
  (keep32 m ρ c main_arg32 (by decide)).trans (fa_32_32 m ρ c)
theorem fa_33_33 : W33 m ρ c (Proc.devRef .tc main_arg33) = (argsK m c).a33 :=
  (keep32 m ρ c main_arg33 (by decide)).trans (fa_33_32 m ρ c)
theorem fa_27_33 : W33 m ρ c (Proc.devRef .tc main_arg27) = (argsK m c).a27 :=
  (keep32 m ρ c main_arg27 (by decide)).trans (fa_27_32 m ρ c)
theorem fa_28_33 : W33 m ρ c (Proc.devRef .tc main_arg28) = (argsK m c).a28 :=
  (keep32 m ρ c main_arg28 (by decide)).trans (fa_28_32 m ρ c)
theorem fa_29_33 : W33 m ρ c (Proc.devRef .tc main_arg29) = (argsK m c).a29 :=
  (keep32 m ρ c main_arg29 (by decide)).trans (fa_29_32 m ρ c)
theorem fa_13_33 : W33 m ρ c (Proc.devRef .tc main_arg13) = (argsK m c).a13 :=
  (keep32 m ρ c main_arg13 (by decide)).trans (fa_13_32 m ρ c)
theorem fa_14_33 : W33 m ρ c (Proc.devRef .tc main_arg14) = (argsK m c).a14 :=
  (keep32 m ρ c main_arg14 (by decide)).trans (fa_14_32 m ρ c)
theorem fa_16_33 : W33 m ρ c (Proc.devRef .tc main_arg16) = (argsK m c).a16 :=
  (keep32 m ρ c main_arg16 (by decide)).trans (fa_16_32 m ρ c)
theorem fa_18_33 : W33 m ρ c (Proc.devRef .tc main_arg18) = (argsK m c).a18 :=
  (keep32 m ρ c main_arg18 (by decide)).trans (fa_18_32 m ρ c)
theorem fa_2_33 : W33 m ρ c (Proc.devRef .tc main_arg2) = (argsK m c).a2 :=
  (keep32 m ρ c main_arg2 (by decide)).trans (fa_2_32 m ρ c)
theorem fa_31_33 : W33 m ρ c (Proc.devRef .tc main_arg31) = (argsK m c).a31 :=
  (keep32 m ρ c main_arg31 (by decide)).trans (fa_31_32 m ρ c)
theorem fa_15_33 : W33 m ρ c (Proc.devRef .tc main_arg15) = (argsK m c).a15 :=
  (keep32 m ρ c main_arg15 (by decide)).trans (fa_15_32 m ρ c)
theorem fa_17_33 : W33 m ρ c (Proc.devRef .tc main_arg17) = (argsK m c).a17 :=
  (keep32 m ρ c main_arg17 (by decide)).trans (fa_17_32 m ρ c)
theorem fa_19_33 : W33 m ρ c (Proc.devRef .tc main_arg19) = (argsK m c).a19 :=
  (keep32 m ρ c main_arg19 (by decide)).trans (fa_19_32 m ρ c)
theorem fk_main_v1_33 : W33 m ρ c (Proc.devRef .tc main_v1) = Cert.Net.gv_0 (argsK m c) :=
  (keep32 m ρ c main_v1 (by decide)).trans (fk_main_v1_32 m ρ c)
theorem fk_main_v3_33 : W33 m ρ c (Proc.devRef .tc main_v3) = Cert.Net.gv_1 (argsK m c) :=
  (keep32 m ρ c main_v3 (by decide)).trans (fk_main_v3_32 m ρ c)
theorem fk_main_v6_33 : W33 m ρ c (Proc.devRef .tc main_v6) = Cert.Net.gv_3 (argsK m c) :=
  (keep32 m ρ c main_v6 (by decide)).trans (fk_main_v6_32 m ρ c)
theorem fk_main_v8_33 : W33 m ρ c (Proc.devRef .tc main_v8) = Cert.Net.gv_5 (argsK m c) :=
  (keep32 m ρ c main_v8 (by decide)).trans (fk_main_v8_32 m ρ c)
theorem fk_main_v182_33 : W33 m ρ c (Proc.devRef .tc main_v182) = Cert.Net.gv_47 (argsK m c) :=
  (keep32 m ρ c main_v182 (by decide)).trans (fk_main_v182_32 m ρ c)
theorem fk_main_v194_33 : W33 m ρ c (Proc.devRef .tc main_v194) = Cert.Net.gv_53 (argsK m c) :=
  (keep32 m ρ c main_v194 (by decide)).trans (fk_main_v194_32 m ρ c)
theorem fk_main_v200_33 : W33 m ρ c (Proc.devRef .tc main_v200) = Cert.Net.gv_56 (argsK m c) :=
  (keep32 m ρ c main_v200 (by decide)).trans (fk_main_v200_32 m ρ c)
theorem fk_main_v206_34 : W34 m ρ c (Proc.devRef .tc main_v206) = Cert.Net.gv_59 (argsK m c) := by
  funext i
  refine (congrFun (W34_arr m ρ c 3) i).trans ?_
  refine (val15 (V33 m ρ) c i).trans ?_
  rw [show V33 m ρ c main_v200 = _ from fk_main_v200_33 m ρ c, show V33 m ρ c main_v202 = _ from fk_main_v202_33 m ρ c, show V33 m ρ c main_v205 = _ from fk_main_v205_33 m ρ c]
  exact (Cert.Layers.lay15 (argsK m c) i).symm
theorem fa_20_34 : W34 m ρ c (Proc.devRef .tc main_arg20) = (argsK m c).a20 :=
  (keep33 m ρ c main_arg20 (by decide)).trans (fa_20_33 m ρ c)
theorem fa_25_34 : W34 m ρ c (Proc.devRef .tc main_arg25) = (argsK m c).a25 :=
  (keep33 m ρ c main_arg25 (by decide)).trans (fa_25_33 m ρ c)
theorem fa_21_34 : W34 m ρ c (Proc.devRef .tc main_arg21) = (argsK m c).a21 :=
  (keep33 m ρ c main_arg21 (by decide)).trans (fa_21_33 m ρ c)
theorem fa_23_34 : W34 m ρ c (Proc.devRef .tc main_arg23) = (argsK m c).a23 :=
  (keep33 m ρ c main_arg23 (by decide)).trans (fa_23_33 m ρ c)
theorem fa_26_34 : W34 m ρ c (Proc.devRef .tc main_arg26) = (argsK m c).a26 :=
  (keep33 m ρ c main_arg26 (by decide)).trans (fa_26_33 m ρ c)
theorem fa_22_34 : W34 m ρ c (Proc.devRef .tc main_arg22) = (argsK m c).a22 :=
  (keep33 m ρ c main_arg22 (by decide)).trans (fa_22_33 m ρ c)
theorem fa_24_34 : W34 m ρ c (Proc.devRef .tc main_arg24) = (argsK m c).a24 :=
  (keep33 m ρ c main_arg24 (by decide)).trans (fa_24_33 m ρ c)
theorem fa_30_34 : W34 m ρ c (Proc.devRef .tc main_arg30) = (argsK m c).a30 :=
  (keep33 m ρ c main_arg30 (by decide)).trans (fa_30_33 m ρ c)
theorem fa_32_34 : W34 m ρ c (Proc.devRef .tc main_arg32) = (argsK m c).a32 :=
  (keep33 m ρ c main_arg32 (by decide)).trans (fa_32_33 m ρ c)
theorem fa_33_34 : W34 m ρ c (Proc.devRef .tc main_arg33) = (argsK m c).a33 :=
  (keep33 m ρ c main_arg33 (by decide)).trans (fa_33_33 m ρ c)
theorem fa_27_34 : W34 m ρ c (Proc.devRef .tc main_arg27) = (argsK m c).a27 :=
  (keep33 m ρ c main_arg27 (by decide)).trans (fa_27_33 m ρ c)
theorem fa_28_34 : W34 m ρ c (Proc.devRef .tc main_arg28) = (argsK m c).a28 :=
  (keep33 m ρ c main_arg28 (by decide)).trans (fa_28_33 m ρ c)
theorem fa_29_34 : W34 m ρ c (Proc.devRef .tc main_arg29) = (argsK m c).a29 :=
  (keep33 m ρ c main_arg29 (by decide)).trans (fa_29_33 m ρ c)
theorem fa_13_34 : W34 m ρ c (Proc.devRef .tc main_arg13) = (argsK m c).a13 :=
  (keep33 m ρ c main_arg13 (by decide)).trans (fa_13_33 m ρ c)
theorem fa_14_34 : W34 m ρ c (Proc.devRef .tc main_arg14) = (argsK m c).a14 :=
  (keep33 m ρ c main_arg14 (by decide)).trans (fa_14_33 m ρ c)
theorem fa_16_34 : W34 m ρ c (Proc.devRef .tc main_arg16) = (argsK m c).a16 :=
  (keep33 m ρ c main_arg16 (by decide)).trans (fa_16_33 m ρ c)
theorem fa_18_34 : W34 m ρ c (Proc.devRef .tc main_arg18) = (argsK m c).a18 :=
  (keep33 m ρ c main_arg18 (by decide)).trans (fa_18_33 m ρ c)
theorem fa_2_34 : W34 m ρ c (Proc.devRef .tc main_arg2) = (argsK m c).a2 :=
  (keep33 m ρ c main_arg2 (by decide)).trans (fa_2_33 m ρ c)
theorem fa_31_34 : W34 m ρ c (Proc.devRef .tc main_arg31) = (argsK m c).a31 :=
  (keep33 m ρ c main_arg31 (by decide)).trans (fa_31_33 m ρ c)
theorem fa_15_34 : W34 m ρ c (Proc.devRef .tc main_arg15) = (argsK m c).a15 :=
  (keep33 m ρ c main_arg15 (by decide)).trans (fa_15_33 m ρ c)
theorem fa_17_34 : W34 m ρ c (Proc.devRef .tc main_arg17) = (argsK m c).a17 :=
  (keep33 m ρ c main_arg17 (by decide)).trans (fa_17_33 m ρ c)
theorem fa_19_34 : W34 m ρ c (Proc.devRef .tc main_arg19) = (argsK m c).a19 :=
  (keep33 m ρ c main_arg19 (by decide)).trans (fa_19_33 m ρ c)
theorem fk_main_v1_34 : W34 m ρ c (Proc.devRef .tc main_v1) = Cert.Net.gv_0 (argsK m c) :=
  (keep33 m ρ c main_v1 (by decide)).trans (fk_main_v1_33 m ρ c)
theorem fk_main_v3_34 : W34 m ρ c (Proc.devRef .tc main_v3) = Cert.Net.gv_1 (argsK m c) :=
  (keep33 m ρ c main_v3 (by decide)).trans (fk_main_v3_33 m ρ c)
theorem fk_main_v6_34 : W34 m ρ c (Proc.devRef .tc main_v6) = Cert.Net.gv_3 (argsK m c) :=
  (keep33 m ρ c main_v6 (by decide)).trans (fk_main_v6_33 m ρ c)
theorem fk_main_v8_34 : W34 m ρ c (Proc.devRef .tc main_v8) = Cert.Net.gv_5 (argsK m c) :=
  (keep33 m ρ c main_v8 (by decide)).trans (fk_main_v8_33 m ρ c)
theorem fk_main_v182_34 : W34 m ρ c (Proc.devRef .tc main_v182) = Cert.Net.gv_47 (argsK m c) :=
  (keep33 m ρ c main_v182 (by decide)).trans (fk_main_v182_33 m ρ c)
theorem fk_main_v194_34 : W34 m ρ c (Proc.devRef .tc main_v194) = Cert.Net.gv_53 (argsK m c) :=
  (keep33 m ρ c main_v194 (by decide)).trans (fk_main_v194_33 m ρ c)
theorem fk'_main_v207 : StableHlo.after hostOps16 (W34 m ρ c) (Proc.devRef .tc main_v207) = Cert.Net.gv_7 (argsK m c) :=
  (K34_main_v207 (W34 m ρ c)).trans (by rfl)
theorem fk_main_v207_35 : W35 m ρ c (Proc.devRef .tc main_v207) = Cert.Net.gv_7 (argsK m c) := fk'_main_v207 m ρ c
theorem fk'_main_v217 : StableHlo.after hostOps16 (W34 m ρ c) (Proc.devRef .tc main_v217) = Cert.Net.gv_60 (argsK m c) :=
  (K34_main_v217 (W34 m ρ c)).trans (by rw [fk'_main_v207 m ρ c, fk_main_v6_34 m ρ c, fk_main_v182_34 m ρ c]; rfl)
theorem fk_main_v217_35 : W35 m ρ c (Proc.devRef .tc main_v217) = Cert.Net.gv_60 (argsK m c) := fk'_main_v217 m ρ c
theorem fk'_main_v218 : StableHlo.after hostOps16 (W34 m ρ c) (Proc.devRef .tc main_v218) = Cert.Net.gv_8 (argsK m c) :=
  (K34_main_v218 (W34 m ρ c)).trans (by rfl)
theorem fk_main_v218_35 : W35 m ρ c (Proc.devRef .tc main_v218) = Cert.Net.gv_8 (argsK m c) := fk'_main_v218 m ρ c
theorem fk'_main_v228 : StableHlo.after hostOps16 (W34 m ρ c) (Proc.devRef .tc main_v228) = Cert.Net.gv_61 (argsK m c) :=
  (K34_main_v228 (W34 m ρ c)).trans (by rw [fk'_main_v218 m ρ c, fk_main_v8_34 m ρ c, fk_main_v194_34 m ρ c]; rfl)
theorem fk_main_v228_35 : W35 m ρ c (Proc.devRef .tc main_v228) = Cert.Net.gv_61 (argsK m c) := fk'_main_v228 m ρ c
theorem fk'_main_v235 : StableHlo.after hostOps16 (W34 m ρ c) (Proc.devRef .tc main_v235) = Cert.Net.gv_62 (argsK m c) :=
  (K34_main_v235 (W34 m ρ c)).trans (by rw [fk_main_v194_34 m ρ c, fk_main_v6_34 m ρ c]; rfl)
theorem fk_main_v235_35 : W35 m ρ c (Proc.devRef .tc main_v235) = Cert.Net.gv_62 (argsK m c) := fk'_main_v235 m ρ c
theorem fk'_main_v242 : StableHlo.after hostOps16 (W34 m ρ c) (Proc.devRef .tc main_v242) = Cert.Net.gv_64 (argsK m c) :=
  (K34_main_v242 (W34 m ρ c)).trans (by rw [fk_main_v206_34 m ρ c, fk_main_v8_34 m ρ c]; rfl)
theorem fk_main_v242_35 : W35 m ρ c (Proc.devRef .tc main_v242) = Cert.Net.gv_64 (argsK m c) := fk'_main_v242 m ρ c
theorem fk'_main_v243 : StableHlo.after hostOps16 (W34 m ρ c) (Proc.devRef .tc main_v243) = broadcastInDim Cert.ReferenceIdeal.S1x128 ![1] Cert.ReferenceIdeal.Gen.bcast_S128_S1x128_1 ((argsK m c).a27) :=
  (K34_main_v243 (W34 m ρ c)).trans (by rw [fa_27_34 m ρ c])
theorem fk_main_v243_35 : W35 m ρ c (Proc.devRef .tc main_v243) = broadcastInDim Cert.ReferenceIdeal.S1x128 ![1] Cert.ReferenceIdeal.Gen.bcast_S128_S1x128_1 ((argsK m c).a27) := fk'_main_v243 m ρ c
theorem fa_20_35 : W35 m ρ c (Proc.devRef .tc main_arg20) = (argsK m c).a20 :=
  (keep34 m ρ c main_arg20 (by decide)).trans (fa_20_34 m ρ c)
theorem fa_25_35 : W35 m ρ c (Proc.devRef .tc main_arg25) = (argsK m c).a25 :=
  (keep34 m ρ c main_arg25 (by decide)).trans (fa_25_34 m ρ c)
theorem fa_21_35 : W35 m ρ c (Proc.devRef .tc main_arg21) = (argsK m c).a21 :=
  (keep34 m ρ c main_arg21 (by decide)).trans (fa_21_34 m ρ c)
theorem fa_23_35 : W35 m ρ c (Proc.devRef .tc main_arg23) = (argsK m c).a23 :=
  (keep34 m ρ c main_arg23 (by decide)).trans (fa_23_34 m ρ c)
theorem fa_26_35 : W35 m ρ c (Proc.devRef .tc main_arg26) = (argsK m c).a26 :=
  (keep34 m ρ c main_arg26 (by decide)).trans (fa_26_34 m ρ c)
theorem fa_22_35 : W35 m ρ c (Proc.devRef .tc main_arg22) = (argsK m c).a22 :=
  (keep34 m ρ c main_arg22 (by decide)).trans (fa_22_34 m ρ c)
theorem fa_24_35 : W35 m ρ c (Proc.devRef .tc main_arg24) = (argsK m c).a24 :=
  (keep34 m ρ c main_arg24 (by decide)).trans (fa_24_34 m ρ c)
theorem fa_30_35 : W35 m ρ c (Proc.devRef .tc main_arg30) = (argsK m c).a30 :=
  (keep34 m ρ c main_arg30 (by decide)).trans (fa_30_34 m ρ c)
theorem fa_32_35 : W35 m ρ c (Proc.devRef .tc main_arg32) = (argsK m c).a32 :=
  (keep34 m ρ c main_arg32 (by decide)).trans (fa_32_34 m ρ c)
theorem fa_33_35 : W35 m ρ c (Proc.devRef .tc main_arg33) = (argsK m c).a33 :=
  (keep34 m ρ c main_arg33 (by decide)).trans (fa_33_34 m ρ c)
theorem fa_28_35 : W35 m ρ c (Proc.devRef .tc main_arg28) = (argsK m c).a28 :=
  (keep34 m ρ c main_arg28 (by decide)).trans (fa_28_34 m ρ c)
theorem fa_29_35 : W35 m ρ c (Proc.devRef .tc main_arg29) = (argsK m c).a29 :=
  (keep34 m ρ c main_arg29 (by decide)).trans (fa_29_34 m ρ c)
theorem fa_13_35 : W35 m ρ c (Proc.devRef .tc main_arg13) = (argsK m c).a13 :=
  (keep34 m ρ c main_arg13 (by decide)).trans (fa_13_34 m ρ c)
theorem fa_14_35 : W35 m ρ c (Proc.devRef .tc main_arg14) = (argsK m c).a14 :=
  (keep34 m ρ c main_arg14 (by decide)).trans (fa_14_34 m ρ c)
theorem fa_16_35 : W35 m ρ c (Proc.devRef .tc main_arg16) = (argsK m c).a16 :=
  (keep34 m ρ c main_arg16 (by decide)).trans (fa_16_34 m ρ c)
theorem fa_18_35 : W35 m ρ c (Proc.devRef .tc main_arg18) = (argsK m c).a18 :=
  (keep34 m ρ c main_arg18 (by decide)).trans (fa_18_34 m ρ c)
theorem fa_2_35 : W35 m ρ c (Proc.devRef .tc main_arg2) = (argsK m c).a2 :=
  (keep34 m ρ c main_arg2 (by decide)).trans (fa_2_34 m ρ c)
theorem fa_31_35 : W35 m ρ c (Proc.devRef .tc main_arg31) = (argsK m c).a31 :=
  (keep34 m ρ c main_arg31 (by decide)).trans (fa_31_34 m ρ c)
theorem fa_15_35 : W35 m ρ c (Proc.devRef .tc main_arg15) = (argsK m c).a15 :=
  (keep34 m ρ c main_arg15 (by decide)).trans (fa_15_34 m ρ c)
theorem fa_17_35 : W35 m ρ c (Proc.devRef .tc main_arg17) = (argsK m c).a17 :=
  (keep34 m ρ c main_arg17 (by decide)).trans (fa_17_34 m ρ c)
theorem fa_19_35 : W35 m ρ c (Proc.devRef .tc main_arg19) = (argsK m c).a19 :=
  (keep34 m ρ c main_arg19 (by decide)).trans (fa_19_34 m ρ c)
theorem fk_main_v1_35 : W35 m ρ c (Proc.devRef .tc main_v1) = Cert.Net.gv_0 (argsK m c) :=
  (keep34 m ρ c main_v1 (by decide)).trans (fk_main_v1_34 m ρ c)
theorem fk_main_v3_35 : W35 m ρ c (Proc.devRef .tc main_v3) = Cert.Net.gv_1 (argsK m c) :=
  (keep34 m ρ c main_v3 (by decide)).trans (fk_main_v3_34 m ρ c)
theorem fk_main_v8_35 : W35 m ρ c (Proc.devRef .tc main_v8) = Cert.Net.gv_5 (argsK m c) :=
  (keep34 m ρ c main_v8 (by decide)).trans (fk_main_v8_34 m ρ c)
theorem fk_main_v182_35 : W35 m ρ c (Proc.devRef .tc main_v182) = Cert.Net.gv_47 (argsK m c) :=
  (keep34 m ρ c main_v182 (by decide)).trans (fk_main_v182_34 m ρ c)
theorem fk_main_v194_35 : W35 m ρ c (Proc.devRef .tc main_v194) = Cert.Net.gv_53 (argsK m c) :=
  (keep34 m ρ c main_v194 (by decide)).trans (fk_main_v194_34 m ρ c)
theorem fk_main_v206_35 : W35 m ρ c (Proc.devRef .tc main_v206) = Cert.Net.gv_59 (argsK m c) :=
  (keep34 m ρ c main_v206 (by decide)).trans (fk_main_v206_34 m ρ c)
theorem fk_main_v244_36 : W36 m ρ c (Proc.devRef .tc main_v244) = Cert.Net.gv_63 (argsK m c) := by
  funext i
  refine (congrFun (W36_arr m ρ c 5) i).trans ?_
  refine (val16 (V35 m ρ) c i).trans ?_
  rw [show V35 m ρ c main_v182 = _ from fk_main_v182_35 m ρ c, show V35 m ρ c main_v235 = _ from fk_main_v235_35 m ρ c, show V35 m ρ c main_arg20 = _ from fa_20_35 m ρ c, show V35 m ρ c main_arg25 = _ from fa_25_35 m ρ c, show V35 m ρ c main_v243 = _ from fk_main_v243_35 m ρ c]
  exact (Cert.Layers.lay16 (argsK m c) i).symm
theorem fa_21_36 : W36 m ρ c (Proc.devRef .tc main_arg21) = (argsK m c).a21 :=
  (keep35 m ρ c main_arg21 (by decide)).trans (fa_21_35 m ρ c)
theorem fa_23_36 : W36 m ρ c (Proc.devRef .tc main_arg23) = (argsK m c).a23 :=
  (keep35 m ρ c main_arg23 (by decide)).trans (fa_23_35 m ρ c)
theorem fa_26_36 : W36 m ρ c (Proc.devRef .tc main_arg26) = (argsK m c).a26 :=
  (keep35 m ρ c main_arg26 (by decide)).trans (fa_26_35 m ρ c)
theorem fa_22_36 : W36 m ρ c (Proc.devRef .tc main_arg22) = (argsK m c).a22 :=
  (keep35 m ρ c main_arg22 (by decide)).trans (fa_22_35 m ρ c)
theorem fa_24_36 : W36 m ρ c (Proc.devRef .tc main_arg24) = (argsK m c).a24 :=
  (keep35 m ρ c main_arg24 (by decide)).trans (fa_24_35 m ρ c)
theorem fa_30_36 : W36 m ρ c (Proc.devRef .tc main_arg30) = (argsK m c).a30 :=
  (keep35 m ρ c main_arg30 (by decide)).trans (fa_30_35 m ρ c)
theorem fa_32_36 : W36 m ρ c (Proc.devRef .tc main_arg32) = (argsK m c).a32 :=
  (keep35 m ρ c main_arg32 (by decide)).trans (fa_32_35 m ρ c)
theorem fa_33_36 : W36 m ρ c (Proc.devRef .tc main_arg33) = (argsK m c).a33 :=
  (keep35 m ρ c main_arg33 (by decide)).trans (fa_33_35 m ρ c)
theorem fa_28_36 : W36 m ρ c (Proc.devRef .tc main_arg28) = (argsK m c).a28 :=
  (keep35 m ρ c main_arg28 (by decide)).trans (fa_28_35 m ρ c)
theorem fa_29_36 : W36 m ρ c (Proc.devRef .tc main_arg29) = (argsK m c).a29 :=
  (keep35 m ρ c main_arg29 (by decide)).trans (fa_29_35 m ρ c)
theorem fa_13_36 : W36 m ρ c (Proc.devRef .tc main_arg13) = (argsK m c).a13 :=
  (keep35 m ρ c main_arg13 (by decide)).trans (fa_13_35 m ρ c)
theorem fa_14_36 : W36 m ρ c (Proc.devRef .tc main_arg14) = (argsK m c).a14 :=
  (keep35 m ρ c main_arg14 (by decide)).trans (fa_14_35 m ρ c)
theorem fa_16_36 : W36 m ρ c (Proc.devRef .tc main_arg16) = (argsK m c).a16 :=
  (keep35 m ρ c main_arg16 (by decide)).trans (fa_16_35 m ρ c)
theorem fa_18_36 : W36 m ρ c (Proc.devRef .tc main_arg18) = (argsK m c).a18 :=
  (keep35 m ρ c main_arg18 (by decide)).trans (fa_18_35 m ρ c)
theorem fa_2_36 : W36 m ρ c (Proc.devRef .tc main_arg2) = (argsK m c).a2 :=
  (keep35 m ρ c main_arg2 (by decide)).trans (fa_2_35 m ρ c)
theorem fa_31_36 : W36 m ρ c (Proc.devRef .tc main_arg31) = (argsK m c).a31 :=
  (keep35 m ρ c main_arg31 (by decide)).trans (fa_31_35 m ρ c)
theorem fa_15_36 : W36 m ρ c (Proc.devRef .tc main_arg15) = (argsK m c).a15 :=
  (keep35 m ρ c main_arg15 (by decide)).trans (fa_15_35 m ρ c)
theorem fa_17_36 : W36 m ρ c (Proc.devRef .tc main_arg17) = (argsK m c).a17 :=
  (keep35 m ρ c main_arg17 (by decide)).trans (fa_17_35 m ρ c)
theorem fa_19_36 : W36 m ρ c (Proc.devRef .tc main_arg19) = (argsK m c).a19 :=
  (keep35 m ρ c main_arg19 (by decide)).trans (fa_19_35 m ρ c)
theorem fk_main_v1_36 : W36 m ρ c (Proc.devRef .tc main_v1) = Cert.Net.gv_0 (argsK m c) :=
  (keep35 m ρ c main_v1 (by decide)).trans (fk_main_v1_35 m ρ c)
theorem fk_main_v3_36 : W36 m ρ c (Proc.devRef .tc main_v3) = Cert.Net.gv_1 (argsK m c) :=
  (keep35 m ρ c main_v3 (by decide)).trans (fk_main_v3_35 m ρ c)
theorem fk_main_v8_36 : W36 m ρ c (Proc.devRef .tc main_v8) = Cert.Net.gv_5 (argsK m c) :=
  (keep35 m ρ c main_v8 (by decide)).trans (fk_main_v8_35 m ρ c)
theorem fk_main_v194_36 : W36 m ρ c (Proc.devRef .tc main_v194) = Cert.Net.gv_53 (argsK m c) :=
  (keep35 m ρ c main_v194 (by decide)).trans (fk_main_v194_35 m ρ c)
theorem fk_main_v206_36 : W36 m ρ c (Proc.devRef .tc main_v206) = Cert.Net.gv_59 (argsK m c) :=
  (keep35 m ρ c main_v206 (by decide)).trans (fk_main_v206_35 m ρ c)
theorem fk_main_v217_36 : W36 m ρ c (Proc.devRef .tc main_v217) = Cert.Net.gv_60 (argsK m c) :=
  (keep35 m ρ c main_v217 (by decide)).trans (fk_main_v217_35 m ρ c)
theorem fk_main_v228_36 : W36 m ρ c (Proc.devRef .tc main_v228) = Cert.Net.gv_61 (argsK m c) :=
  (keep35 m ρ c main_v228 (by decide)).trans (fk_main_v228_35 m ρ c)
theorem fk_main_v242_36 : W36 m ρ c (Proc.devRef .tc main_v242) = Cert.Net.gv_64 (argsK m c) :=
  (keep35 m ρ c main_v242 (by decide)).trans (fk_main_v242_35 m ρ c)
theorem fk'_main_v245 : StableHlo.after hostOps17 (W36 m ρ c) (Proc.devRef .tc main_v245) = broadcastInDim Cert.ReferenceIdeal.S1x128 ![1] Cert.ReferenceIdeal.Gen.bcast_S128_S1x128_1 ((argsK m c).a28) :=
  (K36_main_v245 (W36 m ρ c)).trans (by rw [fa_28_36 m ρ c])
theorem fk_main_v245_37 : W37 m ρ c (Proc.devRef .tc main_v245) = broadcastInDim Cert.ReferenceIdeal.S1x128 ![1] Cert.ReferenceIdeal.Gen.bcast_S128_S1x128_1 ((argsK m c).a28) := fk'_main_v245 m ρ c
theorem fa_21_37 : W37 m ρ c (Proc.devRef .tc main_arg21) = (argsK m c).a21 :=
  (keep36 m ρ c main_arg21 (by decide)).trans (fa_21_36 m ρ c)
theorem fa_23_37 : W37 m ρ c (Proc.devRef .tc main_arg23) = (argsK m c).a23 :=
  (keep36 m ρ c main_arg23 (by decide)).trans (fa_23_36 m ρ c)
theorem fa_26_37 : W37 m ρ c (Proc.devRef .tc main_arg26) = (argsK m c).a26 :=
  (keep36 m ρ c main_arg26 (by decide)).trans (fa_26_36 m ρ c)
theorem fa_22_37 : W37 m ρ c (Proc.devRef .tc main_arg22) = (argsK m c).a22 :=
  (keep36 m ρ c main_arg22 (by decide)).trans (fa_22_36 m ρ c)
theorem fa_24_37 : W37 m ρ c (Proc.devRef .tc main_arg24) = (argsK m c).a24 :=
  (keep36 m ρ c main_arg24 (by decide)).trans (fa_24_36 m ρ c)
theorem fa_30_37 : W37 m ρ c (Proc.devRef .tc main_arg30) = (argsK m c).a30 :=
  (keep36 m ρ c main_arg30 (by decide)).trans (fa_30_36 m ρ c)
theorem fa_32_37 : W37 m ρ c (Proc.devRef .tc main_arg32) = (argsK m c).a32 :=
  (keep36 m ρ c main_arg32 (by decide)).trans (fa_32_36 m ρ c)
theorem fa_33_37 : W37 m ρ c (Proc.devRef .tc main_arg33) = (argsK m c).a33 :=
  (keep36 m ρ c main_arg33 (by decide)).trans (fa_33_36 m ρ c)
theorem fa_29_37 : W37 m ρ c (Proc.devRef .tc main_arg29) = (argsK m c).a29 :=
  (keep36 m ρ c main_arg29 (by decide)).trans (fa_29_36 m ρ c)
theorem fa_13_37 : W37 m ρ c (Proc.devRef .tc main_arg13) = (argsK m c).a13 :=
  (keep36 m ρ c main_arg13 (by decide)).trans (fa_13_36 m ρ c)
theorem fa_14_37 : W37 m ρ c (Proc.devRef .tc main_arg14) = (argsK m c).a14 :=
  (keep36 m ρ c main_arg14 (by decide)).trans (fa_14_36 m ρ c)
theorem fa_16_37 : W37 m ρ c (Proc.devRef .tc main_arg16) = (argsK m c).a16 :=
  (keep36 m ρ c main_arg16 (by decide)).trans (fa_16_36 m ρ c)
theorem fa_18_37 : W37 m ρ c (Proc.devRef .tc main_arg18) = (argsK m c).a18 :=
  (keep36 m ρ c main_arg18 (by decide)).trans (fa_18_36 m ρ c)
theorem fa_2_37 : W37 m ρ c (Proc.devRef .tc main_arg2) = (argsK m c).a2 :=
  (keep36 m ρ c main_arg2 (by decide)).trans (fa_2_36 m ρ c)
theorem fa_31_37 : W37 m ρ c (Proc.devRef .tc main_arg31) = (argsK m c).a31 :=
  (keep36 m ρ c main_arg31 (by decide)).trans (fa_31_36 m ρ c)
theorem fa_15_37 : W37 m ρ c (Proc.devRef .tc main_arg15) = (argsK m c).a15 :=
  (keep36 m ρ c main_arg15 (by decide)).trans (fa_15_36 m ρ c)
theorem fa_17_37 : W37 m ρ c (Proc.devRef .tc main_arg17) = (argsK m c).a17 :=
  (keep36 m ρ c main_arg17 (by decide)).trans (fa_17_36 m ρ c)
theorem fa_19_37 : W37 m ρ c (Proc.devRef .tc main_arg19) = (argsK m c).a19 :=
  (keep36 m ρ c main_arg19 (by decide)).trans (fa_19_36 m ρ c)
theorem fk_main_v1_37 : W37 m ρ c (Proc.devRef .tc main_v1) = Cert.Net.gv_0 (argsK m c) :=
  (keep36 m ρ c main_v1 (by decide)).trans (fk_main_v1_36 m ρ c)
theorem fk_main_v3_37 : W37 m ρ c (Proc.devRef .tc main_v3) = Cert.Net.gv_1 (argsK m c) :=
  (keep36 m ρ c main_v3 (by decide)).trans (fk_main_v3_36 m ρ c)
theorem fk_main_v8_37 : W37 m ρ c (Proc.devRef .tc main_v8) = Cert.Net.gv_5 (argsK m c) :=
  (keep36 m ρ c main_v8 (by decide)).trans (fk_main_v8_36 m ρ c)
theorem fk_main_v194_37 : W37 m ρ c (Proc.devRef .tc main_v194) = Cert.Net.gv_53 (argsK m c) :=
  (keep36 m ρ c main_v194 (by decide)).trans (fk_main_v194_36 m ρ c)
theorem fk_main_v206_37 : W37 m ρ c (Proc.devRef .tc main_v206) = Cert.Net.gv_59 (argsK m c) :=
  (keep36 m ρ c main_v206 (by decide)).trans (fk_main_v206_36 m ρ c)
theorem fk_main_v217_37 : W37 m ρ c (Proc.devRef .tc main_v217) = Cert.Net.gv_60 (argsK m c) :=
  (keep36 m ρ c main_v217 (by decide)).trans (fk_main_v217_36 m ρ c)
theorem fk_main_v228_37 : W37 m ρ c (Proc.devRef .tc main_v228) = Cert.Net.gv_61 (argsK m c) :=
  (keep36 m ρ c main_v228 (by decide)).trans (fk_main_v228_36 m ρ c)
theorem fk_main_v242_37 : W37 m ρ c (Proc.devRef .tc main_v242) = Cert.Net.gv_64 (argsK m c) :=
  (keep36 m ρ c main_v242 (by decide)).trans (fk_main_v242_36 m ρ c)
theorem fk_main_v244_37 : W37 m ρ c (Proc.devRef .tc main_v244) = Cert.Net.gv_63 (argsK m c) :=
  (keep36 m ρ c main_v244 (by decide)).trans (fk_main_v244_36 m ρ c)
theorem fk_main_v246_38 : W38 m ρ c (Proc.devRef .tc main_v246) = Cert.Net.gv_65 (argsK m c) := by
  funext i
  refine (congrFun (W38_arr m ρ c 7) i).trans ?_
  refine (val17 (V37 m ρ) c i).trans ?_
  rw [show V37 m ρ c main_v194 = _ from fk_main_v194_37 m ρ c, show V37 m ρ c main_v217 = _ from fk_main_v217_37 m ρ c, show V37 m ρ c main_v242 = _ from fk_main_v242_37 m ρ c, show V37 m ρ c main_arg21 = _ from fa_21_37 m ρ c, show V37 m ρ c main_arg23 = _ from fa_23_37 m ρ c, show V37 m ρ c main_arg26 = _ from fa_26_37 m ρ c, show V37 m ρ c main_v245 = _ from fk_main_v245_37 m ρ c]
  exact (Cert.Layers.lay17 (argsK m c) i).symm
theorem fa_22_38 : W38 m ρ c (Proc.devRef .tc main_arg22) = (argsK m c).a22 :=
  (keep37 m ρ c main_arg22 (by decide)).trans (fa_22_37 m ρ c)
theorem fa_24_38 : W38 m ρ c (Proc.devRef .tc main_arg24) = (argsK m c).a24 :=
  (keep37 m ρ c main_arg24 (by decide)).trans (fa_24_37 m ρ c)
theorem fa_30_38 : W38 m ρ c (Proc.devRef .tc main_arg30) = (argsK m c).a30 :=
  (keep37 m ρ c main_arg30 (by decide)).trans (fa_30_37 m ρ c)
theorem fa_32_38 : W38 m ρ c (Proc.devRef .tc main_arg32) = (argsK m c).a32 :=
  (keep37 m ρ c main_arg32 (by decide)).trans (fa_32_37 m ρ c)
theorem fa_33_38 : W38 m ρ c (Proc.devRef .tc main_arg33) = (argsK m c).a33 :=
  (keep37 m ρ c main_arg33 (by decide)).trans (fa_33_37 m ρ c)
theorem fa_29_38 : W38 m ρ c (Proc.devRef .tc main_arg29) = (argsK m c).a29 :=
  (keep37 m ρ c main_arg29 (by decide)).trans (fa_29_37 m ρ c)
theorem fa_13_38 : W38 m ρ c (Proc.devRef .tc main_arg13) = (argsK m c).a13 :=
  (keep37 m ρ c main_arg13 (by decide)).trans (fa_13_37 m ρ c)
theorem fa_14_38 : W38 m ρ c (Proc.devRef .tc main_arg14) = (argsK m c).a14 :=
  (keep37 m ρ c main_arg14 (by decide)).trans (fa_14_37 m ρ c)
theorem fa_16_38 : W38 m ρ c (Proc.devRef .tc main_arg16) = (argsK m c).a16 :=
  (keep37 m ρ c main_arg16 (by decide)).trans (fa_16_37 m ρ c)
theorem fa_18_38 : W38 m ρ c (Proc.devRef .tc main_arg18) = (argsK m c).a18 :=
  (keep37 m ρ c main_arg18 (by decide)).trans (fa_18_37 m ρ c)
theorem fa_2_38 : W38 m ρ c (Proc.devRef .tc main_arg2) = (argsK m c).a2 :=
  (keep37 m ρ c main_arg2 (by decide)).trans (fa_2_37 m ρ c)
theorem fa_31_38 : W38 m ρ c (Proc.devRef .tc main_arg31) = (argsK m c).a31 :=
  (keep37 m ρ c main_arg31 (by decide)).trans (fa_31_37 m ρ c)
theorem fa_15_38 : W38 m ρ c (Proc.devRef .tc main_arg15) = (argsK m c).a15 :=
  (keep37 m ρ c main_arg15 (by decide)).trans (fa_15_37 m ρ c)
theorem fa_17_38 : W38 m ρ c (Proc.devRef .tc main_arg17) = (argsK m c).a17 :=
  (keep37 m ρ c main_arg17 (by decide)).trans (fa_17_37 m ρ c)
theorem fa_19_38 : W38 m ρ c (Proc.devRef .tc main_arg19) = (argsK m c).a19 :=
  (keep37 m ρ c main_arg19 (by decide)).trans (fa_19_37 m ρ c)
theorem fk_main_v1_38 : W38 m ρ c (Proc.devRef .tc main_v1) = Cert.Net.gv_0 (argsK m c) :=
  (keep37 m ρ c main_v1 (by decide)).trans (fk_main_v1_37 m ρ c)
theorem fk_main_v3_38 : W38 m ρ c (Proc.devRef .tc main_v3) = Cert.Net.gv_1 (argsK m c) :=
  (keep37 m ρ c main_v3 (by decide)).trans (fk_main_v3_37 m ρ c)
theorem fk_main_v8_38 : W38 m ρ c (Proc.devRef .tc main_v8) = Cert.Net.gv_5 (argsK m c) :=
  (keep37 m ρ c main_v8 (by decide)).trans (fk_main_v8_37 m ρ c)
theorem fk_main_v206_38 : W38 m ρ c (Proc.devRef .tc main_v206) = Cert.Net.gv_59 (argsK m c) :=
  (keep37 m ρ c main_v206 (by decide)).trans (fk_main_v206_37 m ρ c)
theorem fk_main_v228_38 : W38 m ρ c (Proc.devRef .tc main_v228) = Cert.Net.gv_61 (argsK m c) :=
  (keep37 m ρ c main_v228 (by decide)).trans (fk_main_v228_37 m ρ c)
theorem fk_main_v244_38 : W38 m ρ c (Proc.devRef .tc main_v244) = Cert.Net.gv_63 (argsK m c) :=
  (keep37 m ρ c main_v244 (by decide)).trans (fk_main_v244_37 m ρ c)
theorem fk'_main_v247 : StableHlo.after hostOps18 (W38 m ρ c) (Proc.devRef .tc main_v247) = broadcastInDim Cert.ReferenceIdeal.S1x128 ![1] Cert.ReferenceIdeal.Gen.bcast_S128_S1x128_1 ((argsK m c).a29) :=
  (K38_main_v247 (W38 m ρ c)).trans (by rw [fa_29_38 m ρ c])
theorem fk_main_v247_39 : W39 m ρ c (Proc.devRef .tc main_v247) = broadcastInDim Cert.ReferenceIdeal.S1x128 ![1] Cert.ReferenceIdeal.Gen.bcast_S128_S1x128_1 ((argsK m c).a29) := fk'_main_v247 m ρ c
theorem fa_22_39 : W39 m ρ c (Proc.devRef .tc main_arg22) = (argsK m c).a22 :=
  (keep38 m ρ c main_arg22 (by decide)).trans (fa_22_38 m ρ c)
theorem fa_24_39 : W39 m ρ c (Proc.devRef .tc main_arg24) = (argsK m c).a24 :=
  (keep38 m ρ c main_arg24 (by decide)).trans (fa_24_38 m ρ c)
theorem fa_30_39 : W39 m ρ c (Proc.devRef .tc main_arg30) = (argsK m c).a30 :=
  (keep38 m ρ c main_arg30 (by decide)).trans (fa_30_38 m ρ c)
theorem fa_32_39 : W39 m ρ c (Proc.devRef .tc main_arg32) = (argsK m c).a32 :=
  (keep38 m ρ c main_arg32 (by decide)).trans (fa_32_38 m ρ c)
theorem fa_33_39 : W39 m ρ c (Proc.devRef .tc main_arg33) = (argsK m c).a33 :=
  (keep38 m ρ c main_arg33 (by decide)).trans (fa_33_38 m ρ c)
theorem fa_13_39 : W39 m ρ c (Proc.devRef .tc main_arg13) = (argsK m c).a13 :=
  (keep38 m ρ c main_arg13 (by decide)).trans (fa_13_38 m ρ c)
theorem fa_14_39 : W39 m ρ c (Proc.devRef .tc main_arg14) = (argsK m c).a14 :=
  (keep38 m ρ c main_arg14 (by decide)).trans (fa_14_38 m ρ c)
theorem fa_16_39 : W39 m ρ c (Proc.devRef .tc main_arg16) = (argsK m c).a16 :=
  (keep38 m ρ c main_arg16 (by decide)).trans (fa_16_38 m ρ c)
theorem fa_18_39 : W39 m ρ c (Proc.devRef .tc main_arg18) = (argsK m c).a18 :=
  (keep38 m ρ c main_arg18 (by decide)).trans (fa_18_38 m ρ c)
theorem fa_2_39 : W39 m ρ c (Proc.devRef .tc main_arg2) = (argsK m c).a2 :=
  (keep38 m ρ c main_arg2 (by decide)).trans (fa_2_38 m ρ c)
theorem fa_31_39 : W39 m ρ c (Proc.devRef .tc main_arg31) = (argsK m c).a31 :=
  (keep38 m ρ c main_arg31 (by decide)).trans (fa_31_38 m ρ c)
theorem fa_15_39 : W39 m ρ c (Proc.devRef .tc main_arg15) = (argsK m c).a15 :=
  (keep38 m ρ c main_arg15 (by decide)).trans (fa_15_38 m ρ c)
theorem fa_17_39 : W39 m ρ c (Proc.devRef .tc main_arg17) = (argsK m c).a17 :=
  (keep38 m ρ c main_arg17 (by decide)).trans (fa_17_38 m ρ c)
theorem fa_19_39 : W39 m ρ c (Proc.devRef .tc main_arg19) = (argsK m c).a19 :=
  (keep38 m ρ c main_arg19 (by decide)).trans (fa_19_38 m ρ c)
theorem fk_main_v1_39 : W39 m ρ c (Proc.devRef .tc main_v1) = Cert.Net.gv_0 (argsK m c) :=
  (keep38 m ρ c main_v1 (by decide)).trans (fk_main_v1_38 m ρ c)
theorem fk_main_v3_39 : W39 m ρ c (Proc.devRef .tc main_v3) = Cert.Net.gv_1 (argsK m c) :=
  (keep38 m ρ c main_v3 (by decide)).trans (fk_main_v3_38 m ρ c)
theorem fk_main_v8_39 : W39 m ρ c (Proc.devRef .tc main_v8) = Cert.Net.gv_5 (argsK m c) :=
  (keep38 m ρ c main_v8 (by decide)).trans (fk_main_v8_38 m ρ c)
theorem fk_main_v206_39 : W39 m ρ c (Proc.devRef .tc main_v206) = Cert.Net.gv_59 (argsK m c) :=
  (keep38 m ρ c main_v206 (by decide)).trans (fk_main_v206_38 m ρ c)
theorem fk_main_v228_39 : W39 m ρ c (Proc.devRef .tc main_v228) = Cert.Net.gv_61 (argsK m c) :=
  (keep38 m ρ c main_v228 (by decide)).trans (fk_main_v228_38 m ρ c)
theorem fk_main_v244_39 : W39 m ρ c (Proc.devRef .tc main_v244) = Cert.Net.gv_63 (argsK m c) :=
  (keep38 m ρ c main_v244 (by decide)).trans (fk_main_v244_38 m ρ c)
theorem fk_main_v246_39 : W39 m ρ c (Proc.devRef .tc main_v246) = Cert.Net.gv_65 (argsK m c) :=
  (keep38 m ρ c main_v246 (by decide)).trans (fk_main_v246_38 m ρ c)
theorem fk_main_v248_40 : W40 m ρ c (Proc.devRef .tc main_v248) = Cert.Net.gv_66 (argsK m c) := by
  funext i
  refine (congrFun (W40_arr m ρ c 5) i).trans ?_
  refine (val18 (V39 m ρ) c i).trans ?_
  rw [show V39 m ρ c main_v206 = _ from fk_main_v206_39 m ρ c, show V39 m ρ c main_v228 = _ from fk_main_v228_39 m ρ c, show V39 m ρ c main_arg22 = _ from fa_22_39 m ρ c, show V39 m ρ c main_arg24 = _ from fa_24_39 m ρ c, show V39 m ρ c main_v247 = _ from fk_main_v247_39 m ρ c]
  exact (Cert.Layers.lay18 (argsK m c) i).symm
theorem fa_30_40 : W40 m ρ c (Proc.devRef .tc main_arg30) = (argsK m c).a30 :=
  (keep39 m ρ c main_arg30 (by decide)).trans (fa_30_39 m ρ c)
theorem fa_32_40 : W40 m ρ c (Proc.devRef .tc main_arg32) = (argsK m c).a32 :=
  (keep39 m ρ c main_arg32 (by decide)).trans (fa_32_39 m ρ c)
theorem fa_33_40 : W40 m ρ c (Proc.devRef .tc main_arg33) = (argsK m c).a33 :=
  (keep39 m ρ c main_arg33 (by decide)).trans (fa_33_39 m ρ c)
theorem fa_13_40 : W40 m ρ c (Proc.devRef .tc main_arg13) = (argsK m c).a13 :=
  (keep39 m ρ c main_arg13 (by decide)).trans (fa_13_39 m ρ c)
theorem fa_14_40 : W40 m ρ c (Proc.devRef .tc main_arg14) = (argsK m c).a14 :=
  (keep39 m ρ c main_arg14 (by decide)).trans (fa_14_39 m ρ c)
theorem fa_16_40 : W40 m ρ c (Proc.devRef .tc main_arg16) = (argsK m c).a16 :=
  (keep39 m ρ c main_arg16 (by decide)).trans (fa_16_39 m ρ c)
theorem fa_18_40 : W40 m ρ c (Proc.devRef .tc main_arg18) = (argsK m c).a18 :=
  (keep39 m ρ c main_arg18 (by decide)).trans (fa_18_39 m ρ c)
theorem fa_2_40 : W40 m ρ c (Proc.devRef .tc main_arg2) = (argsK m c).a2 :=
  (keep39 m ρ c main_arg2 (by decide)).trans (fa_2_39 m ρ c)
theorem fa_31_40 : W40 m ρ c (Proc.devRef .tc main_arg31) = (argsK m c).a31 :=
  (keep39 m ρ c main_arg31 (by decide)).trans (fa_31_39 m ρ c)
theorem fa_15_40 : W40 m ρ c (Proc.devRef .tc main_arg15) = (argsK m c).a15 :=
  (keep39 m ρ c main_arg15 (by decide)).trans (fa_15_39 m ρ c)
theorem fa_17_40 : W40 m ρ c (Proc.devRef .tc main_arg17) = (argsK m c).a17 :=
  (keep39 m ρ c main_arg17 (by decide)).trans (fa_17_39 m ρ c)
theorem fa_19_40 : W40 m ρ c (Proc.devRef .tc main_arg19) = (argsK m c).a19 :=
  (keep39 m ρ c main_arg19 (by decide)).trans (fa_19_39 m ρ c)
theorem fk_main_v1_40 : W40 m ρ c (Proc.devRef .tc main_v1) = Cert.Net.gv_0 (argsK m c) :=
  (keep39 m ρ c main_v1 (by decide)).trans (fk_main_v1_39 m ρ c)
theorem fk_main_v3_40 : W40 m ρ c (Proc.devRef .tc main_v3) = Cert.Net.gv_1 (argsK m c) :=
  (keep39 m ρ c main_v3 (by decide)).trans (fk_main_v3_39 m ρ c)
theorem fk_main_v8_40 : W40 m ρ c (Proc.devRef .tc main_v8) = Cert.Net.gv_5 (argsK m c) :=
  (keep39 m ρ c main_v8 (by decide)).trans (fk_main_v8_39 m ρ c)
theorem fk_main_v244_40 : W40 m ρ c (Proc.devRef .tc main_v244) = Cert.Net.gv_63 (argsK m c) :=
  (keep39 m ρ c main_v244 (by decide)).trans (fk_main_v244_39 m ρ c)
theorem fk_main_v246_40 : W40 m ρ c (Proc.devRef .tc main_v246) = Cert.Net.gv_65 (argsK m c) :=
  (keep39 m ρ c main_v246 (by decide)).trans (fk_main_v246_39 m ρ c)
theorem fk'_main_v266 : StableHlo.after hostOps19 (W40 m ρ c) (Proc.devRef .tc main_v266) = Cert.Net.gv_67 (argsK m c) :=
  (K40_main_v266 (W40 m ρ c)).trans (by rw [fk_main_v3_40 m ρ c, fk_main_v244_40 m ρ c, fk_main_v1_40 m ρ c]; rfl)
theorem fk_main_v266_41 : W41 m ρ c (Proc.devRef .tc main_v266) = Cert.Net.gv_67 (argsK m c) := fk'_main_v266 m ρ c
theorem fk'_main_v268 : StableHlo.after hostOps19 (W40 m ρ c) (Proc.devRef .tc main_v268) = Cert.Net.gv_39 (argsK m c) :=
  (K40_main_v268 (W40 m ρ c)).trans (by rw [fa_13_40 m ρ c]; rfl)
theorem fk_main_v268_41 : W41 m ρ c (Proc.devRef .tc main_v268) = Cert.Net.gv_39 (argsK m c) := fk'_main_v268 m ρ c
theorem fk'_main_v270 : StableHlo.after hostOps19 (W40 m ρ c) (Proc.devRef .tc main_v270) = Cert.Net.gv_40 (argsK m c) :=
  (K40_main_v270 (W40 m ρ c)).trans (by rw [fa_14_40 m ρ c]; rfl)
theorem fk_main_v270_41 : W41 m ρ c (Proc.devRef .tc main_v270) = Cert.Net.gv_40 (argsK m c) := fk'_main_v270 m ρ c
theorem fk'_main_v272 : StableHlo.after hostOps19 (W40 m ρ c) (Proc.devRef .tc main_v272) = Cert.Net.gv_41 (argsK m c) :=
  (K40_main_v272 (W40 m ρ c)).trans (by rw [fa_15_40 m ρ c]; rfl)
theorem fk_main_v272_41 : W41 m ρ c (Proc.devRef .tc main_v272) = Cert.Net.gv_41 (argsK m c) := fk'_main_v272 m ρ c
theorem fk'_main_v273 : StableHlo.after hostOps19 (W40 m ρ c) (Proc.devRef .tc main_v273) = broadcastInDim Cert.ReferenceIdeal.S1x128 ![1] Cert.ReferenceIdeal.Gen.bcast_S128_S1x128_1 (Cert.Net.gv_41 (argsK m c)) :=
  (K40_main_v273 (W40 m ρ c)).trans (by rw [fk'_main_v272 m ρ c])
theorem fk_main_v273_41 : W41 m ρ c (Proc.devRef .tc main_v273) = broadcastInDim Cert.ReferenceIdeal.S1x128 ![1] Cert.ReferenceIdeal.Gen.bcast_S128_S1x128_1 (Cert.Net.gv_41 (argsK m c)) := fk'_main_v273 m ρ c
theorem fa_30_41 : W41 m ρ c (Proc.devRef .tc main_arg30) = (argsK m c).a30 :=
  (keep40 m ρ c main_arg30 (by decide)).trans (fa_30_40 m ρ c)
theorem fa_32_41 : W41 m ρ c (Proc.devRef .tc main_arg32) = (argsK m c).a32 :=
  (keep40 m ρ c main_arg32 (by decide)).trans (fa_32_40 m ρ c)
theorem fa_33_41 : W41 m ρ c (Proc.devRef .tc main_arg33) = (argsK m c).a33 :=
  (keep40 m ρ c main_arg33 (by decide)).trans (fa_33_40 m ρ c)
theorem fa_13_41 : W41 m ρ c (Proc.devRef .tc main_arg13) = (argsK m c).a13 :=
  (keep40 m ρ c main_arg13 (by decide)).trans (fa_13_40 m ρ c)
theorem fa_14_41 : W41 m ρ c (Proc.devRef .tc main_arg14) = (argsK m c).a14 :=
  (keep40 m ρ c main_arg14 (by decide)).trans (fa_14_40 m ρ c)
theorem fa_16_41 : W41 m ρ c (Proc.devRef .tc main_arg16) = (argsK m c).a16 :=
  (keep40 m ρ c main_arg16 (by decide)).trans (fa_16_40 m ρ c)
theorem fa_18_41 : W41 m ρ c (Proc.devRef .tc main_arg18) = (argsK m c).a18 :=
  (keep40 m ρ c main_arg18 (by decide)).trans (fa_18_40 m ρ c)
theorem fa_2_41 : W41 m ρ c (Proc.devRef .tc main_arg2) = (argsK m c).a2 :=
  (keep40 m ρ c main_arg2 (by decide)).trans (fa_2_40 m ρ c)
theorem fa_31_41 : W41 m ρ c (Proc.devRef .tc main_arg31) = (argsK m c).a31 :=
  (keep40 m ρ c main_arg31 (by decide)).trans (fa_31_40 m ρ c)
theorem fa_15_41 : W41 m ρ c (Proc.devRef .tc main_arg15) = (argsK m c).a15 :=
  (keep40 m ρ c main_arg15 (by decide)).trans (fa_15_40 m ρ c)
theorem fa_17_41 : W41 m ρ c (Proc.devRef .tc main_arg17) = (argsK m c).a17 :=
  (keep40 m ρ c main_arg17 (by decide)).trans (fa_17_40 m ρ c)
theorem fa_19_41 : W41 m ρ c (Proc.devRef .tc main_arg19) = (argsK m c).a19 :=
  (keep40 m ρ c main_arg19 (by decide)).trans (fa_19_40 m ρ c)
theorem fk_main_v1_41 : W41 m ρ c (Proc.devRef .tc main_v1) = Cert.Net.gv_0 (argsK m c) :=
  (keep40 m ρ c main_v1 (by decide)).trans (fk_main_v1_40 m ρ c)
theorem fk_main_v3_41 : W41 m ρ c (Proc.devRef .tc main_v3) = Cert.Net.gv_1 (argsK m c) :=
  (keep40 m ρ c main_v3 (by decide)).trans (fk_main_v3_40 m ρ c)
theorem fk_main_v8_41 : W41 m ρ c (Proc.devRef .tc main_v8) = Cert.Net.gv_5 (argsK m c) :=
  (keep40 m ρ c main_v8 (by decide)).trans (fk_main_v8_40 m ρ c)
theorem fk_main_v244_41 : W41 m ρ c (Proc.devRef .tc main_v244) = Cert.Net.gv_63 (argsK m c) :=
  (keep40 m ρ c main_v244 (by decide)).trans (fk_main_v244_40 m ρ c)
theorem fk_main_v246_41 : W41 m ρ c (Proc.devRef .tc main_v246) = Cert.Net.gv_65 (argsK m c) :=
  (keep40 m ρ c main_v246 (by decide)).trans (fk_main_v246_40 m ρ c)
theorem fk_main_v248_41 : W41 m ρ c (Proc.devRef .tc main_v248) = Cert.Net.gv_66 (argsK m c) :=
  (keep40 m ρ c main_v248 (by decide)).trans (fk_main_v248_40 m ρ c)
theorem fk_main_v274_42 : W42 m ρ c (Proc.devRef .tc main_v274) = Cert.Net.gv_68 (argsK m c) := by
  funext i
  refine (congrFun (W42_arr m ρ c 5) i).trans ?_
  refine (val19 (V41 m ρ) c i).trans ?_
  rw [show V41 m ρ c main_v244 = _ from fk_main_v244_41 m ρ c, show V41 m ρ c main_v266 = _ from fk_main_v266_41 m ρ c, show V41 m ρ c main_v268 = _ from fk_main_v268_41 m ρ c, show V41 m ρ c main_v270 = _ from fk_main_v270_41 m ρ c, show V41 m ρ c main_v273 = _ from fk_main_v273_41 m ρ c]
  exact (Cert.Layers.lay19 (argsK m c) i).symm
theorem fa_30_42 : W42 m ρ c (Proc.devRef .tc main_arg30) = (argsK m c).a30 :=
  (keep41 m ρ c main_arg30 (by decide)).trans (fa_30_41 m ρ c)
theorem fa_32_42 : W42 m ρ c (Proc.devRef .tc main_arg32) = (argsK m c).a32 :=
  (keep41 m ρ c main_arg32 (by decide)).trans (fa_32_41 m ρ c)
theorem fa_33_42 : W42 m ρ c (Proc.devRef .tc main_arg33) = (argsK m c).a33 :=
  (keep41 m ρ c main_arg33 (by decide)).trans (fa_33_41 m ρ c)
theorem fa_13_42 : W42 m ρ c (Proc.devRef .tc main_arg13) = (argsK m c).a13 :=
  (keep41 m ρ c main_arg13 (by decide)).trans (fa_13_41 m ρ c)
theorem fa_14_42 : W42 m ρ c (Proc.devRef .tc main_arg14) = (argsK m c).a14 :=
  (keep41 m ρ c main_arg14 (by decide)).trans (fa_14_41 m ρ c)
theorem fa_16_42 : W42 m ρ c (Proc.devRef .tc main_arg16) = (argsK m c).a16 :=
  (keep41 m ρ c main_arg16 (by decide)).trans (fa_16_41 m ρ c)
theorem fa_18_42 : W42 m ρ c (Proc.devRef .tc main_arg18) = (argsK m c).a18 :=
  (keep41 m ρ c main_arg18 (by decide)).trans (fa_18_41 m ρ c)
theorem fa_2_42 : W42 m ρ c (Proc.devRef .tc main_arg2) = (argsK m c).a2 :=
  (keep41 m ρ c main_arg2 (by decide)).trans (fa_2_41 m ρ c)
theorem fa_31_42 : W42 m ρ c (Proc.devRef .tc main_arg31) = (argsK m c).a31 :=
  (keep41 m ρ c main_arg31 (by decide)).trans (fa_31_41 m ρ c)
theorem fa_15_42 : W42 m ρ c (Proc.devRef .tc main_arg15) = (argsK m c).a15 :=
  (keep41 m ρ c main_arg15 (by decide)).trans (fa_15_41 m ρ c)
theorem fa_17_42 : W42 m ρ c (Proc.devRef .tc main_arg17) = (argsK m c).a17 :=
  (keep41 m ρ c main_arg17 (by decide)).trans (fa_17_41 m ρ c)
theorem fa_19_42 : W42 m ρ c (Proc.devRef .tc main_arg19) = (argsK m c).a19 :=
  (keep41 m ρ c main_arg19 (by decide)).trans (fa_19_41 m ρ c)
theorem fk_main_v1_42 : W42 m ρ c (Proc.devRef .tc main_v1) = Cert.Net.gv_0 (argsK m c) :=
  (keep41 m ρ c main_v1 (by decide)).trans (fk_main_v1_41 m ρ c)
theorem fk_main_v3_42 : W42 m ρ c (Proc.devRef .tc main_v3) = Cert.Net.gv_1 (argsK m c) :=
  (keep41 m ρ c main_v3 (by decide)).trans (fk_main_v3_41 m ρ c)
theorem fk_main_v8_42 : W42 m ρ c (Proc.devRef .tc main_v8) = Cert.Net.gv_5 (argsK m c) :=
  (keep41 m ρ c main_v8 (by decide)).trans (fk_main_v8_41 m ρ c)
theorem fk_main_v246_42 : W42 m ρ c (Proc.devRef .tc main_v246) = Cert.Net.gv_65 (argsK m c) :=
  (keep41 m ρ c main_v246 (by decide)).trans (fk_main_v246_41 m ρ c)
theorem fk_main_v248_42 : W42 m ρ c (Proc.devRef .tc main_v248) = Cert.Net.gv_66 (argsK m c) :=
  (keep41 m ρ c main_v248 (by decide)).trans (fk_main_v248_41 m ρ c)
theorem fk'_main_v292 : StableHlo.after hostOps20 (W42 m ρ c) (Proc.devRef .tc main_v292) = Cert.Net.gv_69 (argsK m c) :=
  (K42_main_v292 (W42 m ρ c)).trans (by rw [fk_main_v3_42 m ρ c, fk_main_v274_42 m ρ c, fk_main_v1_42 m ρ c]; rfl)
theorem fk_main_v292_43 : W43 m ρ c (Proc.devRef .tc main_v292) = Cert.Net.gv_69 (argsK m c) := fk'_main_v292 m ρ c
theorem fk'_main_v294 : StableHlo.after hostOps20 (W42 m ρ c) (Proc.devRef .tc main_v294) = Cert.Net.gv_44 (argsK m c) :=
  (K42_main_v294 (W42 m ρ c)).trans (by rw [fa_13_42 m ρ c]; rfl)
theorem fk_main_v294_43 : W43 m ρ c (Proc.devRef .tc main_v294) = Cert.Net.gv_44 (argsK m c) := fk'_main_v294 m ρ c
theorem fk'_main_v296 : StableHlo.after hostOps20 (W42 m ρ c) (Proc.devRef .tc main_v296) = Cert.Net.gv_45 (argsK m c) :=
  (K42_main_v296 (W42 m ρ c)).trans (by rw [fa_14_42 m ρ c]; rfl)
theorem fk_main_v296_43 : W43 m ρ c (Proc.devRef .tc main_v296) = Cert.Net.gv_45 (argsK m c) := fk'_main_v296 m ρ c
theorem fk'_main_v298 : StableHlo.after hostOps20 (W42 m ρ c) (Proc.devRef .tc main_v298) = Cert.Net.gv_46 (argsK m c) :=
  (K42_main_v298 (W42 m ρ c)).trans (by rw [fa_15_42 m ρ c]; rfl)
theorem fk_main_v298_43 : W43 m ρ c (Proc.devRef .tc main_v298) = Cert.Net.gv_46 (argsK m c) := fk'_main_v298 m ρ c
theorem fk'_main_v299 : StableHlo.after hostOps20 (W42 m ρ c) (Proc.devRef .tc main_v299) = broadcastInDim Cert.ReferenceIdeal.S1x128 ![1] Cert.ReferenceIdeal.Gen.bcast_S128_S1x128_1 (Cert.Net.gv_46 (argsK m c)) :=
  (K42_main_v299 (W42 m ρ c)).trans (by rw [fk'_main_v298 m ρ c])
theorem fk_main_v299_43 : W43 m ρ c (Proc.devRef .tc main_v299) = broadcastInDim Cert.ReferenceIdeal.S1x128 ![1] Cert.ReferenceIdeal.Gen.bcast_S128_S1x128_1 (Cert.Net.gv_46 (argsK m c)) := fk'_main_v299 m ρ c
theorem fa_30_43 : W43 m ρ c (Proc.devRef .tc main_arg30) = (argsK m c).a30 :=
  (keep42 m ρ c main_arg30 (by decide)).trans (fa_30_42 m ρ c)
theorem fa_32_43 : W43 m ρ c (Proc.devRef .tc main_arg32) = (argsK m c).a32 :=
  (keep42 m ρ c main_arg32 (by decide)).trans (fa_32_42 m ρ c)
theorem fa_33_43 : W43 m ρ c (Proc.devRef .tc main_arg33) = (argsK m c).a33 :=
  (keep42 m ρ c main_arg33 (by decide)).trans (fa_33_42 m ρ c)
theorem fa_16_43 : W43 m ρ c (Proc.devRef .tc main_arg16) = (argsK m c).a16 :=
  (keep42 m ρ c main_arg16 (by decide)).trans (fa_16_42 m ρ c)
theorem fa_18_43 : W43 m ρ c (Proc.devRef .tc main_arg18) = (argsK m c).a18 :=
  (keep42 m ρ c main_arg18 (by decide)).trans (fa_18_42 m ρ c)
theorem fa_2_43 : W43 m ρ c (Proc.devRef .tc main_arg2) = (argsK m c).a2 :=
  (keep42 m ρ c main_arg2 (by decide)).trans (fa_2_42 m ρ c)
theorem fa_31_43 : W43 m ρ c (Proc.devRef .tc main_arg31) = (argsK m c).a31 :=
  (keep42 m ρ c main_arg31 (by decide)).trans (fa_31_42 m ρ c)
theorem fa_17_43 : W43 m ρ c (Proc.devRef .tc main_arg17) = (argsK m c).a17 :=
  (keep42 m ρ c main_arg17 (by decide)).trans (fa_17_42 m ρ c)
theorem fa_19_43 : W43 m ρ c (Proc.devRef .tc main_arg19) = (argsK m c).a19 :=
  (keep42 m ρ c main_arg19 (by decide)).trans (fa_19_42 m ρ c)
theorem fk_main_v8_43 : W43 m ρ c (Proc.devRef .tc main_v8) = Cert.Net.gv_5 (argsK m c) :=
  (keep42 m ρ c main_v8 (by decide)).trans (fk_main_v8_42 m ρ c)
theorem fk_main_v246_43 : W43 m ρ c (Proc.devRef .tc main_v246) = Cert.Net.gv_65 (argsK m c) :=
  (keep42 m ρ c main_v246 (by decide)).trans (fk_main_v246_42 m ρ c)
theorem fk_main_v248_43 : W43 m ρ c (Proc.devRef .tc main_v248) = Cert.Net.gv_66 (argsK m c) :=
  (keep42 m ρ c main_v248 (by decide)).trans (fk_main_v248_42 m ρ c)
theorem fk_main_v274_43 : W43 m ρ c (Proc.devRef .tc main_v274) = Cert.Net.gv_68 (argsK m c) :=
  (keep42 m ρ c main_v274 (by decide)).trans (fk_main_v274_42 m ρ c)
theorem fk_main_v300_44 : W44 m ρ c (Proc.devRef .tc main_v300) = Cert.Net.gv_70 (argsK m c) := by
  funext i
  refine (congrFun (W44_arr m ρ c 5) i).trans ?_
  refine (val20 (V43 m ρ) c i).trans ?_
  rw [show V43 m ρ c main_v274 = _ from fk_main_v274_43 m ρ c, show V43 m ρ c main_v292 = _ from fk_main_v292_43 m ρ c, show V43 m ρ c main_v294 = _ from fk_main_v294_43 m ρ c, show V43 m ρ c main_v296 = _ from fk_main_v296_43 m ρ c, show V43 m ρ c main_v299 = _ from fk_main_v299_43 m ρ c]
  exact (Cert.Layers.lay20 (argsK m c) i).symm
theorem fa_30_44 : W44 m ρ c (Proc.devRef .tc main_arg30) = (argsK m c).a30 :=
  (keep43 m ρ c main_arg30 (by decide)).trans (fa_30_43 m ρ c)
theorem fa_32_44 : W44 m ρ c (Proc.devRef .tc main_arg32) = (argsK m c).a32 :=
  (keep43 m ρ c main_arg32 (by decide)).trans (fa_32_43 m ρ c)
theorem fa_33_44 : W44 m ρ c (Proc.devRef .tc main_arg33) = (argsK m c).a33 :=
  (keep43 m ρ c main_arg33 (by decide)).trans (fa_33_43 m ρ c)
theorem fa_16_44 : W44 m ρ c (Proc.devRef .tc main_arg16) = (argsK m c).a16 :=
  (keep43 m ρ c main_arg16 (by decide)).trans (fa_16_43 m ρ c)
theorem fa_18_44 : W44 m ρ c (Proc.devRef .tc main_arg18) = (argsK m c).a18 :=
  (keep43 m ρ c main_arg18 (by decide)).trans (fa_18_43 m ρ c)
theorem fa_2_44 : W44 m ρ c (Proc.devRef .tc main_arg2) = (argsK m c).a2 :=
  (keep43 m ρ c main_arg2 (by decide)).trans (fa_2_43 m ρ c)
theorem fa_31_44 : W44 m ρ c (Proc.devRef .tc main_arg31) = (argsK m c).a31 :=
  (keep43 m ρ c main_arg31 (by decide)).trans (fa_31_43 m ρ c)
theorem fa_17_44 : W44 m ρ c (Proc.devRef .tc main_arg17) = (argsK m c).a17 :=
  (keep43 m ρ c main_arg17 (by decide)).trans (fa_17_43 m ρ c)
theorem fa_19_44 : W44 m ρ c (Proc.devRef .tc main_arg19) = (argsK m c).a19 :=
  (keep43 m ρ c main_arg19 (by decide)).trans (fa_19_43 m ρ c)
theorem fk_main_v8_44 : W44 m ρ c (Proc.devRef .tc main_v8) = Cert.Net.gv_5 (argsK m c) :=
  (keep43 m ρ c main_v8 (by decide)).trans (fk_main_v8_43 m ρ c)
theorem fk_main_v246_44 : W44 m ρ c (Proc.devRef .tc main_v246) = Cert.Net.gv_65 (argsK m c) :=
  (keep43 m ρ c main_v246 (by decide)).trans (fk_main_v246_43 m ρ c)
theorem fk_main_v248_44 : W44 m ρ c (Proc.devRef .tc main_v248) = Cert.Net.gv_66 (argsK m c) :=
  (keep43 m ρ c main_v248 (by decide)).trans (fk_main_v248_43 m ρ c)
theorem fk'_main_v302 : StableHlo.after hostOps21 (W44 m ρ c) (Proc.devRef .tc main_v302) = Cert.Net.gv_48 (argsK m c) :=
  (K44_main_v302 (W44 m ρ c)).trans (by rw [fa_16_44 m ρ c]; rfl)
theorem fk_main_v302_45 : W45 m ρ c (Proc.devRef .tc main_v302) = Cert.Net.gv_48 (argsK m c) := fk'_main_v302 m ρ c
theorem fk'_main_v304 : StableHlo.after hostOps21 (W44 m ρ c) (Proc.devRef .tc main_v304) = Cert.Net.gv_49 (argsK m c) :=
  (K44_main_v304 (W44 m ρ c)).trans (by rw [fa_17_44 m ρ c]; rfl)
theorem fk_main_v304_45 : W45 m ρ c (Proc.devRef .tc main_v304) = Cert.Net.gv_49 (argsK m c) := fk'_main_v304 m ρ c
theorem fk'_main_v305 : StableHlo.after hostOps21 (W44 m ρ c) (Proc.devRef .tc main_v305) = broadcastInDim Cert.ReferenceIdeal.S1x128 ![1] Cert.ReferenceIdeal.Gen.bcast_S128_S1x128_1 (Cert.Net.gv_49 (argsK m c)) :=
  (K44_main_v305 (W44 m ρ c)).trans (by rw [fk'_main_v304 m ρ c])
theorem fk_main_v305_45 : W45 m ρ c (Proc.devRef .tc main_v305) = broadcastInDim Cert.ReferenceIdeal.S1x128 ![1] Cert.ReferenceIdeal.Gen.bcast_S128_S1x128_1 (Cert.Net.gv_49 (argsK m c)) := fk'_main_v305 m ρ c
theorem fa_30_45 : W45 m ρ c (Proc.devRef .tc main_arg30) = (argsK m c).a30 :=
  (keep44 m ρ c main_arg30 (by decide)).trans (fa_30_44 m ρ c)
theorem fa_32_45 : W45 m ρ c (Proc.devRef .tc main_arg32) = (argsK m c).a32 :=
  (keep44 m ρ c main_arg32 (by decide)).trans (fa_32_44 m ρ c)
theorem fa_33_45 : W45 m ρ c (Proc.devRef .tc main_arg33) = (argsK m c).a33 :=
  (keep44 m ρ c main_arg33 (by decide)).trans (fa_33_44 m ρ c)
theorem fa_16_45 : W45 m ρ c (Proc.devRef .tc main_arg16) = (argsK m c).a16 :=
  (keep44 m ρ c main_arg16 (by decide)).trans (fa_16_44 m ρ c)
theorem fa_18_45 : W45 m ρ c (Proc.devRef .tc main_arg18) = (argsK m c).a18 :=
  (keep44 m ρ c main_arg18 (by decide)).trans (fa_18_44 m ρ c)
theorem fa_2_45 : W45 m ρ c (Proc.devRef .tc main_arg2) = (argsK m c).a2 :=
  (keep44 m ρ c main_arg2 (by decide)).trans (fa_2_44 m ρ c)
theorem fa_31_45 : W45 m ρ c (Proc.devRef .tc main_arg31) = (argsK m c).a31 :=
  (keep44 m ρ c main_arg31 (by decide)).trans (fa_31_44 m ρ c)
theorem fa_17_45 : W45 m ρ c (Proc.devRef .tc main_arg17) = (argsK m c).a17 :=
  (keep44 m ρ c main_arg17 (by decide)).trans (fa_17_44 m ρ c)
theorem fa_19_45 : W45 m ρ c (Proc.devRef .tc main_arg19) = (argsK m c).a19 :=
  (keep44 m ρ c main_arg19 (by decide)).trans (fa_19_44 m ρ c)
theorem fk_main_v8_45 : W45 m ρ c (Proc.devRef .tc main_v8) = Cert.Net.gv_5 (argsK m c) :=
  (keep44 m ρ c main_v8 (by decide)).trans (fk_main_v8_44 m ρ c)
theorem fk_main_v246_45 : W45 m ρ c (Proc.devRef .tc main_v246) = Cert.Net.gv_65 (argsK m c) :=
  (keep44 m ρ c main_v246 (by decide)).trans (fk_main_v246_44 m ρ c)
theorem fk_main_v248_45 : W45 m ρ c (Proc.devRef .tc main_v248) = Cert.Net.gv_66 (argsK m c) :=
  (keep44 m ρ c main_v248 (by decide)).trans (fk_main_v248_44 m ρ c)
theorem fk_main_v300_45 : W45 m ρ c (Proc.devRef .tc main_v300) = Cert.Net.gv_70 (argsK m c) :=
  (keep44 m ρ c main_v300 (by decide)).trans (fk_main_v300_44 m ρ c)
theorem fk_main_v306_46 : W46 m ρ c (Proc.devRef .tc main_v306) = Cert.Net.gv_71 (argsK m c) := by
  funext i
  refine (congrFun (W46_arr m ρ c 3) i).trans ?_
  refine (val21 (V45 m ρ) c i).trans ?_
  rw [show V45 m ρ c main_v246 = _ from fk_main_v246_45 m ρ c, show V45 m ρ c main_v302 = _ from fk_main_v302_45 m ρ c, show V45 m ρ c main_v305 = _ from fk_main_v305_45 m ρ c]
  exact (Cert.Layers.lay21 (argsK m c) i).symm
theorem fa_30_46 : W46 m ρ c (Proc.devRef .tc main_arg30) = (argsK m c).a30 :=
  (keep45 m ρ c main_arg30 (by decide)).trans (fa_30_45 m ρ c)
theorem fa_32_46 : W46 m ρ c (Proc.devRef .tc main_arg32) = (argsK m c).a32 :=
  (keep45 m ρ c main_arg32 (by decide)).trans (fa_32_45 m ρ c)
theorem fa_33_46 : W46 m ρ c (Proc.devRef .tc main_arg33) = (argsK m c).a33 :=
  (keep45 m ρ c main_arg33 (by decide)).trans (fa_33_45 m ρ c)
theorem fa_16_46 : W46 m ρ c (Proc.devRef .tc main_arg16) = (argsK m c).a16 :=
  (keep45 m ρ c main_arg16 (by decide)).trans (fa_16_45 m ρ c)
theorem fa_18_46 : W46 m ρ c (Proc.devRef .tc main_arg18) = (argsK m c).a18 :=
  (keep45 m ρ c main_arg18 (by decide)).trans (fa_18_45 m ρ c)
theorem fa_2_46 : W46 m ρ c (Proc.devRef .tc main_arg2) = (argsK m c).a2 :=
  (keep45 m ρ c main_arg2 (by decide)).trans (fa_2_45 m ρ c)
theorem fa_31_46 : W46 m ρ c (Proc.devRef .tc main_arg31) = (argsK m c).a31 :=
  (keep45 m ρ c main_arg31 (by decide)).trans (fa_31_45 m ρ c)
theorem fa_17_46 : W46 m ρ c (Proc.devRef .tc main_arg17) = (argsK m c).a17 :=
  (keep45 m ρ c main_arg17 (by decide)).trans (fa_17_45 m ρ c)
theorem fa_19_46 : W46 m ρ c (Proc.devRef .tc main_arg19) = (argsK m c).a19 :=
  (keep45 m ρ c main_arg19 (by decide)).trans (fa_19_45 m ρ c)
theorem fk_main_v8_46 : W46 m ρ c (Proc.devRef .tc main_v8) = Cert.Net.gv_5 (argsK m c) :=
  (keep45 m ρ c main_v8 (by decide)).trans (fk_main_v8_45 m ρ c)
theorem fk_main_v248_46 : W46 m ρ c (Proc.devRef .tc main_v248) = Cert.Net.gv_66 (argsK m c) :=
  (keep45 m ρ c main_v248 (by decide)).trans (fk_main_v248_45 m ρ c)
theorem fk_main_v300_46 : W46 m ρ c (Proc.devRef .tc main_v300) = Cert.Net.gv_70 (argsK m c) :=
  (keep45 m ρ c main_v300 (by decide)).trans (fk_main_v300_45 m ρ c)
theorem fk'_main_v308 : StableHlo.after hostOps22 (W46 m ρ c) (Proc.devRef .tc main_v308) = Cert.Net.gv_51 (argsK m c) :=
  (K46_main_v308 (W46 m ρ c)).trans (by rw [fa_16_46 m ρ c]; rfl)
theorem fk_main_v308_47 : W47 m ρ c (Proc.devRef .tc main_v308) = Cert.Net.gv_51 (argsK m c) := fk'_main_v308 m ρ c
theorem fk'_main_v310 : StableHlo.after hostOps22 (W46 m ρ c) (Proc.devRef .tc main_v310) = Cert.Net.gv_52 (argsK m c) :=
  (K46_main_v310 (W46 m ρ c)).trans (by rw [fa_17_46 m ρ c]; rfl)
theorem fk_main_v310_47 : W47 m ρ c (Proc.devRef .tc main_v310) = Cert.Net.gv_52 (argsK m c) := fk'_main_v310 m ρ c
theorem fk'_main_v311 : StableHlo.after hostOps22 (W46 m ρ c) (Proc.devRef .tc main_v311) = broadcastInDim Cert.ReferenceIdeal.S1x128 ![1] Cert.ReferenceIdeal.Gen.bcast_S128_S1x128_1 (Cert.Net.gv_52 (argsK m c)) :=
  (K46_main_v311 (W46 m ρ c)).trans (by rw [fk'_main_v310 m ρ c])
theorem fk_main_v311_47 : W47 m ρ c (Proc.devRef .tc main_v311) = broadcastInDim Cert.ReferenceIdeal.S1x128 ![1] Cert.ReferenceIdeal.Gen.bcast_S128_S1x128_1 (Cert.Net.gv_52 (argsK m c)) := fk'_main_v311 m ρ c
theorem fa_30_47 : W47 m ρ c (Proc.devRef .tc main_arg30) = (argsK m c).a30 :=
  (keep46 m ρ c main_arg30 (by decide)).trans (fa_30_46 m ρ c)
theorem fa_32_47 : W47 m ρ c (Proc.devRef .tc main_arg32) = (argsK m c).a32 :=
  (keep46 m ρ c main_arg32 (by decide)).trans (fa_32_46 m ρ c)
theorem fa_33_47 : W47 m ρ c (Proc.devRef .tc main_arg33) = (argsK m c).a33 :=
  (keep46 m ρ c main_arg33 (by decide)).trans (fa_33_46 m ρ c)
theorem fa_18_47 : W47 m ρ c (Proc.devRef .tc main_arg18) = (argsK m c).a18 :=
  (keep46 m ρ c main_arg18 (by decide)).trans (fa_18_46 m ρ c)
theorem fa_2_47 : W47 m ρ c (Proc.devRef .tc main_arg2) = (argsK m c).a2 :=
  (keep46 m ρ c main_arg2 (by decide)).trans (fa_2_46 m ρ c)
theorem fa_31_47 : W47 m ρ c (Proc.devRef .tc main_arg31) = (argsK m c).a31 :=
  (keep46 m ρ c main_arg31 (by decide)).trans (fa_31_46 m ρ c)
theorem fa_19_47 : W47 m ρ c (Proc.devRef .tc main_arg19) = (argsK m c).a19 :=
  (keep46 m ρ c main_arg19 (by decide)).trans (fa_19_46 m ρ c)
theorem fk_main_v8_47 : W47 m ρ c (Proc.devRef .tc main_v8) = Cert.Net.gv_5 (argsK m c) :=
  (keep46 m ρ c main_v8 (by decide)).trans (fk_main_v8_46 m ρ c)
theorem fk_main_v248_47 : W47 m ρ c (Proc.devRef .tc main_v248) = Cert.Net.gv_66 (argsK m c) :=
  (keep46 m ρ c main_v248 (by decide)).trans (fk_main_v248_46 m ρ c)
theorem fk_main_v300_47 : W47 m ρ c (Proc.devRef .tc main_v300) = Cert.Net.gv_70 (argsK m c) :=
  (keep46 m ρ c main_v300 (by decide)).trans (fk_main_v300_46 m ρ c)
theorem fk_main_v306_47 : W47 m ρ c (Proc.devRef .tc main_v306) = Cert.Net.gv_71 (argsK m c) :=
  (keep46 m ρ c main_v306 (by decide)).trans (fk_main_v306_46 m ρ c)
theorem fk_main_v312_48 : W48 m ρ c (Proc.devRef .tc main_v312) = Cert.Net.gv_72 (argsK m c) := by
  funext i
  refine (congrFun (W48_arr m ρ c 3) i).trans ?_
  refine (val22 (V47 m ρ) c i).trans ?_
  rw [show V47 m ρ c main_v306 = _ from fk_main_v306_47 m ρ c, show V47 m ρ c main_v308 = _ from fk_main_v308_47 m ρ c, show V47 m ρ c main_v311 = _ from fk_main_v311_47 m ρ c]
  exact (Cert.Layers.lay22 (argsK m c) i).symm
theorem fa_30_48 : W48 m ρ c (Proc.devRef .tc main_arg30) = (argsK m c).a30 :=
  (keep47 m ρ c main_arg30 (by decide)).trans (fa_30_47 m ρ c)
theorem fa_32_48 : W48 m ρ c (Proc.devRef .tc main_arg32) = (argsK m c).a32 :=
  (keep47 m ρ c main_arg32 (by decide)).trans (fa_32_47 m ρ c)
theorem fa_33_48 : W48 m ρ c (Proc.devRef .tc main_arg33) = (argsK m c).a33 :=
  (keep47 m ρ c main_arg33 (by decide)).trans (fa_33_47 m ρ c)
theorem fa_18_48 : W48 m ρ c (Proc.devRef .tc main_arg18) = (argsK m c).a18 :=
  (keep47 m ρ c main_arg18 (by decide)).trans (fa_18_47 m ρ c)
theorem fa_2_48 : W48 m ρ c (Proc.devRef .tc main_arg2) = (argsK m c).a2 :=
  (keep47 m ρ c main_arg2 (by decide)).trans (fa_2_47 m ρ c)
theorem fa_31_48 : W48 m ρ c (Proc.devRef .tc main_arg31) = (argsK m c).a31 :=
  (keep47 m ρ c main_arg31 (by decide)).trans (fa_31_47 m ρ c)
theorem fa_19_48 : W48 m ρ c (Proc.devRef .tc main_arg19) = (argsK m c).a19 :=
  (keep47 m ρ c main_arg19 (by decide)).trans (fa_19_47 m ρ c)
theorem fk_main_v8_48 : W48 m ρ c (Proc.devRef .tc main_v8) = Cert.Net.gv_5 (argsK m c) :=
  (keep47 m ρ c main_v8 (by decide)).trans (fk_main_v8_47 m ρ c)
theorem fk_main_v248_48 : W48 m ρ c (Proc.devRef .tc main_v248) = Cert.Net.gv_66 (argsK m c) :=
  (keep47 m ρ c main_v248 (by decide)).trans (fk_main_v248_47 m ρ c)
theorem fk_main_v300_48 : W48 m ρ c (Proc.devRef .tc main_v300) = Cert.Net.gv_70 (argsK m c) :=
  (keep47 m ρ c main_v300 (by decide)).trans (fk_main_v300_47 m ρ c)
theorem fk'_main_v314 : StableHlo.after hostOps23 (W48 m ρ c) (Proc.devRef .tc main_v314) = Cert.Net.gv_54 (argsK m c) :=
  (K48_main_v314 (W48 m ρ c)).trans (by rw [fa_18_48 m ρ c]; rfl)
theorem fk_main_v314_49 : W49 m ρ c (Proc.devRef .tc main_v314) = Cert.Net.gv_54 (argsK m c) := fk'_main_v314 m ρ c
theorem fk'_main_v316 : StableHlo.after hostOps23 (W48 m ρ c) (Proc.devRef .tc main_v316) = Cert.Net.gv_55 (argsK m c) :=
  (K48_main_v316 (W48 m ρ c)).trans (by rw [fa_19_48 m ρ c]; rfl)
theorem fk_main_v316_49 : W49 m ρ c (Proc.devRef .tc main_v316) = Cert.Net.gv_55 (argsK m c) := fk'_main_v316 m ρ c
theorem fk'_main_v317 : StableHlo.after hostOps23 (W48 m ρ c) (Proc.devRef .tc main_v317) = broadcastInDim Cert.ReferenceIdeal.S1x128 ![1] Cert.ReferenceIdeal.Gen.bcast_S128_S1x128_1 (Cert.Net.gv_55 (argsK m c)) :=
  (K48_main_v317 (W48 m ρ c)).trans (by rw [fk'_main_v316 m ρ c])
theorem fk_main_v317_49 : W49 m ρ c (Proc.devRef .tc main_v317) = broadcastInDim Cert.ReferenceIdeal.S1x128 ![1] Cert.ReferenceIdeal.Gen.bcast_S128_S1x128_1 (Cert.Net.gv_55 (argsK m c)) := fk'_main_v317 m ρ c
theorem fa_30_49 : W49 m ρ c (Proc.devRef .tc main_arg30) = (argsK m c).a30 :=
  (keep48 m ρ c main_arg30 (by decide)).trans (fa_30_48 m ρ c)
theorem fa_32_49 : W49 m ρ c (Proc.devRef .tc main_arg32) = (argsK m c).a32 :=
  (keep48 m ρ c main_arg32 (by decide)).trans (fa_32_48 m ρ c)
theorem fa_33_49 : W49 m ρ c (Proc.devRef .tc main_arg33) = (argsK m c).a33 :=
  (keep48 m ρ c main_arg33 (by decide)).trans (fa_33_48 m ρ c)
theorem fa_18_49 : W49 m ρ c (Proc.devRef .tc main_arg18) = (argsK m c).a18 :=
  (keep48 m ρ c main_arg18 (by decide)).trans (fa_18_48 m ρ c)
theorem fa_2_49 : W49 m ρ c (Proc.devRef .tc main_arg2) = (argsK m c).a2 :=
  (keep48 m ρ c main_arg2 (by decide)).trans (fa_2_48 m ρ c)
theorem fa_31_49 : W49 m ρ c (Proc.devRef .tc main_arg31) = (argsK m c).a31 :=
  (keep48 m ρ c main_arg31 (by decide)).trans (fa_31_48 m ρ c)
theorem fa_19_49 : W49 m ρ c (Proc.devRef .tc main_arg19) = (argsK m c).a19 :=
  (keep48 m ρ c main_arg19 (by decide)).trans (fa_19_48 m ρ c)
theorem fk_main_v8_49 : W49 m ρ c (Proc.devRef .tc main_v8) = Cert.Net.gv_5 (argsK m c) :=
  (keep48 m ρ c main_v8 (by decide)).trans (fk_main_v8_48 m ρ c)
theorem fk_main_v248_49 : W49 m ρ c (Proc.devRef .tc main_v248) = Cert.Net.gv_66 (argsK m c) :=
  (keep48 m ρ c main_v248 (by decide)).trans (fk_main_v248_48 m ρ c)
theorem fk_main_v300_49 : W49 m ρ c (Proc.devRef .tc main_v300) = Cert.Net.gv_70 (argsK m c) :=
  (keep48 m ρ c main_v300 (by decide)).trans (fk_main_v300_48 m ρ c)
theorem fk_main_v312_49 : W49 m ρ c (Proc.devRef .tc main_v312) = Cert.Net.gv_72 (argsK m c) :=
  (keep48 m ρ c main_v312 (by decide)).trans (fk_main_v312_48 m ρ c)
theorem fk_main_v318_50 : W50 m ρ c (Proc.devRef .tc main_v318) = Cert.Net.gv_73 (argsK m c) := by
  funext i
  refine (congrFun (W50_arr m ρ c 3) i).trans ?_
  refine (val23 (V49 m ρ) c i).trans ?_
  rw [show V49 m ρ c main_v248 = _ from fk_main_v248_49 m ρ c, show V49 m ρ c main_v314 = _ from fk_main_v314_49 m ρ c, show V49 m ρ c main_v317 = _ from fk_main_v317_49 m ρ c]
  exact (Cert.Layers.lay23 (argsK m c) i).symm
theorem fa_30_50 : W50 m ρ c (Proc.devRef .tc main_arg30) = (argsK m c).a30 :=
  (keep49 m ρ c main_arg30 (by decide)).trans (fa_30_49 m ρ c)
theorem fa_32_50 : W50 m ρ c (Proc.devRef .tc main_arg32) = (argsK m c).a32 :=
  (keep49 m ρ c main_arg32 (by decide)).trans (fa_32_49 m ρ c)
theorem fa_33_50 : W50 m ρ c (Proc.devRef .tc main_arg33) = (argsK m c).a33 :=
  (keep49 m ρ c main_arg33 (by decide)).trans (fa_33_49 m ρ c)
theorem fa_18_50 : W50 m ρ c (Proc.devRef .tc main_arg18) = (argsK m c).a18 :=
  (keep49 m ρ c main_arg18 (by decide)).trans (fa_18_49 m ρ c)
theorem fa_2_50 : W50 m ρ c (Proc.devRef .tc main_arg2) = (argsK m c).a2 :=
  (keep49 m ρ c main_arg2 (by decide)).trans (fa_2_49 m ρ c)
theorem fa_31_50 : W50 m ρ c (Proc.devRef .tc main_arg31) = (argsK m c).a31 :=
  (keep49 m ρ c main_arg31 (by decide)).trans (fa_31_49 m ρ c)
theorem fa_19_50 : W50 m ρ c (Proc.devRef .tc main_arg19) = (argsK m c).a19 :=
  (keep49 m ρ c main_arg19 (by decide)).trans (fa_19_49 m ρ c)
theorem fk_main_v8_50 : W50 m ρ c (Proc.devRef .tc main_v8) = Cert.Net.gv_5 (argsK m c) :=
  (keep49 m ρ c main_v8 (by decide)).trans (fk_main_v8_49 m ρ c)
theorem fk_main_v300_50 : W50 m ρ c (Proc.devRef .tc main_v300) = Cert.Net.gv_70 (argsK m c) :=
  (keep49 m ρ c main_v300 (by decide)).trans (fk_main_v300_49 m ρ c)
theorem fk_main_v312_50 : W50 m ρ c (Proc.devRef .tc main_v312) = Cert.Net.gv_72 (argsK m c) :=
  (keep49 m ρ c main_v312 (by decide)).trans (fk_main_v312_49 m ρ c)
theorem fk'_main_v320 : StableHlo.after hostOps24 (W50 m ρ c) (Proc.devRef .tc main_v320) = Cert.Net.gv_57 (argsK m c) :=
  (K50_main_v320 (W50 m ρ c)).trans (by rw [fa_18_50 m ρ c]; rfl)
theorem fk_main_v320_51 : W51 m ρ c (Proc.devRef .tc main_v320) = Cert.Net.gv_57 (argsK m c) := fk'_main_v320 m ρ c
theorem fk'_main_v322 : StableHlo.after hostOps24 (W50 m ρ c) (Proc.devRef .tc main_v322) = Cert.Net.gv_58 (argsK m c) :=
  (K50_main_v322 (W50 m ρ c)).trans (by rw [fa_19_50 m ρ c]; rfl)
theorem fk_main_v322_51 : W51 m ρ c (Proc.devRef .tc main_v322) = Cert.Net.gv_58 (argsK m c) := fk'_main_v322 m ρ c
theorem fk'_main_v323 : StableHlo.after hostOps24 (W50 m ρ c) (Proc.devRef .tc main_v323) = broadcastInDim Cert.ReferenceIdeal.S1x128 ![1] Cert.ReferenceIdeal.Gen.bcast_S128_S1x128_1 (Cert.Net.gv_58 (argsK m c)) :=
  (K50_main_v323 (W50 m ρ c)).trans (by rw [fk'_main_v322 m ρ c])
theorem fk_main_v323_51 : W51 m ρ c (Proc.devRef .tc main_v323) = broadcastInDim Cert.ReferenceIdeal.S1x128 ![1] Cert.ReferenceIdeal.Gen.bcast_S128_S1x128_1 (Cert.Net.gv_58 (argsK m c)) := fk'_main_v323 m ρ c
theorem fa_30_51 : W51 m ρ c (Proc.devRef .tc main_arg30) = (argsK m c).a30 :=
  (keep50 m ρ c main_arg30 (by decide)).trans (fa_30_50 m ρ c)
theorem fa_32_51 : W51 m ρ c (Proc.devRef .tc main_arg32) = (argsK m c).a32 :=
  (keep50 m ρ c main_arg32 (by decide)).trans (fa_32_50 m ρ c)
theorem fa_33_51 : W51 m ρ c (Proc.devRef .tc main_arg33) = (argsK m c).a33 :=
  (keep50 m ρ c main_arg33 (by decide)).trans (fa_33_50 m ρ c)
theorem fa_2_51 : W51 m ρ c (Proc.devRef .tc main_arg2) = (argsK m c).a2 :=
  (keep50 m ρ c main_arg2 (by decide)).trans (fa_2_50 m ρ c)
theorem fa_31_51 : W51 m ρ c (Proc.devRef .tc main_arg31) = (argsK m c).a31 :=
  (keep50 m ρ c main_arg31 (by decide)).trans (fa_31_50 m ρ c)
theorem fk_main_v8_51 : W51 m ρ c (Proc.devRef .tc main_v8) = Cert.Net.gv_5 (argsK m c) :=
  (keep50 m ρ c main_v8 (by decide)).trans (fk_main_v8_50 m ρ c)
theorem fk_main_v300_51 : W51 m ρ c (Proc.devRef .tc main_v300) = Cert.Net.gv_70 (argsK m c) :=
  (keep50 m ρ c main_v300 (by decide)).trans (fk_main_v300_50 m ρ c)
theorem fk_main_v312_51 : W51 m ρ c (Proc.devRef .tc main_v312) = Cert.Net.gv_72 (argsK m c) :=
  (keep50 m ρ c main_v312 (by decide)).trans (fk_main_v312_50 m ρ c)
theorem fk_main_v318_51 : W51 m ρ c (Proc.devRef .tc main_v318) = Cert.Net.gv_73 (argsK m c) :=
  (keep50 m ρ c main_v318 (by decide)).trans (fk_main_v318_50 m ρ c)
theorem fk_main_v324_52 : W52 m ρ c (Proc.devRef .tc main_v324) = Cert.Net.gv_74 (argsK m c) := by
  funext i
  refine (congrFun (W52_arr m ρ c 3) i).trans ?_
  refine (val24 (V51 m ρ) c i).trans ?_
  rw [show V51 m ρ c main_v318 = _ from fk_main_v318_51 m ρ c, show V51 m ρ c main_v320 = _ from fk_main_v320_51 m ρ c, show V51 m ρ c main_v323 = _ from fk_main_v323_51 m ρ c]
  exact (Cert.Layers.lay24 (argsK m c) i).symm
theorem fa_30_52 : W52 m ρ c (Proc.devRef .tc main_arg30) = (argsK m c).a30 :=
  (keep51 m ρ c main_arg30 (by decide)).trans (fa_30_51 m ρ c)
theorem fa_32_52 : W52 m ρ c (Proc.devRef .tc main_arg32) = (argsK m c).a32 :=
  (keep51 m ρ c main_arg32 (by decide)).trans (fa_32_51 m ρ c)
theorem fa_33_52 : W52 m ρ c (Proc.devRef .tc main_arg33) = (argsK m c).a33 :=
  (keep51 m ρ c main_arg33 (by decide)).trans (fa_33_51 m ρ c)
theorem fa_2_52 : W52 m ρ c (Proc.devRef .tc main_arg2) = (argsK m c).a2 :=
  (keep51 m ρ c main_arg2 (by decide)).trans (fa_2_51 m ρ c)
theorem fa_31_52 : W52 m ρ c (Proc.devRef .tc main_arg31) = (argsK m c).a31 :=
  (keep51 m ρ c main_arg31 (by decide)).trans (fa_31_51 m ρ c)
theorem fk_main_v8_52 : W52 m ρ c (Proc.devRef .tc main_v8) = Cert.Net.gv_5 (argsK m c) :=
  (keep51 m ρ c main_v8 (by decide)).trans (fk_main_v8_51 m ρ c)
theorem fk_main_v300_52 : W52 m ρ c (Proc.devRef .tc main_v300) = Cert.Net.gv_70 (argsK m c) :=
  (keep51 m ρ c main_v300 (by decide)).trans (fk_main_v300_51 m ρ c)
theorem fk_main_v312_52 : W52 m ρ c (Proc.devRef .tc main_v312) = Cert.Net.gv_72 (argsK m c) :=
  (keep51 m ρ c main_v312 (by decide)).trans (fk_main_v312_51 m ρ c)
theorem fk'_main_v325 : StableHlo.after hostOps25 (W52 m ρ c) (Proc.devRef .tc main_v325) = Cert.Net.gv_8 (argsK m c) :=
  (K52_main_v325 (W52 m ρ c)).trans (by rfl)
theorem fk_main_v325_53 : W53 m ρ c (Proc.devRef .tc main_v325) = Cert.Net.gv_8 (argsK m c) := fk'_main_v325 m ρ c
theorem fk'_main_v336 : StableHlo.after hostOps25 (W52 m ρ c) (Proc.devRef .tc main_v336) = Cert.Net.gv_8 (argsK m c) :=
  (K52_main_v336 (W52 m ρ c)).trans (by rfl)
theorem fk_main_v336_53 : W53 m ρ c (Proc.devRef .tc main_v336) = Cert.Net.gv_8 (argsK m c) := fk'_main_v336 m ρ c
theorem fk'_main_v347 : StableHlo.after hostOps25 (W52 m ρ c) (Proc.devRef .tc main_v347) = Cert.Net.gv_75 (argsK m c) :=
  (K52_main_v347 (W52 m ρ c)).trans (by rw [fk'_main_v325 m ρ c, fa_2_52 m ρ c, fk_main_v300_52 m ρ c, fk'_main_v336 m ρ c, fk_main_v8_52 m ρ c, fk_main_v312_52 m ρ c, fk_main_v324_52 m ρ c]; rfl)
theorem fk_main_v347_53 : W53 m ρ c (Proc.devRef .tc main_v347) = Cert.Net.gv_75 (argsK m c) := fk'_main_v347 m ρ c
theorem fk'_main_v348 : StableHlo.after hostOps25 (W52 m ρ c) (Proc.devRef .tc main_v348) = broadcastInDim Cert.ReferenceIdeal.S1x128 ![1] Cert.ReferenceIdeal.Gen.bcast_S128_S1x128_1 ((argsK m c).a31) :=
  (K52_main_v348 (W52 m ρ c)).trans (by rw [fa_31_52 m ρ c])
theorem fk_main_v348_53 : W53 m ρ c (Proc.devRef .tc main_v348) = broadcastInDim Cert.ReferenceIdeal.S1x128 ![1] Cert.ReferenceIdeal.Gen.bcast_S128_S1x128_1 ((argsK m c).a31) := fk'_main_v348 m ρ c
theorem fa_30_53 : W53 m ρ c (Proc.devRef .tc main_arg30) = (argsK m c).a30 :=
  (keep52 m ρ c main_arg30 (by decide)).trans (fa_30_52 m ρ c)
theorem fa_32_53 : W53 m ρ c (Proc.devRef .tc main_arg32) = (argsK m c).a32 :=
  (keep52 m ρ c main_arg32 (by decide)).trans (fa_32_52 m ρ c)
theorem fa_33_53 : W53 m ρ c (Proc.devRef .tc main_arg33) = (argsK m c).a33 :=
  (keep52 m ρ c main_arg33 (by decide)).trans (fa_33_52 m ρ c)
theorem fk_main_v349_54 : W54 m ρ c (Proc.devRef .tc main_v349) = Cert.Net.gv_76 (argsK m c) := by
  funext i
  refine (congrFun (W54_arr m ρ c 3) i).trans ?_
  refine (val25 (V53 m ρ) c i).trans ?_
  rw [show V53 m ρ c main_v347 = _ from fk_main_v347_53 m ρ c, show V53 m ρ c main_arg30 = _ from fa_30_53 m ρ c, show V53 m ρ c main_v348 = _ from fk_main_v348_53 m ρ c]
  exact (Cert.Layers.lay25 (argsK m c) i).symm
theorem fa_32_54 : W54 m ρ c (Proc.devRef .tc main_arg32) = (argsK m c).a32 :=
  (keep53 m ρ c main_arg32 (by decide)).trans (fa_32_53 m ρ c)
theorem fa_33_54 : W54 m ρ c (Proc.devRef .tc main_arg33) = (argsK m c).a33 :=
  (keep53 m ρ c main_arg33 (by decide)).trans (fa_33_53 m ρ c)
theorem fk'_main_v353 : StableHlo.after hostOps26 (W54 m ρ c) (Proc.devRef .tc main_v353) = Cert.Net.gv_77 (argsK m c) :=
  (K54_main_v353 (W54 m ρ c)).trans (by rw [fk_main_v349_54 m ρ c, fa_32_54 m ρ c, fa_33_54 m ρ c]; rfl)
theorem fk_main_v353_55 : W55 m ρ c (Proc.devRef .tc main_v353) = Cert.Net.gv_77 (argsK m c) := fk'_main_v353 m ρ c

/-- The kernel program's result, as the shared function of the arguments. -/
theorem result_eq : W55 m ρ c (Proc.devRef .tc main_v353) = Cert.Net.gv_77 (argsK m c) := fk_main_v353_55 m ρ c

end Cert.KernelIdeal.Hand

end
-- ==== Proof.Host.R0.lean ====
/-
  What stretch R0 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R0_main_v1 (W : Valuation τ sig (Elt F)) :
    StableHlo.after R0 W (Proc.devRef .tc main_v1) = Cert.Net.G_0 (W (Proc.devRef .tc main_arg1)) := by
  unfold R0
  after_results_simp
  try simp only [Cert.Lib.ofBuf_toBuf]
  rfl

theorem R0_main_v3 (W : Valuation τ sig (Elt F)) :
    StableHlo.after R0 W (Proc.devRef .tc main_v3) = Cert.Net.G_1 (W (Proc.devRef .tc main_arg1)) := by
  unfold R0
  after_results_simp
  try simp only [Cert.Lib.ofBuf_toBuf]
  rfl

theorem R0_main_c (W : Valuation τ sig (Elt F)) :
    StableHlo.after R0 W (Proc.devRef .tc main_c) = Cert.Net.G_2  := by
  unfold R0
  after_results_simp
  try simp only [Cert.Lib.ofBuf_toBuf]
  rfl

theorem R0_main_v6 (W : Valuation τ sig (Elt F)) :
    StableHlo.after R0 W (Proc.devRef .tc main_v6) = Cert.Net.G_3 (W (Proc.devRef .tc main_arg3)) (W (Proc.devRef .tc main_arg2)) (StableHlo.after R0 W (Proc.devRef .tc main_c)) := by
  unfold R0
  after_results_simp
  try simp only [Cert.Lib.ofBuf_toBuf]
  rfl

theorem R0_main_v7 (W : Valuation τ sig (Elt F)) :
    StableHlo.after R0 W (Proc.devRef .tc main_v7) = Cert.Net.G_4  := by
  unfold R0
  after_results_simp
  try simp only [Cert.Lib.ofBuf_toBuf]
  rfl

theorem R0_main_c_0 (W : Valuation τ sig (Elt F)) :
    StableHlo.after R0 W (Proc.devRef .tc main_c_0) = Cert.Net.G_2  := by
  unfold R0
  after_results_simp
  try simp only [Cert.Lib.ofBuf_toBuf]
  rfl

theorem R0_main_v8 (W : Valuation τ sig (Elt F)) :
    StableHlo.after R0 W (Proc.devRef .tc main_v8) = Cert.Net.G_5 (StableHlo.after R0 W (Proc.devRef .tc main_v7)) (StableHlo.after R0 W (Proc.devRef .tc main_c_0)) (StableHlo.after R0 W (Proc.devRef .tc main_v7)) (StableHlo.after R0 W (Proc.devRef .tc main_c_0)) (StableHlo.after R0 W (Proc.devRef .tc main_v7)) (StableHlo.after R0 W (Proc.devRef .tc main_c_0)) (StableHlo.after R0 W (Proc.devRef .tc main_v7)) (StableHlo.after R0 W (Proc.devRef .tc main_c_0)) := by
  unfold R0
  after_results_simp
  try simp only [Cert.Lib.ofBuf_toBuf]
  rfl

theorem R0_main_v13 (W : Valuation τ sig (Elt F)) :
    StableHlo.after R0 W (Proc.devRef .tc main_v13) = Cert.Net.G_6 (W (Proc.devRef .tc main_arg0)) (W (Proc.devRef .tc main_arg4)) (W (Proc.devRef .tc main_arg5)) := by
  unfold R0
  after_results_simp
  try simp only [Cert.Lib.ofBuf_toBuf]
  rfl

end Cert.ReferenceIdeal.Hand

end
-- ==== Proof.Host.R1.lean ====
/-
  What stretch R1 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R1_main_v14 (W : Valuation τ sig (Elt F)) :
    StableHlo.after R1 W (Proc.devRef .tc main_v14) = Cert.Net.G_7  := by
  unfold R1
  after_results_simp
  try simp only [Cert.Lib.ofBuf_toBuf]
  rfl

theorem R1_main_v15 (W : Valuation τ sig (Elt F)) :
    StableHlo.after R1 W (Proc.devRef .tc main_v15) = Cert.Net.G_8  := by
  unfold R1
  after_results_simp
  try simp only [Cert.Lib.ofBuf_toBuf]
  rfl

theorem R1_main_v33 (W : Valuation τ sig (Elt F)) :
    StableHlo.after R1 W (Proc.devRef .tc main_v33) = Cert.Net.G_9 (W (Proc.devRef .tc main_v3)) (W (Proc.devRef .tc main_v13)) (W (Proc.devRef .tc main_v1)) (W (Proc.devRef .tc main_v1)) (W (Proc.devRef .tc main_v1)) (W (Proc.devRef .tc main_v3)) := by
  unfold R1
  after_results_simp
  try simp only [Cert.Lib.ofBuf_toBuf]
  rfl

theorem R1_main_v35 (W : Valuation τ sig (Elt F)) :
    StableHlo.after R1 W (Proc.devRef .tc main_v35) = Cert.Net.G_10 (W (Proc.devRef .tc main_arg6)) := by
  unfold R1
  after_results_simp
  try simp only [Cert.Lib.ofBuf_toBuf]
  rfl

theorem R1_main_v38 (W : Valuation τ sig (Elt F)) :
    StableHlo.after R1 W (Proc.devRef .tc main_v38) = Cert.Net.G_11 (W (Proc.devRef .tc main_arg7)) := by
  unfold R1
  after_results_simp
  try simp only [Cert.Lib.ofBuf_toBuf]
  rfl

theorem R1_main_v42 (W : Valuation τ sig (Elt F)) :
    StableHlo.after R1 W (Proc.devRef .tc main_v42) = Cert.Net.G_12 (W (Proc.devRef .tc main_arg8)) := by
  unfold R1
  after_results_simp
  try simp only [Cert.Lib.ofBuf_toBuf]
  rfl

theorem R1_main_v46 (W : Valuation τ sig (Elt F)) :
    StableHlo.after R1 W (Proc.devRef .tc main_v46) = Cert.Net.G_13 (W (Proc.devRef .tc main_v13)) (StableHlo.after R1 W (Proc.devRef .tc main_v35)) (StableHlo.after R1 W (Proc.devRef .tc main_v33)) (StableHlo.after R1 W (Proc.devRef .tc main_v38)) (StableHlo.after R1 W (Proc.devRef .tc main_v42)) := by
  unfold R1
  after_results_simp
  try simp only [Cert.Lib.ofBuf_toBuf]
  rfl

end Cert.ReferenceIdeal.Hand

end
-- ==== Proof.Host.R2.lean ====
/-
  What stretch R2 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R2_main_v64 (W : Valuation τ sig (Elt F)) :
    StableHlo.after R2 W (Proc.devRef .tc main_v64) = Cert.Net.G_14 (W (Proc.devRef .tc main_v3)) (W (Proc.devRef .tc main_v46)) (W (Proc.devRef .tc main_v1)) (W (Proc.devRef .tc main_v1)) (W (Proc.devRef .tc main_v1)) (W (Proc.devRef .tc main_v3)) := by
  unfold R2
  after_results_simp
  try simp only [Cert.Lib.ofBuf_toBuf]
  rfl

theorem R2_main_v66 (W : Valuation τ sig (Elt F)) :
    StableHlo.after R2 W (Proc.devRef .tc main_v66) = Cert.Net.G_15 (W (Proc.devRef .tc main_arg6)) := by
  unfold R2
  after_results_simp
  try simp only [Cert.Lib.ofBuf_toBuf]
  rfl

theorem R2_main_v69 (W : Valuation τ sig (Elt F)) :
    StableHlo.after R2 W (Proc.devRef .tc main_v69) = Cert.Net.G_16 (W (Proc.devRef .tc main_arg7)) := by
  unfold R2
  after_results_simp
  try simp only [Cert.Lib.ofBuf_toBuf]
  rfl

theorem R2_main_v73 (W : Valuation τ sig (Elt F)) :
    StableHlo.after R2 W (Proc.devRef .tc main_v73) = Cert.Net.G_17 (W (Proc.devRef .tc main_arg8)) := by
  unfold R2
  after_results_simp
  try simp only [Cert.Lib.ofBuf_toBuf]
  rfl

theorem R2_main_v77 (W : Valuation τ sig (Elt F)) :
    StableHlo.after R2 W (Proc.devRef .tc main_v77) = Cert.Net.G_18 (W (Proc.devRef .tc main_v46)) (StableHlo.after R2 W (Proc.devRef .tc main_v66)) (StableHlo.after R2 W (Proc.devRef .tc main_v64)) (StableHlo.after R2 W (Proc.devRef .tc main_v69)) (StableHlo.after R2 W (Proc.devRef .tc main_v73)) := by
  unfold R2
  after_results_simp
  try simp only [Cert.Lib.ofBuf_toBuf]
  rfl

end Cert.ReferenceIdeal.Hand

end
-- ==== Proof.Host.R3.lean ====
/-
  What stretch R3 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R3_main_v79 (W : Valuation τ sig (Elt F)) :
    StableHlo.after R3 W (Proc.devRef .tc main_v79) = Cert.Net.G_19 (W (Proc.devRef .tc main_arg9)) := by
  unfold R3
  after_results_simp
  try simp only [Cert.Lib.ofBuf_toBuf]
  rfl

theorem R3_main_v82 (W : Valuation τ sig (Elt F)) :
    StableHlo.after R3 W (Proc.devRef .tc main_v82) = Cert.Net.G_20 (W (Proc.devRef .tc main_arg10)) := by
  unfold R3
  after_results_simp
  try simp only [Cert.Lib.ofBuf_toBuf]
  rfl

theorem R3_main_call4_v0 (W : Valuation τ sig (Elt F)) :
    StableHlo.after R3 W (Proc.devRef .tc main_call4_v0) = Cert.Net.G_7  := by
  unfold R3
  after_results_simp
  try simp only [Cert.Lib.ofBuf_toBuf]
  rfl

theorem R3_main_v86 (W : Valuation τ sig (Elt F)) :
    StableHlo.after R3 W (Proc.devRef .tc main_v86) = Cert.Net.G_21 (W (Proc.devRef .tc main_v14)) (StableHlo.after R3 W (Proc.devRef .tc main_v79)) (StableHlo.after R3 W (Proc.devRef .tc main_v82)) (StableHlo.after R3 W (Proc.devRef .tc main_call4_v0)) := by
  unfold R3
  after_results_simp
  try simp only [Cert.Lib.ofBuf_toBuf]
  rfl

end Cert.ReferenceIdeal.Hand

end
-- ==== Proof.Host.R4.lean ====
/-
  What stretch R4 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R4_main_v88 (W : Valuation τ sig (Elt F)) :
    StableHlo.after R4 W (Proc.devRef .tc main_v88) = Cert.Net.G_22 (W (Proc.devRef .tc main_arg9)) := by
  unfold R4
  after_results_simp
  try simp only [Cert.Lib.ofBuf_toBuf]
  rfl

theorem R4_main_v91 (W : Valuation τ sig (Elt F)) :
    StableHlo.after R4 W (Proc.devRef .tc main_v91) = Cert.Net.G_23 (W (Proc.devRef .tc main_arg10)) := by
  unfold R4
  after_results_simp
  try simp only [Cert.Lib.ofBuf_toBuf]
  rfl

theorem R4_main_call5_v0 (W : Valuation τ sig (Elt F)) :
    StableHlo.after R4 W (Proc.devRef .tc main_call5_v0) = Cert.Net.G_7  := by
  unfold R4
  after_results_simp
  try simp only [Cert.Lib.ofBuf_toBuf]
  rfl

theorem R4_main_v95 (W : Valuation τ sig (Elt F)) :
    StableHlo.after R4 W (Proc.devRef .tc main_v95) = Cert.Net.G_24 (W (Proc.devRef .tc main_v86)) (StableHlo.after R4 W (Proc.devRef .tc main_v88)) (StableHlo.after R4 W (Proc.devRef .tc main_v91)) (StableHlo.after R4 W (Proc.devRef .tc main_call5_v0)) := by
  unfold R4
  after_results_simp
  try simp only [Cert.Lib.ofBuf_toBuf]
  rfl

end Cert.ReferenceIdeal.Hand

end
-- ==== Proof.Host.R5.lean ====
/-
  What stretch R5 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R5_main_v97 (W : Valuation τ sig (Elt F)) :
    StableHlo.after R5 W (Proc.devRef .tc main_v97) = Cert.Net.G_25 (W (Proc.devRef .tc main_arg11)) := by
  unfold R5
  after_results_simp
  try simp only [Cert.Lib.ofBuf_toBuf]
  rfl

theorem R5_main_v100 (W : Valuation τ sig (Elt F)) :
    StableHlo.after R5 W (Proc.devRef .tc main_v100) = Cert.Net.G_26 (W (Proc.devRef .tc main_arg12)) := by
  unfold R5
  after_results_simp
  try simp only [Cert.Lib.ofBuf_toBuf]
  rfl

theorem R5_main_call6_v0 (W : Valuation τ sig (Elt F)) :
    StableHlo.after R5 W (Proc.devRef .tc main_call6_v0) = Cert.Net.G_8  := by
  unfold R5
  after_results_simp
  try simp only [Cert.Lib.ofBuf_toBuf]
  rfl

theorem R5_main_v104 (W : Valuation τ sig (Elt F)) :
    StableHlo.after R5 W (Proc.devRef .tc main_v104) = Cert.Net.G_27 (W (Proc.devRef .tc main_v15)) (StableHlo.after R5 W (Proc.devRef .tc main_v97)) (StableHlo.after R5 W (Proc.devRef .tc main_v100)) (StableHlo.after R5 W (Proc.devRef .tc main_call6_v0)) := by
  unfold R5
  after_results_simp
  try simp only [Cert.Lib.ofBuf_toBuf]
  rfl

end Cert.ReferenceIdeal.Hand

end
-- ==== Proof.Host.R6.lean ====
/-
  What stretch R6 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R6_main_v106 (W : Valuation τ sig (Elt F)) :
    StableHlo.after R6 W (Proc.devRef .tc main_v106) = Cert.Net.G_28 (W (Proc.devRef .tc main_arg11)) := by
  unfold R6
  after_results_simp
  try simp only [Cert.Lib.ofBuf_toBuf]
  rfl

theorem R6_main_v109 (W : Valuation τ sig (Elt F)) :
    StableHlo.after R6 W (Proc.devRef .tc main_v109) = Cert.Net.G_29 (W (Proc.devRef .tc main_arg12)) := by
  unfold R6
  after_results_simp
  try simp only [Cert.Lib.ofBuf_toBuf]
  rfl

theorem R6_main_call7_v0 (W : Valuation τ sig (Elt F)) :
    StableHlo.after R6 W (Proc.devRef .tc main_call7_v0) = Cert.Net.G_8  := by
  unfold R6
  after_results_simp
  try simp only [Cert.Lib.ofBuf_toBuf]
  rfl

theorem R6_main_v113 (W : Valuation τ sig (Elt F)) :
    StableHlo.after R6 W (Proc.devRef .tc main_v113) = Cert.Net.G_30 (W (Proc.devRef .tc main_v104)) (StableHlo.after R6 W (Proc.devRef .tc main_v106)) (StableHlo.after R6 W (Proc.devRef .tc main_v109)) (StableHlo.after R6 W (Proc.devRef .tc main_call7_v0)) := by
  unfold R6
  after_results_simp
  try simp only [Cert.Lib.ofBuf_toBuf]
  rfl

end Cert.ReferenceIdeal.Hand

end
-- ==== Proof.Host.R7.lean ====
/-
  What stretch R7 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R7_main_v114 (W : Valuation τ sig (Elt F)) :
    StableHlo.after R7 W (Proc.devRef .tc main_v114) = Cert.Net.G_7  := by
  unfold R7
  after_results_simp
  try simp only [Cert.Lib.ofBuf_toBuf]
  rfl

theorem R7_main_v124 (W : Valuation τ sig (Elt F)) :
    StableHlo.after R7 W (Proc.devRef .tc main_v124) = Cert.Net.G_31 (StableHlo.after R7 W (Proc.devRef .tc main_v114)) (W (Proc.devRef .tc main_v6)) (W (Proc.devRef .tc main_v77)) (W (Proc.devRef .tc main_v6)) := by
  unfold R7
  after_results_simp
  try simp only [Cert.Lib.ofBuf_toBuf]
  rfl

theorem R7_main_v125 (W : Valuation τ sig (Elt F)) :
    StableHlo.after R7 W (Proc.devRef .tc main_v125) = Cert.Net.G_8  := by
  unfold R7
  after_results_simp
  try simp only [Cert.Lib.ofBuf_toBuf]
  rfl

theorem R7_main_v135 (W : Valuation τ sig (Elt F)) :
    StableHlo.after R7 W (Proc.devRef .tc main_v135) = Cert.Net.G_32 (StableHlo.after R7 W (Proc.devRef .tc main_v125)) (W (Proc.devRef .tc main_v8)) (W (Proc.devRef .tc main_v95)) (W (Proc.devRef .tc main_v8)) := by
  unfold R7
  after_results_simp
  try simp only [Cert.Lib.ofBuf_toBuf]
  rfl

theorem R7_main_v143 (W : Valuation τ sig (Elt F)) :
    StableHlo.after R7 W (Proc.devRef .tc main_v143) = Cert.Net.G_33 (W (Proc.devRef .tc main_v95)) (W (Proc.devRef .tc main_v6)) (W (Proc.devRef .tc main_v6)) (W (Proc.devRef .tc main_v6)) := by
  unfold R7
  after_results_simp
  try simp only [Cert.Lib.ofBuf_toBuf]
  rfl

theorem R7_main_v149 (W : Valuation τ sig (Elt F)) :
    StableHlo.after R7 W (Proc.devRef .tc main_v149) = Cert.Net.G_34 (W (Proc.devRef .tc main_v77)) (W (Proc.devRef .tc main_arg20)) (StableHlo.after R7 W (Proc.devRef .tc main_v143)) (W (Proc.devRef .tc main_arg25)) (W (Proc.devRef .tc main_arg27)) := by
  unfold R7
  after_results_simp
  try simp only [Cert.Lib.ofBuf_toBuf]
  rfl

end Cert.ReferenceIdeal.Hand

end
-- ==== Proof.Host.R8.lean ====
/-
  What stretch R8 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R8_main_v159 (W : Valuation τ sig (Elt F)) :
    StableHlo.after R8 W (Proc.devRef .tc main_v159) = Cert.Net.G_35 (W (Proc.devRef .tc main_v113)) (W (Proc.devRef .tc main_v8)) (W (Proc.devRef .tc main_v8)) (W (Proc.devRef .tc main_v8)) := by
  unfold R8
  after_results_simp
  try simp only [Cert.Lib.ofBuf_toBuf]
  rfl

theorem R8_main_call9_v0 (W : Valuation τ sig (Elt F)) :
    StableHlo.after R8 W (Proc.devRef .tc main_call9_v0) = Cert.Net.G_7  := by
  unfold R8
  after_results_simp
  try simp only [Cert.Lib.ofBuf_toBuf]
  rfl

theorem R8_main_v165 (W : Valuation τ sig (Elt F)) :
    StableHlo.after R8 W (Proc.devRef .tc main_v165) = Cert.Net.G_36 (W (Proc.devRef .tc main_v95)) (W (Proc.devRef .tc main_arg21)) (W (Proc.devRef .tc main_v124)) (W (Proc.devRef .tc main_arg23)) (StableHlo.after R8 W (Proc.devRef .tc main_v159)) (W (Proc.devRef .tc main_arg26)) (W (Proc.devRef .tc main_arg28)) (StableHlo.after R8 W (Proc.devRef .tc main_call9_v0)) := by
  unfold R8
  after_results_simp
  try simp only [Cert.Lib.ofBuf_toBuf]
  rfl

end Cert.ReferenceIdeal.Hand

end
-- ==== Proof.Host.R9.lean ====
/-
  What stretch R9 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R9_main_call10_v0 (W : Valuation τ sig (Elt F)) :
    StableHlo.after R9 W (Proc.devRef .tc main_call10_v0) = Cert.Net.G_8  := by
  unfold R9
  after_results_simp
  try simp only [Cert.Lib.ofBuf_toBuf]
  rfl

theorem R9_main_v172 (W : Valuation τ sig (Elt F)) :
    StableHlo.after R9 W (Proc.devRef .tc main_v172) = Cert.Net.G_37 (W (Proc.devRef .tc main_v113)) (W (Proc.devRef .tc main_arg22)) (W (Proc.devRef .tc main_v135)) (W (Proc.devRef .tc main_arg24)) (W (Proc.devRef .tc main_arg29)) (StableHlo.after R9 W (Proc.devRef .tc main_call10_v0)) := by
  unfold R9
  after_results_simp
  try simp only [Cert.Lib.ofBuf_toBuf]
  rfl

end Cert.ReferenceIdeal.Hand

end
-- ==== Proof.Host.R10.lean ====
/-
  What stretch R10 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R10_main_v190 (W : Valuation τ sig (Elt F)) :
    StableHlo.after R10 W (Proc.devRef .tc main_v190) = Cert.Net.G_38 (W (Proc.devRef .tc main_v3)) (W (Proc.devRef .tc main_v149)) (W (Proc.devRef .tc main_v1)) (W (Proc.devRef .tc main_v1)) (W (Proc.devRef .tc main_v1)) (W (Proc.devRef .tc main_v3)) := by
  unfold R10
  after_results_simp
  try simp only [Cert.Lib.ofBuf_toBuf]
  rfl

theorem R10_main_v192 (W : Valuation τ sig (Elt F)) :
    StableHlo.after R10 W (Proc.devRef .tc main_v192) = Cert.Net.G_39 (W (Proc.devRef .tc main_arg13)) := by
  unfold R10
  after_results_simp
  try simp only [Cert.Lib.ofBuf_toBuf]
  rfl

theorem R10_main_v195 (W : Valuation τ sig (Elt F)) :
    StableHlo.after R10 W (Proc.devRef .tc main_v195) = Cert.Net.G_40 (W (Proc.devRef .tc main_arg14)) := by
  unfold R10
  after_results_simp
  try simp only [Cert.Lib.ofBuf_toBuf]
  rfl

theorem R10_main_v199 (W : Valuation τ sig (Elt F)) :
    StableHlo.after R10 W (Proc.devRef .tc main_v199) = Cert.Net.G_41 (W (Proc.devRef .tc main_arg15)) := by
  unfold R10
  after_results_simp
  try simp only [Cert.Lib.ofBuf_toBuf]
  rfl

theorem R10_main_v203 (W : Valuation τ sig (Elt F)) :
    StableHlo.after R10 W (Proc.devRef .tc main_v203) = Cert.Net.G_42 (W (Proc.devRef .tc main_v149)) (StableHlo.after R10 W (Proc.devRef .tc main_v192)) (StableHlo.after R10 W (Proc.devRef .tc main_v190)) (StableHlo.after R10 W (Proc.devRef .tc main_v195)) (StableHlo.after R10 W (Proc.devRef .tc main_v199)) := by
  unfold R10
  after_results_simp
  try simp only [Cert.Lib.ofBuf_toBuf]
  rfl

end Cert.ReferenceIdeal.Hand

end
-- ==== Proof.Host.R11.lean ====
/-
  What stretch R11 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R11_main_v221 (W : Valuation τ sig (Elt F)) :
    StableHlo.after R11 W (Proc.devRef .tc main_v221) = Cert.Net.G_43 (W (Proc.devRef .tc main_v3)) (W (Proc.devRef .tc main_v203)) (W (Proc.devRef .tc main_v1)) (W (Proc.devRef .tc main_v1)) (W (Proc.devRef .tc main_v1)) (W (Proc.devRef .tc main_v3)) := by
  unfold R11
  after_results_simp
  try simp only [Cert.Lib.ofBuf_toBuf]
  rfl

theorem R11_main_v223 (W : Valuation τ sig (Elt F)) :
    StableHlo.after R11 W (Proc.devRef .tc main_v223) = Cert.Net.G_44 (W (Proc.devRef .tc main_arg13)) := by
  unfold R11
  after_results_simp
  try simp only [Cert.Lib.ofBuf_toBuf]
  rfl

theorem R11_main_v226 (W : Valuation τ sig (Elt F)) :
    StableHlo.after R11 W (Proc.devRef .tc main_v226) = Cert.Net.G_45 (W (Proc.devRef .tc main_arg14)) := by
  unfold R11
  after_results_simp
  try simp only [Cert.Lib.ofBuf_toBuf]
  rfl

theorem R11_main_v230 (W : Valuation τ sig (Elt F)) :
    StableHlo.after R11 W (Proc.devRef .tc main_v230) = Cert.Net.G_46 (W (Proc.devRef .tc main_arg15)) := by
  unfold R11
  after_results_simp
  try simp only [Cert.Lib.ofBuf_toBuf]
  rfl

theorem R11_main_v234 (W : Valuation τ sig (Elt F)) :
    StableHlo.after R11 W (Proc.devRef .tc main_v234) = Cert.Net.G_47 (W (Proc.devRef .tc main_v203)) (StableHlo.after R11 W (Proc.devRef .tc main_v223)) (StableHlo.after R11 W (Proc.devRef .tc main_v221)) (StableHlo.after R11 W (Proc.devRef .tc main_v226)) (StableHlo.after R11 W (Proc.devRef .tc main_v230)) := by
  unfold R11
  after_results_simp
  try simp only [Cert.Lib.ofBuf_toBuf]
  rfl

end Cert.ReferenceIdeal.Hand

end
-- ==== Proof.Host.R12.lean ====
/-
  What stretch R12 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R12_main_v236 (W : Valuation τ sig (Elt F)) :
    StableHlo.after R12 W (Proc.devRef .tc main_v236) = Cert.Net.G_48 (W (Proc.devRef .tc main_arg16)) := by
  unfold R12
  after_results_simp
  try simp only [Cert.Lib.ofBuf_toBuf]
  rfl

theorem R12_main_v239 (W : Valuation τ sig (Elt F)) :
    StableHlo.after R12 W (Proc.devRef .tc main_v239) = Cert.Net.G_49 (W (Proc.devRef .tc main_arg17)) := by
  unfold R12
  after_results_simp
  try simp only [Cert.Lib.ofBuf_toBuf]
  rfl

theorem R12_main_call13_v0 (W : Valuation τ sig (Elt F)) :
    StableHlo.after R12 W (Proc.devRef .tc main_call13_v0) = Cert.Net.G_7  := by
  unfold R12
  after_results_simp
  try simp only [Cert.Lib.ofBuf_toBuf]
  rfl

theorem R12_main_v243 (W : Valuation τ sig (Elt F)) :
    StableHlo.after R12 W (Proc.devRef .tc main_v243) = Cert.Net.G_50 (W (Proc.devRef .tc main_v165)) (StableHlo.after R12 W (Proc.devRef .tc main_v236)) (StableHlo.after R12 W (Proc.devRef .tc main_v239)) (StableHlo.after R12 W (Proc.devRef .tc main_call13_v0)) := by
  unfold R12
  after_results_simp
  try simp only [Cert.Lib.ofBuf_toBuf]
  rfl

end Cert.ReferenceIdeal.Hand

end
-- ==== Proof.Host.R13.lean ====
/-
  What stretch R13 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R13_main_v245 (W : Valuation τ sig (Elt F)) :
    StableHlo.after R13 W (Proc.devRef .tc main_v245) = Cert.Net.G_51 (W (Proc.devRef .tc main_arg16)) := by
  unfold R13
  after_results_simp
  try simp only [Cert.Lib.ofBuf_toBuf]
  rfl

theorem R13_main_v248 (W : Valuation τ sig (Elt F)) :
    StableHlo.after R13 W (Proc.devRef .tc main_v248) = Cert.Net.G_52 (W (Proc.devRef .tc main_arg17)) := by
  unfold R13
  after_results_simp
  try simp only [Cert.Lib.ofBuf_toBuf]
  rfl

theorem R13_main_call14_v0 (W : Valuation τ sig (Elt F)) :
    StableHlo.after R13 W (Proc.devRef .tc main_call14_v0) = Cert.Net.G_7  := by
  unfold R13
  after_results_simp
  try simp only [Cert.Lib.ofBuf_toBuf]
  rfl

theorem R13_main_v252 (W : Valuation τ sig (Elt F)) :
    StableHlo.after R13 W (Proc.devRef .tc main_v252) = Cert.Net.G_53 (W (Proc.devRef .tc main_v243)) (StableHlo.after R13 W (Proc.devRef .tc main_v245)) (StableHlo.after R13 W (Proc.devRef .tc main_v248)) (StableHlo.after R13 W (Proc.devRef .tc main_call14_v0)) := by
  unfold R13
  after_results_simp
  try simp only [Cert.Lib.ofBuf_toBuf]
  rfl

end Cert.ReferenceIdeal.Hand

end
-- ==== Proof.Host.R14.lean ====
/-
  What stretch R14 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R14_main_v254 (W : Valuation τ sig (Elt F)) :
    StableHlo.after R14 W (Proc.devRef .tc main_v254) = Cert.Net.G_54 (W (Proc.devRef .tc main_arg18)) := by
  unfold R14
  after_results_simp
  try simp only [Cert.Lib.ofBuf_toBuf]
  rfl

theorem R14_main_v257 (W : Valuation τ sig (Elt F)) :
    StableHlo.after R14 W (Proc.devRef .tc main_v257) = Cert.Net.G_55 (W (Proc.devRef .tc main_arg19)) := by
  unfold R14
  after_results_simp
  try simp only [Cert.Lib.ofBuf_toBuf]
  rfl

theorem R14_main_call15_v0 (W : Valuation τ sig (Elt F)) :
    StableHlo.after R14 W (Proc.devRef .tc main_call15_v0) = Cert.Net.G_8  := by
  unfold R14
  after_results_simp
  try simp only [Cert.Lib.ofBuf_toBuf]
  rfl

theorem R14_main_v261 (W : Valuation τ sig (Elt F)) :
    StableHlo.after R14 W (Proc.devRef .tc main_v261) = Cert.Net.G_56 (W (Proc.devRef .tc main_v172)) (StableHlo.after R14 W (Proc.devRef .tc main_v254)) (StableHlo.after R14 W (Proc.devRef .tc main_v257)) (StableHlo.after R14 W (Proc.devRef .tc main_call15_v0)) := by
  unfold R14
  after_results_simp
  try simp only [Cert.Lib.ofBuf_toBuf]
  rfl

end Cert.ReferenceIdeal.Hand

end
-- ==== Proof.Host.R15.lean ====
/-
  What stretch R15 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R15_main_v263 (W : Valuation τ sig (Elt F)) :
    StableHlo.after R15 W (Proc.devRef .tc main_v263) = Cert.Net.G_57 (W (Proc.devRef .tc main_arg18)) := by
  unfold R15
  after_results_simp
  try simp only [Cert.Lib.ofBuf_toBuf]
  rfl

theorem R15_main_v266 (W : Valuation τ sig (Elt F)) :
    StableHlo.after R15 W (Proc.devRef .tc main_v266) = Cert.Net.G_58 (W (Proc.devRef .tc main_arg19)) := by
  unfold R15
  after_results_simp
  try simp only [Cert.Lib.ofBuf_toBuf]
  rfl

theorem R15_main_call16_v0 (W : Valuation τ sig (Elt F)) :
    StableHlo.after R15 W (Proc.devRef .tc main_call16_v0) = Cert.Net.G_8  := by
  unfold R15
  after_results_simp
  try simp only [Cert.Lib.ofBuf_toBuf]
  rfl

theorem R15_main_v270 (W : Valuation τ sig (Elt F)) :
    StableHlo.after R15 W (Proc.devRef .tc main_v270) = Cert.Net.G_59 (W (Proc.devRef .tc main_v261)) (StableHlo.after R15 W (Proc.devRef .tc main_v263)) (StableHlo.after R15 W (Proc.devRef .tc main_v266)) (StableHlo.after R15 W (Proc.devRef .tc main_call16_v0)) := by
  unfold R15
  after_results_simp
  try simp only [Cert.Lib.ofBuf_toBuf]
  rfl

end Cert.ReferenceIdeal.Hand

end
-- ==== Proof.Host.R16.lean ====
/-
  What stretch R16 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R16_main_v271 (W : Valuation τ sig (Elt F)) :
    StableHlo.after R16 W (Proc.devRef .tc main_v271) = Cert.Net.G_7  := by
  unfold R16
  after_results_simp
  try simp only [Cert.Lib.ofBuf_toBuf]
  rfl

theorem R16_main_v281 (W : Valuation τ sig (Elt F)) :
    StableHlo.after R16 W (Proc.devRef .tc main_v281) = Cert.Net.G_60 (StableHlo.after R16 W (Proc.devRef .tc main_v271)) (W (Proc.devRef .tc main_v6)) (W (Proc.devRef .tc main_v234)) (W (Proc.devRef .tc main_v6)) := by
  unfold R16
  after_results_simp
  try simp only [Cert.Lib.ofBuf_toBuf]
  rfl

theorem R16_main_v282 (W : Valuation τ sig (Elt F)) :
    StableHlo.after R16 W (Proc.devRef .tc main_v282) = Cert.Net.G_8  := by
  unfold R16
  after_results_simp
  try simp only [Cert.Lib.ofBuf_toBuf]
  rfl

theorem R16_main_v292 (W : Valuation τ sig (Elt F)) :
    StableHlo.after R16 W (Proc.devRef .tc main_v292) = Cert.Net.G_61 (StableHlo.after R16 W (Proc.devRef .tc main_v282)) (W (Proc.devRef .tc main_v8)) (W (Proc.devRef .tc main_v252)) (W (Proc.devRef .tc main_v8)) := by
  unfold R16
  after_results_simp
  try simp only [Cert.Lib.ofBuf_toBuf]
  rfl

theorem R16_main_v300 (W : Valuation τ sig (Elt F)) :
    StableHlo.after R16 W (Proc.devRef .tc main_v300) = Cert.Net.G_62 (W (Proc.devRef .tc main_v252)) (W (Proc.devRef .tc main_v6)) (W (Proc.devRef .tc main_v6)) (W (Proc.devRef .tc main_v6)) := by
  unfold R16
  after_results_simp
  try simp only [Cert.Lib.ofBuf_toBuf]
  rfl

theorem R16_main_v306 (W : Valuation τ sig (Elt F)) :
    StableHlo.after R16 W (Proc.devRef .tc main_v306) = Cert.Net.G_63 (W (Proc.devRef .tc main_v234)) (W (Proc.devRef .tc main_arg20)) (StableHlo.after R16 W (Proc.devRef .tc main_v300)) (W (Proc.devRef .tc main_arg25)) (W (Proc.devRef .tc main_arg27)) := by
  unfold R16
  after_results_simp
  try simp only [Cert.Lib.ofBuf_toBuf]
  rfl

end Cert.ReferenceIdeal.Hand

end
-- ==== Proof.Host.R17.lean ====
/-
  What stretch R17 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R17_main_v316 (W : Valuation τ sig (Elt F)) :
    StableHlo.after R17 W (Proc.devRef .tc main_v316) = Cert.Net.G_64 (W (Proc.devRef .tc main_v270)) (W (Proc.devRef .tc main_v8)) (W (Proc.devRef .tc main_v8)) (W (Proc.devRef .tc main_v8)) := by
  unfold R17
  after_results_simp
  try simp only [Cert.Lib.ofBuf_toBuf]
  rfl

theorem R17_main_call18_v0 (W : Valuation τ sig (Elt F)) :
    StableHlo.after R17 W (Proc.devRef .tc main_call18_v0) = Cert.Net.G_7  := by
  unfold R17
  after_results_simp
  try simp only [Cert.Lib.ofBuf_toBuf]
  rfl

theorem R17_main_v322 (W : Valuation τ sig (Elt F)) :
    StableHlo.after R17 W (Proc.devRef .tc main_v322) = Cert.Net.G_65 (W (Proc.devRef .tc main_v252)) (W (Proc.devRef .tc main_arg21)) (W (Proc.devRef .tc main_v281)) (W (Proc.devRef .tc main_arg23)) (StableHlo.after R17 W (Proc.devRef .tc main_v316)) (W (Proc.devRef .tc main_arg26)) (W (Proc.devRef .tc main_arg28)) (StableHlo.after R17 W (Proc.devRef .tc main_call18_v0)) := by
  unfold R17
  after_results_simp
  try simp only [Cert.Lib.ofBuf_toBuf]
  rfl

end Cert.ReferenceIdeal.Hand

end
-- ==== Proof.Host.R18.lean ====
/-
  What stretch R18 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R18_main_call19_v0 (W : Valuation τ sig (Elt F)) :
    StableHlo.after R18 W (Proc.devRef .tc main_call19_v0) = Cert.Net.G_8  := by
  unfold R18
  after_results_simp
  try simp only [Cert.Lib.ofBuf_toBuf]
  rfl

theorem R18_main_v329 (W : Valuation τ sig (Elt F)) :
    StableHlo.after R18 W (Proc.devRef .tc main_v329) = Cert.Net.G_66 (W (Proc.devRef .tc main_v270)) (W (Proc.devRef .tc main_arg22)) (W (Proc.devRef .tc main_v292)) (W (Proc.devRef .tc main_arg24)) (W (Proc.devRef .tc main_arg29)) (StableHlo.after R18 W (Proc.devRef .tc main_call19_v0)) := by
  unfold R18
  after_results_simp
  try simp only [Cert.Lib.ofBuf_toBuf]
  rfl

end Cert.ReferenceIdeal.Hand

end
-- ==== Proof.Host.R19.lean ====
/-
  What stretch R19 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R19_main_v347 (W : Valuation τ sig (Elt F)) :
    StableHlo.after R19 W (Proc.devRef .tc main_v347) = Cert.Net.G_67 (W (Proc.devRef .tc main_v3)) (W (Proc.devRef .tc main_v306)) (W (Proc.devRef .tc main_v1)) (W (Proc.devRef .tc main_v1)) (W (Proc.devRef .tc main_v1)) (W (Proc.devRef .tc main_v3)) := by
  unfold R19
  after_results_simp
  try simp only [Cert.Lib.ofBuf_toBuf]
  rfl

theorem R19_main_v349 (W : Valuation τ sig (Elt F)) :
    StableHlo.after R19 W (Proc.devRef .tc main_v349) = Cert.Net.G_39 (W (Proc.devRef .tc main_arg13)) := by
  unfold R19
  after_results_simp
  try simp only [Cert.Lib.ofBuf_toBuf]
  rfl

theorem R19_main_v352 (W : Valuation τ sig (Elt F)) :
    StableHlo.after R19 W (Proc.devRef .tc main_v352) = Cert.Net.G_40 (W (Proc.devRef .tc main_arg14)) := by
  unfold R19
  after_results_simp
  try simp only [Cert.Lib.ofBuf_toBuf]
  rfl

theorem R19_main_v356 (W : Valuation τ sig (Elt F)) :
    StableHlo.after R19 W (Proc.devRef .tc main_v356) = Cert.Net.G_41 (W (Proc.devRef .tc main_arg15)) := by
  unfold R19
  after_results_simp
  try simp only [Cert.Lib.ofBuf_toBuf]
  rfl

theorem R19_main_v360 (W : Valuation τ sig (Elt F)) :
    StableHlo.after R19 W (Proc.devRef .tc main_v360) = Cert.Net.G_68 (W (Proc.devRef .tc main_v306)) (StableHlo.after R19 W (Proc.devRef .tc main_v349)) (StableHlo.after R19 W (Proc.devRef .tc main_v347)) (StableHlo.after R19 W (Proc.devRef .tc main_v352)) (StableHlo.after R19 W (Proc.devRef .tc main_v356)) := by
  unfold R19
  after_results_simp
  try simp only [Cert.Lib.ofBuf_toBuf]
  rfl

end Cert.ReferenceIdeal.Hand

end
-- ==== Proof.Host.R20.lean ====
/-
  What stretch R20 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R20_main_v378 (W : Valuation τ sig (Elt F)) :
    StableHlo.after R20 W (Proc.devRef .tc main_v378) = Cert.Net.G_69 (W (Proc.devRef .tc main_v3)) (W (Proc.devRef .tc main_v360)) (W (Proc.devRef .tc main_v1)) (W (Proc.devRef .tc main_v1)) (W (Proc.devRef .tc main_v1)) (W (Proc.devRef .tc main_v3)) := by
  unfold R20
  after_results_simp
  try simp only [Cert.Lib.ofBuf_toBuf]
  rfl

theorem R20_main_v380 (W : Valuation τ sig (Elt F)) :
    StableHlo.after R20 W (Proc.devRef .tc main_v380) = Cert.Net.G_44 (W (Proc.devRef .tc main_arg13)) := by
  unfold R20
  after_results_simp
  try simp only [Cert.Lib.ofBuf_toBuf]
  rfl

theorem R20_main_v383 (W : Valuation τ sig (Elt F)) :
    StableHlo.after R20 W (Proc.devRef .tc main_v383) = Cert.Net.G_45 (W (Proc.devRef .tc main_arg14)) := by
  unfold R20
  after_results_simp
  try simp only [Cert.Lib.ofBuf_toBuf]
  rfl

theorem R20_main_v387 (W : Valuation τ sig (Elt F)) :
    StableHlo.after R20 W (Proc.devRef .tc main_v387) = Cert.Net.G_46 (W (Proc.devRef .tc main_arg15)) := by
  unfold R20
  after_results_simp
  try simp only [Cert.Lib.ofBuf_toBuf]
  rfl

theorem R20_main_v391 (W : Valuation τ sig (Elt F)) :
    StableHlo.after R20 W (Proc.devRef .tc main_v391) = Cert.Net.G_70 (W (Proc.devRef .tc main_v360)) (StableHlo.after R20 W (Proc.devRef .tc main_v380)) (StableHlo.after R20 W (Proc.devRef .tc main_v378)) (StableHlo.after R20 W (Proc.devRef .tc main_v383)) (StableHlo.after R20 W (Proc.devRef .tc main_v387)) := by
  unfold R20
  after_results_simp
  try simp only [Cert.Lib.ofBuf_toBuf]
  rfl

end Cert.ReferenceIdeal.Hand

end
-- ==== Proof.Host.R21.lean ====
/-
  What stretch R21 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R21_main_v393 (W : Valuation τ sig (Elt F)) :
    StableHlo.after R21 W (Proc.devRef .tc main_v393) = Cert.Net.G_48 (W (Proc.devRef .tc main_arg16)) := by
  unfold R21
  after_results_simp
  try simp only [Cert.Lib.ofBuf_toBuf]
  rfl

theorem R21_main_v396 (W : Valuation τ sig (Elt F)) :
    StableHlo.after R21 W (Proc.devRef .tc main_v396) = Cert.Net.G_49 (W (Proc.devRef .tc main_arg17)) := by
  unfold R21
  after_results_simp
  try simp only [Cert.Lib.ofBuf_toBuf]
  rfl

theorem R21_main_call22_v0 (W : Valuation τ sig (Elt F)) :
    StableHlo.after R21 W (Proc.devRef .tc main_call22_v0) = Cert.Net.G_7  := by
  unfold R21
  after_results_simp
  try simp only [Cert.Lib.ofBuf_toBuf]
  rfl

theorem R21_main_v400 (W : Valuation τ sig (Elt F)) :
    StableHlo.after R21 W (Proc.devRef .tc main_v400) = Cert.Net.G_71 (W (Proc.devRef .tc main_v322)) (StableHlo.after R21 W (Proc.devRef .tc main_v393)) (StableHlo.after R21 W (Proc.devRef .tc main_v396)) (StableHlo.after R21 W (Proc.devRef .tc main_call22_v0)) := by
  unfold R21
  after_results_simp
  try simp only [Cert.Lib.ofBuf_toBuf]
  rfl

end Cert.ReferenceIdeal.Hand

end
-- ==== Proof.Host.R22.lean ====
/-
  What stretch R22 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R22_main_v402 (W : Valuation τ sig (Elt F)) :
    StableHlo.after R22 W (Proc.devRef .tc main_v402) = Cert.Net.G_51 (W (Proc.devRef .tc main_arg16)) := by
  unfold R22
  after_results_simp
  try simp only [Cert.Lib.ofBuf_toBuf]
  rfl

theorem R22_main_v405 (W : Valuation τ sig (Elt F)) :
    StableHlo.after R22 W (Proc.devRef .tc main_v405) = Cert.Net.G_52 (W (Proc.devRef .tc main_arg17)) := by
  unfold R22
  after_results_simp
  try simp only [Cert.Lib.ofBuf_toBuf]
  rfl

theorem R22_main_call23_v0 (W : Valuation τ sig (Elt F)) :
    StableHlo.after R22 W (Proc.devRef .tc main_call23_v0) = Cert.Net.G_7  := by
  unfold R22
  after_results_simp
  try simp only [Cert.Lib.ofBuf_toBuf]
  rfl

theorem R22_main_v409 (W : Valuation τ sig (Elt F)) :
    StableHlo.after R22 W (Proc.devRef .tc main_v409) = Cert.Net.G_72 (W (Proc.devRef .tc main_v400)) (StableHlo.after R22 W (Proc.devRef .tc main_v402)) (StableHlo.after R22 W (Proc.devRef .tc main_v405)) (StableHlo.after R22 W (Proc.devRef .tc main_call23_v0)) := by
  unfold R22
  after_results_simp
  try simp only [Cert.Lib.ofBuf_toBuf]
  rfl

end Cert.ReferenceIdeal.Hand

end
-- ==== Proof.Host.R23.lean ====
/-
  What stretch R23 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R23_main_v411 (W : Valuation τ sig (Elt F)) :
    StableHlo.after R23 W (Proc.devRef .tc main_v411) = Cert.Net.G_54 (W (Proc.devRef .tc main_arg18)) := by
  unfold R23
  after_results_simp
  try simp only [Cert.Lib.ofBuf_toBuf]
  rfl

theorem R23_main_v414 (W : Valuation τ sig (Elt F)) :
    StableHlo.after R23 W (Proc.devRef .tc main_v414) = Cert.Net.G_55 (W (Proc.devRef .tc main_arg19)) := by
  unfold R23
  after_results_simp
  try simp only [Cert.Lib.ofBuf_toBuf]
  rfl

theorem R23_main_call24_v0 (W : Valuation τ sig (Elt F)) :
    StableHlo.after R23 W (Proc.devRef .tc main_call24_v0) = Cert.Net.G_8  := by
  unfold R23
  after_results_simp
  try simp only [Cert.Lib.ofBuf_toBuf]
  rfl

theorem R23_main_v418 (W : Valuation τ sig (Elt F)) :
    StableHlo.after R23 W (Proc.devRef .tc main_v418) = Cert.Net.G_73 (W (Proc.devRef .tc main_v329)) (StableHlo.after R23 W (Proc.devRef .tc main_v411)) (StableHlo.after R23 W (Proc.devRef .tc main_v414)) (StableHlo.after R23 W (Proc.devRef .tc main_call24_v0)) := by
  unfold R23
  after_results_simp
  try simp only [Cert.Lib.ofBuf_toBuf]
  rfl

end Cert.ReferenceIdeal.Hand

end
-- ==== Proof.Host.R24.lean ====
/-
  What stretch R24 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R24_main_v420 (W : Valuation τ sig (Elt F)) :
    StableHlo.after R24 W (Proc.devRef .tc main_v420) = Cert.Net.G_57 (W (Proc.devRef .tc main_arg18)) := by
  unfold R24
  after_results_simp
  try simp only [Cert.Lib.ofBuf_toBuf]
  rfl

theorem R24_main_v423 (W : Valuation τ sig (Elt F)) :
    StableHlo.after R24 W (Proc.devRef .tc main_v423) = Cert.Net.G_58 (W (Proc.devRef .tc main_arg19)) := by
  unfold R24
  after_results_simp
  try simp only [Cert.Lib.ofBuf_toBuf]
  rfl

theorem R24_main_call25_v0 (W : Valuation τ sig (Elt F)) :
    StableHlo.after R24 W (Proc.devRef .tc main_call25_v0) = Cert.Net.G_8  := by
  unfold R24
  after_results_simp
  try simp only [Cert.Lib.ofBuf_toBuf]
  rfl

theorem R24_main_v427 (W : Valuation τ sig (Elt F)) :
    StableHlo.after R24 W (Proc.devRef .tc main_v427) = Cert.Net.G_74 (W (Proc.devRef .tc main_v418)) (StableHlo.after R24 W (Proc.devRef .tc main_v420)) (StableHlo.after R24 W (Proc.devRef .tc main_v423)) (StableHlo.after R24 W (Proc.devRef .tc main_call25_v0)) := by
  unfold R24
  after_results_simp
  try simp only [Cert.Lib.ofBuf_toBuf]
  rfl

end Cert.ReferenceIdeal.Hand

end
-- ==== Proof.Host.R25.lean ====
/-
  What stretch R25 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R25_main_v428 (W : Valuation τ sig (Elt F)) :
    StableHlo.after R25 W (Proc.devRef .tc main_v428) = Cert.Net.G_8  := by
  unfold R25
  after_results_simp3
  try simp only [Cert.Lib.ofBuf_toBuf]
  rfl

theorem R25_main_v439 (W : Valuation τ sig (Elt F)) :
    StableHlo.after R25 W (Proc.devRef .tc main_v439) = Cert.Net.G_8  := by
  unfold R25
  after_results_simp3
  try simp only [Cert.Lib.ofBuf_toBuf]
  rfl

theorem R25_main_v450 (W : Valuation τ sig (Elt F)) :
    StableHlo.after R25 W (Proc.devRef .tc main_v450) = Cert.Net.G_75 (StableHlo.after R25 W (Proc.devRef .tc main_v428)) (W (Proc.devRef .tc main_arg2)) (W (Proc.devRef .tc main_v391)) (W (Proc.devRef .tc main_arg2)) (StableHlo.after R25 W (Proc.devRef .tc main_v439)) (W (Proc.devRef .tc main_v8)) (W (Proc.devRef .tc main_v409)) (W (Proc.devRef .tc main_v8)) (W (Proc.devRef .tc main_v427)) := by
  unfold R25
  after_results_simp3
  try simp only [Cert.Lib.ofBuf_toBuf]
  rfl

theorem R25_main_call26_v0 (W : Valuation τ sig (Elt F)) :
    StableHlo.after R25 W (Proc.devRef .tc main_call26_v0) = Cert.Net.G_8  := by
  unfold R25
  after_results_simp3
  try simp only [Cert.Lib.ofBuf_toBuf]
  rfl

theorem R25_main_v455 (W : Valuation τ sig (Elt F)) :
    StableHlo.after R25 W (Proc.devRef .tc main_v455) = Cert.Net.G_76 (StableHlo.after R25 W (Proc.devRef .tc main_v450)) (W (Proc.devRef .tc main_arg30)) (W (Proc.devRef .tc main_arg31)) (StableHlo.after R25 W (Proc.devRef .tc main_call26_v0)) := by
  unfold R25
  after_results_simp3
  try simp only [Cert.Lib.ofBuf_toBuf]
  rfl

end Cert.ReferenceIdeal.Hand

end
-- ==== Proof.Host.R26.lean ====
/-
  What stretch R26 of the reference program leaves in the buffers read after it, as the shared functions of the arrays it
  reads: the stretch's operations unfolded once.
-/
import proofs.«141679_j61469571940402_1_alg».proof.Proof.Ref.Chunks
import proofs.«141679_j61469571940402_1_alg».proof.Proof.Net
import proofs.«141679_j61469571940402_1_alg».proof.Proof.LibAfter
import proofs.«141679_j61469571940402_1_alg».proof.Proof.Host.LibNary
import Idealize.ShloMosaic.Lib.StableHlo.Run

set_option maxRecDepth 3048

noncomputable section

namespace Cert.ReferenceIdeal.Hand

open Idealize.ShloMosaic Cert.ReferenceIdeal Cert.ReferenceIdeal.Gen Cert.Host

variable {F : FTy → Type} [FloatOps F]

theorem R26_main_v459 (W : Valuation τ sig (Elt F)) :
    StableHlo.after R26 W (Proc.devRef .tc main_v459) = Cert.Net.G_77 (W (Proc.devRef .tc main_v455)) (W (Proc.devRef .tc main_arg32)) (W (Proc.devRef .tc main_arg33)) := by
  unfold R26
  after_results_simp
  try simp only [Cert.Lib.ofBuf_toBuf]
  rfl

end Cert.ReferenceIdeal.Hand

end
-- ==== Proof.Host.RKeep0.lean ====
/-
  The buffers stretch R0 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R0's operations write, in order. -/
abbrev R0_W : List (Ref sig .tc) := [main_v0, main_v1, main_v2, main_v3, main_c, main_v4, main_v5, main_v6, main_v7, main_c_0, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v8, main_v9, main_v10, main_v11, main_v12, main_call1_cst, main_call1_v0, main_v13]

/-- Each operation of R0 writes only its result buffer, one of the list. -/
theorem R0_writes : (R0 : List (HloOp τ sig (Elt F))).Forall fun op => op.writes ⊆ (R0_W.map (Proc.devRef (τ := τ) .tc)).toFinset := by
  unfold R0
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R0 does not write keeps its contents over R0. -/
theorem keepR0 (W : Valuation τ sig (Elt F)) (b : Ref sig .tc) (hb : b ∉ R0_W) :
    StableHlo.after R0 W (Proc.devRef .tc b) = W (Proc.devRef .tc b) :=
  StableHlo.after_of_writes_sub R0 W R0_writes hb

end Cert.ReferenceIdeal.Hand

end
-- ==== Proof.Host.RKeep1.lean ====
/-
  The buffers stretch R1 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R1's operations write, in order. -/
abbrev R1_W : List (Ref sig .tc) := [main_cst, main_v14, main_cst_1, main_v15, main_c_2, main_v16, main_v17, main_c_3, main_v18, main_v19, main_v20, main_v21, main_v22, main_cst_4, main_v23, main_v24, main_v25, main_cst_5, main_v26, main_cst_6, main_v27, main_v28, main_v29, main_cst_7, main_v30, main_v31, main_v32, main_v33, main_v34, main_v35, main_v36, main_v37, main_v38, main_v39, main_v40, main_v41, main_v42, main_v43, main_v44, main_v45, main_call2_cst, main_call2_v0, main_v46]

/-- Each operation of R1 writes only its result buffer, one of the list. -/
theorem R1_writes : (R1 : List (HloOp τ sig (Elt F))).Forall fun op => op.writes ⊆ (R1_W.map (Proc.devRef (τ := τ) .tc)).toFinset := by
  unfold R1
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R1 does not write keeps its contents over R1. -/
theorem keepR1 (W : Valuation τ sig (Elt F)) (b : Ref sig .tc) (hb : b ∉ R1_W) :
    StableHlo.after R1 W (Proc.devRef .tc b) = W (Proc.devRef .tc b) :=
  StableHlo.after_of_writes_sub R1 W R1_writes hb

end Cert.ReferenceIdeal.Hand

end
-- ==== Proof.Host.RKeep2.lean ====
/-
  The buffers stretch R2 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R2's operations write, in order. -/
abbrev R2_W : List (Ref sig .tc) := [main_c_8, main_v47, main_v48, main_c_9, main_v49, main_v50, main_v51, main_v52, main_v53, main_cst_10, main_v54, main_v55, main_v56, main_cst_11, main_v57, main_cst_12, main_v58, main_v59, main_v60, main_cst_13, main_v61, main_v62, main_v63, main_v64, main_v65, main_v66, main_v67, main_v68, main_v69, main_v70, main_v71, main_v72, main_v73, main_v74, main_v75, main_v76, main_call3_cst, main_call3_v0, main_v77]

/-- Each operation of R2 writes only its result buffer, one of the list. -/
theorem R2_writes : (R2 : List (HloOp τ sig (Elt F))).Forall fun op => op.writes ⊆ (R2_W.map (Proc.devRef (τ := τ) .tc)).toFinset := by
  unfold R2
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R2 does not write keeps its contents over R2. -/
theorem keepR2 (W : Valuation τ sig (Elt F)) (b : Ref sig .tc) (hb : b ∉ R2_W) :
    StableHlo.after R2 W (Proc.devRef .tc b) = W (Proc.devRef .tc b) :=
  StableHlo.after_of_writes_sub R2 W R2_writes hb

end Cert.ReferenceIdeal.Hand

end
-- ==== Proof.Host.RKeep3.lean ====
/-
  The buffers stretch R3 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R3's operations write, in order. -/
abbrev R3_W : List (Ref sig .tc) := [main_v78, main_v79, main_v80, main_v81, main_v82, main_v83, main_v84, main_v85, main_call4_cst, main_call4_v0, main_v86]

/-- Each operation of R3 writes only its result buffer, one of the list. -/
theorem R3_writes : (R3 : List (HloOp τ sig (Elt F))).Forall fun op => op.writes ⊆ (R3_W.map (Proc.devRef (τ := τ) .tc)).toFinset := by
  unfold R3
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R3 does not write keeps its contents over R3. -/
theorem keepR3 (W : Valuation τ sig (Elt F)) (b : Ref sig .tc) (hb : b ∉ R3_W) :
    StableHlo.after R3 W (Proc.devRef .tc b) = W (Proc.devRef .tc b) :=
  StableHlo.after_of_writes_sub R3 W R3_writes hb

end Cert.ReferenceIdeal.Hand

end
-- ==== Proof.Host.RKeep4.lean ====
/-
  The buffers stretch R4 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R4's operations write, in order. -/
abbrev R4_W : List (Ref sig .tc) := [main_v87, main_v88, main_v89, main_v90, main_v91, main_v92, main_v93, main_v94, main_call5_cst, main_call5_v0, main_v95]

/-- Each operation of R4 writes only its result buffer, one of the list. -/
theorem R4_writes : (R4 : List (HloOp τ sig (Elt F))).Forall fun op => op.writes ⊆ (R4_W.map (Proc.devRef (τ := τ) .tc)).toFinset := by
  unfold R4
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R4 does not write keeps its contents over R4. -/
theorem keepR4 (W : Valuation τ sig (Elt F)) (b : Ref sig .tc) (hb : b ∉ R4_W) :
    StableHlo.after R4 W (Proc.devRef .tc b) = W (Proc.devRef .tc b) :=
  StableHlo.after_of_writes_sub R4 W R4_writes hb

end Cert.ReferenceIdeal.Hand

end
-- ==== Proof.Host.RKeep5.lean ====
/-
  The buffers stretch R5 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R5's operations write, in order. -/
abbrev R5_W : List (Ref sig .tc) := [main_v96, main_v97, main_v98, main_v99, main_v100, main_v101, main_v102, main_v103, main_call6_cst, main_call6_v0, main_v104]

/-- Each operation of R5 writes only its result buffer, one of the list. -/
theorem R5_writes : (R5 : List (HloOp τ sig (Elt F))).Forall fun op => op.writes ⊆ (R5_W.map (Proc.devRef (τ := τ) .tc)).toFinset := by
  unfold R5
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R5 does not write keeps its contents over R5. -/
theorem keepR5 (W : Valuation τ sig (Elt F)) (b : Ref sig .tc) (hb : b ∉ R5_W) :
    StableHlo.after R5 W (Proc.devRef .tc b) = W (Proc.devRef .tc b) :=
  StableHlo.after_of_writes_sub R5 W R5_writes hb

end Cert.ReferenceIdeal.Hand

end
-- ==== Proof.Host.RKeep6.lean ====
/-
  The buffers stretch R6 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R6's operations write, in order. -/
abbrev R6_W : List (Ref sig .tc) := [main_v105, main_v106, main_v107, main_v108, main_v109, main_v110, main_v111, main_v112, main_call7_cst, main_call7_v0, main_v113]

/-- Each operation of R6 writes only its result buffer, one of the list. -/
theorem R6_writes : (R6 : List (HloOp τ sig (Elt F))).Forall fun op => op.writes ⊆ (R6_W.map (Proc.devRef (τ := τ) .tc)).toFinset := by
  unfold R6
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R6 does not write keeps its contents over R6. -/
theorem keepR6 (W : Valuation τ sig (Elt F)) (b : Ref sig .tc) (hb : b ∉ R6_W) :
    StableHlo.after R6 W (Proc.devRef .tc b) = W (Proc.devRef .tc b) :=
  StableHlo.after_of_writes_sub R6 W R6_writes hb

end Cert.ReferenceIdeal.Hand

end
-- ==== Proof.Host.RKeep7.lean ====
/-
  The buffers stretch R7 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R7's operations write, in order. -/
abbrev R7_W : List (Ref sig .tc) := [main_cst_14, main_v114, main_v115, main_v116, main_cst_15, main_v117, main_cst_16, main_v118, main_v119, main_v120, main_cst_17, main_v121, main_v122, main_v123, main_v124, main_cst_18, main_v125, main_v126, main_v127, main_cst_19, main_v128, main_cst_20, main_v129, main_v130, main_v131, main_cst_21, main_v132, main_v133, main_v134, main_v135, main_v136, main_c_22, main_v137, main_v138, main_c_23, main_v139, main_v140, main_v141, main_v142, main_v143, main_v144, main_v145, main_v146, main_v147, main_v148, main_call8_cst, main_call8_v0, main_v149]

/-- Each operation of R7 writes only its result buffer, one of the list. -/
theorem R7_writes : (R7 : List (HloOp τ sig (Elt F))).Forall fun op => op.writes ⊆ (R7_W.map (Proc.devRef (τ := τ) .tc)).toFinset := by
  unfold R7
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R7 does not write keeps its contents over R7. -/
theorem keepR7 (W : Valuation τ sig (Elt F)) (b : Ref sig .tc) (hb : b ∉ R7_W) :
    StableHlo.after R7 W (Proc.devRef .tc b) = W (Proc.devRef .tc b) :=
  StableHlo.after_of_writes_sub R7 W R7_writes hb

end Cert.ReferenceIdeal.Hand

end
-- ==== Proof.Host.RKeep8.lean ====
/-
  The buffers stretch R8 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R8's operations write, in order. -/
abbrev R8_W : List (Ref sig .tc) := [main_v150, main_v151, main_v152, main_c_24, main_v153, main_v154, main_c_25, main_v155, main_v156, main_v157, main_v158, main_v159, main_v160, main_v161, main_v162, main_v163, main_v164, main_call9_cst, main_call9_v0, main_v165]

/-- Each operation of R8 writes only its result buffer, one of the list. -/
theorem R8_writes : (R8 : List (HloOp τ sig (Elt F))).Forall fun op => op.writes ⊆ (R8_W.map (Proc.devRef (τ := τ) .tc)).toFinset := by
  unfold R8
  simp only [List.Forall]
  refine ⟨?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R8 does not write keeps its contents over R8. -/
theorem keepR8 (W : Valuation τ sig (Elt F)) (b : Ref sig .tc) (hb : b ∉ R8_W) :
    StableHlo.after R8 W (Proc.devRef .tc b) = W (Proc.devRef .tc b) :=
  StableHlo.after_of_writes_sub R8 W R8_writes hb

end Cert.ReferenceIdeal.Hand

end
-- ==== Proof.Host.RKeep9.lean ====
/-
  The buffers stretch R9 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R9's operations write, in order. -/
abbrev R9_W : List (Ref sig .tc) := [main_v166, main_v167, main_v168, main_v169, main_v170, main_v171, main_call10_cst, main_call10_v0, main_v172]

/-- Each operation of R9 writes only its result buffer, one of the list. -/
theorem R9_writes : (R9 : List (HloOp τ sig (Elt F))).Forall fun op => op.writes ⊆ (R9_W.map (Proc.devRef (τ := τ) .tc)).toFinset := by
  unfold R9
  simp only [List.Forall]
  refine ⟨?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R9 does not write keeps its contents over R9. -/
theorem keepR9 (W : Valuation τ sig (Elt F)) (b : Ref sig .tc) (hb : b ∉ R9_W) :
    StableHlo.after R9 W (Proc.devRef .tc b) = W (Proc.devRef .tc b) :=
  StableHlo.after_of_writes_sub R9 W R9_writes hb

end Cert.ReferenceIdeal.Hand

end
-- ==== Proof.Host.RKeep10.lean ====
/-
  The buffers stretch R10 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R10's operations write, in order. -/
abbrev R10_W : List (Ref sig .tc) := [main_c_26, main_v173, main_v174, main_c_27, main_v175, main_v176, main_v177, main_v178, main_v179, main_cst_28, main_v180, main_v181, main_v182, main_cst_29, main_v183, main_cst_30, main_v184, main_v185, main_v186, main_cst_31, main_v187, main_v188, main_v189, main_v190, main_v191, main_v192, main_v193, main_v194, main_v195, main_v196, main_v197, main_v198, main_v199, main_v200, main_v201, main_v202, main_call11_cst, main_call11_v0, main_v203]

/-- Each operation of R10 writes only its result buffer, one of the list. -/
theorem R10_writes : (R10 : List (HloOp τ sig (Elt F))).Forall fun op => op.writes ⊆ (R10_W.map (Proc.devRef (τ := τ) .tc)).toFinset := by
  unfold R10
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R10 does not write keeps its contents over R10. -/
theorem keepR10 (W : Valuation τ sig (Elt F)) (b : Ref sig .tc) (hb : b ∉ R10_W) :
    StableHlo.after R10 W (Proc.devRef .tc b) = W (Proc.devRef .tc b) :=
  StableHlo.after_of_writes_sub R10 W R10_writes hb

end Cert.ReferenceIdeal.Hand

end
-- ==== Proof.Host.RKeep11.lean ====
/-
  The buffers stretch R11 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R11's operations write, in order. -/
abbrev R11_W : List (Ref sig .tc) := [main_c_32, main_v204, main_v205, main_c_33, main_v206, main_v207, main_v208, main_v209, main_v210, main_cst_34, main_v211, main_v212, main_v213, main_cst_35, main_v214, main_cst_36, main_v215, main_v216, main_v217, main_cst_37, main_v218, main_v219, main_v220, main_v221, main_v222, main_v223, main_v224, main_v225, main_v226, main_v227, main_v228, main_v229, main_v230, main_v231, main_v232, main_v233, main_call12_cst, main_call12_v0, main_v234]

/-- Each operation of R11 writes only its result buffer, one of the list. -/
theorem R11_writes : (R11 : List (HloOp τ sig (Elt F))).Forall fun op => op.writes ⊆ (R11_W.map (Proc.devRef (τ := τ) .tc)).toFinset := by
  unfold R11
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R11 does not write keeps its contents over R11. -/
theorem keepR11 (W : Valuation τ sig (Elt F)) (b : Ref sig .tc) (hb : b ∉ R11_W) :
    StableHlo.after R11 W (Proc.devRef .tc b) = W (Proc.devRef .tc b) :=
  StableHlo.after_of_writes_sub R11 W R11_writes hb

end Cert.ReferenceIdeal.Hand

end
-- ==== Proof.Host.RKeep12.lean ====
/-
  The buffers stretch R12 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R12's operations write, in order. -/
abbrev R12_W : List (Ref sig .tc) := [main_v235, main_v236, main_v237, main_v238, main_v239, main_v240, main_v241, main_v242, main_call13_cst, main_call13_v0, main_v243]

/-- Each operation of R12 writes only its result buffer, one of the list. -/
theorem R12_writes : (R12 : List (HloOp τ sig (Elt F))).Forall fun op => op.writes ⊆ (R12_W.map (Proc.devRef (τ := τ) .tc)).toFinset := by
  unfold R12
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R12 does not write keeps its contents over R12. -/
theorem keepR12 (W : Valuation τ sig (Elt F)) (b : Ref sig .tc) (hb : b ∉ R12_W) :
    StableHlo.after R12 W (Proc.devRef .tc b) = W (Proc.devRef .tc b) :=
  StableHlo.after_of_writes_sub R12 W R12_writes hb

end Cert.ReferenceIdeal.Hand

end
-- ==== Proof.Host.RKeep13.lean ====
/-
  The buffers stretch R13 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R13's operations write, in order. -/
abbrev R13_W : List (Ref sig .tc) := [main_v244, main_v245, main_v246, main_v247, main_v248, main_v249, main_v250, main_v251, main_call14_cst, main_call14_v0, main_v252]

/-- Each operation of R13 writes only its result buffer, one of the list. -/
theorem R13_writes : (R13 : List (HloOp τ sig (Elt F))).Forall fun op => op.writes ⊆ (R13_W.map (Proc.devRef (τ := τ) .tc)).toFinset := by
  unfold R13
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R13 does not write keeps its contents over R13. -/
theorem keepR13 (W : Valuation τ sig (Elt F)) (b : Ref sig .tc) (hb : b ∉ R13_W) :
    StableHlo.after R13 W (Proc.devRef .tc b) = W (Proc.devRef .tc b) :=
  StableHlo.after_of_writes_sub R13 W R13_writes hb

end Cert.ReferenceIdeal.Hand

end
-- ==== Proof.Host.RKeep14.lean ====
/-
  The buffers stretch R14 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R14's operations write, in order. -/
abbrev R14_W : List (Ref sig .tc) := [main_v253, main_v254, main_v255, main_v256, main_v257, main_v258, main_v259, main_v260, main_call15_cst, main_call15_v0, main_v261]

/-- Each operation of R14 writes only its result buffer, one of the list. -/
theorem R14_writes : (R14 : List (HloOp τ sig (Elt F))).Forall fun op => op.writes ⊆ (R14_W.map (Proc.devRef (τ := τ) .tc)).toFinset := by
  unfold R14
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R14 does not write keeps its contents over R14. -/
theorem keepR14 (W : Valuation τ sig (Elt F)) (b : Ref sig .tc) (hb : b ∉ R14_W) :
    StableHlo.after R14 W (Proc.devRef .tc b) = W (Proc.devRef .tc b) :=
  StableHlo.after_of_writes_sub R14 W R14_writes hb

end Cert.ReferenceIdeal.Hand

end
-- ==== Proof.Host.RKeep15.lean ====
/-
  The buffers stretch R15 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R15's operations write, in order. -/
abbrev R15_W : List (Ref sig .tc) := [main_v262, main_v263, main_v264, main_v265, main_v266, main_v267, main_v268, main_v269, main_call16_cst, main_call16_v0, main_v270]

/-- Each operation of R15 writes only its result buffer, one of the list. -/
theorem R15_writes : (R15 : List (HloOp τ sig (Elt F))).Forall fun op => op.writes ⊆ (R15_W.map (Proc.devRef (τ := τ) .tc)).toFinset := by
  unfold R15
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R15 does not write keeps its contents over R15. -/
theorem keepR15 (W : Valuation τ sig (Elt F)) (b : Ref sig .tc) (hb : b ∉ R15_W) :
    StableHlo.after R15 W (Proc.devRef .tc b) = W (Proc.devRef .tc b) :=
  StableHlo.after_of_writes_sub R15 W R15_writes hb

end Cert.ReferenceIdeal.Hand

end
-- ==== Proof.Host.RKeep16.lean ====
/-
  The buffers stretch R16 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R16's operations write, in order. -/
abbrev R16_W : List (Ref sig .tc) := [main_cst_38, main_v271, main_v272, main_v273, main_cst_39, main_v274, main_cst_40, main_v275, main_v276, main_v277, main_cst_41, main_v278, main_v279, main_v280, main_v281, main_cst_42, main_v282, main_v283, main_v284, main_cst_43, main_v285, main_cst_44, main_v286, main_v287, main_v288, main_cst_45, main_v289, main_v290, main_v291, main_v292, main_v293, main_c_46, main_v294, main_v295, main_c_47, main_v296, main_v297, main_v298, main_v299, main_v300, main_v301, main_v302, main_v303, main_v304, main_v305, main_call17_cst, main_call17_v0, main_v306]

/-- Each operation of R16 writes only its result buffer, one of the list. -/
theorem R16_writes : (R16 : List (HloOp τ sig (Elt F))).Forall fun op => op.writes ⊆ (R16_W.map (Proc.devRef (τ := τ) .tc)).toFinset := by
  unfold R16
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R16 does not write keeps its contents over R16. -/
theorem keepR16 (W : Valuation τ sig (Elt F)) (b : Ref sig .tc) (hb : b ∉ R16_W) :
    StableHlo.after R16 W (Proc.devRef .tc b) = W (Proc.devRef .tc b) :=
  StableHlo.after_of_writes_sub R16 W R16_writes hb

end Cert.ReferenceIdeal.Hand

end
-- ==== Proof.Host.RKeep17.lean ====
/-
  The buffers stretch R17 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R17's operations write, in order. -/
abbrev R17_W : List (Ref sig .tc) := [main_v307, main_v308, main_v309, main_c_48, main_v310, main_v311, main_c_49, main_v312, main_v313, main_v314, main_v315, main_v316, main_v317, main_v318, main_v319, main_v320, main_v321, main_call18_cst, main_call18_v0, main_v322]

/-- Each operation of R17 writes only its result buffer, one of the list. -/
theorem R17_writes : (R17 : List (HloOp τ sig (Elt F))).Forall fun op => op.writes ⊆ (R17_W.map (Proc.devRef (τ := τ) .tc)).toFinset := by
  unfold R17
  simp only [List.Forall]
  refine ⟨?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R17 does not write keeps its contents over R17. -/
theorem keepR17 (W : Valuation τ sig (Elt F)) (b : Ref sig .tc) (hb : b ∉ R17_W) :
    StableHlo.after R17 W (Proc.devRef .tc b) = W (Proc.devRef .tc b) :=
  StableHlo.after_of_writes_sub R17 W R17_writes hb

end Cert.ReferenceIdeal.Hand

end
-- ==== Proof.Host.RKeep18.lean ====
/-
  The buffers stretch R18 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R18's operations write, in order. -/
abbrev R18_W : List (Ref sig .tc) := [main_v323, main_v324, main_v325, main_v326, main_v327, main_v328, main_call19_cst, main_call19_v0, main_v329]

/-- Each operation of R18 writes only its result buffer, one of the list. -/
theorem R18_writes : (R18 : List (HloOp τ sig (Elt F))).Forall fun op => op.writes ⊆ (R18_W.map (Proc.devRef (τ := τ) .tc)).toFinset := by
  unfold R18
  simp only [List.Forall]
  refine ⟨?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R18 does not write keeps its contents over R18. -/
theorem keepR18 (W : Valuation τ sig (Elt F)) (b : Ref sig .tc) (hb : b ∉ R18_W) :
    StableHlo.after R18 W (Proc.devRef .tc b) = W (Proc.devRef .tc b) :=
  StableHlo.after_of_writes_sub R18 W R18_writes hb

end Cert.ReferenceIdeal.Hand

end
-- ==== Proof.Host.RKeep19.lean ====
/-
  The buffers stretch R19 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R19's operations write, in order. -/
abbrev R19_W : List (Ref sig .tc) := [main_c_50, main_v330, main_v331, main_c_51, main_v332, main_v333, main_v334, main_v335, main_v336, main_cst_52, main_v337, main_v338, main_v339, main_cst_53, main_v340, main_cst_54, main_v341, main_v342, main_v343, main_cst_55, main_v344, main_v345, main_v346, main_v347, main_v348, main_v349, main_v350, main_v351, main_v352, main_v353, main_v354, main_v355, main_v356, main_v357, main_v358, main_v359, main_call20_cst, main_call20_v0, main_v360]

/-- Each operation of R19 writes only its result buffer, one of the list. -/
theorem R19_writes : (R19 : List (HloOp τ sig (Elt F))).Forall fun op => op.writes ⊆ (R19_W.map (Proc.devRef (τ := τ) .tc)).toFinset := by
  unfold R19
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R19 does not write keeps its contents over R19. -/
theorem keepR19 (W : Valuation τ sig (Elt F)) (b : Ref sig .tc) (hb : b ∉ R19_W) :
    StableHlo.after R19 W (Proc.devRef .tc b) = W (Proc.devRef .tc b) :=
  StableHlo.after_of_writes_sub R19 W R19_writes hb

end Cert.ReferenceIdeal.Hand

end
-- ==== Proof.Host.RKeep20.lean ====
/-
  The buffers stretch R20 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R20's operations write, in order. -/
abbrev R20_W : List (Ref sig .tc) := [main_c_56, main_v361, main_v362, main_c_57, main_v363, main_v364, main_v365, main_v366, main_v367, main_cst_58, main_v368, main_v369, main_v370, main_cst_59, main_v371, main_cst_60, main_v372, main_v373, main_v374, main_cst_61, main_v375, main_v376, main_v377, main_v378, main_v379, main_v380, main_v381, main_v382, main_v383, main_v384, main_v385, main_v386, main_v387, main_v388, main_v389, main_v390, main_call21_cst, main_call21_v0, main_v391]

/-- Each operation of R20 writes only its result buffer, one of the list. -/
theorem R20_writes : (R20 : List (HloOp τ sig (Elt F))).Forall fun op => op.writes ⊆ (R20_W.map (Proc.devRef (τ := τ) .tc)).toFinset := by
  unfold R20
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R20 does not write keeps its contents over R20. -/
theorem keepR20 (W : Valuation τ sig (Elt F)) (b : Ref sig .tc) (hb : b ∉ R20_W) :
    StableHlo.after R20 W (Proc.devRef .tc b) = W (Proc.devRef .tc b) :=
  StableHlo.after_of_writes_sub R20 W R20_writes hb

end Cert.ReferenceIdeal.Hand

end
-- ==== Proof.Host.RKeep21.lean ====
/-
  The buffers stretch R21 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R21's operations write, in order. -/
abbrev R21_W : List (Ref sig .tc) := [main_v392, main_v393, main_v394, main_v395, main_v396, main_v397, main_v398, main_v399, main_call22_cst, main_call22_v0, main_v400]

/-- Each operation of R21 writes only its result buffer, one of the list. -/
theorem R21_writes : (R21 : List (HloOp τ sig (Elt F))).Forall fun op => op.writes ⊆ (R21_W.map (Proc.devRef (τ := τ) .tc)).toFinset := by
  unfold R21
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R21 does not write keeps its contents over R21. -/
theorem keepR21 (W : Valuation τ sig (Elt F)) (b : Ref sig .tc) (hb : b ∉ R21_W) :
    StableHlo.after R21 W (Proc.devRef .tc b) = W (Proc.devRef .tc b) :=
  StableHlo.after_of_writes_sub R21 W R21_writes hb

end Cert.ReferenceIdeal.Hand

end
-- ==== Proof.Host.RKeep22.lean ====
/-
  The buffers stretch R22 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R22's operations write, in order. -/
abbrev R22_W : List (Ref sig .tc) := [main_v401, main_v402, main_v403, main_v404, main_v405, main_v406, main_v407, main_v408, main_call23_cst, main_call23_v0, main_v409]

/-- Each operation of R22 writes only its result buffer, one of the list. -/
theorem R22_writes : (R22 : List (HloOp τ sig (Elt F))).Forall fun op => op.writes ⊆ (R22_W.map (Proc.devRef (τ := τ) .tc)).toFinset := by
  unfold R22
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R22 does not write keeps its contents over R22. -/
theorem keepR22 (W : Valuation τ sig (Elt F)) (b : Ref sig .tc) (hb : b ∉ R22_W) :
    StableHlo.after R22 W (Proc.devRef .tc b) = W (Proc.devRef .tc b) :=
  StableHlo.after_of_writes_sub R22 W R22_writes hb

end Cert.ReferenceIdeal.Hand

end
-- ==== Proof.Host.RKeep23.lean ====
/-
  The buffers stretch R23 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R23's operations write, in order. -/
abbrev R23_W : List (Ref sig .tc) := [main_v410, main_v411, main_v412, main_v413, main_v414, main_v415, main_v416, main_v417, main_call24_cst, main_call24_v0, main_v418]

/-- Each operation of R23 writes only its result buffer, one of the list. -/
theorem R23_writes : (R23 : List (HloOp τ sig (Elt F))).Forall fun op => op.writes ⊆ (R23_W.map (Proc.devRef (τ := τ) .tc)).toFinset := by
  unfold R23
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R23 does not write keeps its contents over R23. -/
theorem keepR23 (W : Valuation τ sig (Elt F)) (b : Ref sig .tc) (hb : b ∉ R23_W) :
    StableHlo.after R23 W (Proc.devRef .tc b) = W (Proc.devRef .tc b) :=
  StableHlo.after_of_writes_sub R23 W R23_writes hb

end Cert.ReferenceIdeal.Hand

end
-- ==== Proof.Host.RKeep24.lean ====
/-
  The buffers stretch R24 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R24's operations write, in order. -/
abbrev R24_W : List (Ref sig .tc) := [main_v419, main_v420, main_v421, main_v422, main_v423, main_v424, main_v425, main_v426, main_call25_cst, main_call25_v0, main_v427]

/-- Each operation of R24 writes only its result buffer, one of the list. -/
theorem R24_writes : (R24 : List (HloOp τ sig (Elt F))).Forall fun op => op.writes ⊆ (R24_W.map (Proc.devRef (τ := τ) .tc)).toFinset := by
  unfold R24
  simp only [List.Forall]
  refine ⟨?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R24 does not write keeps its contents over R24. -/
theorem keepR24 (W : Valuation τ sig (Elt F)) (b : Ref sig .tc) (hb : b ∉ R24_W) :
    StableHlo.after R24 W (Proc.devRef .tc b) = W (Proc.devRef .tc b) :=
  StableHlo.after_of_writes_sub R24 W R24_writes hb

end Cert.ReferenceIdeal.Hand

end
-- ==== Proof.Host.RKeep25.lean ====
/-
  The buffers stretch R25 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R25's operations write, in order. -/
abbrev R25_W : List (Ref sig .tc) := [main_cst_62, main_v428, main_v429, main_v430, main_cst_63, main_v431, main_cst_64, main_v432, main_v433, main_v434, main_cst_65, main_v435, main_v436, main_v437, main_v438, main_cst_66, main_v439, main_v440, main_v441, main_cst_67, main_v442, main_cst_68, main_v443, main_v444, main_v445, main_cst_69, main_v446, main_v447, main_v448, main_v449, main_v450, main_v451, main_v452, main_v453, main_v454, main_call26_cst, main_call26_v0, main_v455]

/-- Each operation of R25 writes only its result buffer, one of the list. -/
theorem R25_writes : (R25 : List (HloOp τ sig (Elt F))).Forall fun op => op.writes ⊆ (R25_W.map (Proc.devRef (τ := τ) .tc)).toFinset := by
  unfold R25
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R25 does not write keeps its contents over R25. -/
theorem keepR25 (W : Valuation τ sig (Elt F)) (b : Ref sig .tc) (hb : b ∉ R25_W) :
    StableHlo.after R25 W (Proc.devRef .tc b) = W (Proc.devRef .tc b) :=
  StableHlo.after_of_writes_sub R25 W R25_writes hb

end Cert.ReferenceIdeal.Hand

end
-- ==== Proof.Host.RKeep26.lean ====
/-
  The buffers stretch R26 of the reference program writes: each operation writes its one result buffer, so a buffer that is
  none of these holds after the stretch what it held before.
-/
import proofs.«141679_j61469571940402_1_alg».proof.Proof.Ref.Chunks
import Idealize.ShloMosaic.Lib.StableHlo.Run

set_option maxRecDepth 3048

noncomputable section

namespace Cert.ReferenceIdeal.Hand

open Idealize.ShloMosaic Cert.ReferenceIdeal Cert.ReferenceIdeal.Gen

variable {F : FTy → Type} [FloatOps F]

/-- The references R26's operations write, in order. -/
abbrev R26_W : List (Ref sig .tc) := [main_v456, main_v457, main_v458, main_v459]

/-- Each operation of R26 writes only its result buffer, one of the list. -/
theorem R26_writes : (R26 : List (HloOp τ sig (Elt F))).Forall fun op => op.writes ⊆ (R26_W.map (Proc.devRef (τ := τ) .tc)).toFinset := by
  unfold R26
  simp only [List.Forall]
  refine ⟨?_, ?_, ?_, ?_⟩
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer R26 does not write keeps its contents over R26. -/
theorem keepR26 (W : Valuation τ sig (Elt F)) (b : Ref sig .tc) (hb : b ∉ R26_W) :
    StableHlo.after R26 W (Proc.devRef .tc b) = W (Proc.devRef .tc b) :=
  StableHlo.after_of_writes_sub R26 W R26_writes hb

end Cert.ReferenceIdeal.Hand

end
-- ==== Proof.FinalR.lean ====
/-
  The reference program's run, stretch by stretch: every buffer that is read later holds the shared function gv_n of the
  program's arguments; the last fact names the program's result.
-/
import proofs.«141679_j61469571940402_1_alg».proof.Proof.Host.R0
import proofs.«141679_j61469571940402_1_alg».proof.Proof.Host.R1
import proofs.«141679_j61469571940402_1_alg».proof.Proof.Host.R2
import proofs.«141679_j61469571940402_1_alg».proof.Proof.Host.R3
import proofs.«141679_j61469571940402_1_alg».proof.Proof.Host.R4
import proofs.«141679_j61469571940402_1_alg».proof.Proof.Host.R5
import proofs.«141679_j61469571940402_1_alg».proof.Proof.Host.R6
import proofs.«141679_j61469571940402_1_alg».proof.Proof.Host.R7
import proofs.«141679_j61469571940402_1_alg».proof.Proof.Host.R8
import proofs.«141679_j61469571940402_1_alg».proof.Proof.Host.R9
import proofs.«141679_j61469571940402_1_alg».proof.Proof.Host.R10
import proofs.«141679_j61469571940402_1_alg».proof.Proof.Host.R11
import proofs.«141679_j61469571940402_1_alg».proof.Proof.Host.R12
import proofs.«141679_j61469571940402_1_alg».proof.Proof.Host.R13
import proofs.«141679_j61469571940402_1_alg».proof.Proof.Host.R14
import proofs.«141679_j61469571940402_1_alg».proof.Proof.Host.R15
import proofs.«141679_j61469571940402_1_alg».proof.Proof.Host.R16
import proofs.«141679_j61469571940402_1_alg».proof.Proof.Host.R17
import proofs.«141679_j61469571940402_1_alg».proof.Proof.Host.R18
import proofs.«141679_j61469571940402_1_alg».proof.Proof.Host.R19
import proofs.«141679_j61469571940402_1_alg».proof.Proof.Host.R20
import proofs.«141679_j61469571940402_1_alg».proof.Proof.Host.R21
import proofs.«141679_j61469571940402_1_alg».proof.Proof.Host.R22
import proofs.«141679_j61469571940402_1_alg».proof.Proof.Host.R23
import proofs.«141679_j61469571940402_1_alg».proof.Proof.Host.R24
import proofs.«141679_j61469571940402_1_alg».proof.Proof.Host.R25
import proofs.«141679_j61469571940402_1_alg».proof.Proof.Host.R26
import proofs.«141679_j61469571940402_1_alg».proof.Proof.Host.RKeep0
import proofs.«141679_j61469571940402_1_alg».proof.Proof.Host.RKeep1
import proofs.«141679_j61469571940402_1_alg».proof.Proof.Host.RKeep2
import proofs.«141679_j61469571940402_1_alg».proof.Proof.Host.RKeep3
import proofs.«141679_j61469571940402_1_alg».proof.Proof.Host.RKeep4
import proofs.«141679_j61469571940402_1_alg».proof.Proof.Host.RKeep5
import proofs.«141679_j61469571940402_1_alg».proof.Proof.Host.RKeep6
import proofs.«141679_j61469571940402_1_alg».proof.Proof.Host.RKeep7
import proofs.«141679_j61469571940402_1_alg».proof.Proof.Host.RKeep8
import proofs.«141679_j61469571940402_1_alg».proof.Proof.Host.RKeep9
import proofs.«141679_j61469571940402_1_alg».proof.Proof.Host.RKeep10
import proofs.«141679_j61469571940402_1_alg».proof.Proof.Host.RKeep11
import proofs.«141679_j61469571940402_1_alg».proof.Proof.Host.RKeep12
import proofs.«141679_j61469571940402_1_alg».proof.Proof.Host.RKeep13
import proofs.«141679_j61469571940402_1_alg».proof.Proof.Host.RKeep14
import proofs.«141679_j61469571940402_1_alg».proof.Proof.Host.RKeep15
import proofs.«141679_j61469571940402_1_alg».proof.Proof.Host.RKeep16
import proofs.«141679_j61469571940402_1_alg».proof.Proof.Host.RKeep17
import proofs.«141679_j61469571940402_1_alg».proof.Proof.Host.RKeep18
import proofs.«141679_j61469571940402_1_alg».proof.Proof.Host.RKeep19
import proofs.«141679_j61469571940402_1_alg».proof.Proof.Host.RKeep20
import proofs.«141679_j61469571940402_1_alg».proof.Proof.Host.RKeep21
import proofs.«141679_j61469571940402_1_alg».proof.Proof.Host.RKeep22
import proofs.«141679_j61469571940402_1_alg».proof.Proof.Host.RKeep23
import proofs.«141679_j61469571940402_1_alg».proof.Proof.Host.RKeep24
import proofs.«141679_j61469571940402_1_alg».proof.Proof.Host.RKeep25
import proofs.«141679_j61469571940402_1_alg».proof.Proof.Host.RKeep26
import Idealize.ShloMosaic.PureOps.Ideal

set_option maxRecDepth 3048

noncomputable section

namespace Cert.ReferenceIdeal.Hand

open Idealize.ShloMosaic Idealize.ShloMosaic.TcCoe Cert.ReferenceIdeal Cert.ReferenceIdeal.Gen

variable (m : (ℓ : Loc nD τ sig) → Buf (Elt Ideal) ℓ) (c : Dev nD)

/-- The argument arrays as launched, on core c. -/
abbrev argsR : Cert.Net.Args Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32), m ((c : Thread nD τ).loc main_arg33)⟩

abbrev Wr0 : Valuation τ sig (Elt Ideal) := fun b => m (c, b)
abbrev Wr1 : Valuation τ sig (Elt Ideal) := StableHlo.after R0 (Wr0 m c)
abbrev Wr2 : Valuation τ sig (Elt Ideal) := StableHlo.after R1 (Wr1 m c)
abbrev Wr3 : Valuation τ sig (Elt Ideal) := StableHlo.after R2 (Wr2 m c)
abbrev Wr4 : Valuation τ sig (Elt Ideal) := StableHlo.after R3 (Wr3 m c)
abbrev Wr5 : Valuation τ sig (Elt Ideal) := StableHlo.after R4 (Wr4 m c)
abbrev Wr6 : Valuation τ sig (Elt Ideal) := StableHlo.after R5 (Wr5 m c)
abbrev Wr7 : Valuation τ sig (Elt Ideal) := StableHlo.after R6 (Wr6 m c)
abbrev Wr8 : Valuation τ sig (Elt Ideal) := StableHlo.after R7 (Wr7 m c)
abbrev Wr9 : Valuation τ sig (Elt Ideal) := StableHlo.after R8 (Wr8 m c)
abbrev Wr10 : Valuation τ sig (Elt Ideal) := StableHlo.after R9 (Wr9 m c)
abbrev Wr11 : Valuation τ sig (Elt Ideal) := StableHlo.after R10 (Wr10 m c)
abbrev Wr12 : Valuation τ sig (Elt Ideal) := StableHlo.after R11 (Wr11 m c)
abbrev Wr13 : Valuation τ sig (Elt Ideal) := StableHlo.after R12 (Wr12 m c)
abbrev Wr14 : Valuation τ sig (Elt Ideal) := StableHlo.after R13 (Wr13 m c)
abbrev Wr15 : Valuation τ sig (Elt Ideal) := StableHlo.after R14 (Wr14 m c)
abbrev Wr16 : Valuation τ sig (Elt Ideal) := StableHlo.after R15 (Wr15 m c)
abbrev Wr17 : Valuation τ sig (Elt Ideal) := StableHlo.after R16 (Wr16 m c)
abbrev Wr18 : Valuation τ sig (Elt Ideal) := StableHlo.after R17 (Wr17 m c)
abbrev Wr19 : Valuation τ sig (Elt Ideal) := StableHlo.after R18 (Wr18 m c)
abbrev Wr20 : Valuation τ sig (Elt Ideal) := StableHlo.after R19 (Wr19 m c)
abbrev Wr21 : Valuation τ sig (Elt Ideal) := StableHlo.after R20 (Wr20 m c)
abbrev Wr22 : Valuation τ sig (Elt Ideal) := StableHlo.after R21 (Wr21 m c)
abbrev Wr23 : Valuation τ sig (Elt Ideal) := StableHlo.after R22 (Wr22 m c)
abbrev Wr24 : Valuation τ sig (Elt Ideal) := StableHlo.after R23 (Wr23 m c)
abbrev Wr25 : Valuation τ sig (Elt Ideal) := StableHlo.after R24 (Wr24 m c)
abbrev Wr26 : Valuation τ sig (Elt Ideal) := StableHlo.after R25 (Wr25 m c)
abbrev Wr27 : Valuation τ sig (Elt Ideal) := StableHlo.after R26 (Wr26 m c)

theorem ra_32_0 : Wr0 m c (Proc.devRef .tc main_arg32) = (argsR m c).a32 := rfl
theorem ra_33_0 : Wr0 m c (Proc.devRef .tc main_arg33) = (argsR m c).a33 := rfl
theorem ra_30_0 : Wr0 m c (Proc.devRef .tc main_arg30) = (argsR m c).a30 := rfl
theorem ra_31_0 : Wr0 m c (Proc.devRef .tc main_arg31) = (argsR m c).a31 := rfl
theorem ra_2_0 : Wr0 m c (Proc.devRef .tc main_arg2) = (argsR m c).a2 := rfl
theorem ra_13_0 : Wr0 m c (Proc.devRef .tc main_arg13) = (argsR m c).a13 := rfl
theorem ra_14_0 : Wr0 m c (Proc.devRef .tc main_arg14) = (argsR m c).a14 := rfl
theorem ra_15_0 : Wr0 m c (Proc.devRef .tc main_arg15) = (argsR m c).a15 := rfl
theorem ra_16_0 : Wr0 m c (Proc.devRef .tc main_arg16) = (argsR m c).a16 := rfl
theorem ra_17_0 : Wr0 m c (Proc.devRef .tc main_arg17) = (argsR m c).a17 := rfl
theorem ra_18_0 : Wr0 m c (Proc.devRef .tc main_arg18) = (argsR m c).a18 := rfl
theorem ra_19_0 : Wr0 m c (Proc.devRef .tc main_arg19) = (argsR m c).a19 := rfl
theorem ra_20_0 : Wr0 m c (Proc.devRef .tc main_arg20) = (argsR m c).a20 := rfl
theorem ra_25_0 : Wr0 m c (Proc.devRef .tc main_arg25) = (argsR m c).a25 := rfl
theorem ra_27_0 : Wr0 m c (Proc.devRef .tc main_arg27) = (argsR m c).a27 := rfl
theorem ra_1_0 : Wr0 m c (Proc.devRef .tc main_arg1) = (argsR m c).a1 := rfl
theorem ra_21_0 : Wr0 m c (Proc.devRef .tc main_arg21) = (argsR m c).a21 := rfl
theorem ra_23_0 : Wr0 m c (Proc.devRef .tc main_arg23) = (argsR m c).a23 := rfl
theorem ra_26_0 : Wr0 m c (Proc.devRef .tc main_arg26) = (argsR m c).a26 := rfl
theorem ra_28_0 : Wr0 m c (Proc.devRef .tc main_arg28) = (argsR m c).a28 := rfl
theorem ra_22_0 : Wr0 m c (Proc.devRef .tc main_arg22) = (argsR m c).a22 := rfl
theorem ra_24_0 : Wr0 m c (Proc.devRef .tc main_arg24) = (argsR m c).a24 := rfl
theorem ra_29_0 : Wr0 m c (Proc.devRef .tc main_arg29) = (argsR m c).a29 := rfl
theorem ra_3_0 : Wr0 m c (Proc.devRef .tc main_arg3) = (argsR m c).a3 := rfl
theorem ra_6_0 : Wr0 m c (Proc.devRef .tc main_arg6) = (argsR m c).a6 := rfl
theorem ra_7_0 : Wr0 m c (Proc.devRef .tc main_arg7) = (argsR m c).a7 := rfl
theorem ra_8_0 : Wr0 m c (Proc.devRef .tc main_arg8) = (argsR m c).a8 := rfl
theorem ra_9_0 : Wr0 m c (Proc.devRef .tc main_arg9) = (argsR m c).a9 := rfl
theorem ra_10_0 : Wr0 m c (Proc.devRef .tc main_arg10) = (argsR m c).a10 := rfl
theorem ra_11_0 : Wr0 m c (Proc.devRef .tc main_arg11) = (argsR m c).a11 := rfl
theorem ra_12_0 : Wr0 m c (Proc.devRef .tc main_arg12) = (argsR m c).a12 := rfl
theorem ra_0_0 : Wr0 m c (Proc.devRef .tc main_arg0) = (argsR m c).a0 := rfl
theorem ra_4_0 : Wr0 m c (Proc.devRef .tc main_arg4) = (argsR m c).a4 := rfl
theorem ra_5_0 : Wr0 m c (Proc.devRef .tc main_arg5) = (argsR m c).a5 := rfl
theorem fr'_main_v1 : StableHlo.after R0 (Wr0 m c) (Proc.devRef .tc main_v1) = Cert.Net.gv_0 (argsR m c) :=
  (R0_main_v1 (Wr0 m c)).trans (by rw [ra_1_0 m c]; rfl)
theorem fr_main_v1_1 : Wr1 m c (Proc.devRef .tc main_v1) = Cert.Net.gv_0 (argsR m c) := fr'_main_v1 m c
theorem fr'_main_v3 : StableHlo.after R0 (Wr0 m c) (Proc.devRef .tc main_v3) = Cert.Net.gv_1 (argsR m c) :=
  (R0_main_v3 (Wr0 m c)).trans (by rw [ra_1_0 m c]; rfl)
theorem fr_main_v3_1 : Wr1 m c (Proc.devRef .tc main_v3) = Cert.Net.gv_1 (argsR m c) := fr'_main_v3 m c
theorem fr'_main_c : StableHlo.after R0 (Wr0 m c) (Proc.devRef .tc main_c) = Cert.Net.gv_2 (argsR m c) :=
  (R0_main_c (Wr0 m c)).trans (by rfl)
theorem fr_main_c_1 : Wr1 m c (Proc.devRef .tc main_c) = Cert.Net.gv_2 (argsR m c) := fr'_main_c m c
theorem fr'_main_v6 : StableHlo.after R0 (Wr0 m c) (Proc.devRef .tc main_v6) = Cert.Net.gv_3 (argsR m c) :=
  (R0_main_v6 (Wr0 m c)).trans (by rw [ra_3_0 m c, ra_2_0 m c, fr'_main_c m c]; rfl)
theorem fr_main_v6_1 : Wr1 m c (Proc.devRef .tc main_v6) = Cert.Net.gv_3 (argsR m c) := fr'_main_v6 m c
theorem fr'_main_v7 : StableHlo.after R0 (Wr0 m c) (Proc.devRef .tc main_v7) = Cert.Net.gv_4 (argsR m c) :=
  (R0_main_v7 (Wr0 m c)).trans (by rfl)
theorem fr_main_v7_1 : Wr1 m c (Proc.devRef .tc main_v7) = Cert.Net.gv_4 (argsR m c) := fr'_main_v7 m c
theorem fr'_main_c_0 : StableHlo.after R0 (Wr0 m c) (Proc.devRef .tc main_c_0) = Cert.Net.gv_2 (argsR m c) :=
  (R0_main_c_0 (Wr0 m c)).trans (by rfl)
theorem fr_main_c_0_1 : Wr1 m c (Proc.devRef .tc main_c_0) = Cert.Net.gv_2 (argsR m c) := fr'_main_c_0 m c
theorem fr'_main_v8 : StableHlo.after R0 (Wr0 m c) (Proc.devRef .tc main_v8) = Cert.Net.gv_5 (argsR m c) :=
  (R0_main_v8 (Wr0 m c)).trans (by rw [fr'_main_v7 m c, fr'_main_c_0 m c]; rfl)
theorem fr_main_v8_1 : Wr1 m c (Proc.devRef .tc main_v8) = Cert.Net.gv_5 (argsR m c) := fr'_main_v8 m c
theorem fr'_main_v13 : StableHlo.after R0 (Wr0 m c) (Proc.devRef .tc main_v13) = Cert.Net.gv_6 (argsR m c) :=
  (R0_main_v13 (Wr0 m c)).trans (by rw [ra_0_0 m c, ra_4_0 m c, ra_5_0 m c]; rfl)
theorem fr_main_v13_1 : Wr1 m c (Proc.devRef .tc main_v13) = Cert.Net.gv_6 (argsR m c) := fr'_main_v13 m c
theorem ra_32_1 : Wr1 m c (Proc.devRef .tc main_arg32) = (argsR m c).a32 :=
  (keepR0 (Wr0 m c) main_arg32 (by decide)).trans (ra_32_0 m c)
theorem ra_33_1 : Wr1 m c (Proc.devRef .tc main_arg33) = (argsR m c).a33 :=
  (keepR0 (Wr0 m c) main_arg33 (by decide)).trans (ra_33_0 m c)
theorem ra_30_1 : Wr1 m c (Proc.devRef .tc main_arg30) = (argsR m c).a30 :=
  (keepR0 (Wr0 m c) main_arg30 (by decide)).trans (ra_30_0 m c)
theorem ra_31_1 : Wr1 m c (Proc.devRef .tc main_arg31) = (argsR m c).a31 :=
  (keepR0 (Wr0 m c) main_arg31 (by decide)).trans (ra_31_0 m c)
theorem ra_2_1 : Wr1 m c (Proc.devRef .tc main_arg2) = (argsR m c).a2 :=
  (keepR0 (Wr0 m c) main_arg2 (by decide)).trans (ra_2_0 m c)
theorem ra_13_1 : Wr1 m c (Proc.devRef .tc main_arg13) = (argsR m c).a13 :=
  (keepR0 (Wr0 m c) main_arg13 (by decide)).trans (ra_13_0 m c)
theorem ra_14_1 : Wr1 m c (Proc.devRef .tc main_arg14) = (argsR m c).a14 :=
  (keepR0 (Wr0 m c) main_arg14 (by decide)).trans (ra_14_0 m c)
theorem ra_15_1 : Wr1 m c (Proc.devRef .tc main_arg15) = (argsR m c).a15 :=
  (keepR0 (Wr0 m c) main_arg15 (by decide)).trans (ra_15_0 m c)
theorem ra_16_1 : Wr1 m c (Proc.devRef .tc main_arg16) = (argsR m c).a16 :=
  (keepR0 (Wr0 m c) main_arg16 (by decide)).trans (ra_16_0 m c)
theorem ra_17_1 : Wr1 m c (Proc.devRef .tc main_arg17) = (argsR m c).a17 :=
  (keepR0 (Wr0 m c) main_arg17 (by decide)).trans (ra_17_0 m c)
theorem ra_18_1 : Wr1 m c (Proc.devRef .tc main_arg18) = (argsR m c).a18 :=
  (keepR0 (Wr0 m c) main_arg18 (by decide)).trans (ra_18_0 m c)
theorem ra_19_1 : Wr1 m c (Proc.devRef .tc main_arg19) = (argsR m c).a19 :=
  (keepR0 (Wr0 m c) main_arg19 (by decide)).trans (ra_19_0 m c)
theorem ra_20_1 : Wr1 m c (Proc.devRef .tc main_arg20) = (argsR m c).a20 :=
  (keepR0 (Wr0 m c) main_arg20 (by decide)).trans (ra_20_0 m c)
theorem ra_25_1 : Wr1 m c (Proc.devRef .tc main_arg25) = (argsR m c).a25 :=
  (keepR0 (Wr0 m c) main_arg25 (by decide)).trans (ra_25_0 m c)
theorem ra_27_1 : Wr1 m c (Proc.devRef .tc main_arg27) = (argsR m c).a27 :=
  (keepR0 (Wr0 m c) main_arg27 (by decide)).trans (ra_27_0 m c)
theorem ra_21_1 : Wr1 m c (Proc.devRef .tc main_arg21) = (argsR m c).a21 :=
  (keepR0 (Wr0 m c) main_arg21 (by decide)).trans (ra_21_0 m c)
theorem ra_23_1 : Wr1 m c (Proc.devRef .tc main_arg23) = (argsR m c).a23 :=
  (keepR0 (Wr0 m c) main_arg23 (by decide)).trans (ra_23_0 m c)
theorem ra_26_1 : Wr1 m c (Proc.devRef .tc main_arg26) = (argsR m c).a26 :=
  (keepR0 (Wr0 m c) main_arg26 (by decide)).trans (ra_26_0 m c)
theorem ra_28_1 : Wr1 m c (Proc.devRef .tc main_arg28) = (argsR m c).a28 :=
  (keepR0 (Wr0 m c) main_arg28 (by decide)).trans (ra_28_0 m c)
theorem ra_22_1 : Wr1 m c (Proc.devRef .tc main_arg22) = (argsR m c).a22 :=
  (keepR0 (Wr0 m c) main_arg22 (by decide)).trans (ra_22_0 m c)
theorem ra_24_1 : Wr1 m c (Proc.devRef .tc main_arg24) = (argsR m c).a24 :=
  (keepR0 (Wr0 m c) main_arg24 (by decide)).trans (ra_24_0 m c)
theorem ra_29_1 : Wr1 m c (Proc.devRef .tc main_arg29) = (argsR m c).a29 :=
  (keepR0 (Wr0 m c) main_arg29 (by decide)).trans (ra_29_0 m c)
theorem ra_6_1 : Wr1 m c (Proc.devRef .tc main_arg6) = (argsR m c).a6 :=
  (keepR0 (Wr0 m c) main_arg6 (by decide)).trans (ra_6_0 m c)
theorem ra_7_1 : Wr1 m c (Proc.devRef .tc main_arg7) = (argsR m c).a7 :=
  (keepR0 (Wr0 m c) main_arg7 (by decide)).trans (ra_7_0 m c)
theorem ra_8_1 : Wr1 m c (Proc.devRef .tc main_arg8) = (argsR m c).a8 :=
  (keepR0 (Wr0 m c) main_arg8 (by decide)).trans (ra_8_0 m c)
theorem ra_9_1 : Wr1 m c (Proc.devRef .tc main_arg9) = (argsR m c).a9 :=
  (keepR0 (Wr0 m c) main_arg9 (by decide)).trans (ra_9_0 m c)
theorem ra_10_1 : Wr1 m c (Proc.devRef .tc main_arg10) = (argsR m c).a10 :=
  (keepR0 (Wr0 m c) main_arg10 (by decide)).trans (ra_10_0 m c)
theorem ra_11_1 : Wr1 m c (Proc.devRef .tc main_arg11) = (argsR m c).a11 :=
  (keepR0 (Wr0 m c) main_arg11 (by decide)).trans (ra_11_0 m c)
theorem ra_12_1 : Wr1 m c (Proc.devRef .tc main_arg12) = (argsR m c).a12 :=
  (keepR0 (Wr0 m c) main_arg12 (by decide)).trans (ra_12_0 m c)
theorem fr'_main_v14 : StableHlo.after R1 (Wr1 m c) (Proc.devRef .tc main_v14) = Cert.Net.gv_7 (argsR m c) :=
  (R1_main_v14 (Wr1 m c)).trans (by rfl)
theorem fr_main_v14_2 : Wr2 m c (Proc.devRef .tc main_v14) = Cert.Net.gv_7 (argsR m c) := fr'_main_v14 m c
theorem fr'_main_v15 : StableHlo.after R1 (Wr1 m c) (Proc.devRef .tc main_v15) = Cert.Net.gv_8 (argsR m c) :=
  (R1_main_v15 (Wr1 m c)).trans (by rfl)
theorem fr_main_v15_2 : Wr2 m c (Proc.devRef .tc main_v15) = Cert.Net.gv_8 (argsR m c) := fr'_main_v15 m c
theorem fr'_main_v33 : StableHlo.after R1 (Wr1 m c) (Proc.devRef .tc main_v33) = Cert.Net.gv_9 (argsR m c) :=
  (R1_main_v33 (Wr1 m c)).trans (by rw [fr_main_v3_1 m c, fr_main_v13_1 m c, fr_main_v1_1 m c]; rfl)
theorem fr_main_v33_2 : Wr2 m c (Proc.devRef .tc main_v33) = Cert.Net.gv_9 (argsR m c) := fr'_main_v33 m c
theorem fr'_main_v35 : StableHlo.after R1 (Wr1 m c) (Proc.devRef .tc main_v35) = Cert.Net.gv_10 (argsR m c) :=
  (R1_main_v35 (Wr1 m c)).trans (by rw [ra_6_1 m c]; rfl)
theorem fr_main_v35_2 : Wr2 m c (Proc.devRef .tc main_v35) = Cert.Net.gv_10 (argsR m c) := fr'_main_v35 m c
theorem fr'_main_v38 : StableHlo.after R1 (Wr1 m c) (Proc.devRef .tc main_v38) = Cert.Net.gv_11 (argsR m c) :=
  (R1_main_v38 (Wr1 m c)).trans (by rw [ra_7_1 m c]; rfl)
theorem fr_main_v38_2 : Wr2 m c (Proc.devRef .tc main_v38) = Cert.Net.gv_11 (argsR m c) := fr'_main_v38 m c
theorem fr'_main_v42 : StableHlo.after R1 (Wr1 m c) (Proc.devRef .tc main_v42) = Cert.Net.gv_12 (argsR m c) :=
  (R1_main_v42 (Wr1 m c)).trans (by rw [ra_8_1 m c]; rfl)
theorem fr_main_v42_2 : Wr2 m c (Proc.devRef .tc main_v42) = Cert.Net.gv_12 (argsR m c) := fr'_main_v42 m c
theorem fr'_main_v46 : StableHlo.after R1 (Wr1 m c) (Proc.devRef .tc main_v46) = Cert.Net.gv_13 (argsR m c) :=
  (R1_main_v46 (Wr1 m c)).trans (by rw [fr_main_v13_1 m c, fr'_main_v35 m c, fr'_main_v33 m c, fr'_main_v38 m c, fr'_main_v42 m c]; rfl)
theorem fr_main_v46_2 : Wr2 m c (Proc.devRef .tc main_v46) = Cert.Net.gv_13 (argsR m c) := fr'_main_v46 m c
theorem ra_32_2 : Wr2 m c (Proc.devRef .tc main_arg32) = (argsR m c).a32 :=
  (keepR1 (Wr1 m c) main_arg32 (by decide)).trans (ra_32_1 m c)
theorem ra_33_2 : Wr2 m c (Proc.devRef .tc main_arg33) = (argsR m c).a33 :=
  (keepR1 (Wr1 m c) main_arg33 (by decide)).trans (ra_33_1 m c)
theorem ra_30_2 : Wr2 m c (Proc.devRef .tc main_arg30) = (argsR m c).a30 :=
  (keepR1 (Wr1 m c) main_arg30 (by decide)).trans (ra_30_1 m c)
theorem ra_31_2 : Wr2 m c (Proc.devRef .tc main_arg31) = (argsR m c).a31 :=
  (keepR1 (Wr1 m c) main_arg31 (by decide)).trans (ra_31_1 m c)
theorem ra_2_2 : Wr2 m c (Proc.devRef .tc main_arg2) = (argsR m c).a2 :=
  (keepR1 (Wr1 m c) main_arg2 (by decide)).trans (ra_2_1 m c)
theorem ra_13_2 : Wr2 m c (Proc.devRef .tc main_arg13) = (argsR m c).a13 :=
  (keepR1 (Wr1 m c) main_arg13 (by decide)).trans (ra_13_1 m c)
theorem ra_14_2 : Wr2 m c (Proc.devRef .tc main_arg14) = (argsR m c).a14 :=
  (keepR1 (Wr1 m c) main_arg14 (by decide)).trans (ra_14_1 m c)
theorem ra_15_2 : Wr2 m c (Proc.devRef .tc main_arg15) = (argsR m c).a15 :=
  (keepR1 (Wr1 m c) main_arg15 (by decide)).trans (ra_15_1 m c)
theorem ra_16_2 : Wr2 m c (Proc.devRef .tc main_arg16) = (argsR m c).a16 :=
  (keepR1 (Wr1 m c) main_arg16 (by decide)).trans (ra_16_1 m c)
theorem ra_17_2 : Wr2 m c (Proc.devRef .tc main_arg17) = (argsR m c).a17 :=
  (keepR1 (Wr1 m c) main_arg17 (by decide)).trans (ra_17_1 m c)
theorem ra_18_2 : Wr2 m c (Proc.devRef .tc main_arg18) = (argsR m c).a18 :=
  (keepR1 (Wr1 m c) main_arg18 (by decide)).trans (ra_18_1 m c)
theorem ra_19_2 : Wr2 m c (Proc.devRef .tc main_arg19) = (argsR m c).a19 :=
  (keepR1 (Wr1 m c) main_arg19 (by decide)).trans (ra_19_1 m c)
theorem ra_20_2 : Wr2 m c (Proc.devRef .tc main_arg20) = (argsR m c).a20 :=
  (keepR1 (Wr1 m c) main_arg20 (by decide)).trans (ra_20_1 m c)
theorem ra_25_2 : Wr2 m c (Proc.devRef .tc main_arg25) = (argsR m c).a25 :=
  (keepR1 (Wr1 m c) main_arg25 (by decide)).trans (ra_25_1 m c)
theorem ra_27_2 : Wr2 m c (Proc.devRef .tc main_arg27) = (argsR m c).a27 :=
  (keepR1 (Wr1 m c) main_arg27 (by decide)).trans (ra_27_1 m c)
theorem ra_21_2 : Wr2 m c (Proc.devRef .tc main_arg21) = (argsR m c).a21 :=
  (keepR1 (Wr1 m c) main_arg21 (by decide)).trans (ra_21_1 m c)
theorem ra_23_2 : Wr2 m c (Proc.devRef .tc main_arg23) = (argsR m c).a23 :=
  (keepR1 (Wr1 m c) main_arg23 (by decide)).trans (ra_23_1 m c)
theorem ra_26_2 : Wr2 m c (Proc.devRef .tc main_arg26) = (argsR m c).a26 :=
  (keepR1 (Wr1 m c) main_arg26 (by decide)).trans (ra_26_1 m c)
theorem ra_28_2 : Wr2 m c (Proc.devRef .tc main_arg28) = (argsR m c).a28 :=
  (keepR1 (Wr1 m c) main_arg28 (by decide)).trans (ra_28_1 m c)
theorem ra_22_2 : Wr2 m c (Proc.devRef .tc main_arg22) = (argsR m c).a22 :=
  (keepR1 (Wr1 m c) main_arg22 (by decide)).trans (ra_22_1 m c)
theorem ra_24_2 : Wr2 m c (Proc.devRef .tc main_arg24) = (argsR m c).a24 :=
  (keepR1 (Wr1 m c) main_arg24 (by decide)).trans (ra_24_1 m c)
theorem ra_29_2 : Wr2 m c (Proc.devRef .tc main_arg29) = (argsR m c).a29 :=
  (keepR1 (Wr1 m c) main_arg29 (by decide)).trans (ra_29_1 m c)
theorem ra_6_2 : Wr2 m c (Proc.devRef .tc main_arg6) = (argsR m c).a6 :=
  (keepR1 (Wr1 m c) main_arg6 (by decide)).trans (ra_6_1 m c)
theorem ra_7_2 : Wr2 m c (Proc.devRef .tc main_arg7) = (argsR m c).a7 :=
  (keepR1 (Wr1 m c) main_arg7 (by decide)).trans (ra_7_1 m c)
theorem ra_8_2 : Wr2 m c (Proc.devRef .tc main_arg8) = (argsR m c).a8 :=
  (keepR1 (Wr1 m c) main_arg8 (by decide)).trans (ra_8_1 m c)
theorem ra_9_2 : Wr2 m c (Proc.devRef .tc main_arg9) = (argsR m c).a9 :=
  (keepR1 (Wr1 m c) main_arg9 (by decide)).trans (ra_9_1 m c)
theorem ra_10_2 : Wr2 m c (Proc.devRef .tc main_arg10) = (argsR m c).a10 :=
  (keepR1 (Wr1 m c) main_arg10 (by decide)).trans (ra_10_1 m c)
theorem ra_11_2 : Wr2 m c (Proc.devRef .tc main_arg11) = (argsR m c).a11 :=
  (keepR1 (Wr1 m c) main_arg11 (by decide)).trans (ra_11_1 m c)
theorem ra_12_2 : Wr2 m c (Proc.devRef .tc main_arg12) = (argsR m c).a12 :=
  (keepR1 (Wr1 m c) main_arg12 (by decide)).trans (ra_12_1 m c)
theorem fr_main_v1_2 : Wr2 m c (Proc.devRef .tc main_v1) = Cert.Net.gv_0 (argsR m c) :=
  (keepR1 (Wr1 m c) main_v1 (by decide)).trans (fr_main_v1_1 m c)
theorem fr_main_v3_2 : Wr2 m c (Proc.devRef .tc main_v3) = Cert.Net.gv_1 (argsR m c) :=
  (keepR1 (Wr1 m c) main_v3 (by decide)).trans (fr_main_v3_1 m c)
theorem fr_main_v6_2 : Wr2 m c (Proc.devRef .tc main_v6) = Cert.Net.gv_3 (argsR m c) :=
  (keepR1 (Wr1 m c) main_v6 (by decide)).trans (fr_main_v6_1 m c)
theorem fr_main_v8_2 : Wr2 m c (Proc.devRef .tc main_v8) = Cert.Net.gv_5 (argsR m c) :=
  (keepR1 (Wr1 m c) main_v8 (by decide)).trans (fr_main_v8_1 m c)
theorem fr'_main_v64 : StableHlo.after R2 (Wr2 m c) (Proc.devRef .tc main_v64) = Cert.Net.gv_14 (argsR m c) :=
  (R2_main_v64 (Wr2 m c)).trans (by rw [fr_main_v3_2 m c, fr_main_v46_2 m c, fr_main_v1_2 m c]; rfl)
theorem fr_main_v64_3 : Wr3 m c (Proc.devRef .tc main_v64) = Cert.Net.gv_14 (argsR m c) := fr'_main_v64 m c
theorem fr'_main_v66 : StableHlo.after R2 (Wr2 m c) (Proc.devRef .tc main_v66) = Cert.Net.gv_15 (argsR m c) :=
  (R2_main_v66 (Wr2 m c)).trans (by rw [ra_6_2 m c]; rfl)
theorem fr_main_v66_3 : Wr3 m c (Proc.devRef .tc main_v66) = Cert.Net.gv_15 (argsR m c) := fr'_main_v66 m c
theorem fr'_main_v69 : StableHlo.after R2 (Wr2 m c) (Proc.devRef .tc main_v69) = Cert.Net.gv_16 (argsR m c) :=
  (R2_main_v69 (Wr2 m c)).trans (by rw [ra_7_2 m c]; rfl)
theorem fr_main_v69_3 : Wr3 m c (Proc.devRef .tc main_v69) = Cert.Net.gv_16 (argsR m c) := fr'_main_v69 m c
theorem fr'_main_v73 : StableHlo.after R2 (Wr2 m c) (Proc.devRef .tc main_v73) = Cert.Net.gv_17 (argsR m c) :=
  (R2_main_v73 (Wr2 m c)).trans (by rw [ra_8_2 m c]; rfl)
theorem fr_main_v73_3 : Wr3 m c (Proc.devRef .tc main_v73) = Cert.Net.gv_17 (argsR m c) := fr'_main_v73 m c
theorem fr'_main_v77 : StableHlo.after R2 (Wr2 m c) (Proc.devRef .tc main_v77) = Cert.Net.gv_18 (argsR m c) :=
  (R2_main_v77 (Wr2 m c)).trans (by rw [fr_main_v46_2 m c, fr'_main_v66 m c, fr'_main_v64 m c, fr'_main_v69 m c, fr'_main_v73 m c]; rfl)
theorem fr_main_v77_3 : Wr3 m c (Proc.devRef .tc main_v77) = Cert.Net.gv_18 (argsR m c) := fr'_main_v77 m c
theorem ra_32_3 : Wr3 m c (Proc.devRef .tc main_arg32) = (argsR m c).a32 :=
  (keepR2 (Wr2 m c) main_arg32 (by decide)).trans (ra_32_2 m c)
theorem ra_33_3 : Wr3 m c (Proc.devRef .tc main_arg33) = (argsR m c).a33 :=
  (keepR2 (Wr2 m c) main_arg33 (by decide)).trans (ra_33_2 m c)
theorem ra_30_3 : Wr3 m c (Proc.devRef .tc main_arg30) = (argsR m c).a30 :=
  (keepR2 (Wr2 m c) main_arg30 (by decide)).trans (ra_30_2 m c)
theorem ra_31_3 : Wr3 m c (Proc.devRef .tc main_arg31) = (argsR m c).a31 :=
  (keepR2 (Wr2 m c) main_arg31 (by decide)).trans (ra_31_2 m c)
theorem ra_2_3 : Wr3 m c (Proc.devRef .tc main_arg2) = (argsR m c).a2 :=
  (keepR2 (Wr2 m c) main_arg2 (by decide)).trans (ra_2_2 m c)
theorem ra_13_3 : Wr3 m c (Proc.devRef .tc main_arg13) = (argsR m c).a13 :=
  (keepR2 (Wr2 m c) main_arg13 (by decide)).trans (ra_13_2 m c)
theorem ra_14_3 : Wr3 m c (Proc.devRef .tc main_arg14) = (argsR m c).a14 :=
  (keepR2 (Wr2 m c) main_arg14 (by decide)).trans (ra_14_2 m c)
theorem ra_15_3 : Wr3 m c (Proc.devRef .tc main_arg15) = (argsR m c).a15 :=
  (keepR2 (Wr2 m c) main_arg15 (by decide)).trans (ra_15_2 m c)
theorem ra_16_3 : Wr3 m c (Proc.devRef .tc main_arg16) = (argsR m c).a16 :=
  (keepR2 (Wr2 m c) main_arg16 (by decide)).trans (ra_16_2 m c)
theorem ra_17_3 : Wr3 m c (Proc.devRef .tc main_arg17) = (argsR m c).a17 :=
  (keepR2 (Wr2 m c) main_arg17 (by decide)).trans (ra_17_2 m c)
theorem ra_18_3 : Wr3 m c (Proc.devRef .tc main_arg18) = (argsR m c).a18 :=
  (keepR2 (Wr2 m c) main_arg18 (by decide)).trans (ra_18_2 m c)
theorem ra_19_3 : Wr3 m c (Proc.devRef .tc main_arg19) = (argsR m c).a19 :=
  (keepR2 (Wr2 m c) main_arg19 (by decide)).trans (ra_19_2 m c)
theorem ra_20_3 : Wr3 m c (Proc.devRef .tc main_arg20) = (argsR m c).a20 :=
  (keepR2 (Wr2 m c) main_arg20 (by decide)).trans (ra_20_2 m c)
theorem ra_25_3 : Wr3 m c (Proc.devRef .tc main_arg25) = (argsR m c).a25 :=
  (keepR2 (Wr2 m c) main_arg25 (by decide)).trans (ra_25_2 m c)
theorem ra_27_3 : Wr3 m c (Proc.devRef .tc main_arg27) = (argsR m c).a27 :=
  (keepR2 (Wr2 m c) main_arg27 (by decide)).trans (ra_27_2 m c)
theorem ra_21_3 : Wr3 m c (Proc.devRef .tc main_arg21) = (argsR m c).a21 :=
  (keepR2 (Wr2 m c) main_arg21 (by decide)).trans (ra_21_2 m c)
theorem ra_23_3 : Wr3 m c (Proc.devRef .tc main_arg23) = (argsR m c).a23 :=
  (keepR2 (Wr2 m c) main_arg23 (by decide)).trans (ra_23_2 m c)
theorem ra_26_3 : Wr3 m c (Proc.devRef .tc main_arg26) = (argsR m c).a26 :=
  (keepR2 (Wr2 m c) main_arg26 (by decide)).trans (ra_26_2 m c)
theorem ra_28_3 : Wr3 m c (Proc.devRef .tc main_arg28) = (argsR m c).a28 :=
  (keepR2 (Wr2 m c) main_arg28 (by decide)).trans (ra_28_2 m c)
theorem ra_22_3 : Wr3 m c (Proc.devRef .tc main_arg22) = (argsR m c).a22 :=
  (keepR2 (Wr2 m c) main_arg22 (by decide)).trans (ra_22_2 m c)
theorem ra_24_3 : Wr3 m c (Proc.devRef .tc main_arg24) = (argsR m c).a24 :=
  (keepR2 (Wr2 m c) main_arg24 (by decide)).trans (ra_24_2 m c)
theorem ra_29_3 : Wr3 m c (Proc.devRef .tc main_arg29) = (argsR m c).a29 :=
  (keepR2 (Wr2 m c) main_arg29 (by decide)).trans (ra_29_2 m c)
theorem ra_9_3 : Wr3 m c (Proc.devRef .tc main_arg9) = (argsR m c).a9 :=
  (keepR2 (Wr2 m c) main_arg9 (by decide)).trans (ra_9_2 m c)
theorem ra_10_3 : Wr3 m c (Proc.devRef .tc main_arg10) = (argsR m c).a10 :=
  (keepR2 (Wr2 m c) main_arg10 (by decide)).trans (ra_10_2 m c)
theorem ra_11_3 : Wr3 m c (Proc.devRef .tc main_arg11) = (argsR m c).a11 :=
  (keepR2 (Wr2 m c) main_arg11 (by decide)).trans (ra_11_2 m c)
theorem ra_12_3 : Wr3 m c (Proc.devRef .tc main_arg12) = (argsR m c).a12 :=
  (keepR2 (Wr2 m c) main_arg12 (by decide)).trans (ra_12_2 m c)
theorem fr_main_v1_3 : Wr3 m c (Proc.devRef .tc main_v1) = Cert.Net.gv_0 (argsR m c) :=
  (keepR2 (Wr2 m c) main_v1 (by decide)).trans (fr_main_v1_2 m c)
theorem fr_main_v3_3 : Wr3 m c (Proc.devRef .tc main_v3) = Cert.Net.gv_1 (argsR m c) :=
  (keepR2 (Wr2 m c) main_v3 (by decide)).trans (fr_main_v3_2 m c)
theorem fr_main_v6_3 : Wr3 m c (Proc.devRef .tc main_v6) = Cert.Net.gv_3 (argsR m c) :=
  (keepR2 (Wr2 m c) main_v6 (by decide)).trans (fr_main_v6_2 m c)
theorem fr_main_v8_3 : Wr3 m c (Proc.devRef .tc main_v8) = Cert.Net.gv_5 (argsR m c) :=
  (keepR2 (Wr2 m c) main_v8 (by decide)).trans (fr_main_v8_2 m c)
theorem fr_main_v14_3 : Wr3 m c (Proc.devRef .tc main_v14) = Cert.Net.gv_7 (argsR m c) :=
  (keepR2 (Wr2 m c) main_v14 (by decide)).trans (fr_main_v14_2 m c)
theorem fr_main_v15_3 : Wr3 m c (Proc.devRef .tc main_v15) = Cert.Net.gv_8 (argsR m c) :=
  (keepR2 (Wr2 m c) main_v15 (by decide)).trans (fr_main_v15_2 m c)
theorem fr'_main_v79 : StableHlo.after R3 (Wr3 m c) (Proc.devRef .tc main_v79) = Cert.Net.gv_19 (argsR m c) :=
  (R3_main_v79 (Wr3 m c)).trans (by rw [ra_9_3 m c]; rfl)
theorem fr_main_v79_4 : Wr4 m c (Proc.devRef .tc main_v79) = Cert.Net.gv_19 (argsR m c) := fr'_main_v79 m c
theorem fr'_main_v82 : StableHlo.after R3 (Wr3 m c) (Proc.devRef .tc main_v82) = Cert.Net.gv_20 (argsR m c) :=
  (R3_main_v82 (Wr3 m c)).trans (by rw [ra_10_3 m c]; rfl)
theorem fr_main_v82_4 : Wr4 m c (Proc.devRef .tc main_v82) = Cert.Net.gv_20 (argsR m c) := fr'_main_v82 m c
theorem fr'_main_call4_v0 : StableHlo.after R3 (Wr3 m c) (Proc.devRef .tc main_call4_v0) = Cert.Net.gv_7 (argsR m c) :=
  (R3_main_call4_v0 (Wr3 m c)).trans (by rfl)
theorem fr_main_call4_v0_4 : Wr4 m c (Proc.devRef .tc main_call4_v0) = Cert.Net.gv_7 (argsR m c) := fr'_main_call4_v0 m c
theorem fr'_main_v86 : StableHlo.after R3 (Wr3 m c) (Proc.devRef .tc main_v86) = Cert.Net.gv_21 (argsR m c) :=
  (R3_main_v86 (Wr3 m c)).trans (by rw [fr_main_v14_3 m c, fr'_main_v79 m c, fr'_main_v82 m c, fr'_main_call4_v0 m c]; rfl)
theorem fr_main_v86_4 : Wr4 m c (Proc.devRef .tc main_v86) = Cert.Net.gv_21 (argsR m c) := fr'_main_v86 m c
theorem ra_32_4 : Wr4 m c (Proc.devRef .tc main_arg32) = (argsR m c).a32 :=
  (keepR3 (Wr3 m c) main_arg32 (by decide)).trans (ra_32_3 m c)
theorem ra_33_4 : Wr4 m c (Proc.devRef .tc main_arg33) = (argsR m c).a33 :=
  (keepR3 (Wr3 m c) main_arg33 (by decide)).trans (ra_33_3 m c)
theorem ra_30_4 : Wr4 m c (Proc.devRef .tc main_arg30) = (argsR m c).a30 :=
  (keepR3 (Wr3 m c) main_arg30 (by decide)).trans (ra_30_3 m c)
theorem ra_31_4 : Wr4 m c (Proc.devRef .tc main_arg31) = (argsR m c).a31 :=
  (keepR3 (Wr3 m c) main_arg31 (by decide)).trans (ra_31_3 m c)
theorem ra_2_4 : Wr4 m c (Proc.devRef .tc main_arg2) = (argsR m c).a2 :=
  (keepR3 (Wr3 m c) main_arg2 (by decide)).trans (ra_2_3 m c)
theorem ra_13_4 : Wr4 m c (Proc.devRef .tc main_arg13) = (argsR m c).a13 :=
  (keepR3 (Wr3 m c) main_arg13 (by decide)).trans (ra_13_3 m c)
theorem ra_14_4 : Wr4 m c (Proc.devRef .tc main_arg14) = (argsR m c).a14 :=
  (keepR3 (Wr3 m c) main_arg14 (by decide)).trans (ra_14_3 m c)
theorem ra_15_4 : Wr4 m c (Proc.devRef .tc main_arg15) = (argsR m c).a15 :=
  (keepR3 (Wr3 m c) main_arg15 (by decide)).trans (ra_15_3 m c)
theorem ra_16_4 : Wr4 m c (Proc.devRef .tc main_arg16) = (argsR m c).a16 :=
  (keepR3 (Wr3 m c) main_arg16 (by decide)).trans (ra_16_3 m c)
theorem ra_17_4 : Wr4 m c (Proc.devRef .tc main_arg17) = (argsR m c).a17 :=
  (keepR3 (Wr3 m c) main_arg17 (by decide)).trans (ra_17_3 m c)
theorem ra_18_4 : Wr4 m c (Proc.devRef .tc main_arg18) = (argsR m c).a18 :=
  (keepR3 (Wr3 m c) main_arg18 (by decide)).trans (ra_18_3 m c)
theorem ra_19_4 : Wr4 m c (Proc.devRef .tc main_arg19) = (argsR m c).a19 :=
  (keepR3 (Wr3 m c) main_arg19 (by decide)).trans (ra_19_3 m c)
theorem ra_20_4 : Wr4 m c (Proc.devRef .tc main_arg20) = (argsR m c).a20 :=
  (keepR3 (Wr3 m c) main_arg20 (by decide)).trans (ra_20_3 m c)
theorem ra_25_4 : Wr4 m c (Proc.devRef .tc main_arg25) = (argsR m c).a25 :=
  (keepR3 (Wr3 m c) main_arg25 (by decide)).trans (ra_25_3 m c)
theorem ra_27_4 : Wr4 m c (Proc.devRef .tc main_arg27) = (argsR m c).a27 :=
  (keepR3 (Wr3 m c) main_arg27 (by decide)).trans (ra_27_3 m c)
theorem ra_21_4 : Wr4 m c (Proc.devRef .tc main_arg21) = (argsR m c).a21 :=
  (keepR3 (Wr3 m c) main_arg21 (by decide)).trans (ra_21_3 m c)
theorem ra_23_4 : Wr4 m c (Proc.devRef .tc main_arg23) = (argsR m c).a23 :=
  (keepR3 (Wr3 m c) main_arg23 (by decide)).trans (ra_23_3 m c)
theorem ra_26_4 : Wr4 m c (Proc.devRef .tc main_arg26) = (argsR m c).a26 :=
  (keepR3 (Wr3 m c) main_arg26 (by decide)).trans (ra_26_3 m c)
theorem ra_28_4 : Wr4 m c (Proc.devRef .tc main_arg28) = (argsR m c).a28 :=
  (keepR3 (Wr3 m c) main_arg28 (by decide)).trans (ra_28_3 m c)
theorem ra_22_4 : Wr4 m c (Proc.devRef .tc main_arg22) = (argsR m c).a22 :=
  (keepR3 (Wr3 m c) main_arg22 (by decide)).trans (ra_22_3 m c)
theorem ra_24_4 : Wr4 m c (Proc.devRef .tc main_arg24) = (argsR m c).a24 :=
  (keepR3 (Wr3 m c) main_arg24 (by decide)).trans (ra_24_3 m c)
theorem ra_29_4 : Wr4 m c (Proc.devRef .tc main_arg29) = (argsR m c).a29 :=
  (keepR3 (Wr3 m c) main_arg29 (by decide)).trans (ra_29_3 m c)
theorem ra_9_4 : Wr4 m c (Proc.devRef .tc main_arg9) = (argsR m c).a9 :=
  (keepR3 (Wr3 m c) main_arg9 (by decide)).trans (ra_9_3 m c)
theorem ra_10_4 : Wr4 m c (Proc.devRef .tc main_arg10) = (argsR m c).a10 :=
  (keepR3 (Wr3 m c) main_arg10 (by decide)).trans (ra_10_3 m c)
theorem ra_11_4 : Wr4 m c (Proc.devRef .tc main_arg11) = (argsR m c).a11 :=
  (keepR3 (Wr3 m c) main_arg11 (by decide)).trans (ra_11_3 m c)
theorem ra_12_4 : Wr4 m c (Proc.devRef .tc main_arg12) = (argsR m c).a12 :=
  (keepR3 (Wr3 m c) main_arg12 (by decide)).trans (ra_12_3 m c)
theorem fr_main_v1_4 : Wr4 m c (Proc.devRef .tc main_v1) = Cert.Net.gv_0 (argsR m c) :=
  (keepR3 (Wr3 m c) main_v1 (by decide)).trans (fr_main_v1_3 m c)
theorem fr_main_v3_4 : Wr4 m c (Proc.devRef .tc main_v3) = Cert.Net.gv_1 (argsR m c) :=
  (keepR3 (Wr3 m c) main_v3 (by decide)).trans (fr_main_v3_3 m c)
theorem fr_main_v6_4 : Wr4 m c (Proc.devRef .tc main_v6) = Cert.Net.gv_3 (argsR m c) :=
  (keepR3 (Wr3 m c) main_v6 (by decide)).trans (fr_main_v6_3 m c)
theorem fr_main_v8_4 : Wr4 m c (Proc.devRef .tc main_v8) = Cert.Net.gv_5 (argsR m c) :=
  (keepR3 (Wr3 m c) main_v8 (by decide)).trans (fr_main_v8_3 m c)
theorem fr_main_v15_4 : Wr4 m c (Proc.devRef .tc main_v15) = Cert.Net.gv_8 (argsR m c) :=
  (keepR3 (Wr3 m c) main_v15 (by decide)).trans (fr_main_v15_3 m c)
theorem fr_main_v77_4 : Wr4 m c (Proc.devRef .tc main_v77) = Cert.Net.gv_18 (argsR m c) :=
  (keepR3 (Wr3 m c) main_v77 (by decide)).trans (fr_main_v77_3 m c)
theorem fr'_main_v88 : StableHlo.after R4 (Wr4 m c) (Proc.devRef .tc main_v88) = Cert.Net.gv_22 (argsR m c) :=
  (R4_main_v88 (Wr4 m c)).trans (by rw [ra_9_4 m c]; rfl)
theorem fr_main_v88_5 : Wr5 m c (Proc.devRef .tc main_v88) = Cert.Net.gv_22 (argsR m c) := fr'_main_v88 m c
theorem fr'_main_v91 : StableHlo.after R4 (Wr4 m c) (Proc.devRef .tc main_v91) = Cert.Net.gv_23 (argsR m c) :=
  (R4_main_v91 (Wr4 m c)).trans (by rw [ra_10_4 m c]; rfl)
theorem fr_main_v91_5 : Wr5 m c (Proc.devRef .tc main_v91) = Cert.Net.gv_23 (argsR m c) := fr'_main_v91 m c
theorem fr'_main_call5_v0 : StableHlo.after R4 (Wr4 m c) (Proc.devRef .tc main_call5_v0) = Cert.Net.gv_7 (argsR m c) :=
  (R4_main_call5_v0 (Wr4 m c)).trans (by rfl)
theorem fr_main_call5_v0_5 : Wr5 m c (Proc.devRef .tc main_call5_v0) = Cert.Net.gv_7 (argsR m c) := fr'_main_call5_v0 m c
theorem fr'_main_v95 : StableHlo.after R4 (Wr4 m c) (Proc.devRef .tc main_v95) = Cert.Net.gv_24 (argsR m c) :=
  (R4_main_v95 (Wr4 m c)).trans (by rw [fr_main_v86_4 m c, fr'_main_v88 m c, fr'_main_v91 m c, fr'_main_call5_v0 m c]; rfl)
theorem fr_main_v95_5 : Wr5 m c (Proc.devRef .tc main_v95) = Cert.Net.gv_24 (argsR m c) := fr'_main_v95 m c
theorem ra_32_5 : Wr5 m c (Proc.devRef .tc main_arg32) = (argsR m c).a32 :=
  (keepR4 (Wr4 m c) main_arg32 (by decide)).trans (ra_32_4 m c)
theorem ra_33_5 : Wr5 m c (Proc.devRef .tc main_arg33) = (argsR m c).a33 :=
  (keepR4 (Wr4 m c) main_arg33 (by decide)).trans (ra_33_4 m c)
theorem ra_30_5 : Wr5 m c (Proc.devRef .tc main_arg30) = (argsR m c).a30 :=
  (keepR4 (Wr4 m c) main_arg30 (by decide)).trans (ra_30_4 m c)
theorem ra_31_5 : Wr5 m c (Proc.devRef .tc main_arg31) = (argsR m c).a31 :=
  (keepR4 (Wr4 m c) main_arg31 (by decide)).trans (ra_31_4 m c)
theorem ra_2_5 : Wr5 m c (Proc.devRef .tc main_arg2) = (argsR m c).a2 :=
  (keepR4 (Wr4 m c) main_arg2 (by decide)).trans (ra_2_4 m c)
theorem ra_13_5 : Wr5 m c (Proc.devRef .tc main_arg13) = (argsR m c).a13 :=
  (keepR4 (Wr4 m c) main_arg13 (by decide)).trans (ra_13_4 m c)
theorem ra_14_5 : Wr5 m c (Proc.devRef .tc main_arg14) = (argsR m c).a14 :=
  (keepR4 (Wr4 m c) main_arg14 (by decide)).trans (ra_14_4 m c)
theorem ra_15_5 : Wr5 m c (Proc.devRef .tc main_arg15) = (argsR m c).a15 :=
  (keepR4 (Wr4 m c) main_arg15 (by decide)).trans (ra_15_4 m c)
theorem ra_16_5 : Wr5 m c (Proc.devRef .tc main_arg16) = (argsR m c).a16 :=
  (keepR4 (Wr4 m c) main_arg16 (by decide)).trans (ra_16_4 m c)
theorem ra_17_5 : Wr5 m c (Proc.devRef .tc main_arg17) = (argsR m c).a17 :=
  (keepR4 (Wr4 m c) main_arg17 (by decide)).trans (ra_17_4 m c)
theorem ra_18_5 : Wr5 m c (Proc.devRef .tc main_arg18) = (argsR m c).a18 :=
  (keepR4 (Wr4 m c) main_arg18 (by decide)).trans (ra_18_4 m c)
theorem ra_19_5 : Wr5 m c (Proc.devRef .tc main_arg19) = (argsR m c).a19 :=
  (keepR4 (Wr4 m c) main_arg19 (by decide)).trans (ra_19_4 m c)
theorem ra_20_5 : Wr5 m c (Proc.devRef .tc main_arg20) = (argsR m c).a20 :=
  (keepR4 (Wr4 m c) main_arg20 (by decide)).trans (ra_20_4 m c)
theorem ra_25_5 : Wr5 m c (Proc.devRef .tc main_arg25) = (argsR m c).a25 :=
  (keepR4 (Wr4 m c) main_arg25 (by decide)).trans (ra_25_4 m c)
theorem ra_27_5 : Wr5 m c (Proc.devRef .tc main_arg27) = (argsR m c).a27 :=
  (keepR4 (Wr4 m c) main_arg27 (by decide)).trans (ra_27_4 m c)
theorem ra_21_5 : Wr5 m c (Proc.devRef .tc main_arg21) = (argsR m c).a21 :=
  (keepR4 (Wr4 m c) main_arg21 (by decide)).trans (ra_21_4 m c)
theorem ra_23_5 : Wr5 m c (Proc.devRef .tc main_arg23) = (argsR m c).a23 :=
  (keepR4 (Wr4 m c) main_arg23 (by decide)).trans (ra_23_4 m c)
theorem ra_26_5 : Wr5 m c (Proc.devRef .tc main_arg26) = (argsR m c).a26 :=
  (keepR4 (Wr4 m c) main_arg26 (by decide)).trans (ra_26_4 m c)
theorem ra_28_5 : Wr5 m c (Proc.devRef .tc main_arg28) = (argsR m c).a28 :=
  (keepR4 (Wr4 m c) main_arg28 (by decide)).trans (ra_28_4 m c)
theorem ra_22_5 : Wr5 m c (Proc.devRef .tc main_arg22) = (argsR m c).a22 :=
  (keepR4 (Wr4 m c) main_arg22 (by decide)).trans (ra_22_4 m c)
theorem ra_24_5 : Wr5 m c (Proc.devRef .tc main_arg24) = (argsR m c).a24 :=
  (keepR4 (Wr4 m c) main_arg24 (by decide)).trans (ra_24_4 m c)
theorem ra_29_5 : Wr5 m c (Proc.devRef .tc main_arg29) = (argsR m c).a29 :=
  (keepR4 (Wr4 m c) main_arg29 (by decide)).trans (ra_29_4 m c)
theorem ra_11_5 : Wr5 m c (Proc.devRef .tc main_arg11) = (argsR m c).a11 :=
  (keepR4 (Wr4 m c) main_arg11 (by decide)).trans (ra_11_4 m c)
theorem ra_12_5 : Wr5 m c (Proc.devRef .tc main_arg12) = (argsR m c).a12 :=
  (keepR4 (Wr4 m c) main_arg12 (by decide)).trans (ra_12_4 m c)
theorem fr_main_v1_5 : Wr5 m c (Proc.devRef .tc main_v1) = Cert.Net.gv_0 (argsR m c) :=
  (keepR4 (Wr4 m c) main_v1 (by decide)).trans (fr_main_v1_4 m c)
theorem fr_main_v3_5 : Wr5 m c (Proc.devRef .tc main_v3) = Cert.Net.gv_1 (argsR m c) :=
  (keepR4 (Wr4 m c) main_v3 (by decide)).trans (fr_main_v3_4 m c)
theorem fr_main_v6_5 : Wr5 m c (Proc.devRef .tc main_v6) = Cert.Net.gv_3 (argsR m c) :=
  (keepR4 (Wr4 m c) main_v6 (by decide)).trans (fr_main_v6_4 m c)
theorem fr_main_v8_5 : Wr5 m c (Proc.devRef .tc main_v8) = Cert.Net.gv_5 (argsR m c) :=
  (keepR4 (Wr4 m c) main_v8 (by decide)).trans (fr_main_v8_4 m c)
theorem fr_main_v15_5 : Wr5 m c (Proc.devRef .tc main_v15) = Cert.Net.gv_8 (argsR m c) :=
  (keepR4 (Wr4 m c) main_v15 (by decide)).trans (fr_main_v15_4 m c)
theorem fr_main_v77_5 : Wr5 m c (Proc.devRef .tc main_v77) = Cert.Net.gv_18 (argsR m c) :=
  (keepR4 (Wr4 m c) main_v77 (by decide)).trans (fr_main_v77_4 m c)
theorem fr'_main_v97 : StableHlo.after R5 (Wr5 m c) (Proc.devRef .tc main_v97) = Cert.Net.gv_25 (argsR m c) :=
  (R5_main_v97 (Wr5 m c)).trans (by rw [ra_11_5 m c]; rfl)
theorem fr_main_v97_6 : Wr6 m c (Proc.devRef .tc main_v97) = Cert.Net.gv_25 (argsR m c) := fr'_main_v97 m c
theorem fr'_main_v100 : StableHlo.after R5 (Wr5 m c) (Proc.devRef .tc main_v100) = Cert.Net.gv_26 (argsR m c) :=
  (R5_main_v100 (Wr5 m c)).trans (by rw [ra_12_5 m c]; rfl)
theorem fr_main_v100_6 : Wr6 m c (Proc.devRef .tc main_v100) = Cert.Net.gv_26 (argsR m c) := fr'_main_v100 m c
theorem fr'_main_call6_v0 : StableHlo.after R5 (Wr5 m c) (Proc.devRef .tc main_call6_v0) = Cert.Net.gv_8 (argsR m c) :=
  (R5_main_call6_v0 (Wr5 m c)).trans (by rfl)
theorem fr_main_call6_v0_6 : Wr6 m c (Proc.devRef .tc main_call6_v0) = Cert.Net.gv_8 (argsR m c) := fr'_main_call6_v0 m c
theorem fr'_main_v104 : StableHlo.after R5 (Wr5 m c) (Proc.devRef .tc main_v104) = Cert.Net.gv_27 (argsR m c) :=
  (R5_main_v104 (Wr5 m c)).trans (by rw [fr_main_v15_5 m c, fr'_main_v97 m c, fr'_main_v100 m c, fr'_main_call6_v0 m c]; rfl)
theorem fr_main_v104_6 : Wr6 m c (Proc.devRef .tc main_v104) = Cert.Net.gv_27 (argsR m c) := fr'_main_v104 m c
theorem ra_32_6 : Wr6 m c (Proc.devRef .tc main_arg32) = (argsR m c).a32 :=
  (keepR5 (Wr5 m c) main_arg32 (by decide)).trans (ra_32_5 m c)
theorem ra_33_6 : Wr6 m c (Proc.devRef .tc main_arg33) = (argsR m c).a33 :=
  (keepR5 (Wr5 m c) main_arg33 (by decide)).trans (ra_33_5 m c)
theorem ra_30_6 : Wr6 m c (Proc.devRef .tc main_arg30) = (argsR m c).a30 :=
  (keepR5 (Wr5 m c) main_arg30 (by decide)).trans (ra_30_5 m c)
theorem ra_31_6 : Wr6 m c (Proc.devRef .tc main_arg31) = (argsR m c).a31 :=
  (keepR5 (Wr5 m c) main_arg31 (by decide)).trans (ra_31_5 m c)
theorem ra_2_6 : Wr6 m c (Proc.devRef .tc main_arg2) = (argsR m c).a2 :=
  (keepR5 (Wr5 m c) main_arg2 (by decide)).trans (ra_2_5 m c)
theorem ra_13_6 : Wr6 m c (Proc.devRef .tc main_arg13) = (argsR m c).a13 :=
  (keepR5 (Wr5 m c) main_arg13 (by decide)).trans (ra_13_5 m c)
theorem ra_14_6 : Wr6 m c (Proc.devRef .tc main_arg14) = (argsR m c).a14 :=
  (keepR5 (Wr5 m c) main_arg14 (by decide)).trans (ra_14_5 m c)
theorem ra_15_6 : Wr6 m c (Proc.devRef .tc main_arg15) = (argsR m c).a15 :=
  (keepR5 (Wr5 m c) main_arg15 (by decide)).trans (ra_15_5 m c)
theorem ra_16_6 : Wr6 m c (Proc.devRef .tc main_arg16) = (argsR m c).a16 :=
  (keepR5 (Wr5 m c) main_arg16 (by decide)).trans (ra_16_5 m c)
theorem ra_17_6 : Wr6 m c (Proc.devRef .tc main_arg17) = (argsR m c).a17 :=
  (keepR5 (Wr5 m c) main_arg17 (by decide)).trans (ra_17_5 m c)
theorem ra_18_6 : Wr6 m c (Proc.devRef .tc main_arg18) = (argsR m c).a18 :=
  (keepR5 (Wr5 m c) main_arg18 (by decide)).trans (ra_18_5 m c)
theorem ra_19_6 : Wr6 m c (Proc.devRef .tc main_arg19) = (argsR m c).a19 :=
  (keepR5 (Wr5 m c) main_arg19 (by decide)).trans (ra_19_5 m c)
theorem ra_20_6 : Wr6 m c (Proc.devRef .tc main_arg20) = (argsR m c).a20 :=
  (keepR5 (Wr5 m c) main_arg20 (by decide)).trans (ra_20_5 m c)
theorem ra_25_6 : Wr6 m c (Proc.devRef .tc main_arg25) = (argsR m c).a25 :=
  (keepR5 (Wr5 m c) main_arg25 (by decide)).trans (ra_25_5 m c)
theorem ra_27_6 : Wr6 m c (Proc.devRef .tc main_arg27) = (argsR m c).a27 :=
  (keepR5 (Wr5 m c) main_arg27 (by decide)).trans (ra_27_5 m c)
theorem ra_21_6 : Wr6 m c (Proc.devRef .tc main_arg21) = (argsR m c).a21 :=
  (keepR5 (Wr5 m c) main_arg21 (by decide)).trans (ra_21_5 m c)
theorem ra_23_6 : Wr6 m c (Proc.devRef .tc main_arg23) = (argsR m c).a23 :=
  (keepR5 (Wr5 m c) main_arg23 (by decide)).trans (ra_23_5 m c)
theorem ra_26_6 : Wr6 m c (Proc.devRef .tc main_arg26) = (argsR m c).a26 :=
  (keepR5 (Wr5 m c) main_arg26 (by decide)).trans (ra_26_5 m c)
theorem ra_28_6 : Wr6 m c (Proc.devRef .tc main_arg28) = (argsR m c).a28 :=
  (keepR5 (Wr5 m c) main_arg28 (by decide)).trans (ra_28_5 m c)
theorem ra_22_6 : Wr6 m c (Proc.devRef .tc main_arg22) = (argsR m c).a22 :=
  (keepR5 (Wr5 m c) main_arg22 (by decide)).trans (ra_22_5 m c)
theorem ra_24_6 : Wr6 m c (Proc.devRef .tc main_arg24) = (argsR m c).a24 :=
  (keepR5 (Wr5 m c) main_arg24 (by decide)).trans (ra_24_5 m c)
theorem ra_29_6 : Wr6 m c (Proc.devRef .tc main_arg29) = (argsR m c).a29 :=
  (keepR5 (Wr5 m c) main_arg29 (by decide)).trans (ra_29_5 m c)
theorem ra_11_6 : Wr6 m c (Proc.devRef .tc main_arg11) = (argsR m c).a11 :=
  (keepR5 (Wr5 m c) main_arg11 (by decide)).trans (ra_11_5 m c)
theorem ra_12_6 : Wr6 m c (Proc.devRef .tc main_arg12) = (argsR m c).a12 :=
  (keepR5 (Wr5 m c) main_arg12 (by decide)).trans (ra_12_5 m c)
theorem fr_main_v1_6 : Wr6 m c (Proc.devRef .tc main_v1) = Cert.Net.gv_0 (argsR m c) :=
  (keepR5 (Wr5 m c) main_v1 (by decide)).trans (fr_main_v1_5 m c)
theorem fr_main_v3_6 : Wr6 m c (Proc.devRef .tc main_v3) = Cert.Net.gv_1 (argsR m c) :=
  (keepR5 (Wr5 m c) main_v3 (by decide)).trans (fr_main_v3_5 m c)
theorem fr_main_v6_6 : Wr6 m c (Proc.devRef .tc main_v6) = Cert.Net.gv_3 (argsR m c) :=
  (keepR5 (Wr5 m c) main_v6 (by decide)).trans (fr_main_v6_5 m c)
theorem fr_main_v8_6 : Wr6 m c (Proc.devRef .tc main_v8) = Cert.Net.gv_5 (argsR m c) :=
  (keepR5 (Wr5 m c) main_v8 (by decide)).trans (fr_main_v8_5 m c)
theorem fr_main_v77_6 : Wr6 m c (Proc.devRef .tc main_v77) = Cert.Net.gv_18 (argsR m c) :=
  (keepR5 (Wr5 m c) main_v77 (by decide)).trans (fr_main_v77_5 m c)
theorem fr_main_v95_6 : Wr6 m c (Proc.devRef .tc main_v95) = Cert.Net.gv_24 (argsR m c) :=
  (keepR5 (Wr5 m c) main_v95 (by decide)).trans (fr_main_v95_5 m c)
theorem fr'_main_v106 : StableHlo.after R6 (Wr6 m c) (Proc.devRef .tc main_v106) = Cert.Net.gv_28 (argsR m c) :=
  (R6_main_v106 (Wr6 m c)).trans (by rw [ra_11_6 m c]; rfl)
theorem fr_main_v106_7 : Wr7 m c (Proc.devRef .tc main_v106) = Cert.Net.gv_28 (argsR m c) := fr'_main_v106 m c
theorem fr'_main_v109 : StableHlo.after R6 (Wr6 m c) (Proc.devRef .tc main_v109) = Cert.Net.gv_29 (argsR m c) :=
  (R6_main_v109 (Wr6 m c)).trans (by rw [ra_12_6 m c]; rfl)
theorem fr_main_v109_7 : Wr7 m c (Proc.devRef .tc main_v109) = Cert.Net.gv_29 (argsR m c) := fr'_main_v109 m c
theorem fr'_main_call7_v0 : StableHlo.after R6 (Wr6 m c) (Proc.devRef .tc main_call7_v0) = Cert.Net.gv_8 (argsR m c) :=
  (R6_main_call7_v0 (Wr6 m c)).trans (by rfl)
theorem fr_main_call7_v0_7 : Wr7 m c (Proc.devRef .tc main_call7_v0) = Cert.Net.gv_8 (argsR m c) := fr'_main_call7_v0 m c
theorem fr'_main_v113 : StableHlo.after R6 (Wr6 m c) (Proc.devRef .tc main_v113) = Cert.Net.gv_30 (argsR m c) :=
  (R6_main_v113 (Wr6 m c)).trans (by rw [fr_main_v104_6 m c, fr'_main_v106 m c, fr'_main_v109 m c, fr'_main_call7_v0 m c]; rfl)
theorem fr_main_v113_7 : Wr7 m c (Proc.devRef .tc main_v113) = Cert.Net.gv_30 (argsR m c) := fr'_main_v113 m c
theorem ra_32_7 : Wr7 m c (Proc.devRef .tc main_arg32) = (argsR m c).a32 :=
  (keepR6 (Wr6 m c) main_arg32 (by decide)).trans (ra_32_6 m c)
theorem ra_33_7 : Wr7 m c (Proc.devRef .tc main_arg33) = (argsR m c).a33 :=
  (keepR6 (Wr6 m c) main_arg33 (by decide)).trans (ra_33_6 m c)
theorem ra_30_7 : Wr7 m c (Proc.devRef .tc main_arg30) = (argsR m c).a30 :=
  (keepR6 (Wr6 m c) main_arg30 (by decide)).trans (ra_30_6 m c)
theorem ra_31_7 : Wr7 m c (Proc.devRef .tc main_arg31) = (argsR m c).a31 :=
  (keepR6 (Wr6 m c) main_arg31 (by decide)).trans (ra_31_6 m c)
theorem ra_2_7 : Wr7 m c (Proc.devRef .tc main_arg2) = (argsR m c).a2 :=
  (keepR6 (Wr6 m c) main_arg2 (by decide)).trans (ra_2_6 m c)
theorem ra_13_7 : Wr7 m c (Proc.devRef .tc main_arg13) = (argsR m c).a13 :=
  (keepR6 (Wr6 m c) main_arg13 (by decide)).trans (ra_13_6 m c)
theorem ra_14_7 : Wr7 m c (Proc.devRef .tc main_arg14) = (argsR m c).a14 :=
  (keepR6 (Wr6 m c) main_arg14 (by decide)).trans (ra_14_6 m c)
theorem ra_15_7 : Wr7 m c (Proc.devRef .tc main_arg15) = (argsR m c).a15 :=
  (keepR6 (Wr6 m c) main_arg15 (by decide)).trans (ra_15_6 m c)
theorem ra_16_7 : Wr7 m c (Proc.devRef .tc main_arg16) = (argsR m c).a16 :=
  (keepR6 (Wr6 m c) main_arg16 (by decide)).trans (ra_16_6 m c)
theorem ra_17_7 : Wr7 m c (Proc.devRef .tc main_arg17) = (argsR m c).a17 :=
  (keepR6 (Wr6 m c) main_arg17 (by decide)).trans (ra_17_6 m c)
theorem ra_18_7 : Wr7 m c (Proc.devRef .tc main_arg18) = (argsR m c).a18 :=
  (keepR6 (Wr6 m c) main_arg18 (by decide)).trans (ra_18_6 m c)
theorem ra_19_7 : Wr7 m c (Proc.devRef .tc main_arg19) = (argsR m c).a19 :=
  (keepR6 (Wr6 m c) main_arg19 (by decide)).trans (ra_19_6 m c)
theorem ra_20_7 : Wr7 m c (Proc.devRef .tc main_arg20) = (argsR m c).a20 :=
  (keepR6 (Wr6 m c) main_arg20 (by decide)).trans (ra_20_6 m c)
theorem ra_25_7 : Wr7 m c (Proc.devRef .tc main_arg25) = (argsR m c).a25 :=
  (keepR6 (Wr6 m c) main_arg25 (by decide)).trans (ra_25_6 m c)
theorem ra_27_7 : Wr7 m c (Proc.devRef .tc main_arg27) = (argsR m c).a27 :=
  (keepR6 (Wr6 m c) main_arg27 (by decide)).trans (ra_27_6 m c)
theorem ra_21_7 : Wr7 m c (Proc.devRef .tc main_arg21) = (argsR m c).a21 :=
  (keepR6 (Wr6 m c) main_arg21 (by decide)).trans (ra_21_6 m c)
theorem ra_23_7 : Wr7 m c (Proc.devRef .tc main_arg23) = (argsR m c).a23 :=
  (keepR6 (Wr6 m c) main_arg23 (by decide)).trans (ra_23_6 m c)
theorem ra_26_7 : Wr7 m c (Proc.devRef .tc main_arg26) = (argsR m c).a26 :=
  (keepR6 (Wr6 m c) main_arg26 (by decide)).trans (ra_26_6 m c)
theorem ra_28_7 : Wr7 m c (Proc.devRef .tc main_arg28) = (argsR m c).a28 :=
  (keepR6 (Wr6 m c) main_arg28 (by decide)).trans (ra_28_6 m c)
theorem ra_22_7 : Wr7 m c (Proc.devRef .tc main_arg22) = (argsR m c).a22 :=
  (keepR6 (Wr6 m c) main_arg22 (by decide)).trans (ra_22_6 m c)
theorem ra_24_7 : Wr7 m c (Proc.devRef .tc main_arg24) = (argsR m c).a24 :=
  (keepR6 (Wr6 m c) main_arg24 (by decide)).trans (ra_24_6 m c)
theorem ra_29_7 : Wr7 m c (Proc.devRef .tc main_arg29) = (argsR m c).a29 :=
  (keepR6 (Wr6 m c) main_arg29 (by decide)).trans (ra_29_6 m c)
theorem fr_main_v1_7 : Wr7 m c (Proc.devRef .tc main_v1) = Cert.Net.gv_0 (argsR m c) :=
  (keepR6 (Wr6 m c) main_v1 (by decide)).trans (fr_main_v1_6 m c)
theorem fr_main_v3_7 : Wr7 m c (Proc.devRef .tc main_v3) = Cert.Net.gv_1 (argsR m c) :=
  (keepR6 (Wr6 m c) main_v3 (by decide)).trans (fr_main_v3_6 m c)
theorem fr_main_v6_7 : Wr7 m c (Proc.devRef .tc main_v6) = Cert.Net.gv_3 (argsR m c) :=
  (keepR6 (Wr6 m c) main_v6 (by decide)).trans (fr_main_v6_6 m c)
theorem fr_main_v8_7 : Wr7 m c (Proc.devRef .tc main_v8) = Cert.Net.gv_5 (argsR m c) :=
  (keepR6 (Wr6 m c) main_v8 (by decide)).trans (fr_main_v8_6 m c)
theorem fr_main_v77_7 : Wr7 m c (Proc.devRef .tc main_v77) = Cert.Net.gv_18 (argsR m c) :=
  (keepR6 (Wr6 m c) main_v77 (by decide)).trans (fr_main_v77_6 m c)
theorem fr_main_v95_7 : Wr7 m c (Proc.devRef .tc main_v95) = Cert.Net.gv_24 (argsR m c) :=
  (keepR6 (Wr6 m c) main_v95 (by decide)).trans (fr_main_v95_6 m c)
theorem fr'_main_v114 : StableHlo.after R7 (Wr7 m c) (Proc.devRef .tc main_v114) = Cert.Net.gv_7 (argsR m c) :=
  (R7_main_v114 (Wr7 m c)).trans (by rfl)
theorem fr_main_v114_8 : Wr8 m c (Proc.devRef .tc main_v114) = Cert.Net.gv_7 (argsR m c) := fr'_main_v114 m c
theorem fr'_main_v124 : StableHlo.after R7 (Wr7 m c) (Proc.devRef .tc main_v124) = Cert.Net.gv_31 (argsR m c) :=
  (R7_main_v124 (Wr7 m c)).trans (by rw [fr'_main_v114 m c, fr_main_v6_7 m c, fr_main_v77_7 m c]; rfl)
theorem fr_main_v124_8 : Wr8 m c (Proc.devRef .tc main_v124) = Cert.Net.gv_31 (argsR m c) := fr'_main_v124 m c
theorem fr'_main_v125 : StableHlo.after R7 (Wr7 m c) (Proc.devRef .tc main_v125) = Cert.Net.gv_8 (argsR m c) :=
  (R7_main_v125 (Wr7 m c)).trans (by rfl)
theorem fr_main_v125_8 : Wr8 m c (Proc.devRef .tc main_v125) = Cert.Net.gv_8 (argsR m c) := fr'_main_v125 m c
theorem fr'_main_v135 : StableHlo.after R7 (Wr7 m c) (Proc.devRef .tc main_v135) = Cert.Net.gv_32 (argsR m c) :=
  (R7_main_v135 (Wr7 m c)).trans (by rw [fr'_main_v125 m c, fr_main_v8_7 m c, fr_main_v95_7 m c]; rfl)
theorem fr_main_v135_8 : Wr8 m c (Proc.devRef .tc main_v135) = Cert.Net.gv_32 (argsR m c) := fr'_main_v135 m c
theorem fr'_main_v143 : StableHlo.after R7 (Wr7 m c) (Proc.devRef .tc main_v143) = Cert.Net.gv_33 (argsR m c) :=
  (R7_main_v143 (Wr7 m c)).trans (by rw [fr_main_v95_7 m c, fr_main_v6_7 m c]; rfl)
theorem fr_main_v143_8 : Wr8 m c (Proc.devRef .tc main_v143) = Cert.Net.gv_33 (argsR m c) := fr'_main_v143 m c
theorem fr'_main_v149 : StableHlo.after R7 (Wr7 m c) (Proc.devRef .tc main_v149) = Cert.Net.gv_34 (argsR m c) :=
  (R7_main_v149 (Wr7 m c)).trans (by rw [fr_main_v77_7 m c, ra_20_7 m c, fr'_main_v143 m c, ra_25_7 m c, ra_27_7 m c]; rfl)
theorem fr_main_v149_8 : Wr8 m c (Proc.devRef .tc main_v149) = Cert.Net.gv_34 (argsR m c) := fr'_main_v149 m c
theorem ra_32_8 : Wr8 m c (Proc.devRef .tc main_arg32) = (argsR m c).a32 :=
  (keepR7 (Wr7 m c) main_arg32 (by decide)).trans (ra_32_7 m c)
theorem ra_33_8 : Wr8 m c (Proc.devRef .tc main_arg33) = (argsR m c).a33 :=
  (keepR7 (Wr7 m c) main_arg33 (by decide)).trans (ra_33_7 m c)
theorem ra_30_8 : Wr8 m c (Proc.devRef .tc main_arg30) = (argsR m c).a30 :=
  (keepR7 (Wr7 m c) main_arg30 (by decide)).trans (ra_30_7 m c)
theorem ra_31_8 : Wr8 m c (Proc.devRef .tc main_arg31) = (argsR m c).a31 :=
  (keepR7 (Wr7 m c) main_arg31 (by decide)).trans (ra_31_7 m c)
theorem ra_2_8 : Wr8 m c (Proc.devRef .tc main_arg2) = (argsR m c).a2 :=
  (keepR7 (Wr7 m c) main_arg2 (by decide)).trans (ra_2_7 m c)
theorem ra_13_8 : Wr8 m c (Proc.devRef .tc main_arg13) = (argsR m c).a13 :=
  (keepR7 (Wr7 m c) main_arg13 (by decide)).trans (ra_13_7 m c)
theorem ra_14_8 : Wr8 m c (Proc.devRef .tc main_arg14) = (argsR m c).a14 :=
  (keepR7 (Wr7 m c) main_arg14 (by decide)).trans (ra_14_7 m c)
theorem ra_15_8 : Wr8 m c (Proc.devRef .tc main_arg15) = (argsR m c).a15 :=
  (keepR7 (Wr7 m c) main_arg15 (by decide)).trans (ra_15_7 m c)
theorem ra_16_8 : Wr8 m c (Proc.devRef .tc main_arg16) = (argsR m c).a16 :=
  (keepR7 (Wr7 m c) main_arg16 (by decide)).trans (ra_16_7 m c)
theorem ra_17_8 : Wr8 m c (Proc.devRef .tc main_arg17) = (argsR m c).a17 :=
  (keepR7 (Wr7 m c) main_arg17 (by decide)).trans (ra_17_7 m c)
theorem ra_18_8 : Wr8 m c (Proc.devRef .tc main_arg18) = (argsR m c).a18 :=
  (keepR7 (Wr7 m c) main_arg18 (by decide)).trans (ra_18_7 m c)
theorem ra_19_8 : Wr8 m c (Proc.devRef .tc main_arg19) = (argsR m c).a19 :=
  (keepR7 (Wr7 m c) main_arg19 (by decide)).trans (ra_19_7 m c)
theorem ra_20_8 : Wr8 m c (Proc.devRef .tc main_arg20) = (argsR m c).a20 :=
  (keepR7 (Wr7 m c) main_arg20 (by decide)).trans (ra_20_7 m c)
theorem ra_25_8 : Wr8 m c (Proc.devRef .tc main_arg25) = (argsR m c).a25 :=
  (keepR7 (Wr7 m c) main_arg25 (by decide)).trans (ra_25_7 m c)
theorem ra_27_8 : Wr8 m c (Proc.devRef .tc main_arg27) = (argsR m c).a27 :=
  (keepR7 (Wr7 m c) main_arg27 (by decide)).trans (ra_27_7 m c)
theorem ra_21_8 : Wr8 m c (Proc.devRef .tc main_arg21) = (argsR m c).a21 :=
  (keepR7 (Wr7 m c) main_arg21 (by decide)).trans (ra_21_7 m c)
theorem ra_23_8 : Wr8 m c (Proc.devRef .tc main_arg23) = (argsR m c).a23 :=
  (keepR7 (Wr7 m c) main_arg23 (by decide)).trans (ra_23_7 m c)
theorem ra_26_8 : Wr8 m c (Proc.devRef .tc main_arg26) = (argsR m c).a26 :=
  (keepR7 (Wr7 m c) main_arg26 (by decide)).trans (ra_26_7 m c)
theorem ra_28_8 : Wr8 m c (Proc.devRef .tc main_arg28) = (argsR m c).a28 :=
  (keepR7 (Wr7 m c) main_arg28 (by decide)).trans (ra_28_7 m c)
theorem ra_22_8 : Wr8 m c (Proc.devRef .tc main_arg22) = (argsR m c).a22 :=
  (keepR7 (Wr7 m c) main_arg22 (by decide)).trans (ra_22_7 m c)
theorem ra_24_8 : Wr8 m c (Proc.devRef .tc main_arg24) = (argsR m c).a24 :=
  (keepR7 (Wr7 m c) main_arg24 (by decide)).trans (ra_24_7 m c)
theorem ra_29_8 : Wr8 m c (Proc.devRef .tc main_arg29) = (argsR m c).a29 :=
  (keepR7 (Wr7 m c) main_arg29 (by decide)).trans (ra_29_7 m c)
theorem fr_main_v1_8 : Wr8 m c (Proc.devRef .tc main_v1) = Cert.Net.gv_0 (argsR m c) :=
  (keepR7 (Wr7 m c) main_v1 (by decide)).trans (fr_main_v1_7 m c)
theorem fr_main_v3_8 : Wr8 m c (Proc.devRef .tc main_v3) = Cert.Net.gv_1 (argsR m c) :=
  (keepR7 (Wr7 m c) main_v3 (by decide)).trans (fr_main_v3_7 m c)
theorem fr_main_v6_8 : Wr8 m c (Proc.devRef .tc main_v6) = Cert.Net.gv_3 (argsR m c) :=
  (keepR7 (Wr7 m c) main_v6 (by decide)).trans (fr_main_v6_7 m c)
theorem fr_main_v8_8 : Wr8 m c (Proc.devRef .tc main_v8) = Cert.Net.gv_5 (argsR m c) :=
  (keepR7 (Wr7 m c) main_v8 (by decide)).trans (fr_main_v8_7 m c)
theorem fr_main_v95_8 : Wr8 m c (Proc.devRef .tc main_v95) = Cert.Net.gv_24 (argsR m c) :=
  (keepR7 (Wr7 m c) main_v95 (by decide)).trans (fr_main_v95_7 m c)
theorem fr_main_v113_8 : Wr8 m c (Proc.devRef .tc main_v113) = Cert.Net.gv_30 (argsR m c) :=
  (keepR7 (Wr7 m c) main_v113 (by decide)).trans (fr_main_v113_7 m c)
theorem fr'_main_v159 : StableHlo.after R8 (Wr8 m c) (Proc.devRef .tc main_v159) = Cert.Net.gv_35 (argsR m c) :=
  (R8_main_v159 (Wr8 m c)).trans (by rw [fr_main_v113_8 m c, fr_main_v8_8 m c]; rfl)
theorem fr_main_v159_9 : Wr9 m c (Proc.devRef .tc main_v159) = Cert.Net.gv_35 (argsR m c) := fr'_main_v159 m c
theorem fr'_main_call9_v0 : StableHlo.after R8 (Wr8 m c) (Proc.devRef .tc main_call9_v0) = Cert.Net.gv_7 (argsR m c) :=
  (R8_main_call9_v0 (Wr8 m c)).trans (by rfl)
theorem fr_main_call9_v0_9 : Wr9 m c (Proc.devRef .tc main_call9_v0) = Cert.Net.gv_7 (argsR m c) := fr'_main_call9_v0 m c
theorem fr'_main_v165 : StableHlo.after R8 (Wr8 m c) (Proc.devRef .tc main_v165) = Cert.Net.gv_36 (argsR m c) :=
  (R8_main_v165 (Wr8 m c)).trans (by rw [fr_main_v95_8 m c, ra_21_8 m c, fr_main_v124_8 m c, ra_23_8 m c, fr'_main_v159 m c, ra_26_8 m c, ra_28_8 m c, fr'_main_call9_v0 m c]; rfl)
theorem fr_main_v165_9 : Wr9 m c (Proc.devRef .tc main_v165) = Cert.Net.gv_36 (argsR m c) := fr'_main_v165 m c
theorem ra_32_9 : Wr9 m c (Proc.devRef .tc main_arg32) = (argsR m c).a32 :=
  (keepR8 (Wr8 m c) main_arg32 (by decide)).trans (ra_32_8 m c)
theorem ra_33_9 : Wr9 m c (Proc.devRef .tc main_arg33) = (argsR m c).a33 :=
  (keepR8 (Wr8 m c) main_arg33 (by decide)).trans (ra_33_8 m c)
theorem ra_30_9 : Wr9 m c (Proc.devRef .tc main_arg30) = (argsR m c).a30 :=
  (keepR8 (Wr8 m c) main_arg30 (by decide)).trans (ra_30_8 m c)
theorem ra_31_9 : Wr9 m c (Proc.devRef .tc main_arg31) = (argsR m c).a31 :=
  (keepR8 (Wr8 m c) main_arg31 (by decide)).trans (ra_31_8 m c)
theorem ra_2_9 : Wr9 m c (Proc.devRef .tc main_arg2) = (argsR m c).a2 :=
  (keepR8 (Wr8 m c) main_arg2 (by decide)).trans (ra_2_8 m c)
theorem ra_13_9 : Wr9 m c (Proc.devRef .tc main_arg13) = (argsR m c).a13 :=
  (keepR8 (Wr8 m c) main_arg13 (by decide)).trans (ra_13_8 m c)
theorem ra_14_9 : Wr9 m c (Proc.devRef .tc main_arg14) = (argsR m c).a14 :=
  (keepR8 (Wr8 m c) main_arg14 (by decide)).trans (ra_14_8 m c)
theorem ra_15_9 : Wr9 m c (Proc.devRef .tc main_arg15) = (argsR m c).a15 :=
  (keepR8 (Wr8 m c) main_arg15 (by decide)).trans (ra_15_8 m c)
theorem ra_16_9 : Wr9 m c (Proc.devRef .tc main_arg16) = (argsR m c).a16 :=
  (keepR8 (Wr8 m c) main_arg16 (by decide)).trans (ra_16_8 m c)
theorem ra_17_9 : Wr9 m c (Proc.devRef .tc main_arg17) = (argsR m c).a17 :=
  (keepR8 (Wr8 m c) main_arg17 (by decide)).trans (ra_17_8 m c)
theorem ra_18_9 : Wr9 m c (Proc.devRef .tc main_arg18) = (argsR m c).a18 :=
  (keepR8 (Wr8 m c) main_arg18 (by decide)).trans (ra_18_8 m c)
theorem ra_19_9 : Wr9 m c (Proc.devRef .tc main_arg19) = (argsR m c).a19 :=
  (keepR8 (Wr8 m c) main_arg19 (by decide)).trans (ra_19_8 m c)
theorem ra_20_9 : Wr9 m c (Proc.devRef .tc main_arg20) = (argsR m c).a20 :=
  (keepR8 (Wr8 m c) main_arg20 (by decide)).trans (ra_20_8 m c)
theorem ra_25_9 : Wr9 m c (Proc.devRef .tc main_arg25) = (argsR m c).a25 :=
  (keepR8 (Wr8 m c) main_arg25 (by decide)).trans (ra_25_8 m c)
theorem ra_27_9 : Wr9 m c (Proc.devRef .tc main_arg27) = (argsR m c).a27 :=
  (keepR8 (Wr8 m c) main_arg27 (by decide)).trans (ra_27_8 m c)
theorem ra_21_9 : Wr9 m c (Proc.devRef .tc main_arg21) = (argsR m c).a21 :=
  (keepR8 (Wr8 m c) main_arg21 (by decide)).trans (ra_21_8 m c)
theorem ra_23_9 : Wr9 m c (Proc.devRef .tc main_arg23) = (argsR m c).a23 :=
  (keepR8 (Wr8 m c) main_arg23 (by decide)).trans (ra_23_8 m c)
theorem ra_26_9 : Wr9 m c (Proc.devRef .tc main_arg26) = (argsR m c).a26 :=
  (keepR8 (Wr8 m c) main_arg26 (by decide)).trans (ra_26_8 m c)
theorem ra_28_9 : Wr9 m c (Proc.devRef .tc main_arg28) = (argsR m c).a28 :=
  (keepR8 (Wr8 m c) main_arg28 (by decide)).trans (ra_28_8 m c)
theorem ra_22_9 : Wr9 m c (Proc.devRef .tc main_arg22) = (argsR m c).a22 :=
  (keepR8 (Wr8 m c) main_arg22 (by decide)).trans (ra_22_8 m c)
theorem ra_24_9 : Wr9 m c (Proc.devRef .tc main_arg24) = (argsR m c).a24 :=
  (keepR8 (Wr8 m c) main_arg24 (by decide)).trans (ra_24_8 m c)
theorem ra_29_9 : Wr9 m c (Proc.devRef .tc main_arg29) = (argsR m c).a29 :=
  (keepR8 (Wr8 m c) main_arg29 (by decide)).trans (ra_29_8 m c)
theorem fr_main_v1_9 : Wr9 m c (Proc.devRef .tc main_v1) = Cert.Net.gv_0 (argsR m c) :=
  (keepR8 (Wr8 m c) main_v1 (by decide)).trans (fr_main_v1_8 m c)
theorem fr_main_v3_9 : Wr9 m c (Proc.devRef .tc main_v3) = Cert.Net.gv_1 (argsR m c) :=
  (keepR8 (Wr8 m c) main_v3 (by decide)).trans (fr_main_v3_8 m c)
theorem fr_main_v6_9 : Wr9 m c (Proc.devRef .tc main_v6) = Cert.Net.gv_3 (argsR m c) :=
  (keepR8 (Wr8 m c) main_v6 (by decide)).trans (fr_main_v6_8 m c)
theorem fr_main_v8_9 : Wr9 m c (Proc.devRef .tc main_v8) = Cert.Net.gv_5 (argsR m c) :=
  (keepR8 (Wr8 m c) main_v8 (by decide)).trans (fr_main_v8_8 m c)
theorem fr_main_v113_9 : Wr9 m c (Proc.devRef .tc main_v113) = Cert.Net.gv_30 (argsR m c) :=
  (keepR8 (Wr8 m c) main_v113 (by decide)).trans (fr_main_v113_8 m c)
theorem fr_main_v135_9 : Wr9 m c (Proc.devRef .tc main_v135) = Cert.Net.gv_32 (argsR m c) :=
  (keepR8 (Wr8 m c) main_v135 (by decide)).trans (fr_main_v135_8 m c)
theorem fr_main_v149_9 : Wr9 m c (Proc.devRef .tc main_v149) = Cert.Net.gv_34 (argsR m c) :=
  (keepR8 (Wr8 m c) main_v149 (by decide)).trans (fr_main_v149_8 m c)
theorem fr'_main_call10_v0 : StableHlo.after R9 (Wr9 m c) (Proc.devRef .tc main_call10_v0) = Cert.Net.gv_8 (argsR m c) :=
  (R9_main_call10_v0 (Wr9 m c)).trans (by rfl)
theorem fr_main_call10_v0_10 : Wr10 m c (Proc.devRef .tc main_call10_v0) = Cert.Net.gv_8 (argsR m c) := fr'_main_call10_v0 m c
theorem fr'_main_v172 : StableHlo.after R9 (Wr9 m c) (Proc.devRef .tc main_v172) = Cert.Net.gv_37 (argsR m c) :=
  (R9_main_v172 (Wr9 m c)).trans (by rw [fr_main_v113_9 m c, ra_22_9 m c, fr_main_v135_9 m c, ra_24_9 m c, ra_29_9 m c, fr'_main_call10_v0 m c]; rfl)
theorem fr_main_v172_10 : Wr10 m c (Proc.devRef .tc main_v172) = Cert.Net.gv_37 (argsR m c) := fr'_main_v172 m c
theorem ra_32_10 : Wr10 m c (Proc.devRef .tc main_arg32) = (argsR m c).a32 :=
  (keepR9 (Wr9 m c) main_arg32 (by decide)).trans (ra_32_9 m c)
theorem ra_33_10 : Wr10 m c (Proc.devRef .tc main_arg33) = (argsR m c).a33 :=
  (keepR9 (Wr9 m c) main_arg33 (by decide)).trans (ra_33_9 m c)
theorem ra_30_10 : Wr10 m c (Proc.devRef .tc main_arg30) = (argsR m c).a30 :=
  (keepR9 (Wr9 m c) main_arg30 (by decide)).trans (ra_30_9 m c)
theorem ra_31_10 : Wr10 m c (Proc.devRef .tc main_arg31) = (argsR m c).a31 :=
  (keepR9 (Wr9 m c) main_arg31 (by decide)).trans (ra_31_9 m c)
theorem ra_2_10 : Wr10 m c (Proc.devRef .tc main_arg2) = (argsR m c).a2 :=
  (keepR9 (Wr9 m c) main_arg2 (by decide)).trans (ra_2_9 m c)
theorem ra_13_10 : Wr10 m c (Proc.devRef .tc main_arg13) = (argsR m c).a13 :=
  (keepR9 (Wr9 m c) main_arg13 (by decide)).trans (ra_13_9 m c)
theorem ra_14_10 : Wr10 m c (Proc.devRef .tc main_arg14) = (argsR m c).a14 :=
  (keepR9 (Wr9 m c) main_arg14 (by decide)).trans (ra_14_9 m c)
theorem ra_15_10 : Wr10 m c (Proc.devRef .tc main_arg15) = (argsR m c).a15 :=
  (keepR9 (Wr9 m c) main_arg15 (by decide)).trans (ra_15_9 m c)
theorem ra_16_10 : Wr10 m c (Proc.devRef .tc main_arg16) = (argsR m c).a16 :=
  (keepR9 (Wr9 m c) main_arg16 (by decide)).trans (ra_16_9 m c)
theorem ra_17_10 : Wr10 m c (Proc.devRef .tc main_arg17) = (argsR m c).a17 :=
  (keepR9 (Wr9 m c) main_arg17 (by decide)).trans (ra_17_9 m c)
theorem ra_18_10 : Wr10 m c (Proc.devRef .tc main_arg18) = (argsR m c).a18 :=
  (keepR9 (Wr9 m c) main_arg18 (by decide)).trans (ra_18_9 m c)
theorem ra_19_10 : Wr10 m c (Proc.devRef .tc main_arg19) = (argsR m c).a19 :=
  (keepR9 (Wr9 m c) main_arg19 (by decide)).trans (ra_19_9 m c)
theorem ra_20_10 : Wr10 m c (Proc.devRef .tc main_arg20) = (argsR m c).a20 :=
  (keepR9 (Wr9 m c) main_arg20 (by decide)).trans (ra_20_9 m c)
theorem ra_25_10 : Wr10 m c (Proc.devRef .tc main_arg25) = (argsR m c).a25 :=
  (keepR9 (Wr9 m c) main_arg25 (by decide)).trans (ra_25_9 m c)
theorem ra_27_10 : Wr10 m c (Proc.devRef .tc main_arg27) = (argsR m c).a27 :=
  (keepR9 (Wr9 m c) main_arg27 (by decide)).trans (ra_27_9 m c)
theorem ra_21_10 : Wr10 m c (Proc.devRef .tc main_arg21) = (argsR m c).a21 :=
  (keepR9 (Wr9 m c) main_arg21 (by decide)).trans (ra_21_9 m c)
theorem ra_23_10 : Wr10 m c (Proc.devRef .tc main_arg23) = (argsR m c).a23 :=
  (keepR9 (Wr9 m c) main_arg23 (by decide)).trans (ra_23_9 m c)
theorem ra_26_10 : Wr10 m c (Proc.devRef .tc main_arg26) = (argsR m c).a26 :=
  (keepR9 (Wr9 m c) main_arg26 (by decide)).trans (ra_26_9 m c)
theorem ra_28_10 : Wr10 m c (Proc.devRef .tc main_arg28) = (argsR m c).a28 :=
  (keepR9 (Wr9 m c) main_arg28 (by decide)).trans (ra_28_9 m c)
theorem ra_22_10 : Wr10 m c (Proc.devRef .tc main_arg22) = (argsR m c).a22 :=
  (keepR9 (Wr9 m c) main_arg22 (by decide)).trans (ra_22_9 m c)
theorem ra_24_10 : Wr10 m c (Proc.devRef .tc main_arg24) = (argsR m c).a24 :=
  (keepR9 (Wr9 m c) main_arg24 (by decide)).trans (ra_24_9 m c)
theorem ra_29_10 : Wr10 m c (Proc.devRef .tc main_arg29) = (argsR m c).a29 :=
  (keepR9 (Wr9 m c) main_arg29 (by decide)).trans (ra_29_9 m c)
theorem fr_main_v1_10 : Wr10 m c (Proc.devRef .tc main_v1) = Cert.Net.gv_0 (argsR m c) :=
  (keepR9 (Wr9 m c) main_v1 (by decide)).trans (fr_main_v1_9 m c)
theorem fr_main_v3_10 : Wr10 m c (Proc.devRef .tc main_v3) = Cert.Net.gv_1 (argsR m c) :=
  (keepR9 (Wr9 m c) main_v3 (by decide)).trans (fr_main_v3_9 m c)
theorem fr_main_v6_10 : Wr10 m c (Proc.devRef .tc main_v6) = Cert.Net.gv_3 (argsR m c) :=
  (keepR9 (Wr9 m c) main_v6 (by decide)).trans (fr_main_v6_9 m c)
theorem fr_main_v8_10 : Wr10 m c (Proc.devRef .tc main_v8) = Cert.Net.gv_5 (argsR m c) :=
  (keepR9 (Wr9 m c) main_v8 (by decide)).trans (fr_main_v8_9 m c)
theorem fr_main_v149_10 : Wr10 m c (Proc.devRef .tc main_v149) = Cert.Net.gv_34 (argsR m c) :=
  (keepR9 (Wr9 m c) main_v149 (by decide)).trans (fr_main_v149_9 m c)
theorem fr_main_v165_10 : Wr10 m c (Proc.devRef .tc main_v165) = Cert.Net.gv_36 (argsR m c) :=
  (keepR9 (Wr9 m c) main_v165 (by decide)).trans (fr_main_v165_9 m c)
theorem fr'_main_v190 : StableHlo.after R10 (Wr10 m c) (Proc.devRef .tc main_v190) = Cert.Net.gv_38 (argsR m c) :=
  (R10_main_v190 (Wr10 m c)).trans (by rw [fr_main_v3_10 m c, fr_main_v149_10 m c, fr_main_v1_10 m c]; rfl)
theorem fr_main_v190_11 : Wr11 m c (Proc.devRef .tc main_v190) = Cert.Net.gv_38 (argsR m c) := fr'_main_v190 m c
theorem fr'_main_v192 : StableHlo.after R10 (Wr10 m c) (Proc.devRef .tc main_v192) = Cert.Net.gv_39 (argsR m c) :=
  (R10_main_v192 (Wr10 m c)).trans (by rw [ra_13_10 m c]; rfl)
theorem fr_main_v192_11 : Wr11 m c (Proc.devRef .tc main_v192) = Cert.Net.gv_39 (argsR m c) := fr'_main_v192 m c
theorem fr'_main_v195 : StableHlo.after R10 (Wr10 m c) (Proc.devRef .tc main_v195) = Cert.Net.gv_40 (argsR m c) :=
  (R10_main_v195 (Wr10 m c)).trans (by rw [ra_14_10 m c]; rfl)
theorem fr_main_v195_11 : Wr11 m c (Proc.devRef .tc main_v195) = Cert.Net.gv_40 (argsR m c) := fr'_main_v195 m c
theorem fr'_main_v199 : StableHlo.after R10 (Wr10 m c) (Proc.devRef .tc main_v199) = Cert.Net.gv_41 (argsR m c) :=
  (R10_main_v199 (Wr10 m c)).trans (by rw [ra_15_10 m c]; rfl)
theorem fr_main_v199_11 : Wr11 m c (Proc.devRef .tc main_v199) = Cert.Net.gv_41 (argsR m c) := fr'_main_v199 m c
theorem fr'_main_v203 : StableHlo.after R10 (Wr10 m c) (Proc.devRef .tc main_v203) = Cert.Net.gv_42 (argsR m c) :=
  (R10_main_v203 (Wr10 m c)).trans (by rw [fr_main_v149_10 m c, fr'_main_v192 m c, fr'_main_v190 m c, fr'_main_v195 m c, fr'_main_v199 m c]; rfl)
theorem fr_main_v203_11 : Wr11 m c (Proc.devRef .tc main_v203) = Cert.Net.gv_42 (argsR m c) := fr'_main_v203 m c
theorem ra_32_11 : Wr11 m c (Proc.devRef .tc main_arg32) = (argsR m c).a32 :=
  (keepR10 (Wr10 m c) main_arg32 (by decide)).trans (ra_32_10 m c)
theorem ra_33_11 : Wr11 m c (Proc.devRef .tc main_arg33) = (argsR m c).a33 :=
  (keepR10 (Wr10 m c) main_arg33 (by decide)).trans (ra_33_10 m c)
theorem ra_30_11 : Wr11 m c (Proc.devRef .tc main_arg30) = (argsR m c).a30 :=
  (keepR10 (Wr10 m c) main_arg30 (by decide)).trans (ra_30_10 m c)
theorem ra_31_11 : Wr11 m c (Proc.devRef .tc main_arg31) = (argsR m c).a31 :=
  (keepR10 (Wr10 m c) main_arg31 (by decide)).trans (ra_31_10 m c)
theorem ra_2_11 : Wr11 m c (Proc.devRef .tc main_arg2) = (argsR m c).a2 :=
  (keepR10 (Wr10 m c) main_arg2 (by decide)).trans (ra_2_10 m c)
theorem ra_13_11 : Wr11 m c (Proc.devRef .tc main_arg13) = (argsR m c).a13 :=
  (keepR10 (Wr10 m c) main_arg13 (by decide)).trans (ra_13_10 m c)
theorem ra_14_11 : Wr11 m c (Proc.devRef .tc main_arg14) = (argsR m c).a14 :=
  (keepR10 (Wr10 m c) main_arg14 (by decide)).trans (ra_14_10 m c)
theorem ra_15_11 : Wr11 m c (Proc.devRef .tc main_arg15) = (argsR m c).a15 :=
  (keepR10 (Wr10 m c) main_arg15 (by decide)).trans (ra_15_10 m c)
theorem ra_16_11 : Wr11 m c (Proc.devRef .tc main_arg16) = (argsR m c).a16 :=
  (keepR10 (Wr10 m c) main_arg16 (by decide)).trans (ra_16_10 m c)
theorem ra_17_11 : Wr11 m c (Proc.devRef .tc main_arg17) = (argsR m c).a17 :=
  (keepR10 (Wr10 m c) main_arg17 (by decide)).trans (ra_17_10 m c)
theorem ra_18_11 : Wr11 m c (Proc.devRef .tc main_arg18) = (argsR m c).a18 :=
  (keepR10 (Wr10 m c) main_arg18 (by decide)).trans (ra_18_10 m c)
theorem ra_19_11 : Wr11 m c (Proc.devRef .tc main_arg19) = (argsR m c).a19 :=
  (keepR10 (Wr10 m c) main_arg19 (by decide)).trans (ra_19_10 m c)
theorem ra_20_11 : Wr11 m c (Proc.devRef .tc main_arg20) = (argsR m c).a20 :=
  (keepR10 (Wr10 m c) main_arg20 (by decide)).trans (ra_20_10 m c)
theorem ra_25_11 : Wr11 m c (Proc.devRef .tc main_arg25) = (argsR m c).a25 :=
  (keepR10 (Wr10 m c) main_arg25 (by decide)).trans (ra_25_10 m c)
theorem ra_27_11 : Wr11 m c (Proc.devRef .tc main_arg27) = (argsR m c).a27 :=
  (keepR10 (Wr10 m c) main_arg27 (by decide)).trans (ra_27_10 m c)
theorem ra_21_11 : Wr11 m c (Proc.devRef .tc main_arg21) = (argsR m c).a21 :=
  (keepR10 (Wr10 m c) main_arg21 (by decide)).trans (ra_21_10 m c)
theorem ra_23_11 : Wr11 m c (Proc.devRef .tc main_arg23) = (argsR m c).a23 :=
  (keepR10 (Wr10 m c) main_arg23 (by decide)).trans (ra_23_10 m c)
theorem ra_26_11 : Wr11 m c (Proc.devRef .tc main_arg26) = (argsR m c).a26 :=
  (keepR10 (Wr10 m c) main_arg26 (by decide)).trans (ra_26_10 m c)
theorem ra_28_11 : Wr11 m c (Proc.devRef .tc main_arg28) = (argsR m c).a28 :=
  (keepR10 (Wr10 m c) main_arg28 (by decide)).trans (ra_28_10 m c)
theorem ra_22_11 : Wr11 m c (Proc.devRef .tc main_arg22) = (argsR m c).a22 :=
  (keepR10 (Wr10 m c) main_arg22 (by decide)).trans (ra_22_10 m c)
theorem ra_24_11 : Wr11 m c (Proc.devRef .tc main_arg24) = (argsR m c).a24 :=
  (keepR10 (Wr10 m c) main_arg24 (by decide)).trans (ra_24_10 m c)
theorem ra_29_11 : Wr11 m c (Proc.devRef .tc main_arg29) = (argsR m c).a29 :=
  (keepR10 (Wr10 m c) main_arg29 (by decide)).trans (ra_29_10 m c)
theorem fr_main_v1_11 : Wr11 m c (Proc.devRef .tc main_v1) = Cert.Net.gv_0 (argsR m c) :=
  (keepR10 (Wr10 m c) main_v1 (by decide)).trans (fr_main_v1_10 m c)
theorem fr_main_v3_11 : Wr11 m c (Proc.devRef .tc main_v3) = Cert.Net.gv_1 (argsR m c) :=
  (keepR10 (Wr10 m c) main_v3 (by decide)).trans (fr_main_v3_10 m c)
theorem fr_main_v6_11 : Wr11 m c (Proc.devRef .tc main_v6) = Cert.Net.gv_3 (argsR m c) :=
  (keepR10 (Wr10 m c) main_v6 (by decide)).trans (fr_main_v6_10 m c)
theorem fr_main_v8_11 : Wr11 m c (Proc.devRef .tc main_v8) = Cert.Net.gv_5 (argsR m c) :=
  (keepR10 (Wr10 m c) main_v8 (by decide)).trans (fr_main_v8_10 m c)
theorem fr_main_v165_11 : Wr11 m c (Proc.devRef .tc main_v165) = Cert.Net.gv_36 (argsR m c) :=
  (keepR10 (Wr10 m c) main_v165 (by decide)).trans (fr_main_v165_10 m c)
theorem fr_main_v172_11 : Wr11 m c (Proc.devRef .tc main_v172) = Cert.Net.gv_37 (argsR m c) :=
  (keepR10 (Wr10 m c) main_v172 (by decide)).trans (fr_main_v172_10 m c)
theorem fr'_main_v221 : StableHlo.after R11 (Wr11 m c) (Proc.devRef .tc main_v221) = Cert.Net.gv_43 (argsR m c) :=
  (R11_main_v221 (Wr11 m c)).trans (by rw [fr_main_v3_11 m c, fr_main_v203_11 m c, fr_main_v1_11 m c]; rfl)
theorem fr_main_v221_12 : Wr12 m c (Proc.devRef .tc main_v221) = Cert.Net.gv_43 (argsR m c) := fr'_main_v221 m c
theorem fr'_main_v223 : StableHlo.after R11 (Wr11 m c) (Proc.devRef .tc main_v223) = Cert.Net.gv_44 (argsR m c) :=
  (R11_main_v223 (Wr11 m c)).trans (by rw [ra_13_11 m c]; rfl)
theorem fr_main_v223_12 : Wr12 m c (Proc.devRef .tc main_v223) = Cert.Net.gv_44 (argsR m c) := fr'_main_v223 m c
theorem fr'_main_v226 : StableHlo.after R11 (Wr11 m c) (Proc.devRef .tc main_v226) = Cert.Net.gv_45 (argsR m c) :=
  (R11_main_v226 (Wr11 m c)).trans (by rw [ra_14_11 m c]; rfl)
theorem fr_main_v226_12 : Wr12 m c (Proc.devRef .tc main_v226) = Cert.Net.gv_45 (argsR m c) := fr'_main_v226 m c
theorem fr'_main_v230 : StableHlo.after R11 (Wr11 m c) (Proc.devRef .tc main_v230) = Cert.Net.gv_46 (argsR m c) :=
  (R11_main_v230 (Wr11 m c)).trans (by rw [ra_15_11 m c]; rfl)
theorem fr_main_v230_12 : Wr12 m c (Proc.devRef .tc main_v230) = Cert.Net.gv_46 (argsR m c) := fr'_main_v230 m c
theorem fr'_main_v234 : StableHlo.after R11 (Wr11 m c) (Proc.devRef .tc main_v234) = Cert.Net.gv_47 (argsR m c) :=
  (R11_main_v234 (Wr11 m c)).trans (by rw [fr_main_v203_11 m c, fr'_main_v223 m c, fr'_main_v221 m c, fr'_main_v226 m c, fr'_main_v230 m c]; rfl)
theorem fr_main_v234_12 : Wr12 m c (Proc.devRef .tc main_v234) = Cert.Net.gv_47 (argsR m c) := fr'_main_v234 m c
theorem ra_32_12 : Wr12 m c (Proc.devRef .tc main_arg32) = (argsR m c).a32 :=
  (keepR11 (Wr11 m c) main_arg32 (by decide)).trans (ra_32_11 m c)
theorem ra_33_12 : Wr12 m c (Proc.devRef .tc main_arg33) = (argsR m c).a33 :=
  (keepR11 (Wr11 m c) main_arg33 (by decide)).trans (ra_33_11 m c)
theorem ra_30_12 : Wr12 m c (Proc.devRef .tc main_arg30) = (argsR m c).a30 :=
  (keepR11 (Wr11 m c) main_arg30 (by decide)).trans (ra_30_11 m c)
theorem ra_31_12 : Wr12 m c (Proc.devRef .tc main_arg31) = (argsR m c).a31 :=
  (keepR11 (Wr11 m c) main_arg31 (by decide)).trans (ra_31_11 m c)
theorem ra_2_12 : Wr12 m c (Proc.devRef .tc main_arg2) = (argsR m c).a2 :=
  (keepR11 (Wr11 m c) main_arg2 (by decide)).trans (ra_2_11 m c)
theorem ra_13_12 : Wr12 m c (Proc.devRef .tc main_arg13) = (argsR m c).a13 :=
  (keepR11 (Wr11 m c) main_arg13 (by decide)).trans (ra_13_11 m c)
theorem ra_14_12 : Wr12 m c (Proc.devRef .tc main_arg14) = (argsR m c).a14 :=
  (keepR11 (Wr11 m c) main_arg14 (by decide)).trans (ra_14_11 m c)
theorem ra_15_12 : Wr12 m c (Proc.devRef .tc main_arg15) = (argsR m c).a15 :=
  (keepR11 (Wr11 m c) main_arg15 (by decide)).trans (ra_15_11 m c)
theorem ra_16_12 : Wr12 m c (Proc.devRef .tc main_arg16) = (argsR m c).a16 :=
  (keepR11 (Wr11 m c) main_arg16 (by decide)).trans (ra_16_11 m c)
theorem ra_17_12 : Wr12 m c (Proc.devRef .tc main_arg17) = (argsR m c).a17 :=
  (keepR11 (Wr11 m c) main_arg17 (by decide)).trans (ra_17_11 m c)
theorem ra_18_12 : Wr12 m c (Proc.devRef .tc main_arg18) = (argsR m c).a18 :=
  (keepR11 (Wr11 m c) main_arg18 (by decide)).trans (ra_18_11 m c)
theorem ra_19_12 : Wr12 m c (Proc.devRef .tc main_arg19) = (argsR m c).a19 :=
  (keepR11 (Wr11 m c) main_arg19 (by decide)).trans (ra_19_11 m c)
theorem ra_20_12 : Wr12 m c (Proc.devRef .tc main_arg20) = (argsR m c).a20 :=
  (keepR11 (Wr11 m c) main_arg20 (by decide)).trans (ra_20_11 m c)
theorem ra_25_12 : Wr12 m c (Proc.devRef .tc main_arg25) = (argsR m c).a25 :=
  (keepR11 (Wr11 m c) main_arg25 (by decide)).trans (ra_25_11 m c)
theorem ra_27_12 : Wr12 m c (Proc.devRef .tc main_arg27) = (argsR m c).a27 :=
  (keepR11 (Wr11 m c) main_arg27 (by decide)).trans (ra_27_11 m c)
theorem ra_21_12 : Wr12 m c (Proc.devRef .tc main_arg21) = (argsR m c).a21 :=
  (keepR11 (Wr11 m c) main_arg21 (by decide)).trans (ra_21_11 m c)
theorem ra_23_12 : Wr12 m c (Proc.devRef .tc main_arg23) = (argsR m c).a23 :=
  (keepR11 (Wr11 m c) main_arg23 (by decide)).trans (ra_23_11 m c)
theorem ra_26_12 : Wr12 m c (Proc.devRef .tc main_arg26) = (argsR m c).a26 :=
  (keepR11 (Wr11 m c) main_arg26 (by decide)).trans (ra_26_11 m c)
theorem ra_28_12 : Wr12 m c (Proc.devRef .tc main_arg28) = (argsR m c).a28 :=
  (keepR11 (Wr11 m c) main_arg28 (by decide)).trans (ra_28_11 m c)
theorem ra_22_12 : Wr12 m c (Proc.devRef .tc main_arg22) = (argsR m c).a22 :=
  (keepR11 (Wr11 m c) main_arg22 (by decide)).trans (ra_22_11 m c)
theorem ra_24_12 : Wr12 m c (Proc.devRef .tc main_arg24) = (argsR m c).a24 :=
  (keepR11 (Wr11 m c) main_arg24 (by decide)).trans (ra_24_11 m c)
theorem ra_29_12 : Wr12 m c (Proc.devRef .tc main_arg29) = (argsR m c).a29 :=
  (keepR11 (Wr11 m c) main_arg29 (by decide)).trans (ra_29_11 m c)
theorem fr_main_v1_12 : Wr12 m c (Proc.devRef .tc main_v1) = Cert.Net.gv_0 (argsR m c) :=
  (keepR11 (Wr11 m c) main_v1 (by decide)).trans (fr_main_v1_11 m c)
theorem fr_main_v3_12 : Wr12 m c (Proc.devRef .tc main_v3) = Cert.Net.gv_1 (argsR m c) :=
  (keepR11 (Wr11 m c) main_v3 (by decide)).trans (fr_main_v3_11 m c)
theorem fr_main_v6_12 : Wr12 m c (Proc.devRef .tc main_v6) = Cert.Net.gv_3 (argsR m c) :=
  (keepR11 (Wr11 m c) main_v6 (by decide)).trans (fr_main_v6_11 m c)
theorem fr_main_v8_12 : Wr12 m c (Proc.devRef .tc main_v8) = Cert.Net.gv_5 (argsR m c) :=
  (keepR11 (Wr11 m c) main_v8 (by decide)).trans (fr_main_v8_11 m c)
theorem fr_main_v165_12 : Wr12 m c (Proc.devRef .tc main_v165) = Cert.Net.gv_36 (argsR m c) :=
  (keepR11 (Wr11 m c) main_v165 (by decide)).trans (fr_main_v165_11 m c)
theorem fr_main_v172_12 : Wr12 m c (Proc.devRef .tc main_v172) = Cert.Net.gv_37 (argsR m c) :=
  (keepR11 (Wr11 m c) main_v172 (by decide)).trans (fr_main_v172_11 m c)
theorem fr'_main_v236 : StableHlo.after R12 (Wr12 m c) (Proc.devRef .tc main_v236) = Cert.Net.gv_48 (argsR m c) :=
  (R12_main_v236 (Wr12 m c)).trans (by rw [ra_16_12 m c]; rfl)
theorem fr_main_v236_13 : Wr13 m c (Proc.devRef .tc main_v236) = Cert.Net.gv_48 (argsR m c) := fr'_main_v236 m c
theorem fr'_main_v239 : StableHlo.after R12 (Wr12 m c) (Proc.devRef .tc main_v239) = Cert.Net.gv_49 (argsR m c) :=
  (R12_main_v239 (Wr12 m c)).trans (by rw [ra_17_12 m c]; rfl)
theorem fr_main_v239_13 : Wr13 m c (Proc.devRef .tc main_v239) = Cert.Net.gv_49 (argsR m c) := fr'_main_v239 m c
theorem fr'_main_call13_v0 : StableHlo.after R12 (Wr12 m c) (Proc.devRef .tc main_call13_v0) = Cert.Net.gv_7 (argsR m c) :=
  (R12_main_call13_v0 (Wr12 m c)).trans (by rfl)
theorem fr_main_call13_v0_13 : Wr13 m c (Proc.devRef .tc main_call13_v0) = Cert.Net.gv_7 (argsR m c) := fr'_main_call13_v0 m c
theorem fr'_main_v243 : StableHlo.after R12 (Wr12 m c) (Proc.devRef .tc main_v243) = Cert.Net.gv_50 (argsR m c) :=
  (R12_main_v243 (Wr12 m c)).trans (by rw [fr_main_v165_12 m c, fr'_main_v236 m c, fr'_main_v239 m c, fr'_main_call13_v0 m c]; rfl)
theorem fr_main_v243_13 : Wr13 m c (Proc.devRef .tc main_v243) = Cert.Net.gv_50 (argsR m c) := fr'_main_v243 m c
theorem ra_32_13 : Wr13 m c (Proc.devRef .tc main_arg32) = (argsR m c).a32 :=
  (keepR12 (Wr12 m c) main_arg32 (by decide)).trans (ra_32_12 m c)
theorem ra_33_13 : Wr13 m c (Proc.devRef .tc main_arg33) = (argsR m c).a33 :=
  (keepR12 (Wr12 m c) main_arg33 (by decide)).trans (ra_33_12 m c)
theorem ra_30_13 : Wr13 m c (Proc.devRef .tc main_arg30) = (argsR m c).a30 :=
  (keepR12 (Wr12 m c) main_arg30 (by decide)).trans (ra_30_12 m c)
theorem ra_31_13 : Wr13 m c (Proc.devRef .tc main_arg31) = (argsR m c).a31 :=
  (keepR12 (Wr12 m c) main_arg31 (by decide)).trans (ra_31_12 m c)
theorem ra_2_13 : Wr13 m c (Proc.devRef .tc main_arg2) = (argsR m c).a2 :=
  (keepR12 (Wr12 m c) main_arg2 (by decide)).trans (ra_2_12 m c)
theorem ra_13_13 : Wr13 m c (Proc.devRef .tc main_arg13) = (argsR m c).a13 :=
  (keepR12 (Wr12 m c) main_arg13 (by decide)).trans (ra_13_12 m c)
theorem ra_14_13 : Wr13 m c (Proc.devRef .tc main_arg14) = (argsR m c).a14 :=
  (keepR12 (Wr12 m c) main_arg14 (by decide)).trans (ra_14_12 m c)
theorem ra_15_13 : Wr13 m c (Proc.devRef .tc main_arg15) = (argsR m c).a15 :=
  (keepR12 (Wr12 m c) main_arg15 (by decide)).trans (ra_15_12 m c)
theorem ra_16_13 : Wr13 m c (Proc.devRef .tc main_arg16) = (argsR m c).a16 :=
  (keepR12 (Wr12 m c) main_arg16 (by decide)).trans (ra_16_12 m c)
theorem ra_17_13 : Wr13 m c (Proc.devRef .tc main_arg17) = (argsR m c).a17 :=
  (keepR12 (Wr12 m c) main_arg17 (by decide)).trans (ra_17_12 m c)
theorem ra_18_13 : Wr13 m c (Proc.devRef .tc main_arg18) = (argsR m c).a18 :=
  (keepR12 (Wr12 m c) main_arg18 (by decide)).trans (ra_18_12 m c)
theorem ra_19_13 : Wr13 m c (Proc.devRef .tc main_arg19) = (argsR m c).a19 :=
  (keepR12 (Wr12 m c) main_arg19 (by decide)).trans (ra_19_12 m c)
theorem ra_20_13 : Wr13 m c (Proc.devRef .tc main_arg20) = (argsR m c).a20 :=
  (keepR12 (Wr12 m c) main_arg20 (by decide)).trans (ra_20_12 m c)
theorem ra_25_13 : Wr13 m c (Proc.devRef .tc main_arg25) = (argsR m c).a25 :=
  (keepR12 (Wr12 m c) main_arg25 (by decide)).trans (ra_25_12 m c)
theorem ra_27_13 : Wr13 m c (Proc.devRef .tc main_arg27) = (argsR m c).a27 :=
  (keepR12 (Wr12 m c) main_arg27 (by decide)).trans (ra_27_12 m c)
theorem ra_21_13 : Wr13 m c (Proc.devRef .tc main_arg21) = (argsR m c).a21 :=
  (keepR12 (Wr12 m c) main_arg21 (by decide)).trans (ra_21_12 m c)
theorem ra_23_13 : Wr13 m c (Proc.devRef .tc main_arg23) = (argsR m c).a23 :=
  (keepR12 (Wr12 m c) main_arg23 (by decide)).trans (ra_23_12 m c)
theorem ra_26_13 : Wr13 m c (Proc.devRef .tc main_arg26) = (argsR m c).a26 :=
  (keepR12 (Wr12 m c) main_arg26 (by decide)).trans (ra_26_12 m c)
theorem ra_28_13 : Wr13 m c (Proc.devRef .tc main_arg28) = (argsR m c).a28 :=
  (keepR12 (Wr12 m c) main_arg28 (by decide)).trans (ra_28_12 m c)
theorem ra_22_13 : Wr13 m c (Proc.devRef .tc main_arg22) = (argsR m c).a22 :=
  (keepR12 (Wr12 m c) main_arg22 (by decide)).trans (ra_22_12 m c)
theorem ra_24_13 : Wr13 m c (Proc.devRef .tc main_arg24) = (argsR m c).a24 :=
  (keepR12 (Wr12 m c) main_arg24 (by decide)).trans (ra_24_12 m c)
theorem ra_29_13 : Wr13 m c (Proc.devRef .tc main_arg29) = (argsR m c).a29 :=
  (keepR12 (Wr12 m c) main_arg29 (by decide)).trans (ra_29_12 m c)
theorem fr_main_v1_13 : Wr13 m c (Proc.devRef .tc main_v1) = Cert.Net.gv_0 (argsR m c) :=
  (keepR12 (Wr12 m c) main_v1 (by decide)).trans (fr_main_v1_12 m c)
theorem fr_main_v3_13 : Wr13 m c (Proc.devRef .tc main_v3) = Cert.Net.gv_1 (argsR m c) :=
  (keepR12 (Wr12 m c) main_v3 (by decide)).trans (fr_main_v3_12 m c)
theorem fr_main_v6_13 : Wr13 m c (Proc.devRef .tc main_v6) = Cert.Net.gv_3 (argsR m c) :=
  (keepR12 (Wr12 m c) main_v6 (by decide)).trans (fr_main_v6_12 m c)
theorem fr_main_v8_13 : Wr13 m c (Proc.devRef .tc main_v8) = Cert.Net.gv_5 (argsR m c) :=
  (keepR12 (Wr12 m c) main_v8 (by decide)).trans (fr_main_v8_12 m c)
theorem fr_main_v172_13 : Wr13 m c (Proc.devRef .tc main_v172) = Cert.Net.gv_37 (argsR m c) :=
  (keepR12 (Wr12 m c) main_v172 (by decide)).trans (fr_main_v172_12 m c)
theorem fr_main_v234_13 : Wr13 m c (Proc.devRef .tc main_v234) = Cert.Net.gv_47 (argsR m c) :=
  (keepR12 (Wr12 m c) main_v234 (by decide)).trans (fr_main_v234_12 m c)
theorem fr'_main_v245 : StableHlo.after R13 (Wr13 m c) (Proc.devRef .tc main_v245) = Cert.Net.gv_51 (argsR m c) :=
  (R13_main_v245 (Wr13 m c)).trans (by rw [ra_16_13 m c]; rfl)
theorem fr_main_v245_14 : Wr14 m c (Proc.devRef .tc main_v245) = Cert.Net.gv_51 (argsR m c) := fr'_main_v245 m c
theorem fr'_main_v248 : StableHlo.after R13 (Wr13 m c) (Proc.devRef .tc main_v248) = Cert.Net.gv_52 (argsR m c) :=
  (R13_main_v248 (Wr13 m c)).trans (by rw [ra_17_13 m c]; rfl)
theorem fr_main_v248_14 : Wr14 m c (Proc.devRef .tc main_v248) = Cert.Net.gv_52 (argsR m c) := fr'_main_v248 m c
theorem fr'_main_call14_v0 : StableHlo.after R13 (Wr13 m c) (Proc.devRef .tc main_call14_v0) = Cert.Net.gv_7 (argsR m c) :=
  (R13_main_call14_v0 (Wr13 m c)).trans (by rfl)
theorem fr_main_call14_v0_14 : Wr14 m c (Proc.devRef .tc main_call14_v0) = Cert.Net.gv_7 (argsR m c) := fr'_main_call14_v0 m c
theorem fr'_main_v252 : StableHlo.after R13 (Wr13 m c) (Proc.devRef .tc main_v252) = Cert.Net.gv_53 (argsR m c) :=
  (R13_main_v252 (Wr13 m c)).trans (by rw [fr_main_v243_13 m c, fr'_main_v245 m c, fr'_main_v248 m c, fr'_main_call14_v0 m c]; rfl)
theorem fr_main_v252_14 : Wr14 m c (Proc.devRef .tc main_v252) = Cert.Net.gv_53 (argsR m c) := fr'_main_v252 m c
theorem ra_32_14 : Wr14 m c (Proc.devRef .tc main_arg32) = (argsR m c).a32 :=
  (keepR13 (Wr13 m c) main_arg32 (by decide)).trans (ra_32_13 m c)
theorem ra_33_14 : Wr14 m c (Proc.devRef .tc main_arg33) = (argsR m c).a33 :=
  (keepR13 (Wr13 m c) main_arg33 (by decide)).trans (ra_33_13 m c)
theorem ra_30_14 : Wr14 m c (Proc.devRef .tc main_arg30) = (argsR m c).a30 :=
  (keepR13 (Wr13 m c) main_arg30 (by decide)).trans (ra_30_13 m c)
theorem ra_31_14 : Wr14 m c (Proc.devRef .tc main_arg31) = (argsR m c).a31 :=
  (keepR13 (Wr13 m c) main_arg31 (by decide)).trans (ra_31_13 m c)
theorem ra_2_14 : Wr14 m c (Proc.devRef .tc main_arg2) = (argsR m c).a2 :=
  (keepR13 (Wr13 m c) main_arg2 (by decide)).trans (ra_2_13 m c)
theorem ra_13_14 : Wr14 m c (Proc.devRef .tc main_arg13) = (argsR m c).a13 :=
  (keepR13 (Wr13 m c) main_arg13 (by decide)).trans (ra_13_13 m c)
theorem ra_14_14 : Wr14 m c (Proc.devRef .tc main_arg14) = (argsR m c).a14 :=
  (keepR13 (Wr13 m c) main_arg14 (by decide)).trans (ra_14_13 m c)
theorem ra_15_14 : Wr14 m c (Proc.devRef .tc main_arg15) = (argsR m c).a15 :=
  (keepR13 (Wr13 m c) main_arg15 (by decide)).trans (ra_15_13 m c)
theorem ra_16_14 : Wr14 m c (Proc.devRef .tc main_arg16) = (argsR m c).a16 :=
  (keepR13 (Wr13 m c) main_arg16 (by decide)).trans (ra_16_13 m c)
theorem ra_17_14 : Wr14 m c (Proc.devRef .tc main_arg17) = (argsR m c).a17 :=
  (keepR13 (Wr13 m c) main_arg17 (by decide)).trans (ra_17_13 m c)
theorem ra_18_14 : Wr14 m c (Proc.devRef .tc main_arg18) = (argsR m c).a18 :=
  (keepR13 (Wr13 m c) main_arg18 (by decide)).trans (ra_18_13 m c)
theorem ra_19_14 : Wr14 m c (Proc.devRef .tc main_arg19) = (argsR m c).a19 :=
  (keepR13 (Wr13 m c) main_arg19 (by decide)).trans (ra_19_13 m c)
theorem ra_20_14 : Wr14 m c (Proc.devRef .tc main_arg20) = (argsR m c).a20 :=
  (keepR13 (Wr13 m c) main_arg20 (by decide)).trans (ra_20_13 m c)
theorem ra_25_14 : Wr14 m c (Proc.devRef .tc main_arg25) = (argsR m c).a25 :=
  (keepR13 (Wr13 m c) main_arg25 (by decide)).trans (ra_25_13 m c)
theorem ra_27_14 : Wr14 m c (Proc.devRef .tc main_arg27) = (argsR m c).a27 :=
  (keepR13 (Wr13 m c) main_arg27 (by decide)).trans (ra_27_13 m c)
theorem ra_21_14 : Wr14 m c (Proc.devRef .tc main_arg21) = (argsR m c).a21 :=
  (keepR13 (Wr13 m c) main_arg21 (by decide)).trans (ra_21_13 m c)
theorem ra_23_14 : Wr14 m c (Proc.devRef .tc main_arg23) = (argsR m c).a23 :=
  (keepR13 (Wr13 m c) main_arg23 (by decide)).trans (ra_23_13 m c)
theorem ra_26_14 : Wr14 m c (Proc.devRef .tc main_arg26) = (argsR m c).a26 :=
  (keepR13 (Wr13 m c) main_arg26 (by decide)).trans (ra_26_13 m c)
theorem ra_28_14 : Wr14 m c (Proc.devRef .tc main_arg28) = (argsR m c).a28 :=
  (keepR13 (Wr13 m c) main_arg28 (by decide)).trans (ra_28_13 m c)
theorem ra_22_14 : Wr14 m c (Proc.devRef .tc main_arg22) = (argsR m c).a22 :=
  (keepR13 (Wr13 m c) main_arg22 (by decide)).trans (ra_22_13 m c)
theorem ra_24_14 : Wr14 m c (Proc.devRef .tc main_arg24) = (argsR m c).a24 :=
  (keepR13 (Wr13 m c) main_arg24 (by decide)).trans (ra_24_13 m c)
theorem ra_29_14 : Wr14 m c (Proc.devRef .tc main_arg29) = (argsR m c).a29 :=
  (keepR13 (Wr13 m c) main_arg29 (by decide)).trans (ra_29_13 m c)
theorem fr_main_v1_14 : Wr14 m c (Proc.devRef .tc main_v1) = Cert.Net.gv_0 (argsR m c) :=
  (keepR13 (Wr13 m c) main_v1 (by decide)).trans (fr_main_v1_13 m c)
theorem fr_main_v3_14 : Wr14 m c (Proc.devRef .tc main_v3) = Cert.Net.gv_1 (argsR m c) :=
  (keepR13 (Wr13 m c) main_v3 (by decide)).trans (fr_main_v3_13 m c)
theorem fr_main_v6_14 : Wr14 m c (Proc.devRef .tc main_v6) = Cert.Net.gv_3 (argsR m c) :=
  (keepR13 (Wr13 m c) main_v6 (by decide)).trans (fr_main_v6_13 m c)
theorem fr_main_v8_14 : Wr14 m c (Proc.devRef .tc main_v8) = Cert.Net.gv_5 (argsR m c) :=
  (keepR13 (Wr13 m c) main_v8 (by decide)).trans (fr_main_v8_13 m c)
theorem fr_main_v172_14 : Wr14 m c (Proc.devRef .tc main_v172) = Cert.Net.gv_37 (argsR m c) :=
  (keepR13 (Wr13 m c) main_v172 (by decide)).trans (fr_main_v172_13 m c)
theorem fr_main_v234_14 : Wr14 m c (Proc.devRef .tc main_v234) = Cert.Net.gv_47 (argsR m c) :=
  (keepR13 (Wr13 m c) main_v234 (by decide)).trans (fr_main_v234_13 m c)
theorem fr'_main_v254 : StableHlo.after R14 (Wr14 m c) (Proc.devRef .tc main_v254) = Cert.Net.gv_54 (argsR m c) :=
  (R14_main_v254 (Wr14 m c)).trans (by rw [ra_18_14 m c]; rfl)
theorem fr_main_v254_15 : Wr15 m c (Proc.devRef .tc main_v254) = Cert.Net.gv_54 (argsR m c) := fr'_main_v254 m c
theorem fr'_main_v257 : StableHlo.after R14 (Wr14 m c) (Proc.devRef .tc main_v257) = Cert.Net.gv_55 (argsR m c) :=
  (R14_main_v257 (Wr14 m c)).trans (by rw [ra_19_14 m c]; rfl)
theorem fr_main_v257_15 : Wr15 m c (Proc.devRef .tc main_v257) = Cert.Net.gv_55 (argsR m c) := fr'_main_v257 m c
theorem fr'_main_call15_v0 : StableHlo.after R14 (Wr14 m c) (Proc.devRef .tc main_call15_v0) = Cert.Net.gv_8 (argsR m c) :=
  (R14_main_call15_v0 (Wr14 m c)).trans (by rfl)
theorem fr_main_call15_v0_15 : Wr15 m c (Proc.devRef .tc main_call15_v0) = Cert.Net.gv_8 (argsR m c) := fr'_main_call15_v0 m c
theorem fr'_main_v261 : StableHlo.after R14 (Wr14 m c) (Proc.devRef .tc main_v261) = Cert.Net.gv_56 (argsR m c) :=
  (R14_main_v261 (Wr14 m c)).trans (by rw [fr_main_v172_14 m c, fr'_main_v254 m c, fr'_main_v257 m c, fr'_main_call15_v0 m c]; rfl)
theorem fr_main_v261_15 : Wr15 m c (Proc.devRef .tc main_v261) = Cert.Net.gv_56 (argsR m c) := fr'_main_v261 m c
theorem ra_32_15 : Wr15 m c (Proc.devRef .tc main_arg32) = (argsR m c).a32 :=
  (keepR14 (Wr14 m c) main_arg32 (by decide)).trans (ra_32_14 m c)
theorem ra_33_15 : Wr15 m c (Proc.devRef .tc main_arg33) = (argsR m c).a33 :=
  (keepR14 (Wr14 m c) main_arg33 (by decide)).trans (ra_33_14 m c)
theorem ra_30_15 : Wr15 m c (Proc.devRef .tc main_arg30) = (argsR m c).a30 :=
  (keepR14 (Wr14 m c) main_arg30 (by decide)).trans (ra_30_14 m c)
theorem ra_31_15 : Wr15 m c (Proc.devRef .tc main_arg31) = (argsR m c).a31 :=
  (keepR14 (Wr14 m c) main_arg31 (by decide)).trans (ra_31_14 m c)
theorem ra_2_15 : Wr15 m c (Proc.devRef .tc main_arg2) = (argsR m c).a2 :=
  (keepR14 (Wr14 m c) main_arg2 (by decide)).trans (ra_2_14 m c)
theorem ra_13_15 : Wr15 m c (Proc.devRef .tc main_arg13) = (argsR m c).a13 :=
  (keepR14 (Wr14 m c) main_arg13 (by decide)).trans (ra_13_14 m c)
theorem ra_14_15 : Wr15 m c (Proc.devRef .tc main_arg14) = (argsR m c).a14 :=
  (keepR14 (Wr14 m c) main_arg14 (by decide)).trans (ra_14_14 m c)
theorem ra_15_15 : Wr15 m c (Proc.devRef .tc main_arg15) = (argsR m c).a15 :=
  (keepR14 (Wr14 m c) main_arg15 (by decide)).trans (ra_15_14 m c)
theorem ra_16_15 : Wr15 m c (Proc.devRef .tc main_arg16) = (argsR m c).a16 :=
  (keepR14 (Wr14 m c) main_arg16 (by decide)).trans (ra_16_14 m c)
theorem ra_17_15 : Wr15 m c (Proc.devRef .tc main_arg17) = (argsR m c).a17 :=
  (keepR14 (Wr14 m c) main_arg17 (by decide)).trans (ra_17_14 m c)
theorem ra_18_15 : Wr15 m c (Proc.devRef .tc main_arg18) = (argsR m c).a18 :=
  (keepR14 (Wr14 m c) main_arg18 (by decide)).trans (ra_18_14 m c)
theorem ra_19_15 : Wr15 m c (Proc.devRef .tc main_arg19) = (argsR m c).a19 :=
  (keepR14 (Wr14 m c) main_arg19 (by decide)).trans (ra_19_14 m c)
theorem ra_20_15 : Wr15 m c (Proc.devRef .tc main_arg20) = (argsR m c).a20 :=
  (keepR14 (Wr14 m c) main_arg20 (by decide)).trans (ra_20_14 m c)
theorem ra_25_15 : Wr15 m c (Proc.devRef .tc main_arg25) = (argsR m c).a25 :=
  (keepR14 (Wr14 m c) main_arg25 (by decide)).trans (ra_25_14 m c)
theorem ra_27_15 : Wr15 m c (Proc.devRef .tc main_arg27) = (argsR m c).a27 :=
  (keepR14 (Wr14 m c) main_arg27 (by decide)).trans (ra_27_14 m c)
theorem ra_21_15 : Wr15 m c (Proc.devRef .tc main_arg21) = (argsR m c).a21 :=
  (keepR14 (Wr14 m c) main_arg21 (by decide)).trans (ra_21_14 m c)
theorem ra_23_15 : Wr15 m c (Proc.devRef .tc main_arg23) = (argsR m c).a23 :=
  (keepR14 (Wr14 m c) main_arg23 (by decide)).trans (ra_23_14 m c)
theorem ra_26_15 : Wr15 m c (Proc.devRef .tc main_arg26) = (argsR m c).a26 :=
  (keepR14 (Wr14 m c) main_arg26 (by decide)).trans (ra_26_14 m c)
theorem ra_28_15 : Wr15 m c (Proc.devRef .tc main_arg28) = (argsR m c).a28 :=
  (keepR14 (Wr14 m c) main_arg28 (by decide)).trans (ra_28_14 m c)
theorem ra_22_15 : Wr15 m c (Proc.devRef .tc main_arg22) = (argsR m c).a22 :=
  (keepR14 (Wr14 m c) main_arg22 (by decide)).trans (ra_22_14 m c)
theorem ra_24_15 : Wr15 m c (Proc.devRef .tc main_arg24) = (argsR m c).a24 :=
  (keepR14 (Wr14 m c) main_arg24 (by decide)).trans (ra_24_14 m c)
theorem ra_29_15 : Wr15 m c (Proc.devRef .tc main_arg29) = (argsR m c).a29 :=
  (keepR14 (Wr14 m c) main_arg29 (by decide)).trans (ra_29_14 m c)
theorem fr_main_v1_15 : Wr15 m c (Proc.devRef .tc main_v1) = Cert.Net.gv_0 (argsR m c) :=
  (keepR14 (Wr14 m c) main_v1 (by decide)).trans (fr_main_v1_14 m c)
theorem fr_main_v3_15 : Wr15 m c (Proc.devRef .tc main_v3) = Cert.Net.gv_1 (argsR m c) :=
  (keepR14 (Wr14 m c) main_v3 (by decide)).trans (fr_main_v3_14 m c)
theorem fr_main_v6_15 : Wr15 m c (Proc.devRef .tc main_v6) = Cert.Net.gv_3 (argsR m c) :=
  (keepR14 (Wr14 m c) main_v6 (by decide)).trans (fr_main_v6_14 m c)
theorem fr_main_v8_15 : Wr15 m c (Proc.devRef .tc main_v8) = Cert.Net.gv_5 (argsR m c) :=
  (keepR14 (Wr14 m c) main_v8 (by decide)).trans (fr_main_v8_14 m c)
theorem fr_main_v234_15 : Wr15 m c (Proc.devRef .tc main_v234) = Cert.Net.gv_47 (argsR m c) :=
  (keepR14 (Wr14 m c) main_v234 (by decide)).trans (fr_main_v234_14 m c)
theorem fr_main_v252_15 : Wr15 m c (Proc.devRef .tc main_v252) = Cert.Net.gv_53 (argsR m c) :=
  (keepR14 (Wr14 m c) main_v252 (by decide)).trans (fr_main_v252_14 m c)
theorem fr'_main_v263 : StableHlo.after R15 (Wr15 m c) (Proc.devRef .tc main_v263) = Cert.Net.gv_57 (argsR m c) :=
  (R15_main_v263 (Wr15 m c)).trans (by rw [ra_18_15 m c]; rfl)
theorem fr_main_v263_16 : Wr16 m c (Proc.devRef .tc main_v263) = Cert.Net.gv_57 (argsR m c) := fr'_main_v263 m c
theorem fr'_main_v266 : StableHlo.after R15 (Wr15 m c) (Proc.devRef .tc main_v266) = Cert.Net.gv_58 (argsR m c) :=
  (R15_main_v266 (Wr15 m c)).trans (by rw [ra_19_15 m c]; rfl)
theorem fr_main_v266_16 : Wr16 m c (Proc.devRef .tc main_v266) = Cert.Net.gv_58 (argsR m c) := fr'_main_v266 m c
theorem fr'_main_call16_v0 : StableHlo.after R15 (Wr15 m c) (Proc.devRef .tc main_call16_v0) = Cert.Net.gv_8 (argsR m c) :=
  (R15_main_call16_v0 (Wr15 m c)).trans (by rfl)
theorem fr_main_call16_v0_16 : Wr16 m c (Proc.devRef .tc main_call16_v0) = Cert.Net.gv_8 (argsR m c) := fr'_main_call16_v0 m c
theorem fr'_main_v270 : StableHlo.after R15 (Wr15 m c) (Proc.devRef .tc main_v270) = Cert.Net.gv_59 (argsR m c) :=
  (R15_main_v270 (Wr15 m c)).trans (by rw [fr_main_v261_15 m c, fr'_main_v263 m c, fr'_main_v266 m c, fr'_main_call16_v0 m c]; rfl)
theorem fr_main_v270_16 : Wr16 m c (Proc.devRef .tc main_v270) = Cert.Net.gv_59 (argsR m c) := fr'_main_v270 m c
theorem ra_32_16 : Wr16 m c (Proc.devRef .tc main_arg32) = (argsR m c).a32 :=
  (keepR15 (Wr15 m c) main_arg32 (by decide)).trans (ra_32_15 m c)
theorem ra_33_16 : Wr16 m c (Proc.devRef .tc main_arg33) = (argsR m c).a33 :=
  (keepR15 (Wr15 m c) main_arg33 (by decide)).trans (ra_33_15 m c)
theorem ra_30_16 : Wr16 m c (Proc.devRef .tc main_arg30) = (argsR m c).a30 :=
  (keepR15 (Wr15 m c) main_arg30 (by decide)).trans (ra_30_15 m c)
theorem ra_31_16 : Wr16 m c (Proc.devRef .tc main_arg31) = (argsR m c).a31 :=
  (keepR15 (Wr15 m c) main_arg31 (by decide)).trans (ra_31_15 m c)
theorem ra_2_16 : Wr16 m c (Proc.devRef .tc main_arg2) = (argsR m c).a2 :=
  (keepR15 (Wr15 m c) main_arg2 (by decide)).trans (ra_2_15 m c)
theorem ra_13_16 : Wr16 m c (Proc.devRef .tc main_arg13) = (argsR m c).a13 :=
  (keepR15 (Wr15 m c) main_arg13 (by decide)).trans (ra_13_15 m c)
theorem ra_14_16 : Wr16 m c (Proc.devRef .tc main_arg14) = (argsR m c).a14 :=
  (keepR15 (Wr15 m c) main_arg14 (by decide)).trans (ra_14_15 m c)
theorem ra_15_16 : Wr16 m c (Proc.devRef .tc main_arg15) = (argsR m c).a15 :=
  (keepR15 (Wr15 m c) main_arg15 (by decide)).trans (ra_15_15 m c)
theorem ra_16_16 : Wr16 m c (Proc.devRef .tc main_arg16) = (argsR m c).a16 :=
  (keepR15 (Wr15 m c) main_arg16 (by decide)).trans (ra_16_15 m c)
theorem ra_17_16 : Wr16 m c (Proc.devRef .tc main_arg17) = (argsR m c).a17 :=
  (keepR15 (Wr15 m c) main_arg17 (by decide)).trans (ra_17_15 m c)
theorem ra_18_16 : Wr16 m c (Proc.devRef .tc main_arg18) = (argsR m c).a18 :=
  (keepR15 (Wr15 m c) main_arg18 (by decide)).trans (ra_18_15 m c)
theorem ra_19_16 : Wr16 m c (Proc.devRef .tc main_arg19) = (argsR m c).a19 :=
  (keepR15 (Wr15 m c) main_arg19 (by decide)).trans (ra_19_15 m c)
theorem ra_20_16 : Wr16 m c (Proc.devRef .tc main_arg20) = (argsR m c).a20 :=
  (keepR15 (Wr15 m c) main_arg20 (by decide)).trans (ra_20_15 m c)
theorem ra_25_16 : Wr16 m c (Proc.devRef .tc main_arg25) = (argsR m c).a25 :=
  (keepR15 (Wr15 m c) main_arg25 (by decide)).trans (ra_25_15 m c)
theorem ra_27_16 : Wr16 m c (Proc.devRef .tc main_arg27) = (argsR m c).a27 :=
  (keepR15 (Wr15 m c) main_arg27 (by decide)).trans (ra_27_15 m c)
theorem ra_21_16 : Wr16 m c (Proc.devRef .tc main_arg21) = (argsR m c).a21 :=
  (keepR15 (Wr15 m c) main_arg21 (by decide)).trans (ra_21_15 m c)
theorem ra_23_16 : Wr16 m c (Proc.devRef .tc main_arg23) = (argsR m c).a23 :=
  (keepR15 (Wr15 m c) main_arg23 (by decide)).trans (ra_23_15 m c)
theorem ra_26_16 : Wr16 m c (Proc.devRef .tc main_arg26) = (argsR m c).a26 :=
  (keepR15 (Wr15 m c) main_arg26 (by decide)).trans (ra_26_15 m c)
theorem ra_28_16 : Wr16 m c (Proc.devRef .tc main_arg28) = (argsR m c).a28 :=
  (keepR15 (Wr15 m c) main_arg28 (by decide)).trans (ra_28_15 m c)
theorem ra_22_16 : Wr16 m c (Proc.devRef .tc main_arg22) = (argsR m c).a22 :=
  (keepR15 (Wr15 m c) main_arg22 (by decide)).trans (ra_22_15 m c)
theorem ra_24_16 : Wr16 m c (Proc.devRef .tc main_arg24) = (argsR m c).a24 :=
  (keepR15 (Wr15 m c) main_arg24 (by decide)).trans (ra_24_15 m c)
theorem ra_29_16 : Wr16 m c (Proc.devRef .tc main_arg29) = (argsR m c).a29 :=
  (keepR15 (Wr15 m c) main_arg29 (by decide)).trans (ra_29_15 m c)
theorem fr_main_v1_16 : Wr16 m c (Proc.devRef .tc main_v1) = Cert.Net.gv_0 (argsR m c) :=
  (keepR15 (Wr15 m c) main_v1 (by decide)).trans (fr_main_v1_15 m c)
theorem fr_main_v3_16 : Wr16 m c (Proc.devRef .tc main_v3) = Cert.Net.gv_1 (argsR m c) :=
  (keepR15 (Wr15 m c) main_v3 (by decide)).trans (fr_main_v3_15 m c)
theorem fr_main_v6_16 : Wr16 m c (Proc.devRef .tc main_v6) = Cert.Net.gv_3 (argsR m c) :=
  (keepR15 (Wr15 m c) main_v6 (by decide)).trans (fr_main_v6_15 m c)
theorem fr_main_v8_16 : Wr16 m c (Proc.devRef .tc main_v8) = Cert.Net.gv_5 (argsR m c) :=
  (keepR15 (Wr15 m c) main_v8 (by decide)).trans (fr_main_v8_15 m c)
theorem fr_main_v234_16 : Wr16 m c (Proc.devRef .tc main_v234) = Cert.Net.gv_47 (argsR m c) :=
  (keepR15 (Wr15 m c) main_v234 (by decide)).trans (fr_main_v234_15 m c)
theorem fr_main_v252_16 : Wr16 m c (Proc.devRef .tc main_v252) = Cert.Net.gv_53 (argsR m c) :=
  (keepR15 (Wr15 m c) main_v252 (by decide)).trans (fr_main_v252_15 m c)
theorem fr'_main_v271 : StableHlo.after R16 (Wr16 m c) (Proc.devRef .tc main_v271) = Cert.Net.gv_7 (argsR m c) :=
  (R16_main_v271 (Wr16 m c)).trans (by rfl)
theorem fr_main_v271_17 : Wr17 m c (Proc.devRef .tc main_v271) = Cert.Net.gv_7 (argsR m c) := fr'_main_v271 m c
theorem fr'_main_v281 : StableHlo.after R16 (Wr16 m c) (Proc.devRef .tc main_v281) = Cert.Net.gv_60 (argsR m c) :=
  (R16_main_v281 (Wr16 m c)).trans (by rw [fr'_main_v271 m c, fr_main_v6_16 m c, fr_main_v234_16 m c]; rfl)
theorem fr_main_v281_17 : Wr17 m c (Proc.devRef .tc main_v281) = Cert.Net.gv_60 (argsR m c) := fr'_main_v281 m c
theorem fr'_main_v282 : StableHlo.after R16 (Wr16 m c) (Proc.devRef .tc main_v282) = Cert.Net.gv_8 (argsR m c) :=
  (R16_main_v282 (Wr16 m c)).trans (by rfl)
theorem fr_main_v282_17 : Wr17 m c (Proc.devRef .tc main_v282) = Cert.Net.gv_8 (argsR m c) := fr'_main_v282 m c
theorem fr'_main_v292 : StableHlo.after R16 (Wr16 m c) (Proc.devRef .tc main_v292) = Cert.Net.gv_61 (argsR m c) :=
  (R16_main_v292 (Wr16 m c)).trans (by rw [fr'_main_v282 m c, fr_main_v8_16 m c, fr_main_v252_16 m c]; rfl)
theorem fr_main_v292_17 : Wr17 m c (Proc.devRef .tc main_v292) = Cert.Net.gv_61 (argsR m c) := fr'_main_v292 m c
theorem fr'_main_v300 : StableHlo.after R16 (Wr16 m c) (Proc.devRef .tc main_v300) = Cert.Net.gv_62 (argsR m c) :=
  (R16_main_v300 (Wr16 m c)).trans (by rw [fr_main_v252_16 m c, fr_main_v6_16 m c]; rfl)
theorem fr_main_v300_17 : Wr17 m c (Proc.devRef .tc main_v300) = Cert.Net.gv_62 (argsR m c) := fr'_main_v300 m c
theorem fr'_main_v306 : StableHlo.after R16 (Wr16 m c) (Proc.devRef .tc main_v306) = Cert.Net.gv_63 (argsR m c) :=
  (R16_main_v306 (Wr16 m c)).trans (by rw [fr_main_v234_16 m c, ra_20_16 m c, fr'_main_v300 m c, ra_25_16 m c, ra_27_16 m c]; rfl)
theorem fr_main_v306_17 : Wr17 m c (Proc.devRef .tc main_v306) = Cert.Net.gv_63 (argsR m c) := fr'_main_v306 m c
theorem ra_32_17 : Wr17 m c (Proc.devRef .tc main_arg32) = (argsR m c).a32 :=
  (keepR16 (Wr16 m c) main_arg32 (by decide)).trans (ra_32_16 m c)
theorem ra_33_17 : Wr17 m c (Proc.devRef .tc main_arg33) = (argsR m c).a33 :=
  (keepR16 (Wr16 m c) main_arg33 (by decide)).trans (ra_33_16 m c)
theorem ra_30_17 : Wr17 m c (Proc.devRef .tc main_arg30) = (argsR m c).a30 :=
  (keepR16 (Wr16 m c) main_arg30 (by decide)).trans (ra_30_16 m c)
theorem ra_31_17 : Wr17 m c (Proc.devRef .tc main_arg31) = (argsR m c).a31 :=
  (keepR16 (Wr16 m c) main_arg31 (by decide)).trans (ra_31_16 m c)
theorem ra_2_17 : Wr17 m c (Proc.devRef .tc main_arg2) = (argsR m c).a2 :=
  (keepR16 (Wr16 m c) main_arg2 (by decide)).trans (ra_2_16 m c)
theorem ra_13_17 : Wr17 m c (Proc.devRef .tc main_arg13) = (argsR m c).a13 :=
  (keepR16 (Wr16 m c) main_arg13 (by decide)).trans (ra_13_16 m c)
theorem ra_14_17 : Wr17 m c (Proc.devRef .tc main_arg14) = (argsR m c).a14 :=
  (keepR16 (Wr16 m c) main_arg14 (by decide)).trans (ra_14_16 m c)
theorem ra_15_17 : Wr17 m c (Proc.devRef .tc main_arg15) = (argsR m c).a15 :=
  (keepR16 (Wr16 m c) main_arg15 (by decide)).trans (ra_15_16 m c)
theorem ra_16_17 : Wr17 m c (Proc.devRef .tc main_arg16) = (argsR m c).a16 :=
  (keepR16 (Wr16 m c) main_arg16 (by decide)).trans (ra_16_16 m c)
theorem ra_17_17 : Wr17 m c (Proc.devRef .tc main_arg17) = (argsR m c).a17 :=
  (keepR16 (Wr16 m c) main_arg17 (by decide)).trans (ra_17_16 m c)
theorem ra_18_17 : Wr17 m c (Proc.devRef .tc main_arg18) = (argsR m c).a18 :=
  (keepR16 (Wr16 m c) main_arg18 (by decide)).trans (ra_18_16 m c)
theorem ra_19_17 : Wr17 m c (Proc.devRef .tc main_arg19) = (argsR m c).a19 :=
  (keepR16 (Wr16 m c) main_arg19 (by decide)).trans (ra_19_16 m c)
theorem ra_21_17 : Wr17 m c (Proc.devRef .tc main_arg21) = (argsR m c).a21 :=
  (keepR16 (Wr16 m c) main_arg21 (by decide)).trans (ra_21_16 m c)
theorem ra_23_17 : Wr17 m c (Proc.devRef .tc main_arg23) = (argsR m c).a23 :=
  (keepR16 (Wr16 m c) main_arg23 (by decide)).trans (ra_23_16 m c)
theorem ra_26_17 : Wr17 m c (Proc.devRef .tc main_arg26) = (argsR m c).a26 :=
  (keepR16 (Wr16 m c) main_arg26 (by decide)).trans (ra_26_16 m c)
theorem ra_28_17 : Wr17 m c (Proc.devRef .tc main_arg28) = (argsR m c).a28 :=
  (keepR16 (Wr16 m c) main_arg28 (by decide)).trans (ra_28_16 m c)
theorem ra_22_17 : Wr17 m c (Proc.devRef .tc main_arg22) = (argsR m c).a22 :=
  (keepR16 (Wr16 m c) main_arg22 (by decide)).trans (ra_22_16 m c)
theorem ra_24_17 : Wr17 m c (Proc.devRef .tc main_arg24) = (argsR m c).a24 :=
  (keepR16 (Wr16 m c) main_arg24 (by decide)).trans (ra_24_16 m c)
theorem ra_29_17 : Wr17 m c (Proc.devRef .tc main_arg29) = (argsR m c).a29 :=
  (keepR16 (Wr16 m c) main_arg29 (by decide)).trans (ra_29_16 m c)
theorem fr_main_v1_17 : Wr17 m c (Proc.devRef .tc main_v1) = Cert.Net.gv_0 (argsR m c) :=
  (keepR16 (Wr16 m c) main_v1 (by decide)).trans (fr_main_v1_16 m c)
theorem fr_main_v3_17 : Wr17 m c (Proc.devRef .tc main_v3) = Cert.Net.gv_1 (argsR m c) :=
  (keepR16 (Wr16 m c) main_v3 (by decide)).trans (fr_main_v3_16 m c)
theorem fr_main_v8_17 : Wr17 m c (Proc.devRef .tc main_v8) = Cert.Net.gv_5 (argsR m c) :=
  (keepR16 (Wr16 m c) main_v8 (by decide)).trans (fr_main_v8_16 m c)
theorem fr_main_v252_17 : Wr17 m c (Proc.devRef .tc main_v252) = Cert.Net.gv_53 (argsR m c) :=
  (keepR16 (Wr16 m c) main_v252 (by decide)).trans (fr_main_v252_16 m c)
theorem fr_main_v270_17 : Wr17 m c (Proc.devRef .tc main_v270) = Cert.Net.gv_59 (argsR m c) :=
  (keepR16 (Wr16 m c) main_v270 (by decide)).trans (fr_main_v270_16 m c)
theorem fr'_main_v316 : StableHlo.after R17 (Wr17 m c) (Proc.devRef .tc main_v316) = Cert.Net.gv_64 (argsR m c) :=
  (R17_main_v316 (Wr17 m c)).trans (by rw [fr_main_v270_17 m c, fr_main_v8_17 m c]; rfl)
theorem fr_main_v316_18 : Wr18 m c (Proc.devRef .tc main_v316) = Cert.Net.gv_64 (argsR m c) := fr'_main_v316 m c
theorem fr'_main_call18_v0 : StableHlo.after R17 (Wr17 m c) (Proc.devRef .tc main_call18_v0) = Cert.Net.gv_7 (argsR m c) :=
  (R17_main_call18_v0 (Wr17 m c)).trans (by rfl)
theorem fr_main_call18_v0_18 : Wr18 m c (Proc.devRef .tc main_call18_v0) = Cert.Net.gv_7 (argsR m c) := fr'_main_call18_v0 m c
theorem fr'_main_v322 : StableHlo.after R17 (Wr17 m c) (Proc.devRef .tc main_v322) = Cert.Net.gv_65 (argsR m c) :=
  (R17_main_v322 (Wr17 m c)).trans (by rw [fr_main_v252_17 m c, ra_21_17 m c, fr_main_v281_17 m c, ra_23_17 m c, fr'_main_v316 m c, ra_26_17 m c, ra_28_17 m c, fr'_main_call18_v0 m c]; rfl)
theorem fr_main_v322_18 : Wr18 m c (Proc.devRef .tc main_v322) = Cert.Net.gv_65 (argsR m c) := fr'_main_v322 m c
theorem ra_32_18 : Wr18 m c (Proc.devRef .tc main_arg32) = (argsR m c).a32 :=
  (keepR17 (Wr17 m c) main_arg32 (by decide)).trans (ra_32_17 m c)
theorem ra_33_18 : Wr18 m c (Proc.devRef .tc main_arg33) = (argsR m c).a33 :=
  (keepR17 (Wr17 m c) main_arg33 (by decide)).trans (ra_33_17 m c)
theorem ra_30_18 : Wr18 m c (Proc.devRef .tc main_arg30) = (argsR m c).a30 :=
  (keepR17 (Wr17 m c) main_arg30 (by decide)).trans (ra_30_17 m c)
theorem ra_31_18 : Wr18 m c (Proc.devRef .tc main_arg31) = (argsR m c).a31 :=
  (keepR17 (Wr17 m c) main_arg31 (by decide)).trans (ra_31_17 m c)
theorem ra_2_18 : Wr18 m c (Proc.devRef .tc main_arg2) = (argsR m c).a2 :=
  (keepR17 (Wr17 m c) main_arg2 (by decide)).trans (ra_2_17 m c)
theorem ra_13_18 : Wr18 m c (Proc.devRef .tc main_arg13) = (argsR m c).a13 :=
  (keepR17 (Wr17 m c) main_arg13 (by decide)).trans (ra_13_17 m c)
theorem ra_14_18 : Wr18 m c (Proc.devRef .tc main_arg14) = (argsR m c).a14 :=
  (keepR17 (Wr17 m c) main_arg14 (by decide)).trans (ra_14_17 m c)
theorem ra_15_18 : Wr18 m c (Proc.devRef .tc main_arg15) = (argsR m c).a15 :=
  (keepR17 (Wr17 m c) main_arg15 (by decide)).trans (ra_15_17 m c)
theorem ra_16_18 : Wr18 m c (Proc.devRef .tc main_arg16) = (argsR m c).a16 :=
  (keepR17 (Wr17 m c) main_arg16 (by decide)).trans (ra_16_17 m c)
theorem ra_17_18 : Wr18 m c (Proc.devRef .tc main_arg17) = (argsR m c).a17 :=
  (keepR17 (Wr17 m c) main_arg17 (by decide)).trans (ra_17_17 m c)
theorem ra_18_18 : Wr18 m c (Proc.devRef .tc main_arg18) = (argsR m c).a18 :=
  (keepR17 (Wr17 m c) main_arg18 (by decide)).trans (ra_18_17 m c)
theorem ra_19_18 : Wr18 m c (Proc.devRef .tc main_arg19) = (argsR m c).a19 :=
  (keepR17 (Wr17 m c) main_arg19 (by decide)).trans (ra_19_17 m c)
theorem ra_22_18 : Wr18 m c (Proc.devRef .tc main_arg22) = (argsR m c).a22 :=
  (keepR17 (Wr17 m c) main_arg22 (by decide)).trans (ra_22_17 m c)
theorem ra_24_18 : Wr18 m c (Proc.devRef .tc main_arg24) = (argsR m c).a24 :=
  (keepR17 (Wr17 m c) main_arg24 (by decide)).trans (ra_24_17 m c)
theorem ra_29_18 : Wr18 m c (Proc.devRef .tc main_arg29) = (argsR m c).a29 :=
  (keepR17 (Wr17 m c) main_arg29 (by decide)).trans (ra_29_17 m c)
theorem fr_main_v1_18 : Wr18 m c (Proc.devRef .tc main_v1) = Cert.Net.gv_0 (argsR m c) :=
  (keepR17 (Wr17 m c) main_v1 (by decide)).trans (fr_main_v1_17 m c)
theorem fr_main_v3_18 : Wr18 m c (Proc.devRef .tc main_v3) = Cert.Net.gv_1 (argsR m c) :=
  (keepR17 (Wr17 m c) main_v3 (by decide)).trans (fr_main_v3_17 m c)
theorem fr_main_v8_18 : Wr18 m c (Proc.devRef .tc main_v8) = Cert.Net.gv_5 (argsR m c) :=
  (keepR17 (Wr17 m c) main_v8 (by decide)).trans (fr_main_v8_17 m c)
theorem fr_main_v270_18 : Wr18 m c (Proc.devRef .tc main_v270) = Cert.Net.gv_59 (argsR m c) :=
  (keepR17 (Wr17 m c) main_v270 (by decide)).trans (fr_main_v270_17 m c)
theorem fr_main_v292_18 : Wr18 m c (Proc.devRef .tc main_v292) = Cert.Net.gv_61 (argsR m c) :=
  (keepR17 (Wr17 m c) main_v292 (by decide)).trans (fr_main_v292_17 m c)
theorem fr_main_v306_18 : Wr18 m c (Proc.devRef .tc main_v306) = Cert.Net.gv_63 (argsR m c) :=
  (keepR17 (Wr17 m c) main_v306 (by decide)).trans (fr_main_v306_17 m c)
theorem fr'_main_call19_v0 : StableHlo.after R18 (Wr18 m c) (Proc.devRef .tc main_call19_v0) = Cert.Net.gv_8 (argsR m c) :=
  (R18_main_call19_v0 (Wr18 m c)).trans (by rfl)
theorem fr_main_call19_v0_19 : Wr19 m c (Proc.devRef .tc main_call19_v0) = Cert.Net.gv_8 (argsR m c) := fr'_main_call19_v0 m c
theorem fr'_main_v329 : StableHlo.after R18 (Wr18 m c) (Proc.devRef .tc main_v329) = Cert.Net.gv_66 (argsR m c) :=
  (R18_main_v329 (Wr18 m c)).trans (by rw [fr_main_v270_18 m c, ra_22_18 m c, fr_main_v292_18 m c, ra_24_18 m c, ra_29_18 m c, fr'_main_call19_v0 m c]; rfl)
theorem fr_main_v329_19 : Wr19 m c (Proc.devRef .tc main_v329) = Cert.Net.gv_66 (argsR m c) := fr'_main_v329 m c
theorem ra_32_19 : Wr19 m c (Proc.devRef .tc main_arg32) = (argsR m c).a32 :=
  (keepR18 (Wr18 m c) main_arg32 (by decide)).trans (ra_32_18 m c)
theorem ra_33_19 : Wr19 m c (Proc.devRef .tc main_arg33) = (argsR m c).a33 :=
  (keepR18 (Wr18 m c) main_arg33 (by decide)).trans (ra_33_18 m c)
theorem ra_30_19 : Wr19 m c (Proc.devRef .tc main_arg30) = (argsR m c).a30 :=
  (keepR18 (Wr18 m c) main_arg30 (by decide)).trans (ra_30_18 m c)
theorem ra_31_19 : Wr19 m c (Proc.devRef .tc main_arg31) = (argsR m c).a31 :=
  (keepR18 (Wr18 m c) main_arg31 (by decide)).trans (ra_31_18 m c)
theorem ra_2_19 : Wr19 m c (Proc.devRef .tc main_arg2) = (argsR m c).a2 :=
  (keepR18 (Wr18 m c) main_arg2 (by decide)).trans (ra_2_18 m c)
theorem ra_13_19 : Wr19 m c (Proc.devRef .tc main_arg13) = (argsR m c).a13 :=
  (keepR18 (Wr18 m c) main_arg13 (by decide)).trans (ra_13_18 m c)
theorem ra_14_19 : Wr19 m c (Proc.devRef .tc main_arg14) = (argsR m c).a14 :=
  (keepR18 (Wr18 m c) main_arg14 (by decide)).trans (ra_14_18 m c)
theorem ra_15_19 : Wr19 m c (Proc.devRef .tc main_arg15) = (argsR m c).a15 :=
  (keepR18 (Wr18 m c) main_arg15 (by decide)).trans (ra_15_18 m c)
theorem ra_16_19 : Wr19 m c (Proc.devRef .tc main_arg16) = (argsR m c).a16 :=
  (keepR18 (Wr18 m c) main_arg16 (by decide)).trans (ra_16_18 m c)
theorem ra_17_19 : Wr19 m c (Proc.devRef .tc main_arg17) = (argsR m c).a17 :=
  (keepR18 (Wr18 m c) main_arg17 (by decide)).trans (ra_17_18 m c)
theorem ra_18_19 : Wr19 m c (Proc.devRef .tc main_arg18) = (argsR m c).a18 :=
  (keepR18 (Wr18 m c) main_arg18 (by decide)).trans (ra_18_18 m c)
theorem ra_19_19 : Wr19 m c (Proc.devRef .tc main_arg19) = (argsR m c).a19 :=
  (keepR18 (Wr18 m c) main_arg19 (by decide)).trans (ra_19_18 m c)
theorem fr_main_v1_19 : Wr19 m c (Proc.devRef .tc main_v1) = Cert.Net.gv_0 (argsR m c) :=
  (keepR18 (Wr18 m c) main_v1 (by decide)).trans (fr_main_v1_18 m c)
theorem fr_main_v3_19 : Wr19 m c (Proc.devRef .tc main_v3) = Cert.Net.gv_1 (argsR m c) :=
  (keepR18 (Wr18 m c) main_v3 (by decide)).trans (fr_main_v3_18 m c)
theorem fr_main_v8_19 : Wr19 m c (Proc.devRef .tc main_v8) = Cert.Net.gv_5 (argsR m c) :=
  (keepR18 (Wr18 m c) main_v8 (by decide)).trans (fr_main_v8_18 m c)
theorem fr_main_v306_19 : Wr19 m c (Proc.devRef .tc main_v306) = Cert.Net.gv_63 (argsR m c) :=
  (keepR18 (Wr18 m c) main_v306 (by decide)).trans (fr_main_v306_18 m c)
theorem fr_main_v322_19 : Wr19 m c (Proc.devRef .tc main_v322) = Cert.Net.gv_65 (argsR m c) :=
  (keepR18 (Wr18 m c) main_v322 (by decide)).trans (fr_main_v322_18 m c)
theorem fr'_main_v347 : StableHlo.after R19 (Wr19 m c) (Proc.devRef .tc main_v347) = Cert.Net.gv_67 (argsR m c) :=
  (R19_main_v347 (Wr19 m c)).trans (by rw [fr_main_v3_19 m c, fr_main_v306_19 m c, fr_main_v1_19 m c]; rfl)
theorem fr_main_v347_20 : Wr20 m c (Proc.devRef .tc main_v347) = Cert.Net.gv_67 (argsR m c) := fr'_main_v347 m c
theorem fr'_main_v349 : StableHlo.after R19 (Wr19 m c) (Proc.devRef .tc main_v349) = Cert.Net.gv_39 (argsR m c) :=
  (R19_main_v349 (Wr19 m c)).trans (by rw [ra_13_19 m c]; rfl)
theorem fr_main_v349_20 : Wr20 m c (Proc.devRef .tc main_v349) = Cert.Net.gv_39 (argsR m c) := fr'_main_v349 m c
theorem fr'_main_v352 : StableHlo.after R19 (Wr19 m c) (Proc.devRef .tc main_v352) = Cert.Net.gv_40 (argsR m c) :=
  (R19_main_v352 (Wr19 m c)).trans (by rw [ra_14_19 m c]; rfl)
theorem fr_main_v352_20 : Wr20 m c (Proc.devRef .tc main_v352) = Cert.Net.gv_40 (argsR m c) := fr'_main_v352 m c
theorem fr'_main_v356 : StableHlo.after R19 (Wr19 m c) (Proc.devRef .tc main_v356) = Cert.Net.gv_41 (argsR m c) :=
  (R19_main_v356 (Wr19 m c)).trans (by rw [ra_15_19 m c]; rfl)
theorem fr_main_v356_20 : Wr20 m c (Proc.devRef .tc main_v356) = Cert.Net.gv_41 (argsR m c) := fr'_main_v356 m c
theorem fr'_main_v360 : StableHlo.after R19 (Wr19 m c) (Proc.devRef .tc main_v360) = Cert.Net.gv_68 (argsR m c) :=
  (R19_main_v360 (Wr19 m c)).trans (by rw [fr_main_v306_19 m c, fr'_main_v349 m c, fr'_main_v347 m c, fr'_main_v352 m c, fr'_main_v356 m c]; rfl)
theorem fr_main_v360_20 : Wr20 m c (Proc.devRef .tc main_v360) = Cert.Net.gv_68 (argsR m c) := fr'_main_v360 m c
theorem ra_32_20 : Wr20 m c (Proc.devRef .tc main_arg32) = (argsR m c).a32 :=
  (keepR19 (Wr19 m c) main_arg32 (by decide)).trans (ra_32_19 m c)
theorem ra_33_20 : Wr20 m c (Proc.devRef .tc main_arg33) = (argsR m c).a33 :=
  (keepR19 (Wr19 m c) main_arg33 (by decide)).trans (ra_33_19 m c)
theorem ra_30_20 : Wr20 m c (Proc.devRef .tc main_arg30) = (argsR m c).a30 :=
  (keepR19 (Wr19 m c) main_arg30 (by decide)).trans (ra_30_19 m c)
theorem ra_31_20 : Wr20 m c (Proc.devRef .tc main_arg31) = (argsR m c).a31 :=
  (keepR19 (Wr19 m c) main_arg31 (by decide)).trans (ra_31_19 m c)
theorem ra_2_20 : Wr20 m c (Proc.devRef .tc main_arg2) = (argsR m c).a2 :=
  (keepR19 (Wr19 m c) main_arg2 (by decide)).trans (ra_2_19 m c)
theorem ra_13_20 : Wr20 m c (Proc.devRef .tc main_arg13) = (argsR m c).a13 :=
  (keepR19 (Wr19 m c) main_arg13 (by decide)).trans (ra_13_19 m c)
theorem ra_14_20 : Wr20 m c (Proc.devRef .tc main_arg14) = (argsR m c).a14 :=
  (keepR19 (Wr19 m c) main_arg14 (by decide)).trans (ra_14_19 m c)
theorem ra_15_20 : Wr20 m c (Proc.devRef .tc main_arg15) = (argsR m c).a15 :=
  (keepR19 (Wr19 m c) main_arg15 (by decide)).trans (ra_15_19 m c)
theorem ra_16_20 : Wr20 m c (Proc.devRef .tc main_arg16) = (argsR m c).a16 :=
  (keepR19 (Wr19 m c) main_arg16 (by decide)).trans (ra_16_19 m c)
theorem ra_17_20 : Wr20 m c (Proc.devRef .tc main_arg17) = (argsR m c).a17 :=
  (keepR19 (Wr19 m c) main_arg17 (by decide)).trans (ra_17_19 m c)
theorem ra_18_20 : Wr20 m c (Proc.devRef .tc main_arg18) = (argsR m c).a18 :=
  (keepR19 (Wr19 m c) main_arg18 (by decide)).trans (ra_18_19 m c)
theorem ra_19_20 : Wr20 m c (Proc.devRef .tc main_arg19) = (argsR m c).a19 :=
  (keepR19 (Wr19 m c) main_arg19 (by decide)).trans (ra_19_19 m c)
theorem fr_main_v1_20 : Wr20 m c (Proc.devRef .tc main_v1) = Cert.Net.gv_0 (argsR m c) :=
  (keepR19 (Wr19 m c) main_v1 (by decide)).trans (fr_main_v1_19 m c)
theorem fr_main_v3_20 : Wr20 m c (Proc.devRef .tc main_v3) = Cert.Net.gv_1 (argsR m c) :=
  (keepR19 (Wr19 m c) main_v3 (by decide)).trans (fr_main_v3_19 m c)
theorem fr_main_v8_20 : Wr20 m c (Proc.devRef .tc main_v8) = Cert.Net.gv_5 (argsR m c) :=
  (keepR19 (Wr19 m c) main_v8 (by decide)).trans (fr_main_v8_19 m c)
theorem fr_main_v322_20 : Wr20 m c (Proc.devRef .tc main_v322) = Cert.Net.gv_65 (argsR m c) :=
  (keepR19 (Wr19 m c) main_v322 (by decide)).trans (fr_main_v322_19 m c)
theorem fr_main_v329_20 : Wr20 m c (Proc.devRef .tc main_v329) = Cert.Net.gv_66 (argsR m c) :=
  (keepR19 (Wr19 m c) main_v329 (by decide)).trans (fr_main_v329_19 m c)
theorem fr'_main_v378 : StableHlo.after R20 (Wr20 m c) (Proc.devRef .tc main_v378) = Cert.Net.gv_69 (argsR m c) :=
  (R20_main_v378 (Wr20 m c)).trans (by rw [fr_main_v3_20 m c, fr_main_v360_20 m c, fr_main_v1_20 m c]; rfl)
theorem fr_main_v378_21 : Wr21 m c (Proc.devRef .tc main_v378) = Cert.Net.gv_69 (argsR m c) := fr'_main_v378 m c
theorem fr'_main_v380 : StableHlo.after R20 (Wr20 m c) (Proc.devRef .tc main_v380) = Cert.Net.gv_44 (argsR m c) :=
  (R20_main_v380 (Wr20 m c)).trans (by rw [ra_13_20 m c]; rfl)
theorem fr_main_v380_21 : Wr21 m c (Proc.devRef .tc main_v380) = Cert.Net.gv_44 (argsR m c) := fr'_main_v380 m c
theorem fr'_main_v383 : StableHlo.after R20 (Wr20 m c) (Proc.devRef .tc main_v383) = Cert.Net.gv_45 (argsR m c) :=
  (R20_main_v383 (Wr20 m c)).trans (by rw [ra_14_20 m c]; rfl)
theorem fr_main_v383_21 : Wr21 m c (Proc.devRef .tc main_v383) = Cert.Net.gv_45 (argsR m c) := fr'_main_v383 m c
theorem fr'_main_v387 : StableHlo.after R20 (Wr20 m c) (Proc.devRef .tc main_v387) = Cert.Net.gv_46 (argsR m c) :=
  (R20_main_v387 (Wr20 m c)).trans (by rw [ra_15_20 m c]; rfl)
theorem fr_main_v387_21 : Wr21 m c (Proc.devRef .tc main_v387) = Cert.Net.gv_46 (argsR m c) := fr'_main_v387 m c
theorem fr'_main_v391 : StableHlo.after R20 (Wr20 m c) (Proc.devRef .tc main_v391) = Cert.Net.gv_70 (argsR m c) :=
  (R20_main_v391 (Wr20 m c)).trans (by rw [fr_main_v360_20 m c, fr'_main_v380 m c, fr'_main_v378 m c, fr'_main_v383 m c, fr'_main_v387 m c]; rfl)
theorem fr_main_v391_21 : Wr21 m c (Proc.devRef .tc main_v391) = Cert.Net.gv_70 (argsR m c) := fr'_main_v391 m c
theorem ra_32_21 : Wr21 m c (Proc.devRef .tc main_arg32) = (argsR m c).a32 :=
  (keepR20 (Wr20 m c) main_arg32 (by decide)).trans (ra_32_20 m c)
theorem ra_33_21 : Wr21 m c (Proc.devRef .tc main_arg33) = (argsR m c).a33 :=
  (keepR20 (Wr20 m c) main_arg33 (by decide)).trans (ra_33_20 m c)
theorem ra_30_21 : Wr21 m c (Proc.devRef .tc main_arg30) = (argsR m c).a30 :=
  (keepR20 (Wr20 m c) main_arg30 (by decide)).trans (ra_30_20 m c)
theorem ra_31_21 : Wr21 m c (Proc.devRef .tc main_arg31) = (argsR m c).a31 :=
  (keepR20 (Wr20 m c) main_arg31 (by decide)).trans (ra_31_20 m c)
theorem ra_2_21 : Wr21 m c (Proc.devRef .tc main_arg2) = (argsR m c).a2 :=
  (keepR20 (Wr20 m c) main_arg2 (by decide)).trans (ra_2_20 m c)
theorem ra_16_21 : Wr21 m c (Proc.devRef .tc main_arg16) = (argsR m c).a16 :=
  (keepR20 (Wr20 m c) main_arg16 (by decide)).trans (ra_16_20 m c)
theorem ra_17_21 : Wr21 m c (Proc.devRef .tc main_arg17) = (argsR m c).a17 :=
  (keepR20 (Wr20 m c) main_arg17 (by decide)).trans (ra_17_20 m c)
theorem ra_18_21 : Wr21 m c (Proc.devRef .tc main_arg18) = (argsR m c).a18 :=
  (keepR20 (Wr20 m c) main_arg18 (by decide)).trans (ra_18_20 m c)
theorem ra_19_21 : Wr21 m c (Proc.devRef .tc main_arg19) = (argsR m c).a19 :=
  (keepR20 (Wr20 m c) main_arg19 (by decide)).trans (ra_19_20 m c)
theorem fr_main_v8_21 : Wr21 m c (Proc.devRef .tc main_v8) = Cert.Net.gv_5 (argsR m c) :=
  (keepR20 (Wr20 m c) main_v8 (by decide)).trans (fr_main_v8_20 m c)
theorem fr_main_v322_21 : Wr21 m c (Proc.devRef .tc main_v322) = Cert.Net.gv_65 (argsR m c) :=
  (keepR20 (Wr20 m c) main_v322 (by decide)).trans (fr_main_v322_20 m c)
theorem fr_main_v329_21 : Wr21 m c (Proc.devRef .tc main_v329) = Cert.Net.gv_66 (argsR m c) :=
  (keepR20 (Wr20 m c) main_v329 (by decide)).trans (fr_main_v329_20 m c)
theorem fr'_main_v393 : StableHlo.after R21 (Wr21 m c) (Proc.devRef .tc main_v393) = Cert.Net.gv_48 (argsR m c) :=
  (R21_main_v393 (Wr21 m c)).trans (by rw [ra_16_21 m c]; rfl)
theorem fr_main_v393_22 : Wr22 m c (Proc.devRef .tc main_v393) = Cert.Net.gv_48 (argsR m c) := fr'_main_v393 m c
theorem fr'_main_v396 : StableHlo.after R21 (Wr21 m c) (Proc.devRef .tc main_v396) = Cert.Net.gv_49 (argsR m c) :=
  (R21_main_v396 (Wr21 m c)).trans (by rw [ra_17_21 m c]; rfl)
theorem fr_main_v396_22 : Wr22 m c (Proc.devRef .tc main_v396) = Cert.Net.gv_49 (argsR m c) := fr'_main_v396 m c
theorem fr'_main_call22_v0 : StableHlo.after R21 (Wr21 m c) (Proc.devRef .tc main_call22_v0) = Cert.Net.gv_7 (argsR m c) :=
  (R21_main_call22_v0 (Wr21 m c)).trans (by rfl)
theorem fr_main_call22_v0_22 : Wr22 m c (Proc.devRef .tc main_call22_v0) = Cert.Net.gv_7 (argsR m c) := fr'_main_call22_v0 m c
theorem fr'_main_v400 : StableHlo.after R21 (Wr21 m c) (Proc.devRef .tc main_v400) = Cert.Net.gv_71 (argsR m c) :=
  (R21_main_v400 (Wr21 m c)).trans (by rw [fr_main_v322_21 m c, fr'_main_v393 m c, fr'_main_v396 m c, fr'_main_call22_v0 m c]; rfl)
theorem fr_main_v400_22 : Wr22 m c (Proc.devRef .tc main_v400) = Cert.Net.gv_71 (argsR m c) := fr'_main_v400 m c
theorem ra_32_22 : Wr22 m c (Proc.devRef .tc main_arg32) = (argsR m c).a32 :=
  (keepR21 (Wr21 m c) main_arg32 (by decide)).trans (ra_32_21 m c)
theorem ra_33_22 : Wr22 m c (Proc.devRef .tc main_arg33) = (argsR m c).a33 :=
  (keepR21 (Wr21 m c) main_arg33 (by decide)).trans (ra_33_21 m c)
theorem ra_30_22 : Wr22 m c (Proc.devRef .tc main_arg30) = (argsR m c).a30 :=
  (keepR21 (Wr21 m c) main_arg30 (by decide)).trans (ra_30_21 m c)
theorem ra_31_22 : Wr22 m c (Proc.devRef .tc main_arg31) = (argsR m c).a31 :=
  (keepR21 (Wr21 m c) main_arg31 (by decide)).trans (ra_31_21 m c)
theorem ra_2_22 : Wr22 m c (Proc.devRef .tc main_arg2) = (argsR m c).a2 :=
  (keepR21 (Wr21 m c) main_arg2 (by decide)).trans (ra_2_21 m c)
theorem ra_16_22 : Wr22 m c (Proc.devRef .tc main_arg16) = (argsR m c).a16 :=
  (keepR21 (Wr21 m c) main_arg16 (by decide)).trans (ra_16_21 m c)
theorem ra_17_22 : Wr22 m c (Proc.devRef .tc main_arg17) = (argsR m c).a17 :=
  (keepR21 (Wr21 m c) main_arg17 (by decide)).trans (ra_17_21 m c)
theorem ra_18_22 : Wr22 m c (Proc.devRef .tc main_arg18) = (argsR m c).a18 :=
  (keepR21 (Wr21 m c) main_arg18 (by decide)).trans (ra_18_21 m c)
theorem ra_19_22 : Wr22 m c (Proc.devRef .tc main_arg19) = (argsR m c).a19 :=
  (keepR21 (Wr21 m c) main_arg19 (by decide)).trans (ra_19_21 m c)
theorem fr_main_v8_22 : Wr22 m c (Proc.devRef .tc main_v8) = Cert.Net.gv_5 (argsR m c) :=
  (keepR21 (Wr21 m c) main_v8 (by decide)).trans (fr_main_v8_21 m c)
theorem fr_main_v329_22 : Wr22 m c (Proc.devRef .tc main_v329) = Cert.Net.gv_66 (argsR m c) :=
  (keepR21 (Wr21 m c) main_v329 (by decide)).trans (fr_main_v329_21 m c)
theorem fr_main_v391_22 : Wr22 m c (Proc.devRef .tc main_v391) = Cert.Net.gv_70 (argsR m c) :=
  (keepR21 (Wr21 m c) main_v391 (by decide)).trans (fr_main_v391_21 m c)
theorem fr'_main_v402 : StableHlo.after R22 (Wr22 m c) (Proc.devRef .tc main_v402) = Cert.Net.gv_51 (argsR m c) :=
  (R22_main_v402 (Wr22 m c)).trans (by rw [ra_16_22 m c]; rfl)
theorem fr_main_v402_23 : Wr23 m c (Proc.devRef .tc main_v402) = Cert.Net.gv_51 (argsR m c) := fr'_main_v402 m c
theorem fr'_main_v405 : StableHlo.after R22 (Wr22 m c) (Proc.devRef .tc main_v405) = Cert.Net.gv_52 (argsR m c) :=
  (R22_main_v405 (Wr22 m c)).trans (by rw [ra_17_22 m c]; rfl)
theorem fr_main_v405_23 : Wr23 m c (Proc.devRef .tc main_v405) = Cert.Net.gv_52 (argsR m c) := fr'_main_v405 m c
theorem fr'_main_call23_v0 : StableHlo.after R22 (Wr22 m c) (Proc.devRef .tc main_call23_v0) = Cert.Net.gv_7 (argsR m c) :=
  (R22_main_call23_v0 (Wr22 m c)).trans (by rfl)
theorem fr_main_call23_v0_23 : Wr23 m c (Proc.devRef .tc main_call23_v0) = Cert.Net.gv_7 (argsR m c) := fr'_main_call23_v0 m c
theorem fr'_main_v409 : StableHlo.after R22 (Wr22 m c) (Proc.devRef .tc main_v409) = Cert.Net.gv_72 (argsR m c) :=
  (R22_main_v409 (Wr22 m c)).trans (by rw [fr_main_v400_22 m c, fr'_main_v402 m c, fr'_main_v405 m c, fr'_main_call23_v0 m c]; rfl)
theorem fr_main_v409_23 : Wr23 m c (Proc.devRef .tc main_v409) = Cert.Net.gv_72 (argsR m c) := fr'_main_v409 m c
theorem ra_32_23 : Wr23 m c (Proc.devRef .tc main_arg32) = (argsR m c).a32 :=
  (keepR22 (Wr22 m c) main_arg32 (by decide)).trans (ra_32_22 m c)
theorem ra_33_23 : Wr23 m c (Proc.devRef .tc main_arg33) = (argsR m c).a33 :=
  (keepR22 (Wr22 m c) main_arg33 (by decide)).trans (ra_33_22 m c)
theorem ra_30_23 : Wr23 m c (Proc.devRef .tc main_arg30) = (argsR m c).a30 :=
  (keepR22 (Wr22 m c) main_arg30 (by decide)).trans (ra_30_22 m c)
theorem ra_31_23 : Wr23 m c (Proc.devRef .tc main_arg31) = (argsR m c).a31 :=
  (keepR22 (Wr22 m c) main_arg31 (by decide)).trans (ra_31_22 m c)
theorem ra_2_23 : Wr23 m c (Proc.devRef .tc main_arg2) = (argsR m c).a2 :=
  (keepR22 (Wr22 m c) main_arg2 (by decide)).trans (ra_2_22 m c)
theorem ra_18_23 : Wr23 m c (Proc.devRef .tc main_arg18) = (argsR m c).a18 :=
  (keepR22 (Wr22 m c) main_arg18 (by decide)).trans (ra_18_22 m c)
theorem ra_19_23 : Wr23 m c (Proc.devRef .tc main_arg19) = (argsR m c).a19 :=
  (keepR22 (Wr22 m c) main_arg19 (by decide)).trans (ra_19_22 m c)
theorem fr_main_v8_23 : Wr23 m c (Proc.devRef .tc main_v8) = Cert.Net.gv_5 (argsR m c) :=
  (keepR22 (Wr22 m c) main_v8 (by decide)).trans (fr_main_v8_22 m c)
theorem fr_main_v329_23 : Wr23 m c (Proc.devRef .tc main_v329) = Cert.Net.gv_66 (argsR m c) :=
  (keepR22 (Wr22 m c) main_v329 (by decide)).trans (fr_main_v329_22 m c)
theorem fr_main_v391_23 : Wr23 m c (Proc.devRef .tc main_v391) = Cert.Net.gv_70 (argsR m c) :=
  (keepR22 (Wr22 m c) main_v391 (by decide)).trans (fr_main_v391_22 m c)
theorem fr'_main_v411 : StableHlo.after R23 (Wr23 m c) (Proc.devRef .tc main_v411) = Cert.Net.gv_54 (argsR m c) :=
  (R23_main_v411 (Wr23 m c)).trans (by rw [ra_18_23 m c]; rfl)
theorem fr_main_v411_24 : Wr24 m c (Proc.devRef .tc main_v411) = Cert.Net.gv_54 (argsR m c) := fr'_main_v411 m c
theorem fr'_main_v414 : StableHlo.after R23 (Wr23 m c) (Proc.devRef .tc main_v414) = Cert.Net.gv_55 (argsR m c) :=
  (R23_main_v414 (Wr23 m c)).trans (by rw [ra_19_23 m c]; rfl)
theorem fr_main_v414_24 : Wr24 m c (Proc.devRef .tc main_v414) = Cert.Net.gv_55 (argsR m c) := fr'_main_v414 m c
theorem fr'_main_call24_v0 : StableHlo.after R23 (Wr23 m c) (Proc.devRef .tc main_call24_v0) = Cert.Net.gv_8 (argsR m c) :=
  (R23_main_call24_v0 (Wr23 m c)).trans (by rfl)
theorem fr_main_call24_v0_24 : Wr24 m c (Proc.devRef .tc main_call24_v0) = Cert.Net.gv_8 (argsR m c) := fr'_main_call24_v0 m c
theorem fr'_main_v418 : StableHlo.after R23 (Wr23 m c) (Proc.devRef .tc main_v418) = Cert.Net.gv_73 (argsR m c) :=
  (R23_main_v418 (Wr23 m c)).trans (by rw [fr_main_v329_23 m c, fr'_main_v411 m c, fr'_main_v414 m c, fr'_main_call24_v0 m c]; rfl)
theorem fr_main_v418_24 : Wr24 m c (Proc.devRef .tc main_v418) = Cert.Net.gv_73 (argsR m c) := fr'_main_v418 m c
theorem ra_32_24 : Wr24 m c (Proc.devRef .tc main_arg32) = (argsR m c).a32 :=
  (keepR23 (Wr23 m c) main_arg32 (by decide)).trans (ra_32_23 m c)
theorem ra_33_24 : Wr24 m c (Proc.devRef .tc main_arg33) = (argsR m c).a33 :=
  (keepR23 (Wr23 m c) main_arg33 (by decide)).trans (ra_33_23 m c)
theorem ra_30_24 : Wr24 m c (Proc.devRef .tc main_arg30) = (argsR m c).a30 :=
  (keepR23 (Wr23 m c) main_arg30 (by decide)).trans (ra_30_23 m c)
theorem ra_31_24 : Wr24 m c (Proc.devRef .tc main_arg31) = (argsR m c).a31 :=
  (keepR23 (Wr23 m c) main_arg31 (by decide)).trans (ra_31_23 m c)
theorem ra_2_24 : Wr24 m c (Proc.devRef .tc main_arg2) = (argsR m c).a2 :=
  (keepR23 (Wr23 m c) main_arg2 (by decide)).trans (ra_2_23 m c)
theorem ra_18_24 : Wr24 m c (Proc.devRef .tc main_arg18) = (argsR m c).a18 :=
  (keepR23 (Wr23 m c) main_arg18 (by decide)).trans (ra_18_23 m c)
theorem ra_19_24 : Wr24 m c (Proc.devRef .tc main_arg19) = (argsR m c).a19 :=
  (keepR23 (Wr23 m c) main_arg19 (by decide)).trans (ra_19_23 m c)
theorem fr_main_v8_24 : Wr24 m c (Proc.devRef .tc main_v8) = Cert.Net.gv_5 (argsR m c) :=
  (keepR23 (Wr23 m c) main_v8 (by decide)).trans (fr_main_v8_23 m c)
theorem fr_main_v391_24 : Wr24 m c (Proc.devRef .tc main_v391) = Cert.Net.gv_70 (argsR m c) :=
  (keepR23 (Wr23 m c) main_v391 (by decide)).trans (fr_main_v391_23 m c)
theorem fr_main_v409_24 : Wr24 m c (Proc.devRef .tc main_v409) = Cert.Net.gv_72 (argsR m c) :=
  (keepR23 (Wr23 m c) main_v409 (by decide)).trans (fr_main_v409_23 m c)
theorem fr'_main_v420 : StableHlo.after R24 (Wr24 m c) (Proc.devRef .tc main_v420) = Cert.Net.gv_57 (argsR m c) :=
  (R24_main_v420 (Wr24 m c)).trans (by rw [ra_18_24 m c]; rfl)
theorem fr_main_v420_25 : Wr25 m c (Proc.devRef .tc main_v420) = Cert.Net.gv_57 (argsR m c) := fr'_main_v420 m c
theorem fr'_main_v423 : StableHlo.after R24 (Wr24 m c) (Proc.devRef .tc main_v423) = Cert.Net.gv_58 (argsR m c) :=
  (R24_main_v423 (Wr24 m c)).trans (by rw [ra_19_24 m c]; rfl)
theorem fr_main_v423_25 : Wr25 m c (Proc.devRef .tc main_v423) = Cert.Net.gv_58 (argsR m c) := fr'_main_v423 m c
theorem fr'_main_call25_v0 : StableHlo.after R24 (Wr24 m c) (Proc.devRef .tc main_call25_v0) = Cert.Net.gv_8 (argsR m c) :=
  (R24_main_call25_v0 (Wr24 m c)).trans (by rfl)
theorem fr_main_call25_v0_25 : Wr25 m c (Proc.devRef .tc main_call25_v0) = Cert.Net.gv_8 (argsR m c) := fr'_main_call25_v0 m c
theorem fr'_main_v427 : StableHlo.after R24 (Wr24 m c) (Proc.devRef .tc main_v427) = Cert.Net.gv_74 (argsR m c) :=
  (R24_main_v427 (Wr24 m c)).trans (by rw [fr_main_v418_24 m c, fr'_main_v420 m c, fr'_main_v423 m c, fr'_main_call25_v0 m c]; rfl)
theorem fr_main_v427_25 : Wr25 m c (Proc.devRef .tc main_v427) = Cert.Net.gv_74 (argsR m c) := fr'_main_v427 m c
theorem ra_32_25 : Wr25 m c (Proc.devRef .tc main_arg32) = (argsR m c).a32 :=
  (keepR24 (Wr24 m c) main_arg32 (by decide)).trans (ra_32_24 m c)
theorem ra_33_25 : Wr25 m c (Proc.devRef .tc main_arg33) = (argsR m c).a33 :=
  (keepR24 (Wr24 m c) main_arg33 (by decide)).trans (ra_33_24 m c)
theorem ra_30_25 : Wr25 m c (Proc.devRef .tc main_arg30) = (argsR m c).a30 :=
  (keepR24 (Wr24 m c) main_arg30 (by decide)).trans (ra_30_24 m c)
theorem ra_31_25 : Wr25 m c (Proc.devRef .tc main_arg31) = (argsR m c).a31 :=
  (keepR24 (Wr24 m c) main_arg31 (by decide)).trans (ra_31_24 m c)
theorem ra_2_25 : Wr25 m c (Proc.devRef .tc main_arg2) = (argsR m c).a2 :=
  (keepR24 (Wr24 m c) main_arg2 (by decide)).trans (ra_2_24 m c)
theorem fr_main_v8_25 : Wr25 m c (Proc.devRef .tc main_v8) = Cert.Net.gv_5 (argsR m c) :=
  (keepR24 (Wr24 m c) main_v8 (by decide)).trans (fr_main_v8_24 m c)
theorem fr_main_v391_25 : Wr25 m c (Proc.devRef .tc main_v391) = Cert.Net.gv_70 (argsR m c) :=
  (keepR24 (Wr24 m c) main_v391 (by decide)).trans (fr_main_v391_24 m c)
theorem fr_main_v409_25 : Wr25 m c (Proc.devRef .tc main_v409) = Cert.Net.gv_72 (argsR m c) :=
  (keepR24 (Wr24 m c) main_v409 (by decide)).trans (fr_main_v409_24 m c)
theorem fr'_main_v428 : StableHlo.after R25 (Wr25 m c) (Proc.devRef .tc main_v428) = Cert.Net.gv_8 (argsR m c) :=
  (R25_main_v428 (Wr25 m c)).trans (by rfl)
theorem fr_main_v428_26 : Wr26 m c (Proc.devRef .tc main_v428) = Cert.Net.gv_8 (argsR m c) := fr'_main_v428 m c
theorem fr'_main_v439 : StableHlo.after R25 (Wr25 m c) (Proc.devRef .tc main_v439) = Cert.Net.gv_8 (argsR m c) :=
  (R25_main_v439 (Wr25 m c)).trans (by rfl)
theorem fr_main_v439_26 : Wr26 m c (Proc.devRef .tc main_v439) = Cert.Net.gv_8 (argsR m c) := fr'_main_v439 m c
theorem fr'_main_v450 : StableHlo.after R25 (Wr25 m c) (Proc.devRef .tc main_v450) = Cert.Net.gv_75 (argsR m c) :=
  (R25_main_v450 (Wr25 m c)).trans (by rw [fr'_main_v428 m c, ra_2_25 m c, fr_main_v391_25 m c, fr'_main_v439 m c, fr_main_v8_25 m c, fr_main_v409_25 m c, fr_main_v427_25 m c]; rfl)
theorem fr_main_v450_26 : Wr26 m c (Proc.devRef .tc main_v450) = Cert.Net.gv_75 (argsR m c) := fr'_main_v450 m c
theorem fr'_main_call26_v0 : StableHlo.after R25 (Wr25 m c) (Proc.devRef .tc main_call26_v0) = Cert.Net.gv_8 (argsR m c) :=
  (R25_main_call26_v0 (Wr25 m c)).trans (by rfl)
theorem fr_main_call26_v0_26 : Wr26 m c (Proc.devRef .tc main_call26_v0) = Cert.Net.gv_8 (argsR m c) := fr'_main_call26_v0 m c
theorem fr'_main_v455 : StableHlo.after R25 (Wr25 m c) (Proc.devRef .tc main_v455) = Cert.Net.gv_76 (argsR m c) :=
  (R25_main_v455 (Wr25 m c)).trans (by rw [fr'_main_v450 m c, ra_30_25 m c, ra_31_25 m c, fr'_main_call26_v0 m c]; rfl)
theorem fr_main_v455_26 : Wr26 m c (Proc.devRef .tc main_v455) = Cert.Net.gv_76 (argsR m c) := fr'_main_v455 m c
theorem ra_32_26 : Wr26 m c (Proc.devRef .tc main_arg32) = (argsR m c).a32 :=
  (keepR25 (Wr25 m c) main_arg32 (by decide)).trans (ra_32_25 m c)
theorem ra_33_26 : Wr26 m c (Proc.devRef .tc main_arg33) = (argsR m c).a33 :=
  (keepR25 (Wr25 m c) main_arg33 (by decide)).trans (ra_33_25 m c)
theorem fr'_main_v459 : StableHlo.after R26 (Wr26 m c) (Proc.devRef .tc main_v459) = Cert.Net.gv_77 (argsR m c) :=
  (R26_main_v459 (Wr26 m c)).trans (by rw [fr_main_v455_26 m c, ra_32_26 m c, ra_33_26 m c]; rfl)
theorem fr_main_v459_27 : Wr27 m c (Proc.devRef .tc main_v459) = Cert.Net.gv_77 (argsR m c) := fr'_main_v459 m c

/-- The fold of the whole list is the last stretch's fold over the earlier ones. -/
theorem fold_all : StableHlo.after (R0 ++ R1 ++ R2 ++ R3 ++ R4 ++ R5 ++ R6 ++ R7 ++ R8 ++ R9 ++ R10 ++ R11 ++ R12 ++ R13 ++ R14 ++ R15 ++ R16 ++ R17 ++ R18 ++ R19 ++ R20 ++ R21 ++ R22 ++ R23 ++ R24 ++ R25 ++ R26) (Wr0 m c) = Wr27 m c := by
  simp only [Cert.Lib.after_append]

/-- The reference program's result, as the shared function of the arguments. -/
theorem result_eq : StableHlo.after (R0 ++ R1 ++ R2 ++ R3 ++ R4 ++ R5 ++ R6 ++ R7 ++ R8 ++ R9 ++ R10 ++ R11 ++ R12 ++ R13 ++ R14 ++ R15 ++ R16 ++ R17 ++ R18 ++ R19 ++ R20 ++ R21 ++ R22 ++ R23 ++ R24 ++ R25 ++ R26) (fun b => m (c, b)) (Proc.devRef .tc main_v459) = Cert.Net.gv_77 (argsR m c) :=
  (congrFun (fold_all m c) _).trans (fr_main_v459_27 m c)

end Cert.ReferenceIdeal.Hand

end
-- ==== Proof.lean ====
/-
  The five claims.

  The two programs compute one network: a projection of the node features, three rounds of message passing over the
  nodes with plain layers over the function and graph scales, two rounds of fusion between the scales, mean pooling and a
  two-layer head. The kernel program runs every dense layer max (x·W₁ [+ y·W₂ [+ z·W₃]] + b, 0) as a pipeline over row tiles
  and everything else as host operations; the reference program runs everything as host operations. On the extended
  reals a format change is the identity and a matrix product is the plain sum over the contracted axis whichever program
  forms it, so both programs' buffers are the same functions of the arguments (Proof/Net.lean), boundary by boundary
  (Proof/FinalK.lean for the kernel program, Proof/FinalR.lean for the reference), and their results are one array.
  Each program's frame is its run read at the argument arrays, which no operation writes.
-/
import proofs.«141679_j61469571940402_1_alg».proof.Defs
import proofs.«141679_j61469571940402_1_alg».proof.Proof.Gen.Kernel
import proofs.«141679_j61469571940402_1_alg».proof.Proof.Gen.KernelIdeal
import proofs.«141679_j61469571940402_1_alg».proof.Proof.Gen.ReferenceIdeal
import proofs.«141679_j61469571940402_1_alg».proof.Proof.Gen.Pre_finite_inputs
import proofs.«141679_j61469571940402_1_alg».proof.Proof.KB.Frame
import proofs.«141679_j61469571940402_1_alg».proof.Proof.KB.Keep
import proofs.«141679_j61469571940402_1_alg».proof.Proof.KI.Frame
import proofs.«141679_j61469571940402_1_alg».proof.Proof.KI.Keep
import proofs.«141679_j61469571940402_1_alg».proof.Proof.Ref.Run
import proofs.«141679_j61469571940402_1_alg».proof.Proof.FinalK
import proofs.«141679_j61469571940402_1_alg».proof.Proof.FinalR

noncomputable section

namespace Cert.Proof

open Idealize.ShloMosaic Idealize.ShloMosaic.TcCoe Idealize.SL.Sem

/-- The kernel program at the word level terminates without a fault and leaves its arguments as launched. -/
theorem frame_k : Cert.frame_Kernel := fun m ρ _ =>
    (θ_run (Cert.Kernel.defs) _ _).mono (fun _ h c => ⟨(h c _ (Cert.Kernel.Hand.mem_uc Cert.Kernel.main_arg0 (by decide))).trans (Cert.Kernel.Hand.kept_arg0 m ρ c),
      (h c _ (Cert.Kernel.Hand.mem_uc Cert.Kernel.main_arg1 (by decide))).trans (Cert.Kernel.Hand.kept_arg1 m ρ c),
      (h c _ (Cert.Kernel.Hand.mem_uc Cert.Kernel.main_arg2 (by decide))).trans (Cert.Kernel.Hand.kept_arg2 m ρ c),
      (h c _ (Cert.Kernel.Hand.mem_uc Cert.Kernel.main_arg3 (by decide))).trans (Cert.Kernel.Hand.kept_arg3 m ρ c),
      (h c _ (Cert.Kernel.Hand.mem_uc Cert.Kernel.main_arg4 (by decide))).trans (Cert.Kernel.Hand.kept_arg4 m ρ c),
      (h c _ (Cert.Kernel.Hand.mem_uc Cert.Kernel.main_arg5 (by decide))).trans (Cert.Kernel.Hand.kept_arg5 m ρ c),
      (h c _ (Cert.Kernel.Hand.mem_uc Cert.Kernel.main_arg6 (by decide))).trans (Cert.Kernel.Hand.kept_arg6 m ρ c),
      (h c _ (Cert.Kernel.Hand.mem_uc Cert.Kernel.main_arg7 (by decide))).trans (Cert.Kernel.Hand.kept_arg7 m ρ c),
      (h c _ (Cert.Kernel.Hand.mem_uc Cert.Kernel.main_arg8 (by decide))).trans (Cert.Kernel.Hand.kept_arg8 m ρ c),
      (h c _ (Cert.Kernel.Hand.mem_uc Cert.Kernel.main_arg9 (by decide))).trans (Cert.Kernel.Hand.kept_arg9 m ρ c),
      (h c _ (Cert.Kernel.Hand.mem_uc Cert.Kernel.main_arg10 (by decide))).trans (Cert.Kernel.Hand.kept_arg10 m ρ c),
      (h c _ (Cert.Kernel.Hand.mem_uc Cert.Kernel.main_arg11 (by decide))).trans (Cert.Kernel.Hand.kept_arg11 m ρ c),
      (h c _ (Cert.Kernel.Hand.mem_uc Cert.Kernel.main_arg12 (by decide))).trans (Cert.Kernel.Hand.kept_arg12 m ρ c),
      (h c _ (Cert.Kernel.Hand.mem_uc Cert.Kernel.main_arg13 (by decide))).trans (Cert.Kernel.Hand.kept_arg13 m ρ c),
      (h c _ (Cert.Kernel.Hand.mem_uc Cert.Kernel.main_arg14 (by decide))).trans (Cert.Kernel.Hand.kept_arg14 m ρ c),
      (h c _ (Cert.Kernel.Hand.mem_uc Cert.Kernel.main_arg15 (by decide))).trans (Cert.Kernel.Hand.kept_arg15 m ρ c),
      (h c _ (Cert.Kernel.Hand.mem_uc Cert.Kernel.main_arg16 (by decide))).trans (Cert.Kernel.Hand.kept_arg16 m ρ c),
      (h c _ (Cert.Kernel.Hand.mem_uc Cert.Kernel.main_arg17 (by decide))).trans (Cert.Kernel.Hand.kept_arg17 m ρ c),
      (h c _ (Cert.Kernel.Hand.mem_uc Cert.Kernel.main_arg18 (by decide))).trans (Cert.Kernel.Hand.kept_arg18 m ρ c),
      (h c _ (Cert.Kernel.Hand.mem_uc Cert.Kernel.main_arg19 (by decide))).trans (Cert.Kernel.Hand.kept_arg19 m ρ c),
      (h c _ (Cert.Kernel.Hand.mem_uc Cert.Kernel.main_arg20 (by decide))).trans (Cert.Kernel.Hand.kept_arg20 m ρ c),
      (h c _ (Cert.Kernel.Hand.mem_uc Cert.Kernel.main_arg21 (by decide))).trans (Cert.Kernel.Hand.kept_arg21 m ρ c),
      (h c _ (Cert.Kernel.Hand.mem_uc Cert.Kernel.main_arg22 (by decide))).trans (Cert.Kernel.Hand.kept_arg22 m ρ c),
      (h c _ (Cert.Kernel.Hand.mem_uc Cert.Kernel.main_arg23 (by decide))).trans (Cert.Kernel.Hand.kept_arg23 m ρ c),
      (h c _ (Cert.Kernel.Hand.mem_uc Cert.Kernel.main_arg24 (by decide))).trans (Cert.Kernel.Hand.kept_arg24 m ρ c),
      (h c _ (Cert.Kernel.Hand.mem_uc Cert.Kernel.main_arg25 (by decide))).trans (Cert.Kernel.Hand.kept_arg25 m ρ c),
      (h c _ (Cert.Kernel.Hand.mem_uc Cert.Kernel.main_arg26 (by decide))).trans (Cert.Kernel.Hand.kept_arg26 m ρ c),
      (h c _ (Cert.Kernel.Hand.mem_uc Cert.Kernel.main_arg27 (by decide))).trans (Cert.Kernel.Hand.kept_arg27 m ρ c),
      (h c _ (Cert.Kernel.Hand.mem_uc Cert.Kernel.main_arg28 (by decide))).trans (Cert.Kernel.Hand.kept_arg28 m ρ c),
      (h c _ (Cert.Kernel.Hand.mem_uc Cert.Kernel.main_arg29 (by decide))).trans (Cert.Kernel.Hand.kept_arg29 m ρ c),
      (h c _ (Cert.Kernel.Hand.mem_uc Cert.Kernel.main_arg30 (by decide))).trans (Cert.Kernel.Hand.kept_arg30 m ρ c),
      (h c _ (Cert.Kernel.Hand.mem_uc Cert.Kernel.main_arg31 (by decide))).trans (Cert.Kernel.Hand.kept_arg31 m ρ c),
      (h c _ (Cert.Kernel.Hand.mem_uc Cert.Kernel.main_arg32 (by decide))).trans (Cert.Kernel.Hand.kept_arg32 m ρ c),
      (h c _ (Cert.Kernel.Hand.mem_uc Cert.Kernel.main_arg33 (by decide))).trans (Cert.Kernel.Hand.kept_arg33 m ρ c)⟩)
      (Cert.Kernel.Hand.run_all m ρ)

/-- So does its reading on the extended reals. -/
theorem frame_ki : Cert.frame_KernelIdeal := fun m ρ _ =>
    (θ_run (Cert.KernelIdeal.defs) _ _).mono (fun _ h c => ⟨(h c _ (Cert.KernelIdeal.Hand.mem_uc Cert.KernelIdeal.main_arg0 (by decide))).trans (Cert.KernelIdeal.Hand.kept_arg0 m ρ c),
      (h c _ (Cert.KernelIdeal.Hand.mem_uc Cert.KernelIdeal.main_arg1 (by decide))).trans (Cert.KernelIdeal.Hand.kept_arg1 m ρ c),
      (h c _ (Cert.KernelIdeal.Hand.mem_uc Cert.KernelIdeal.main_arg2 (by decide))).trans (Cert.KernelIdeal.Hand.kept_arg2 m ρ c),
      (h c _ (Cert.KernelIdeal.Hand.mem_uc Cert.KernelIdeal.main_arg3 (by decide))).trans (Cert.KernelIdeal.Hand.kept_arg3 m ρ c),
      (h c _ (Cert.KernelIdeal.Hand.mem_uc Cert.KernelIdeal.main_arg4 (by decide))).trans (Cert.KernelIdeal.Hand.kept_arg4 m ρ c),
      (h c _ (Cert.KernelIdeal.Hand.mem_uc Cert.KernelIdeal.main_arg5 (by decide))).trans (Cert.KernelIdeal.Hand.kept_arg5 m ρ c),
      (h c _ (Cert.KernelIdeal.Hand.mem_uc Cert.KernelIdeal.main_arg6 (by decide))).trans (Cert.KernelIdeal.Hand.kept_arg6 m ρ c),
      (h c _ (Cert.KernelIdeal.Hand.mem_uc Cert.KernelIdeal.main_arg7 (by decide))).trans (Cert.KernelIdeal.Hand.kept_arg7 m ρ c),
      (h c _ (Cert.KernelIdeal.Hand.mem_uc Cert.KernelIdeal.main_arg8 (by decide))).trans (Cert.KernelIdeal.Hand.kept_arg8 m ρ c),
      (h c _ (Cert.KernelIdeal.Hand.mem_uc Cert.KernelIdeal.main_arg9 (by decide))).trans (Cert.KernelIdeal.Hand.kept_arg9 m ρ c),
      (h c _ (Cert.KernelIdeal.Hand.mem_uc Cert.KernelIdeal.main_arg10 (by decide))).trans (Cert.KernelIdeal.Hand.kept_arg10 m ρ c),
      (h c _ (Cert.KernelIdeal.Hand.mem_uc Cert.KernelIdeal.main_arg11 (by decide))).trans (Cert.KernelIdeal.Hand.kept_arg11 m ρ c),
      (h c _ (Cert.KernelIdeal.Hand.mem_uc Cert.KernelIdeal.main_arg12 (by decide))).trans (Cert.KernelIdeal.Hand.kept_arg12 m ρ c),
      (h c _ (Cert.KernelIdeal.Hand.mem_uc Cert.KernelIdeal.main_arg13 (by decide))).trans (Cert.KernelIdeal.Hand.kept_arg13 m ρ c),
      (h c _ (Cert.KernelIdeal.Hand.mem_uc Cert.KernelIdeal.main_arg14 (by decide))).trans (Cert.KernelIdeal.Hand.kept_arg14 m ρ c),
      (h c _ (Cert.KernelIdeal.Hand.mem_uc Cert.KernelIdeal.main_arg15 (by decide))).trans (Cert.KernelIdeal.Hand.kept_arg15 m ρ c),
      (h c _ (Cert.KernelIdeal.Hand.mem_uc Cert.KernelIdeal.main_arg16 (by decide))).trans (Cert.KernelIdeal.Hand.kept_arg16 m ρ c),
      (h c _ (Cert.KernelIdeal.Hand.mem_uc Cert.KernelIdeal.main_arg17 (by decide))).trans (Cert.KernelIdeal.Hand.kept_arg17 m ρ c),
      (h c _ (Cert.KernelIdeal.Hand.mem_uc Cert.KernelIdeal.main_arg18 (by decide))).trans (Cert.KernelIdeal.Hand.kept_arg18 m ρ c),
      (h c _ (Cert.KernelIdeal.Hand.mem_uc Cert.KernelIdeal.main_arg19 (by decide))).trans (Cert.KernelIdeal.Hand.kept_arg19 m ρ c),
      (h c _ (Cert.KernelIdeal.Hand.mem_uc Cert.KernelIdeal.main_arg20 (by decide))).trans (Cert.KernelIdeal.Hand.kept_arg20 m ρ c),
      (h c _ (Cert.KernelIdeal.Hand.mem_uc Cert.KernelIdeal.main_arg21 (by decide))).trans (Cert.KernelIdeal.Hand.kept_arg21 m ρ c),
      (h c _ (Cert.KernelIdeal.Hand.mem_uc Cert.KernelIdeal.main_arg22 (by decide))).trans (Cert.KernelIdeal.Hand.kept_arg22 m ρ c),
      (h c _ (Cert.KernelIdeal.Hand.mem_uc Cert.KernelIdeal.main_arg23 (by decide))).trans (Cert.KernelIdeal.Hand.kept_arg23 m ρ c),
      (h c _ (Cert.KernelIdeal.Hand.mem_uc Cert.KernelIdeal.main_arg24 (by decide))).trans (Cert.KernelIdeal.Hand.kept_arg24 m ρ c),
      (h c _ (Cert.KernelIdeal.Hand.mem_uc Cert.KernelIdeal.main_arg25 (by decide))).trans (Cert.KernelIdeal.Hand.kept_arg25 m ρ c),
      (h c _ (Cert.KernelIdeal.Hand.mem_uc Cert.KernelIdeal.main_arg26 (by decide))).trans (Cert.KernelIdeal.Hand.kept_arg26 m ρ c),
      (h c _ (Cert.KernelIdeal.Hand.mem_uc Cert.KernelIdeal.main_arg27 (by decide))).trans (Cert.KernelIdeal.Hand.kept_arg27 m ρ c),
      (h c _ (Cert.KernelIdeal.Hand.mem_uc Cert.KernelIdeal.main_arg28 (by decide))).trans (Cert.KernelIdeal.Hand.kept_arg28 m ρ c),
      (h c _ (Cert.KernelIdeal.Hand.mem_uc Cert.KernelIdeal.main_arg29 (by decide))).trans (Cert.KernelIdeal.Hand.kept_arg29 m ρ c),
      (h c _ (Cert.KernelIdeal.Hand.mem_uc Cert.KernelIdeal.main_arg30 (by decide))).trans (Cert.KernelIdeal.Hand.kept_arg30 m ρ c),
      (h c _ (Cert.KernelIdeal.Hand.mem_uc Cert.KernelIdeal.main_arg31 (by decide))).trans (Cert.KernelIdeal.Hand.kept_arg31 m ρ c),
      (h c _ (Cert.KernelIdeal.Hand.mem_uc Cert.KernelIdeal.main_arg32 (by decide))).trans (Cert.KernelIdeal.Hand.kept_arg32 m ρ c),
      (h c _ (Cert.KernelIdeal.Hand.mem_uc Cert.KernelIdeal.main_arg33 (by decide))).trans (Cert.KernelIdeal.Hand.kept_arg33 m ρ c)⟩)
      (Cert.KernelIdeal.Hand.run_all m ρ)

/-- The reference program terminates without a fault and leaves its arguments as launched: its run, the result dropped. -/
theorem frame_r : Cert.frame_ReferenceIdeal := fun m ρ _ =>
  (θ_run (Cert.ReferenceIdeal.defs) _ _).mono (fun _ h c => (h c).2) (Cert.ReferenceIdeal.Hand.run (F := Ideal) m ρ)

/-- From memories that agree on the arguments the two programs end with one result array: both are the same function
    of the arguments. -/
theorem algebraic : Cert.algebraic_KernelIdeal_ReferenceIdeal := by
  intro m ρ m' ρ' _ hagree
  refine ⟨fun c => Cert.KernelIdeal.Hand.W55 m ρ c (Proc.devRef .tc Cert.KernelIdeal.main_v353), ?_, ?_⟩
  · exact (θ_run (Cert.KernelIdeal.defs) _ _).mono (fun _ h c => ⟨h c _ (Cert.KernelIdeal.Hand.mem_uc Cert.KernelIdeal.main_v353 (by decide)),
      (h c _ (Cert.KernelIdeal.Hand.mem_uc Cert.KernelIdeal.main_arg0 (by decide))).trans (Cert.KernelIdeal.Hand.kept_arg0 m ρ c),
      (h c _ (Cert.KernelIdeal.Hand.mem_uc Cert.KernelIdeal.main_arg1 (by decide))).trans (Cert.KernelIdeal.Hand.kept_arg1 m ρ c),
      (h c _ (Cert.KernelIdeal.Hand.mem_uc Cert.KernelIdeal.main_arg2 (by decide))).trans (Cert.KernelIdeal.Hand.kept_arg2 m ρ c),
      (h c _ (Cert.KernelIdeal.Hand.mem_uc Cert.KernelIdeal.main_arg3 (by decide))).trans (Cert.KernelIdeal.Hand.kept_arg3 m ρ c),
      (h c _ (Cert.KernelIdeal.Hand.mem_uc Cert.KernelIdeal.main_arg4 (by decide))).trans (Cert.KernelIdeal.Hand.kept_arg4 m ρ c),
      (h c _ (Cert.KernelIdeal.Hand.mem_uc Cert.KernelIdeal.main_arg5 (by decide))).trans (Cert.KernelIdeal.Hand.kept_arg5 m ρ c),
      (h c _ (Cert.KernelIdeal.Hand.mem_uc Cert.KernelIdeal.main_arg6 (by decide))).trans (Cert.KernelIdeal.Hand.kept_arg6 m ρ c),
      (h c _ (Cert.KernelIdeal.Hand.mem_uc Cert.KernelIdeal.main_arg7 (by decide))).trans (Cert.KernelIdeal.Hand.kept_arg7 m ρ c),
      (h c _ (Cert.KernelIdeal.Hand.mem_uc Cert.KernelIdeal.main_arg8 (by decide))).trans (Cert.KernelIdeal.Hand.kept_arg8 m ρ c),
      (h c _ (Cert.KernelIdeal.Hand.mem_uc Cert.KernelIdeal.main_arg9 (by decide))).trans (Cert.KernelIdeal.Hand.kept_arg9 m ρ c),
      (h c _ (Cert.KernelIdeal.Hand.mem_uc Cert.KernelIdeal.main_arg10 (by decide))).trans (Cert.KernelIdeal.Hand.kept_arg10 m ρ c),
      (h c _ (Cert.KernelIdeal.Hand.mem_uc Cert.KernelIdeal.main_arg11 (by decide))).trans (Cert.KernelIdeal.Hand.kept_arg11 m ρ c),
      (h c _ (Cert.KernelIdeal.Hand.mem_uc Cert.KernelIdeal.main_arg12 (by decide))).trans (Cert.KernelIdeal.Hand.kept_arg12 m ρ c),
      (h c _ (Cert.KernelIdeal.Hand.mem_uc Cert.KernelIdeal.main_arg13 (by decide))).trans (Cert.KernelIdeal.Hand.kept_arg13 m ρ c),
      (h c _ (Cert.KernelIdeal.Hand.mem_uc Cert.KernelIdeal.main_arg14 (by decide))).trans (Cert.KernelIdeal.Hand.kept_arg14 m ρ c),
      (h c _ (Cert.KernelIdeal.Hand.mem_uc Cert.KernelIdeal.main_arg15 (by decide))).trans (Cert.KernelIdeal.Hand.kept_arg15 m ρ c),
      (h c _ (Cert.KernelIdeal.Hand.mem_uc Cert.KernelIdeal.main_arg16 (by decide))).trans (Cert.KernelIdeal.Hand.kept_arg16 m ρ c),
      (h c _ (Cert.KernelIdeal.Hand.mem_uc Cert.KernelIdeal.main_arg17 (by decide))).trans (Cert.KernelIdeal.Hand.kept_arg17 m ρ c),
      (h c _ (Cert.KernelIdeal.Hand.mem_uc Cert.KernelIdeal.main_arg18 (by decide))).trans (Cert.KernelIdeal.Hand.kept_arg18 m ρ c),
      (h c _ (Cert.KernelIdeal.Hand.mem_uc Cert.KernelIdeal.main_arg19 (by decide))).trans (Cert.KernelIdeal.Hand.kept_arg19 m ρ c),
      (h c _ (Cert.KernelIdeal.Hand.mem_uc Cert.KernelIdeal.main_arg20 (by decide))).trans (Cert.KernelIdeal.Hand.kept_arg20 m ρ c),
      (h c _ (Cert.KernelIdeal.Hand.mem_uc Cert.KernelIdeal.main_arg21 (by decide))).trans (Cert.KernelIdeal.Hand.kept_arg21 m ρ c),
      (h c _ (Cert.KernelIdeal.Hand.mem_uc Cert.KernelIdeal.main_arg22 (by decide))).trans (Cert.KernelIdeal.Hand.kept_arg22 m ρ c),
      (h c _ (Cert.KernelIdeal.Hand.mem_uc Cert.KernelIdeal.main_arg23 (by decide))).trans (Cert.KernelIdeal.Hand.kept_arg23 m ρ c),
      (h c _ (Cert.KernelIdeal.Hand.mem_uc Cert.KernelIdeal.main_arg24 (by decide))).trans (Cert.KernelIdeal.Hand.kept_arg24 m ρ c),
      (h c _ (Cert.KernelIdeal.Hand.mem_uc Cert.KernelIdeal.main_arg25 (by decide))).trans (Cert.KernelIdeal.Hand.kept_arg25 m ρ c),
      (h c _ (Cert.KernelIdeal.Hand.mem_uc Cert.KernelIdeal.main_arg26 (by decide))).trans (Cert.KernelIdeal.Hand.kept_arg26 m ρ c),
      (h c _ (Cert.KernelIdeal.Hand.mem_uc Cert.KernelIdeal.main_arg27 (by decide))).trans (Cert.KernelIdeal.Hand.kept_arg27 m ρ c),
      (h c _ (Cert.KernelIdeal.Hand.mem_uc Cert.KernelIdeal.main_arg28 (by decide))).trans (Cert.KernelIdeal.Hand.kept_arg28 m ρ c),
      (h c _ (Cert.KernelIdeal.Hand.mem_uc Cert.KernelIdeal.main_arg29 (by decide))).trans (Cert.KernelIdeal.Hand.kept_arg29 m ρ c),
      (h c _ (Cert.KernelIdeal.Hand.mem_uc Cert.KernelIdeal.main_arg30 (by decide))).trans (Cert.KernelIdeal.Hand.kept_arg30 m ρ c),
      (h c _ (Cert.KernelIdeal.Hand.mem_uc Cert.KernelIdeal.main_arg31 (by decide))).trans (Cert.KernelIdeal.Hand.kept_arg31 m ρ c),
      (h c _ (Cert.KernelIdeal.Hand.mem_uc Cert.KernelIdeal.main_arg32 (by decide))).trans (Cert.KernelIdeal.Hand.kept_arg32 m ρ c),
      (h c _ (Cert.KernelIdeal.Hand.mem_uc Cert.KernelIdeal.main_arg33 (by decide))).trans (Cert.KernelIdeal.Hand.kept_arg33 m ρ c)⟩)
      (Cert.KernelIdeal.Hand.run_all m ρ)
  · refine (θ_run (Cert.ReferenceIdeal.defs) _ _).mono (fun _ h c => ⟨(h c).1.trans ?_, (h c).2⟩)
      (Cert.ReferenceIdeal.Hand.run (F := Ideal) m' ρ')
    have hargs : Cert.ReferenceIdeal.Hand.argsR m' c = Cert.KernelIdeal.Hand.argsK m c := by
      obtain ⟨h0, h1, h2, h3, h4, h5, h6, h7, h8, h9, h10, h11, h12, h13, h14, h15, h16, h17, h18, h19, h20, h21, h22, h23, h24, h25, h26, h27, h28, h29, h30, h31, h32, h33⟩ := hagree c
      unfold Cert.ReferenceIdeal.Hand.argsR Cert.KernelIdeal.Hand.argsK
      rw [h0, h1, h2, h3, h4, h5, h6, h7, h8, h9, h10, h11, h12, h13, h14, h15, h16, h17, h18, h19, h20, h21, h22, h23, h24, h25, h26, h27, h28, h29, h30, h31, h32, h33]
    exact ((Cert.ReferenceIdeal.Hand.result_eq m' c).trans (congrArg _ hargs)).trans (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
